-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S16384 : Shape := ⟨1, ![16384]⟩
abbrev S16384x20 : Shape := ⟨2, ![16384, 20]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16384 : S_.BroadcastsInDim S16384 (![] : Fin 0 → Fin S16384.rank)
  reducesTo_S16384_S_d0 : S16384.ReducesTo [0] S_
  bcast_S_S16384x20 : S_.BroadcastsInDim S16384x20 (![] : Fin 0 → Fin S16384x20.rank)
  reducesTo_S16384x20_S_d0_1 : S16384x20.ReducesTo [0, 1] S_

variable [Facts]

def fn_part1 {F : FTy → Type} [FloatOps F] (main_arg3 : IVec S16384 32) (main_arg4 : IVec S16384x20 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg3 main_v16
  let main_c_6 : IVec S_ 32 := constantI S_ 32 99999#32
  let main_v18 : IVec S16384 32 := broadcastInDim S16384 ![] bcast_S_S16384 main_c_6
  let main_v19 : IVec S16384 1 := cmpi .sle main_arg3 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  let main_c_8 : IVec S_ 32 := constantI S_ 32 0#32
  let main_v23 : IVec S16384x20 32 := broadcastInDim S16384x20 ![] bcast_S_S16384x20 main_c_8
  let main_v24 : IVec S16384x20 1 := cmpi .sge main_arg4 main_v23
  let main_c_9 : IVec S_ 32 := constantI S_ 32 99999#32
  let main_v25 : IVec S16384x20 32 := broadcastInDim S16384x20 ![] bcast_S_S16384x20 main_c_9
  let main_v26 : IVec S16384x20 1 := cmpi .sle main_arg4 main_v25
  let main_v27 : IVec S16384x20 1 := andi main_v24 main_v26
  let main_c_10 : IVec S_ 1 := constantI S_ 1 1#1
  let main_v28 : IVec S_ 1 := (fun x v => Host.reduce IntOp.andi x v reducesTo_S16384x20_S_d0_1 h_S_) main_v27 main_c_10
  let main_v29 : IVec S_ 1 := andi main_v22 main_v28
  main_v29

def fn {F : FTy → Type} [FloatOps F] (main_arg0 : FVec F S100000x128 .f32) (main_arg1 : FVec F S100000x128 .f32) (main_arg2 : IVec S16384 32) (main_arg3 : IVec S16384 32) (main_arg4 : IVec S16384x20 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 99999#32
  let main_v11 : IVec S16384 32 := broadcastInDim S16384 ![] bcast_S_S16384 main_c_3
  let main_v12 : IVec S16384 1 := cmpi .sle main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg3 main_arg4 main_v15 main_c_5
-- ==== Kernel.lean ====
abbrev S100000x128 : Shape := ⟨2, ![100000, 128]⟩
abbrev S16384 : Shape := ⟨1, ![16384]⟩
abbrev S16384x20 : Shape := ⟨2, ![16384, 20]⟩
abbrev S4x32x1x128 : Shape := ⟨4, ![4, 32, 1, 128]⟩
abbrev S20x16384 : Shape := ⟨2, ![20, 16384]⟩
abbrev S20x4x32x128 : Shape := ⟨4, ![20, 4, 32, 128]⟩
abbrev S4x32x20x128 : Shape := ⟨4, ![4, 32, 20, 128]⟩
abbrev S_ : Shape := ⟨0, ![]⟩
abbrev S4x32x2x128 : Shape := ⟨4, ![4, 32, 2, 128]⟩
abbrev S4x32x24x128 : Shape := ⟨4, ![4, 32, 24, 128]⟩
abbrev S4x768x128 : Shape := ⟨3, ![4, 768, 128]⟩
abbrev S1 : Shape := ⟨1, ![1]⟩
abbrev S20 : Shape := ⟨1, ![20]⟩
abbrev S21 : Shape := ⟨1, ![21]⟩
abbrev S21x21 : Shape := ⟨2, ![21, 21]⟩
abbrev S21x128x21 : Shape := ⟨3, ![21, 128, 21]⟩
abbrev S2688x21 : Shape := ⟨2, ![2688, 21]⟩
abbrev S1x21 : Shape := ⟨2, ![1, 21]⟩
abbrev S1x1 : Shape := ⟨2, ![1, 1]⟩
abbrev S1x768x128 : Shape := ⟨3, ![1, 768, 128]⟩
abbrev S768x128 : Shape := ⟨2, ![768, 128]⟩
abbrev S4096x128 : Shape := ⟨2, ![4096, 128]⟩
abbrev S81920x128 : Shape := ⟨2, ![81920, 128]⟩
abbrev S24x128 : Shape := ⟨2, ![24, 128]⟩
abbrev S128x128 : Shape := ⟨2, ![128, 128]⟩
abbrev S1x128 : Shape := ⟨2, ![1, 128]⟩
abbrev S128 : Shape := ⟨1, ![128]⟩
abbrev S20x4096x128 : Shape := ⟨3, ![20, 4096, 128]⟩
abbrev S1024x128 : Shape := ⟨2, ![1024, 128]⟩
abbrev S20x1024x128 : Shape := ⟨3, ![20, 1024, 128]⟩
abbrev S1x1024x128 : Shape := ⟨3, ![1, 1024, 128]⟩
abbrev S1024x2688 : Shape := ⟨2, ![1024, 2688]⟩
abbrev S1024x21 : Shape := ⟨2, ![1024, 21]⟩
abbrev S1x1024x21 : Shape := ⟨3, ![1, 1024, 21]⟩
abbrev S1x1x1 : Shape := ⟨3, ![1, 1, 1]⟩

abbrev nBuf : Table → Nat
  | .hbm => 71
  | .local .tc .vmem => 32
  | .local .scVector .vmem => 28
  | _ => 0

abbrev bufTy : (tb : Table) → Fin (nBuf tb) → BufTy
  | .hbm, ⟨0, _⟩ => ⟨S100000x128, .f32⟩
  | .hbm, ⟨1, _⟩ => ⟨S100000x128, .f32⟩
  | .hbm, ⟨2, _⟩ => ⟨S16384, .i32⟩
  | .hbm, ⟨3, _⟩ => ⟨S16384, .i32⟩
  | .hbm, ⟨4, _⟩ => ⟨S16384x20, .i32⟩
  | .hbm, ⟨5, _⟩ => ⟨S4x32x1x128, .i32⟩
  | .hbm, ⟨6, _⟩ => ⟨S4x32x1x128, .i32⟩
  | .hbm, ⟨7, _⟩ => ⟨S20x16384, .i32⟩
  | .hbm, ⟨8, _⟩ => ⟨S20x4x32x128, .i32⟩
  | .hbm, ⟨9, _⟩ => ⟨S4x32x20x128, .i32⟩
  | .hbm, ⟨10, _⟩ => ⟨S_, .i32⟩
  | .hbm, ⟨11, _⟩ => ⟨S4x32x2x128, .i32⟩
  | .hbm, ⟨12, _⟩ => ⟨S4x32x24x128, .i32⟩
  | .hbm, ⟨13, _⟩ => ⟨S4x768x128, .i32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S20, .f32⟩
  | .hbm, ⟨18, _⟩ => ⟨S20, .f32⟩
  | .hbm, ⟨19, _⟩ => ⟨S21, .f32⟩
  | .hbm, ⟨20, _⟩ => ⟨S21x21, .i32⟩
  | .hbm, ⟨21, _⟩ => ⟨S21x21, .i32⟩
  | .hbm, ⟨22, _⟩ => ⟨S_, .i32⟩
  | .hbm, ⟨23, _⟩ => ⟨S21x21, .i32⟩
  | .hbm, ⟨24, _⟩ => ⟨S21x21, .i32⟩
  | .hbm, ⟨25, _⟩ => ⟨S21x21, .i1⟩
  | .hbm, ⟨26, _⟩ => ⟨S21x21, .f32⟩
  | .hbm, ⟨27, _⟩ => ⟨S21x128x21, .f32⟩
  | .hbm, ⟨28, _⟩ => ⟨S2688x21, .f32⟩
  | .hbm, ⟨29, _⟩ => ⟨S1x21, .f32⟩
  | .hbm, ⟨30, _⟩ => ⟨S2688x21, .f32⟩
  | .hbm, ⟨31, _⟩ => ⟨S2688x21, .f32⟩
  | .hbm, ⟨32, _⟩ => ⟨S2688x21, .bf16⟩
  | .hbm, ⟨33, _⟩ => ⟨S_, .f32⟩
  | .hbm, ⟨34, _⟩ => ⟨S1x1, .f32⟩
  | .hbm, ⟨35, _⟩ => ⟨S1x768x128, .i32⟩
  | .hbm, ⟨36, _⟩ => ⟨S768x128, .i32⟩
  | .hbm, ⟨37, _⟩ => ⟨S4096x128, .f32⟩
  | .hbm, ⟨38, _⟩ => ⟨S4096x128, .f32⟩
  | .hbm, ⟨39, _⟩ => ⟨S81920x128, .f32⟩
  | .hbm, ⟨40, _⟩ => ⟨S20x4096x128, .f32⟩
  | .hbm, ⟨41, _⟩ => ⟨S1x1, .f32⟩
  | .hbm, ⟨42, _⟩ => ⟨S1x1, .f32⟩
  | .hbm, ⟨43, _⟩ => ⟨S1x768x128, .i32⟩
  | .hbm, ⟨44, _⟩ => ⟨S768x128, .i32⟩
  | .hbm, ⟨45, _⟩ => ⟨S4096x128, .f32⟩
  | .hbm, ⟨46, _⟩ => ⟨S4096x128, .f32⟩
  | .hbm, ⟨47, _⟩ => ⟨S81920x128, .f32⟩
  | .hbm, ⟨48, _⟩ => ⟨S20x4096x128, .f32⟩
  | .hbm, ⟨49, _⟩ => ⟨S1x1, .f32⟩
  | .hbm, ⟨50, _⟩ => ⟨S1x1, .f32⟩
  | .hbm, ⟨51, _⟩ => ⟨S1x768x128, .i32⟩
  | .hbm, ⟨52, _⟩ => ⟨S768x128, .i32⟩
  | .hbm, ⟨53, _⟩ => ⟨S4096x128, .f32⟩
  | .hbm, ⟨54, _⟩ => ⟨S4096x128, .f32⟩
  | .hbm, ⟨55, _⟩ => ⟨S81920x128, .f32⟩
  | .hbm, ⟨56, _⟩ => ⟨S20x4096x128, .f32⟩
  | .hbm, ⟨57, _⟩ => ⟨S1x1, .f32⟩
  | .hbm, ⟨58, _⟩ => ⟨S1x1, .f32⟩
  | .hbm, ⟨59, _⟩ => ⟨S1x768x128, .i32⟩
  | .hbm, ⟨60, _⟩ => ⟨S768x128, .i32⟩
  | .hbm, ⟨61, _⟩ => ⟨S4096x128, .f32⟩
  | .hbm, ⟨62, _⟩ => ⟨S4096x128, .f32⟩
  | .hbm, ⟨63, _⟩ => ⟨S81920x128, .f32⟩
  | .hbm, ⟨64, _⟩ => ⟨S20x4096x128, .f32⟩
  | .hbm, ⟨65, _⟩ => ⟨S1x1, .f32⟩
  | .hbm, ⟨66, _⟩ => ⟨S1x1, .f32⟩
  | .hbm, ⟨67, _⟩ => ⟨S_, .f32⟩
  | .hbm, ⟨68, _⟩ => ⟨S1x1, .f32⟩
  | .hbm, ⟨69, _⟩ => ⟨S1x1, .f32⟩
  | .hbm, ⟨70, _⟩ => ⟨S_, .f32⟩
  | .local .tc .vmem, ⟨0, _⟩ => ⟨S1024x128, .f32⟩
  | .local .tc .vmem, ⟨1, _⟩ => ⟨S1024x128, .f32⟩
  | .local .tc .vmem, ⟨2, _⟩ => ⟨S1024x128, .f32⟩
  | .local .tc .vmem, ⟨3, _⟩ => ⟨S1024x128, .f32⟩
  | .local .tc .vmem, ⟨4, _⟩ => ⟨S20x1024x128, .f32⟩
  | .local .tc .vmem, ⟨5, _⟩ => ⟨S20x1024x128, .f32⟩
  | .local .tc .vmem, ⟨6, _⟩ => ⟨S2688x21, .bf16⟩
  | .local .tc .vmem, ⟨7, _⟩ => ⟨S1x1, .f32⟩
  | .local .tc .vmem, ⟨8, _⟩ => ⟨S1024x128, .f32⟩
  | .local .tc .vmem, ⟨9, _⟩ => ⟨S1024x128, .f32⟩
  | .local .tc .vmem, ⟨10, _⟩ => ⟨S1024x128, .f32⟩
  | .local .tc .vmem, ⟨11, _⟩ => ⟨S1024x128, .f32⟩
  | .local .tc .vmem, ⟨12, _⟩ => ⟨S20x1024x128, .f32⟩
  | .local .tc .vmem, ⟨13, _⟩ => ⟨S20x1024x128, .f32⟩
  | .local .tc .vmem, ⟨14, _⟩ => ⟨S2688x21, .bf16⟩
  | .local .tc .vmem, ⟨15, _⟩ => ⟨S1x1, .f32⟩
  | .local .tc .vmem, ⟨16, _⟩ => ⟨S1024x128, .f32⟩
  | .local .tc .vmem, ⟨17, _⟩ => ⟨S1024x128, .f32⟩
  | .local .tc .vmem, ⟨18, _⟩ => ⟨S1024x128, .f32⟩
  | .local .tc .vmem, ⟨19, _⟩ => ⟨S1024x128, .f32⟩
  | .local .tc .vmem, ⟨20, _⟩ => ⟨S20x1024x128, .f32⟩
  | .local .tc .vmem, ⟨21, _⟩ => ⟨S20x1024x128, .f32⟩
  | .local .tc .vmem, ⟨22, _⟩ => ⟨S2688x21, .bf16⟩
  | .local .tc .vmem, ⟨23, _⟩ => ⟨S1x1, .f32⟩
  | .local .tc .vmem, ⟨24, _⟩ => ⟨S1024x128, .f32⟩
  | .local .tc .vmem, ⟨25, _⟩ => ⟨S1024x128, .f32⟩
  | .local .tc .vmem, ⟨26, _⟩ => ⟨S1024x128, .f32⟩
  | .local .tc .vmem, ⟨27, _⟩ => ⟨S1024x128, .f32⟩
  | .local .tc .vmem, ⟨28, _⟩ => ⟨S20x1024x128, .f32⟩
  | .local .tc .vmem, ⟨29, _⟩ => ⟨S20x1024x128, .f32⟩
  | .local .tc .vmem, ⟨30, _⟩ => ⟨S2688x21, .bf16⟩
  | .local .tc .vmem, ⟨31, _⟩ => ⟨S1x1, .f32⟩
  | .local .scVector .vmem, ⟨0, _⟩ => ⟨S24x128, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | .local .scVector .vmem, ⟨6, _⟩ => ⟨S128x128, .f32⟩
  | .local .scVector .vmem, ⟨7, _⟩ => ⟨S24x128, .i32⟩
  | .local .scVector .vmem, ⟨8, _⟩ => ⟨S128x128, .f32⟩
  | .local .scVector .vmem, ⟨9, _⟩ => ⟨S128x128, .f32⟩
  | .local .scVector .vmem, ⟨10, _⟩ => ⟨S128x128, .f32⟩
  | .local .scVector .vmem, ⟨11, _⟩ => ⟨S128x128, .f32⟩
  | .local .scVector .vmem, ⟨12, _⟩ => ⟨S128x128, .f32⟩
  | .local .scVector .vmem, ⟨13, _⟩ => ⟨S128x128, .f32⟩
  | .local .scVector .vmem, ⟨14, _⟩ => ⟨S24x128, .i32⟩
  | .local .scVector .vmem, ⟨15, _⟩ => ⟨S128x128, .f32⟩
  | .local .scVector .vmem, ⟨16, _⟩ => ⟨S128x128, .f32⟩
  | .local .scVector .vmem, ⟨17, _⟩ => ⟨S128x128, .f32⟩
  | .local .scVector .vmem, ⟨18, _⟩ => ⟨S128x128, .f32⟩
  | .local .scVector .vmem, ⟨19, _⟩ => ⟨S128x128, .f32⟩
  | .local .scVector .vmem, ⟨20, _⟩ => ⟨S128x128, .f32⟩
  | .local .scVector .vmem, ⟨21, _⟩ => ⟨S24x128, .i32⟩
  | .local .scVector .vmem, ⟨22, _⟩ => ⟨S128x128, .f32⟩
  | .local .scVector .vmem, ⟨23, _⟩ => ⟨S128x128, .f32⟩
  | .local .scVector .vmem, ⟨24, _⟩ => ⟨S128x128, .f32⟩
  | .local .scVector .vmem, ⟨25, _⟩ => ⟨S128x128, .f32⟩
  | .local .scVector .vmem, ⟨26, _⟩ => ⟨S128x128, .f32⟩
  | .local .scVector .vmem, ⟨27, _⟩ => ⟨S128x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 84 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => false
  | ⟨64, _⟩ => false
  | ⟨65, _⟩ => false
  | ⟨66, _⟩ => false
  | ⟨67, _⟩ => false
  | ⟨68, _⟩ => false
  | ⟨69, _⟩ => false
  | ⟨70, _⟩ => false
  | ⟨71, _⟩ => false
  | ⟨72, _⟩ => false
  | ⟨73, _⟩ => false
  | ⟨74, _⟩ => false
  | ⟨75, _⟩ => false
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTables nBuf rfl bufTy 4 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev main_v27_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33_0 : Ref sig .tc := ⟨.hbm, 45, rfl⟩
abbrev main_v33_1 : Ref sig .tc := ⟨.hbm, 46, rfl⟩
abbrev main_v33_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39_0 : Ref sig .tc := ⟨.hbm, 53, rfl⟩
abbrev main_v39_1 : Ref sig .tc := ⟨.hbm, 54, rfl⟩
abbrev main_v39_2 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45_0 : Ref sig .tc := ⟨.hbm, 61, rfl⟩
abbrev main_v45_1 : Ref sig .tc := ⟨.hbm, 62, rfl⟩
abbrev main_v45_2 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_3 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_arg0_scv : Ref sig .scVector := ⟨.hbm, 0, rfl⟩
abbrev main_arg1_scv : Ref sig .scVector := ⟨.hbm, 1, rfl⟩
abbrev main_v26_scv : Ref sig .scVector := ⟨.hbm, 36, rfl⟩
abbrev main_v27_0_scv : Ref sig .scVector := ⟨.hbm, 37, rfl⟩
abbrev main_v27_1_scv : Ref sig .scVector := ⟨.hbm, 38, rfl⟩
abbrev main_v27_2_scv : Ref sig .scVector := ⟨.hbm, 39, rfl⟩
abbrev main_v32_scv : Ref sig .scVector := ⟨.hbm, 44, rfl⟩
abbrev main_v33_0_scv : Ref sig .scVector := ⟨.hbm, 45, rfl⟩
abbrev main_v33_1_scv : Ref sig .scVector := ⟨.hbm, 46, rfl⟩
abbrev main_v33_2_scv : Ref sig .scVector := ⟨.hbm, 47, rfl⟩
abbrev main_v38_scv : Ref sig .scVector := ⟨.hbm, 52, rfl⟩
abbrev main_v39_0_scv : Ref sig .scVector := ⟨.hbm, 53, rfl⟩
abbrev main_v39_1_scv : Ref sig .scVector := ⟨.hbm, 54, rfl⟩
abbrev main_v39_2_scv : Ref sig .scVector := ⟨.hbm, 55, rfl⟩
abbrev main_v44_scv : Ref sig .scVector := ⟨.hbm, 60, rfl⟩
abbrev main_v45_0_scv : Ref sig .scVector := ⟨.hbm, 61, rfl⟩
abbrev main_v45_1_scv : Ref sig .scVector := ⟨.hbm, 62, rfl⟩
abbrev main_v45_2_scv : Ref sig .scVector := ⟨.hbm, 63, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc3_stg0_0 : Ref sig .tc := ⟨.vmem, 8, rfl⟩
abbrev cc3_stg0_1 : Ref sig .tc := ⟨.vmem, 9, rfl⟩
abbrev cc3_stg1_0 : Ref sig .tc := ⟨.vmem, 10, rfl⟩
abbrev cc3_stg1_1 : Ref sig .tc := ⟨.vmem, 11, rfl⟩
abbrev cc3_stg2_0 : Ref sig .tc := ⟨.vmem, 12, rfl⟩
abbrev cc3_stg2_1 : Ref sig .tc := ⟨.vmem, 13, rfl⟩
abbrev cc3_stg3_0 : Ref sig .tc := ⟨.vmem, 14, rfl⟩
abbrev cc3_stg4_0 : Ref sig .tc := ⟨.vmem, 15, rfl⟩
abbrev cc5_stg0_0 : Ref sig .tc := ⟨.vmem, 16, rfl⟩
abbrev cc5_stg0_1 : Ref sig .tc := ⟨.vmem, 17, rfl⟩
abbrev cc5_stg1_0 : Ref sig .tc := ⟨.vmem, 18, rfl⟩
abbrev cc5_stg1_1 : Ref sig .tc := ⟨.vmem, 19, rfl⟩
abbrev cc5_stg2_0 : Ref sig .tc := ⟨.vmem, 20, rfl⟩
abbrev cc5_stg2_1 : Ref sig .tc := ⟨.vmem, 21, rfl⟩
abbrev cc5_stg3_0 : Ref sig .tc := ⟨.vmem, 22, rfl⟩
abbrev cc5_stg4_0 : Ref sig .tc := ⟨.vmem, 23, rfl⟩
abbrev cc7_stg0_0 : Ref sig .tc := ⟨.vmem, 24, rfl⟩
abbrev cc7_stg0_1 : Ref sig .tc := ⟨.vmem, 25, rfl⟩
abbrev cc7_stg1_0 : Ref sig .tc := ⟨.vmem, 26, rfl⟩
abbrev cc7_stg1_1 : Ref sig .tc := ⟨.vmem, 27, rfl⟩
abbrev cc7_stg2_0 : Ref sig .tc := ⟨.vmem, 28, rfl⟩
abbrev cc7_stg2_1 : Ref sig .tc := ⟨.vmem, 29, rfl⟩
abbrev cc7_stg3_0 : Ref sig .tc := ⟨.vmem, 30, rfl⟩
abbrev cc7_stg4_0 : Ref sig .tc := ⟨.vmem, 31, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc2_scratch0 : Ref sig .scVector := ⟨.vmem, 7, rfl⟩
abbrev cc2_scratch1 : Ref sig .scVector := ⟨.vmem, 8, rfl⟩
abbrev cc2_scratch2 : Ref sig .scVector := ⟨.vmem, 9, rfl⟩
abbrev cc2_scratch3 : Ref sig .scVector := ⟨.vmem, 10, rfl⟩
abbrev cc2_scratch4 : Ref sig .scVector := ⟨.vmem, 11, rfl⟩
abbrev cc2_scratch5 : Ref sig .scVector := ⟨.vmem, 12, rfl⟩
abbrev cc2_scratch6 : Ref sig .scVector := ⟨.vmem, 13, rfl⟩
abbrev cc4_scratch0 : Ref sig .scVector := ⟨.vmem, 14, rfl⟩
abbrev cc4_scratch1 : Ref sig .scVector := ⟨.vmem, 15, rfl⟩
abbrev cc4_scratch2 : Ref sig .scVector := ⟨.vmem, 16, rfl⟩
abbrev cc4_scratch3 : Ref sig .scVector := ⟨.vmem, 17, rfl⟩
abbrev cc4_scratch4 : Ref sig .scVector := ⟨.vmem, 18, rfl⟩
abbrev cc4_scratch5 : Ref sig .scVector := ⟨.vmem, 19, rfl⟩
abbrev cc4_scratch6 : Ref sig .scVector := ⟨.vmem, 20, rfl⟩
abbrev cc6_scratch0 : Ref sig .scVector := ⟨.vmem, 21, rfl⟩
abbrev cc6_scratch1 : Ref sig .scVector := ⟨.vmem, 22, rfl⟩
abbrev cc6_scratch2 : Ref sig .scVector := ⟨.vmem, 23, rfl⟩
abbrev cc6_scratch3 : Ref sig .scVector := ⟨.vmem, 24, rfl⟩
abbrev cc6_scratch4 : Ref sig .scVector := ⟨.vmem, 25, rfl⟩
abbrev cc6_scratch5 : Ref sig .scVector := ⟨.vmem, 26, rfl⟩
abbrev cc6_scratch6 : Ref sig .scVector := ⟨.vmem, 27, rfl⟩
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem4_0 : DmaSem sig := 41
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem2_1 : DmaSem sig := 60
abbrev cc5_sem3_0 : DmaSem sig := 61
abbrev cc5_sem4_0 : DmaSem sig := 62
abbrev cc7_sem0_0 : DmaSem sig := 76
abbrev cc7_sem0_1 : DmaSem sig := 77
abbrev cc7_sem1_0 : DmaSem sig := 78
abbrev cc7_sem1_1 : DmaSem sig := 79
abbrev cc7_sem2_0 : DmaSem sig := 80
abbrev cc7_sem2_1 : DmaSem sig := 81
abbrev cc7_sem3_0 : DmaSem sig := 82
abbrev cc7_sem4_0 : DmaSem sig := 83
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_76_r0 : BitVec 32 := 0#32
  ![v2.toNat, 0]
def k0_off2 (i : grid0.Coords) (c0_i32_23 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v9 : BitVec 32 := Scalar.muli v1 c128_i32
  let v25 : BitVec 32 := Scalar.addi v9 c0_i32_23
  let c0_i32_24 : BitVec 32 := 0#32
  ![v25.toNat, 0]
def k0_off2_at (r : Fin 5) : BitVec 32 :=
  if r.val < 2 then
    if r.val < 1 then
      0#32
    else
      65536#32
  else
    if r.val < 3 then
      69632#32
    else
      if r.val < 4 then
        73728#32
      else
        77824#32
@[reducible] def k0_t1_loop : Scf.Loop 32 :=
  let c0_i32_26 : BitVec 32 := 0#32
  let c4_i32_27 : BitVec 32 := 4#32
  let v28 : BitVec 32 := Scalar.addi c0_i32_26 c4_i32_27
  let c1_i32_28 : BitVec 32 := 1#32
  ⟨c0_i32_26, v28, c1_i32_28⟩
def k0_off3 (k0_t1 : Fin k0_t1_loop.trips) (c1_i32_79 : BitVec 32) : Fin 2 → Nat :=
  let c2_i32_80 : BitVec 32 := 2#32
  let c4_i32_78 : BitVec 32 := 4#32
  let c0_i32_77 : BitVec 32 := 0#32
  let c0_i32_26 : BitVec 32 := 0#32
  let c1_i32_28 : BitVec 32 := 1#32
  let arg27 : BitVec 32 := Scf.iv c0_i32_26 c1_i32_28 k0_t1
  let c1_i32_76 : BitVec 32 := 1#32
  let v77 : BitVec 32 := Scalar.muli arg27 c1_i32_76
  let v78 : BitVec 32 := Scalar.addi c0_i32_77 v77
  let v79 : BitVec 32 := Scalar.muli c4_i32_78 v78
  let v80 : BitVec 32 := Scalar.addi c1_i32_79 v79
  let v81 : BitVec 32 := Scalar.addi c2_i32_80 v80
  let c0_i32_81 : BitVec 32 := 0#32
  ![v81.toNat, 0]
def k0_off4 (i : grid0.Coords) (k0_t1 : Fin k0_t1_loop.trips) (c1_i32_79 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v9 : BitVec 32 := Scalar.muli v1 c128_i32
  let c4_i32_78 : BitVec 32 := 4#32
  let c0_i32_77 : BitVec 32 := 0#32
  let c0_i32_26 : BitVec 32 := 0#32
  let c1_i32_28 : BitVec 32 := 1#32
  let arg27 : BitVec 32 := Scf.iv c0_i32_26 c1_i32_28 k0_t1
  let c1_i32_76 : BitVec 32 := 1#32
  let v77 : BitVec 32 := Scalar.muli arg27 c1_i32_76
  let v78 : BitVec 32 := Scalar.addi c0_i32_77 v77
  let v79 : BitVec 32 := Scalar.muli c4_i32_78 v78
  let v80 : BitVec 32 := Scalar.addi c1_i32_79 v79
  let c1_i32_84 : BitVec 32 := 1#32
  let v85 : BitVec 32 := Scalar.subi v80 c1_i32_84
  let c4096_i32 : BitVec 32 := 4096#32
  let v86 : BitVec 32 := Scalar.muli v85 c4096_i32
  let v87 : BitVec 32 := Scalar.addi v9 v86
  let c0_i32_85 : BitVec 32 := 0#32
  ![v87.toNat, 0]
def k0_off5 (k0_t1 : Fin k0_t1_loop.trips) (c1_i32_79 : BitVec 32) : Fin 2 → Nat :=
  let c2_i32_88 : BitVec 32 := 2#32
  let c4_i32_78 : BitVec 32 := 4#32
  let c0_i32_77 : BitVec 32 := 0#32
  let c0_i32_26 : BitVec 32 := 0#32
  let c1_i32_28 : BitVec 32 := 1#32
  let arg27 : BitVec 32 := Scf.iv c0_i32_26 c1_i32_28 k0_t1
  let c1_i32_76 : BitVec 32 := 1#32
  let v77 : BitVec 32 := Scalar.muli arg27 c1_i32_76
  let v78 : BitVec 32 := Scalar.addi c0_i32_77 v77
  let v79 : BitVec 32 := Scalar.muli c4_i32_78 v78
  let v80 : BitVec 32 := Scalar.addi c1_i32_79 v79
  let c3_i32_87 : BitVec 32 := 3#32
  let v90 : BitVec 32 := Scalar.addi v80 c3_i32_87
  let v91 : BitVec 32 := Scalar.addi c2_i32_88 v90
  let c0_i32_89 : BitVec 32 := 0#32
  ![v91.toNat, 0]
def k0_off6 (i : grid0.Coords) (k0_t1 : Fin k0_t1_loop.trips) (c1_i32_79 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v9 : BitVec 32 := Scalar.muli v1 c128_i32
  let c4_i32_78 : BitVec 32 := 4#32
  let c0_i32_77 : BitVec 32 := 0#32
  let c0_i32_26 : BitVec 32 := 0#32
  let c1_i32_28 : BitVec 32 := 1#32
  let arg27 : BitVec 32 := Scf.iv c0_i32_26 c1_i32_28 k0_t1
  let c1_i32_76 : BitVec 32 := 1#32
  let v77 : BitVec 32 := Scalar.muli arg27 c1_i32_76
  let v78 : BitVec 32 := Scalar.addi c0_i32_77 v77
  let v79 : BitVec 32 := Scalar.muli c4_i32_78 v78
  let v80 : BitVec 32 := Scalar.addi c1_i32_79 v79
  let c4096_i32_92 : BitVec 32 := 4096#32
  let v95 : BitVec 32 := Scalar.muli v80 c4096_i32_92
  let v96 : BitVec 32 := Scalar.addi v9 v95
  let c0_i32_93 : BitVec 32 := 0#32
  ![v96.toNat, 0]
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_57 : BitVec 32 := 128#32
  let v59 : BitVec 32 := Scalar.muli v1 c128_i32_57
  let c0_i32_58 : BitVec 32 := 0#32
  ![v59.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20x1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2688x21 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_76_r0 : BitVec 32 := 0#32
  ![v2.toNat, 0]
def k2_off2 (i : grid2.Coords) (c0_i32_23 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v9 : BitVec 32 := Scalar.muli v1 c128_i32
  let v25 : BitVec 32 := Scalar.addi v9 c0_i32_23
  let c0_i32_24 : BitVec 32 := 0#32
  ![v25.toNat, 0]
def k2_off2_at (r : Fin 5) : BitVec 32 :=
  if r.val < 2 then
    if r.val < 1 then
      0#32
    else
      65536#32
  else
    if r.val < 3 then
      69632#32
    else
      if r.val < 4 then
        73728#32
      else
        77824#32
@[reducible] def k2_t1_loop : Scf.Loop 32 :=
  let c0_i32_26 : BitVec 32 := 0#32
  let c4_i32_27 : BitVec 32 := 4#32
  let v28 : BitVec 32 := Scalar.addi c0_i32_26 c4_i32_27
  let c1_i32_28 : BitVec 32 := 1#32
  ⟨c0_i32_26, v28, c1_i32_28⟩
def k2_off3 (k2_t1 : Fin k2_t1_loop.trips) (c1_i32_79 : BitVec 32) : Fin 2 → Nat :=
  let c2_i32_80 : BitVec 32 := 2#32
  let c4_i32_78 : BitVec 32 := 4#32
  let c0_i32_77 : BitVec 32 := 0#32
  let c0_i32_26 : BitVec 32 := 0#32
  let c1_i32_28 : BitVec 32 := 1#32
  let arg27 : BitVec 32 := Scf.iv c0_i32_26 c1_i32_28 k2_t1
  let c1_i32_76 : BitVec 32 := 1#32
  let v77 : BitVec 32 := Scalar.muli arg27 c1_i32_76
  let v78 : BitVec 32 := Scalar.addi c0_i32_77 v77
  let v79 : BitVec 32 := Scalar.muli c4_i32_78 v78
  let v80 : BitVec 32 := Scalar.addi c1_i32_79 v79
  let v81 : BitVec 32 := Scalar.addi c2_i32_80 v80
  let c0_i32_81 : BitVec 32 := 0#32
  ![v81.toNat, 0]
def k2_off4 (i : grid2.Coords) (k2_t1 : Fin k2_t1_loop.trips) (c1_i32_79 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v9 : BitVec 32 := Scalar.muli v1 c128_i32
  let c4_i32_78 : BitVec 32 := 4#32
  let c0_i32_77 : BitVec 32 := 0#32
  let c0_i32_26 : BitVec 32 := 0#32
  let c1_i32_28 : BitVec 32 := 1#32
  let arg27 : BitVec 32 := Scf.iv c0_i32_26 c1_i32_28 k2_t1
  let c1_i32_76 : BitVec 32 := 1#32
  let v77 : BitVec 32 := Scalar.muli arg27 c1_i32_76
  let v78 : BitVec 32 := Scalar.addi c0_i32_77 v77
  let v79 : BitVec 32 := Scalar.muli c4_i32_78 v78
  let v80 : BitVec 32 := Scalar.addi c1_i32_79 v79
  let c1_i32_84 : BitVec 32 := 1#32
  let v85 : BitVec 32 := Scalar.subi v80 c1_i32_84
  let c4096_i32 : BitVec 32 := 4096#32
  let v86 : BitVec 32 := Scalar.muli v85 c4096_i32
  let v87 : BitVec 32 := Scalar.addi v9 v86
  let c0_i32_85 : BitVec 32 := 0#32
  ![v87.toNat, 0]
def k2_off5 (k2_t1 : Fin k2_t1_loop.trips) (c1_i32_79 : BitVec 32) : Fin 2 → Nat :=
  let c2_i32_88 : BitVec 32 := 2#32
  let c4_i32_78 : BitVec 32 := 4#32
  let c0_i32_77 : BitVec 32 := 0#32
  let c0_i32_26 : BitVec 32 := 0#32
  let c1_i32_28 : BitVec 32 := 1#32
  let arg27 : BitVec 32 := Scf.iv c0_i32_26 c1_i32_28 k2_t1
  let c1_i32_76 : BitVec 32 := 1#32
  let v77 : BitVec 32 := Scalar.muli arg27 c1_i32_76
  let v78 : BitVec 32 := Scalar.addi c0_i32_77 v77
  let v79 : BitVec 32 := Scalar.muli c4_i32_78 v78
  let v80 : BitVec 32 := Scalar.addi c1_i32_79 v79
  let c3_i32_87 : BitVec 32 := 3#32
  let v90 : BitVec 32 := Scalar.addi v80 c3_i32_87
  let v91 : BitVec 32 := Scalar.addi c2_i32_88 v90
  let c0_i32_89 : BitVec 32 := 0#32
  ![v91.toNat, 0]
def k2_off6 (i : grid2.Coords) (k2_t1 : Fin k2_t1_loop.trips) (c1_i32_79 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v9 : BitVec 32 := Scalar.muli v1 c128_i32
  let c4_i32_78 : BitVec 32 := 4#32
  let c0_i32_77 : BitVec 32 := 0#32
  let c0_i32_26 : BitVec 32 := 0#32
  let c1_i32_28 : BitVec 32 := 1#32
  let arg27 : BitVec 32 := Scf.iv c0_i32_26 c1_i32_28 k2_t1
  let c1_i32_76 : BitVec 32 := 1#32
  let v77 : BitVec 32 := Scalar.muli arg27 c1_i32_76
  let v78 : BitVec 32 := Scalar.addi c0_i32_77 v77
  let v79 : BitVec 32 := Scalar.muli c4_i32_78 v78
  let v80 : BitVec 32 := Scalar.addi c1_i32_79 v79
  let c4096_i32_92 : BitVec 32 := 4096#32
  let v95 : BitVec 32 := Scalar.muli v80 c4096_i32_92
  let v96 : BitVec 32 := Scalar.addi v9 v95
  let c0_i32_93 : BitVec 32 := 0#32
  ![v96.toNat, 0]
def k2_off7 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_57 : BitVec 32 := 128#32
  let v59 : BitVec 32 := Scalar.muli v1 c128_i32_57
  let c0_i32_58 : BitVec 32 := 0#32
  ![v59.toNat, 0]
abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S20x1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S2688x21 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨2, ![2, 16], ![false, false]⟩

def k4_off1 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_76_r0 : BitVec 32 := 0#32
  ![v2.toNat, 0]
def k4_off2 (i : grid4.Coords) (c0_i32_23 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v9 : BitVec 32 := Scalar.muli v1 c128_i32
  let v25 : BitVec 32 := Scalar.addi v9 c0_i32_23
  let c0_i32_24 : BitVec 32 := 0#32
  ![v25.toNat, 0]
def k4_off2_at (r : Fin 5) : BitVec 32 :=
  if r.val < 2 then
    if r.val < 1 then
      0#32
    else
      65536#32
  else
    if r.val < 3 then
      69632#32
    else
      if r.val < 4 then
        73728#32
      else
        77824#32
@[reducible] def k4_t1_loop : Scf.Loop 32 :=
  let c0_i32_26 : BitVec 32 := 0#32
  let c4_i32_27 : BitVec 32 := 4#32
  let v28 : BitVec 32 := Scalar.addi c0_i32_26 c4_i32_27
  let c1_i32_28 : BitVec 32 := 1#32
  ⟨c0_i32_26, v28, c1_i32_28⟩
def k4_off3 (k4_t1 : Fin k4_t1_loop.trips) (c1_i32_79 : BitVec 32) : Fin 2 → Nat :=
  let c2_i32_80 : BitVec 32 := 2#32
  let c4_i32_78 : BitVec 32 := 4#32
  let c0_i32_77 : BitVec 32 := 0#32
  let c0_i32_26 : BitVec 32 := 0#32
  let c1_i32_28 : BitVec 32 := 1#32
  let arg27 : BitVec 32 := Scf.iv c0_i32_26 c1_i32_28 k4_t1
  let c1_i32_76 : BitVec 32 := 1#32
  let v77 : BitVec 32 := Scalar.muli arg27 c1_i32_76
  let v78 : BitVec 32 := Scalar.addi c0_i32_77 v77
  let v79 : BitVec 32 := Scalar.muli c4_i32_78 v78
  let v80 : BitVec 32 := Scalar.addi c1_i32_79 v79
  let v81 : BitVec 32 := Scalar.addi c2_i32_80 v80
  let c0_i32_81 : BitVec 32 := 0#32
  ![v81.toNat, 0]
def k4_off4 (i : grid4.Coords) (k4_t1 : Fin k4_t1_loop.trips) (c1_i32_79 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v9 : BitVec 32 := Scalar.muli v1 c128_i32
  let c4_i32_78 : BitVec 32 := 4#32
  let c0_i32_77 : BitVec 32 := 0#32
  let c0_i32_26 : BitVec 32 := 0#32
  let c1_i32_28 : BitVec 32 := 1#32
  let arg27 : BitVec 32 := Scf.iv c0_i32_26 c1_i32_28 k4_t1
  let c1_i32_76 : BitVec 32 := 1#32
  let v77 : BitVec 32 := Scalar.muli arg27 c1_i32_76
  let v78 : BitVec 32 := Scalar.addi c0_i32_77 v77
  let v79 : BitVec 32 := Scalar.muli c4_i32_78 v78
  let v80 : BitVec 32 := Scalar.addi c1_i32_79 v79
  let c1_i32_84 : BitVec 32 := 1#32
  let v85 : BitVec 32 := Scalar.subi v80 c1_i32_84
  let c4096_i32 : BitVec 32 := 4096#32
  let v86 : BitVec 32 := Scalar.muli v85 c4096_i32
  let v87 : BitVec 32 := Scalar.addi v9 v86
  let c0_i32_85 : BitVec 32 := 0#32
  ![v87.toNat, 0]
def k4_off5 (k4_t1 : Fin k4_t1_loop.trips) (c1_i32_79 : BitVec 32) : Fin 2 → Nat :=
  let c2_i32_88 : BitVec 32 := 2#32
  let c4_i32_78 : BitVec 32 := 4#32
  let c0_i32_77 : BitVec 32 := 0#32
  let c0_i32_26 : BitVec 32 := 0#32
  let c1_i32_28 : BitVec 32 := 1#32
  let arg27 : BitVec 32 := Scf.iv c0_i32_26 c1_i32_28 k4_t1
  let c1_i32_76 : BitVec 32 := 1#32
  let v77 : BitVec 32 := Scalar.muli arg27 c1_i32_76
  let v78 : BitVec 32 := Scalar.addi c0_i32_77 v77
  let v79 : BitVec 32 := Scalar.muli c4_i32_78 v78
  let v80 : BitVec 32 := Scalar.addi c1_i32_79 v79
  let c3_i32_87 : BitVec 32 := 3#32
  let v90 : BitVec 32 := Scalar.addi v80 c3_i32_87
  let v91 : BitVec 32 := Scalar.addi c2_i32_88 v90
  let c0_i32_89 : BitVec 32 := 0#32
  ![v91.toNat, 0]
def k4_off6 (i : grid4.Coords) (k4_t1 : Fin k4_t1_loop.trips) (c1_i32_79 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v9 : BitVec 32 := Scalar.muli v1 c128_i32
  let c4_i32_78 : BitVec 32 := 4#32
  let c0_i32_77 : BitVec 32 := 0#32
  let c0_i32_26 : BitVec 32 := 0#32
  let c1_i32_28 : BitVec 32 := 1#32
  let arg27 : BitVec 32 := Scf.iv c0_i32_26 c1_i32_28 k4_t1
  let c1_i32_76 : BitVec 32 := 1#32
  let v77 : BitVec 32 := Scalar.muli arg27 c1_i32_76
  let v78 : BitVec 32 := Scalar.addi c0_i32_77 v77
  let v79 : BitVec 32 := Scalar.muli c4_i32_78 v78
  let v80 : BitVec 32 := Scalar.addi c1_i32_79 v79
  let c4096_i32_92 : BitVec 32 := 4096#32
  let v95 : BitVec 32 := Scalar.muli v80 c4096_i32_92
  let v96 : BitVec 32 := Scalar.addi v9 v95
  let c0_i32_93 : BitVec 32 := 0#32
  ![v96.toNat, 0]
def k4_off7 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_57 : BitVec 32 := 128#32
  let v59 : BitVec 32 := Scalar.muli v1 c128_i32_57
  let c0_i32_58 : BitVec 32 := 0#32
  ![v59.toNat, 0]
abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1024x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S20x1024x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S2688x21 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨2, ![2, 16], ![false, false]⟩

def k6_off1 (i : grid6.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_76_r0 : BitVec 32 := 0#32
  ![v2.toNat, 0]
def k6_off2 (i : grid6.Coords) (c0_i32_23 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v9 : BitVec 32 := Scalar.muli v1 c128_i32
  let v25 : BitVec 32 := Scalar.addi v9 c0_i32_23
  let c0_i32_24 : BitVec 32 := 0#32
  ![v25.toNat, 0]
def k6_off2_at (r : Fin 5) : BitVec 32 :=
  if r.val < 2 then
    if r.val < 1 then
      0#32
    else
      65536#32
  else
    if r.val < 3 then
      69632#32
    else
      if r.val < 4 then
        73728#32
      else
        77824#32
@[reducible] def k6_t1_loop : Scf.Loop 32 :=
  let c0_i32_26 : BitVec 32 := 0#32
  let c4_i32_27 : BitVec 32 := 4#32
  let v28 : BitVec 32 := Scalar.addi c0_i32_26 c4_i32_27
  let c1_i32_28 : BitVec 32 := 1#32
  ⟨c0_i32_26, v28, c1_i32_28⟩
def k6_off3 (k6_t1 : Fin k6_t1_loop.trips) (c1_i32_79 : BitVec 32) : Fin 2 → Nat :=
  let c2_i32_80 : BitVec 32 := 2#32
  let c4_i32_78 : BitVec 32 := 4#32
  let c0_i32_77 : BitVec 32 := 0#32
  let c0_i32_26 : BitVec 32 := 0#32
  let c1_i32_28 : BitVec 32 := 1#32
  let arg27 : BitVec 32 := Scf.iv c0_i32_26 c1_i32_28 k6_t1
  let c1_i32_76 : BitVec 32 := 1#32
  let v77 : BitVec 32 := Scalar.muli arg27 c1_i32_76
  let v78 : BitVec 32 := Scalar.addi c0_i32_77 v77
  let v79 : BitVec 32 := Scalar.muli c4_i32_78 v78
  let v80 : BitVec 32 := Scalar.addi c1_i32_79 v79
  let v81 : BitVec 32 := Scalar.addi c2_i32_80 v80
  let c0_i32_81 : BitVec 32 := 0#32
  ![v81.toNat, 0]
def k6_off4 (i : grid6.Coords) (k6_t1 : Fin k6_t1_loop.trips) (c1_i32_79 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v9 : BitVec 32 := Scalar.muli v1 c128_i32
  let c4_i32_78 : BitVec 32 := 4#32
  let c0_i32_77 : BitVec 32 := 0#32
  let c0_i32_26 : BitVec 32 := 0#32
  let c1_i32_28 : BitVec 32 := 1#32
  let arg27 : BitVec 32 := Scf.iv c0_i32_26 c1_i32_28 k6_t1
  let c1_i32_76 : BitVec 32 := 1#32
  let v77 : BitVec 32 := Scalar.muli arg27 c1_i32_76
  let v78 : BitVec 32 := Scalar.addi c0_i32_77 v77
  let v79 : BitVec 32 := Scalar.muli c4_i32_78 v78
  let v80 : BitVec 32 := Scalar.addi c1_i32_79 v79
  let c1_i32_84 : BitVec 32 := 1#32
  let v85 : BitVec 32 := Scalar.subi v80 c1_i32_84
  let c4096_i32 : BitVec 32 := 4096#32
  let v86 : BitVec 32 := Scalar.muli v85 c4096_i32
  let v87 : BitVec 32 := Scalar.addi v9 v86
  let c0_i32_85 : BitVec 32 := 0#32
  ![v87.toNat, 0]
def k6_off5 (k6_t1 : Fin k6_t1_loop.trips) (c1_i32_79 : BitVec 32) : Fin 2 → Nat :=
  let c2_i32_88 : BitVec 32 := 2#32
  let c4_i32_78 : BitVec 32 := 4#32
  let c0_i32_77 : BitVec 32 := 0#32
  let c0_i32_26 : BitVec 32 := 0#32
  let c1_i32_28 : BitVec 32 := 1#32
  let arg27 : BitVec 32 := Scf.iv c0_i32_26 c1_i32_28 k6_t1
  let c1_i32_76 : BitVec 32 := 1#32
  let v77 : BitVec 32 := Scalar.muli arg27 c1_i32_76
  let v78 : BitVec 32 := Scalar.addi c0_i32_77 v77
  let v79 : BitVec 32 := Scalar.muli c4_i32_78 v78
  let v80 : BitVec 32 := Scalar.addi c1_i32_79 v79
  let c3_i32_87 : BitVec 32 := 3#32
  let v90 : BitVec 32 := Scalar.addi v80 c3_i32_87
  let v91 : BitVec 32 := Scalar.addi c2_i32_88 v90
  let c0_i32_89 : BitVec 32 := 0#32
  ![v91.toNat, 0]
def k6_off6 (i : grid6.Coords) (k6_t1 : Fin k6_t1_loop.trips) (c1_i32_79 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v9 : BitVec 32 := Scalar.muli v1 c128_i32
  let c4_i32_78 : BitVec 32 := 4#32
  let c0_i32_77 : BitVec 32 := 0#32
  let c0_i32_26 : BitVec 32 := 0#32
  let c1_i32_28 : BitVec 32 := 1#32
  let arg27 : BitVec 32 := Scf.iv c0_i32_26 c1_i32_28 k6_t1
  let c1_i32_76 : BitVec 32 := 1#32
  let v77 : BitVec 32 := Scalar.muli arg27 c1_i32_76
  let v78 : BitVec 32 := Scalar.addi c0_i32_77 v77
  let v79 : BitVec 32 := Scalar.muli c4_i32_78 v78
  let v80 : BitVec 32 := Scalar.addi c1_i32_79 v79
  let c4096_i32_92 : BitVec 32 := 4096#32
  let v95 : BitVec 32 := Scalar.muli v80 c4096_i32_92
  let v96 : BitVec 32 := Scalar.addi v9 v95
  let c0_i32_93 : BitVec 32 := 0#32
  ![v96.toNat, 0]
def k6_off7 (i : grid6.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_57 : BitVec 32 := 128#32
  let v59 : BitVec 32 := Scalar.muli v1 c128_i32_57
  let c0_i32_58 : BitVec 32 := 0#32
  ![v59.toNat, 0]
abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1024x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1024x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S20x1024x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S2688x21 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))

class Facts₀ : Prop where
  shapeCasts_S16384_S4x32x1x128 : S16384.ShapeCasts S4x32x1x128
  transposes_S16384x20_S20x16384_1_0 : S16384x20.Transposes [1, 0] S20x16384
  shapeCasts_S20x16384_S20x4x32x128 : S20x16384.ShapeCasts S20x4x32x128
  transposes_S20x4x32x128_S4x32x20x128_1_2_0_3 : S20x4x32x128.Transposes [1, 2, 0, 3] S4x32x20x128
  bcast_S_S4x32x2x128 : S_.BroadcastsInDim S4x32x2x128 (![] : Fin 0 → Fin S4x32x2x128.rank)
  concatenates_S4x32x1x128_S4x32x1x128_S4x32x20x128_S4x32x2x128_S4x32x24x128_d2 : Shape.Concatenates [S4x32x1x128, S4x32x1x128, S4x32x20x128, S4x32x2x128] S4x32x24x128 2
  shapeCasts_S4x32x24x128_S4x768x128 : S4x32x24x128.ShapeCasts S4x768x128
  bcast_S_S1 : S_.BroadcastsInDim S1 (![] : Fin 0 → Fin S1.rank)
  bcast_S_S20 : S_.BroadcastsInDim S20 (![] : Fin 0 → Fin S20.rank)
  concatenates_S1_S20_S21_d0 : Shape.Concatenates [S1, S20] S21 0
  bcast_S_S21x21 : S_.BroadcastsInDim S21x21 (![] : Fin 0 → Fin S21x21.rank)
  bcast_S21x21_S21x128x21_0_2 : S21x21.BroadcastsInDim S21x128x21 (![0, 2] : Fin 2 → Fin S21x128x21.rank)
  shapeCasts_S21x128x21_S2688x21 : S21x128x21.ShapeCasts S2688x21
  bcast_S21_S1x21_1 : S21.BroadcastsInDim S1x21 (![1] : Fin 1 → Fin S1x21.rank)
  bcast_S1x21_S2688x21_0_1 : S1x21.BroadcastsInDim S2688x21 (![0, 1] : Fin 2 → Fin S2688x21.rank)
  bitsLt_bf16_f32 : FTy.bits .bf16 < FTy.bits .f32
  bcast_S_S1x1 : S_.BroadcastsInDim S1x1 (![] : Fin 0 → Fin S1x1.rank)
  slices_S4x768x128_S1x768x128_0_0_0 : S4x768x128.Slices ![0, 0, 0] S1x768x128
  shapeCasts_S1x768x128_S768x128 : S1x768x128.ShapeCasts S768x128
  inb_S24x128_S1x128_0_0 : ∀ a, (![0, 0] : Fin 2 → Nat) a + S1x128.size a ≤ S24x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S24x128_S1x128_1_0 : ∀ a, (![1, 0] : Fin 2 → Nat) a + S1x128.size a ≤ S24x128.size a
  inb_S24x128_S1x128_2_0 : ∀ a, (![2, 0] : Fin 2 → Nat) a + S1x128.size a ≤ S24x128.size a
  inb_S24x128_S1x128_3_0 : ∀ a, (![3, 0] : Fin 2 → Nat) a + S1x128.size a ≤ S24x128.size a
  inb_S24x128_S1x128_4_0 : ∀ a, (![4, 0] : Fin 2 → Nat) a + S1x128.size a ≤ S24x128.size a
  inb_S24x128_S1x128_5_0 : ∀ a, (![5, 0] : Fin 2 → Nat) a + S1x128.size a ≤ S24x128.size a
  inb_S24x128_S1x128_19_0 : ∀ a, (![19, 0] : Fin 2 → Nat) a + S1x128.size a ≤ S24x128.size a
  inb_S24x128_S1x128_20_0 : ∀ a, (![20, 0] : Fin 2 → Nat) a + S1x128.size a ≤ S24x128.size a
  inb_S24x128_S1x128_21_0 : ∀ a, (![21, 0] : Fin 2 → Nat) a + S1x128.size a ≤ S24x128.size a
  shapeCasts_S81920x128_S20x4096x128 : S81920x128.ShapeCasts S20x4096x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S20x1024x128_S1x1024x128_0_0_0 : ∀ a, (![0, 0, 0] : Fin 3 → Nat) a + S1x1024x128.size a ≤ S20x1024x128.size a
  h_S1x1024x128 : 0 < S1x1024x128.numel
  shapeCasts_S1x1024x128_S1024x128 : S1x1024x128.ShapeCasts S1024x128
  inb_S20x1024x128_S1x1024x128_1_0_0 : ∀ a, (![1, 0, 0] : Fin 3 → Nat) a + S1x1024x128.size a ≤ S20x1024x128.size a
  inb_S20x1024x128_S1x1024x128_2_0_0 : ∀ a, (![2, 0, 0] : Fin 3 → Nat) a + S1x1024x128.size a ≤ S20x1024x128.size a
  inb_S20x1024x128_S1x1024x128_3_0_0 : ∀ a, (![3, 0, 0] : Fin 3 → Nat) a + S1x1024x128.size a ≤ S20x1024x128.size a
  inb_S20x1024x128_S1x1024x128_4_0_0 : ∀ a, (![4, 0, 0] : Fin 3 → Nat) a + S1x1024x128.size a ≤ S20x1024x128.size a
  inb_S20x1024x128_S1x1024x128_5_0_0 : ∀ a, (![5, 0, 0] : Fin 3 → Nat) a + S1x1024x128.size a ≤ S20x1024x128.size a
  inb_S20x1024x128_S1x1024x128_6_0_0 : ∀ a, (![6, 0, 0] : Fin 3 → Nat) a + S1x1024x128.size a ≤ S20x1024x128.size a
  inb_S20x1024x128_S1x1024x128_7_0_0 : ∀ a, (![7, 0, 0] : Fin 3 → Nat) a + S1x1024x128.size a ≤ S20x1024x128.size a
  inb_S20x1024x128_S1x1024x128_8_0_0 : ∀ a, (![8, 0, 0] : Fin 3 → Nat) a + S1x1024x128.size a ≤ S20x1024x128.size a
  inb_S20x1024x128_S1x1024x128_9_0_0 : ∀ a, (![9, 0, 0] : Fin 3 → Nat) a + S1x1024x128.size a ≤ S20x1024x128.size a
  inb_S20x1024x128_S1x1024x128_10_0_0 : ∀ a, (![10, 0, 0] : Fin 3 → Nat) a + S1x1024x128.size a ≤ S20x1024x128.size a
  inb_S20x1024x128_S1x1024x128_11_0_0 : ∀ a, (![11, 0, 0] : Fin 3 → Nat) a + S1x1024x128.size a ≤ S20x1024x128.size a
  inb_S20x1024x128_S1x1024x128_12_0_0 : ∀ a, (![12, 0, 0] : Fin 3 → Nat) a + S1x1024x128.size a ≤ S20x1024x128.size a
  inb_S20x1024x128_S1x1024x128_13_0_0 : ∀ a, (![13, 0, 0] : Fin 3 → Nat) a + S1x1024x128.size a ≤ S20x1024x128.size a
  inb_S20x1024x128_S1x1024x128_14_0_0 : ∀ a, (![14, 0, 0] : Fin 3 → Nat) a + S1x1024x128.size a ≤ S20x1024x128.size a
  inb_S20x1024x128_S1x1024x128_15_0_0 : ∀ a, (![15, 0, 0] : Fin 3 → Nat) a + S1x1024x128.size a ≤ S20x1024x128.size a
  inb_S20x1024x128_S1x1024x128_16_0_0 : ∀ a, (![16, 0, 0] : Fin 3 → Nat) a + S1x1024x128.size a ≤ S20x1024x128.size a
  inb_S20x1024x128_S1x1024x128_17_0_0 : ∀ a, (![17, 0, 0] : Fin 3 → Nat) a + S1x1024x128.size a ≤ S20x1024x128.size a
  inb_S20x1024x128_S1x1024x128_18_0_0 : ∀ a, (![18, 0, 0] : Fin 3 → Nat) a + S1x1024x128.size a ≤ S20x1024x128.size a
  inb_S20x1024x128_S1x1024x128_19_0_0 : ∀ a, (![19, 0, 0] : Fin 3 → Nat) a + S1x1024x128.size a ≤ S20x1024x128.size a
  concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x2688_d1 : Shape.Concatenates [S1024x128, S1024x128, S1024x128, S1024x128, S1024x128, S1024x128, S1024x128, S1024x128, S1024x128, S1024x128, S1024x128, S1024x128, S1024x128, S1024x128, S1024x128, S1024x128, S1024x128, S1024x128, S1024x128, S1024x128, S1024x128] S1024x2688 1
  inb_S2688x21_S2688x21_0_0 : ∀ a, (![0, 0] : Fin 2 → Nat) a + S2688x21.size a ≤ S2688x21.size a
  h_S2688x21 : 0 < S2688x21.numel
  shapeCasts_S2688x21_S2688x21 : S2688x21.ShapeCasts S2688x21
  shapeCasts_S1024x21_S1x1024x21 : S1024x21.ShapeCasts S1x1024x21
  reduces_S1x1024x21_S1 : S1x1024x21.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  slices_S4x768x128_S1x768x128_1_0_0 : S4x768x128.Slices ![1, 0, 0] S1x768x128
  slices_S4x768x128_S1x768x128_2_0_0 : S4x768x128.Slices ![2, 0, 0] S1x768x128
  slices_S4x768x128_S1x768x128_3_0_0 : S4x768x128.Slices ![3, 0, 0] S1x768x128
  shapeCasts_S1x1_S_ : S1x1.ShapeCasts S_
  dot_S1024x2688_S2688x21_S1024x21_1_0_0_1_n_n_wf : DotDims.WF S1024x2688 S2688x21 S1024x21 [1] [0] [0] [1] [] []
  hcc0_scratch7 : 0 + S_.numel ≤ 84
  hcc0_scratch8 : 1 + S_.numel ≤ 84
  hcc0_scratch9 : 2 + S_.numel ≤ 84
  hcc0_scratch10 : 3 + S_.numel ≤ 84
  hcc0_scratch11 : 4 + S_.numel ≤ 84
  hcc0_scratch12 : 5 + S_.numel ≤ 84
  hcc0_scratch13 : 6 + S_.numel ≤ 84
  hcc0_scratch14 : 7 + S_.numel ≤ 84
  hcc0_scratch15 : 8 + S_.numel ≤ 84
  hcc0_scratch16 : 9 + S_.numel ≤ 84
  hcc0_scratch17 : 10 + S_.numel ≤ 84
  hcc0_scratch18 : 11 + S_.numel ≤ 84
  hcc0_scoped0 : 12 + S_.numel ≤ 84
  hcc2_scratch7 : 21 + S_.numel ≤ 84
  hcc2_scratch8 : 22 + S_.numel ≤ 84
  hcc2_scratch9 : 23 + S_.numel ≤ 84
  hcc2_scratch10 : 24 + S_.numel ≤ 84
  hcc2_scratch11 : 25 + S_.numel ≤ 84
  hcc2_scratch12 : 26 + S_.numel ≤ 84
  hcc2_scratch13 : 27 + S_.numel ≤ 84
  hcc2_scratch14 : 28 + S_.numel ≤ 84
  hcc2_scratch15 : 29 + S_.numel ≤ 84
  hcc2_scratch16 : 30 + S_.numel ≤ 84
  hcc2_scratch17 : 31 + S_.numel ≤ 84
  hcc2_scratch18 : 32 + S_.numel ≤ 84
  hcc2_scoped0 : 33 + S_.numel ≤ 84
  hcc4_scratch7 : 42 + S_.numel ≤ 84
  hcc4_scratch8 : 43 + S_.numel ≤ 84
  hcc4_scratch9 : 44 + S_.numel ≤ 84
  hcc4_scratch10 : 45 + S_.numel ≤ 84
  hcc4_scratch11 : 46 + S_.numel ≤ 84
  hcc4_scratch12 : 47 + S_.numel ≤ 84
  hcc4_scratch13 : 48 + S_.numel ≤ 84
  hcc4_scratch14 : 49 + S_.numel ≤ 84
  hcc4_scratch15 : 50 + S_.numel ≤ 84
  hcc4_scratch16 : 51 + S_.numel ≤ 84
  hcc4_scratch17 : 52 + S_.numel ≤ 84
  hcc4_scratch18 : 53 + S_.numel ≤ 84
  hcc4_scoped0 : 54 + S_.numel ≤ 84
  hcc6_scratch7 : 63 + S_.numel ≤ 84
  hcc6_scratch8 : 64 + S_.numel ≤ 84
  hcc6_scratch9 : 65 + S_.numel ≤ 84
  hcc6_scratch10 : 66 + S_.numel ≤ 84
  hcc6_scratch11 : 67 + S_.numel ≤ 84
  hcc6_scratch12 : 68 + S_.numel ≤ 84
  hcc6_scratch13 : 69 + S_.numel ≤ 84
  hcc6_scratch14 : 70 + S_.numel ≤ 84
  hcc6_scratch15 : 71 + S_.numel ≤ 84
  hcc6_scratch16 : 72 + S_.numel ≤ 84
  hcc6_scratch17 : 73 + S_.numel ≤ 84
  hcc6_scratch18 : 74 + S_.numel ≤ 84
  hcc6_scoped0 : 75 + S_.numel ≤ 84
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S24x128.size a ≤ S768x128.size a
  k0_off2_inb : ∀ i : grid0.Coords, ∀ (r : Fin 5), ∀ a, (k0_off2 i (k0_off2_at r)) a + S128x128.size a ≤ S81920x128.size a
  k0_t1_ok : k0_t1_loop.OK
  k0_off3_inb : ∀ k0_t1 : Fin k0_t1_loop.trips, ∀ (r : Fin 4), ∀ a, (k0_off3 k0_t1 (BitVec.ofNat 32 (1 + r.val))) a + S1x128.size a ≤ S24x128.size a
  k0_off4_inb : ∀ (i : grid0.Coords) (k0_t1 : Fin k0_t1_loop.trips), ∀ (r : Fin 4), ∀ a, (k0_off4 i k0_t1 (BitVec.ofNat 32 (1 + r.val))) a + S128x128.size a ≤ S81920x128.size a
  k0_off5_inb : ∀ k0_t1 : Fin k0_t1_loop.trips, ∀ (r : Fin 4), ∀ a, (k0_off5 k0_t1 (BitVec.ofNat 32 (1 + r.val))) a + S1x128.size a ≤ S24x128.size a
  k0_off6_inb : ∀ (i : grid0.Coords) (k0_t1 : Fin k0_t1_loop.trips), ∀ (r : Fin 4), ∀ a, (k0_off6 i k0_t1 (BitVec.ofNat 32 (1 + r.val))) a + S128x128.size a ≤ S81920x128.size a
  k0_off7_inb : ∀ i : grid0.Coords, ∀ a, (k0_off7 i) a + S128x128.size a ≤ S4096x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S4096x128.size a
  hwx1_0 : ∀ i : grid1.Coords, EltTy.bits .f32 = 32 ∨ (Rect.block (s := S4096x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S4096x128.size a
  hwx1_1 : ∀ i : grid1.Coords, EltTy.bits .f32 = 32 ∨ (Rect.block (s := S4096x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20x1024x128.size a ≤ S20x4096x128.size a
  hwx1_2 : ∀ i : grid1.Coords, EltTy.bits .f32 = 32 ∨ (Rect.block (s := S20x4096x128) S20x1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2688x21.size a ≤ S2688x21.size a
  hwx1_3 : ∀ i : grid1.Coords, EltTy.bits .bf16 = 32 ∨ (Rect.block (s := S2688x21) S2688x21.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hcore2 : grid2.bound 0 ≤ τ.nSC
  hsub2 : grid2.bound 1 ≤ τ.nSub
  k2_off1_inb : ∀ i : grid2.Coords, ∀ a, (k2_off1 i) a + S24x128.size a ≤ S768x128.size a
  k2_off2_inb : ∀ i : grid2.Coords, ∀ (r : Fin 5), ∀ a, (k2_off2 i (k2_off2_at r)) a + S128x128.size a ≤ S81920x128.size a
  k2_t1_ok : k2_t1_loop.OK
  k2_off3_inb : ∀ k2_t1 : Fin k2_t1_loop.trips, ∀ (r : Fin 4), ∀ a, (k2_off3 k2_t1 (BitVec.ofNat 32 (1 + r.val))) a + S1x128.size a ≤ S24x128.size a
  k2_off4_inb : ∀ (i : grid2.Coords) (k2_t1 : Fin k2_t1_loop.trips), ∀ (r : Fin 4), ∀ a, (k2_off4 i k2_t1 (BitVec.ofNat 32 (1 + r.val))) a + S128x128.size a ≤ S81920x128.size a
  k2_off5_inb : ∀ k2_t1 : Fin k2_t1_loop.trips, ∀ (r : Fin 4), ∀ a, (k2_off5 k2_t1 (BitVec.ofNat 32 (1 + r.val))) a + S1x128.size a ≤ S24x128.size a
  k2_off6_inb : ∀ (i : grid2.Coords) (k2_t1 : Fin k2_t1_loop.trips), ∀ (r : Fin 4), ∀ a, (k2_off6 i k2_t1 (BitVec.ofNat 32 (1 + r.val))) a + S128x128.size a ≤ S81920x128.size a
  k2_off7_inb : ∀ i : grid2.Coords, ∀ a, (k2_off7 i) a + S128x128.size a ≤ S4096x128.size a
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S4096x128.size a
  hwx3_0 : ∀ i : grid3.Coords, EltTy.bits .f32 = 32 ∨ (Rect.block (s := S4096x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S4096x128.size a
  hwx3_1 : ∀ i : grid3.Coords, EltTy.bits .f32 = 32 ∨ (Rect.block (s := S4096x128) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20x1024x128.size a ≤ S20x4096x128.size a
  hwx3_2 : ∀ i : grid3.Coords, EltTy.bits .f32 = 32 ∨ (Rect.block (s := S20x4096x128) S20x1024x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2688x21.size a ≤ S2688x21.size a
  hwx3_3 : ∀ i : grid3.Coords, EltTy.bits .bf16 = 32 ∨ (Rect.block (s := S2688x21) S2688x21.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hcore4 : grid4.bound 0 ≤ τ.nSC
  hsub4 : grid4.bound 1 ≤ τ.nSub
  k4_off1_inb : ∀ i : grid4.Coords, ∀ a, (k4_off1 i) a + S24x128.size a ≤ S768x128.size a
  k4_off2_inb : ∀ i : grid4.Coords, ∀ (r : Fin 5), ∀ a, (k4_off2 i (k4_off2_at r)) a + S128x128.size a ≤ S81920x128.size a
  k4_t1_ok : k4_t1_loop.OK
  k4_off3_inb : ∀ k4_t1 : Fin k4_t1_loop.trips, ∀ (r : Fin 4), ∀ a, (k4_off3 k4_t1 (BitVec.ofNat 32 (1 + r.val))) a + S1x128.size a ≤ S24x128.size a
  k4_off4_inb : ∀ (i : grid4.Coords) (k4_t1 : Fin k4_t1_loop.trips), ∀ (r : Fin 4), ∀ a, (k4_off4 i k4_t1 (BitVec.ofNat 32 (1 + r.val))) a + S128x128.size a ≤ S81920x128.size a
  k4_off5_inb : ∀ k4_t1 : Fin k4_t1_loop.trips, ∀ (r : Fin 4), ∀ a, (k4_off5 k4_t1 (BitVec.ofNat 32 (1 + r.val))) a + S1x128.size a ≤ S24x128.size a
  k4_off6_inb : ∀ (i : grid4.Coords) (k4_t1 : Fin k4_t1_loop.trips), ∀ (r : Fin 4), ∀ a, (k4_off6 i k4_t1 (BitVec.ofNat 32 (1 + r.val))) a + S128x128.size a ≤ S81920x128.size a
  k4_off7_inb : ∀ i : grid4.Coords, ∀ a, (k4_off7 i) a + S128x128.size a ≤ S4096x128.size a
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x128.size a ≤ S4096x128.size a
  hwx5_0 : ∀ i : grid5.Coords, EltTy.bits .f32 = 32 ∨ (Rect.block (s := S4096x128) S1024x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x128.size a ≤ S4096x128.size a
  hwx5_1 : ∀ i : grid5.Coords, EltTy.bits .f32 = 32 ∨ (Rect.block (s := S4096x128) S1024x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S20x1024x128.size a ≤ S20x4096x128.size a
  hwx5_2 : ∀ i : grid5.Coords, EltTy.bits .f32 = 32 ∨ (Rect.block (s := S20x4096x128) S20x1024x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S2688x21.size a ≤ S2688x21.size a
  hwx5_3 : ∀ i : grid5.Coords, EltTy.bits .bf16 = 32 ∨ (Rect.block (s := S2688x21) S2688x21.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hcore6 : grid6.bound 0 ≤ τ.nSC
  hsub6 : grid6.bound 1 ≤ τ.nSub
  k6_off1_inb : ∀ i : grid6.Coords, ∀ a, (k6_off1 i) a + S24x128.size a ≤ S768x128.size a
  k6_off2_inb : ∀ i : grid6.Coords, ∀ (r : Fin 5), ∀ a, (k6_off2 i (k6_off2_at r)) a + S128x128.size a ≤ S81920x128.size a
  k6_t1_ok : k6_t1_loop.OK
  k6_off3_inb : ∀ k6_t1 : Fin k6_t1_loop.trips, ∀ (r : Fin 4), ∀ a, (k6_off3 k6_t1 (BitVec.ofNat 32 (1 + r.val))) a + S1x128.size a ≤ S24x128.size a
  k6_off4_inb : ∀ (i : grid6.Coords) (k6_t1 : Fin k6_t1_loop.trips), ∀ (r : Fin 4), ∀ a, (k6_off4 i k6_t1 (BitVec.ofNat 32 (1 + r.val))) a + S128x128.size a ≤ S81920x128.size a
  k6_off5_inb : ∀ k6_t1 : Fin k6_t1_loop.trips, ∀ (r : Fin 4), ∀ a, (k6_off5 k6_t1 (BitVec.ofNat 32 (1 + r.val))) a + S1x128.size a ≤ S24x128.size a
  k6_off6_inb : ∀ (i : grid6.Coords) (k6_t1 : Fin k6_t1_loop.trips), ∀ (r : Fin 4), ∀ a, (k6_off6 i k6_t1 (BitVec.ofNat 32 (1 + r.val))) a + S128x128.size a ≤ S81920x128.size a
  k6_off7_inb : ∀ i : grid6.Coords, ∀ a, (k6_off7 i) a + S128x128.size a ≤ S4096x128.size a
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x128.size a ≤ S4096x128.size a
  hwx7_0 : ∀ i : grid7.Coords, EltTy.bits .f32 = 32 ∨ (Rect.block (s := S4096x128) S1024x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x128.size a ≤ S4096x128.size a
  hwx7_1 : ∀ i : grid7.Coords, EltTy.bits .f32 = 32 ∨ (Rect.block (s := S4096x128) S1024x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S20x1024x128.size a ≤ S20x4096x128.size a
  hwx7_2 : ∀ i : grid7.Coords, EltTy.bits .f32 = 32 ∨ (Rect.block (s := S20x4096x128) S20x1024x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S2688x21.size a ≤ S2688x21.size a
  hwx7_3 : ∀ i : grid7.Coords, EltTy.bits .bf16 = 32 ∨ (Rect.block (s := S2688x21) S2688x21.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scratch11 : DmaSems sig S_ := SemArray.consecutive 4 S_ hcc0_scratch11
abbrev cc0_scratch12 : DmaSems sig S_ := SemArray.consecutive 5 S_ hcc0_scratch12
abbrev cc0_scratch13 : DmaSems sig S_ := SemArray.consecutive 6 S_ hcc0_scratch13
abbrev cc0_scratch14 : DmaSems sig S_ := SemArray.consecutive 7 S_ hcc0_scratch14
abbrev cc0_scratch15 : DmaSems sig S_ := SemArray.consecutive 8 S_ hcc0_scratch15
abbrev cc0_scratch16 : DmaSems sig S_ := SemArray.consecutive 9 S_ hcc0_scratch16
abbrev cc0_scratch17 : DmaSems sig S_ := SemArray.consecutive 10 S_ hcc0_scratch17
abbrev cc0_scratch18 : DmaSems sig S_ := SemArray.consecutive 11 S_ hcc0_scratch18
abbrev cc0_scoped0 : DmaSems sig S_ := SemArray.consecutive 12 S_ hcc0_scoped0
abbrev cc2_scratch7 : DmaSems sig S_ := SemArray.consecutive 21 S_ hcc2_scratch7
abbrev cc2_scratch8 : DmaSems sig S_ := SemArray.consecutive 22 S_ hcc2_scratch8
abbrev cc2_scratch9 : DmaSems sig S_ := SemArray.consecutive 23 S_ hcc2_scratch9
abbrev cc2_scratch10 : DmaSems sig S_ := SemArray.consecutive 24 S_ hcc2_scratch10
abbrev cc2_scratch11 : DmaSems sig S_ := SemArray.consecutive 25 S_ hcc2_scratch11
abbrev cc2_scratch12 : DmaSems sig S_ := SemArray.consecutive 26 S_ hcc2_scratch12
abbrev cc2_scratch13 : DmaSems sig S_ := SemArray.consecutive 27 S_ hcc2_scratch13
abbrev cc2_scratch14 : DmaSems sig S_ := SemArray.consecutive 28 S_ hcc2_scratch14
abbrev cc2_scratch15 : DmaSems sig S_ := SemArray.consecutive 29 S_ hcc2_scratch15
abbrev cc2_scratch16 : DmaSems sig S_ := SemArray.consecutive 30 S_ hcc2_scratch16
abbrev cc2_scratch17 : DmaSems sig S_ := SemArray.consecutive 31 S_ hcc2_scratch17
abbrev cc2_scratch18 : DmaSems sig S_ := SemArray.consecutive 32 S_ hcc2_scratch18
abbrev cc2_scoped0 : DmaSems sig S_ := SemArray.consecutive 33 S_ hcc2_scoped0
abbrev cc4_scratch7 : DmaSems sig S_ := SemArray.consecutive 42 S_ hcc4_scratch7
abbrev cc4_scratch8 : DmaSems sig S_ := SemArray.consecutive 43 S_ hcc4_scratch8
abbrev cc4_scratch9 : DmaSems sig S_ := SemArray.consecutive 44 S_ hcc4_scratch9
abbrev cc4_scratch10 : DmaSems sig S_ := SemArray.consecutive 45 S_ hcc4_scratch10
abbrev cc4_scratch11 : DmaSems sig S_ := SemArray.consecutive 46 S_ hcc4_scratch11
abbrev cc4_scratch12 : DmaSems sig S_ := SemArray.consecutive 47 S_ hcc4_scratch12
abbrev cc4_scratch13 : DmaSems sig S_ := SemArray.consecutive 48 S_ hcc4_scratch13
abbrev cc4_scratch14 : DmaSems sig S_ := SemArray.consecutive 49 S_ hcc4_scratch14
abbrev cc4_scratch15 : DmaSems sig S_ := SemArray.consecutive 50 S_ hcc4_scratch15
abbrev cc4_scratch16 : DmaSems sig S_ := SemArray.consecutive 51 S_ hcc4_scratch16
abbrev cc4_scratch17 : DmaSems sig S_ := SemArray.consecutive 52 S_ hcc4_scratch17
abbrev cc4_scratch18 : DmaSems sig S_ := SemArray.consecutive 53 S_ hcc4_scratch18
abbrev cc4_scoped0 : DmaSems sig S_ := SemArray.consecutive 54 S_ hcc4_scoped0
abbrev cc6_scratch7 : DmaSems sig S_ := SemArray.consecutive 63 S_ hcc6_scratch7
abbrev cc6_scratch8 : DmaSems sig S_ := SemArray.consecutive 64 S_ hcc6_scratch8
abbrev cc6_scratch9 : DmaSems sig S_ := SemArray.consecutive 65 S_ hcc6_scratch9
abbrev cc6_scratch10 : DmaSems sig S_ := SemArray.consecutive 66 S_ hcc6_scratch10
abbrev cc6_scratch11 : DmaSems sig S_ := SemArray.consecutive 67 S_ hcc6_scratch11
abbrev cc6_scratch12 : DmaSems sig S_ := SemArray.consecutive 68 S_ hcc6_scratch12
abbrev cc6_scratch13 : DmaSems sig S_ := SemArray.consecutive 69 S_ hcc6_scratch13
abbrev cc6_scratch14 : DmaSems sig S_ := SemArray.consecutive 70 S_ hcc6_scratch14
abbrev cc6_scratch15 : DmaSems sig S_ := SemArray.consecutive 71 S_ hcc6_scratch15
abbrev cc6_scratch16 : DmaSems sig S_ := SemArray.consecutive 72 S_ hcc6_scratch16
abbrev cc6_scratch17 : DmaSems sig S_ := SemArray.consecutive 73 S_ hcc6_scratch17
abbrev cc6_scratch18 : DmaSems sig S_ := SemArray.consecutive 74 S_ hcc6_scratch18
abbrev cc6_scoped0 : DmaSems sig S_ := SemArray.consecutive 75 S_ hcc6_scoped0
def dot_S1024x2688_S2688x21_S1024x21_1_0_0_1_n_n : DotDims S1024x2688 S2688x21 S1024x21 where
  lhsContracting := [1]
  rhsContracting := [0]
  lhsNonContracting := [0]
  rhsNonContracting := [1]
  lhsBatch := []
  rhsBatch := []
  wf := dot_S1024x2688_S2688x21_S1024x21_1_0_0_1_n_n_wf

abbrev win1_0 : Pipeline.Window sig grid1 :=
  Pipeline.Window.ofSpec (Memref.whole main_v27_0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27_1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S20x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S2688x21.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win3_0 : Pipeline.Window sig grid3 :=
  Pipeline.Window.ofSpec (Memref.whole main_v33_0) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33_1) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34) S20x1024x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v23) S2688x21.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v35) S1x1.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win5_0 : Pipeline.Window sig grid5 :=
  Pipeline.Window.ofSpec (Memref.whole main_v39_0) S1024x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v39_1) S1024x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v40) S20x1024x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v23) S2688x21.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v41) S1x1.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win7_0 : Pipeline.Window sig grid7 :=
  Pipeline.Window.ofSpec (Memref.whole main_v45_0) S1024x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v45_1) S1024x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v46) S20x1024x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v23) S2688x21.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v47) S1x1.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x128 : Shape := ⟨2, ![100000, 128]⟩
abbrev S16384 : Shape := ⟨1, ![16384]⟩
abbrev S16384x20 : Shape := ⟨2, ![16384, 20]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S16384x20x1 : Shape := ⟨3, ![16384, 20, 1]⟩
abbrev S1x1x1 : Shape := ⟨3, ![1, 1, 1]⟩
abbrev S16384x20x128 : Shape := ⟨3, ![16384, 20, 128]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S16384, .i32⟩
  | .hbm, ⟨3, _⟩ => ⟨S16384, .i32⟩
  | .hbm, ⟨4, _⟩ => ⟨S16384x20, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x128, .f32⟩
  | .hbm, ⟨24, _⟩ => ⟨S16384x128, .i1⟩
  | .hbm, ⟨25, _⟩ => ⟨S_, .f32⟩
  | .hbm, ⟨26, _⟩ => ⟨S16384x128, .f32⟩
  | .hbm, ⟨27, _⟩ => ⟨S16384x128, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384x128, .f32⟩
  | .hbm, ⟨47, _⟩ => ⟨S16384x128, .i1⟩
  | .hbm, ⟨48, _⟩ => ⟨S_, .f32⟩
  | .hbm, ⟨49, _⟩ => ⟨S16384x128, .f32⟩
  | .hbm, ⟨50, _⟩ => ⟨S16384x128, .f32⟩
  | .hbm, ⟨51, _⟩ => ⟨S_, .i32⟩
  | .hbm, ⟨52, _⟩ => ⟨S16384x20, .i32⟩
  | .hbm, ⟨53, _⟩ => ⟨S16384x20, .i1⟩
  | .hbm, ⟨54, _⟩ => ⟨S_, .i32⟩
  | .hbm, ⟨55, _⟩ => ⟨S16384x20, .i32⟩
  | .hbm, ⟨56, _⟩ => ⟨S16384x20, .i32⟩
  | .hbm, ⟨57, _⟩ => ⟨S16384x20, .i32⟩
  | .hbm, ⟨58, _⟩ => ⟨S16384x20x1, .i32⟩
  | .hbm, ⟨59, _⟩ => ⟨S1, .i32⟩
  | .hbm, ⟨60, _⟩ => ⟨S_, .i32⟩
  | .hbm, ⟨61, _⟩ => ⟨S16384x20x1, .i32⟩
  | .hbm, ⟨62, _⟩ => ⟨S16384x20x1, .i1⟩
  | .hbm, ⟨63, _⟩ => ⟨S1x1x1, .i32⟩
  | .hbm, ⟨64, _⟩ => ⟨S16384x20x1, .i32⟩
  | .hbm, ⟨65, _⟩ => ⟨S16384x20x1, .i1⟩
  | .hbm, ⟨66, _⟩ => ⟨S16384x20x1, .i1⟩
  | .hbm, ⟨67, _⟩ => ⟨S_, .i1⟩
  | .hbm, ⟨68, _⟩ => ⟨S16384x20, .i1⟩
  | .hbm, ⟨69, _⟩ => ⟨S16384x20x128, .f32⟩
  | .hbm, ⟨70, _⟩ => ⟨S16384x20x128, .i1⟩
  | .hbm, ⟨71, _⟩ => ⟨S_, .f32⟩
  | .hbm, ⟨72, _⟩ => ⟨S16384x20x128, .f32⟩
  | .hbm, ⟨73, _⟩ => ⟨S16384x20x128, .f32⟩
  | .hbm, ⟨74, _⟩ => ⟨S16384x128, .f32⟩
  | .hbm, ⟨75, _⟩ => ⟨S_, .f32⟩
  | .hbm, ⟨76, _⟩ => ⟨S16384, .f32⟩
  | .hbm, ⟨77, _⟩ => ⟨S16384, .f32⟩
  | .hbm, ⟨78, _⟩ => ⟨S_, .f32⟩
  | .hbm, ⟨79, _⟩ => ⟨S16384, .f32⟩
  | .hbm, ⟨80, _⟩ => ⟨S16384, .f32⟩
  | .hbm, ⟨81, _⟩ => ⟨S16384, .f32⟩
  | .hbm, ⟨82, _⟩ => ⟨S16384, .f32⟩
  | .hbm, ⟨83, _⟩ => ⟨S16384, .i1⟩
  | .hbm, ⟨84, _⟩ => ⟨S16384, .f32⟩
  | .hbm, ⟨85, _⟩ => ⟨S16384, .f32⟩
  | .hbm, ⟨86, _⟩ => ⟨S16384, .f32⟩
  | .hbm, ⟨87, _⟩ => ⟨S16384, .f32⟩
  | .hbm, ⟨88, _⟩ => ⟨S16384, .f32⟩
  | .hbm, ⟨89, _⟩ => ⟨S16384, .f32⟩
  | .hbm, ⟨90, _⟩ => ⟨S16384, .f32⟩
  | .hbm, ⟨91, _⟩ => ⟨S16384, .f32⟩
  | .hbm, ⟨92, _⟩ => ⟨S16384, .f32⟩
  | .hbm, ⟨93, _⟩ => ⟨S16384x20, .f32⟩
  | .hbm, ⟨94, _⟩ => ⟨S16384x20, .f32⟩
  | .hbm, ⟨95, _⟩ => ⟨S16384x20, .f32⟩
  | .hbm, ⟨96, _⟩ => ⟨S_, .f32⟩
  | .hbm, ⟨97, _⟩ => ⟨S16384x20, .f32⟩
  | .hbm, ⟨98, _⟩ => ⟨S16384x20, .f32⟩
  | .hbm, ⟨99, _⟩ => ⟨S16384x20, .f32⟩
  | .hbm, ⟨100, _⟩ => ⟨S16384x20, .f32⟩
  | .hbm, ⟨101, _⟩ => ⟨S16384x20, .i1⟩
  | .hbm, ⟨102, _⟩ => ⟨S16384x20, .f32⟩
  | .hbm, ⟨103, _⟩ => ⟨S16384x20, .f32⟩
  | .hbm, ⟨104, _⟩ => ⟨S16384x20, .f32⟩
  | .hbm, ⟨105, _⟩ => ⟨S16384x20, .f32⟩
  | .hbm, ⟨106, _⟩ => ⟨S16384x20, .f32⟩
  | .hbm, ⟨107, _⟩ => ⟨S16384x20, .f32⟩
  | .hbm, ⟨108, _⟩ => ⟨S16384x20, .f32⟩
  | .hbm, ⟨109, _⟩ => ⟨S16384x20, .f32⟩
  | .hbm, ⟨110, _⟩ => ⟨S16384x20, .f32⟩
  | .hbm, ⟨111, _⟩ => ⟨S_, .f32⟩
  | .hbm, ⟨112, _⟩ => ⟨S16384, .f32⟩
  | .hbm, ⟨113, _⟩ => ⟨S16384, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v2 : Ref sig .tc := ⟨.hbm, 73, rfl⟩
abbrev main_v3 : Ref sig .tc := ⟨.hbm, 74, rfl⟩
abbrev main_cst : Ref sig .tc := ⟨.hbm, 75, rfl⟩
abbrev main_v4 : Ref sig .tc := ⟨.hbm, 76, rfl⟩
abbrev main_call3_v0 : Ref sig .tc := ⟨.hbm, 77, rfl⟩
abbrev main_call3_call0_cst : Ref sig .tc := ⟨.hbm, 78, rfl⟩
abbrev main_call3_call0_v0 : Ref sig .tc := ⟨.hbm, 79, rfl⟩
abbrev main_call3_call0_v1 : Ref sig .tc := ⟨.hbm, 80, rfl⟩
abbrev main_call3_call0_v2 : Ref sig .tc := ⟨.hbm, 81, rfl⟩
abbrev main_call3_call0_v3 : Ref sig .tc := ⟨.hbm, 82, rfl⟩
abbrev main_call3_call0_v4 : Ref sig .tc := ⟨.hbm, 83, rfl⟩
abbrev main_call3_call0_v5 : Ref sig .tc := ⟨.hbm, 84, rfl⟩
abbrev main_call3_call0_v6 : Ref sig .tc := ⟨.hbm, 85, rfl⟩
abbrev main_call3_call0_v7 : Ref sig .tc := ⟨.hbm, 86, rfl⟩
abbrev main_call3_call0_v8 : Ref sig .tc := ⟨.hbm, 87, rfl⟩
abbrev main_call3_call0_v9 : Ref sig .tc := ⟨.hbm, 88, rfl⟩
abbrev main_call3_call0_v10 : Ref sig .tc := ⟨.hbm, 89, rfl⟩
abbrev main_call3_call0_v11 : Ref sig .tc := ⟨.hbm, 90, rfl⟩
abbrev main_call3_v1 : Ref sig .tc := ⟨.hbm, 91, rfl⟩
abbrev main_v5 : Ref sig .tc := ⟨.hbm, 92, rfl⟩
abbrev main_v6 : Ref sig .tc := ⟨.hbm, 93, rfl⟩
abbrev main_v7 : Ref sig .tc := ⟨.hbm, 94, rfl⟩
abbrev main_call4_v0 : Ref sig .tc := ⟨.hbm, 95, rfl⟩
abbrev main_call4_call0_cst : Ref sig .tc := ⟨.hbm, 96, rfl⟩
abbrev main_call4_call0_v0 : Ref sig .tc := ⟨.hbm, 97, rfl⟩
abbrev main_call4_call0_v1 : Ref sig .tc := ⟨.hbm, 98, rfl⟩
abbrev main_call4_call0_v2 : Ref sig .tc := ⟨.hbm, 99, rfl⟩
abbrev main_call4_call0_v3 : Ref sig .tc := ⟨.hbm, 100, rfl⟩
abbrev main_call4_call0_v4 : Ref sig .tc := ⟨.hbm, 101, rfl⟩
abbrev main_call4_call0_v5 : Ref sig .tc := ⟨.hbm, 102, rfl⟩
abbrev main_call4_call0_v6 : Ref sig .tc := ⟨.hbm, 103, rfl⟩
abbrev main_call4_call0_v7 : Ref sig .tc := ⟨.hbm, 104, rfl⟩
abbrev main_call4_call0_v8 : Ref sig .tc := ⟨.hbm, 105, rfl⟩
abbrev main_call4_call0_v9 : Ref sig .tc := ⟨.hbm, 106, rfl⟩
abbrev main_call4_call0_v10 : Ref sig .tc := ⟨.hbm, 107, rfl⟩
abbrev main_call4_call0_v11 : Ref sig .tc := ⟨.hbm, 108, rfl⟩
abbrev main_call4_v1 : Ref sig .tc := ⟨.hbm, 109, rfl⟩
abbrev main_v8 : Ref sig .tc := ⟨.hbm, 110, rfl⟩
abbrev main_cst_0 : Ref sig .tc := ⟨.hbm, 111, rfl⟩
abbrev main_v9 : Ref sig .tc := ⟨.hbm, 112, rfl⟩
abbrev main_v10 : Ref sig .tc := ⟨.hbm, 113, rfl⟩
abbrev main_cst_1 : Ref sig .tc := ⟨.hbm, 114, rfl⟩
abbrev main_v11 : Ref sig .tc := ⟨.hbm, 115, rfl⟩
abbrev main_cst_2 : Ref sig .tc := ⟨.hbm, 116, rfl⟩
abbrev main_v12 : Ref sig .tc := ⟨.hbm, 117, rfl⟩
abbrev main_v13 : Ref sig .tc := ⟨.hbm, 118, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  bcast_S_S16384x20 : S_.BroadcastsInDim S16384x20 (![] : Fin 0 → Fin S16384x20.rank)
  bcast_S16384x20_S16384x20x1_0_1 : S16384x20.BroadcastsInDim S16384x20x1 (![0, 1] : Fin 2 → Fin S16384x20x1.rank)
  bcast_S_S16384x20x1 : S_.BroadcastsInDim S16384x20x1 (![] : Fin 0 → Fin S16384x20x1.rank)
  bcast_S1_S1x1x1_2 : S1.BroadcastsInDim S1x1x1 (![2] : Fin 1 → Fin S1x1x1.rank)
  bcast_S1x1x1_S16384x20x1_0_1_2 : S1x1x1.BroadcastsInDim S16384x20x1 (![0, 1, 2] : Fin 3 → Fin S16384x20x1.rank)
  reducesTo_S16384x20x1_S16384x20_d2 : S16384x20x1.ReducesTo [2] S16384x20
  bcast_S16384x20_S16384x20x128_0_1 : S16384x20.BroadcastsInDim S16384x20x128 (![0, 1] : Fin 2 → Fin S16384x20x128.rank)
  bcast_S_S16384x20x128 : S_.BroadcastsInDim S16384x20x128 (![] : Fin 0 → Fin S16384x20x128.rank)
  reducesTo_S16384x128_S16384_d1 : S16384x128.ReducesTo [1] S16384
  reducesTo_S16384x20_S16384_d1 : S16384x20.ReducesTo [1] S16384
  reducesTo_S16384_S_d0 : S16384.ReducesTo [0] S_
  gather_S100000x128_S16384x1_S16384x128_1_0_n_n_0_1_1128_wf : GatherDims.WF S100000x128 S16384x1 S16384x128 [1] [0] [] [0] [] 1 ![1, 128]
  gather_S100000x128_S16384x20x1_S16384x20x128_2_0_n_n_0_2_1128_wf : GatherDims.WF S100000x128 S16384x20x1 S16384x20x128 [2] [0] [] [0] [] 2 ![1, 128]
  dot_S16384x20x128_S16384x128_S16384x20_2_1_1_n_0_0_wf : DotDims.WF S16384x20x128 S16384x128 S16384x20 [2] [1] [1] [] [0] [0]

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def gather_S100000x128_S16384x20x1_S16384x20x128_2_0_n_n_0_2_1128 : GatherDims S100000x128 S16384x20x1 S16384x20x128 where
  offsetDims := [2]
  collapsedSliceDims := [0]
  operandBatchingDims := []
  startIndicesBatchingDims := []
  startIndexMap := [0]
  indexVectorDim := 2
  sliceSizes := ![1, 128]
  wf := gather_S100000x128_S16384x20x1_S16384x20x128_2_0_n_n_0_2_1128_wf
def dot_S16384x20x128_S16384x128_S16384x20_2_1_1_n_0_0 : DotDims S16384x20x128 S16384x128 S16384x20 where
  lhsContracting := [2]
  rhsContracting := [1]
  lhsNonContracting := [1]
  rhsNonContracting := []
  lhsBatch := [0]
  rhsBatch := [0]
  wf := dot_S16384x20x128_S16384x128_S16384x20_2_1_1_n_0_0_wf

class Facts : Prop extends Facts₀ where

variable [Facts]
-- ==== Proof.KI_Common.lean ====
/-
  Shared setting of the kernel-side proof: the program as the SparseCore launch theorem sees it (its four
  vector-subcore calls, the body table with the four TensorCore pipelines underneath), and the proof's resource
  algebra — the launch handshakes' rounds, the TensorCore pipelines' staging cells' rounds, and the counters of the
  tiles' own copies (every tile only starts local copies and waits for them, one copy per semaphore at a time, so
  its semaphores need no schedule).
-/
import proofs.«215899_g5772436046013_cont_9to1c4b_742_31_alg».proof.Defs
import proofs.«215899_g5772436046013_cont_9to1c4b_742_31_alg».proof.Proof.Gen.KernelIdeal
import proofs.«215899_g5772436046013_cont_9to1c4b_742_31_alg».proof.Proof.Gen.KernelIdeal.Skeleton
import proofs.«215899_g5772436046013_cont_9to1c4b_742_31_alg».proof.Proof.Gen.KernelIdeal.Launch
import proofs.«215899_g5772436046013_cont_9to1c4b_742_31_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The TensorCore pipelines' staging cells' rounds. -/
abbrev UP : Type := UR sig nD τ
abbrev UU : Type := UH × (UP × Counters)

abbrev EH : Emb UH (MT nD τ sig (HIx 4) (Elt F) ℕ UU ℕ) := embL
abbrev EP : Emb UP (MT nD τ sig (HIx 4) (Elt F) ℕ UU ℕ) := (Emb.inl : Emb UP (UP × Counters)).trans embR

end Cert.Proof.KI

end
-- ==== Proof.KI_Prog.lean ====
/-
  The TensorCore's program as the proof reads it: @main is nine straight stretches of host operations with the four
  SparseCore calls and the four TensorCore kernel regions between them. Call s gathers the rows of the s-th quarter of
  the batch; region s adds that quarter's block losses into a (1,1) cell; the stretches between them reshape the
  gathered negatives, add the cell into the running total and cut the next quarter's index rows; the last stretch
  scales the total by -2^-14.
-/
import proofs.«215899_g5772436046013_cont_9to1c4b_742_31_alg».proof.Proof.KI_Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

abbrev ΛS : Labels := SparseCore.Sig (ΛP (F := F)) 4

/-- Stretch 0 of @main's host operations, in order. -/
abbrev opsH : List (HloOp τ sig (Elt F)) :=
  [ StableHlo.reshape main_arg2 main_v0 rfl shapeCasts_S16384_S4x32x1x128,
    StableHlo.reshape main_arg3 main_v1 rfl shapeCasts_S16384_S4x32x1x128,
    StableHlo.unary main_arg4 main_v2 ((transpose S20x16384 [1, 0] · transposes_S16384x20_S20x16384_1_0) : (⟨S16384x20, .i32⟩ : BufTy).Contents (Elt F) → (⟨S20x16384, .i32⟩ : BufTy).Contents (Elt F)),
    StableHlo.reshape main_v2 main_v3 rfl shapeCasts_S20x16384_S20x4x32x128,
    StableHlo.unary main_v3 main_v4 ((transpose S4x32x20x128 [1, 2, 0, 3] · transposes_S20x4x32x128_S4x32x20x128_1_2_0_3) : (⟨S20x4x32x128, .i32⟩ : BufTy).Contents (Elt F) → (⟨S4x32x20x128, .i32⟩ : BufTy).Contents (Elt F)),
    StableHlo.nullary main_c (constantI S_ 32 0#32),
    StableHlo.unary main_c main_v5 (broadcastInDim S4x32x2x128 ![] bcast_S_S4x32x2x128 : (⟨S_, .i32⟩ : BufTy).Contents (Elt F) → (⟨S4x32x2x128, .i32⟩ : BufTy).Contents (Elt F)),
    StableHlo.nary ![main_v0, main_v1, main_v4, main_v5] main_v6 (fun u => concatenate S4x32x24x128 2 [⟨S4x32x1x128, u 0⟩, ⟨S4x32x1x128, u 1⟩, ⟨S4x32x20x128, u 2⟩, ⟨S4x32x2x128, u 3⟩] concatenates_S4x32x1x128_S4x32x1x128_S4x32x20x128_S4x32x2x128_S4x32x24x128_d2),
    StableHlo.reshape main_v6 main_v7 rfl shapeCasts_S4x32x24x128_S4x768x128,
    StableHlo.nullary main_cst (constant S_ .f32 0x3F800000#32),
    StableHlo.unary main_cst main_v8 (broadcastInDim S1 ![] bcast_S_S1 : (⟨S_, .f32⟩ : BufTy).Contents (Elt F) → (⟨S1, .f32⟩ : BufTy).Contents (Elt F)),
    StableHlo.nullary main_cst_0 (constant S_ .f32 0x3F800000#32),
    StableHlo.unary main_cst_0 main_v9 (broadcastInDim S20 ![] bcast_S_S20 : (⟨S_, .f32⟩ : BufTy).Contents (Elt F) → (⟨S20, .f32⟩ : BufTy).Contents (Elt F)),
    StableHlo.unary main_v9 main_v10 (Host.negf : (⟨S20, .f32⟩ : BufTy).Contents (Elt F) → (⟨S20, .f32⟩ : BufTy).Contents (Elt F)),
    StableHlo.binary main_v8 main_v10 main_v11 ((fun a b => concatenate S21 0 [⟨S1, a⟩, ⟨S20, b⟩] concatenates_S1_S20_S21_d0) : (⟨S1, .f32⟩ : BufTy).Contents (Elt F) → (⟨S20, .f32⟩ : BufTy).Contents (Elt F) → (⟨S21, .f32⟩ : BufTy).Contents (Elt F)),
    StableHlo.nullary main_v12 (iotaInDim S21x21 32 0),
    StableHlo.nullary main_v13 (iotaInDim S21x21 32 1),
    StableHlo.nullary main_c_1 (constantI S_ 32 0#32),
    StableHlo.unary main_c_1 main_v14 (broadcastInDim S21x21 ![] bcast_S_S21x21 : (⟨S_, .i32⟩ : BufTy).Contents (Elt F) → (⟨S21x21, .i32⟩ : BufTy).Contents (Elt F)),
    StableHlo.binary main_v12 main_v14 main_v15 (addi : (⟨S21x21, .i32⟩ : BufTy).Contents (Elt F) → (⟨S21x21, .i32⟩ : BufTy).Contents (Elt F) → (⟨S21x21, .i32⟩ : BufTy).Contents (Elt F)),
    StableHlo.binary main_v15 main_v13 main_v16 (cmpi .eq : (⟨S21x21, .i32⟩ : BufTy).Contents (Elt F) → (⟨S21x21, .i32⟩ : BufTy).Contents (Elt F) → (⟨S21x21, .i1⟩ : BufTy).Contents (Elt F)),
    StableHlo.unary main_v16 main_v17 (uitofp .f32 : (⟨S21x21, .i1⟩ : BufTy).Contents (Elt F) → (⟨S21x21, .f32⟩ : BufTy).Contents (Elt F)),
    StableHlo.unary main_v17 main_v18 (broadcastInDim S21x128x21 ![0, 2] bcast_S21x21_S21x128x21_0_2 : (⟨S21x21, .f32⟩ : BufTy).Contents (Elt F) → (⟨S21x128x21, .f32⟩ : BufTy).Contents (Elt F)),
    StableHlo.reshape main_v18 main_v19 rfl shapeCasts_S21x128x21_S2688x21,
    StableHlo.unary main_v11 main_v20 (broadcastInDim S1x21 ![1] bcast_S21_S1x21_1 : (⟨S21, .f32⟩ : BufTy).Contents (Elt F) → (⟨S1x21, .f32⟩ : BufTy).Contents (Elt F)),
    StableHlo.unary main_v20 main_v21 (broadcastInDim S2688x21 ![0, 1] bcast_S1x21_S2688x21_0_1 : (⟨S1x21, .f32⟩ : BufTy).Contents (Elt F) → (⟨S2688x21, .f32⟩ : BufTy).Contents (Elt F)),
    StableHlo.binary main_v19 main_v21 main_v22 (mulf : (⟨S2688x21, .f32⟩ : BufTy).Contents (Elt F) → (⟨S2688x21, .f32⟩ : BufTy).Contents (Elt F) → (⟨S2688x21, .f32⟩ : BufTy).Contents (Elt F)),
    StableHlo.unary main_v22 main_v23 ((truncf .bf16 · bitsLt_bf16_f32) : (⟨S2688x21, .f32⟩ : BufTy).Contents (Elt F) → (⟨S2688x21, .bf16⟩ : BufTy).Contents (Elt F)),
    StableHlo.nullary main_cst_2 (constant S_ .f32 0x00000000#32),
    StableHlo.unary main_cst_2 main_v24 (broadcastInDim S1x1 ![] bcast_S_S1x1 : (⟨S_, .f32⟩ : BufTy).Contents (Elt F) → (⟨S1x1, .f32⟩ : BufTy).Contents (Elt F)),
    StableHlo.unary main_v7 main_v25 ((extractStridedSlice S1x768x128 ![0, 0, 0] · slices_S4x768x128_S1x768x128_0_0_0) : (⟨S4x768x128, .i32⟩ : BufTy).Contents (Elt F) → (⟨S1x768x128, .i32⟩ : BufTy).Contents (Elt F)),
    StableHlo.reshape main_v25 main_v26 rfl shapeCasts_S1x768x128_S768x128 ]

/-- Stretch 1 of @main's host operations, in order. -/
abbrev opsA0 : List (HloOp τ sig (Elt F)) :=
  [ StableHlo.reshape main_v27_2 main_v28 rfl shapeCasts_S81920x128_S20x4096x128 ]

/-- Stretch 2 of @main's host operations, in order. -/
abbrev opsB0 : List (HloOp τ sig (Elt F)) :=
  [ StableHlo.binary main_v24 main_v29 main_v30 (addf : (⟨S1x1, .f32⟩ : BufTy).Contents (Elt F) → (⟨S1x1, .f32⟩ : BufTy).Contents (Elt F) → (⟨S1x1, .f32⟩ : BufTy).Contents (Elt F)),
    StableHlo.unary main_v7 main_v31 ((extractStridedSlice S1x768x128 ![1, 0, 0] · slices_S4x768x128_S1x768x128_1_0_0) : (⟨S4x768x128, .i32⟩ : BufTy).Contents (Elt F) → (⟨S1x768x128, .i32⟩ : BufTy).Contents (Elt F)),
    StableHlo.reshape main_v31 main_v32 rfl shapeCasts_S1x768x128_S768x128 ]

/-- Stretch 3 of @main's host operations, in order. -/
abbrev opsA1 : List (HloOp τ sig (Elt F)) :=
  [ StableHlo.reshape main_v33_2 main_v34 rfl shapeCasts_S81920x128_S20x4096x128 ]

/-- Stretch 4 of @main's host operations, in order. -/
abbrev opsB1 : List (HloOp τ sig (Elt F)) :=
  [ StableHlo.binary main_v30 main_v35 main_v36 (addf : (⟨S1x1, .f32⟩ : BufTy).Contents (Elt F) → (⟨S1x1, .f32⟩ : BufTy).Contents (Elt F) → (⟨S1x1, .f32⟩ : BufTy).Contents (Elt F)),
    StableHlo.unary main_v7 main_v37 ((extractStridedSlice S1x768x128 ![2, 0, 0] · slices_S4x768x128_S1x768x128_2_0_0) : (⟨S4x768x128, .i32⟩ : BufTy).Contents (Elt F) → (⟨S1x768x128, .i32⟩ : BufTy).Contents (Elt F)),
    StableHlo.reshape main_v37 main_v38 rfl shapeCasts_S1x768x128_S768x128 ]

/-- Stretch 5 of @main's host operations, in order. -/
abbrev opsA2 : List (HloOp τ sig (Elt F)) :=
  [ StableHlo.reshape main_v39_2 main_v40 rfl shapeCasts_S81920x128_S20x4096x128 ]

/-- Stretch 6 of @main's host operations, in order. -/
abbrev opsB2 : List (HloOp τ sig (Elt F)) :=
  [ StableHlo.binary main_v36 main_v41 main_v42 (addf : (⟨S1x1, .f32⟩ : BufTy).Contents (Elt F) → (⟨S1x1, .f32⟩ : BufTy).Contents (Elt F) → (⟨S1x1, .f32⟩ : BufTy).Contents (Elt F)),
    StableHlo.unary main_v7 main_v43 ((extractStridedSlice S1x768x128 ![3, 0, 0] · slices_S4x768x128_S1x768x128_3_0_0) : (⟨S4x768x128, .i32⟩ : BufTy).Contents (Elt F) → (⟨S1x768x128, .i32⟩ : BufTy).Contents (Elt F)),
    StableHlo.reshape main_v43 main_v44 rfl shapeCasts_S1x768x128_S768x128 ]

/-- Stretch 7 of @main's host operations, in order. -/
abbrev opsA3 : List (HloOp τ sig (Elt F)) :=
  [ StableHlo.reshape main_v45_2 main_v46 rfl shapeCasts_S81920x128_S20x4096x128 ]

/-- Stretch 8 of @main's host operations, in order. -/
abbrev opsB3 : List (HloOp τ sig (Elt F)) :=
  [ StableHlo.binary main_v42 main_v47 main_v48 (addf : (⟨S1x1, .f32⟩ : BufTy).Contents (Elt F) → (⟨S1x1, .f32⟩ : BufTy).Contents (Elt F) → (⟨S1x1, .f32⟩ : BufTy).Contents (Elt F)),
    StableHlo.nullary main_cst_3 (constant S_ .f32 0xB8800000#32),
    StableHlo.unary main_cst_3 main_v49 (broadcastInDim S1x1 ![] bcast_S_S1x1 : (⟨S_, .f32⟩ : BufTy).Contents (Elt F) → (⟨S1x1, .f32⟩ : BufTy).Contents (Elt F)),
    StableHlo.binary main_v48 main_v49 main_v50 (mulf : (⟨S1x1, .f32⟩ : BufTy).Contents (Elt F) → (⟨S1x1, .f32⟩ : BufTy).Contents (Elt F) → (⟨S1x1, .f32⟩ : BufTy).Contents (Elt F)),
    StableHlo.reshape main_v50 main_v51 rfl shapeCasts_S1x1_S_ ]

/-- @main is its stretches, calls and regions in order. -/
theorem main_eq (d : Dev nD) : main (F := F) d =
      (seq (Λ := ΛS (F := F)) opsH) >>= fun _ =>
      ((sc (F := F)).run d 0) >>= fun _ =>
      (seq (Λ := ΛS (F := F)) opsA0) >>= fun _ =>
      (Prog.lift (.customCall (SparseCore.inner (Pipeline.entry 0)) ())) >>= fun _ =>
      (seq (Λ := ΛS (F := F)) opsB0) >>= fun _ =>
      ((sc (F := F)).run d 1) >>= fun _ =>
      (seq (Λ := ΛS (F := F)) opsA1) >>= fun _ =>
      (Prog.lift (.customCall (SparseCore.inner (Pipeline.entry 1)) ())) >>= fun _ =>
      (seq (Λ := ΛS (F := F)) opsB1) >>= fun _ =>
      ((sc (F := F)).run d 2) >>= fun _ =>
      (seq (Λ := ΛS (F := F)) opsA2) >>= fun _ =>
      (Prog.lift (.customCall (SparseCore.inner (Pipeline.entry 2)) ())) >>= fun _ =>
      (seq (Λ := ΛS (F := F)) opsB2) >>= fun _ =>
      ((sc (F := F)).run d 3) >>= fun _ =>
      (seq (Λ := ΛS (F := F)) opsA3) >>= fun _ =>
      (Prog.lift (.customCall (SparseCore.inner (Pipeline.entry 3)) ())) >>= fun _ =>
      (seq (Λ := ΛS (F := F)) opsB3) := by
  simp only [main, seq, bind_assoc, pure_bind]

end Cert.Proof.KI

end
-- ==== Proof.KI_Vals.lean ====
/-
  The contents of the TensorCore's arrays along @main, as pure functions of the launch memory: each stretch of host
  operations rewrites what it writes; SparseCore call s leaves the gathered rows of quarter s of the batch in its three
  result arrays; region s leaves that quarter's summed block losses in its (1,1) cell. The program's result is the last
  stretch's final cell, read off this chain.
-/
import proofs.«215899_g5772436046013_cont_9to1c4b_742_31_alg».proof.Proof.KI_Prog

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

/-- What a SparseCore call and a TensorCore region leave in their result arrays, as pure functions of the arrays they
    read: the center rows and the positive context rows (by a table and the index array), the twenty negative context
    rows, and the summed block losses (by the three gathered arrays, the sign matrix, and the cell's previous contents, which the
    region overwrites; one function per region, the four being four printed copies of one kernel). -/
structure Pure (F : FTy → Type) where
  g0 : FVec F S100000x128 .f32 → IVec S768x128 32 → FVec F S4096x128 .f32
  g1 : FVec F S100000x128 .f32 → IVec S768x128 32 → FVec F S4096x128 .f32
  g2 : FVec F S100000x128 .f32 → IVec S768x128 32 → FVec F S81920x128 .f32
  loss0 : FVec F S4096x128 .f32 → FVec F S4096x128 .f32 → FVec F S20x4096x128 .f32 → FVec F S2688x21 .bf16 → FVec F S1x1 .f32 → FVec F S1x1 .f32
  loss1 : FVec F S4096x128 .f32 → FVec F S4096x128 .f32 → FVec F S20x4096x128 .f32 → FVec F S2688x21 .bf16 → FVec F S1x1 .f32 → FVec F S1x1 .f32
  loss2 : FVec F S4096x128 .f32 → FVec F S4096x128 .f32 → FVec F S20x4096x128 .f32 → FVec F S2688x21 .bf16 → FVec F S1x1 .f32 → FVec F S1x1 .f32
  loss3 : FVec F S4096x128 .f32 → FVec F S4096x128 .f32 → FVec F S20x4096x128 .f32 → FVec F S2688x21 .bf16 → FVec F S1x1 .f32 → FVec F S1x1 .f32

variable (𝔭 : Pure F) (m : (ℓ : Loc nD τ sig) → Buf (Elt F) ℓ) (d : Dev nD)

/-- A TensorCore reference as a device buffer. -/
abbrev rT (b : Ref sig .tc) : DevRef τ sig := Proc.devRef .tc b

/-- After the first stretch: the index rows laid out per quarter and worker, the sign matrix, the zero cell. -/
def W1 : Valuation τ sig (Elt F) := after opsH (launchContents m d)

/-- After SparseCore call 0: its three result arrays hold the gathered rows. -/
def W2 : Valuation τ sig (Elt F) :=
  Function.update (Function.update (Function.update (W1 m d) (rT main_v27_0) (𝔭.g0 ((W1 m d) (rT main_arg0)) ((W1 m d) (rT main_v26))))
    (rT main_v27_1) (𝔭.g1 ((W1 m d) (rT main_arg1)) ((W1 m d) (rT main_v26)))) (rT main_v27_2) (𝔭.g2 ((W1 m d) (rT main_arg1)) ((W1 m d) (rT main_v26)))

/-- After the reshape of the negatives' rows to [20, 4096, 128]. -/
def W3 : Valuation τ sig (Elt F) := after opsA0 (W2 𝔭 m d)

/-- After region 0: its cell holds the quarter's summed block losses. -/
def W4 : Valuation τ sig (Elt F) :=
  Function.update (W3 𝔭 m d) (rT main_v29) (𝔭.loss0 ((W3 𝔭 m d) (rT main_v27_0)) ((W3 𝔭 m d) (rT main_v27_1)) ((W3 𝔭 m d) (rT main_v28)) ((W3 𝔭 m d) (rT main_v23)) ((W3 𝔭 m d) (rT main_v29)))

/-- After the stretch that follows region 0. -/
def W5 : Valuation τ sig (Elt F) := after opsB0 (W4 𝔭 m d)

/-- After SparseCore call 1: its three result arrays hold the gathered rows. -/
def W6 : Valuation τ sig (Elt F) :=
  Function.update (Function.update (Function.update (W5 𝔭 m d) (rT main_v33_0) (𝔭.g0 ((W5 𝔭 m d) (rT main_arg0)) ((W5 𝔭 m d) (rT main_v32))))
    (rT main_v33_1) (𝔭.g1 ((W5 𝔭 m d) (rT main_arg1)) ((W5 𝔭 m d) (rT main_v32)))) (rT main_v33_2) (𝔭.g2 ((W5 𝔭 m d) (rT main_arg1)) ((W5 𝔭 m d) (rT main_v32)))

/-- After the reshape of the negatives' rows to [20, 4096, 128]. -/
def W7 : Valuation τ sig (Elt F) := after opsA1 (W6 𝔭 m d)

/-- After region 1: its cell holds the quarter's summed block losses. -/
def W8 : Valuation τ sig (Elt F) :=
  Function.update (W7 𝔭 m d) (rT main_v35) (𝔭.loss1 ((W7 𝔭 m d) (rT main_v33_0)) ((W7 𝔭 m d) (rT main_v33_1)) ((W7 𝔭 m d) (rT main_v34)) ((W7 𝔭 m d) (rT main_v23)) ((W7 𝔭 m d) (rT main_v35)))

/-- After the stretch that follows region 1. -/
def W9 : Valuation τ sig (Elt F) := after opsB1 (W8 𝔭 m d)

/-- After SparseCore call 2: its three result arrays hold the gathered rows. -/
def W10 : Valuation τ sig (Elt F) :=
  Function.update (Function.update (Function.update (W9 𝔭 m d) (rT main_v39_0) (𝔭.g0 ((W9 𝔭 m d) (rT main_arg0)) ((W9 𝔭 m d) (rT main_v38))))
    (rT main_v39_1) (𝔭.g1 ((W9 𝔭 m d) (rT main_arg1)) ((W9 𝔭 m d) (rT main_v38)))) (rT main_v39_2) (𝔭.g2 ((W9 𝔭 m d) (rT main_arg1)) ((W9 𝔭 m d) (rT main_v38)))

/-- After the reshape of the negatives' rows to [20, 4096, 128]. -/
def W11 : Valuation τ sig (Elt F) := after opsA2 (W10 𝔭 m d)

/-- After region 2: its cell holds the quarter's summed block losses. -/
def W12 : Valuation τ sig (Elt F) :=
  Function.update (W11 𝔭 m d) (rT main_v41) (𝔭.loss2 ((W11 𝔭 m d) (rT main_v39_0)) ((W11 𝔭 m d) (rT main_v39_1)) ((W11 𝔭 m d) (rT main_v40)) ((W11 𝔭 m d) (rT main_v23)) ((W11 𝔭 m d) (rT main_v41)))

/-- After the stretch that follows region 2. -/
def W13 : Valuation τ sig (Elt F) := after opsB2 (W12 𝔭 m d)

/-- After SparseCore call 3: its three result arrays hold the gathered rows. -/
def W14 : Valuation τ sig (Elt F) :=
  Function.update (Function.update (Function.update (W13 𝔭 m d) (rT main_v45_0) (𝔭.g0 ((W13 𝔭 m d) (rT main_arg0)) ((W13 𝔭 m d) (rT main_v44))))
    (rT main_v45_1) (𝔭.g1 ((W13 𝔭 m d) (rT main_arg1)) ((W13 𝔭 m d) (rT main_v44)))) (rT main_v45_2) (𝔭.g2 ((W13 𝔭 m d) (rT main_arg1)) ((W13 𝔭 m d) (rT main_v44)))

/-- After the reshape of the negatives' rows to [20, 4096, 128]. -/
def W15 : Valuation τ sig (Elt F) := after opsA3 (W14 𝔭 m d)

/-- After region 3: its cell holds the quarter's summed block losses. -/
def W16 : Valuation τ sig (Elt F) :=
  Function.update (W15 𝔭 m d) (rT main_v47) (𝔭.loss3 ((W15 𝔭 m d) (rT main_v45_0)) ((W15 𝔭 m d) (rT main_v45_1)) ((W15 𝔭 m d) (rT main_v46)) ((W15 𝔭 m d) (rT main_v23)) ((W15 𝔭 m d) (rT main_v47)))

/-- After the stretch that follows region 3. -/
def W17 : Valuation τ sig (Elt F) := after opsB3 (W16 𝔭 m d)

/-- The arrays at @main's end. -/
abbrev Wfin : Valuation τ sig (Elt F) := W17 𝔭 m d

end Cert.Proof.KI

end
-- ==== Proof.KI_Steps.lean ====
/-
  The steps of @main on the TensorCore, each as one rule over the unscoped arrays held whole at a valuation: a
  SparseCore call takes the arrays it hands the SparseCores out of the held set, runs the launch handshake, and puts
  them back at what the tiles left; a straight stretch of host operations is the library's rule.
-/
import proofs.«215899_g5772436046013_cont_9to1c4b_742_31_alg».proof.Proof.KI_Vals
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

local notation "𝕄" => MT nD τ sig (HIx 4) (Elt F) ℕ UU ℕ

variable (P : (K (F := F)).Pay (nD := nD) (Val := Elt F) (Name := ℕ) (U := UU))

/-- A SparseCore call, as the TensorCore sees it, over the held arrays: the arrays `Cs` the call concerns leave the
    held set as the call's operands (`hsplit`), come back as its results (`hjoin`), the rest is untouched. -/
theorem step_call (κ : GSem nD τ sig → ℕ) (d : Dev nD) (q : Fin 4) (W W' : Valuation τ sig (Elt F)) (Cs : Finset (DevRef τ sig))
    (hCs : Cs ⊆ Pipeline.ucRefs τ sig) (hrest : ∀ b ∈ Pipeline.ucRefs τ sig \ Cs, W' b = W b)
    (hsw : (held (T d) Cs W : sProp 𝕄) ⊢ iprop((bigSep Finset.univ fun c : Fin ((K (F := F)).nCore q) => P.st q d c)
      ∗ ((bigSep Finset.univ fun c : Fin ((K (F := F)).nCore q) => P.dn q d c) -∗ (held (T d) Cs W' : sProp 𝕄))))
    {α : Type} (k : PUnit → Prog (TpuEff nD τ sig (Elt F) (ΛS (F := F)) .tc) α) (Φ : α → sProp 𝕄) :
    iprop((K (F := F)).ctx EH P κ ∗ (K (F := F)).tcSt EH d q.val ∗ (held (T d) (Pipeline.ucRefs τ sig) W : sProp 𝕄)
        ∗ (((K (F := F)).tcSt EH d (q.val + 1) ∗ (held (T d) (Pipeline.ucRefs τ sig) W' : sProp 𝕄))
            -∗ wp frame (wpE ((K (F := F)).defs (D (F := F))) 𝒱 (T d) none) Set.univ (k ⟨⟩) Φ))
      ⊢ wp frame (wpE ((K (F := F)).defs (D (F := F))) 𝒱 (T d) none) Set.univ ((sc (F := F)).run d q >>= k) Φ := by
  rw [wp_bind, held_sub_split (T d) hCs W, held_sub_split (T d) hCs W', held_congr (T d) hrest]
  iintro ⟨#Hctx, Hst, ⟨HC, Hrest⟩, Hk⟩
  ihave HC' := (hsw) $$ HC
  icases HC' with ⟨Hops, Hback⟩
  iapply ((K (F := F)).wp_run (D (F := F)) 𝒱 (EH := EH) (P := P) κ d q) $$ [Hst Hops Hback Hrest Hk]
  isplitr; · iexact Hctx
  isplitl [Hst]; · iexact Hst
  isplitl [Hops]; · iexact Hops
  iintro ⟨Hst, Hdn⟩
  iapply Hk
  isplitl [Hst]; · iexact Hst
  isplitl [Hdn Hback]; · iapply Hback; iexact Hdn
  iexact Hrest

/-! ## A TensorCore kernel region inside the SparseCore program -/

omit [FloatOps F] in
/-- The pipelines' staging cells' rounds land in the user component of the model. -/
instance EP_landsIn : (EP : Emb UP 𝕄).LandsIn (upEmb : UEmb _ 𝕄) :=
  Emb.LandsIn.trans_left _ _

variable (a : (p : Fin 4) → (pcfgs (F := F) p).Adm)
  (pdats : (p : Fin 4) → (c : Dev nD) → Pipeline.Dat τ (Elt F) (HIx 4) ℕ UU ℕ (Pipeline.pin (pcfgs (F := F)) a p) c)
  (phinj : Function.Injective (Pipeline.cellOf (nD := nD) (τ := τ) (Pipeline.pin (pcfgs (F := F)) a)))

/-- A call of region `p`'s entry in the SparseCore program's signature is the pipeline program's call of it, carried
    over. -/
theorem lift_entry (p : Fin 4) :
    (Prog.lift (.customCall (SparseCore.inner (Pipeline.entry p)) ()) : Prog (TpuEff nD τ sig (Elt F) (ΛS (F := F)) .tc) PUnit)
      = SparseCore.liftProg (Q := 4) (.op (.customCall (Pipeline.entry p) ()) fun _ => .ret ⟨⟩ : Prog (TpuEff nD τ sig (Elt F) (ΛP (F := F)) .tc) PUnit) := rfl

set_option maxHeartbeats 1600000 in
include phinj in
/-- Region `p` of @main, entered from the boundary with the region's entry state, the level facts and the pipeline's
    ghost state; left at the boundary with its exit state. The pipeline library's rule for the program in its own
    signature, carried to the SparseCore program's extended body table. -/
theorem step_region [∀ e, Nonempty (Elt F e)] (p : Fin 4)
    (R : Pipeline.RegionSeg (pcfgs (F := F)) a pdats (none : HIx 4) defs₀ 𝒱₀ (K (F := F)).L (K (F := F)).lev p) (d : Dev nD)
    {α : Type} (k : PUnit → Prog (TpuEff nD τ sig (Elt F) (ΛS (F := F)) .tc) α) (Φ : α → sProp 𝕄) :
    iprop((iprop(boundary (T d) ∗ R.post d) -∗ wp frame (wpE ((K (F := F)).defs (D (F := F))) 𝒱 (T d) none) Set.univ (k ⟨⟩) Φ)
        ∗ boundary (T d) ∗ R.pre d ∗ levAts (K (F := F)).L (K (F := F)).lev
        ∗ Pipeline.cellsGhost (Pipeline.pin (pcfgs (F := F)) a) EP p d ∗ Pipeline.toksInit (Pipeline.pin (pcfgs (F := F)) a) EP p d)
      ⊢ wp frame (wpE ((K (F := F)).defs (D (F := F))) 𝒱 (T d) none) Set.univ
          (Prog.lift (.customCall (SparseCore.inner (Pipeline.entry p)) ()) >>= k) Φ := by
  rw [wp_bind, lift_entry]
  refine BIBase.Entails.trans ?_ ((K (F := F)).wp_liftProg (D (F := F)) 𝒱 (T d) Set.univ none _ _)
  have h := Pipeline.RegionSeg.wp (Val := Elt F) (Ix := HIx 4) (Name := ℕ) (U := UU) (Lvl := ℕ) (pcfgs (F := F)) a pdats (none : HIx 4) phinj EP
    (defs₀ (F := F)) 𝒱₀ (K (F := F)).L (K (F := F)).lev R d none (fun u hu => absurd hu (Option.not_mem_none u)) (fun _ => .ret ⟨⟩)
    (fun x => wp frame (wpE ((K (F := F)).defs (D (F := F))) 𝒱 (T d) none) Set.univ (k x) Φ)
  refine BIBase.Entails.trans ?_ h
  iintro ⟨Hk, Hb, Hpre, Hlv, Hg, Ht⟩
  isplitl [Hk]
  · iintro H
    rw [wp_ret]; imodintro
    iapply Hk; iexact H
  isplitl [Hb]; · iexact Hb
  isplitl [Hpre]; · iexact Hpre
  isplitl [Hlv]; · iexact Hlv
  isplitl [Hg]; · iexact Hg
  iexact Ht

/-- What the launch deals the TensorCore beside its arrays: each pipeline's staging cells' ghost state, for its region
    to allocate the cells' invariants from. -/
def G (d : Dev nD) : sProp 𝕄 :=
  bigSep Finset.univ fun p : Fin 4 => iprop(Pipeline.cellsGhost (Pipeline.pin (pcfgs (F := F)) a) EP p d ∗ Pipeline.toksInit (Pipeline.pin (pcfgs (F := F)) a) EP p d)

end Cert.Proof.KI

end
-- ==== Proof.KI_Hmain.lean ====
/-
  @main on the TensorCore, from what the launch deals it: the nine stretches of host operations by the library's rule
  for a straight line over the unscoped arrays held whole, each SparseCore call by the launch handshake around the
  tiles' shares of the call's arrays, each TensorCore region by the pipeline's rule from that pipeline's staging
  cells' ghost state; the arrays end at the chain of contents of the program's value.
-/
import proofs.«215899_g5772436046013_cont_9to1c4b_742_31_alg».proof.Proof.KI_Steps

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

local notation "𝕄" => MT nD τ sig (HIx 4) (Elt F) ℕ UU ℕ

/-! ## The stretches only name the TensorCore's unscoped arrays, and allocate nothing -/

theorem opsH_sub : (opsH (F := F)).Forall fun op => op.bufs ⊆ tcRefs τ sig :=
  ⟨reshape_bufs_sub .., reshape_bufs_sub .., unary_bufs_sub .., reshape_bufs_sub .., unary_bufs_sub .., nullary_bufs_sub .., unary_bufs_sub .., nary_bufs_sub .., reshape_bufs_sub .., nullary_bufs_sub .., unary_bufs_sub .., nullary_bufs_sub .., unary_bufs_sub .., unary_bufs_sub .., binary_bufs_sub .., nullary_bufs_sub .., nullary_bufs_sub .., nullary_bufs_sub .., unary_bufs_sub .., binary_bufs_sub .., binary_bufs_sub .., unary_bufs_sub .., unary_bufs_sub .., reshape_bufs_sub .., unary_bufs_sub .., unary_bufs_sub .., binary_bufs_sub .., unary_bufs_sub .., nullary_bufs_sub .., unary_bufs_sub .., unary_bufs_sub .., reshape_bufs_sub ..⟩
theorem opsH_fresh : (opsH (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsH_uc : ∀ op ∈ opsH (F := F), op.bufs ⊆ Pipeline.ucRefs τ sig :=
  fun op h => Pipeline.sub_ucRefs op (List.forall_iff_forall_mem.mp opsH_sub op h)
theorem opsH_fr : ∀ op ∈ opsH (F := F), op.fresh = ∅ := List.forall_iff_forall_mem.mp opsH_fresh

theorem opsA0_sub : (opsA0 (F := F)).Forall fun op => op.bufs ⊆ tcRefs τ sig :=
  reshape_bufs_sub ..
theorem opsA0_fresh : (opsA0 (F := F)).Forall fun op => op.fresh = ∅ :=
  rfl
theorem opsA0_uc : ∀ op ∈ opsA0 (F := F), op.bufs ⊆ Pipeline.ucRefs τ sig :=
  fun op h => Pipeline.sub_ucRefs op (List.forall_iff_forall_mem.mp opsA0_sub op h)
theorem opsA0_fr : ∀ op ∈ opsA0 (F := F), op.fresh = ∅ := List.forall_iff_forall_mem.mp opsA0_fresh

theorem opsB0_sub : (opsB0 (F := F)).Forall fun op => op.bufs ⊆ tcRefs τ sig :=
  ⟨binary_bufs_sub .., unary_bufs_sub .., reshape_bufs_sub ..⟩
theorem opsB0_fresh : (opsB0 (F := F)).Forall fun op => op.fresh = ∅ :=
  ⟨rfl, rfl, rfl⟩
theorem opsB0_uc : ∀ op ∈ opsB0 (F := F), op.bufs ⊆ Pipeline.ucRefs τ sig :=
  fun op h => Pipeline.sub_ucRefs op (List.forall_iff_forall_mem.mp opsB0_sub op h)
theorem opsB0_fr : ∀ op ∈ opsB0 (F := F), op.fresh = ∅ := List.forall_iff_forall_mem.mp opsB0_fresh

theorem opsA1_sub : (opsA1 (F := F)).Forall fun op => op.bufs ⊆ tcRefs τ sig :=
  reshape_bufs_sub ..
theorem opsA1_fresh : (opsA1 (F := F)).Forall fun op => op.fresh = ∅ :=
  rfl
theorem opsA1_uc : ∀ op ∈ opsA1 (F := F), op.bufs ⊆ Pipeline.ucRefs τ sig :=
  fun op h => Pipeline.sub_ucRefs op (List.forall_iff_forall_mem.mp opsA1_sub op h)
theorem opsA1_fr : ∀ op ∈ opsA1 (F := F), op.fresh = ∅ := List.forall_iff_forall_mem.mp opsA1_fresh

theorem opsB1_sub : (opsB1 (F := F)).Forall fun op => op.bufs ⊆ tcRefs τ sig :=
  ⟨binary_bufs_sub .., unary_bufs_sub .., reshape_bufs_sub ..⟩
theorem opsB1_fresh : (opsB1 (F := F)).Forall fun op => op.fresh = ∅ :=
  ⟨rfl, rfl, rfl⟩
theorem opsB1_uc : ∀ op ∈ opsB1 (F := F), op.bufs ⊆ Pipeline.ucRefs τ sig :=
  fun op h => Pipeline.sub_ucRefs op (List.forall_iff_forall_mem.mp opsB1_sub op h)
theorem opsB1_fr : ∀ op ∈ opsB1 (F := F), op.fresh = ∅ := List.forall_iff_forall_mem.mp opsB1_fresh

theorem opsA2_sub : (opsA2 (F := F)).Forall fun op => op.bufs ⊆ tcRefs τ sig :=
  reshape_bufs_sub ..
theorem opsA2_fresh : (opsA2 (F := F)).Forall fun op => op.fresh = ∅ :=
  rfl
theorem opsA2_uc : ∀ op ∈ opsA2 (F := F), op.bufs ⊆ Pipeline.ucRefs τ sig :=
  fun op h => Pipeline.sub_ucRefs op (List.forall_iff_forall_mem.mp opsA2_sub op h)
theorem opsA2_fr : ∀ op ∈ opsA2 (F := F), op.fresh = ∅ := List.forall_iff_forall_mem.mp opsA2_fresh

theorem opsB2_sub : (opsB2 (F := F)).Forall fun op => op.bufs ⊆ tcRefs τ sig :=
  ⟨binary_bufs_sub .., unary_bufs_sub .., reshape_bufs_sub ..⟩
theorem opsB2_fresh : (opsB2 (F := F)).Forall fun op => op.fresh = ∅ :=
  ⟨rfl, rfl, rfl⟩
theorem opsB2_uc : ∀ op ∈ opsB2 (F := F), op.bufs ⊆ Pipeline.ucRefs τ sig :=
  fun op h => Pipeline.sub_ucRefs op (List.forall_iff_forall_mem.mp opsB2_sub op h)
theorem opsB2_fr : ∀ op ∈ opsB2 (F := F), op.fresh = ∅ := List.forall_iff_forall_mem.mp opsB2_fresh

theorem opsA3_sub : (opsA3 (F := F)).Forall fun op => op.bufs ⊆ tcRefs τ sig :=
  reshape_bufs_sub ..
theorem opsA3_fresh : (opsA3 (F := F)).Forall fun op => op.fresh = ∅ :=
  rfl
theorem opsA3_uc : ∀ op ∈ opsA3 (F := F), op.bufs ⊆ Pipeline.ucRefs τ sig :=
  fun op h => Pipeline.sub_ucRefs op (List.forall_iff_forall_mem.mp opsA3_sub op h)
theorem opsA3_fr : ∀ op ∈ opsA3 (F := F), op.fresh = ∅ := List.forall_iff_forall_mem.mp opsA3_fresh

theorem opsB3_sub : (opsB3 (F := F)).Forall fun op => op.bufs ⊆ tcRefs τ sig :=
  ⟨binary_bufs_sub .., nullary_bufs_sub .., unary_bufs_sub .., binary_bufs_sub .., reshape_bufs_sub ..⟩
theorem opsB3_fresh : (opsB3 (F := F)).Forall fun op => op.fresh = ∅ :=
  ⟨rfl, rfl, rfl, rfl, rfl⟩
theorem opsB3_uc : ∀ op ∈ opsB3 (F := F), op.bufs ⊆ Pipeline.ucRefs τ sig :=
  fun op h => Pipeline.sub_ucRefs op (List.forall_iff_forall_mem.mp opsB3_sub op h)
theorem opsB3_fr : ∀ op ∈ opsB3 (F := F), op.fresh = ∅ := List.forall_iff_forall_mem.mp opsB3_fresh

/-! ## The arrays each call concerns, and that it leaves the others alone -/

abbrev CallRefs0 : Finset (DevRef τ sig) := {rT main_arg0, rT main_arg1, rT main_v26, rT main_v27_0, rT main_v27_1, rT main_v27_2}
theorem CallRefs0_uc : CallRefs0 ⊆ Pipeline.ucRefs τ sig := by decide

abbrev CallRefs1 : Finset (DevRef τ sig) := {rT main_arg0, rT main_arg1, rT main_v32, rT main_v33_0, rT main_v33_1, rT main_v33_2}
theorem CallRefs1_uc : CallRefs1 ⊆ Pipeline.ucRefs τ sig := by decide

abbrev CallRefs2 : Finset (DevRef τ sig) := {rT main_arg0, rT main_arg1, rT main_v38, rT main_v39_0, rT main_v39_1, rT main_v39_2}
theorem CallRefs2_uc : CallRefs2 ⊆ Pipeline.ucRefs τ sig := by decide

abbrev CallRefs3 : Finset (DevRef τ sig) := {rT main_arg0, rT main_arg1, rT main_v44, rT main_v45_0, rT main_v45_1, rT main_v45_2}
theorem CallRefs3_uc : CallRefs3 ⊆ Pipeline.ucRefs τ sig := by decide

variable (𝔭 : Pure F) (m : (ℓ : Loc nD τ sig) → Buf (Elt F) ℓ) (ρ : Dev nD → PrngReg) (d : Dev nD)

theorem W2_rest (b : DevRef τ sig) (hb : b ∈ Pipeline.ucRefs τ sig \ CallRefs0) : W2 𝔭 m d b = W1 m d b := by
  have hb' := (Finset.mem_sdiff.mp hb).2
  simp only [CallRefs0, Finset.mem_insert, Finset.mem_singleton, not_or] at hb'
  unfold W2
  rw [Function.update_of_ne hb'.2.2.2.2.2, Function.update_of_ne hb'.2.2.2.2.1, Function.update_of_ne hb'.2.2.2.1]

theorem W6_rest (b : DevRef τ sig) (hb : b ∈ Pipeline.ucRefs τ sig \ CallRefs1) : W6 𝔭 m d b = W5 𝔭 m d b := by
  have hb' := (Finset.mem_sdiff.mp hb).2
  simp only [CallRefs1, Finset.mem_insert, Finset.mem_singleton, not_or] at hb'
  unfold W6
  rw [Function.update_of_ne hb'.2.2.2.2.2, Function.update_of_ne hb'.2.2.2.2.1, Function.update_of_ne hb'.2.2.2.1]

theorem W10_rest (b : DevRef τ sig) (hb : b ∈ Pipeline.ucRefs τ sig \ CallRefs2) : W10 𝔭 m d b = W9 𝔭 m d b := by
  have hb' := (Finset.mem_sdiff.mp hb).2
  simp only [CallRefs2, Finset.mem_insert, Finset.mem_singleton, not_or] at hb'
  unfold W10
  rw [Function.update_of_ne hb'.2.2.2.2.2, Function.update_of_ne hb'.2.2.2.2.1, Function.update_of_ne hb'.2.2.2.1]

theorem W14_rest (b : DevRef τ sig) (hb : b ∈ Pipeline.ucRefs τ sig \ CallRefs3) : W14 𝔭 m d b = W13 𝔭 m d b := by
  have hb' := (Finset.mem_sdiff.mp hb).2
  simp only [CallRefs3, Finset.mem_insert, Finset.mem_singleton, not_or] at hb'
  unfold W14
  rw [Function.update_of_ne hb'.2.2.2.2.2, Function.update_of_ne hb'.2.2.2.2.1, Function.update_of_ne hb'.2.2.2.1]

/-! ## @main -/

variable (P : (K (F := F)).Pay (nD := nD) (Val := Elt F) (Name := ℕ) (U := UU))
  (a : (p : Fin 4) → (pcfgs (F := F) p).Adm)

/-- The unscoped arrays the launch deals the TensorCore are the unscoped references held whole at the launch contents. -/
theorem launch_held : (unscopedBufs d (fun b => m ((SparseCore.T d : Thread nD τ).loc b)) : sProp 𝕄) = held (SparseCore.T d) (Pipeline.ucRefs τ sig) (launchContents m d) :=
  Pipeline.unscopedBufs_held (Ix := HIx 4) (Name := ℕ) (U := UU) (Lvl := ℕ) d (launchContents m d)

/-- The arrays at @main's end, held whole: what the claim reads. -/
abbrev FIN : sProp 𝕄 := held (T d) (Pipeline.ucRefs τ sig) (Wfin 𝔭 m d)

/-- A region's step in the shape @main's proof consumes it: the arrays from one valuation to the next, the
    TensorCore's handshake state carried through. -/
abbrev RegionStep (p : Fin 4) (n : ℕ) (W W' : Valuation τ sig (Elt F)) : Prop :=
  ∀ (κ : GSem nD τ sig → ℕ) {α : Type} (k : PUnit → Prog (TpuEff nD τ sig (Elt F) (ΛS (F := F)) .tc) α) (Φ : α → sProp 𝕄),
    iprop((iprop(boundary (T d) ∗ (held (T d) (Pipeline.ucRefs τ sig) W' : sProp 𝕄) ∗ (K (F := F)).tcSt EH d n)
            -∗ wp frame (wpE ((K (F := F)).defs (D (F := F))) 𝒱 (T d) none) Set.univ (k ⟨⟩) Φ)
        ∗ boundary (T d) ∗ (held (T d) (Pipeline.ucRefs τ sig) W : sProp 𝕄) ∗ (K (F := F)).tcSt EH d n ∗ (K (F := F)).ctx EH P κ
        ∗ Pipeline.cellsGhost (Pipeline.pin (pcfgs (F := F)) a) EP p d ∗ Pipeline.toksInit (Pipeline.pin (pcfgs (F := F)) a) EP p d)
      ⊢ wp frame (wpE ((K (F := F)).defs (D (F := F))) 𝒱 (T d) none) Set.univ
          (Prog.lift (.customCall (SparseCore.inner (Pipeline.entry p)) ()) >>= k) Φ

/-- A call's operands out of the held arrays and its results back, in the shape @main's proof consumes it. -/
abbrev CallStep (q : Fin 4) (Cs : Finset (DevRef τ sig)) (W W' : Valuation τ sig (Elt F)) : Prop :=
  (held (T d) Cs W : sProp 𝕄) ⊢ iprop((bigSep Finset.univ fun c : Fin ((K (F := F)).nCore q) => P.st q d c)
      ∗ ((bigSep Finset.univ fun c : Fin ((K (F := F)).nCore q) => P.dn q d c) -∗ (held (T d) Cs W' : sProp 𝕄)))

set_option backward.isDefEq.respectTransparency.types false in
theorem hmain (κ : GSem nD τ sig → ℕ)
    (hcall0 : CallStep d P 0 CallRefs0 (W1 m d) (W2 𝔭 m d))
    (hreg0 : RegionStep d P a 0 1 (W3 𝔭 m d) (W4 𝔭 m d))
    (hcall1 : CallStep d P 1 CallRefs1 (W5 𝔭 m d) (W6 𝔭 m d))
    (hreg1 : RegionStep d P a 1 2 (W7 𝔭 m d) (W8 𝔭 m d))
    (hcall2 : CallStep d P 2 CallRefs2 (W9 𝔭 m d) (W10 𝔭 m d))
    (hreg2 : RegionStep d P a 2 3 (W11 𝔭 m d) (W12 𝔭 m d))
    (hcall3 : CallStep d P 3 CallRefs3 (W13 𝔭 m d) (W14 𝔭 m d))
    (hreg3 : RegionStep d P a 3 4 (W15 𝔭 m d) (W16 𝔭 m d))
    : iprop((K (F := F)).ctx EH P κ ∗ (K (F := F)).tcSt EH d 0 ∗ (K (F := F)).tcRes m ρ d ∗ G (F := F) a d)
      ⊢ wp frame (wpE ((K (F := F)).defs (D (F := F))) 𝒱 (T d) none) Set.univ (main d)
          fun _ => iprop((K (F := F)).tcSt EH d 4 ∗ FIN 𝔭 m d) := by
  unfold SparseCore.Cfg.tcRes G
  rw [main_eq, launch_held m d,
    show (Finset.univ : Finset (Fin 4)) = {0, 1, 2, 3} by decide, SparseCore.bigSep_insert' (by decide), SparseCore.bigSep_insert' (by decide),
    SparseCore.bigSep_insert' (by decide), bigSep_singleton, ← bind_pure (seq (Λ := ΛS (F := F)) opsB3)]
  iintro ⟨#Hctx, Hst, ⟨Hb, Hheld, -, -⟩, ⟨Hg0, Ht0⟩, ⟨Hg1, Ht1⟩, ⟨Hg2, Ht2⟩, ⟨Hg3, Ht3⟩⟩
  -- the first stretch
  iapply (wp_seq 𝒱 none Set.univ d (Pipeline.ucRefs τ sig) _ opsH opsH_uc opsH_fr (launchContents m d)) $$ [Hb Hheld]
  · isplitl [Hb]; · iexact Hb
    iexact Hheld
  iintro ⟨Hb, Hheld⟩
  -- call 0
  iapply (step_call P κ d 0 (W1 m d) (W2 𝔭 m d) CallRefs0 CallRefs0_uc (W2_rest 𝔭 m d) hcall0 _ _) $$ [Hst Hheld Hb Hg0 Ht0 Hg1 Ht1 Hg2 Ht2 Hg3 Ht3]
  isplitr; · iexact Hctx
  isplitl [Hst]; · iexact Hst
  isplitl [Hheld]; · iexact Hheld
  iintro ⟨Hst, Hheld⟩
  -- the negatives' rows reshaped
  iapply (wp_seq 𝒱 none Set.univ d (Pipeline.ucRefs τ sig) _ opsA0 opsA0_uc opsA0_fr (W2 𝔭 m d)) $$ [Hb Hheld]
  · isplitl [Hb]; · iexact Hb
    iexact Hheld
  iintro ⟨Hb, Hheld⟩
  -- region 0
  iapply (hreg0 κ _ _) $$ [Hb Hheld Hst Hg0 Ht0 Hg1 Ht1 Hg2 Ht2 Hg3 Ht3]
  isplitr [Hb Hheld Hst Hg0 Ht0]
  swap
  · isplitl [Hb]; · iexact Hb
    isplitl [Hheld]; · iexact Hheld
    isplitl [Hst]; · iexact Hst
    isplitr; · iexact Hctx
    isplitl [Hg0]; · iexact Hg0
    iexact Ht0
  iintro ⟨Hb, Hheld, Hst⟩
  -- the stretch after region 0
  iapply (wp_seq 𝒱 none Set.univ d (Pipeline.ucRefs τ sig) _ opsB0 opsB0_uc opsB0_fr (W4 𝔭 m d)) $$ [Hb Hheld]
  · isplitl [Hb]; · iexact Hb
    iexact Hheld
  iintro ⟨Hb, Hheld⟩
  -- call 1
  iapply (step_call P κ d 1 (W5 𝔭 m d) (W6 𝔭 m d) CallRefs1 CallRefs1_uc (W6_rest 𝔭 m d) hcall1 _ _) $$ [Hst Hheld Hb Hg1 Ht1 Hg2 Ht2 Hg3 Ht3]
  isplitr; · iexact Hctx
  isplitl [Hst]; · iexact Hst
  isplitl [Hheld]; · iexact Hheld
  iintro ⟨Hst, Hheld⟩
  -- the negatives' rows reshaped
  iapply (wp_seq 𝒱 none Set.univ d (Pipeline.ucRefs τ sig) _ opsA1 opsA1_uc opsA1_fr (W6 𝔭 m d)) $$ [Hb Hheld]
  · isplitl [Hb]; · iexact Hb
    iexact Hheld
  iintro ⟨Hb, Hheld⟩
  -- region 1
  iapply (hreg1 κ _ _) $$ [Hb Hheld Hst Hg1 Ht1 Hg2 Ht2 Hg3 Ht3]
  isplitr [Hb Hheld Hst Hg1 Ht1]
  swap
  · isplitl [Hb]; · iexact Hb
    isplitl [Hheld]; · iexact Hheld
    isplitl [Hst]; · iexact Hst
    isplitr; · iexact Hctx
    isplitl [Hg1]; · iexact Hg1
    iexact Ht1
  iintro ⟨Hb, Hheld, Hst⟩
  -- the stretch after region 1
  iapply (wp_seq 𝒱 none Set.univ d (Pipeline.ucRefs τ sig) _ opsB1 opsB1_uc opsB1_fr (W8 𝔭 m d)) $$ [Hb Hheld]
  · isplitl [Hb]; · iexact Hb
    iexact Hheld
  iintro ⟨Hb, Hheld⟩
  -- call 2
  iapply (step_call P κ d 2 (W9 𝔭 m d) (W10 𝔭 m d) CallRefs2 CallRefs2_uc (W10_rest 𝔭 m d) hcall2 _ _) $$ [Hst Hheld Hb Hg2 Ht2 Hg3 Ht3]
  isplitr; · iexact Hctx
  isplitl [Hst]; · iexact Hst
  isplitl [Hheld]; · iexact Hheld
  iintro ⟨Hst, Hheld⟩
  -- the negatives' rows reshaped
  iapply (wp_seq 𝒱 none Set.univ d (Pipeline.ucRefs τ sig) _ opsA2 opsA2_uc opsA2_fr (W10 𝔭 m d)) $$ [Hb Hheld]
  · isplitl [Hb]; · iexact Hb
    iexact Hheld
  iintro ⟨Hb, Hheld⟩
  -- region 2
  iapply (hreg2 κ _ _) $$ [Hb Hheld Hst Hg2 Ht2 Hg3 Ht3]
  isplitr [Hb Hheld Hst Hg2 Ht2]
  swap
  · isplitl [Hb]; · iexact Hb
    isplitl [Hheld]; · iexact Hheld
    isplitl [Hst]; · iexact Hst
    isplitr; · iexact Hctx
    isplitl [Hg2]; · iexact Hg2
    iexact Ht2
  iintro ⟨Hb, Hheld, Hst⟩
  -- the stretch after region 2
  iapply (wp_seq 𝒱 none Set.univ d (Pipeline.ucRefs τ sig) _ opsB2 opsB2_uc opsB2_fr (W12 𝔭 m d)) $$ [Hb Hheld]
  · isplitl [Hb]; · iexact Hb
    iexact Hheld
  iintro ⟨Hb, Hheld⟩
  -- call 3
  iapply (step_call P κ d 3 (W13 𝔭 m d) (W14 𝔭 m d) CallRefs3 CallRefs3_uc (W14_rest 𝔭 m d) hcall3 _ _) $$ [Hst Hheld Hb Hg3 Ht3]
  isplitr; · iexact Hctx
  isplitl [Hst]; · iexact Hst
  isplitl [Hheld]; · iexact Hheld
  iintro ⟨Hst, Hheld⟩
  -- the negatives' rows reshaped
  iapply (wp_seq 𝒱 none Set.univ d (Pipeline.ucRefs τ sig) _ opsA3 opsA3_uc opsA3_fr (W14 𝔭 m d)) $$ [Hb Hheld]
  · isplitl [Hb]; · iexact Hb
    iexact Hheld
  iintro ⟨Hb, Hheld⟩
  -- region 3
  iapply (hreg3 κ _ _) $$ [Hb Hheld Hst Hg3 Ht3]
  isplitr [Hb Hheld Hst Hg3 Ht3]
  swap
  · isplitl [Hb]; · iexact Hb
    isplitl [Hheld]; · iexact Hheld
    isplitl [Hst]; · iexact Hst
    isplitr; · iexact Hctx
    isplitl [Hg3]; · iexact Hg3
    iexact Ht3
  iintro ⟨Hb, Hheld, Hst⟩
  -- the stretch after region 3
  iapply (wp_seq 𝒱 none Set.univ d (Pipeline.ucRefs τ sig) _ opsB3 opsB3_uc opsB3_fr (W16 𝔭 m d)) $$ [Hb Hheld]
  · isplitl [Hb]; · iexact Hb
    iexact Hheld
  iintro ⟨Hb, Hheld⟩
  rw [wp_pure]
  imodintro
  isplitl [Hst]; · iexact Hst
  iexact Hheld

end Cert.Proof.KI

end
-- ==== Proof.KI_Run.lean ====
/-
  The launch: the four SparseCore calls' handshake payloads (a SparseCore is handed exactly its sixteen tiles' shares, so
  splitting them among the tiles is the identity), the launch element of the ghost state (the handshakes' rounds, the
  four TensorCore pipelines' staging cells funded for their regions, the tiles' transfer counters), and the launch
  theorem applied to the tiles' obligations and the TensorCore's proof of @main.
-/
import proofs.«215899_g5772436046013_cont_9to1c4b_742_31_alg».proof.Proof.KI_Steps

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

local notation "𝕄" => MT nD τ sig (HIx 4) (Elt F) ℕ UU ℕ

/-! ## The handshakes' payloads -/

/-- A SparseCore is handed its tiles' shares together and hands their results back together; no kernel proof
    consumes anything of the launch's. -/
def mkP (gof tdf : (q : Fin 4) → Dev nD → Fin ((K (F := F)).nCore q) → Fin ((K (F := F)).nSub q) → sProp 𝕄) :
    (K (F := F)).Pay (nD := nD) (Val := Elt F) (Name := ℕ) (U := UU) :=
  { st := fun q d c => bigSep Finset.univ fun i => gof q d c i
    dn := fun q d c => bigSep Finset.univ fun i => tdf q d c i
    go := gof
    td := tdf
    x := fun _ _ => iprop(emp) }

omit [FloatOps F] in
/-- Handing a SparseCore's operands to its tiles and gathering their results is the identity, when the SparseCore's
    payloads are its tiles' together. -/
theorem vecSplit_of (P : (K (F := F)).Pay (nD := nD) (Val := Elt F) (Name := ℕ) (U := UU)) (q : Fin 4)
    (hst : ∀ d c, P.st q d c = bigSep Finset.univ fun i => P.go q d c i) (hdn : ∀ d c, P.dn q d c = bigSep Finset.univ fun i => P.td q d c i) :
    (K (F := F)).VecSplit' P q := by
  intro d c
  rw [hst, hdn]
  iintro H
  imodintro
  isplitl [H]
  · iexact H
  · iintro H2
    iexact H2

theorem vecSplit (gof tdf : (q : Fin 4) → Dev nD → Fin ((K (F := F)).nCore q) → Fin ((K (F := F)).nSub q) → sProp 𝕄) (q : Fin 4) :
    (K (F := F)).VecSplit' (mkP gof tdf) q :=
  vecSplit_of (mkP gof tdf) q (fun _ _ => rfl) (fun _ _ => rfl)

/-- The payloads are storable when every tile's share is. -/
theorem mkP_storable (gof tdf : (q : Fin 4) → Dev nD → Fin ((K (F := F)).nCore q) → Fin ((K (F := F)).nSub q) → sProp 𝕄)
    (hg : ∀ q d c i, BI.Storable (upEmb : UEmb _ 𝕄) (gof q d c i)) (ht : ∀ q d c i, BI.Storable (upEmb : UEmb _ 𝕄) (tdf q d c i)) :
    (mkP gof tdf).IsStorable where
  st q d c := by
    haveI := hg q d c
    unfold mkP; infer_instance
  dn q d c := by
    haveI := ht q d c
    unfold mkP; infer_instance
  go q d c i := by unfold mkP; exact hg q d c i
  td q d c i := by unfold mkP; exact ht q d c i

/-! ## The launch element -/

variable (a : (p : Fin 4) → (pcfgs (F := F) p).Adm)
  (phinj : Function.Injective (Pipeline.cellOf (nD := nD) (τ := τ) (Pipeline.pin (pcfgs (F := F)) a)))

def u₀ : UU := (initOf (K (F := F)).hsCells (K (F := F)).hsToks,
  (initOf (Pipeline.cells (Pipeline.pin (pcfgs (F := F)) a) phinj) (Pipeline.launchToks (Pipeline.pin (pcfgs (F := F)) a) phinj), 1))

omit [FloatOps F] in
theorem bigSep_emp' {I : Type} (s : Finset I) : (bigSep s fun _ => iprop(emp)) = (iprop(emp) : sProp 𝕄) := bigSep_emp_const s

theorem hu₀ (gof tdf : (q : Fin 4) → Dev nD → Fin ((K (F := F)).nCore q) → Fin ((K (F := F)).nSub q) → sProp 𝕄)
    (a : (p : Fin 4) → (pcfgs (F := F) p).Adm)
    (phinj : Function.Injective (Pipeline.cellOf (nD := nD) (τ := τ) (Pipeline.pin (pcfgs (F := F)) a))) :
    (ownU (u₀ (F := F) a phinj) : sProp 𝕄)
    ⊢ |={Set.univ}=> iprop(BI.own (EH (initOf (K (F := F)).hsCells (K (F := F)).hsToks)) ∗ (bigSep Finset.univ fun d : Dev nD => G (F := F) a d)
        ∗ bigSep Finset.univ fun thr : Thread nD τ => bigSep Finset.univ fun q : Fin 4 => (mkP gof tdf).x q thr) := by
  unfold u₀
  iintro Hu
  ihave H := (ownU_pair _ _) $$ Hu
  icases H with ⟨HH, HR⟩
  ihave HR' := (own_pair_emb embR _ _) $$ HR
  icases HR' with ⟨HP, -⟩
  imod (Pipeline.fund_ghost (Pipeline.pin (pcfgs (F := F)) a) EP phinj) $$ HP with ⟨Hg, Ht⟩
  imodintro
  isplitl [HH]; · iexact HH
  isplitl [Hg Ht]
  · unfold G
    rw [bigSep_congr fun d _ => bigSep_sep' (Finset.univ : Finset (Fin 4)) _ _, bigSep_sep']
    isplitl [Hg] <;> iassumption
  unfold mkP; dsimp only
  rw [show (bigSep Finset.univ fun _ : Thread nD τ => bigSep Finset.univ fun _ : Fin 4 => (iprop(emp) : sProp 𝕄)) = iprop(emp) from by
    rw [bigSep_congr fun _ _ => bigSep_emp' _, bigSep_emp']]
  iempintro

end Cert.Proof.KI

end
-- ==== Proof.KI_TileRes.lean ====
/-
  What one vector subcore of call 0 is handed and hands back: the six arrays of the call, the slices of them a
  tile owns (as the program takes them, with their row ranges in closed form), the three results as whole-array
  functions of the tables and the index array, and the resources a tile receives and returns.
-/
import proofs.«215899_g5772436046013_cont_9to1c4b_742_31_alg».proof.Proof.KI_Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## The arrays of call 0 and a tile's place

Call 0 reads the two embedding tables and the index array whole and writes three result arrays. Worker
`wid = 2 * subcore + core` owns rows `24 * wid … 24 * wid + 23` of the index array (row 0 the centre words,
row 1 the positive words, rows 2 … 21 the twenty negative draws, 128 words each), rows
`128 * wid … 128 * wid + 127` of the first two results and, for each draw `j`, rows
`4096 * j + 128 * wid …` of the third. -/

abbrev t0Loc (d : Dev nD) : Loc nD τ sig := (SparseCore.T d).loc main_arg0
abbrev t1Loc (d : Dev nD) : Loc nD τ sig := (SparseCore.T d).loc main_arg1
abbrev ixLoc (d : Dev nD) : Loc nD τ sig := (SparseCore.T d).loc main_v26
abbrev o0Loc (d : Dev nD) : Loc nD τ sig := (SparseCore.T d).loc main_v27_0
abbrev o1Loc (d : Dev nD) : Loc nD τ sig := (SparseCore.T d).loc main_v27_1
abbrev o2Loc (d : Dev nD) : Loc nD τ sig := (SparseCore.T d).loc main_v27_2

abbrev t0V : Memref sig .scVector .hbm S100000x128 .f32 := Memref.whole main_arg0_scv
abbrev t1V : Memref sig .scVector .hbm S100000x128 .f32 := Memref.whole main_arg1_scv
abbrev ixV : Memref sig .scVector .hbm S768x128 .i32 := Memref.whole main_v26_scv
abbrev o0V : Memref sig .scVector .hbm S4096x128 .f32 := Memref.whole main_v27_0_scv
abbrev o1V : Memref sig .scVector .hbm S4096x128 .f32 := Memref.whole main_v27_1_scv
abbrev o2V : Memref sig .scVector .hbm S81920x128 .f32 := Memref.whole main_v27_2_scv

/-- A tile's grid coordinates from its core and subcore numbers. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

theorem bound_zero : grid0.bound 0 = 2 := rfl
theorem bound_one : grid0.bound 1 = 16 := rfl

/-- The worker number of a tile. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-! ## The slices, as the program takes them -/

abbrev ixRect (L : grid0.Coords) : Rect S768x128 := Rect.unit (s := S768x128) (k0_off1 L) S24x128.size (k0_off1_inb L)
abbrev ixSl (L : grid0.Coords) : Memref sig .scVector .hbm S24x128 .i32 := (ixV).slice (ixRect L) (fun _ => rfl)
abbrev oRect (L : grid0.Coords) : Rect S4096x128 := Rect.unit (s := S4096x128) (k0_off7 L) S128x128.size (k0_off7_inb L)
abbrev o0Sl (L : grid0.Coords) : Memref sig .scVector .hbm S128x128 .f32 := (o0V).slice (oRect L) (fun _ => rfl)
abbrev o1Sl (L : grid0.Coords) : Memref sig .scVector .hbm S128x128 .f32 := (o1V).slice (oRect L) (fun _ => rfl)

/-- Where draw `j`'s block of a tile begins in the third result. -/
def negOff (L : grid0.Coords) (j : ℕ) : Fin 2 → ℕ := ![128 * wid L + 4096 * j, 0]

theorem negOff_inb (L : grid0.Coords) (j : Fin 20) : ∀ a, negOff L j.val a + S128x128.size a ≤ S81920x128.size a := by
  have hw := wid_lt L; have hj := j.isLt
  intro a
  match a with
  | 0 => show 128 * wid L + 4096 * j.val + 128 ≤ 81920; omega
  | 1 => show 0 + 128 ≤ 128; omega

abbrev negRect (L : grid0.Coords) (j : Fin 20) : Rect S81920x128 := Rect.unit (s := S81920x128) (negOff L j.val) S128x128.size (negOff_inb L j)
abbrev negSl (L : grid0.Coords) (j : Fin 20) : Memref sig .scVector .hbm S128x128 .f32 := (o2V).slice (negRect L j) (fun _ => rfl)

theorem k0_off1_wid (L : grid0.Coords) : k0_off1 L = ![24 * wid L, 0] := by
  rw [k0_off1_eq]; unfold wid; congr 1; omega

theorem k0_off7_wid (L : grid0.Coords) : k0_off7 L = ![128 * wid L, 0] := by
  rw [k0_off7_eq]; unfold wid; congr 1; omega

theorem k0_off2_wid : ∀ (L : grid0.Coords) (r : Fin 5), k0_off2 L (k0_off2_at r) = ![128 * (2 * (L 1).val + (L 0).val) + (k0_off2_at r).toNat, 0] := by decide +kernel

theorem k0_off6_wid (L : grid0.Coords) (t : Fin k0_t1_loop.trips) (r : Fin 4) :
    k0_off6 L t (BitVec.ofNat 32 (1 + r.val)) = negOff L (4 * t.val + r.val + 1) := by
  rw [k0_off6_eq]; unfold negOff wid; congr 1; omega

theorem k0_off4_wid (L : grid0.Coords) (t : Fin k0_t1_loop.trips) (r : Fin 4) :
    k0_off4 L t (BitVec.ofNat 32 (1 + r.val)) = negOff L (4 * t.val + r.val) := by
  rw [k0_off4_eq]; unfold negOff wid; congr 1; omega

/-! ## What a tile is handed and what it hands back -/

/-- A tile's read share of a table: one of thirty-two. -/
abbrev tblShare (L : grid0.Coords) : PosShare TreeShare := Transfers.shareTok fullShare 32 ⟨wid L, wid_lt L⟩

variable (d : Dev nD) (T0 : Buf (Elt F) (t0Loc d)) (T1 : Buf (Elt F) (t1Loc d)) (IX : Buf (Elt F) (ixLoc d))

/-- The word of the index array at row `24 * w + k`, column `r` (zero outside the array). -/
def ixWord (w k r : ℕ) : ℕ :=
  if h : 24 * w + k < 768 ∧ r < 128 then (IX (Shape.pair (d := ![768, 128]) ⟨24 * w + k, h.1⟩ ⟨r, h.2⟩)).toNat else 0

/-- Row `n` of a table at column `c` (row 0 outside the table). -/
def tblAt (Tb : S100000x128.Idx → Elt F .f32) (n : ℕ) (c : Fin 128) : Elt F .f32 :=
  Tb (Shape.pair (d := ![100000, 128]) (if h : n < 100000 then ⟨n, h⟩ else ⟨0, by decide⟩) c)

/-- The first result whole: row `128 * w + r` is row `IX[24 * w, r]` of the first table. -/
def gV0 : Buf (Elt F) (o0Loc d) :=
  show S4096x128.Idx → Elt F .f32 from fun x => tblAt (F := F) T0 (ixWord d IX ((x 0).val / 128) 0 ((x 0).val % 128)) (x 1)

/-- The second result whole: row `128 * w + r` is row `IX[24 * w + 1, r]` of the second table. -/
def gV1 : Buf (Elt F) (o1Loc d) :=
  show S4096x128.Idx → Elt F .f32 from fun x => tblAt (F := F) T1 (ixWord d IX ((x 0).val / 128) 1 ((x 0).val % 128)) (x 1)

/-- The third result whole: row `4096 * j + 128 * w + r` is row `IX[24 * w + 2 + j, r]` of the second table. -/
def gV2 : Buf (Elt F) (o2Loc d) :=
  show S81920x128.Idx → Elt F .f32 from fun x =>
    tblAt (F := F) T1 (ixWord d IX ((x 0).val % 4096 / 128) (2 + (x 0).val / 4096) ((x 0).val % 128)) (x 1)

/-- What the tile at `L` is handed: a read share of each table, its 24 rows of the index array, and its rows of
    the three results at whatever they hold. -/
def goResL (L : grid0.Coords) : sProp 𝕄 :=
  iprop((t0Loc d ↦{tblShare L} T0) ∗ (t1Loc d ↦{tblShare L} T1)
    ∗ (ixLoc d ↦[(ixSl L).view.set]{fullShare} IX)
    ∗ (∃ f, o0Loc d ↦[(o0Sl L).view.set]{fullShare} f)
    ∗ (∃ f, o1Loc d ↦[(o1Sl L).view.set]{fullShare} f)
    ∗ bigSep Finset.univ fun j : Fin 20 => iprop(∃ f, o2Loc d ↦[(negSl L j).view.set]{fullShare} f))

/-- What it hands back: the same, its rows of the results at the gathered rows. -/
def tdResL (L : grid0.Coords) : sProp 𝕄 :=
  iprop((t0Loc d ↦{tblShare L} T0) ∗ (t1Loc d ↦{tblShare L} T1)
    ∗ (ixLoc d ↦[(ixSl L).view.set]{fullShare} IX)
    ∗ (o0Loc d ↦[(o0Sl L).view.set]{fullShare} gV0 d T0 IX)
    ∗ (o1Loc d ↦[(o1Sl L).view.set]{fullShare} gV1 d T1 IX)
    ∗ bigSep Finset.univ fun j : Fin 20 => (o2Loc d ↦[(negSl L j).view.set]{fullShare} gV2 d T1 IX))

theorem nCore_zero : (K (F := F)).nCore 0 = grid0.bound 0 := rfl
theorem nSub_zero : (K (F := F)).nSub 0 = grid0.bound 1 := rfl

/-- The same by the launch's numbering of a call's tiles. -/
def goRes0 (c : Fin ((K (F := F)).nCore 0)) (i : Fin ((K (F := F)).nSub 0)) : sProp 𝕄 :=
  goResL d T0 T1 IX (coordsV (Fin.cast nCore_zero c) (Fin.cast nSub_zero i))
def tdRes0 (c : Fin ((K (F := F)).nCore 0)) (i : Fin ((K (F := F)).nSub 0)) : sProp 𝕄 :=
  tdResL d T0 T1 IX (coordsV (Fin.cast nCore_zero c) (Fin.cast nSub_zero i))

set_option synthInstance.maxHeartbeats 1000000 in
instance goResL_storable (L : grid0.Coords) : BI.Storable (upEmb : UEmb _ 𝕄) (goResL d T0 T1 IX L) := by
  unfold goResL; infer_instance
set_option synthInstance.maxHeartbeats 1000000 in
instance tdResL_storable (L : grid0.Coords) : BI.Storable (upEmb : UEmb _ 𝕄) (tdResL d T0 T1 IX L) := by
  unfold tdResL; infer_instance
instance goRes0_storable (c : Fin ((K (F := F)).nCore 0)) (i : Fin ((K (F := F)).nSub 0)) :
    BI.Storable (upEmb : UEmb _ 𝕄) (goRes0 d T0 T1 IX c i) := by unfold goRes0; infer_instance
instance tdRes0_storable (c : Fin ((K (F := F)).nCore 0)) (i : Fin ((K (F := F)).nSub 0)) :
    BI.Storable (upEmb : UEmb _ 𝕄) (tdRes0 d T0 T1 IX c i) := by unfold tdRes0; infer_instance

/-- Every word of rows 0 … 21 of each tile's slice of the index array names a row of the tables. -/
def IXOK : Prop :=
  ∀ (L : grid0.Coords) (x : S24x128.Idx), (x 0).val < 22 → ((ixSl L).view.read (Elt F) IX x).toNat < 100000

end Cert.Proof.KI

end
-- ==== Proof.KI_SplitGeo.lean ====
/-
  The geometry of call 0's hand-out: the thirty-two tiles' row blocks of the index array and of the three result
  arrays are pairwise disjoint and cover the arrays; a tile's worker number determines the tile.
-/
import proofs.«215899_g5772436046013_cont_9to1c4b_742_31_alg».proof.Proof.KI_TileRes
import Idealize.ShloMosaic.Lib.StableHlo.Run

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## Tiles by their core and subcore numbers -/

/-- A tile named by its core and subcore numbers. -/
abbrev Tl : Type := Fin 2 × Fin 16

/-- The tile's grid coordinates. -/
def tl (p : Tl) : grid0.Coords := coordsV p.1 p.2

theorem wid_tl (p : Tl) : wid (tl p) = 2 * p.2.val + p.1.val := rfl

/-- The worker number determines the tile: the core number is its parity. -/
theorem wid_tl_inj {p p' : Tl} (h : wid (tl p) = wid (tl p')) : p = p' := by
  rw [wid_tl, wid_tl] at h
  have h1 := p.1.isLt; have h1' := p'.1.isLt
  exact Prod.ext (Fin.ext (by omega)) (Fin.ext (by omega))

/-- The tile with a given worker number. -/
def tlOf (w : ℕ) (hw : w < 32) : Tl := (⟨w % 2, by omega⟩, ⟨w / 2, by omega⟩)

theorem wid_tlOf (w : ℕ) (hw : w < 32) : wid (tl (tlOf w hw)) = w := by
  rw [wid_tl]; show 2 * (w / 2) + w % 2 = w; omega

/-! ## The index array: 24 rows a tile -/

theorem ixSet_eq (L : grid0.Coords) : (ixSl L).view.set = (ixRect L).set := View.set_slice_whole _ _

theorem ixSet_disjoint {p p' : Tl} (h : p ≠ p') : Disjoint (ixSl (tl p)).view.set (ixSl (tl p')).view.set := by
  rw [ixSet_eq, ixSet_eq]
  have hw : wid (tl p) ≠ wid (tl p') := fun e => h (wid_tl_inj e)
  refine Rect.unit_disjoint (0 : Fin 2) ?_
  rw [k0_off1_wid, k0_off1_wid]
  show 24 * wid (tl p) + 24 ≤ 24 * wid (tl p') ∨ 24 * wid (tl p') + 24 ≤ 24 * wid (tl p)
  omega

theorem ixSet_cover : Finset.biUnion (β := S768x128.Idx) (Finset.univ : Finset Tl) (fun p => (ixSl (tl p)).view.set) = Finset.univ := by
  refine Finset.eq_univ_iff_forall.mpr fun x => Finset.mem_biUnion.mpr ?_
  have hx : (x 0).val < 768 := (x 0).isLt
  have hx1 : (x 1).val < 128 := (x 1).isLt
  refine ⟨tlOf ((x 0).val / 24) (by omega), Finset.mem_univ _, ?_⟩
  rw [ixSet_eq, Rect.mem_set_unit, k0_off1_wid, wid_tlOf]
  refine Fin.forall_fin_two.mpr ⟨?_, ?_⟩
  · show 24 * ((x 0).val / 24) ≤ (x 0).val ∧ (x 0).val < 24 * ((x 0).val / 24) + 24; omega
  · show 0 ≤ (x 1).val ∧ (x 1).val < 0 + 128; omega

/-! ## The first two results: 128 rows a tile -/

theorem o0Set_eq (L : grid0.Coords) : (o0Sl L).view.set = (oRect L).set := View.set_slice_whole _ _
theorem o1Set_eq (L : grid0.Coords) : (o1Sl L).view.set = (oRect L).set := View.set_slice_whole _ _

theorem oRect_disjoint {p p' : Tl} (h : p ≠ p') : Disjoint (oRect (tl p)).set (oRect (tl p')).set := by
  have hw : wid (tl p) ≠ wid (tl p') := fun e => h (wid_tl_inj e)
  refine Rect.unit_disjoint (0 : Fin 2) ?_
  rw [k0_off7_wid, k0_off7_wid]
  show 128 * wid (tl p) + 128 ≤ 128 * wid (tl p') ∨ 128 * wid (tl p') + 128 ≤ 128 * wid (tl p)
  omega

theorem oRect_cover : (Finset.univ : Finset Tl).biUnion (fun p => (oRect (tl p)).set) = Finset.univ := by
  refine Finset.eq_univ_iff_forall.mpr fun x => Finset.mem_biUnion.mpr ?_
  have hx : (x 0).val < 4096 := (x 0).isLt
  have hx1 : (x 1).val < 128 := (x 1).isLt
  refine ⟨tlOf ((x 0).val / 128) (by omega), Finset.mem_univ _, ?_⟩
  rw [Rect.mem_set_unit, k0_off7_wid, wid_tlOf]
  refine Fin.forall_fin_two.mpr ⟨?_, ?_⟩
  · show 128 * ((x 0).val / 128) ≤ (x 0).val ∧ (x 0).val < 128 * ((x 0).val / 128) + 128; omega
  · show 0 ≤ (x 1).val ∧ (x 1).val < 0 + 128; omega

/-! ## The third result: 128 rows a tile and draw -/

theorem negSet_eq (L : grid0.Coords) (j : Fin 20) : (negSl L j).view.set = (negRect L j).set := View.set_slice_whole _ _

theorem negRect_disjoint {a a' : Tl × Fin 20} (h : a ≠ a') : Disjoint (negRect (tl a.1) a.2).set (negRect (tl a'.1) a'.2).set := by
  have hw := wid_lt (tl a.1); have hw' := wid_lt (tl a'.1)
  have hne : wid (tl a.1) ≠ wid (tl a'.1) ∨ a.2.val ≠ a'.2.val := by
    by_contra hc
    rw [not_or, not_not, not_not] at hc
    exact h (Prod.ext (wid_tl_inj hc.1) (Fin.ext hc.2))
  refine Rect.unit_disjoint (0 : Fin 2) ?_
  show 128 * wid (tl a.1) + 4096 * a.2.val + 128 ≤ 128 * wid (tl a'.1) + 4096 * a'.2.val
    ∨ 128 * wid (tl a'.1) + 4096 * a'.2.val + 128 ≤ 128 * wid (tl a.1) + 4096 * a.2.val
  omega

theorem negRect_cover : (Finset.univ : Finset (Tl × Fin 20)).biUnion (fun a => (negRect (tl a.1) a.2).set) = Finset.univ := by
  refine Finset.eq_univ_iff_forall.mpr fun x => Finset.mem_biUnion.mpr ?_
  have hx : (x 0).val < 81920 := (x 0).isLt
  have hx1 : (x 1).val < 128 := (x 1).isLt
  have hw : (x 0).val % 4096 / 128 < 32 := by omega
  refine ⟨(tlOf ((x 0).val % 4096 / 128) hw, ⟨(x 0).val / 4096, by omega⟩), Finset.mem_univ _, ?_⟩
  rw [Rect.mem_set_unit]
  refine Fin.forall_fin_two.mpr ⟨?_, ?_⟩
  · show 128 * wid (tl (tlOf ((x 0).val % 4096 / 128) hw)) + 4096 * ((x 0).val / 4096) ≤ (x 0).val
      ∧ (x 0).val < 128 * wid (tl (tlOf ((x 0).val % 4096 / 128) hw)) + 4096 * ((x 0).val / 4096) + 128
    rw [wid_tlOf]; omega
  · show 0 ≤ (x 1).val ∧ (x 1).val < 0 + 128; omega

end Cert.Proof.KI

end
-- ==== Proof.KI_Split.lean ====
/-
  Call 0's arrays among its thirty-two tiles and back: the six arrays the call concerns, held whole by the
  TensorCore, are the tiles' hand-outs together (a read share of each table a tile, the tile's row blocks of the
  index array and of the three results), and the tiles' returns join to the arrays whole, the results at the
  gathered rows.
-/
import proofs.«215899_g5772436046013_cont_9to1c4b_742_31_alg».proof.Proof.KI_TileRes
import proofs.«215899_g5772436046013_cont_9to1c4b_742_31_alg».proof.Proof.KI_SplitGeo
import Idealize.ShloMosaic.Lib.StableHlo.Run

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

local notation "𝔯" => (Proc.devRef (τ := τ) (sig := sig) Proc.tc)

/-- An entailment of the model, from the same entailment read through the logic's interface. -/
theorem ent_of {P Q : sProp 𝕄} (h : P ⊢ Q) : Idealize.SL.BI.Entails P Q := h

/-! ## Sums over the tiles -/

/-- The launch's double sum over a call's cores and subcores is the sum over the tiles. -/
theorem bigSep_tiles (Φ : grid0.Coords → sProp 𝕄) :
    (bigSep Finset.univ fun c : Fin ((K (F := F)).nCore 0) => bigSep Finset.univ fun i : Fin ((K (F := F)).nSub 0) =>
        Φ (coordsV (Fin.cast nCore_zero c) (Fin.cast nSub_zero i)))
      = bigSep (Finset.univ : Finset Tl) fun p => Φ (tl p) := by
  rw [bigSep_univ_prod]
  exact bigSep_congr fun c _ => bigSep_congr fun i _ => congrArg Φ rfl

/-! ## A table's thirty-two read shares -/

/-- A tile's worker number among the thirty-two. -/
def widF (p : Tl) : Fin 32 := ⟨wid (tl p), wid_lt (tl p)⟩

/-- Every worker number is one tile's. -/
def widEmb : Tl ↪ Fin 32 := ⟨widF, fun _ _ h => wid_tl_inj (congrArg Fin.val h)⟩

theorem widEmb_univ : (Finset.univ : Finset Tl).map widEmb = Finset.univ :=
  Finset.eq_univ_iff_forall.mpr fun w => Finset.mem_map.mpr ⟨tlOf w.val w.isLt, Finset.mem_univ _, Fin.ext (wid_tlOf _ _)⟩

/-- An array held whole is the tiles' read shares of it and what remains of the share after thirty-two halvings. -/
theorem tbl_shares (ℓ : Loc nD τ sig) (f : Buf (Elt F) ℓ) :
    (ℓ ↦{fullShare} f : sProp 𝕄)
      = iprop((ℓ ↦{Transfers.shareDrop fullShare 32} f) ∗ bigSep (Finset.univ : Finset Tl) fun p => ℓ ↦{tblShare (tl p)} f) := by
  have e : (bigSep (Finset.univ : Finset Tl) fun p => (ℓ ↦{tblShare (tl p)} f : sProp 𝕄))
      = bigSep (Finset.univ : Finset (Fin 32)) (fun i => ℓ ↦{Transfers.shareTok fullShare 32 i} f) := by
    rw [← widEmb_univ, BI.bigSep_map]; rfl
  have h : (ℓ ↦{fullShare} f : sProp 𝕄) ⊣⊢ iprop((ℓ ↦{Transfers.shareDrop fullShare 32} f)
      ∗ bigSep (Finset.univ : Finset (Fin 32)) (fun i => ℓ ↦{Transfers.shareTok fullShare 32 i} f)) := Transfers.pointsTo_toks fullShare 32
  rw [e]; exact BI.equiv_iff.mp ⟨h.1, h.2⟩

/-! ## The index array and the results as the tiles' row blocks -/

variable (d : Dev nD)

theorem ix_blocks (IX : Buf (Elt F) (ixLoc d)) :
    (ixLoc d ↦{fullShare} IX : sProp 𝕄) = bigSep (Finset.univ : Finset Tl) fun p => ixLoc d ↦[(ixSl (tl p)).view.set]{fullShare} IX := by
  rw [← pointsTo_biUnion Finset.univ (ℓ := ixLoc d) (fun p : Tl => (ixSl (tl p)).view.set) (fun p _ p' _ h => ixSet_disjoint h), ixSet_cover]

theorem o0_blocks (f : Buf (Elt F) (o0Loc d)) :
    (o0Loc d ↦{fullShare} f : sProp 𝕄) = bigSep (Finset.univ : Finset Tl) fun p => o0Loc d ↦[(o0Sl (tl p)).view.set]{fullShare} f := by
  rw [← pointsTo_biUnion Finset.univ (ℓ := o0Loc d) (fun p : Tl => (o0Sl (tl p)).view.set)
      (fun p _ p' _ h => by rw [o0Set_eq, o0Set_eq]; exact oRect_disjoint h),
    show ((Finset.univ : Finset Tl).biUnion fun p => ((o0Sl (tl p)).view.set : Finset S4096x128.Idx)) = Finset.univ from
      (Finset.biUnion_congr rfl fun p _ => o0Set_eq (tl p)).trans oRect_cover]

theorem o1_blocks (f : Buf (Elt F) (o1Loc d)) :
    (o1Loc d ↦{fullShare} f : sProp 𝕄) = bigSep (Finset.univ : Finset Tl) fun p => o1Loc d ↦[(o1Sl (tl p)).view.set]{fullShare} f := by
  rw [← pointsTo_biUnion Finset.univ (ℓ := o1Loc d) (fun p : Tl => (o1Sl (tl p)).view.set)
      (fun p _ p' _ h => by rw [o1Set_eq, o1Set_eq]; exact oRect_disjoint h),
    show ((Finset.univ : Finset Tl).biUnion fun p => ((o1Sl (tl p)).view.set : Finset S4096x128.Idx)) = Finset.univ from
      (Finset.biUnion_congr rfl fun p _ => o1Set_eq (tl p)).trans oRect_cover]

theorem o2_blocks (f : Buf (Elt F) (o2Loc d)) :
    (o2Loc d ↦{fullShare} f : sProp 𝕄)
      = bigSep (Finset.univ : Finset Tl) fun p => bigSep (Finset.univ : Finset (Fin 20)) fun j => o2Loc d ↦[(negSl (tl p) j).view.set]{fullShare} f := by
  refine Eq.trans ?_ (bigSep_univ_prod (fun a : Tl × Fin 20 => (o2Loc d ↦[(negSl (tl a.1) a.2).view.set]{fullShare} f : sProp 𝕄)))
  rw [← pointsTo_biUnion Finset.univ (ℓ := o2Loc d) (fun a : Tl × Fin 20 => (negSl (tl a.1) a.2).view.set)
      (fun a _ a' _ h => by rw [negSet_eq, negSet_eq]; exact negRect_disjoint h),
    show ((Finset.univ : Finset (Tl × Fin 20)).biUnion fun a => ((negSl (tl a.1) a.2).view.set : Finset S81920x128.Idx)) = Finset.univ from
      (Finset.biUnion_congr rfl fun a _ => negSet_eq (tl a.1) a.2).trans negRect_cover]

/-! ## The six arrays whole and the tiles' parts -/

variable (T0 : Buf (Elt F) (t0Loc d)) (T1 : Buf (Elt F) (t1Loc d)) (IX : Buf (Elt F) (ixLoc d))
variable (f0 : Buf (Elt F) (o0Loc d)) (f1 : Buf (Elt F) (o1Loc d)) (f2 : Buf (Elt F) (o2Loc d))

/-- A tile's part of the six arrays, the three results at given contents. -/
def blkRes (L : grid0.Coords) : sProp 𝕄 :=
  iprop((t0Loc d ↦{tblShare L} T0) ∗ (t1Loc d ↦{tblShare L} T1)
    ∗ (ixLoc d ↦[(ixSl L).view.set]{fullShare} IX)
    ∗ (o0Loc d ↦[(o0Sl L).view.set]{fullShare} f0)
    ∗ (o1Loc d ↦[(o1Sl L).view.set]{fullShare} f1)
    ∗ bigSep Finset.univ fun j : Fin 20 => (o2Loc d ↦[(negSl L j).view.set]{fullShare} f2))

/-- What remains of the two tables' shares beside the tiles' thirty-two read shares of each. -/
def tblRem : sProp 𝕄 :=
  iprop((t0Loc d ↦{Transfers.shareDrop fullShare 32} T0) ∗ (t1Loc d ↦{Transfers.shareDrop fullShare 32} T1))

/-- The six arrays whole are the tiles' parts and the tables' remaining shares. -/
theorem whole_blocks :
    (iprop((t0Loc d ↦{fullShare} T0) ∗ (t1Loc d ↦{fullShare} T1) ∗ (ixLoc d ↦{fullShare} IX)
        ∗ (o0Loc d ↦{fullShare} f0) ∗ (o1Loc d ↦{fullShare} f1) ∗ (o2Loc d ↦{fullShare} f2)) : sProp 𝕄)
      = iprop(tblRem d T0 T1 ∗ bigSep (Finset.univ : Finset Tl) fun p => blkRes d T0 T1 IX f0 f1 f2 (tl p)) := by
  unfold blkRes tblRem
  rw [bigSep_sep', bigSep_sep', bigSep_sep', bigSep_sep', bigSep_sep',
    tbl_shares (t0Loc d) T0, tbl_shares (t1Loc d) T1, ix_blocks d IX, o0_blocks d f0, o1_blocks d f1, o2_blocks d f2]
  refine BI.equiv_iff.mp ⟨ent_of ?_, ent_of ?_⟩
  · iintro ⟨⟨Hr0, Ha0⟩, ⟨Hr1, Ha1⟩, Hi, Hb, Hc, Hd⟩
    isplitl [Hr0 Hr1]
    · isplitl [Hr0]; · iexact Hr0
      iexact Hr1
    isplitl [Ha0]; · iexact Ha0
    isplitl [Ha1]; · iexact Ha1
    isplitl [Hi]; · iexact Hi
    isplitl [Hb]; · iexact Hb
    isplitl [Hc]; · iexact Hc
    iexact Hd
  · iintro ⟨⟨Hr0, Hr1⟩, Ha0, Ha1, Hi, Hb, Hc, Hd⟩
    isplitl [Hr0 Ha0]
    · isplitl [Hr0]; · iexact Hr0
      iexact Ha0
    isplitl [Hr1 Ha1]
    · isplitl [Hr1]; · iexact Hr1
      iexact Ha1
    isplitl [Hi]; · iexact Hi
    isplitl [Hb]; · iexact Hb
    isplitl [Hc]; · iexact Hc
    iexact Hd

/-- A tile's part with the results at any contents is what the tile is handed. -/
theorem blkRes_go (L : grid0.Coords) : blkRes d T0 T1 IX f0 f1 f2 L ⊢ goResL d T0 T1 IX L := by
  unfold blkRes goResL
  iintro ⟨H0, H1, Hi, Hb, Hc, Hd⟩
  isplitl [H0]; · iexact H0
  isplitl [H1]; · iexact H1
  isplitl [Hi]; · iexact Hi
  isplitl [Hb]; · iexists f0; iexact Hb
  isplitl [Hc]; · iexists f1; iexact Hc
  have hd : (bigSep Finset.univ fun j : Fin 20 => (o2Loc d ↦[(negSl L j).view.set]{fullShare} f2 : sProp 𝕄))
      ⊢ bigSep Finset.univ fun j : Fin 20 => iprop(∃ f, o2Loc d ↦[(negSl L j).view.set]{fullShare} f) :=
    bigSep_mono fun j _ => ent_of (by iintro H; iexists f2; iexact H)
  iapply hd; iexact Hd

/-- What a tile hands back is its part with the results at the gathered rows. -/
theorem tdResL_eq (L : grid0.Coords) :
    tdResL d T0 T1 IX L = blkRes d T0 T1 IX (gV0 d T0 IX) (gV1 d T1 IX) (gV2 d T1 IX) L := rfl

/-! ## The call's arrays, held by the TensorCore -/

/-- The six arrays call 0 concerns: the two tables, the index array, the three results. -/
def Cs0 : Finset (DevRef τ sig) := {𝔯 main_arg0, 𝔯 main_arg1, 𝔯 main_v26, 𝔯 main_v27_0, 𝔯 main_v27_1, 𝔯 main_v27_2}

theorem held_Cs0 (W : Valuation τ sig (Elt F)) :
    (StableHlo.held (T d) Cs0 W : sProp 𝕄)
      = iprop((t0Loc d ↦{fullShare} W (𝔯 main_arg0)) ∗ (t1Loc d ↦{fullShare} W (𝔯 main_arg1)) ∗ (ixLoc d ↦{fullShare} W (𝔯 main_v26))
        ∗ (o0Loc d ↦{fullShare} W (𝔯 main_v27_0)) ∗ (o1Loc d ↦{fullShare} W (𝔯 main_v27_1)) ∗ (o2Loc d ↦{fullShare} W (𝔯 main_v27_2))) := by
  unfold StableHlo.held Cs0
  rw [bigSep_insert (by decide), bigSep_insert (by decide), bigSep_insert (by decide), bigSep_insert (by decide), bigSep_insert (by decide),
    bigSep_singleton]
  rfl

/-- The hand-out: the call's arrays held whole are every tile's operands and the tables' remaining shares. -/
theorem call0_split (W : Valuation τ sig (Elt F)) :
    (StableHlo.held (T d) Cs0 W : sProp 𝕄) ⊢ iprop(
      (bigSep Finset.univ fun c : Fin ((K (F := F)).nCore 0) => bigSep Finset.univ fun i : Fin ((K (F := F)).nSub 0) =>
        goRes0 d (W (𝔯 main_arg0)) (W (𝔯 main_arg1)) (W (𝔯 main_v26)) c i)
      ∗ tblRem d (W (𝔯 main_arg0)) (W (𝔯 main_arg1))) := by
  rw [held_Cs0, whole_blocks]
  unfold goRes0
  rw [bigSep_tiles (fun L => goResL d (W (𝔯 main_arg0)) (W (𝔯 main_arg1)) (W (𝔯 main_v26)) L)]
  iintro ⟨Hr, Hb⟩
  isplitl [Hb]
  · have hb : (bigSep (Finset.univ : Finset Tl) fun p => blkRes d (W (𝔯 main_arg0)) (W (𝔯 main_arg1)) (W (𝔯 main_v26))
          (W (𝔯 main_v27_0)) (W (𝔯 main_v27_1)) (W (𝔯 main_v27_2)) (tl p))
        ⊢ bigSep (Finset.univ : Finset Tl) fun p => goResL d (W (𝔯 main_arg0)) (W (𝔯 main_arg1)) (W (𝔯 main_v26)) (tl p) :=
      bigSep_mono fun p _ => blkRes_go d _ _ _ _ _ _ (tl p)
    iapply hb; iexact Hb
  · iexact Hr

/-- The gathering: every tile's returns and the tables' remaining shares are the call's arrays held whole, the three
    results at the gathered rows. -/
theorem call0_join (W W' : Valuation τ sig (Elt F)) (h0 : W' (𝔯 main_arg0) = W (𝔯 main_arg0)) (h1 : W' (𝔯 main_arg1) = W (𝔯 main_arg1))
    (hix : W' (𝔯 main_v26) = W (𝔯 main_v26))
    (ho0 : W' (𝔯 main_v27_0) = gV0 d (W (𝔯 main_arg0)) (W (𝔯 main_v26)))
    (ho1 : W' (𝔯 main_v27_1) = gV1 d (W (𝔯 main_arg1)) (W (𝔯 main_v26)))
    (ho2 : W' (𝔯 main_v27_2) = gV2 d (W (𝔯 main_arg1)) (W (𝔯 main_v26))) :
    iprop((bigSep Finset.univ fun c : Fin ((K (F := F)).nCore 0) => bigSep Finset.univ fun i : Fin ((K (F := F)).nSub 0) =>
        tdRes0 d (W (𝔯 main_arg0)) (W (𝔯 main_arg1)) (W (𝔯 main_v26)) c i)
      ∗ tblRem d (W (𝔯 main_arg0)) (W (𝔯 main_arg1))) ⊢ (StableHlo.held (T d) Cs0 W' : sProp 𝕄) := by
  rw [held_Cs0, h0, h1, hix, ho0, ho1, ho2, whole_blocks]
  unfold tdRes0
  rw [bigSep_tiles (fun L => tdResL d (W (𝔯 main_arg0)) (W (𝔯 main_arg1)) (W (𝔯 main_v26)) L)]
  iintro ⟨Hb, Hr⟩
  isplitl [Hr]; · iexact Hr
  iexact Hb

/-- Both at once, as a call step uses them: the hand-out, and the arrays back whole against the tiles' returns. -/
theorem call0_split_wand (W W' : Valuation τ sig (Elt F)) (h0 : W' (𝔯 main_arg0) = W (𝔯 main_arg0)) (h1 : W' (𝔯 main_arg1) = W (𝔯 main_arg1))
    (hix : W' (𝔯 main_v26) = W (𝔯 main_v26))
    (ho0 : W' (𝔯 main_v27_0) = gV0 d (W (𝔯 main_arg0)) (W (𝔯 main_v26)))
    (ho1 : W' (𝔯 main_v27_1) = gV1 d (W (𝔯 main_arg1)) (W (𝔯 main_v26)))
    (ho2 : W' (𝔯 main_v27_2) = gV2 d (W (𝔯 main_arg1)) (W (𝔯 main_v26))) :
    (StableHlo.held (T d) Cs0 W : sProp 𝕄) ⊢ iprop(
      (bigSep Finset.univ fun c : Fin ((K (F := F)).nCore 0) => bigSep Finset.univ fun i : Fin ((K (F := F)).nSub 0) =>
        goRes0 d (W (𝔯 main_arg0)) (W (𝔯 main_arg1)) (W (𝔯 main_v26)) c i)
      ∗ ((bigSep Finset.univ fun c : Fin ((K (F := F)).nCore 0) => bigSep Finset.univ fun i : Fin ((K (F := F)).nSub 0) =>
          tdRes0 d (W (𝔯 main_arg0)) (W (𝔯 main_arg1)) (W (𝔯 main_v26)) c i) -∗ (StableHlo.held (T d) Cs0 W' : sProp 𝕄))) := by
  refine (call0_split d W).trans ?_
  iintro ⟨Hgo, Hr⟩
  isplitl [Hgo]; · iexact Hgo
  iintro Htd
  iapply (call0_join d W W' h0 h1 hix ho0 ho1 ho2)
  isplitl [Htd]; · iexact Htd
  iexact Hr

end Cert.Proof.KI

end
-- ==== Proof.KI_TileRes_c1.lean ====
/-
  What one vector subcore of call 1 is handed and hands back: the six arrays of the call, the slices of them a
  tile owns (as the program takes them, with their row ranges in closed form), the three results as whole-array
  functions of the tables and the index array, and the resources a tile receives and returns.
-/
import proofs.«215899_g5772436046013_cont_9to1c4b_742_31_alg».proof.Proof.KI_Common
import proofs.«215899_g5772436046013_cont_9to1c4b_742_31_alg».proof.Proof.KI_TileRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## The arrays of call 1 and a tile's place

Call 1 reads the two embedding tables and the index array whole and writes three result arrays. Worker
`wid1 = 2 * subcore + core` owns rows `24 * wid1 … 24 * wid1 + 23` of the index array (row 0 the centre words,
row 1 the positive words, rows 2 … 21 the twenty negative draws, 128 words each), rows
`128 * wid1 … 128 * wid1 + 127` of the first two results and, for each draw `j`, rows
`4096 * j + 128 * wid1 …` of the third. -/

abbrev ixLoc1 (d : Dev nD) : Loc nD τ sig := (SparseCore.T d).loc main_v32
abbrev o0Loc1 (d : Dev nD) : Loc nD τ sig := (SparseCore.T d).loc main_v33_0
abbrev o1Loc1 (d : Dev nD) : Loc nD τ sig := (SparseCore.T d).loc main_v33_1
abbrev o2Loc1 (d : Dev nD) : Loc nD τ sig := (SparseCore.T d).loc main_v33_2

abbrev ixV1 : Memref sig .scVector .hbm S768x128 .i32 := Memref.whole main_v32_scv
abbrev o0V1 : Memref sig .scVector .hbm S4096x128 .f32 := Memref.whole main_v33_0_scv
abbrev o1V1 : Memref sig .scVector .hbm S4096x128 .f32 := Memref.whole main_v33_1_scv
abbrev o2V1 : Memref sig .scVector .hbm S81920x128 .f32 := Memref.whole main_v33_2_scv

/-- A tile's grid coordinates from its core and subcore numbers. -/
def coordsV1 (c : Fin (grid2.bound 0)) (s : Fin (grid2.bound 1)) : grid2.Coords :=
  fun | 0 => c | 1 => s | ⟨_ + 2, h⟩ => absurd h (Nat.not_lt.2 (Nat.le_add_left _ _))

abbrev cV1 (L : grid2.Coords) : Fin τ.nSC := (L 0).castLE hcore2
abbrev jV1 (L : grid2.Coords) : Fin τ.nSub := (L 1).castLE hsub2

theorem bound_zero1 : grid2.bound 0 = 2 := rfl
theorem bound_one1 : grid2.bound 1 = 16 := rfl

/-- The worker number of a tile. -/
def wid1 (L : grid2.Coords) : ℕ := 2 * (L 1).val + (L 0).val

theorem wid_lt1 (L : grid2.Coords) : wid1 L < 32 := by
  have h0 : (L 0).val < 2 := (L 0).isLt
  have h1 : (L 1).val < 16 := (L 1).isLt
  unfold wid1; omega

/-! ## The slices, as the program takes them -/

abbrev ixRect1 (L : grid2.Coords) : Rect S768x128 := Rect.unit (s := S768x128) (k2_off1 L) S24x128.size (k2_off1_inb L)
abbrev ixSl1 (L : grid2.Coords) : Memref sig .scVector .hbm S24x128 .i32 := (ixV1).slice (ixRect1 L) (fun _ => rfl)
abbrev oRect1 (L : grid2.Coords) : Rect S4096x128 := Rect.unit (s := S4096x128) (k2_off7 L) S128x128.size (k2_off7_inb L)
abbrev o0Sl1 (L : grid2.Coords) : Memref sig .scVector .hbm S128x128 .f32 := (o0V1).slice (oRect1 L) (fun _ => rfl)
abbrev o1Sl1 (L : grid2.Coords) : Memref sig .scVector .hbm S128x128 .f32 := (o1V1).slice (oRect1 L) (fun _ => rfl)

/-- Where draw `j`'s block of a tile begins in the third result. -/
def negOff1 (L : grid2.Coords) (j : ℕ) : Fin 2 → ℕ := ![128 * wid1 L + 4096 * j, 0]

theorem negOff_inb1 (L : grid2.Coords) (j : Fin 20) : ∀ a, negOff1 L j.val a + S128x128.size a ≤ S81920x128.size a := by
  have hw := wid_lt1 L; have hj := j.isLt
  intro a
  match a with
  | 0 => show 128 * wid1 L + 4096 * j.val + 128 ≤ 81920; omega
  | 1 => show 0 + 128 ≤ 128; omega

abbrev negRect1 (L : grid2.Coords) (j : Fin 20) : Rect S81920x128 := Rect.unit (s := S81920x128) (negOff1 L j.val) S128x128.size (negOff_inb1 L j)
abbrev negSl1 (L : grid2.Coords) (j : Fin 20) : Memref sig .scVector .hbm S128x128 .f32 := (o2V1).slice (negRect1 L j) (fun _ => rfl)

theorem k2_off1_wid (L : grid2.Coords) : k2_off1 L = ![24 * wid1 L, 0] := by
  rw [k2_off1_eq]; unfold wid1; congr 1; omega

theorem k2_off7_wid (L : grid2.Coords) : k2_off7 L = ![128 * wid1 L, 0] := by
  rw [k2_off7_eq]; unfold wid1; congr 1; omega

theorem k2_off2_wid : ∀ (L : grid2.Coords) (r : Fin 5), k2_off2 L (k2_off2_at r) = ![128 * (2 * (L 1).val + (L 0).val) + (k2_off2_at r).toNat, 0] := by decide +kernel

theorem k2_off6_wid (L : grid2.Coords) (t : Fin k2_t1_loop.trips) (r : Fin 4) :
    k2_off6 L t (BitVec.ofNat 32 (1 + r.val)) = negOff1 L (4 * t.val + r.val + 1) := by
  rw [k2_off6_eq]; unfold negOff1 wid1; congr 1; omega

theorem k2_off4_wid (L : grid2.Coords) (t : Fin k2_t1_loop.trips) (r : Fin 4) :
    k2_off4 L t (BitVec.ofNat 32 (1 + r.val)) = negOff1 L (4 * t.val + r.val) := by
  rw [k2_off4_eq]; unfold negOff1 wid1; congr 1; omega

/-! ## What a tile is handed and what it hands back -/

/-- A tile's read share of a table: one of thirty-two. -/
abbrev tblShare1 (L : grid2.Coords) : PosShare TreeShare := Transfers.shareTok fullShare 32 ⟨wid1 L, wid_lt1 L⟩

variable (d : Dev nD) (T0 : Buf (Elt F) (t0Loc d)) (T1 : Buf (Elt F) (t1Loc d)) (IX : Buf (Elt F) (ixLoc1 d))

/-- What the tile at `L` is handed: a read share of each table, its 24 rows of the index array, and its rows of
    the three results at whatever they hold. -/
def goResL1 (L : grid2.Coords) : sProp 𝕄 :=
  iprop((t0Loc d ↦{tblShare1 L} T0) ∗ (t1Loc d ↦{tblShare1 L} T1)
    ∗ (ixLoc1 d ↦[(ixSl1 L).view.set]{fullShare} IX)
    ∗ (∃ f, o0Loc1 d ↦[(o0Sl1 L).view.set]{fullShare} f)
    ∗ (∃ f, o1Loc1 d ↦[(o1Sl1 L).view.set]{fullShare} f)
    ∗ bigSep Finset.univ fun j : Fin 20 => iprop(∃ f, o2Loc1 d ↦[(negSl1 L j).view.set]{fullShare} f))

/-- What it hands back: the same, its rows of the results at the gathered rows. -/
def tdResL1 (L : grid2.Coords) : sProp 𝕄 :=
  iprop((t0Loc d ↦{tblShare1 L} T0) ∗ (t1Loc d ↦{tblShare1 L} T1)
    ∗ (ixLoc1 d ↦[(ixSl1 L).view.set]{fullShare} IX)
    ∗ (o0Loc1 d ↦[(o0Sl1 L).view.set]{fullShare} gV0 d T0 IX)
    ∗ (o1Loc1 d ↦[(o1Sl1 L).view.set]{fullShare} gV1 d T1 IX)
    ∗ bigSep Finset.univ fun j : Fin 20 => (o2Loc1 d ↦[(negSl1 L j).view.set]{fullShare} gV2 d T1 IX))

theorem nCore_zero1 : (K (F := F)).nCore 1 = grid2.bound 0 := rfl
theorem nSub_zero1 : (K (F := F)).nSub 1 = grid2.bound 1 := rfl

/-- The same by the launch's numbering of a call's tiles. -/
def goRes1 (c : Fin ((K (F := F)).nCore 1)) (i : Fin ((K (F := F)).nSub 1)) : sProp 𝕄 :=
  goResL1 d T0 T1 IX (coordsV1 (Fin.cast nCore_zero1 c) (Fin.cast nSub_zero1 i))
def tdRes1 (c : Fin ((K (F := F)).nCore 1)) (i : Fin ((K (F := F)).nSub 1)) : sProp 𝕄 :=
  tdResL1 d T0 T1 IX (coordsV1 (Fin.cast nCore_zero1 c) (Fin.cast nSub_zero1 i))

set_option synthInstance.maxHeartbeats 1000000 in
instance goResL_storable1 (L : grid2.Coords) : BI.Storable (upEmb : UEmb _ 𝕄) (goResL1 d T0 T1 IX L) := by
  unfold goResL1; infer_instance
set_option synthInstance.maxHeartbeats 1000000 in
instance tdResL_storable1 (L : grid2.Coords) : BI.Storable (upEmb : UEmb _ 𝕄) (tdResL1 d T0 T1 IX L) := by
  unfold tdResL1; infer_instance
instance goRes1_storable (c : Fin ((K (F := F)).nCore 1)) (i : Fin ((K (F := F)).nSub 1)) :
    BI.Storable (upEmb : UEmb _ 𝕄) (goRes1 d T0 T1 IX c i) := by unfold goRes1; infer_instance
instance tdRes1_storable (c : Fin ((K (F := F)).nCore 1)) (i : Fin ((K (F := F)).nSub 1)) :
    BI.Storable (upEmb : UEmb _ 𝕄) (tdRes1 d T0 T1 IX c i) := by unfold tdRes1; infer_instance

/-- Every word of rows 0 … 21 of each tile's slice of the index array names a row of the tables. -/
def IXOK1 : Prop :=
  ∀ (L : grid2.Coords) (x : S24x128.Idx), (x 0).val < 22 → ((ixSl1 L).view.read (Elt F) IX x).toNat < 100000

end Cert.Proof.KI

end
-- ==== Proof.KI_SplitGeo_c1.lean ====
/-
  The geometry of call 1's hand-out: the thirty-two tiles' row blocks of the index array and of the three result
  arrays are pairwise disjoint and cover the arrays; a tile's worker number determines the tile.
-/
import proofs.«215899_g5772436046013_cont_9to1c4b_742_31_alg».proof.Proof.KI_TileRes
import proofs.«215899_g5772436046013_cont_9to1c4b_742_31_alg».proof.Proof.KI_TileRes_c1
import Idealize.ShloMosaic.Lib.StableHlo.Run
import proofs.«215899_g5772436046013_cont_9to1c4b_742_31_alg».proof.Proof.KI_SplitGeo

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## Tiles by their core and subcore numbers -/

/-- The tile's grid coordinates. -/
def tl1 (p : Tl) : grid2.Coords := coordsV1 p.1 p.2

theorem wid_tl1 (p : Tl) : wid1 (tl1 p) = 2 * p.2.val + p.1.val := rfl

/-- The worker number determines the tile: the core number is its parity. -/
theorem wid_tl_inj1 {p p' : Tl} (h : wid1 (tl1 p) = wid1 (tl1 p')) : p = p' := by
  rw [wid_tl1, wid_tl1] at h
  have h1 := p.1.isLt; have h1' := p'.1.isLt
  exact Prod.ext (Fin.ext (by omega)) (Fin.ext (by omega))

theorem wid_tlOf1 (w : ℕ) (hw : w < 32) : wid1 (tl1 (tlOf w hw)) = w := by
  rw [wid_tl1]; show 2 * (w / 2) + w % 2 = w; omega

/-! ## The index array: 24 rows a tile -/

theorem ixSet_eq1 (L : grid2.Coords) : (ixSl1 L).view.set = (ixRect1 L).set := View.set_slice_whole _ _

theorem ixSet_disjoint1 {p p' : Tl} (h : p ≠ p') : Disjoint (ixSl1 (tl1 p)).view.set (ixSl1 (tl1 p')).view.set := by
  rw [ixSet_eq1, ixSet_eq1]
  have hw : wid1 (tl1 p) ≠ wid1 (tl1 p') := fun e => h (wid_tl_inj1 e)
  refine Rect.unit_disjoint (0 : Fin 2) ?_
  rw [k2_off1_wid, k2_off1_wid]
  show 24 * wid1 (tl1 p) + 24 ≤ 24 * wid1 (tl1 p') ∨ 24 * wid1 (tl1 p') + 24 ≤ 24 * wid1 (tl1 p)
  omega

theorem ixSet_cover1 : Finset.biUnion (β := S768x128.Idx) (Finset.univ : Finset Tl) (fun p => (ixSl1 (tl1 p)).view.set) = Finset.univ := by
  refine Finset.eq_univ_iff_forall.mpr fun x => Finset.mem_biUnion.mpr ?_
  have hx : (x 0).val < 768 := (x 0).isLt
  have hx1 : (x 1).val < 128 := (x 1).isLt
  refine ⟨tlOf ((x 0).val / 24) (by omega), Finset.mem_univ _, ?_⟩
  rw [ixSet_eq1, Rect.mem_set_unit, k2_off1_wid, wid_tlOf1]
  refine Fin.forall_fin_two.mpr ⟨?_, ?_⟩
  · show 24 * ((x 0).val / 24) ≤ (x 0).val ∧ (x 0).val < 24 * ((x 0).val / 24) + 24; omega
  · show 0 ≤ (x 1).val ∧ (x 1).val < 0 + 128; omega

/-! ## The first two results: 128 rows a tile -/

theorem o0Set_eq1 (L : grid2.Coords) : (o0Sl1 L).view.set = (oRect1 L).set := View.set_slice_whole _ _
theorem o1Set_eq1 (L : grid2.Coords) : (o1Sl1 L).view.set = (oRect1 L).set := View.set_slice_whole _ _

theorem oRect_disjoint1 {p p' : Tl} (h : p ≠ p') : Disjoint (oRect1 (tl1 p)).set (oRect1 (tl1 p')).set := by
  have hw : wid1 (tl1 p) ≠ wid1 (tl1 p') := fun e => h (wid_tl_inj1 e)
  refine Rect.unit_disjoint (0 : Fin 2) ?_
  rw [k2_off7_wid, k2_off7_wid]
  show 128 * wid1 (tl1 p) + 128 ≤ 128 * wid1 (tl1 p') ∨ 128 * wid1 (tl1 p') + 128 ≤ 128 * wid1 (tl1 p)
  omega

theorem oRect_cover1 : (Finset.univ : Finset Tl).biUnion (fun p => (oRect1 (tl1 p)).set) = Finset.univ := by
  refine Finset.eq_univ_iff_forall.mpr fun x => Finset.mem_biUnion.mpr ?_
  have hx : (x 0).val < 4096 := (x 0).isLt
  have hx1 : (x 1).val < 128 := (x 1).isLt
  refine ⟨tlOf ((x 0).val / 128) (by omega), Finset.mem_univ _, ?_⟩
  rw [Rect.mem_set_unit, k2_off7_wid, wid_tlOf1]
  refine Fin.forall_fin_two.mpr ⟨?_, ?_⟩
  · show 128 * ((x 0).val / 128) ≤ (x 0).val ∧ (x 0).val < 128 * ((x 0).val / 128) + 128; omega
  · show 0 ≤ (x 1).val ∧ (x 1).val < 0 + 128; omega

/-! ## The third result: 128 rows a tile and draw -/

theorem negSet_eq1 (L : grid2.Coords) (j : Fin 20) : (negSl1 L j).view.set = (negRect1 L j).set := View.set_slice_whole _ _

theorem negRect_disjoint1 {a a' : Tl × Fin 20} (h : a ≠ a') : Disjoint (negRect1 (tl1 a.1) a.2).set (negRect1 (tl1 a'.1) a'.2).set := by
  have hw := wid_lt1 (tl1 a.1); have hw' := wid_lt1 (tl1 a'.1)
  have hne : wid1 (tl1 a.1) ≠ wid1 (tl1 a'.1) ∨ a.2.val ≠ a'.2.val := by
    by_contra hc
    rw [not_or, not_not, not_not] at hc
    exact h (Prod.ext (wid_tl_inj1 hc.1) (Fin.ext hc.2))
  refine Rect.unit_disjoint (0 : Fin 2) ?_
  show 128 * wid1 (tl1 a.1) + 4096 * a.2.val + 128 ≤ 128 * wid1 (tl1 a'.1) + 4096 * a'.2.val
    ∨ 128 * wid1 (tl1 a'.1) + 4096 * a'.2.val + 128 ≤ 128 * wid1 (tl1 a.1) + 4096 * a.2.val
  omega

theorem negRect_cover1 : (Finset.univ : Finset (Tl × Fin 20)).biUnion (fun a => (negRect1 (tl1 a.1) a.2).set) = Finset.univ := by
  refine Finset.eq_univ_iff_forall.mpr fun x => Finset.mem_biUnion.mpr ?_
  have hx : (x 0).val < 81920 := (x 0).isLt
  have hx1 : (x 1).val < 128 := (x 1).isLt
  have hw : (x 0).val % 4096 / 128 < 32 := by omega
  refine ⟨(tlOf ((x 0).val % 4096 / 128) hw, ⟨(x 0).val / 4096, by omega⟩), Finset.mem_univ _, ?_⟩
  rw [Rect.mem_set_unit]
  refine Fin.forall_fin_two.mpr ⟨?_, ?_⟩
  · show 128 * wid1 (tl1 (tlOf ((x 0).val % 4096 / 128) hw)) + 4096 * ((x 0).val / 4096) ≤ (x 0).val
      ∧ (x 0).val < 128 * wid1 (tl1 (tlOf ((x 0).val % 4096 / 128) hw)) + 4096 * ((x 0).val / 4096) + 128
    rw [wid_tlOf1]; omega
  · show 0 ≤ (x 1).val ∧ (x 1).val < 0 + 128; omega

end Cert.Proof.KI

end
-- ==== Proof.KI_Split_c1.lean ====
/-
  Call 1's arrays among its thirty-two tiles and back: the six arrays the call concerns, held whole by the
  TensorCore, are the tiles' hand-outs together (a read share of each table a tile, the tile's row blocks of the
  index array and of the three results), and the tiles' returns join to the arrays whole, the results at the
  gathered rows.
-/
import proofs.«215899_g5772436046013_cont_9to1c4b_742_31_alg».proof.Proof.KI_TileRes
import proofs.«215899_g5772436046013_cont_9to1c4b_742_31_alg».proof.Proof.KI_TileRes_c1
import proofs.«215899_g5772436046013_cont_9to1c4b_742_31_alg».proof.Proof.KI_SplitGeo
import proofs.«215899_g5772436046013_cont_9to1c4b_742_31_alg».proof.Proof.KI_SplitGeo_c1
import Idealize.ShloMosaic.Lib.StableHlo.Run
import proofs.«215899_g5772436046013_cont_9to1c4b_742_31_alg».proof.Proof.KI_Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

local notation "𝔯" => (Proc.devRef (τ := τ) (sig := sig) Proc.tc)

/-! ## Sums over the tiles -/

/-- The launch's double sum over a call's cores and subcores is the sum over the tiles. -/
theorem bigSep_tiles1 (Φ : grid2.Coords → sProp 𝕄) :
    (bigSep Finset.univ fun c : Fin ((K (F := F)).nCore 1) => bigSep Finset.univ fun i : Fin ((K (F := F)).nSub 1) =>
        Φ (coordsV1 (Fin.cast nCore_zero1 c) (Fin.cast nSub_zero1 i)))
      = bigSep (Finset.univ : Finset Tl) fun p => Φ (tl1 p) := by
  rw [bigSep_univ_prod]
  exact bigSep_congr fun c _ => bigSep_congr fun i _ => congrArg Φ rfl

/-! ## A table's thirty-two read shares -/

/-- A tile's worker number among the thirty-two. -/
def widF1 (p : Tl) : Fin 32 := ⟨wid1 (tl1 p), wid_lt1 (tl1 p)⟩

/-- Every worker number is one tile's. -/
def widEmb1 : Tl ↪ Fin 32 := ⟨widF1, fun _ _ h => wid_tl_inj1 (congrArg Fin.val h)⟩

theorem widEmb_univ1 : (Finset.univ : Finset Tl).map widEmb1 = Finset.univ :=
  Finset.eq_univ_iff_forall.mpr fun w => Finset.mem_map.mpr ⟨tlOf w.val w.isLt, Finset.mem_univ _, Fin.ext (wid_tlOf1 _ _)⟩

/-- An array held whole is the tiles' read shares of it and what remains of the share after thirty-two halvings. -/
theorem tbl_shares1 (ℓ : Loc nD τ sig) (f : Buf (Elt F) ℓ) :
    (ℓ ↦{fullShare} f : sProp 𝕄)
      = iprop((ℓ ↦{Transfers.shareDrop fullShare 32} f) ∗ bigSep (Finset.univ : Finset Tl) fun p => ℓ ↦{tblShare1 (tl1 p)} f) := by
  have e : (bigSep (Finset.univ : Finset Tl) fun p => (ℓ ↦{tblShare1 (tl1 p)} f : sProp 𝕄))
      = bigSep (Finset.univ : Finset (Fin 32)) (fun i => ℓ ↦{Transfers.shareTok fullShare 32 i} f) := by
    rw [← widEmb_univ1, BI.bigSep_map]; rfl
  have h : (ℓ ↦{fullShare} f : sProp 𝕄) ⊣⊢ iprop((ℓ ↦{Transfers.shareDrop fullShare 32} f)
      ∗ bigSep (Finset.univ : Finset (Fin 32)) (fun i => ℓ ↦{Transfers.shareTok fullShare 32 i} f)) := Transfers.pointsTo_toks fullShare 32
  rw [e]; exact BI.equiv_iff.mp ⟨h.1, h.2⟩

/-! ## The index array and the results as the tiles' row blocks -/

variable (d : Dev nD)

theorem ix_blocks1 (IX : Buf (Elt F) (ixLoc1 d)) :
    (ixLoc1 d ↦{fullShare} IX : sProp 𝕄) = bigSep (Finset.univ : Finset Tl) fun p => ixLoc1 d ↦[(ixSl1 (tl1 p)).view.set]{fullShare} IX := by
  rw [← pointsTo_biUnion Finset.univ (ℓ := ixLoc1 d) (fun p : Tl => (ixSl1 (tl1 p)).view.set) (fun p _ p' _ h => ixSet_disjoint1 h), ixSet_cover1]

theorem o0_blocks1 (f : Buf (Elt F) (o0Loc1 d)) :
    (o0Loc1 d ↦{fullShare} f : sProp 𝕄) = bigSep (Finset.univ : Finset Tl) fun p => o0Loc1 d ↦[(o0Sl1 (tl1 p)).view.set]{fullShare} f := by
  rw [← pointsTo_biUnion Finset.univ (ℓ := o0Loc1 d) (fun p : Tl => (o0Sl1 (tl1 p)).view.set)
      (fun p _ p' _ h => by rw [o0Set_eq1, o0Set_eq1]; exact oRect_disjoint1 h),
    show ((Finset.univ : Finset Tl).biUnion fun p => ((o0Sl1 (tl1 p)).view.set : Finset S4096x128.Idx)) = Finset.univ from
      (Finset.biUnion_congr rfl fun p _ => o0Set_eq1 (tl1 p)).trans oRect_cover1]

theorem o1_blocks1 (f : Buf (Elt F) (o1Loc1 d)) :
    (o1Loc1 d ↦{fullShare} f : sProp 𝕄) = bigSep (Finset.univ : Finset Tl) fun p => o1Loc1 d ↦[(o1Sl1 (tl1 p)).view.set]{fullShare} f := by
  rw [← pointsTo_biUnion Finset.univ (ℓ := o1Loc1 d) (fun p : Tl => (o1Sl1 (tl1 p)).view.set)
      (fun p _ p' _ h => by rw [o1Set_eq1, o1Set_eq1]; exact oRect_disjoint1 h),
    show ((Finset.univ : Finset Tl).biUnion fun p => ((o1Sl1 (tl1 p)).view.set : Finset S4096x128.Idx)) = Finset.univ from
      (Finset.biUnion_congr rfl fun p _ => o1Set_eq1 (tl1 p)).trans oRect_cover1]

theorem o2_blocks1 (f : Buf (Elt F) (o2Loc1 d)) :
    (o2Loc1 d ↦{fullShare} f : sProp 𝕄)
      = bigSep (Finset.univ : Finset Tl) fun p => bigSep (Finset.univ : Finset (Fin 20)) fun j => o2Loc1 d ↦[(negSl1 (tl1 p) j).view.set]{fullShare} f := by
  refine Eq.trans ?_ (bigSep_univ_prod (fun a : Tl × Fin 20 => (o2Loc1 d ↦[(negSl1 (tl1 a.1) a.2).view.set]{fullShare} f : sProp 𝕄)))
  rw [← pointsTo_biUnion Finset.univ (ℓ := o2Loc1 d) (fun a : Tl × Fin 20 => (negSl1 (tl1 a.1) a.2).view.set)
      (fun a _ a' _ h => by rw [negSet_eq1, negSet_eq1]; exact negRect_disjoint1 h),
    show ((Finset.univ : Finset (Tl × Fin 20)).biUnion fun a => ((negSl1 (tl1 a.1) a.2).view.set : Finset S81920x128.Idx)) = Finset.univ from
      (Finset.biUnion_congr rfl fun a _ => negSet_eq1 (tl1 a.1) a.2).trans negRect_cover1]

/-! ## The six arrays whole and the tiles' parts -/

variable (T0 : Buf (Elt F) (t0Loc d)) (T1 : Buf (Elt F) (t1Loc d)) (IX : Buf (Elt F) (ixLoc1 d))
variable (f0 : Buf (Elt F) (o0Loc1 d)) (f1 : Buf (Elt F) (o1Loc1 d)) (f2 : Buf (Elt F) (o2Loc1 d))

/-- A tile's part of the six arrays, the three results at given contents. -/
def blkRes1 (L : grid2.Coords) : sProp 𝕄 :=
  iprop((t0Loc d ↦{tblShare1 L} T0) ∗ (t1Loc d ↦{tblShare1 L} T1)
    ∗ (ixLoc1 d ↦[(ixSl1 L).view.set]{fullShare} IX)
    ∗ (o0Loc1 d ↦[(o0Sl1 L).view.set]{fullShare} f0)
    ∗ (o1Loc1 d ↦[(o1Sl1 L).view.set]{fullShare} f1)
    ∗ bigSep Finset.univ fun j : Fin 20 => (o2Loc1 d ↦[(negSl1 L j).view.set]{fullShare} f2))

/-- The six arrays whole are the tiles' parts and the tables' remaining shares. -/
theorem whole_blocks1 :
    (iprop((t0Loc d ↦{fullShare} T0) ∗ (t1Loc d ↦{fullShare} T1) ∗ (ixLoc1 d ↦{fullShare} IX)
        ∗ (o0Loc1 d ↦{fullShare} f0) ∗ (o1Loc1 d ↦{fullShare} f1) ∗ (o2Loc1 d ↦{fullShare} f2)) : sProp 𝕄)
      = iprop(tblRem d T0 T1 ∗ bigSep (Finset.univ : Finset Tl) fun p => blkRes1 d T0 T1 IX f0 f1 f2 (tl1 p)) := by
  unfold blkRes1 tblRem
  rw [bigSep_sep', bigSep_sep', bigSep_sep', bigSep_sep', bigSep_sep',
    tbl_shares1 (t0Loc d) T0, tbl_shares1 (t1Loc d) T1, ix_blocks1 d IX, o0_blocks1 d f0, o1_blocks1 d f1, o2_blocks1 d f2]
  refine BI.equiv_iff.mp ⟨ent_of ?_, ent_of ?_⟩
  · iintro ⟨⟨Hr0, Ha0⟩, ⟨Hr1, Ha1⟩, Hi, Hb, Hc, Hd⟩
    isplitl [Hr0 Hr1]
    · isplitl [Hr0]; · iexact Hr0
      iexact Hr1
    isplitl [Ha0]; · iexact Ha0
    isplitl [Ha1]; · iexact Ha1
    isplitl [Hi]; · iexact Hi
    isplitl [Hb]; · iexact Hb
    isplitl [Hc]; · iexact Hc
    iexact Hd
  · iintro ⟨⟨Hr0, Hr1⟩, Ha0, Ha1, Hi, Hb, Hc, Hd⟩
    isplitl [Hr0 Ha0]
    · isplitl [Hr0]; · iexact Hr0
      iexact Ha0
    isplitl [Hr1 Ha1]
    · isplitl [Hr1]; · iexact Hr1
      iexact Ha1
    isplitl [Hi]; · iexact Hi
    isplitl [Hb]; · iexact Hb
    isplitl [Hc]; · iexact Hc
    iexact Hd

/-- A tile's part with the results at any contents is what the tile is handed. -/
theorem blkRes_go1 (L : grid2.Coords) : blkRes1 d T0 T1 IX f0 f1 f2 L ⊢ goResL1 d T0 T1 IX L := by
  unfold blkRes1 goResL1
  iintro ⟨H0, H1, Hi, Hb, Hc, Hd⟩
  isplitl [H0]; · iexact H0
  isplitl [H1]; · iexact H1
  isplitl [Hi]; · iexact Hi
  isplitl [Hb]; · iexists f0; iexact Hb
  isplitl [Hc]; · iexists f1; iexact Hc
  have hd : (bigSep Finset.univ fun j : Fin 20 => (o2Loc1 d ↦[(negSl1 L j).view.set]{fullShare} f2 : sProp 𝕄))
      ⊢ bigSep Finset.univ fun j : Fin 20 => iprop(∃ f, o2Loc1 d ↦[(negSl1 L j).view.set]{fullShare} f) :=
    bigSep_mono fun j _ => ent_of (by iintro H; iexists f2; iexact H)
  iapply hd; iexact Hd

/-- What a tile hands back is its part with the results at the gathered rows. -/
theorem tdResL_eq1 (L : grid2.Coords) :
    tdResL1 d T0 T1 IX L = blkRes1 d T0 T1 IX (gV0 d T0 IX) (gV1 d T1 IX) (gV2 d T1 IX) L := rfl

/-! ## The call's arrays, held by the TensorCore -/

/-- The six arrays call 1 concerns: the two tables, the index array, the three results. -/
def Cs1 : Finset (DevRef τ sig) := {𝔯 main_arg0, 𝔯 main_arg1, 𝔯 main_v32, 𝔯 main_v33_0, 𝔯 main_v33_1, 𝔯 main_v33_2}

theorem held_Cs1 (W : Valuation τ sig (Elt F)) :
    (StableHlo.held (T d) Cs1 W : sProp 𝕄)
      = iprop((t0Loc d ↦{fullShare} W (𝔯 main_arg0)) ∗ (t1Loc d ↦{fullShare} W (𝔯 main_arg1)) ∗ (ixLoc1 d ↦{fullShare} W (𝔯 main_v32))
        ∗ (o0Loc1 d ↦{fullShare} W (𝔯 main_v33_0)) ∗ (o1Loc1 d ↦{fullShare} W (𝔯 main_v33_1)) ∗ (o2Loc1 d ↦{fullShare} W (𝔯 main_v33_2))) := by
  unfold StableHlo.held Cs1
  rw [bigSep_insert (by decide), bigSep_insert (by decide), bigSep_insert (by decide), bigSep_insert (by decide), bigSep_insert (by decide),
    bigSep_singleton]
  rfl

/-- The hand-out: the call's arrays held whole are every tile's operands and the tables' remaining shares. -/
theorem call1_split (W : Valuation τ sig (Elt F)) :
    (StableHlo.held (T d) Cs1 W : sProp 𝕄) ⊢ iprop(
      (bigSep Finset.univ fun c : Fin ((K (F := F)).nCore 1) => bigSep Finset.univ fun i : Fin ((K (F := F)).nSub 1) =>
        goRes1 d (W (𝔯 main_arg0)) (W (𝔯 main_arg1)) (W (𝔯 main_v32)) c i)
      ∗ tblRem d (W (𝔯 main_arg0)) (W (𝔯 main_arg1))) := by
  rw [held_Cs1, whole_blocks1]
  unfold goRes1
  rw [bigSep_tiles1 (fun L => goResL1 d (W (𝔯 main_arg0)) (W (𝔯 main_arg1)) (W (𝔯 main_v32)) L)]
  iintro ⟨Hr, Hb⟩
  isplitl [Hb]
  · have hb : (bigSep (Finset.univ : Finset Tl) fun p => blkRes1 d (W (𝔯 main_arg0)) (W (𝔯 main_arg1)) (W (𝔯 main_v32))
          (W (𝔯 main_v33_0)) (W (𝔯 main_v33_1)) (W (𝔯 main_v33_2)) (tl1 p))
        ⊢ bigSep (Finset.univ : Finset Tl) fun p => goResL1 d (W (𝔯 main_arg0)) (W (𝔯 main_arg1)) (W (𝔯 main_v32)) (tl1 p) :=
      bigSep_mono fun p _ => blkRes_go1 d _ _ _ _ _ _ (tl1 p)
    iapply hb; iexact Hb
  · iexact Hr

/-- The gathering: every tile's returns and the tables' remaining shares are the call's arrays held whole, the three
    results at the gathered rows. -/
theorem call1_join (W W' : Valuation τ sig (Elt F)) (h0 : W' (𝔯 main_arg0) = W (𝔯 main_arg0)) (h1 : W' (𝔯 main_arg1) = W (𝔯 main_arg1))
    (hix : W' (𝔯 main_v32) = W (𝔯 main_v32))
    (ho0 : W' (𝔯 main_v33_0) = gV0 d (W (𝔯 main_arg0)) (W (𝔯 main_v32)))
    (ho1 : W' (𝔯 main_v33_1) = gV1 d (W (𝔯 main_arg1)) (W (𝔯 main_v32)))
    (ho2 : W' (𝔯 main_v33_2) = gV2 d (W (𝔯 main_arg1)) (W (𝔯 main_v32))) :
    iprop((bigSep Finset.univ fun c : Fin ((K (F := F)).nCore 1) => bigSep Finset.univ fun i : Fin ((K (F := F)).nSub 1) =>
        tdRes1 d (W (𝔯 main_arg0)) (W (𝔯 main_arg1)) (W (𝔯 main_v32)) c i)
      ∗ tblRem d (W (𝔯 main_arg0)) (W (𝔯 main_arg1))) ⊢ (StableHlo.held (T d) Cs1 W' : sProp 𝕄) := by
  rw [held_Cs1, h0, h1, hix, ho0, ho1, ho2, whole_blocks1]
  unfold tdRes1
  rw [bigSep_tiles1 (fun L => tdResL1 d (W (𝔯 main_arg0)) (W (𝔯 main_arg1)) (W (𝔯 main_v32)) L)]
  iintro ⟨Hb, Hr⟩
  isplitl [Hr]; · iexact Hr
  iexact Hb

/-- Both at once, as a call step uses them: the hand-out, and the arrays back whole against the tiles' returns. -/
theorem call1_split_wand (W W' : Valuation τ sig (Elt F)) (h0 : W' (𝔯 main_arg0) = W (𝔯 main_arg0)) (h1 : W' (𝔯 main_arg1) = W (𝔯 main_arg1))
    (hix : W' (𝔯 main_v32) = W (𝔯 main_v32))
    (ho0 : W' (𝔯 main_v33_0) = gV0 d (W (𝔯 main_arg0)) (W (𝔯 main_v32)))
    (ho1 : W' (𝔯 main_v33_1) = gV1 d (W (𝔯 main_arg1)) (W (𝔯 main_v32)))
    (ho2 : W' (𝔯 main_v33_2) = gV2 d (W (𝔯 main_arg1)) (W (𝔯 main_v32))) :
    (StableHlo.held (T d) Cs1 W : sProp 𝕄) ⊢ iprop(
      (bigSep Finset.univ fun c : Fin ((K (F := F)).nCore 1) => bigSep Finset.univ fun i : Fin ((K (F := F)).nSub 1) =>
        goRes1 d (W (𝔯 main_arg0)) (W (𝔯 main_arg1)) (W (𝔯 main_v32)) c i)
      ∗ ((bigSep Finset.univ fun c : Fin ((K (F := F)).nCore 1) => bigSep Finset.univ fun i : Fin ((K (F := F)).nSub 1) =>
          tdRes1 d (W (𝔯 main_arg0)) (W (𝔯 main_arg1)) (W (𝔯 main_v32)) c i) -∗ (StableHlo.held (T d) Cs1 W' : sProp 𝕄))) := by
  refine (call1_split d W).trans ?_
  iintro ⟨Hgo, Hr⟩
  isplitl [Hgo]; · iexact Hgo
  iintro Htd
  iapply (call1_join d W W' h0 h1 hix ho0 ho1 ho2)
  isplitl [Htd]; · iexact Htd
  iexact Hr

end Cert.Proof.KI

end
-- ==== Proof.KI_TileRes_c2.lean ====
/-
  What one vector subcore of call 2 is handed and hands back: the six arrays of the call, the slices of them a
  tile owns (as the program takes them, with their row ranges in closed form), the three results as whole-array
  functions of the tables and the index array, and the resources a tile receives and returns.
-/
import proofs.«215899_g5772436046013_cont_9to1c4b_742_31_alg».proof.Proof.KI_Common
import proofs.«215899_g5772436046013_cont_9to1c4b_742_31_alg».proof.Proof.KI_TileRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## The arrays of call 2 and a tile's place

Call 2 reads the two embedding tables and the index array whole and writes three result arrays. Worker
`wid2 = 2 * subcore + core` owns rows `24 * wid2 … 24 * wid2 + 23` of the index array (row 0 the centre words,
row 1 the positive words, rows 2 … 21 the twenty negative draws, 128 words each), rows
`128 * wid2 … 128 * wid2 + 127` of the first two results and, for each draw `j`, rows
`4096 * j + 128 * wid2 …` of the third. -/

abbrev ixLoc2 (d : Dev nD) : Loc nD τ sig := (SparseCore.T d).loc main_v38
abbrev o0Loc2 (d : Dev nD) : Loc nD τ sig := (SparseCore.T d).loc main_v39_0
abbrev o1Loc2 (d : Dev nD) : Loc nD τ sig := (SparseCore.T d).loc main_v39_1
abbrev o2Loc2 (d : Dev nD) : Loc nD τ sig := (SparseCore.T d).loc main_v39_2

abbrev ixV2 : Memref sig .scVector .hbm S768x128 .i32 := Memref.whole main_v38_scv
abbrev o0V2 : Memref sig .scVector .hbm S4096x128 .f32 := Memref.whole main_v39_0_scv
abbrev o1V2 : Memref sig .scVector .hbm S4096x128 .f32 := Memref.whole main_v39_1_scv
abbrev o2V2 : Memref sig .scVector .hbm S81920x128 .f32 := Memref.whole main_v39_2_scv

/-- A tile's grid coordinates from its core and subcore numbers. -/
def coordsV2 (c : Fin (grid4.bound 0)) (s : Fin (grid4.bound 1)) : grid4.Coords :=
  fun | 0 => c | 1 => s | ⟨_ + 2, h⟩ => absurd h (Nat.not_lt.2 (Nat.le_add_left _ _))

abbrev cV2 (L : grid4.Coords) : Fin τ.nSC := (L 0).castLE hcore4
abbrev jV2 (L : grid4.Coords) : Fin τ.nSub := (L 1).castLE hsub4

theorem bound_zero2 : grid4.bound 0 = 2 := rfl
theorem bound_one2 : grid4.bound 1 = 16 := rfl

/-- The worker number of a tile. -/
def wid2 (L : grid4.Coords) : ℕ := 2 * (L 1).val + (L 0).val

theorem wid_lt2 (L : grid4.Coords) : wid2 L < 32 := by
  have h0 : (L 0).val < 2 := (L 0).isLt
  have h1 : (L 1).val < 16 := (L 1).isLt
  unfold wid2; omega

/-! ## The slices, as the program takes them -/

abbrev ixRect2 (L : grid4.Coords) : Rect S768x128 := Rect.unit (s := S768x128) (k4_off1 L) S24x128.size (k4_off1_inb L)
abbrev ixSl2 (L : grid4.Coords) : Memref sig .scVector .hbm S24x128 .i32 := (ixV2).slice (ixRect2 L) (fun _ => rfl)
abbrev oRect2 (L : grid4.Coords) : Rect S4096x128 := Rect.unit (s := S4096x128) (k4_off7 L) S128x128.size (k4_off7_inb L)
abbrev o0Sl2 (L : grid4.Coords) : Memref sig .scVector .hbm S128x128 .f32 := (o0V2).slice (oRect2 L) (fun _ => rfl)
abbrev o1Sl2 (L : grid4.Coords) : Memref sig .scVector .hbm S128x128 .f32 := (o1V2).slice (oRect2 L) (fun _ => rfl)

/-- Where draw `j`'s block of a tile begins in the third result. -/
def negOff2 (L : grid4.Coords) (j : ℕ) : Fin 2 → ℕ := ![128 * wid2 L + 4096 * j, 0]

theorem negOff_inb2 (L : grid4.Coords) (j : Fin 20) : ∀ a, negOff2 L j.val a + S128x128.size a ≤ S81920x128.size a := by
  have hw := wid_lt2 L; have hj := j.isLt
  intro a
  match a with
  | 0 => show 128 * wid2 L + 4096 * j.val + 128 ≤ 81920; omega
  | 1 => show 0 + 128 ≤ 128; omega

abbrev negRect2 (L : grid4.Coords) (j : Fin 20) : Rect S81920x128 := Rect.unit (s := S81920x128) (negOff2 L j.val) S128x128.size (negOff_inb2 L j)
abbrev negSl2 (L : grid4.Coords) (j : Fin 20) : Memref sig .scVector .hbm S128x128 .f32 := (o2V2).slice (negRect2 L j) (fun _ => rfl)

theorem k4_off1_wid (L : grid4.Coords) : k4_off1 L = ![24 * wid2 L, 0] := by
  rw [k4_off1_eq]; unfold wid2; congr 1; omega

theorem k4_off7_wid (L : grid4.Coords) : k4_off7 L = ![128 * wid2 L, 0] := by
  rw [k4_off7_eq]; unfold wid2; congr 1; omega

theorem k4_off2_wid : ∀ (L : grid4.Coords) (r : Fin 5), k4_off2 L (k4_off2_at r) = ![128 * (2 * (L 1).val + (L 0).val) + (k4_off2_at r).toNat, 0] := by decide +kernel

theorem k4_off6_wid (L : grid4.Coords) (t : Fin k4_t1_loop.trips) (r : Fin 4) :
    k4_off6 L t (BitVec.ofNat 32 (1 + r.val)) = negOff2 L (4 * t.val + r.val + 1) := by
  rw [k4_off6_eq]; unfold negOff2 wid2; congr 1; omega

theorem k4_off4_wid (L : grid4.Coords) (t : Fin k4_t1_loop.trips) (r : Fin 4) :
    k4_off4 L t (BitVec.ofNat 32 (1 + r.val)) = negOff2 L (4 * t.val + r.val) := by
  rw [k4_off4_eq]; unfold negOff2 wid2; congr 1; omega

/-! ## What a tile is handed and what it hands back -/

/-- A tile's read share of a table: one of thirty-two. -/
abbrev tblShare2 (L : grid4.Coords) : PosShare TreeShare := Transfers.shareTok fullShare 32 ⟨wid2 L, wid_lt2 L⟩

variable (d : Dev nD) (T0 : Buf (Elt F) (t0Loc d)) (T1 : Buf (Elt F) (t1Loc d)) (IX : Buf (Elt F) (ixLoc2 d))

/-- What the tile at `L` is handed: a read share of each table, its 24 rows of the index array, and its rows of
    the three results at whatever they hold. -/
def goResL2 (L : grid4.Coords) : sProp 𝕄 :=
  iprop((t0Loc d ↦{tblShare2 L} T0) ∗ (t1Loc d ↦{tblShare2 L} T1)
    ∗ (ixLoc2 d ↦[(ixSl2 L).view.set]{fullShare} IX)
    ∗ (∃ f, o0Loc2 d ↦[(o0Sl2 L).view.set]{fullShare} f)
    ∗ (∃ f, o1Loc2 d ↦[(o1Sl2 L).view.set]{fullShare} f)
    ∗ bigSep Finset.univ fun j : Fin 20 => iprop(∃ f, o2Loc2 d ↦[(negSl2 L j).view.set]{fullShare} f))

/-- What it hands back: the same, its rows of the results at the gathered rows. -/
def tdResL2 (L : grid4.Coords) : sProp 𝕄 :=
  iprop((t0Loc d ↦{tblShare2 L} T0) ∗ (t1Loc d ↦{tblShare2 L} T1)
    ∗ (ixLoc2 d ↦[(ixSl2 L).view.set]{fullShare} IX)
    ∗ (o0Loc2 d ↦[(o0Sl2 L).view.set]{fullShare} gV0 d T0 IX)
    ∗ (o1Loc2 d ↦[(o1Sl2 L).view.set]{fullShare} gV1 d T1 IX)
    ∗ bigSep Finset.univ fun j : Fin 20 => (o2Loc2 d ↦[(negSl2 L j).view.set]{fullShare} gV2 d T1 IX))

theorem nCore_zero2 : (K (F := F)).nCore 2 = grid4.bound 0 := rfl
theorem nSub_zero2 : (K (F := F)).nSub 2 = grid4.bound 1 := rfl

/-- The same by the launch's numbering of a call's tiles. -/
def goRes2 (c : Fin ((K (F := F)).nCore 2)) (i : Fin ((K (F := F)).nSub 2)) : sProp 𝕄 :=
  goResL2 d T0 T1 IX (coordsV2 (Fin.cast nCore_zero2 c) (Fin.cast nSub_zero2 i))
def tdRes2 (c : Fin ((K (F := F)).nCore 2)) (i : Fin ((K (F := F)).nSub 2)) : sProp 𝕄 :=
  tdResL2 d T0 T1 IX (coordsV2 (Fin.cast nCore_zero2 c) (Fin.cast nSub_zero2 i))

set_option synthInstance.maxHeartbeats 1000000 in
instance goResL_storable2 (L : grid4.Coords) : BI.Storable (upEmb : UEmb _ 𝕄) (goResL2 d T0 T1 IX L) := by
  unfold goResL2; infer_instance
set_option synthInstance.maxHeartbeats 1000000 in
instance tdResL_storable2 (L : grid4.Coords) : BI.Storable (upEmb : UEmb _ 𝕄) (tdResL2 d T0 T1 IX L) := by
  unfold tdResL2; infer_instance
instance goRes2_storable (c : Fin ((K (F := F)).nCore 2)) (i : Fin ((K (F := F)).nSub 2)) :
    BI.Storable (upEmb : UEmb _ 𝕄) (goRes2 d T0 T1 IX c i) := by unfold goRes2; infer_instance
instance tdRes2_storable (c : Fin ((K (F := F)).nCore 2)) (i : Fin ((K (F := F)).nSub 2)) :
    BI.Storable (upEmb : UEmb _ 𝕄) (tdRes2 d T0 T1 IX c i) := by unfold tdRes2; infer_instance

/-- Every word of rows 0 … 21 of each tile's slice of the index array names a row of the tables. -/
def IXOK2 : Prop :=
  ∀ (L : grid4.Coords) (x : S24x128.Idx), (x 0).val < 22 → ((ixSl2 L).view.read (Elt F) IX x).toNat < 100000

end Cert.Proof.KI

end
-- ==== Proof.KI_SplitGeo_c2.lean ====
/-
  The geometry of call 2's hand-out: the thirty-two tiles' row blocks of the index array and of the three result
  arrays are pairwise disjoint and cover the arrays; a tile's worker number determines the tile.
-/
import proofs.«215899_g5772436046013_cont_9to1c4b_742_31_alg».proof.Proof.KI_TileRes
import proofs.«215899_g5772436046013_cont_9to1c4b_742_31_alg».proof.Proof.KI_TileRes_c2
import Idealize.ShloMosaic.Lib.StableHlo.Run
import proofs.«215899_g5772436046013_cont_9to1c4b_742_31_alg».proof.Proof.KI_SplitGeo

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## Tiles by their core and subcore numbers -/

/-- The tile's grid coordinates. -/
def tl2 (p : Tl) : grid4.Coords := coordsV2 p.1 p.2

theorem wid_tl2 (p : Tl) : wid2 (tl2 p) = 2 * p.2.val + p.1.val := rfl

/-- The worker number determines the tile: the core number is its parity. -/
theorem wid_tl_inj2 {p p' : Tl} (h : wid2 (tl2 p) = wid2 (tl2 p')) : p = p' := by
  rw [wid_tl2, wid_tl2] at h
  have h1 := p.1.isLt; have h1' := p'.1.isLt
  exact Prod.ext (Fin.ext (by omega)) (Fin.ext (by omega))

theorem wid_tlOf2 (w : ℕ) (hw : w < 32) : wid2 (tl2 (tlOf w hw)) = w := by
  rw [wid_tl2]; show 2 * (w / 2) + w % 2 = w; omega

/-! ## The index array: 24 rows a tile -/

theorem ixSet_eq2 (L : grid4.Coords) : (ixSl2 L).view.set = (ixRect2 L).set := View.set_slice_whole _ _

theorem ixSet_disjoint2 {p p' : Tl} (h : p ≠ p') : Disjoint (ixSl2 (tl2 p)).view.set (ixSl2 (tl2 p')).view.set := by
  rw [ixSet_eq2, ixSet_eq2]
  have hw : wid2 (tl2 p) ≠ wid2 (tl2 p') := fun e => h (wid_tl_inj2 e)
  refine Rect.unit_disjoint (0 : Fin 2) ?_
  rw [k4_off1_wid, k4_off1_wid]
  show 24 * wid2 (tl2 p) + 24 ≤ 24 * wid2 (tl2 p') ∨ 24 * wid2 (tl2 p') + 24 ≤ 24 * wid2 (tl2 p)
  omega

theorem ixSet_cover2 : Finset.biUnion (β := S768x128.Idx) (Finset.univ : Finset Tl) (fun p => (ixSl2 (tl2 p)).view.set) = Finset.univ := by
  refine Finset.eq_univ_iff_forall.mpr fun x => Finset.mem_biUnion.mpr ?_
  have hx : (x 0).val < 768 := (x 0).isLt
  have hx1 : (x 1).val < 128 := (x 1).isLt
  refine ⟨tlOf ((x 0).val / 24) (by omega), Finset.mem_univ _, ?_⟩
  rw [ixSet_eq2, Rect.mem_set_unit, k4_off1_wid, wid_tlOf2]
  refine Fin.forall_fin_two.mpr ⟨?_, ?_⟩
  · show 24 * ((x 0).val / 24) ≤ (x 0).val ∧ (x 0).val < 24 * ((x 0).val / 24) + 24; omega
  · show 0 ≤ (x 1).val ∧ (x 1).val < 0 + 128; omega

/-! ## The first two results: 128 rows a tile -/

theorem o0Set_eq2 (L : grid4.Coords) : (o0Sl2 L).view.set = (oRect2 L).set := View.set_slice_whole _ _
theorem o1Set_eq2 (L : grid4.Coords) : (o1Sl2 L).view.set = (oRect2 L).set := View.set_slice_whole _ _

theorem oRect_disjoint2 {p p' : Tl} (h : p ≠ p') : Disjoint (oRect2 (tl2 p)).set (oRect2 (tl2 p')).set := by
  have hw : wid2 (tl2 p) ≠ wid2 (tl2 p') := fun e => h (wid_tl_inj2 e)
  refine Rect.unit_disjoint (0 : Fin 2) ?_
  rw [k4_off7_wid, k4_off7_wid]
  show 128 * wid2 (tl2 p) + 128 ≤ 128 * wid2 (tl2 p') ∨ 128 * wid2 (tl2 p') + 128 ≤ 128 * wid2 (tl2 p)
  omega

theorem oRect_cover2 : (Finset.univ : Finset Tl).biUnion (fun p => (oRect2 (tl2 p)).set) = Finset.univ := by
  refine Finset.eq_univ_iff_forall.mpr fun x => Finset.mem_biUnion.mpr ?_
  have hx : (x 0).val < 4096 := (x 0).isLt
  have hx1 : (x 1).val < 128 := (x 1).isLt
  refine ⟨tlOf ((x 0).val / 128) (by omega), Finset.mem_univ _, ?_⟩
  rw [Rect.mem_set_unit, k4_off7_wid, wid_tlOf2]
  refine Fin.forall_fin_two.mpr ⟨?_, ?_⟩
  · show 128 * ((x 0).val / 128) ≤ (x 0).val ∧ (x 0).val < 128 * ((x 0).val / 128) + 128; omega
  · show 0 ≤ (x 1).val ∧ (x 1).val < 0 + 128; omega

/-! ## The third result: 128 rows a tile and draw -/

theorem negSet_eq2 (L : grid4.Coords) (j : Fin 20) : (negSl2 L j).view.set = (negRect2 L j).set := View.set_slice_whole _ _

theorem negRect_disjoint2 {a a' : Tl × Fin 20} (h : a ≠ a') : Disjoint (negRect2 (tl2 a.1) a.2).set (negRect2 (tl2 a'.1) a'.2).set := by
  have hw := wid_lt2 (tl2 a.1); have hw' := wid_lt2 (tl2 a'.1)
  have hne : wid2 (tl2 a.1) ≠ wid2 (tl2 a'.1) ∨ a.2.val ≠ a'.2.val := by
    by_contra hc
    rw [not_or, not_not, not_not] at hc
    exact h (Prod.ext (wid_tl_inj2 hc.1) (Fin.ext hc.2))
  refine Rect.unit_disjoint (0 : Fin 2) ?_
  show 128 * wid2 (tl2 a.1) + 4096 * a.2.val + 128 ≤ 128 * wid2 (tl2 a'.1) + 4096 * a'.2.val
    ∨ 128 * wid2 (tl2 a'.1) + 4096 * a'.2.val + 128 ≤ 128 * wid2 (tl2 a.1) + 4096 * a.2.val
  omega

theorem negRect_cover2 : (Finset.univ : Finset (Tl × Fin 20)).biUnion (fun a => (negRect2 (tl2 a.1) a.2).set) = Finset.univ := by
  refine Finset.eq_univ_iff_forall.mpr fun x => Finset.mem_biUnion.mpr ?_
  have hx : (x 0).val < 81920 := (x 0).isLt
  have hx1 : (x 1).val < 128 := (x 1).isLt
  have hw : (x 0).val % 4096 / 128 < 32 := by omega
  refine ⟨(tlOf ((x 0).val % 4096 / 128) hw, ⟨(x 0).val / 4096, by omega⟩), Finset.mem_univ _, ?_⟩
  rw [Rect.mem_set_unit]
  refine Fin.forall_fin_two.mpr ⟨?_, ?_⟩
  · show 128 * wid2 (tl2 (tlOf ((x 0).val % 4096 / 128) hw)) + 4096 * ((x 0).val / 4096) ≤ (x 0).val
      ∧ (x 0).val < 128 * wid2 (tl2 (tlOf ((x 0).val % 4096 / 128) hw)) + 4096 * ((x 0).val / 4096) + 128
    rw [wid_tlOf2]; omega
  · show 0 ≤ (x 1).val ∧ (x 1).val < 0 + 128; omega

end Cert.Proof.KI

end
-- ==== Proof.KI_Split_c2.lean ====
/-
  Call 2's arrays among its thirty-two tiles and back: the six arrays the call concerns, held whole by the
  TensorCore, are the tiles' hand-outs together (a read share of each table a tile, the tile's row blocks of the
  index array and of the three results), and the tiles' returns join to the arrays whole, the results at the
  gathered rows.
-/
import proofs.«215899_g5772436046013_cont_9to1c4b_742_31_alg».proof.Proof.KI_TileRes
import proofs.«215899_g5772436046013_cont_9to1c4b_742_31_alg».proof.Proof.KI_TileRes_c2
import proofs.«215899_g5772436046013_cont_9to1c4b_742_31_alg».proof.Proof.KI_SplitGeo
import proofs.«215899_g5772436046013_cont_9to1c4b_742_31_alg».proof.Proof.KI_SplitGeo_c2
import Idealize.ShloMosaic.Lib.StableHlo.Run
import proofs.«215899_g5772436046013_cont_9to1c4b_742_31_alg».proof.Proof.KI_Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

local notation "𝔯" => (Proc.devRef (τ := τ) (sig := sig) Proc.tc)

/-! ## Sums over the tiles -/

/-- The launch's double sum over a call's cores and subcores is the sum over the tiles. -/
theorem bigSep_tiles2 (Φ : grid4.Coords → sProp 𝕄) :
    (bigSep Finset.univ fun c : Fin ((K (F := F)).nCore 2) => bigSep Finset.univ fun i : Fin ((K (F := F)).nSub 2) =>
        Φ (coordsV2 (Fin.cast nCore_zero2 c) (Fin.cast nSub_zero2 i)))
      = bigSep (Finset.univ : Finset Tl) fun p => Φ (tl2 p) := by
  rw [bigSep_univ_prod]
  exact bigSep_congr fun c _ => bigSep_congr fun i _ => congrArg Φ rfl

/-! ## A table's thirty-two read shares -/

/-- A tile's worker number among the thirty-two. -/
def widF2 (p : Tl) : Fin 32 := ⟨wid2 (tl2 p), wid_lt2 (tl2 p)⟩

/-- Every worker number is one tile's. -/
def widEmb2 : Tl ↪ Fin 32 := ⟨widF2, fun _ _ h => wid_tl_inj2 (congrArg Fin.val h)⟩

theorem widEmb_univ2 : (Finset.univ : Finset Tl).map widEmb2 = Finset.univ :=
  Finset.eq_univ_iff_forall.mpr fun w => Finset.mem_map.mpr ⟨tlOf w.val w.isLt, Finset.mem_univ _, Fin.ext (wid_tlOf2 _ _)⟩

/-- An array held whole is the tiles' read shares of it and what remains of the share after thirty-two halvings. -/
theorem tbl_shares2 (ℓ : Loc nD τ sig) (f : Buf (Elt F) ℓ) :
    (ℓ ↦{fullShare} f : sProp 𝕄)
      = iprop((ℓ ↦{Transfers.shareDrop fullShare 32} f) ∗ bigSep (Finset.univ : Finset Tl) fun p => ℓ ↦{tblShare2 (tl2 p)} f) := by
  have e : (bigSep (Finset.univ : Finset Tl) fun p => (ℓ ↦{tblShare2 (tl2 p)} f : sProp 𝕄))
      = bigSep (Finset.univ : Finset (Fin 32)) (fun i => ℓ ↦{Transfers.shareTok fullShare 32 i} f) := by
    rw [← widEmb_univ2, BI.bigSep_map]; rfl
  have h : (ℓ ↦{fullShare} f : sProp 𝕄) ⊣⊢ iprop((ℓ ↦{Transfers.shareDrop fullShare 32} f)
      ∗ bigSep (Finset.univ : Finset (Fin 32)) (fun i => ℓ ↦{Transfers.shareTok fullShare 32 i} f)) := Transfers.pointsTo_toks fullShare 32
  rw [e]; exact BI.equiv_iff.mp ⟨h.1, h.2⟩

/-! ## The index array and the results as the tiles' row blocks -/

variable (d : Dev nD)

theorem ix_blocks2 (IX : Buf (Elt F) (ixLoc2 d)) :
    (ixLoc2 d ↦{fullShare} IX : sProp 𝕄) = bigSep (Finset.univ : Finset Tl) fun p => ixLoc2 d ↦[(ixSl2 (tl2 p)).view.set]{fullShare} IX := by
  rw [← pointsTo_biUnion Finset.univ (ℓ := ixLoc2 d) (fun p : Tl => (ixSl2 (tl2 p)).view.set) (fun p _ p' _ h => ixSet_disjoint2 h), ixSet_cover2]

theorem o0_blocks2 (f : Buf (Elt F) (o0Loc2 d)) :
    (o0Loc2 d ↦{fullShare} f : sProp 𝕄) = bigSep (Finset.univ : Finset Tl) fun p => o0Loc2 d ↦[(o0Sl2 (tl2 p)).view.set]{fullShare} f := by
  rw [← pointsTo_biUnion Finset.univ (ℓ := o0Loc2 d) (fun p : Tl => (o0Sl2 (tl2 p)).view.set)
      (fun p _ p' _ h => by rw [o0Set_eq2, o0Set_eq2]; exact oRect_disjoint2 h),
    show ((Finset.univ : Finset Tl).biUnion fun p => ((o0Sl2 (tl2 p)).view.set : Finset S4096x128.Idx)) = Finset.univ from
      (Finset.biUnion_congr rfl fun p _ => o0Set_eq2 (tl2 p)).trans oRect_cover2]

theorem o1_blocks2 (f : Buf (Elt F) (o1Loc2 d)) :
    (o1Loc2 d ↦{fullShare} f : sProp 𝕄) = bigSep (Finset.univ : Finset Tl) fun p => o1Loc2 d ↦[(o1Sl2 (tl2 p)).view.set]{fullShare} f := by
  rw [← pointsTo_biUnion Finset.univ (ℓ := o1Loc2 d) (fun p : Tl => (o1Sl2 (tl2 p)).view.set)
      (fun p _ p' _ h => by rw [o1Set_eq2, o1Set_eq2]; exact oRect_disjoint2 h),
    show ((Finset.univ : Finset Tl).biUnion fun p => ((o1Sl2 (tl2 p)).view.set : Finset S4096x128.Idx)) = Finset.univ from
      (Finset.biUnion_congr rfl fun p _ => o1Set_eq2 (tl2 p)).trans oRect_cover2]

theorem o2_blocks2 (f : Buf (Elt F) (o2Loc2 d)) :
    (o2Loc2 d ↦{fullShare} f : sProp 𝕄)
      = bigSep (Finset.univ : Finset Tl) fun p => bigSep (Finset.univ : Finset (Fin 20)) fun j => o2Loc2 d ↦[(negSl2 (tl2 p) j).view.set]{fullShare} f := by
  refine Eq.trans ?_ (bigSep_univ_prod (fun a : Tl × Fin 20 => (o2Loc2 d ↦[(negSl2 (tl2 a.1) a.2).view.set]{fullShare} f : sProp 𝕄)))
  rw [← pointsTo_biUnion Finset.univ (ℓ := o2Loc2 d) (fun a : Tl × Fin 20 => (negSl2 (tl2 a.1) a.2).view.set)
      (fun a _ a' _ h => by rw [negSet_eq2, negSet_eq2]; exact negRect_disjoint2 h),
    show ((Finset.univ : Finset (Tl × Fin 20)).biUnion fun a => ((negSl2 (tl2 a.1) a.2).view.set : Finset S81920x128.Idx)) = Finset.univ from
      (Finset.biUnion_congr rfl fun a _ => negSet_eq2 (tl2 a.1) a.2).trans negRect_cover2]

/-! ## The six arrays whole and the tiles' parts -/

variable (T0 : Buf (Elt F) (t0Loc d)) (T1 : Buf (Elt F) (t1Loc d)) (IX : Buf (Elt F) (ixLoc2 d))
variable (f0 : Buf (Elt F) (o0Loc2 d)) (f1 : Buf (Elt F) (o1Loc2 d)) (f2 : Buf (Elt F) (o2Loc2 d))

/-- A tile's part of the six arrays, the three results at given contents. -/
def blkRes2 (L : grid4.Coords) : sProp 𝕄 :=
  iprop((t0Loc d ↦{tblShare2 L} T0) ∗ (t1Loc d ↦{tblShare2 L} T1)
    ∗ (ixLoc2 d ↦[(ixSl2 L).view.set]{fullShare} IX)
    ∗ (o0Loc2 d ↦[(o0Sl2 L).view.set]{fullShare} f0)
    ∗ (o1Loc2 d ↦[(o1Sl2 L).view.set]{fullShare} f1)
    ∗ bigSep Finset.univ fun j : Fin 20 => (o2Loc2 d ↦[(negSl2 L j).view.set]{fullShare} f2))

/-- The six arrays whole are the tiles' parts and the tables' remaining shares. -/
theorem whole_blocks2 :
    (iprop((t0Loc d ↦{fullShare} T0) ∗ (t1Loc d ↦{fullShare} T1) ∗ (ixLoc2 d ↦{fullShare} IX)
        ∗ (o0Loc2 d ↦{fullShare} f0) ∗ (o1Loc2 d ↦{fullShare} f1) ∗ (o2Loc2 d ↦{fullShare} f2)) : sProp 𝕄)
      = iprop(tblRem d T0 T1 ∗ bigSep (Finset.univ : Finset Tl) fun p => blkRes2 d T0 T1 IX f0 f1 f2 (tl2 p)) := by
  unfold blkRes2 tblRem
  rw [bigSep_sep', bigSep_sep', bigSep_sep', bigSep_sep', bigSep_sep',
    tbl_shares2 (t0Loc d) T0, tbl_shares2 (t1Loc d) T1, ix_blocks2 d IX, o0_blocks2 d f0, o1_blocks2 d f1, o2_blocks2 d f2]
  refine BI.equiv_iff.mp ⟨ent_of ?_, ent_of ?_⟩
  · iintro ⟨⟨Hr0, Ha0⟩, ⟨Hr1, Ha1⟩, Hi, Hb, Hc, Hd⟩
    isplitl [Hr0 Hr1]
    · isplitl [Hr0]; · iexact Hr0
      iexact Hr1
    isplitl [Ha0]; · iexact Ha0
    isplitl [Ha1]; · iexact Ha1
    isplitl [Hi]; · iexact Hi
    isplitl [Hb]; · iexact Hb
    isplitl [Hc]; · iexact Hc
    iexact Hd
  · iintro ⟨⟨Hr0, Hr1⟩, Ha0, Ha1, Hi, Hb, Hc, Hd⟩
    isplitl [Hr0 Ha0]
    · isplitl [Hr0]; · iexact Hr0
      iexact Ha0
    isplitl [Hr1 Ha1]
    · isplitl [Hr1]; · iexact Hr1
      iexact Ha1
    isplitl [Hi]; · iexact Hi
    isplitl [Hb]; · iexact Hb
    isplitl [Hc]; · iexact Hc
    iexact Hd

/-- A tile's part with the results at any contents is what the tile is handed. -/
theorem blkRes_go2 (L : grid4.Coords) : blkRes2 d T0 T1 IX f0 f1 f2 L ⊢ goResL2 d T0 T1 IX L := by
  unfold blkRes2 goResL2
  iintro ⟨H0, H1, Hi, Hb, Hc, Hd⟩
  isplitl [H0]; · iexact H0
  isplitl [H1]; · iexact H1
  isplitl [Hi]; · iexact Hi
  isplitl [Hb]; · iexists f0; iexact Hb
  isplitl [Hc]; · iexists f1; iexact Hc
  have hd : (bigSep Finset.univ fun j : Fin 20 => (o2Loc2 d ↦[(negSl2 L j).view.set]{fullShare} f2 : sProp 𝕄))
      ⊢ bigSep Finset.univ fun j : Fin 20 => iprop(∃ f, o2Loc2 d ↦[(negSl2 L j).view.set]{fullShare} f) :=
    bigSep_mono fun j _ => ent_of (by iintro H; iexists f2; iexact H)
  iapply hd; iexact Hd

/-- What a tile hands back is its part with the results at the gathered rows. -/
theorem tdResL_eq2 (L : grid4.Coords) :
    tdResL2 d T0 T1 IX L = blkRes2 d T0 T1 IX (gV0 d T0 IX) (gV1 d T1 IX) (gV2 d T1 IX) L := rfl

/-! ## The call's arrays, held by the TensorCore -/

/-- The six arrays call 2 concerns: the two tables, the index array, the three results. -/
def Cs2 : Finset (DevRef τ sig) := {𝔯 main_arg0, 𝔯 main_arg1, 𝔯 main_v38, 𝔯 main_v39_0, 𝔯 main_v39_1, 𝔯 main_v39_2}

theorem held_Cs2 (W : Valuation τ sig (Elt F)) :
    (StableHlo.held (T d) Cs2 W : sProp 𝕄)
      = iprop((t0Loc d ↦{fullShare} W (𝔯 main_arg0)) ∗ (t1Loc d ↦{fullShare} W (𝔯 main_arg1)) ∗ (ixLoc2 d ↦{fullShare} W (𝔯 main_v38))
        ∗ (o0Loc2 d ↦{fullShare} W (𝔯 main_v39_0)) ∗ (o1Loc2 d ↦{fullShare} W (𝔯 main_v39_1)) ∗ (o2Loc2 d ↦{fullShare} W (𝔯 main_v39_2))) := by
  unfold StableHlo.held Cs2
  rw [bigSep_insert (by decide), bigSep_insert (by decide), bigSep_insert (by decide), bigSep_insert (by decide), bigSep_insert (by decide),
    bigSep_singleton]
  rfl

/-- The hand-out: the call's arrays held whole are every tile's operands and the tables' remaining shares. -/
theorem call2_split (W : Valuation τ sig (Elt F)) :
    (StableHlo.held (T d) Cs2 W : sProp 𝕄) ⊢ iprop(
      (bigSep Finset.univ fun c : Fin ((K (F := F)).nCore 2) => bigSep Finset.univ fun i : Fin ((K (F := F)).nSub 2) =>
        goRes2 d (W (𝔯 main_arg0)) (W (𝔯 main_arg1)) (W (𝔯 main_v38)) c i)
      ∗ tblRem d (W (𝔯 main_arg0)) (W (𝔯 main_arg1))) := by
  rw [held_Cs2, whole_blocks2]
  unfold goRes2
  rw [bigSep_tiles2 (fun L => goResL2 d (W (𝔯 main_arg0)) (W (𝔯 main_arg1)) (W (𝔯 main_v38)) L)]
  iintro ⟨Hr, Hb⟩
  isplitl [Hb]
  · have hb : (bigSep (Finset.univ : Finset Tl) fun p => blkRes2 d (W (𝔯 main_arg0)) (W (𝔯 main_arg1)) (W (𝔯 main_v38))
          (W (𝔯 main_v39_0)) (W (𝔯 main_v39_1)) (W (𝔯 main_v39_2)) (tl2 p))
        ⊢ bigSep (Finset.univ : Finset Tl) fun p => goResL2 d (W (𝔯 main_arg0)) (W (𝔯 main_arg1)) (W (𝔯 main_v38)) (tl2 p) :=
      bigSep_mono fun p _ => blkRes_go2 d _ _ _ _ _ _ (tl2 p)
    iapply hb; iexact Hb
  · iexact Hr

/-- The gathering: every tile's returns and the tables' remaining shares are the call's arrays held whole, the three
    results at the gathered rows. -/
theorem call2_join (W W' : Valuation τ sig (Elt F)) (h0 : W' (𝔯 main_arg0) = W (𝔯 main_arg0)) (h1 : W' (𝔯 main_arg1) = W (𝔯 main_arg1))
    (hix : W' (𝔯 main_v38) = W (𝔯 main_v38))
    (ho0 : W' (𝔯 main_v39_0) = gV0 d (W (𝔯 main_arg0)) (W (𝔯 main_v38)))
    (ho1 : W' (𝔯 main_v39_1) = gV1 d (W (𝔯 main_arg1)) (W (𝔯 main_v38)))
    (ho2 : W' (𝔯 main_v39_2) = gV2 d (W (𝔯 main_arg1)) (W (𝔯 main_v38))) :
    iprop((bigSep Finset.univ fun c : Fin ((K (F := F)).nCore 2) => bigSep Finset.univ fun i : Fin ((K (F := F)).nSub 2) =>
        tdRes2 d (W (𝔯 main_arg0)) (W (𝔯 main_arg1)) (W (𝔯 main_v38)) c i)
      ∗ tblRem d (W (𝔯 main_arg0)) (W (𝔯 main_arg1))) ⊢ (StableHlo.held (T d) Cs2 W' : sProp 𝕄) := by
  rw [held_Cs2, h0, h1, hix, ho0, ho1, ho2, whole_blocks2]
  unfold tdRes2
  rw [bigSep_tiles2 (fun L => tdResL2 d (W (𝔯 main_arg0)) (W (𝔯 main_arg1)) (W (𝔯 main_v38)) L)]
  iintro ⟨Hb, Hr⟩
  isplitl [Hr]; · iexact Hr
  iexact Hb

/-- Both at once, as a call step uses them: the hand-out, and the arrays back whole against the tiles' returns. -/
theorem call2_split_wand (W W' : Valuation τ sig (Elt F)) (h0 : W' (𝔯 main_arg0) = W (𝔯 main_arg0)) (h1 : W' (𝔯 main_arg1) = W (𝔯 main_arg1))
    (hix : W' (𝔯 main_v38) = W (𝔯 main_v38))
    (ho0 : W' (𝔯 main_v39_0) = gV0 d (W (𝔯 main_arg0)) (W (𝔯 main_v38)))
    (ho1 : W' (𝔯 main_v39_1) = gV1 d (W (𝔯 main_arg1)) (W (𝔯 main_v38)))
    (ho2 : W' (𝔯 main_v39_2) = gV2 d (W (𝔯 main_arg1)) (W (𝔯 main_v38))) :
    (StableHlo.held (T d) Cs2 W : sProp 𝕄) ⊢ iprop(
      (bigSep Finset.univ fun c : Fin ((K (F := F)).nCore 2) => bigSep Finset.univ fun i : Fin ((K (F := F)).nSub 2) =>
        goRes2 d (W (𝔯 main_arg0)) (W (𝔯 main_arg1)) (W (𝔯 main_v38)) c i)
      ∗ ((bigSep Finset.univ fun c : Fin ((K (F := F)).nCore 2) => bigSep Finset.univ fun i : Fin ((K (F := F)).nSub 2) =>
          tdRes2 d (W (𝔯 main_arg0)) (W (𝔯 main_arg1)) (W (𝔯 main_v38)) c i) -∗ (StableHlo.held (T d) Cs2 W' : sProp 𝕄))) := by
  refine (call2_split d W).trans ?_
  iintro ⟨Hgo, Hr⟩
  isplitl [Hgo]; · iexact Hgo
  iintro Htd
  iapply (call2_join d W W' h0 h1 hix ho0 ho1 ho2)
  isplitl [Htd]; · iexact Htd
  iexact Hr

end Cert.Proof.KI

end
-- ==== Proof.KI_TileRes_c3.lean ====
/-
  What one vector subcore of call 3 is handed and hands back: the six arrays of the call, the slices of them a
  tile owns (as the program takes them, with their row ranges in closed form), the three results as whole-array
  functions of the tables and the index array, and the resources a tile receives and returns.
-/
import proofs.«215899_g5772436046013_cont_9to1c4b_742_31_alg».proof.Proof.KI_Common
import proofs.«215899_g5772436046013_cont_9to1c4b_742_31_alg».proof.Proof.KI_TileRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## The arrays of call 3 and a tile's place

Call 3 reads the two embedding tables and the index array whole and writes three result arrays. Worker
`wid3 = 2 * subcore + core` owns rows `24 * wid3 … 24 * wid3 + 23` of the index array (row 0 the centre words,
row 1 the positive words, rows 2 … 21 the twenty negative draws, 128 words each), rows
`128 * wid3 … 128 * wid3 + 127` of the first two results and, for each draw `j`, rows
`4096 * j + 128 * wid3 …` of the third. -/

abbrev ixLoc3 (d : Dev nD) : Loc nD τ sig := (SparseCore.T d).loc main_v44
abbrev o0Loc3 (d : Dev nD) : Loc nD τ sig := (SparseCore.T d).loc main_v45_0
abbrev o1Loc3 (d : Dev nD) : Loc nD τ sig := (SparseCore.T d).loc main_v45_1
abbrev o2Loc3 (d : Dev nD) : Loc nD τ sig := (SparseCore.T d).loc main_v45_2

abbrev ixV3 : Memref sig .scVector .hbm S768x128 .i32 := Memref.whole main_v44_scv
abbrev o0V3 : Memref sig .scVector .hbm S4096x128 .f32 := Memref.whole main_v45_0_scv
abbrev o1V3 : Memref sig .scVector .hbm S4096x128 .f32 := Memref.whole main_v45_1_scv
abbrev o2V3 : Memref sig .scVector .hbm S81920x128 .f32 := Memref.whole main_v45_2_scv

/-- A tile's grid coordinates from its core and subcore numbers. -/
def coordsV3 (c : Fin (grid6.bound 0)) (s : Fin (grid6.bound 1)) : grid6.Coords :=
  fun | 0 => c | 1 => s | ⟨_ + 2, h⟩ => absurd h (Nat.not_lt.2 (Nat.le_add_left _ _))

abbrev cV3 (L : grid6.Coords) : Fin τ.nSC := (L 0).castLE hcore6
abbrev jV3 (L : grid6.Coords) : Fin τ.nSub := (L 1).castLE hsub6

theorem bound_zero3 : grid6.bound 0 = 2 := rfl
theorem bound_one3 : grid6.bound 1 = 16 := rfl

/-- The worker number of a tile. -/
def wid3 (L : grid6.Coords) : ℕ := 2 * (L 1).val + (L 0).val

theorem wid_lt3 (L : grid6.Coords) : wid3 L < 32 := by
  have h0 : (L 0).val < 2 := (L 0).isLt
  have h1 : (L 1).val < 16 := (L 1).isLt
  unfold wid3; omega

/-! ## The slices, as the program takes them -/

abbrev ixRect3 (L : grid6.Coords) : Rect S768x128 := Rect.unit (s := S768x128) (k6_off1 L) S24x128.size (k6_off1_inb L)
abbrev ixSl3 (L : grid6.Coords) : Memref sig .scVector .hbm S24x128 .i32 := (ixV3).slice (ixRect3 L) (fun _ => rfl)
abbrev oRect3 (L : grid6.Coords) : Rect S4096x128 := Rect.unit (s := S4096x128) (k6_off7 L) S128x128.size (k6_off7_inb L)
abbrev o0Sl3 (L : grid6.Coords) : Memref sig .scVector .hbm S128x128 .f32 := (o0V3).slice (oRect3 L) (fun _ => rfl)
abbrev o1Sl3 (L : grid6.Coords) : Memref sig .scVector .hbm S128x128 .f32 := (o1V3).slice (oRect3 L) (fun _ => rfl)

/-- Where draw `j`'s block of a tile begins in the third result. -/
def negOff3 (L : grid6.Coords) (j : ℕ) : Fin 2 → ℕ := ![128 * wid3 L + 4096 * j, 0]

theorem negOff_inb3 (L : grid6.Coords) (j : Fin 20) : ∀ a, negOff3 L j.val a + S128x128.size a ≤ S81920x128.size a := by
  have hw := wid_lt3 L; have hj := j.isLt
  intro a
  match a with
  | 0 => show 128 * wid3 L + 4096 * j.val + 128 ≤ 81920; omega
  | 1 => show 0 + 128 ≤ 128; omega

abbrev negRect3 (L : grid6.Coords) (j : Fin 20) : Rect S81920x128 := Rect.unit (s := S81920x128) (negOff3 L j.val) S128x128.size (negOff_inb3 L j)
abbrev negSl3 (L : grid6.Coords) (j : Fin 20) : Memref sig .scVector .hbm S128x128 .f32 := (o2V3).slice (negRect3 L j) (fun _ => rfl)

theorem k6_off1_wid (L : grid6.Coords) : k6_off1 L = ![24 * wid3 L, 0] := by
  rw [k6_off1_eq]; unfold wid3; congr 1; omega

theorem k6_off7_wid (L : grid6.Coords) : k6_off7 L = ![128 * wid3 L, 0] := by
  rw [k6_off7_eq]; unfold wid3; congr 1; omega

theorem k6_off2_wid : ∀ (L : grid6.Coords) (r : Fin 5), k6_off2 L (k6_off2_at r) = ![128 * (2 * (L 1).val + (L 0).val) + (k6_off2_at r).toNat, 0] := by decide +kernel

theorem k6_off6_wid (L : grid6.Coords) (t : Fin k6_t1_loop.trips) (r : Fin 4) :
    k6_off6 L t (BitVec.ofNat 32 (1 + r.val)) = negOff3 L (4 * t.val + r.val + 1) := by
  rw [k6_off6_eq]; unfold negOff3 wid3; congr 1; omega

theorem k6_off4_wid (L : grid6.Coords) (t : Fin k6_t1_loop.trips) (r : Fin 4) :
    k6_off4 L t (BitVec.ofNat 32 (1 + r.val)) = negOff3 L (4 * t.val + r.val) := by
  rw [k6_off4_eq]; unfold negOff3 wid3; congr 1; omega

/-! ## What a tile is handed and what it hands back -/

/-- A tile's read share of a table: one of thirty-two. -/
abbrev tblShare3 (L : grid6.Coords) : PosShare TreeShare := Transfers.shareTok fullShare 32 ⟨wid3 L, wid_lt3 L⟩

variable (d : Dev nD) (T0 : Buf (Elt F) (t0Loc d)) (T1 : Buf (Elt F) (t1Loc d)) (IX : Buf (Elt F) (ixLoc3 d))

/-- What the tile at `L` is handed: a read share of each table, its 24 rows of the index array, and its rows of
    the three results at whatever they hold. -/
def goResL3 (L : grid6.Coords) : sProp 𝕄 :=
  iprop((t0Loc d ↦{tblShare3 L} T0) ∗ (t1Loc d ↦{tblShare3 L} T1)
    ∗ (ixLoc3 d ↦[(ixSl3 L).view.set]{fullShare} IX)
    ∗ (∃ f, o0Loc3 d ↦[(o0Sl3 L).view.set]{fullShare} f)
    ∗ (∃ f, o1Loc3 d ↦[(o1Sl3 L).view.set]{fullShare} f)
    ∗ bigSep Finset.univ fun j : Fin 20 => iprop(∃ f, o2Loc3 d ↦[(negSl3 L j).view.set]{fullShare} f))

/-- What it hands back: the same, its rows of the results at the gathered rows. -/
def tdResL3 (L : grid6.Coords) : sProp 𝕄 :=
  iprop((t0Loc d ↦{tblShare3 L} T0) ∗ (t1Loc d ↦{tblShare3 L} T1)
    ∗ (ixLoc3 d ↦[(ixSl3 L).view.set]{fullShare} IX)
    ∗ (o0Loc3 d ↦[(o0Sl3 L).view.set]{fullShare} gV0 d T0 IX)
    ∗ (o1Loc3 d ↦[(o1Sl3 L).view.set]{fullShare} gV1 d T1 IX)
    ∗ bigSep Finset.univ fun j : Fin 20 => (o2Loc3 d ↦[(negSl3 L j).view.set]{fullShare} gV2 d T1 IX))

theorem nCore_zero3 : (K (F := F)).nCore 3 = grid6.bound 0 := rfl
theorem nSub_zero3 : (K (F := F)).nSub 3 = grid6.bound 1 := rfl

/-- The same by the launch's numbering of a call's tiles. -/
def goRes3 (c : Fin ((K (F := F)).nCore 3)) (i : Fin ((K (F := F)).nSub 3)) : sProp 𝕄 :=
  goResL3 d T0 T1 IX (coordsV3 (Fin.cast nCore_zero3 c) (Fin.cast nSub_zero3 i))
def tdRes3 (c : Fin ((K (F := F)).nCore 3)) (i : Fin ((K (F := F)).nSub 3)) : sProp 𝕄 :=
  tdResL3 d T0 T1 IX (coordsV3 (Fin.cast nCore_zero3 c) (Fin.cast nSub_zero3 i))

set_option synthInstance.maxHeartbeats 1000000 in
instance goResL_storable3 (L : grid6.Coords) : BI.Storable (upEmb : UEmb _ 𝕄) (goResL3 d T0 T1 IX L) := by
  unfold goResL3; infer_instance
set_option synthInstance.maxHeartbeats 1000000 in
instance tdResL_storable3 (L : grid6.Coords) : BI.Storable (upEmb : UEmb _ 𝕄) (tdResL3 d T0 T1 IX L) := by
  unfold tdResL3; infer_instance
instance goRes3_storable (c : Fin ((K (F := F)).nCore 3)) (i : Fin ((K (F := F)).nSub 3)) :
    BI.Storable (upEmb : UEmb _ 𝕄) (goRes3 d T0 T1 IX c i) := by unfold goRes3; infer_instance
instance tdRes3_storable (c : Fin ((K (F := F)).nCore 3)) (i : Fin ((K (F := F)).nSub 3)) :
    BI.Storable (upEmb : UEmb _ 𝕄) (tdRes3 d T0 T1 IX c i) := by unfold tdRes3; infer_instance

/-- Every word of rows 0 … 21 of each tile's slice of the index array names a row of the tables. -/
def IXOK3 : Prop :=
  ∀ (L : grid6.Coords) (x : S24x128.Idx), (x 0).val < 22 → ((ixSl3 L).view.read (Elt F) IX x).toNat < 100000

end Cert.Proof.KI

end
-- ==== Proof.KI_SplitGeo_c3.lean ====
/-
  The geometry of call 3's hand-out: the thirty-two tiles' row blocks of the index array and of the three result
  arrays are pairwise disjoint and cover the arrays; a tile's worker number determines the tile.
-/
import proofs.«215899_g5772436046013_cont_9to1c4b_742_31_alg».proof.Proof.KI_TileRes
import proofs.«215899_g5772436046013_cont_9to1c4b_742_31_alg».proof.Proof.KI_TileRes_c3
import Idealize.ShloMosaic.Lib.StableHlo.Run
import proofs.«215899_g5772436046013_cont_9to1c4b_742_31_alg».proof.Proof.KI_SplitGeo

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## Tiles by their core and subcore numbers -/

/-- The tile's grid coordinates. -/
def tl3 (p : Tl) : grid6.Coords := coordsV3 p.1 p.2

theorem wid_tl3 (p : Tl) : wid3 (tl3 p) = 2 * p.2.val + p.1.val := rfl

/-- The worker number determines the tile: the core number is its parity. -/
theorem wid_tl_inj3 {p p' : Tl} (h : wid3 (tl3 p) = wid3 (tl3 p')) : p = p' := by
  rw [wid_tl3, wid_tl3] at h
  have h1 := p.1.isLt; have h1' := p'.1.isLt
  exact Prod.ext (Fin.ext (by omega)) (Fin.ext (by omega))

theorem wid_tlOf3 (w : ℕ) (hw : w < 32) : wid3 (tl3 (tlOf w hw)) = w := by
  rw [wid_tl3]; show 2 * (w / 2) + w % 2 = w; omega

/-! ## The index array: 24 rows a tile -/

theorem ixSet_eq3 (L : grid6.Coords) : (ixSl3 L).view.set = (ixRect3 L).set := View.set_slice_whole _ _

theorem ixSet_disjoint3 {p p' : Tl} (h : p ≠ p') : Disjoint (ixSl3 (tl3 p)).view.set (ixSl3 (tl3 p')).view.set := by
  rw [ixSet_eq3, ixSet_eq3]
  have hw : wid3 (tl3 p) ≠ wid3 (tl3 p') := fun e => h (wid_tl_inj3 e)
  refine Rect.unit_disjoint (0 : Fin 2) ?_
  rw [k6_off1_wid, k6_off1_wid]
  show 24 * wid3 (tl3 p) + 24 ≤ 24 * wid3 (tl3 p') ∨ 24 * wid3 (tl3 p') + 24 ≤ 24 * wid3 (tl3 p)
  omega

theorem ixSet_cover3 : Finset.biUnion (β := S768x128.Idx) (Finset.univ : Finset Tl) (fun p => (ixSl3 (tl3 p)).view.set) = Finset.univ := by
  refine Finset.eq_univ_iff_forall.mpr fun x => Finset.mem_biUnion.mpr ?_
  have hx : (x 0).val < 768 := (x 0).isLt
  have hx1 : (x 1).val < 128 := (x 1).isLt
  refine ⟨tlOf ((x 0).val / 24) (by omega), Finset.mem_univ _, ?_⟩
  rw [ixSet_eq3, Rect.mem_set_unit, k6_off1_wid, wid_tlOf3]
  refine Fin.forall_fin_two.mpr ⟨?_, ?_⟩
  · show 24 * ((x 0).val / 24) ≤ (x 0).val ∧ (x 0).val < 24 * ((x 0).val / 24) + 24; omega
  · show 0 ≤ (x 1).val ∧ (x 1).val < 0 + 128; omega

/-! ## The first two results: 128 rows a tile -/

theorem o0Set_eq3 (L : grid6.Coords) : (o0Sl3 L).view.set = (oRect3 L).set := View.set_slice_whole _ _
theorem o1Set_eq3 (L : grid6.Coords) : (o1Sl3 L).view.set = (oRect3 L).set := View.set_slice_whole _ _

theorem oRect_disjoint3 {p p' : Tl} (h : p ≠ p') : Disjoint (oRect3 (tl3 p)).set (oRect3 (tl3 p')).set := by
  have hw : wid3 (tl3 p) ≠ wid3 (tl3 p') := fun e => h (wid_tl_inj3 e)
  refine Rect.unit_disjoint (0 : Fin 2) ?_
  rw [k6_off7_wid, k6_off7_wid]
  show 128 * wid3 (tl3 p) + 128 ≤ 128 * wid3 (tl3 p') ∨ 128 * wid3 (tl3 p') + 128 ≤ 128 * wid3 (tl3 p)
  omega

theorem oRect_cover3 : (Finset.univ : Finset Tl).biUnion (fun p => (oRect3 (tl3 p)).set) = Finset.univ := by
  refine Finset.eq_univ_iff_forall.mpr fun x => Finset.mem_biUnion.mpr ?_
  have hx : (x 0).val < 4096 := (x 0).isLt
  have hx1 : (x 1).val < 128 := (x 1).isLt
  refine ⟨tlOf ((x 0).val / 128) (by omega), Finset.mem_univ _, ?_⟩
  rw [Rect.mem_set_unit, k6_off7_wid, wid_tlOf3]
  refine Fin.forall_fin_two.mpr ⟨?_, ?_⟩
  · show 128 * ((x 0).val / 128) ≤ (x 0).val ∧ (x 0).val < 128 * ((x 0).val / 128) + 128; omega
  · show 0 ≤ (x 1).val ∧ (x 1).val < 0 + 128; omega

/-! ## The third result: 128 rows a tile and draw -/

theorem negSet_eq3 (L : grid6.Coords) (j : Fin 20) : (negSl3 L j).view.set = (negRect3 L j).set := View.set_slice_whole _ _

theorem negRect_disjoint3 {a a' : Tl × Fin 20} (h : a ≠ a') : Disjoint (negRect3 (tl3 a.1) a.2).set (negRect3 (tl3 a'.1) a'.2).set := by
  have hw := wid_lt3 (tl3 a.1); have hw' := wid_lt3 (tl3 a'.1)
  have hne : wid3 (tl3 a.1) ≠ wid3 (tl3 a'.1) ∨ a.2.val ≠ a'.2.val := by
    by_contra hc
    rw [not_or, not_not, not_not] at hc
    exact h (Prod.ext (wid_tl_inj3 hc.1) (Fin.ext hc.2))
  refine Rect.unit_disjoint (0 : Fin 2) ?_
  show 128 * wid3 (tl3 a.1) + 4096 * a.2.val + 128 ≤ 128 * wid3 (tl3 a'.1) + 4096 * a'.2.val
    ∨ 128 * wid3 (tl3 a'.1) + 4096 * a'.2.val + 128 ≤ 128 * wid3 (tl3 a.1) + 4096 * a.2.val
  omega

theorem negRect_cover3 : (Finset.univ : Finset (Tl × Fin 20)).biUnion (fun a => (negRect3 (tl3 a.1) a.2).set) = Finset.univ := by
  refine Finset.eq_univ_iff_forall.mpr fun x => Finset.mem_biUnion.mpr ?_
  have hx : (x 0).val < 81920 := (x 0).isLt
  have hx1 : (x 1).val < 128 := (x 1).isLt
  have hw : (x 0).val % 4096 / 128 < 32 := by omega
  refine ⟨(tlOf ((x 0).val % 4096 / 128) hw, ⟨(x 0).val / 4096, by omega⟩), Finset.mem_univ _, ?_⟩
  rw [Rect.mem_set_unit]
  refine Fin.forall_fin_two.mpr ⟨?_, ?_⟩
  · show 128 * wid3 (tl3 (tlOf ((x 0).val % 4096 / 128) hw)) + 4096 * ((x 0).val / 4096) ≤ (x 0).val
      ∧ (x 0).val < 128 * wid3 (tl3 (tlOf ((x 0).val % 4096 / 128) hw)) + 4096 * ((x 0).val / 4096) + 128
    rw [wid_tlOf3]; omega
  · show 0 ≤ (x 1).val ∧ (x 1).val < 0 + 128; omega

end Cert.Proof.KI

end
-- ==== Proof.KI_Split_c3.lean ====
/-
  Call 3's arrays among its thirty-two tiles and back: the six arrays the call concerns, held whole by the
  TensorCore, are the tiles' hand-outs together (a read share of each table a tile, the tile's row blocks of the
  index array and of the three results), and the tiles' returns join to the arrays whole, the results at the
  gathered rows.
-/
import proofs.«215899_g5772436046013_cont_9to1c4b_742_31_alg».proof.Proof.KI_TileRes
import proofs.«215899_g5772436046013_cont_9to1c4b_742_31_alg».proof.Proof.KI_TileRes_c3
import proofs.«215899_g5772436046013_cont_9to1c4b_742_31_alg».proof.Proof.KI_SplitGeo
import proofs.«215899_g5772436046013_cont_9to1c4b_742_31_alg».proof.Proof.KI_SplitGeo_c3
import Idealize.ShloMosaic.Lib.StableHlo.Run
import proofs.«215899_g5772436046013_cont_9to1c4b_742_31_alg».proof.Proof.KI_Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

local notation "𝔯" => (Proc.devRef (τ := τ) (sig := sig) Proc.tc)

/-! ## Sums over the tiles -/

/-- The launch's double sum over a call's cores and subcores is the sum over the tiles. -/
theorem bigSep_tiles3 (Φ : grid6.Coords → sProp 𝕄) :
    (bigSep Finset.univ fun c : Fin ((K (F := F)).nCore 3) => bigSep Finset.univ fun i : Fin ((K (F := F)).nSub 3) =>
        Φ (coordsV3 (Fin.cast nCore_zero3 c) (Fin.cast nSub_zero3 i)))
      = bigSep (Finset.univ : Finset Tl) fun p => Φ (tl3 p) := by
  rw [bigSep_univ_prod]
  exact bigSep_congr fun c _ => bigSep_congr fun i _ => congrArg Φ rfl

/-! ## A table's thirty-two read shares -/

/-- A tile's worker number among the thirty-two. -/
def widF3 (p : Tl) : Fin 32 := ⟨wid3 (tl3 p), wid_lt3 (tl3 p)⟩

/-- Every worker number is one tile's. -/
def widEmb3 : Tl ↪ Fin 32 := ⟨widF3, fun _ _ h => wid_tl_inj3 (congrArg Fin.val h)⟩

theorem widEmb_univ3 : (Finset.univ : Finset Tl).map widEmb3 = Finset.univ :=
  Finset.eq_univ_iff_forall.mpr fun w => Finset.mem_map.mpr ⟨tlOf w.val w.isLt, Finset.mem_univ _, Fin.ext (wid_tlOf3 _ _)⟩

/-- An array held whole is the tiles' read shares of it and what remains of the share after thirty-two halvings. -/
theorem tbl_shares3 (ℓ : Loc nD τ sig) (f : Buf (Elt F) ℓ) :
    (ℓ ↦{fullShare} f : sProp 𝕄)
      = iprop((ℓ ↦{Transfers.shareDrop fullShare 32} f) ∗ bigSep (Finset.univ : Finset Tl) fun p => ℓ ↦{tblShare3 (tl3 p)} f) := by
  have e : (bigSep (Finset.univ : Finset Tl) fun p => (ℓ ↦{tblShare3 (tl3 p)} f : sProp 𝕄))
      = bigSep (Finset.univ : Finset (Fin 32)) (fun i => ℓ ↦{Transfers.shareTok fullShare 32 i} f) := by
    rw [← widEmb_univ3, BI.bigSep_map]; rfl
  have h : (ℓ ↦{fullShare} f : sProp 𝕄) ⊣⊢ iprop((ℓ ↦{Transfers.shareDrop fullShare 32} f)
      ∗ bigSep (Finset.univ : Finset (Fin 32)) (fun i => ℓ ↦{Transfers.shareTok fullShare 32 i} f)) := Transfers.pointsTo_toks fullShare 32
  rw [e]; exact BI.equiv_iff.mp ⟨h.1, h.2⟩

/-! ## The index array and the results as the tiles' row blocks -/

variable (d : Dev nD)

theorem ix_blocks3 (IX : Buf (Elt F) (ixLoc3 d)) :
    (ixLoc3 d ↦{fullShare} IX : sProp 𝕄) = bigSep (Finset.univ : Finset Tl) fun p => ixLoc3 d ↦[(ixSl3 (tl3 p)).view.set]{fullShare} IX := by
  rw [← pointsTo_biUnion Finset.univ (ℓ := ixLoc3 d) (fun p : Tl => (ixSl3 (tl3 p)).view.set) (fun p _ p' _ h => ixSet_disjoint3 h), ixSet_cover3]

theorem o0_blocks3 (f : Buf (Elt F) (o0Loc3 d)) :
    (o0Loc3 d ↦{fullShare} f : sProp 𝕄) = bigSep (Finset.univ : Finset Tl) fun p => o0Loc3 d ↦[(o0Sl3 (tl3 p)).view.set]{fullShare} f := by
  rw [← pointsTo_biUnion Finset.univ (ℓ := o0Loc3 d) (fun p : Tl => (o0Sl3 (tl3 p)).view.set)
      (fun p _ p' _ h => by rw [o0Set_eq3, o0Set_eq3]; exact oRect_disjoint3 h),
    show ((Finset.univ : Finset Tl).biUnion fun p => ((o0Sl3 (tl3 p)).view.set : Finset S4096x128.Idx)) = Finset.univ from
      (Finset.biUnion_congr rfl fun p _ => o0Set_eq3 (tl3 p)).trans oRect_cover3]

theorem o1_blocks3 (f : Buf (Elt F) (o1Loc3 d)) :
    (o1Loc3 d ↦{fullShare} f : sProp 𝕄) = bigSep (Finset.univ : Finset Tl) fun p => o1Loc3 d ↦[(o1Sl3 (tl3 p)).view.set]{fullShare} f := by
  rw [← pointsTo_biUnion Finset.univ (ℓ := o1Loc3 d) (fun p : Tl => (o1Sl3 (tl3 p)).view.set)
      (fun p _ p' _ h => by rw [o1Set_eq3, o1Set_eq3]; exact oRect_disjoint3 h),
    show ((Finset.univ : Finset Tl).biUnion fun p => ((o1Sl3 (tl3 p)).view.set : Finset S4096x128.Idx)) = Finset.univ from
      (Finset.biUnion_congr rfl fun p _ => o1Set_eq3 (tl3 p)).trans oRect_cover3]

theorem o2_blocks3 (f : Buf (Elt F) (o2Loc3 d)) :
    (o2Loc3 d ↦{fullShare} f : sProp 𝕄)
      = bigSep (Finset.univ : Finset Tl) fun p => bigSep (Finset.univ : Finset (Fin 20)) fun j => o2Loc3 d ↦[(negSl3 (tl3 p) j).view.set]{fullShare} f := by
  refine Eq.trans ?_ (bigSep_univ_prod (fun a : Tl × Fin 20 => (o2Loc3 d ↦[(negSl3 (tl3 a.1) a.2).view.set]{fullShare} f : sProp 𝕄)))
  rw [← pointsTo_biUnion Finset.univ (ℓ := o2Loc3 d) (fun a : Tl × Fin 20 => (negSl3 (tl3 a.1) a.2).view.set)
      (fun a _ a' _ h => by rw [negSet_eq3, negSet_eq3]; exact negRect_disjoint3 h),
    show ((Finset.univ : Finset (Tl × Fin 20)).biUnion fun a => ((negSl3 (tl3 a.1) a.2).view.set : Finset S81920x128.Idx)) = Finset.univ from
      (Finset.biUnion_congr rfl fun a _ => negSet_eq3 (tl3 a.1) a.2).trans negRect_cover3]

/-! ## The six arrays whole and the tiles' parts -/

variable (T0 : Buf (Elt F) (t0Loc d)) (T1 : Buf (Elt F) (t1Loc d)) (IX : Buf (Elt F) (ixLoc3 d))
variable (f0 : Buf (Elt F) (o0Loc3 d)) (f1 : Buf (Elt F) (o1Loc3 d)) (f2 : Buf (Elt F) (o2Loc3 d))

/-- A tile's part of the six arrays, the three results at given contents. -/
def blkRes3 (L : grid6.Coords) : sProp 𝕄 :=
  iprop((t0Loc d ↦{tblShare3 L} T0) ∗ (t1Loc d ↦{tblShare3 L} T1)
    ∗ (ixLoc3 d ↦[(ixSl3 L).view.set]{fullShare} IX)
    ∗ (o0Loc3 d ↦[(o0Sl3 L).view.set]{fullShare} f0)
    ∗ (o1Loc3 d ↦[(o1Sl3 L).view.set]{fullShare} f1)
    ∗ bigSep Finset.univ fun j : Fin 20 => (o2Loc3 d ↦[(negSl3 L j).view.set]{fullShare} f2))

/-- The six arrays whole are the tiles' parts and the tables' remaining shares. -/
theorem whole_blocks3 :
    (iprop((t0Loc d ↦{fullShare} T0) ∗ (t1Loc d ↦{fullShare} T1) ∗ (ixLoc3 d ↦{fullShare} IX)
        ∗ (o0Loc3 d ↦{fullShare} f0) ∗ (o1Loc3 d ↦{fullShare} f1) ∗ (o2Loc3 d ↦{fullShare} f2)) : sProp 𝕄)
      = iprop(tblRem d T0 T1 ∗ bigSep (Finset.univ : Finset Tl) fun p => blkRes3 d T0 T1 IX f0 f1 f2 (tl3 p)) := by
  unfold blkRes3 tblRem
  rw [bigSep_sep', bigSep_sep', bigSep_sep', bigSep_sep', bigSep_sep',
    tbl_shares3 (t0Loc d) T0, tbl_shares3 (t1Loc d) T1, ix_blocks3 d IX, o0_blocks3 d f0, o1_blocks3 d f1, o2_blocks3 d f2]
  refine BI.equiv_iff.mp ⟨ent_of ?_, ent_of ?_⟩
  · iintro ⟨⟨Hr0, Ha0⟩, ⟨Hr1, Ha1⟩, Hi, Hb, Hc, Hd⟩
    isplitl [Hr0 Hr1]
    · isplitl [Hr0]; · iexact Hr0
      iexact Hr1
    isplitl [Ha0]; · iexact Ha0
    isplitl [Ha1]; · iexact Ha1
    isplitl [Hi]; · iexact Hi
    isplitl [Hb]; · iexact Hb
    isplitl [Hc]; · iexact Hc
    iexact Hd
  · iintro ⟨⟨Hr0, Hr1⟩, Ha0, Ha1, Hi, Hb, Hc, Hd⟩
    isplitl [Hr0 Ha0]
    · isplitl [Hr0]; · iexact Hr0
      iexact Ha0
    isplitl [Hr1 Ha1]
    · isplitl [Hr1]; · iexact Hr1
      iexact Ha1
    isplitl [Hi]; · iexact Hi
    isplitl [Hb]; · iexact Hb
    isplitl [Hc]; · iexact Hc
    iexact Hd

/-- A tile's part with the results at any contents is what the tile is handed. -/
theorem blkRes_go3 (L : grid6.Coords) : blkRes3 d T0 T1 IX f0 f1 f2 L ⊢ goResL3 d T0 T1 IX L := by
  unfold blkRes3 goResL3
  iintro ⟨H0, H1, Hi, Hb, Hc, Hd⟩
  isplitl [H0]; · iexact H0
  isplitl [H1]; · iexact H1
  isplitl [Hi]; · iexact Hi
  isplitl [Hb]; · iexists f0; iexact Hb
  isplitl [Hc]; · iexists f1; iexact Hc
  have hd : (bigSep Finset.univ fun j : Fin 20 => (o2Loc3 d ↦[(negSl3 L j).view.set]{fullShare} f2 : sProp 𝕄))
      ⊢ bigSep Finset.univ fun j : Fin 20 => iprop(∃ f, o2Loc3 d ↦[(negSl3 L j).view.set]{fullShare} f) :=
    bigSep_mono fun j _ => ent_of (by iintro H; iexists f2; iexact H)
  iapply hd; iexact Hd

/-- What a tile hands back is its part with the results at the gathered rows. -/
theorem tdResL_eq3 (L : grid6.Coords) :
    tdResL3 d T0 T1 IX L = blkRes3 d T0 T1 IX (gV0 d T0 IX) (gV1 d T1 IX) (gV2 d T1 IX) L := rfl

/-! ## The call's arrays, held by the TensorCore -/

/-- The six arrays call 3 concerns: the two tables, the index array, the three results. -/
def Cs3 : Finset (DevRef τ sig) := {𝔯 main_arg0, 𝔯 main_arg1, 𝔯 main_v44, 𝔯 main_v45_0, 𝔯 main_v45_1, 𝔯 main_v45_2}

theorem held_Cs3 (W : Valuation τ sig (Elt F)) :
    (StableHlo.held (T d) Cs3 W : sProp 𝕄)
      = iprop((t0Loc d ↦{fullShare} W (𝔯 main_arg0)) ∗ (t1Loc d ↦{fullShare} W (𝔯 main_arg1)) ∗ (ixLoc3 d ↦{fullShare} W (𝔯 main_v44))
        ∗ (o0Loc3 d ↦{fullShare} W (𝔯 main_v45_0)) ∗ (o1Loc3 d ↦{fullShare} W (𝔯 main_v45_1)) ∗ (o2Loc3 d ↦{fullShare} W (𝔯 main_v45_2))) := by
  unfold StableHlo.held Cs3
  rw [bigSep_insert (by decide), bigSep_insert (by decide), bigSep_insert (by decide), bigSep_insert (by decide), bigSep_insert (by decide),
    bigSep_singleton]
  rfl

/-- The hand-out: the call's arrays held whole are every tile's operands and the tables' remaining shares. -/
theorem call3_split (W : Valuation τ sig (Elt F)) :
    (StableHlo.held (T d) Cs3 W : sProp 𝕄) ⊢ iprop(
      (bigSep Finset.univ fun c : Fin ((K (F := F)).nCore 3) => bigSep Finset.univ fun i : Fin ((K (F := F)).nSub 3) =>
        goRes3 d (W (𝔯 main_arg0)) (W (𝔯 main_arg1)) (W (𝔯 main_v44)) c i)
      ∗ tblRem d (W (𝔯 main_arg0)) (W (𝔯 main_arg1))) := by
  rw [held_Cs3, whole_blocks3]
  unfold goRes3
  rw [bigSep_tiles3 (fun L => goResL3 d (W (𝔯 main_arg0)) (W (𝔯 main_arg1)) (W (𝔯 main_v44)) L)]
  iintro ⟨Hr, Hb⟩
  isplitl [Hb]
  · have hb : (bigSep (Finset.univ : Finset Tl) fun p => blkRes3 d (W (𝔯 main_arg0)) (W (𝔯 main_arg1)) (W (𝔯 main_v44))
          (W (𝔯 main_v45_0)) (W (𝔯 main_v45_1)) (W (𝔯 main_v45_2)) (tl3 p))
        ⊢ bigSep (Finset.univ : Finset Tl) fun p => goResL3 d (W (𝔯 main_arg0)) (W (𝔯 main_arg1)) (W (𝔯 main_v44)) (tl3 p) :=
      bigSep_mono fun p _ => blkRes_go3 d _ _ _ _ _ _ (tl3 p)
    iapply hb; iexact Hb
  · iexact Hr

/-- The gathering: every tile's returns and the tables' remaining shares are the call's arrays held whole, the three
    results at the gathered rows. -/
theorem call3_join (W W' : Valuation τ sig (Elt F)) (h0 : W' (𝔯 main_arg0) = W (𝔯 main_arg0)) (h1 : W' (𝔯 main_arg1) = W (𝔯 main_arg1))
    (hix : W' (𝔯 main_v44) = W (𝔯 main_v44))
    (ho0 : W' (𝔯 main_v45_0) = gV0 d (W (𝔯 main_arg0)) (W (𝔯 main_v44)))
    (ho1 : W' (𝔯 main_v45_1) = gV1 d (W (𝔯 main_arg1)) (W (𝔯 main_v44)))
    (ho2 : W' (𝔯 main_v45_2) = gV2 d (W (𝔯 main_arg1)) (W (𝔯 main_v44))) :
    iprop((bigSep Finset.univ fun c : Fin ((K (F := F)).nCore 3) => bigSep Finset.univ fun i : Fin ((K (F := F)).nSub 3) =>
        tdRes3 d (W (𝔯 main_arg0)) (W (𝔯 main_arg1)) (W (𝔯 main_v44)) c i)
      ∗ tblRem d (W (𝔯 main_arg0)) (W (𝔯 main_arg1))) ⊢ (StableHlo.held (T d) Cs3 W' : sProp 𝕄) := by
  rw [held_Cs3, h0, h1, hix, ho0, ho1, ho2, whole_blocks3]
  unfold tdRes3
  rw [bigSep_tiles3 (fun L => tdResL3 d (W (𝔯 main_arg0)) (W (𝔯 main_arg1)) (W (𝔯 main_v44)) L)]
  iintro ⟨Hb, Hr⟩
  isplitl [Hr]; · iexact Hr
  iexact Hb

/-- Both at once, as a call step uses them: the hand-out, and the arrays back whole against the tiles' returns. -/
theorem call3_split_wand (W W' : Valuation τ sig (Elt F)) (h0 : W' (𝔯 main_arg0) = W (𝔯 main_arg0)) (h1 : W' (𝔯 main_arg1) = W (𝔯 main_arg1))
    (hix : W' (𝔯 main_v44) = W (𝔯 main_v44))
    (ho0 : W' (𝔯 main_v45_0) = gV0 d (W (𝔯 main_arg0)) (W (𝔯 main_v44)))
    (ho1 : W' (𝔯 main_v45_1) = gV1 d (W (𝔯 main_arg1)) (W (𝔯 main_v44)))
    (ho2 : W' (𝔯 main_v45_2) = gV2 d (W (𝔯 main_arg1)) (W (𝔯 main_v44))) :
    (StableHlo.held (T d) Cs3 W : sProp 𝕄) ⊢ iprop(
      (bigSep Finset.univ fun c : Fin ((K (F := F)).nCore 3) => bigSep Finset.univ fun i : Fin ((K (F := F)).nSub 3) =>
        goRes3 d (W (𝔯 main_arg0)) (W (𝔯 main_arg1)) (W (𝔯 main_v44)) c i)
      ∗ ((bigSep Finset.univ fun c : Fin ((K (F := F)).nCore 3) => bigSep Finset.univ fun i : Fin ((K (F := F)).nSub 3) =>
          tdRes3 d (W (𝔯 main_arg0)) (W (𝔯 main_arg1)) (W (𝔯 main_v44)) c i) -∗ (StableHlo.held (T d) Cs3 W' : sProp 𝕄))) := by
  refine (call3_split d W).trans ?_
  iintro ⟨Hgo, Hr⟩
  isplitl [Hgo]; · iexact Hgo
  iintro Htd
  iapply (call3_join d W W' h0 h1 hix ho0 ho1 ho2)
  isplitl [Htd]; · iexact Htd
  iexact Hr

end Cert.Proof.KI

end
-- ==== Proof.KI_Loss.lean ====
import proofs.«215899_g5772436046013_cont_9to1c4b_742_31_alg».proof.Proof.KI_Common
import Idealize.ShloMosaic.Lib.Pipeline.Frame
import Idealize.ShloMosaic.Lib.Pipeline.FrameBody

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # One grid point of the loss kernel: its value and its run

The kernel body at a grid point reads a `1024 × 128` block `x0` of centre rows, a block `x1` of positive
context rows, the `20 × 1024 × 128` block `x2` of negative context rows and the `2688 × 21` sign matrix `x3`;
it forms the `1024 × 2688` matrix of products `[x0 * x1, x2[0] * x0, …, x2[19] * x0]`, rounds it to bf16,
multiplies by `x3`, applies `z ↦ min z 0 - log (1 + exp (-|z|))` entrywise, sums everything, and adds the sum
to the `1 × 1` accumulator, which it first sets to zero when the grid coordinate is `0`. -/

/-- The accumulator is reset exactly when the grid coordinate is zero (the body's scalar chain). -/
abbrev cond1 (i : grid1.Coords) : Prop :=
  (Scalar.cmpi .ne (Scalar.extui (Scalar.cmpi .eq (BitVec.ofNat 32 (i 0).val) 0#32)) 0#32) = 1#1

/-- Over the grid: at the first point only. -/
theorem hcond1 : ∀ t : Fin cfg1.N, cond1 (grid1.coords t) ↔ t.val % 4 = 0 :=
  (by decide +kernel : ∀ t : Fin grid1.N, cond1 (grid1.coords t) ↔ t.val % 4 = 0)

/-- A whole `1024 × 128` block as the body's load reads it. -/
abbrev lossIn (x : Vec F S1024x128 .f32) : Vec F S1024x128 .f32 :=
  View.ld (Val := Elt F) x (Rect.unit (s := S1024x128) ![0, 0] S1024x128.size inb_S1024x128_S1024x128_0_0)

/-- Row block 0 of the stacked operand: entries `(0, r, l)`. -/
abbrev lossRow0 (x2 : Vec F S20x1024x128 .f32) : Vec F S1x1024x128 .f32 :=
  View.ld (Val := Elt F) x2 (Rect.unit (s := S20x1024x128) ![0, 0, 0] S1x1024x128.size inb_S20x1024x128_S1x1024x128_0_0_0)
/-- Row block 1 of the stacked operand: entries `(1, r, l)`. -/
abbrev lossRow1 (x2 : Vec F S20x1024x128 .f32) : Vec F S1x1024x128 .f32 :=
  View.ld (Val := Elt F) x2 (Rect.unit (s := S20x1024x128) ![1, 0, 0] S1x1024x128.size inb_S20x1024x128_S1x1024x128_1_0_0)
/-- Row block 2 of the stacked operand: entries `(2, r, l)`. -/
abbrev lossRow2 (x2 : Vec F S20x1024x128 .f32) : Vec F S1x1024x128 .f32 :=
  View.ld (Val := Elt F) x2 (Rect.unit (s := S20x1024x128) ![2, 0, 0] S1x1024x128.size inb_S20x1024x128_S1x1024x128_2_0_0)
/-- Row block 3 of the stacked operand: entries `(3, r, l)`. -/
abbrev lossRow3 (x2 : Vec F S20x1024x128 .f32) : Vec F S1x1024x128 .f32 :=
  View.ld (Val := Elt F) x2 (Rect.unit (s := S20x1024x128) ![3, 0, 0] S1x1024x128.size inb_S20x1024x128_S1x1024x128_3_0_0)
/-- Row block 4 of the stacked operand: entries `(4, r, l)`. -/
abbrev lossRow4 (x2 : Vec F S20x1024x128 .f32) : Vec F S1x1024x128 .f32 :=
  View.ld (Val := Elt F) x2 (Rect.unit (s := S20x1024x128) ![4, 0, 0] S1x1024x128.size inb_S20x1024x128_S1x1024x128_4_0_0)
/-- Row block 5 of the stacked operand: entries `(5, r, l)`. -/
abbrev lossRow5 (x2 : Vec F S20x1024x128 .f32) : Vec F S1x1024x128 .f32 :=
  View.ld (Val := Elt F) x2 (Rect.unit (s := S20x1024x128) ![5, 0, 0] S1x1024x128.size inb_S20x1024x128_S1x1024x128_5_0_0)
/-- Row block 6 of the stacked operand: entries `(6, r, l)`. -/
abbrev lossRow6 (x2 : Vec F S20x1024x128 .f32) : Vec F S1x1024x128 .f32 :=
  View.ld (Val := Elt F) x2 (Rect.unit (s := S20x1024x128) ![6, 0, 0] S1x1024x128.size inb_S20x1024x128_S1x1024x128_6_0_0)
/-- Row block 7 of the stacked operand: entries `(7, r, l)`. -/
abbrev lossRow7 (x2 : Vec F S20x1024x128 .f32) : Vec F S1x1024x128 .f32 :=
  View.ld (Val := Elt F) x2 (Rect.unit (s := S20x1024x128) ![7, 0, 0] S1x1024x128.size inb_S20x1024x128_S1x1024x128_7_0_0)
/-- Row block 8 of the stacked operand: entries `(8, r, l)`. -/
abbrev lossRow8 (x2 : Vec F S20x1024x128 .f32) : Vec F S1x1024x128 .f32 :=
  View.ld (Val := Elt F) x2 (Rect.unit (s := S20x1024x128) ![8, 0, 0] S1x1024x128.size inb_S20x1024x128_S1x1024x128_8_0_0)
/-- Row block 9 of the stacked operand: entries `(9, r, l)`. -/
abbrev lossRow9 (x2 : Vec F S20x1024x128 .f32) : Vec F S1x1024x128 .f32 :=
  View.ld (Val := Elt F) x2 (Rect.unit (s := S20x1024x128) ![9, 0, 0] S1x1024x128.size inb_S20x1024x128_S1x1024x128_9_0_0)
/-- Row block 10 of the stacked operand: entries `(10, r, l)`. -/
abbrev lossRow10 (x2 : Vec F S20x1024x128 .f32) : Vec F S1x1024x128 .f32 :=
  View.ld (Val := Elt F) x2 (Rect.unit (s := S20x1024x128) ![10, 0, 0] S1x1024x128.size inb_S20x1024x128_S1x1024x128_10_0_0)
/-- Row block 11 of the stacked operand: entries `(11, r, l)`. -/
abbrev lossRow11 (x2 : Vec F S20x1024x128 .f32) : Vec F S1x1024x128 .f32 :=
  View.ld (Val := Elt F) x2 (Rect.unit (s := S20x1024x128) ![11, 0, 0] S1x1024x128.size inb_S20x1024x128_S1x1024x128_11_0_0)
/-- Row block 12 of the stacked operand: entries `(12, r, l)`. -/
abbrev lossRow12 (x2 : Vec F S20x1024x128 .f32) : Vec F S1x1024x128 .f32 :=
  View.ld (Val := Elt F) x2 (Rect.unit (s := S20x1024x128) ![12, 0, 0] S1x1024x128.size inb_S20x1024x128_S1x1024x128_12_0_0)
/-- Row block 13 of the stacked operand: entries `(13, r, l)`. -/
abbrev lossRow13 (x2 : Vec F S20x1024x128 .f32) : Vec F S1x1024x128 .f32 :=
  View.ld (Val := Elt F) x2 (Rect.unit (s := S20x1024x128) ![13, 0, 0] S1x1024x128.size inb_S20x1024x128_S1x1024x128_13_0_0)
/-- Row block 14 of the stacked operand: entries `(14, r, l)`. -/
abbrev lossRow14 (x2 : Vec F S20x1024x128 .f32) : Vec F S1x1024x128 .f32 :=
  View.ld (Val := Elt F) x2 (Rect.unit (s := S20x1024x128) ![14, 0, 0] S1x1024x128.size inb_S20x1024x128_S1x1024x128_14_0_0)
/-- Row block 15 of the stacked operand: entries `(15, r, l)`. -/
abbrev lossRow15 (x2 : Vec F S20x1024x128 .f32) : Vec F S1x1024x128 .f32 :=
  View.ld (Val := Elt F) x2 (Rect.unit (s := S20x1024x128) ![15, 0, 0] S1x1024x128.size inb_S20x1024x128_S1x1024x128_15_0_0)
/-- Row block 16 of the stacked operand: entries `(16, r, l)`. -/
abbrev lossRow16 (x2 : Vec F S20x1024x128 .f32) : Vec F S1x1024x128 .f32 :=
  View.ld (Val := Elt F) x2 (Rect.unit (s := S20x1024x128) ![16, 0, 0] S1x1024x128.size inb_S20x1024x128_S1x1024x128_16_0_0)
/-- Row block 17 of the stacked operand: entries `(17, r, l)`. -/
abbrev lossRow17 (x2 : Vec F S20x1024x128 .f32) : Vec F S1x1024x128 .f32 :=
  View.ld (Val := Elt F) x2 (Rect.unit (s := S20x1024x128) ![17, 0, 0] S1x1024x128.size inb_S20x1024x128_S1x1024x128_17_0_0)
/-- Row block 18 of the stacked operand: entries `(18, r, l)`. -/
abbrev lossRow18 (x2 : Vec F S20x1024x128 .f32) : Vec F S1x1024x128 .f32 :=
  View.ld (Val := Elt F) x2 (Rect.unit (s := S20x1024x128) ![18, 0, 0] S1x1024x128.size inb_S20x1024x128_S1x1024x128_18_0_0)
/-- Row block 19 of the stacked operand: entries `(19, r, l)`. -/
abbrev lossRow19 (x2 : Vec F S20x1024x128 .f32) : Vec F S1x1024x128 .f32 :=
  View.ld (Val := Elt F) x2 (Rect.unit (s := S20x1024x128) ![19, 0, 0] S1x1024x128.size inb_S20x1024x128_S1x1024x128_19_0_0)

/-- The `1024 × 2688` matrix of products: the positive products first, then the twenty negative ones. -/
def lossZ (x0 x1 : Vec F S1024x128 .f32) (x2 : Vec F S20x1024x128 .f32) : FVec F S1024x2688 .f32 :=
  concatenate S1024x2688 1
    [⟨S1024x128, k1_pay6 (lossIn x0) (lossIn x1)⟩,
      ⟨S1024x128, k1_pay7 (lossIn x0) (lossRow0 x2)⟩,
      ⟨S1024x128, k1_pay8 (lossIn x0) (lossRow1 x2)⟩,
      ⟨S1024x128, k1_pay9 (lossIn x0) (lossRow2 x2)⟩,
      ⟨S1024x128, k1_pay10 (lossIn x0) (lossRow3 x2)⟩,
      ⟨S1024x128, k1_pay11 (lossIn x0) (lossRow4 x2)⟩,
      ⟨S1024x128, k1_pay12 (lossIn x0) (lossRow5 x2)⟩,
      ⟨S1024x128, k1_pay13 (lossIn x0) (lossRow6 x2)⟩,
      ⟨S1024x128, k1_pay14 (lossIn x0) (lossRow7 x2)⟩,
      ⟨S1024x128, k1_pay15 (k1_pay5 (lossIn x0)) (lossRow8 x2)⟩,
      ⟨S1024x128, k1_pay16 (k1_pay5 (lossIn x0)) (lossRow9 x2)⟩,
      ⟨S1024x128, k1_pay17 (k1_pay5 (lossIn x0)) (lossRow10 x2)⟩,
      ⟨S1024x128, k1_pay18 (k1_pay5 (lossIn x0)) (lossRow11 x2)⟩,
      ⟨S1024x128, k1_pay19 (k1_pay5 (lossIn x0)) (lossRow12 x2)⟩,
      ⟨S1024x128, k1_pay20 (k1_pay5 (lossIn x0)) (lossRow13 x2)⟩,
      ⟨S1024x128, k1_pay21 (k1_pay5 (lossIn x0)) (lossRow14 x2)⟩,
      ⟨S1024x128, k1_pay22 (k1_pay5 (lossIn x0)) (lossRow15 x2)⟩,
      ⟨S1024x128, k1_pay23 (k1_pay5 (lossIn x0)) (lossRow16 x2)⟩,
      ⟨S1024x128, k1_pay24 (k1_pay5 (lossIn x0)) (lossRow17 x2)⟩,
      ⟨S1024x128, k1_pay1 (k1_pay5 (lossIn x0)) (lossRow18 x2)⟩,
      ⟨S1024x128, k1_pay2 (k1_pay5 (lossIn x0)) (lossRow19 x2)⟩]
    concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x2688_d1

/-- What the body stores into the accumulator, given what it loaded from it (`acc`): `acc` plus the block's sum. -/
def lossStep (x0 x1 : Vec F S1024x128 .f32) (x2 : Vec F S20x1024x128 .f32) (x3 : Vec F S2688x21 .bf16)
    (acc : Vec F S1x1 .f32) : Vec F S1x1 .f32 :=
  k1_pay4 (lossZ x0 x1 x2)
    (View.ld (Val := Elt F) x3 (Rect.unit (s := S2688x21) ![0, 0] S2688x21.size inb_S2688x21_S2688x21_0_0)) acc

/-- At the first point: over the zero the body has just stored. -/
def lossStepA (x0 x1 : Vec F S1024x128 .f32) (x2 : Vec F S20x1024x128 .f32) (x3 : Vec F S2688x21 .bf16) : Vec F S1x1 .f32 :=
  lossStep x0 x1 x2 x3 (k1_pay3 (F := F))

/-- At a later point: over what the point before left (`prev`). -/
def lossStepB (x0 x1 : Vec F S1024x128 .f32) (x2 : Vec F S20x1024x128 .f32) (x3 : Vec F S2688x21 .bf16)
    (prev : Vec F S1x1 .f32) : Vec F S1x1 .f32 :=
  lossStep x0 x1 x2 x3
    (View.ld (Val := Elt F) prev (Rect.unit (s := S1x1) ![0, 0] S1x1.size inb_S1x1_S1x1_0_0))

/-- A store through the whole `1 × 1` rectangle leaves its payload, whatever was stored before. -/
theorem read_writes_whole11 {κ : Kind} {sp : Space} (v : View sig κ sp S1x1 .f32) (f : v.ty.Contents (Elt F))
    (w : Vec F S1x1 .f32) (L : List (View.Piece (Elt F) S1x1 .f32)) :
    v.read (Elt F) (v.writes (Elt F) f (⟨Rect.unit (s := S1x1) ![0, 0] S1x1.size inb_S1x1_S1x1_0_0, w⟩ :: L)) = w := by
  funext y
  have h := View.read_writes_cons_emb v f (Rect.unit (s := S1x1) ![0, 0] S1x1.size inb_S1x1_S1x1_0_0) w L y
  have e : (Rect.unit (s := S1x1) ![0, 0] S1x1.size inb_S1x1_S1x1_0_0).emb y = y := by
    funext a; apply Fin.ext
    rw [Rect.emb_apply]
    fin_cases a <;> simp
  rw [e] at h; exact h

set_option maxHeartbeats 1000000 in
/-- The body at the first point, on whole staging memrefs holding the blocks: the inputs are left as they were and the
    accumulator holds `lossStepA` of them. -/
theorem loss_run_A (c : Dev nD) (i : grid1.Coords)
    (arg1 : Memref sig .tc .vmem S1024x128 .f32) (harg1 : arg1.IsWhole)
    (arg2 : Memref sig .tc .vmem S1024x128 .f32) (harg2 : arg2.IsWhole)
    (arg3 : Memref sig .tc .vmem S20x1024x128 .f32) (harg3 : arg3.IsWhole)
    (arg4 : Memref sig .tc .vmem S2688x21 .bf16) (harg4 : arg4.IsWhole)
    (arg5 : Memref sig .tc .vmem S1x1 .f32) (harg5 : arg5.IsWhole) (hc0 : cond1 i)
    (x0 x1 : Vec F S1024x128 .f32) (x2 : Vec F S20x1024x128 .f32) (x3 : Vec F S2688x21 .bf16)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (lossStepA x0 x1 x2 x3)) -∗ K ⟨⟩))
      ⊢ wp frame (wpE (defs₀ (F := F)) 𝒱₀ c none) E (cc1__loss_body i arg1 harg1 arg2 harg2 arg3 harg3 arg4 harg4 arg5 harg5) K := by
  simp only [cc1__loss_body_eq_skeleton]; unfold cc1__loss_body_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1
  obtain rfl := harg3.eq_unread hf2; obtain rfl := harg4.eq_unread hf3
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [read_writes_whole11]
  sl_unfold_run_names
  simp only [View.readAt_eq_ld]
  rw [harg1.read_unread, harg2.read_unread, harg3.read_unread, harg4.read_unread, View.readCov_cons_toLoadRect]
  rfl

set_option maxHeartbeats 1000000 in
/-- The body at a later point: the accumulator, found at `prev`, holds `lossStepB` of the blocks and `prev`. -/
theorem loss_run_B (c : Dev nD) (i : grid1.Coords)
    (arg1 : Memref sig .tc .vmem S1024x128 .f32) (harg1 : arg1.IsWhole)
    (arg2 : Memref sig .tc .vmem S1024x128 .f32) (harg2 : arg2.IsWhole)
    (arg3 : Memref sig .tc .vmem S20x1024x128 .f32) (harg3 : arg3.IsWhole)
    (arg4 : Memref sig .tc .vmem S2688x21 .bf16) (harg4 : arg4.IsWhole)
    (arg5 : Memref sig .tc .vmem S1x1 .f32) (harg5 : arg5.IsWhole) (hc0 : ¬cond1 i)
    (x0 x1 : Vec F S1024x128 .f32) (x2 : Vec F S20x1024x128 .f32) (x3 : Vec F S2688x21 .bf16) (prev : Vec F S1x1 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare prev
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (lossStepB x0 x1 x2 x3 prev)) -∗ K ⟨⟩))
      ⊢ wp frame (wpE (defs₀ (F := F)) 𝒱₀ c none) E (cc1__loss_body i arg1 harg1 arg2 harg2 arg3 harg3 arg4 harg4 arg5 harg5) K := by
  simp only [cc1__loss_body_eq_skeleton]; unfold cc1__loss_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1
  obtain rfl := harg3.eq_unread hf2; obtain rfl := harg4.eq_unread hf3
  obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [read_writes_whole11]
  sl_unfold_run_names
  simp only [View.readAt_eq_ld]
  rw [harg1.read_unread, harg2.read_unread, harg3.read_unread, harg4.read_unread, harg5.read_unread]
  rfl

end Cert.Proof.KI

end
-- ==== Proof.KI_LossDat.lean ====
import proofs.«215899_g5772436046013_cont_9to1c4b_742_31_alg».proof.Proof.KI_Loss
import Idealize.ShloMosaic.Lib.Pipeline.Frame
import Idealize.ShloMosaic.Lib.Pipeline.FrameBody

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # The loss kernel over its grid: the accumulator point by point, and the body obligation

Four grid points; at point `t` the body sees block `t` of the centre rows, of the positive rows and of the negative
rows, and the whole sign matrix; the `1 × 1` output is an accumulator, zeroed at point `0` and written back after
point `3`. -/

/-- The five arrays' contents when the region is entered, window by window. -/
abbrev LossArrs (F : FTy → Type) (c : Dev nD) : Type :=
  (w : Fin cfg1.W) → Buf (Elt F) ((cfg1.win w).arr.view.loc (c.tc : Thread nD τ))

/-- The family from its five members. -/
def lossArrs (c : Dev nD)
    (a0 : Buf (Elt F) ((cfg1.win 0).arr.view.loc (c.tc : Thread nD τ)))
    (a1 : Buf (Elt F) ((cfg1.win 1).arr.view.loc (c.tc : Thread nD τ)))
    (a2 : Buf (Elt F) ((cfg1.win 2).arr.view.loc (c.tc : Thread nD τ)))
    (a3 : Buf (Elt F) ((cfg1.win 3).arr.view.loc (c.tc : Thread nD τ)))
    (aOut : Buf (Elt F) ((cfg1.win 4).arr.view.loc (c.tc : Thread nD τ))) : LossArrs F c := fun w =>
  match w with
  | ⟨0, _⟩ => a0
  | ⟨1, _⟩ => a1
  | ⟨2, _⟩ => a2
  | ⟨3, _⟩ => a3
  | ⟨4, _⟩ => aOut

variable (c : Dev nD) (A : LossArrs F c) (O : CellTallies nD τ sig (HIx 4)) (Rc : Set (SemLoc sig × HIx 4))

/-- Window `w`'s block at point `t`, read off its array's entry contents. -/
def lossBlk (w : Fin cfg1.W) (t : Fin cfg1.N) :
    ((cfg1.win w).xblock (cfg1.grid.coords t)).Idx → Elt F (cfg1.win w).elt :=
  ((cfg1.win w).blk t).view.read (Elt F) (A w)

/-- THE ACCUMULATION: what the output's staging buffer holds after the body at point `n`. -/
def lossAcc : (n : ℕ) → n < cfg1.N → Vec F S1x1 .f32
  | 0, hn => lossStepA (lossBlk c A 0 ⟨0, hn⟩) (lossBlk c A 1 ⟨0, hn⟩) (lossBlk c A 2 ⟨0, hn⟩) (lossBlk c A 3 ⟨0, hn⟩)
  | n + 1, hn => lossStepB (lossBlk c A 0 ⟨n + 1, hn⟩) (lossBlk c A 1 ⟨n + 1, hn⟩) (lossBlk c A 2 ⟨n + 1, hn⟩)
      (lossBlk c A 3 ⟨n + 1, hn⟩) (lossAcc n (Nat.lt_of_succ_lt hn))

theorem lossAcc_A (t : Fin cfg1.N) (h0 : t.val % 4 = 0) :
    lossAcc c A t.val t.isLt = lossStepA (lossBlk c A 0 t) (lossBlk c A 1 t) (lossBlk c A 2 t) (lossBlk c A 3 t) := by
  obtain ⟨n, hn⟩ := t
  have hN : n < 4 := lt_of_lt_of_eq hn (show cfg1.N = 4 from N_1)
  cases n with
  | zero => rfl
  | succ n => exfalso; dsimp only at h0; omega

theorem lossAcc_B (t : Fin cfg1.N) (h0 : ¬t.val % 4 = 0) :
    lossAcc c A t.val t.isLt = lossStepB (lossBlk c A 0 t) (lossBlk c A 1 t) (lossBlk c A 2 t) (lossBlk c A 3 t)
      (lossAcc c A (t.val - 1) (Nat.lt_of_le_of_lt (Nat.sub_le _ _) t.isLt)) := by
  obtain ⟨n, hn⟩ := t
  cases n with
  | zero => exact absurd (Nat.zero_mod _) h0
  | succ n => rfl

/-- The pipeline's proof data on core `c`: the arrays at `A`; after the body each input's buffer at its block and the
    output's at `lossAcc`; the invariant the scoped buffers no window stages; full shares; what the core owes
    (`O`) and the bound on its recorded pairs (`Rc`) unchanged by the body. -/
def dat1 : Dat τ (Elt F) (HIx 4) ℕ UU ℕ cfg1 c where
  A := A
  after w t := match w with
    | ⟨0, _⟩ => lossBlk c A 0 t
    | ⟨1, _⟩ => lossBlk c A 1 t
    | ⟨2, _⟩ => lossBlk c A 2 t
    | ⟨3, _⟩ => lossBlk c A 3 t
    | ⟨4, _⟩ => lossAcc c A t.val t.isLt
  Φ _ := Pipeline.scopedRest cfg1.spec c
  q _ := fullShare
  owed _ := O
  recorded _ := Rc

theorem dat1_A (w : Fin cfg1.W) : (dat1 c A O Rc).A w = A w := rfl
theorem after1_0 (t : Fin cfg1.N) : (dat1 c A O Rc).after 0 t = lossBlk c A 0 t := by dsimp only [dat1]
theorem after1_1 (t : Fin cfg1.N) : (dat1 c A O Rc).after 1 t = lossBlk c A 1 t := by dsimp only [dat1]
theorem after1_2 (t : Fin cfg1.N) : (dat1 c A O Rc).after 2 t = lossBlk c A 2 t := by dsimp only [dat1]
theorem after1_3 (t : Fin cfg1.N) : (dat1 c A O Rc).after 3 t = lossBlk c A 3 t := by dsimp only [dat1]
theorem after1_4 (t : Fin cfg1.N) : (dat1 c A O Rc).after 4 t = lossAcc c A t.val t.isLt := by dsimp only [dat1]

/-- Each input's current staging buffer holds its block at every point, fetched there or not. -/
theorem before1_0 (t : Fin cfg1.N) (d) : (dat1 c A O Rc).before 0 t d = lossBlk c A 0 t :=
  ((dat1 c A O Rc).before_in_eq_fetched 0 rfl (fun _ => rfl) (fun _ _ _ => rfl)
    (fun t => by rw [after1_0]; unfold Dat.blockOf lossBlk; rfl) t d).trans (by unfold Dat.fetched Dat.blockOf lossBlk; rfl)
theorem before1_1 (t : Fin cfg1.N) (d) : (dat1 c A O Rc).before 1 t d = lossBlk c A 1 t :=
  ((dat1 c A O Rc).before_in_eq_fetched 1 rfl (fun _ => rfl) (fun _ _ _ => rfl)
    (fun t => by rw [after1_1]; unfold Dat.blockOf lossBlk; rfl) t d).trans (by unfold Dat.fetched Dat.blockOf lossBlk; rfl)
theorem before1_2 (t : Fin cfg1.N) (d) : (dat1 c A O Rc).before 2 t d = lossBlk c A 2 t :=
  ((dat1 c A O Rc).before_in_eq_fetched 2 rfl (fun _ => rfl) (fun _ _ _ => rfl)
    (fun t => by rw [after1_2]; unfold Dat.blockOf lossBlk; rfl) t d).trans (by unfold Dat.fetched Dat.blockOf lossBlk; rfl)
theorem before1_3 (t : Fin cfg1.N) (d) : (dat1 c A O Rc).before 3 t d = lossBlk c A 3 t :=
  ((dat1 c A O Rc).before_in_eq_fetched 3 rfl (fun _ => rfl) (fun _ _ _ => rfl)
    (fun t => by rw [after1_3]; unfold Dat.blockOf lossBlk; rfl) t d).trans (by unfold Dat.fetched Dat.blockOf lossBlk; rfl)

/-- After the first point the output's staging buffer holds what the body left at the point before: it is not written
    back between. -/
theorem before1_4 (t : Fin cfg1.N) (h0 : ¬t.val % 4 = 0) (d) :
    (dat1 c A O Rc).before 4 t d = lossAcc c A (t.val - 1) (Nat.lt_of_le_of_lt (Nat.sub_le _ _) t.isLt) := by
  have hN : t.val < 4 := lt_of_lt_of_eq t.isLt (show cfg1.N = 4 from N_1)
  rw [Dat.before_out_kept _ 4 rfl t (by omega)
    (Bool.eq_false_iff.mpr fun h => by have := (flush1_4 _).mp h; dsimp only at this; omega)
    (fun _ => rfl) (fun _ _ => rfl)]
  dsimp only [dat1]

/-! ## The body obligation, at a generic point -/

/-- What the body is called with at point `t`, the windows one by one, -/
def bodyPre1 (t : Fin cfg1.N) : sProp 𝕄 :=
  iprop((dat1 c A O Rc).Φ t.castSucc ∗ (dat1 c A O Rc).owesAt none t.castSucc
    ∗ (∃ d, owns (c : Thread nD τ) (win1_0.stage (cfg1.slots t 0)) fullShare ((dat1 c A O Rc).before 0 t d))
    ∗ (∃ d, owns (c : Thread nD τ) (win1_1.stage (cfg1.slots t 1)) fullShare ((dat1 c A O Rc).before 1 t d))
    ∗ (∃ d, owns (c : Thread nD τ) (win1_2.stage (cfg1.slots t 2)) fullShare ((dat1 c A O Rc).before 2 t d))
    ∗ (∃ d, owns (c : Thread nD τ) (win1_3.stage (cfg1.slots t 3)) fullShare ((dat1 c A O Rc).before 3 t d))
    ∗ (∃ d, owns (c : Thread nD τ) (win1_4.stage (cfg1.slots t 4)) fullShare ((dat1 c A O Rc).before 4 t d)))

/-- and what it returns. -/
def bodyPost1 (t : Fin cfg1.N) : sProp 𝕄 :=
  iprop((dat1 c A O Rc).Φ t.succ ∗ (dat1 c A O Rc).owesAt none t.succ
    ∗ owns (c : Thread nD τ) (win1_0.stage (cfg1.slots t 0)) fullShare ((dat1 c A O Rc).after 0 t)
    ∗ owns (c : Thread nD τ) (win1_1.stage (cfg1.slots t 1)) fullShare ((dat1 c A O Rc).after 1 t)
    ∗ owns (c : Thread nD τ) (win1_2.stage (cfg1.slots t 2)) fullShare ((dat1 c A O Rc).after 2 t)
    ∗ owns (c : Thread nD τ) (win1_3.stage (cfg1.slots t 3)) fullShare ((dat1 c A O Rc).after 3 t)
    ∗ owns (c : Thread nD τ) (win1_4.stage (cfg1.slots t 4)) fullShare ((dat1 c A O Rc).after 4 t))

set_option maxHeartbeats 800000 in
/-- The body at any point: the inputs' buffers hold their blocks; at point `0` the accumulator is reset, at a later
    point it holds what the point before left; the invariant and what the core owes pass through untouched. -/
theorem sound_body1 (t : Fin cfg1.N) :
    bodyPre1 c A O Rc t ⊢ wp frame (wpE (defs₀ (F := F)) 𝒱₀ c none) Set.univ (bodyAt1 t) (fun _ => bodyPost1 c A O Rc t) := by
  unfold bodyPre1 bodyPost1 bodyAt1
  simp only [before1_0, before1_1, before1_2, before1_3]
  rw [show (dat1 c A O Rc).Φ t.succ = (dat1 c A O Rc).Φ t.castSucc from rfl,
    show (dat1 c A O Rc).owesAt none t.succ = (dat1 c A O Rc).owesAt none t.castSucc from rfl,
    after1_0, after1_1, after1_2, after1_3, after1_4]
  by_cases h0 : t.val % 4 = 0
  · rw [lossAcc_A c A t h0]
    iintro ⟨HΦ, Ho, ⟨%d0, H0⟩, ⟨%d1, H1⟩, ⟨%d2, H2⟩, ⟨%d3, H3⟩, ⟨%d4, H4⟩⟩
    iapply (loss_run_A c (grid1.coords t) _ _ _ _ _ _ _ _ _ _ ((hcond1 t).mpr h0)
      (lossBlk c A 0 t) (lossBlk c A 1 t) (lossBlk c A 2 t) (lossBlk c A 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [lossAcc_B c A t h0]
    simp only [before1_4 c A O Rc t h0]
    iintro ⟨HΦ, Ho, ⟨%d0, H0⟩, ⟨%d1, H1⟩, ⟨%d2, H2⟩, ⟨%d3, H3⟩, ⟨%d4, H4⟩⟩
    iapply (loss_run_B c (grid1.coords t) _ _ _ _ _ _ _ _ _ _ (fun h => h0 ((hcond1 t).mp h))
      (lossBlk c A 0 t) (lossBlk c A 1 t) (lossBlk c A 2 t) (lossBlk c A 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation, at every point. -/
theorem body_obligation1 : BodyObligation (dat1 c A O Rc) (defs₀ (F := F)) 𝒱₀ (none : HIx 4) Set.univ := fun t => by
  rw [bigSep_W1, bigSep_W1]
  exact sound_body1 c A O Rc t

/-- In the form the region rule takes. -/
theorem body_obligation1_loose : BodyObligationLoose (dat1 c A O Rc) (defs₀ (F := F)) 𝒱₀ (none : HIx 4) Set.univ :=
  (body_obligation1 c A O Rc).loose

/-! ## The arrays when the region is left -/

theorem share1 (w : Fin cfg1.W) : (dat1 c A O Rc).share w = fullShare := (dat1 c A O Rc).share_full (fun _ => rfl) w

/-- The inputs are as they were. -/
theorem arrAt1_0 (n : ℕ) : (dat1 c A O Rc).arrAt 0 n = A 0 := (dat1 c A O Rc).arrAt_in 0 rfl n
theorem arrAt1_1 (n : ℕ) : (dat1 c A O Rc).arrAt 1 n = A 1 := (dat1 c A O Rc).arrAt_in 1 rfl n
theorem arrAt1_2 (n : ℕ) : (dat1 c A O Rc).arrAt 2 n = A 2 := (dat1 c A O Rc).arrAt_in 2 rfl n
theorem arrAt1_3 (n : ℕ) : (dat1 c A O Rc).arrAt 3 n = A 3 := (dat1 c A O Rc).arrAt_in 3 rfl n

/-- The output array is untouched until the last point's write-back, -/
theorem arrAt1_4_lt : ∀ n, n ≤ 3 → (dat1 c A O Rc).arrAt 4 n = A 4
  | 0, _ => rfl
  | n + 1, h => by
    have hn : n < cfg1.N := by rw [show cfg1.N = 4 from N_1]; omega
    rw [show n + 1 = (⟨n, hn⟩ : Fin cfg1.N).val + 1 from rfl, Dat.arrAt_succ,
      if_neg (fun hf => by have := (flush1_4 _).mp hf; dsimp only at this; omega)]
    exact arrAt1_4_lt n (by omega)

/-- THE RESULT: the output array when the region is left, its one block overwritten by the accumulator after the last
    point. -/
def lossOut : Buf (Elt F) ((cfg1.win 4).arr.view.loc (c.tc : Thread nD τ)) :=
  ((cfg1.win 4).blk t1_3).view.write (Elt F) (A 4) (lossAcc c A 3 (by rw [show cfg1.N = 4 from N_1]; decide)) Finset.univ

theorem arrAt1_4 : (dat1 c A O Rc).arrAt 4 cfg1.N = lossOut c A := by
  show (dat1 c A O Rc).arrAt 4 ((t1_3 : Fin cfg1.N).val + 1) = _
  rw [Dat.arrAt_succ, if_pos ((flush1_4 _).mpr rfl), arrAt1_4_lt c A O Rc (t1_3 : Fin cfg1.N).val (le_refl 3)]
  rfl

/-- Read back through its block, the result is the accumulator after the last point. -/
theorem read_lossOut :
    ((cfg1.win 4).blk t1_3).view.read (Elt F) (lossOut c A)
      = lossAcc c A 3 (by rw [show cfg1.N = 4 from N_1]; decide) :=
  View.read_write_univ _ _

end Cert.Proof.KI

end
-- ==== Proof.KI_Loss3.lean ====
import proofs.«215899_g5772436046013_cont_9to1c4b_742_31_alg».proof.Proof.KI_Common
import Idealize.ShloMosaic.Lib.Pipeline.Frame
import Idealize.ShloMosaic.Lib.Pipeline.FrameBody

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # One grid point of the loss3 kernel: its value and its run

The kernel body at a grid point reads a `1024 × 128` block `x0` of centre rows, a block `x1` of positive
context rows, the `20 × 1024 × 128` block `x2` of negative context rows and the `2688 × 21` sign matrix `x3`;
it forms the `1024 × 2688` matrix of products `[x0 * x1, x2[0] * x0, …, x2[19] * x0]`, rounds it to bf16,
multiplies by `x3`, applies `z ↦ min z 0 - log (1 + exp (-|z|))` entrywise, sums everything, and adds the sum
to the `1 × 1` accumulator, which it first sets to zero when the grid coordinate is `0`. -/

/-- The accumulator is reset exactly when the grid coordinate is zero (the body's scalar chain). -/
abbrev cond3 (i : grid3.Coords) : Prop :=
  (Scalar.cmpi .ne (Scalar.extui (Scalar.cmpi .eq (BitVec.ofNat 32 (i 0).val) 0#32)) 0#32) = 1#1

/-- Over the grid: at the first point only. -/
theorem hcond3 : ∀ t : Fin cfg3.N, cond3 (grid3.coords t) ↔ t.val % 4 = 0 :=
  (by decide +kernel : ∀ t : Fin grid3.N, cond3 (grid3.coords t) ↔ t.val % 4 = 0)

/-- A whole `1024 × 128` block as the body's load reads it. -/
abbrev loss3In (x : Vec F S1024x128 .f32) : Vec F S1024x128 .f32 :=
  View.ld (Val := Elt F) x (Rect.unit (s := S1024x128) ![0, 0] S1024x128.size inb_S1024x128_S1024x128_0_0)

/-- Row block 0 of the stacked operand: entries `(0, r, l)`. -/
abbrev loss3Row0 (x2 : Vec F S20x1024x128 .f32) : Vec F S1x1024x128 .f32 :=
  View.ld (Val := Elt F) x2 (Rect.unit (s := S20x1024x128) ![0, 0, 0] S1x1024x128.size inb_S20x1024x128_S1x1024x128_0_0_0)
/-- Row block 1 of the stacked operand: entries `(1, r, l)`. -/
abbrev loss3Row1 (x2 : Vec F S20x1024x128 .f32) : Vec F S1x1024x128 .f32 :=
  View.ld (Val := Elt F) x2 (Rect.unit (s := S20x1024x128) ![1, 0, 0] S1x1024x128.size inb_S20x1024x128_S1x1024x128_1_0_0)
/-- Row block 2 of the stacked operand: entries `(2, r, l)`. -/
abbrev loss3Row2 (x2 : Vec F S20x1024x128 .f32) : Vec F S1x1024x128 .f32 :=
  View.ld (Val := Elt F) x2 (Rect.unit (s := S20x1024x128) ![2, 0, 0] S1x1024x128.size inb_S20x1024x128_S1x1024x128_2_0_0)
/-- Row block 3 of the stacked operand: entries `(3, r, l)`. -/
abbrev loss3Row3 (x2 : Vec F S20x1024x128 .f32) : Vec F S1x1024x128 .f32 :=
  View.ld (Val := Elt F) x2 (Rect.unit (s := S20x1024x128) ![3, 0, 0] S1x1024x128.size inb_S20x1024x128_S1x1024x128_3_0_0)
/-- Row block 4 of the stacked operand: entries `(4, r, l)`. -/
abbrev loss3Row4 (x2 : Vec F S20x1024x128 .f32) : Vec F S1x1024x128 .f32 :=
  View.ld (Val := Elt F) x2 (Rect.unit (s := S20x1024x128) ![4, 0, 0] S1x1024x128.size inb_S20x1024x128_S1x1024x128_4_0_0)
/-- Row block 5 of the stacked operand: entries `(5, r, l)`. -/
abbrev loss3Row5 (x2 : Vec F S20x1024x128 .f32) : Vec F S1x1024x128 .f32 :=
  View.ld (Val := Elt F) x2 (Rect.unit (s := S20x1024x128) ![5, 0, 0] S1x1024x128.size inb_S20x1024x128_S1x1024x128_5_0_0)
/-- Row block 6 of the stacked operand: entries `(6, r, l)`. -/
abbrev loss3Row6 (x2 : Vec F S20x1024x128 .f32) : Vec F S1x1024x128 .f32 :=
  View.ld (Val := Elt F) x2 (Rect.unit (s := S20x1024x128) ![6, 0, 0] S1x1024x128.size inb_S20x1024x128_S1x1024x128_6_0_0)
/-- Row block 7 of the stacked operand: entries `(7, r, l)`. -/
abbrev loss3Row7 (x2 : Vec F S20x1024x128 .f32) : Vec F S1x1024x128 .f32 :=
  View.ld (Val := Elt F) x2 (Rect.unit (s := S20x1024x128) ![7, 0, 0] S1x1024x128.size inb_S20x1024x128_S1x1024x128_7_0_0)
/-- Row block 8 of the stacked operand: entries `(8, r, l)`. -/
abbrev loss3Row8 (x2 : Vec F S20x1024x128 .f32) : Vec F S1x1024x128 .f32 :=
  View.ld (Val := Elt F) x2 (Rect.unit (s := S20x1024x128) ![8, 0, 0] S1x1024x128.size inb_S20x1024x128_S1x1024x128_8_0_0)
/-- Row block 9 of the stacked operand: entries `(9, r, l)`. -/
abbrev loss3Row9 (x2 : Vec F S20x1024x128 .f32) : Vec F S1x1024x128 .f32 :=
  View.ld (Val := Elt F) x2 (Rect.unit (s := S20x1024x128) ![9, 0, 0] S1x1024x128.size inb_S20x1024x128_S1x1024x128_9_0_0)
/-- Row block 10 of the stacked operand: entries `(10, r, l)`. -/
abbrev loss3Row10 (x2 : Vec F S20x1024x128 .f32) : Vec F S1x1024x128 .f32 :=
  View.ld (Val := Elt F) x2 (Rect.unit (s := S20x1024x128) ![10, 0, 0] S1x1024x128.size inb_S20x1024x128_S1x1024x128_10_0_0)
/-- Row block 11 of the stacked operand: entries `(11, r, l)`. -/
abbrev loss3Row11 (x2 : Vec F S20x1024x128 .f32) : Vec F S1x1024x128 .f32 :=
  View.ld (Val := Elt F) x2 (Rect.unit (s := S20x1024x128) ![11, 0, 0] S1x1024x128.size inb_S20x1024x128_S1x1024x128_11_0_0)
/-- Row block 12 of the stacked operand: entries `(12, r, l)`. -/
abbrev loss3Row12 (x2 : Vec F S20x1024x128 .f32) : Vec F S1x1024x128 .f32 :=
  View.ld (Val := Elt F) x2 (Rect.unit (s := S20x1024x128) ![12, 0, 0] S1x1024x128.size inb_S20x1024x128_S1x1024x128_12_0_0)
/-- Row block 13 of the stacked operand: entries `(13, r, l)`. -/
abbrev loss3Row13 (x2 : Vec F S20x1024x128 .f32) : Vec F S1x1024x128 .f32 :=
  View.ld (Val := Elt F) x2 (Rect.unit (s := S20x1024x128) ![13, 0, 0] S1x1024x128.size inb_S20x1024x128_S1x1024x128_13_0_0)
/-- Row block 14 of the stacked operand: entries `(14, r, l)`. -/
abbrev loss3Row14 (x2 : Vec F S20x1024x128 .f32) : Vec F S1x1024x128 .f32 :=
  View.ld (Val := Elt F) x2 (Rect.unit (s := S20x1024x128) ![14, 0, 0] S1x1024x128.size inb_S20x1024x128_S1x1024x128_14_0_0)
/-- Row block 15 of the stacked operand: entries `(15, r, l)`. -/
abbrev loss3Row15 (x2 : Vec F S20x1024x128 .f32) : Vec F S1x1024x128 .f32 :=
  View.ld (Val := Elt F) x2 (Rect.unit (s := S20x1024x128) ![15, 0, 0] S1x1024x128.size inb_S20x1024x128_S1x1024x128_15_0_0)
/-- Row block 16 of the stacked operand: entries `(16, r, l)`. -/
abbrev loss3Row16 (x2 : Vec F S20x1024x128 .f32) : Vec F S1x1024x128 .f32 :=
  View.ld (Val := Elt F) x2 (Rect.unit (s := S20x1024x128) ![16, 0, 0] S1x1024x128.size inb_S20x1024x128_S1x1024x128_16_0_0)
/-- Row block 17 of the stacked operand: entries `(17, r, l)`. -/
abbrev loss3Row17 (x2 : Vec F S20x1024x128 .f32) : Vec F S1x1024x128 .f32 :=
  View.ld (Val := Elt F) x2 (Rect.unit (s := S20x1024x128) ![17, 0, 0] S1x1024x128.size inb_S20x1024x128_S1x1024x128_17_0_0)
/-- Row block 18 of the stacked operand: entries `(18, r, l)`. -/
abbrev loss3Row18 (x2 : Vec F S20x1024x128 .f32) : Vec F S1x1024x128 .f32 :=
  View.ld (Val := Elt F) x2 (Rect.unit (s := S20x1024x128) ![18, 0, 0] S1x1024x128.size inb_S20x1024x128_S1x1024x128_18_0_0)
/-- Row block 19 of the stacked operand: entries `(19, r, l)`. -/
abbrev loss3Row19 (x2 : Vec F S20x1024x128 .f32) : Vec F S1x1024x128 .f32 :=
  View.ld (Val := Elt F) x2 (Rect.unit (s := S20x1024x128) ![19, 0, 0] S1x1024x128.size inb_S20x1024x128_S1x1024x128_19_0_0)

/-- The `1024 × 2688` matrix of products: the positive products first, then the twenty negative ones. -/
def loss3Z (x0 x1 : Vec F S1024x128 .f32) (x2 : Vec F S20x1024x128 .f32) : FVec F S1024x2688 .f32 :=
  concatenate S1024x2688 1
    [⟨S1024x128, k3_pay6 (loss3In x0) (loss3In x1)⟩,
      ⟨S1024x128, k3_pay7 (loss3In x0) (loss3Row0 x2)⟩,
      ⟨S1024x128, k3_pay8 (loss3In x0) (loss3Row1 x2)⟩,
      ⟨S1024x128, k3_pay9 (loss3In x0) (loss3Row2 x2)⟩,
      ⟨S1024x128, k3_pay10 (loss3In x0) (loss3Row3 x2)⟩,
      ⟨S1024x128, k3_pay11 (loss3In x0) (loss3Row4 x2)⟩,
      ⟨S1024x128, k3_pay12 (loss3In x0) (loss3Row5 x2)⟩,
      ⟨S1024x128, k3_pay13 (loss3In x0) (loss3Row6 x2)⟩,
      ⟨S1024x128, k3_pay14 (loss3In x0) (loss3Row7 x2)⟩,
      ⟨S1024x128, k3_pay15 (k3_pay5 (loss3In x0)) (loss3Row8 x2)⟩,
      ⟨S1024x128, k3_pay16 (k3_pay5 (loss3In x0)) (loss3Row9 x2)⟩,
      ⟨S1024x128, k3_pay17 (k3_pay5 (loss3In x0)) (loss3Row10 x2)⟩,
      ⟨S1024x128, k3_pay18 (k3_pay5 (loss3In x0)) (loss3Row11 x2)⟩,
      ⟨S1024x128, k3_pay19 (k3_pay5 (loss3In x0)) (loss3Row12 x2)⟩,
      ⟨S1024x128, k3_pay20 (k3_pay5 (loss3In x0)) (loss3Row13 x2)⟩,
      ⟨S1024x128, k3_pay21 (k3_pay5 (loss3In x0)) (loss3Row14 x2)⟩,
      ⟨S1024x128, k3_pay22 (k3_pay5 (loss3In x0)) (loss3Row15 x2)⟩,
      ⟨S1024x128, k3_pay23 (k3_pay5 (loss3In x0)) (loss3Row16 x2)⟩,
      ⟨S1024x128, k3_pay24 (k3_pay5 (loss3In x0)) (loss3Row17 x2)⟩,
      ⟨S1024x128, k3_pay1 (k3_pay5 (loss3In x0)) (loss3Row18 x2)⟩,
      ⟨S1024x128, k3_pay2 (k3_pay5 (loss3In x0)) (loss3Row19 x2)⟩]
    concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x2688_d1

/-- What the body stores into the accumulator, given what it loaded from it (`acc`): `acc` plus the block's sum. -/
def loss3Step (x0 x1 : Vec F S1024x128 .f32) (x2 : Vec F S20x1024x128 .f32) (x3 : Vec F S2688x21 .bf16)
    (acc : Vec F S1x1 .f32) : Vec F S1x1 .f32 :=
  k3_pay4 (loss3Z x0 x1 x2)
    (View.ld (Val := Elt F) x3 (Rect.unit (s := S2688x21) ![0, 0] S2688x21.size inb_S2688x21_S2688x21_0_0)) acc

/-- At the first point: over the zero the body has just stored. -/
def loss3StepA (x0 x1 : Vec F S1024x128 .f32) (x2 : Vec F S20x1024x128 .f32) (x3 : Vec F S2688x21 .bf16) : Vec F S1x1 .f32 :=
  loss3Step x0 x1 x2 x3 (k3_pay3 (F := F))

/-- At a later point: over what the point before left (`prev`). -/
def loss3StepB (x0 x1 : Vec F S1024x128 .f32) (x2 : Vec F S20x1024x128 .f32) (x3 : Vec F S2688x21 .bf16)
    (prev : Vec F S1x1 .f32) : Vec F S1x1 .f32 :=
  loss3Step x0 x1 x2 x3
    (View.ld (Val := Elt F) prev (Rect.unit (s := S1x1) ![0, 0] S1x1.size inb_S1x1_S1x1_0_0))

/-- A store through the whole `1 × 1` rectangle leaves its payload, whatever was stored before. -/
theorem read_writes_whole11_3 {κ : Kind} {sp : Space} (v : View sig κ sp S1x1 .f32) (f : v.ty.Contents (Elt F))
    (w : Vec F S1x1 .f32) (L : List (View.Piece (Elt F) S1x1 .f32)) :
    v.read (Elt F) (v.writes (Elt F) f (⟨Rect.unit (s := S1x1) ![0, 0] S1x1.size inb_S1x1_S1x1_0_0, w⟩ :: L)) = w := by
  funext y
  have h := View.read_writes_cons_emb v f (Rect.unit (s := S1x1) ![0, 0] S1x1.size inb_S1x1_S1x1_0_0) w L y
  have e : (Rect.unit (s := S1x1) ![0, 0] S1x1.size inb_S1x1_S1x1_0_0).emb y = y := by
    funext a; apply Fin.ext
    rw [Rect.emb_apply]
    fin_cases a <;> simp
  rw [e] at h; exact h

set_option maxHeartbeats 1000000 in
/-- The body at the first point, on whole staging memrefs holding the blocks: the inputs are left as they were and the
    accumulator holds `loss3StepA` of them. -/
theorem loss3_run_A (c : Dev nD) (i : grid3.Coords)
    (arg1 : Memref sig .tc .vmem S1024x128 .f32) (harg1 : arg1.IsWhole)
    (arg2 : Memref sig .tc .vmem S1024x128 .f32) (harg2 : arg2.IsWhole)
    (arg3 : Memref sig .tc .vmem S20x1024x128 .f32) (harg3 : arg3.IsWhole)
    (arg4 : Memref sig .tc .vmem S2688x21 .bf16) (harg4 : arg4.IsWhole)
    (arg5 : Memref sig .tc .vmem S1x1 .f32) (harg5 : arg5.IsWhole) (hc0 : cond3 i)
    (x0 x1 : Vec F S1024x128 .f32) (x2 : Vec F S20x1024x128 .f32) (x3 : Vec F S2688x21 .bf16)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (loss3StepA x0 x1 x2 x3)) -∗ K ⟨⟩))
      ⊢ wp frame (wpE (defs₀ (F := F)) 𝒱₀ c none) E (cc3__loss_body i arg1 harg1 arg2 harg2 arg3 harg3 arg4 harg4 arg5 harg5) K := by
  simp only [cc3__loss_body_eq_skeleton]; unfold cc3__loss_body_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1
  obtain rfl := harg3.eq_unread hf2; obtain rfl := harg4.eq_unread hf3
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [read_writes_whole11_3]
  sl_unfold_run_names
  simp only [View.readAt_eq_ld]
  rw [harg1.read_unread, harg2.read_unread, harg3.read_unread, harg4.read_unread, View.readCov_cons_toLoadRect]
  rfl

set_option maxHeartbeats 1000000 in
/-- The body at a later point: the accumulator, found at `prev`, holds `loss3StepB` of the blocks and `prev`. -/
theorem loss3_run_B (c : Dev nD) (i : grid3.Coords)
    (arg1 : Memref sig .tc .vmem S1024x128 .f32) (harg1 : arg1.IsWhole)
    (arg2 : Memref sig .tc .vmem S1024x128 .f32) (harg2 : arg2.IsWhole)
    (arg3 : Memref sig .tc .vmem S20x1024x128 .f32) (harg3 : arg3.IsWhole)
    (arg4 : Memref sig .tc .vmem S2688x21 .bf16) (harg4 : arg4.IsWhole)
    (arg5 : Memref sig .tc .vmem S1x1 .f32) (harg5 : arg5.IsWhole) (hc0 : ¬cond3 i)
    (x0 x1 : Vec F S1024x128 .f32) (x2 : Vec F S20x1024x128 .f32) (x3 : Vec F S2688x21 .bf16) (prev : Vec F S1x1 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare prev
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (loss3StepB x0 x1 x2 x3 prev)) -∗ K ⟨⟩))
      ⊢ wp frame (wpE (defs₀ (F := F)) 𝒱₀ c none) E (cc3__loss_body i arg1 harg1 arg2 harg2 arg3 harg3 arg4 harg4 arg5 harg5) K := by
  simp only [cc3__loss_body_eq_skeleton]; unfold cc3__loss_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1
  obtain rfl := harg3.eq_unread hf2; obtain rfl := harg4.eq_unread hf3
  obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [read_writes_whole11_3]
  sl_unfold_run_names
  simp only [View.readAt_eq_ld]
  rw [harg1.read_unread, harg2.read_unread, harg3.read_unread, harg4.read_unread, harg5.read_unread]
  rfl

end Cert.Proof.KI

end
-- ==== Proof.KI_Loss3Dat.lean ====
import proofs.«215899_g5772436046013_cont_9to1c4b_742_31_alg».proof.Proof.KI_Loss3
import Idealize.ShloMosaic.Lib.Pipeline.Frame
import Idealize.ShloMosaic.Lib.Pipeline.FrameBody

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # The loss3 kernel over its grid: the accumulator point by point, and the body obligation

Four grid points; at point `t` the body sees block `t` of the centre rows, of the positive rows and of the negative
rows, and the whole sign matrix; the `1 × 1` output is an accumulator, zeroed at point `0` and written back after
point `3`. -/

/-- The five arrays' contents when the region is entered, window by window. -/
abbrev Loss3Arrs (F : FTy → Type) (c : Dev nD) : Type :=
  (w : Fin cfg3.W) → Buf (Elt F) ((cfg3.win w).arr.view.loc (c.tc : Thread nD τ))

/-- The family from its five members. -/
def loss3Arrs (c : Dev nD)
    (a0 : Buf (Elt F) ((cfg3.win 0).arr.view.loc (c.tc : Thread nD τ)))
    (a1 : Buf (Elt F) ((cfg3.win 1).arr.view.loc (c.tc : Thread nD τ)))
    (a2 : Buf (Elt F) ((cfg3.win 2).arr.view.loc (c.tc : Thread nD τ)))
    (a3 : Buf (Elt F) ((cfg3.win 3).arr.view.loc (c.tc : Thread nD τ)))
    (aOut : Buf (Elt F) ((cfg3.win 4).arr.view.loc (c.tc : Thread nD τ))) : Loss3Arrs F c := fun w =>
  match w with
  | ⟨0, _⟩ => a0
  | ⟨1, _⟩ => a1
  | ⟨2, _⟩ => a2
  | ⟨3, _⟩ => a3
  | ⟨4, _⟩ => aOut

variable (c : Dev nD) (A : Loss3Arrs F c) (O : CellTallies nD τ sig (HIx 4)) (Rc : Set (SemLoc sig × HIx 4))

/-- Window `w`'s block at point `t`, read off its array's entry contents. -/
def loss3Blk (w : Fin cfg3.W) (t : Fin cfg3.N) :
    ((cfg3.win w).xblock (cfg3.grid.coords t)).Idx → Elt F (cfg3.win w).elt :=
  ((cfg3.win w).blk t).view.read (Elt F) (A w)

/-- THE ACCUMULATION: what the output's staging buffer holds after the body at point `n`. -/
def loss3Acc : (n : ℕ) → n < cfg3.N → Vec F S1x1 .f32
  | 0, hn => loss3StepA (loss3Blk c A 0 ⟨0, hn⟩) (loss3Blk c A 1 ⟨0, hn⟩) (loss3Blk c A 2 ⟨0, hn⟩) (loss3Blk c A 3 ⟨0, hn⟩)
  | n + 1, hn => loss3StepB (loss3Blk c A 0 ⟨n + 1, hn⟩) (loss3Blk c A 1 ⟨n + 1, hn⟩) (loss3Blk c A 2 ⟨n + 1, hn⟩)
      (loss3Blk c A 3 ⟨n + 1, hn⟩) (loss3Acc n (Nat.lt_of_succ_lt hn))

theorem loss3Acc_A (t : Fin cfg3.N) (h0 : t.val % 4 = 0) :
    loss3Acc c A t.val t.isLt = loss3StepA (loss3Blk c A 0 t) (loss3Blk c A 1 t) (loss3Blk c A 2 t) (loss3Blk c A 3 t) := by
  obtain ⟨n, hn⟩ := t
  have hN : n < 4 := lt_of_lt_of_eq hn (show cfg3.N = 4 from N_3)
  cases n with
  | zero => rfl
  | succ n => exfalso; dsimp only at h0; omega

theorem loss3Acc_B (t : Fin cfg3.N) (h0 : ¬t.val % 4 = 0) :
    loss3Acc c A t.val t.isLt = loss3StepB (loss3Blk c A 0 t) (loss3Blk c A 1 t) (loss3Blk c A 2 t) (loss3Blk c A 3 t)
      (loss3Acc c A (t.val - 1) (Nat.lt_of_le_of_lt (Nat.sub_le _ _) t.isLt)) := by
  obtain ⟨n, hn⟩ := t
  cases n with
  | zero => exact absurd (Nat.zero_mod _) h0
  | succ n => rfl

/-- The pipeline's proof data on core `c`: the arrays at `A`; after the body each input's buffer at its block and the
    output's at `loss3Acc`; the invariant the scoped buffers no window stages; full shares; what the core owes
    (`O`) and the bound on its recorded pairs (`Rc`) unchanged by the body. -/
def dat3 : Dat τ (Elt F) (HIx 4) ℕ UU ℕ cfg3 c where
  A := A
  after w t := match w with
    | ⟨0, _⟩ => loss3Blk c A 0 t
    | ⟨1, _⟩ => loss3Blk c A 1 t
    | ⟨2, _⟩ => loss3Blk c A 2 t
    | ⟨3, _⟩ => loss3Blk c A 3 t
    | ⟨4, _⟩ => loss3Acc c A t.val t.isLt
  Φ _ := Pipeline.scopedRest cfg3.spec c
  q _ := fullShare
  owed _ := O
  recorded _ := Rc

theorem dat3_A (w : Fin cfg3.W) : (dat3 c A O Rc).A w = A w := rfl
theorem after3_0 (t : Fin cfg3.N) : (dat3 c A O Rc).after 0 t = loss3Blk c A 0 t := by dsimp only [dat3]
theorem after3_1 (t : Fin cfg3.N) : (dat3 c A O Rc).after 1 t = loss3Blk c A 1 t := by dsimp only [dat3]
theorem after3_2 (t : Fin cfg3.N) : (dat3 c A O Rc).after 2 t = loss3Blk c A 2 t := by dsimp only [dat3]
theorem after3_3 (t : Fin cfg3.N) : (dat3 c A O Rc).after 3 t = loss3Blk c A 3 t := by dsimp only [dat3]
theorem after3_4 (t : Fin cfg3.N) : (dat3 c A O Rc).after 4 t = loss3Acc c A t.val t.isLt := by dsimp only [dat3]

/-- Each input's current staging buffer holds its block at every point, fetched there or not. -/
theorem before3_0 (t : Fin cfg3.N) (d) : (dat3 c A O Rc).before 0 t d = loss3Blk c A 0 t :=
  ((dat3 c A O Rc).before_in_eq_fetched 0 rfl (fun _ => rfl) (fun _ _ _ => rfl)
    (fun t => by rw [after3_0]; unfold Dat.blockOf loss3Blk; rfl) t d).trans (by unfold Dat.fetched Dat.blockOf loss3Blk; rfl)
theorem before3_1 (t : Fin cfg3.N) (d) : (dat3 c A O Rc).before 1 t d = loss3Blk c A 1 t :=
  ((dat3 c A O Rc).before_in_eq_fetched 1 rfl (fun _ => rfl) (fun _ _ _ => rfl)
    (fun t => by rw [after3_1]; unfold Dat.blockOf loss3Blk; rfl) t d).trans (by unfold Dat.fetched Dat.blockOf loss3Blk; rfl)
theorem before3_2 (t : Fin cfg3.N) (d) : (dat3 c A O Rc).before 2 t d = loss3Blk c A 2 t :=
  ((dat3 c A O Rc).before_in_eq_fetched 2 rfl (fun _ => rfl) (fun _ _ _ => rfl)
    (fun t => by rw [after3_2]; unfold Dat.blockOf loss3Blk; rfl) t d).trans (by unfold Dat.fetched Dat.blockOf loss3Blk; rfl)
theorem before3_3 (t : Fin cfg3.N) (d) : (dat3 c A O Rc).before 3 t d = loss3Blk c A 3 t :=
  ((dat3 c A O Rc).before_in_eq_fetched 3 rfl (fun _ => rfl) (fun _ _ _ => rfl)
    (fun t => by rw [after3_3]; unfold Dat.blockOf loss3Blk; rfl) t d).trans (by unfold Dat.fetched Dat.blockOf loss3Blk; rfl)

/-- After the first point the output's staging buffer holds what the body left at the point before: it is not written
    back between. -/
theorem before3_4 (t : Fin cfg3.N) (h0 : ¬t.val % 4 = 0) (d) :
    (dat3 c A O Rc).before 4 t d = loss3Acc c A (t.val - 1) (Nat.lt_of_le_of_lt (Nat.sub_le _ _) t.isLt) := by
  have hN : t.val < 4 := lt_of_lt_of_eq t.isLt (show cfg3.N = 4 from N_3)
  rw [Dat.before_out_kept _ 4 rfl t (by omega)
    (Bool.eq_false_iff.mpr fun h => by have := (flush3_4 _).mp h; dsimp only at this; omega)
    (fun _ => rfl) (fun _ _ => rfl)]
  dsimp only [dat3]

/-! ## The body obligation, at a generic point -/

/-- What the body is called with at point `t`, the windows one by one, -/
def bodyPre3 (t : Fin cfg3.N) : sProp 𝕄 :=
  iprop((dat3 c A O Rc).Φ t.castSucc ∗ (dat3 c A O Rc).owesAt none t.castSucc
    ∗ (∃ d, owns (c : Thread nD τ) (win3_0.stage (cfg3.slots t 0)) fullShare ((dat3 c A O Rc).before 0 t d))
    ∗ (∃ d, owns (c : Thread nD τ) (win3_1.stage (cfg3.slots t 1)) fullShare ((dat3 c A O Rc).before 1 t d))
    ∗ (∃ d, owns (c : Thread nD τ) (win3_2.stage (cfg3.slots t 2)) fullShare ((dat3 c A O Rc).before 2 t d))
    ∗ (∃ d, owns (c : Thread nD τ) (win3_3.stage (cfg3.slots t 3)) fullShare ((dat3 c A O Rc).before 3 t d))
    ∗ (∃ d, owns (c : Thread nD τ) (win3_4.stage (cfg3.slots t 4)) fullShare ((dat3 c A O Rc).before 4 t d)))

/-- and what it returns. -/
def bodyPost3 (t : Fin cfg3.N) : sProp 𝕄 :=
  iprop((dat3 c A O Rc).Φ t.succ ∗ (dat3 c A O Rc).owesAt none t.succ
    ∗ owns (c : Thread nD τ) (win3_0.stage (cfg3.slots t 0)) fullShare ((dat3 c A O Rc).after 0 t)
    ∗ owns (c : Thread nD τ) (win3_1.stage (cfg3.slots t 1)) fullShare ((dat3 c A O Rc).after 1 t)
    ∗ owns (c : Thread nD τ) (win3_2.stage (cfg3.slots t 2)) fullShare ((dat3 c A O Rc).after 2 t)
    ∗ owns (c : Thread nD τ) (win3_3.stage (cfg3.slots t 3)) fullShare ((dat3 c A O Rc).after 3 t)
    ∗ owns (c : Thread nD τ) (win3_4.stage (cfg3.slots t 4)) fullShare ((dat3 c A O Rc).after 4 t))

set_option maxHeartbeats 800000 in
/-- The body at any point: the inputs' buffers hold their blocks; at point `0` the accumulator is reset, at a later
    point it holds what the point before left; the invariant and what the core owes pass through untouched. -/
theorem sound_body3 (t : Fin cfg3.N) :
    bodyPre3 c A O Rc t ⊢ wp frame (wpE (defs₀ (F := F)) 𝒱₀ c none) Set.univ (bodyAt3 t) (fun _ => bodyPost3 c A O Rc t) := by
  unfold bodyPre3 bodyPost3 bodyAt3
  simp only [before3_0, before3_1, before3_2, before3_3]
  rw [show (dat3 c A O Rc).Φ t.succ = (dat3 c A O Rc).Φ t.castSucc from rfl,
    show (dat3 c A O Rc).owesAt none t.succ = (dat3 c A O Rc).owesAt none t.castSucc from rfl,
    after3_0, after3_1, after3_2, after3_3, after3_4]
  by_cases h0 : t.val % 4 = 0
  · rw [loss3Acc_A c A t h0]
    iintro ⟨HΦ, Ho, ⟨%d0, H0⟩, ⟨%d1, H1⟩, ⟨%d2, H2⟩, ⟨%d3, H3⟩, ⟨%d4, H4⟩⟩
    iapply (loss3_run_A c (grid3.coords t) _ _ _ _ _ _ _ _ _ _ ((hcond3 t).mpr h0)
      (loss3Blk c A 0 t) (loss3Blk c A 1 t) (loss3Blk c A 2 t) (loss3Blk c A 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [loss3Acc_B c A t h0]
    simp only [before3_4 c A O Rc t h0]
    iintro ⟨HΦ, Ho, ⟨%d0, H0⟩, ⟨%d1, H1⟩, ⟨%d2, H2⟩, ⟨%d3, H3⟩, ⟨%d4, H4⟩⟩
    iapply (loss3_run_B c (grid3.coords t) _ _ _ _ _ _ _ _ _ _ (fun h => h0 ((hcond3 t).mp h))
      (loss3Blk c A 0 t) (loss3Blk c A 1 t) (loss3Blk c A 2 t) (loss3Blk c A 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation, at every point. -/
theorem body_obligation3 : BodyObligation (dat3 c A O Rc) (defs₀ (F := F)) 𝒱₀ (none : HIx 4) Set.univ := fun t => by
  rw [bigSep_W3, bigSep_W3]
  exact sound_body3 c A O Rc t

/-- In the form the region rule takes. -/
theorem body_obligation3_loose : BodyObligationLoose (dat3 c A O Rc) (defs₀ (F := F)) 𝒱₀ (none : HIx 4) Set.univ :=
  (body_obligation3 c A O Rc).loose

/-! ## The arrays when the region is left -/

theorem share3 (w : Fin cfg3.W) : (dat3 c A O Rc).share w = fullShare := (dat3 c A O Rc).share_full (fun _ => rfl) w

/-- The inputs are as they were. -/
theorem arrAt3_0 (n : ℕ) : (dat3 c A O Rc).arrAt 0 n = A 0 := (dat3 c A O Rc).arrAt_in 0 rfl n
theorem arrAt3_1 (n : ℕ) : (dat3 c A O Rc).arrAt 1 n = A 1 := (dat3 c A O Rc).arrAt_in 1 rfl n
theorem arrAt3_2 (n : ℕ) : (dat3 c A O Rc).arrAt 2 n = A 2 := (dat3 c A O Rc).arrAt_in 2 rfl n
theorem arrAt3_3 (n : ℕ) : (dat3 c A O Rc).arrAt 3 n = A 3 := (dat3 c A O Rc).arrAt_in 3 rfl n

/-- The output array is untouched until the last point's write-back, -/
theorem arrAt3_4_lt : ∀ n, n ≤ 3 → (dat3 c A O Rc).arrAt 4 n = A 4
  | 0, _ => rfl
  | n + 1, h => by
    have hn : n < cfg3.N := by rw [show cfg3.N = 4 from N_3]; omega
    rw [show n + 1 = (⟨n, hn⟩ : Fin cfg3.N).val + 1 from rfl, Dat.arrAt_succ,
      if_neg (fun hf => by have := (flush3_4 _).mp hf; dsimp only at this; omega)]
    exact arrAt3_4_lt n (by omega)

/-- THE RESULT: the output array when the region is left, its one block overwritten by the accumulator after the last
    point. -/
def loss3Out : Buf (Elt F) ((cfg3.win 4).arr.view.loc (c.tc : Thread nD τ)) :=
  ((cfg3.win 4).blk t3_3).view.write (Elt F) (A 4) (loss3Acc c A 3 (by rw [show cfg3.N = 4 from N_3]; decide)) Finset.univ

theorem arrAt3_4 : (dat3 c A O Rc).arrAt 4 cfg3.N = loss3Out c A := by
  show (dat3 c A O Rc).arrAt 4 ((t3_3 : Fin cfg3.N).val + 1) = _
  rw [Dat.arrAt_succ, if_pos ((flush3_4 _).mpr rfl), arrAt3_4_lt c A O Rc (t3_3 : Fin cfg3.N).val (le_refl 3)]
  rfl

/-- Read back through its block, the result is the accumulator after the last point. -/
theorem read_loss3Out :
    ((cfg3.win 4).blk t3_3).view.read (Elt F) (loss3Out c A)
      = loss3Acc c A 3 (by rw [show cfg3.N = 4 from N_3]; decide) :=
  View.read_write_univ _ _

end Cert.Proof.KI

end
-- ==== Proof.KI_Loss5.lean ====
import proofs.«215899_g5772436046013_cont_9to1c4b_742_31_alg».proof.Proof.KI_Common
import Idealize.ShloMosaic.Lib.Pipeline.Frame
import Idealize.ShloMosaic.Lib.Pipeline.FrameBody

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # One grid point of the loss5 kernel: its value and its run

The kernel body at a grid point reads a `1024 × 128` block `x0` of centre rows, a block `x1` of positive
context rows, the `20 × 1024 × 128` block `x2` of negative context rows and the `2688 × 21` sign matrix `x3`;
it forms the `1024 × 2688` matrix of products `[x0 * x1, x2[0] * x0, …, x2[19] * x0]`, rounds it to bf16,
multiplies by `x3`, applies `z ↦ min z 0 - log (1 + exp (-|z|))` entrywise, sums everything, and adds the sum
to the `1 × 1` accumulator, which it first sets to zero when the grid coordinate is `0`. -/

/-- The accumulator is reset exactly when the grid coordinate is zero (the body's scalar chain). -/
abbrev cond5 (i : grid5.Coords) : Prop :=
  (Scalar.cmpi .ne (Scalar.extui (Scalar.cmpi .eq (BitVec.ofNat 32 (i 0).val) 0#32)) 0#32) = 1#1

/-- Over the grid: at the first point only. -/
theorem hcond5 : ∀ t : Fin cfg5.N, cond5 (grid5.coords t) ↔ t.val % 4 = 0 :=
  (by decide +kernel : ∀ t : Fin grid5.N, cond5 (grid5.coords t) ↔ t.val % 4 = 0)

/-- A whole `1024 × 128` block as the body's load reads it. -/
abbrev loss5In (x : Vec F S1024x128 .f32) : Vec F S1024x128 .f32 :=
  View.ld (Val := Elt F) x (Rect.unit (s := S1024x128) ![0, 0] S1024x128.size inb_S1024x128_S1024x128_0_0)

/-- Row block 0 of the stacked operand: entries `(0, r, l)`. -/
abbrev loss5Row0 (x2 : Vec F S20x1024x128 .f32) : Vec F S1x1024x128 .f32 :=
  View.ld (Val := Elt F) x2 (Rect.unit (s := S20x1024x128) ![0, 0, 0] S1x1024x128.size inb_S20x1024x128_S1x1024x128_0_0_0)
/-- Row block 1 of the stacked operand: entries `(1, r, l)`. -/
abbrev loss5Row1 (x2 : Vec F S20x1024x128 .f32) : Vec F S1x1024x128 .f32 :=
  View.ld (Val := Elt F) x2 (Rect.unit (s := S20x1024x128) ![1, 0, 0] S1x1024x128.size inb_S20x1024x128_S1x1024x128_1_0_0)
/-- Row block 2 of the stacked operand: entries `(2, r, l)`. -/
abbrev loss5Row2 (x2 : Vec F S20x1024x128 .f32) : Vec F S1x1024x128 .f32 :=
  View.ld (Val := Elt F) x2 (Rect.unit (s := S20x1024x128) ![2, 0, 0] S1x1024x128.size inb_S20x1024x128_S1x1024x128_2_0_0)
/-- Row block 3 of the stacked operand: entries `(3, r, l)`. -/
abbrev loss5Row3 (x2 : Vec F S20x1024x128 .f32) : Vec F S1x1024x128 .f32 :=
  View.ld (Val := Elt F) x2 (Rect.unit (s := S20x1024x128) ![3, 0, 0] S1x1024x128.size inb_S20x1024x128_S1x1024x128_3_0_0)
/-- Row block 4 of the stacked operand: entries `(4, r, l)`. -/
abbrev loss5Row4 (x2 : Vec F S20x1024x128 .f32) : Vec F S1x1024x128 .f32 :=
  View.ld (Val := Elt F) x2 (Rect.unit (s := S20x1024x128) ![4, 0, 0] S1x1024x128.size inb_S20x1024x128_S1x1024x128_4_0_0)
/-- Row block 5 of the stacked operand: entries `(5, r, l)`. -/
abbrev loss5Row5 (x2 : Vec F S20x1024x128 .f32) : Vec F S1x1024x128 .f32 :=
  View.ld (Val := Elt F) x2 (Rect.unit (s := S20x1024x128) ![5, 0, 0] S1x1024x128.size inb_S20x1024x128_S1x1024x128_5_0_0)
/-- Row block 6 of the stacked operand: entries `(6, r, l)`. -/
abbrev loss5Row6 (x2 : Vec F S20x1024x128 .f32) : Vec F S1x1024x128 .f32 :=
  View.ld (Val := Elt F) x2 (Rect.unit (s := S20x1024x128) ![6, 0, 0] S1x1024x128.size inb_S20x1024x128_S1x1024x128_6_0_0)
/-- Row block 7 of the stacked operand: entries `(7, r, l)`. -/
abbrev loss5Row7 (x2 : Vec F S20x1024x128 .f32) : Vec F S1x1024x128 .f32 :=
  View.ld (Val := Elt F) x2 (Rect.unit (s := S20x1024x128) ![7, 0, 0] S1x1024x128.size inb_S20x1024x128_S1x1024x128_7_0_0)
/-- Row block 8 of the stacked operand: entries `(8, r, l)`. -/
abbrev loss5Row8 (x2 : Vec F S20x1024x128 .f32) : Vec F S1x1024x128 .f32 :=
  View.ld (Val := Elt F) x2 (Rect.unit (s := S20x1024x128) ![8, 0, 0] S1x1024x128.size inb_S20x1024x128_S1x1024x128_8_0_0)
/-- Row block 9 of the stacked operand: entries `(9, r, l)`. -/
abbrev loss5Row9 (x2 : Vec F S20x1024x128 .f32) : Vec F S1x1024x128 .f32 :=
  View.ld (Val := Elt F) x2 (Rect.unit (s := S20x1024x128) ![9, 0, 0] S1x1024x128.size inb_S20x1024x128_S1x1024x128_9_0_0)
/-- Row block 10 of the stacked operand: entries `(10, r, l)`. -/
abbrev loss5Row10 (x2 : Vec F S20x1024x128 .f32) : Vec F S1x1024x128 .f32 :=
  View.ld (Val := Elt F) x2 (Rect.unit (s := S20x1024x128) ![10, 0, 0] S1x1024x128.size inb_S20x1024x128_S1x1024x128_10_0_0)
/-- Row block 11 of the stacked operand: entries `(11, r, l)`. -/
abbrev loss5Row11 (x2 : Vec F S20x1024x128 .f32) : Vec F S1x1024x128 .f32 :=
  View.ld (Val := Elt F) x2 (Rect.unit (s := S20x1024x128) ![11, 0, 0] S1x1024x128.size inb_S20x1024x128_S1x1024x128_11_0_0)
/-- Row block 12 of the stacked operand: entries `(12, r, l)`. -/
abbrev loss5Row12 (x2 : Vec F S20x1024x128 .f32) : Vec F S1x1024x128 .f32 :=
  View.ld (Val := Elt F) x2 (Rect.unit (s := S20x1024x128) ![12, 0, 0] S1x1024x128.size inb_S20x1024x128_S1x1024x128_12_0_0)
/-- Row block 13 of the stacked operand: entries `(13, r, l)`. -/
abbrev loss5Row13 (x2 : Vec F S20x1024x128 .f32) : Vec F S1x1024x128 .f32 :=
  View.ld (Val := Elt F) x2 (Rect.unit (s := S20x1024x128) ![13, 0, 0] S1x1024x128.size inb_S20x1024x128_S1x1024x128_13_0_0)
/-- Row block 14 of the stacked operand: entries `(14, r, l)`. -/
abbrev loss5Row14 (x2 : Vec F S20x1024x128 .f32) : Vec F S1x1024x128 .f32 :=
  View.ld (Val := Elt F) x2 (Rect.unit (s := S20x1024x128) ![14, 0, 0] S1x1024x128.size inb_S20x1024x128_S1x1024x128_14_0_0)
/-- Row block 15 of the stacked operand: entries `(15, r, l)`. -/
abbrev loss5Row15 (x2 : Vec F S20x1024x128 .f32) : Vec F S1x1024x128 .f32 :=
  View.ld (Val := Elt F) x2 (Rect.unit (s := S20x1024x128) ![15, 0, 0] S1x1024x128.size inb_S20x1024x128_S1x1024x128_15_0_0)
/-- Row block 16 of the stacked operand: entries `(16, r, l)`. -/
abbrev loss5Row16 (x2 : Vec F S20x1024x128 .f32) : Vec F S1x1024x128 .f32 :=
  View.ld (Val := Elt F) x2 (Rect.unit (s := S20x1024x128) ![16, 0, 0] S1x1024x128.size inb_S20x1024x128_S1x1024x128_16_0_0)
/-- Row block 17 of the stacked operand: entries `(17, r, l)`. -/
abbrev loss5Row17 (x2 : Vec F S20x1024x128 .f32) : Vec F S1x1024x128 .f32 :=
  View.ld (Val := Elt F) x2 (Rect.unit (s := S20x1024x128) ![17, 0, 0] S1x1024x128.size inb_S20x1024x128_S1x1024x128_17_0_0)
/-- Row block 18 of the stacked operand: entries `(18, r, l)`. -/
abbrev loss5Row18 (x2 : Vec F S20x1024x128 .f32) : Vec F S1x1024x128 .f32 :=
  View.ld (Val := Elt F) x2 (Rect.unit (s := S20x1024x128) ![18, 0, 0] S1x1024x128.size inb_S20x1024x128_S1x1024x128_18_0_0)
/-- Row block 19 of the stacked operand: entries `(19, r, l)`. -/
abbrev loss5Row19 (x2 : Vec F S20x1024x128 .f32) : Vec F S1x1024x128 .f32 :=
  View.ld (Val := Elt F) x2 (Rect.unit (s := S20x1024x128) ![19, 0, 0] S1x1024x128.size inb_S20x1024x128_S1x1024x128_19_0_0)

/-- The `1024 × 2688` matrix of products: the positive products first, then the twenty negative ones. -/
def loss5Z (x0 x1 : Vec F S1024x128 .f32) (x2 : Vec F S20x1024x128 .f32) : FVec F S1024x2688 .f32 :=
  concatenate S1024x2688 1
    [⟨S1024x128, k5_pay6 (loss5In x0) (loss5In x1)⟩,
      ⟨S1024x128, k5_pay7 (loss5In x0) (loss5Row0 x2)⟩,
      ⟨S1024x128, k5_pay8 (loss5In x0) (loss5Row1 x2)⟩,
      ⟨S1024x128, k5_pay9 (loss5In x0) (loss5Row2 x2)⟩,
      ⟨S1024x128, k5_pay10 (loss5In x0) (loss5Row3 x2)⟩,
      ⟨S1024x128, k5_pay11 (loss5In x0) (loss5Row4 x2)⟩,
      ⟨S1024x128, k5_pay12 (loss5In x0) (loss5Row5 x2)⟩,
      ⟨S1024x128, k5_pay13 (loss5In x0) (loss5Row6 x2)⟩,
      ⟨S1024x128, k5_pay14 (loss5In x0) (loss5Row7 x2)⟩,
      ⟨S1024x128, k5_pay15 (k5_pay5 (loss5In x0)) (loss5Row8 x2)⟩,
      ⟨S1024x128, k5_pay16 (k5_pay5 (loss5In x0)) (loss5Row9 x2)⟩,
      ⟨S1024x128, k5_pay17 (k5_pay5 (loss5In x0)) (loss5Row10 x2)⟩,
      ⟨S1024x128, k5_pay18 (k5_pay5 (loss5In x0)) (loss5Row11 x2)⟩,
      ⟨S1024x128, k5_pay19 (k5_pay5 (loss5In x0)) (loss5Row12 x2)⟩,
      ⟨S1024x128, k5_pay20 (k5_pay5 (loss5In x0)) (loss5Row13 x2)⟩,
      ⟨S1024x128, k5_pay21 (k5_pay5 (loss5In x0)) (loss5Row14 x2)⟩,
      ⟨S1024x128, k5_pay22 (k5_pay5 (loss5In x0)) (loss5Row15 x2)⟩,
      ⟨S1024x128, k5_pay23 (k5_pay5 (loss5In x0)) (loss5Row16 x2)⟩,
      ⟨S1024x128, k5_pay24 (k5_pay5 (loss5In x0)) (loss5Row17 x2)⟩,
      ⟨S1024x128, k5_pay1 (k5_pay5 (loss5In x0)) (loss5Row18 x2)⟩,
      ⟨S1024x128, k5_pay2 (k5_pay5 (loss5In x0)) (loss5Row19 x2)⟩]
    concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x2688_d1

/-- What the body stores into the accumulator, given what it loaded from it (`acc`): `acc` plus the block's sum. -/
def loss5Step (x0 x1 : Vec F S1024x128 .f32) (x2 : Vec F S20x1024x128 .f32) (x3 : Vec F S2688x21 .bf16)
    (acc : Vec F S1x1 .f32) : Vec F S1x1 .f32 :=
  k5_pay4 (loss5Z x0 x1 x2)
    (View.ld (Val := Elt F) x3 (Rect.unit (s := S2688x21) ![0, 0] S2688x21.size inb_S2688x21_S2688x21_0_0)) acc

/-- At the first point: over the zero the body has just stored. -/
def loss5StepA (x0 x1 : Vec F S1024x128 .f32) (x2 : Vec F S20x1024x128 .f32) (x3 : Vec F S2688x21 .bf16) : Vec F S1x1 .f32 :=
  loss5Step x0 x1 x2 x3 (k5_pay3 (F := F))

/-- At a later point: over what the point before left (`prev`). -/
def loss5StepB (x0 x1 : Vec F S1024x128 .f32) (x2 : Vec F S20x1024x128 .f32) (x3 : Vec F S2688x21 .bf16)
    (prev : Vec F S1x1 .f32) : Vec F S1x1 .f32 :=
  loss5Step x0 x1 x2 x3
    (View.ld (Val := Elt F) prev (Rect.unit (s := S1x1) ![0, 0] S1x1.size inb_S1x1_S1x1_0_0))

/-- A store through the whole `1 × 1` rectangle leaves its payload, whatever was stored before. -/
theorem read_writes_whole11_5 {κ : Kind} {sp : Space} (v : View sig κ sp S1x1 .f32) (f : v.ty.Contents (Elt F))
    (w : Vec F S1x1 .f32) (L : List (View.Piece (Elt F) S1x1 .f32)) :
    v.read (Elt F) (v.writes (Elt F) f (⟨Rect.unit (s := S1x1) ![0, 0] S1x1.size inb_S1x1_S1x1_0_0, w⟩ :: L)) = w := by
  funext y
  have h := View.read_writes_cons_emb v f (Rect.unit (s := S1x1) ![0, 0] S1x1.size inb_S1x1_S1x1_0_0) w L y
  have e : (Rect.unit (s := S1x1) ![0, 0] S1x1.size inb_S1x1_S1x1_0_0).emb y = y := by
    funext a; apply Fin.ext
    rw [Rect.emb_apply]
    fin_cases a <;> simp
  rw [e] at h; exact h

set_option maxHeartbeats 1000000 in
/-- The body at the first point, on whole staging memrefs holding the blocks: the inputs are left as they were and the
    accumulator holds `loss5StepA` of them. -/
theorem loss5_run_A (c : Dev nD) (i : grid5.Coords)
    (arg1 : Memref sig .tc .vmem S1024x128 .f32) (harg1 : arg1.IsWhole)
    (arg2 : Memref sig .tc .vmem S1024x128 .f32) (harg2 : arg2.IsWhole)
    (arg3 : Memref sig .tc .vmem S20x1024x128 .f32) (harg3 : arg3.IsWhole)
    (arg4 : Memref sig .tc .vmem S2688x21 .bf16) (harg4 : arg4.IsWhole)
    (arg5 : Memref sig .tc .vmem S1x1 .f32) (harg5 : arg5.IsWhole) (hc0 : cond5 i)
    (x0 x1 : Vec F S1024x128 .f32) (x2 : Vec F S20x1024x128 .f32) (x3 : Vec F S2688x21 .bf16)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (loss5StepA x0 x1 x2 x3)) -∗ K ⟨⟩))
      ⊢ wp frame (wpE (defs₀ (F := F)) 𝒱₀ c none) E (cc5__loss_body i arg1 harg1 arg2 harg2 arg3 harg3 arg4 harg4 arg5 harg5) K := by
  simp only [cc5__loss_body_eq_skeleton]; unfold cc5__loss_body_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1
  obtain rfl := harg3.eq_unread hf2; obtain rfl := harg4.eq_unread hf3
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [read_writes_whole11_5]
  sl_unfold_run_names
  simp only [View.readAt_eq_ld]
  rw [harg1.read_unread, harg2.read_unread, harg3.read_unread, harg4.read_unread, View.readCov_cons_toLoadRect]
  rfl

set_option maxHeartbeats 1000000 in
/-- The body at a later point: the accumulator, found at `prev`, holds `loss5StepB` of the blocks and `prev`. -/
theorem loss5_run_B (c : Dev nD) (i : grid5.Coords)
    (arg1 : Memref sig .tc .vmem S1024x128 .f32) (harg1 : arg1.IsWhole)
    (arg2 : Memref sig .tc .vmem S1024x128 .f32) (harg2 : arg2.IsWhole)
    (arg3 : Memref sig .tc .vmem S20x1024x128 .f32) (harg3 : arg3.IsWhole)
    (arg4 : Memref sig .tc .vmem S2688x21 .bf16) (harg4 : arg4.IsWhole)
    (arg5 : Memref sig .tc .vmem S1x1 .f32) (harg5 : arg5.IsWhole) (hc0 : ¬cond5 i)
    (x0 x1 : Vec F S1024x128 .f32) (x2 : Vec F S20x1024x128 .f32) (x3 : Vec F S2688x21 .bf16) (prev : Vec F S1x1 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare prev
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (loss5StepB x0 x1 x2 x3 prev)) -∗ K ⟨⟩))
      ⊢ wp frame (wpE (defs₀ (F := F)) 𝒱₀ c none) E (cc5__loss_body i arg1 harg1 arg2 harg2 arg3 harg3 arg4 harg4 arg5 harg5) K := by
  simp only [cc5__loss_body_eq_skeleton]; unfold cc5__loss_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1
  obtain rfl := harg3.eq_unread hf2; obtain rfl := harg4.eq_unread hf3
  obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [read_writes_whole11_5]
  sl_unfold_run_names
  simp only [View.readAt_eq_ld]
  rw [harg1.read_unread, harg2.read_unread, harg3.read_unread, harg4.read_unread, harg5.read_unread]
  rfl

end Cert.Proof.KI

end
-- ==== Proof.KI_Loss5Dat.lean ====
import proofs.«215899_g5772436046013_cont_9to1c4b_742_31_alg».proof.Proof.KI_Loss5
import Idealize.ShloMosaic.Lib.Pipeline.Frame
import Idealize.ShloMosaic.Lib.Pipeline.FrameBody

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # The loss5 kernel over its grid: the accumulator point by point, and the body obligation

Four grid points; at point `t` the body sees block `t` of the centre rows, of the positive rows and of the negative
rows, and the whole sign matrix; the `1 × 1` output is an accumulator, zeroed at point `0` and written back after
point `3`. -/

/-- The five arrays' contents when the region is entered, window by window. -/
abbrev Loss5Arrs (F : FTy → Type) (c : Dev nD) : Type :=
  (w : Fin cfg5.W) → Buf (Elt F) ((cfg5.win w).arr.view.loc (c.tc : Thread nD τ))

/-- The family from its five members. -/
def loss5Arrs (c : Dev nD)
    (a0 : Buf (Elt F) ((cfg5.win 0).arr.view.loc (c.tc : Thread nD τ)))
    (a1 : Buf (Elt F) ((cfg5.win 1).arr.view.loc (c.tc : Thread nD τ)))
    (a2 : Buf (Elt F) ((cfg5.win 2).arr.view.loc (c.tc : Thread nD τ)))
    (a3 : Buf (Elt F) ((cfg5.win 3).arr.view.loc (c.tc : Thread nD τ)))
    (aOut : Buf (Elt F) ((cfg5.win 4).arr.view.loc (c.tc : Thread nD τ))) : Loss5Arrs F c := fun w =>
  match w with
  | ⟨0, _⟩ => a0
  | ⟨1, _⟩ => a1
  | ⟨2, _⟩ => a2
  | ⟨3, _⟩ => a3
  | ⟨4, _⟩ => aOut

variable (c : Dev nD) (A : Loss5Arrs F c) (O : CellTallies nD τ sig (HIx 4)) (Rc : Set (SemLoc sig × HIx 4))

/-- Window `w`'s block at point `t`, read off its array's entry contents. -/
def loss5Blk (w : Fin cfg5.W) (t : Fin cfg5.N) :
    ((cfg5.win w).xblock (cfg5.grid.coords t)).Idx → Elt F (cfg5.win w).elt :=
  ((cfg5.win w).blk t).view.read (Elt F) (A w)

/-- THE ACCUMULATION: what the output's staging buffer holds after the body at point `n`. -/
def loss5Acc : (n : ℕ) → n < cfg5.N → Vec F S1x1 .f32
  | 0, hn => loss5StepA (loss5Blk c A 0 ⟨0, hn⟩) (loss5Blk c A 1 ⟨0, hn⟩) (loss5Blk c A 2 ⟨0, hn⟩) (loss5Blk c A 3 ⟨0, hn⟩)
  | n + 1, hn => loss5StepB (loss5Blk c A 0 ⟨n + 1, hn⟩) (loss5Blk c A 1 ⟨n + 1, hn⟩) (loss5Blk c A 2 ⟨n + 1, hn⟩)
      (loss5Blk c A 3 ⟨n + 1, hn⟩) (loss5Acc n (Nat.lt_of_succ_lt hn))

theorem loss5Acc_A (t : Fin cfg5.N) (h0 : t.val % 4 = 0) :
    loss5Acc c A t.val t.isLt = loss5StepA (loss5Blk c A 0 t) (loss5Blk c A 1 t) (loss5Blk c A 2 t) (loss5Blk c A 3 t) := by
  obtain ⟨n, hn⟩ := t
  have hN : n < 4 := lt_of_lt_of_eq hn (show cfg5.N = 4 from N_5)
  cases n with
  | zero => rfl
  | succ n => exfalso; dsimp only at h0; omega

theorem loss5Acc_B (t : Fin cfg5.N) (h0 : ¬t.val % 4 = 0) :
    loss5Acc c A t.val t.isLt = loss5StepB (loss5Blk c A 0 t) (loss5Blk c A 1 t) (loss5Blk c A 2 t) (loss5Blk c A 3 t)
      (loss5Acc c A (t.val - 1) (Nat.lt_of_le_of_lt (Nat.sub_le _ _) t.isLt)) := by
  obtain ⟨n, hn⟩ := t
  cases n with
  | zero => exact absurd (Nat.zero_mod _) h0
  | succ n => rfl

/-- The pipeline's proof data on core `c`: the arrays at `A`; after the body each input's buffer at its block and the
    output's at `loss5Acc`; the invariant the scoped buffers no window stages; full shares; what the core owes
    (`O`) and the bound on its recorded pairs (`Rc`) unchanged by the body. -/
def dat5 : Dat τ (Elt F) (HIx 4) ℕ UU ℕ cfg5 c where
  A := A
  after w t := match w with
    | ⟨0, _⟩ => loss5Blk c A 0 t
    | ⟨1, _⟩ => loss5Blk c A 1 t
    | ⟨2, _⟩ => loss5Blk c A 2 t
    | ⟨3, _⟩ => loss5Blk c A 3 t
    | ⟨4, _⟩ => loss5Acc c A t.val t.isLt
  Φ _ := Pipeline.scopedRest cfg5.spec c
  q _ := fullShare
  owed _ := O
  recorded _ := Rc

theorem dat5_A (w : Fin cfg5.W) : (dat5 c A O Rc).A w = A w := rfl
theorem after5_0 (t : Fin cfg5.N) : (dat5 c A O Rc).after 0 t = loss5Blk c A 0 t := by dsimp only [dat5]
theorem after5_1 (t : Fin cfg5.N) : (dat5 c A O Rc).after 1 t = loss5Blk c A 1 t := by dsimp only [dat5]
theorem after5_2 (t : Fin cfg5.N) : (dat5 c A O Rc).after 2 t = loss5Blk c A 2 t := by dsimp only [dat5]
theorem after5_3 (t : Fin cfg5.N) : (dat5 c A O Rc).after 3 t = loss5Blk c A 3 t := by dsimp only [dat5]
theorem after5_4 (t : Fin cfg5.N) : (dat5 c A O Rc).after 4 t = loss5Acc c A t.val t.isLt := by dsimp only [dat5]

/-- Each input's current staging buffer holds its block at every point, fetched there or not. -/
theorem before5_0 (t : Fin cfg5.N) (d) : (dat5 c A O Rc).before 0 t d = loss5Blk c A 0 t :=
  ((dat5 c A O Rc).before_in_eq_fetched 0 rfl (fun _ => rfl) (fun _ _ _ => rfl)
    (fun t => by rw [after5_0]; unfold Dat.blockOf loss5Blk; rfl) t d).trans (by unfold Dat.fetched Dat.blockOf loss5Blk; rfl)
theorem before5_1 (t : Fin cfg5.N) (d) : (dat5 c A O Rc).before 1 t d = loss5Blk c A 1 t :=
  ((dat5 c A O Rc).before_in_eq_fetched 1 rfl (fun _ => rfl) (fun _ _ _ => rfl)
    (fun t => by rw [after5_1]; unfold Dat.blockOf loss5Blk; rfl) t d).trans (by unfold Dat.fetched Dat.blockOf loss5Blk; rfl)
theorem before5_2 (t : Fin cfg5.N) (d) : (dat5 c A O Rc).before 2 t d = loss5Blk c A 2 t :=
  ((dat5 c A O Rc).before_in_eq_fetched 2 rfl (fun _ => rfl) (fun _ _ _ => rfl)
    (fun t => by rw [after5_2]; unfold Dat.blockOf loss5Blk; rfl) t d).trans (by unfold Dat.fetched Dat.blockOf loss5Blk; rfl)
theorem before5_3 (t : Fin cfg5.N) (d) : (dat5 c A O Rc).before 3 t d = loss5Blk c A 3 t :=
  ((dat5 c A O Rc).before_in_eq_fetched 3 rfl (fun _ => rfl) (fun _ _ _ => rfl)
    (fun t => by rw [after5_3]; unfold Dat.blockOf loss5Blk; rfl) t d).trans (by unfold Dat.fetched Dat.blockOf loss5Blk; rfl)

/-- After the first point the output's staging buffer holds what the body left at the point before: it is not written
    back between. -/
theorem before5_4 (t : Fin cfg5.N) (h0 : ¬t.val % 4 = 0) (d) :
    (dat5 c A O Rc).before 4 t d = loss5Acc c A (t.val - 1) (Nat.lt_of_le_of_lt (Nat.sub_le _ _) t.isLt) := by
  have hN : t.val < 4 := lt_of_lt_of_eq t.isLt (show cfg5.N = 4 from N_5)
  rw [Dat.before_out_kept _ 4 rfl t (by omega)
    (Bool.eq_false_iff.mpr fun h => by have := (flush5_4 _).mp h; dsimp only at this; omega)
    (fun _ => rfl) (fun _ _ => rfl)]
  dsimp only [dat5]

/-! ## The body obligation, at a generic point -/

/-- What the body is called with at point `t`, the windows one by one, -/
def bodyPre5 (t : Fin cfg5.N) : sProp 𝕄 :=
  iprop((dat5 c A O Rc).Φ t.castSucc ∗ (dat5 c A O Rc).owesAt none t.castSucc
    ∗ (∃ d, owns (c : Thread nD τ) (win5_0.stage (cfg5.slots t 0)) fullShare ((dat5 c A O Rc).before 0 t d))
    ∗ (∃ d, owns (c : Thread nD τ) (win5_1.stage (cfg5.slots t 1)) fullShare ((dat5 c A O Rc).before 1 t d))
    ∗ (∃ d, owns (c : Thread nD τ) (win5_2.stage (cfg5.slots t 2)) fullShare ((dat5 c A O Rc).before 2 t d))
    ∗ (∃ d, owns (c : Thread nD τ) (win5_3.stage (cfg5.slots t 3)) fullShare ((dat5 c A O Rc).before 3 t d))
    ∗ (∃ d, owns (c : Thread nD τ) (win5_4.stage (cfg5.slots t 4)) fullShare ((dat5 c A O Rc).before 4 t d)))

/-- and what it returns. -/
def bodyPost5 (t : Fin cfg5.N) : sProp 𝕄 :=
  iprop((dat5 c A O Rc).Φ t.succ ∗ (dat5 c A O Rc).owesAt none t.succ
    ∗ owns (c : Thread nD τ) (win5_0.stage (cfg5.slots t 0)) fullShare ((dat5 c A O Rc).after 0 t)
    ∗ owns (c : Thread nD τ) (win5_1.stage (cfg5.slots t 1)) fullShare ((dat5 c A O Rc).after 1 t)
    ∗ owns (c : Thread nD τ) (win5_2.stage (cfg5.slots t 2)) fullShare ((dat5 c A O Rc).after 2 t)
    ∗ owns (c : Thread nD τ) (win5_3.stage (cfg5.slots t 3)) fullShare ((dat5 c A O Rc).after 3 t)
    ∗ owns (c : Thread nD τ) (win5_4.stage (cfg5.slots t 4)) fullShare ((dat5 c A O Rc).after 4 t))

set_option maxHeartbeats 800000 in
/-- The body at any point: the inputs' buffers hold their blocks; at point `0` the accumulator is reset, at a later
    point it holds what the point before left; the invariant and what the core owes pass through untouched. -/
theorem sound_body5 (t : Fin cfg5.N) :
    bodyPre5 c A O Rc t ⊢ wp frame (wpE (defs₀ (F := F)) 𝒱₀ c none) Set.univ (bodyAt5 t) (fun _ => bodyPost5 c A O Rc t) := by
  unfold bodyPre5 bodyPost5 bodyAt5
  simp only [before5_0, before5_1, before5_2, before5_3]
  rw [show (dat5 c A O Rc).Φ t.succ = (dat5 c A O Rc).Φ t.castSucc from rfl,
    show (dat5 c A O Rc).owesAt none t.succ = (dat5 c A O Rc).owesAt none t.castSucc from rfl,
    after5_0, after5_1, after5_2, after5_3, after5_4]
  by_cases h0 : t.val % 4 = 0
  · rw [loss5Acc_A c A t h0]
    iintro ⟨HΦ, Ho, ⟨%d0, H0⟩, ⟨%d1, H1⟩, ⟨%d2, H2⟩, ⟨%d3, H3⟩, ⟨%d4, H4⟩⟩
    iapply (loss5_run_A c (grid5.coords t) _ _ _ _ _ _ _ _ _ _ ((hcond5 t).mpr h0)
      (loss5Blk c A 0 t) (loss5Blk c A 1 t) (loss5Blk c A 2 t) (loss5Blk c A 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [loss5Acc_B c A t h0]
    simp only [before5_4 c A O Rc t h0]
    iintro ⟨HΦ, Ho, ⟨%d0, H0⟩, ⟨%d1, H1⟩, ⟨%d2, H2⟩, ⟨%d3, H3⟩, ⟨%d4, H4⟩⟩
    iapply (loss5_run_B c (grid5.coords t) _ _ _ _ _ _ _ _ _ _ (fun h => h0 ((hcond5 t).mp h))
      (loss5Blk c A 0 t) (loss5Blk c A 1 t) (loss5Blk c A 2 t) (loss5Blk c A 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation, at every point. -/
theorem body_obligation5 : BodyObligation (dat5 c A O Rc) (defs₀ (F := F)) 𝒱₀ (none : HIx 4) Set.univ := fun t => by
  rw [bigSep_W5, bigSep_W5]
  exact sound_body5 c A O Rc t

/-- In the form the region rule takes. -/
theorem body_obligation5_loose : BodyObligationLoose (dat5 c A O Rc) (defs₀ (F := F)) 𝒱₀ (none : HIx 4) Set.univ :=
  (body_obligation5 c A O Rc).loose

/-! ## The arrays when the region is left -/

theorem share5 (w : Fin cfg5.W) : (dat5 c A O Rc).share w = fullShare := (dat5 c A O Rc).share_full (fun _ => rfl) w

/-- The inputs are as they were. -/
theorem arrAt5_0 (n : ℕ) : (dat5 c A O Rc).arrAt 0 n = A 0 := (dat5 c A O Rc).arrAt_in 0 rfl n
theorem arrAt5_1 (n : ℕ) : (dat5 c A O Rc).arrAt 1 n = A 1 := (dat5 c A O Rc).arrAt_in 1 rfl n
theorem arrAt5_2 (n : ℕ) : (dat5 c A O Rc).arrAt 2 n = A 2 := (dat5 c A O Rc).arrAt_in 2 rfl n
theorem arrAt5_3 (n : ℕ) : (dat5 c A O Rc).arrAt 3 n = A 3 := (dat5 c A O Rc).arrAt_in 3 rfl n

/-- The output array is untouched until the last point's write-back, -/
theorem arrAt5_4_lt : ∀ n, n ≤ 3 → (dat5 c A O Rc).arrAt 4 n = A 4
  | 0, _ => rfl
  | n + 1, h => by
    have hn : n < cfg5.N := by rw [show cfg5.N = 4 from N_5]; omega
    rw [show n + 1 = (⟨n, hn⟩ : Fin cfg5.N).val + 1 from rfl, Dat.arrAt_succ,
      if_neg (fun hf => by have := (flush5_4 _).mp hf; dsimp only at this; omega)]
    exact arrAt5_4_lt n (by omega)

/-- THE RESULT: the output array when the region is left, its one block overwritten by the accumulator after the last
    point. -/
def loss5Out : Buf (Elt F) ((cfg5.win 4).arr.view.loc (c.tc : Thread nD τ)) :=
  ((cfg5.win 4).blk t5_3).view.write (Elt F) (A 4) (loss5Acc c A 3 (by rw [show cfg5.N = 4 from N_5]; decide)) Finset.univ

theorem arrAt5_4 : (dat5 c A O Rc).arrAt 4 cfg5.N = loss5Out c A := by
  show (dat5 c A O Rc).arrAt 4 ((t5_3 : Fin cfg5.N).val + 1) = _
  rw [Dat.arrAt_succ, if_pos ((flush5_4 _).mpr rfl), arrAt5_4_lt c A O Rc (t5_3 : Fin cfg5.N).val (le_refl 3)]
  rfl

/-- Read back through its block, the result is the accumulator after the last point. -/
theorem read_loss5Out :
    ((cfg5.win 4).blk t5_3).view.read (Elt F) (loss5Out c A)
      = loss5Acc c A 3 (by rw [show cfg5.N = 4 from N_5]; decide) :=
  View.read_write_univ _ _

end Cert.Proof.KI

end
-- ==== Proof.KI_Loss7.lean ====
import proofs.«215899_g5772436046013_cont_9to1c4b_742_31_alg».proof.Proof.KI_Common
import Idealize.ShloMosaic.Lib.Pipeline.Frame
import Idealize.ShloMosaic.Lib.Pipeline.FrameBody

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # One grid point of the loss7 kernel: its value and its run

The kernel body at a grid point reads a `1024 × 128` block `x0` of centre rows, a block `x1` of positive
context rows, the `20 × 1024 × 128` block `x2` of negative context rows and the `2688 × 21` sign matrix `x3`;
it forms the `1024 × 2688` matrix of products `[x0 * x1, x2[0] * x0, …, x2[19] * x0]`, rounds it to bf16,
multiplies by `x3`, applies `z ↦ min z 0 - log (1 + exp (-|z|))` entrywise, sums everything, and adds the sum
to the `1 × 1` accumulator, which it first sets to zero when the grid coordinate is `0`. -/

/-- The accumulator is reset exactly when the grid coordinate is zero (the body's scalar chain). -/
abbrev cond7 (i : grid7.Coords) : Prop :=
  (Scalar.cmpi .ne (Scalar.extui (Scalar.cmpi .eq (BitVec.ofNat 32 (i 0).val) 0#32)) 0#32) = 1#1

/-- Over the grid: at the first point only. -/
theorem hcond7 : ∀ t : Fin cfg7.N, cond7 (grid7.coords t) ↔ t.val % 4 = 0 :=
  (by decide +kernel : ∀ t : Fin grid7.N, cond7 (grid7.coords t) ↔ t.val % 4 = 0)

/-- A whole `1024 × 128` block as the body's load reads it. -/
abbrev loss7In (x : Vec F S1024x128 .f32) : Vec F S1024x128 .f32 :=
  View.ld (Val := Elt F) x (Rect.unit (s := S1024x128) ![0, 0] S1024x128.size inb_S1024x128_S1024x128_0_0)

/-- Row block 0 of the stacked operand: entries `(0, r, l)`. -/
abbrev loss7Row0 (x2 : Vec F S20x1024x128 .f32) : Vec F S1x1024x128 .f32 :=
  View.ld (Val := Elt F) x2 (Rect.unit (s := S20x1024x128) ![0, 0, 0] S1x1024x128.size inb_S20x1024x128_S1x1024x128_0_0_0)
/-- Row block 1 of the stacked operand: entries `(1, r, l)`. -/
abbrev loss7Row1 (x2 : Vec F S20x1024x128 .f32) : Vec F S1x1024x128 .f32 :=
  View.ld (Val := Elt F) x2 (Rect.unit (s := S20x1024x128) ![1, 0, 0] S1x1024x128.size inb_S20x1024x128_S1x1024x128_1_0_0)
/-- Row block 2 of the stacked operand: entries `(2, r, l)`. -/
abbrev loss7Row2 (x2 : Vec F S20x1024x128 .f32) : Vec F S1x1024x128 .f32 :=
  View.ld (Val := Elt F) x2 (Rect.unit (s := S20x1024x128) ![2, 0, 0] S1x1024x128.size inb_S20x1024x128_S1x1024x128_2_0_0)
/-- Row block 3 of the stacked operand: entries `(3, r, l)`. -/
abbrev loss7Row3 (x2 : Vec F S20x1024x128 .f32) : Vec F S1x1024x128 .f32 :=
  View.ld (Val := Elt F) x2 (Rect.unit (s := S20x1024x128) ![3, 0, 0] S1x1024x128.size inb_S20x1024x128_S1x1024x128_3_0_0)
/-- Row block 4 of the stacked operand: entries `(4, r, l)`. -/
abbrev loss7Row4 (x2 : Vec F S20x1024x128 .f32) : Vec F S1x1024x128 .f32 :=
  View.ld (Val := Elt F) x2 (Rect.unit (s := S20x1024x128) ![4, 0, 0] S1x1024x128.size inb_S20x1024x128_S1x1024x128_4_0_0)
/-- Row block 5 of the stacked operand: entries `(5, r, l)`. -/
abbrev loss7Row5 (x2 : Vec F S20x1024x128 .f32) : Vec F S1x1024x128 .f32 :=
  View.ld (Val := Elt F) x2 (Rect.unit (s := S20x1024x128) ![5, 0, 0] S1x1024x128.size inb_S20x1024x128_S1x1024x128_5_0_0)
/-- Row block 6 of the stacked operand: entries `(6, r, l)`. -/
abbrev loss7Row6 (x2 : Vec F S20x1024x128 .f32) : Vec F S1x1024x128 .f32 :=
  View.ld (Val := Elt F) x2 (Rect.unit (s := S20x1024x128) ![6, 0, 0] S1x1024x128.size inb_S20x1024x128_S1x1024x128_6_0_0)
/-- Row block 7 of the stacked operand: entries `(7, r, l)`. -/
abbrev loss7Row7 (x2 : Vec F S20x1024x128 .f32) : Vec F S1x1024x128 .f32 :=
  View.ld (Val := Elt F) x2 (Rect.unit (s := S20x1024x128) ![7, 0, 0] S1x1024x128.size inb_S20x1024x128_S1x1024x128_7_0_0)
/-- Row block 8 of the stacked operand: entries `(8, r, l)`. -/
abbrev loss7Row8 (x2 : Vec F S20x1024x128 .f32) : Vec F S1x1024x128 .f32 :=
  View.ld (Val := Elt F) x2 (Rect.unit (s := S20x1024x128) ![8, 0, 0] S1x1024x128.size inb_S20x1024x128_S1x1024x128_8_0_0)
/-- Row block 9 of the stacked operand: entries `(9, r, l)`. -/
abbrev loss7Row9 (x2 : Vec F S20x1024x128 .f32) : Vec F S1x1024x128 .f32 :=
  View.ld (Val := Elt F) x2 (Rect.unit (s := S20x1024x128) ![9, 0, 0] S1x1024x128.size inb_S20x1024x128_S1x1024x128_9_0_0)
/-- Row block 10 of the stacked operand: entries `(10, r, l)`. -/
abbrev loss7Row10 (x2 : Vec F S20x1024x128 .f32) : Vec F S1x1024x128 .f32 :=
  View.ld (Val := Elt F) x2 (Rect.unit (s := S20x1024x128) ![10, 0, 0] S1x1024x128.size inb_S20x1024x128_S1x1024x128_10_0_0)
/-- Row block 11 of the stacked operand: entries `(11, r, l)`. -/
abbrev loss7Row11 (x2 : Vec F S20x1024x128 .f32) : Vec F S1x1024x128 .f32 :=
  View.ld (Val := Elt F) x2 (Rect.unit (s := S20x1024x128) ![11, 0, 0] S1x1024x128.size inb_S20x1024x128_S1x1024x128_11_0_0)
/-- Row block 12 of the stacked operand: entries `(12, r, l)`. -/
abbrev loss7Row12 (x2 : Vec F S20x1024x128 .f32) : Vec F S1x1024x128 .f32 :=
  View.ld (Val := Elt F) x2 (Rect.unit (s := S20x1024x128) ![12, 0, 0] S1x1024x128.size inb_S20x1024x128_S1x1024x128_12_0_0)
/-- Row block 13 of the stacked operand: entries `(13, r, l)`. -/
abbrev loss7Row13 (x2 : Vec F S20x1024x128 .f32) : Vec F S1x1024x128 .f32 :=
  View.ld (Val := Elt F) x2 (Rect.unit (s := S20x1024x128) ![13, 0, 0] S1x1024x128.size inb_S20x1024x128_S1x1024x128_13_0_0)
/-- Row block 14 of the stacked operand: entries `(14, r, l)`. -/
abbrev loss7Row14 (x2 : Vec F S20x1024x128 .f32) : Vec F S1x1024x128 .f32 :=
  View.ld (Val := Elt F) x2 (Rect.unit (s := S20x1024x128) ![14, 0, 0] S1x1024x128.size inb_S20x1024x128_S1x1024x128_14_0_0)
/-- Row block 15 of the stacked operand: entries `(15, r, l)`. -/
abbrev loss7Row15 (x2 : Vec F S20x1024x128 .f32) : Vec F S1x1024x128 .f32 :=
  View.ld (Val := Elt F) x2 (Rect.unit (s := S20x1024x128) ![15, 0, 0] S1x1024x128.size inb_S20x1024x128_S1x1024x128_15_0_0)
/-- Row block 16 of the stacked operand: entries `(16, r, l)`. -/
abbrev loss7Row16 (x2 : Vec F S20x1024x128 .f32) : Vec F S1x1024x128 .f32 :=
  View.ld (Val := Elt F) x2 (Rect.unit (s := S20x1024x128) ![16, 0, 0] S1x1024x128.size inb_S20x1024x128_S1x1024x128_16_0_0)
/-- Row block 17 of the stacked operand: entries `(17, r, l)`. -/
abbrev loss7Row17 (x2 : Vec F S20x1024x128 .f32) : Vec F S1x1024x128 .f32 :=
  View.ld (Val := Elt F) x2 (Rect.unit (s := S20x1024x128) ![17, 0, 0] S1x1024x128.size inb_S20x1024x128_S1x1024x128_17_0_0)
/-- Row block 18 of the stacked operand: entries `(18, r, l)`. -/
abbrev loss7Row18 (x2 : Vec F S20x1024x128 .f32) : Vec F S1x1024x128 .f32 :=
  View.ld (Val := Elt F) x2 (Rect.unit (s := S20x1024x128) ![18, 0, 0] S1x1024x128.size inb_S20x1024x128_S1x1024x128_18_0_0)
/-- Row block 19 of the stacked operand: entries `(19, r, l)`. -/
abbrev loss7Row19 (x2 : Vec F S20x1024x128 .f32) : Vec F S1x1024x128 .f32 :=
  View.ld (Val := Elt F) x2 (Rect.unit (s := S20x1024x128) ![19, 0, 0] S1x1024x128.size inb_S20x1024x128_S1x1024x128_19_0_0)

/-- The `1024 × 2688` matrix of products: the positive products first, then the twenty negative ones. -/
def loss7Z (x0 x1 : Vec F S1024x128 .f32) (x2 : Vec F S20x1024x128 .f32) : FVec F S1024x2688 .f32 :=
  concatenate S1024x2688 1
    [⟨S1024x128, k7_pay6 (loss7In x0) (loss7In x1)⟩,
      ⟨S1024x128, k7_pay7 (loss7In x0) (loss7Row0 x2)⟩,
      ⟨S1024x128, k7_pay8 (loss7In x0) (loss7Row1 x2)⟩,
      ⟨S1024x128, k7_pay9 (loss7In x0) (loss7Row2 x2)⟩,
      ⟨S1024x128, k7_pay10 (loss7In x0) (loss7Row3 x2)⟩,
      ⟨S1024x128, k7_pay11 (loss7In x0) (loss7Row4 x2)⟩,
      ⟨S1024x128, k7_pay12 (loss7In x0) (loss7Row5 x2)⟩,
      ⟨S1024x128, k7_pay13 (loss7In x0) (loss7Row6 x2)⟩,
      ⟨S1024x128, k7_pay14 (loss7In x0) (loss7Row7 x2)⟩,
      ⟨S1024x128, k7_pay15 (k7_pay5 (loss7In x0)) (loss7Row8 x2)⟩,
      ⟨S1024x128, k7_pay16 (k7_pay5 (loss7In x0)) (loss7Row9 x2)⟩,
      ⟨S1024x128, k7_pay17 (k7_pay5 (loss7In x0)) (loss7Row10 x2)⟩,
      ⟨S1024x128, k7_pay18 (k7_pay5 (loss7In x0)) (loss7Row11 x2)⟩,
      ⟨S1024x128, k7_pay19 (k7_pay5 (loss7In x0)) (loss7Row12 x2)⟩,
      ⟨S1024x128, k7_pay20 (k7_pay5 (loss7In x0)) (loss7Row13 x2)⟩,
      ⟨S1024x128, k7_pay21 (k7_pay5 (loss7In x0)) (loss7Row14 x2)⟩,
      ⟨S1024x128, k7_pay22 (k7_pay5 (loss7In x0)) (loss7Row15 x2)⟩,
      ⟨S1024x128, k7_pay23 (k7_pay5 (loss7In x0)) (loss7Row16 x2)⟩,
      ⟨S1024x128, k7_pay24 (k7_pay5 (loss7In x0)) (loss7Row17 x2)⟩,
      ⟨S1024x128, k7_pay1 (k7_pay5 (loss7In x0)) (loss7Row18 x2)⟩,
      ⟨S1024x128, k7_pay2 (k7_pay5 (loss7In x0)) (loss7Row19 x2)⟩]
    concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x2688_d1

/-- What the body stores into the accumulator, given what it loaded from it (`acc`): `acc` plus the block's sum. -/
def loss7Step (x0 x1 : Vec F S1024x128 .f32) (x2 : Vec F S20x1024x128 .f32) (x3 : Vec F S2688x21 .bf16)
    (acc : Vec F S1x1 .f32) : Vec F S1x1 .f32 :=
  k7_pay4 (loss7Z x0 x1 x2)
    (View.ld (Val := Elt F) x3 (Rect.unit (s := S2688x21) ![0, 0] S2688x21.size inb_S2688x21_S2688x21_0_0)) acc

/-- At the first point: over the zero the body has just stored. -/
def loss7StepA (x0 x1 : Vec F S1024x128 .f32) (x2 : Vec F S20x1024x128 .f32) (x3 : Vec F S2688x21 .bf16) : Vec F S1x1 .f32 :=
  loss7Step x0 x1 x2 x3 (k7_pay3 (F := F))

/-- At a later point: over what the point before left (`prev`). -/
def loss7StepB (x0 x1 : Vec F S1024x128 .f32) (x2 : Vec F S20x1024x128 .f32) (x3 : Vec F S2688x21 .bf16)
    (prev : Vec F S1x1 .f32) : Vec F S1x1 .f32 :=
  loss7Step x0 x1 x2 x3
    (View.ld (Val := Elt F) prev (Rect.unit (s := S1x1) ![0, 0] S1x1.size inb_S1x1_S1x1_0_0))

/-- A store through the whole `1 × 1` rectangle leaves its payload, whatever was stored before. -/
theorem read_writes_whole11_7 {κ : Kind} {sp : Space} (v : View sig κ sp S1x1 .f32) (f : v.ty.Contents (Elt F))
    (w : Vec F S1x1 .f32) (L : List (View.Piece (Elt F) S1x1 .f32)) :
    v.read (Elt F) (v.writes (Elt F) f (⟨Rect.unit (s := S1x1) ![0, 0] S1x1.size inb_S1x1_S1x1_0_0, w⟩ :: L)) = w := by
  funext y
  have h := View.read_writes_cons_emb v f (Rect.unit (s := S1x1) ![0, 0] S1x1.size inb_S1x1_S1x1_0_0) w L y
  have e : (Rect.unit (s := S1x1) ![0, 0] S1x1.size inb_S1x1_S1x1_0_0).emb y = y := by
    funext a; apply Fin.ext
    rw [Rect.emb_apply]
    fin_cases a <;> simp
  rw [e] at h; exact h

set_option maxHeartbeats 1000000 in
/-- The body at the first point, on whole staging memrefs holding the blocks: the inputs are left as they were and the
    accumulator holds `loss7StepA` of them. -/
theorem loss7_run_A (c : Dev nD) (i : grid7.Coords)
    (arg1 : Memref sig .tc .vmem S1024x128 .f32) (harg1 : arg1.IsWhole)
    (arg2 : Memref sig .tc .vmem S1024x128 .f32) (harg2 : arg2.IsWhole)
    (arg3 : Memref sig .tc .vmem S20x1024x128 .f32) (harg3 : arg3.IsWhole)
    (arg4 : Memref sig .tc .vmem S2688x21 .bf16) (harg4 : arg4.IsWhole)
    (arg5 : Memref sig .tc .vmem S1x1 .f32) (harg5 : arg5.IsWhole) (hc0 : cond7 i)
    (x0 x1 : Vec F S1024x128 .f32) (x2 : Vec F S20x1024x128 .f32) (x3 : Vec F S2688x21 .bf16)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (loss7StepA x0 x1 x2 x3)) -∗ K ⟨⟩))
      ⊢ wp frame (wpE (defs₀ (F := F)) 𝒱₀ c none) E (cc7__loss_body i arg1 harg1 arg2 harg2 arg3 harg3 arg4 harg4 arg5 harg5) K := by
  simp only [cc7__loss_body_eq_skeleton]; unfold cc7__loss_body_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1
  obtain rfl := harg3.eq_unread hf2; obtain rfl := harg4.eq_unread hf3
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [read_writes_whole11_7]
  sl_unfold_run_names
  simp only [View.readAt_eq_ld]
  rw [harg1.read_unread, harg2.read_unread, harg3.read_unread, harg4.read_unread, View.readCov_cons_toLoadRect]
  rfl

set_option maxHeartbeats 1000000 in
/-- The body at a later point: the accumulator, found at `prev`, holds `loss7StepB` of the blocks and `prev`. -/
theorem loss7_run_B (c : Dev nD) (i : grid7.Coords)
    (arg1 : Memref sig .tc .vmem S1024x128 .f32) (harg1 : arg1.IsWhole)
    (arg2 : Memref sig .tc .vmem S1024x128 .f32) (harg2 : arg2.IsWhole)
    (arg3 : Memref sig .tc .vmem S20x1024x128 .f32) (harg3 : arg3.IsWhole)
    (arg4 : Memref sig .tc .vmem S2688x21 .bf16) (harg4 : arg4.IsWhole)
    (arg5 : Memref sig .tc .vmem S1x1 .f32) (harg5 : arg5.IsWhole) (hc0 : ¬cond7 i)
    (x0 x1 : Vec F S1024x128 .f32) (x2 : Vec F S20x1024x128 .f32) (x3 : Vec F S2688x21 .bf16) (prev : Vec F S1x1 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare prev
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (loss7StepB x0 x1 x2 x3 prev)) -∗ K ⟨⟩))
      ⊢ wp frame (wpE (defs₀ (F := F)) 𝒱₀ c none) E (cc7__loss_body i arg1 harg1 arg2 harg2 arg3 harg3 arg4 harg4 arg5 harg5) K := by
  simp only [cc7__loss_body_eq_skeleton]; unfold cc7__loss_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1
  obtain rfl := harg3.eq_unread hf2; obtain rfl := harg4.eq_unread hf3
  obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [read_writes_whole11_7]
  sl_unfold_run_names
  simp only [View.readAt_eq_ld]
  rw [harg1.read_unread, harg2.read_unread, harg3.read_unread, harg4.read_unread, harg5.read_unread]
  rfl

end Cert.Proof.KI

end
-- ==== Proof.KI_Loss7Dat.lean ====
import proofs.«215899_g5772436046013_cont_9to1c4b_742_31_alg».proof.Proof.KI_Loss7
import Idealize.ShloMosaic.Lib.Pipeline.Frame
import Idealize.ShloMosaic.Lib.Pipeline.FrameBody

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # The loss7 kernel over its grid: the accumulator point by point, and the body obligation

Four grid points; at point `t` the body sees block `t` of the centre rows, of the positive rows and of the negative
rows, and the whole sign matrix; the `1 × 1` output is an accumulator, zeroed at point `0` and written back after
point `3`. -/

/-- The five arrays' contents when the region is entered, window by window. -/
abbrev Loss7Arrs (F : FTy → Type) (c : Dev nD) : Type :=
  (w : Fin cfg7.W) → Buf (Elt F) ((cfg7.win w).arr.view.loc (c.tc : Thread nD τ))

/-- The family from its five members. -/
def loss7Arrs (c : Dev nD)
    (a0 : Buf (Elt F) ((cfg7.win 0).arr.view.loc (c.tc : Thread nD τ)))
    (a1 : Buf (Elt F) ((cfg7.win 1).arr.view.loc (c.tc : Thread nD τ)))
    (a2 : Buf (Elt F) ((cfg7.win 2).arr.view.loc (c.tc : Thread nD τ)))
    (a3 : Buf (Elt F) ((cfg7.win 3).arr.view.loc (c.tc : Thread nD τ)))
    (aOut : Buf (Elt F) ((cfg7.win 4).arr.view.loc (c.tc : Thread nD τ))) : Loss7Arrs F c := fun w =>
  match w with
  | ⟨0, _⟩ => a0
  | ⟨1, _⟩ => a1
  | ⟨2, _⟩ => a2
  | ⟨3, _⟩ => a3
  | ⟨4, _⟩ => aOut

variable (c : Dev nD) (A : Loss7Arrs F c) (O : CellTallies nD τ sig (HIx 4)) (Rc : Set (SemLoc sig × HIx 4))

/-- Window `w`'s block at point `t`, read off its array's entry contents. -/
def loss7Blk (w : Fin cfg7.W) (t : Fin cfg7.N) :
    ((cfg7.win w).xblock (cfg7.grid.coords t)).Idx → Elt F (cfg7.win w).elt :=
  ((cfg7.win w).blk t).view.read (Elt F) (A w)

/-- THE ACCUMULATION: what the output's staging buffer holds after the body at point `n`. -/
def loss7Acc : (n : ℕ) → n < cfg7.N → Vec F S1x1 .f32
  | 0, hn => loss7StepA (loss7Blk c A 0 ⟨0, hn⟩) (loss7Blk c A 1 ⟨0, hn⟩) (loss7Blk c A 2 ⟨0, hn⟩) (loss7Blk c A 3 ⟨0, hn⟩)
  | n + 1, hn => loss7StepB (loss7Blk c A 0 ⟨n + 1, hn⟩) (loss7Blk c A 1 ⟨n + 1, hn⟩) (loss7Blk c A 2 ⟨n + 1, hn⟩)
      (loss7Blk c A 3 ⟨n + 1, hn⟩) (loss7Acc n (Nat.lt_of_succ_lt hn))

theorem loss7Acc_A (t : Fin cfg7.N) (h0 : t.val % 4 = 0) :
    loss7Acc c A t.val t.isLt = loss7StepA (loss7Blk c A 0 t) (loss7Blk c A 1 t) (loss7Blk c A 2 t) (loss7Blk c A 3 t) := by
  obtain ⟨n, hn⟩ := t
  have hN : n < 4 := lt_of_lt_of_eq hn (show cfg7.N = 4 from N_7)
  cases n with
  | zero => rfl
  | succ n => exfalso; dsimp only at h0; omega

theorem loss7Acc_B (t : Fin cfg7.N) (h0 : ¬t.val % 4 = 0) :
    loss7Acc c A t.val t.isLt = loss7StepB (loss7Blk c A 0 t) (loss7Blk c A 1 t) (loss7Blk c A 2 t) (loss7Blk c A 3 t)
      (loss7Acc c A (t.val - 1) (Nat.lt_of_le_of_lt (Nat.sub_le _ _) t.isLt)) := by
  obtain ⟨n, hn⟩ := t
  cases n with
  | zero => exact absurd (Nat.zero_mod _) h0
  | succ n => rfl

/-- The pipeline's proof data on core `c`: the arrays at `A`; after the body each input's buffer at its block and the
    output's at `loss7Acc`; the invariant the scoped buffers no window stages; full shares; what the core owes
    (`O`) and the bound on its recorded pairs (`Rc`) unchanged by the body. -/
def dat7 : Dat τ (Elt F) (HIx 4) ℕ UU ℕ cfg7 c where
  A := A
  after w t := match w with
    | ⟨0, _⟩ => loss7Blk c A 0 t
    | ⟨1, _⟩ => loss7Blk c A 1 t
    | ⟨2, _⟩ => loss7Blk c A 2 t
    | ⟨3, _⟩ => loss7Blk c A 3 t
    | ⟨4, _⟩ => loss7Acc c A t.val t.isLt
  Φ _ := Pipeline.scopedRest cfg7.spec c
  q _ := fullShare
  owed _ := O
  recorded _ := Rc

theorem dat7_A (w : Fin cfg7.W) : (dat7 c A O Rc).A w = A w := rfl
theorem after7_0 (t : Fin cfg7.N) : (dat7 c A O Rc).after 0 t = loss7Blk c A 0 t := by dsimp only [dat7]
theorem after7_1 (t : Fin cfg7.N) : (dat7 c A O Rc).after 1 t = loss7Blk c A 1 t := by dsimp only [dat7]
theorem after7_2 (t : Fin cfg7.N) : (dat7 c A O Rc).after 2 t = loss7Blk c A 2 t := by dsimp only [dat7]
theorem after7_3 (t : Fin cfg7.N) : (dat7 c A O Rc).after 3 t = loss7Blk c A 3 t := by dsimp only [dat7]
theorem after7_4 (t : Fin cfg7.N) : (dat7 c A O Rc).after 4 t = loss7Acc c A t.val t.isLt := by dsimp only [dat7]

/-- Each input's current staging buffer holds its block at every point, fetched there or not. -/
theorem before7_0 (t : Fin cfg7.N) (d) : (dat7 c A O Rc).before 0 t d = loss7Blk c A 0 t :=
  ((dat7 c A O Rc).before_in_eq_fetched 0 rfl (fun _ => rfl) (fun _ _ _ => rfl)
    (fun t => by rw [after7_0]; unfold Dat.blockOf loss7Blk; rfl) t d).trans (by unfold Dat.fetched Dat.blockOf loss7Blk; rfl)
theorem before7_1 (t : Fin cfg7.N) (d) : (dat7 c A O Rc).before 1 t d = loss7Blk c A 1 t :=
  ((dat7 c A O Rc).before_in_eq_fetched 1 rfl (fun _ => rfl) (fun _ _ _ => rfl)
    (fun t => by rw [after7_1]; unfold Dat.blockOf loss7Blk; rfl) t d).trans (by unfold Dat.fetched Dat.blockOf loss7Blk; rfl)
theorem before7_2 (t : Fin cfg7.N) (d) : (dat7 c A O Rc).before 2 t d = loss7Blk c A 2 t :=
  ((dat7 c A O Rc).before_in_eq_fetched 2 rfl (fun _ => rfl) (fun _ _ _ => rfl)
    (fun t => by rw [after7_2]; unfold Dat.blockOf loss7Blk; rfl) t d).trans (by unfold Dat.fetched Dat.blockOf loss7Blk; rfl)
theorem before7_3 (t : Fin cfg7.N) (d) : (dat7 c A O Rc).before 3 t d = loss7Blk c A 3 t :=
  ((dat7 c A O Rc).before_in_eq_fetched 3 rfl (fun _ => rfl) (fun _ _ _ => rfl)
    (fun t => by rw [after7_3]; unfold Dat.blockOf loss7Blk; rfl) t d).trans (by unfold Dat.fetched Dat.blockOf loss7Blk; rfl)

/-- After the first point the output's staging buffer holds what the body left at the point before: it is not written
    back between. -/
theorem before7_4 (t : Fin cfg7.N) (h0 : ¬t.val % 4 = 0) (d) :
    (dat7 c A O Rc).before 4 t d = loss7Acc c A (t.val - 1) (Nat.lt_of_le_of_lt (Nat.sub_le _ _) t.isLt) := by
  have hN : t.val < 4 := lt_of_lt_of_eq t.isLt (show cfg7.N = 4 from N_7)
  rw [Dat.before_out_kept _ 4 rfl t (by omega)
    (Bool.eq_false_iff.mpr fun h => by have := (flush7_4 _).mp h; dsimp only at this; omega)
    (fun _ => rfl) (fun _ _ => rfl)]
  dsimp only [dat7]

/-! ## The body obligation, at a generic point -/

/-- What the body is called with at point `t`, the windows one by one, -/
def bodyPre7 (t : Fin cfg7.N) : sProp 𝕄 :=
  iprop((dat7 c A O Rc).Φ t.castSucc ∗ (dat7 c A O Rc).owesAt none t.castSucc
    ∗ (∃ d, owns (c : Thread nD τ) (win7_0.stage (cfg7.slots t 0)) fullShare ((dat7 c A O Rc).before 0 t d))
    ∗ (∃ d, owns (c : Thread nD τ) (win7_1.stage (cfg7.slots t 1)) fullShare ((dat7 c A O Rc).before 1 t d))
    ∗ (∃ d, owns (c : Thread nD τ) (win7_2.stage (cfg7.slots t 2)) fullShare ((dat7 c A O Rc).before 2 t d))
    ∗ (∃ d, owns (c : Thread nD τ) (win7_3.stage (cfg7.slots t 3)) fullShare ((dat7 c A O Rc).before 3 t d))
    ∗ (∃ d, owns (c : Thread nD τ) (win7_4.stage (cfg7.slots t 4)) fullShare ((dat7 c A O Rc).before 4 t d)))

/-- and what it returns. -/
def bodyPost7 (t : Fin cfg7.N) : sProp 𝕄 :=
  iprop((dat7 c A O Rc).Φ t.succ ∗ (dat7 c A O Rc).owesAt none t.succ
    ∗ owns (c : Thread nD τ) (win7_0.stage (cfg7.slots t 0)) fullShare ((dat7 c A O Rc).after 0 t)
    ∗ owns (c : Thread nD τ) (win7_1.stage (cfg7.slots t 1)) fullShare ((dat7 c A O Rc).after 1 t)
    ∗ owns (c : Thread nD τ) (win7_2.stage (cfg7.slots t 2)) fullShare ((dat7 c A O Rc).after 2 t)
    ∗ owns (c : Thread nD τ) (win7_3.stage (cfg7.slots t 3)) fullShare ((dat7 c A O Rc).after 3 t)
    ∗ owns (c : Thread nD τ) (win7_4.stage (cfg7.slots t 4)) fullShare ((dat7 c A O Rc).after 4 t))

set_option maxHeartbeats 800000 in
/-- The body at any point: the inputs' buffers hold their blocks; at point `0` the accumulator is reset, at a later
    point it holds what the point before left; the invariant and what the core owes pass through untouched. -/
theorem sound_body7 (t : Fin cfg7.N) :
    bodyPre7 c A O Rc t ⊢ wp frame (wpE (defs₀ (F := F)) 𝒱₀ c none) Set.univ (bodyAt7 t) (fun _ => bodyPost7 c A O Rc t) := by
  unfold bodyPre7 bodyPost7 bodyAt7
  simp only [before7_0, before7_1, before7_2, before7_3]
  rw [show (dat7 c A O Rc).Φ t.succ = (dat7 c A O Rc).Φ t.castSucc from rfl,
    show (dat7 c A O Rc).owesAt none t.succ = (dat7 c A O Rc).owesAt none t.castSucc from rfl,
    after7_0, after7_1, after7_2, after7_3, after7_4]
  by_cases h0 : t.val % 4 = 0
  · rw [loss7Acc_A c A t h0]
    iintro ⟨HΦ, Ho, ⟨%d0, H0⟩, ⟨%d1, H1⟩, ⟨%d2, H2⟩, ⟨%d3, H3⟩, ⟨%d4, H4⟩⟩
    iapply (loss7_run_A c (grid7.coords t) _ _ _ _ _ _ _ _ _ _ ((hcond7 t).mpr h0)
      (loss7Blk c A 0 t) (loss7Blk c A 1 t) (loss7Blk c A 2 t) (loss7Blk c A 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [loss7Acc_B c A t h0]
    simp only [before7_4 c A O Rc t h0]
    iintro ⟨HΦ, Ho, ⟨%d0, H0⟩, ⟨%d1, H1⟩, ⟨%d2, H2⟩, ⟨%d3, H3⟩, ⟨%d4, H4⟩⟩
    iapply (loss7_run_B c (grid7.coords t) _ _ _ _ _ _ _ _ _ _ (fun h => h0 ((hcond7 t).mp h))
      (loss7Blk c A 0 t) (loss7Blk c A 1 t) (loss7Blk c A 2 t) (loss7Blk c A 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation, at every point. -/
theorem body_obligation7 : BodyObligation (dat7 c A O Rc) (defs₀ (F := F)) 𝒱₀ (none : HIx 4) Set.univ := fun t => by
  rw [bigSep_W7, bigSep_W7]
  exact sound_body7 c A O Rc t

/-- In the form the region rule takes. -/
theorem body_obligation7_loose : BodyObligationLoose (dat7 c A O Rc) (defs₀ (F := F)) 𝒱₀ (none : HIx 4) Set.univ :=
  (body_obligation7 c A O Rc).loose

/-! ## The arrays when the region is left -/

theorem share7 (w : Fin cfg7.W) : (dat7 c A O Rc).share w = fullShare := (dat7 c A O Rc).share_full (fun _ => rfl) w

/-- The inputs are as they were. -/
theorem arrAt7_0 (n : ℕ) : (dat7 c A O Rc).arrAt 0 n = A 0 := (dat7 c A O Rc).arrAt_in 0 rfl n
theorem arrAt7_1 (n : ℕ) : (dat7 c A O Rc).arrAt 1 n = A 1 := (dat7 c A O Rc).arrAt_in 1 rfl n
theorem arrAt7_2 (n : ℕ) : (dat7 c A O Rc).arrAt 2 n = A 2 := (dat7 c A O Rc).arrAt_in 2 rfl n
theorem arrAt7_3 (n : ℕ) : (dat7 c A O Rc).arrAt 3 n = A 3 := (dat7 c A O Rc).arrAt_in 3 rfl n

/-- The output array is untouched until the last point's write-back, -/
theorem arrAt7_4_lt : ∀ n, n ≤ 3 → (dat7 c A O Rc).arrAt 4 n = A 4
  | 0, _ => rfl
  | n + 1, h => by
    have hn : n < cfg7.N := by rw [show cfg7.N = 4 from N_7]; omega
    rw [show n + 1 = (⟨n, hn⟩ : Fin cfg7.N).val + 1 from rfl, Dat.arrAt_succ,
      if_neg (fun hf => by have := (flush7_4 _).mp hf; dsimp only at this; omega)]
    exact arrAt7_4_lt n (by omega)

/-- THE RESULT: the output array when the region is left, its one block overwritten by the accumulator after the last
    point. -/
def loss7Out : Buf (Elt F) ((cfg7.win 4).arr.view.loc (c.tc : Thread nD τ)) :=
  ((cfg7.win 4).blk t7_3).view.write (Elt F) (A 4) (loss7Acc c A 3 (by rw [show cfg7.N = 4 from N_7]; decide)) Finset.univ

theorem arrAt7_4 : (dat7 c A O Rc).arrAt 4 cfg7.N = loss7Out c A := by
  show (dat7 c A O Rc).arrAt 4 ((t7_3 : Fin cfg7.N).val + 1) = _
  rw [Dat.arrAt_succ, if_pos ((flush7_4 _).mpr rfl), arrAt7_4_lt c A O Rc (t7_3 : Fin cfg7.N).val (le_refl 3)]
  rfl

/-- Read back through its block, the result is the accumulator after the last point. -/
theorem read_loss7Out :
    ((cfg7.win 4).blk t7_3).view.read (Elt F) (loss7Out c A)
      = loss7Acc c A 3 (by rw [show cfg7.N = 4 from N_7]; decide) :=
  View.read_write_univ _ _

end Cert.Proof.KI

end
-- ==== Proof.KI_Calls.lean ====
/-
  The pure functions of the calls and regions made concrete — a call leaves in its result arrays the tables' rows its
  index rows name, a region leaves in its cell the summed block losses of its four blocks —, what each tile of each
  call is handed and hands back along @main's chain of contents, and each call's step of @main: the call's six arrays
  out of the held set among the 32 tiles, and back at the gathered rows.
-/
import proofs.«215899_g5772436046013_cont_9to1c4b_742_31_alg».proof.Proof.KI_Hmain
import proofs.«215899_g5772436046013_cont_9to1c4b_742_31_alg».proof.Proof.KI_Run
import proofs.«215899_g5772436046013_cont_9to1c4b_742_31_alg».proof.Proof.KI_Split
import proofs.«215899_g5772436046013_cont_9to1c4b_742_31_alg».proof.Proof.KI_Split_c1
import proofs.«215899_g5772436046013_cont_9to1c4b_742_31_alg».proof.Proof.KI_Split_c2
import proofs.«215899_g5772436046013_cont_9to1c4b_742_31_alg».proof.Proof.KI_Split_c3
import proofs.«215899_g5772436046013_cont_9to1c4b_742_31_alg».proof.Proof.KI_LossDat
import proofs.«215899_g5772436046013_cont_9to1c4b_742_31_alg».proof.Proof.KI_Loss3Dat
import proofs.«215899_g5772436046013_cont_9to1c4b_742_31_alg».proof.Proof.KI_Loss5Dat
import proofs.«215899_g5772436046013_cont_9to1c4b_742_31_alg».proof.Proof.KI_Loss7Dat

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

open Idealize.ShloMosaic.TcCoe

local notation "𝕄" => MT nD τ sig (HIx 4) (Elt F) ℕ UU ℕ

/-- The calls' and regions' value functions on device `d`. -/
def pureK (d : Dev nD) : Pure F where
  g0 := fun T IX => gV0 d T IX
  g1 := fun T IX => gV1 d T IX
  g2 := fun T IX => gV2 d T IX
  loss0 := fun a0 a1 a2 a3 aOut => lossOut d (lossArrs d a0 a1 a2 a3 aOut)
  loss1 := fun a0 a1 a2 a3 aOut => loss3Out d (loss3Arrs d a0 a1 a2 a3 aOut)
  loss2 := fun a0 a1 a2 a3 aOut => loss5Out d (loss5Arrs d a0 a1 a2 a3 aOut)
  loss3 := fun a0 a1 a2 a3 aOut => loss7Out d (loss7Arrs d a0 a1 a2 a3 aOut)

variable (m : (ℓ : Loc nD τ sig) → Buf (Elt F) ℓ)

/-- What tile (c, i) of call q is handed: its shares at the contents @main's chain has at that call. -/
def gofK : (q : Fin 4) → Dev nD → Fin ((K (F := F)).nCore q) → Fin ((K (F := F)).nSub q) → sProp 𝕄
  | ⟨0, _⟩ => fun d c i => goRes0 d (W1 m d (rT main_arg0)) (W1 m d (rT main_arg1)) (W1 m d (rT main_v26)) c i
  | ⟨1, _⟩ => fun d c i => goRes1 d (W5 (pureK d) m d (rT main_arg0)) (W5 (pureK d) m d (rT main_arg1)) (W5 (pureK d) m d (rT main_v32)) c i
  | ⟨2, _⟩ => fun d c i => goRes2 d (W9 (pureK d) m d (rT main_arg0)) (W9 (pureK d) m d (rT main_arg1)) (W9 (pureK d) m d (rT main_v38)) c i
  | ⟨3, _⟩ => fun d c i => goRes3 d (W13 (pureK d) m d (rT main_arg0)) (W13 (pureK d) m d (rT main_arg1)) (W13 (pureK d) m d (rT main_v44)) c i

/-- What it hands back: its output rows at the gathered rows. -/
def tdfK : (q : Fin 4) → Dev nD → Fin ((K (F := F)).nCore q) → Fin ((K (F := F)).nSub q) → sProp 𝕄
  | ⟨0, _⟩ => fun d c i => tdRes0 d (W1 m d (rT main_arg0)) (W1 m d (rT main_arg1)) (W1 m d (rT main_v26)) c i
  | ⟨1, _⟩ => fun d c i => tdRes1 d (W5 (pureK d) m d (rT main_arg0)) (W5 (pureK d) m d (rT main_arg1)) (W5 (pureK d) m d (rT main_v32)) c i
  | ⟨2, _⟩ => fun d c i => tdRes2 d (W9 (pureK d) m d (rT main_arg0)) (W9 (pureK d) m d (rT main_arg1)) (W9 (pureK d) m d (rT main_v38)) c i
  | ⟨3, _⟩ => fun d c i => tdRes3 d (W13 (pureK d) m d (rT main_arg0)) (W13 (pureK d) m d (rT main_arg1)) (W13 (pureK d) m d (rT main_v44)) c i

/-- The launch handshakes' payloads. -/
abbrev PK : (K (F := F)).Pay (nD := nD) (Val := Elt F) (Name := ℕ) (U := UU) := mkP (gofK m) (tdfK m)

variable (d : Dev nD)

/-- Call 0's step of @main. -/
theorem call0_step : CallStep d (PK m) 0 CallRefs0 (W1 m d) (W2 (pureK d) m d) := by
  have h0 : (W2 (pureK d) m d) (rT main_arg0) = (W1 m d) (rT main_arg0) := by
    unfold W2; rw [Function.update_of_ne (show rT main_arg0 ≠ rT main_v27_2 by decide), Function.update_of_ne (show rT main_arg0 ≠ rT main_v27_1 by decide), Function.update_of_ne (show rT main_arg0 ≠ rT main_v27_0 by decide)]
  have h1 : (W2 (pureK d) m d) (rT main_arg1) = (W1 m d) (rT main_arg1) := by
    unfold W2; rw [Function.update_of_ne (show rT main_arg1 ≠ rT main_v27_2 by decide), Function.update_of_ne (show rT main_arg1 ≠ rT main_v27_1 by decide), Function.update_of_ne (show rT main_arg1 ≠ rT main_v27_0 by decide)]
  have hix : (W2 (pureK d) m d) (rT main_v26) = (W1 m d) (rT main_v26) := by
    unfold W2; rw [Function.update_of_ne (show rT main_v26 ≠ rT main_v27_2 by decide), Function.update_of_ne (show rT main_v26 ≠ rT main_v27_1 by decide), Function.update_of_ne (show rT main_v26 ≠ rT main_v27_0 by decide)]
  have ho0 : (W2 (pureK d) m d) (rT main_v27_0) = gV0 d ((W1 m d) (rT main_arg0)) ((W1 m d) (rT main_v26)) := by
    unfold W2; rw [Function.update_of_ne (show rT main_v27_0 ≠ rT main_v27_2 by decide), Function.update_of_ne (show rT main_v27_0 ≠ rT main_v27_1 by decide), Function.update_self]; rfl
  have ho1 : (W2 (pureK d) m d) (rT main_v27_1) = gV1 d ((W1 m d) (rT main_arg1)) ((W1 m d) (rT main_v26)) := by
    unfold W2; rw [Function.update_of_ne (show rT main_v27_1 ≠ rT main_v27_2 by decide), Function.update_self]; rfl
  have ho2 : (W2 (pureK d) m d) (rT main_v27_2) = gV2 d ((W1 m d) (rT main_arg1)) ((W1 m d) (rT main_v26)) := by
    unfold W2; rw [Function.update_self]; rfl
  exact call0_split_wand d (W1 m d) (W2 (pureK d) m d) h0 h1 hix ho0 ho1 ho2

/-- Call 1's step of @main. -/
theorem call1_step : CallStep d (PK m) 1 CallRefs1 (W5 (pureK d) m d) (W6 (pureK d) m d) := by
  have h0 : (W6 (pureK d) m d) (rT main_arg0) = (W5 (pureK d) m d) (rT main_arg0) := by
    unfold W6; rw [Function.update_of_ne (show rT main_arg0 ≠ rT main_v33_2 by decide), Function.update_of_ne (show rT main_arg0 ≠ rT main_v33_1 by decide), Function.update_of_ne (show rT main_arg0 ≠ rT main_v33_0 by decide)]
  have h1 : (W6 (pureK d) m d) (rT main_arg1) = (W5 (pureK d) m d) (rT main_arg1) := by
    unfold W6; rw [Function.update_of_ne (show rT main_arg1 ≠ rT main_v33_2 by decide), Function.update_of_ne (show rT main_arg1 ≠ rT main_v33_1 by decide), Function.update_of_ne (show rT main_arg1 ≠ rT main_v33_0 by decide)]
  have hix : (W6 (pureK d) m d) (rT main_v32) = (W5 (pureK d) m d) (rT main_v32) := by
    unfold W6; rw [Function.update_of_ne (show rT main_v32 ≠ rT main_v33_2 by decide), Function.update_of_ne (show rT main_v32 ≠ rT main_v33_1 by decide), Function.update_of_ne (show rT main_v32 ≠ rT main_v33_0 by decide)]
  have ho0 : (W6 (pureK d) m d) (rT main_v33_0) = gV0 d ((W5 (pureK d) m d) (rT main_arg0)) ((W5 (pureK d) m d) (rT main_v32)) := by
    unfold W6; rw [Function.update_of_ne (show rT main_v33_0 ≠ rT main_v33_2 by decide), Function.update_of_ne (show rT main_v33_0 ≠ rT main_v33_1 by decide), Function.update_self]; rfl
  have ho1 : (W6 (pureK d) m d) (rT main_v33_1) = gV1 d ((W5 (pureK d) m d) (rT main_arg1)) ((W5 (pureK d) m d) (rT main_v32)) := by
    unfold W6; rw [Function.update_of_ne (show rT main_v33_1 ≠ rT main_v33_2 by decide), Function.update_self]; rfl
  have ho2 : (W6 (pureK d) m d) (rT main_v33_2) = gV2 d ((W5 (pureK d) m d) (rT main_arg1)) ((W5 (pureK d) m d) (rT main_v32)) := by
    unfold W6; rw [Function.update_self]; rfl
  exact call1_split_wand d (W5 (pureK d) m d) (W6 (pureK d) m d) h0 h1 hix ho0 ho1 ho2

/-- Call 2's step of @main. -/
theorem call2_step : CallStep d (PK m) 2 CallRefs2 (W9 (pureK d) m d) (W10 (pureK d) m d) := by
  have h0 : (W10 (pureK d) m d) (rT main_arg0) = (W9 (pureK d) m d) (rT main_arg0) := by
    unfold W10; rw [Function.update_of_ne (show rT main_arg0 ≠ rT main_v39_2 by decide), Function.update_of_ne (show rT main_arg0 ≠ rT main_v39_1 by decide), Function.update_of_ne (show rT main_arg0 ≠ rT main_v39_0 by decide)]
  have h1 : (W10 (pureK d) m d) (rT main_arg1) = (W9 (pureK d) m d) (rT main_arg1) := by
    unfold W10; rw [Function.update_of_ne (show rT main_arg1 ≠ rT main_v39_2 by decide), Function.update_of_ne (show rT main_arg1 ≠ rT main_v39_1 by decide), Function.update_of_ne (show rT main_arg1 ≠ rT main_v39_0 by decide)]
  have hix : (W10 (pureK d) m d) (rT main_v38) = (W9 (pureK d) m d) (rT main_v38) := by
    unfold W10; rw [Function.update_of_ne (show rT main_v38 ≠ rT main_v39_2 by decide), Function.update_of_ne (show rT main_v38 ≠ rT main_v39_1 by decide), Function.update_of_ne (show rT main_v38 ≠ rT main_v39_0 by decide)]
  have ho0 : (W10 (pureK d) m d) (rT main_v39_0) = gV0 d ((W9 (pureK d) m d) (rT main_arg0)) ((W9 (pureK d) m d) (rT main_v38)) := by
    unfold W10; rw [Function.update_of_ne (show rT main_v39_0 ≠ rT main_v39_2 by decide), Function.update_of_ne (show rT main_v39_0 ≠ rT main_v39_1 by decide), Function.update_self]; rfl
  have ho1 : (W10 (pureK d) m d) (rT main_v39_1) = gV1 d ((W9 (pureK d) m d) (rT main_arg1)) ((W9 (pureK d) m d) (rT main_v38)) := by
    unfold W10; rw [Function.update_of_ne (show rT main_v39_1 ≠ rT main_v39_2 by decide), Function.update_self]; rfl
  have ho2 : (W10 (pureK d) m d) (rT main_v39_2) = gV2 d ((W9 (pureK d) m d) (rT main_arg1)) ((W9 (pureK d) m d) (rT main_v38)) := by
    unfold W10; rw [Function.update_self]; rfl
  exact call2_split_wand d (W9 (pureK d) m d) (W10 (pureK d) m d) h0 h1 hix ho0 ho1 ho2

/-- Call 3's step of @main. -/
theorem call3_step : CallStep d (PK m) 3 CallRefs3 (W13 (pureK d) m d) (W14 (pureK d) m d) := by
  have h0 : (W14 (pureK d) m d) (rT main_arg0) = (W13 (pureK d) m d) (rT main_arg0) := by
    unfold W14; rw [Function.update_of_ne (show rT main_arg0 ≠ rT main_v45_2 by decide), Function.update_of_ne (show rT main_arg0 ≠ rT main_v45_1 by decide), Function.update_of_ne (show rT main_arg0 ≠ rT main_v45_0 by decide)]
  have h1 : (W14 (pureK d) m d) (rT main_arg1) = (W13 (pureK d) m d) (rT main_arg1) := by
    unfold W14; rw [Function.update_of_ne (show rT main_arg1 ≠ rT main_v45_2 by decide), Function.update_of_ne (show rT main_arg1 ≠ rT main_v45_1 by decide), Function.update_of_ne (show rT main_arg1 ≠ rT main_v45_0 by decide)]
  have hix : (W14 (pureK d) m d) (rT main_v44) = (W13 (pureK d) m d) (rT main_v44) := by
    unfold W14; rw [Function.update_of_ne (show rT main_v44 ≠ rT main_v45_2 by decide), Function.update_of_ne (show rT main_v44 ≠ rT main_v45_1 by decide), Function.update_of_ne (show rT main_v44 ≠ rT main_v45_0 by decide)]
  have ho0 : (W14 (pureK d) m d) (rT main_v45_0) = gV0 d ((W13 (pureK d) m d) (rT main_arg0)) ((W13 (pureK d) m d) (rT main_v44)) := by
    unfold W14; rw [Function.update_of_ne (show rT main_v45_0 ≠ rT main_v45_2 by decide), Function.update_of_ne (show rT main_v45_0 ≠ rT main_v45_1 by decide), Function.update_self]; rfl
  have ho1 : (W14 (pureK d) m d) (rT main_v45_1) = gV1 d ((W13 (pureK d) m d) (rT main_arg1)) ((W13 (pureK d) m d) (rT main_v44)) := by
    unfold W14; rw [Function.update_of_ne (show rT main_v45_1 ≠ rT main_v45_2 by decide), Function.update_self]; rfl
  have ho2 : (W14 (pureK d) m d) (rT main_v45_2) = gV2 d ((W13 (pureK d) m d) (rT main_arg1)) ((W13 (pureK d) m d) (rT main_v44)) := by
    unfold W14; rw [Function.update_self]; rfl
  exact call3_split_wand d (W13 (pureK d) m d) (W14 (pureK d) m d) h0 h1 hix ho0 ho1 ho2

end Cert.Proof.KI

end
-- ==== Proof.KI_RegionBase.lean ====
/-
  What the four regions of @main share. The pipeline's rule wants the five arrays of the loss kernel
  whole beside what the TensorCore owes; @main's proof holds all unscoped arrays at a valuation and the TensorCore's
  handshake state. So: the five arrays leave the held set, what the TensorCore owes (its later start signals, all at a
  call's index, so that a wait at no index sits below them) leaves the handshake state with its bound on the recorded
  pairs, the region runs, and both are put back — the (1,1) cell at the summed block losses.
-/
import proofs.«215899_g5772436046013_cont_9to1c4b_742_31_alg».proof.Proof.KI_Hmain
import proofs.«215899_g5772436046013_cont_9to1c4b_742_31_alg».proof.Proof.KI_LossDat

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

open Idealize.ShloMosaic.TcCoe
open Idealize.ShloMosaic.Pipeline (Dat)

local notation "𝕄" => MT nD τ sig (HIx 4) (Elt F) ℕ UU ℕ

/-- No pipeline has a prefetched table: the trivial tables. -/
abbrev aT : (p : Fin 4) → (pcfgs (F := F) p).Adm := fun p => (cfgs p).toPCfg_adm

omit [FloatOps F] in
theorem phinjT : Function.Injective (Pipeline.cellOf (nD := nD) (τ := τ) (Pipeline.pin (pcfgs (F := F)) aT)) := cellOf_inj

/-- The bound on the TensorCore's recorded pairs before call `n`. -/
def Rcn (c : Dev nD) (n : ℕ) : Set (SemLoc sig × HIx 4) := {p | (K (F := F)).lev (T c, p.1) p.2 ≤ 8 * n}

omit [FloatOps F] in
/-- Nothing the TensorCore owes the launch sits at no index. -/
theorem Otc_none (c : Dev nD) (n : ℕ) (g : GSem nD τ sig) : (K (F := F)).Otc c n g none = 0 := by
  by_contra h
  have := (K (F := F)).lev_of_Otc_pos (Nat.pos_of_ne_zero h)
  rw [(K (F := F)).lev_none] at this
  omega

end Cert.Proof.KI

end
-- ==== Proof.KI_LossRegion.lean ====
import proofs.«215899_g5772436046013_cont_9to1c4b_742_31_alg».proof.Proof.KI_LossDat
import Idealize.ShloMosaic.Lib.Pipeline.Frame
import Idealize.ShloMosaic.Lib.Pipeline.FrameBody

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # Entering and leaving the loss kernel's region

The region takes the five arrays whole, at the full share, beside what the core owes; it gives them back with the
output array at `lossOut` and the inputs as they were. Its invariant is the scoped buffers no window stages, which
the body never touches; the body has no semaphore of its own. -/

/-- The pipeline's number among the program's four. -/
abbrev lossP : Fin 4 := 0

variable (c : Dev nD) (A : LossArrs F c) (O : CellTallies nD τ sig (HIx 4)) (Rc : Set (SemLoc sig × HIx 4))

/-- The five arrays, whole, at the full share, at contents `G`. -/
def lossHeld (G : LossArrs F c) : sProp 𝕄 :=
  iprop(((cfg1.win 0).arr.view.loc (c.tc : Thread nD τ) ↦{fullShare} G 0)
    ∗ ((cfg1.win 1).arr.view.loc (c.tc : Thread nD τ) ↦{fullShare} G 1)
    ∗ ((cfg1.win 2).arr.view.loc (c.tc : Thread nD τ) ↦{fullShare} G 2)
    ∗ ((cfg1.win 3).arr.view.loc (c.tc : Thread nD τ) ↦{fullShare} G 3)
    ∗ ((cfg1.win 4).arr.view.loc (c.tc : Thread nD τ) ↦{fullShare} G 4))

/-- The pipeline's arrays are those five points-tos. -/
theorem arrays1_eq (G : LossArrs F c) : ((dat1 c A O Rc).arrays G : sProp 𝕄) = lossHeld c G := by
  unfold Dat.arrays
  exact (bigSep_congr fun w _ => by rw [(arr_whole1 w).set_eq_univ, share1]).trans (bigSep_W1 _)

/-- The arrays when the region is left: the inputs as they were, the output at `lossOut`. -/
def lossFinal : LossArrs F c := lossArrs c (A 0) (A 1) (A 2) (A 3) (lossOut c A)

theorem arrAt1_final (w : Fin cfg1.W) : (dat1 c A O Rc).arrAt w cfg1.N = lossFinal c A w := by
  match w with
  | ⟨0, _⟩ => exact arrAt1_0 c A O Rc _
  | ⟨1, _⟩ => exact arrAt1_1 c A O Rc _
  | ⟨2, _⟩ => exact arrAt1_2 c A O Rc _
  | ⟨3, _⟩ => exact arrAt1_3 c A O Rc _
  | ⟨4, _⟩ => exact arrAt1_4 c A O Rc

/-- What the core owes, as the pipeline holds it at any point. -/
theorem owesAt1 (t : Fin (cfg1.N + 1)) :
    ((dat1 c A O Rc).owesAt none t : sProp 𝕄) = Pipeline.owesWithin c O (Rc ∪ cfg1.waitPairs (none : HIx 4)) := rfl

/-- The pipeline has no prefetched table. -/
theorem prefHeld1_emp (q) (pf) :
    (Pipeline.prefHeld (pcfgs (F := F) lossP).pre c q pf : sProp 𝕄) = BI.emp := by
  unfold Pipeline.prefHeld
  show bigSep (Finset.univ : Finset (Fin 0)) _ = _
  rw [Finset.univ_eq_empty, BI.bigSep_empty]

/-- The invariant at the first point is the scoped rest. -/
theorem loss_hin (X : sProp 𝕄) (q) (pf) :
    iprop(X ∗ Pipeline.prefHeld (pcfgs (F := F) lossP).pre c q pf ∗ Pipeline.scopedRest cfg1.spec c)
      ⊢ ((dat1 c A O Rc).Φ 0 : sProp 𝕄) := by
  rw [show (dat1 c A O Rc).Φ 0 = Pipeline.scopedRest cfg1.spec c from rfl]
  iintro ⟨-, -, H⟩; iexact H

/-- The invariant at the last point gives it back. -/
theorem loss_hout :
    ((dat1 c A O Rc).Φ (Fin.last cfg1.N) : sProp 𝕄)
      ⊢ iprop(BI.emp ∗ Pipeline.ownSems0 (fun k : PEmpty => k.elim) c ∗ Pipeline.scopedRest cfg1.spec c) := by
  rw [show (dat1 c A O Rc).Φ (Fin.last cfg1.N) = Pipeline.scopedRest cfg1.spec c from rfl, Pipeline.ownSems0_none]
  iintro H
  isplitr; · iempintro
  isplitr; · iempintro
  iexact H

/-- ENTRY: the five arrays and what the core owes are what the pipeline starts from. -/
theorem loss_hentry (R : sProp 𝕄) (q) (pf) :
    iprop((lossHeld c A ∗ (dat1 c A O Rc).owesAt none 0) ∗ R)
      ⊢ |={Set.univ}=> iprop((dat1 c A O Rc).arrays ((dat1 c A O Rc).arrAt · 0)
          ∗ Pipeline.prefHeld (pcfgs (F := F) lossP).pre c q pf ∗ (dat1 c A O Rc).owesAt none 0 ∗ BI.emp ∗ BI.emp) := by
  rw [arrays1_eq, prefHeld1_emp]
  iintro ⟨⟨HA, HO⟩, -⟩
  imodintro
  isplitl [HA]; · iexact HA
  isplitr; · iempintro
  isplitl [HO]; · iexact HO
  isplitr <;> iempintro

/-- EXIT: the pipeline's arrays after every write-back are the five arrays at `lossFinal`. -/
theorem loss_hexit :
    iprop((dat1 c A O Rc).arrays ((dat1 c A O Rc).arrAt · cfg1.N) ∗ (dat1 c A O Rc).owesAt none (Fin.last cfg1.N) ∗ BI.emp ∗ BI.emp)
      ⊢ |={Set.univ}=> iprop(lossHeld c (lossFinal c A) ∗ (dat1 c A O Rc).owesAt none 0) := by
  rw [arrays1_eq, show (fun w => (dat1 c A O Rc).arrAt w cfg1.N) = lossFinal c A from funext (arrAt1_final c A O Rc)]
  iintro ⟨HA, HO, -, -⟩
  imodintro
  isplitl [HA]; · iexact HA
  iexact HO

/-! ## The layout facts, in the region rule's spelling -/

section Fields

variable (a : (p : Fin 4) → (pcfgs (F := F) p).Adm)

theorem loss_win : Pipeline.WinFacts₀ (pcfgs (F := F) lossP).spec := winFacts1.to₀

theorem loss_block_pos : ∀ w : Fin (Pipeline.pin (pcfgs (F := F)) a lossP).W,
    0 < ((Pipeline.pin (pcfgs (F := F)) a lossP).spec w).block.numel := block_pos1

theorem loss_stage_whole : ∀ (w : Fin (Pipeline.pin (pcfgs (F := F)) a lossP).W)
    (s : Fin ((Pipeline.pin (pcfgs (F := F)) a lossP).spec w).nbuf),
    (((Pipeline.pin (pcfgs (F := F)) a lossP).spec w).stage s).IsWhole := stage_whole1

theorem loss_ho : Pipeline.OwnSemFacts (pcfgs (F := F) lossP).spec (fun k : PEmpty => k.elim) :=
  Pipeline.OwnSemFacts.none _

/-- The proof data is the pinned configuration's. -/
example : Dat τ (Elt F) (HIx 4) ℕ UU ℕ (Pipeline.pin (pcfgs (F := F)) a lossP) c := dat1 c A O Rc

end Fields

/-! ## The loads of whole blocks are the blocks -/

/-- A load through the unit-stride rectangle at offset zero of the shape's own extents reads the contents. -/
theorem loss_ld_whole {S : Shape} {e : EltTy} (X : S.Idx → Elt F e) (off : Fin S.rank → ℕ) (h0 : ∀ a, off a = 0)
    (inb : ∀ a, off a + S.size a ≤ S.size a) :
    View.ld (Val := Elt F) X (Rect.unit (s := S) off S.size inb) = X := by
  funext j
  show X ((Rect.unit (s := S) off S.size inb).idx j) = X j
  congr 1
  funext a; apply Fin.ext
  show off a + 1 * (j a : ℕ) = (j a : ℕ)
  rw [h0 a]; omega

theorem lossIn_eq (x : Vec F S1024x128 .f32) : lossIn x = x :=
  loss_ld_whole x _ (fun a => by fin_cases a <;> rfl) _

/-- At a later point the step is over the previous contents themselves. -/
theorem lossStepB_eq (x0 x1 : Vec F S1024x128 .f32) (x2 : Vec F S20x1024x128 .f32) (x3 : Vec F S2688x21 .bf16)
    (prev : Vec F S1x1 .f32) : lossStepB x0 x1 x2 x3 prev = lossStep x0 x1 x2 x3 prev := by
  unfold lossStepB
  rw [loss_ld_whole prev _ (fun a => by fin_cases a <;> rfl) _]

/-- The sign matrix is read whole. -/
theorem lossStep_eq (x0 x1 : Vec F S1024x128 .f32) (x2 : Vec F S20x1024x128 .f32) (x3 : Vec F S2688x21 .bf16)
    (acc : Vec F S1x1 .f32) : lossStep x0 x1 x2 x3 acc = k1_pay4 (lossZ x0 x1 x2) x3 acc := by
  unfold lossStep
  rw [loss_ld_whole x3 _ (fun a => by fin_cases a <;> rfl) _]

end Cert.Proof.KI

end
-- ==== Proof.KI_Region0.lean ====
/-
  Region 0 of @main in the shape @main's proof consumes it: its five arrays leave the held set as the pipeline's
  five points-tos, what the TensorCore owes leaves its handshake state with the bound on its recorded pairs, the
  region runs by the pipeline's rule, and both are put back — the (1,1) cell at the summed block losses.
-/
import proofs.«215899_g5772436046013_cont_9to1c4b_742_31_alg».proof.Proof.KI_RegionBase
import proofs.«215899_g5772436046013_cont_9to1c4b_742_31_alg».proof.Proof.KI_LossRegion

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

open Idealize.ShloMosaic.TcCoe
open Idealize.ShloMosaic.Pipeline (Dat)

local notation "𝕄" => MT nD τ sig (HIx 4) (Elt F) ℕ UU ℕ

variable (𝔭 : Dev nD → Pure F) (m : (ℓ : Loc nD τ sig) → Buf (Elt F) ℓ)

/-- Region 0's five arrays as @main's chain has them at its entry. -/
def regA0 (c : Dev nD) : LossArrs F c :=
  lossArrs c (W3 (𝔭 c) m c (rT main_v27_0)) (W3 (𝔭 c) m c (rT main_v27_1)) (W3 (𝔭 c) m c (rT main_v28)) (W3 (𝔭 c) m c (rT main_v23)) (W3 (𝔭 c) m c (rT main_v29))

variable (pd : (p : Fin 4) → (c : Dev nD) → Dat τ (Elt F) (HIx 4) ℕ UU ℕ (Pipeline.pin (pcfgs (F := F)) aT p) c)
  (hpd0 : ∀ c, pd 0 c = dat1 c (regA0 𝔭 m c) ((K (F := F)).Otc c 1) (Rcn (F := F) c 1))

include hpd0 in
/-- Region 0 as the pipeline's rule takes it. -/
def R0 : Pipeline.RegionSeg (pcfgs (F := F)) aT pd (none : HIx 4) defs₀ 𝒱₀ (K (F := F)).L (K (F := F)).lev (0 : Fin 4) where
  win := loss_win
  block_pos := loss_block_pos aT
  stage_whole := loss_stage_whole aT
  K := PEmpty
  osem := fun k => k.elim
  ho := loss_ho
  hbody := fun c => by rw [hpd0 c]; exact body_obligation1_loose c _ _ _
  hwaits := fun c => Pipeline.cellsWaits_intro (Pipeline.pin (pcfgs (F := F)) aT) pd (none : HIx 4) 0 c fun w s t => by
    rw [hpd0 c]; exact (K (F := F)).mayWait_none _ (Otc_none c 1)
  pre := fun c => iprop(lossHeld c (regA0 𝔭 m c) ∗ (dat1 c (regA0 𝔭 m c) ((K (F := F)).Otc c 1) (Rcn (F := F) c 1)).owesAt none 0)
  post := fun c => iprop(lossHeld c (lossFinal c (regA0 𝔭 m c)) ∗ (dat1 c (regA0 𝔭 m c) ((K (F := F)).Otc c 1) (Rcn (F := F) c 1)).owesAt none 0)
  X := fun _ => iprop(emp)
  Y := fun _ => iprop(emp)
  Z := fun _ => iprop(emp)
  hentry := fun c => by rw [hpd0 c]; exact loss_hentry c _ _ _ _ _ _
  hin := fun c => by rw [hpd0 c]; exact loss_hin c _ _ _ _ _ _
  hout := fun c => by rw [hpd0 c]; exact loss_hout c _ _ _
  hexit := fun c => by rw [hpd0 c]; exact loss_hexit c _ _ _

include hpd0 in
theorem R0_pre (c : Dev nD) : (R0 𝔭 m pd hpd0).pre c
    = iprop(lossHeld c (regA0 𝔭 m c) ∗ (dat1 c (regA0 𝔭 m c) ((K (F := F)).Otc c 1) (Rcn (F := F) c 1)).owesAt none 0) := rfl
include hpd0 in
theorem R0_post (c : Dev nD) : (R0 𝔭 m pd hpd0).post c
    = iprop(lossHeld c (lossFinal c (regA0 𝔭 m c)) ∗ (dat1 c (regA0 𝔭 m c) ((K (F := F)).Otc c 1) (Rcn (F := F) c 1)).owesAt none 0) := rfl

/-! ## The five arrays in and out of the held set, the owed units in and out of the handshake state -/

abbrev RegRefs0 : Finset (DevRef τ sig) := {rT main_v27_0, rT main_v27_1, rT main_v28, rT main_v23, rT main_v29}
omit [FloatOps F] in
theorem RegRefs0_uc : RegRefs0 ⊆ Pipeline.ucRefs τ sig := by decide

omit [FloatOps F] in
/-- The five arrays held whole at a valuation are the region's five points-tos at its entries. -/
theorem held_reg0 (d : Dev nD) (W : Valuation τ sig (Elt F)) :
    (held (T d) RegRefs0 W : sProp 𝕄)
      = lossHeld d (lossArrs d (W (rT main_v27_0)) (W (rT main_v27_1)) (W (rT main_v28)) (W (rT main_v23)) (W (rT main_v29))) := by
  unfold held lossHeld RegRefs0
  rw [SparseCore.bigSep_insert' (by decide), SparseCore.bigSep_insert' (by decide), SparseCore.bigSep_insert' (by decide),
    SparseCore.bigSep_insert' (by decide), bigSep_singleton]
  rfl

omit [FloatOps F] in
/-- What the TensorCore owes before call `n`, out of its handshake state, is what the pipeline holds it as. -/
theorem owes_in (d : Dev nD) (n : ℕ) :
    (iprop(∃ W, ⌜(K (F := F)).WBelow (T d) W (8 * n)⌝ ∗ owes (T d) ((K (F := F)).Otc d n) W) : sProp 𝕄)
      ⊢ Pipeline.owesWithin d ((K (F := F)).Otc d n) (Rcn (F := F) d n ∪ cfg1.waitPairs (none : HIx 4)) := by
  iintro ⟨%W, %hW, HO⟩
  iexists W; isplitr
  · ipureintro; exact fun p hp => Or.inl (hW p hp)
  iexact HO

omit [FloatOps F] in
/-- And back: the pipeline's own waits are at no index, the lowest level. -/
theorem owes_out (d : Dev nD) (n : ℕ) :
    (Pipeline.owesWithin d ((K (F := F)).Otc d n) (Rcn (F := F) d n ∪ cfg1.waitPairs (none : HIx 4)) : sProp 𝕄)
      ⊢ iprop(∃ W, ⌜(K (F := F)).WBelow (T d) W (8 * n)⌝ ∗ owes (T d) ((K (F := F)).Otc d n) W) := by
  iintro ⟨%W, %hW, HO⟩
  iexists W; isplitr
  · ipureintro
    intro p hp
    rcases hW hp with h | ⟨w, s, rfl⟩
    · exact h
    · show (K (F := F)).lev _ none ≤ _
      rw [(K (F := F)).lev_none]; exact Nat.zero_le _
  iexact HO

variable (P : (K (F := F)).Pay (nD := nD) (Val := Elt F) (Name := ℕ) (U := UU))

/-- After region 0 the five arrays are the region's exit contents, when the chain's function for the region is the
    pipeline's. -/
theorem W4_reg (d : Dev nD)
    (h𝔭 : ∀ a0 a1 a2 a3 aOut, (𝔭 d).loss0 a0 a1 a2 a3 aOut = lossOut d (lossArrs d a0 a1 a2 a3 aOut)) :
    lossArrs d (W4 (𝔭 d) m d (rT main_v27_0)) (W4 (𝔭 d) m d (rT main_v27_1)) (W4 (𝔭 d) m d (rT main_v28)) (W4 (𝔭 d) m d (rT main_v23)) (W4 (𝔭 d) m d (rT main_v29))
      = lossFinal d (regA0 𝔭 m d) := by
  have e0 : W4 (𝔭 d) m d (rT main_v27_0) = W3 (𝔭 d) m d (rT main_v27_0) := by
    unfold W4; exact Function.update_of_ne (by decide) _ _
  have e1 : W4 (𝔭 d) m d (rT main_v27_1) = W3 (𝔭 d) m d (rT main_v27_1) := by
    unfold W4; exact Function.update_of_ne (by decide) _ _
  have e2 : W4 (𝔭 d) m d (rT main_v28) = W3 (𝔭 d) m d (rT main_v28) := by
    unfold W4; exact Function.update_of_ne (by decide) _ _
  have e3 : W4 (𝔭 d) m d (rT main_v23) = W3 (𝔭 d) m d (rT main_v23) := by
    unfold W4; exact Function.update_of_ne (by decide) _ _
  have e4 : W4 (𝔭 d) m d (rT main_v29) = lossOut d (regA0 𝔭 m d) := by
    unfold W4; rw [Function.update_self]; exact h𝔭 _ _ _ _ _
  rw [e0, e1, e2, e3, e4]
  rfl

theorem W4_rest (d : Dev nD) (b : DevRef τ sig) (hb : b ∈ Pipeline.ucRefs τ sig \ RegRefs0) : W4 (𝔭 d) m d b = W3 (𝔭 d) m d b := by
  have hb' := (Finset.mem_sdiff.mp hb).2
  simp only [RegRefs0, Finset.mem_insert, Finset.mem_singleton, not_or] at hb'
  unfold W4
  rw [Function.update_of_ne hb'.2.2.2.2]

include hpd0 in
/-- Region 0 of @main. -/
theorem region0_step [∀ e, Nonempty (Elt F e)] (d : Dev nD)
    (h𝔭 : ∀ a0 a1 a2 a3 aOut, (𝔭 d).loss0 a0 a1 a2 a3 aOut = lossOut d (lossArrs d a0 a1 a2 a3 aOut)) :
    RegionStep d P aT 0 1 (W3 (𝔭 d) m d) (W4 (𝔭 d) m d) := by
  intro κ α k Φ
  unfold SparseCore.Cfg.tcSt
  rw [held_sub_split (T d) RegRefs0_uc (W3 (𝔭 d) m d), held_sub_split (T d) RegRefs0_uc (W4 (𝔭 d) m d), held_congr (T d) (W4_rest 𝔭 m d),
    held_reg0, held_reg0, W4_reg 𝔭 m d h𝔭]
  iintro ⟨Hk, Hb, ⟨Hreg, Hrest⟩, ⟨HO, Hst'⟩, #Hctx, Hg, Ht⟩
  ihave Hlv := ((K (F := F)).ctx_levAts κ) $$ Hctx
  ihave HO' := (owes_in d 1) $$ HO
  have hstep := step_region aT pd phinjT 0 (R0 𝔭 m pd hpd0) d k Φ
  rw [R0_pre, R0_post] at hstep
  iapply (hstep) $$ [Hk Hb Hreg Hrest HO' Hst' Hlv Hg Ht]
  isplitl [Hk Hrest Hst']
  · iintro ⟨Hb, Hreg, HO⟩
    iapply Hk
    isplitl [Hb]; · iexact Hb
    isplitl [Hreg Hrest]
    · isplitl [Hreg]; · iexact Hreg
      iexact Hrest
    isplitl [HO]; · iapply (owes_out d 1); iexact HO
    iexact Hst'
  isplitl [Hb]; · iexact Hb
  isplitl [Hreg HO']
  · isplitl [Hreg]; · iexact Hreg
    iexact HO'
  isplitl [Hlv]; · iexact Hlv
  isplitl [Hg]; · iexact Hg
  iexact Ht

end Cert.Proof.KI

end
-- ==== Proof.KI_Loss3Region.lean ====
import proofs.«215899_g5772436046013_cont_9to1c4b_742_31_alg».proof.Proof.KI_Loss3Dat
import Idealize.ShloMosaic.Lib.Pipeline.Frame
import Idealize.ShloMosaic.Lib.Pipeline.FrameBody

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # Entering and leaving the loss3 kernel's region

The region takes the five arrays whole, at the full share, beside what the core owes; it gives them back with the
output array at `loss3Out` and the inputs as they were. Its invariant is the scoped buffers no window stages, which
the body never touches; the body has no semaphore of its own. -/

/-- The pipeline's number among the program's four. -/
abbrev loss3P : Fin 4 := 1

variable (c : Dev nD) (A : Loss3Arrs F c) (O : CellTallies nD τ sig (HIx 4)) (Rc : Set (SemLoc sig × HIx 4))

/-- The five arrays, whole, at the full share, at contents `G`. -/
def loss3Held (G : Loss3Arrs F c) : sProp 𝕄 :=
  iprop(((cfg3.win 0).arr.view.loc (c.tc : Thread nD τ) ↦{fullShare} G 0)
    ∗ ((cfg3.win 1).arr.view.loc (c.tc : Thread nD τ) ↦{fullShare} G 1)
    ∗ ((cfg3.win 2).arr.view.loc (c.tc : Thread nD τ) ↦{fullShare} G 2)
    ∗ ((cfg3.win 3).arr.view.loc (c.tc : Thread nD τ) ↦{fullShare} G 3)
    ∗ ((cfg3.win 4).arr.view.loc (c.tc : Thread nD τ) ↦{fullShare} G 4))

/-- The pipeline's arrays are those five points-tos. -/
theorem arrays3_eq (G : Loss3Arrs F c) : ((dat3 c A O Rc).arrays G : sProp 𝕄) = loss3Held c G := by
  unfold Dat.arrays
  exact (bigSep_congr fun w _ => by rw [(arr_whole3 w).set_eq_univ, share3]).trans (bigSep_W3 _)

/-- The arrays when the region is left: the inputs as they were, the output at `loss3Out`. -/
def loss3Final : Loss3Arrs F c := loss3Arrs c (A 0) (A 1) (A 2) (A 3) (loss3Out c A)

theorem arrAt3_final (w : Fin cfg3.W) : (dat3 c A O Rc).arrAt w cfg3.N = loss3Final c A w := by
  match w with
  | ⟨0, _⟩ => exact arrAt3_0 c A O Rc _
  | ⟨1, _⟩ => exact arrAt3_1 c A O Rc _
  | ⟨2, _⟩ => exact arrAt3_2 c A O Rc _
  | ⟨3, _⟩ => exact arrAt3_3 c A O Rc _
  | ⟨4, _⟩ => exact arrAt3_4 c A O Rc

/-- What the core owes, as the pipeline holds it at any point. -/
theorem owesAt3 (t : Fin (cfg3.N + 1)) :
    ((dat3 c A O Rc).owesAt none t : sProp 𝕄) = Pipeline.owesWithin c O (Rc ∪ cfg3.waitPairs (none : HIx 4)) := rfl

/-- The pipeline has no prefetched table. -/
theorem prefHeld3_emp (q) (pf) :
    (Pipeline.prefHeld (pcfgs (F := F) loss3P).pre c q pf : sProp 𝕄) = BI.emp := by
  unfold Pipeline.prefHeld
  show bigSep (Finset.univ : Finset (Fin 0)) _ = _
  rw [Finset.univ_eq_empty, BI.bigSep_empty]

/-- The invariant at the first point is the scoped rest. -/
theorem loss3_hin (X : sProp 𝕄) (q) (pf) :
    iprop(X ∗ Pipeline.prefHeld (pcfgs (F := F) loss3P).pre c q pf ∗ Pipeline.scopedRest cfg3.spec c)
      ⊢ ((dat3 c A O Rc).Φ 0 : sProp 𝕄) := by
  rw [show (dat3 c A O Rc).Φ 0 = Pipeline.scopedRest cfg3.spec c from rfl]
  iintro ⟨-, -, H⟩; iexact H

/-- The invariant at the last point gives it back. -/
theorem loss3_hout :
    ((dat3 c A O Rc).Φ (Fin.last cfg3.N) : sProp 𝕄)
      ⊢ iprop(BI.emp ∗ Pipeline.ownSems0 (fun k : PEmpty => k.elim) c ∗ Pipeline.scopedRest cfg3.spec c) := by
  rw [show (dat3 c A O Rc).Φ (Fin.last cfg3.N) = Pipeline.scopedRest cfg3.spec c from rfl, Pipeline.ownSems0_none]
  iintro H
  isplitr; · iempintro
  isplitr; · iempintro
  iexact H

/-- ENTRY: the five arrays and what the core owes are what the pipeline starts from. -/
theorem loss3_hentry (R : sProp 𝕄) (q) (pf) :
    iprop((loss3Held c A ∗ (dat3 c A O Rc).owesAt none 0) ∗ R)
      ⊢ |={Set.univ}=> iprop((dat3 c A O Rc).arrays ((dat3 c A O Rc).arrAt · 0)
          ∗ Pipeline.prefHeld (pcfgs (F := F) loss3P).pre c q pf ∗ (dat3 c A O Rc).owesAt none 0 ∗ BI.emp ∗ BI.emp) := by
  rw [arrays3_eq, prefHeld3_emp]
  iintro ⟨⟨HA, HO⟩, -⟩
  imodintro
  isplitl [HA]; · iexact HA
  isplitr; · iempintro
  isplitl [HO]; · iexact HO
  isplitr <;> iempintro

/-- EXIT: the pipeline's arrays after every write-back are the five arrays at `loss3Final`. -/
theorem loss3_hexit :
    iprop((dat3 c A O Rc).arrays ((dat3 c A O Rc).arrAt · cfg3.N) ∗ (dat3 c A O Rc).owesAt none (Fin.last cfg3.N) ∗ BI.emp ∗ BI.emp)
      ⊢ |={Set.univ}=> iprop(loss3Held c (loss3Final c A) ∗ (dat3 c A O Rc).owesAt none 0) := by
  rw [arrays3_eq, show (fun w => (dat3 c A O Rc).arrAt w cfg3.N) = loss3Final c A from funext (arrAt3_final c A O Rc)]
  iintro ⟨HA, HO, -, -⟩
  imodintro
  isplitl [HA]; · iexact HA
  iexact HO

/-! ## The layout facts, in the region rule's spelling -/

section Fields

variable (a : (p : Fin 4) → (pcfgs (F := F) p).Adm)

theorem loss3_win : Pipeline.WinFacts₀ (pcfgs (F := F) loss3P).spec := winFacts3.to₀

theorem loss3_block_pos : ∀ w : Fin (Pipeline.pin (pcfgs (F := F)) a loss3P).W,
    0 < ((Pipeline.pin (pcfgs (F := F)) a loss3P).spec w).block.numel := block_pos3

theorem loss3_stage_whole : ∀ (w : Fin (Pipeline.pin (pcfgs (F := F)) a loss3P).W)
    (s : Fin ((Pipeline.pin (pcfgs (F := F)) a loss3P).spec w).nbuf),
    (((Pipeline.pin (pcfgs (F := F)) a loss3P).spec w).stage s).IsWhole := stage_whole3

theorem loss3_ho : Pipeline.OwnSemFacts (pcfgs (F := F) loss3P).spec (fun k : PEmpty => k.elim) :=
  Pipeline.OwnSemFacts.none _

/-- The proof data is the pinned configuration's. -/
example : Dat τ (Elt F) (HIx 4) ℕ UU ℕ (Pipeline.pin (pcfgs (F := F)) a loss3P) c := dat3 c A O Rc

end Fields

/-! ## The loads of whole blocks are the blocks -/

/-- A load through the unit-stride rectangle at offset zero of the shape's own extents reads the contents. -/
theorem loss3_ld_whole {S : Shape} {e : EltTy} (X : S.Idx → Elt F e) (off : Fin S.rank → ℕ) (h0 : ∀ a, off a = 0)
    (inb : ∀ a, off a + S.size a ≤ S.size a) :
    View.ld (Val := Elt F) X (Rect.unit (s := S) off S.size inb) = X := by
  funext j
  show X ((Rect.unit (s := S) off S.size inb).idx j) = X j
  congr 1
  funext a; apply Fin.ext
  show off a + 1 * (j a : ℕ) = (j a : ℕ)
  rw [h0 a]; omega

theorem loss3In_eq (x : Vec F S1024x128 .f32) : loss3In x = x :=
  loss3_ld_whole x _ (fun a => by fin_cases a <;> rfl) _

/-- At a later point the step is over the previous contents themselves. -/
theorem loss3StepB_eq (x0 x1 : Vec F S1024x128 .f32) (x2 : Vec F S20x1024x128 .f32) (x3 : Vec F S2688x21 .bf16)
    (prev : Vec F S1x1 .f32) : loss3StepB x0 x1 x2 x3 prev = loss3Step x0 x1 x2 x3 prev := by
  unfold loss3StepB
  rw [loss3_ld_whole prev _ (fun a => by fin_cases a <;> rfl) _]

/-- The sign matrix is read whole. -/
theorem loss3Step_eq (x0 x1 : Vec F S1024x128 .f32) (x2 : Vec F S20x1024x128 .f32) (x3 : Vec F S2688x21 .bf16)
    (acc : Vec F S1x1 .f32) : loss3Step x0 x1 x2 x3 acc = k3_pay4 (loss3Z x0 x1 x2) x3 acc := by
  unfold loss3Step
  rw [loss3_ld_whole x3 _ (fun a => by fin_cases a <;> rfl) _]

end Cert.Proof.KI

end
-- ==== Proof.KI_Region1.lean ====
/-
  Region 1 of @main in the shape @main's proof consumes it: its five arrays leave the held set as the pipeline's
  five points-tos, what the TensorCore owes leaves its handshake state with the bound on its recorded pairs, the
  region runs by the pipeline's rule, and both are put back — the (1,1) cell at the summed block losses.
-/
import proofs.«215899_g5772436046013_cont_9to1c4b_742_31_alg».proof.Proof.KI_RegionBase
import proofs.«215899_g5772436046013_cont_9to1c4b_742_31_alg».proof.Proof.KI_Loss3Region

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

open Idealize.ShloMosaic.TcCoe
open Idealize.ShloMosaic.Pipeline (Dat)

local notation "𝕄" => MT nD τ sig (HIx 4) (Elt F) ℕ UU ℕ

variable (𝔭 : Dev nD → Pure F) (m : (ℓ : Loc nD τ sig) → Buf (Elt F) ℓ)

/-- Region 1's five arrays as @main's chain has them at its entry. -/
def regA1 (c : Dev nD) : Loss3Arrs F c :=
  loss3Arrs c (W7 (𝔭 c) m c (rT main_v33_0)) (W7 (𝔭 c) m c (rT main_v33_1)) (W7 (𝔭 c) m c (rT main_v34)) (W7 (𝔭 c) m c (rT main_v23)) (W7 (𝔭 c) m c (rT main_v35))

variable (pd : (p : Fin 4) → (c : Dev nD) → Dat τ (Elt F) (HIx 4) ℕ UU ℕ (Pipeline.pin (pcfgs (F := F)) aT p) c)
  (hpd1 : ∀ c, pd 1 c = dat3 c (regA1 𝔭 m c) ((K (F := F)).Otc c 2) (Rcn (F := F) c 2))

include hpd1 in
/-- Region 1 as the pipeline's rule takes it. -/
def R1 : Pipeline.RegionSeg (pcfgs (F := F)) aT pd (none : HIx 4) defs₀ 𝒱₀ (K (F := F)).L (K (F := F)).lev (1 : Fin 4) where
  win := loss3_win
  block_pos := loss3_block_pos aT
  stage_whole := loss3_stage_whole aT
  K := PEmpty
  osem := fun k => k.elim
  ho := loss3_ho
  hbody := fun c => by rw [hpd1 c]; exact body_obligation3_loose c _ _ _
  hwaits := fun c => Pipeline.cellsWaits_intro (Pipeline.pin (pcfgs (F := F)) aT) pd (none : HIx 4) 1 c fun w s t => by
    rw [hpd1 c]; exact (K (F := F)).mayWait_none _ (Otc_none c 2)
  pre := fun c => iprop(loss3Held c (regA1 𝔭 m c) ∗ (dat3 c (regA1 𝔭 m c) ((K (F := F)).Otc c 2) (Rcn (F := F) c 2)).owesAt none 0)
  post := fun c => iprop(loss3Held c (loss3Final c (regA1 𝔭 m c)) ∗ (dat3 c (regA1 𝔭 m c) ((K (F := F)).Otc c 2) (Rcn (F := F) c 2)).owesAt none 0)
  X := fun _ => iprop(emp)
  Y := fun _ => iprop(emp)
  Z := fun _ => iprop(emp)
  hentry := fun c => by rw [hpd1 c]; exact loss3_hentry c _ _ _ _ _ _
  hin := fun c => by rw [hpd1 c]; exact loss3_hin c _ _ _ _ _ _
  hout := fun c => by rw [hpd1 c]; exact loss3_hout c _ _ _
  hexit := fun c => by rw [hpd1 c]; exact loss3_hexit c _ _ _

include hpd1 in
theorem R1_pre (c : Dev nD) : (R1 𝔭 m pd hpd1).pre c
    = iprop(loss3Held c (regA1 𝔭 m c) ∗ (dat3 c (regA1 𝔭 m c) ((K (F := F)).Otc c 2) (Rcn (F := F) c 2)).owesAt none 0) := rfl
include hpd1 in
theorem R1_post (c : Dev nD) : (R1 𝔭 m pd hpd1).post c
    = iprop(loss3Held c (loss3Final c (regA1 𝔭 m c)) ∗ (dat3 c (regA1 𝔭 m c) ((K (F := F)).Otc c 2) (Rcn (F := F) c 2)).owesAt none 0) := rfl

/-! ## The five arrays in and out of the held set, the owed units in and out of the handshake state -/

abbrev RegRefs1 : Finset (DevRef τ sig) := {rT main_v33_0, rT main_v33_1, rT main_v34, rT main_v23, rT main_v35}
omit [FloatOps F] in
theorem RegRefs1_uc : RegRefs1 ⊆ Pipeline.ucRefs τ sig := by decide

omit [FloatOps F] in
/-- The five arrays held whole at a valuation are the region's five points-tos at its entries. -/
theorem held_reg1 (d : Dev nD) (W : Valuation τ sig (Elt F)) :
    (held (T d) RegRefs1 W : sProp 𝕄)
      = loss3Held d (loss3Arrs d (W (rT main_v33_0)) (W (rT main_v33_1)) (W (rT main_v34)) (W (rT main_v23)) (W (rT main_v35))) := by
  unfold held loss3Held RegRefs1
  rw [SparseCore.bigSep_insert' (by decide), SparseCore.bigSep_insert' (by decide), SparseCore.bigSep_insert' (by decide),
    SparseCore.bigSep_insert' (by decide), bigSep_singleton]
  rfl

omit [FloatOps F] in
/-- What the TensorCore owes before call `n`, out of its handshake state, is what the pipeline holds it as. -/
theorem owes_in1 (d : Dev nD) (n : ℕ) :
    (iprop(∃ W, ⌜(K (F := F)).WBelow (T d) W (8 * n)⌝ ∗ owes (T d) ((K (F := F)).Otc d n) W) : sProp 𝕄)
      ⊢ Pipeline.owesWithin d ((K (F := F)).Otc d n) (Rcn (F := F) d n ∪ cfg3.waitPairs (none : HIx 4)) := by
  iintro ⟨%W, %hW, HO⟩
  iexists W; isplitr
  · ipureintro; exact fun p hp => Or.inl (hW p hp)
  iexact HO

omit [FloatOps F] in
/-- And back: the pipeline's own waits are at no index, the lowest level. -/
theorem owes_out1 (d : Dev nD) (n : ℕ) :
    (Pipeline.owesWithin d ((K (F := F)).Otc d n) (Rcn (F := F) d n ∪ cfg3.waitPairs (none : HIx 4)) : sProp 𝕄)
      ⊢ iprop(∃ W, ⌜(K (F := F)).WBelow (T d) W (8 * n)⌝ ∗ owes (T d) ((K (F := F)).Otc d n) W) := by
  iintro ⟨%W, %hW, HO⟩
  iexists W; isplitr
  · ipureintro
    intro p hp
    rcases hW hp with h | ⟨w, s, rfl⟩
    · exact h
    · show (K (F := F)).lev _ none ≤ _
      rw [(K (F := F)).lev_none]; exact Nat.zero_le _
  iexact HO

variable (P : (K (F := F)).Pay (nD := nD) (Val := Elt F) (Name := ℕ) (U := UU))

/-- After region 1 the five arrays are the region's exit contents, when the chain's function for the region is the
    pipeline's. -/
theorem W8_reg (d : Dev nD)
    (h𝔭 : ∀ a0 a1 a2 a3 aOut, (𝔭 d).loss1 a0 a1 a2 a3 aOut = loss3Out d (loss3Arrs d a0 a1 a2 a3 aOut)) :
    loss3Arrs d (W8 (𝔭 d) m d (rT main_v33_0)) (W8 (𝔭 d) m d (rT main_v33_1)) (W8 (𝔭 d) m d (rT main_v34)) (W8 (𝔭 d) m d (rT main_v23)) (W8 (𝔭 d) m d (rT main_v35))
      = loss3Final d (regA1 𝔭 m d) := by
  have e0 : W8 (𝔭 d) m d (rT main_v33_0) = W7 (𝔭 d) m d (rT main_v33_0) := by
    unfold W8; exact Function.update_of_ne (by decide) _ _
  have e1 : W8 (𝔭 d) m d (rT main_v33_1) = W7 (𝔭 d) m d (rT main_v33_1) := by
    unfold W8; exact Function.update_of_ne (by decide) _ _
  have e2 : W8 (𝔭 d) m d (rT main_v34) = W7 (𝔭 d) m d (rT main_v34) := by
    unfold W8; exact Function.update_of_ne (by decide) _ _
  have e3 : W8 (𝔭 d) m d (rT main_v23) = W7 (𝔭 d) m d (rT main_v23) := by
    unfold W8; exact Function.update_of_ne (by decide) _ _
  have e4 : W8 (𝔭 d) m d (rT main_v35) = loss3Out d (regA1 𝔭 m d) := by
    unfold W8; rw [Function.update_self]; exact h𝔭 _ _ _ _ _
  rw [e0, e1, e2, e3, e4]
  rfl

theorem W8_rest (d : Dev nD) (b : DevRef τ sig) (hb : b ∈ Pipeline.ucRefs τ sig \ RegRefs1) : W8 (𝔭 d) m d b = W7 (𝔭 d) m d b := by
  have hb' := (Finset.mem_sdiff.mp hb).2
  simp only [RegRefs1, Finset.mem_insert, Finset.mem_singleton, not_or] at hb'
  unfold W8
  rw [Function.update_of_ne hb'.2.2.2.2]

include hpd1 in
/-- Region 1 of @main. -/
theorem region1_step [∀ e, Nonempty (Elt F e)] (d : Dev nD)
    (h𝔭 : ∀ a0 a1 a2 a3 aOut, (𝔭 d).loss1 a0 a1 a2 a3 aOut = loss3Out d (loss3Arrs d a0 a1 a2 a3 aOut)) :
    RegionStep d P aT 1 2 (W7 (𝔭 d) m d) (W8 (𝔭 d) m d) := by
  intro κ α k Φ
  unfold SparseCore.Cfg.tcSt
  rw [held_sub_split (T d) RegRefs1_uc (W7 (𝔭 d) m d), held_sub_split (T d) RegRefs1_uc (W8 (𝔭 d) m d), held_congr (T d) (W8_rest 𝔭 m d),
    held_reg1, held_reg1, W8_reg 𝔭 m d h𝔭]
  iintro ⟨Hk, Hb, ⟨Hreg, Hrest⟩, ⟨HO, Hst'⟩, #Hctx, Hg, Ht⟩
  ihave Hlv := ((K (F := F)).ctx_levAts κ) $$ Hctx
  ihave HO' := (owes_in1 d 2) $$ HO
  have hstep := step_region aT pd phinjT 1 (R1 𝔭 m pd hpd1) d k Φ
  rw [R1_pre, R1_post] at hstep
  iapply (hstep) $$ [Hk Hb Hreg Hrest HO' Hst' Hlv Hg Ht]
  isplitl [Hk Hrest Hst']
  · iintro ⟨Hb, Hreg, HO⟩
    iapply Hk
    isplitl [Hb]; · iexact Hb
    isplitl [Hreg Hrest]
    · isplitl [Hreg]; · iexact Hreg
      iexact Hrest
    isplitl [HO]; · iapply (owes_out1 d 2); iexact HO
    iexact Hst'
  isplitl [Hb]; · iexact Hb
  isplitl [Hreg HO']
  · isplitl [Hreg]; · iexact Hreg
    iexact HO'
  isplitl [Hlv]; · iexact Hlv
  isplitl [Hg]; · iexact Hg
  iexact Ht

end Cert.Proof.KI

end
-- ==== Proof.KI_Loss5Region.lean ====
import proofs.«215899_g5772436046013_cont_9to1c4b_742_31_alg».proof.Proof.KI_Loss5Dat
import Idealize.ShloMosaic.Lib.Pipeline.Frame
import Idealize.ShloMosaic.Lib.Pipeline.FrameBody

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # Entering and leaving the loss5 kernel's region

The region takes the five arrays whole, at the full share, beside what the core owes; it gives them back with the
output array at `loss5Out` and the inputs as they were. Its invariant is the scoped buffers no window stages, which
the body never touches; the body has no semaphore of its own. -/

/-- The pipeline's number among the program's four. -/
abbrev loss5P : Fin 4 := 2

variable (c : Dev nD) (A : Loss5Arrs F c) (O : CellTallies nD τ sig (HIx 4)) (Rc : Set (SemLoc sig × HIx 4))

/-- The five arrays, whole, at the full share, at contents `G`. -/
def loss5Held (G : Loss5Arrs F c) : sProp 𝕄 :=
  iprop(((cfg5.win 0).arr.view.loc (c.tc : Thread nD τ) ↦{fullShare} G 0)
    ∗ ((cfg5.win 1).arr.view.loc (c.tc : Thread nD τ) ↦{fullShare} G 1)
    ∗ ((cfg5.win 2).arr.view.loc (c.tc : Thread nD τ) ↦{fullShare} G 2)
    ∗ ((cfg5.win 3).arr.view.loc (c.tc : Thread nD τ) ↦{fullShare} G 3)
    ∗ ((cfg5.win 4).arr.view.loc (c.tc : Thread nD τ) ↦{fullShare} G 4))

/-- The pipeline's arrays are those five points-tos. -/
theorem arrays5_eq (G : Loss5Arrs F c) : ((dat5 c A O Rc).arrays G : sProp 𝕄) = loss5Held c G := by
  unfold Dat.arrays
  exact (bigSep_congr fun w _ => by rw [(arr_whole5 w).set_eq_univ, share5]).trans (bigSep_W5 _)

/-- The arrays when the region is left: the inputs as they were, the output at `loss5Out`. -/
def loss5Final : Loss5Arrs F c := loss5Arrs c (A 0) (A 1) (A 2) (A 3) (loss5Out c A)

theorem arrAt5_final (w : Fin cfg5.W) : (dat5 c A O Rc).arrAt w cfg5.N = loss5Final c A w := by
  match w with
  | ⟨0, _⟩ => exact arrAt5_0 c A O Rc _
  | ⟨1, _⟩ => exact arrAt5_1 c A O Rc _
  | ⟨2, _⟩ => exact arrAt5_2 c A O Rc _
  | ⟨3, _⟩ => exact arrAt5_3 c A O Rc _
  | ⟨4, _⟩ => exact arrAt5_4 c A O Rc

/-- What the core owes, as the pipeline holds it at any point. -/
theorem owesAt5 (t : Fin (cfg5.N + 1)) :
    ((dat5 c A O Rc).owesAt none t : sProp 𝕄) = Pipeline.owesWithin c O (Rc ∪ cfg5.waitPairs (none : HIx 4)) := rfl

/-- The pipeline has no prefetched table. -/
theorem prefHeld5_emp (q) (pf) :
    (Pipeline.prefHeld (pcfgs (F := F) loss5P).pre c q pf : sProp 𝕄) = BI.emp := by
  unfold Pipeline.prefHeld
  show bigSep (Finset.univ : Finset (Fin 0)) _ = _
  rw [Finset.univ_eq_empty, BI.bigSep_empty]

/-- The invariant at the first point is the scoped rest. -/
theorem loss5_hin (X : sProp 𝕄) (q) (pf) :
    iprop(X ∗ Pipeline.prefHeld (pcfgs (F := F) loss5P).pre c q pf ∗ Pipeline.scopedRest cfg5.spec c)
      ⊢ ((dat5 c A O Rc).Φ 0 : sProp 𝕄) := by
  rw [show (dat5 c A O Rc).Φ 0 = Pipeline.scopedRest cfg5.spec c from rfl]
  iintro ⟨-, -, H⟩; iexact H

/-- The invariant at the last point gives it back. -/
theorem loss5_hout :
    ((dat5 c A O Rc).Φ (Fin.last cfg5.N) : sProp 𝕄)
      ⊢ iprop(BI.emp ∗ Pipeline.ownSems0 (fun k : PEmpty => k.elim) c ∗ Pipeline.scopedRest cfg5.spec c) := by
  rw [show (dat5 c A O Rc).Φ (Fin.last cfg5.N) = Pipeline.scopedRest cfg5.spec c from rfl, Pipeline.ownSems0_none]
  iintro H
  isplitr; · iempintro
  isplitr; · iempintro
  iexact H

/-- ENTRY: the five arrays and what the core owes are what the pipeline starts from. -/
theorem loss5_hentry (R : sProp 𝕄) (q) (pf) :
    iprop((loss5Held c A ∗ (dat5 c A O Rc).owesAt none 0) ∗ R)
      ⊢ |={Set.univ}=> iprop((dat5 c A O Rc).arrays ((dat5 c A O Rc).arrAt · 0)
          ∗ Pipeline.prefHeld (pcfgs (F := F) loss5P).pre c q pf ∗ (dat5 c A O Rc).owesAt none 0 ∗ BI.emp ∗ BI.emp) := by
  rw [arrays5_eq, prefHeld5_emp]
  iintro ⟨⟨HA, HO⟩, -⟩
  imodintro
  isplitl [HA]; · iexact HA
  isplitr; · iempintro
  isplitl [HO]; · iexact HO
  isplitr <;> iempintro

/-- EXIT: the pipeline's arrays after every write-back are the five arrays at `loss5Final`. -/
theorem loss5_hexit :
    iprop((dat5 c A O Rc).arrays ((dat5 c A O Rc).arrAt · cfg5.N) ∗ (dat5 c A O Rc).owesAt none (Fin.last cfg5.N) ∗ BI.emp ∗ BI.emp)
      ⊢ |={Set.univ}=> iprop(loss5Held c (loss5Final c A) ∗ (dat5 c A O Rc).owesAt none 0) := by
  rw [arrays5_eq, show (fun w => (dat5 c A O Rc).arrAt w cfg5.N) = loss5Final c A from funext (arrAt5_final c A O Rc)]
  iintro ⟨HA, HO, -, -⟩
  imodintro
  isplitl [HA]; · iexact HA
  iexact HO

/-! ## The layout facts, in the region rule's spelling -/

section Fields

variable (a : (p : Fin 4) → (pcfgs (F := F) p).Adm)

theorem loss5_win : Pipeline.WinFacts₀ (pcfgs (F := F) loss5P).spec := winFacts5.to₀

theorem loss5_block_pos : ∀ w : Fin (Pipeline.pin (pcfgs (F := F)) a loss5P).W,
    0 < ((Pipeline.pin (pcfgs (F := F)) a loss5P).spec w).block.numel := block_pos5

theorem loss5_stage_whole : ∀ (w : Fin (Pipeline.pin (pcfgs (F := F)) a loss5P).W)
    (s : Fin ((Pipeline.pin (pcfgs (F := F)) a loss5P).spec w).nbuf),
    (((Pipeline.pin (pcfgs (F := F)) a loss5P).spec w).stage s).IsWhole := stage_whole5

theorem loss5_ho : Pipeline.OwnSemFacts (pcfgs (F := F) loss5P).spec (fun k : PEmpty => k.elim) :=
  Pipeline.OwnSemFacts.none _

/-- The proof data is the pinned configuration's. -/
example : Dat τ (Elt F) (HIx 4) ℕ UU ℕ (Pipeline.pin (pcfgs (F := F)) a loss5P) c := dat5 c A O Rc

end Fields

/-! ## The loads of whole blocks are the blocks -/

/-- A load through the unit-stride rectangle at offset zero of the shape's own extents reads the contents. -/
theorem loss5_ld_whole {S : Shape} {e : EltTy} (X : S.Idx → Elt F e) (off : Fin S.rank → ℕ) (h0 : ∀ a, off a = 0)
    (inb : ∀ a, off a + S.size a ≤ S.size a) :
    View.ld (Val := Elt F) X (Rect.unit (s := S) off S.size inb) = X := by
  funext j
  show X ((Rect.unit (s := S) off S.size inb).idx j) = X j
  congr 1
  funext a; apply Fin.ext
  show off a + 1 * (j a : ℕ) = (j a : ℕ)
  rw [h0 a]; omega

theorem loss5In_eq (x : Vec F S1024x128 .f32) : loss5In x = x :=
  loss5_ld_whole x _ (fun a => by fin_cases a <;> rfl) _

/-- At a later point the step is over the previous contents themselves. -/
theorem loss5StepB_eq (x0 x1 : Vec F S1024x128 .f32) (x2 : Vec F S20x1024x128 .f32) (x3 : Vec F S2688x21 .bf16)
    (prev : Vec F S1x1 .f32) : loss5StepB x0 x1 x2 x3 prev = loss5Step x0 x1 x2 x3 prev := by
  unfold loss5StepB
  rw [loss5_ld_whole prev _ (fun a => by fin_cases a <;> rfl) _]

/-- The sign matrix is read whole. -/
theorem loss5Step_eq (x0 x1 : Vec F S1024x128 .f32) (x2 : Vec F S20x1024x128 .f32) (x3 : Vec F S2688x21 .bf16)
    (acc : Vec F S1x1 .f32) : loss5Step x0 x1 x2 x3 acc = k5_pay4 (loss5Z x0 x1 x2) x3 acc := by
  unfold loss5Step
  rw [loss5_ld_whole x3 _ (fun a => by fin_cases a <;> rfl) _]

end Cert.Proof.KI

end
-- ==== Proof.KI_Region2.lean ====
/-
  Region 2 of @main in the shape @main's proof consumes it: its five arrays leave the held set as the pipeline's
  five points-tos, what the TensorCore owes leaves its handshake state with the bound on its recorded pairs, the
  region runs by the pipeline's rule, and both are put back — the (1,1) cell at the summed block losses.
-/
import proofs.«215899_g5772436046013_cont_9to1c4b_742_31_alg».proof.Proof.KI_RegionBase
import proofs.«215899_g5772436046013_cont_9to1c4b_742_31_alg».proof.Proof.KI_Loss5Region

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

open Idealize.ShloMosaic.TcCoe
open Idealize.ShloMosaic.Pipeline (Dat)

local notation "𝕄" => MT nD τ sig (HIx 4) (Elt F) ℕ UU ℕ

variable (𝔭 : Dev nD → Pure F) (m : (ℓ : Loc nD τ sig) → Buf (Elt F) ℓ)

/-- Region 2's five arrays as @main's chain has them at its entry. -/
def regA2 (c : Dev nD) : Loss5Arrs F c :=
  loss5Arrs c (W11 (𝔭 c) m c (rT main_v39_0)) (W11 (𝔭 c) m c (rT main_v39_1)) (W11 (𝔭 c) m c (rT main_v40)) (W11 (𝔭 c) m c (rT main_v23)) (W11 (𝔭 c) m c (rT main_v41))

variable (pd : (p : Fin 4) → (c : Dev nD) → Dat τ (Elt F) (HIx 4) ℕ UU ℕ (Pipeline.pin (pcfgs (F := F)) aT p) c)
  (hpd2 : ∀ c, pd 2 c = dat5 c (regA2 𝔭 m c) ((K (F := F)).Otc c 3) (Rcn (F := F) c 3))

include hpd2 in
/-- Region 2 as the pipeline's rule takes it. -/
def R2 : Pipeline.RegionSeg (pcfgs (F := F)) aT pd (none : HIx 4) defs₀ 𝒱₀ (K (F := F)).L (K (F := F)).lev (2 : Fin 4) where
  win := loss5_win
  block_pos := loss5_block_pos aT
  stage_whole := loss5_stage_whole aT
  K := PEmpty
  osem := fun k => k.elim
  ho := loss5_ho
  hbody := fun c => by rw [hpd2 c]; exact body_obligation5_loose c _ _ _
  hwaits := fun c => Pipeline.cellsWaits_intro (Pipeline.pin (pcfgs (F := F)) aT) pd (none : HIx 4) 2 c fun w s t => by
    rw [hpd2 c]; exact (K (F := F)).mayWait_none _ (Otc_none c 3)
  pre := fun c => iprop(loss5Held c (regA2 𝔭 m c) ∗ (dat5 c (regA2 𝔭 m c) ((K (F := F)).Otc c 3) (Rcn (F := F) c 3)).owesAt none 0)
  post := fun c => iprop(loss5Held c (loss5Final c (regA2 𝔭 m c)) ∗ (dat5 c (regA2 𝔭 m c) ((K (F := F)).Otc c 3) (Rcn (F := F) c 3)).owesAt none 0)
  X := fun _ => iprop(emp)
  Y := fun _ => iprop(emp)
  Z := fun _ => iprop(emp)
  hentry := fun c => by rw [hpd2 c]; exact loss5_hentry c _ _ _ _ _ _
  hin := fun c => by rw [hpd2 c]; exact loss5_hin c _ _ _ _ _ _
  hout := fun c => by rw [hpd2 c]; exact loss5_hout c _ _ _
  hexit := fun c => by rw [hpd2 c]; exact loss5_hexit c _ _ _

include hpd2 in
theorem R2_pre (c : Dev nD) : (R2 𝔭 m pd hpd2).pre c
    = iprop(loss5Held c (regA2 𝔭 m c) ∗ (dat5 c (regA2 𝔭 m c) ((K (F := F)).Otc c 3) (Rcn (F := F) c 3)).owesAt none 0) := rfl
include hpd2 in
theorem R2_post (c : Dev nD) : (R2 𝔭 m pd hpd2).post c
    = iprop(loss5Held c (loss5Final c (regA2 𝔭 m c)) ∗ (dat5 c (regA2 𝔭 m c) ((K (F := F)).Otc c 3) (Rcn (F := F) c 3)).owesAt none 0) := rfl

/-! ## The five arrays in and out of the held set, the owed units in and out of the handshake state -/

abbrev RegRefs2 : Finset (DevRef τ sig) := {rT main_v39_0, rT main_v39_1, rT main_v40, rT main_v23, rT main_v41}
omit [FloatOps F] in
theorem RegRefs2_uc : RegRefs2 ⊆ Pipeline.ucRefs τ sig := by decide

omit [FloatOps F] in
/-- The five arrays held whole at a valuation are the region's five points-tos at its entries. -/
theorem held_reg2 (d : Dev nD) (W : Valuation τ sig (Elt F)) :
    (held (T d) RegRefs2 W : sProp 𝕄)
      = loss5Held d (loss5Arrs d (W (rT main_v39_0)) (W (rT main_v39_1)) (W (rT main_v40)) (W (rT main_v23)) (W (rT main_v41))) := by
  unfold held loss5Held RegRefs2
  rw [SparseCore.bigSep_insert' (by decide), SparseCore.bigSep_insert' (by decide), SparseCore.bigSep_insert' (by decide),
    SparseCore.bigSep_insert' (by decide), bigSep_singleton]
  rfl

omit [FloatOps F] in
/-- What the TensorCore owes before call `n`, out of its handshake state, is what the pipeline holds it as. -/
theorem owes_in2 (d : Dev nD) (n : ℕ) :
    (iprop(∃ W, ⌜(K (F := F)).WBelow (T d) W (8 * n)⌝ ∗ owes (T d) ((K (F := F)).Otc d n) W) : sProp 𝕄)
      ⊢ Pipeline.owesWithin d ((K (F := F)).Otc d n) (Rcn (F := F) d n ∪ cfg5.waitPairs (none : HIx 4)) := by
  iintro ⟨%W, %hW, HO⟩
  iexists W; isplitr
  · ipureintro; exact fun p hp => Or.inl (hW p hp)
  iexact HO

omit [FloatOps F] in
/-- And back: the pipeline's own waits are at no index, the lowest level. -/
theorem owes_out2 (d : Dev nD) (n : ℕ) :
    (Pipeline.owesWithin d ((K (F := F)).Otc d n) (Rcn (F := F) d n ∪ cfg5.waitPairs (none : HIx 4)) : sProp 𝕄)
      ⊢ iprop(∃ W, ⌜(K (F := F)).WBelow (T d) W (8 * n)⌝ ∗ owes (T d) ((K (F := F)).Otc d n) W) := by
  iintro ⟨%W, %hW, HO⟩
  iexists W; isplitr
  · ipureintro
    intro p hp
    rcases hW hp with h | ⟨w, s, rfl⟩
    · exact h
    · show (K (F := F)).lev _ none ≤ _
      rw [(K (F := F)).lev_none]; exact Nat.zero_le _
  iexact HO

variable (P : (K (F := F)).Pay (nD := nD) (Val := Elt F) (Name := ℕ) (U := UU))

/-- After region 2 the five arrays are the region's exit contents, when the chain's function for the region is the
    pipeline's. -/
theorem W12_reg (d : Dev nD)
    (h𝔭 : ∀ a0 a1 a2 a3 aOut, (𝔭 d).loss2 a0 a1 a2 a3 aOut = loss5Out d (loss5Arrs d a0 a1 a2 a3 aOut)) :
    loss5Arrs d (W12 (𝔭 d) m d (rT main_v39_0)) (W12 (𝔭 d) m d (rT main_v39_1)) (W12 (𝔭 d) m d (rT main_v40)) (W12 (𝔭 d) m d (rT main_v23)) (W12 (𝔭 d) m d (rT main_v41))
      = loss5Final d (regA2 𝔭 m d) := by
  have e0 : W12 (𝔭 d) m d (rT main_v39_0) = W11 (𝔭 d) m d (rT main_v39_0) := by
    unfold W12; exact Function.update_of_ne (by decide) _ _
  have e1 : W12 (𝔭 d) m d (rT main_v39_1) = W11 (𝔭 d) m d (rT main_v39_1) := by
    unfold W12; exact Function.update_of_ne (by decide) _ _
  have e2 : W12 (𝔭 d) m d (rT main_v40) = W11 (𝔭 d) m d (rT main_v40) := by
    unfold W12; exact Function.update_of_ne (by decide) _ _
  have e3 : W12 (𝔭 d) m d (rT main_v23) = W11 (𝔭 d) m d (rT main_v23) := by
    unfold W12; exact Function.update_of_ne (by decide) _ _
  have e4 : W12 (𝔭 d) m d (rT main_v41) = loss5Out d (regA2 𝔭 m d) := by
    unfold W12; rw [Function.update_self]; exact h𝔭 _ _ _ _ _
  rw [e0, e1, e2, e3, e4]
  rfl

theorem W12_rest (d : Dev nD) (b : DevRef τ sig) (hb : b ∈ Pipeline.ucRefs τ sig \ RegRefs2) : W12 (𝔭 d) m d b = W11 (𝔭 d) m d b := by
  have hb' := (Finset.mem_sdiff.mp hb).2
  simp only [RegRefs2, Finset.mem_insert, Finset.mem_singleton, not_or] at hb'
  unfold W12
  rw [Function.update_of_ne hb'.2.2.2.2]

include hpd2 in
/-- Region 2 of @main. -/
theorem region2_step [∀ e, Nonempty (Elt F e)] (d : Dev nD)
    (h𝔭 : ∀ a0 a1 a2 a3 aOut, (𝔭 d).loss2 a0 a1 a2 a3 aOut = loss5Out d (loss5Arrs d a0 a1 a2 a3 aOut)) :
    RegionStep d P aT 2 3 (W11 (𝔭 d) m d) (W12 (𝔭 d) m d) := by
  intro κ α k Φ
  unfold SparseCore.Cfg.tcSt
  rw [held_sub_split (T d) RegRefs2_uc (W11 (𝔭 d) m d), held_sub_split (T d) RegRefs2_uc (W12 (𝔭 d) m d), held_congr (T d) (W12_rest 𝔭 m d),
    held_reg2, held_reg2, W12_reg 𝔭 m d h𝔭]
  iintro ⟨Hk, Hb, ⟨Hreg, Hrest⟩, ⟨HO, Hst'⟩, #Hctx, Hg, Ht⟩
  ihave Hlv := ((K (F := F)).ctx_levAts κ) $$ Hctx
  ihave HO' := (owes_in2 d 3) $$ HO
  have hstep := step_region aT pd phinjT 2 (R2 𝔭 m pd hpd2) d k Φ
  rw [R2_pre, R2_post] at hstep
  iapply (hstep) $$ [Hk Hb Hreg Hrest HO' Hst' Hlv Hg Ht]
  isplitl [Hk Hrest Hst']
  · iintro ⟨Hb, Hreg, HO⟩
    iapply Hk
    isplitl [Hb]; · iexact Hb
    isplitl [Hreg Hrest]
    · isplitl [Hreg]; · iexact Hreg
      iexact Hrest
    isplitl [HO]; · iapply (owes_out2 d 3); iexact HO
    iexact Hst'
  isplitl [Hb]; · iexact Hb
  isplitl [Hreg HO']
  · isplitl [Hreg]; · iexact Hreg
    iexact HO'
  isplitl [Hlv]; · iexact Hlv
  isplitl [Hg]; · iexact Hg
  iexact Ht

end Cert.Proof.KI

end
-- ==== Proof.KI_Loss7Region.lean ====
import proofs.«215899_g5772436046013_cont_9to1c4b_742_31_alg».proof.Proof.KI_Loss7Dat
import Idealize.ShloMosaic.Lib.Pipeline.Frame
import Idealize.ShloMosaic.Lib.Pipeline.FrameBody

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # Entering and leaving the loss7 kernel's region

The region takes the five arrays whole, at the full share, beside what the core owes; it gives them back with the
output array at `loss7Out` and the inputs as they were. Its invariant is the scoped buffers no window stages, which
the body never touches; the body has no semaphore of its own. -/

/-- The pipeline's number among the program's four. -/
abbrev loss7P : Fin 4 := 3

variable (c : Dev nD) (A : Loss7Arrs F c) (O : CellTallies nD τ sig (HIx 4)) (Rc : Set (SemLoc sig × HIx 4))

/-- The five arrays, whole, at the full share, at contents `G`. -/
def loss7Held (G : Loss7Arrs F c) : sProp 𝕄 :=
  iprop(((cfg7.win 0).arr.view.loc (c.tc : Thread nD τ) ↦{fullShare} G 0)
    ∗ ((cfg7.win 1).arr.view.loc (c.tc : Thread nD τ) ↦{fullShare} G 1)
    ∗ ((cfg7.win 2).arr.view.loc (c.tc : Thread nD τ) ↦{fullShare} G 2)
    ∗ ((cfg7.win 3).arr.view.loc (c.tc : Thread nD τ) ↦{fullShare} G 3)
    ∗ ((cfg7.win 4).arr.view.loc (c.tc : Thread nD τ) ↦{fullShare} G 4))

/-- The pipeline's arrays are those five points-tos. -/
theorem arrays7_eq (G : Loss7Arrs F c) : ((dat7 c A O Rc).arrays G : sProp 𝕄) = loss7Held c G := by
  unfold Dat.arrays
  exact (bigSep_congr fun w _ => by rw [(arr_whole7 w).set_eq_univ, share7]).trans (bigSep_W7 _)

/-- The arrays when the region is left: the inputs as they were, the output at `loss7Out`. -/
def loss7Final : Loss7Arrs F c := loss7Arrs c (A 0) (A 1) (A 2) (A 3) (loss7Out c A)

theorem arrAt7_final (w : Fin cfg7.W) : (dat7 c A O Rc).arrAt w cfg7.N = loss7Final c A w := by
  match w with
  | ⟨0, _⟩ => exact arrAt7_0 c A O Rc _
  | ⟨1, _⟩ => exact arrAt7_1 c A O Rc _
  | ⟨2, _⟩ => exact arrAt7_2 c A O Rc _
  | ⟨3, _⟩ => exact arrAt7_3 c A O Rc _
  | ⟨4, _⟩ => exact arrAt7_4 c A O Rc

/-- What the core owes, as the pipeline holds it at any point. -/
theorem owesAt7 (t : Fin (cfg7.N + 1)) :
    ((dat7 c A O Rc).owesAt none t : sProp 𝕄) = Pipeline.owesWithin c O (Rc ∪ cfg7.waitPairs (none : HIx 4)) := rfl

/-- The pipeline has no prefetched table. -/
theorem prefHeld7_emp (q) (pf) :
    (Pipeline.prefHeld (pcfgs (F := F) loss7P).pre c q pf : sProp 𝕄) = BI.emp := by
  unfold Pipeline.prefHeld
  show bigSep (Finset.univ : Finset (Fin 0)) _ = _
  rw [Finset.univ_eq_empty, BI.bigSep_empty]

/-- The invariant at the first point is the scoped rest. -/
theorem loss7_hin (X : sProp 𝕄) (q) (pf) :
    iprop(X ∗ Pipeline.prefHeld (pcfgs (F := F) loss7P).pre c q pf ∗ Pipeline.scopedRest cfg7.spec c)
      ⊢ ((dat7 c A O Rc).Φ 0 : sProp 𝕄) := by
  rw [show (dat7 c A O Rc).Φ 0 = Pipeline.scopedRest cfg7.spec c from rfl]
  iintro ⟨-, -, H⟩; iexact H

/-- The invariant at the last point gives it back. -/
theorem loss7_hout :
    ((dat7 c A O Rc).Φ (Fin.last cfg7.N) : sProp 𝕄)
      ⊢ iprop(BI.emp ∗ Pipeline.ownSems0 (fun k : PEmpty => k.elim) c ∗ Pipeline.scopedRest cfg7.spec c) := by
  rw [show (dat7 c A O Rc).Φ (Fin.last cfg7.N) = Pipeline.scopedRest cfg7.spec c from rfl, Pipeline.ownSems0_none]
  iintro H
  isplitr; · iempintro
  isplitr; · iempintro
  iexact H

/-- ENTRY: the five arrays and what the core owes are what the pipeline starts from. -/
theorem loss7_hentry (R : sProp 𝕄) (q) (pf) :
    iprop((loss7Held c A ∗ (dat7 c A O Rc).owesAt none 0) ∗ R)
      ⊢ |={Set.univ}=> iprop((dat7 c A O Rc).arrays ((dat7 c A O Rc).arrAt · 0)
          ∗ Pipeline.prefHeld (pcfgs (F := F) loss7P).pre c q pf ∗ (dat7 c A O Rc).owesAt none 0 ∗ BI.emp ∗ BI.emp) := by
  rw [arrays7_eq, prefHeld7_emp]
  iintro ⟨⟨HA, HO⟩, -⟩
  imodintro
  isplitl [HA]; · iexact HA
  isplitr; · iempintro
  isplitl [HO]; · iexact HO
  isplitr <;> iempintro

/-- EXIT: the pipeline's arrays after every write-back are the five arrays at `loss7Final`. -/
theorem loss7_hexit :
    iprop((dat7 c A O Rc).arrays ((dat7 c A O Rc).arrAt · cfg7.N) ∗ (dat7 c A O Rc).owesAt none (Fin.last cfg7.N) ∗ BI.emp ∗ BI.emp)
      ⊢ |={Set.univ}=> iprop(loss7Held c (loss7Final c A) ∗ (dat7 c A O Rc).owesAt none 0) := by
  rw [arrays7_eq, show (fun w => (dat7 c A O Rc).arrAt w cfg7.N) = loss7Final c A from funext (arrAt7_final c A O Rc)]
  iintro ⟨HA, HO, -, -⟩
  imodintro
  isplitl [HA]; · iexact HA
  iexact HO

/-! ## The layout facts, in the region rule's spelling -/

section Fields

variable (a : (p : Fin 4) → (pcfgs (F := F) p).Adm)

theorem loss7_win : Pipeline.WinFacts₀ (pcfgs (F := F) loss7P).spec := winFacts7.to₀

theorem loss7_block_pos : ∀ w : Fin (Pipeline.pin (pcfgs (F := F)) a loss7P).W,
    0 < ((Pipeline.pin (pcfgs (F := F)) a loss7P).spec w).block.numel := block_pos7

theorem loss7_stage_whole : ∀ (w : Fin (Pipeline.pin (pcfgs (F := F)) a loss7P).W)
    (s : Fin ((Pipeline.pin (pcfgs (F := F)) a loss7P).spec w).nbuf),
    (((Pipeline.pin (pcfgs (F := F)) a loss7P).spec w).stage s).IsWhole := stage_whole7

theorem loss7_ho : Pipeline.OwnSemFacts (pcfgs (F := F) loss7P).spec (fun k : PEmpty => k.elim) :=
  Pipeline.OwnSemFacts.none _

/-- The proof data is the pinned configuration's. -/
example : Dat τ (Elt F) (HIx 4) ℕ UU ℕ (Pipeline.pin (pcfgs (F := F)) a loss7P) c := dat7 c A O Rc

end Fields

/-! ## The loads of whole blocks are the blocks -/

/-- A load through the unit-stride rectangle at offset zero of the shape's own extents reads the contents. -/
theorem loss7_ld_whole {S : Shape} {e : EltTy} (X : S.Idx → Elt F e) (off : Fin S.rank → ℕ) (h0 : ∀ a, off a = 0)
    (inb : ∀ a, off a + S.size a ≤ S.size a) :
    View.ld (Val := Elt F) X (Rect.unit (s := S) off S.size inb) = X := by
  funext j
  show X ((Rect.unit (s := S) off S.size inb).idx j) = X j
  congr 1
  funext a; apply Fin.ext
  show off a + 1 * (j a : ℕ) = (j a : ℕ)
  rw [h0 a]; omega

theorem loss7In_eq (x : Vec F S1024x128 .f32) : loss7In x = x :=
  loss7_ld_whole x _ (fun a => by fin_cases a <;> rfl) _

/-- At a later point the step is over the previous contents themselves. -/
theorem loss7StepB_eq (x0 x1 : Vec F S1024x128 .f32) (x2 : Vec F S20x1024x128 .f32) (x3 : Vec F S2688x21 .bf16)
    (prev : Vec F S1x1 .f32) : loss7StepB x0 x1 x2 x3 prev = loss7Step x0 x1 x2 x3 prev := by
  unfold loss7StepB
  rw [loss7_ld_whole prev _ (fun a => by fin_cases a <;> rfl) _]

/-- The sign matrix is read whole. -/
theorem loss7Step_eq (x0 x1 : Vec F S1024x128 .f32) (x2 : Vec F S20x1024x128 .f32) (x3 : Vec F S2688x21 .bf16)
    (acc : Vec F S1x1 .f32) : loss7Step x0 x1 x2 x3 acc = k7_pay4 (loss7Z x0 x1 x2) x3 acc := by
  unfold loss7Step
  rw [loss7_ld_whole x3 _ (fun a => by fin_cases a <;> rfl) _]

end Cert.Proof.KI

end
-- ==== Proof.KI_Region3.lean ====
/-
  Region 3 of @main in the shape @main's proof consumes it: its five arrays leave the held set as the pipeline's
  five points-tos, what the TensorCore owes leaves its handshake state with the bound on its recorded pairs, the
  region runs by the pipeline's rule, and both are put back — the (1,1) cell at the summed block losses.
-/
import proofs.«215899_g5772436046013_cont_9to1c4b_742_31_alg».proof.Proof.KI_RegionBase
import proofs.«215899_g5772436046013_cont_9to1c4b_742_31_alg».proof.Proof.KI_Loss7Region

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

open Idealize.ShloMosaic.TcCoe
open Idealize.ShloMosaic.Pipeline (Dat)

local notation "𝕄" => MT nD τ sig (HIx 4) (Elt F) ℕ UU ℕ

variable (𝔭 : Dev nD → Pure F) (m : (ℓ : Loc nD τ sig) → Buf (Elt F) ℓ)

/-- Region 3's five arrays as @main's chain has them at its entry. -/
def regA3 (c : Dev nD) : Loss7Arrs F c :=
  loss7Arrs c (W15 (𝔭 c) m c (rT main_v45_0)) (W15 (𝔭 c) m c (rT main_v45_1)) (W15 (𝔭 c) m c (rT main_v46)) (W15 (𝔭 c) m c (rT main_v23)) (W15 (𝔭 c) m c (rT main_v47))

variable (pd : (p : Fin 4) → (c : Dev nD) → Dat τ (Elt F) (HIx 4) ℕ UU ℕ (Pipeline.pin (pcfgs (F := F)) aT p) c)
  (hpd3 : ∀ c, pd 3 c = dat7 c (regA3 𝔭 m c) ((K (F := F)).Otc c 4) (Rcn (F := F) c 4))

include hpd3 in
/-- Region 3 as the pipeline's rule takes it. -/
def R3 : Pipeline.RegionSeg (pcfgs (F := F)) aT pd (none : HIx 4) defs₀ 𝒱₀ (K (F := F)).L (K (F := F)).lev (3 : Fin 4) where
  win := loss7_win
  block_pos := loss7_block_pos aT
  stage_whole := loss7_stage_whole aT
  K := PEmpty
  osem := fun k => k.elim
  ho := loss7_ho
  hbody := fun c => by rw [hpd3 c]; exact body_obligation7_loose c _ _ _
  hwaits := fun c => Pipeline.cellsWaits_intro (Pipeline.pin (pcfgs (F := F)) aT) pd (none : HIx 4) 3 c fun w s t => by
    rw [hpd3 c]; exact (K (F := F)).mayWait_none _ (Otc_none c 4)
  pre := fun c => iprop(loss7Held c (regA3 𝔭 m c) ∗ (dat7 c (regA3 𝔭 m c) ((K (F := F)).Otc c 4) (Rcn (F := F) c 4)).owesAt none 0)
  post := fun c => iprop(loss7Held c (loss7Final c (regA3 𝔭 m c)) ∗ (dat7 c (regA3 𝔭 m c) ((K (F := F)).Otc c 4) (Rcn (F := F) c 4)).owesAt none 0)
  X := fun _ => iprop(emp)
  Y := fun _ => iprop(emp)
  Z := fun _ => iprop(emp)
  hentry := fun c => by rw [hpd3 c]; exact loss7_hentry c _ _ _ _ _ _
  hin := fun c => by rw [hpd3 c]; exact loss7_hin c _ _ _ _ _ _
  hout := fun c => by rw [hpd3 c]; exact loss7_hout c _ _ _
  hexit := fun c => by rw [hpd3 c]; exact loss7_hexit c _ _ _

include hpd3 in
theorem R3_pre (c : Dev nD) : (R3 𝔭 m pd hpd3).pre c
    = iprop(loss7Held c (regA3 𝔭 m c) ∗ (dat7 c (regA3 𝔭 m c) ((K (F := F)).Otc c 4) (Rcn (F := F) c 4)).owesAt none 0) := rfl
include hpd3 in
theorem R3_post (c : Dev nD) : (R3 𝔭 m pd hpd3).post c
    = iprop(loss7Held c (loss7Final c (regA3 𝔭 m c)) ∗ (dat7 c (regA3 𝔭 m c) ((K (F := F)).Otc c 4) (Rcn (F := F) c 4)).owesAt none 0) := rfl

/-! ## The five arrays in and out of the held set, the owed units in and out of the handshake state -/

abbrev RegRefs3 : Finset (DevRef τ sig) := {rT main_v45_0, rT main_v45_1, rT main_v46, rT main_v23, rT main_v47}
omit [FloatOps F] in
theorem RegRefs3_uc : RegRefs3 ⊆ Pipeline.ucRefs τ sig := by decide

omit [FloatOps F] in
/-- The five arrays held whole at a valuation are the region's five points-tos at its entries. -/
theorem held_reg3 (d : Dev nD) (W : Valuation τ sig (Elt F)) :
    (held (T d) RegRefs3 W : sProp 𝕄)
      = loss7Held d (loss7Arrs d (W (rT main_v45_0)) (W (rT main_v45_1)) (W (rT main_v46)) (W (rT main_v23)) (W (rT main_v47))) := by
  unfold held loss7Held RegRefs3
  rw [SparseCore.bigSep_insert' (by decide), SparseCore.bigSep_insert' (by decide), SparseCore.bigSep_insert' (by decide),
    SparseCore.bigSep_insert' (by decide), bigSep_singleton]
  rfl

omit [FloatOps F] in
/-- What the TensorCore owes before call `n`, out of its handshake state, is what the pipeline holds it as. -/
theorem owes_in3 (d : Dev nD) (n : ℕ) :
    (iprop(∃ W, ⌜(K (F := F)).WBelow (T d) W (8 * n)⌝ ∗ owes (T d) ((K (F := F)).Otc d n) W) : sProp 𝕄)
      ⊢ Pipeline.owesWithin d ((K (F := F)).Otc d n) (Rcn (F := F) d n ∪ cfg7.waitPairs (none : HIx 4)) := by
  iintro ⟨%W, %hW, HO⟩
  iexists W; isplitr
  · ipureintro; exact fun p hp => Or.inl (hW p hp)
  iexact HO

omit [FloatOps F] in
/-- And back: the pipeline's own waits are at no index, the lowest level. -/
theorem owes_out3 (d : Dev nD) (n : ℕ) :
    (Pipeline.owesWithin d ((K (F := F)).Otc d n) (Rcn (F := F) d n ∪ cfg7.waitPairs (none : HIx 4)) : sProp 𝕄)
      ⊢ iprop(∃ W, ⌜(K (F := F)).WBelow (T d) W (8 * n)⌝ ∗ owes (T d) ((K (F := F)).Otc d n) W) := by
  iintro ⟨%W, %hW, HO⟩
  iexists W; isplitr
  · ipureintro
    intro p hp
    rcases hW hp with h | ⟨w, s, rfl⟩
    · exact h
    · show (K (F := F)).lev _ none ≤ _
      rw [(K (F := F)).lev_none]; exact Nat.zero_le _
  iexact HO

variable (P : (K (F := F)).Pay (nD := nD) (Val := Elt F) (Name := ℕ) (U := UU))

/-- After region 3 the five arrays are the region's exit contents, when the chain's function for the region is the
    pipeline's. -/
theorem W16_reg (d : Dev nD)
    (h𝔭 : ∀ a0 a1 a2 a3 aOut, (𝔭 d).loss3 a0 a1 a2 a3 aOut = loss7Out d (loss7Arrs d a0 a1 a2 a3 aOut)) :
    loss7Arrs d (W16 (𝔭 d) m d (rT main_v45_0)) (W16 (𝔭 d) m d (rT main_v45_1)) (W16 (𝔭 d) m d (rT main_v46)) (W16 (𝔭 d) m d (rT main_v23)) (W16 (𝔭 d) m d (rT main_v47))
      = loss7Final d (regA3 𝔭 m d) := by
  have e0 : W16 (𝔭 d) m d (rT main_v45_0) = W15 (𝔭 d) m d (rT main_v45_0) := by
    unfold W16; exact Function.update_of_ne (by decide) _ _
  have e1 : W16 (𝔭 d) m d (rT main_v45_1) = W15 (𝔭 d) m d (rT main_v45_1) := by
    unfold W16; exact Function.update_of_ne (by decide) _ _
  have e2 : W16 (𝔭 d) m d (rT main_v46) = W15 (𝔭 d) m d (rT main_v46) := by
    unfold W16; exact Function.update_of_ne (by decide) _ _
  have e3 : W16 (𝔭 d) m d (rT main_v23) = W15 (𝔭 d) m d (rT main_v23) := by
    unfold W16; exact Function.update_of_ne (by decide) _ _
  have e4 : W16 (𝔭 d) m d (rT main_v47) = loss7Out d (regA3 𝔭 m d) := by
    unfold W16; rw [Function.update_self]; exact h𝔭 _ _ _ _ _
  rw [e0, e1, e2, e3, e4]
  rfl

theorem W16_rest (d : Dev nD) (b : DevRef τ sig) (hb : b ∈ Pipeline.ucRefs τ sig \ RegRefs3) : W16 (𝔭 d) m d b = W15 (𝔭 d) m d b := by
  have hb' := (Finset.mem_sdiff.mp hb).2
  simp only [RegRefs3, Finset.mem_insert, Finset.mem_singleton, not_or] at hb'
  unfold W16
  rw [Function.update_of_ne hb'.2.2.2.2]

include hpd3 in
/-- Region 3 of @main. -/
theorem region3_step [∀ e, Nonempty (Elt F e)] (d : Dev nD)
    (h𝔭 : ∀ a0 a1 a2 a3 aOut, (𝔭 d).loss3 a0 a1 a2 a3 aOut = loss7Out d (loss7Arrs d a0 a1 a2 a3 aOut)) :
    RegionStep d P aT 3 4 (W15 (𝔭 d) m d) (W16 (𝔭 d) m d) := by
  intro κ α k Φ
  unfold SparseCore.Cfg.tcSt
  rw [held_sub_split (T d) RegRefs3_uc (W15 (𝔭 d) m d), held_sub_split (T d) RegRefs3_uc (W16 (𝔭 d) m d), held_congr (T d) (W16_rest 𝔭 m d),
    held_reg3, held_reg3, W16_reg 𝔭 m d h𝔭]
  iintro ⟨Hk, Hb, ⟨Hreg, Hrest⟩, ⟨HO, Hst'⟩, #Hctx, Hg, Ht⟩
  ihave Hlv := ((K (F := F)).ctx_levAts κ) $$ Hctx
  ihave HO' := (owes_in3 d 4) $$ HO
  have hstep := step_region aT pd phinjT 3 (R3 𝔭 m pd hpd3) d k Φ
  rw [R3_pre, R3_post] at hstep
  iapply (hstep) $$ [Hk Hb Hreg Hrest HO' Hst' Hlv Hg Ht]
  isplitl [Hk Hrest Hst']
  · iintro ⟨Hb, Hreg, HO⟩
    iapply Hk
    isplitl [Hb]; · iexact Hb
    isplitl [Hreg Hrest]
    · isplitl [Hreg]; · iexact Hreg
      iexact Hrest
    isplitl [HO]; · iapply (owes_out3 d 4); iexact HO
    iexact Hst'
  isplitl [Hb]; · iexact Hb
  isplitl [Hreg HO']
  · isplitl [Hreg]; · iexact Hreg
    iexact HO'
  isplitl [Hlv]; · iexact Hlv
  isplitl [Hg]; · iexact Hg
  iexact Ht

end Cert.Proof.KI

end
-- ==== Proof.KI_Fin.lean ====
/-
  The program's arguments along @main's chain of contents: no stretch of host operations writes an argument array and no
  call or region has one among its results, so at @main's end each argument array holds its launch contents.
-/
import proofs.«215899_g5772436046013_cont_9to1c4b_742_31_alg».proof.Proof.KI_Vals

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

variable (𝔭 : Pure F) (m : (ℓ : Loc nD τ sig) → Buf (Elt F) ℓ) (d : Dev nD)

theorem Wfin_main_arg0 : Wfin 𝔭 m d (rT main_arg0) = m (d, rT main_arg0) := by
  unfold Wfin W17 opsB3; after_results
  unfold W16; rw [Function.update_of_ne (show rT main_arg0 ≠ rT main_v47 by decide)]
  unfold W15 opsA3; after_results
  unfold W14; rw [Function.update_of_ne (show rT main_arg0 ≠ rT main_v45_2 by decide), Function.update_of_ne (show rT main_arg0 ≠ rT main_v45_1 by decide), Function.update_of_ne (show rT main_arg0 ≠ rT main_v45_0 by decide)]
  unfold W13 opsB2; after_results
  unfold W12; rw [Function.update_of_ne (show rT main_arg0 ≠ rT main_v41 by decide)]
  unfold W11 opsA2; after_results
  unfold W10; rw [Function.update_of_ne (show rT main_arg0 ≠ rT main_v39_2 by decide), Function.update_of_ne (show rT main_arg0 ≠ rT main_v39_1 by decide), Function.update_of_ne (show rT main_arg0 ≠ rT main_v39_0 by decide)]
  unfold W9 opsB1; after_results
  unfold W8; rw [Function.update_of_ne (show rT main_arg0 ≠ rT main_v35 by decide)]
  unfold W7 opsA1; after_results
  unfold W6; rw [Function.update_of_ne (show rT main_arg0 ≠ rT main_v33_2 by decide), Function.update_of_ne (show rT main_arg0 ≠ rT main_v33_1 by decide), Function.update_of_ne (show rT main_arg0 ≠ rT main_v33_0 by decide)]
  unfold W5 opsB0; after_results
  unfold W4; rw [Function.update_of_ne (show rT main_arg0 ≠ rT main_v29 by decide)]
  unfold W3 opsA0; after_results
  unfold W2; rw [Function.update_of_ne (show rT main_arg0 ≠ rT main_v27_2 by decide), Function.update_of_ne (show rT main_arg0 ≠ rT main_v27_1 by decide), Function.update_of_ne (show rT main_arg0 ≠ rT main_v27_0 by decide)]
  unfold W1 opsH; after_results

theorem Wfin_main_arg1 : Wfin 𝔭 m d (rT main_arg1) = m (d, rT main_arg1) := by
  unfold Wfin W17 opsB3; after_results
  unfold W16; rw [Function.update_of_ne (show rT main_arg1 ≠ rT main_v47 by decide)]
  unfold W15 opsA3; after_results
  unfold W14; rw [Function.update_of_ne (show rT main_arg1 ≠ rT main_v45_2 by decide), Function.update_of_ne (show rT main_arg1 ≠ rT main_v45_1 by decide), Function.update_of_ne (show rT main_arg1 ≠ rT main_v45_0 by decide)]
  unfold W13 opsB2; after_results
  unfold W12; rw [Function.update_of_ne (show rT main_arg1 ≠ rT main_v41 by decide)]
  unfold W11 opsA2; after_results
  unfold W10; rw [Function.update_of_ne (show rT main_arg1 ≠ rT main_v39_2 by decide), Function.update_of_ne (show rT main_arg1 ≠ rT main_v39_1 by decide), Function.update_of_ne (show rT main_arg1 ≠ rT main_v39_0 by decide)]
  unfold W9 opsB1; after_results
  unfold W8; rw [Function.update_of_ne (show rT main_arg1 ≠ rT main_v35 by decide)]
  unfold W7 opsA1; after_results
  unfold W6; rw [Function.update_of_ne (show rT main_arg1 ≠ rT main_v33_2 by decide), Function.update_of_ne (show rT main_arg1 ≠ rT main_v33_1 by decide), Function.update_of_ne (show rT main_arg1 ≠ rT main_v33_0 by decide)]
  unfold W5 opsB0; after_results
  unfold W4; rw [Function.update_of_ne (show rT main_arg1 ≠ rT main_v29 by decide)]
  unfold W3 opsA0; after_results
  unfold W2; rw [Function.update_of_ne (show rT main_arg1 ≠ rT main_v27_2 by decide), Function.update_of_ne (show rT main_arg1 ≠ rT main_v27_1 by decide), Function.update_of_ne (show rT main_arg1 ≠ rT main_v27_0 by decide)]
  unfold W1 opsH; after_results

theorem Wfin_main_arg2 : Wfin 𝔭 m d (rT main_arg2) = m (d, rT main_arg2) := by
  unfold Wfin W17 opsB3; after_results
  unfold W16; rw [Function.update_of_ne (show rT main_arg2 ≠ rT main_v47 by decide)]
  unfold W15 opsA3; after_results
  unfold W14; rw [Function.update_of_ne (show rT main_arg2 ≠ rT main_v45_2 by decide), Function.update_of_ne (show rT main_arg2 ≠ rT main_v45_1 by decide), Function.update_of_ne (show rT main_arg2 ≠ rT main_v45_0 by decide)]
  unfold W13 opsB2; after_results
  unfold W12; rw [Function.update_of_ne (show rT main_arg2 ≠ rT main_v41 by decide)]
  unfold W11 opsA2; after_results
  unfold W10; rw [Function.update_of_ne (show rT main_arg2 ≠ rT main_v39_2 by decide), Function.update_of_ne (show rT main_arg2 ≠ rT main_v39_1 by decide), Function.update_of_ne (show rT main_arg2 ≠ rT main_v39_0 by decide)]
  unfold W9 opsB1; after_results
  unfold W8; rw [Function.update_of_ne (show rT main_arg2 ≠ rT main_v35 by decide)]
  unfold W7 opsA1; after_results
  unfold W6; rw [Function.update_of_ne (show rT main_arg2 ≠ rT main_v33_2 by decide), Function.update_of_ne (show rT main_arg2 ≠ rT main_v33_1 by decide), Function.update_of_ne (show rT main_arg2 ≠ rT main_v33_0 by decide)]
  unfold W5 opsB0; after_results
  unfold W4; rw [Function.update_of_ne (show rT main_arg2 ≠ rT main_v29 by decide)]
  unfold W3 opsA0; after_results
  unfold W2; rw [Function.update_of_ne (show rT main_arg2 ≠ rT main_v27_2 by decide), Function.update_of_ne (show rT main_arg2 ≠ rT main_v27_1 by decide), Function.update_of_ne (show rT main_arg2 ≠ rT main_v27_0 by decide)]
  unfold W1 opsH; after_results

theorem Wfin_main_arg3 : Wfin 𝔭 m d (rT main_arg3) = m (d, rT main_arg3) := by
  unfold Wfin W17 opsB3; after_results
  unfold W16; rw [Function.update_of_ne (show rT main_arg3 ≠ rT main_v47 by decide)]
  unfold W15 opsA3; after_results
  unfold W14; rw [Function.update_of_ne (show rT main_arg3 ≠ rT main_v45_2 by decide), Function.update_of_ne (show rT main_arg3 ≠ rT main_v45_1 by decide), Function.update_of_ne (show rT main_arg3 ≠ rT main_v45_0 by decide)]
  unfold W13 opsB2; after_results
  unfold W12; rw [Function.update_of_ne (show rT main_arg3 ≠ rT main_v41 by decide)]
  unfold W11 opsA2; after_results
  unfold W10; rw [Function.update_of_ne (show rT main_arg3 ≠ rT main_v39_2 by decide), Function.update_of_ne (show rT main_arg3 ≠ rT main_v39_1 by decide), Function.update_of_ne (show rT main_arg3 ≠ rT main_v39_0 by decide)]
  unfold W9 opsB1; after_results
  unfold W8; rw [Function.update_of_ne (show rT main_arg3 ≠ rT main_v35 by decide)]
  unfold W7 opsA1; after_results
  unfold W6; rw [Function.update_of_ne (show rT main_arg3 ≠ rT main_v33_2 by decide), Function.update_of_ne (show rT main_arg3 ≠ rT main_v33_1 by decide), Function.update_of_ne (show rT main_arg3 ≠ rT main_v33_0 by decide)]
  unfold W5 opsB0; after_results
  unfold W4; rw [Function.update_of_ne (show rT main_arg3 ≠ rT main_v29 by decide)]
  unfold W3 opsA0; after_results
  unfold W2; rw [Function.update_of_ne (show rT main_arg3 ≠ rT main_v27_2 by decide), Function.update_of_ne (show rT main_arg3 ≠ rT main_v27_1 by decide), Function.update_of_ne (show rT main_arg3 ≠ rT main_v27_0 by decide)]
  unfold W1 opsH; after_results

theorem Wfin_main_arg4 : Wfin 𝔭 m d (rT main_arg4) = m (d, rT main_arg4) := by
  unfold Wfin W17 opsB3; after_results
  unfold W16; rw [Function.update_of_ne (show rT main_arg4 ≠ rT main_v47 by decide)]
  unfold W15 opsA3; after_results
  unfold W14; rw [Function.update_of_ne (show rT main_arg4 ≠ rT main_v45_2 by decide), Function.update_of_ne (show rT main_arg4 ≠ rT main_v45_1 by decide), Function.update_of_ne (show rT main_arg4 ≠ rT main_v45_0 by decide)]
  unfold W13 opsB2; after_results
  unfold W12; rw [Function.update_of_ne (show rT main_arg4 ≠ rT main_v41 by decide)]
  unfold W11 opsA2; after_results
  unfold W10; rw [Function.update_of_ne (show rT main_arg4 ≠ rT main_v39_2 by decide), Function.update_of_ne (show rT main_arg4 ≠ rT main_v39_1 by decide), Function.update_of_ne (show rT main_arg4 ≠ rT main_v39_0 by decide)]
  unfold W9 opsB1; after_results
  unfold W8; rw [Function.update_of_ne (show rT main_arg4 ≠ rT main_v35 by decide)]
  unfold W7 opsA1; after_results
  unfold W6; rw [Function.update_of_ne (show rT main_arg4 ≠ rT main_v33_2 by decide), Function.update_of_ne (show rT main_arg4 ≠ rT main_v33_1 by decide), Function.update_of_ne (show rT main_arg4 ≠ rT main_v33_0 by decide)]
  unfold W5 opsB0; after_results
  unfold W4; rw [Function.update_of_ne (show rT main_arg4 ≠ rT main_v29 by decide)]
  unfold W3 opsA0; after_results
  unfold W2; rw [Function.update_of_ne (show rT main_arg4 ≠ rT main_v27_2 by decide), Function.update_of_ne (show rT main_arg4 ≠ rT main_v27_1 by decide), Function.update_of_ne (show rT main_arg4 ≠ rT main_v27_0 by decide)]
  unfold W1 opsH; after_results

end Cert.Proof.KI

end
-- ==== Proof.KI_Main.lean ====
/-
  The program's run: the pipelines' proof data as one family over the four regions, @main's proof with every call's and
  region's step supplied, how the final memory reads the held arrays, and the launch theorem applied — every weakly fair
  execution of the TensorCore, the two sequencers and the thirty-two tiles terminates, nothing faulting, with the result
  cell at the chain's final contents and the five argument arrays at their launch contents.
-/
import proofs.«215899_g5772436046013_cont_9to1c4b_742_31_alg».proof.Proof.KI_Calls
import proofs.«215899_g5772436046013_cont_9to1c4b_742_31_alg».proof.Proof.KI_Region0
import proofs.«215899_g5772436046013_cont_9to1c4b_742_31_alg».proof.Proof.KI_Region1
import proofs.«215899_g5772436046013_cont_9to1c4b_742_31_alg».proof.Proof.KI_Region2
import proofs.«215899_g5772436046013_cont_9to1c4b_742_31_alg».proof.Proof.KI_Region3
import proofs.«215899_g5772436046013_cont_9to1c4b_742_31_alg».proof.Proof.KI_Fin

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

open Idealize.ShloMosaic.TcCoe
open Idealize.ShloMosaic.Pipeline (Dat)

local notation "𝕄" => MT nD τ sig (HIx 4) (Elt F) ℕ UU ℕ

variable (m : (ℓ : Loc nD τ sig) → Buf (Elt F) ℓ) (ρ : Dev nD → PrngReg)

/-- The four pipelines' proof data: region p's arrays as @main's chain has them at its entry, the TensorCore owing its
    later start signals throughout, its recorded pairs bounded as before the next call. -/
def pdK : (p : Fin 4) → (c : Dev nD) → Dat τ (Elt F) (HIx 4) ℕ UU ℕ (Pipeline.pin (pcfgs (F := F)) aT p) c
  | ⟨0, _⟩ => fun c => dat1 c (regA0 pureK m c) ((K (F := F)).Otc c 1) (Rcn (F := F) c 1)
  | ⟨1, _⟩ => fun c => dat3 c (regA1 pureK m c) ((K (F := F)).Otc c 2) (Rcn (F := F) c 2)
  | ⟨2, _⟩ => fun c => dat5 c (regA2 pureK m c) ((K (F := F)).Otc c 3) (Rcn (F := F) c 3)
  | ⟨3, _⟩ => fun c => dat7 c (regA3 pureK m c) ((K (F := F)).Otc c 4) (Rcn (F := F) c 4)

/-- @main on the TensorCore of device `d`. -/
theorem hmainK [∀ e, Nonempty (Elt F e)] (κ : GSem nD τ sig → ℕ) (d : Dev nD) :
    iprop((K (F := F)).ctx EH (PK m) κ ∗ (K (F := F)).tcSt EH d 0 ∗ (K (F := F)).tcRes m ρ d ∗ G (F := F) aT d)
      ⊢ wp frame (wpE ((K (F := F)).defs (D (F := F))) 𝒱 (T d) none) Set.univ (main d)
          fun _ => iprop((K (F := F)).tcSt EH d 4 ∗ FIN (pureK d) m d) :=
  hmain (pureK d) m ρ d (PK m) aT κ
    (call0_step m d) (region0_step pureK m (pdK m) (fun _ => rfl) (PK m) d (fun _ _ _ _ _ => rfl))
    (call1_step m d) (region1_step pureK m (pdK m) (fun _ => rfl) (PK m) d (fun _ _ _ _ _ => rfl))
    (call2_step m d) (region2_step pureK m (pdK m) (fun _ => rfl) (PK m) d (fun _ _ _ _ _ => rfl))
    (call3_step m d) (region3_step pureK m (pdK m) (fun _ => rfl) (PK m) d (fun _ _ _ _ _ => rfl))

/-- What the final memory is read for on device `d`: every unscoped array at the chain's final contents. -/
def fq (d : Dev nD) (s' : Phys nD τ sig (Elt F)) : Prop :=
  ∀ b ∈ Pipeline.ucRefs τ sig, s'.mem.mem (d, b) = Wfin (pureK d) m d b

theorem hfin (d : Dev nD) (s' : Phys nD τ sig (Elt F)) : iprop(FIN (pureK d) m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- The run's post: the result cell at the chain's final contents, the arguments unchanged. -/
def QC : PUnit × MemSt nD τ sig (Elt F) → Prop := fun r => ∀ c : Dev nD,
  r.2.mem ((SparseCore.T c : Thread nD τ).loc main_v51) = Wfin (pureK c) m c (rT main_v51)
    ∧ r.2.mem ((SparseCore.T c : Thread nD τ).loc main_arg0) = m ((SparseCore.T c : Thread nD τ).loc main_arg0) ∧ r.2.mem ((SparseCore.T c : Thread nD τ).loc main_arg1) = m ((SparseCore.T c : Thread nD τ).loc main_arg1)
    ∧ r.2.mem ((SparseCore.T c : Thread nD τ).loc main_arg2) = m ((SparseCore.T c : Thread nD τ).loc main_arg2) ∧ r.2.mem ((SparseCore.T c : Thread nD τ).loc main_arg3) = m ((SparseCore.T c : Thread nD τ).loc main_arg3)
    ∧ r.2.mem ((SparseCore.T c : Thread nD τ).loc main_arg4) = m ((SparseCore.T c : Thread nD τ).loc main_arg4)

/-- Every tile's share is storable. -/
theorem PK_storable : (PK m).IsStorable :=
  mkP_storable (gofK m) (tdfK m)
    (fun q d c i => match q with
      | ⟨0, _⟩ => by unfold gofK; infer_instance
      | ⟨1, _⟩ => by unfold gofK; infer_instance
      | ⟨2, _⟩ => by unfold gofK; infer_instance
      | ⟨3, _⟩ => by unfold gofK; infer_instance)
    (fun q d c i => match q with
      | ⟨0, _⟩ => by unfold tdfK; infer_instance
      | ⟨1, _⟩ => by unfold tdfK; infer_instance
      | ⟨2, _⟩ => by unfold tdfK; infer_instance
      | ⟨3, _⟩ => by unfold tdfK; infer_instance)

/-- The program's run, from the tiles' obligations. -/
theorem run_main [∀ e, Nonempty (Elt F e)] (htile : ∀ q, (K (F := F)).TileObl (D (F := F)) 𝒱 (PK m) v₀ q) :
    θ_run (Cert.KernelIdeal.defs (F := F)) (Cert.KernelIdeal.threads (F := F)) ⟨m, fun _ => 0, ρ⟩ (QC m) :=
  haveI := PK_storable m
  SparseCore.Cfg.θ_run_sc (K := K (F := F)) (D := D (F := F)) (𝒱 := 𝒱) (EH := EH) (P := PK m) facts v₀
    (fun q hq => by
      have h : (K (F := F)).kind q = Kind.scVector := by fin_cases q <;> rfl
      rw [h] at hq
      exact absurd hq (by decide))
    (fun q _ => htile q)
    (fun q _ => SparseCore.Cfg.VecSplit.of_plain (vecSplit (gofK m) (tdfK m) q))
    m ρ main (G (F := F) aT) (fun d => FIN (pureK d) m d) (u₀ (F := F) aT phinjT)
    (sep_elim_left.trans (hu₀ (gofK m) (tdfK m) aT phinjT)) (hmainK m ρ) (fq m) (hfin m) (QC m)
    (fun s' h c => ⟨h c (rT main_v51) (by decide),
      (h c (rT main_arg0) (by decide)).trans (Wfin_main_arg0 (pureK c) m c),
      (h c (rT main_arg1) (by decide)).trans (Wfin_main_arg1 (pureK c) m c),
      (h c (rT main_arg2) (by decide)).trans (Wfin_main_arg2 (pureK c) m c),
      (h c (rT main_arg3) (by decide)).trans (Wfin_main_arg3 (pureK c) m c),
      (h c (rT main_arg4) (by decide)).trans (Wfin_main_arg4 (pureK c) m c)⟩)

end Cert.Proof.KI

end
-- ==== Proof.KI_Index.lean ====
/-
  The index rows along @main: the first stretch lays the batch's centre words, positive words and negative draws
  out per quarter and worker (a row of centre words, a row of positive words, twenty rows of draws, two rows of
  zeros, 128 words a row); each quarter's 768 rows are cut from that one array, which no later step rewrites.
  Read at an index, row 24 w + k of quarter s holds the words of the 128 batch entries 4096 s + 128 w …; under the
  input domain's ranges every word of rows 0 … 21 of a worker names a row of the tables.
-/
import proofs.«215899_g5772436046013_cont_9to1c4b_742_31_alg».proof.Proof.KI_Vals
import Idealize.ShloMosaic.Lib.ValueIdx
import Idealize.ShloMosaic.Lib.ValueLayout
import Idealize.ShloMosaic.Lib.Pipeline.Value

noncomputable section

namespace Cert.Proof.KI

open Cert.KernelIdeal Cert.KernelIdeal.Gen

open Idealize.ShloMosaic
open Idealize.ShloMosaic.StableHlo
open Idealize.ShloMosaic.ValueIdx

variable {F : FTy → Type} [FloatOps F]
variable (𝔭 : Pure F) (m : (ℓ : Loc nD τ sig) → Buf (Elt F) ℓ) (d : Dev nD)

/-! ## The launch memory's words -/

/-- The centre words. -/
abbrev cenW : IVec S16384 32 := m (d, rT main_arg2)
/-- The positive words. -/
abbrev posW : IVec S16384 32 := m (d, rT main_arg3)
/-- The negative draws: twenty words a batch entry. -/
abbrev negW : IVec S16384x20 32 := m (d, rT main_arg4)

/-- The index rows per quarter, worker and row: the centre words' row, the positive words' row, the twenty draws'
    rows, two rows of zeros. -/
def V6 : IVec S4x32x24x128 32 :=
  concatenate S4x32x24x128 2
    [⟨S4x32x1x128, shapeCast S4x32x1x128 (cenW m d) shapeCasts_S16384_S4x32x1x128⟩,
     ⟨S4x32x1x128, shapeCast S4x32x1x128 (posW m d) shapeCasts_S16384_S4x32x1x128⟩,
     ⟨S4x32x20x128, transpose S4x32x20x128 [1, 2, 0, 3]
        (shapeCast S20x4x32x128 (transpose S20x16384 [1, 0] (negW m d) transposes_S16384x20_S20x16384_1_0) shapeCasts_S20x16384_S20x4x32x128)
        transposes_S20x4x32x128_S4x32x20x128_1_2_0_3⟩,
     ⟨S4x32x2x128, broadcastInDim S4x32x2x128 ![] bcast_S_S4x32x2x128 (constantI S_ 32 0#32)⟩]
    concatenates_S4x32x1x128_S4x32x1x128_S4x32x20x128_S4x32x2x128_S4x32x24x128_d2

/-- The same with a quarter's workers' rows in one axis: 768 rows a quarter. -/
def V7 : IVec S4x768x128 32 := shapeCast S4x768x128 (V6 m d) shapeCasts_S4x32x24x128_S4x768x128

/-- Quarter `s` of the index rows. -/
def slab (s : Fin 4) (v : IVec S4x768x128 32) : IVec S768x128 32 := fun j => v (ix3 s (j 0) (j 1))

/-! ## The first stretch leaves them so -/

theorem W1_v7 : W1 m d (rT main_v7) = V7 m d := by
  unfold W1 V7 V6
  after_results
  rfl

/-- A quarter cut out of the rows and its unit axis dropped, read at an index. -/
theorem slab_read (off : Fin 3 → ℕ) (s : Fin 4) (h0 : off 0 = s.val) (h1 : off 1 = 0) (h2 : off 2 = 0) (v : IVec S4x768x128 32)
    (h : S4x768x128.Slices off S1x768x128) (h' : S1x768x128.ShapeCasts S768x128) :
    shapeCast S768x128 (extractStridedSlice S1x768x128 off v h) h' = slab s v := by
  funext j
  refine (shapeCast_apply _ _ j (ix3 ⟨0, Nat.one_pos⟩ (j 0) (j 1)) ?_).trans ?_
  · rw [Shape.rowMajor_val_three, Shape.rowMajor_val_two]
    show (0 * 768 + (j 0).val) * 128 + (j 1).val = (j 0).val * 128 + (j 1).val
    omega
  · exact extractStridedSlice_apply _ _ _ _ (ix3 s (j 0) (j 1)) fun a => match a with
      | ⟨0, _⟩ => by show s.val = off 0 + 0; omega
      | ⟨1, _⟩ => by show (j 0).val = off 1 + (j 0).val; omega
      | ⟨2, _⟩ => by show (j 1).val = off 2 + (j 1).val; omega

theorem IX0_eq : W1 m d (rT main_v26) = slab 0 (V7 m d) := by
  rw [← slab_read ![0, 0, 0] 0 rfl rfl rfl (V7 m d) slices_S4x768x128_S1x768x128_0_0_0 shapeCasts_S1x768x128_S768x128]
  unfold W1 V7 V6
  after_results
  rfl

/-! ## No later step rewrites them -/

theorem upd3_ne (W : Valuation τ sig (Elt F)) {a b c r : Ref sig .tc} (ha : r ≠ a) (hb : r ≠ b) (hc : r ≠ c)
    (x : (rT a).ty.Contents (Elt F)) (y : (rT b).ty.Contents (Elt F)) (z : (rT c).ty.Contents (Elt F)) :
    Function.update (Function.update (Function.update W (rT a) x) (rT b) y) (rT c) z (rT r) = W (rT r) := by
  rw [Function.update_of_ne (devRef_ne_of_ne hc), Function.update_of_ne (devRef_ne_of_ne hb), Function.update_of_ne (devRef_ne_of_ne ha)]

theorem W2_v7 : W2 𝔭 m d (rT main_v7) = V7 m d := by
  unfold W2; rw [upd3_ne _ (by decide) (by decide) (by decide), W1_v7]
theorem W3_v7 : W3 𝔭 m d (rT main_v7) = V7 m d := by
  unfold W3; after_results_simp; exact W2_v7 𝔭 m d
theorem W4_v7 : W4 𝔭 m d (rT main_v7) = V7 m d := by
  unfold W4; rw [Function.update_of_ne (devRef_ne_of_ne (by decide)), W3_v7]
theorem W5_v7 : W5 𝔭 m d (rT main_v7) = V7 m d := by
  unfold W5; after_results_simp; exact W4_v7 𝔭 m d
theorem W6_v7 : W6 𝔭 m d (rT main_v7) = V7 m d := by
  unfold W6; rw [upd3_ne _ (by decide) (by decide) (by decide), W5_v7]
theorem W7_v7 : W7 𝔭 m d (rT main_v7) = V7 m d := by
  unfold W7; after_results_simp; exact W6_v7 𝔭 m d
theorem W8_v7 : W8 𝔭 m d (rT main_v7) = V7 m d := by
  unfold W8; rw [Function.update_of_ne (devRef_ne_of_ne (by decide)), W7_v7]
theorem W9_v7 : W9 𝔭 m d (rT main_v7) = V7 m d := by
  unfold W9; after_results_simp; exact W8_v7 𝔭 m d
theorem W10_v7 : W10 𝔭 m d (rT main_v7) = V7 m d := by
  unfold W10; rw [upd3_ne _ (by decide) (by decide) (by decide), W9_v7]
theorem W11_v7 : W11 𝔭 m d (rT main_v7) = V7 m d := by
  unfold W11; after_results_simp; exact W10_v7 𝔭 m d
theorem W12_v7 : W12 𝔭 m d (rT main_v7) = V7 m d := by
  unfold W12; rw [Function.update_of_ne (devRef_ne_of_ne (by decide)), W11_v7]

theorem IX1_eq : W5 𝔭 m d (rT main_v32) = slab 1 (V7 m d) := by
  rw [← slab_read ![1, 0, 0] 1 rfl rfl rfl (V7 m d) slices_S4x768x128_S1x768x128_1_0_0 shapeCasts_S1x768x128_S768x128, ← W4_v7 𝔭 m d]
  unfold W5; after_results_simp; rfl
theorem IX2_eq : W9 𝔭 m d (rT main_v38) = slab 2 (V7 m d) := by
  rw [← slab_read ![2, 0, 0] 2 rfl rfl rfl (V7 m d) slices_S4x768x128_S1x768x128_2_0_0 shapeCasts_S1x768x128_S768x128, ← W8_v7 𝔭 m d]
  unfold W9; after_results_simp; rfl
theorem IX3_eq : W13 𝔭 m d (rT main_v44) = slab 3 (V7 m d) := by
  rw [← slab_read ![3, 0, 0] 3 rfl rfl rfl (V7 m d) slices_S4x768x128_S1x768x128_3_0_0 shapeCasts_S1x768x128_S768x128, ← W12_v7 𝔭 m d]
  unfold W13; after_results_simp; rfl

/-! ## The rows read at an index -/

theorem ent_lt (s : Fin 4) (w : Fin 32) (r : Fin 128) : 4096 * s.val + 128 * w.val + r.val < 16384 := by
  have := s.isLt; have := w.isLt; have := r.isLt; omega

/-- The batch entry of quarter `s`, worker `w`, lane `r`. -/
def ent (s : Fin 4) (w : Fin 32) (r : Fin 128) : Fin 16384 := ⟨4096 * s.val + 128 * w.val + r.val, ent_lt s w r⟩

theorem row_lt (w : Fin 32) (k : Fin 24) : 24 * w.val + k.val < 768 := by
  have := w.isLt; have := k.isLt; omega

/-- Row `k` of worker `w` among a quarter's 768 rows. -/
def rowOf (w : Fin 32) (k : Fin 24) : Fin 768 := ⟨24 * w.val + k.val, row_lt w k⟩

/-- Joining the worker and row axes keeps the words. -/
theorem V7_V6 (s : Fin 4) (w : Fin 32) (k : Fin 24) (r : Fin 128) :
    V7 m d (ix3 s (rowOf w k) r) = V6 m d (ix4 s w k r) := by
  unfold V7
  refine shapeCast_apply _ _ _ _ ?_
  rw [Shape.rowMajor_val_four, Shape.rowMajor_val_three]
  show ((s.val * 32 + w.val) * 24 + k.val) * 128 + r.val = (s.val * 768 + (24 * w.val + k.val)) * 128 + r.val
  omega

/-- Row 0 of a worker: the centre words of its 128 batch entries. -/
theorem V6_cen (s : Fin 4) (w : Fin 32) (r : Fin 128) :
    V6 m d (ix4 s w ⟨0, by decide⟩ r) = cenW m d (ix1 (ent s w r)) := by
  unfold V6
  refine Eq.trans (concatenate_apply_piece (t := S4x32x24x128) (2 : Fin 4) _ _ _ 0 (by show 0 < 4; decide) S4x32x1x128 _ rfl rfl 0 rfl
    (ix4 s w ⟨0, Nat.one_pos⟩ r) (fun b hb => ?_) ?_) ?_
  · match b with
    | ⟨0, _⟩ => rfl
    | ⟨1, _⟩ => rfl
    | ⟨2, _⟩ => exact absurd rfl hb
    | ⟨3, _⟩ => rfl
  · rfl
  · refine shapeCast_apply _ _ _ _ ?_
    rw [Shape.rowMajor_val_one, Shape.rowMajor_val_four]
    show 4096 * s.val + 128 * w.val + r.val = ((s.val * 32 + w.val) * 1 + 0) * 128 + r.val
    omega

/-- Row 1: the positive words. -/
theorem V6_pos (s : Fin 4) (w : Fin 32) (r : Fin 128) :
    V6 m d (ix4 s w ⟨1, by decide⟩ r) = posW m d (ix1 (ent s w r)) := by
  unfold V6
  refine Eq.trans (concatenate_apply_piece (t := S4x32x24x128) (2 : Fin 4) _ _ _ 1 (by show 1 < 4; decide) S4x32x1x128 _ rfl rfl 1 rfl
    (ix4 s w ⟨0, Nat.one_pos⟩ r) (fun b hb => ?_) ?_) ?_
  · match b with
    | ⟨0, _⟩ => rfl
    | ⟨1, _⟩ => rfl
    | ⟨2, _⟩ => exact absurd rfl hb
    | ⟨3, _⟩ => rfl
  · rfl
  · refine shapeCast_apply _ _ _ _ ?_
    rw [Shape.rowMajor_val_one, Shape.rowMajor_val_four]
    show 4096 * s.val + 128 * w.val + r.val = ((s.val * 32 + w.val) * 1 + 0) * 128 + r.val
    omega

/-- Rows 2 … 21: draw `j`'s words. -/
theorem V6_neg (s : Fin 4) (w : Fin 32) (j : Fin 20) (r : Fin 128) :
    V6 m d (ix4 s w ⟨2 + j.val, by have := j.isLt; omega⟩ r) = negW m d (ix2 (ent s w r) j) := by
  unfold V6
  refine Eq.trans (concatenate_apply_piece (t := S4x32x24x128) (2 : Fin 4) _ _ _ 2 (by show 2 < 4; decide) S4x32x20x128 _ rfl rfl 2 rfl
    (ix4 s w j r) (fun b hb => ?_) ?_) ?_
  · match b with
    | ⟨0, _⟩ => rfl
    | ⟨1, _⟩ => rfl
    | ⟨2, _⟩ => exact absurd rfl hb
    | ⟨3, _⟩ => rfl
  · rfl
  · refine (transpose_apply _ _ _ _ (ix4 j s w r) (fun b => match b with
      | ⟨0, _⟩ => rfl | ⟨1, _⟩ => rfl | ⟨2, _⟩ => rfl | ⟨3, _⟩ => rfl)).trans ?_
    refine (shapeCast_apply _ _ _ (ix2 j (ent s w r)) ?_).trans ?_
    · rw [Shape.rowMajor_val_two, Shape.rowMajor_val_four]
      show j.val * 16384 + (4096 * s.val + 128 * w.val + r.val) = ((j.val * 4 + s.val) * 32 + w.val) * 128 + r.val
      omega
    · exact transpose_apply _ _ _ _ (ix2 (ent s w r) j) (fun b => match b with | ⟨0, _⟩ => rfl | ⟨1, _⟩ => rfl)

/-- Rows 22 and 23: zeros. -/
theorem V6_pad (s : Fin 4) (w : Fin 32) (e : Fin 2) (r : Fin 128) :
    V6 m d (ix4 s w ⟨22 + e.val, by have := e.isLt; omega⟩ r) = 0#32 := by
  unfold V6
  refine Eq.trans (concatenate_apply_piece (t := S4x32x24x128) (2 : Fin 4) _ _ _ 3 (by show 3 < 4; decide) S4x32x2x128 _ rfl rfl 22 rfl
    (ix4 s w e r) (fun b hb => ?_) ?_) ?_
  · match b with
    | ⟨0, _⟩ => rfl
    | ⟨1, _⟩ => rfl
    | ⟨2, _⟩ => exact absurd rfl hb
    | ⟨3, _⟩ => rfl
  · rfl
  · rfl

/-- The word row `k` of worker `w` of quarter `s` holds at lane `r`. -/
def rowWord (s : Fin 4) (w : Fin 32) (k : Fin 24) (r : Fin 128) : BitVec 32 :=
  if k.val = 0 then cenW m d (ix1 (ent s w r))
  else if k.val = 1 then posW m d (ix1 (ent s w r))
  else if h : k.val < 22 then negW m d (ix2 (ent s w r) ⟨k.val - 2, by omega⟩)
  else 0#32

/-- Quarter `s`'s rows read at row `24 w + k`, lane `r`. -/
theorem IX_read (s : Fin 4) (w : Fin 32) (k : Fin 24) (r : Fin 128) :
    slab s (V7 m d) (ix2 (rowOf w k) r) = rowWord m d s w k r := by
  have hk := k.isLt
  show V7 m d (ix3 s (rowOf w k) r) = _
  rw [V7_V6]
  unfold rowWord
  by_cases h0 : k.val = 0
  · rw [if_pos h0, ← V6_cen]; exact congrArg (fun k => V6 m d (ix4 s w k r)) (Fin.ext h0)
  rw [if_neg h0]
  by_cases h1 : k.val = 1
  · rw [if_pos h1, ← V6_pos]; exact congrArg (fun k => V6 m d (ix4 s w k r)) (Fin.ext h1)
  rw [if_neg h1]
  by_cases h2 : k.val < 22
  · rw [dif_pos h2, ← V6_neg]; exact congrArg (fun k => V6 m d (ix4 s w k r)) (Fin.ext (by show k.val = 2 + (k.val - 2); omega))
  · rw [dif_neg h2, ← V6_pad m d s w ⟨k.val - 22, by omega⟩ r]
    exact congrArg (fun k => V6 m d (ix4 s w k r)) (Fin.ext (by show k.val = 22 + (k.val - 22); omega))

/-- A word in the input domain's range names a row of the tables. -/
theorem toNat_lt_of_range (x : BitVec 32) (h : 0 ≤ x.toInt ∧ x.toInt ≤ 99999) : x.toNat < 100000 := by
  have e := BitVec.toInt_eq_toNat_cond x
  have hx := x.isLt
  split at e <;> omega

/-- Under the input domain's ranges, every word of rows 0 … 21 of a worker names a row of the tables. -/
theorem rowWord_ok (hc : ∀ i, 0 ≤ (cenW m d i).toInt ∧ (cenW m d i).toInt ≤ 99999)
    (hp : ∀ i, 0 ≤ (posW m d i).toInt ∧ (posW m d i).toInt ≤ 99999)
    (hn : ∀ i, 0 ≤ (negW m d i).toInt ∧ (negW m d i).toInt ≤ 99999)
    (s : Fin 4) (w : Fin 32) (k : Fin 24) (hk : k.val < 22) (r : Fin 128) : (rowWord m d s w k r).toNat < 100000 := by
  unfold rowWord
  by_cases h0 : k.val = 0
  · rw [if_pos h0]; exact toNat_lt_of_range _ (hc _)
  rw [if_neg h0]
  by_cases h1 : k.val = 1
  · rw [if_pos h1]; exact toNat_lt_of_range _ (hp _)
  rw [if_neg h1, dif_pos hk]; exact toNat_lt_of_range _ (hn _)

end Cert.Proof.KI

end
-- ==== Proof.KI_IndexOK.lean ====
/-
  A tile's slice of a quarter's index rows read at an index, and the words of its rows 0 … 21 under the input
  domain's ranges: each names a row of the tables.
-/
import proofs.«215899_g5772436046013_cont_9to1c4b_742_31_alg».proof.Proof.KI_Index
import proofs.«215899_g5772436046013_cont_9to1c4b_742_31_alg».proof.Proof.KI_TileRes

noncomputable section

namespace Cert.Proof.KI

open Cert.KernelIdeal Cert.KernelIdeal.Gen

open Idealize.ShloMosaic
open Idealize.ShloMosaic.StableHlo
open Idealize.ShloMosaic.ValueIdx

variable {F : FTy → Type} [FloatOps F]
variable (m : (ℓ : Loc nD τ sig) → Buf (Elt F) ℓ) (d : Dev nD)

/-- A tile's slice of the index array read at an index: the array at the tile's row `24 wid + k`. -/
theorem ixSl_read (IX : IVec S768x128 32) (L : grid0.Coords) (x : S24x128.Idx) :
    (ixSl L).view.read (Elt F) IX x = IX (ix2 (rowOf ⟨wid L, wid_lt L⟩ (x 0)) (x 1)) := by
  show IX _ = IX _
  congr 1
  funext a
  match a with
  | ⟨0, _⟩ =>
    refine Fin.ext ?_
    show k0_off1 L 0 + 1 * (x 0).val = 24 * wid L + (x 0).val
    rw [k0_off1_wid]
    show 24 * wid L + 1 * (x 0).val = 24 * wid L + (x 0).val
    omega
  | ⟨1, _⟩ =>
    refine Fin.ext ?_
    show k0_off1 L 1 + 1 * (x 1).val = (x 1).val
    rw [k0_off1_wid]
    show 0 + 1 * (x 1).val = (x 1).val
    omega

/-- Under the input domain's ranges a quarter's index rows are in order for the call's tiles. -/
theorem IXOK_of_slab (IX : IVec S768x128 32) (s : Fin 4) (hIX : IX = slab s (V7 m d))
    (hc : ∀ i, 0 ≤ (cenW m d i).toInt ∧ (cenW m d i).toInt ≤ 99999)
    (hp : ∀ i, 0 ≤ (posW m d i).toInt ∧ (posW m d i).toInt ≤ 99999)
    (hn : ∀ i, 0 ≤ (negW m d i).toInt ∧ (negW m d i).toInt ≤ 99999) : IXOK (F := F) d IX := by
  intro L x hx
  rw [ixSl_read, hIX]
  exact lt_of_eq_of_lt (congrArg BitVec.toNat (IX_read m d s ⟨wid L, wid_lt L⟩ (x 0) (x 1)))
    (rowWord_ok m d hc hp hn s ⟨wid L, wid_lt L⟩ (x 0) hx (x 1))

end Cert.Proof.KI

end
-- ==== Proof.KI_IndexOK_c1.lean ====
/-
  A tile's slice of a quarter's index rows read at an index, and the words of its rows 0 … 21 under the input
  domain's ranges: each names a row of the tables.
-/
import proofs.«215899_g5772436046013_cont_9to1c4b_742_31_alg».proof.Proof.KI_Index
import proofs.«215899_g5772436046013_cont_9to1c4b_742_31_alg».proof.Proof.KI_TileRes
import proofs.«215899_g5772436046013_cont_9to1c4b_742_31_alg».proof.Proof.KI_TileRes_c1
import proofs.«215899_g5772436046013_cont_9to1c4b_742_31_alg».proof.Proof.KI_IndexOK

noncomputable section

namespace Cert.Proof.KI

open Cert.KernelIdeal Cert.KernelIdeal.Gen

open Idealize.ShloMosaic
open Idealize.ShloMosaic.StableHlo
open Idealize.ShloMosaic.ValueIdx

variable {F : FTy → Type} [FloatOps F]
variable (m : (ℓ : Loc nD τ sig) → Buf (Elt F) ℓ) (d : Dev nD)

/-- A tile's slice of the index array read at an index: the array at the tile's row `24 wid1 + k`. -/
theorem ixSl_read1 (IX : IVec S768x128 32) (L : grid2.Coords) (x : S24x128.Idx) :
    (ixSl1 L).view.read (Elt F) IX x = IX (ix2 (rowOf ⟨wid1 L, wid_lt1 L⟩ (x 0)) (x 1)) := by
  show IX _ = IX _
  congr 1
  funext a
  match a with
  | ⟨0, _⟩ =>
    refine Fin.ext ?_
    show k2_off1 L 0 + 1 * (x 0).val = 24 * wid1 L + (x 0).val
    rw [k2_off1_wid]
    show 24 * wid1 L + 1 * (x 0).val = 24 * wid1 L + (x 0).val
    omega
  | ⟨1, _⟩ =>
    refine Fin.ext ?_
    show k2_off1 L 1 + 1 * (x 1).val = (x 1).val
    rw [k2_off1_wid]
    show 0 + 1 * (x 1).val = (x 1).val
    omega

/-- Under the input domain's ranges a quarter's index rows are in order for the call's tiles. -/
theorem IXOK_of_slab1 (IX : IVec S768x128 32) (s : Fin 4) (hIX : IX = slab s (V7 m d))
    (hc : ∀ i, 0 ≤ (cenW m d i).toInt ∧ (cenW m d i).toInt ≤ 99999)
    (hp : ∀ i, 0 ≤ (posW m d i).toInt ∧ (posW m d i).toInt ≤ 99999)
    (hn : ∀ i, 0 ≤ (negW m d i).toInt ∧ (negW m d i).toInt ≤ 99999) : IXOK1 (F := F) d IX := by
  intro L x hx
  rw [ixSl_read1, hIX]
  exact lt_of_eq_of_lt (congrArg BitVec.toNat (IX_read m d s ⟨wid1 L, wid_lt1 L⟩ (x 0) (x 1)))
    (rowWord_ok m d hc hp hn s ⟨wid1 L, wid_lt1 L⟩ (x 0) hx (x 1))

end Cert.Proof.KI

end
-- ==== Proof.KI_IndexOK_c2.lean ====
/-
  A tile's slice of a quarter's index rows read at an index, and the words of its rows 0 … 21 under the input
  domain's ranges: each names a row of the tables.
-/
import proofs.«215899_g5772436046013_cont_9to1c4b_742_31_alg».proof.Proof.KI_Index
import proofs.«215899_g5772436046013_cont_9to1c4b_742_31_alg».proof.Proof.KI_TileRes
import proofs.«215899_g5772436046013_cont_9to1c4b_742_31_alg».proof.Proof.KI_TileRes_c2
import proofs.«215899_g5772436046013_cont_9to1c4b_742_31_alg».proof.Proof.KI_IndexOK

noncomputable section

namespace Cert.Proof.KI

open Cert.KernelIdeal Cert.KernelIdeal.Gen

open Idealize.ShloMosaic
open Idealize.ShloMosaic.StableHlo
open Idealize.ShloMosaic.ValueIdx

variable {F : FTy → Type} [FloatOps F]
variable (m : (ℓ : Loc nD τ sig) → Buf (Elt F) ℓ) (d : Dev nD)

/-- A tile's slice of the index array read at an index: the array at the tile's row `24 wid2 + k`. -/
theorem ixSl_read2 (IX : IVec S768x128 32) (L : grid4.Coords) (x : S24x128.Idx) :
    (ixSl2 L).view.read (Elt F) IX x = IX (ix2 (rowOf ⟨wid2 L, wid_lt2 L⟩ (x 0)) (x 1)) := by
  show IX _ = IX _
  congr 1
  funext a
  match a with
  | ⟨0, _⟩ =>
    refine Fin.ext ?_
    show k4_off1 L 0 + 1 * (x 0).val = 24 * wid2 L + (x 0).val
    rw [k4_off1_wid]
    show 24 * wid2 L + 1 * (x 0).val = 24 * wid2 L + (x 0).val
    omega
  | ⟨1, _⟩ =>
    refine Fin.ext ?_
    show k4_off1 L 1 + 1 * (x 1).val = (x 1).val
    rw [k4_off1_wid]
    show 0 + 1 * (x 1).val = (x 1).val
    omega

/-- Under the input domain's ranges a quarter's index rows are in order for the call's tiles. -/
theorem IXOK_of_slab2 (IX : IVec S768x128 32) (s : Fin 4) (hIX : IX = slab s (V7 m d))
    (hc : ∀ i, 0 ≤ (cenW m d i).toInt ∧ (cenW m d i).toInt ≤ 99999)
    (hp : ∀ i, 0 ≤ (posW m d i).toInt ∧ (posW m d i).toInt ≤ 99999)
    (hn : ∀ i, 0 ≤ (negW m d i).toInt ∧ (negW m d i).toInt ≤ 99999) : IXOK2 (F := F) d IX := by
  intro L x hx
  rw [ixSl_read2, hIX]
  exact lt_of_eq_of_lt (congrArg BitVec.toNat (IX_read m d s ⟨wid2 L, wid_lt2 L⟩ (x 0) (x 1)))
    (rowWord_ok m d hc hp hn s ⟨wid2 L, wid_lt2 L⟩ (x 0) hx (x 1))

end Cert.Proof.KI

end
-- ==== Proof.KI_IndexOK_c3.lean ====
/-
  A tile's slice of a quarter's index rows read at an index, and the words of its rows 0 … 21 under the input
  domain's ranges: each names a row of the tables.
-/
import proofs.«215899_g5772436046013_cont_9to1c4b_742_31_alg».proof.Proof.KI_Index
import proofs.«215899_g5772436046013_cont_9to1c4b_742_31_alg».proof.Proof.KI_TileRes
import proofs.«215899_g5772436046013_cont_9to1c4b_742_31_alg».proof.Proof.KI_TileRes_c3
import proofs.«215899_g5772436046013_cont_9to1c4b_742_31_alg».proof.Proof.KI_IndexOK

noncomputable section

namespace Cert.Proof.KI

open Cert.KernelIdeal Cert.KernelIdeal.Gen

open Idealize.ShloMosaic
open Idealize.ShloMosaic.StableHlo
open Idealize.ShloMosaic.ValueIdx

variable {F : FTy → Type} [FloatOps F]
variable (m : (ℓ : Loc nD τ sig) → Buf (Elt F) ℓ) (d : Dev nD)

/-- A tile's slice of the index array read at an index: the array at the tile's row `24 wid3 + k`. -/
theorem ixSl_read3 (IX : IVec S768x128 32) (L : grid6.Coords) (x : S24x128.Idx) :
    (ixSl3 L).view.read (Elt F) IX x = IX (ix2 (rowOf ⟨wid3 L, wid_lt3 L⟩ (x 0)) (x 1)) := by
  show IX _ = IX _
  congr 1
  funext a
  match a with
  | ⟨0, _⟩ =>
    refine Fin.ext ?_
    show k6_off1 L 0 + 1 * (x 0).val = 24 * wid3 L + (x 0).val
    rw [k6_off1_wid]
    show 24 * wid3 L + 1 * (x 0).val = 24 * wid3 L + (x 0).val
    omega
  | ⟨1, _⟩ =>
    refine Fin.ext ?_
    show k6_off1 L 1 + 1 * (x 1).val = (x 1).val
    rw [k6_off1_wid]
    show 0 + 1 * (x 1).val = (x 1).val
    omega

/-- Under the input domain's ranges a quarter's index rows are in order for the call's tiles. -/
theorem IXOK_of_slab3 (IX : IVec S768x128 32) (s : Fin 4) (hIX : IX = slab s (V7 m d))
    (hc : ∀ i, 0 ≤ (cenW m d i).toInt ∧ (cenW m d i).toInt ≤ 99999)
    (hp : ∀ i, 0 ≤ (posW m d i).toInt ∧ (posW m d i).toInt ≤ 99999)
    (hn : ∀ i, 0 ≤ (negW m d i).toInt ∧ (negW m d i).toInt ≤ 99999) : IXOK3 (F := F) d IX := by
  intro L x hx
  rw [ixSl_read3, hIX]
  exact lt_of_eq_of_lt (congrArg BitVec.toNat (IX_read m d s ⟨wid3 L, wid_lt3 L⟩ (x 0) (x 1)))
    (rowWord_ok m d hc hp hn s ⟨wid3 L, wid_lt3 L⟩ (x 0) hx (x 1))

end Cert.Proof.KI

end
-- ==== Proof.KI_IndexAll.lean ====
/-
  The four calls' index rows, as @main leaves them before each call, are in order for the call's tiles: under
  the input domain's ranges every word of rows 0 … 21 of each tile's slice names a row of the tables.
-/
import proofs.«215899_g5772436046013_cont_9to1c4b_742_31_alg».proof.Proof.KI_IndexOK
import proofs.«215899_g5772436046013_cont_9to1c4b_742_31_alg».proof.Proof.KI_IndexOK_c1
import proofs.«215899_g5772436046013_cont_9to1c4b_742_31_alg».proof.Proof.KI_IndexOK_c2
import proofs.«215899_g5772436046013_cont_9to1c4b_742_31_alg».proof.Proof.KI_IndexOK_c3

noncomputable section

namespace Cert.Proof.KI

open Cert.KernelIdeal Cert.KernelIdeal.Gen

open Idealize.ShloMosaic
open Idealize.ShloMosaic.StableHlo
open Idealize.ShloMosaic.ValueIdx

variable {F : FTy → Type} [FloatOps F]
variable (𝔭 : Pure F) (m : (ℓ : Loc nD τ sig) → Buf (Elt F) ℓ) (d : Dev nD)
variable (hc : ∀ i, 0 ≤ (cenW m d i).toInt ∧ (cenW m d i).toInt ≤ 99999)
  (hp : ∀ i, 0 ≤ (posW m d i).toInt ∧ (posW m d i).toInt ≤ 99999)
  (hn : ∀ i, 0 ≤ (negW m d i).toInt ∧ (negW m d i).toInt ≤ 99999)

include hc hp hn

theorem IXOK_q0 : IXOK (F := F) d (W1 m d (rT main_v26)) := IXOK_of_slab m d _ 0 (IX0_eq m d) hc hp hn
theorem IXOK_q1 : IXOK1 (F := F) d (W5 𝔭 m d (rT main_v32)) := IXOK_of_slab1 m d _ 1 (IX1_eq 𝔭 m d) hc hp hn
theorem IXOK_q2 : IXOK2 (F := F) d (W9 𝔭 m d (rT main_v38)) := IXOK_of_slab2 m d _ 2 (IX2_eq 𝔭 m d) hc hp hn
theorem IXOK_q3 : IXOK3 (F := F) d (W13 𝔭 m d (rT main_v44)) := IXOK_of_slab3 m d _ 3 (IX3_eq 𝔭 m d) hc hp hn

end Cert.Proof.KI

end
-- ==== Proof.RefPre.lean ====
import proofs.«215899_g5772436046013_cont_9to1c4b_742_31_alg».proof.Pre_input_domain
import proofs.«215899_g5772436046013_cont_9to1c4b_742_31_alg».proof.Proof.Gen.Pre_input_domain
import Idealize.ShloMosaic.Lib.ReduceAll
import Idealize.ShloMosaic.Lib.ValueIdx
import Idealize.ShloMosaic.PureOps.Ideal

/-!
  The input-domain predicate read back: when the printed predicate is all ones, every index word lies in
  [0, 99999] (at every float instance), and at the exact instance every table entry is a real number.
-/

noncomputable section

namespace Cert.Proof.Ref

open Idealize.ShloMosaic Idealize.ShloMosaic.ValueIdx
open Cert.Pre_input_domain

instance : Subsingleton S_.Idx := ⟨fun a b => funext fun d => d.elim0⟩

variable [Cert.Pre_input_domain.Facts]

/-- The predicate's five conjuncts, each still a reduction by "and" of an array of bits. -/
theorem pre_split {F : FTy → Type} [FloatOps F]
    (a0 a1 : FVec F S100000x128 .f32) (a2 a3 : IVec S16384 32) (a4 : IVec S16384x20 32)
    (h : Cert.Pre_input_domain.fn (F := F) a0 a1 a2 a3 a4 = (fun _ => 1#1)) :
    (∀ i, cmpf (F := F) .olt (Host.absf a0)
        (broadcastInDim S100000x128 ![] Facts.bcast_S_S100000x128 (constant S_ .f32 0x7F800000#32)) i = 1#1)
    ∧ (∀ i, cmpf (F := F) .olt (Host.absf a1)
        (broadcastInDim S100000x128 ![] Facts.bcast_S_S100000x128 (constant S_ .f32 0x7F800000#32)) i = 1#1)
    ∧ (∀ i, 0 ≤ (a2 i).toInt ∧ (a2 i).toInt ≤ 99999)
    ∧ (∀ i, 0 ≤ (a3 i).toInt ∧ (a3 i).toInt ≤ 99999)
    ∧ (∀ i, 0 ≤ (a4 i).toInt ∧ (a4 i).toInt ≤ 99999) := by
  have h0 := congrFun h ix0
  dsimp only [fn, fn_part1] at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  have z0 : (0#32 : BitVec 32).toInt = 0 := by decide
  have z1 : (99999#32 : BitVec 32).toInt = 99999 := by decide
  refine ⟨fun i => Host.reduce_andi_all _ _ _ _ ix0 e0 i, fun i => Host.reduce_andi_all _ _ _ _ ix0 e1 i,
    fun i => ?_, fun i => ?_, fun i => ?_⟩
  · obtain ⟨p, q⟩ := IntOp.andi_eq_one.1 (Host.reduce_andi_all _ _ _ _ ix0 e2 i)
    have p' := IntOp.cmpi_sge.1 p
    have q' := IntOp.cmpi_sle.1 q
    exact ⟨z0 ▸ p', z1 ▸ q'⟩
  · obtain ⟨p, q⟩ := IntOp.andi_eq_one.1 (Host.reduce_andi_all _ _ _ _ ix0 e3 i)
    have p' := IntOp.cmpi_sge.1 p
    have q' := IntOp.cmpi_sle.1 q
    exact ⟨z0 ▸ p', z1 ▸ q'⟩
  · obtain ⟨p, q⟩ := IntOp.andi_eq_one.1 (Host.reduce_andi_all _ _ _ _ ix0 e4 i)
    have p' := IntOp.cmpi_sge.1 p
    have q' := IntOp.cmpi_sle.1 q
    exact ⟨z0 ▸ p', z1 ▸ q'⟩

/-- The three index arrays hold words in [0, 99999], whatever the float instance. -/
theorem ranges_of_pre {F : FTy → Type} [FloatOps F]
    (a0 a1 : FVec F S100000x128 .f32) (a2 a3 : IVec S16384 32) (a4 : IVec S16384x20 32)
    (h : Cert.Pre_input_domain.fn (F := F) a0 a1 a2 a3 a4 = (fun _ => 1#1)) :
    (∀ i, 0 ≤ (a2 i).toInt ∧ (a2 i).toInt ≤ 99999)
    ∧ (∀ i, 0 ≤ (a3 i).toInt ∧ (a3 i).toInt ≤ 99999)
    ∧ (∀ i, 0 ≤ (a4 i).toInt ∧ (a4 i).toInt ≤ 99999) :=
  (pre_split a0 a1 a2 a3 a4 h).2.2

/-- An extended real whose absolute value is below +∞ is a real. -/
theorem real_of_abs_lt (x : EReal)
    (e : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at e
  induction x using EReal.rec with
  | bot => exact absurd e (by simp [Ideal.cmp])
  | coe r => exact ⟨r, rfl⟩
  | top => exact absurd e (by simp [Ideal.cmp])

/-- At the exact instance every entry of the two tables is a real. -/
theorem reals_of_pre
    (a0 a1 : FVec Ideal S100000x128 .f32) (a2 a3 : IVec S16384 32) (a4 : IVec S16384x20 32)
    (h : Cert.Pre_input_domain.fn (F := Ideal) a0 a1 a2 a3 a4 = (fun _ => 1#1)) :
    (∀ i, ∃ x : ℝ, a0 i = (x : EReal)) ∧ (∀ i, ∃ x : ℝ, a1 i = (x : EReal)) :=
  ⟨fun i => real_of_abs_lt (a0 i) ((pre_split a0 a1 a2 a3 a4 h).1 i),
   fun i => real_of_abs_lt (a1 i) ((pre_split a0 a1 a2 a3 a4 h).2.1 i)⟩

end Cert.Proof.Ref
-- ==== Proof.RefOps.lean ====
import proofs.«215899_g5772436046013_cont_9to1c4b_742_31_alg».proof.Proof.Gen.ReferenceIdeal
import Idealize.ShloMosaic.Lib.StableHlo.Run

/-!
  The reference program as a straight line of host operations.

  Each outlined function's body is the line of its operations over the call's own buffers; the main
  function is the concatenation of eight such lines, in program order: three row lookups, the product and
  its row sum, a log-sigmoid, the batched dot and its negation, the second log-sigmoid, and the closing
  sums, division and negation.
-/

noncomputable section

namespace Cert.Proof.Ref

open Idealize.ShloMosaic Idealize.ShloMosaic.TcCoe Idealize.SL.Sem Idealize.ShloMosaic.StableHlo
open Cert.ReferenceIdeal Cert.ReferenceIdeal.Facts₀

variable {F : FTy → Type} [FloatOps F]

/-- The operations of one row lookup by a vector of index words, over the call's buffers. -/
def takeOps (a0 : TRef sig ⟨S100000x128, .f32⟩) (a1 : TRef sig ⟨S16384, .i32⟩) (φ : fn_take.Bufs) :
    List (HloOp τ sig (Elt F)) :=
  [ TRef.nullary φ.c (constantI S_ 32 0#32),
    TRef.unary φ.c φ.v0 (broadcastInDim S16384 ![] bcast_S_S16384),
    TRef.binary a1 φ.v0 φ.v1 (cmpi .slt),
    TRef.nullary φ.c_0 (constantI S_ 32 100000#32),
    TRef.unary φ.c_0 φ.v2 (broadcastInDim S16384 ![] bcast_S_S16384),
    TRef.binary a1 φ.v2 φ.v3 addi,
    TRef.ternary φ.v1 φ.v3 a1 φ.call0.v0 select,
    TRef.unary φ.call0.v0 φ.v5 (broadcastInDim S16384x1 ![0] bcast_S16384_S16384x1_0),
    TRef.nullary φ.c_1 (constantI S1 32 99999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary a0 φ.v5 φ.v13 (fun x i => Host.gather gather_S100000x128_S16384x1_S16384x128_1_0_n_n_0_1_1128 x i),
    TRef.unary φ.v12 φ.v14 (broadcastInDim S16384x128 ![0] bcast_S16384_S16384x128_0),
    TRef.nullary φ.cst (constant S_ .f32 0x7FC00000#32),
    TRef.unary φ.cst φ.v15 (broadcastInDim S16384x128 ![] bcast_S_S16384x128),
    TRef.ternary φ.v14 φ.v13 φ.v15 φ.v16 select ]

/-- The operations of the row lookup by a [16384, 20] array of index words. -/
def take0Ops (a0 : TRef sig ⟨S100000x128, .f32⟩) (a1 : TRef sig ⟨S16384x20, .i32⟩) (φ : fn_take_0.Bufs) :
    List (HloOp τ sig (Elt F)) :=
  [ TRef.nullary φ.c (constantI S_ 32 0#32),
    TRef.unary φ.c φ.v0 (broadcastInDim S16384x20 ![] bcast_S_S16384x20),
    TRef.binary a1 φ.v0 φ.v1 (cmpi .slt),
    TRef.nullary φ.c_0 (constantI S_ 32 100000#32),
    TRef.unary φ.c_0 φ.v2 (broadcastInDim S16384x20 ![] bcast_S_S16384x20),
    TRef.binary a1 φ.v2 φ.v3 addi,
    TRef.ternary φ.v1 φ.v3 a1 φ.call0.v0 select,
    TRef.unary φ.call0.v0 φ.v5 (broadcastInDim S16384x20x1 ![0, 1] bcast_S16384x20_S16384x20x1_0_1),
    TRef.nullary φ.c_1 (constantI S1 32 99999#32),
    TRef.nullary φ.c_2 (constantI S_ 32 0#32),
    TRef.unary φ.c_2 φ.v6 (broadcastInDim S16384x20x1 ![] bcast_S_S16384x20x1),
    TRef.binary φ.v5 φ.v6 φ.v7 (cmpi .sge),
    TRef.unary φ.c_1 φ.v8 (broadcastInDim S1x1x1 ![2] bcast_S1_S1x1x1_2),
    TRef.unary φ.v8 φ.v9 (broadcastInDim S16384x20x1 ![0, 1, 2] bcast_S1x1x1_S16384x20x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x20x1_S16384x20_d2 h_S_),
    TRef.binary a0 φ.v5 φ.v13 (fun x i => Host.gather gather_S100000x128_S16384x20x1_S16384x20x128_2_0_n_n_0_2_1128 x i),
    TRef.unary φ.v12 φ.v14 (broadcastInDim S16384x20x128 ![0, 1] bcast_S16384x20_S16384x20x128_0_1),
    TRef.nullary φ.cst (constant S_ .f32 0x7FC00000#32),
    TRef.unary φ.cst φ.v15 (broadcastInDim S16384x20x128 ![] bcast_S_S16384x20x128),
    TRef.ternary φ.v14 φ.v13 φ.v15 φ.v16 select ]

/-- The operations of the log-sigmoid of a [16384] vector. -/
def lsOps (a0 : TRef sig ⟨S16384, .f32⟩) (φ : fn_log_sigmoid.Bufs) : List (HloOp τ sig (Elt F)) :=
  [ TRef.unary a0 φ.v0 Host.negf,
    TRef.nullary φ.call0.cst (constant S_ .f32 0x00000000#32),
    TRef.unary φ.call0.cst φ.call0.v0 (broadcastInDim S16384 ![] bcast_S_S16384),
    TRef.binary φ.v0 φ.call0.v0 φ.call0.v1 maximumf,
    TRef.unary φ.call0.cst φ.call0.v2 (broadcastInDim S16384 ![] bcast_S_S16384),
    TRef.binary φ.v0 φ.call0.v2 φ.call0.v3 subf,
    TRef.binary φ.call0.v3 φ.call0.v3 φ.call0.v4 (cmpf .une),
    TRef.unary φ.call0.cst φ.call0.v5 (broadcastInDim S16384 ![] bcast_S_S16384),
    TRef.binary φ.v0 φ.call0.v5 φ.call0.v6 addf,
    TRef.unary φ.call0.v3 φ.call0.v7 Host.absf,
    TRef.unary φ.call0.v7 φ.call0.v8 Host.negf,
    TRef.unary φ.call0.v8 φ.call0.v9 Host.exp,
    TRef.unary φ.call0.v9 φ.call0.v10 Host.log1p,
    TRef.binary φ.call0.v1 φ.call0.v10 φ.call0.v11 addf,
    TRef.ternary φ.call0.v4 φ.call0.v6 φ.call0.v11 φ.call0.v12 select,
    TRef.unary φ.call0.v12 φ.v2 Host.negf ]

/-- The operations of the log-sigmoid of a [16384, 20] array. -/
def ls2Ops (a0 : TRef sig ⟨S16384x20, .f32⟩) (φ : fn_log_sigmoid_2.Bufs) : List (HloOp τ sig (Elt F)) :=
  [ TRef.unary a0 φ.v0 Host.negf,
    TRef.nullary φ.call0.cst (constant S_ .f32 0x00000000#32),
    TRef.unary φ.call0.cst φ.call0.v0 (broadcastInDim S16384x20 ![] bcast_S_S16384x20),
    TRef.binary φ.v0 φ.call0.v0 φ.call0.v1 maximumf,
    TRef.unary φ.call0.cst φ.call0.v2 (broadcastInDim S16384x20 ![] bcast_S_S16384x20),
    TRef.binary φ.v0 φ.call0.v2 φ.call0.v3 subf,
    TRef.binary φ.call0.v3 φ.call0.v3 φ.call0.v4 (cmpf .une),
    TRef.unary φ.call0.cst φ.call0.v5 (broadcastInDim S16384x20 ![] bcast_S_S16384x20),
    TRef.binary φ.v0 φ.call0.v5 φ.call0.v6 addf,
    TRef.unary φ.call0.v3 φ.call0.v7 Host.absf,
    TRef.unary φ.call0.v7 φ.call0.v8 Host.negf,
    TRef.unary φ.call0.v8 φ.call0.v9 Host.exp,
    TRef.unary φ.call0.v9 φ.call0.v10 Host.log1p,
    TRef.binary φ.call0.v1 φ.call0.v10 φ.call0.v11 addf,
    TRef.ternary φ.call0.v4 φ.call0.v6 φ.call0.v11 φ.call0.v12 select,
    TRef.unary φ.call0.v12 φ.v2 Host.negf ]

theorem take_eq (a0 : TRef sig ⟨S100000x128, .f32⟩) (a1 : TRef sig ⟨S16384, .i32⟩) (φ : fn_take.Bufs) :
    fn_take.body (F := F) a0 a1 φ = seq (takeOps a0 a1 φ) := by
  simp only [fn_take.body, fn_where.body, takeOps, seq, bind_assoc, pure_bind]

theorem take0_eq (a0 : TRef sig ⟨S100000x128, .f32⟩) (a1 : TRef sig ⟨S16384x20, .i32⟩) (φ : fn_take_0.Bufs) :
    fn_take_0.body (F := F) a0 a1 φ = seq (take0Ops a0 a1 φ) := by
  simp only [fn_take_0.body, fn_where_1.body, take0Ops, seq, bind_assoc, pure_bind]

theorem ls_eq (a0 : TRef sig ⟨S16384, .f32⟩) (φ : fn_log_sigmoid.Bufs) :
    fn_log_sigmoid.body (F := F) a0 φ = seq (lsOps a0 φ) := by
  simp only [fn_log_sigmoid.body, fn_softplus.body, lsOps, seq, bind_assoc, pure_bind]

theorem ls2_eq (a0 : TRef sig ⟨S16384x20, .f32⟩) (φ : fn_log_sigmoid_2.Bufs) :
    fn_log_sigmoid_2.body (F := F) a0 φ = seq (ls2Ops a0 φ) := by
  simp only [fn_log_sigmoid_2.body, fn_softplus_3.body, ls2Ops, seq, bind_assoc, pure_bind]

/-- The eight lines of the main function. -/
abbrev opsA : List (HloOp τ sig (Elt F)) := takeOps (.of main_arg0) (.of main_arg2) main_call0
abbrev opsB : List (HloOp τ sig (Elt F)) := takeOps (.of main_arg1) (.of main_arg3) main_call1
abbrev opsN : List (HloOp τ sig (Elt F)) := take0Ops (.of main_arg1) (.of main_arg4) main_call2
abbrev opsP : List (HloOp τ sig (Elt F)) :=
  [ binary main_v0 main_v1 main_v3 (mulf : (⟨S16384x128, .f32⟩ : BufTy).Contents (Elt F) → (⟨S16384x128, .f32⟩ : BufTy).Contents (Elt F) → (⟨S16384x128, .f32⟩ : BufTy).Contents (Elt F)),
    nullary main_cst (constant S_ .f32 0x00000000#32),
    binary main_v3 main_cst main_v4 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)) ]
abbrev opsL : List (HloOp τ sig (Elt F)) := lsOps (.of main_v4) main_call3
abbrev opsD : List (HloOp τ sig (Elt F)) :=
  [ binary main_v2 main_v0 main_v6 ((fun l r => Host.dotGeneral dot_S16384x20x128_S16384x128_S16384x20_2_1_1_n_0_0 none l r) : (⟨S16384x20x128, .f32⟩ : BufTy).Contents (Elt F) → (⟨S16384x128, .f32⟩ : BufTy).Contents (Elt F) → (⟨S16384x20, .f32⟩ : BufTy).Contents (Elt F)),
    unary main_v6 main_v7 (Host.negf : (⟨S16384x20, .f32⟩ : BufTy).Contents (Elt F) → (⟨S16384x20, .f32⟩ : BufTy).Contents (Elt F)) ]
abbrev opsM : List (HloOp τ sig (Elt F)) := ls2Ops (.of main_v7) main_call4
abbrev opsT : List (HloOp τ sig (Elt F)) :=
  [ nullary main_cst_0 (constant S_ .f32 0x00000000#32),
    binary main_v8 main_cst_0 main_v9 ((fun x v => Host.reduceAdd x v reducesTo_S16384x20_S16384_d1 h_S_) : (⟨S16384x20, .f32⟩ : BufTy).Contents (Elt F) → (⟨S_, .f32⟩ : BufTy).Contents (Elt F) → (⟨S16384, .f32⟩ : BufTy).Contents (Elt F)),
    binary main_v5 main_v9 main_v10 (addf : (⟨S16384, .f32⟩ : BufTy).Contents (Elt F) → (⟨S16384, .f32⟩ : BufTy).Contents (Elt F) → (⟨S16384, .f32⟩ : BufTy).Contents (Elt F)),
    nullary main_cst_1 (constant S_ .f32 0x00000000#32),
    binary main_v10 main_cst_1 main_v11 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_2 (constant S_ .f32 0x46800000#32),
    binary main_v11 main_cst_2 main_v12 (Host.divf : (⟨S_, .f32⟩ : BufTy).Contents (Elt F) → (⟨S_, .f32⟩ : BufTy).Contents (Elt F) → (⟨S_, .f32⟩ : BufTy).Contents (Elt F)),
    unary main_v12 main_v13 (Host.negf : (⟨S_, .f32⟩ : BufTy).Contents (Elt F) → (⟨S_, .f32⟩ : BufTy).Contents (Elt F)) ]

/-- The whole main function's line. -/
abbrev ops : List (HloOp τ sig (Elt F)) :=
  opsA ++ (opsB ++ (opsN ++ (opsP ++ (opsL ++ (opsD ++ (opsM ++ opsT))))))

theorem main_eq (c : Dev nD) : main (F := F) c = seq ops := by
  unfold main
  rw [take_eq, take_eq, take0_eq, ls_eq, ls2_eq]
  simp only [ops, opsA, opsB, opsN, opsL, opsM, opsP, opsD, opsT, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

end Cert.Proof.Ref

end
-- ==== Proof.RefTerm.lean ====
import proofs.«215899_g5772436046013_cont_9to1c4b_742_31_alg».proof.ReferenceIdeal

/-!
  The reference as one pure term.

  The reference program's tensor operations, composed: the three row lookups (each with its
  negative-index wrap, its range test and its fill), the two log-sigmoids as they are spelt
  (minus softplus of minus x, softplus by way of log(1 + exp(-|x|)) with its guard on x ≠ x),
  the row sums, the batched dot, and the final mean and sign.
-/

noncomputable section

namespace Cert.Proof.Ref

open Idealize.ShloMosaic
open Cert.ReferenceIdeal Cert.ReferenceIdeal.Facts₀

variable {F : FTy → Type} [FloatOps F] [Cert.ReferenceIdeal.Facts]

/-- A negative index word counted from the end: w + 100000 where w < 0, else w (rank 1). -/
def wrap1 (w : IVec S16384 32) : IVec S16384 32 :=
  select (cmpi .slt w (broadcastInDim S16384 ![] bcast_S_S16384 (constantI S_ 32 0#32)))
    (addi w (broadcastInDim S16384 ![] bcast_S_S16384 (constantI S_ 32 100000#32))) w

/-- The wrapped index words as a column of start indices. -/
def col1 (w : IVec S16384 32) : IVec S16384x1 32 :=
  broadcastInDim S16384x1 ![0] bcast_S16384_S16384x1_0 (wrap1 w)

/-- Which rows have their start index in [0, 99999]. -/
def inb1 (w : IVec S16384 32) : IVec S16384 1 :=
  Host.reduce IntOp.andi
    (andi (cmpi .sge (col1 w) (broadcastInDim S16384x1 ![] bcast_S_S16384x1 (constantI S_ 32 0#32)))
      (cmpi .sle (col1 w) (broadcastInDim S16384x1 ![0, 1] bcast_S1x1_S16384x1_0_1
        (broadcastInDim S1x1 ![1] bcast_S1_S1x1_1 (constantI S1 32 99999#32)))))
    (constantI S_ 1 1#1) reducesTo_S16384x1_S16384_d1 h_S_

/-- Rows of a table looked up by a vector of index words: the gathered row where the index is in range,
    the fill pattern elsewhere. -/
def takeRows (A : FVec F S100000x128 .f32) (w : IVec S16384 32) : FVec F S16384x128 .f32 :=
  select (broadcastInDim S16384x128 ![0] bcast_S16384_S16384x128_0 (inb1 w))
    (Host.gather gather_S100000x128_S16384x1_S16384x128_1_0_n_n_0_1_1128 A (col1 w))
    (broadcastInDim S16384x128 ![] bcast_S_S16384x128 (constant (F := F) S_ .f32 0x7FC00000#32))

/-- The same three steps for a [16384, 20] array of index words. -/
def wrap2 (w : IVec S16384x20 32) : IVec S16384x20 32 :=
  select (cmpi .slt w (broadcastInDim S16384x20 ![] bcast_S_S16384x20 (constantI S_ 32 0#32)))
    (addi w (broadcastInDim S16384x20 ![] bcast_S_S16384x20 (constantI S_ 32 100000#32))) w

def col2 (w : IVec S16384x20 32) : IVec S16384x20x1 32 :=
  broadcastInDim S16384x20x1 ![0, 1] bcast_S16384x20_S16384x20x1_0_1 (wrap2 w)

def inb2 (w : IVec S16384x20 32) : IVec S16384x20 1 :=
  Host.reduce IntOp.andi
    (andi (cmpi .sge (col2 w) (broadcastInDim S16384x20x1 ![] bcast_S_S16384x20x1 (constantI S_ 32 0#32)))
      (cmpi .sle (col2 w) (broadcastInDim S16384x20x1 ![0, 1, 2] bcast_S1x1x1_S16384x20x1_0_1_2
        (broadcastInDim S1x1x1 ![2] bcast_S1_S1x1x1_2 (constantI S1 32 99999#32)))))
    (constantI S_ 1 1#1) reducesTo_S16384x20x1_S16384x20_d2 h_S_

def takeRows2 (A : FVec F S100000x128 .f32) (w : IVec S16384x20 32) : FVec F S16384x20x128 .f32 :=
  select (broadcastInDim S16384x20x128 ![0, 1] bcast_S16384x20_S16384x20x128_0_1 (inb2 w))
    (Host.gather gather_S100000x128_S16384x20x1_S16384x20x128_2_0_n_n_0_2_1128 A (col2 w))
    (broadcastInDim S16384x20x128 ![] bcast_S_S16384x20x128 (constant (F := F) S_ .f32 0x7FC00000#32))

/-- Softplus as the reference spells it, on a vector of any shape whose zero splat is given:
    where x - 0 differs from itself, x + 0; elsewhere max(x, 0) + log(1 + exp(-|x - 0|)). -/
def softplusV {s : Shape} (z : FVec F s .f32) (x : FVec F s .f32) : FVec F s .f32 :=
  select (cmpf .une (subf x z) (subf x z)) (addf x z)
    (addf (maximumf x z) (Host.log1p (Host.exp (Host.negf (Host.absf (subf x z))))))

/-- Log-sigmoid as the reference spells it: minus softplus of minus x. -/
def logSigV {s : Shape} (z : FVec F s .f32) (x : FVec F s .f32) : FVec F s .f32 :=
  Host.negf (softplusV z (Host.negf x))

/-- The zero splats of the two shapes the log-sigmoids run at. -/
def zero1 : FVec F S16384 .f32 := broadcastInDim S16384 ![] bcast_S_S16384 (constant (F := F) S_ .f32 0x00000000#32)
def zero2 : FVec F S16384x20 .f32 := broadcastInDim S16384x20 ![] bcast_S_S16384x20 (constant (F := F) S_ .f32 0x00000000#32)

/-- The positive scores: row sums of the product of the two looked-up [16384, 128] arrays. -/
def posScore (v u : FVec F S16384x128 .f32) : FVec F S16384 .f32 :=
  Host.reduceAdd (mulf v u) (constant (F := F) S_ .f32 0x00000000#32) reducesTo_S16384x128_S16384_d1 h_S_

/-- Minus the negative scores: the batched dot of the [16384, 20, 128] rows with the [16384, 128] rows, negated. -/
def negScore (un : FVec F S16384x20x128 .f32) (v : FVec F S16384x128 .f32) : FVec F S16384x20 .f32 :=
  Host.negf (Host.dotGeneral dot_S16384x20x128_S16384x128_S16384x20_2_1_1_n_0_0 none un v)

/-- From the two arrays of log-sigmoids to the loss: add the row sums of the second to the first, sum, divide by 16384, negate. -/
def lossOf (p : FVec F S16384 .f32) (q : FVec F S16384x20 .f32) : FVec F S_ .f32 :=
  Host.negf (Host.divf
    (Host.reduceAdd
      (addf p (Host.reduceAdd q (constant (F := F) S_ .f32 0x00000000#32) reducesTo_S16384x20_S16384_d1 h_S_))
      (constant (F := F) S_ .f32 0x00000000#32) reducesTo_S16384_S_d0 h_S_)
    (constant (F := F) S_ .f32 0x46800000#32))

/-- The reference's result as a function of its five arguments. -/
def refTerm (A B : FVec F S100000x128 .f32) (cw pw : IVec S16384 32) (nw : IVec S16384x20 32) : FVec F S_ .f32 :=
  lossOf (logSigV zero1 (posScore (takeRows A cw) (takeRows B pw)))
    (logSigV zero2 (negScore (takeRows2 B nw) (takeRows A cw)))

end Cert.Proof.Ref

end
-- ==== Proof.LibHostLine.lean ====
/- A straight line of host operations, taken in pieces.

General facts about a straight line of host operations on a device, used to treat a long program window by window.

* An operation that "writes past slot n" writes exactly one device buffer, and that buffer's slot index is at least n.
  A line made only of such operations leaves every buffer in a slot below n with the contents it started from: the
  argument arrays of a program sit in the first slots, so this is "the arguments end unchanged".
* What a concatenation of two lines leaves is what the second leaves of what the first leaves.
* The three side conditions a run of a line asks (only device buffers touched, nothing allocated, the writes past a slot)
  hold of a concatenation when they hold of the pieces.
* A line in single-assignment form with ascending slots — each operation writes one buffer, in a slot above every slot
  written before it, and its result depends only on buffers in lower slots — satisfies its own equations at the end: the
  final contents of each operation's result buffer are that operation's function of the FINAL contents of the buffers
  (nothing it reads is written again, and nothing later writes its result). This turns a long line into a system of
  equations between named buffers, one per operation, to be used in any order. -/
import Idealize.ShloMosaic.Lib.StableHlo.Run

noncomputable section

namespace Idealize.ShloMosaic.StableHlo

variable {nD : Nat} {τ : Topo} {sig : RefSig} {Val : EltTy → Type}

/-- The operation writes exactly one device buffer, in a slot of index at least n. -/
def WritesPast (n : ℕ) (op : HloOp τ sig Val) : Prop :=
  ∃ y : Ref sig .tc, op.writes = {Proc.devRef (τ := τ) .tc y} ∧ n ≤ y.idx.val

/-- A line of operations that all write past slot n leaves a buffer in a slot below n as it found it. -/
theorem after_keep_of_writesPast {n : ℕ} {r : Ref sig .tc} (hr : r.idx.val < n) (ops : List (HloOp τ sig Val))
    (V : Valuation τ sig Val) (h : ops.Forall (WritesPast (τ := τ) n)) :
    after ops V (Proc.devRef .tc r) = V (Proc.devRef .tc r) :=
  after_of_forall_not_mem ops V fun op hop hb => by
    obtain ⟨y, hw, hy⟩ := (List.forall_iff_forall_mem.mp h) op hop
    rw [hw, Finset.mem_singleton] at hb
    have : r = y := Proc.devRef_injective _ hb
    subst this
    omega

/-- Two lines one after the other: the second's effect on the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A property of every operation of two lines is one of their concatenation. -/
theorem forall_append_of {p : HloOp τ sig Val → Prop} {l₁ l₂ : List (HloOp τ sig Val)}
    (h₁ : l₁.Forall p) (h₂ : l₂.Forall p) : (l₁ ++ l₂).Forall p :=
  List.forall_iff_forall_mem.mpr fun op hop =>
    (List.mem_append.mp hop).elim (List.forall_iff_forall_mem.mp h₁ op) (List.forall_iff_forall_mem.mp h₂ op)

/-- The operation's result at y depends only on the contents of buffers in slots below y's. -/
def ReadsBelow (op : HloOp τ sig Val) (y : Ref sig .tc) : Prop :=
  ∀ F G : Valuation τ sig Val,
    (∀ r : Ref sig .tc, r.idx.val < y.idx.val → F (Proc.devRef .tc r) = G (Proc.devRef .tc r)) →
    op.result F (Proc.devRef .tc y) = op.result G (Proc.devRef .tc y)

/-- Single assignment with ascending slots, from slot n up to (not including) slot m: each operation writes one buffer, at
    a slot not below n and above all earlier ones, reads only below its own slot, and the last slot written is below m. -/
def AscendingTo : ℕ → List (HloOp τ sig Val) → ℕ → Prop
  | n, [], m => n ≤ m
  | n, op :: ops, m => ∃ y : Ref sig .tc, op.writes = {Proc.devRef (τ := τ) .tc y} ∧ n ≤ y.idx.val ∧ ReadsBelow op y
      ∧ AscendingTo (y.idx.val + 1) ops m

/-- Starting lower is weaker. -/
theorem AscendingTo.mono_start {n k m : ℕ} (hkn : k ≤ n) : ∀ {ops : List (HloOp τ sig Val)},
    AscendingTo n ops m → AscendingTo k ops m
  | [], h => le_trans hkn h
  | _ :: _, ⟨y, hw, hn, hr, hrest⟩ => ⟨y, hw, le_trans hkn hn, hr, hrest⟩

/-- An ascending line writes only at or past its starting slot. -/
theorem AscendingTo.forall_writesPast : ∀ {n m : ℕ} {ops : List (HloOp τ sig Val)}, AscendingTo n ops m →
    ops.Forall (WritesPast (τ := τ) n)
  | _, _, [], _ => List.forall_iff_forall_mem.mpr fun _ h => nomatch h
  | n, m, op :: ops, ⟨y, hw, hn, _, hrest⟩ =>
    List.forall_iff_forall_mem.mpr fun o ho => by
      rcases List.mem_cons.mp ho with rfl | ho'
      · exact ⟨y, hw, hn⟩
      · obtain ⟨z, hz, hzn⟩ := List.forall_iff_forall_mem.mp (AscendingTo.forall_writesPast hrest) o ho'
        exact ⟨z, hz, by omega⟩

/-- Ascending lines join end to start. -/
theorem AscendingTo.append : ∀ {n k m : ℕ} {l₁ l₂ : List (HloOp τ sig Val)}, AscendingTo n l₁ k → AscendingTo k l₂ m →
    AscendingTo n (l₁ ++ l₂) m
  | _, _, _, [], _, h₁, h₂ => AscendingTo.mono_start h₁ h₂
  | _, _, _, _ :: _, _, ⟨y, hw, hn, hr, hrest⟩, h₂ => ⟨y, hw, hn, hr, AscendingTo.append hrest h₂⟩

/-- **An ascending single-assignment line satisfies its own equations at the end.** -/
theorem AscendingTo.fixpoint : ∀ {n m : ℕ} {ops : List (HloOp τ sig Val)}, AscendingTo n ops m → ∀ (V : Valuation τ sig Val),
    ∀ op ∈ ops, ∀ y : Ref sig .tc, op.writes = {Proc.devRef (τ := τ) .tc y} → ReadsBelow op y →
      after ops V (Proc.devRef .tc y) = op.result (after ops V) (Proc.devRef .tc y)
  | _, _, [], _, _, _, ho, _, _, _ => nomatch ho
  | n, m, op₀ :: rest, ⟨y₀, hw₀, hn₀, hr₀, hrest⟩, V, op, ho, y, hw, hr => by
    rcases List.mem_cons.mp ho with rfl | ho'
    · -- the head: nothing later writes its result, and what it reads is below every later write
      have hy : y = y₀ := by
        have : Proc.devRef (τ := τ) .tc y ∈ ({Proc.devRef (τ := τ) .tc y₀} : Finset _) := by
          rw [← hw₀, hw]; exact Finset.mem_singleton_self _
        exact Proc.devRef_injective _ (Finset.mem_singleton.mp this)
      subst hy
      have hpast := AscendingTo.forall_writesPast hrest
      rw [after_cons, after_keep_of_writesPast (Nat.lt_succ_self _) rest _ hpast]
      refine hr _ _ fun r hrlt => ?_
      have h1 : after rest (op.result V) (Proc.devRef .tc r) = op.result V (Proc.devRef .tc r) :=
        after_keep_of_writesPast (by omega) rest _ hpast
      rw [h1]
      refine (op.result_of_not_mem V ?_).symm
      rw [hw₀, Finset.mem_singleton]
      intro he
      have : r = y := Proc.devRef_injective _ he
      subst this
      omega
    · exact AscendingTo.fixpoint hrest (op₀.result V) op ho' y hw hr

/-! The builders of host operations read only their operands. -/

section Builders

variable (x a b c y : Ref sig .tc)

theorem readsBelow_nullary (v : y.ty.Contents Val) (hy) : ReadsBelow (nullary (τ := τ) y v hy) y :=
  fun F G _ => by rw [nullary_result, nullary_result]

theorem readsBelow_unary (f : x.ty.Contents Val → y.ty.Contents Val) (hx hy) (h : x.idx.val < y.idx.val) :
    ReadsBelow (unary (τ := τ) x y f hx hy) y :=
  fun F G hFG => by rw [unary_result, unary_result, hFG x h]

theorem readsBelow_binary (f : a.ty.Contents Val → b.ty.Contents Val → y.ty.Contents Val) (ha hb hy)
    (h₁ : a.idx.val < y.idx.val) (h₂ : b.idx.val < y.idx.val) : ReadsBelow (binary (τ := τ) a b y f ha hb hy) y :=
  fun F G hFG => by rw [binary_result, binary_result, hFG a h₁, hFG b h₂]

theorem readsBelow_ternary (f : c.ty.Contents Val → a.ty.Contents Val → b.ty.Contents Val → y.ty.Contents Val) (hc ha hb hy)
    (h₀ : c.idx.val < y.idx.val) (h₁ : a.idx.val < y.idx.val) (h₂ : b.idx.val < y.idx.val) :
    ReadsBelow (ternary (τ := τ) c a b y f hc ha hb hy) y :=
  fun F G hFG => by rw [ternary_result, ternary_result, hFG c h₀, hFG a h₁, hFG b h₂]

theorem readsBelow_reshape (he hn hx hy) (h : x.idx.val < y.idx.val) :
    ReadsBelow (reshape (τ := τ) (Val := Val) x y he hn hx hy) y :=
  fun F G hFG => by rw [reshape_result, reshape_result, hFG x h]

theorem readsBelow_nary {n : ℕ} (xs : Fin n → Ref sig .tc) (f : ((k : Fin n) → (xs k).ty.Contents Val) → y.ty.Contents Val)
    (hxs hy) (h : ∀ k, (xs k).idx.val < y.idx.val) : ReadsBelow (nary (τ := τ) xs y f hxs hy) y :=
  fun F G hFG => by
    rw [nary_result, nary_result]
    congr 1
    funext k
    exact hFG (xs k) (h k)

end Builders

end Idealize.ShloMosaic.StableHlo

end
-- ==== Proof.RefRun.lean ====
import proofs.«215899_g5772436046013_cont_9to1c4b_742_31_alg».proof.Proof.RefOps
import proofs.«215899_g5772436046013_cont_9to1c4b_742_31_alg».proof.Proof.RefTerm
import proofs.«215899_g5772436046013_cont_9to1c4b_742_31_alg».proof.Proof.LibHostLine

/-!
  The reference program's run.

  Each of the eight lines of the main function leaves, in its result buffer, its pure function of the
  buffers it reads, and leaves every buffer in a lower slot as it found it (each operation writes one buffer,
  in a slot at or past the line's first). Chained, the main function ends with its result buffer at the
  composed term of the five argument arrays, and the arguments unchanged.
-/

noncomputable section

namespace Cert.Proof.Ref

open Idealize.ShloMosaic Idealize.ShloMosaic.TcCoe Idealize.SL.Sem Idealize.ShloMosaic.StableHlo
open Cert.ReferenceIdeal Cert.ReferenceIdeal.Facts₀

variable {F : FTy → Type} [FloatOps F]

/-- What the run asks of an operation, and that it writes one buffer at or past slot n. -/
def Good (n : ℕ) (op : HloOp τ sig (Elt F)) : Prop :=
  op.bufs ⊆ tcRefs τ sig ∧ op.fresh = ∅ ∧ WritesPast (τ := τ) n op

local macro "gN" : tactic => `(tactic| exact ⟨nullary_bufs_sub .., rfl, _, rfl, by decide⟩)
local macro "gU" : tactic => `(tactic| exact ⟨unary_bufs_sub .., rfl, _, rfl, by decide⟩)
local macro "gB" : tactic => `(tactic| exact ⟨binary_bufs_sub .., rfl, _, rfl, by decide⟩)
local macro "gT" : tactic => `(tactic| exact ⟨ternary_bufs_sub .., rfl, _, rfl, by decide⟩)

set_option maxRecDepth 100000 in
set_option maxHeartbeats 2000000 in
theorem goodA : (opsA (F := F)).Forall (Good 5) := by
  simp only [opsA, takeOps]
  exact ⟨by gN, by gU, by gB, by gN, by gU, by gB, by gT, by gU, by gN, by gN, by gU, by gB, by gU, by gU, by gB, by gB, by gN, by gB, by gB, by gU, by gN, by gU, by gT⟩
set_option maxRecDepth 100000 in
set_option maxHeartbeats 2000000 in
theorem goodB : (opsB (F := F)).Forall (Good 28) := by
  simp only [opsB, takeOps]
  exact ⟨by gN, by gU, by gB, by gN, by gU, by gB, by gT, by gU, by gN, by gN, by gU, by gB, by gU, by gU, by gB, by gB, by gN, by gB, by gB, by gU, by gN, by gU, by gT⟩
set_option maxRecDepth 100000 in
set_option maxHeartbeats 2000000 in
theorem goodN : (opsN (F := F)).Forall (Good 51) := by
  simp only [opsN, take0Ops]
  exact ⟨by gN, by gU, by gB, by gN, by gU, by gB, by gT, by gU, by gN, by gN, by gU, by gB, by gU, by gU, by gB, by gB, by gN, by gB, by gB, by gU, by gN, by gU, by gT⟩
set_option maxRecDepth 100000 in
set_option maxHeartbeats 2000000 in
theorem goodP : (opsP (F := F)).Forall (Good 74) := ⟨by gB, by gN, by gB⟩
set_option maxRecDepth 100000 in
set_option maxHeartbeats 2000000 in
theorem goodL : (opsL (F := F)).Forall (Good 77) := by
  simp only [opsL, lsOps]
  exact ⟨by gU, by gN, by gU, by gB, by gU, by gB, by gB, by gU, by gB, by gU, by gU, by gU, by gU, by gB, by gT, by gU⟩
set_option maxRecDepth 100000 in
set_option maxHeartbeats 2000000 in
theorem goodD : (opsD (F := F)).Forall (Good 93) := ⟨by gB, by gU⟩
set_option maxRecDepth 100000 in
set_option maxHeartbeats 2000000 in
theorem goodM : (opsM (F := F)).Forall (Good 95) := by
  simp only [opsM, ls2Ops]
  exact ⟨by gU, by gN, by gU, by gB, by gU, by gB, by gB, by gU, by gB, by gU, by gU, by gU, by gU, by gB, by gT, by gU⟩
set_option maxRecDepth 100000 in
set_option maxHeartbeats 2000000 in
theorem goodT : (opsT (F := F)).Forall (Good 111) := ⟨by gN, by gB, by gB, by gN, by gB, by gN, by gB, by gU⟩

/-- A line of good operations keeps every buffer in a slot below its first. -/
theorem keep_of_good {n : ℕ} {l : List (HloOp τ sig (Elt F))} (h : l.Forall (Good n)) (V : Valuation τ sig (Elt F))
    (r : Ref sig .tc) (hr : r.idx.val < n) : after l V (Proc.devRef .tc r) = V (Proc.devRef .tc r) :=
  after_keep_of_writesPast hr l V
    (List.forall_iff_forall_mem.mpr fun op hop => ((List.forall_iff_forall_mem.mp h) op hop).2.2)

/-! ## What each line leaves in its result buffer -/

set_option maxRecDepth 1000000 in
set_option maxHeartbeats 4000000 in
theorem valA (V : Valuation τ sig (Elt F)) :
    after (opsA (F := F)) V (Proc.devRef .tc main_v0)
      = takeRows (V (Proc.devRef .tc main_arg0)) (V (Proc.devRef .tc main_arg2)) := by
  simp only [opsA, takeOps]
  after_results_simp
  rfl

set_option maxRecDepth 1000000 in
set_option maxHeartbeats 4000000 in
theorem valB (V : Valuation τ sig (Elt F)) :
    after (opsB (F := F)) V (Proc.devRef .tc main_v1)
      = takeRows (V (Proc.devRef .tc main_arg1)) (V (Proc.devRef .tc main_arg3)) := by
  simp only [opsB, takeOps]
  after_results_simp
  rfl

set_option maxRecDepth 1000000 in
set_option maxHeartbeats 4000000 in
theorem valN (V : Valuation τ sig (Elt F)) :
    after (opsN (F := F)) V (Proc.devRef .tc main_v2)
      = takeRows2 (V (Proc.devRef .tc main_arg1)) (V (Proc.devRef .tc main_arg4)) := by
  simp only [opsN, take0Ops]
  after_results_simp
  rfl

set_option maxRecDepth 1000000 in
set_option maxHeartbeats 4000000 in
theorem valP (V : Valuation τ sig (Elt F)) :
    after (opsP (F := F)) V (Proc.devRef .tc main_v4)
      = posScore (V (Proc.devRef .tc main_v0)) (V (Proc.devRef .tc main_v1)) := by
  after_results_simp
  rfl

set_option maxRecDepth 1000000 in
set_option maxHeartbeats 4000000 in
theorem valL (V : Valuation τ sig (Elt F)) :
    after (opsL (F := F)) V (Proc.devRef .tc main_v5) = logSigV zero1 (V (Proc.devRef .tc main_v4)) := by
  simp only [opsL, lsOps]
  after_results_simp
  rfl

set_option maxRecDepth 1000000 in
set_option maxHeartbeats 4000000 in
theorem valD (V : Valuation τ sig (Elt F)) :
    after (opsD (F := F)) V (Proc.devRef .tc main_v7)
      = negScore (V (Proc.devRef .tc main_v2)) (V (Proc.devRef .tc main_v0)) := by
  after_results_simp
  rfl

set_option maxRecDepth 1000000 in
set_option maxHeartbeats 4000000 in
theorem valM (V : Valuation τ sig (Elt F)) :
    after (opsM (F := F)) V (Proc.devRef .tc main_v8) = logSigV zero2 (V (Proc.devRef .tc main_v7)) := by
  simp only [opsM, ls2Ops]
  after_results_simp
  rfl

set_option maxRecDepth 1000000 in
set_option maxHeartbeats 4000000 in
theorem valT (V : Valuation τ sig (Elt F)) :
    after (opsT (F := F)) V (Proc.devRef .tc main_v13)
      = lossOf (V (Proc.devRef .tc main_v5)) (V (Proc.devRef .tc main_v8)) := by
  after_results_simp
  rfl

/-! ## The whole line -/

theorem res_eq (V : Valuation τ sig (Elt F)) :
    after (ops (F := F)) V (Proc.devRef .tc main_v13)
      = refTerm (V (Proc.devRef .tc main_arg0)) (V (Proc.devRef .tc main_arg1)) (V (Proc.devRef .tc main_arg2))
          (V (Proc.devRef .tc main_arg3)) (V (Proc.devRef .tc main_arg4)) := by
  simp only [ops, after_append]
  rw [valT, valM, keep_of_good goodM _ main_v5 (by decide),
    valD, keep_of_good goodD _ main_v5 (by decide),
    valL, keep_of_good goodL _ main_v2 (by decide), keep_of_good goodL _ main_v0 (by decide),
    valP, keep_of_good goodP _ main_v2 (by decide), keep_of_good goodP _ main_v0 (by decide),
    valN, keep_of_good goodN _ main_v0 (by decide), keep_of_good goodN _ main_v1 (by decide),
    valB, keep_of_good goodB _ main_v0 (by decide), keep_of_good goodB _ main_arg1 (by decide),
    keep_of_good goodB _ main_arg4 (by decide),
    valA, keep_of_good goodA _ main_arg1 (by decide), keep_of_good goodA _ main_arg3 (by decide),
    keep_of_good goodA _ main_arg4 (by decide)]
  rfl

/-- The whole line keeps the five argument buffers (slots 0 to 4). -/
theorem keep_all (V : Valuation τ sig (Elt F)) (r : Ref sig .tc) (hr : r.idx.val < 5) :
    after (ops (F := F)) V (Proc.devRef .tc r) = V (Proc.devRef .tc r) := by
  simp only [ops, after_append]
  rw [keep_of_good goodT _ r (by omega), keep_of_good goodM _ r (by omega), keep_of_good goodD _ r (by omega),
    keep_of_good goodL _ r (by omega), keep_of_good goodP _ r (by omega), keep_of_good goodN _ r (by omega),
    keep_of_good goodB _ r (by omega), keep_of_good goodA _ r hr]

theorem ops_good : ∀ op ∈ (ops (F := F)), Good 5 op := by
  have mono : ∀ {n : ℕ} (_ : 5 ≤ n) {l : List (HloOp τ sig (Elt F))}, l.Forall (Good n) → ∀ op ∈ l, Good 5 op :=
    fun hn _ h op hop =>
      let g := (List.forall_iff_forall_mem.mp h) op hop
      ⟨g.1, g.2.1, g.2.2.elim fun y hy => ⟨y, hy.1, le_trans hn hy.2⟩⟩
  intro op hop
  simp only [ops, List.mem_append] at hop
  rcases hop with h | h | h | h | h | h | h | h
  · exact mono (by decide) goodA op h
  · exact mono (by decide) goodB op h
  · exact mono (by decide) goodN op h
  · exact mono (by decide) goodP op h
  · exact mono (by decide) goodL op h
  · exact mono (by decide) goodD op h
  · exact mono (by decide) goodM op h
  · exact mono (by decide) goodT op h

/-- On every device, for any float values, from any memory with zero counters: every weakly fair execution of the
    main function terminates with its result at the composed term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v13)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := F)) _ _).mono (fun _ h c => ⟨(h c main_v13).trans (res_eq _),
      (h c main_arg0).trans (keep_all _ _ (by decide)),
      (h c main_arg1).trans (keep_all _ _ (by decide)),
      (h c main_arg2).trans (keep_all _ _ (by decide)),
      (h c main_arg3).trans (keep_all _ _ (by decide)),
      (h c main_arg4).trans (keep_all _ _ (by decide))⟩)
    (run_seq scopedRefs_eq scopedSems_eq defs main (fun _ => ops) main_eq
      (fun _ => List.forall_iff_forall_mem.mpr fun op hop => (ops_good op hop).1) m ρ
      (fun _ op hop => (ops_good op hop).2.1))

end Cert.Proof.Ref

end
-- ==== Proof.LibGatherIdx.lean ====
/-
  A gather read at an index, axis by axis.

  A gather's result element at j is the operand's element at the operand index, whose coordinate on operand axis a
  is the clamped start plus the batching coordinate plus the offset coordinate. For a gather with no batching axes
  the coordinate is, on an axis the start index map does not name and the slice keeps, j's coordinate on the offset
  axis in that axis's position; on a collapsed axis the start index map names, the start index's component for that
  axis read signed and clamped so that the slice fits. These are the definitions of the dimension numbers' record,
  unfolded once.
-/
import Idealize.ShloMosaic.PureOps.ShapeOps

noncomputable section

namespace Cert.Lib.GatherIdx

open Idealize.ShloMosaic

variable {s si t : Shape} {α : Type} {w : Nat}

/-- A gather read at j is the operand at any index whose coordinates are the operand index's. -/
theorem gather_apply (d : GatherDims s si t) (x : s.Idx → α) (idx : IVec si w) (j : t.Idx) (k : s.Idx)
    (hk : ∀ a : Fin s.rank, (d.operandIdx j idx a).val = (k a).val) : Host.gather d x idx j = x k := by
  unfold Host.gather
  exact congrArg x (funext fun a => Fin.ext (hk a))

/-- With no batching axes, on an operand axis that the start index map does not name and the slice keeps, the operand
    index's coordinate is the result index's coordinate on the offset axis in that axis's position. -/
theorem val_offset (d : GatherDims s si t) (hb : d.operandBatchingDims = []) (j : t.Idx) (idx : IVec si w)
    (a : Fin s.rank) (hs : a ∉ d.startIndexMap) (hk : a ∈ d.sKept) :
    (d.operandIdx j idx a).val
      = (j (d.offsetDims[d.sKept.idxOf a]'(by rw [d.offset_length]; exact List.idxOf_lt_length_iff.2 hk))).val := by
  show d.start j idx a + d.batchCoord j a + d.offCoord j a = _
  rw [d.batchCoord_eq_zero j a (by rw [hb]; exact List.not_mem_nil)]
  unfold GatherDims.start GatherDims.offCoord
  rw [dif_neg hs, dif_pos hk]
  omega

/-- With no batching axes, on a collapsed operand axis that the start index map names, the operand index's coordinate
    is the start index's component for that axis, read signed and clamped so that the slice fits. -/
theorem val_indexed (d : GatherDims s si t) (hb : d.operandBatchingDims = []) (j : t.Idx) (idx : IVec si w)
    (a : Fin s.rank) (hs : a ∈ d.startIndexMap) (hc : a ∈ d.collapsedSliceDims) :
    (d.operandIdx j idx a).val
      = min (idx (d.siIdx j ⟨d.startIndexMap.idxOf a, List.idxOf_lt_length_iff.2 hs⟩)).toInt.toNat
          (s.size a - d.sliceSizes a) := by
  show d.start j idx a + d.batchCoord j a + d.offCoord j a = _
  rw [d.batchCoord_eq_zero j a (by rw [hb]; exact List.not_mem_nil),
    d.offCoord_eq_zero j a (fun h => ((d.mem_sKept a).mp h).1 hc)]
  unfold GatherDims.start
  rw [dif_pos hs]
  omega

end Cert.Lib.GatherIdx

end
-- ==== Proof.RefSpec.lean ====
import Idealize.ShloMosaic.PureOps.Ideal
import Idealize.ShloMosaic.Lib.ValueIdx

/-!
  The loss as a closed formula over the extended reals.

  For each of the 16384 samples b: the log-sigmoid of the dot product of the centre row and the positive
  context row, plus the sum over the 20 negatives j of the log-sigmoid of minus the dot product of the
  negative context row and the centre row; the loss is minus the mean over the samples. The log-sigmoid
  is minus the softplus of minus its argument, and the softplus of y is max(y, 0) + log(1 + exp(-|y|)).
-/

noncomputable section

open scoped BigOperators

namespace Cert.Proof.Ref

open Idealize.ShloMosaic Idealize.ShloMosaic.ValueIdx

/-- The table row an index word addresses (the word read unsigned; reduced modulo the table's height only so
    that the row is defined for every word). -/
def rowIx (wd : BitVec 32) : Fin 100000 := ⟨wd.toNat % 100000, Nat.mod_lt _ (by decide)⟩

theorem rowIx_val {wd : BitVec 32} (h : wd.toNat < 100000) : (rowIx wd).val = wd.toNat := Nat.mod_eq_of_lt h

/-- Softplus: max(y, 0) + log(1 + exp(-|y|)). -/
def softplusI (y : EReal) : EReal := max y 0 + Ideal.log1p (Ideal.exp (-(max y (-y))))

/-- Log-sigmoid: minus the softplus of minus x. -/
def lsI (x : EReal) : EReal := -(softplusI (-x))

/-- The negative-sampling loss of two [100000, 128] tables at 16384 centre words, 16384 positive context
    words and 16384 × 20 negative context words. -/
def refLoss (A B : FVec Ideal ⟨2, ![100000, 128]⟩ .f32) (cw pw : IVec ⟨1, ![16384]⟩ 32)
    (nw : IVec ⟨2, ![16384, 20]⟩ 32) : EReal :=
  -(Ideal.div
      (∑ b : Fin 16384,
        (lsI (∑ k : Fin 128, A (ix2 (rowIx (cw (ix1 b))) k) * B (ix2 (rowIx (pw (ix1 b))) k))
          + ∑ j : Fin 20, lsI (-(∑ k : Fin 128, B (ix2 (rowIx (nw (ix2 b j))) k) * A (ix2 (rowIx (cw (ix1 b))) k)))))
      (Ideal.ofBits .f32 0x46800000#32))

end Cert.Proof.Ref

end
-- ==== Proof.RefRows.lean ====
import proofs.«215899_g5772436046013_cont_9to1c4b_742_31_alg».proof.Proof.RefTerm
import proofs.«215899_g5772436046013_cont_9to1c4b_742_31_alg».proof.Proof.LibGatherIdx
import proofs.«215899_g5772436046013_cont_9to1c4b_742_31_alg».proof.Proof.RefSpec
import Idealize.ShloMosaic.Lib.Affine
import Idealize.ShloMosaic.Lib.ValueIdx
import Idealize.ShloMosaic.Lib.Pipeline.Value
import Idealize.ShloMosaic.PureOps.Reduce
import Idealize.ShloMosaic.PureOps.Ideal.Laws

/-!
  The row lookups read at an index.

  With every index word in [0, 99999]: the wrap of negative words changes nothing, every start index passes
  the range test, the gather's clamp changes nothing, and so a looked-up row is the table's row at the
  word read unsigned. Stated for any table element type.
-/

noncomputable section

namespace Cert.Proof.Ref

open Idealize.ShloMosaic Idealize.ShloMosaic.ValueIdx
open Cert.ReferenceIdeal Cert.ReferenceIdeal.Facts₀

variable {F : FTy → Type} [FloatOps F] [Cert.ReferenceIdeal.Facts]

/-- A word in [0, 99999] read signed is the same number read unsigned. -/
theorem toNat_of_range {x : BitVec 32} (h0 : 0 ≤ x.toInt) (h1 : x.toInt ≤ 99999) :
    x.toInt.toNat = x.toNat ∧ x.toNat < 100000 := by
  have hx := x.isLt
  rw [BitVec.toInt_eq_toNat_cond] at h0 h1 ⊢
  split at h0 <;> omega

/-- A left fold by "and" from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A reduction by "and" from 1 of an array of ones is 1 everywhere. -/
theorem reduce_andi_one {s t u : Shape} {axes : List (Fin s.rank)} (x : s.Idx → BitVec 1) (init : u.Idx → BitVec 1)
    (h : s.ReducesTo axes t) (hu : 0 < u.numel) (j : t.Idx) (hi : ∀ k, init k = 1#1) (hx : ∀ i, x i = 1#1) :
    Host.reduce IntOp.andi x init h hu j = 1#1 := by
  rw [Host.reduce_eq_foldl, hi]
  exact foldl_andi_one x _ fun i _ => hx i

/-! The two gathers' dimension numbers, as membership facts. -/

section GatherFacts

theorem g1_sim : (0 : Fin 2) ∈ gather_S100000x128_S16384x1_S16384x128_1_0_n_n_0_1_1128.startIndexMap :=
  List.mem_singleton.2 rfl
theorem g1_col : (0 : Fin 2) ∈ gather_S100000x128_S16384x1_S16384x128_1_0_n_n_0_1_1128.collapsedSliceDims :=
  List.mem_singleton.2 rfl
theorem g1_nsim : (1 : Fin 2) ∉ gather_S100000x128_S16384x1_S16384x128_1_0_n_n_0_1_1128.startIndexMap :=
  fun h => absurd (List.mem_singleton.1 h) (by decide)
theorem g1_kept : (1 : Fin 2) ∈ gather_S100000x128_S16384x1_S16384x128_1_0_n_n_0_1_1128.sKept :=
  (GatherDims.mem_sKept _ 1).2 ⟨fun h => absurd (List.mem_singleton.1 h) (by decide), fun h => nomatch h⟩
theorem g2_sim : (0 : Fin 2) ∈ gather_S100000x128_S16384x20x1_S16384x20x128_2_0_n_n_0_2_1128.startIndexMap :=
  List.mem_singleton.2 rfl
theorem g2_col : (0 : Fin 2) ∈ gather_S100000x128_S16384x20x1_S16384x20x128_2_0_n_n_0_2_1128.collapsedSliceDims :=
  List.mem_singleton.2 rfl
theorem g2_nsim : (1 : Fin 2) ∉ gather_S100000x128_S16384x20x1_S16384x20x128_2_0_n_n_0_2_1128.startIndexMap :=
  fun h => absurd (List.mem_singleton.1 h) (by decide)
theorem g2_kept : (1 : Fin 2) ∈ gather_S100000x128_S16384x20x1_S16384x20x128_2_0_n_n_0_2_1128.sKept :=
  (GatherDims.mem_sKept _ 1).2 ⟨fun h => absurd (List.mem_singleton.1 h) (by decide), fun h => nomatch h⟩

theorem g1_siIdx (b : Fin 16384) (k : Fin 128)
    (c : Fin gather_S100000x128_S16384x1_S16384x128_1_0_n_n_0_1_1128.startIndexMap.length) :
    gather_S100000x128_S16384x1_S16384x128_1_0_n_n_0_1_1128.siIdx (ix2 b k) c = ix2 b (0 : Fin 1) := by
  funext d; refine Fin.ext ?_
  match d with
  | ⟨0, _⟩ => rfl
  | ⟨1, _⟩ =>
    show c.val = 0
    have : c.val < 1 := c.isLt
    omega
theorem g2_siIdx (b : Fin 16384) (j : Fin 20) (k : Fin 128)
    (c : Fin gather_S100000x128_S16384x20x1_S16384x20x128_2_0_n_n_0_2_1128.startIndexMap.length) :
    gather_S100000x128_S16384x20x1_S16384x20x128_2_0_n_n_0_2_1128.siIdx (ix3 b j k) c = ix3 b j (0 : Fin 1) := by
  funext d; refine Fin.ext ?_
  match d with
  | ⟨0, _⟩ => rfl
  | ⟨1, _⟩ => rfl
  | ⟨2, _⟩ =>
    show c.val = 0
    have : c.val < 1 := c.isLt
    omega

end GatherFacts

section Rank1

variable (w : IVec S16384 32)

theorem wrap1_apply (i : S16384.Idx) (h : 0 ≤ (w i).toInt) : wrap1 w i = w i := by
  have hb : IntOp.cmpi .slt (w i) (0#32) = 0#1 :=
    eq_zero_of_ne_one fun e => by
      have := IntOp.cmpi_slt.1 e
      rw [show (0#32 : BitVec 32).toInt = 0 from by decide] at this
      omega
  show Scalar.select (IntOp.cmpi .slt (w i) 0#32) _ _ = _
  rw [hb, select_zero]

theorem col1_apply (b : Fin 16384) (z : Fin 1) : col1 w (ix2 b z) = wrap1 w (ix1 b) := by
  unfold col1
  exact broadcastInDim_apply _ _ _ _ (ix1 b) fun a => by
    match a with
    | ⟨0, _⟩ => rfl

theorem inb1_apply (hw : ∀ i, 0 ≤ (w i).toInt ∧ (w i).toInt ≤ 99999) (j : S16384.Idx) : inb1 w j = 1#1 := by
  unfold inb1
  refine reduce_andi_one _ _ _ _ _ (fun _ => rfl) fun i => ?_
  obtain ⟨b, z, rfl⟩ : ∃ (b : Fin 16384) (z : Fin 1), i = ix2 b z := ⟨i 0, i 1, eq_ix2 i⟩
  show IntOp.andi (IntOp.cmpi .sge (col1 w (ix2 b z)) 0#32) (IntOp.cmpi .sle (col1 w (ix2 b z)) 99999#32) = 1#1
  rw [col1_apply, wrap1_apply w _ (hw _).1]
  refine IntOp.andi_eq_one.2 ⟨IntOp.cmpi_sge.2 ?_, IntOp.cmpi_sle.2 ?_⟩
  · rw [show (0#32 : BitVec 32).toInt = 0 from by decide]; exact (hw _).1
  · rw [show (99999#32 : BitVec 32).toInt = 99999 from by decide]; exact (hw _).2

/-- A looked-up row is the table's row at the index word. -/
theorem takeRows_apply (A : FVec F S100000x128 .f32) (hw : ∀ i, 0 ≤ (w i).toInt ∧ (w i).toInt ≤ 99999)
    (b : Fin 16384) (k : Fin 128) : takeRows A w (ix2 b k) = A (ix2 (rowIx (w (ix1 b))) k) := by
  unfold takeRows
  rw [select_apply, broadcastInDim_apply _ _ _ (ix2 b k) (ix1 b) (fun a => by match a with | ⟨0, _⟩ => rfl),
    inb1_apply w hw, select_one]
  refine Cert.Lib.GatherIdx.gather_apply _ A (col1 w) (ix2 b k) _ fun a => ?_
  obtain ⟨e1, e2⟩ := toNat_of_range (hw (ix1 b)).1 (hw (ix1 b)).2
  match a with
  | ⟨0, _⟩ =>
    refine (Cert.Lib.GatherIdx.val_indexed _ rfl _ _ _ g1_sim g1_col).trans ?_
    rw [g1_siIdx, col1_apply, wrap1_apply w _ (hw _).1, e1]
    show min (w (ix1 b)).toNat (100000 - 1) = (w (ix1 b)).toNat % 100000
    omega
  | ⟨1, _⟩ =>
    exact (Cert.Lib.GatherIdx.val_offset _ rfl _ _ _ g1_nsim g1_kept).trans rfl

end Rank1

section Rank2

variable (w : IVec S16384x20 32)

theorem wrap2_apply (i : S16384x20.Idx) (h : 0 ≤ (w i).toInt) : wrap2 w i = w i := by
  have hb : IntOp.cmpi .slt (w i) (0#32) = 0#1 :=
    eq_zero_of_ne_one fun e => by
      have := IntOp.cmpi_slt.1 e
      rw [show (0#32 : BitVec 32).toInt = 0 from by decide] at this
      omega
  unfold wrap2
  rw [select_apply]
  exact (congrArg (fun c => Scalar.select c _ _) hb).trans (select_zero _ _)

theorem col2_apply (b : Fin 16384) (j : Fin 20) (z : Fin 1) : col2 w (ix3 b j z) = wrap2 w (ix2 b j) := by
  unfold col2
  exact broadcastInDim_apply _ _ _ _ (ix2 b j) fun a => by
    match a with
    | ⟨0, _⟩ => rfl
    | ⟨1, _⟩ => rfl

theorem inb2_apply (hw : ∀ i, 0 ≤ (w i).toInt ∧ (w i).toInt ≤ 99999) (j : S16384x20.Idx) : inb2 w j = 1#1 := by
  unfold inb2
  refine reduce_andi_one _ _ _ _ _ (fun _ => rfl) fun i => ?_
  obtain ⟨b, c, z, rfl⟩ : ∃ (b : Fin 16384) (c : Fin 20) (z : Fin 1), i = ix3 b c z := ⟨i 0, i 1, i 2, eq_ix3 i⟩
  have e : col2 w (ix3 b c z) = w (ix2 b c) := (col2_apply w b c z).trans (wrap2_apply w _ (hw _).1)
  refine IntOp.andi_eq_one.2 ⟨?_, ?_⟩
  · refine (congrArg (fun x => IntOp.cmpi .sge x (0#32)) e).trans (IntOp.cmpi_sge.2 ?_)
    rw [show (0#32 : BitVec 32).toInt = 0 from by decide]; exact (hw _).1
  · refine (congrArg (fun x => IntOp.cmpi .sle x (99999#32)) e).trans (IntOp.cmpi_sle.2 ?_)
    rw [show (99999#32 : BitVec 32).toInt = 99999 from by decide]; exact (hw _).2

/-- A looked-up row of the [16384, 20] lookup is the table's row at the index word. -/
theorem takeRows2_apply (A : FVec F S100000x128 .f32) (hw : ∀ i, 0 ≤ (w i).toInt ∧ (w i).toInt ≤ 99999)
    (b : Fin 16384) (j : Fin 20) (k : Fin 128) : takeRows2 A w (ix3 b j k) = A (ix2 (rowIx (w (ix2 b j))) k) := by
  unfold takeRows2
  rw [select_apply, broadcastInDim_apply _ _ _ (ix3 b j k) (ix2 b j)
      (fun a => by match a with | ⟨0, _⟩ => rfl | ⟨1, _⟩ => rfl),
    inb2_apply w hw, select_one]
  refine Cert.Lib.GatherIdx.gather_apply _ A (col2 w) (ix3 b j k) _ fun a => ?_
  obtain ⟨e1, e2⟩ := toNat_of_range (hw (ix2 b j)).1 (hw (ix2 b j)).2
  match a with
  | ⟨0, _⟩ =>
    refine (Cert.Lib.GatherIdx.val_indexed _ rfl _ _ _ g2_sim g2_col).trans ?_
    rw [g2_siIdx, col2_apply, wrap2_apply w _ (hw _).1, e1]
    show min (w (ix2 b j)).toNat (100000 - 1) = (w (ix2 b j)).toNat % 100000
    omega
  | ⟨1, _⟩ =>
    exact (Cert.Lib.GatherIdx.val_offset _ rfl _ _ _ g2_nsim g2_kept).trans rfl

end Rank2

end Cert.Proof.Ref

end
-- ==== Proof.RefValue.lean ====
import proofs.«215899_g5772436046013_cont_9to1c4b_742_31_alg».proof.Proof.RefRows

/-!
  The reference's value.

  Read at its one index, with every index word in [0, 99999], the reference's composed term is the closed
  loss formula: each row lookup is a table row, each row sum a finite sum over the 128 columns, the batched
  dot a finite sum per negative, the log-sigmoids the formula's (the guard on x ≠ x never fires on the
  extended reals), and the closing sums, division and negation those of the formula.
-/

noncomputable section

open scoped BigOperators

namespace Cert.Proof.Ref

open Idealize.ShloMosaic Idealize.ShloMosaic.ValueIdx
open Cert.ReferenceIdeal Cert.ReferenceIdeal.Facts₀

variable [Cert.ReferenceIdeal.Facts]

theorem ofBits_zero : Ideal.ofBits .f32 0x00000000#32 = (0 : EReal) := by simp [Ideal.ofBits, Ideal.ieee]

theorem cmp_une_self (x : EReal) : Ideal.cmp .une x x = 0#1 := by simp [Ideal.cmp]

/-- The log-sigmoid as the reference spells it, at an index where the zero splat is 0. -/
theorem logSigV_apply {s : Shape} (z x : FVec Ideal s .f32) (i : s.Idx) (hz : z i = 0) :
    logSigV z x i = lsI (x i) := by
  unfold logSigV softplusV lsI softplusI
  show -(Scalar.select (Ideal.cmp .une (-(x i) - z i) (-(x i) - z i)) (-(x i) + z i)
      (max (-(x i)) (z i) + Ideal.log1p (Ideal.exp (-(max (-(x i) - z i) (-(-(x i) - z i))))))) = _
  rw [cmp_une_self, select_zero, hz, sub_zero]

theorem zero1_apply (i : S16384.Idx) : zero1 (F := Ideal) i = 0 := ofBits_zero
theorem zero2_apply (i : S16384x20.Idx) : zero2 (F := Ideal) i = 0 := ofBits_zero

/-- The positive score of sample b: the sum over the 128 columns of the product of the two rows. -/
theorem posScore_apply (v u : FVec Ideal S16384x128 .f32) (b : Fin 16384) :
    posScore v u (ix1 b) = ∑ k : Fin 128, v (ix2 b k) * u (ix2 b k) := by
  have h : S16384x128.Reduces [(1 : Fin 2)] S16384 := by decide
  show Ideal.hostReduceAdd reducesTo_S16384x128_S16384_d1 (mulf v u) (Ideal.ofBits .f32 0x00000000#32) (ix1 b) = _
  rw [Ideal.hostReduceAdd_single _ h, ofBits_zero, zero_add]
  refine Finset.sum_congr rfl fun k _ => ?_
  have e : h.lift (ix1 b) k = ix2 b k := funext fun c => Fin.ext (by
    match c with
    | ⟨0, _⟩ => rfl
    | ⟨1, _⟩ => rfl)
  rw [e]
  rfl

abbrev dotD := dot_S16384x20x128_S16384x128_S16384x20_2_1_1_n_0_0

/-- Minus the negative score of sample b and negative j. -/
theorem negScore_apply (un : FVec Ideal S16384x20x128 .f32) (v : FVec Ideal S16384x128 .f32) (b : Fin 16384) (j : Fin 20) :
    negScore un v (ix2 b j) = -(∑ k : Fin 128, un (ix3 b j k) * v (ix2 b k)) := by
  have hr : dotD.contr.rank = 1 := dotD.rank_contr
  have hs : dotD.contr.size ⟨0, by omega⟩ = 128 := dotD.size_contr 0 Nat.one_pos
  show -(FloatOps.dotGeneral dotD none .single un v (ix2 b j)) = _
  refine congrArg Neg.neg ?_
  rw [Ideal.dotGeneral_apply, ← Equiv.sum_comp (contrEquiv1 dotD 128 hr hs).symm]
  refine Finset.sum_congr rfl fun x _ => ?_
  have hk := contrEquiv1_symm_val dotD 128 hr hs x
  have el : dotD.lhsIdx (ix2 b j) ((contrEquiv1 dotD 128 hr hs).symm x) = ix3 b j x := funext fun a => Fin.ext (by
    match a with
    | ⟨0, _⟩ => rfl
    | ⟨1, _⟩ => rfl
    | ⟨2, _⟩ => exact (dotD.lhsIdx_val_of_single rfl _ _).trans hk)
  have er : dotD.rhsIdx (ix2 b j) ((contrEquiv1 dotD 128 hr hs).symm x) = ix2 b x := funext fun a => Fin.ext (by
    match a with
    | ⟨0, _⟩ => rfl
    | ⟨1, _⟩ => exact (dotD.rhsIdx_val_of_single rfl _ _).trans hk)
  rw [el, er]

/-- The indices of a rank-1 shape are its coordinates. -/
def idxEquiv1 (n : ℕ) : Fin n ≃ (⟨1, ![n]⟩ : Shape).Idx where
  toFun := ix1
  invFun j := j 0
  left_inv _ := rfl
  right_inv j := (eq_ix1 j).symm

theorem sum_idx1 {n : ℕ} (f : (⟨1, ![n]⟩ : Shape).Idx → EReal) : ∑ i, f i = ∑ b : Fin n, f (ix1 b) :=
  (Equiv.sum_comp (idxEquiv1 n) f).symm

/-- The closing steps: per sample the first array's entry plus the second's row sum, summed over the samples,
    divided by the printed constant, negated. -/
theorem lossOf_apply (p : FVec Ideal S16384 .f32) (q : FVec Ideal S16384x20 .f32) (i : S_.Idx) :
    lossOf p q i = -(Ideal.div (∑ b : Fin 16384, (p (ix1 b) + ∑ j : Fin 20, q (ix2 b j)))
      (Ideal.ofBits .f32 0x46800000#32)) := by
  have h1 : S16384x20.Reduces [(1 : Fin 2)] S16384 := by decide
  show -(Ideal.div (Ideal.hostReduceAdd reducesTo_S16384_S_d0
      (addf p (Host.reduceAdd q (constant (F := Ideal) S_ .f32 0x00000000#32) reducesTo_S16384x20_S16384_d1 h_S_))
      (Ideal.ofBits .f32 0x00000000#32) i) (Ideal.ofBits .f32 0x46800000#32)) = _
  rw [Ideal.hostReduceAdd_total _ (fun b => b.elim0), ofBits_zero, zero_add, sum_idx1]
  refine congrArg (fun s => -(Ideal.div s (Ideal.ofBits .f32 0x46800000#32))) (Finset.sum_congr rfl fun b _ => ?_)
  show p (ix1 b) + Ideal.hostReduceAdd reducesTo_S16384x20_S16384_d1 q (Ideal.ofBits .f32 0x00000000#32) (ix1 b) = _
  rw [Ideal.hostReduceAdd_single _ h1, ofBits_zero, zero_add]
  refine congrArg (fun s => p (ix1 b) + s) (Finset.sum_congr rfl fun j _ => ?_)
  have e' : h1.lift (ix1 b) j = ix2 b j := funext fun c => Fin.ext (by
    match c with
    | ⟨0, _⟩ => rfl
    | ⟨1, _⟩ => rfl)
  rw [e']
  rfl

/-- **The reference's value**: with every index word in [0, 99999], the composed term is the loss formula. -/
theorem ref_value (A B : FVec Ideal S100000x128 .f32) (cw pw : IVec S16384 32) (nw : IVec S16384x20 32)
    (hc : ∀ i, 0 ≤ (cw i).toInt ∧ (cw i).toInt ≤ 99999) (hp : ∀ i, 0 ≤ (pw i).toInt ∧ (pw i).toInt ≤ 99999)
    (hn : ∀ i, 0 ≤ (nw i).toInt ∧ (nw i).toInt ≤ 99999) :
    refTerm A B cw pw nw = fun _ => refLoss A B cw pw nw := by
  funext i
  unfold refTerm refLoss
  rw [lossOf_apply]
  refine congrArg (fun s => -(Ideal.div s (Ideal.ofBits .f32 0x46800000#32))) (Finset.sum_congr rfl fun b _ => ?_)
  rw [logSigV_apply _ _ _ (zero1_apply _), posScore_apply]
  refine congrArg₂ (· + ·) (congrArg lsI (Finset.sum_congr rfl fun k _ => ?_)) (Finset.sum_congr rfl fun j _ => ?_)
  · rw [takeRows_apply cw A hc, takeRows_apply pw B hp]
  · rw [logSigV_apply _ _ _ (zero2_apply _), negScore_apply]
    refine congrArg (fun s => lsI (-s)) (Finset.sum_congr rfl fun k _ => ?_)
    rw [takeRows2_apply nw B hn, takeRows_apply cw A hc]

end Cert.Proof.Ref

end
-- ==== Proof.RefLeg.lean ====
import proofs.«215899_g5772436046013_cont_9to1c4b_742_31_alg».proof.Proof.RefRun
import proofs.«215899_g5772436046013_cont_9to1c4b_742_31_alg».proof.Proof.RefValue

/-!
  The reference's run with its value: from a memory whose three index arrays hold words in [0, 99999], the
  main function ends with its result at the closed loss formula of the five argument arrays, and the
  arguments unchanged.
-/

noncomputable section

namespace Cert.Proof.Ref

open Idealize.ShloMosaic Idealize.ShloMosaic.TcCoe Idealize.SL.Sem
open Cert.ReferenceIdeal

theorem run_value (m : (ℓ : Loc nD τ sig) → Buf (Elt Ideal) ℓ) (ρ : Dev nD → PrngReg)
    (h2 : ∀ (c : Dev nD) i, 0 ≤ ((m ((c.tc : Thread nD τ).loc main_arg2) : IVec S16384 32) i).toInt
      ∧ ((m ((c.tc : Thread nD τ).loc main_arg2) : IVec S16384 32) i).toInt ≤ 99999)
    (h3 : ∀ (c : Dev nD) i, 0 ≤ ((m ((c.tc : Thread nD τ).loc main_arg3) : IVec S16384 32) i).toInt
      ∧ ((m ((c.tc : Thread nD τ).loc main_arg3) : IVec S16384 32) i).toInt ≤ 99999)
    (h4 : ∀ (c : Dev nD) i, 0 ≤ ((m ((c.tc : Thread nD τ).loc main_arg4) : IVec S16384x20 32) i).toInt
      ∧ ((m ((c.tc : Thread nD τ).loc main_arg4) : IVec S16384x20 32) i).toInt ≤ 99999) :
    θ_run (defs (F := Ideal)) (onTc (τ := τ) (main (F := Ideal))) ⟨m, fun _ => 0, ρ⟩ fun r => ∀ c : Dev nD,
      r.2.mem ((c.tc : Thread nD τ).loc main_v13)
          = (fun _ => refLoss (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono
    (fun _ h c => ⟨(h c).1.trans (ref_value _ _ _ _ _ (h2 c) (h3 c) (h4 c)), (h c).2⟩) (run (F := Ideal) m ρ)

end Cert.Proof.Ref

end
-- ==== Proof.KerSpec.lean ====
/-
  The kernel's value as a closed formula, in the kernel's own arrangement. For batch row b the kernel forms the 21
  products rows z(b, j, ·) — j = 0 the center row times the positive context row, j = k + 1 the k-th negative context
  row times the center row —, contracts them against the 0 / +1 / −1 matrix e (column c picks block c, negated for
  c > 0), applies log-sigmoid in the form min(x, 0) − log(1 + exp(0 − |x|)), sums each block of 1024 rows, adds the four
  blocks of a quarter of the batch into a cell that starts at zero, adds the four quarters' cells, and scales by −2⁻¹⁴.
-/
import proofs.«215899_g5772436046013_cont_9to1c4b_742_31_alg».proof.Proof.RefSpec

noncomputable section

namespace Cert.Proof.Ker

open Idealize.ShloMosaic ValueIdx Cert.Proof.Ref

variable (A B : FVec Ideal ⟨2, ![100000, 128]⟩ .f32) (cw pw : IVec ⟨1, ![16384]⟩ 32) (nw : IVec ⟨2, ![16384, 20]⟩ 32)

/-- The log-sigmoid as the kernel computes it. -/
def lsK (x : EReal) : EReal := min x 0 - Ideal.log (1 + Ideal.exp (0 - max x (-x)))

/-- Entry (b, j, k) of the products: j = 0 the positive pair, j = n + 1 the n-th negative. -/
def zK (b : Fin 16384) (j : Fin 21) (k : Fin 128) : EReal :=
  if h : j.val = 0 then A (ix2 (rowIx (cw (ix1 b))) k) * B (ix2 (rowIx (pw (ix1 b))) k)
  else B (ix2 (rowIx (nw (ix2 b ⟨j.val - 1, by omega⟩))) k) * A (ix2 (rowIx (cw (ix1 b))) k)

/-- Entry (j·128 + k, c) of the sign matrix: one on block c, negated for the negatives' columns. -/
def eK (j c : Fin 21) : EReal := (if j = c then 1 else 0) * (if c.val = 0 then 1 else -1)

/-- Column c of the scores of batch row b. -/
def scoreK (b : Fin 16384) (c : Fin 21) : EReal := 0 + ∑ j : Fin 21, ∑ k : Fin 128, zK A B cw pw nw b j k * eK j c

/-- The summed log-sigmoids of block t (1024 rows) of quarter s of the batch. -/
def blockK (s t : Fin 4) : EReal :=
  ∑ r : Fin 1024, ∑ c : Fin 21, lsK (scoreK A B cw pw nw ⟨4096 * s.val + 1024 * t.val + r.val, by omega⟩ c)

/-- A quarter's cell: zero, then the four blocks added in order. -/
def quarterK (s : Fin 4) : EReal :=
  (((0 + blockK A B cw pw nw s 0) + blockK A B cw pw nw s 1) + blockK A B cw pw nw s 2) + blockK A B cw pw nw s 3

/-- The kernel's result. -/
def kerLoss : EReal :=
  ((((0 + quarterK A B cw pw nw 0) + quarterK A B cw pw nw 1) + quarterK A B cw pw nw 2) + quarterK A B cw pw nw 3)
    * Ideal.ofBits .f32 0xB8800000#32

end Cert.Proof.Ker

end
-- ==== Proof.LibSumBlocks.lean ====
/-
  A finite sum over an index range cut into consecutive blocks of equal length.
-/
import Mathlib.Algebra.BigOperators.Fin
import Mathlib.Data.Fintype.BigOperators
import Mathlib.Logic.Equiv.Fin.Basic

namespace Cert.LibSumBlocks

/-- Position `k` of block `b`, among `q` consecutive blocks of length `n`, lies below `q * n`. -/
theorem block_lt {N q n : Nat} (hN : N = q * n) (b : Fin q) (k : Fin n) : n * b.val + k.val < N := by
  have h1 : n * b.val + k.val < n * (b.val + 1) := by rw [Nat.mul_succ]; exact Nat.add_lt_add_left k.isLt _
  have h2 : n * (b.val + 1) ≤ n * q := Nat.mul_le_mul_left n b.isLt
  rw [hN, Nat.mul_comm q n]
  exact Nat.lt_of_lt_of_le h1 h2

/-- **A sum over `q * n` consecutive indices is the sum, over the `q` blocks of length `n`, of the sums inside each
    block**: block `b` holds the indices `n * b + k`, `k < n`. Stated in any commutative additive monoid, for a range
    `Fin N` with `N = q * n` given as a hypothesis, so that it applies to a literal `N` (`128 = 4 * 32`). -/
theorem sum_blocks {M : Type*} [AddCommMonoid M] {N : Nat} (q n : Nat) (hN : N = q * n) (f : Fin N → M) :
    ∑ i, f i = ∑ b : Fin q, ∑ k : Fin n, f ⟨n * b.val + k.val, block_lt hN b k⟩ := by
  subst hN
  rw [← (finProdFinEquiv (m := q) (n := n)).sum_comp, Fintype.sum_prod_type]
  refine Finset.sum_congr rfl fun b _ => Finset.sum_congr rfl fun k _ => congrArg f (Fin.ext ?_)
  show k.val + n * b.val = n * b.val + k.val
  exact Nat.add_comm _ _

/-- Four blocks, written out and grouped from the left: `((s₀ + s₁) + s₂) + s₃`. -/
theorem sum_four_blocks {M : Type*} [AddCommMonoid M] {N : Nat} (n : Nat) (hN : N = 4 * n) (f : Fin N → M) :
    ∑ i, f i = ((∑ k : Fin n, f ⟨n * 0 + k.val, block_lt hN 0 k⟩ + ∑ k : Fin n, f ⟨n * 1 + k.val, block_lt hN 1 k⟩)
        + ∑ k : Fin n, f ⟨n * 2 + k.val, block_lt hN 2 k⟩) + ∑ k : Fin n, f ⟨n * 3 + k.val, block_lt hN 3 k⟩ := by
  rw [sum_blocks 4 n hN f, Fin.sum_univ_four]
  rfl

end Cert.LibSumBlocks
-- ==== Proof.Bridge.lean ====
import proofs.«215899_g5772436046013_cont_9to1c4b_742_31_alg».proof.Proof.KerSpec
import proofs.«215899_g5772436046013_cont_9to1c4b_742_31_alg».proof.Proof.LibSumBlocks

/-!
  The two arrangements of the loss agree.

  When every table entry is a real number, every product, sum and log-sigmoid in either formula is a real,
  so both formulas are coercions of real expressions and the comparison is made on the reals:
  * the sign matrix keeps block c of the 21 product rows and negates it for c > 0, so column 0 of the scores is
    the positive dot product and column n + 1 is minus the n-th negative dot product;
  * min(x, 0) − log(1 + exp(0 − |x|)) and −(max(−x, 0) + log(1 + exp(−|−x|))) are the same real;
  * the sixteen blocks of 1024 rows, added in order four by four, are the sum over all 16384 rows;
  * multiplying by −2⁻¹⁴ is dividing by 16384 and negating.
-/

noncomputable section

open scoped BigOperators

namespace Cert.Proof.Ker

open Idealize.ShloMosaic ValueIdx Cert.Proof.Ref

namespace Bridge

/-! ## Coercions -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max' (x y : ℝ) : ((max x y : ℝ) : EReal) = max (x : EReal) (y : EReal) :=
  EReal.coe_strictMono.monotone.map_max
theorem coe_min' (x y : ℝ) : ((min x y : ℝ) : EReal) = min (x : EReal) (y : EReal) :=
  EReal.coe_strictMono.monotone.map_min

/-- The log-sigmoid on the reals. -/
def lsR (x : ℝ) : ℝ := min x 0 - Real.log (1 + Real.exp (-(max x (-x))))

theorem one_add_exp_pos (r : ℝ) : 0 < 1 + Real.exp r := by positivity

theorem log_one_add_exp (r : ℝ) :
    Ideal.log ((1 : EReal) + Ideal.exp (r : EReal)) = ((Real.log (1 + Real.exp r) : ℝ) : EReal) := by
  rw [Ideal.exp_coe, ← EReal.coe_one, ← EReal.coe_add, Ideal.log_coe, if_neg (not_le.2 (one_add_exp_pos r))]

/-- The first arrangement's log-sigmoid at a real. -/
theorem lsK_coe (x : ℝ) : lsK (x : EReal) = (lsR x : EReal) := by
  have h1 : (0 : EReal) - max (x : EReal) (-(x : EReal)) = ((-(max x (-x)) : ℝ) : EReal) := by
    rw [sub_eq_add_neg, zero_add, ← EReal.coe_neg, ← coe_max', ← EReal.coe_neg]
  have h4 : min (x : EReal) 0 = ((min x 0 : ℝ) : EReal) := by rw [coe_min', EReal.coe_zero]
  unfold lsK lsR
  rw [h1, log_one_add_exp, h4, ← EReal.coe_sub]

/-- The second arrangement's log-sigmoid at a real. -/
theorem lsI_coe (x : ℝ) : lsI (x : EReal) = (lsR x : EReal) := by
  have hm : max (-x) 0 = -(min x 0) := by rw [← max_neg_neg, neg_zero]
  have e : lsR x = -(max (-x) 0 + Real.log (1 + Real.exp (-(max (-x) (-(-x)))))) := by
    unfold lsR
    rw [hm, neg_neg, max_comm (-x) x]
    ring
  have g2 : max ((-x : ℝ) : EReal) 0 = ((max (-x) 0 : ℝ) : EReal) := by rw [coe_max', EReal.coe_zero]
  have g3 : -(max ((-x : ℝ) : EReal) (-((-x : ℝ) : EReal))) = ((-(max (-x) (-(-x))) : ℝ) : EReal) := by
    rw [← EReal.coe_neg, ← coe_max', ← EReal.coe_neg]
  unfold lsI softplusI Ideal.log1p
  rw [← EReal.coe_neg, g2, g3, log_one_add_exp, ← EReal.coe_add, ← EReal.coe_neg, e]

/-! ## The two printed constants -/

theorem ofBits_16384 : Ideal.ofBits .f32 0x46800000#32 = ((16384 : ℝ) : EReal) := by
  simp [Ideal.ofBits, Ideal.ieee]
  rw [← EReal.coe_mul]
  norm_num

theorem ofBits_negInv : Ideal.ofBits .f32 0xB8800000#32 = ((-(1 / 16384) : ℝ) : EReal) := by
  simp [Ideal.ofBits, Ideal.ieee]
  rw [← EReal.coe_mul]
  norm_num

/-! ## On the reals -/

section Real

variable (a bb : (⟨2, ![100000, 128]⟩ : Shape).Idx → ℝ) (cw pw : IVec ⟨1, ![16384]⟩ 32) (nw : IVec ⟨2, ![16384, 20]⟩ 32)

/-- The positive dot product of sample b. -/
def posR (b : Fin 16384) : ℝ := ∑ k : Fin 128, a (ix2 (rowIx (cw (ix1 b))) k) * bb (ix2 (rowIx (pw (ix1 b))) k)

/-- The j-th negative dot product of sample b. -/
def negR (b : Fin 16384) (j : Fin 20) : ℝ :=
  ∑ k : Fin 128, bb (ix2 (rowIx (nw (ix2 b j))) k) * a (ix2 (rowIx (cw (ix1 b))) k)

/-- Sample b's contribution. -/
def rowR (b : Fin 16384) : ℝ := lsR (posR a bb cw pw b) + ∑ j : Fin 20, lsR (-(negR a bb cw nw b j))

/-- The 21 product rows, on the reals. -/
def zR (b : Fin 16384) (j : Fin 21) (k : Fin 128) : ℝ :=
  if h : j.val = 0 then a (ix2 (rowIx (cw (ix1 b))) k) * bb (ix2 (rowIx (pw (ix1 b))) k)
  else bb (ix2 (rowIx (nw (ix2 b ⟨j.val - 1, by omega⟩))) k) * a (ix2 (rowIx (cw (ix1 b))) k)

/-- The sign matrix, on the reals. -/
def eR (j c : Fin 21) : ℝ := (if j = c then 1 else 0) * (if c.val = 0 then 1 else -1)

/-- A column of scores, on the reals. -/
def scoreR (b : Fin 16384) (c : Fin 21) : ℝ := ∑ j : Fin 21, ∑ k : Fin 128, zR a bb cw pw nw b j k * eR j c

/-- Only block c survives the sign matrix's column c. -/
theorem scoreR_eq (b : Fin 16384) (c : Fin 21) :
    scoreR a bb cw pw nw b c = (∑ k : Fin 128, zR a bb cw pw nw b c k) * (if c.val = 0 then 1 else -1) := by
  unfold scoreR
  rw [Finset.sum_eq_single c]
  · rw [Finset.sum_mul]
    refine Finset.sum_congr rfl fun k _ => ?_
    unfold eR
    rw [if_pos rfl, one_mul]
  · intro j _ hj
    refine Finset.sum_eq_zero fun k _ => ?_
    unfold eR
    rw [if_neg hj, zero_mul, mul_zero]
  · intro h
    exact absurd (Finset.mem_univ c) h

theorem scoreR_zero (b : Fin 16384) : scoreR a bb cw pw nw b 0 = posR a bb cw pw b := by
  have h0 : ((0 : Fin 21) : ℕ) = 0 := rfl
  rw [scoreR_eq, if_pos h0, mul_one]
  unfold posR zR
  exact Finset.sum_congr rfl fun k _ => dif_pos h0

theorem scoreR_succ (b : Fin 16384) (j : Fin 20) : scoreR a bb cw pw nw b j.succ = -(negR a bb cw nw b j) := by
  have hj : ¬ (j.succ : Fin 21).val = 0 := by rw [Fin.val_succ]; omega
  rw [scoreR_eq, if_neg hj, mul_neg, mul_one]
  unfold negR zR
  refine congrArg Neg.neg (Finset.sum_congr rfl fun k _ => ?_)
  rw [dif_neg hj]
  have e : (⟨(j.succ : Fin 21).val - 1, by omega⟩ : Fin 20) = j := Fin.ext (by
    show (j.succ : Fin 21).val - 1 = j.val
    rw [Fin.val_succ]; omega)
  rw [e]

/-- The 21 log-sigmoids of a row are the positive one and the 20 negatives'. -/
theorem row_sum (b : Fin 16384) : ∑ c : Fin 21, lsR (scoreR a bb cw pw nw b c) = rowR a bb cw pw nw b := by
  rw [Fin.sum_univ_succ, scoreR_zero]
  unfold rowR
  exact congrArg (fun s => lsR (posR a bb cw pw b) + s) (Finset.sum_congr rfl fun j _ => by rw [scoreR_succ])

end Real

/-! ## The two formulas as coercions -/

section Coe

variable (A B : FVec Ideal ⟨2, ![100000, 128]⟩ .f32) (cw pw : IVec ⟨1, ![16384]⟩ 32) (nw : IVec ⟨2, ![16384, 20]⟩ 32)
variable (a bb : (⟨2, ![100000, 128]⟩ : Shape).Idx → ℝ) (ha : ∀ i, A i = (a i : EReal)) (hb : ∀ i, B i = (bb i : EReal))

include ha hb

theorem zK_coe (b : Fin 16384) (j : Fin 21) (k : Fin 128) : zK A B cw pw nw b j k = (zR a bb cw pw nw b j k : EReal) := by
  unfold zK zR
  split
  · rw [ha, hb, EReal.coe_mul]
  · rw [ha, hb, EReal.coe_mul]

omit ha hb in
theorem eK_coe (j c : Fin 21) : eK j c = (eR j c : EReal) := by
  unfold eK eR
  split <;> split <;> simp

theorem scoreK_coe (b : Fin 16384) (c : Fin 21) : scoreK A B cw pw nw b c = (scoreR a bb cw pw nw b c : EReal) := by
  unfold scoreK scoreR
  rw [zero_add, coe_sum]
  refine Finset.sum_congr rfl fun j _ => ?_
  rw [coe_sum]
  exact Finset.sum_congr rfl fun k _ => by rw [zK_coe A B cw pw nw a bb ha hb, eK_coe, EReal.coe_mul]

theorem blockK_coe (s t : Fin 4) :
    blockK A B cw pw nw s t
      = ((∑ r : Fin 1024, rowR a bb cw pw nw ⟨4096 * s.val + 1024 * t.val + r.val, by omega⟩ : ℝ) : EReal) := by
  unfold blockK
  rw [coe_sum]
  refine Finset.sum_congr rfl fun r _ => ?_
  rw [← row_sum, coe_sum]
  exact Finset.sum_congr rfl fun c _ => by rw [scoreK_coe A B cw pw nw a bb ha hb, lsK_coe]

/-- A quarter's cell is the sum over its 4096 rows. -/
theorem quarterK_coe (s : Fin 4) :
    quarterK A B cw pw nw s
      = ((∑ q : Fin 4096, rowR a bb cw pw nw ⟨4096 * s.val + q.val, by omega⟩ : ℝ) : EReal) := by
  unfold quarterK
  rw [blockK_coe A B cw pw nw a bb ha hb s 0, blockK_coe A B cw pw nw a bb ha hb s 1,
    blockK_coe A B cw pw nw a bb ha hb s 2, blockK_coe A B cw pw nw a bb ha hb s 3,
    zero_add, ← EReal.coe_add, ← EReal.coe_add, ← EReal.coe_add]
  refine congrArg Real.toEReal ?_
  rw [Cert.LibSumBlocks.sum_blocks 4 1024 (by norm_num)
    (fun q : Fin 4096 => rowR a bb cw pw nw ⟨4096 * s.val + q.val, by omega⟩), Fin.sum_univ_four]
  refine congrArg₂ (· + ·) (congrArg₂ (· + ·) (congrArg₂ (· + ·) ?_ ?_) ?_) ?_ <;>
    exact Finset.sum_congr rfl fun k _ => congrArg (rowR a bb cw pw nw) (Fin.ext (Nat.add_assoc _ _ _))

theorem kerLoss_coe :
    kerLoss A B cw pw nw = ((-((∑ b : Fin 16384, rowR a bb cw pw nw b) / 16384) : ℝ) : EReal) := by
  unfold kerLoss
  rw [quarterK_coe A B cw pw nw a bb ha hb 0, quarterK_coe A B cw pw nw a bb ha hb 1,
    quarterK_coe A B cw pw nw a bb ha hb 2, quarterK_coe A B cw pw nw a bb ha hb 3,
    zero_add, ← EReal.coe_add, ← EReal.coe_add, ← EReal.coe_add, ofBits_negInv, ← EReal.coe_mul]
  refine congrArg Real.toEReal ?_
  rw [Cert.LibSumBlocks.sum_blocks 4 4096 (by norm_num) (rowR a bb cw pw nw), Fin.sum_univ_four]
  ring

theorem refLoss_coe :
    refLoss A B cw pw nw = ((-((∑ b : Fin 16384, rowR a bb cw pw nw b) / 16384) : ℝ) : EReal) := by
  have hrow : ∀ b : Fin 16384,
      (lsI (∑ k : Fin 128, A (ix2 (rowIx (cw (ix1 b))) k) * B (ix2 (rowIx (pw (ix1 b))) k))
          + ∑ j : Fin 20, lsI (-(∑ k : Fin 128, B (ix2 (rowIx (nw (ix2 b j))) k) * A (ix2 (rowIx (cw (ix1 b))) k))))
        = ((rowR a bb cw pw nw b : ℝ) : EReal) := fun b => by
    have hp : (∑ k : Fin 128, A (ix2 (rowIx (cw (ix1 b))) k) * B (ix2 (rowIx (pw (ix1 b))) k))
        = ((posR a bb cw pw b : ℝ) : EReal) := by
      unfold posR
      rw [coe_sum]
      exact Finset.sum_congr rfl fun k _ => by rw [ha, hb, EReal.coe_mul]
    have hn : ∀ j : Fin 20, -(∑ k : Fin 128, B (ix2 (rowIx (nw (ix2 b j))) k) * A (ix2 (rowIx (cw (ix1 b))) k))
        = ((-(negR a bb cw nw b j) : ℝ) : EReal) := fun j => by
      unfold negR
      rw [EReal.coe_neg, coe_sum]
      exact congrArg Neg.neg (Finset.sum_congr rfl fun k _ => by rw [ha, hb, EReal.coe_mul])
    unfold rowR
    rw [hp, lsI_coe, EReal.coe_add, coe_sum]
    exact congrArg (fun s => ((lsR (posR a bb cw pw b) : ℝ) : EReal) + s)
      (Finset.sum_congr rfl fun j _ => by rw [hn, lsI_coe])
  unfold refLoss
  rw [Finset.sum_congr rfl fun b _ => hrow b, ← coe_sum, ofBits_16384,
    Ideal.div_coe (by norm_num : (16384 : ℝ) ≠ 0), ← EReal.coe_mul, ← EReal.coe_neg]
  refine congrArg Real.toEReal ?_
  ring

end Coe

end Bridge

open Bridge in
/-- **The two arrangements agree** when every table entry is a real. -/
theorem kerLoss_eq_refLoss (A B : FVec Ideal ⟨2, ![100000, 128]⟩ .f32) (cw pw : IVec ⟨1, ![16384]⟩ 32)
    (nw : IVec ⟨2, ![16384, 20]⟩ 32) (hA : ∀ i, ∃ x : ℝ, A i = (x : EReal)) (hB : ∀ i, ∃ x : ℝ, B i = (x : EReal)) :
    kerLoss A B cw pw nw = Cert.Proof.Ref.refLoss A B cw pw nw := by
  choose a ha using hA
  choose bb hb using hB
  rw [kerLoss_coe A B cw pw nw a bb ha hb, refLoss_coe A B cw pw nw a bb ha hb]

end Cert.Proof.Ker

end
-- ==== Proof.KI_Claims.lean ====
/-
  The claims about the idealized kernel, from the program's run: under the precondition the index words name table rows,
  so every tile's indexed copies are in range and the run exists; its frame is the run with the value dropped; the
  algebraic claim pairs the run's result cell — the kernel's arrangement of the loss — with the reference's run, the two
  arrangements being one real number for finite tables.
-/
import proofs.«215899_g5772436046013_cont_9to1c4b_742_31_alg».proof.Proof.KI_Main
import proofs.«215899_g5772436046013_cont_9to1c4b_742_31_alg».proof.Proof.KI_IndexAll
import proofs.«215899_g5772436046013_cont_9to1c4b_742_31_alg».proof.Proof.RefPre
import proofs.«215899_g5772436046013_cont_9to1c4b_742_31_alg».proof.Proof.RefLeg
import proofs.«215899_g5772436046013_cont_9to1c4b_742_31_alg».proof.Proof.Bridge

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

open Idealize.ShloMosaic.TcCoe

local notation "𝕄" => MT nD τ sig (HIx 4) (Elt F) ℕ UU ℕ

variable (m : (ℓ : Loc nD τ sig) → Buf (Elt F) ℓ) (ρ : Dev nD → PrngReg)

/-- The precondition gives the three index ranges on every device. -/
theorem ranges_of_pre_all
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = (fun _ => 1#1)) :
    (∀ d i, 0 ≤ (cenW m d i).toInt ∧ (cenW m d i).toInt ≤ 99999) ∧ (∀ d i, 0 ≤ (posW m d i).toInt ∧ (posW m d i).toInt ≤ 99999)
      ∧ (∀ d i, 0 ≤ (negW m d i).toInt ∧ (negW m d i).toInt ≤ 99999) :=
  ⟨fun d => (Cert.Proof.Ref.ranges_of_pre _ _ _ _ _ (h d)).1, fun d => (Cert.Proof.Ref.ranges_of_pre _ _ _ _ _ (h d)).2.1,
    fun d => (Cert.Proof.Ref.ranges_of_pre _ _ _ _ _ (h d)).2.2⟩

/-- What the tiles owe the launch theorem, for a memory whose index words are in range: one obligation per call. -/
abbrev TilesOK : Prop :=
  (∀ d i, 0 ≤ (cenW m d i).toInt ∧ (cenW m d i).toInt ≤ 99999) → (∀ d i, 0 ≤ (posW m d i).toInt ∧ (posW m d i).toInt ≤ 99999) →
    (∀ d i, 0 ≤ (negW m d i).toInt ∧ (negW m d i).toInt ≤ 99999) → ∀ q, (K (F := F)).TileObl (D (F := F)) 𝒱 (PK m) v₀ q

/-- The program's run under the precondition. -/
theorem run_of_pre [∀ e, Nonempty (Elt F e)] (htile : TilesOK m)
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = (fun _ => 1#1)) :
    θ_run (Cert.KernelIdeal.defs (F := F)) (Cert.KernelIdeal.threads (F := F)) ⟨m, fun _ => 0, ρ⟩ (QC m) :=
  run_main m ρ (htile (ranges_of_pre_all m h).1 (ranges_of_pre_all m h).2.1 (ranges_of_pre_all m h).2.2)

end Cert.Proof.KI

end
-- ==== Proof.KB_Common.lean ====
/-
  Shared setting of the kernel-side proof: the program as the SparseCore launch theorem sees it (its four
  vector-subcore calls, the body table with the four TensorCore pipelines underneath), and the proof's resource
  algebra — the launch handshakes' rounds, the TensorCore pipelines' staging cells' rounds, and the counters of the
  tiles' own copies (every tile only starts local copies and waits for them, one copy per semaphore at a time, so
  its semaphores need no schedule).
-/
import proofs.«215899_g5772436046013_cont_9to1c4b_742_31_alg».proof.Defs
import proofs.«215899_g5772436046013_cont_9to1c4b_742_31_alg».proof.Proof.Gen.Kernel
import proofs.«215899_g5772436046013_cont_9to1c4b_742_31_alg».proof.Proof.Gen.Kernel.Skeleton
import proofs.«215899_g5772436046013_cont_9to1c4b_742_31_alg».proof.Proof.Gen.Kernel.Launch
import proofs.«215899_g5772436046013_cont_9to1c4b_742_31_alg».proof.Proof.Gen.Kernel.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The TensorCore pipelines' staging cells' rounds. -/
abbrev UP : Type := UR sig nD τ
abbrev UU : Type := UH × (UP × Counters)

abbrev EH : Emb UH (MT nD τ sig (HIx 4) (Elt F) ℕ UU ℕ) := embL
abbrev EP : Emb UP (MT nD τ sig (HIx 4) (Elt F) ℕ UU ℕ) := (Emb.inl : Emb UP (UP × Counters)).trans embR

end Cert.Proof.KB

end
-- ==== Proof.KB_Prog.lean ====
/-
  The TensorCore's program as the proof reads it: @main is nine straight stretches of host operations with the four
  SparseCore calls and the four TensorCore kernel regions between them. Call s gathers the rows of the s-th quarter of
  the batch; region s adds that quarter's block losses into a (1,1) cell; the stretches between them reshape the
  gathered negatives, add the cell into the running total and cut the next quarter's index rows; the last stretch
  scales the total by -2^-14.
-/
import proofs.«215899_g5772436046013_cont_9to1c4b_742_31_alg».proof.Proof.KB_Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

abbrev ΛS : Labels := SparseCore.Sig (ΛP (F := F)) 4

/-- Stretch 0 of @main's host operations, in order. -/
abbrev opsH : List (HloOp τ sig (Elt F)) :=
  [ StableHlo.reshape main_arg2 main_v0 rfl shapeCasts_S16384_S4x32x1x128,
    StableHlo.reshape main_arg3 main_v1 rfl shapeCasts_S16384_S4x32x1x128,
    StableHlo.unary main_arg4 main_v2 ((transpose S20x16384 [1, 0] · transposes_S16384x20_S20x16384_1_0) : (⟨S16384x20, .i32⟩ : BufTy).Contents (Elt F) → (⟨S20x16384, .i32⟩ : BufTy).Contents (Elt F)),
    StableHlo.reshape main_v2 main_v3 rfl shapeCasts_S20x16384_S20x4x32x128,
    StableHlo.unary main_v3 main_v4 ((transpose S4x32x20x128 [1, 2, 0, 3] · transposes_S20x4x32x128_S4x32x20x128_1_2_0_3) : (⟨S20x4x32x128, .i32⟩ : BufTy).Contents (Elt F) → (⟨S4x32x20x128, .i32⟩ : BufTy).Contents (Elt F)),
    StableHlo.nullary main_c (constantI S_ 32 0#32),
    StableHlo.unary main_c main_v5 (broadcastInDim S4x32x2x128 ![] bcast_S_S4x32x2x128 : (⟨S_, .i32⟩ : BufTy).Contents (Elt F) → (⟨S4x32x2x128, .i32⟩ : BufTy).Contents (Elt F)),
    StableHlo.nary ![main_v0, main_v1, main_v4, main_v5] main_v6 (fun u => concatenate S4x32x24x128 2 [⟨S4x32x1x128, u 0⟩, ⟨S4x32x1x128, u 1⟩, ⟨S4x32x20x128, u 2⟩, ⟨S4x32x2x128, u 3⟩] concatenates_S4x32x1x128_S4x32x1x128_S4x32x20x128_S4x32x2x128_S4x32x24x128_d2),
    StableHlo.reshape main_v6 main_v7 rfl shapeCasts_S4x32x24x128_S4x768x128,
    StableHlo.nullary main_cst (constant S_ .f32 0x3F800000#32),
    StableHlo.unary main_cst main_v8 (broadcastInDim S1 ![] bcast_S_S1 : (⟨S_, .f32⟩ : BufTy).Contents (Elt F) → (⟨S1, .f32⟩ : BufTy).Contents (Elt F)),
    StableHlo.nullary main_cst_0 (constant S_ .f32 0x3F800000#32),
    StableHlo.unary main_cst_0 main_v9 (broadcastInDim S20 ![] bcast_S_S20 : (⟨S_, .f32⟩ : BufTy).Contents (Elt F) → (⟨S20, .f32⟩ : BufTy).Contents (Elt F)),
    StableHlo.unary main_v9 main_v10 (Host.negf : (⟨S20, .f32⟩ : BufTy).Contents (Elt F) → (⟨S20, .f32⟩ : BufTy).Contents (Elt F)),
    StableHlo.binary main_v8 main_v10 main_v11 ((fun a b => concatenate S21 0 [⟨S1, a⟩, ⟨S20, b⟩] concatenates_S1_S20_S21_d0) : (⟨S1, .f32⟩ : BufTy).Contents (Elt F) → (⟨S20, .f32⟩ : BufTy).Contents (Elt F) → (⟨S21, .f32⟩ : BufTy).Contents (Elt F)),
    StableHlo.nullary main_v12 (iotaInDim S21x21 32 0),
    StableHlo.nullary main_v13 (iotaInDim S21x21 32 1),
    StableHlo.nullary main_c_1 (constantI S_ 32 0#32),
    StableHlo.unary main_c_1 main_v14 (broadcastInDim S21x21 ![] bcast_S_S21x21 : (⟨S_, .i32⟩ : BufTy).Contents (Elt F) → (⟨S21x21, .i32⟩ : BufTy).Contents (Elt F)),
    StableHlo.binary main_v12 main_v14 main_v15 (addi : (⟨S21x21, .i32⟩ : BufTy).Contents (Elt F) → (⟨S21x21, .i32⟩ : BufTy).Contents (Elt F) → (⟨S21x21, .i32⟩ : BufTy).Contents (Elt F)),
    StableHlo.binary main_v15 main_v13 main_v16 (cmpi .eq : (⟨S21x21, .i32⟩ : BufTy).Contents (Elt F) → (⟨S21x21, .i32⟩ : BufTy).Contents (Elt F) → (⟨S21x21, .i1⟩ : BufTy).Contents (Elt F)),
    StableHlo.unary main_v16 main_v17 (uitofp .f32 : (⟨S21x21, .i1⟩ : BufTy).Contents (Elt F) → (⟨S21x21, .f32⟩ : BufTy).Contents (Elt F)),
    StableHlo.unary main_v17 main_v18 (broadcastInDim S21x128x21 ![0, 2] bcast_S21x21_S21x128x21_0_2 : (⟨S21x21, .f32⟩ : BufTy).Contents (Elt F) → (⟨S21x128x21, .f32⟩ : BufTy).Contents (Elt F)),
    StableHlo.reshape main_v18 main_v19 rfl shapeCasts_S21x128x21_S2688x21,
    StableHlo.unary main_v11 main_v20 (broadcastInDim S1x21 ![1] bcast_S21_S1x21_1 : (⟨S21, .f32⟩ : BufTy).Contents (Elt F) → (⟨S1x21, .f32⟩ : BufTy).Contents (Elt F)),
    StableHlo.unary main_v20 main_v21 (broadcastInDim S2688x21 ![0, 1] bcast_S1x21_S2688x21_0_1 : (⟨S1x21, .f32⟩ : BufTy).Contents (Elt F) → (⟨S2688x21, .f32⟩ : BufTy).Contents (Elt F)),
    StableHlo.binary main_v19 main_v21 main_v22 (mulf : (⟨S2688x21, .f32⟩ : BufTy).Contents (Elt F) → (⟨S2688x21, .f32⟩ : BufTy).Contents (Elt F) → (⟨S2688x21, .f32⟩ : BufTy).Contents (Elt F)),
    StableHlo.unary main_v22 main_v23 ((truncf .bf16 · bitsLt_bf16_f32) : (⟨S2688x21, .f32⟩ : BufTy).Contents (Elt F) → (⟨S2688x21, .bf16⟩ : BufTy).Contents (Elt F)),
    StableHlo.nullary main_cst_2 (constant S_ .f32 0x00000000#32),
    StableHlo.unary main_cst_2 main_v24 (broadcastInDim S1x1 ![] bcast_S_S1x1 : (⟨S_, .f32⟩ : BufTy).Contents (Elt F) → (⟨S1x1, .f32⟩ : BufTy).Contents (Elt F)),
    StableHlo.unary main_v7 main_v25 ((extractStridedSlice S1x768x128 ![0, 0, 0] · slices_S4x768x128_S1x768x128_0_0_0) : (⟨S4x768x128, .i32⟩ : BufTy).Contents (Elt F) → (⟨S1x768x128, .i32⟩ : BufTy).Contents (Elt F)),
    StableHlo.reshape main_v25 main_v26 rfl shapeCasts_S1x768x128_S768x128 ]

/-- Stretch 1 of @main's host operations, in order. -/
abbrev opsA0 : List (HloOp τ sig (Elt F)) :=
  [ StableHlo.reshape main_v27_2 main_v28 rfl shapeCasts_S81920x128_S20x4096x128 ]

/-- Stretch 2 of @main's host operations, in order. -/
abbrev opsB0 : List (HloOp τ sig (Elt F)) :=
  [ StableHlo.binary main_v24 main_v29 main_v30 (addf : (⟨S1x1, .f32⟩ : BufTy).Contents (Elt F) → (⟨S1x1, .f32⟩ : BufTy).Contents (Elt F) → (⟨S1x1, .f32⟩ : BufTy).Contents (Elt F)),
    StableHlo.unary main_v7 main_v31 ((extractStridedSlice S1x768x128 ![1, 0, 0] · slices_S4x768x128_S1x768x128_1_0_0) : (⟨S4x768x128, .i32⟩ : BufTy).Contents (Elt F) → (⟨S1x768x128, .i32⟩ : BufTy).Contents (Elt F)),
    StableHlo.reshape main_v31 main_v32 rfl shapeCasts_S1x768x128_S768x128 ]

/-- Stretch 3 of @main's host operations, in order. -/
abbrev opsA1 : List (HloOp τ sig (Elt F)) :=
  [ StableHlo.reshape main_v33_2 main_v34 rfl shapeCasts_S81920x128_S20x4096x128 ]

/-- Stretch 4 of @main's host operations, in order. -/
abbrev opsB1 : List (HloOp τ sig (Elt F)) :=
  [ StableHlo.binary main_v30 main_v35 main_v36 (addf : (⟨S1x1, .f32⟩ : BufTy).Contents (Elt F) → (⟨S1x1, .f32⟩ : BufTy).Contents (Elt F) → (⟨S1x1, .f32⟩ : BufTy).Contents (Elt F)),
    StableHlo.unary main_v7 main_v37 ((extractStridedSlice S1x768x128 ![2, 0, 0] · slices_S4x768x128_S1x768x128_2_0_0) : (⟨S4x768x128, .i32⟩ : BufTy).Contents (Elt F) → (⟨S1x768x128, .i32⟩ : BufTy).Contents (Elt F)),
    StableHlo.reshape main_v37 main_v38 rfl shapeCasts_S1x768x128_S768x128 ]

/-- Stretch 5 of @main's host operations, in order. -/
abbrev opsA2 : List (HloOp τ sig (Elt F)) :=
  [ StableHlo.reshape main_v39_2 main_v40 rfl shapeCasts_S81920x128_S20x4096x128 ]

/-- Stretch 6 of @main's host operations, in order. -/
abbrev opsB2 : List (HloOp τ sig (Elt F)) :=
  [ StableHlo.binary main_v36 main_v41 main_v42 (addf : (⟨S1x1, .f32⟩ : BufTy).Contents (Elt F) → (⟨S1x1, .f32⟩ : BufTy).Contents (Elt F) → (⟨S1x1, .f32⟩ : BufTy).Contents (Elt F)),
    StableHlo.unary main_v7 main_v43 ((extractStridedSlice S1x768x128 ![3, 0, 0] · slices_S4x768x128_S1x768x128_3_0_0) : (⟨S4x768x128, .i32⟩ : BufTy).Contents (Elt F) → (⟨S1x768x128, .i32⟩ : BufTy).Contents (Elt F)),
    StableHlo.reshape main_v43 main_v44 rfl shapeCasts_S1x768x128_S768x128 ]

/-- Stretch 7 of @main's host operations, in order. -/
abbrev opsA3 : List (HloOp τ sig (Elt F)) :=
  [ StableHlo.reshape main_v45_2 main_v46 rfl shapeCasts_S81920x128_S20x4096x128 ]

/-- Stretch 8 of @main's host operations, in order. -/
abbrev opsB3 : List (HloOp τ sig (Elt F)) :=
  [ StableHlo.binary main_v42 main_v47 main_v48 (addf : (⟨S1x1, .f32⟩ : BufTy).Contents (Elt F) → (⟨S1x1, .f32⟩ : BufTy).Contents (Elt F) → (⟨S1x1, .f32⟩ : BufTy).Contents (Elt F)),
    StableHlo.nullary main_cst_3 (constant S_ .f32 0xB8800000#32),
    StableHlo.unary main_cst_3 main_v49 (broadcastInDim S1x1 ![] bcast_S_S1x1 : (⟨S_, .f32⟩ : BufTy).Contents (Elt F) → (⟨S1x1, .f32⟩ : BufTy).Contents (Elt F)),
    StableHlo.binary main_v48 main_v49 main_v50 (mulf : (⟨S1x1, .f32⟩ : BufTy).Contents (Elt F) → (⟨S1x1, .f32⟩ : BufTy).Contents (Elt F) → (⟨S1x1, .f32⟩ : BufTy).Contents (Elt F)),
    StableHlo.reshape main_v50 main_v51 rfl shapeCasts_S1x1_S_ ]

/-- @main is its stretches, calls and regions in order. -/
theorem main_eq (d : Dev nD) : main (F := F) d =
      (seq (Λ := ΛS (F := F)) opsH) >>= fun _ =>
      ((sc (F := F)).run d 0) >>= fun _ =>
      (seq (Λ := ΛS (F := F)) opsA0) >>= fun _ =>
      (Prog.lift (.customCall (SparseCore.inner (Pipeline.entry 0)) ())) >>= fun _ =>
      (seq (Λ := ΛS (F := F)) opsB0) >>= fun _ =>
      ((sc (F := F)).run d 1) >>= fun _ =>
      (seq (Λ := ΛS (F := F)) opsA1) >>= fun _ =>
      (Prog.lift (.customCall (SparseCore.inner (Pipeline.entry 1)) ())) >>= fun _ =>
      (seq (Λ := ΛS (F := F)) opsB1) >>= fun _ =>
      ((sc (F := F)).run d 2) >>= fun _ =>
      (seq (Λ := ΛS (F := F)) opsA2) >>= fun _ =>
      (Prog.lift (.customCall (SparseCore.inner (Pipeline.entry 2)) ())) >>= fun _ =>
      (seq (Λ := ΛS (F := F)) opsB2) >>= fun _ =>
      ((sc (F := F)).run d 3) >>= fun _ =>
      (seq (Λ := ΛS (F := F)) opsA3) >>= fun _ =>
      (Prog.lift (.customCall (SparseCore.inner (Pipeline.entry 3)) ())) >>= fun _ =>
      (seq (Λ := ΛS (F := F)) opsB3) := by
  simp only [main, seq, bind_assoc, pure_bind]

end Cert.Proof.KB

end
-- ==== Proof.KB_Vals.lean ====
/-
  The contents of the TensorCore's arrays along @main, as pure functions of the launch memory: each stretch of host
  operations rewrites what it writes; SparseCore call s leaves the gathered rows of quarter s of the batch in its three
  result arrays; region s leaves that quarter's summed block losses in its (1,1) cell. The program's result is the last
  stretch's final cell, read off this chain.
-/
import proofs.«215899_g5772436046013_cont_9to1c4b_742_31_alg».proof.Proof.KB_Prog

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

/-- What a SparseCore call and a TensorCore region leave in their result arrays, as pure functions of the arrays they
    read: the center rows and the positive context rows (by a table and the index array), the twenty negative context
    rows, and the summed block losses (by the three gathered arrays, the sign matrix, and the cell's previous contents, which the
    region overwrites; one function per region, the four being four printed copies of one kernel). -/
structure Pure (F : FTy → Type) where
  g0 : FVec F S100000x128 .f32 → IVec S768x128 32 → FVec F S4096x128 .f32
  g1 : FVec F S100000x128 .f32 → IVec S768x128 32 → FVec F S4096x128 .f32
  g2 : FVec F S100000x128 .f32 → IVec S768x128 32 → FVec F S81920x128 .f32
  loss0 : FVec F S4096x128 .f32 → FVec F S4096x128 .f32 → FVec F S20x4096x128 .f32 → FVec F S2688x21 .bf16 → FVec F S1x1 .f32 → FVec F S1x1 .f32
  loss1 : FVec F S4096x128 .f32 → FVec F S4096x128 .f32 → FVec F S20x4096x128 .f32 → FVec F S2688x21 .bf16 → FVec F S1x1 .f32 → FVec F S1x1 .f32
  loss2 : FVec F S4096x128 .f32 → FVec F S4096x128 .f32 → FVec F S20x4096x128 .f32 → FVec F S2688x21 .bf16 → FVec F S1x1 .f32 → FVec F S1x1 .f32
  loss3 : FVec F S4096x128 .f32 → FVec F S4096x128 .f32 → FVec F S20x4096x128 .f32 → FVec F S2688x21 .bf16 → FVec F S1x1 .f32 → FVec F S1x1 .f32

variable (𝔭 : Pure F) (m : (ℓ : Loc nD τ sig) → Buf (Elt F) ℓ) (d : Dev nD)

/-- A TensorCore reference as a device buffer. -/
abbrev rT (b : Ref sig .tc) : DevRef τ sig := Proc.devRef .tc b

/-- After the first stretch: the index rows laid out per quarter and worker, the sign matrix, the zero cell. -/
def W1 : Valuation τ sig (Elt F) := after opsH (launchContents m d)

/-- After SparseCore call 0: its three result arrays hold the gathered rows. -/
def W2 : Valuation τ sig (Elt F) :=
  Function.update (Function.update (Function.update (W1 m d) (rT main_v27_0) (𝔭.g0 ((W1 m d) (rT main_arg0)) ((W1 m d) (rT main_v26))))
    (rT main_v27_1) (𝔭.g1 ((W1 m d) (rT main_arg1)) ((W1 m d) (rT main_v26)))) (rT main_v27_2) (𝔭.g2 ((W1 m d) (rT main_arg1)) ((W1 m d) (rT main_v26)))

/-- After the reshape of the negatives' rows to [20, 4096, 128]. -/
def W3 : Valuation τ sig (Elt F) := after opsA0 (W2 𝔭 m d)

/-- After region 0: its cell holds the quarter's summed block losses. -/
def W4 : Valuation τ sig (Elt F) :=
  Function.update (W3 𝔭 m d) (rT main_v29) (𝔭.loss0 ((W3 𝔭 m d) (rT main_v27_0)) ((W3 𝔭 m d) (rT main_v27_1)) ((W3 𝔭 m d) (rT main_v28)) ((W3 𝔭 m d) (rT main_v23)) ((W3 𝔭 m d) (rT main_v29)))

/-- After the stretch that follows region 0. -/
def W5 : Valuation τ sig (Elt F) := after opsB0 (W4 𝔭 m d)

/-- After SparseCore call 1: its three result arrays hold the gathered rows. -/
def W6 : Valuation τ sig (Elt F) :=
  Function.update (Function.update (Function.update (W5 𝔭 m d) (rT main_v33_0) (𝔭.g0 ((W5 𝔭 m d) (rT main_arg0)) ((W5 𝔭 m d) (rT main_v32))))
    (rT main_v33_1) (𝔭.g1 ((W5 𝔭 m d) (rT main_arg1)) ((W5 𝔭 m d) (rT main_v32)))) (rT main_v33_2) (𝔭.g2 ((W5 𝔭 m d) (rT main_arg1)) ((W5 𝔭 m d) (rT main_v32)))

/-- After the reshape of the negatives' rows to [20, 4096, 128]. -/
def W7 : Valuation τ sig (Elt F) := after opsA1 (W6 𝔭 m d)

/-- After region 1: its cell holds the quarter's summed block losses. -/
def W8 : Valuation τ sig (Elt F) :=
  Function.update (W7 𝔭 m d) (rT main_v35) (𝔭.loss1 ((W7 𝔭 m d) (rT main_v33_0)) ((W7 𝔭 m d) (rT main_v33_1)) ((W7 𝔭 m d) (rT main_v34)) ((W7 𝔭 m d) (rT main_v23)) ((W7 𝔭 m d) (rT main_v35)))

/-- After the stretch that follows region 1. -/
def W9 : Valuation τ sig (Elt F) := after opsB1 (W8 𝔭 m d)

/-- After SparseCore call 2: its three result arrays hold the gathered rows. -/
def W10 : Valuation τ sig (Elt F) :=
  Function.update (Function.update (Function.update (W9 𝔭 m d) (rT main_v39_0) (𝔭.g0 ((W9 𝔭 m d) (rT main_arg0)) ((W9 𝔭 m d) (rT main_v38))))
    (rT main_v39_1) (𝔭.g1 ((W9 𝔭 m d) (rT main_arg1)) ((W9 𝔭 m d) (rT main_v38)))) (rT main_v39_2) (𝔭.g2 ((W9 𝔭 m d) (rT main_arg1)) ((W9 𝔭 m d) (rT main_v38)))

/-- After the reshape of the negatives' rows to [20, 4096, 128]. -/
def W11 : Valuation τ sig (Elt F) := after opsA2 (W10 𝔭 m d)

/-- After region 2: its cell holds the quarter's summed block losses. -/
def W12 : Valuation τ sig (Elt F) :=
  Function.update (W11 𝔭 m d) (rT main_v41) (𝔭.loss2 ((W11 𝔭 m d) (rT main_v39_0)) ((W11 𝔭 m d) (rT main_v39_1)) ((W11 𝔭 m d) (rT main_v40)) ((W11 𝔭 m d) (rT main_v23)) ((W11 𝔭 m d) (rT main_v41)))

/-- After the stretch that follows region 2. -/
def W13 : Valuation τ sig (Elt F) := after opsB2 (W12 𝔭 m d)

/-- After SparseCore call 3: its three result arrays hold the gathered rows. -/
def W14 : Valuation τ sig (Elt F) :=
  Function.update (Function.update (Function.update (W13 𝔭 m d) (rT main_v45_0) (𝔭.g0 ((W13 𝔭 m d) (rT main_arg0)) ((W13 𝔭 m d) (rT main_v44))))
    (rT main_v45_1) (𝔭.g1 ((W13 𝔭 m d) (rT main_arg1)) ((W13 𝔭 m d) (rT main_v44)))) (rT main_v45_2) (𝔭.g2 ((W13 𝔭 m d) (rT main_arg1)) ((W13 𝔭 m d) (rT main_v44)))

/-- After the reshape of the negatives' rows to [20, 4096, 128]. -/
def W15 : Valuation τ sig (Elt F) := after opsA3 (W14 𝔭 m d)

/-- After region 3: its cell holds the quarter's summed block losses. -/
def W16 : Valuation τ sig (Elt F) :=
  Function.update (W15 𝔭 m d) (rT main_v47) (𝔭.loss3 ((W15 𝔭 m d) (rT main_v45_0)) ((W15 𝔭 m d) (rT main_v45_1)) ((W15 𝔭 m d) (rT main_v46)) ((W15 𝔭 m d) (rT main_v23)) ((W15 𝔭 m d) (rT main_v47)))

/-- After the stretch that follows region 3. -/
def W17 : Valuation τ sig (Elt F) := after opsB3 (W16 𝔭 m d)

/-- The arrays at @main's end. -/
abbrev Wfin : Valuation τ sig (Elt F) := W17 𝔭 m d

end Cert.Proof.KB

end
-- ==== Proof.KB_Steps.lean ====
/-
  The steps of @main on the TensorCore, each as one rule over the unscoped arrays held whole at a valuation: a
  SparseCore call takes the arrays it hands the SparseCores out of the held set, runs the launch handshake, and puts
  them back at what the tiles left; a straight stretch of host operations is the library's rule.
-/
import proofs.«215899_g5772436046013_cont_9to1c4b_742_31_alg».proof.Proof.KB_Vals
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

local notation "𝕄" => MT nD τ sig (HIx 4) (Elt F) ℕ UU ℕ

variable (P : (K (F := F)).Pay (nD := nD) (Val := Elt F) (Name := ℕ) (U := UU))

/-- A SparseCore call, as the TensorCore sees it, over the held arrays: the arrays `Cs` the call concerns leave the
    held set as the call's operands (`hsplit`), come back as its results (`hjoin`), the rest is untouched. -/
theorem step_call (κ : GSem nD τ sig → ℕ) (d : Dev nD) (q : Fin 4) (W W' : Valuation τ sig (Elt F)) (Cs : Finset (DevRef τ sig))
    (hCs : Cs ⊆ Pipeline.ucRefs τ sig) (hrest : ∀ b ∈ Pipeline.ucRefs τ sig \ Cs, W' b = W b)
    (hsw : (held (T d) Cs W : sProp 𝕄) ⊢ iprop((bigSep Finset.univ fun c : Fin ((K (F := F)).nCore q) => P.st q d c)
      ∗ ((bigSep Finset.univ fun c : Fin ((K (F := F)).nCore q) => P.dn q d c) -∗ (held (T d) Cs W' : sProp 𝕄))))
    {α : Type} (k : PUnit → Prog (TpuEff nD τ sig (Elt F) (ΛS (F := F)) .tc) α) (Φ : α → sProp 𝕄) :
    iprop((K (F := F)).ctx EH P κ ∗ (K (F := F)).tcSt EH d q.val ∗ (held (T d) (Pipeline.ucRefs τ sig) W : sProp 𝕄)
        ∗ (((K (F := F)).tcSt EH d (q.val + 1) ∗ (held (T d) (Pipeline.ucRefs τ sig) W' : sProp 𝕄))
            -∗ wp frame (wpE ((K (F := F)).defs (D (F := F))) 𝒱 (T d) none) Set.univ (k ⟨⟩) Φ))
      ⊢ wp frame (wpE ((K (F := F)).defs (D (F := F))) 𝒱 (T d) none) Set.univ ((sc (F := F)).run d q >>= k) Φ := by
  rw [wp_bind, held_sub_split (T d) hCs W, held_sub_split (T d) hCs W', held_congr (T d) hrest]
  iintro ⟨#Hctx, Hst, ⟨HC, Hrest⟩, Hk⟩
  ihave HC' := (hsw) $$ HC
  icases HC' with ⟨Hops, Hback⟩
  iapply ((K (F := F)).wp_run (D (F := F)) 𝒱 (EH := EH) (P := P) κ d q) $$ [Hst Hops Hback Hrest Hk]
  isplitr; · iexact Hctx
  isplitl [Hst]; · iexact Hst
  isplitl [Hops]; · iexact Hops
  iintro ⟨Hst, Hdn⟩
  iapply Hk
  isplitl [Hst]; · iexact Hst
  isplitl [Hdn Hback]; · iapply Hback; iexact Hdn
  iexact Hrest

/-! ## A TensorCore kernel region inside the SparseCore program -/

omit [FloatOps F] in
/-- The pipelines' staging cells' rounds land in the user component of the model. -/
instance EP_landsIn : (EP : Emb UP 𝕄).LandsIn (upEmb : UEmb _ 𝕄) :=
  Emb.LandsIn.trans_left _ _

variable (a : (p : Fin 4) → (pcfgs (F := F) p).Adm)
  (pdats : (p : Fin 4) → (c : Dev nD) → Pipeline.Dat τ (Elt F) (HIx 4) ℕ UU ℕ (Pipeline.pin (pcfgs (F := F)) a p) c)
  (phinj : Function.Injective (Pipeline.cellOf (nD := nD) (τ := τ) (Pipeline.pin (pcfgs (F := F)) a)))

/-- A call of region `p`'s entry in the SparseCore program's signature is the pipeline program's call of it, carried
    over. -/
theorem lift_entry (p : Fin 4) :
    (Prog.lift (.customCall (SparseCore.inner (Pipeline.entry p)) ()) : Prog (TpuEff nD τ sig (Elt F) (ΛS (F := F)) .tc) PUnit)
      = SparseCore.liftProg (Q := 4) (.op (.customCall (Pipeline.entry p) ()) fun _ => .ret ⟨⟩ : Prog (TpuEff nD τ sig (Elt F) (ΛP (F := F)) .tc) PUnit) := rfl

set_option maxHeartbeats 1600000 in
include phinj in
/-- Region `p` of @main, entered from the boundary with the region's entry state, the level facts and the pipeline's
    ghost state; left at the boundary with its exit state. The pipeline library's rule for the program in its own
    signature, carried to the SparseCore program's extended body table. -/
theorem step_region [∀ e, Nonempty (Elt F e)] (p : Fin 4)
    (R : Pipeline.RegionSeg (pcfgs (F := F)) a pdats (none : HIx 4) defs₀ 𝒱₀ (K (F := F)).L (K (F := F)).lev p) (d : Dev nD)
    {α : Type} (k : PUnit → Prog (TpuEff nD τ sig (Elt F) (ΛS (F := F)) .tc) α) (Φ : α → sProp 𝕄) :
    iprop((iprop(boundary (T d) ∗ R.post d) -∗ wp frame (wpE ((K (F := F)).defs (D (F := F))) 𝒱 (T d) none) Set.univ (k ⟨⟩) Φ)
        ∗ boundary (T d) ∗ R.pre d ∗ levAts (K (F := F)).L (K (F := F)).lev
        ∗ Pipeline.cellsGhost (Pipeline.pin (pcfgs (F := F)) a) EP p d ∗ Pipeline.toksInit (Pipeline.pin (pcfgs (F := F)) a) EP p d)
      ⊢ wp frame (wpE ((K (F := F)).defs (D (F := F))) 𝒱 (T d) none) Set.univ
          (Prog.lift (.customCall (SparseCore.inner (Pipeline.entry p)) ()) >>= k) Φ := by
  rw [wp_bind, lift_entry]
  refine BIBase.Entails.trans ?_ ((K (F := F)).wp_liftProg (D (F := F)) 𝒱 (T d) Set.univ none _ _)
  have h := Pipeline.RegionSeg.wp (Val := Elt F) (Ix := HIx 4) (Name := ℕ) (U := UU) (Lvl := ℕ) (pcfgs (F := F)) a pdats (none : HIx 4) phinj EP
    (defs₀ (F := F)) 𝒱₀ (K (F := F)).L (K (F := F)).lev R d none (fun u hu => absurd hu (Option.not_mem_none u)) (fun _ => .ret ⟨⟩)
    (fun x => wp frame (wpE ((K (F := F)).defs (D (F := F))) 𝒱 (T d) none) Set.univ (k x) Φ)
  refine BIBase.Entails.trans ?_ h
  iintro ⟨Hk, Hb, Hpre, Hlv, Hg, Ht⟩
  isplitl [Hk]
  · iintro H
    rw [wp_ret]; imodintro
    iapply Hk; iexact H
  isplitl [Hb]; · iexact Hb
  isplitl [Hpre]; · iexact Hpre
  isplitl [Hlv]; · iexact Hlv
  isplitl [Hg]; · iexact Hg
  iexact Ht

/-- What the launch deals the TensorCore beside its arrays: each pipeline's staging cells' ghost state, for its region
    to allocate the cells' invariants from. -/
def G (d : Dev nD) : sProp 𝕄 :=
  bigSep Finset.univ fun p : Fin 4 => iprop(Pipeline.cellsGhost (Pipeline.pin (pcfgs (F := F)) a) EP p d ∗ Pipeline.toksInit (Pipeline.pin (pcfgs (F := F)) a) EP p d)

end Cert.Proof.KB

end
-- ==== Proof.KB_Hmain.lean ====
/-
  @main on the TensorCore, from what the launch deals it: the nine stretches of host operations by the library's rule
  for a straight line over the unscoped arrays held whole, each SparseCore call by the launch handshake around the
  tiles' shares of the call's arrays, each TensorCore region by the pipeline's rule from that pipeline's staging
  cells' ghost state; the arrays end at the chain of contents of the program's value.
-/
import proofs.«215899_g5772436046013_cont_9to1c4b_742_31_alg».proof.Proof.KB_Steps

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

local notation "𝕄" => MT nD τ sig (HIx 4) (Elt F) ℕ UU ℕ

/-! ## The stretches only name the TensorCore's unscoped arrays, and allocate nothing -/

theorem opsH_sub : (opsH (F := F)).Forall fun op => op.bufs ⊆ tcRefs τ sig :=
  ⟨reshape_bufs_sub .., reshape_bufs_sub .., unary_bufs_sub .., reshape_bufs_sub .., unary_bufs_sub .., nullary_bufs_sub .., unary_bufs_sub .., nary_bufs_sub .., reshape_bufs_sub .., nullary_bufs_sub .., unary_bufs_sub .., nullary_bufs_sub .., unary_bufs_sub .., unary_bufs_sub .., binary_bufs_sub .., nullary_bufs_sub .., nullary_bufs_sub .., nullary_bufs_sub .., unary_bufs_sub .., binary_bufs_sub .., binary_bufs_sub .., unary_bufs_sub .., unary_bufs_sub .., reshape_bufs_sub .., unary_bufs_sub .., unary_bufs_sub .., binary_bufs_sub .., unary_bufs_sub .., nullary_bufs_sub .., unary_bufs_sub .., unary_bufs_sub .., reshape_bufs_sub ..⟩
theorem opsH_fresh : (opsH (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsH_uc : ∀ op ∈ opsH (F := F), op.bufs ⊆ Pipeline.ucRefs τ sig :=
  fun op h => Pipeline.sub_ucRefs op (List.forall_iff_forall_mem.mp opsH_sub op h)
theorem opsH_fr : ∀ op ∈ opsH (F := F), op.fresh = ∅ := List.forall_iff_forall_mem.mp opsH_fresh

theorem opsA0_sub : (opsA0 (F := F)).Forall fun op => op.bufs ⊆ tcRefs τ sig :=
  reshape_bufs_sub ..
theorem opsA0_fresh : (opsA0 (F := F)).Forall fun op => op.fresh = ∅ :=
  rfl
theorem opsA0_uc : ∀ op ∈ opsA0 (F := F), op.bufs ⊆ Pipeline.ucRefs τ sig :=
  fun op h => Pipeline.sub_ucRefs op (List.forall_iff_forall_mem.mp opsA0_sub op h)
theorem opsA0_fr : ∀ op ∈ opsA0 (F := F), op.fresh = ∅ := List.forall_iff_forall_mem.mp opsA0_fresh

theorem opsB0_sub : (opsB0 (F := F)).Forall fun op => op.bufs ⊆ tcRefs τ sig :=
  ⟨binary_bufs_sub .., unary_bufs_sub .., reshape_bufs_sub ..⟩
theorem opsB0_fresh : (opsB0 (F := F)).Forall fun op => op.fresh = ∅ :=
  ⟨rfl, rfl, rfl⟩
theorem opsB0_uc : ∀ op ∈ opsB0 (F := F), op.bufs ⊆ Pipeline.ucRefs τ sig :=
  fun op h => Pipeline.sub_ucRefs op (List.forall_iff_forall_mem.mp opsB0_sub op h)
theorem opsB0_fr : ∀ op ∈ opsB0 (F := F), op.fresh = ∅ := List.forall_iff_forall_mem.mp opsB0_fresh

theorem opsA1_sub : (opsA1 (F := F)).Forall fun op => op.bufs ⊆ tcRefs τ sig :=
  reshape_bufs_sub ..
theorem opsA1_fresh : (opsA1 (F := F)).Forall fun op => op.fresh = ∅ :=
  rfl
theorem opsA1_uc : ∀ op ∈ opsA1 (F := F), op.bufs ⊆ Pipeline.ucRefs τ sig :=
  fun op h => Pipeline.sub_ucRefs op (List.forall_iff_forall_mem.mp opsA1_sub op h)
theorem opsA1_fr : ∀ op ∈ opsA1 (F := F), op.fresh = ∅ := List.forall_iff_forall_mem.mp opsA1_fresh

theorem opsB1_sub : (opsB1 (F := F)).Forall fun op => op.bufs ⊆ tcRefs τ sig :=
  ⟨binary_bufs_sub .., unary_bufs_sub .., reshape_bufs_sub ..⟩
theorem opsB1_fresh : (opsB1 (F := F)).Forall fun op => op.fresh = ∅ :=
  ⟨rfl, rfl, rfl⟩
theorem opsB1_uc : ∀ op ∈ opsB1 (F := F), op.bufs ⊆ Pipeline.ucRefs τ sig :=
  fun op h => Pipeline.sub_ucRefs op (List.forall_iff_forall_mem.mp opsB1_sub op h)
theorem opsB1_fr : ∀ op ∈ opsB1 (F := F), op.fresh = ∅ := List.forall_iff_forall_mem.mp opsB1_fresh

theorem opsA2_sub : (opsA2 (F := F)).Forall fun op => op.bufs ⊆ tcRefs τ sig :=
  reshape_bufs_sub ..
theorem opsA2_fresh : (opsA2 (F := F)).Forall fun op => op.fresh = ∅ :=
  rfl
theorem opsA2_uc : ∀ op ∈ opsA2 (F := F), op.bufs ⊆ Pipeline.ucRefs τ sig :=
  fun op h => Pipeline.sub_ucRefs op (List.forall_iff_forall_mem.mp opsA2_sub op h)
theorem opsA2_fr : ∀ op ∈ opsA2 (F := F), op.fresh = ∅ := List.forall_iff_forall_mem.mp opsA2_fresh

theorem opsB2_sub : (opsB2 (F := F)).Forall fun op => op.bufs ⊆ tcRefs τ sig :=
  ⟨binary_bufs_sub .., unary_bufs_sub .., reshape_bufs_sub ..⟩
theorem opsB2_fresh : (opsB2 (F := F)).Forall fun op => op.fresh = ∅ :=
  ⟨rfl, rfl, rfl⟩
theorem opsB2_uc : ∀ op ∈ opsB2 (F := F), op.bufs ⊆ Pipeline.ucRefs τ sig :=
  fun op h => Pipeline.sub_ucRefs op (List.forall_iff_forall_mem.mp opsB2_sub op h)
theorem opsB2_fr : ∀ op ∈ opsB2 (F := F), op.fresh = ∅ := List.forall_iff_forall_mem.mp opsB2_fresh

theorem opsA3_sub : (opsA3 (F := F)).Forall fun op => op.bufs ⊆ tcRefs τ sig :=
  reshape_bufs_sub ..
theorem opsA3_fresh : (opsA3 (F := F)).Forall fun op => op.fresh = ∅ :=
  rfl
theorem opsA3_uc : ∀ op ∈ opsA3 (F := F), op.bufs ⊆ Pipeline.ucRefs τ sig :=
  fun op h => Pipeline.sub_ucRefs op (List.forall_iff_forall_mem.mp opsA3_sub op h)
theorem opsA3_fr : ∀ op ∈ opsA3 (F := F), op.fresh = ∅ := List.forall_iff_forall_mem.mp opsA3_fresh

theorem opsB3_sub : (opsB3 (F := F)).Forall fun op => op.bufs ⊆ tcRefs τ sig :=
  ⟨binary_bufs_sub .., nullary_bufs_sub .., unary_bufs_sub .., binary_bufs_sub .., reshape_bufs_sub ..⟩
theorem opsB3_fresh : (opsB3 (F := F)).Forall fun op => op.fresh = ∅ :=
  ⟨rfl, rfl, rfl, rfl, rfl⟩
theorem opsB3_uc : ∀ op ∈ opsB3 (F := F), op.bufs ⊆ Pipeline.ucRefs τ sig :=
  fun op h => Pipeline.sub_ucRefs op (List.forall_iff_forall_mem.mp opsB3_sub op h)
theorem opsB3_fr : ∀ op ∈ opsB3 (F := F), op.fresh = ∅ := List.forall_iff_forall_mem.mp opsB3_fresh

/-! ## The arrays each call concerns, and that it leaves the others alone -/

abbrev CallRefs0 : Finset (DevRef τ sig) := {rT main_arg0, rT main_arg1, rT main_v26, rT main_v27_0, rT main_v27_1, rT main_v27_2}
theorem CallRefs0_uc : CallRefs0 ⊆ Pipeline.ucRefs τ sig := by decide

abbrev CallRefs1 : Finset (DevRef τ sig) := {rT main_arg0, rT main_arg1, rT main_v32, rT main_v33_0, rT main_v33_1, rT main_v33_2}
theorem CallRefs1_uc : CallRefs1 ⊆ Pipeline.ucRefs τ sig := by decide

abbrev CallRefs2 : Finset (DevRef τ sig) := {rT main_arg0, rT main_arg1, rT main_v38, rT main_v39_0, rT main_v39_1, rT main_v39_2}
theorem CallRefs2_uc : CallRefs2 ⊆ Pipeline.ucRefs τ sig := by decide

abbrev CallRefs3 : Finset (DevRef τ sig) := {rT main_arg0, rT main_arg1, rT main_v44, rT main_v45_0, rT main_v45_1, rT main_v45_2}
theorem CallRefs3_uc : CallRefs3 ⊆ Pipeline.ucRefs τ sig := by decide

variable (𝔭 : Pure F) (m : (ℓ : Loc nD τ sig) → Buf (Elt F) ℓ) (ρ : Dev nD → PrngReg) (d : Dev nD)

theorem W2_rest (b : DevRef τ sig) (hb : b ∈ Pipeline.ucRefs τ sig \ CallRefs0) : W2 𝔭 m d b = W1 m d b := by
  have hb' := (Finset.mem_sdiff.mp hb).2
  simp only [CallRefs0, Finset.mem_insert, Finset.mem_singleton, not_or] at hb'
  unfold W2
  rw [Function.update_of_ne hb'.2.2.2.2.2, Function.update_of_ne hb'.2.2.2.2.1, Function.update_of_ne hb'.2.2.2.1]

theorem W6_rest (b : DevRef τ sig) (hb : b ∈ Pipeline.ucRefs τ sig \ CallRefs1) : W6 𝔭 m d b = W5 𝔭 m d b := by
  have hb' := (Finset.mem_sdiff.mp hb).2
  simp only [CallRefs1, Finset.mem_insert, Finset.mem_singleton, not_or] at hb'
  unfold W6
  rw [Function.update_of_ne hb'.2.2.2.2.2, Function.update_of_ne hb'.2.2.2.2.1, Function.update_of_ne hb'.2.2.2.1]

theorem W10_rest (b : DevRef τ sig) (hb : b ∈ Pipeline.ucRefs τ sig \ CallRefs2) : W10 𝔭 m d b = W9 𝔭 m d b := by
  have hb' := (Finset.mem_sdiff.mp hb).2
  simp only [CallRefs2, Finset.mem_insert, Finset.mem_singleton, not_or] at hb'
  unfold W10
  rw [Function.update_of_ne hb'.2.2.2.2.2, Function.update_of_ne hb'.2.2.2.2.1, Function.update_of_ne hb'.2.2.2.1]

theorem W14_rest (b : DevRef τ sig) (hb : b ∈ Pipeline.ucRefs τ sig \ CallRefs3) : W14 𝔭 m d b = W13 𝔭 m d b := by
  have hb' := (Finset.mem_sdiff.mp hb).2
  simp only [CallRefs3, Finset.mem_insert, Finset.mem_singleton, not_or] at hb'
  unfold W14
  rw [Function.update_of_ne hb'.2.2.2.2.2, Function.update_of_ne hb'.2.2.2.2.1, Function.update_of_ne hb'.2.2.2.1]

/-! ## @main -/

variable (P : (K (F := F)).Pay (nD := nD) (Val := Elt F) (Name := ℕ) (U := UU))
  (a : (p : Fin 4) → (pcfgs (F := F) p).Adm)

/-- The unscoped arrays the launch deals the TensorCore are the unscoped references held whole at the launch contents. -/
theorem launch_held : (unscopedBufs d (fun b => m ((SparseCore.T d : Thread nD τ).loc b)) : sProp 𝕄) = held (SparseCore.T d) (Pipeline.ucRefs τ sig) (launchContents m d) :=
  Pipeline.unscopedBufs_held (Ix := HIx 4) (Name := ℕ) (U := UU) (Lvl := ℕ) d (launchContents m d)

/-- The arrays at @main's end, held whole: what the claim reads. -/
abbrev FIN : sProp 𝕄 := held (T d) (Pipeline.ucRefs τ sig) (Wfin 𝔭 m d)

/-- A region's step in the shape @main's proof consumes it: the arrays from one valuation to the next, the
    TensorCore's handshake state carried through. -/
abbrev RegionStep (p : Fin 4) (n : ℕ) (W W' : Valuation τ sig (Elt F)) : Prop :=
  ∀ (κ : GSem nD τ sig → ℕ) {α : Type} (k : PUnit → Prog (TpuEff nD τ sig (Elt F) (ΛS (F := F)) .tc) α) (Φ : α → sProp 𝕄),
    iprop((iprop(boundary (T d) ∗ (held (T d) (Pipeline.ucRefs τ sig) W' : sProp 𝕄) ∗ (K (F := F)).tcSt EH d n)
            -∗ wp frame (wpE ((K (F := F)).defs (D (F := F))) 𝒱 (T d) none) Set.univ (k ⟨⟩) Φ)
        ∗ boundary (T d) ∗ (held (T d) (Pipeline.ucRefs τ sig) W : sProp 𝕄) ∗ (K (F := F)).tcSt EH d n ∗ (K (F := F)).ctx EH P κ
        ∗ Pipeline.cellsGhost (Pipeline.pin (pcfgs (F := F)) a) EP p d ∗ Pipeline.toksInit (Pipeline.pin (pcfgs (F := F)) a) EP p d)
      ⊢ wp frame (wpE ((K (F := F)).defs (D (F := F))) 𝒱 (T d) none) Set.univ
          (Prog.lift (.customCall (SparseCore.inner (Pipeline.entry p)) ()) >>= k) Φ

/-- A call's operands out of the held arrays and its results back, in the shape @main's proof consumes it. -/
abbrev CallStep (q : Fin 4) (Cs : Finset (DevRef τ sig)) (W W' : Valuation τ sig (Elt F)) : Prop :=
  (held (T d) Cs W : sProp 𝕄) ⊢ iprop((bigSep Finset.univ fun c : Fin ((K (F := F)).nCore q) => P.st q d c)
      ∗ ((bigSep Finset.univ fun c : Fin ((K (F := F)).nCore q) => P.dn q d c) -∗ (held (T d) Cs W' : sProp 𝕄)))

set_option backward.isDefEq.respectTransparency.types false in
theorem hmain (κ : GSem nD τ sig → ℕ)
    (hcall0 : CallStep d P 0 CallRefs0 (W1 m d) (W2 𝔭 m d))
    (hreg0 : RegionStep d P a 0 1 (W3 𝔭 m d) (W4 𝔭 m d))
    (hcall1 : CallStep d P 1 CallRefs1 (W5 𝔭 m d) (W6 𝔭 m d))
    (hreg1 : RegionStep d P a 1 2 (W7 𝔭 m d) (W8 𝔭 m d))
    (hcall2 : CallStep d P 2 CallRefs2 (W9 𝔭 m d) (W10 𝔭 m d))
    (hreg2 : RegionStep d P a 2 3 (W11 𝔭 m d) (W12 𝔭 m d))
    (hcall3 : CallStep d P 3 CallRefs3 (W13 𝔭 m d) (W14 𝔭 m d))
    (hreg3 : RegionStep d P a 3 4 (W15 𝔭 m d) (W16 𝔭 m d))
    : iprop((K (F := F)).ctx EH P κ ∗ (K (F := F)).tcSt EH d 0 ∗ (K (F := F)).tcRes m ρ d ∗ G (F := F) a d)
      ⊢ wp frame (wpE ((K (F := F)).defs (D (F := F))) 𝒱 (T d) none) Set.univ (main d)
          fun _ => iprop((K (F := F)).tcSt EH d 4 ∗ FIN 𝔭 m d) := by
  unfold SparseCore.Cfg.tcRes G
  rw [main_eq, launch_held m d,
    show (Finset.univ : Finset (Fin 4)) = {0, 1, 2, 3} by decide, SparseCore.bigSep_insert' (by decide), SparseCore.bigSep_insert' (by decide),
    SparseCore.bigSep_insert' (by decide), bigSep_singleton, ← bind_pure (seq (Λ := ΛS (F := F)) opsB3)]
  iintro ⟨#Hctx, Hst, ⟨Hb, Hheld, -, -⟩, ⟨Hg0, Ht0⟩, ⟨Hg1, Ht1⟩, ⟨Hg2, Ht2⟩, ⟨Hg3, Ht3⟩⟩
  -- the first stretch
  iapply (wp_seq 𝒱 none Set.univ d (Pipeline.ucRefs τ sig) _ opsH opsH_uc opsH_fr (launchContents m d)) $$ [Hb Hheld]
  · isplitl [Hb]; · iexact Hb
    iexact Hheld
  iintro ⟨Hb, Hheld⟩
  -- call 0
  iapply (step_call P κ d 0 (W1 m d) (W2 𝔭 m d) CallRefs0 CallRefs0_uc (W2_rest 𝔭 m d) hcall0 _ _) $$ [Hst Hheld Hb Hg0 Ht0 Hg1 Ht1 Hg2 Ht2 Hg3 Ht3]
  isplitr; · iexact Hctx
  isplitl [Hst]; · iexact Hst
  isplitl [Hheld]; · iexact Hheld
  iintro ⟨Hst, Hheld⟩
  -- the negatives' rows reshaped
  iapply (wp_seq 𝒱 none Set.univ d (Pipeline.ucRefs τ sig) _ opsA0 opsA0_uc opsA0_fr (W2 𝔭 m d)) $$ [Hb Hheld]
  · isplitl [Hb]; · iexact Hb
    iexact Hheld
  iintro ⟨Hb, Hheld⟩
  -- region 0
  iapply (hreg0 κ _ _) $$ [Hb Hheld Hst Hg0 Ht0 Hg1 Ht1 Hg2 Ht2 Hg3 Ht3]
  isplitr [Hb Hheld Hst Hg0 Ht0]
  swap
  · isplitl [Hb]; · iexact Hb
    isplitl [Hheld]; · iexact Hheld
    isplitl [Hst]; · iexact Hst
    isplitr; · iexact Hctx
    isplitl [Hg0]; · iexact Hg0
    iexact Ht0
  iintro ⟨Hb, Hheld, Hst⟩
  -- the stretch after region 0
  iapply (wp_seq 𝒱 none Set.univ d (Pipeline.ucRefs τ sig) _ opsB0 opsB0_uc opsB0_fr (W4 𝔭 m d)) $$ [Hb Hheld]
  · isplitl [Hb]; · iexact Hb
    iexact Hheld
  iintro ⟨Hb, Hheld⟩
  -- call 1
  iapply (step_call P κ d 1 (W5 𝔭 m d) (W6 𝔭 m d) CallRefs1 CallRefs1_uc (W6_rest 𝔭 m d) hcall1 _ _) $$ [Hst Hheld Hb Hg1 Ht1 Hg2 Ht2 Hg3 Ht3]
  isplitr; · iexact Hctx
  isplitl [Hst]; · iexact Hst
  isplitl [Hheld]; · iexact Hheld
  iintro ⟨Hst, Hheld⟩
  -- the negatives' rows reshaped
  iapply (wp_seq 𝒱 none Set.univ d (Pipeline.ucRefs τ sig) _ opsA1 opsA1_uc opsA1_fr (W6 𝔭 m d)) $$ [Hb Hheld]
  · isplitl [Hb]; · iexact Hb
    iexact Hheld
  iintro ⟨Hb, Hheld⟩
  -- region 1
  iapply (hreg1 κ _ _) $$ [Hb Hheld Hst Hg1 Ht1 Hg2 Ht2 Hg3 Ht3]
  isplitr [Hb Hheld Hst Hg1 Ht1]
  swap
  · isplitl [Hb]; · iexact Hb
    isplitl [Hheld]; · iexact Hheld
    isplitl [Hst]; · iexact Hst
    isplitr; · iexact Hctx
    isplitl [Hg1]; · iexact Hg1
    iexact Ht1
  iintro ⟨Hb, Hheld, Hst⟩
  -- the stretch after region 1
  iapply (wp_seq 𝒱 none Set.univ d (Pipeline.ucRefs τ sig) _ opsB1 opsB1_uc opsB1_fr (W8 𝔭 m d)) $$ [Hb Hheld]
  · isplitl [Hb]; · iexact Hb
    iexact Hheld
  iintro ⟨Hb, Hheld⟩
  -- call 2
  iapply (step_call P κ d 2 (W9 𝔭 m d) (W10 𝔭 m d) CallRefs2 CallRefs2_uc (W10_rest 𝔭 m d) hcall2 _ _) $$ [Hst Hheld Hb Hg2 Ht2 Hg3 Ht3]
  isplitr; · iexact Hctx
  isplitl [Hst]; · iexact Hst
  isplitl [Hheld]; · iexact Hheld
  iintro ⟨Hst, Hheld⟩
  -- the negatives' rows reshaped
  iapply (wp_seq 𝒱 none Set.univ d (Pipeline.ucRefs τ sig) _ opsA2 opsA2_uc opsA2_fr (W10 𝔭 m d)) $$ [Hb Hheld]
  · isplitl [Hb]; · iexact Hb
    iexact Hheld
  iintro ⟨Hb, Hheld⟩
  -- region 2
  iapply (hreg2 κ _ _) $$ [Hb Hheld Hst Hg2 Ht2 Hg3 Ht3]
  isplitr [Hb Hheld Hst Hg2 Ht2]
  swap
  · isplitl [Hb]; · iexact Hb
    isplitl [Hheld]; · iexact Hheld
    isplitl [Hst]; · iexact Hst
    isplitr; · iexact Hctx
    isplitl [Hg2]; · iexact Hg2
    iexact Ht2
  iintro ⟨Hb, Hheld, Hst⟩
  -- the stretch after region 2
  iapply (wp_seq 𝒱 none Set.univ d (Pipeline.ucRefs τ sig) _ opsB2 opsB2_uc opsB2_fr (W12 𝔭 m d)) $$ [Hb Hheld]
  · isplitl [Hb]; · iexact Hb
    iexact Hheld
  iintro ⟨Hb, Hheld⟩
  -- call 3
  iapply (step_call P κ d 3 (W13 𝔭 m d) (W14 𝔭 m d) CallRefs3 CallRefs3_uc (W14_rest 𝔭 m d) hcall3 _ _) $$ [Hst Hheld Hb Hg3 Ht3]
  isplitr; · iexact Hctx
  isplitl [Hst]; · iexact Hst
  isplitl [Hheld]; · iexact Hheld
  iintro ⟨Hst, Hheld⟩
  -- the negatives' rows reshaped
  iapply (wp_seq 𝒱 none Set.univ d (Pipeline.ucRefs τ sig) _ opsA3 opsA3_uc opsA3_fr (W14 𝔭 m d)) $$ [Hb Hheld]
  · isplitl [Hb]; · iexact Hb
    iexact Hheld
  iintro ⟨Hb, Hheld⟩
  -- region 3
  iapply (hreg3 κ _ _) $$ [Hb Hheld Hst Hg3 Ht3]
  isplitr [Hb Hheld Hst Hg3 Ht3]
  swap
  · isplitl [Hb]; · iexact Hb
    isplitl [Hheld]; · iexact Hheld
    isplitl [Hst]; · iexact Hst
    isplitr; · iexact Hctx
    isplitl [Hg3]; · iexact Hg3
    iexact Ht3
  iintro ⟨Hb, Hheld, Hst⟩
  -- the stretch after region 3
  iapply (wp_seq 𝒱 none Set.univ d (Pipeline.ucRefs τ sig) _ opsB3 opsB3_uc opsB3_fr (W16 𝔭 m d)) $$ [Hb Hheld]
  · isplitl [Hb]; · iexact Hb
    iexact Hheld
  iintro ⟨Hb, Hheld⟩
  rw [wp_pure]
  imodintro
  isplitl [Hst]; · iexact Hst
  iexact Hheld

end Cert.Proof.KB

end
-- ==== Proof.KB_Run.lean ====
/-
  The launch: the four SparseCore calls' handshake payloads (a SparseCore is handed exactly its sixteen tiles' shares, so
  splitting them among the tiles is the identity), the launch element of the ghost state (the handshakes' rounds, the
  four TensorCore pipelines' staging cells funded for their regions, the tiles' transfer counters), and the launch
  theorem applied to the tiles' obligations and the TensorCore's proof of @main.
-/
import proofs.«215899_g5772436046013_cont_9to1c4b_742_31_alg».proof.Proof.KB_Steps

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

local notation "𝕄" => MT nD τ sig (HIx 4) (Elt F) ℕ UU ℕ

/-! ## The handshakes' payloads -/

/-- A SparseCore is handed its tiles' shares together and hands their results back together; no kernel proof
    consumes anything of the launch's. -/
def mkP (gof tdf : (q : Fin 4) → Dev nD → Fin ((K (F := F)).nCore q) → Fin ((K (F := F)).nSub q) → sProp 𝕄) :
    (K (F := F)).Pay (nD := nD) (Val := Elt F) (Name := ℕ) (U := UU) :=
  { st := fun q d c => bigSep Finset.univ fun i => gof q d c i
    dn := fun q d c => bigSep Finset.univ fun i => tdf q d c i
    go := gof
    td := tdf
    x := fun _ _ => iprop(emp) }

omit [FloatOps F] in
/-- Handing a SparseCore's operands to its tiles and gathering their results is the identity, when the SparseCore's
    payloads are its tiles' together. -/
theorem vecSplit_of (P : (K (F := F)).Pay (nD := nD) (Val := Elt F) (Name := ℕ) (U := UU)) (q : Fin 4)
    (hst : ∀ d c, P.st q d c = bigSep Finset.univ fun i => P.go q d c i) (hdn : ∀ d c, P.dn q d c = bigSep Finset.univ fun i => P.td q d c i) :
    (K (F := F)).VecSplit' P q := by
  intro d c
  rw [hst, hdn]
  iintro H
  imodintro
  isplitl [H]
  · iexact H
  · iintro H2
    iexact H2

theorem vecSplit (gof tdf : (q : Fin 4) → Dev nD → Fin ((K (F := F)).nCore q) → Fin ((K (F := F)).nSub q) → sProp 𝕄) (q : Fin 4) :
    (K (F := F)).VecSplit' (mkP gof tdf) q :=
  vecSplit_of (mkP gof tdf) q (fun _ _ => rfl) (fun _ _ => rfl)

/-- The payloads are storable when every tile's share is. -/
theorem mkP_storable (gof tdf : (q : Fin 4) → Dev nD → Fin ((K (F := F)).nCore q) → Fin ((K (F := F)).nSub q) → sProp 𝕄)
    (hg : ∀ q d c i, BI.Storable (upEmb : UEmb _ 𝕄) (gof q d c i)) (ht : ∀ q d c i, BI.Storable (upEmb : UEmb _ 𝕄) (tdf q d c i)) :
    (mkP gof tdf).IsStorable where
  st q d c := by
    haveI := hg q d c
    unfold mkP; infer_instance
  dn q d c := by
    haveI := ht q d c
    unfold mkP; infer_instance
  go q d c i := by unfold mkP; exact hg q d c i
  td q d c i := by unfold mkP; exact ht q d c i

/-! ## The launch element -/

variable (a : (p : Fin 4) → (pcfgs (F := F) p).Adm)
  (phinj : Function.Injective (Pipeline.cellOf (nD := nD) (τ := τ) (Pipeline.pin (pcfgs (F := F)) a)))

def u₀ : UU := (initOf (K (F := F)).hsCells (K (F := F)).hsToks,
  (initOf (Pipeline.cells (Pipeline.pin (pcfgs (F := F)) a) phinj) (Pipeline.launchToks (Pipeline.pin (pcfgs (F := F)) a) phinj), 1))

omit [FloatOps F] in
theorem bigSep_emp' {I : Type} (s : Finset I) : (bigSep s fun _ => iprop(emp)) = (iprop(emp) : sProp 𝕄) := bigSep_emp_const s

theorem hu₀ (gof tdf : (q : Fin 4) → Dev nD → Fin ((K (F := F)).nCore q) → Fin ((K (F := F)).nSub q) → sProp 𝕄)
    (a : (p : Fin 4) → (pcfgs (F := F) p).Adm)
    (phinj : Function.Injective (Pipeline.cellOf (nD := nD) (τ := τ) (Pipeline.pin (pcfgs (F := F)) a))) :
    (ownU (u₀ (F := F) a phinj) : sProp 𝕄)
    ⊢ |={Set.univ}=> iprop(BI.own (EH (initOf (K (F := F)).hsCells (K (F := F)).hsToks)) ∗ (bigSep Finset.univ fun d : Dev nD => G (F := F) a d)
        ∗ bigSep Finset.univ fun thr : Thread nD τ => bigSep Finset.univ fun q : Fin 4 => (mkP gof tdf).x q thr) := by
  unfold u₀
  iintro Hu
  ihave H := (ownU_pair _ _) $$ Hu
  icases H with ⟨HH, HR⟩
  ihave HR' := (own_pair_emb embR _ _) $$ HR
  icases HR' with ⟨HP, -⟩
  imod (Pipeline.fund_ghost (Pipeline.pin (pcfgs (F := F)) a) EP phinj) $$ HP with ⟨Hg, Ht⟩
  imodintro
  isplitl [HH]; · iexact HH
  isplitl [Hg Ht]
  · unfold G
    rw [bigSep_congr fun d _ => bigSep_sep' (Finset.univ : Finset (Fin 4)) _ _, bigSep_sep']
    isplitl [Hg] <;> iassumption
  unfold mkP; dsimp only
  rw [show (bigSep Finset.univ fun _ : Thread nD τ => bigSep Finset.univ fun _ : Fin 4 => (iprop(emp) : sProp 𝕄)) = iprop(emp) from by
    rw [bigSep_congr fun _ _ => bigSep_emp' _, bigSep_emp']]
  iempintro

end Cert.Proof.KB

end
-- ==== Proof.KB_TileRes.lean ====
/-
  What one vector subcore of call 0 is handed and hands back: the six arrays of the call, the slices of them a
  tile owns (as the program takes them, with their row ranges in closed form), the three results as whole-array
  functions of the tables and the index array, and the resources a tile receives and returns.
-/
import proofs.«215899_g5772436046013_cont_9to1c4b_742_31_alg».proof.Proof.KB_Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## The arrays of call 0 and a tile's place

Call 0 reads the two embedding tables and the index array whole and writes three result arrays. Worker
`wid = 2 * subcore + core` owns rows `24 * wid … 24 * wid + 23` of the index array (row 0 the centre words,
row 1 the positive words, rows 2 … 21 the twenty negative draws, 128 words each), rows
`128 * wid … 128 * wid + 127` of the first two results and, for each draw `j`, rows
`4096 * j + 128 * wid …` of the third. -/

abbrev t0Loc (d : Dev nD) : Loc nD τ sig := (SparseCore.T d).loc main_arg0
abbrev t1Loc (d : Dev nD) : Loc nD τ sig := (SparseCore.T d).loc main_arg1
abbrev ixLoc (d : Dev nD) : Loc nD τ sig := (SparseCore.T d).loc main_v26
abbrev o0Loc (d : Dev nD) : Loc nD τ sig := (SparseCore.T d).loc main_v27_0
abbrev o1Loc (d : Dev nD) : Loc nD τ sig := (SparseCore.T d).loc main_v27_1
abbrev o2Loc (d : Dev nD) : Loc nD τ sig := (SparseCore.T d).loc main_v27_2

abbrev t0V : Memref sig .scVector .hbm S100000x128 .f32 := Memref.whole main_arg0_scv
abbrev t1V : Memref sig .scVector .hbm S100000x128 .f32 := Memref.whole main_arg1_scv
abbrev ixV : Memref sig .scVector .hbm S768x128 .i32 := Memref.whole main_v26_scv
abbrev o0V : Memref sig .scVector .hbm S4096x128 .f32 := Memref.whole main_v27_0_scv
abbrev o1V : Memref sig .scVector .hbm S4096x128 .f32 := Memref.whole main_v27_1_scv
abbrev o2V : Memref sig .scVector .hbm S81920x128 .f32 := Memref.whole main_v27_2_scv

/-- A tile's grid coordinates from its core and subcore numbers. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

theorem bound_zero : grid0.bound 0 = 2 := rfl
theorem bound_one : grid0.bound 1 = 16 := rfl

/-- The worker number of a tile. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-! ## The slices, as the program takes them -/

abbrev ixRect (L : grid0.Coords) : Rect S768x128 := Rect.unit (s := S768x128) (k0_off1 L) S24x128.size (k0_off1_inb L)
abbrev ixSl (L : grid0.Coords) : Memref sig .scVector .hbm S24x128 .i32 := (ixV).slice (ixRect L) (fun _ => rfl)
abbrev oRect (L : grid0.Coords) : Rect S4096x128 := Rect.unit (s := S4096x128) (k0_off7 L) S128x128.size (k0_off7_inb L)
abbrev o0Sl (L : grid0.Coords) : Memref sig .scVector .hbm S128x128 .f32 := (o0V).slice (oRect L) (fun _ => rfl)
abbrev o1Sl (L : grid0.Coords) : Memref sig .scVector .hbm S128x128 .f32 := (o1V).slice (oRect L) (fun _ => rfl)

/-- Where draw `j`'s block of a tile begins in the third result. -/
def negOff (L : grid0.Coords) (j : ℕ) : Fin 2 → ℕ := ![128 * wid L + 4096 * j, 0]

theorem negOff_inb (L : grid0.Coords) (j : Fin 20) : ∀ a, negOff L j.val a + S128x128.size a ≤ S81920x128.size a := by
  have hw := wid_lt L; have hj := j.isLt
  intro a
  match a with
  | 0 => show 128 * wid L + 4096 * j.val + 128 ≤ 81920; omega
  | 1 => show 0 + 128 ≤ 128; omega

abbrev negRect (L : grid0.Coords) (j : Fin 20) : Rect S81920x128 := Rect.unit (s := S81920x128) (negOff L j.val) S128x128.size (negOff_inb L j)
abbrev negSl (L : grid0.Coords) (j : Fin 20) : Memref sig .scVector .hbm S128x128 .f32 := (o2V).slice (negRect L j) (fun _ => rfl)

theorem k0_off1_wid (L : grid0.Coords) : k0_off1 L = ![24 * wid L, 0] := by
  rw [k0_off1_eq]; unfold wid; congr 1; omega

theorem k0_off7_wid (L : grid0.Coords) : k0_off7 L = ![128 * wid L, 0] := by
  rw [k0_off7_eq]; unfold wid; congr 1; omega

theorem k0_off2_wid : ∀ (L : grid0.Coords) (r : Fin 5), k0_off2 L (k0_off2_at r) = ![128 * (2 * (L 1).val + (L 0).val) + (k0_off2_at r).toNat, 0] := by decide +kernel

theorem k0_off6_wid (L : grid0.Coords) (t : Fin k0_t1_loop.trips) (r : Fin 4) :
    k0_off6 L t (BitVec.ofNat 32 (1 + r.val)) = negOff L (4 * t.val + r.val + 1) := by
  rw [k0_off6_eq]; unfold negOff wid; congr 1; omega

theorem k0_off4_wid (L : grid0.Coords) (t : Fin k0_t1_loop.trips) (r : Fin 4) :
    k0_off4 L t (BitVec.ofNat 32 (1 + r.val)) = negOff L (4 * t.val + r.val) := by
  rw [k0_off4_eq]; unfold negOff wid; congr 1; omega

/-! ## What a tile is handed and what it hands back -/

/-- A tile's read share of a table: one of thirty-two. -/
abbrev tblShare (L : grid0.Coords) : PosShare TreeShare := Transfers.shareTok fullShare 32 ⟨wid L, wid_lt L⟩

variable (d : Dev nD) (T0 : Buf (Elt F) (t0Loc d)) (T1 : Buf (Elt F) (t1Loc d)) (IX : Buf (Elt F) (ixLoc d))

/-- The word of the index array at row `24 * w + k`, column `r` (zero outside the array). -/
def ixWord (w k r : ℕ) : ℕ :=
  if h : 24 * w + k < 768 ∧ r < 128 then (IX (Shape.pair (d := ![768, 128]) ⟨24 * w + k, h.1⟩ ⟨r, h.2⟩)).toNat else 0

/-- Row `n` of a table at column `c` (row 0 outside the table). -/
def tblAt (Tb : S100000x128.Idx → Elt F .f32) (n : ℕ) (c : Fin 128) : Elt F .f32 :=
  Tb (Shape.pair (d := ![100000, 128]) (if h : n < 100000 then ⟨n, h⟩ else ⟨0, by decide⟩) c)

/-- The first result whole: row `128 * w + r` is row `IX[24 * w, r]` of the first table. -/
def gV0 : Buf (Elt F) (o0Loc d) :=
  show S4096x128.Idx → Elt F .f32 from fun x => tblAt (F := F) T0 (ixWord d IX ((x 0).val / 128) 0 ((x 0).val % 128)) (x 1)

/-- The second result whole: row `128 * w + r` is row `IX[24 * w + 1, r]` of the second table. -/
def gV1 : Buf (Elt F) (o1Loc d) :=
  show S4096x128.Idx → Elt F .f32 from fun x => tblAt (F := F) T1 (ixWord d IX ((x 0).val / 128) 1 ((x 0).val % 128)) (x 1)

/-- The third result whole: row `4096 * j + 128 * w + r` is row `IX[24 * w + 2 + j, r]` of the second table. -/
def gV2 : Buf (Elt F) (o2Loc d) :=
  show S81920x128.Idx → Elt F .f32 from fun x =>
    tblAt (F := F) T1 (ixWord d IX ((x 0).val % 4096 / 128) (2 + (x 0).val / 4096) ((x 0).val % 128)) (x 1)

/-- What the tile at `L` is handed: a read share of each table, its 24 rows of the index array, and its rows of
    the three results at whatever they hold. -/
def goResL (L : grid0.Coords) : sProp 𝕄 :=
  iprop((t0Loc d ↦{tblShare L} T0) ∗ (t1Loc d ↦{tblShare L} T1)
    ∗ (ixLoc d ↦[(ixSl L).view.set]{fullShare} IX)
    ∗ (∃ f, o0Loc d ↦[(o0Sl L).view.set]{fullShare} f)
    ∗ (∃ f, o1Loc d ↦[(o1Sl L).view.set]{fullShare} f)
    ∗ bigSep Finset.univ fun j : Fin 20 => iprop(∃ f, o2Loc d ↦[(negSl L j).view.set]{fullShare} f))

/-- What it hands back: the same, its rows of the results at the gathered rows. -/
def tdResL (L : grid0.Coords) : sProp 𝕄 :=
  iprop((t0Loc d ↦{tblShare L} T0) ∗ (t1Loc d ↦{tblShare L} T1)
    ∗ (ixLoc d ↦[(ixSl L).view.set]{fullShare} IX)
    ∗ (o0Loc d ↦[(o0Sl L).view.set]{fullShare} gV0 d T0 IX)
    ∗ (o1Loc d ↦[(o1Sl L).view.set]{fullShare} gV1 d T1 IX)
    ∗ bigSep Finset.univ fun j : Fin 20 => (o2Loc d ↦[(negSl L j).view.set]{fullShare} gV2 d T1 IX))

theorem nCore_zero : (K (F := F)).nCore 0 = grid0.bound 0 := rfl
theorem nSub_zero : (K (F := F)).nSub 0 = grid0.bound 1 := rfl

/-- The same by the launch's numbering of a call's tiles. -/
def goRes0 (c : Fin ((K (F := F)).nCore 0)) (i : Fin ((K (F := F)).nSub 0)) : sProp 𝕄 :=
  goResL d T0 T1 IX (coordsV (Fin.cast nCore_zero c) (Fin.cast nSub_zero i))
def tdRes0 (c : Fin ((K (F := F)).nCore 0)) (i : Fin ((K (F := F)).nSub 0)) : sProp 𝕄 :=
  tdResL d T0 T1 IX (coordsV (Fin.cast nCore_zero c) (Fin.cast nSub_zero i))

set_option synthInstance.maxHeartbeats 1000000 in
instance goResL_storable (L : grid0.Coords) : BI.Storable (upEmb : UEmb _ 𝕄) (goResL d T0 T1 IX L) := by
  unfold goResL; infer_instance
set_option synthInstance.maxHeartbeats 1000000 in
instance tdResL_storable (L : grid0.Coords) : BI.Storable (upEmb : UEmb _ 𝕄) (tdResL d T0 T1 IX L) := by
  unfold tdResL; infer_instance
instance goRes0_storable (c : Fin ((K (F := F)).nCore 0)) (i : Fin ((K (F := F)).nSub 0)) :
    BI.Storable (upEmb : UEmb _ 𝕄) (goRes0 d T0 T1 IX c i) := by unfold goRes0; infer_instance
instance tdRes0_storable (c : Fin ((K (F := F)).nCore 0)) (i : Fin ((K (F := F)).nSub 0)) :
    BI.Storable (upEmb : UEmb _ 𝕄) (tdRes0 d T0 T1 IX c i) := by unfold tdRes0; infer_instance

/-- Every word of rows 0 … 21 of each tile's slice of the index array names a row of the tables. -/
def IXOK : Prop :=
  ∀ (L : grid0.Coords) (x : S24x128.Idx), (x 0).val < 22 → ((ixSl L).view.read (Elt F) IX x).toNat < 100000

end Cert.Proof.KB

end
-- ==== Proof.KB_SplitGeo.lean ====
/-
  The geometry of call 0's hand-out: the thirty-two tiles' row blocks of the index array and of the three result
  arrays are pairwise disjoint and cover the arrays; a tile's worker number determines the tile.
-/
import proofs.«215899_g5772436046013_cont_9to1c4b_742_31_alg».proof.Proof.KB_TileRes
import Idealize.ShloMosaic.Lib.StableHlo.Run

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## Tiles by their core and subcore numbers -/

/-- A tile named by its core and subcore numbers. -/
abbrev Tl : Type := Fin 2 × Fin 16

/-- The tile's grid coordinates. -/
def tl (p : Tl) : grid0.Coords := coordsV p.1 p.2

theorem wid_tl (p : Tl) : wid (tl p) = 2 * p.2.val + p.1.val := rfl

/-- The worker number determines the tile: the core number is its parity. -/
theorem wid_tl_inj {p p' : Tl} (h : wid (tl p) = wid (tl p')) : p = p' := by
  rw [wid_tl, wid_tl] at h
  have h1 := p.1.isLt; have h1' := p'.1.isLt
  exact Prod.ext (Fin.ext (by omega)) (Fin.ext (by omega))

/-- The tile with a given worker number. -/
def tlOf (w : ℕ) (hw : w < 32) : Tl := (⟨w % 2, by omega⟩, ⟨w / 2, by omega⟩)

theorem wid_tlOf (w : ℕ) (hw : w < 32) : wid (tl (tlOf w hw)) = w := by
  rw [wid_tl]; show 2 * (w / 2) + w % 2 = w; omega

/-! ## The index array: 24 rows a tile -/

theorem ixSet_eq (L : grid0.Coords) : (ixSl L).view.set = (ixRect L).set := View.set_slice_whole _ _

theorem ixSet_disjoint {p p' : Tl} (h : p ≠ p') : Disjoint (ixSl (tl p)).view.set (ixSl (tl p')).view.set := by
  rw [ixSet_eq, ixSet_eq]
  have hw : wid (tl p) ≠ wid (tl p') := fun e => h (wid_tl_inj e)
  refine Rect.unit_disjoint (0 : Fin 2) ?_
  rw [k0_off1_wid, k0_off1_wid]
  show 24 * wid (tl p) + 24 ≤ 24 * wid (tl p') ∨ 24 * wid (tl p') + 24 ≤ 24 * wid (tl p)
  omega

theorem ixSet_cover : Finset.biUnion (β := S768x128.Idx) (Finset.univ : Finset Tl) (fun p => (ixSl (tl p)).view.set) = Finset.univ := by
  refine Finset.eq_univ_iff_forall.mpr fun x => Finset.mem_biUnion.mpr ?_
  have hx : (x 0).val < 768 := (x 0).isLt
  have hx1 : (x 1).val < 128 := (x 1).isLt
  refine ⟨tlOf ((x 0).val / 24) (by omega), Finset.mem_univ _, ?_⟩
  rw [ixSet_eq, Rect.mem_set_unit, k0_off1_wid, wid_tlOf]
  refine Fin.forall_fin_two.mpr ⟨?_, ?_⟩
  · show 24 * ((x 0).val / 24) ≤ (x 0).val ∧ (x 0).val < 24 * ((x 0).val / 24) + 24; omega
  · show 0 ≤ (x 1).val ∧ (x 1).val < 0 + 128; omega

/-! ## The first two results: 128 rows a tile -/

theorem o0Set_eq (L : grid0.Coords) : (o0Sl L).view.set = (oRect L).set := View.set_slice_whole _ _
theorem o1Set_eq (L : grid0.Coords) : (o1Sl L).view.set = (oRect L).set := View.set_slice_whole _ _

theorem oRect_disjoint {p p' : Tl} (h : p ≠ p') : Disjoint (oRect (tl p)).set (oRect (tl p')).set := by
  have hw : wid (tl p) ≠ wid (tl p') := fun e => h (wid_tl_inj e)
  refine Rect.unit_disjoint (0 : Fin 2) ?_
  rw [k0_off7_wid, k0_off7_wid]
  show 128 * wid (tl p) + 128 ≤ 128 * wid (tl p') ∨ 128 * wid (tl p') + 128 ≤ 128 * wid (tl p)
  omega

theorem oRect_cover : (Finset.univ : Finset Tl).biUnion (fun p => (oRect (tl p)).set) = Finset.univ := by
  refine Finset.eq_univ_iff_forall.mpr fun x => Finset.mem_biUnion.mpr ?_
  have hx : (x 0).val < 4096 := (x 0).isLt
  have hx1 : (x 1).val < 128 := (x 1).isLt
  refine ⟨tlOf ((x 0).val / 128) (by omega), Finset.mem_univ _, ?_⟩
  rw [Rect.mem_set_unit, k0_off7_wid, wid_tlOf]
  refine Fin.forall_fin_two.mpr ⟨?_, ?_⟩
  · show 128 * ((x 0).val / 128) ≤ (x 0).val ∧ (x 0).val < 128 * ((x 0).val / 128) + 128; omega
  · show 0 ≤ (x 1).val ∧ (x 1).val < 0 + 128; omega

/-! ## The third result: 128 rows a tile and draw -/

theorem negSet_eq (L : grid0.Coords) (j : Fin 20) : (negSl L j).view.set = (negRect L j).set := View.set_slice_whole _ _

theorem negRect_disjoint {a a' : Tl × Fin 20} (h : a ≠ a') : Disjoint (negRect (tl a.1) a.2).set (negRect (tl a'.1) a'.2).set := by
  have hw := wid_lt (tl a.1); have hw' := wid_lt (tl a'.1)
  have hne : wid (tl a.1) ≠ wid (tl a'.1) ∨ a.2.val ≠ a'.2.val := by
    by_contra hc
    rw [not_or, not_not, not_not] at hc
    exact h (Prod.ext (wid_tl_inj hc.1) (Fin.ext hc.2))
  refine Rect.unit_disjoint (0 : Fin 2) ?_
  show 128 * wid (tl a.1) + 4096 * a.2.val + 128 ≤ 128 * wid (tl a'.1) + 4096 * a'.2.val
    ∨ 128 * wid (tl a'.1) + 4096 * a'.2.val + 128 ≤ 128 * wid (tl a.1) + 4096 * a.2.val
  omega

theorem negRect_cover : (Finset.univ : Finset (Tl × Fin 20)).biUnion (fun a => (negRect (tl a.1) a.2).set) = Finset.univ := by
  refine Finset.eq_univ_iff_forall.mpr fun x => Finset.mem_biUnion.mpr ?_
  have hx : (x 0).val < 81920 := (x 0).isLt
  have hx1 : (x 1).val < 128 := (x 1).isLt
  have hw : (x 0).val % 4096 / 128 < 32 := by omega
  refine ⟨(tlOf ((x 0).val % 4096 / 128) hw, ⟨(x 0).val / 4096, by omega⟩), Finset.mem_univ _, ?_⟩
  rw [Rect.mem_set_unit]
  refine Fin.forall_fin_two.mpr ⟨?_, ?_⟩
  · show 128 * wid (tl (tlOf ((x 0).val % 4096 / 128) hw)) + 4096 * ((x 0).val / 4096) ≤ (x 0).val
      ∧ (x 0).val < 128 * wid (tl (tlOf ((x 0).val % 4096 / 128) hw)) + 4096 * ((x 0).val / 4096) + 128
    rw [wid_tlOf]; omega
  · show 0 ≤ (x 1).val ∧ (x 1).val < 0 + 128; omega

end Cert.Proof.KB

end
-- ==== Proof.KB_Split.lean ====
/-
  Call 0's arrays among its thirty-two tiles and back: the six arrays the call concerns, held whole by the
  TensorCore, are the tiles' hand-outs together (a read share of each table a tile, the tile's row blocks of the
  index array and of the three results), and the tiles' returns join to the arrays whole, the results at the
  gathered rows.
-/
import proofs.«215899_g5772436046013_cont_9to1c4b_742_31_alg».proof.Proof.KB_TileRes
import proofs.«215899_g5772436046013_cont_9to1c4b_742_31_alg».proof.Proof.KB_SplitGeo
import Idealize.ShloMosaic.Lib.StableHlo.Run

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

local notation "𝔯" => (Proc.devRef (τ := τ) (sig := sig) Proc.tc)

/-- An entailment of the model, from the same entailment read through the logic's interface. -/
theorem ent_of {P Q : sProp 𝕄} (h : P ⊢ Q) : Idealize.SL.BI.Entails P Q := h

/-! ## Sums over the tiles -/

/-- The launch's double sum over a call's cores and subcores is the sum over the tiles. -/
theorem bigSep_tiles (Φ : grid0.Coords → sProp 𝕄) :
    (bigSep Finset.univ fun c : Fin ((K (F := F)).nCore 0) => bigSep Finset.univ fun i : Fin ((K (F := F)).nSub 0) =>
        Φ (coordsV (Fin.cast nCore_zero c) (Fin.cast nSub_zero i)))
      = bigSep (Finset.univ : Finset Tl) fun p => Φ (tl p) := by
  rw [bigSep_univ_prod]
  exact bigSep_congr fun c _ => bigSep_congr fun i _ => congrArg Φ rfl

/-! ## A table's thirty-two read shares -/

/-- A tile's worker number among the thirty-two. -/
def widF (p : Tl) : Fin 32 := ⟨wid (tl p), wid_lt (tl p)⟩

/-- Every worker number is one tile's. -/
def widEmb : Tl ↪ Fin 32 := ⟨widF, fun _ _ h => wid_tl_inj (congrArg Fin.val h)⟩

theorem widEmb_univ : (Finset.univ : Finset Tl).map widEmb = Finset.univ :=
  Finset.eq_univ_iff_forall.mpr fun w => Finset.mem_map.mpr ⟨tlOf w.val w.isLt, Finset.mem_univ _, Fin.ext (wid_tlOf _ _)⟩

/-- An array held whole is the tiles' read shares of it and what remains of the share after thirty-two halvings. -/
theorem tbl_shares (ℓ : Loc nD τ sig) (f : Buf (Elt F) ℓ) :
    (ℓ ↦{fullShare} f : sProp 𝕄)
      = iprop((ℓ ↦{Transfers.shareDrop fullShare 32} f) ∗ bigSep (Finset.univ : Finset Tl) fun p => ℓ ↦{tblShare (tl p)} f) := by
  have e : (bigSep (Finset.univ : Finset Tl) fun p => (ℓ ↦{tblShare (tl p)} f : sProp 𝕄))
      = bigSep (Finset.univ : Finset (Fin 32)) (fun i => ℓ ↦{Transfers.shareTok fullShare 32 i} f) := by
    rw [← widEmb_univ, BI.bigSep_map]; rfl
  have h : (ℓ ↦{fullShare} f : sProp 𝕄) ⊣⊢ iprop((ℓ ↦{Transfers.shareDrop fullShare 32} f)
      ∗ bigSep (Finset.univ : Finset (Fin 32)) (fun i => ℓ ↦{Transfers.shareTok fullShare 32 i} f)) := Transfers.pointsTo_toks fullShare 32
  rw [e]; exact BI.equiv_iff.mp ⟨h.1, h.2⟩

/-! ## The index array and the results as the tiles' row blocks -/

variable (d : Dev nD)

theorem ix_blocks (IX : Buf (Elt F) (ixLoc d)) :
    (ixLoc d ↦{fullShare} IX : sProp 𝕄) = bigSep (Finset.univ : Finset Tl) fun p => ixLoc d ↦[(ixSl (tl p)).view.set]{fullShare} IX := by
  rw [← pointsTo_biUnion Finset.univ (ℓ := ixLoc d) (fun p : Tl => (ixSl (tl p)).view.set) (fun p _ p' _ h => ixSet_disjoint h), ixSet_cover]

theorem o0_blocks (f : Buf (Elt F) (o0Loc d)) :
    (o0Loc d ↦{fullShare} f : sProp 𝕄) = bigSep (Finset.univ : Finset Tl) fun p => o0Loc d ↦[(o0Sl (tl p)).view.set]{fullShare} f := by
  rw [← pointsTo_biUnion Finset.univ (ℓ := o0Loc d) (fun p : Tl => (o0Sl (tl p)).view.set)
      (fun p _ p' _ h => by rw [o0Set_eq, o0Set_eq]; exact oRect_disjoint h),
    show ((Finset.univ : Finset Tl).biUnion fun p => ((o0Sl (tl p)).view.set : Finset S4096x128.Idx)) = Finset.univ from
      (Finset.biUnion_congr rfl fun p _ => o0Set_eq (tl p)).trans oRect_cover]

theorem o1_blocks (f : Buf (Elt F) (o1Loc d)) :
    (o1Loc d ↦{fullShare} f : sProp 𝕄) = bigSep (Finset.univ : Finset Tl) fun p => o1Loc d ↦[(o1Sl (tl p)).view.set]{fullShare} f := by
  rw [← pointsTo_biUnion Finset.univ (ℓ := o1Loc d) (fun p : Tl => (o1Sl (tl p)).view.set)
      (fun p _ p' _ h => by rw [o1Set_eq, o1Set_eq]; exact oRect_disjoint h),
    show ((Finset.univ : Finset Tl).biUnion fun p => ((o1Sl (tl p)).view.set : Finset S4096x128.Idx)) = Finset.univ from
      (Finset.biUnion_congr rfl fun p _ => o1Set_eq (tl p)).trans oRect_cover]

theorem o2_blocks (f : Buf (Elt F) (o2Loc d)) :
    (o2Loc d ↦{fullShare} f : sProp 𝕄)
      = bigSep (Finset.univ : Finset Tl) fun p => bigSep (Finset.univ : Finset (Fin 20)) fun j => o2Loc d ↦[(negSl (tl p) j).view.set]{fullShare} f := by
  refine Eq.trans ?_ (bigSep_univ_prod (fun a : Tl × Fin 20 => (o2Loc d ↦[(negSl (tl a.1) a.2).view.set]{fullShare} f : sProp 𝕄)))
  rw [← pointsTo_biUnion Finset.univ (ℓ := o2Loc d) (fun a : Tl × Fin 20 => (negSl (tl a.1) a.2).view.set)
      (fun a _ a' _ h => by rw [negSet_eq, negSet_eq]; exact negRect_disjoint h),
    show ((Finset.univ : Finset (Tl × Fin 20)).biUnion fun a => ((negSl (tl a.1) a.2).view.set : Finset S81920x128.Idx)) = Finset.univ from
      (Finset.biUnion_congr rfl fun a _ => negSet_eq (tl a.1) a.2).trans negRect_cover]

/-! ## The six arrays whole and the tiles' parts -/

variable (T0 : Buf (Elt F) (t0Loc d)) (T1 : Buf (Elt F) (t1Loc d)) (IX : Buf (Elt F) (ixLoc d))
variable (f0 : Buf (Elt F) (o0Loc d)) (f1 : Buf (Elt F) (o1Loc d)) (f2 : Buf (Elt F) (o2Loc d))

/-- A tile's part of the six arrays, the three results at given contents. -/
def blkRes (L : grid0.Coords) : sProp 𝕄 :=
  iprop((t0Loc d ↦{tblShare L} T0) ∗ (t1Loc d ↦{tblShare L} T1)
    ∗ (ixLoc d ↦[(ixSl L).view.set]{fullShare} IX)
    ∗ (o0Loc d ↦[(o0Sl L).view.set]{fullShare} f0)
    ∗ (o1Loc d ↦[(o1Sl L).view.set]{fullShare} f1)
    ∗ bigSep Finset.univ fun j : Fin 20 => (o2Loc d ↦[(negSl L j).view.set]{fullShare} f2))

/-- What remains of the two tables' shares beside the tiles' thirty-two read shares of each. -/
def tblRem : sProp 𝕄 :=
  iprop((t0Loc d ↦{Transfers.shareDrop fullShare 32} T0) ∗ (t1Loc d ↦{Transfers.shareDrop fullShare 32} T1))

/-- The six arrays whole are the tiles' parts and the tables' remaining shares. -/
theorem whole_blocks :
    (iprop((t0Loc d ↦{fullShare} T0) ∗ (t1Loc d ↦{fullShare} T1) ∗ (ixLoc d ↦{fullShare} IX)
        ∗ (o0Loc d ↦{fullShare} f0) ∗ (o1Loc d ↦{fullShare} f1) ∗ (o2Loc d ↦{fullShare} f2)) : sProp 𝕄)
      = iprop(tblRem d T0 T1 ∗ bigSep (Finset.univ : Finset Tl) fun p => blkRes d T0 T1 IX f0 f1 f2 (tl p)) := by
  unfold blkRes tblRem
  rw [bigSep_sep', bigSep_sep', bigSep_sep', bigSep_sep', bigSep_sep',
    tbl_shares (t0Loc d) T0, tbl_shares (t1Loc d) T1, ix_blocks d IX, o0_blocks d f0, o1_blocks d f1, o2_blocks d f2]
  refine BI.equiv_iff.mp ⟨ent_of ?_, ent_of ?_⟩
  · iintro ⟨⟨Hr0, Ha0⟩, ⟨Hr1, Ha1⟩, Hi, Hb, Hc, Hd⟩
    isplitl [Hr0 Hr1]
    · isplitl [Hr0]; · iexact Hr0
      iexact Hr1
    isplitl [Ha0]; · iexact Ha0
    isplitl [Ha1]; · iexact Ha1
    isplitl [Hi]; · iexact Hi
    isplitl [Hb]; · iexact Hb
    isplitl [Hc]; · iexact Hc
    iexact Hd
  · iintro ⟨⟨Hr0, Hr1⟩, Ha0, Ha1, Hi, Hb, Hc, Hd⟩
    isplitl [Hr0 Ha0]
    · isplitl [Hr0]; · iexact Hr0
      iexact Ha0
    isplitl [Hr1 Ha1]
    · isplitl [Hr1]; · iexact Hr1
      iexact Ha1
    isplitl [Hi]; · iexact Hi
    isplitl [Hb]; · iexact Hb
    isplitl [Hc]; · iexact Hc
    iexact Hd

/-- A tile's part with the results at any contents is what the tile is handed. -/
theorem blkRes_go (L : grid0.Coords) : blkRes d T0 T1 IX f0 f1 f2 L ⊢ goResL d T0 T1 IX L := by
  unfold blkRes goResL
  iintro ⟨H0, H1, Hi, Hb, Hc, Hd⟩
  isplitl [H0]; · iexact H0
  isplitl [H1]; · iexact H1
  isplitl [Hi]; · iexact Hi
  isplitl [Hb]; · iexists f0; iexact Hb
  isplitl [Hc]; · iexists f1; iexact Hc
  have hd : (bigSep Finset.univ fun j : Fin 20 => (o2Loc d ↦[(negSl L j).view.set]{fullShare} f2 : sProp 𝕄))
      ⊢ bigSep Finset.univ fun j : Fin 20 => iprop(∃ f, o2Loc d ↦[(negSl L j).view.set]{fullShare} f) :=
    bigSep_mono fun j _ => ent_of (by iintro H; iexists f2; iexact H)
  iapply hd; iexact Hd

/-- What a tile hands back is its part with the results at the gathered rows. -/
theorem tdResL_eq (L : grid0.Coords) :
    tdResL d T0 T1 IX L = blkRes d T0 T1 IX (gV0 d T0 IX) (gV1 d T1 IX) (gV2 d T1 IX) L := rfl

/-! ## The call's arrays, held by the TensorCore -/

/-- The six arrays call 0 concerns: the two tables, the index array, the three results. -/
def Cs0 : Finset (DevRef τ sig) := {𝔯 main_arg0, 𝔯 main_arg1, 𝔯 main_v26, 𝔯 main_v27_0, 𝔯 main_v27_1, 𝔯 main_v27_2}

theorem held_Cs0 (W : Valuation τ sig (Elt F)) :
    (StableHlo.held (T d) Cs0 W : sProp 𝕄)
      = iprop((t0Loc d ↦{fullShare} W (𝔯 main_arg0)) ∗ (t1Loc d ↦{fullShare} W (𝔯 main_arg1)) ∗ (ixLoc d ↦{fullShare} W (𝔯 main_v26))
        ∗ (o0Loc d ↦{fullShare} W (𝔯 main_v27_0)) ∗ (o1Loc d ↦{fullShare} W (𝔯 main_v27_1)) ∗ (o2Loc d ↦{fullShare} W (𝔯 main_v27_2))) := by
  unfold StableHlo.held Cs0
  rw [bigSep_insert (by decide), bigSep_insert (by decide), bigSep_insert (by decide), bigSep_insert (by decide), bigSep_insert (by decide),
    bigSep_singleton]
  rfl

/-- The hand-out: the call's arrays held whole are every tile's operands and the tables' remaining shares. -/
theorem call0_split (W : Valuation τ sig (Elt F)) :
    (StableHlo.held (T d) Cs0 W : sProp 𝕄) ⊢ iprop(
      (bigSep Finset.univ fun c : Fin ((K (F := F)).nCore 0) => bigSep Finset.univ fun i : Fin ((K (F := F)).nSub 0) =>
        goRes0 d (W (𝔯 main_arg0)) (W (𝔯 main_arg1)) (W (𝔯 main_v26)) c i)
      ∗ tblRem d (W (𝔯 main_arg0)) (W (𝔯 main_arg1))) := by
  rw [held_Cs0, whole_blocks]
  unfold goRes0
  rw [bigSep_tiles (fun L => goResL d (W (𝔯 main_arg0)) (W (𝔯 main_arg1)) (W (𝔯 main_v26)) L)]
  iintro ⟨Hr, Hb⟩
  isplitl [Hb]
  · have hb : (bigSep (Finset.univ : Finset Tl) fun p => blkRes d (W (𝔯 main_arg0)) (W (𝔯 main_arg1)) (W (𝔯 main_v26))
          (W (𝔯 main_v27_0)) (W (𝔯 main_v27_1)) (W (𝔯 main_v27_2)) (tl p))
        ⊢ bigSep (Finset.univ : Finset Tl) fun p => goResL d (W (𝔯 main_arg0)) (W (𝔯 main_arg1)) (W (𝔯 main_v26)) (tl p) :=
      bigSep_mono fun p _ => blkRes_go d _ _ _ _ _ _ (tl p)
    iapply hb; iexact Hb
  · iexact Hr

/-- The gathering: every tile's returns and the tables' remaining shares are the call's arrays held whole, the three
    results at the gathered rows. -/
theorem call0_join (W W' : Valuation τ sig (Elt F)) (h0 : W' (𝔯 main_arg0) = W (𝔯 main_arg0)) (h1 : W' (𝔯 main_arg1) = W (𝔯 main_arg1))
    (hix : W' (𝔯 main_v26) = W (𝔯 main_v26))
    (ho0 : W' (𝔯 main_v27_0) = gV0 d (W (𝔯 main_arg0)) (W (𝔯 main_v26)))
    (ho1 : W' (𝔯 main_v27_1) = gV1 d (W (𝔯 main_arg1)) (W (𝔯 main_v26)))
    (ho2 : W' (𝔯 main_v27_2) = gV2 d (W (𝔯 main_arg1)) (W (𝔯 main_v26))) :
    iprop((bigSep Finset.univ fun c : Fin ((K (F := F)).nCore 0) => bigSep Finset.univ fun i : Fin ((K (F := F)).nSub 0) =>
        tdRes0 d (W (𝔯 main_arg0)) (W (𝔯 main_arg1)) (W (𝔯 main_v26)) c i)
      ∗ tblRem d (W (𝔯 main_arg0)) (W (𝔯 main_arg1))) ⊢ (StableHlo.held (T d) Cs0 W' : sProp 𝕄) := by
  rw [held_Cs0, h0, h1, hix, ho0, ho1, ho2, whole_blocks]
  unfold tdRes0
  rw [bigSep_tiles (fun L => tdResL d (W (𝔯 main_arg0)) (W (𝔯 main_arg1)) (W (𝔯 main_v26)) L)]
  iintro ⟨Hb, Hr⟩
  isplitl [Hr]; · iexact Hr
  iexact Hb

/-- Both at once, as a call step uses them: the hand-out, and the arrays back whole against the tiles' returns. -/
theorem call0_split_wand (W W' : Valuation τ sig (Elt F)) (h0 : W' (𝔯 main_arg0) = W (𝔯 main_arg0)) (h1 : W' (𝔯 main_arg1) = W (𝔯 main_arg1))
    (hix : W' (𝔯 main_v26) = W (𝔯 main_v26))
    (ho0 : W' (𝔯 main_v27_0) = gV0 d (W (𝔯 main_arg0)) (W (𝔯 main_v26)))
    (ho1 : W' (𝔯 main_v27_1) = gV1 d (W (𝔯 main_arg1)) (W (𝔯 main_v26)))
    (ho2 : W' (𝔯 main_v27_2) = gV2 d (W (𝔯 main_arg1)) (W (𝔯 main_v26))) :
    (StableHlo.held (T d) Cs0 W : sProp 𝕄) ⊢ iprop(
      (bigSep Finset.univ fun c : Fin ((K (F := F)).nCore 0) => bigSep Finset.univ fun i : Fin ((K (F := F)).nSub 0) =>
        goRes0 d (W (𝔯 main_arg0)) (W (𝔯 main_arg1)) (W (𝔯 main_v26)) c i)
      ∗ ((bigSep Finset.univ fun c : Fin ((K (F := F)).nCore 0) => bigSep Finset.univ fun i : Fin ((K (F := F)).nSub 0) =>
          tdRes0 d (W (𝔯 main_arg0)) (W (𝔯 main_arg1)) (W (𝔯 main_v26)) c i) -∗ (StableHlo.held (T d) Cs0 W' : sProp 𝕄))) := by
  refine (call0_split d W).trans ?_
  iintro ⟨Hgo, Hr⟩
  isplitl [Hgo]; · iexact Hgo
  iintro Htd
  iapply (call0_join d W W' h0 h1 hix ho0 ho1 ho2)
  isplitl [Htd]; · iexact Htd
  iexact Hr

end Cert.Proof.KB

end
-- ==== Proof.KB_TileRes_c1.lean ====
/-
  What one vector subcore of call 1 is handed and hands back: the six arrays of the call, the slices of them a
  tile owns (as the program takes them, with their row ranges in closed form), the three results as whole-array
  functions of the tables and the index array, and the resources a tile receives and returns.
-/
import proofs.«215899_g5772436046013_cont_9to1c4b_742_31_alg».proof.Proof.KB_Common
import proofs.«215899_g5772436046013_cont_9to1c4b_742_31_alg».proof.Proof.KB_TileRes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## The arrays of call 1 and a tile's place

Call 1 reads the two embedding tables and the index array whole and writes three result arrays. Worker
`wid1 = 2 * subcore + core` owns rows `24 * wid1 … 24 * wid1 + 23` of the index array (row 0 the centre words,
row 1 the positive words, rows 2 … 21 the twenty negative draws, 128 words each), rows
`128 * wid1 … 128 * wid1 + 127` of the first two results and, for each draw `j`, rows
`4096 * j + 128 * wid1 …` of the third. -/

abbrev ixLoc1 (d : Dev nD) : Loc nD τ sig := (SparseCore.T d).loc main_v32
abbrev o0Loc1 (d : Dev nD) : Loc nD τ sig := (SparseCore.T d).loc main_v33_0
abbrev o1Loc1 (d : Dev nD) : Loc nD τ sig := (SparseCore.T d).loc main_v33_1
abbrev o2Loc1 (d : Dev nD) : Loc nD τ sig := (SparseCore.T d).loc main_v33_2

abbrev ixV1 : Memref sig .scVector .hbm S768x128 .i32 := Memref.whole main_v32_scv
abbrev o0V1 : Memref sig .scVector .hbm S4096x128 .f32 := Memref.whole main_v33_0_scv
abbrev o1V1 : Memref sig .scVector .hbm S4096x128 .f32 := Memref.whole main_v33_1_scv
abbrev o2V1 : Memref sig .scVector .hbm S81920x128 .f32 := Memref.whole main_v33_2_scv

/-- A tile's grid coordinates from its core and subcore numbers. -/
def coordsV1 (c : Fin (grid2.bound 0)) (s : Fin (grid2.bound 1)) : grid2.Coords :=
  fun | 0 => c | 1 => s | ⟨_ + 2, h⟩ => absurd h (Nat.not_lt.2 (Nat.le_add_left _ _))

abbrev cV1 (L : grid2.Coords) : Fin τ.nSC := (L 0).castLE hcore2
abbrev jV1 (L : grid2.Coords) : Fin τ.nSub := (L 1).castLE hsub2

theorem bound_zero1 : grid2.bound 0 = 2 := rfl
theorem bound_one1 : grid2.bound 1 = 16 := rfl

/-- The worker number of a tile. -/
def wid1 (L : grid2.Coords) : ℕ := 2 * (L 1).val + (L 0).val

theorem wid_lt1 (L : grid2.Coords) : wid1 L < 32 := by
  have h0 : (L 0).val < 2 := (L 0).isLt
  have h1 : (L 1).val < 16 := (L 1).isLt
  unfold wid1; omega

/-! ## The slices, as the program takes them -/

abbrev ixRect1 (L : grid2.Coords) : Rect S768x128 := Rect.unit (s := S768x128) (k2_off1 L) S24x128.size (k2_off1_inb L)
abbrev ixSl1 (L : grid2.Coords) : Memref sig .scVector .hbm S24x128 .i32 := (ixV1).slice (ixRect1 L) (fun _ => rfl)
abbrev oRect1 (L : grid2.Coords) : Rect S4096x128 := Rect.unit (s := S4096x128) (k2_off7 L) S128x128.size (k2_off7_inb L)
abbrev o0Sl1 (L : grid2.Coords) : Memref sig .scVector .hbm S128x128 .f32 := (o0V1).slice (oRect1 L) (fun _ => rfl)
abbrev o1Sl1 (L : grid2.Coords) : Memref sig .scVector .hbm S128x128 .f32 := (o1V1).slice (oRect1 L) (fun _ => rfl)

/-- Where draw `j`'s block of a tile begins in the third result. -/
def negOff1 (L : grid2.Coords) (j : ℕ) : Fin 2 → ℕ := ![128 * wid1 L + 4096 * j, 0]

theorem negOff_inb1 (L : grid2.Coords) (j : Fin 20) : ∀ a, negOff1 L j.val a + S128x128.size a ≤ S81920x128.size a := by
  have hw := wid_lt1 L; have hj := j.isLt
  intro a
  match a with
  | 0 => show 128 * wid1 L + 4096 * j.val + 128 ≤ 81920; omega
  | 1 => show 0 + 128 ≤ 128; omega

abbrev negRect1 (L : grid2.Coords) (j : Fin 20) : Rect S81920x128 := Rect.unit (s := S81920x128) (negOff1 L j.val) S128x128.size (negOff_inb1 L j)
abbrev negSl1 (L : grid2.Coords) (j : Fin 20) : Memref sig .scVector .hbm S128x128 .f32 := (o2V1).slice (negRect1 L j) (fun _ => rfl)

theorem k2_off1_wid (L : grid2.Coords) : k2_off1 L = ![24 * wid1 L, 0] := by
  rw [k2_off1_eq]; unfold wid1; congr 1; omega

theorem k2_off7_wid (L : grid2.Coords) : k2_off7 L = ![128 * wid1 L, 0] := by
  rw [k2_off7_eq]; unfold wid1; congr 1; omega

theorem k2_off2_wid : ∀ (L : grid2.Coords) (r : Fin 5), k2_off2 L (k2_off2_at r) = ![128 * (2 * (L 1).val + (L 0).val) + (k2_off2_at r).toNat, 0] := by decide +kernel

theorem k2_off6_wid (L : grid2.Coords) (t : Fin k2_t1_loop.trips) (r : Fin 4) :
    k2_off6 L t (BitVec.ofNat 32 (1 + r.val)) = negOff1 L (4 * t.val + r.val + 1) := by
  rw [k2_off6_eq]; unfold negOff1 wid1; congr 1; omega

theorem k2_off4_wid (L : grid2.Coords) (t : Fin k2_t1_loop.trips) (r : Fin 4) :
    k2_off4 L t (BitVec.ofNat 32 (1 + r.val)) = negOff1 L (4 * t.val + r.val) := by
  rw [k2_off4_eq]; unfold negOff1 wid1; congr 1; omega

/-! ## What a tile is handed and what it hands back -/

/-- A tile's read share of a table: one of thirty-two. -/
abbrev tblShare1 (L : grid2.Coords) : PosShare TreeShare := Transfers.shareTok fullShare 32 ⟨wid1 L, wid_lt1 L⟩

variable (d : Dev nD) (T0 : Buf (Elt F) (t0Loc d)) (T1 : Buf (Elt F) (t1Loc d)) (IX : Buf (Elt F) (ixLoc1 d))

/-- What the tile at `L` is handed: a read share of each table, its 24 rows of the index array, and its rows of
    the three results at whatever they hold. -/
def goResL1 (L : grid2.Coords) : sProp 𝕄 :=
  iprop((t0Loc d ↦{tblShare1 L} T0) ∗ (t1Loc d ↦{tblShare1 L} T1)
    ∗ (ixLoc1 d ↦[(ixSl1 L).view.set]{fullShare} IX)
    ∗ (∃ f, o0Loc1 d ↦[(o0Sl1 L).view.set]{fullShare} f)
    ∗ (∃ f, o1Loc1 d ↦[(o1Sl1 L).view.set]{fullShare} f)
    ∗ bigSep Finset.univ fun j : Fin 20 => iprop(∃ f, o2Loc1 d ↦[(negSl1 L j).view.set]{fullShare} f))

/-- What it hands back: the same, its rows of the results at the gathered rows. -/
def tdResL1 (L : grid2.Coords) : sProp 𝕄 :=
  iprop((t0Loc d ↦{tblShare1 L} T0) ∗ (t1Loc d ↦{tblShare1 L} T1)
    ∗ (ixLoc1 d ↦[(ixSl1 L).view.set]{fullShare} IX)
    ∗ (o0Loc1 d ↦[(o0Sl1 L).view.set]{fullShare} gV0 d T0 IX)
    ∗ (o1Loc1 d ↦[(o1Sl1 L).view.set]{fullShare} gV1 d T1 IX)
    ∗ bigSep Finset.univ fun j : Fin 20 => (o2Loc1 d ↦[(negSl1 L j).view.set]{fullShare} gV2 d T1 IX))

theorem nCore_zero1 : (K (F := F)).nCore 1 = grid2.bound 0 := rfl
theorem nSub_zero1 : (K (F := F)).nSub 1 = grid2.bound 1 := rfl

/-- The same by the launch's numbering of a call's tiles. -/
def goRes1 (c : Fin ((K (F := F)).nCore 1)) (i : Fin ((K (F := F)).nSub 1)) : sProp 𝕄 :=
  goResL1 d T0 T1 IX (coordsV1 (Fin.cast nCore_zero1 c) (Fin.cast nSub_zero1 i))
def tdRes1 (c : Fin ((K (F := F)).nCore 1)) (i : Fin ((K (F := F)).nSub 1)) : sProp 𝕄 :=
  tdResL1 d T0 T1 IX (coordsV1 (Fin.cast nCore_zero1 c) (Fin.cast nSub_zero1 i))

set_option synthInstance.maxHeartbeats 1000000 in
instance goResL_storable1 (L : grid2.Coords) : BI.Storable (upEmb : UEmb _ 𝕄) (goResL1 d T0 T1 IX L) := by
  unfold goResL1; infer_instance
set_option synthInstance.maxHeartbeats 1000000 in
instance tdResL_storable1 (L : grid2.Coords) : BI.Storable (upEmb : UEmb _ 𝕄) (tdResL1 d T0 T1 IX L) := by
  unfold tdResL1; infer_instance
instance goRes1_storable (c : Fin ((K (F := F)).nCore 1)) (i : Fin ((K (F := F)).nSub 1)) :
    BI.Storable (upEmb : UEmb _ 𝕄) (goRes1 d T0 T1 IX c i) := by unfold goRes1; infer_instance
instance tdRes1_storable (c : Fin ((K (F := F)).nCore 1)) (i : Fin ((K (F := F)).nSub 1)) :
    BI.Storable (upEmb : UEmb _ 𝕄) (tdRes1 d T0 T1 IX c i) := by unfold tdRes1; infer_instance

/-- Every word of rows 0 … 21 of each tile's slice of the index array names a row of the tables. -/
def IXOK1 : Prop :=
  ∀ (L : grid2.Coords) (x : S24x128.Idx), (x 0).val < 22 → ((ixSl1 L).view.read (Elt F) IX x).toNat < 100000

end Cert.Proof.KB

end
-- ==== Proof.KB_SplitGeo_c1.lean ====
/-
  The geometry of call 1's hand-out: the thirty-two tiles' row blocks of the index array and of the three result
  arrays are pairwise disjoint and cover the arrays; a tile's worker number determines the tile.
-/
import proofs.«215899_g5772436046013_cont_9to1c4b_742_31_alg».proof.Proof.KB_TileRes
import proofs.«215899_g5772436046013_cont_9to1c4b_742_31_alg».proof.Proof.KB_TileRes_c1
import Idealize.ShloMosaic.Lib.StableHlo.Run
import proofs.«215899_g5772436046013_cont_9to1c4b_742_31_alg».proof.Proof.KB_SplitGeo

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## Tiles by their core and subcore numbers -/

/-- The tile's grid coordinates. -/
def tl1 (p : Tl) : grid2.Coords := coordsV1 p.1 p.2

theorem wid_tl1 (p : Tl) : wid1 (tl1 p) = 2 * p.2.val + p.1.val := rfl

/-- The worker number determines the tile: the core number is its parity. -/
theorem wid_tl_inj1 {p p' : Tl} (h : wid1 (tl1 p) = wid1 (tl1 p')) : p = p' := by
  rw [wid_tl1, wid_tl1] at h
  have h1 := p.1.isLt; have h1' := p'.1.isLt
  exact Prod.ext (Fin.ext (by omega)) (Fin.ext (by omega))

theorem wid_tlOf1 (w : ℕ) (hw : w < 32) : wid1 (tl1 (tlOf w hw)) = w := by
  rw [wid_tl1]; show 2 * (w / 2) + w % 2 = w; omega

/-! ## The index array: 24 rows a tile -/

theorem ixSet_eq1 (L : grid2.Coords) : (ixSl1 L).view.set = (ixRect1 L).set := View.set_slice_whole _ _

theorem ixSet_disjoint1 {p p' : Tl} (h : p ≠ p') : Disjoint (ixSl1 (tl1 p)).view.set (ixSl1 (tl1 p')).view.set := by
  rw [ixSet_eq1, ixSet_eq1]
  have hw : wid1 (tl1 p) ≠ wid1 (tl1 p') := fun e => h (wid_tl_inj1 e)
  refine Rect.unit_disjoint (0 : Fin 2) ?_
  rw [k2_off1_wid, k2_off1_wid]
  show 24 * wid1 (tl1 p) + 24 ≤ 24 * wid1 (tl1 p') ∨ 24 * wid1 (tl1 p') + 24 ≤ 24 * wid1 (tl1 p)
  omega

theorem ixSet_cover1 : Finset.biUnion (β := S768x128.Idx) (Finset.univ : Finset Tl) (fun p => (ixSl1 (tl1 p)).view.set) = Finset.univ := by
  refine Finset.eq_univ_iff_forall.mpr fun x => Finset.mem_biUnion.mpr ?_
  have hx : (x 0).val < 768 := (x 0).isLt
  have hx1 : (x 1).val < 128 := (x 1).isLt
  refine ⟨tlOf ((x 0).val / 24) (by omega), Finset.mem_univ _, ?_⟩
  rw [ixSet_eq1, Rect.mem_set_unit, k2_off1_wid, wid_tlOf1]
  refine Fin.forall_fin_two.mpr ⟨?_, ?_⟩
  · show 24 * ((x 0).val / 24) ≤ (x 0).val ∧ (x 0).val < 24 * ((x 0).val / 24) + 24; omega
  · show 0 ≤ (x 1).val ∧ (x 1).val < 0 + 128; omega

/-! ## The first two results: 128 rows a tile -/

theorem o0Set_eq1 (L : grid2.Coords) : (o0Sl1 L).view.set = (oRect1 L).set := View.set_slice_whole _ _
theorem o1Set_eq1 (L : grid2.Coords) : (o1Sl1 L).view.set = (oRect1 L).set := View.set_slice_whole _ _

theorem oRect_disjoint1 {p p' : Tl} (h : p ≠ p') : Disjoint (oRect1 (tl1 p)).set (oRect1 (tl1 p')).set := by
  have hw : wid1 (tl1 p) ≠ wid1 (tl1 p') := fun e => h (wid_tl_inj1 e)
  refine Rect.unit_disjoint (0 : Fin 2) ?_
  rw [k2_off7_wid, k2_off7_wid]
  show 128 * wid1 (tl1 p) + 128 ≤ 128 * wid1 (tl1 p') ∨ 128 * wid1 (tl1 p') + 128 ≤ 128 * wid1 (tl1 p)
  omega

theorem oRect_cover1 : (Finset.univ : Finset Tl).biUnion (fun p => (oRect1 (tl1 p)).set) = Finset.univ := by
  refine Finset.eq_univ_iff_forall.mpr fun x => Finset.mem_biUnion.mpr ?_
  have hx : (x 0).val < 4096 := (x 0).isLt
  have hx1 : (x 1).val < 128 := (x 1).isLt
  refine ⟨tlOf ((x 0).val / 128) (by omega), Finset.mem_univ _, ?_⟩
  rw [Rect.mem_set_unit, k2_off7_wid, wid_tlOf1]
  refine Fin.forall_fin_two.mpr ⟨?_, ?_⟩
  · show 128 * ((x 0).val / 128) ≤ (x 0).val ∧ (x 0).val < 128 * ((x 0).val / 128) + 128; omega
  · show 0 ≤ (x 1).val ∧ (x 1).val < 0 + 128; omega

/-! ## The third result: 128 rows a tile and draw -/

theorem negSet_eq1 (L : grid2.Coords) (j : Fin 20) : (negSl1 L j).view.set = (negRect1 L j).set := View.set_slice_whole _ _

theorem negRect_disjoint1 {a a' : Tl × Fin 20} (h : a ≠ a') : Disjoint (negRect1 (tl1 a.1) a.2).set (negRect1 (tl1 a'.1) a'.2).set := by
  have hw := wid_lt1 (tl1 a.1); have hw' := wid_lt1 (tl1 a'.1)
  have hne : wid1 (tl1 a.1) ≠ wid1 (tl1 a'.1) ∨ a.2.val ≠ a'.2.val := by
    by_contra hc
    rw [not_or, not_not, not_not] at hc
    exact h (Prod.ext (wid_tl_inj1 hc.1) (Fin.ext hc.2))
  refine Rect.unit_disjoint (0 : Fin 2) ?_
  show 128 * wid1 (tl1 a.1) + 4096 * a.2.val + 128 ≤ 128 * wid1 (tl1 a'.1) + 4096 * a'.2.val
    ∨ 128 * wid1 (tl1 a'.1) + 4096 * a'.2.val + 128 ≤ 128 * wid1 (tl1 a.1) + 4096 * a.2.val
  omega

theorem negRect_cover1 : (Finset.univ : Finset (Tl × Fin 20)).biUnion (fun a => (negRect1 (tl1 a.1) a.2).set) = Finset.univ := by
  refine Finset.eq_univ_iff_forall.mpr fun x => Finset.mem_biUnion.mpr ?_
  have hx : (x 0).val < 81920 := (x 0).isLt
  have hx1 : (x 1).val < 128 := (x 1).isLt
  have hw : (x 0).val % 4096 / 128 < 32 := by omega
  refine ⟨(tlOf ((x 0).val % 4096 / 128) hw, ⟨(x 0).val / 4096, by omega⟩), Finset.mem_univ _, ?_⟩
  rw [Rect.mem_set_unit]
  refine Fin.forall_fin_two.mpr ⟨?_, ?_⟩
  · show 128 * wid1 (tl1 (tlOf ((x 0).val % 4096 / 128) hw)) + 4096 * ((x 0).val / 4096) ≤ (x 0).val
      ∧ (x 0).val < 128 * wid1 (tl1 (tlOf ((x 0).val % 4096 / 128) hw)) + 4096 * ((x 0).val / 4096) + 128
    rw [wid_tlOf1]; omega
  · show 0 ≤ (x 1).val ∧ (x 1).val < 0 + 128; omega

end Cert.Proof.KB

end
-- ==== Proof.KB_Split_c1.lean ====
/-
  Call 1's arrays among its thirty-two tiles and back: the six arrays the call concerns, held whole by the
  TensorCore, are the tiles' hand-outs together (a read share of each table a tile, the tile's row blocks of the
  index array and of the three results), and the tiles' returns join to the arrays whole, the results at the
  gathered rows.
-/
import proofs.«215899_g5772436046013_cont_9to1c4b_742_31_alg».proof.Proof.KB_TileRes
import proofs.«215899_g5772436046013_cont_9to1c4b_742_31_alg».proof.Proof.KB_TileRes_c1
import proofs.«215899_g5772436046013_cont_9to1c4b_742_31_alg».proof.Proof.KB_SplitGeo
import proofs.«215899_g5772436046013_cont_9to1c4b_742_31_alg».proof.Proof.KB_SplitGeo_c1
import Idealize.ShloMosaic.Lib.StableHlo.Run
import proofs.«215899_g5772436046013_cont_9to1c4b_742_31_alg».proof.Proof.KB_Split

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

local notation "𝔯" => (Proc.devRef (τ := τ) (sig := sig) Proc.tc)

/-! ## Sums over the tiles -/

/-- The launch's double sum over a call's cores and subcores is the sum over the tiles. -/
theorem bigSep_tiles1 (Φ : grid2.Coords → sProp 𝕄) :
    (bigSep Finset.univ fun c : Fin ((K (F := F)).nCore 1) => bigSep Finset.univ fun i : Fin ((K (F := F)).nSub 1) =>
        Φ (coordsV1 (Fin.cast nCore_zero1 c) (Fin.cast nSub_zero1 i)))
      = bigSep (Finset.univ : Finset Tl) fun p => Φ (tl1 p) := by
  rw [bigSep_univ_prod]
  exact bigSep_congr fun c _ => bigSep_congr fun i _ => congrArg Φ rfl

/-! ## A table's thirty-two read shares -/

/-- A tile's worker number among the thirty-two. -/
def widF1 (p : Tl) : Fin 32 := ⟨wid1 (tl1 p), wid_lt1 (tl1 p)⟩

/-- Every worker number is one tile's. -/
def widEmb1 : Tl ↪ Fin 32 := ⟨widF1, fun _ _ h => wid_tl_inj1 (congrArg Fin.val h)⟩

theorem widEmb_univ1 : (Finset.univ : Finset Tl).map widEmb1 = Finset.univ :=
  Finset.eq_univ_iff_forall.mpr fun w => Finset.mem_map.mpr ⟨tlOf w.val w.isLt, Finset.mem_univ _, Fin.ext (wid_tlOf1 _ _)⟩

/-- An array held whole is the tiles' read shares of it and what remains of the share after thirty-two halvings. -/
theorem tbl_shares1 (ℓ : Loc nD τ sig) (f : Buf (Elt F) ℓ) :
    (ℓ ↦{fullShare} f : sProp 𝕄)
      = iprop((ℓ ↦{Transfers.shareDrop fullShare 32} f) ∗ bigSep (Finset.univ : Finset Tl) fun p => ℓ ↦{tblShare1 (tl1 p)} f) := by
  have e : (bigSep (Finset.univ : Finset Tl) fun p => (ℓ ↦{tblShare1 (tl1 p)} f : sProp 𝕄))
      = bigSep (Finset.univ : Finset (Fin 32)) (fun i => ℓ ↦{Transfers.shareTok fullShare 32 i} f) := by
    rw [← widEmb_univ1, BI.bigSep_map]; rfl
  have h : (ℓ ↦{fullShare} f : sProp 𝕄) ⊣⊢ iprop((ℓ ↦{Transfers.shareDrop fullShare 32} f)
      ∗ bigSep (Finset.univ : Finset (Fin 32)) (fun i => ℓ ↦{Transfers.shareTok fullShare 32 i} f)) := Transfers.pointsTo_toks fullShare 32
  rw [e]; exact BI.equiv_iff.mp ⟨h.1, h.2⟩

/-! ## The index array and the results as the tiles' row blocks -/

variable (d : Dev nD)

theorem ix_blocks1 (IX : Buf (Elt F) (ixLoc1 d)) :
    (ixLoc1 d ↦{fullShare} IX : sProp 𝕄) = bigSep (Finset.univ : Finset Tl) fun p => ixLoc1 d ↦[(ixSl1 (tl1 p)).view.set]{fullShare} IX := by
  rw [← pointsTo_biUnion Finset.univ (ℓ := ixLoc1 d) (fun p : Tl => (ixSl1 (tl1 p)).view.set) (fun p _ p' _ h => ixSet_disjoint1 h), ixSet_cover1]

theorem o0_blocks1 (f : Buf (Elt F) (o0Loc1 d)) :
    (o0Loc1 d ↦{fullShare} f : sProp 𝕄) = bigSep (Finset.univ : Finset Tl) fun p => o0Loc1 d ↦[(o0Sl1 (tl1 p)).view.set]{fullShare} f := by
  rw [← pointsTo_biUnion Finset.univ (ℓ := o0Loc1 d) (fun p : Tl => (o0Sl1 (tl1 p)).view.set)
      (fun p _ p' _ h => by rw [o0Set_eq1, o0Set_eq1]; exact oRect_disjoint1 h),
    show ((Finset.univ : Finset Tl).biUnion fun p => ((o0Sl1 (tl1 p)).view.set : Finset S4096x128.Idx)) = Finset.univ from
      (Finset.biUnion_congr rfl fun p _ => o0Set_eq1 (tl1 p)).trans oRect_cover1]

theorem o1_blocks1 (f : Buf (Elt F) (o1Loc1 d)) :
    (o1Loc1 d ↦{fullShare} f : sProp 𝕄) = bigSep (Finset.univ : Finset Tl) fun p => o1Loc1 d ↦[(o1Sl1 (tl1 p)).view.set]{fullShare} f := by
  rw [← pointsTo_biUnion Finset.univ (ℓ := o1Loc1 d) (fun p : Tl => (o1Sl1 (tl1 p)).view.set)
      (fun p _ p' _ h => by rw [o1Set_eq1, o1Set_eq1]; exact oRect_disjoint1 h),
    show ((Finset.univ : Finset Tl).biUnion fun p => ((o1Sl1 (tl1 p)).view.set : Finset S4096x128.Idx)) = Finset.univ from
      (Finset.biUnion_congr rfl fun p _ => o1Set_eq1 (tl1 p)).trans oRect_cover1]

theorem o2_blocks1 (f : Buf (Elt F) (o2Loc1 d)) :
    (o2Loc1 d ↦{fullShare} f : sProp 𝕄)
      = bigSep (Finset.univ : Finset Tl) fun p => bigSep (Finset.univ : Finset (Fin 20)) fun j => o2Loc1 d ↦[(negSl1 (tl1 p) j).view.set]{fullShare} f := by
  refine Eq.trans ?_ (bigSep_univ_prod (fun a : Tl × Fin 20 => (o2Loc1 d ↦[(negSl1 (tl1 a.1) a.2).view.set]{fullShare} f : sProp 𝕄)))
  rw [← pointsTo_biUnion Finset.univ (ℓ := o2Loc1 d) (fun a : Tl × Fin 20 => (negSl1 (tl1 a.1) a.2).view.set)
      (fun a _ a' _ h => by rw [negSet_eq1, negSet_eq1]; exact negRect_disjoint1 h),
    show ((Finset.univ : Finset (Tl × Fin 20)).biUnion fun a => ((negSl1 (tl1 a.1) a.2).view.set : Finset S81920x128.Idx)) = Finset.univ from
      (Finset.biUnion_congr rfl fun a _ => negSet_eq1 (tl1 a.1) a.2).trans negRect_cover1]

/-! ## The six arrays whole and the tiles' parts -/

variable (T0 : Buf (Elt F) (t0Loc d)) (T1 : Buf (Elt F) (t1Loc d)) (IX : Buf (Elt F) (ixLoc1 d))
variable (f0 : Buf (Elt F) (o0Loc1 d)) (f1 : Buf (Elt F) (o1Loc1 d)) (f2 : Buf (Elt F) (o2Loc1 d))

/-- A tile's part of the six arrays, the three results at given contents. -/
def blkRes1 (L : grid2.Coords) : sProp 𝕄 :=
  iprop((t0Loc d ↦{tblShare1 L} T0) ∗ (t1Loc d ↦{tblShare1 L} T1)
    ∗ (ixLoc1 d ↦[(ixSl1 L).view.set]{fullShare} IX)
    ∗ (o0Loc1 d ↦[(o0Sl1 L).view.set]{fullShare} f0)
    ∗ (o1Loc1 d ↦[(o1Sl1 L).view.set]{fullShare} f1)
    ∗ bigSep Finset.univ fun j : Fin 20 => (o2Loc1 d ↦[(negSl1 L j).view.set]{fullShare} f2))

/-- The six arrays whole are the tiles' parts and the tables' remaining shares. -/
theorem whole_blocks1 :
    (iprop((t0Loc d ↦{fullShare} T0) ∗ (t1Loc d ↦{fullShare} T1) ∗ (ixLoc1 d ↦{fullShare} IX)
        ∗ (o0Loc1 d ↦{fullShare} f0) ∗ (o1Loc1 d ↦{fullShare} f1) ∗ (o2Loc1 d ↦{fullShare} f2)) : sProp 𝕄)
      = iprop(tblRem d T0 T1 ∗ bigSep (Finset.univ : Finset Tl) fun p => blkRes1 d T0 T1 IX f0 f1 f2 (tl1 p)) := by
  unfold blkRes1 tblRem
  rw [bigSep_sep', bigSep_sep', bigSep_sep', bigSep_sep', bigSep_sep',
    tbl_shares1 (t0Loc d) T0, tbl_shares1 (t1Loc d) T1, ix_blocks1 d IX, o0_blocks1 d f0, o1_blocks1 d f1, o2_blocks1 d f2]
  refine BI.equiv_iff.mp ⟨ent_of ?_, ent_of ?_⟩
  · iintro ⟨⟨Hr0, Ha0⟩, ⟨Hr1, Ha1⟩, Hi, Hb, Hc, Hd⟩
    isplitl [Hr0 Hr1]
    · isplitl [Hr0]; · iexact Hr0
      iexact Hr1
    isplitl [Ha0]; · iexact Ha0
    isplitl [Ha1]; · iexact Ha1
    isplitl [Hi]; · iexact Hi
    isplitl [Hb]; · iexact Hb
    isplitl [Hc]; · iexact Hc
    iexact Hd
  · iintro ⟨⟨Hr0, Hr1⟩, Ha0, Ha1, Hi, Hb, Hc, Hd⟩
    isplitl [Hr0 Ha0]
    · isplitl [Hr0]; · iexact Hr0
      iexact Ha0
    isplitl [Hr1 Ha1]
    · isplitl [Hr1]; · iexact Hr1
      iexact Ha1
    isplitl [Hi]; · iexact Hi
    isplitl [Hb]; · iexact Hb
    isplitl [Hc]; · iexact Hc
    iexact Hd

/-- A tile's part with the results at any contents is what the tile is handed. -/
theorem blkRes_go1 (L : grid2.Coords) : blkRes1 d T0 T1 IX f0 f1 f2 L ⊢ goResL1 d T0 T1 IX L := by
  unfold blkRes1 goResL1
  iintro ⟨H0, H1, Hi, Hb, Hc, Hd⟩
  isplitl [H0]; · iexact H0
  isplitl [H1]; · iexact H1
  isplitl [Hi]; · iexact Hi
  isplitl [Hb]; · iexists f0; iexact Hb
  isplitl [Hc]; · iexists f1; iexact Hc
  have hd : (bigSep Finset.univ fun j : Fin 20 => (o2Loc1 d ↦[(negSl1 L j).view.set]{fullShare} f2 : sProp 𝕄))
      ⊢ bigSep Finset.univ fun j : Fin 20 => iprop(∃ f, o2Loc1 d ↦[(negSl1 L j).view.set]{fullShare} f) :=
    bigSep_mono fun j _ => ent_of (by iintro H; iexists f2; iexact H)
  iapply hd; iexact Hd

/-- What a tile hands back is its part with the results at the gathered rows. -/
theorem tdResL_eq1 (L : grid2.Coords) :
    tdResL1 d T0 T1 IX L = blkRes1 d T0 T1 IX (gV0 d T0 IX) (gV1 d T1 IX) (gV2 d T1 IX) L := rfl

/-! ## The call's arrays, held by the TensorCore -/

/-- The six arrays call 1 concerns: the two tables, the index array, the three results. -/
def Cs1 : Finset (DevRef τ sig) := {𝔯 main_arg0, 𝔯 main_arg1, 𝔯 main_v32, 𝔯 main_v33_0, 𝔯 main_v33_1, 𝔯 main_v33_2}

theorem held_Cs1 (W : Valuation τ sig (Elt F)) :
    (StableHlo.held (T d) Cs1 W : sProp 𝕄)
      = iprop((t0Loc d ↦{fullShare} W (𝔯 main_arg0)) ∗ (t1Loc d ↦{fullShare} W (𝔯 main_arg1)) ∗ (ixLoc1 d ↦{fullShare} W (𝔯 main_v32))
        ∗ (o0Loc1 d ↦{fullShare} W (𝔯 main_v33_0)) ∗ (o1Loc1 d ↦{fullShare} W (𝔯 main_v33_1)) ∗ (o2Loc1 d ↦{fullShare} W (𝔯 main_v33_2))) := by
  unfold StableHlo.held Cs1
  rw [bigSep_insert (by decide), bigSep_insert (by decide), bigSep_insert (by decide), bigSep_insert (by decide), bigSep_insert (by decide),
    bigSep_singleton]
  rfl

/-- The hand-out: the call's arrays held whole are every tile's operands and the tables' remaining shares. -/
theorem call1_split (W : Valuation τ sig (Elt F)) :
    (StableHlo.held (T d) Cs1 W : sProp 𝕄) ⊢ iprop(
      (bigSep Finset.univ fun c : Fin ((K (F := F)).nCore 1) => bigSep Finset.univ fun i : Fin ((K (F := F)).nSub 1) =>
        goRes1 d (W (𝔯 main_arg0)) (W (𝔯 main_arg1)) (W (𝔯 main_v32)) c i)
      ∗ tblRem d (W (𝔯 main_arg0)) (W (𝔯 main_arg1))) := by
  rw [held_Cs1, whole_blocks1]
  unfold goRes1
  rw [bigSep_tiles1 (fun L => goResL1 d (W (𝔯 main_arg0)) (W (𝔯 main_arg1)) (W (𝔯 main_v32)) L)]
  iintro ⟨Hr, Hb⟩
  isplitl [Hb]
  · have hb : (bigSep (Finset.univ : Finset Tl) fun p => blkRes1 d (W (𝔯 main_arg0)) (W (𝔯 main_arg1)) (W (𝔯 main_v32))
          (W (𝔯 main_v33_0)) (W (𝔯 main_v33_1)) (W (𝔯 main_v33_2)) (tl1 p))
        ⊢ bigSep (Finset.univ : Finset Tl) fun p => goResL1 d (W (𝔯 main_arg0)) (W (𝔯 main_arg1)) (W (𝔯 main_v32)) (tl1 p) :=
      bigSep_mono fun p _ => blkRes_go1 d _ _ _ _ _ _ (tl1 p)
    iapply hb; iexact Hb
  · iexact Hr

/-- The gathering: every tile's returns and the tables' remaining shares are the call's arrays held whole, the three
    results at the gathered rows. -/
theorem call1_join (W W' : Valuation τ sig (Elt F)) (h0 : W' (𝔯 main_arg0) = W (𝔯 main_arg0)) (h1 : W' (𝔯 main_arg1) = W (𝔯 main_arg1))
    (hix : W' (𝔯 main_v32) = W (𝔯 main_v32))
    (ho0 : W' (𝔯 main_v33_0) = gV0 d (W (𝔯 main_arg0)) (W (𝔯 main_v32)))
    (ho1 : W' (𝔯 main_v33_1) = gV1 d (W (𝔯 main_arg1)) (W (𝔯 main_v32)))
    (ho2 : W' (𝔯 main_v33_2) = gV2 d (W (𝔯 main_arg1)) (W (𝔯 main_v32))) :
    iprop((bigSep Finset.univ fun c : Fin ((K (F := F)).nCore 1) => bigSep Finset.univ fun i : Fin ((K (F := F)).nSub 1) =>
        tdRes1 d (W (𝔯 main_arg0)) (W (𝔯 main_arg1)) (W (𝔯 main_v32)) c i)
      ∗ tblRem d (W (𝔯 main_arg0)) (W (𝔯 main_arg1))) ⊢ (StableHlo.held (T d) Cs1 W' : sProp 𝕄) := by
  rw [held_Cs1, h0, h1, hix, ho0, ho1, ho2, whole_blocks1]
  unfold tdRes1
  rw [bigSep_tiles1 (fun L => tdResL1 d (W (𝔯 main_arg0)) (W (𝔯 main_arg1)) (W (𝔯 main_v32)) L)]
  iintro ⟨Hb, Hr⟩
  isplitl [Hr]; · iexact Hr
  iexact Hb

/-- Both at once, as a call step uses them: the hand-out, and the arrays back whole against the tiles' returns. -/
theorem call1_split_wand (W W' : Valuation τ sig (Elt F)) (h0 : W' (𝔯 main_arg0) = W (𝔯 main_arg0)) (h1 : W' (𝔯 main_arg1) = W (𝔯 main_arg1))
    (hix : W' (𝔯 main_v32) = W (𝔯 main_v32))
    (ho0 : W' (𝔯 main_v33_0) = gV0 d (W (𝔯 main_arg0)) (W (𝔯 main_v32)))
    (ho1 : W' (𝔯 main_v33_1) = gV1 d (W (𝔯 main_arg1)) (W (𝔯 main_v32)))
    (ho2 : W' (𝔯 main_v33_2) = gV2 d (W (𝔯 main_arg1)) (W (𝔯 main_v32))) :
    (StableHlo.held (T d) Cs1 W : sProp 𝕄) ⊢ iprop(
      (bigSep Finset.univ fun c : Fin ((K (F := F)).nCore 1) => bigSep Finset.univ fun i : Fin ((K (F := F)).nSub 1) =>
        goRes1 d (W (𝔯 main_arg0)) (W (𝔯 main_arg1)) (W (𝔯 main_v32)) c i)
      ∗ ((bigSep Finset.univ fun c : Fin ((K (F := F)).nCore 1) => bigSep Finset.univ fun i : Fin ((K (F := F)).nSub 1) =>
          tdRes1 d (W (𝔯 main_arg0)) (W (𝔯 main_arg1)) (W (𝔯 main_v32)) c i) -∗ (StableHlo.held (T d) Cs1 W' : sProp 𝕄))) := by
  refine (call1_split d W).trans ?_
  iintro ⟨Hgo, Hr⟩
  isplitl [Hgo]; · iexact Hgo
  iintro Htd
  iapply (call1_join d W W' h0 h1 hix ho0 ho1 ho2)
  isplitl [Htd]; · iexact Htd
  iexact Hr

end Cert.Proof.KB

end
-- ==== Proof.KB_TileRes_c2.lean ====
/-
  What one vector subcore of call 2 is handed and hands back: the six arrays of the call, the slices of them a
  tile owns (as the program takes them, with their row ranges in closed form), the three results as whole-array
  functions of the tables and the index array, and the resources a tile receives and returns.
-/
import proofs.«215899_g5772436046013_cont_9to1c4b_742_31_alg».proof.Proof.KB_Common
import proofs.«215899_g5772436046013_cont_9to1c4b_742_31_alg».proof.Proof.KB_TileRes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## The arrays of call 2 and a tile's place

Call 2 reads the two embedding tables and the index array whole and writes three result arrays. Worker
`wid2 = 2 * subcore + core` owns rows `24 * wid2 … 24 * wid2 + 23` of the index array (row 0 the centre words,
row 1 the positive words, rows 2 … 21 the twenty negative draws, 128 words each), rows
`128 * wid2 … 128 * wid2 + 127` of the first two results and, for each draw `j`, rows
`4096 * j + 128 * wid2 …` of the third. -/

abbrev ixLoc2 (d : Dev nD) : Loc nD τ sig := (SparseCore.T d).loc main_v38
abbrev o0Loc2 (d : Dev nD) : Loc nD τ sig := (SparseCore.T d).loc main_v39_0
abbrev o1Loc2 (d : Dev nD) : Loc nD τ sig := (SparseCore.T d).loc main_v39_1
abbrev o2Loc2 (d : Dev nD) : Loc nD τ sig := (SparseCore.T d).loc main_v39_2

abbrev ixV2 : Memref sig .scVector .hbm S768x128 .i32 := Memref.whole main_v38_scv
abbrev o0V2 : Memref sig .scVector .hbm S4096x128 .f32 := Memref.whole main_v39_0_scv
abbrev o1V2 : Memref sig .scVector .hbm S4096x128 .f32 := Memref.whole main_v39_1_scv
abbrev o2V2 : Memref sig .scVector .hbm S81920x128 .f32 := Memref.whole main_v39_2_scv

/-- A tile's grid coordinates from its core and subcore numbers. -/
def coordsV2 (c : Fin (grid4.bound 0)) (s : Fin (grid4.bound 1)) : grid4.Coords :=
  fun | 0 => c | 1 => s | ⟨_ + 2, h⟩ => absurd h (Nat.not_lt.2 (Nat.le_add_left _ _))

abbrev cV2 (L : grid4.Coords) : Fin τ.nSC := (L 0).castLE hcore4
abbrev jV2 (L : grid4.Coords) : Fin τ.nSub := (L 1).castLE hsub4

theorem bound_zero2 : grid4.bound 0 = 2 := rfl
theorem bound_one2 : grid4.bound 1 = 16 := rfl

/-- The worker number of a tile. -/
def wid2 (L : grid4.Coords) : ℕ := 2 * (L 1).val + (L 0).val

theorem wid_lt2 (L : grid4.Coords) : wid2 L < 32 := by
  have h0 : (L 0).val < 2 := (L 0).isLt
  have h1 : (L 1).val < 16 := (L 1).isLt
  unfold wid2; omega

/-! ## The slices, as the program takes them -/

abbrev ixRect2 (L : grid4.Coords) : Rect S768x128 := Rect.unit (s := S768x128) (k4_off1 L) S24x128.size (k4_off1_inb L)
abbrev ixSl2 (L : grid4.Coords) : Memref sig .scVector .hbm S24x128 .i32 := (ixV2).slice (ixRect2 L) (fun _ => rfl)
abbrev oRect2 (L : grid4.Coords) : Rect S4096x128 := Rect.unit (s := S4096x128) (k4_off7 L) S128x128.size (k4_off7_inb L)
abbrev o0Sl2 (L : grid4.Coords) : Memref sig .scVector .hbm S128x128 .f32 := (o0V2).slice (oRect2 L) (fun _ => rfl)
abbrev o1Sl2 (L : grid4.Coords) : Memref sig .scVector .hbm S128x128 .f32 := (o1V2).slice (oRect2 L) (fun _ => rfl)

/-- Where draw `j`'s block of a tile begins in the third result. -/
def negOff2 (L : grid4.Coords) (j : ℕ) : Fin 2 → ℕ := ![128 * wid2 L + 4096 * j, 0]

theorem negOff_inb2 (L : grid4.Coords) (j : Fin 20) : ∀ a, negOff2 L j.val a + S128x128.size a ≤ S81920x128.size a := by
  have hw := wid_lt2 L; have hj := j.isLt
  intro a
  match a with
  | 0 => show 128 * wid2 L + 4096 * j.val + 128 ≤ 81920; omega
  | 1 => show 0 + 128 ≤ 128; omega

abbrev negRect2 (L : grid4.Coords) (j : Fin 20) : Rect S81920x128 := Rect.unit (s := S81920x128) (negOff2 L j.val) S128x128.size (negOff_inb2 L j)
abbrev negSl2 (L : grid4.Coords) (j : Fin 20) : Memref sig .scVector .hbm S128x128 .f32 := (o2V2).slice (negRect2 L j) (fun _ => rfl)

theorem k4_off1_wid (L : grid4.Coords) : k4_off1 L = ![24 * wid2 L, 0] := by
  rw [k4_off1_eq]; unfold wid2; congr 1; omega

theorem k4_off7_wid (L : grid4.Coords) : k4_off7 L = ![128 * wid2 L, 0] := by
  rw [k4_off7_eq]; unfold wid2; congr 1; omega

theorem k4_off2_wid : ∀ (L : grid4.Coords) (r : Fin 5), k4_off2 L (k4_off2_at r) = ![128 * (2 * (L 1).val + (L 0).val) + (k4_off2_at r).toNat, 0] := by decide +kernel

theorem k4_off6_wid (L : grid4.Coords) (t : Fin k4_t1_loop.trips) (r : Fin 4) :
    k4_off6 L t (BitVec.ofNat 32 (1 + r.val)) = negOff2 L (4 * t.val + r.val + 1) := by
  rw [k4_off6_eq]; unfold negOff2 wid2; congr 1; omega

theorem k4_off4_wid (L : grid4.Coords) (t : Fin k4_t1_loop.trips) (r : Fin 4) :
    k4_off4 L t (BitVec.ofNat 32 (1 + r.val)) = negOff2 L (4 * t.val + r.val) := by
  rw [k4_off4_eq]; unfold negOff2 wid2; congr 1; omega

/-! ## What a tile is handed and what it hands back -/

/-- A tile's read share of a table: one of thirty-two. -/
abbrev tblShare2 (L : grid4.Coords) : PosShare TreeShare := Transfers.shareTok fullShare 32 ⟨wid2 L, wid_lt2 L⟩

variable (d : Dev nD) (T0 : Buf (Elt F) (t0Loc d)) (T1 : Buf (Elt F) (t1Loc d)) (IX : Buf (Elt F) (ixLoc2 d))

/-- What the tile at `L` is handed: a read share of each table, its 24 rows of the index array, and its rows of
    the three results at whatever they hold. -/
def goResL2 (L : grid4.Coords) : sProp 𝕄 :=
  iprop((t0Loc d ↦{tblShare2 L} T0) ∗ (t1Loc d ↦{tblShare2 L} T1)
    ∗ (ixLoc2 d ↦[(ixSl2 L).view.set]{fullShare} IX)
    ∗ (∃ f, o0Loc2 d ↦[(o0Sl2 L).view.set]{fullShare} f)
    ∗ (∃ f, o1Loc2 d ↦[(o1Sl2 L).view.set]{fullShare} f)
    ∗ bigSep Finset.univ fun j : Fin 20 => iprop(∃ f, o2Loc2 d ↦[(negSl2 L j).view.set]{fullShare} f))

/-- What it hands back: the same, its rows of the results at the gathered rows. -/
def tdResL2 (L : grid4.Coords) : sProp 𝕄 :=
  iprop((t0Loc d ↦{tblShare2 L} T0) ∗ (t1Loc d ↦{tblShare2 L} T1)
    ∗ (ixLoc2 d ↦[(ixSl2 L).view.set]{fullShare} IX)
    ∗ (o0Loc2 d ↦[(o0Sl2 L).view.set]{fullShare} gV0 d T0 IX)
    ∗ (o1Loc2 d ↦[(o1Sl2 L).view.set]{fullShare} gV1 d T1 IX)
    ∗ bigSep Finset.univ fun j : Fin 20 => (o2Loc2 d ↦[(negSl2 L j).view.set]{fullShare} gV2 d T1 IX))

theorem nCore_zero2 : (K (F := F)).nCore 2 = grid4.bound 0 := rfl
theorem nSub_zero2 : (K (F := F)).nSub 2 = grid4.bound 1 := rfl

/-- The same by the launch's numbering of a call's tiles. -/
def goRes2 (c : Fin ((K (F := F)).nCore 2)) (i : Fin ((K (F := F)).nSub 2)) : sProp 𝕄 :=
  goResL2 d T0 T1 IX (coordsV2 (Fin.cast nCore_zero2 c) (Fin.cast nSub_zero2 i))
def tdRes2 (c : Fin ((K (F := F)).nCore 2)) (i : Fin ((K (F := F)).nSub 2)) : sProp 𝕄 :=
  tdResL2 d T0 T1 IX (coordsV2 (Fin.cast nCore_zero2 c) (Fin.cast nSub_zero2 i))

set_option synthInstance.maxHeartbeats 1000000 in
instance goResL_storable2 (L : grid4.Coords) : BI.Storable (upEmb : UEmb _ 𝕄) (goResL2 d T0 T1 IX L) := by
  unfold goResL2; infer_instance
set_option synthInstance.maxHeartbeats 1000000 in
instance tdResL_storable2 (L : grid4.Coords) : BI.Storable (upEmb : UEmb _ 𝕄) (tdResL2 d T0 T1 IX L) := by
  unfold tdResL2; infer_instance
instance goRes2_storable (c : Fin ((K (F := F)).nCore 2)) (i : Fin ((K (F := F)).nSub 2)) :
    BI.Storable (upEmb : UEmb _ 𝕄) (goRes2 d T0 T1 IX c i) := by unfold goRes2; infer_instance
instance tdRes2_storable (c : Fin ((K (F := F)).nCore 2)) (i : Fin ((K (F := F)).nSub 2)) :
    BI.Storable (upEmb : UEmb _ 𝕄) (tdRes2 d T0 T1 IX c i) := by unfold tdRes2; infer_instance

/-- Every word of rows 0 … 21 of each tile's slice of the index array names a row of the tables. -/
def IXOK2 : Prop :=
  ∀ (L : grid4.Coords) (x : S24x128.Idx), (x 0).val < 22 → ((ixSl2 L).view.read (Elt F) IX x).toNat < 100000

end Cert.Proof.KB

end
-- ==== Proof.KB_SplitGeo_c2.lean ====
/-
  The geometry of call 2's hand-out: the thirty-two tiles' row blocks of the index array and of the three result
  arrays are pairwise disjoint and cover the arrays; a tile's worker number determines the tile.
-/
import proofs.«215899_g5772436046013_cont_9to1c4b_742_31_alg».proof.Proof.KB_TileRes
import proofs.«215899_g5772436046013_cont_9to1c4b_742_31_alg».proof.Proof.KB_TileRes_c2
import Idealize.ShloMosaic.Lib.StableHlo.Run
import proofs.«215899_g5772436046013_cont_9to1c4b_742_31_alg».proof.Proof.KB_SplitGeo

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## Tiles by their core and subcore numbers -/

/-- The tile's grid coordinates. -/
def tl2 (p : Tl) : grid4.Coords := coordsV2 p.1 p.2

theorem wid_tl2 (p : Tl) : wid2 (tl2 p) = 2 * p.2.val + p.1.val := rfl

/-- The worker number determines the tile: the core number is its parity. -/
theorem wid_tl_inj2 {p p' : Tl} (h : wid2 (tl2 p) = wid2 (tl2 p')) : p = p' := by
  rw [wid_tl2, wid_tl2] at h
  have h1 := p.1.isLt; have h1' := p'.1.isLt
  exact Prod.ext (Fin.ext (by omega)) (Fin.ext (by omega))

theorem wid_tlOf2 (w : ℕ) (hw : w < 32) : wid2 (tl2 (tlOf w hw)) = w := by
  rw [wid_tl2]; show 2 * (w / 2) + w % 2 = w; omega

/-! ## The index array: 24 rows a tile -/

theorem ixSet_eq2 (L : grid4.Coords) : (ixSl2 L).view.set = (ixRect2 L).set := View.set_slice_whole _ _

theorem ixSet_disjoint2 {p p' : Tl} (h : p ≠ p') : Disjoint (ixSl2 (tl2 p)).view.set (ixSl2 (tl2 p')).view.set := by
  rw [ixSet_eq2, ixSet_eq2]
  have hw : wid2 (tl2 p) ≠ wid2 (tl2 p') := fun e => h (wid_tl_inj2 e)
  refine Rect.unit_disjoint (0 : Fin 2) ?_
  rw [k4_off1_wid, k4_off1_wid]
  show 24 * wid2 (tl2 p) + 24 ≤ 24 * wid2 (tl2 p') ∨ 24 * wid2 (tl2 p') + 24 ≤ 24 * wid2 (tl2 p)
  omega

theorem ixSet_cover2 : Finset.biUnion (β := S768x128.Idx) (Finset.univ : Finset Tl) (fun p => (ixSl2 (tl2 p)).view.set) = Finset.univ := by
  refine Finset.eq_univ_iff_forall.mpr fun x => Finset.mem_biUnion.mpr ?_
  have hx : (x 0).val < 768 := (x 0).isLt
  have hx1 : (x 1).val < 128 := (x 1).isLt
  refine ⟨tlOf ((x 0).val / 24) (by omega), Finset.mem_univ _, ?_⟩
  rw [ixSet_eq2, Rect.mem_set_unit, k4_off1_wid, wid_tlOf2]
  refine Fin.forall_fin_two.mpr ⟨?_, ?_⟩
  · show 24 * ((x 0).val / 24) ≤ (x 0).val ∧ (x 0).val < 24 * ((x 0).val / 24) + 24; omega
  · show 0 ≤ (x 1).val ∧ (x 1).val < 0 + 128; omega

/-! ## The first two results: 128 rows a tile -/

theorem o0Set_eq2 (L : grid4.Coords) : (o0Sl2 L).view.set = (oRect2 L).set := View.set_slice_whole _ _
theorem o1Set_eq2 (L : grid4.Coords) : (o1Sl2 L).view.set = (oRect2 L).set := View.set_slice_whole _ _

theorem oRect_disjoint2 {p p' : Tl} (h : p ≠ p') : Disjoint (oRect2 (tl2 p)).set (oRect2 (tl2 p')).set := by
  have hw : wid2 (tl2 p) ≠ wid2 (tl2 p') := fun e => h (wid_tl_inj2 e)
  refine Rect.unit_disjoint (0 : Fin 2) ?_
  rw [k4_off7_wid, k4_off7_wid]
  show 128 * wid2 (tl2 p) + 128 ≤ 128 * wid2 (tl2 p') ∨ 128 * wid2 (tl2 p') + 128 ≤ 128 * wid2 (tl2 p)
  omega

theorem oRect_cover2 : (Finset.univ : Finset Tl).biUnion (fun p => (oRect2 (tl2 p)).set) = Finset.univ := by
  refine Finset.eq_univ_iff_forall.mpr fun x => Finset.mem_biUnion.mpr ?_
  have hx : (x 0).val < 4096 := (x 0).isLt
  have hx1 : (x 1).val < 128 := (x 1).isLt
  refine ⟨tlOf ((x 0).val / 128) (by omega), Finset.mem_univ _, ?_⟩
  rw [Rect.mem_set_unit, k4_off7_wid, wid_tlOf2]
  refine Fin.forall_fin_two.mpr ⟨?_, ?_⟩
  · show 128 * ((x 0).val / 128) ≤ (x 0).val ∧ (x 0).val < 128 * ((x 0).val / 128) + 128; omega
  · show 0 ≤ (x 1).val ∧ (x 1).val < 0 + 128; omega

/-! ## The third result: 128 rows a tile and draw -/

theorem negSet_eq2 (L : grid4.Coords) (j : Fin 20) : (negSl2 L j).view.set = (negRect2 L j).set := View.set_slice_whole _ _

theorem negRect_disjoint2 {a a' : Tl × Fin 20} (h : a ≠ a') : Disjoint (negRect2 (tl2 a.1) a.2).set (negRect2 (tl2 a'.1) a'.2).set := by
  have hw := wid_lt2 (tl2 a.1); have hw' := wid_lt2 (tl2 a'.1)
  have hne : wid2 (tl2 a.1) ≠ wid2 (tl2 a'.1) ∨ a.2.val ≠ a'.2.val := by
    by_contra hc
    rw [not_or, not_not, not_not] at hc
    exact h (Prod.ext (wid_tl_inj2 hc.1) (Fin.ext hc.2))
  refine Rect.unit_disjoint (0 : Fin 2) ?_
  show 128 * wid2 (tl2 a.1) + 4096 * a.2.val + 128 ≤ 128 * wid2 (tl2 a'.1) + 4096 * a'.2.val
    ∨ 128 * wid2 (tl2 a'.1) + 4096 * a'.2.val + 128 ≤ 128 * wid2 (tl2 a.1) + 4096 * a.2.val
  omega

theorem negRect_cover2 : (Finset.univ : Finset (Tl × Fin 20)).biUnion (fun a => (negRect2 (tl2 a.1) a.2).set) = Finset.univ := by
  refine Finset.eq_univ_iff_forall.mpr fun x => Finset.mem_biUnion.mpr ?_
  have hx : (x 0).val < 81920 := (x 0).isLt
  have hx1 : (x 1).val < 128 := (x 1).isLt
  have hw : (x 0).val % 4096 / 128 < 32 := by omega
  refine ⟨(tlOf ((x 0).val % 4096 / 128) hw, ⟨(x 0).val / 4096, by omega⟩), Finset.mem_univ _, ?_⟩
  rw [Rect.mem_set_unit]
  refine Fin.forall_fin_two.mpr ⟨?_, ?_⟩
  · show 128 * wid2 (tl2 (tlOf ((x 0).val % 4096 / 128) hw)) + 4096 * ((x 0).val / 4096) ≤ (x 0).val
      ∧ (x 0).val < 128 * wid2 (tl2 (tlOf ((x 0).val % 4096 / 128) hw)) + 4096 * ((x 0).val / 4096) + 128
    rw [wid_tlOf2]; omega
  · show 0 ≤ (x 1).val ∧ (x 1).val < 0 + 128; omega

end Cert.Proof.KB

end
-- ==== Proof.KB_Split_c2.lean ====
/-
  Call 2's arrays among its thirty-two tiles and back: the six arrays the call concerns, held whole by the
  TensorCore, are the tiles' hand-outs together (a read share of each table a tile, the tile's row blocks of the
  index array and of the three results), and the tiles' returns join to the arrays whole, the results at the
  gathered rows.
-/
import proofs.«215899_g5772436046013_cont_9to1c4b_742_31_alg».proof.Proof.KB_TileRes
import proofs.«215899_g5772436046013_cont_9to1c4b_742_31_alg».proof.Proof.KB_TileRes_c2
import proofs.«215899_g5772436046013_cont_9to1c4b_742_31_alg».proof.Proof.KB_SplitGeo
import proofs.«215899_g5772436046013_cont_9to1c4b_742_31_alg».proof.Proof.KB_SplitGeo_c2
import Idealize.ShloMosaic.Lib.StableHlo.Run
import proofs.«215899_g5772436046013_cont_9to1c4b_742_31_alg».proof.Proof.KB_Split

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

local notation "𝔯" => (Proc.devRef (τ := τ) (sig := sig) Proc.tc)

/-! ## Sums over the tiles -/

/-- The launch's double sum over a call's cores and subcores is the sum over the tiles. -/
theorem bigSep_tiles2 (Φ : grid4.Coords → sProp 𝕄) :
    (bigSep Finset.univ fun c : Fin ((K (F := F)).nCore 2) => bigSep Finset.univ fun i : Fin ((K (F := F)).nSub 2) =>
        Φ (coordsV2 (Fin.cast nCore_zero2 c) (Fin.cast nSub_zero2 i)))
      = bigSep (Finset.univ : Finset Tl) fun p => Φ (tl2 p) := by
  rw [bigSep_univ_prod]
  exact bigSep_congr fun c _ => bigSep_congr fun i _ => congrArg Φ rfl

/-! ## A table's thirty-two read shares -/

/-- A tile's worker number among the thirty-two. -/
def widF2 (p : Tl) : Fin 32 := ⟨wid2 (tl2 p), wid_lt2 (tl2 p)⟩

/-- Every worker number is one tile's. -/
def widEmb2 : Tl ↪ Fin 32 := ⟨widF2, fun _ _ h => wid_tl_inj2 (congrArg Fin.val h)⟩

theorem widEmb_univ2 : (Finset.univ : Finset Tl).map widEmb2 = Finset.univ :=
  Finset.eq_univ_iff_forall.mpr fun w => Finset.mem_map.mpr ⟨tlOf w.val w.isLt, Finset.mem_univ _, Fin.ext (wid_tlOf2 _ _)⟩

/-- An array held whole is the tiles' read shares of it and what remains of the share after thirty-two halvings. -/
theorem tbl_shares2 (ℓ : Loc nD τ sig) (f : Buf (Elt F) ℓ) :
    (ℓ ↦{fullShare} f : sProp 𝕄)
      = iprop((ℓ ↦{Transfers.shareDrop fullShare 32} f) ∗ bigSep (Finset.univ : Finset Tl) fun p => ℓ ↦{tblShare2 (tl2 p)} f) := by
  have e : (bigSep (Finset.univ : Finset Tl) fun p => (ℓ ↦{tblShare2 (tl2 p)} f : sProp 𝕄))
      = bigSep (Finset.univ : Finset (Fin 32)) (fun i => ℓ ↦{Transfers.shareTok fullShare 32 i} f) := by
    rw [← widEmb_univ2, BI.bigSep_map]; rfl
  have h : (ℓ ↦{fullShare} f : sProp 𝕄) ⊣⊢ iprop((ℓ ↦{Transfers.shareDrop fullShare 32} f)
      ∗ bigSep (Finset.univ : Finset (Fin 32)) (fun i => ℓ ↦{Transfers.shareTok fullShare 32 i} f)) := Transfers.pointsTo_toks fullShare 32
  rw [e]; exact BI.equiv_iff.mp ⟨h.1, h.2⟩

/-! ## The index array and the results as the tiles' row blocks -/

variable (d : Dev nD)

theorem ix_blocks2 (IX : Buf (Elt F) (ixLoc2 d)) :
    (ixLoc2 d ↦{fullShare} IX : sProp 𝕄) = bigSep (Finset.univ : Finset Tl) fun p => ixLoc2 d ↦[(ixSl2 (tl2 p)).view.set]{fullShare} IX := by
  rw [← pointsTo_biUnion Finset.univ (ℓ := ixLoc2 d) (fun p : Tl => (ixSl2 (tl2 p)).view.set) (fun p _ p' _ h => ixSet_disjoint2 h), ixSet_cover2]

theorem o0_blocks2 (f : Buf (Elt F) (o0Loc2 d)) :
    (o0Loc2 d ↦{fullShare} f : sProp 𝕄) = bigSep (Finset.univ : Finset Tl) fun p => o0Loc2 d ↦[(o0Sl2 (tl2 p)).view.set]{fullShare} f := by
  rw [← pointsTo_biUnion Finset.univ (ℓ := o0Loc2 d) (fun p : Tl => (o0Sl2 (tl2 p)).view.set)
      (fun p _ p' _ h => by rw [o0Set_eq2, o0Set_eq2]; exact oRect_disjoint2 h),
    show ((Finset.univ : Finset Tl).biUnion fun p => ((o0Sl2 (tl2 p)).view.set : Finset S4096x128.Idx)) = Finset.univ from
      (Finset.biUnion_congr rfl fun p _ => o0Set_eq2 (tl2 p)).trans oRect_cover2]

theorem o1_blocks2 (f : Buf (Elt F) (o1Loc2 d)) :
    (o1Loc2 d ↦{fullShare} f : sProp 𝕄) = bigSep (Finset.univ : Finset Tl) fun p => o1Loc2 d ↦[(o1Sl2 (tl2 p)).view.set]{fullShare} f := by
  rw [← pointsTo_biUnion Finset.univ (ℓ := o1Loc2 d) (fun p : Tl => (o1Sl2 (tl2 p)).view.set)
      (fun p _ p' _ h => by rw [o1Set_eq2, o1Set_eq2]; exact oRect_disjoint2 h),
    show ((Finset.univ : Finset Tl).biUnion fun p => ((o1Sl2 (tl2 p)).view.set : Finset S4096x128.Idx)) = Finset.univ from
      (Finset.biUnion_congr rfl fun p _ => o1Set_eq2 (tl2 p)).trans oRect_cover2]

theorem o2_blocks2 (f : Buf (Elt F) (o2Loc2 d)) :
    (o2Loc2 d ↦{fullShare} f : sProp 𝕄)
      = bigSep (Finset.univ : Finset Tl) fun p => bigSep (Finset.univ : Finset (Fin 20)) fun j => o2Loc2 d ↦[(negSl2 (tl2 p) j).view.set]{fullShare} f := by
  refine Eq.trans ?_ (bigSep_univ_prod (fun a : Tl × Fin 20 => (o2Loc2 d ↦[(negSl2 (tl2 a.1) a.2).view.set]{fullShare} f : sProp 𝕄)))
  rw [← pointsTo_biUnion Finset.univ (ℓ := o2Loc2 d) (fun a : Tl × Fin 20 => (negSl2 (tl2 a.1) a.2).view.set)
      (fun a _ a' _ h => by rw [negSet_eq2, negSet_eq2]; exact negRect_disjoint2 h),
    show ((Finset.univ : Finset (Tl × Fin 20)).biUnion fun a => ((negSl2 (tl2 a.1) a.2).view.set : Finset S81920x128.Idx)) = Finset.univ from
      (Finset.biUnion_congr rfl fun a _ => negSet_eq2 (tl2 a.1) a.2).trans negRect_cover2]

/-! ## The six arrays whole and the tiles' parts -/

variable (T0 : Buf (Elt F) (t0Loc d)) (T1 : Buf (Elt F) (t1Loc d)) (IX : Buf (Elt F) (ixLoc2 d))
variable (f0 : Buf (Elt F) (o0Loc2 d)) (f1 : Buf (Elt F) (o1Loc2 d)) (f2 : Buf (Elt F) (o2Loc2 d))

/-- A tile's part of the six arrays, the three results at given contents. -/
def blkRes2 (L : grid4.Coords) : sProp 𝕄 :=
  iprop((t0Loc d ↦{tblShare2 L} T0) ∗ (t1Loc d ↦{tblShare2 L} T1)
    ∗ (ixLoc2 d ↦[(ixSl2 L).view.set]{fullShare} IX)
    ∗ (o0Loc2 d ↦[(o0Sl2 L).view.set]{fullShare} f0)
    ∗ (o1Loc2 d ↦[(o1Sl2 L).view.set]{fullShare} f1)
    ∗ bigSep Finset.univ fun j : Fin 20 => (o2Loc2 d ↦[(negSl2 L j).view.set]{fullShare} f2))

/-- The six arrays whole are the tiles' parts and the tables' remaining shares. -/
theorem whole_blocks2 :
    (iprop((t0Loc d ↦{fullShare} T0) ∗ (t1Loc d ↦{fullShare} T1) ∗ (ixLoc2 d ↦{fullShare} IX)
        ∗ (o0Loc2 d ↦{fullShare} f0) ∗ (o1Loc2 d ↦{fullShare} f1) ∗ (o2Loc2 d ↦{fullShare} f2)) : sProp 𝕄)
      = iprop(tblRem d T0 T1 ∗ bigSep (Finset.univ : Finset Tl) fun p => blkRes2 d T0 T1 IX f0 f1 f2 (tl2 p)) := by
  unfold blkRes2 tblRem
  rw [bigSep_sep', bigSep_sep', bigSep_sep', bigSep_sep', bigSep_sep',
    tbl_shares2 (t0Loc d) T0, tbl_shares2 (t1Loc d) T1, ix_blocks2 d IX, o0_blocks2 d f0, o1_blocks2 d f1, o2_blocks2 d f2]
  refine BI.equiv_iff.mp ⟨ent_of ?_, ent_of ?_⟩
  · iintro ⟨⟨Hr0, Ha0⟩, ⟨Hr1, Ha1⟩, Hi, Hb, Hc, Hd⟩
    isplitl [Hr0 Hr1]
    · isplitl [Hr0]; · iexact Hr0
      iexact Hr1
    isplitl [Ha0]; · iexact Ha0
    isplitl [Ha1]; · iexact Ha1
    isplitl [Hi]; · iexact Hi
    isplitl [Hb]; · iexact Hb
    isplitl [Hc]; · iexact Hc
    iexact Hd
  · iintro ⟨⟨Hr0, Hr1⟩, Ha0, Ha1, Hi, Hb, Hc, Hd⟩
    isplitl [Hr0 Ha0]
    · isplitl [Hr0]; · iexact Hr0
      iexact Ha0
    isplitl [Hr1 Ha1]
    · isplitl [Hr1]; · iexact Hr1
      iexact Ha1
    isplitl [Hi]; · iexact Hi
    isplitl [Hb]; · iexact Hb
    isplitl [Hc]; · iexact Hc
    iexact Hd

/-- A tile's part with the results at any contents is what the tile is handed. -/
theorem blkRes_go2 (L : grid4.Coords) : blkRes2 d T0 T1 IX f0 f1 f2 L ⊢ goResL2 d T0 T1 IX L := by
  unfold blkRes2 goResL2
  iintro ⟨H0, H1, Hi, Hb, Hc, Hd⟩
  isplitl [H0]; · iexact H0
  isplitl [H1]; · iexact H1
  isplitl [Hi]; · iexact Hi
  isplitl [Hb]; · iexists f0; iexact Hb
  isplitl [Hc]; · iexists f1; iexact Hc
  have hd : (bigSep Finset.univ fun j : Fin 20 => (o2Loc2 d ↦[(negSl2 L j).view.set]{fullShare} f2 : sProp 𝕄))
      ⊢ bigSep Finset.univ fun j : Fin 20 => iprop(∃ f, o2Loc2 d ↦[(negSl2 L j).view.set]{fullShare} f) :=
    bigSep_mono fun j _ => ent_of (by iintro H; iexists f2; iexact H)
  iapply hd; iexact Hd

/-- What a tile hands back is its part with the results at the gathered rows. -/
theorem tdResL_eq2 (L : grid4.Coords) :
    tdResL2 d T0 T1 IX L = blkRes2 d T0 T1 IX (gV0 d T0 IX) (gV1 d T1 IX) (gV2 d T1 IX) L := rfl

/-! ## The call's arrays, held by the TensorCore -/

/-- The six arrays call 2 concerns: the two tables, the index array, the three results. -/
def Cs2 : Finset (DevRef τ sig) := {𝔯 main_arg0, 𝔯 main_arg1, 𝔯 main_v38, 𝔯 main_v39_0, 𝔯 main_v39_1, 𝔯 main_v39_2}

theorem held_Cs2 (W : Valuation τ sig (Elt F)) :
    (StableHlo.held (T d) Cs2 W : sProp 𝕄)
      = iprop((t0Loc d ↦{fullShare} W (𝔯 main_arg0)) ∗ (t1Loc d ↦{fullShare} W (𝔯 main_arg1)) ∗ (ixLoc2 d ↦{fullShare} W (𝔯 main_v38))
        ∗ (o0Loc2 d ↦{fullShare} W (𝔯 main_v39_0)) ∗ (o1Loc2 d ↦{fullShare} W (𝔯 main_v39_1)) ∗ (o2Loc2 d ↦{fullShare} W (𝔯 main_v39_2))) := by
  unfold StableHlo.held Cs2
  rw [bigSep_insert (by decide), bigSep_insert (by decide), bigSep_insert (by decide), bigSep_insert (by decide), bigSep_insert (by decide),
    bigSep_singleton]
  rfl

/-- The hand-out: the call's arrays held whole are every tile's operands and the tables' remaining shares. -/
theorem call2_split (W : Valuation τ sig (Elt F)) :
    (StableHlo.held (T d) Cs2 W : sProp 𝕄) ⊢ iprop(
      (bigSep Finset.univ fun c : Fin ((K (F := F)).nCore 2) => bigSep Finset.univ fun i : Fin ((K (F := F)).nSub 2) =>
        goRes2 d (W (𝔯 main_arg0)) (W (𝔯 main_arg1)) (W (𝔯 main_v38)) c i)
      ∗ tblRem d (W (𝔯 main_arg0)) (W (𝔯 main_arg1))) := by
  rw [held_Cs2, whole_blocks2]
  unfold goRes2
  rw [bigSep_tiles2 (fun L => goResL2 d (W (𝔯 main_arg0)) (W (𝔯 main_arg1)) (W (𝔯 main_v38)) L)]
  iintro ⟨Hr, Hb⟩
  isplitl [Hb]
  · have hb : (bigSep (Finset.univ : Finset Tl) fun p => blkRes2 d (W (𝔯 main_arg0)) (W (𝔯 main_arg1)) (W (𝔯 main_v38))
          (W (𝔯 main_v39_0)) (W (𝔯 main_v39_1)) (W (𝔯 main_v39_2)) (tl2 p))
        ⊢ bigSep (Finset.univ : Finset Tl) fun p => goResL2 d (W (𝔯 main_arg0)) (W (𝔯 main_arg1)) (W (𝔯 main_v38)) (tl2 p) :=
      bigSep_mono fun p _ => blkRes_go2 d _ _ _ _ _ _ (tl2 p)
    iapply hb; iexact Hb
  · iexact Hr

/-- The gathering: every tile's returns and the tables' remaining shares are the call's arrays held whole, the three
    results at the gathered rows. -/
theorem call2_join (W W' : Valuation τ sig (Elt F)) (h0 : W' (𝔯 main_arg0) = W (𝔯 main_arg0)) (h1 : W' (𝔯 main_arg1) = W (𝔯 main_arg1))
    (hix : W' (𝔯 main_v38) = W (𝔯 main_v38))
    (ho0 : W' (𝔯 main_v39_0) = gV0 d (W (𝔯 main_arg0)) (W (𝔯 main_v38)))
    (ho1 : W' (𝔯 main_v39_1) = gV1 d (W (𝔯 main_arg1)) (W (𝔯 main_v38)))
    (ho2 : W' (𝔯 main_v39_2) = gV2 d (W (𝔯 main_arg1)) (W (𝔯 main_v38))) :
    iprop((bigSep Finset.univ fun c : Fin ((K (F := F)).nCore 2) => bigSep Finset.univ fun i : Fin ((K (F := F)).nSub 2) =>
        tdRes2 d (W (𝔯 main_arg0)) (W (𝔯 main_arg1)) (W (𝔯 main_v38)) c i)
      ∗ tblRem d (W (𝔯 main_arg0)) (W (𝔯 main_arg1))) ⊢ (StableHlo.held (T d) Cs2 W' : sProp 𝕄) := by
  rw [held_Cs2, h0, h1, hix, ho0, ho1, ho2, whole_blocks2]
  unfold tdRes2
  rw [bigSep_tiles2 (fun L => tdResL2 d (W (𝔯 main_arg0)) (W (𝔯 main_arg1)) (W (𝔯 main_v38)) L)]
  iintro ⟨Hb, Hr⟩
  isplitl [Hr]; · iexact Hr
  iexact Hb

/-- Both at once, as a call step uses them: the hand-out, and the arrays back whole against the tiles' returns. -/
theorem call2_split_wand (W W' : Valuation τ sig (Elt F)) (h0 : W' (𝔯 main_arg0) = W (𝔯 main_arg0)) (h1 : W' (𝔯 main_arg1) = W (𝔯 main_arg1))
    (hix : W' (𝔯 main_v38) = W (𝔯 main_v38))
    (ho0 : W' (𝔯 main_v39_0) = gV0 d (W (𝔯 main_arg0)) (W (𝔯 main_v38)))
    (ho1 : W' (𝔯 main_v39_1) = gV1 d (W (𝔯 main_arg1)) (W (𝔯 main_v38)))
    (ho2 : W' (𝔯 main_v39_2) = gV2 d (W (𝔯 main_arg1)) (W (𝔯 main_v38))) :
    (StableHlo.held (T d) Cs2 W : sProp 𝕄) ⊢ iprop(
      (bigSep Finset.univ fun c : Fin ((K (F := F)).nCore 2) => bigSep Finset.univ fun i : Fin ((K (F := F)).nSub 2) =>
        goRes2 d (W (𝔯 main_arg0)) (W (𝔯 main_arg1)) (W (𝔯 main_v38)) c i)
      ∗ ((bigSep Finset.univ fun c : Fin ((K (F := F)).nCore 2) => bigSep Finset.univ fun i : Fin ((K (F := F)).nSub 2) =>
          tdRes2 d (W (𝔯 main_arg0)) (W (𝔯 main_arg1)) (W (𝔯 main_v38)) c i) -∗ (StableHlo.held (T d) Cs2 W' : sProp 𝕄))) := by
  refine (call2_split d W).trans ?_
  iintro ⟨Hgo, Hr⟩
  isplitl [Hgo]; · iexact Hgo
  iintro Htd
  iapply (call2_join d W W' h0 h1 hix ho0 ho1 ho2)
  isplitl [Htd]; · iexact Htd
  iexact Hr

end Cert.Proof.KB

end
-- ==== Proof.KB_TileRes_c3.lean ====
/-
  What one vector subcore of call 3 is handed and hands back: the six arrays of the call, the slices of them a
  tile owns (as the program takes them, with their row ranges in closed form), the three results as whole-array
  functions of the tables and the index array, and the resources a tile receives and returns.
-/
import proofs.«215899_g5772436046013_cont_9to1c4b_742_31_alg».proof.Proof.KB_Common
import proofs.«215899_g5772436046013_cont_9to1c4b_742_31_alg».proof.Proof.KB_TileRes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## The arrays of call 3 and a tile's place

Call 3 reads the two embedding tables and the index array whole and writes three result arrays. Worker
`wid3 = 2 * subcore + core` owns rows `24 * wid3 … 24 * wid3 + 23` of the index array (row 0 the centre words,
row 1 the positive words, rows 2 … 21 the twenty negative draws, 128 words each), rows
`128 * wid3 … 128 * wid3 + 127` of the first two results and, for each draw `j`, rows
`4096 * j + 128 * wid3 …` of the third. -/

abbrev ixLoc3 (d : Dev nD) : Loc nD τ sig := (SparseCore.T d).loc main_v44
abbrev o0Loc3 (d : Dev nD) : Loc nD τ sig := (SparseCore.T d).loc main_v45_0
abbrev o1Loc3 (d : Dev nD) : Loc nD τ sig := (SparseCore.T d).loc main_v45_1
abbrev o2Loc3 (d : Dev nD) : Loc nD τ sig := (SparseCore.T d).loc main_v45_2

abbrev ixV3 : Memref sig .scVector .hbm S768x128 .i32 := Memref.whole main_v44_scv
abbrev o0V3 : Memref sig .scVector .hbm S4096x128 .f32 := Memref.whole main_v45_0_scv
abbrev o1V3 : Memref sig .scVector .hbm S4096x128 .f32 := Memref.whole main_v45_1_scv
abbrev o2V3 : Memref sig .scVector .hbm S81920x128 .f32 := Memref.whole main_v45_2_scv

/-- A tile's grid coordinates from its core and subcore numbers. -/
def coordsV3 (c : Fin (grid6.bound 0)) (s : Fin (grid6.bound 1)) : grid6.Coords :=
  fun | 0 => c | 1 => s | ⟨_ + 2, h⟩ => absurd h (Nat.not_lt.2 (Nat.le_add_left _ _))

abbrev cV3 (L : grid6.Coords) : Fin τ.nSC := (L 0).castLE hcore6
abbrev jV3 (L : grid6.Coords) : Fin τ.nSub := (L 1).castLE hsub6

theorem bound_zero3 : grid6.bound 0 = 2 := rfl
theorem bound_one3 : grid6.bound 1 = 16 := rfl

/-- The worker number of a tile. -/
def wid3 (L : grid6.Coords) : ℕ := 2 * (L 1).val + (L 0).val

theorem wid_lt3 (L : grid6.Coords) : wid3 L < 32 := by
  have h0 : (L 0).val < 2 := (L 0).isLt
  have h1 : (L 1).val < 16 := (L 1).isLt
  unfold wid3; omega

/-! ## The slices, as the program takes them -/

abbrev ixRect3 (L : grid6.Coords) : Rect S768x128 := Rect.unit (s := S768x128) (k6_off1 L) S24x128.size (k6_off1_inb L)
abbrev ixSl3 (L : grid6.Coords) : Memref sig .scVector .hbm S24x128 .i32 := (ixV3).slice (ixRect3 L) (fun _ => rfl)
abbrev oRect3 (L : grid6.Coords) : Rect S4096x128 := Rect.unit (s := S4096x128) (k6_off7 L) S128x128.size (k6_off7_inb L)
abbrev o0Sl3 (L : grid6.Coords) : Memref sig .scVector .hbm S128x128 .f32 := (o0V3).slice (oRect3 L) (fun _ => rfl)
abbrev o1Sl3 (L : grid6.Coords) : Memref sig .scVector .hbm S128x128 .f32 := (o1V3).slice (oRect3 L) (fun _ => rfl)

/-- Where draw `j`'s block of a tile begins in the third result. -/
def negOff3 (L : grid6.Coords) (j : ℕ) : Fin 2 → ℕ := ![128 * wid3 L + 4096 * j, 0]

theorem negOff_inb3 (L : grid6.Coords) (j : Fin 20) : ∀ a, negOff3 L j.val a + S128x128.size a ≤ S81920x128.size a := by
  have hw := wid_lt3 L; have hj := j.isLt
  intro a
  match a with
  | 0 => show 128 * wid3 L + 4096 * j.val + 128 ≤ 81920; omega
  | 1 => show 0 + 128 ≤ 128; omega

abbrev negRect3 (L : grid6.Coords) (j : Fin 20) : Rect S81920x128 := Rect.unit (s := S81920x128) (negOff3 L j.val) S128x128.size (negOff_inb3 L j)
abbrev negSl3 (L : grid6.Coords) (j : Fin 20) : Memref sig .scVector .hbm S128x128 .f32 := (o2V3).slice (negRect3 L j) (fun _ => rfl)

theorem k6_off1_wid (L : grid6.Coords) : k6_off1 L = ![24 * wid3 L, 0] := by
  rw [k6_off1_eq]; unfold wid3; congr 1; omega

theorem k6_off7_wid (L : grid6.Coords) : k6_off7 L = ![128 * wid3 L, 0] := by
  rw [k6_off7_eq]; unfold wid3; congr 1; omega

theorem k6_off2_wid : ∀ (L : grid6.Coords) (r : Fin 5), k6_off2 L (k6_off2_at r) = ![128 * (2 * (L 1).val + (L 0).val) + (k6_off2_at r).toNat, 0] := by decide +kernel

theorem k6_off6_wid (L : grid6.Coords) (t : Fin k6_t1_loop.trips) (r : Fin 4) :
    k6_off6 L t (BitVec.ofNat 32 (1 + r.val)) = negOff3 L (4 * t.val + r.val + 1) := by
  rw [k6_off6_eq]; unfold negOff3 wid3; congr 1; omega

theorem k6_off4_wid (L : grid6.Coords) (t : Fin k6_t1_loop.trips) (r : Fin 4) :
    k6_off4 L t (BitVec.ofNat 32 (1 + r.val)) = negOff3 L (4 * t.val + r.val) := by
  rw [k6_off4_eq]; unfold negOff3 wid3; congr 1; omega

/-! ## What a tile is handed and what it hands back -/

/-- A tile's read share of a table: one of thirty-two. -/
abbrev tblShare3 (L : grid6.Coords) : PosShare TreeShare := Transfers.shareTok fullShare 32 ⟨wid3 L, wid_lt3 L⟩

variable (d : Dev nD) (T0 : Buf (Elt F) (t0Loc d)) (T1 : Buf (Elt F) (t1Loc d)) (IX : Buf (Elt F) (ixLoc3 d))

/-- What the tile at `L` is handed: a read share of each table, its 24 rows of the index array, and its rows of
    the three results at whatever they hold. -/
def goResL3 (L : grid6.Coords) : sProp 𝕄 :=
  iprop((t0Loc d ↦{tblShare3 L} T0) ∗ (t1Loc d ↦{tblShare3 L} T1)
    ∗ (ixLoc3 d ↦[(ixSl3 L).view.set]{fullShare} IX)
    ∗ (∃ f, o0Loc3 d ↦[(o0Sl3 L).view.set]{fullShare} f)
    ∗ (∃ f, o1Loc3 d ↦[(o1Sl3 L).view.set]{fullShare} f)
    ∗ bigSep Finset.univ fun j : Fin 20 => iprop(∃ f, o2Loc3 d ↦[(negSl3 L j).view.set]{fullShare} f))

/-- What it hands back: the same, its rows of the results at the gathered rows. -/
def tdResL3 (L : grid6.Coords) : sProp 𝕄 :=
  iprop((t0Loc d ↦{tblShare3 L} T0) ∗ (t1Loc d ↦{tblShare3 L} T1)
    ∗ (ixLoc3 d ↦[(ixSl3 L).view.set]{fullShare} IX)
    ∗ (o0Loc3 d ↦[(o0Sl3 L).view.set]{fullShare} gV0 d T0 IX)
    ∗ (o1Loc3 d ↦[(o1Sl3 L).view.set]{fullShare} gV1 d T1 IX)
    ∗ bigSep Finset.univ fun j : Fin 20 => (o2Loc3 d ↦[(negSl3 L j).view.set]{fullShare} gV2 d T1 IX))

theorem nCore_zero3 : (K (F := F)).nCore 3 = grid6.bound 0 := rfl
theorem nSub_zero3 : (K (F := F)).nSub 3 = grid6.bound 1 := rfl

/-- The same by the launch's numbering of a call's tiles. -/
def goRes3 (c : Fin ((K (F := F)).nCore 3)) (i : Fin ((K (F := F)).nSub 3)) : sProp 𝕄 :=
  goResL3 d T0 T1 IX (coordsV3 (Fin.cast nCore_zero3 c) (Fin.cast nSub_zero3 i))
def tdRes3 (c : Fin ((K (F := F)).nCore 3)) (i : Fin ((K (F := F)).nSub 3)) : sProp 𝕄 :=
  tdResL3 d T0 T1 IX (coordsV3 (Fin.cast nCore_zero3 c) (Fin.cast nSub_zero3 i))

set_option synthInstance.maxHeartbeats 1000000 in
instance goResL_storable3 (L : grid6.Coords) : BI.Storable (upEmb : UEmb _ 𝕄) (goResL3 d T0 T1 IX L) := by
  unfold goResL3; infer_instance
set_option synthInstance.maxHeartbeats 1000000 in
instance tdResL_storable3 (L : grid6.Coords) : BI.Storable (upEmb : UEmb _ 𝕄) (tdResL3 d T0 T1 IX L) := by
  unfold tdResL3; infer_instance
instance goRes3_storable (c : Fin ((K (F := F)).nCore 3)) (i : Fin ((K (F := F)).nSub 3)) :
    BI.Storable (upEmb : UEmb _ 𝕄) (goRes3 d T0 T1 IX c i) := by unfold goRes3; infer_instance
instance tdRes3_storable (c : Fin ((K (F := F)).nCore 3)) (i : Fin ((K (F := F)).nSub 3)) :
    BI.Storable (upEmb : UEmb _ 𝕄) (tdRes3 d T0 T1 IX c i) := by unfold tdRes3; infer_instance

/-- Every word of rows 0 … 21 of each tile's slice of the index array names a row of the tables. -/
def IXOK3 : Prop :=
  ∀ (L : grid6.Coords) (x : S24x128.Idx), (x 0).val < 22 → ((ixSl3 L).view.read (Elt F) IX x).toNat < 100000

end Cert.Proof.KB

end
-- ==== Proof.KB_SplitGeo_c3.lean ====
/-
  The geometry of call 3's hand-out: the thirty-two tiles' row blocks of the index array and of the three result
  arrays are pairwise disjoint and cover the arrays; a tile's worker number determines the tile.
-/
import proofs.«215899_g5772436046013_cont_9to1c4b_742_31_alg».proof.Proof.KB_TileRes
import proofs.«215899_g5772436046013_cont_9to1c4b_742_31_alg».proof.Proof.KB_TileRes_c3
import Idealize.ShloMosaic.Lib.StableHlo.Run
import proofs.«215899_g5772436046013_cont_9to1c4b_742_31_alg».proof.Proof.KB_SplitGeo

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## Tiles by their core and subcore numbers -/

/-- The tile's grid coordinates. -/
def tl3 (p : Tl) : grid6.Coords := coordsV3 p.1 p.2

theorem wid_tl3 (p : Tl) : wid3 (tl3 p) = 2 * p.2.val + p.1.val := rfl

/-- The worker number determines the tile: the core number is its parity. -/
theorem wid_tl_inj3 {p p' : Tl} (h : wid3 (tl3 p) = wid3 (tl3 p')) : p = p' := by
  rw [wid_tl3, wid_tl3] at h
  have h1 := p.1.isLt; have h1' := p'.1.isLt
  exact Prod.ext (Fin.ext (by omega)) (Fin.ext (by omega))

theorem wid_tlOf3 (w : ℕ) (hw : w < 32) : wid3 (tl3 (tlOf w hw)) = w := by
  rw [wid_tl3]; show 2 * (w / 2) + w % 2 = w; omega

/-! ## The index array: 24 rows a tile -/

theorem ixSet_eq3 (L : grid6.Coords) : (ixSl3 L).view.set = (ixRect3 L).set := View.set_slice_whole _ _

theorem ixSet_disjoint3 {p p' : Tl} (h : p ≠ p') : Disjoint (ixSl3 (tl3 p)).view.set (ixSl3 (tl3 p')).view.set := by
  rw [ixSet_eq3, ixSet_eq3]
  have hw : wid3 (tl3 p) ≠ wid3 (tl3 p') := fun e => h (wid_tl_inj3 e)
  refine Rect.unit_disjoint (0 : Fin 2) ?_
  rw [k6_off1_wid, k6_off1_wid]
  show 24 * wid3 (tl3 p) + 24 ≤ 24 * wid3 (tl3 p') ∨ 24 * wid3 (tl3 p') + 24 ≤ 24 * wid3 (tl3 p)
  omega

theorem ixSet_cover3 : Finset.biUnion (β := S768x128.Idx) (Finset.univ : Finset Tl) (fun p => (ixSl3 (tl3 p)).view.set) = Finset.univ := by
  refine Finset.eq_univ_iff_forall.mpr fun x => Finset.mem_biUnion.mpr ?_
  have hx : (x 0).val < 768 := (x 0).isLt
  have hx1 : (x 1).val < 128 := (x 1).isLt
  refine ⟨tlOf ((x 0).val / 24) (by omega), Finset.mem_univ _, ?_⟩
  rw [ixSet_eq3, Rect.mem_set_unit, k6_off1_wid, wid_tlOf3]
  refine Fin.forall_fin_two.mpr ⟨?_, ?_⟩
  · show 24 * ((x 0).val / 24) ≤ (x 0).val ∧ (x 0).val < 24 * ((x 0).val / 24) + 24; omega
  · show 0 ≤ (x 1).val ∧ (x 1).val < 0 + 128; omega

/-! ## The first two results: 128 rows a tile -/

theorem o0Set_eq3 (L : grid6.Coords) : (o0Sl3 L).view.set = (oRect3 L).set := View.set_slice_whole _ _
theorem o1Set_eq3 (L : grid6.Coords) : (o1Sl3 L).view.set = (oRect3 L).set := View.set_slice_whole _ _

theorem oRect_disjoint3 {p p' : Tl} (h : p ≠ p') : Disjoint (oRect3 (tl3 p)).set (oRect3 (tl3 p')).set := by
  have hw : wid3 (tl3 p) ≠ wid3 (tl3 p') := fun e => h (wid_tl_inj3 e)
  refine Rect.unit_disjoint (0 : Fin 2) ?_
  rw [k6_off7_wid, k6_off7_wid]
  show 128 * wid3 (tl3 p) + 128 ≤ 128 * wid3 (tl3 p') ∨ 128 * wid3 (tl3 p') + 128 ≤ 128 * wid3 (tl3 p)
  omega

theorem oRect_cover3 : (Finset.univ : Finset Tl).biUnion (fun p => (oRect3 (tl3 p)).set) = Finset.univ := by
  refine Finset.eq_univ_iff_forall.mpr fun x => Finset.mem_biUnion.mpr ?_
  have hx : (x 0).val < 4096 := (x 0).isLt
  have hx1 : (x 1).val < 128 := (x 1).isLt
  refine ⟨tlOf ((x 0).val / 128) (by omega), Finset.mem_univ _, ?_⟩
  rw [Rect.mem_set_unit, k6_off7_wid, wid_tlOf3]
  refine Fin.forall_fin_two.mpr ⟨?_, ?_⟩
  · show 128 * ((x 0).val / 128) ≤ (x 0).val ∧ (x 0).val < 128 * ((x 0).val / 128) + 128; omega
  · show 0 ≤ (x 1).val ∧ (x 1).val < 0 + 128; omega

/-! ## The third result: 128 rows a tile and draw -/

theorem negSet_eq3 (L : grid6.Coords) (j : Fin 20) : (negSl3 L j).view.set = (negRect3 L j).set := View.set_slice_whole _ _

theorem negRect_disjoint3 {a a' : Tl × Fin 20} (h : a ≠ a') : Disjoint (negRect3 (tl3 a.1) a.2).set (negRect3 (tl3 a'.1) a'.2).set := by
  have hw := wid_lt3 (tl3 a.1); have hw' := wid_lt3 (tl3 a'.1)
  have hne : wid3 (tl3 a.1) ≠ wid3 (tl3 a'.1) ∨ a.2.val ≠ a'.2.val := by
    by_contra hc
    rw [not_or, not_not, not_not] at hc
    exact h (Prod.ext (wid_tl_inj3 hc.1) (Fin.ext hc.2))
  refine Rect.unit_disjoint (0 : Fin 2) ?_
  show 128 * wid3 (tl3 a.1) + 4096 * a.2.val + 128 ≤ 128 * wid3 (tl3 a'.1) + 4096 * a'.2.val
    ∨ 128 * wid3 (tl3 a'.1) + 4096 * a'.2.val + 128 ≤ 128 * wid3 (tl3 a.1) + 4096 * a.2.val
  omega

theorem negRect_cover3 : (Finset.univ : Finset (Tl × Fin 20)).biUnion (fun a => (negRect3 (tl3 a.1) a.2).set) = Finset.univ := by
  refine Finset.eq_univ_iff_forall.mpr fun x => Finset.mem_biUnion.mpr ?_
  have hx : (x 0).val < 81920 := (x 0).isLt
  have hx1 : (x 1).val < 128 := (x 1).isLt
  have hw : (x 0).val % 4096 / 128 < 32 := by omega
  refine ⟨(tlOf ((x 0).val % 4096 / 128) hw, ⟨(x 0).val / 4096, by omega⟩), Finset.mem_univ _, ?_⟩
  rw [Rect.mem_set_unit]
  refine Fin.forall_fin_two.mpr ⟨?_, ?_⟩
  · show 128 * wid3 (tl3 (tlOf ((x 0).val % 4096 / 128) hw)) + 4096 * ((x 0).val / 4096) ≤ (x 0).val
      ∧ (x 0).val < 128 * wid3 (tl3 (tlOf ((x 0).val % 4096 / 128) hw)) + 4096 * ((x 0).val / 4096) + 128
    rw [wid_tlOf3]; omega
  · show 0 ≤ (x 1).val ∧ (x 1).val < 0 + 128; omega

end Cert.Proof.KB

end
-- ==== Proof.KB_Split_c3.lean ====
/-
  Call 3's arrays among its thirty-two tiles and back: the six arrays the call concerns, held whole by the
  TensorCore, are the tiles' hand-outs together (a read share of each table a tile, the tile's row blocks of the
  index array and of the three results), and the tiles' returns join to the arrays whole, the results at the
  gathered rows.
-/
import proofs.«215899_g5772436046013_cont_9to1c4b_742_31_alg».proof.Proof.KB_TileRes
import proofs.«215899_g5772436046013_cont_9to1c4b_742_31_alg».proof.Proof.KB_TileRes_c3
import proofs.«215899_g5772436046013_cont_9to1c4b_742_31_alg».proof.Proof.KB_SplitGeo
import proofs.«215899_g5772436046013_cont_9to1c4b_742_31_alg».proof.Proof.KB_SplitGeo_c3
import Idealize.ShloMosaic.Lib.StableHlo.Run
import proofs.«215899_g5772436046013_cont_9to1c4b_742_31_alg».proof.Proof.KB_Split

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

local notation "𝔯" => (Proc.devRef (τ := τ) (sig := sig) Proc.tc)

/-! ## Sums over the tiles -/

/-- The launch's double sum over a call's cores and subcores is the sum over the tiles. -/
theorem bigSep_tiles3 (Φ : grid6.Coords → sProp 𝕄) :
    (bigSep Finset.univ fun c : Fin ((K (F := F)).nCore 3) => bigSep Finset.univ fun i : Fin ((K (F := F)).nSub 3) =>
        Φ (coordsV3 (Fin.cast nCore_zero3 c) (Fin.cast nSub_zero3 i)))
      = bigSep (Finset.univ : Finset Tl) fun p => Φ (tl3 p) := by
  rw [bigSep_univ_prod]
  exact bigSep_congr fun c _ => bigSep_congr fun i _ => congrArg Φ rfl

/-! ## A table's thirty-two read shares -/

/-- A tile's worker number among the thirty-two. -/
def widF3 (p : Tl) : Fin 32 := ⟨wid3 (tl3 p), wid_lt3 (tl3 p)⟩

/-- Every worker number is one tile's. -/
def widEmb3 : Tl ↪ Fin 32 := ⟨widF3, fun _ _ h => wid_tl_inj3 (congrArg Fin.val h)⟩

theorem widEmb_univ3 : (Finset.univ : Finset Tl).map widEmb3 = Finset.univ :=
  Finset.eq_univ_iff_forall.mpr fun w => Finset.mem_map.mpr ⟨tlOf w.val w.isLt, Finset.mem_univ _, Fin.ext (wid_tlOf3 _ _)⟩

/-- An array held whole is the tiles' read shares of it and what remains of the share after thirty-two halvings. -/
theorem tbl_shares3 (ℓ : Loc nD τ sig) (f : Buf (Elt F) ℓ) :
    (ℓ ↦{fullShare} f : sProp 𝕄)
      = iprop((ℓ ↦{Transfers.shareDrop fullShare 32} f) ∗ bigSep (Finset.univ : Finset Tl) fun p => ℓ ↦{tblShare3 (tl3 p)} f) := by
  have e : (bigSep (Finset.univ : Finset Tl) fun p => (ℓ ↦{tblShare3 (tl3 p)} f : sProp 𝕄))
      = bigSep (Finset.univ : Finset (Fin 32)) (fun i => ℓ ↦{Transfers.shareTok fullShare 32 i} f) := by
    rw [← widEmb_univ3, BI.bigSep_map]; rfl
  have h : (ℓ ↦{fullShare} f : sProp 𝕄) ⊣⊢ iprop((ℓ ↦{Transfers.shareDrop fullShare 32} f)
      ∗ bigSep (Finset.univ : Finset (Fin 32)) (fun i => ℓ ↦{Transfers.shareTok fullShare 32 i} f)) := Transfers.pointsTo_toks fullShare 32
  rw [e]; exact BI.equiv_iff.mp ⟨h.1, h.2⟩

/-! ## The index array and the results as the tiles' row blocks -/

variable (d : Dev nD)

theorem ix_blocks3 (IX : Buf (Elt F) (ixLoc3 d)) :
    (ixLoc3 d ↦{fullShare} IX : sProp 𝕄) = bigSep (Finset.univ : Finset Tl) fun p => ixLoc3 d ↦[(ixSl3 (tl3 p)).view.set]{fullShare} IX := by
  rw [← pointsTo_biUnion Finset.univ (ℓ := ixLoc3 d) (fun p : Tl => (ixSl3 (tl3 p)).view.set) (fun p _ p' _ h => ixSet_disjoint3 h), ixSet_cover3]

theorem o0_blocks3 (f : Buf (Elt F) (o0Loc3 d)) :
    (o0Loc3 d ↦{fullShare} f : sProp 𝕄) = bigSep (Finset.univ : Finset Tl) fun p => o0Loc3 d ↦[(o0Sl3 (tl3 p)).view.set]{fullShare} f := by
  rw [← pointsTo_biUnion Finset.univ (ℓ := o0Loc3 d) (fun p : Tl => (o0Sl3 (tl3 p)).view.set)
      (fun p _ p' _ h => by rw [o0Set_eq3, o0Set_eq3]; exact oRect_disjoint3 h),
    show ((Finset.univ : Finset Tl).biUnion fun p => ((o0Sl3 (tl3 p)).view.set : Finset S4096x128.Idx)) = Finset.univ from
      (Finset.biUnion_congr rfl fun p _ => o0Set_eq3 (tl3 p)).trans oRect_cover3]

theorem o1_blocks3 (f : Buf (Elt F) (o1Loc3 d)) :
    (o1Loc3 d ↦{fullShare} f : sProp 𝕄) = bigSep (Finset.univ : Finset Tl) fun p => o1Loc3 d ↦[(o1Sl3 (tl3 p)).view.set]{fullShare} f := by
  rw [← pointsTo_biUnion Finset.univ (ℓ := o1Loc3 d) (fun p : Tl => (o1Sl3 (tl3 p)).view.set)
      (fun p _ p' _ h => by rw [o1Set_eq3, o1Set_eq3]; exact oRect_disjoint3 h),
    show ((Finset.univ : Finset Tl).biUnion fun p => ((o1Sl3 (tl3 p)).view.set : Finset S4096x128.Idx)) = Finset.univ from
      (Finset.biUnion_congr rfl fun p _ => o1Set_eq3 (tl3 p)).trans oRect_cover3]

theorem o2_blocks3 (f : Buf (Elt F) (o2Loc3 d)) :
    (o2Loc3 d ↦{fullShare} f : sProp 𝕄)
      = bigSep (Finset.univ : Finset Tl) fun p => bigSep (Finset.univ : Finset (Fin 20)) fun j => o2Loc3 d ↦[(negSl3 (tl3 p) j).view.set]{fullShare} f := by
  refine Eq.trans ?_ (bigSep_univ_prod (fun a : Tl × Fin 20 => (o2Loc3 d ↦[(negSl3 (tl3 a.1) a.2).view.set]{fullShare} f : sProp 𝕄)))
  rw [← pointsTo_biUnion Finset.univ (ℓ := o2Loc3 d) (fun a : Tl × Fin 20 => (negSl3 (tl3 a.1) a.2).view.set)
      (fun a _ a' _ h => by rw [negSet_eq3, negSet_eq3]; exact negRect_disjoint3 h),
    show ((Finset.univ : Finset (Tl × Fin 20)).biUnion fun a => ((negSl3 (tl3 a.1) a.2).view.set : Finset S81920x128.Idx)) = Finset.univ from
      (Finset.biUnion_congr rfl fun a _ => negSet_eq3 (tl3 a.1) a.2).trans negRect_cover3]

/-! ## The six arrays whole and the tiles' parts -/

variable (T0 : Buf (Elt F) (t0Loc d)) (T1 : Buf (Elt F) (t1Loc d)) (IX : Buf (Elt F) (ixLoc3 d))
variable (f0 : Buf (Elt F) (o0Loc3 d)) (f1 : Buf (Elt F) (o1Loc3 d)) (f2 : Buf (Elt F) (o2Loc3 d))

/-- A tile's part of the six arrays, the three results at given contents. -/
def blkRes3 (L : grid6.Coords) : sProp 𝕄 :=
  iprop((t0Loc d ↦{tblShare3 L} T0) ∗ (t1Loc d ↦{tblShare3 L} T1)
    ∗ (ixLoc3 d ↦[(ixSl3 L).view.set]{fullShare} IX)
    ∗ (o0Loc3 d ↦[(o0Sl3 L).view.set]{fullShare} f0)
    ∗ (o1Loc3 d ↦[(o1Sl3 L).view.set]{fullShare} f1)
    ∗ bigSep Finset.univ fun j : Fin 20 => (o2Loc3 d ↦[(negSl3 L j).view.set]{fullShare} f2))

/-- The six arrays whole are the tiles' parts and the tables' remaining shares. -/
theorem whole_blocks3 :
    (iprop((t0Loc d ↦{fullShare} T0) ∗ (t1Loc d ↦{fullShare} T1) ∗ (ixLoc3 d ↦{fullShare} IX)
        ∗ (o0Loc3 d ↦{fullShare} f0) ∗ (o1Loc3 d ↦{fullShare} f1) ∗ (o2Loc3 d ↦{fullShare} f2)) : sProp 𝕄)
      = iprop(tblRem d T0 T1 ∗ bigSep (Finset.univ : Finset Tl) fun p => blkRes3 d T0 T1 IX f0 f1 f2 (tl3 p)) := by
  unfold blkRes3 tblRem
  rw [bigSep_sep', bigSep_sep', bigSep_sep', bigSep_sep', bigSep_sep',
    tbl_shares3 (t0Loc d) T0, tbl_shares3 (t1Loc d) T1, ix_blocks3 d IX, o0_blocks3 d f0, o1_blocks3 d f1, o2_blocks3 d f2]
  refine BI.equiv_iff.mp ⟨ent_of ?_, ent_of ?_⟩
  · iintro ⟨⟨Hr0, Ha0⟩, ⟨Hr1, Ha1⟩, Hi, Hb, Hc, Hd⟩
    isplitl [Hr0 Hr1]
    · isplitl [Hr0]; · iexact Hr0
      iexact Hr1
    isplitl [Ha0]; · iexact Ha0
    isplitl [Ha1]; · iexact Ha1
    isplitl [Hi]; · iexact Hi
    isplitl [Hb]; · iexact Hb
    isplitl [Hc]; · iexact Hc
    iexact Hd
  · iintro ⟨⟨Hr0, Hr1⟩, Ha0, Ha1, Hi, Hb, Hc, Hd⟩
    isplitl [Hr0 Ha0]
    · isplitl [Hr0]; · iexact Hr0
      iexact Ha0
    isplitl [Hr1 Ha1]
    · isplitl [Hr1]; · iexact Hr1
      iexact Ha1
    isplitl [Hi]; · iexact Hi
    isplitl [Hb]; · iexact Hb
    isplitl [Hc]; · iexact Hc
    iexact Hd

/-- A tile's part with the results at any contents is what the tile is handed. -/
theorem blkRes_go3 (L : grid6.Coords) : blkRes3 d T0 T1 IX f0 f1 f2 L ⊢ goResL3 d T0 T1 IX L := by
  unfold blkRes3 goResL3
  iintro ⟨H0, H1, Hi, Hb, Hc, Hd⟩
  isplitl [H0]; · iexact H0
  isplitl [H1]; · iexact H1
  isplitl [Hi]; · iexact Hi
  isplitl [Hb]; · iexists f0; iexact Hb
  isplitl [Hc]; · iexists f1; iexact Hc
  have hd : (bigSep Finset.univ fun j : Fin 20 => (o2Loc3 d ↦[(negSl3 L j).view.set]{fullShare} f2 : sProp 𝕄))
      ⊢ bigSep Finset.univ fun j : Fin 20 => iprop(∃ f, o2Loc3 d ↦[(negSl3 L j).view.set]{fullShare} f) :=
    bigSep_mono fun j _ => ent_of (by iintro H; iexists f2; iexact H)
  iapply hd; iexact Hd

/-- What a tile hands back is its part with the results at the gathered rows. -/
theorem tdResL_eq3 (L : grid6.Coords) :
    tdResL3 d T0 T1 IX L = blkRes3 d T0 T1 IX (gV0 d T0 IX) (gV1 d T1 IX) (gV2 d T1 IX) L := rfl

/-! ## The call's arrays, held by the TensorCore -/

/-- The six arrays call 3 concerns: the two tables, the index array, the three results. -/
def Cs3 : Finset (DevRef τ sig) := {𝔯 main_arg0, 𝔯 main_arg1, 𝔯 main_v44, 𝔯 main_v45_0, 𝔯 main_v45_1, 𝔯 main_v45_2}

theorem held_Cs3 (W : Valuation τ sig (Elt F)) :
    (StableHlo.held (T d) Cs3 W : sProp 𝕄)
      = iprop((t0Loc d ↦{fullShare} W (𝔯 main_arg0)) ∗ (t1Loc d ↦{fullShare} W (𝔯 main_arg1)) ∗ (ixLoc3 d ↦{fullShare} W (𝔯 main_v44))
        ∗ (o0Loc3 d ↦{fullShare} W (𝔯 main_v45_0)) ∗ (o1Loc3 d ↦{fullShare} W (𝔯 main_v45_1)) ∗ (o2Loc3 d ↦{fullShare} W (𝔯 main_v45_2))) := by
  unfold StableHlo.held Cs3
  rw [bigSep_insert (by decide), bigSep_insert (by decide), bigSep_insert (by decide), bigSep_insert (by decide), bigSep_insert (by decide),
    bigSep_singleton]
  rfl

/-- The hand-out: the call's arrays held whole are every tile's operands and the tables' remaining shares. -/
theorem call3_split (W : Valuation τ sig (Elt F)) :
    (StableHlo.held (T d) Cs3 W : sProp 𝕄) ⊢ iprop(
      (bigSep Finset.univ fun c : Fin ((K (F := F)).nCore 3) => bigSep Finset.univ fun i : Fin ((K (F := F)).nSub 3) =>
        goRes3 d (W (𝔯 main_arg0)) (W (𝔯 main_arg1)) (W (𝔯 main_v44)) c i)
      ∗ tblRem d (W (𝔯 main_arg0)) (W (𝔯 main_arg1))) := by
  rw [held_Cs3, whole_blocks3]
  unfold goRes3
  rw [bigSep_tiles3 (fun L => goResL3 d (W (𝔯 main_arg0)) (W (𝔯 main_arg1)) (W (𝔯 main_v44)) L)]
  iintro ⟨Hr, Hb⟩
  isplitl [Hb]
  · have hb : (bigSep (Finset.univ : Finset Tl) fun p => blkRes3 d (W (𝔯 main_arg0)) (W (𝔯 main_arg1)) (W (𝔯 main_v44))
          (W (𝔯 main_v45_0)) (W (𝔯 main_v45_1)) (W (𝔯 main_v45_2)) (tl3 p))
        ⊢ bigSep (Finset.univ : Finset Tl) fun p => goResL3 d (W (𝔯 main_arg0)) (W (𝔯 main_arg1)) (W (𝔯 main_v44)) (tl3 p) :=
      bigSep_mono fun p _ => blkRes_go3 d _ _ _ _ _ _ (tl3 p)
    iapply hb; iexact Hb
  · iexact Hr

/-- The gathering: every tile's returns and the tables' remaining shares are the call's arrays held whole, the three
    results at the gathered rows. -/
theorem call3_join (W W' : Valuation τ sig (Elt F)) (h0 : W' (𝔯 main_arg0) = W (𝔯 main_arg0)) (h1 : W' (𝔯 main_arg1) = W (𝔯 main_arg1))
    (hix : W' (𝔯 main_v44) = W (𝔯 main_v44))
    (ho0 : W' (𝔯 main_v45_0) = gV0 d (W (𝔯 main_arg0)) (W (𝔯 main_v44)))
    (ho1 : W' (𝔯 main_v45_1) = gV1 d (W (𝔯 main_arg1)) (W (𝔯 main_v44)))
    (ho2 : W' (𝔯 main_v45_2) = gV2 d (W (𝔯 main_arg1)) (W (𝔯 main_v44))) :
    iprop((bigSep Finset.univ fun c : Fin ((K (F := F)).nCore 3) => bigSep Finset.univ fun i : Fin ((K (F := F)).nSub 3) =>
        tdRes3 d (W (𝔯 main_arg0)) (W (𝔯 main_arg1)) (W (𝔯 main_v44)) c i)
      ∗ tblRem d (W (𝔯 main_arg0)) (W (𝔯 main_arg1))) ⊢ (StableHlo.held (T d) Cs3 W' : sProp 𝕄) := by
  rw [held_Cs3, h0, h1, hix, ho0, ho1, ho2, whole_blocks3]
  unfold tdRes3
  rw [bigSep_tiles3 (fun L => tdResL3 d (W (𝔯 main_arg0)) (W (𝔯 main_arg1)) (W (𝔯 main_v44)) L)]
  iintro ⟨Hb, Hr⟩
  isplitl [Hr]; · iexact Hr
  iexact Hb

/-- Both at once, as a call step uses them: the hand-out, and the arrays back whole against the tiles' returns. -/
theorem call3_split_wand (W W' : Valuation τ sig (Elt F)) (h0 : W' (𝔯 main_arg0) = W (𝔯 main_arg0)) (h1 : W' (𝔯 main_arg1) = W (𝔯 main_arg1))
    (hix : W' (𝔯 main_v44) = W (𝔯 main_v44))
    (ho0 : W' (𝔯 main_v45_0) = gV0 d (W (𝔯 main_arg0)) (W (𝔯 main_v44)))
    (ho1 : W' (𝔯 main_v45_1) = gV1 d (W (𝔯 main_arg1)) (W (𝔯 main_v44)))
    (ho2 : W' (𝔯 main_v45_2) = gV2 d (W (𝔯 main_arg1)) (W (𝔯 main_v44))) :
    (StableHlo.held (T d) Cs3 W : sProp 𝕄) ⊢ iprop(
      (bigSep Finset.univ fun c : Fin ((K (F := F)).nCore 3) => bigSep Finset.univ fun i : Fin ((K (F := F)).nSub 3) =>
        goRes3 d (W (𝔯 main_arg0)) (W (𝔯 main_arg1)) (W (𝔯 main_v44)) c i)
      ∗ ((bigSep Finset.univ fun c : Fin ((K (F := F)).nCore 3) => bigSep Finset.univ fun i : Fin ((K (F := F)).nSub 3) =>
          tdRes3 d (W (𝔯 main_arg0)) (W (𝔯 main_arg1)) (W (𝔯 main_v44)) c i) -∗ (StableHlo.held (T d) Cs3 W' : sProp 𝕄))) := by
  refine (call3_split d W).trans ?_
  iintro ⟨Hgo, Hr⟩
  isplitl [Hgo]; · iexact Hgo
  iintro Htd
  iapply (call3_join d W W' h0 h1 hix ho0 ho1 ho2)
  isplitl [Htd]; · iexact Htd
  iexact Hr

end Cert.Proof.KB

end
-- ==== Proof.KB_Loss.lean ====
import proofs.«215899_g5772436046013_cont_9to1c4b_742_31_alg».proof.Proof.KB_Common
import Idealize.ShloMosaic.Lib.Pipeline.Frame
import Idealize.ShloMosaic.Lib.Pipeline.FrameBody

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # One grid point of the loss kernel: its value and its run

The kernel body at a grid point reads a `1024 × 128` block `x0` of centre rows, a block `x1` of positive
context rows, the `20 × 1024 × 128` block `x2` of negative context rows and the `2688 × 21` sign matrix `x3`;
it forms the `1024 × 2688` matrix of products `[x0 * x1, x2[0] * x0, …, x2[19] * x0]`, rounds it to bf16,
multiplies by `x3`, applies `z ↦ min z 0 - log (1 + exp (-|z|))` entrywise, sums everything, and adds the sum
to the `1 × 1` accumulator, which it first sets to zero when the grid coordinate is `0`. -/

/-- The accumulator is reset exactly when the grid coordinate is zero (the body's scalar chain). -/
abbrev cond1 (i : grid1.Coords) : Prop :=
  (Scalar.cmpi .ne (Scalar.extui (Scalar.cmpi .eq (BitVec.ofNat 32 (i 0).val) 0#32)) 0#32) = 1#1

/-- Over the grid: at the first point only. -/
theorem hcond1 : ∀ t : Fin cfg1.N, cond1 (grid1.coords t) ↔ t.val % 4 = 0 :=
  (by decide +kernel : ∀ t : Fin grid1.N, cond1 (grid1.coords t) ↔ t.val % 4 = 0)

/-- A whole `1024 × 128` block as the body's load reads it. -/
abbrev lossIn (x : Vec F S1024x128 .f32) : Vec F S1024x128 .f32 :=
  View.ld (Val := Elt F) x (Rect.unit (s := S1024x128) ![0, 0] S1024x128.size inb_S1024x128_S1024x128_0_0)

/-- Row block 0 of the stacked operand: entries `(0, r, l)`. -/
abbrev lossRow0 (x2 : Vec F S20x1024x128 .f32) : Vec F S1x1024x128 .f32 :=
  View.ld (Val := Elt F) x2 (Rect.unit (s := S20x1024x128) ![0, 0, 0] S1x1024x128.size inb_S20x1024x128_S1x1024x128_0_0_0)
/-- Row block 1 of the stacked operand: entries `(1, r, l)`. -/
abbrev lossRow1 (x2 : Vec F S20x1024x128 .f32) : Vec F S1x1024x128 .f32 :=
  View.ld (Val := Elt F) x2 (Rect.unit (s := S20x1024x128) ![1, 0, 0] S1x1024x128.size inb_S20x1024x128_S1x1024x128_1_0_0)
/-- Row block 2 of the stacked operand: entries `(2, r, l)`. -/
abbrev lossRow2 (x2 : Vec F S20x1024x128 .f32) : Vec F S1x1024x128 .f32 :=
  View.ld (Val := Elt F) x2 (Rect.unit (s := S20x1024x128) ![2, 0, 0] S1x1024x128.size inb_S20x1024x128_S1x1024x128_2_0_0)
/-- Row block 3 of the stacked operand: entries `(3, r, l)`. -/
abbrev lossRow3 (x2 : Vec F S20x1024x128 .f32) : Vec F S1x1024x128 .f32 :=
  View.ld (Val := Elt F) x2 (Rect.unit (s := S20x1024x128) ![3, 0, 0] S1x1024x128.size inb_S20x1024x128_S1x1024x128_3_0_0)
/-- Row block 4 of the stacked operand: entries `(4, r, l)`. -/
abbrev lossRow4 (x2 : Vec F S20x1024x128 .f32) : Vec F S1x1024x128 .f32 :=
  View.ld (Val := Elt F) x2 (Rect.unit (s := S20x1024x128) ![4, 0, 0] S1x1024x128.size inb_S20x1024x128_S1x1024x128_4_0_0)
/-- Row block 5 of the stacked operand: entries `(5, r, l)`. -/
abbrev lossRow5 (x2 : Vec F S20x1024x128 .f32) : Vec F S1x1024x128 .f32 :=
  View.ld (Val := Elt F) x2 (Rect.unit (s := S20x1024x128) ![5, 0, 0] S1x1024x128.size inb_S20x1024x128_S1x1024x128_5_0_0)
/-- Row block 6 of the stacked operand: entries `(6, r, l)`. -/
abbrev lossRow6 (x2 : Vec F S20x1024x128 .f32) : Vec F S1x1024x128 .f32 :=
  View.ld (Val := Elt F) x2 (Rect.unit (s := S20x1024x128) ![6, 0, 0] S1x1024x128.size inb_S20x1024x128_S1x1024x128_6_0_0)
/-- Row block 7 of the stacked operand: entries `(7, r, l)`. -/
abbrev lossRow7 (x2 : Vec F S20x1024x128 .f32) : Vec F S1x1024x128 .f32 :=
  View.ld (Val := Elt F) x2 (Rect.unit (s := S20x1024x128) ![7, 0, 0] S1x1024x128.size inb_S20x1024x128_S1x1024x128_7_0_0)
/-- Row block 8 of the stacked operand: entries `(8, r, l)`. -/
abbrev lossRow8 (x2 : Vec F S20x1024x128 .f32) : Vec F S1x1024x128 .f32 :=
  View.ld (Val := Elt F) x2 (Rect.unit (s := S20x1024x128) ![8, 0, 0] S1x1024x128.size inb_S20x1024x128_S1x1024x128_8_0_0)
/-- Row block 9 of the stacked operand: entries `(9, r, l)`. -/
abbrev lossRow9 (x2 : Vec F S20x1024x128 .f32) : Vec F S1x1024x128 .f32 :=
  View.ld (Val := Elt F) x2 (Rect.unit (s := S20x1024x128) ![9, 0, 0] S1x1024x128.size inb_S20x1024x128_S1x1024x128_9_0_0)
/-- Row block 10 of the stacked operand: entries `(10, r, l)`. -/
abbrev lossRow10 (x2 : Vec F S20x1024x128 .f32) : Vec F S1x1024x128 .f32 :=
  View.ld (Val := Elt F) x2 (Rect.unit (s := S20x1024x128) ![10, 0, 0] S1x1024x128.size inb_S20x1024x128_S1x1024x128_10_0_0)
/-- Row block 11 of the stacked operand: entries `(11, r, l)`. -/
abbrev lossRow11 (x2 : Vec F S20x1024x128 .f32) : Vec F S1x1024x128 .f32 :=
  View.ld (Val := Elt F) x2 (Rect.unit (s := S20x1024x128) ![11, 0, 0] S1x1024x128.size inb_S20x1024x128_S1x1024x128_11_0_0)
/-- Row block 12 of the stacked operand: entries `(12, r, l)`. -/
abbrev lossRow12 (x2 : Vec F S20x1024x128 .f32) : Vec F S1x1024x128 .f32 :=
  View.ld (Val := Elt F) x2 (Rect.unit (s := S20x1024x128) ![12, 0, 0] S1x1024x128.size inb_S20x1024x128_S1x1024x128_12_0_0)
/-- Row block 13 of the stacked operand: entries `(13, r, l)`. -/
abbrev lossRow13 (x2 : Vec F S20x1024x128 .f32) : Vec F S1x1024x128 .f32 :=
  View.ld (Val := Elt F) x2 (Rect.unit (s := S20x1024x128) ![13, 0, 0] S1x1024x128.size inb_S20x1024x128_S1x1024x128_13_0_0)
/-- Row block 14 of the stacked operand: entries `(14, r, l)`. -/
abbrev lossRow14 (x2 : Vec F S20x1024x128 .f32) : Vec F S1x1024x128 .f32 :=
  View.ld (Val := Elt F) x2 (Rect.unit (s := S20x1024x128) ![14, 0, 0] S1x1024x128.size inb_S20x1024x128_S1x1024x128_14_0_0)
/-- Row block 15 of the stacked operand: entries `(15, r, l)`. -/
abbrev lossRow15 (x2 : Vec F S20x1024x128 .f32) : Vec F S1x1024x128 .f32 :=
  View.ld (Val := Elt F) x2 (Rect.unit (s := S20x1024x128) ![15, 0, 0] S1x1024x128.size inb_S20x1024x128_S1x1024x128_15_0_0)
/-- Row block 16 of the stacked operand: entries `(16, r, l)`. -/
abbrev lossRow16 (x2 : Vec F S20x1024x128 .f32) : Vec F S1x1024x128 .f32 :=
  View.ld (Val := Elt F) x2 (Rect.unit (s := S20x1024x128) ![16, 0, 0] S1x1024x128.size inb_S20x1024x128_S1x1024x128_16_0_0)
/-- Row block 17 of the stacked operand: entries `(17, r, l)`. -/
abbrev lossRow17 (x2 : Vec F S20x1024x128 .f32) : Vec F S1x1024x128 .f32 :=
  View.ld (Val := Elt F) x2 (Rect.unit (s := S20x1024x128) ![17, 0, 0] S1x1024x128.size inb_S20x1024x128_S1x1024x128_17_0_0)
/-- Row block 18 of the stacked operand: entries `(18, r, l)`. -/
abbrev lossRow18 (x2 : Vec F S20x1024x128 .f32) : Vec F S1x1024x128 .f32 :=
  View.ld (Val := Elt F) x2 (Rect.unit (s := S20x1024x128) ![18, 0, 0] S1x1024x128.size inb_S20x1024x128_S1x1024x128_18_0_0)
/-- Row block 19 of the stacked operand: entries `(19, r, l)`. -/
abbrev lossRow19 (x2 : Vec F S20x1024x128 .f32) : Vec F S1x1024x128 .f32 :=
  View.ld (Val := Elt F) x2 (Rect.unit (s := S20x1024x128) ![19, 0, 0] S1x1024x128.size inb_S20x1024x128_S1x1024x128_19_0_0)

/-- The `1024 × 2688` matrix of products: the positive products first, then the twenty negative ones. -/
def lossZ (x0 x1 : Vec F S1024x128 .f32) (x2 : Vec F S20x1024x128 .f32) : FVec F S1024x2688 .f32 :=
  concatenate S1024x2688 1
    [⟨S1024x128, k1_pay6 (lossIn x0) (lossIn x1)⟩,
      ⟨S1024x128, k1_pay7 (lossIn x0) (lossRow0 x2)⟩,
      ⟨S1024x128, k1_pay8 (lossIn x0) (lossRow1 x2)⟩,
      ⟨S1024x128, k1_pay9 (lossIn x0) (lossRow2 x2)⟩,
      ⟨S1024x128, k1_pay10 (lossIn x0) (lossRow3 x2)⟩,
      ⟨S1024x128, k1_pay11 (lossIn x0) (lossRow4 x2)⟩,
      ⟨S1024x128, k1_pay12 (lossIn x0) (lossRow5 x2)⟩,
      ⟨S1024x128, k1_pay13 (lossIn x0) (lossRow6 x2)⟩,
      ⟨S1024x128, k1_pay14 (lossIn x0) (lossRow7 x2)⟩,
      ⟨S1024x128, k1_pay15 (k1_pay5 (lossIn x0)) (lossRow8 x2)⟩,
      ⟨S1024x128, k1_pay16 (k1_pay5 (lossIn x0)) (lossRow9 x2)⟩,
      ⟨S1024x128, k1_pay17 (k1_pay5 (lossIn x0)) (lossRow10 x2)⟩,
      ⟨S1024x128, k1_pay18 (k1_pay5 (lossIn x0)) (lossRow11 x2)⟩,
      ⟨S1024x128, k1_pay19 (k1_pay5 (lossIn x0)) (lossRow12 x2)⟩,
      ⟨S1024x128, k1_pay20 (k1_pay5 (lossIn x0)) (lossRow13 x2)⟩,
      ⟨S1024x128, k1_pay21 (k1_pay5 (lossIn x0)) (lossRow14 x2)⟩,
      ⟨S1024x128, k1_pay22 (k1_pay5 (lossIn x0)) (lossRow15 x2)⟩,
      ⟨S1024x128, k1_pay23 (k1_pay5 (lossIn x0)) (lossRow16 x2)⟩,
      ⟨S1024x128, k1_pay24 (k1_pay5 (lossIn x0)) (lossRow17 x2)⟩,
      ⟨S1024x128, k1_pay1 (k1_pay5 (lossIn x0)) (lossRow18 x2)⟩,
      ⟨S1024x128, k1_pay2 (k1_pay5 (lossIn x0)) (lossRow19 x2)⟩]
    concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x2688_d1

/-- What the body stores into the accumulator, given what it loaded from it (`acc`): `acc` plus the block's sum. -/
def lossStep (x0 x1 : Vec F S1024x128 .f32) (x2 : Vec F S20x1024x128 .f32) (x3 : Vec F S2688x21 .bf16)
    (acc : Vec F S1x1 .f32) : Vec F S1x1 .f32 :=
  k1_pay4 (lossZ x0 x1 x2)
    (View.ld (Val := Elt F) x3 (Rect.unit (s := S2688x21) ![0, 0] S2688x21.size inb_S2688x21_S2688x21_0_0)) acc

/-- At the first point: over the zero the body has just stored. -/
def lossStepA (x0 x1 : Vec F S1024x128 .f32) (x2 : Vec F S20x1024x128 .f32) (x3 : Vec F S2688x21 .bf16) : Vec F S1x1 .f32 :=
  lossStep x0 x1 x2 x3 (k1_pay3 (F := F))

/-- At a later point: over what the point before left (`prev`). -/
def lossStepB (x0 x1 : Vec F S1024x128 .f32) (x2 : Vec F S20x1024x128 .f32) (x3 : Vec F S2688x21 .bf16)
    (prev : Vec F S1x1 .f32) : Vec F S1x1 .f32 :=
  lossStep x0 x1 x2 x3
    (View.ld (Val := Elt F) prev (Rect.unit (s := S1x1) ![0, 0] S1x1.size inb_S1x1_S1x1_0_0))

/-- A store through the whole `1 × 1` rectangle leaves its payload, whatever was stored before. -/
theorem read_writes_whole11 {κ : Kind} {sp : Space} (v : View sig κ sp S1x1 .f32) (f : v.ty.Contents (Elt F))
    (w : Vec F S1x1 .f32) (L : List (View.Piece (Elt F) S1x1 .f32)) :
    v.read (Elt F) (v.writes (Elt F) f (⟨Rect.unit (s := S1x1) ![0, 0] S1x1.size inb_S1x1_S1x1_0_0, w⟩ :: L)) = w := by
  funext y
  have h := View.read_writes_cons_emb v f (Rect.unit (s := S1x1) ![0, 0] S1x1.size inb_S1x1_S1x1_0_0) w L y
  have e : (Rect.unit (s := S1x1) ![0, 0] S1x1.size inb_S1x1_S1x1_0_0).emb y = y := by
    funext a; apply Fin.ext
    rw [Rect.emb_apply]
    fin_cases a <;> simp
  rw [e] at h; exact h

set_option maxHeartbeats 1000000 in
/-- The body at the first point, on whole staging memrefs holding the blocks: the inputs are left as they were and the
    accumulator holds `lossStepA` of them. -/
theorem loss_run_A (c : Dev nD) (i : grid1.Coords)
    (arg1 : Memref sig .tc .vmem S1024x128 .f32) (harg1 : arg1.IsWhole)
    (arg2 : Memref sig .tc .vmem S1024x128 .f32) (harg2 : arg2.IsWhole)
    (arg3 : Memref sig .tc .vmem S20x1024x128 .f32) (harg3 : arg3.IsWhole)
    (arg4 : Memref sig .tc .vmem S2688x21 .bf16) (harg4 : arg4.IsWhole)
    (arg5 : Memref sig .tc .vmem S1x1 .f32) (harg5 : arg5.IsWhole) (hc0 : cond1 i)
    (x0 x1 : Vec F S1024x128 .f32) (x2 : Vec F S20x1024x128 .f32) (x3 : Vec F S2688x21 .bf16)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (lossStepA x0 x1 x2 x3)) -∗ K ⟨⟩))
      ⊢ wp frame (wpE (defs₀ (F := F)) 𝒱₀ c none) E (cc1__loss_body i arg1 harg1 arg2 harg2 arg3 harg3 arg4 harg4 arg5 harg5) K := by
  simp only [cc1__loss_body_eq_skeleton]; unfold cc1__loss_body_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1
  obtain rfl := harg3.eq_unread hf2; obtain rfl := harg4.eq_unread hf3
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [read_writes_whole11]
  sl_unfold_run_names
  simp only [View.readAt_eq_ld]
  rw [harg1.read_unread, harg2.read_unread, harg3.read_unread, harg4.read_unread, View.readCov_cons_toLoadRect]
  rfl

set_option maxHeartbeats 1000000 in
/-- The body at a later point: the accumulator, found at `prev`, holds `lossStepB` of the blocks and `prev`. -/
theorem loss_run_B (c : Dev nD) (i : grid1.Coords)
    (arg1 : Memref sig .tc .vmem S1024x128 .f32) (harg1 : arg1.IsWhole)
    (arg2 : Memref sig .tc .vmem S1024x128 .f32) (harg2 : arg2.IsWhole)
    (arg3 : Memref sig .tc .vmem S20x1024x128 .f32) (harg3 : arg3.IsWhole)
    (arg4 : Memref sig .tc .vmem S2688x21 .bf16) (harg4 : arg4.IsWhole)
    (arg5 : Memref sig .tc .vmem S1x1 .f32) (harg5 : arg5.IsWhole) (hc0 : ¬cond1 i)
    (x0 x1 : Vec F S1024x128 .f32) (x2 : Vec F S20x1024x128 .f32) (x3 : Vec F S2688x21 .bf16) (prev : Vec F S1x1 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare prev
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (lossStepB x0 x1 x2 x3 prev)) -∗ K ⟨⟩))
      ⊢ wp frame (wpE (defs₀ (F := F)) 𝒱₀ c none) E (cc1__loss_body i arg1 harg1 arg2 harg2 arg3 harg3 arg4 harg4 arg5 harg5) K := by
  simp only [cc1__loss_body_eq_skeleton]; unfold cc1__loss_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1
  obtain rfl := harg3.eq_unread hf2; obtain rfl := harg4.eq_unread hf3
  obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [read_writes_whole11]
  sl_unfold_run_names
  simp only [View.readAt_eq_ld]
  rw [harg1.read_unread, harg2.read_unread, harg3.read_unread, harg4.read_unread, harg5.read_unread]
  rfl

end Cert.Proof.KB

end
-- ==== Proof.KB_LossDat.lean ====
import proofs.«215899_g5772436046013_cont_9to1c4b_742_31_alg».proof.Proof.KB_Loss
import Idealize.ShloMosaic.Lib.Pipeline.Frame
import Idealize.ShloMosaic.Lib.Pipeline.FrameBody

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # The loss kernel over its grid: the accumulator point by point, and the body obligation

Four grid points; at point `t` the body sees block `t` of the centre rows, of the positive rows and of the negative
rows, and the whole sign matrix; the `1 × 1` output is an accumulator, zeroed at point `0` and written back after
point `3`. -/

/-- The five arrays' contents when the region is entered, window by window. -/
abbrev LossArrs (F : FTy → Type) (c : Dev nD) : Type :=
  (w : Fin cfg1.W) → Buf (Elt F) ((cfg1.win w).arr.view.loc (c.tc : Thread nD τ))

/-- The family from its five members. -/
def lossArrs (c : Dev nD)
    (a0 : Buf (Elt F) ((cfg1.win 0).arr.view.loc (c.tc : Thread nD τ)))
    (a1 : Buf (Elt F) ((cfg1.win 1).arr.view.loc (c.tc : Thread nD τ)))
    (a2 : Buf (Elt F) ((cfg1.win 2).arr.view.loc (c.tc : Thread nD τ)))
    (a3 : Buf (Elt F) ((cfg1.win 3).arr.view.loc (c.tc : Thread nD τ)))
    (aOut : Buf (Elt F) ((cfg1.win 4).arr.view.loc (c.tc : Thread nD τ))) : LossArrs F c := fun w =>
  match w with
  | ⟨0, _⟩ => a0
  | ⟨1, _⟩ => a1
  | ⟨2, _⟩ => a2
  | ⟨3, _⟩ => a3
  | ⟨4, _⟩ => aOut

variable (c : Dev nD) (A : LossArrs F c) (O : CellTallies nD τ sig (HIx 4)) (Rc : Set (SemLoc sig × HIx 4))

/-- Window `w`'s block at point `t`, read off its array's entry contents. -/
def lossBlk (w : Fin cfg1.W) (t : Fin cfg1.N) :
    ((cfg1.win w).xblock (cfg1.grid.coords t)).Idx → Elt F (cfg1.win w).elt :=
  ((cfg1.win w).blk t).view.read (Elt F) (A w)

/-- THE ACCUMULATION: what the output's staging buffer holds after the body at point `n`. -/
def lossAcc : (n : ℕ) → n < cfg1.N → Vec F S1x1 .f32
  | 0, hn => lossStepA (lossBlk c A 0 ⟨0, hn⟩) (lossBlk c A 1 ⟨0, hn⟩) (lossBlk c A 2 ⟨0, hn⟩) (lossBlk c A 3 ⟨0, hn⟩)
  | n + 1, hn => lossStepB (lossBlk c A 0 ⟨n + 1, hn⟩) (lossBlk c A 1 ⟨n + 1, hn⟩) (lossBlk c A 2 ⟨n + 1, hn⟩)
      (lossBlk c A 3 ⟨n + 1, hn⟩) (lossAcc n (Nat.lt_of_succ_lt hn))

theorem lossAcc_A (t : Fin cfg1.N) (h0 : t.val % 4 = 0) :
    lossAcc c A t.val t.isLt = lossStepA (lossBlk c A 0 t) (lossBlk c A 1 t) (lossBlk c A 2 t) (lossBlk c A 3 t) := by
  obtain ⟨n, hn⟩ := t
  have hN : n < 4 := lt_of_lt_of_eq hn (show cfg1.N = 4 from N_1)
  cases n with
  | zero => rfl
  | succ n => exfalso; dsimp only at h0; omega

theorem lossAcc_B (t : Fin cfg1.N) (h0 : ¬t.val % 4 = 0) :
    lossAcc c A t.val t.isLt = lossStepB (lossBlk c A 0 t) (lossBlk c A 1 t) (lossBlk c A 2 t) (lossBlk c A 3 t)
      (lossAcc c A (t.val - 1) (Nat.lt_of_le_of_lt (Nat.sub_le _ _) t.isLt)) := by
  obtain ⟨n, hn⟩ := t
  cases n with
  | zero => exact absurd (Nat.zero_mod _) h0
  | succ n => rfl

/-- The pipeline's proof data on core `c`: the arrays at `A`; after the body each input's buffer at its block and the
    output's at `lossAcc`; the invariant the scoped buffers no window stages; full shares; what the core owes
    (`O`) and the bound on its recorded pairs (`Rc`) unchanged by the body. -/
def dat1 : Dat τ (Elt F) (HIx 4) ℕ UU ℕ cfg1 c where
  A := A
  after w t := match w with
    | ⟨0, _⟩ => lossBlk c A 0 t
    | ⟨1, _⟩ => lossBlk c A 1 t
    | ⟨2, _⟩ => lossBlk c A 2 t
    | ⟨3, _⟩ => lossBlk c A 3 t
    | ⟨4, _⟩ => lossAcc c A t.val t.isLt
  Φ _ := Pipeline.scopedRest cfg1.spec c
  q _ := fullShare
  owed _ := O
  recorded _ := Rc

theorem dat1_A (w : Fin cfg1.W) : (dat1 c A O Rc).A w = A w := rfl
theorem after1_0 (t : Fin cfg1.N) : (dat1 c A O Rc).after 0 t = lossBlk c A 0 t := by dsimp only [dat1]
theorem after1_1 (t : Fin cfg1.N) : (dat1 c A O Rc).after 1 t = lossBlk c A 1 t := by dsimp only [dat1]
theorem after1_2 (t : Fin cfg1.N) : (dat1 c A O Rc).after 2 t = lossBlk c A 2 t := by dsimp only [dat1]
theorem after1_3 (t : Fin cfg1.N) : (dat1 c A O Rc).after 3 t = lossBlk c A 3 t := by dsimp only [dat1]
theorem after1_4 (t : Fin cfg1.N) : (dat1 c A O Rc).after 4 t = lossAcc c A t.val t.isLt := by dsimp only [dat1]

/-- Each input's current staging buffer holds its block at every point, fetched there or not. -/
theorem before1_0 (t : Fin cfg1.N) (d) : (dat1 c A O Rc).before 0 t d = lossBlk c A 0 t :=
  ((dat1 c A O Rc).before_in_eq_fetched 0 rfl (fun _ => rfl) (fun _ _ _ => rfl)
    (fun t => by rw [after1_0]; unfold Dat.blockOf lossBlk; rfl) t d).trans (by unfold Dat.fetched Dat.blockOf lossBlk; rfl)
theorem before1_1 (t : Fin cfg1.N) (d) : (dat1 c A O Rc).before 1 t d = lossBlk c A 1 t :=
  ((dat1 c A O Rc).before_in_eq_fetched 1 rfl (fun _ => rfl) (fun _ _ _ => rfl)
    (fun t => by rw [after1_1]; unfold Dat.blockOf lossBlk; rfl) t d).trans (by unfold Dat.fetched Dat.blockOf lossBlk; rfl)
theorem before1_2 (t : Fin cfg1.N) (d) : (dat1 c A O Rc).before 2 t d = lossBlk c A 2 t :=
  ((dat1 c A O Rc).before_in_eq_fetched 2 rfl (fun _ => rfl) (fun _ _ _ => rfl)
    (fun t => by rw [after1_2]; unfold Dat.blockOf lossBlk; rfl) t d).trans (by unfold Dat.fetched Dat.blockOf lossBlk; rfl)
theorem before1_3 (t : Fin cfg1.N) (d) : (dat1 c A O Rc).before 3 t d = lossBlk c A 3 t :=
  ((dat1 c A O Rc).before_in_eq_fetched 3 rfl (fun _ => rfl) (fun _ _ _ => rfl)
    (fun t => by rw [after1_3]; unfold Dat.blockOf lossBlk; rfl) t d).trans (by unfold Dat.fetched Dat.blockOf lossBlk; rfl)

/-- After the first point the output's staging buffer holds what the body left at the point before: it is not written
    back between. -/
theorem before1_4 (t : Fin cfg1.N) (h0 : ¬t.val % 4 = 0) (d) :
    (dat1 c A O Rc).before 4 t d = lossAcc c A (t.val - 1) (Nat.lt_of_le_of_lt (Nat.sub_le _ _) t.isLt) := by
  have hN : t.val < 4 := lt_of_lt_of_eq t.isLt (show cfg1.N = 4 from N_1)
  rw [Dat.before_out_kept _ 4 rfl t (by omega)
    (Bool.eq_false_iff.mpr fun h => by have := (flush1_4 _).mp h; dsimp only at this; omega)
    (fun _ => rfl) (fun _ _ => rfl)]
  dsimp only [dat1]

/-! ## The body obligation, at a generic point -/

/-- What the body is called with at point `t`, the windows one by one, -/
def bodyPre1 (t : Fin cfg1.N) : sProp 𝕄 :=
  iprop((dat1 c A O Rc).Φ t.castSucc ∗ (dat1 c A O Rc).owesAt none t.castSucc
    ∗ (∃ d, owns (c : Thread nD τ) (win1_0.stage (cfg1.slots t 0)) fullShare ((dat1 c A O Rc).before 0 t d))
    ∗ (∃ d, owns (c : Thread nD τ) (win1_1.stage (cfg1.slots t 1)) fullShare ((dat1 c A O Rc).before 1 t d))
    ∗ (∃ d, owns (c : Thread nD τ) (win1_2.stage (cfg1.slots t 2)) fullShare ((dat1 c A O Rc).before 2 t d))
    ∗ (∃ d, owns (c : Thread nD τ) (win1_3.stage (cfg1.slots t 3)) fullShare ((dat1 c A O Rc).before 3 t d))
    ∗ (∃ d, owns (c : Thread nD τ) (win1_4.stage (cfg1.slots t 4)) fullShare ((dat1 c A O Rc).before 4 t d)))

/-- and what it returns. -/
def bodyPost1 (t : Fin cfg1.N) : sProp 𝕄 :=
  iprop((dat1 c A O Rc).Φ t.succ ∗ (dat1 c A O Rc).owesAt none t.succ
    ∗ owns (c : Thread nD τ) (win1_0.stage (cfg1.slots t 0)) fullShare ((dat1 c A O Rc).after 0 t)
    ∗ owns (c : Thread nD τ) (win1_1.stage (cfg1.slots t 1)) fullShare ((dat1 c A O Rc).after 1 t)
    ∗ owns (c : Thread nD τ) (win1_2.stage (cfg1.slots t 2)) fullShare ((dat1 c A O Rc).after 2 t)
    ∗ owns (c : Thread nD τ) (win1_3.stage (cfg1.slots t 3)) fullShare ((dat1 c A O Rc).after 3 t)
    ∗ owns (c : Thread nD τ) (win1_4.stage (cfg1.slots t 4)) fullShare ((dat1 c A O Rc).after 4 t))

set_option maxHeartbeats 800000 in
/-- The body at any point: the inputs' buffers hold their blocks; at point `0` the accumulator is reset, at a later
    point it holds what the point before left; the invariant and what the core owes pass through untouched. -/
theorem sound_body1 (t : Fin cfg1.N) :
    bodyPre1 c A O Rc t ⊢ wp frame (wpE (defs₀ (F := F)) 𝒱₀ c none) Set.univ (bodyAt1 t) (fun _ => bodyPost1 c A O Rc t) := by
  unfold bodyPre1 bodyPost1 bodyAt1
  simp only [before1_0, before1_1, before1_2, before1_3]
  rw [show (dat1 c A O Rc).Φ t.succ = (dat1 c A O Rc).Φ t.castSucc from rfl,
    show (dat1 c A O Rc).owesAt none t.succ = (dat1 c A O Rc).owesAt none t.castSucc from rfl,
    after1_0, after1_1, after1_2, after1_3, after1_4]
  by_cases h0 : t.val % 4 = 0
  · rw [lossAcc_A c A t h0]
    iintro ⟨HΦ, Ho, ⟨%d0, H0⟩, ⟨%d1, H1⟩, ⟨%d2, H2⟩, ⟨%d3, H3⟩, ⟨%d4, H4⟩⟩
    iapply (loss_run_A c (grid1.coords t) _ _ _ _ _ _ _ _ _ _ ((hcond1 t).mpr h0)
      (lossBlk c A 0 t) (lossBlk c A 1 t) (lossBlk c A 2 t) (lossBlk c A 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [lossAcc_B c A t h0]
    simp only [before1_4 c A O Rc t h0]
    iintro ⟨HΦ, Ho, ⟨%d0, H0⟩, ⟨%d1, H1⟩, ⟨%d2, H2⟩, ⟨%d3, H3⟩, ⟨%d4, H4⟩⟩
    iapply (loss_run_B c (grid1.coords t) _ _ _ _ _ _ _ _ _ _ (fun h => h0 ((hcond1 t).mp h))
      (lossBlk c A 0 t) (lossBlk c A 1 t) (lossBlk c A 2 t) (lossBlk c A 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation, at every point. -/
theorem body_obligation1 : BodyObligation (dat1 c A O Rc) (defs₀ (F := F)) 𝒱₀ (none : HIx 4) Set.univ := fun t => by
  rw [bigSep_W1, bigSep_W1]
  exact sound_body1 c A O Rc t

/-- In the form the region rule takes. -/
theorem body_obligation1_loose : BodyObligationLoose (dat1 c A O Rc) (defs₀ (F := F)) 𝒱₀ (none : HIx 4) Set.univ :=
  (body_obligation1 c A O Rc).loose

/-! ## The arrays when the region is left -/

theorem share1 (w : Fin cfg1.W) : (dat1 c A O Rc).share w = fullShare := (dat1 c A O Rc).share_full (fun _ => rfl) w

/-- The inputs are as they were. -/
theorem arrAt1_0 (n : ℕ) : (dat1 c A O Rc).arrAt 0 n = A 0 := (dat1 c A O Rc).arrAt_in 0 rfl n
theorem arrAt1_1 (n : ℕ) : (dat1 c A O Rc).arrAt 1 n = A 1 := (dat1 c A O Rc).arrAt_in 1 rfl n
theorem arrAt1_2 (n : ℕ) : (dat1 c A O Rc).arrAt 2 n = A 2 := (dat1 c A O Rc).arrAt_in 2 rfl n
theorem arrAt1_3 (n : ℕ) : (dat1 c A O Rc).arrAt 3 n = A 3 := (dat1 c A O Rc).arrAt_in 3 rfl n

/-- The output array is untouched until the last point's write-back, -/
theorem arrAt1_4_lt : ∀ n, n ≤ 3 → (dat1 c A O Rc).arrAt 4 n = A 4
  | 0, _ => rfl
  | n + 1, h => by
    have hn : n < cfg1.N := by rw [show cfg1.N = 4 from N_1]; omega
    rw [show n + 1 = (⟨n, hn⟩ : Fin cfg1.N).val + 1 from rfl, Dat.arrAt_succ,
      if_neg (fun hf => by have := (flush1_4 _).mp hf; dsimp only at this; omega)]
    exact arrAt1_4_lt n (by omega)

/-- THE RESULT: the output array when the region is left, its one block overwritten by the accumulator after the last
    point. -/
def lossOut : Buf (Elt F) ((cfg1.win 4).arr.view.loc (c.tc : Thread nD τ)) :=
  ((cfg1.win 4).blk t1_3).view.write (Elt F) (A 4) (lossAcc c A 3 (by rw [show cfg1.N = 4 from N_1]; decide)) Finset.univ

theorem arrAt1_4 : (dat1 c A O Rc).arrAt 4 cfg1.N = lossOut c A := by
  show (dat1 c A O Rc).arrAt 4 ((t1_3 : Fin cfg1.N).val + 1) = _
  rw [Dat.arrAt_succ, if_pos ((flush1_4 _).mpr rfl), arrAt1_4_lt c A O Rc (t1_3 : Fin cfg1.N).val (le_refl 3)]
  rfl

/-- Read back through its block, the result is the accumulator after the last point. -/
theorem read_lossOut :
    ((cfg1.win 4).blk t1_3).view.read (Elt F) (lossOut c A)
      = lossAcc c A 3 (by rw [show cfg1.N = 4 from N_1]; decide) :=
  View.read_write_univ _ _

end Cert.Proof.KB

end
-- ==== Proof.KB_Loss3.lean ====
import proofs.«215899_g5772436046013_cont_9to1c4b_742_31_alg».proof.Proof.KB_Common
import Idealize.ShloMosaic.Lib.Pipeline.Frame
import Idealize.ShloMosaic.Lib.Pipeline.FrameBody

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # One grid point of the loss3 kernel: its value and its run

The kernel body at a grid point reads a `1024 × 128` block `x0` of centre rows, a block `x1` of positive
context rows, the `20 × 1024 × 128` block `x2` of negative context rows and the `2688 × 21` sign matrix `x3`;
it forms the `1024 × 2688` matrix of products `[x0 * x1, x2[0] * x0, …, x2[19] * x0]`, rounds it to bf16,
multiplies by `x3`, applies `z ↦ min z 0 - log (1 + exp (-|z|))` entrywise, sums everything, and adds the sum
to the `1 × 1` accumulator, which it first sets to zero when the grid coordinate is `0`. -/

/-- The accumulator is reset exactly when the grid coordinate is zero (the body's scalar chain). -/
abbrev cond3 (i : grid3.Coords) : Prop :=
  (Scalar.cmpi .ne (Scalar.extui (Scalar.cmpi .eq (BitVec.ofNat 32 (i 0).val) 0#32)) 0#32) = 1#1

/-- Over the grid: at the first point only. -/
theorem hcond3 : ∀ t : Fin cfg3.N, cond3 (grid3.coords t) ↔ t.val % 4 = 0 :=
  (by decide +kernel : ∀ t : Fin grid3.N, cond3 (grid3.coords t) ↔ t.val % 4 = 0)

/-- A whole `1024 × 128` block as the body's load reads it. -/
abbrev loss3In (x : Vec F S1024x128 .f32) : Vec F S1024x128 .f32 :=
  View.ld (Val := Elt F) x (Rect.unit (s := S1024x128) ![0, 0] S1024x128.size inb_S1024x128_S1024x128_0_0)

/-- Row block 0 of the stacked operand: entries `(0, r, l)`. -/
abbrev loss3Row0 (x2 : Vec F S20x1024x128 .f32) : Vec F S1x1024x128 .f32 :=
  View.ld (Val := Elt F) x2 (Rect.unit (s := S20x1024x128) ![0, 0, 0] S1x1024x128.size inb_S20x1024x128_S1x1024x128_0_0_0)
/-- Row block 1 of the stacked operand: entries `(1, r, l)`. -/
abbrev loss3Row1 (x2 : Vec F S20x1024x128 .f32) : Vec F S1x1024x128 .f32 :=
  View.ld (Val := Elt F) x2 (Rect.unit (s := S20x1024x128) ![1, 0, 0] S1x1024x128.size inb_S20x1024x128_S1x1024x128_1_0_0)
/-- Row block 2 of the stacked operand: entries `(2, r, l)`. -/
abbrev loss3Row2 (x2 : Vec F S20x1024x128 .f32) : Vec F S1x1024x128 .f32 :=
  View.ld (Val := Elt F) x2 (Rect.unit (s := S20x1024x128) ![2, 0, 0] S1x1024x128.size inb_S20x1024x128_S1x1024x128_2_0_0)
/-- Row block 3 of the stacked operand: entries `(3, r, l)`. -/
abbrev loss3Row3 (x2 : Vec F S20x1024x128 .f32) : Vec F S1x1024x128 .f32 :=
  View.ld (Val := Elt F) x2 (Rect.unit (s := S20x1024x128) ![3, 0, 0] S1x1024x128.size inb_S20x1024x128_S1x1024x128_3_0_0)
/-- Row block 4 of the stacked operand: entries `(4, r, l)`. -/
abbrev loss3Row4 (x2 : Vec F S20x1024x128 .f32) : Vec F S1x1024x128 .f32 :=
  View.ld (Val := Elt F) x2 (Rect.unit (s := S20x1024x128) ![4, 0, 0] S1x1024x128.size inb_S20x1024x128_S1x1024x128_4_0_0)
/-- Row block 5 of the stacked operand: entries `(5, r, l)`. -/
abbrev loss3Row5 (x2 : Vec F S20x1024x128 .f32) : Vec F S1x1024x128 .f32 :=
  View.ld (Val := Elt F) x2 (Rect.unit (s := S20x1024x128) ![5, 0, 0] S1x1024x128.size inb_S20x1024x128_S1x1024x128_5_0_0)
/-- Row block 6 of the stacked operand: entries `(6, r, l)`. -/
abbrev loss3Row6 (x2 : Vec F S20x1024x128 .f32) : Vec F S1x1024x128 .f32 :=
  View.ld (Val := Elt F) x2 (Rect.unit (s := S20x1024x128) ![6, 0, 0] S1x1024x128.size inb_S20x1024x128_S1x1024x128_6_0_0)
/-- Row block 7 of the stacked operand: entries `(7, r, l)`. -/
abbrev loss3Row7 (x2 : Vec F S20x1024x128 .f32) : Vec F S1x1024x128 .f32 :=
  View.ld (Val := Elt F) x2 (Rect.unit (s := S20x1024x128) ![7, 0, 0] S1x1024x128.size inb_S20x1024x128_S1x1024x128_7_0_0)
/-- Row block 8 of the stacked operand: entries `(8, r, l)`. -/
abbrev loss3Row8 (x2 : Vec F S20x1024x128 .f32) : Vec F S1x1024x128 .f32 :=
  View.ld (Val := Elt F) x2 (Rect.unit (s := S20x1024x128) ![8, 0, 0] S1x1024x128.size inb_S20x1024x128_S1x1024x128_8_0_0)
/-- Row block 9 of the stacked operand: entries `(9, r, l)`. -/
abbrev loss3Row9 (x2 : Vec F S20x1024x128 .f32) : Vec F S1x1024x128 .f32 :=
  View.ld (Val := Elt F) x2 (Rect.unit (s := S20x1024x128) ![9, 0, 0] S1x1024x128.size inb_S20x1024x128_S1x1024x128_9_0_0)
/-- Row block 10 of the stacked operand: entries `(10, r, l)`. -/
abbrev loss3Row10 (x2 : Vec F S20x1024x128 .f32) : Vec F S1x1024x128 .f32 :=
  View.ld (Val := Elt F) x2 (Rect.unit (s := S20x1024x128) ![10, 0, 0] S1x1024x128.size inb_S20x1024x128_S1x1024x128_10_0_0)
/-- Row block 11 of the stacked operand: entries `(11, r, l)`. -/
abbrev loss3Row11 (x2 : Vec F S20x1024x128 .f32) : Vec F S1x1024x128 .f32 :=
  View.ld (Val := Elt F) x2 (Rect.unit (s := S20x1024x128) ![11, 0, 0] S1x1024x128.size inb_S20x1024x128_S1x1024x128_11_0_0)
/-- Row block 12 of the stacked operand: entries `(12, r, l)`. -/
abbrev loss3Row12 (x2 : Vec F S20x1024x128 .f32) : Vec F S1x1024x128 .f32 :=
  View.ld (Val := Elt F) x2 (Rect.unit (s := S20x1024x128) ![12, 0, 0] S1x1024x128.size inb_S20x1024x128_S1x1024x128_12_0_0)
/-- Row block 13 of the stacked operand: entries `(13, r, l)`. -/
abbrev loss3Row13 (x2 : Vec F S20x1024x128 .f32) : Vec F S1x1024x128 .f32 :=
  View.ld (Val := Elt F) x2 (Rect.unit (s := S20x1024x128) ![13, 0, 0] S1x1024x128.size inb_S20x1024x128_S1x1024x128_13_0_0)
/-- Row block 14 of the stacked operand: entries `(14, r, l)`. -/
abbrev loss3Row14 (x2 : Vec F S20x1024x128 .f32) : Vec F S1x1024x128 .f32 :=
  View.ld (Val := Elt F) x2 (Rect.unit (s := S20x1024x128) ![14, 0, 0] S1x1024x128.size inb_S20x1024x128_S1x1024x128_14_0_0)
/-- Row block 15 of the stacked operand: entries `(15, r, l)`. -/
abbrev loss3Row15 (x2 : Vec F S20x1024x128 .f32) : Vec F S1x1024x128 .f32 :=
  View.ld (Val := Elt F) x2 (Rect.unit (s := S20x1024x128) ![15, 0, 0] S1x1024x128.size inb_S20x1024x128_S1x1024x128_15_0_0)
/-- Row block 16 of the stacked operand: entries `(16, r, l)`. -/
abbrev loss3Row16 (x2 : Vec F S20x1024x128 .f32) : Vec F S1x1024x128 .f32 :=
  View.ld (Val := Elt F) x2 (Rect.unit (s := S20x1024x128) ![16, 0, 0] S1x1024x128.size inb_S20x1024x128_S1x1024x128_16_0_0)
/-- Row block 17 of the stacked operand: entries `(17, r, l)`. -/
abbrev loss3Row17 (x2 : Vec F S20x1024x128 .f32) : Vec F S1x1024x128 .f32 :=
  View.ld (Val := Elt F) x2 (Rect.unit (s := S20x1024x128) ![17, 0, 0] S1x1024x128.size inb_S20x1024x128_S1x1024x128_17_0_0)
/-- Row block 18 of the stacked operand: entries `(18, r, l)`. -/
abbrev loss3Row18 (x2 : Vec F S20x1024x128 .f32) : Vec F S1x1024x128 .f32 :=
  View.ld (Val := Elt F) x2 (Rect.unit (s := S20x1024x128) ![18, 0, 0] S1x1024x128.size inb_S20x1024x128_S1x1024x128_18_0_0)
/-- Row block 19 of the stacked operand: entries `(19, r, l)`. -/
abbrev loss3Row19 (x2 : Vec F S20x1024x128 .f32) : Vec F S1x1024x128 .f32 :=
  View.ld (Val := Elt F) x2 (Rect.unit (s := S20x1024x128) ![19, 0, 0] S1x1024x128.size inb_S20x1024x128_S1x1024x128_19_0_0)

/-- The `1024 × 2688` matrix of products: the positive products first, then the twenty negative ones. -/
def loss3Z (x0 x1 : Vec F S1024x128 .f32) (x2 : Vec F S20x1024x128 .f32) : FVec F S1024x2688 .f32 :=
  concatenate S1024x2688 1
    [⟨S1024x128, k3_pay6 (loss3In x0) (loss3In x1)⟩,
      ⟨S1024x128, k3_pay7 (loss3In x0) (loss3Row0 x2)⟩,
      ⟨S1024x128, k3_pay8 (loss3In x0) (loss3Row1 x2)⟩,
      ⟨S1024x128, k3_pay9 (loss3In x0) (loss3Row2 x2)⟩,
      ⟨S1024x128, k3_pay10 (loss3In x0) (loss3Row3 x2)⟩,
      ⟨S1024x128, k3_pay11 (loss3In x0) (loss3Row4 x2)⟩,
      ⟨S1024x128, k3_pay12 (loss3In x0) (loss3Row5 x2)⟩,
      ⟨S1024x128, k3_pay13 (loss3In x0) (loss3Row6 x2)⟩,
      ⟨S1024x128, k3_pay14 (loss3In x0) (loss3Row7 x2)⟩,
      ⟨S1024x128, k3_pay15 (k3_pay5 (loss3In x0)) (loss3Row8 x2)⟩,
      ⟨S1024x128, k3_pay16 (k3_pay5 (loss3In x0)) (loss3Row9 x2)⟩,
      ⟨S1024x128, k3_pay17 (k3_pay5 (loss3In x0)) (loss3Row10 x2)⟩,
      ⟨S1024x128, k3_pay18 (k3_pay5 (loss3In x0)) (loss3Row11 x2)⟩,
      ⟨S1024x128, k3_pay19 (k3_pay5 (loss3In x0)) (loss3Row12 x2)⟩,
      ⟨S1024x128, k3_pay20 (k3_pay5 (loss3In x0)) (loss3Row13 x2)⟩,
      ⟨S1024x128, k3_pay21 (k3_pay5 (loss3In x0)) (loss3Row14 x2)⟩,
      ⟨S1024x128, k3_pay22 (k3_pay5 (loss3In x0)) (loss3Row15 x2)⟩,
      ⟨S1024x128, k3_pay23 (k3_pay5 (loss3In x0)) (loss3Row16 x2)⟩,
      ⟨S1024x128, k3_pay24 (k3_pay5 (loss3In x0)) (loss3Row17 x2)⟩,
      ⟨S1024x128, k3_pay1 (k3_pay5 (loss3In x0)) (loss3Row18 x2)⟩,
      ⟨S1024x128, k3_pay2 (k3_pay5 (loss3In x0)) (loss3Row19 x2)⟩]
    concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x2688_d1

/-- What the body stores into the accumulator, given what it loaded from it (`acc`): `acc` plus the block's sum. -/
def loss3Step (x0 x1 : Vec F S1024x128 .f32) (x2 : Vec F S20x1024x128 .f32) (x3 : Vec F S2688x21 .bf16)
    (acc : Vec F S1x1 .f32) : Vec F S1x1 .f32 :=
  k3_pay4 (loss3Z x0 x1 x2)
    (View.ld (Val := Elt F) x3 (Rect.unit (s := S2688x21) ![0, 0] S2688x21.size inb_S2688x21_S2688x21_0_0)) acc

/-- At the first point: over the zero the body has just stored. -/
def loss3StepA (x0 x1 : Vec F S1024x128 .f32) (x2 : Vec F S20x1024x128 .f32) (x3 : Vec F S2688x21 .bf16) : Vec F S1x1 .f32 :=
  loss3Step x0 x1 x2 x3 (k3_pay3 (F := F))

/-- At a later point: over what the point before left (`prev`). -/
def loss3StepB (x0 x1 : Vec F S1024x128 .f32) (x2 : Vec F S20x1024x128 .f32) (x3 : Vec F S2688x21 .bf16)
    (prev : Vec F S1x1 .f32) : Vec F S1x1 .f32 :=
  loss3Step x0 x1 x2 x3
    (View.ld (Val := Elt F) prev (Rect.unit (s := S1x1) ![0, 0] S1x1.size inb_S1x1_S1x1_0_0))

/-- A store through the whole `1 × 1` rectangle leaves its payload, whatever was stored before. -/
theorem read_writes_whole11_3 {κ : Kind} {sp : Space} (v : View sig κ sp S1x1 .f32) (f : v.ty.Contents (Elt F))
    (w : Vec F S1x1 .f32) (L : List (View.Piece (Elt F) S1x1 .f32)) :
    v.read (Elt F) (v.writes (Elt F) f (⟨Rect.unit (s := S1x1) ![0, 0] S1x1.size inb_S1x1_S1x1_0_0, w⟩ :: L)) = w := by
  funext y
  have h := View.read_writes_cons_emb v f (Rect.unit (s := S1x1) ![0, 0] S1x1.size inb_S1x1_S1x1_0_0) w L y
  have e : (Rect.unit (s := S1x1) ![0, 0] S1x1.size inb_S1x1_S1x1_0_0).emb y = y := by
    funext a; apply Fin.ext
    rw [Rect.emb_apply]
    fin_cases a <;> simp
  rw [e] at h; exact h

set_option maxHeartbeats 1000000 in
/-- The body at the first point, on whole staging memrefs holding the blocks: the inputs are left as they were and the
    accumulator holds `loss3StepA` of them. -/
theorem loss3_run_A (c : Dev nD) (i : grid3.Coords)
    (arg1 : Memref sig .tc .vmem S1024x128 .f32) (harg1 : arg1.IsWhole)
    (arg2 : Memref sig .tc .vmem S1024x128 .f32) (harg2 : arg2.IsWhole)
    (arg3 : Memref sig .tc .vmem S20x1024x128 .f32) (harg3 : arg3.IsWhole)
    (arg4 : Memref sig .tc .vmem S2688x21 .bf16) (harg4 : arg4.IsWhole)
    (arg5 : Memref sig .tc .vmem S1x1 .f32) (harg5 : arg5.IsWhole) (hc0 : cond3 i)
    (x0 x1 : Vec F S1024x128 .f32) (x2 : Vec F S20x1024x128 .f32) (x3 : Vec F S2688x21 .bf16)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (loss3StepA x0 x1 x2 x3)) -∗ K ⟨⟩))
      ⊢ wp frame (wpE (defs₀ (F := F)) 𝒱₀ c none) E (cc3__loss_body i arg1 harg1 arg2 harg2 arg3 harg3 arg4 harg4 arg5 harg5) K := by
  simp only [cc3__loss_body_eq_skeleton]; unfold cc3__loss_body_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1
  obtain rfl := harg3.eq_unread hf2; obtain rfl := harg4.eq_unread hf3
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [read_writes_whole11_3]
  sl_unfold_run_names
  simp only [View.readAt_eq_ld]
  rw [harg1.read_unread, harg2.read_unread, harg3.read_unread, harg4.read_unread, View.readCov_cons_toLoadRect]
  rfl

set_option maxHeartbeats 1000000 in
/-- The body at a later point: the accumulator, found at `prev`, holds `loss3StepB` of the blocks and `prev`. -/
theorem loss3_run_B (c : Dev nD) (i : grid3.Coords)
    (arg1 : Memref sig .tc .vmem S1024x128 .f32) (harg1 : arg1.IsWhole)
    (arg2 : Memref sig .tc .vmem S1024x128 .f32) (harg2 : arg2.IsWhole)
    (arg3 : Memref sig .tc .vmem S20x1024x128 .f32) (harg3 : arg3.IsWhole)
    (arg4 : Memref sig .tc .vmem S2688x21 .bf16) (harg4 : arg4.IsWhole)
    (arg5 : Memref sig .tc .vmem S1x1 .f32) (harg5 : arg5.IsWhole) (hc0 : ¬cond3 i)
    (x0 x1 : Vec F S1024x128 .f32) (x2 : Vec F S20x1024x128 .f32) (x3 : Vec F S2688x21 .bf16) (prev : Vec F S1x1 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare prev
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (loss3StepB x0 x1 x2 x3 prev)) -∗ K ⟨⟩))
      ⊢ wp frame (wpE (defs₀ (F := F)) 𝒱₀ c none) E (cc3__loss_body i arg1 harg1 arg2 harg2 arg3 harg3 arg4 harg4 arg5 harg5) K := by
  simp only [cc3__loss_body_eq_skeleton]; unfold cc3__loss_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1
  obtain rfl := harg3.eq_unread hf2; obtain rfl := harg4.eq_unread hf3
  obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [read_writes_whole11_3]
  sl_unfold_run_names
  simp only [View.readAt_eq_ld]
  rw [harg1.read_unread, harg2.read_unread, harg3.read_unread, harg4.read_unread, harg5.read_unread]
  rfl

end Cert.Proof.KB

end
-- ==== Proof.KB_Loss3Dat.lean ====
import proofs.«215899_g5772436046013_cont_9to1c4b_742_31_alg».proof.Proof.KB_Loss3
import Idealize.ShloMosaic.Lib.Pipeline.Frame
import Idealize.ShloMosaic.Lib.Pipeline.FrameBody

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # The loss3 kernel over its grid: the accumulator point by point, and the body obligation

Four grid points; at point `t` the body sees block `t` of the centre rows, of the positive rows and of the negative
rows, and the whole sign matrix; the `1 × 1` output is an accumulator, zeroed at point `0` and written back after
point `3`. -/

/-- The five arrays' contents when the region is entered, window by window. -/
abbrev Loss3Arrs (F : FTy → Type) (c : Dev nD) : Type :=
  (w : Fin cfg3.W) → Buf (Elt F) ((cfg3.win w).arr.view.loc (c.tc : Thread nD τ))

/-- The family from its five members. -/
def loss3Arrs (c : Dev nD)
    (a0 : Buf (Elt F) ((cfg3.win 0).arr.view.loc (c.tc : Thread nD τ)))
    (a1 : Buf (Elt F) ((cfg3.win 1).arr.view.loc (c.tc : Thread nD τ)))
    (a2 : Buf (Elt F) ((cfg3.win 2).arr.view.loc (c.tc : Thread nD τ)))
    (a3 : Buf (Elt F) ((cfg3.win 3).arr.view.loc (c.tc : Thread nD τ)))
    (aOut : Buf (Elt F) ((cfg3.win 4).arr.view.loc (c.tc : Thread nD τ))) : Loss3Arrs F c := fun w =>
  match w with
  | ⟨0, _⟩ => a0
  | ⟨1, _⟩ => a1
  | ⟨2, _⟩ => a2
  | ⟨3, _⟩ => a3
  | ⟨4, _⟩ => aOut

variable (c : Dev nD) (A : Loss3Arrs F c) (O : CellTallies nD τ sig (HIx 4)) (Rc : Set (SemLoc sig × HIx 4))

/-- Window `w`'s block at point `t`, read off its array's entry contents. -/
def loss3Blk (w : Fin cfg3.W) (t : Fin cfg3.N) :
    ((cfg3.win w).xblock (cfg3.grid.coords t)).Idx → Elt F (cfg3.win w).elt :=
  ((cfg3.win w).blk t).view.read (Elt F) (A w)

/-- THE ACCUMULATION: what the output's staging buffer holds after the body at point `n`. -/
def loss3Acc : (n : ℕ) → n < cfg3.N → Vec F S1x1 .f32
  | 0, hn => loss3StepA (loss3Blk c A 0 ⟨0, hn⟩) (loss3Blk c A 1 ⟨0, hn⟩) (loss3Blk c A 2 ⟨0, hn⟩) (loss3Blk c A 3 ⟨0, hn⟩)
  | n + 1, hn => loss3StepB (loss3Blk c A 0 ⟨n + 1, hn⟩) (loss3Blk c A 1 ⟨n + 1, hn⟩) (loss3Blk c A 2 ⟨n + 1, hn⟩)
      (loss3Blk c A 3 ⟨n + 1, hn⟩) (loss3Acc n (Nat.lt_of_succ_lt hn))

theorem loss3Acc_A (t : Fin cfg3.N) (h0 : t.val % 4 = 0) :
    loss3Acc c A t.val t.isLt = loss3StepA (loss3Blk c A 0 t) (loss3Blk c A 1 t) (loss3Blk c A 2 t) (loss3Blk c A 3 t) := by
  obtain ⟨n, hn⟩ := t
  have hN : n < 4 := lt_of_lt_of_eq hn (show cfg3.N = 4 from N_3)
  cases n with
  | zero => rfl
  | succ n => exfalso; dsimp only at h0; omega

theorem loss3Acc_B (t : Fin cfg3.N) (h0 : ¬t.val % 4 = 0) :
    loss3Acc c A t.val t.isLt = loss3StepB (loss3Blk c A 0 t) (loss3Blk c A 1 t) (loss3Blk c A 2 t) (loss3Blk c A 3 t)
      (loss3Acc c A (t.val - 1) (Nat.lt_of_le_of_lt (Nat.sub_le _ _) t.isLt)) := by
  obtain ⟨n, hn⟩ := t
  cases n with
  | zero => exact absurd (Nat.zero_mod _) h0
  | succ n => rfl

/-- The pipeline's proof data on core `c`: the arrays at `A`; after the body each input's buffer at its block and the
    output's at `loss3Acc`; the invariant the scoped buffers no window stages; full shares; what the core owes
    (`O`) and the bound on its recorded pairs (`Rc`) unchanged by the body. -/
def dat3 : Dat τ (Elt F) (HIx 4) ℕ UU ℕ cfg3 c where
  A := A
  after w t := match w with
    | ⟨0, _⟩ => loss3Blk c A 0 t
    | ⟨1, _⟩ => loss3Blk c A 1 t
    | ⟨2, _⟩ => loss3Blk c A 2 t
    | ⟨3, _⟩ => loss3Blk c A 3 t
    | ⟨4, _⟩ => loss3Acc c A t.val t.isLt
  Φ _ := Pipeline.scopedRest cfg3.spec c
  q _ := fullShare
  owed _ := O
  recorded _ := Rc

theorem dat3_A (w : Fin cfg3.W) : (dat3 c A O Rc).A w = A w := rfl
theorem after3_0 (t : Fin cfg3.N) : (dat3 c A O Rc).after 0 t = loss3Blk c A 0 t := by dsimp only [dat3]
theorem after3_1 (t : Fin cfg3.N) : (dat3 c A O Rc).after 1 t = loss3Blk c A 1 t := by dsimp only [dat3]
theorem after3_2 (t : Fin cfg3.N) : (dat3 c A O Rc).after 2 t = loss3Blk c A 2 t := by dsimp only [dat3]
theorem after3_3 (t : Fin cfg3.N) : (dat3 c A O Rc).after 3 t = loss3Blk c A 3 t := by dsimp only [dat3]
theorem after3_4 (t : Fin cfg3.N) : (dat3 c A O Rc).after 4 t = loss3Acc c A t.val t.isLt := by dsimp only [dat3]

/-- Each input's current staging buffer holds its block at every point, fetched there or not. -/
theorem before3_0 (t : Fin cfg3.N) (d) : (dat3 c A O Rc).before 0 t d = loss3Blk c A 0 t :=
  ((dat3 c A O Rc).before_in_eq_fetched 0 rfl (fun _ => rfl) (fun _ _ _ => rfl)
    (fun t => by rw [after3_0]; unfold Dat.blockOf loss3Blk; rfl) t d).trans (by unfold Dat.fetched Dat.blockOf loss3Blk; rfl)
theorem before3_1 (t : Fin cfg3.N) (d) : (dat3 c A O Rc).before 1 t d = loss3Blk c A 1 t :=
  ((dat3 c A O Rc).before_in_eq_fetched 1 rfl (fun _ => rfl) (fun _ _ _ => rfl)
    (fun t => by rw [after3_1]; unfold Dat.blockOf loss3Blk; rfl) t d).trans (by unfold Dat.fetched Dat.blockOf loss3Blk; rfl)
theorem before3_2 (t : Fin cfg3.N) (d) : (dat3 c A O Rc).before 2 t d = loss3Blk c A 2 t :=
  ((dat3 c A O Rc).before_in_eq_fetched 2 rfl (fun _ => rfl) (fun _ _ _ => rfl)
    (fun t => by rw [after3_2]; unfold Dat.blockOf loss3Blk; rfl) t d).trans (by unfold Dat.fetched Dat.blockOf loss3Blk; rfl)
theorem before3_3 (t : Fin cfg3.N) (d) : (dat3 c A O Rc).before 3 t d = loss3Blk c A 3 t :=
  ((dat3 c A O Rc).before_in_eq_fetched 3 rfl (fun _ => rfl) (fun _ _ _ => rfl)
    (fun t => by rw [after3_3]; unfold Dat.blockOf loss3Blk; rfl) t d).trans (by unfold Dat.fetched Dat.blockOf loss3Blk; rfl)

/-- After the first point the output's staging buffer holds what the body left at the point before: it is not written
    back between. -/
theorem before3_4 (t : Fin cfg3.N) (h0 : ¬t.val % 4 = 0) (d) :
    (dat3 c A O Rc).before 4 t d = loss3Acc c A (t.val - 1) (Nat.lt_of_le_of_lt (Nat.sub_le _ _) t.isLt) := by
  have hN : t.val < 4 := lt_of_lt_of_eq t.isLt (show cfg3.N = 4 from N_3)
  rw [Dat.before_out_kept _ 4 rfl t (by omega)
    (Bool.eq_false_iff.mpr fun h => by have := (flush3_4 _).mp h; dsimp only at this; omega)
    (fun _ => rfl) (fun _ _ => rfl)]
  dsimp only [dat3]

/-! ## The body obligation, at a generic point -/

/-- What the body is called with at point `t`, the windows one by one, -/
def bodyPre3 (t : Fin cfg3.N) : sProp 𝕄 :=
  iprop((dat3 c A O Rc).Φ t.castSucc ∗ (dat3 c A O Rc).owesAt none t.castSucc
    ∗ (∃ d, owns (c : Thread nD τ) (win3_0.stage (cfg3.slots t 0)) fullShare ((dat3 c A O Rc).before 0 t d))
    ∗ (∃ d, owns (c : Thread nD τ) (win3_1.stage (cfg3.slots t 1)) fullShare ((dat3 c A O Rc).before 1 t d))
    ∗ (∃ d, owns (c : Thread nD τ) (win3_2.stage (cfg3.slots t 2)) fullShare ((dat3 c A O Rc).before 2 t d))
    ∗ (∃ d, owns (c : Thread nD τ) (win3_3.stage (cfg3.slots t 3)) fullShare ((dat3 c A O Rc).before 3 t d))
    ∗ (∃ d, owns (c : Thread nD τ) (win3_4.stage (cfg3.slots t 4)) fullShare ((dat3 c A O Rc).before 4 t d)))

/-- and what it returns. -/
def bodyPost3 (t : Fin cfg3.N) : sProp 𝕄 :=
  iprop((dat3 c A O Rc).Φ t.succ ∗ (dat3 c A O Rc).owesAt none t.succ
    ∗ owns (c : Thread nD τ) (win3_0.stage (cfg3.slots t 0)) fullShare ((dat3 c A O Rc).after 0 t)
    ∗ owns (c : Thread nD τ) (win3_1.stage (cfg3.slots t 1)) fullShare ((dat3 c A O Rc).after 1 t)
    ∗ owns (c : Thread nD τ) (win3_2.stage (cfg3.slots t 2)) fullShare ((dat3 c A O Rc).after 2 t)
    ∗ owns (c : Thread nD τ) (win3_3.stage (cfg3.slots t 3)) fullShare ((dat3 c A O Rc).after 3 t)
    ∗ owns (c : Thread nD τ) (win3_4.stage (cfg3.slots t 4)) fullShare ((dat3 c A O Rc).after 4 t))

set_option maxHeartbeats 800000 in
/-- The body at any point: the inputs' buffers hold their blocks; at point `0` the accumulator is reset, at a later
    point it holds what the point before left; the invariant and what the core owes pass through untouched. -/
theorem sound_body3 (t : Fin cfg3.N) :
    bodyPre3 c A O Rc t ⊢ wp frame (wpE (defs₀ (F := F)) 𝒱₀ c none) Set.univ (bodyAt3 t) (fun _ => bodyPost3 c A O Rc t) := by
  unfold bodyPre3 bodyPost3 bodyAt3
  simp only [before3_0, before3_1, before3_2, before3_3]
  rw [show (dat3 c A O Rc).Φ t.succ = (dat3 c A O Rc).Φ t.castSucc from rfl,
    show (dat3 c A O Rc).owesAt none t.succ = (dat3 c A O Rc).owesAt none t.castSucc from rfl,
    after3_0, after3_1, after3_2, after3_3, after3_4]
  by_cases h0 : t.val % 4 = 0
  · rw [loss3Acc_A c A t h0]
    iintro ⟨HΦ, Ho, ⟨%d0, H0⟩, ⟨%d1, H1⟩, ⟨%d2, H2⟩, ⟨%d3, H3⟩, ⟨%d4, H4⟩⟩
    iapply (loss3_run_A c (grid3.coords t) _ _ _ _ _ _ _ _ _ _ ((hcond3 t).mpr h0)
      (loss3Blk c A 0 t) (loss3Blk c A 1 t) (loss3Blk c A 2 t) (loss3Blk c A 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [loss3Acc_B c A t h0]
    simp only [before3_4 c A O Rc t h0]
    iintro ⟨HΦ, Ho, ⟨%d0, H0⟩, ⟨%d1, H1⟩, ⟨%d2, H2⟩, ⟨%d3, H3⟩, ⟨%d4, H4⟩⟩
    iapply (loss3_run_B c (grid3.coords t) _ _ _ _ _ _ _ _ _ _ (fun h => h0 ((hcond3 t).mp h))
      (loss3Blk c A 0 t) (loss3Blk c A 1 t) (loss3Blk c A 2 t) (loss3Blk c A 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation, at every point. -/
theorem body_obligation3 : BodyObligation (dat3 c A O Rc) (defs₀ (F := F)) 𝒱₀ (none : HIx 4) Set.univ := fun t => by
  rw [bigSep_W3, bigSep_W3]
  exact sound_body3 c A O Rc t

/-- In the form the region rule takes. -/
theorem body_obligation3_loose : BodyObligationLoose (dat3 c A O Rc) (defs₀ (F := F)) 𝒱₀ (none : HIx 4) Set.univ :=
  (body_obligation3 c A O Rc).loose

/-! ## The arrays when the region is left -/

theorem share3 (w : Fin cfg3.W) : (dat3 c A O Rc).share w = fullShare := (dat3 c A O Rc).share_full (fun _ => rfl) w

/-- The inputs are as they were. -/
theorem arrAt3_0 (n : ℕ) : (dat3 c A O Rc).arrAt 0 n = A 0 := (dat3 c A O Rc).arrAt_in 0 rfl n
theorem arrAt3_1 (n : ℕ) : (dat3 c A O Rc).arrAt 1 n = A 1 := (dat3 c A O Rc).arrAt_in 1 rfl n
theorem arrAt3_2 (n : ℕ) : (dat3 c A O Rc).arrAt 2 n = A 2 := (dat3 c A O Rc).arrAt_in 2 rfl n
theorem arrAt3_3 (n : ℕ) : (dat3 c A O Rc).arrAt 3 n = A 3 := (dat3 c A O Rc).arrAt_in 3 rfl n

/-- The output array is untouched until the last point's write-back, -/
theorem arrAt3_4_lt : ∀ n, n ≤ 3 → (dat3 c A O Rc).arrAt 4 n = A 4
  | 0, _ => rfl
  | n + 1, h => by
    have hn : n < cfg3.N := by rw [show cfg3.N = 4 from N_3]; omega
    rw [show n + 1 = (⟨n, hn⟩ : Fin cfg3.N).val + 1 from rfl, Dat.arrAt_succ,
      if_neg (fun hf => by have := (flush3_4 _).mp hf; dsimp only at this; omega)]
    exact arrAt3_4_lt n (by omega)

/-- THE RESULT: the output array when the region is left, its one block overwritten by the accumulator after the last
    point. -/
def loss3Out : Buf (Elt F) ((cfg3.win 4).arr.view.loc (c.tc : Thread nD τ)) :=
  ((cfg3.win 4).blk t3_3).view.write (Elt F) (A 4) (loss3Acc c A 3 (by rw [show cfg3.N = 4 from N_3]; decide)) Finset.univ

theorem arrAt3_4 : (dat3 c A O Rc).arrAt 4 cfg3.N = loss3Out c A := by
  show (dat3 c A O Rc).arrAt 4 ((t3_3 : Fin cfg3.N).val + 1) = _
  rw [Dat.arrAt_succ, if_pos ((flush3_4 _).mpr rfl), arrAt3_4_lt c A O Rc (t3_3 : Fin cfg3.N).val (le_refl 3)]
  rfl

/-- Read back through its block, the result is the accumulator after the last point. -/
theorem read_loss3Out :
    ((cfg3.win 4).blk t3_3).view.read (Elt F) (loss3Out c A)
      = loss3Acc c A 3 (by rw [show cfg3.N = 4 from N_3]; decide) :=
  View.read_write_univ _ _

end Cert.Proof.KB

end
-- ==== Proof.KB_Loss5.lean ====
import proofs.«215899_g5772436046013_cont_9to1c4b_742_31_alg».proof.Proof.KB_Common
import Idealize.ShloMosaic.Lib.Pipeline.Frame
import Idealize.ShloMosaic.Lib.Pipeline.FrameBody

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # One grid point of the loss5 kernel: its value and its run

The kernel body at a grid point reads a `1024 × 128` block `x0` of centre rows, a block `x1` of positive
context rows, the `20 × 1024 × 128` block `x2` of negative context rows and the `2688 × 21` sign matrix `x3`;
it forms the `1024 × 2688` matrix of products `[x0 * x1, x2[0] * x0, …, x2[19] * x0]`, rounds it to bf16,
multiplies by `x3`, applies `z ↦ min z 0 - log (1 + exp (-|z|))` entrywise, sums everything, and adds the sum
to the `1 × 1` accumulator, which it first sets to zero when the grid coordinate is `0`. -/

/-- The accumulator is reset exactly when the grid coordinate is zero (the body's scalar chain). -/
abbrev cond5 (i : grid5.Coords) : Prop :=
  (Scalar.cmpi .ne (Scalar.extui (Scalar.cmpi .eq (BitVec.ofNat 32 (i 0).val) 0#32)) 0#32) = 1#1

/-- Over the grid: at the first point only. -/
theorem hcond5 : ∀ t : Fin cfg5.N, cond5 (grid5.coords t) ↔ t.val % 4 = 0 :=
  (by decide +kernel : ∀ t : Fin grid5.N, cond5 (grid5.coords t) ↔ t.val % 4 = 0)

/-- A whole `1024 × 128` block as the body's load reads it. -/
abbrev loss5In (x : Vec F S1024x128 .f32) : Vec F S1024x128 .f32 :=
  View.ld (Val := Elt F) x (Rect.unit (s := S1024x128) ![0, 0] S1024x128.size inb_S1024x128_S1024x128_0_0)

/-- Row block 0 of the stacked operand: entries `(0, r, l)`. -/
abbrev loss5Row0 (x2 : Vec F S20x1024x128 .f32) : Vec F S1x1024x128 .f32 :=
  View.ld (Val := Elt F) x2 (Rect.unit (s := S20x1024x128) ![0, 0, 0] S1x1024x128.size inb_S20x1024x128_S1x1024x128_0_0_0)
/-- Row block 1 of the stacked operand: entries `(1, r, l)`. -/
abbrev loss5Row1 (x2 : Vec F S20x1024x128 .f32) : Vec F S1x1024x128 .f32 :=
  View.ld (Val := Elt F) x2 (Rect.unit (s := S20x1024x128) ![1, 0, 0] S1x1024x128.size inb_S20x1024x128_S1x1024x128_1_0_0)
/-- Row block 2 of the stacked operand: entries `(2, r, l)`. -/
abbrev loss5Row2 (x2 : Vec F S20x1024x128 .f32) : Vec F S1x1024x128 .f32 :=
  View.ld (Val := Elt F) x2 (Rect.unit (s := S20x1024x128) ![2, 0, 0] S1x1024x128.size inb_S20x1024x128_S1x1024x128_2_0_0)
/-- Row block 3 of the stacked operand: entries `(3, r, l)`. -/
abbrev loss5Row3 (x2 : Vec F S20x1024x128 .f32) : Vec F S1x1024x128 .f32 :=
  View.ld (Val := Elt F) x2 (Rect.unit (s := S20x1024x128) ![3, 0, 0] S1x1024x128.size inb_S20x1024x128_S1x1024x128_3_0_0)
/-- Row block 4 of the stacked operand: entries `(4, r, l)`. -/
abbrev loss5Row4 (x2 : Vec F S20x1024x128 .f32) : Vec F S1x1024x128 .f32 :=
  View.ld (Val := Elt F) x2 (Rect.unit (s := S20x1024x128) ![4, 0, 0] S1x1024x128.size inb_S20x1024x128_S1x1024x128_4_0_0)
/-- Row block 5 of the stacked operand: entries `(5, r, l)`. -/
abbrev loss5Row5 (x2 : Vec F S20x1024x128 .f32) : Vec F S1x1024x128 .f32 :=
  View.ld (Val := Elt F) x2 (Rect.unit (s := S20x1024x128) ![5, 0, 0] S1x1024x128.size inb_S20x1024x128_S1x1024x128_5_0_0)
/-- Row block 6 of the stacked operand: entries `(6, r, l)`. -/
abbrev loss5Row6 (x2 : Vec F S20x1024x128 .f32) : Vec F S1x1024x128 .f32 :=
  View.ld (Val := Elt F) x2 (Rect.unit (s := S20x1024x128) ![6, 0, 0] S1x1024x128.size inb_S20x1024x128_S1x1024x128_6_0_0)
/-- Row block 7 of the stacked operand: entries `(7, r, l)`. -/
abbrev loss5Row7 (x2 : Vec F S20x1024x128 .f32) : Vec F S1x1024x128 .f32 :=
  View.ld (Val := Elt F) x2 (Rect.unit (s := S20x1024x128) ![7, 0, 0] S1x1024x128.size inb_S20x1024x128_S1x1024x128_7_0_0)
/-- Row block 8 of the stacked operand: entries `(8, r, l)`. -/
abbrev loss5Row8 (x2 : Vec F S20x1024x128 .f32) : Vec F S1x1024x128 .f32 :=
  View.ld (Val := Elt F) x2 (Rect.unit (s := S20x1024x128) ![8, 0, 0] S1x1024x128.size inb_S20x1024x128_S1x1024x128_8_0_0)
/-- Row block 9 of the stacked operand: entries `(9, r, l)`. -/
abbrev loss5Row9 (x2 : Vec F S20x1024x128 .f32) : Vec F S1x1024x128 .f32 :=
  View.ld (Val := Elt F) x2 (Rect.unit (s := S20x1024x128) ![9, 0, 0] S1x1024x128.size inb_S20x1024x128_S1x1024x128_9_0_0)
/-- Row block 10 of the stacked operand: entries `(10, r, l)`. -/
abbrev loss5Row10 (x2 : Vec F S20x1024x128 .f32) : Vec F S1x1024x128 .f32 :=
  View.ld (Val := Elt F) x2 (Rect.unit (s := S20x1024x128) ![10, 0, 0] S1x1024x128.size inb_S20x1024x128_S1x1024x128_10_0_0)
/-- Row block 11 of the stacked operand: entries `(11, r, l)`. -/
abbrev loss5Row11 (x2 : Vec F S20x1024x128 .f32) : Vec F S1x1024x128 .f32 :=
  View.ld (Val := Elt F) x2 (Rect.unit (s := S20x1024x128) ![11, 0, 0] S1x1024x128.size inb_S20x1024x128_S1x1024x128_11_0_0)
/-- Row block 12 of the stacked operand: entries `(12, r, l)`. -/
abbrev loss5Row12 (x2 : Vec F S20x1024x128 .f32) : Vec F S1x1024x128 .f32 :=
  View.ld (Val := Elt F) x2 (Rect.unit (s := S20x1024x128) ![12, 0, 0] S1x1024x128.size inb_S20x1024x128_S1x1024x128_12_0_0)
/-- Row block 13 of the stacked operand: entries `(13, r, l)`. -/
abbrev loss5Row13 (x2 : Vec F S20x1024x128 .f32) : Vec F S1x1024x128 .f32 :=
  View.ld (Val := Elt F) x2 (Rect.unit (s := S20x1024x128) ![13, 0, 0] S1x1024x128.size inb_S20x1024x128_S1x1024x128_13_0_0)
/-- Row block 14 of the stacked operand: entries `(14, r, l)`. -/
abbrev loss5Row14 (x2 : Vec F S20x1024x128 .f32) : Vec F S1x1024x128 .f32 :=
  View.ld (Val := Elt F) x2 (Rect.unit (s := S20x1024x128) ![14, 0, 0] S1x1024x128.size inb_S20x1024x128_S1x1024x128_14_0_0)
/-- Row block 15 of the stacked operand: entries `(15, r, l)`. -/
abbrev loss5Row15 (x2 : Vec F S20x1024x128 .f32) : Vec F S1x1024x128 .f32 :=
  View.ld (Val := Elt F) x2 (Rect.unit (s := S20x1024x128) ![15, 0, 0] S1x1024x128.size inb_S20x1024x128_S1x1024x128_15_0_0)
/-- Row block 16 of the stacked operand: entries `(16, r, l)`. -/
abbrev loss5Row16 (x2 : Vec F S20x1024x128 .f32) : Vec F S1x1024x128 .f32 :=
  View.ld (Val := Elt F) x2 (Rect.unit (s := S20x1024x128) ![16, 0, 0] S1x1024x128.size inb_S20x1024x128_S1x1024x128_16_0_0)
/-- Row block 17 of the stacked operand: entries `(17, r, l)`. -/
abbrev loss5Row17 (x2 : Vec F S20x1024x128 .f32) : Vec F S1x1024x128 .f32 :=
  View.ld (Val := Elt F) x2 (Rect.unit (s := S20x1024x128) ![17, 0, 0] S1x1024x128.size inb_S20x1024x128_S1x1024x128_17_0_0)
/-- Row block 18 of the stacked operand: entries `(18, r, l)`. -/
abbrev loss5Row18 (x2 : Vec F S20x1024x128 .f32) : Vec F S1x1024x128 .f32 :=
  View.ld (Val := Elt F) x2 (Rect.unit (s := S20x1024x128) ![18, 0, 0] S1x1024x128.size inb_S20x1024x128_S1x1024x128_18_0_0)
/-- Row block 19 of the stacked operand: entries `(19, r, l)`. -/
abbrev loss5Row19 (x2 : Vec F S20x1024x128 .f32) : Vec F S1x1024x128 .f32 :=
  View.ld (Val := Elt F) x2 (Rect.unit (s := S20x1024x128) ![19, 0, 0] S1x1024x128.size inb_S20x1024x128_S1x1024x128_19_0_0)

/-- The `1024 × 2688` matrix of products: the positive products first, then the twenty negative ones. -/
def loss5Z (x0 x1 : Vec F S1024x128 .f32) (x2 : Vec F S20x1024x128 .f32) : FVec F S1024x2688 .f32 :=
  concatenate S1024x2688 1
    [⟨S1024x128, k5_pay6 (loss5In x0) (loss5In x1)⟩,
      ⟨S1024x128, k5_pay7 (loss5In x0) (loss5Row0 x2)⟩,
      ⟨S1024x128, k5_pay8 (loss5In x0) (loss5Row1 x2)⟩,
      ⟨S1024x128, k5_pay9 (loss5In x0) (loss5Row2 x2)⟩,
      ⟨S1024x128, k5_pay10 (loss5In x0) (loss5Row3 x2)⟩,
      ⟨S1024x128, k5_pay11 (loss5In x0) (loss5Row4 x2)⟩,
      ⟨S1024x128, k5_pay12 (loss5In x0) (loss5Row5 x2)⟩,
      ⟨S1024x128, k5_pay13 (loss5In x0) (loss5Row6 x2)⟩,
      ⟨S1024x128, k5_pay14 (loss5In x0) (loss5Row7 x2)⟩,
      ⟨S1024x128, k5_pay15 (k5_pay5 (loss5In x0)) (loss5Row8 x2)⟩,
      ⟨S1024x128, k5_pay16 (k5_pay5 (loss5In x0)) (loss5Row9 x2)⟩,
      ⟨S1024x128, k5_pay17 (k5_pay5 (loss5In x0)) (loss5Row10 x2)⟩,
      ⟨S1024x128, k5_pay18 (k5_pay5 (loss5In x0)) (loss5Row11 x2)⟩,
      ⟨S1024x128, k5_pay19 (k5_pay5 (loss5In x0)) (loss5Row12 x2)⟩,
      ⟨S1024x128, k5_pay20 (k5_pay5 (loss5In x0)) (loss5Row13 x2)⟩,
      ⟨S1024x128, k5_pay21 (k5_pay5 (loss5In x0)) (loss5Row14 x2)⟩,
      ⟨S1024x128, k5_pay22 (k5_pay5 (loss5In x0)) (loss5Row15 x2)⟩,
      ⟨S1024x128, k5_pay23 (k5_pay5 (loss5In x0)) (loss5Row16 x2)⟩,
      ⟨S1024x128, k5_pay24 (k5_pay5 (loss5In x0)) (loss5Row17 x2)⟩,
      ⟨S1024x128, k5_pay1 (k5_pay5 (loss5In x0)) (loss5Row18 x2)⟩,
      ⟨S1024x128, k5_pay2 (k5_pay5 (loss5In x0)) (loss5Row19 x2)⟩]
    concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x2688_d1

/-- What the body stores into the accumulator, given what it loaded from it (`acc`): `acc` plus the block's sum. -/
def loss5Step (x0 x1 : Vec F S1024x128 .f32) (x2 : Vec F S20x1024x128 .f32) (x3 : Vec F S2688x21 .bf16)
    (acc : Vec F S1x1 .f32) : Vec F S1x1 .f32 :=
  k5_pay4 (loss5Z x0 x1 x2)
    (View.ld (Val := Elt F) x3 (Rect.unit (s := S2688x21) ![0, 0] S2688x21.size inb_S2688x21_S2688x21_0_0)) acc

/-- At the first point: over the zero the body has just stored. -/
def loss5StepA (x0 x1 : Vec F S1024x128 .f32) (x2 : Vec F S20x1024x128 .f32) (x3 : Vec F S2688x21 .bf16) : Vec F S1x1 .f32 :=
  loss5Step x0 x1 x2 x3 (k5_pay3 (F := F))

/-- At a later point: over what the point before left (`prev`). -/
def loss5StepB (x0 x1 : Vec F S1024x128 .f32) (x2 : Vec F S20x1024x128 .f32) (x3 : Vec F S2688x21 .bf16)
    (prev : Vec F S1x1 .f32) : Vec F S1x1 .f32 :=
  loss5Step x0 x1 x2 x3
    (View.ld (Val := Elt F) prev (Rect.unit (s := S1x1) ![0, 0] S1x1.size inb_S1x1_S1x1_0_0))

/-- A store through the whole `1 × 1` rectangle leaves its payload, whatever was stored before. -/
theorem read_writes_whole11_5 {κ : Kind} {sp : Space} (v : View sig κ sp S1x1 .f32) (f : v.ty.Contents (Elt F))
    (w : Vec F S1x1 .f32) (L : List (View.Piece (Elt F) S1x1 .f32)) :
    v.read (Elt F) (v.writes (Elt F) f (⟨Rect.unit (s := S1x1) ![0, 0] S1x1.size inb_S1x1_S1x1_0_0, w⟩ :: L)) = w := by
  funext y
  have h := View.read_writes_cons_emb v f (Rect.unit (s := S1x1) ![0, 0] S1x1.size inb_S1x1_S1x1_0_0) w L y
  have e : (Rect.unit (s := S1x1) ![0, 0] S1x1.size inb_S1x1_S1x1_0_0).emb y = y := by
    funext a; apply Fin.ext
    rw [Rect.emb_apply]
    fin_cases a <;> simp
  rw [e] at h; exact h

set_option maxHeartbeats 1000000 in
/-- The body at the first point, on whole staging memrefs holding the blocks: the inputs are left as they were and the
    accumulator holds `loss5StepA` of them. -/
theorem loss5_run_A (c : Dev nD) (i : grid5.Coords)
    (arg1 : Memref sig .tc .vmem S1024x128 .f32) (harg1 : arg1.IsWhole)
    (arg2 : Memref sig .tc .vmem S1024x128 .f32) (harg2 : arg2.IsWhole)
    (arg3 : Memref sig .tc .vmem S20x1024x128 .f32) (harg3 : arg3.IsWhole)
    (arg4 : Memref sig .tc .vmem S2688x21 .bf16) (harg4 : arg4.IsWhole)
    (arg5 : Memref sig .tc .vmem S1x1 .f32) (harg5 : arg5.IsWhole) (hc0 : cond5 i)
    (x0 x1 : Vec F S1024x128 .f32) (x2 : Vec F S20x1024x128 .f32) (x3 : Vec F S2688x21 .bf16)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (loss5StepA x0 x1 x2 x3)) -∗ K ⟨⟩))
      ⊢ wp frame (wpE (defs₀ (F := F)) 𝒱₀ c none) E (cc5__loss_body i arg1 harg1 arg2 harg2 arg3 harg3 arg4 harg4 arg5 harg5) K := by
  simp only [cc5__loss_body_eq_skeleton]; unfold cc5__loss_body_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1
  obtain rfl := harg3.eq_unread hf2; obtain rfl := harg4.eq_unread hf3
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [read_writes_whole11_5]
  sl_unfold_run_names
  simp only [View.readAt_eq_ld]
  rw [harg1.read_unread, harg2.read_unread, harg3.read_unread, harg4.read_unread, View.readCov_cons_toLoadRect]
  rfl

set_option maxHeartbeats 1000000 in
/-- The body at a later point: the accumulator, found at `prev`, holds `loss5StepB` of the blocks and `prev`. -/
theorem loss5_run_B (c : Dev nD) (i : grid5.Coords)
    (arg1 : Memref sig .tc .vmem S1024x128 .f32) (harg1 : arg1.IsWhole)
    (arg2 : Memref sig .tc .vmem S1024x128 .f32) (harg2 : arg2.IsWhole)
    (arg3 : Memref sig .tc .vmem S20x1024x128 .f32) (harg3 : arg3.IsWhole)
    (arg4 : Memref sig .tc .vmem S2688x21 .bf16) (harg4 : arg4.IsWhole)
    (arg5 : Memref sig .tc .vmem S1x1 .f32) (harg5 : arg5.IsWhole) (hc0 : ¬cond5 i)
    (x0 x1 : Vec F S1024x128 .f32) (x2 : Vec F S20x1024x128 .f32) (x3 : Vec F S2688x21 .bf16) (prev : Vec F S1x1 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare prev
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (loss5StepB x0 x1 x2 x3 prev)) -∗ K ⟨⟩))
      ⊢ wp frame (wpE (defs₀ (F := F)) 𝒱₀ c none) E (cc5__loss_body i arg1 harg1 arg2 harg2 arg3 harg3 arg4 harg4 arg5 harg5) K := by
  simp only [cc5__loss_body_eq_skeleton]; unfold cc5__loss_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1
  obtain rfl := harg3.eq_unread hf2; obtain rfl := harg4.eq_unread hf3
  obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [read_writes_whole11_5]
  sl_unfold_run_names
  simp only [View.readAt_eq_ld]
  rw [harg1.read_unread, harg2.read_unread, harg3.read_unread, harg4.read_unread, harg5.read_unread]
  rfl

end Cert.Proof.KB

end
-- ==== Proof.KB_Loss5Dat.lean ====
import proofs.«215899_g5772436046013_cont_9to1c4b_742_31_alg».proof.Proof.KB_Loss5
import Idealize.ShloMosaic.Lib.Pipeline.Frame
import Idealize.ShloMosaic.Lib.Pipeline.FrameBody

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # The loss5 kernel over its grid: the accumulator point by point, and the body obligation

Four grid points; at point `t` the body sees block `t` of the centre rows, of the positive rows and of the negative
rows, and the whole sign matrix; the `1 × 1` output is an accumulator, zeroed at point `0` and written back after
point `3`. -/

/-- The five arrays' contents when the region is entered, window by window. -/
abbrev Loss5Arrs (F : FTy → Type) (c : Dev nD) : Type :=
  (w : Fin cfg5.W) → Buf (Elt F) ((cfg5.win w).arr.view.loc (c.tc : Thread nD τ))

/-- The family from its five members. -/
def loss5Arrs (c : Dev nD)
    (a0 : Buf (Elt F) ((cfg5.win 0).arr.view.loc (c.tc : Thread nD τ)))
    (a1 : Buf (Elt F) ((cfg5.win 1).arr.view.loc (c.tc : Thread nD τ)))
    (a2 : Buf (Elt F) ((cfg5.win 2).arr.view.loc (c.tc : Thread nD τ)))
    (a3 : Buf (Elt F) ((cfg5.win 3).arr.view.loc (c.tc : Thread nD τ)))
    (aOut : Buf (Elt F) ((cfg5.win 4).arr.view.loc (c.tc : Thread nD τ))) : Loss5Arrs F c := fun w =>
  match w with
  | ⟨0, _⟩ => a0
  | ⟨1, _⟩ => a1
  | ⟨2, _⟩ => a2
  | ⟨3, _⟩ => a3
  | ⟨4, _⟩ => aOut

variable (c : Dev nD) (A : Loss5Arrs F c) (O : CellTallies nD τ sig (HIx 4)) (Rc : Set (SemLoc sig × HIx 4))

/-- Window `w`'s block at point `t`, read off its array's entry contents. -/
def loss5Blk (w : Fin cfg5.W) (t : Fin cfg5.N) :
    ((cfg5.win w).xblock (cfg5.grid.coords t)).Idx → Elt F (cfg5.win w).elt :=
  ((cfg5.win w).blk t).view.read (Elt F) (A w)

/-- THE ACCUMULATION: what the output's staging buffer holds after the body at point `n`. -/
def loss5Acc : (n : ℕ) → n < cfg5.N → Vec F S1x1 .f32
  | 0, hn => loss5StepA (loss5Blk c A 0 ⟨0, hn⟩) (loss5Blk c A 1 ⟨0, hn⟩) (loss5Blk c A 2 ⟨0, hn⟩) (loss5Blk c A 3 ⟨0, hn⟩)
  | n + 1, hn => loss5StepB (loss5Blk c A 0 ⟨n + 1, hn⟩) (loss5Blk c A 1 ⟨n + 1, hn⟩) (loss5Blk c A 2 ⟨n + 1, hn⟩)
      (loss5Blk c A 3 ⟨n + 1, hn⟩) (loss5Acc n (Nat.lt_of_succ_lt hn))

theorem loss5Acc_A (t : Fin cfg5.N) (h0 : t.val % 4 = 0) :
    loss5Acc c A t.val t.isLt = loss5StepA (loss5Blk c A 0 t) (loss5Blk c A 1 t) (loss5Blk c A 2 t) (loss5Blk c A 3 t) := by
  obtain ⟨n, hn⟩ := t
  have hN : n < 4 := lt_of_lt_of_eq hn (show cfg5.N = 4 from N_5)
  cases n with
  | zero => rfl
  | succ n => exfalso; dsimp only at h0; omega

theorem loss5Acc_B (t : Fin cfg5.N) (h0 : ¬t.val % 4 = 0) :
    loss5Acc c A t.val t.isLt = loss5StepB (loss5Blk c A 0 t) (loss5Blk c A 1 t) (loss5Blk c A 2 t) (loss5Blk c A 3 t)
      (loss5Acc c A (t.val - 1) (Nat.lt_of_le_of_lt (Nat.sub_le _ _) t.isLt)) := by
  obtain ⟨n, hn⟩ := t
  cases n with
  | zero => exact absurd (Nat.zero_mod _) h0
  | succ n => rfl

/-- The pipeline's proof data on core `c`: the arrays at `A`; after the body each input's buffer at its block and the
    output's at `loss5Acc`; the invariant the scoped buffers no window stages; full shares; what the core owes
    (`O`) and the bound on its recorded pairs (`Rc`) unchanged by the body. -/
def dat5 : Dat τ (Elt F) (HIx 4) ℕ UU ℕ cfg5 c where
  A := A
  after w t := match w with
    | ⟨0, _⟩ => loss5Blk c A 0 t
    | ⟨1, _⟩ => loss5Blk c A 1 t
    | ⟨2, _⟩ => loss5Blk c A 2 t
    | ⟨3, _⟩ => loss5Blk c A 3 t
    | ⟨4, _⟩ => loss5Acc c A t.val t.isLt
  Φ _ := Pipeline.scopedRest cfg5.spec c
  q _ := fullShare
  owed _ := O
  recorded _ := Rc

theorem dat5_A (w : Fin cfg5.W) : (dat5 c A O Rc).A w = A w := rfl
theorem after5_0 (t : Fin cfg5.N) : (dat5 c A O Rc).after 0 t = loss5Blk c A 0 t := by dsimp only [dat5]
theorem after5_1 (t : Fin cfg5.N) : (dat5 c A O Rc).after 1 t = loss5Blk c A 1 t := by dsimp only [dat5]
theorem after5_2 (t : Fin cfg5.N) : (dat5 c A O Rc).after 2 t = loss5Blk c A 2 t := by dsimp only [dat5]
theorem after5_3 (t : Fin cfg5.N) : (dat5 c A O Rc).after 3 t = loss5Blk c A 3 t := by dsimp only [dat5]
theorem after5_4 (t : Fin cfg5.N) : (dat5 c A O Rc).after 4 t = loss5Acc c A t.val t.isLt := by dsimp only [dat5]

/-- Each input's current staging buffer holds its block at every point, fetched there or not. -/
theorem before5_0 (t : Fin cfg5.N) (d) : (dat5 c A O Rc).before 0 t d = loss5Blk c A 0 t :=
  ((dat5 c A O Rc).before_in_eq_fetched 0 rfl (fun _ => rfl) (fun _ _ _ => rfl)
    (fun t => by rw [after5_0]; unfold Dat.blockOf loss5Blk; rfl) t d).trans (by unfold Dat.fetched Dat.blockOf loss5Blk; rfl)
theorem before5_1 (t : Fin cfg5.N) (d) : (dat5 c A O Rc).before 1 t d = loss5Blk c A 1 t :=
  ((dat5 c A O Rc).before_in_eq_fetched 1 rfl (fun _ => rfl) (fun _ _ _ => rfl)
    (fun t => by rw [after5_1]; unfold Dat.blockOf loss5Blk; rfl) t d).trans (by unfold Dat.fetched Dat.blockOf loss5Blk; rfl)
theorem before5_2 (t : Fin cfg5.N) (d) : (dat5 c A O Rc).before 2 t d = loss5Blk c A 2 t :=
  ((dat5 c A O Rc).before_in_eq_fetched 2 rfl (fun _ => rfl) (fun _ _ _ => rfl)
    (fun t => by rw [after5_2]; unfold Dat.blockOf loss5Blk; rfl) t d).trans (by unfold Dat.fetched Dat.blockOf loss5Blk; rfl)
theorem before5_3 (t : Fin cfg5.N) (d) : (dat5 c A O Rc).before 3 t d = loss5Blk c A 3 t :=
  ((dat5 c A O Rc).before_in_eq_fetched 3 rfl (fun _ => rfl) (fun _ _ _ => rfl)
    (fun t => by rw [after5_3]; unfold Dat.blockOf loss5Blk; rfl) t d).trans (by unfold Dat.fetched Dat.blockOf loss5Blk; rfl)

/-- After the first point the output's staging buffer holds what the body left at the point before: it is not written
    back between. -/
theorem before5_4 (t : Fin cfg5.N) (h0 : ¬t.val % 4 = 0) (d) :
    (dat5 c A O Rc).before 4 t d = loss5Acc c A (t.val - 1) (Nat.lt_of_le_of_lt (Nat.sub_le _ _) t.isLt) := by
  have hN : t.val < 4 := lt_of_lt_of_eq t.isLt (show cfg5.N = 4 from N_5)
  rw [Dat.before_out_kept _ 4 rfl t (by omega)
    (Bool.eq_false_iff.mpr fun h => by have := (flush5_4 _).mp h; dsimp only at this; omega)
    (fun _ => rfl) (fun _ _ => rfl)]
  dsimp only [dat5]

/-! ## The body obligation, at a generic point -/

/-- What the body is called with at point `t`, the windows one by one, -/
def bodyPre5 (t : Fin cfg5.N) : sProp 𝕄 :=
  iprop((dat5 c A O Rc).Φ t.castSucc ∗ (dat5 c A O Rc).owesAt none t.castSucc
    ∗ (∃ d, owns (c : Thread nD τ) (win5_0.stage (cfg5.slots t 0)) fullShare ((dat5 c A O Rc).before 0 t d))
    ∗ (∃ d, owns (c : Thread nD τ) (win5_1.stage (cfg5.slots t 1)) fullShare ((dat5 c A O Rc).before 1 t d))
    ∗ (∃ d, owns (c : Thread nD τ) (win5_2.stage (cfg5.slots t 2)) fullShare ((dat5 c A O Rc).before 2 t d))
    ∗ (∃ d, owns (c : Thread nD τ) (win5_3.stage (cfg5.slots t 3)) fullShare ((dat5 c A O Rc).before 3 t d))
    ∗ (∃ d, owns (c : Thread nD τ) (win5_4.stage (cfg5.slots t 4)) fullShare ((dat5 c A O Rc).before 4 t d)))

/-- and what it returns. -/
def bodyPost5 (t : Fin cfg5.N) : sProp 𝕄 :=
  iprop((dat5 c A O Rc).Φ t.succ ∗ (dat5 c A O Rc).owesAt none t.succ
    ∗ owns (c : Thread nD τ) (win5_0.stage (cfg5.slots t 0)) fullShare ((dat5 c A O Rc).after 0 t)
    ∗ owns (c : Thread nD τ) (win5_1.stage (cfg5.slots t 1)) fullShare ((dat5 c A O Rc).after 1 t)
    ∗ owns (c : Thread nD τ) (win5_2.stage (cfg5.slots t 2)) fullShare ((dat5 c A O Rc).after 2 t)
    ∗ owns (c : Thread nD τ) (win5_3.stage (cfg5.slots t 3)) fullShare ((dat5 c A O Rc).after 3 t)
    ∗ owns (c : Thread nD τ) (win5_4.stage (cfg5.slots t 4)) fullShare ((dat5 c A O Rc).after 4 t))

set_option maxHeartbeats 800000 in
/-- The body at any point: the inputs' buffers hold their blocks; at point `0` the accumulator is reset, at a later
    point it holds what the point before left; the invariant and what the core owes pass through untouched. -/
theorem sound_body5 (t : Fin cfg5.N) :
    bodyPre5 c A O Rc t ⊢ wp frame (wpE (defs₀ (F := F)) 𝒱₀ c none) Set.univ (bodyAt5 t) (fun _ => bodyPost5 c A O Rc t) := by
  unfold bodyPre5 bodyPost5 bodyAt5
  simp only [before5_0, before5_1, before5_2, before5_3]
  rw [show (dat5 c A O Rc).Φ t.succ = (dat5 c A O Rc).Φ t.castSucc from rfl,
    show (dat5 c A O Rc).owesAt none t.succ = (dat5 c A O Rc).owesAt none t.castSucc from rfl,
    after5_0, after5_1, after5_2, after5_3, after5_4]
  by_cases h0 : t.val % 4 = 0
  · rw [loss5Acc_A c A t h0]
    iintro ⟨HΦ, Ho, ⟨%d0, H0⟩, ⟨%d1, H1⟩, ⟨%d2, H2⟩, ⟨%d3, H3⟩, ⟨%d4, H4⟩⟩
    iapply (loss5_run_A c (grid5.coords t) _ _ _ _ _ _ _ _ _ _ ((hcond5 t).mpr h0)
      (loss5Blk c A 0 t) (loss5Blk c A 1 t) (loss5Blk c A 2 t) (loss5Blk c A 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [loss5Acc_B c A t h0]
    simp only [before5_4 c A O Rc t h0]
    iintro ⟨HΦ, Ho, ⟨%d0, H0⟩, ⟨%d1, H1⟩, ⟨%d2, H2⟩, ⟨%d3, H3⟩, ⟨%d4, H4⟩⟩
    iapply (loss5_run_B c (grid5.coords t) _ _ _ _ _ _ _ _ _ _ (fun h => h0 ((hcond5 t).mp h))
      (loss5Blk c A 0 t) (loss5Blk c A 1 t) (loss5Blk c A 2 t) (loss5Blk c A 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation, at every point. -/
theorem body_obligation5 : BodyObligation (dat5 c A O Rc) (defs₀ (F := F)) 𝒱₀ (none : HIx 4) Set.univ := fun t => by
  rw [bigSep_W5, bigSep_W5]
  exact sound_body5 c A O Rc t

/-- In the form the region rule takes. -/
theorem body_obligation5_loose : BodyObligationLoose (dat5 c A O Rc) (defs₀ (F := F)) 𝒱₀ (none : HIx 4) Set.univ :=
  (body_obligation5 c A O Rc).loose

/-! ## The arrays when the region is left -/

theorem share5 (w : Fin cfg5.W) : (dat5 c A O Rc).share w = fullShare := (dat5 c A O Rc).share_full (fun _ => rfl) w

/-- The inputs are as they were. -/
theorem arrAt5_0 (n : ℕ) : (dat5 c A O Rc).arrAt 0 n = A 0 := (dat5 c A O Rc).arrAt_in 0 rfl n
theorem arrAt5_1 (n : ℕ) : (dat5 c A O Rc).arrAt 1 n = A 1 := (dat5 c A O Rc).arrAt_in 1 rfl n
theorem arrAt5_2 (n : ℕ) : (dat5 c A O Rc).arrAt 2 n = A 2 := (dat5 c A O Rc).arrAt_in 2 rfl n
theorem arrAt5_3 (n : ℕ) : (dat5 c A O Rc).arrAt 3 n = A 3 := (dat5 c A O Rc).arrAt_in 3 rfl n

/-- The output array is untouched until the last point's write-back, -/
theorem arrAt5_4_lt : ∀ n, n ≤ 3 → (dat5 c A O Rc).arrAt 4 n = A 4
  | 0, _ => rfl
  | n + 1, h => by
    have hn : n < cfg5.N := by rw [show cfg5.N = 4 from N_5]; omega
    rw [show n + 1 = (⟨n, hn⟩ : Fin cfg5.N).val + 1 from rfl, Dat.arrAt_succ,
      if_neg (fun hf => by have := (flush5_4 _).mp hf; dsimp only at this; omega)]
    exact arrAt5_4_lt n (by omega)

/-- THE RESULT: the output array when the region is left, its one block overwritten by the accumulator after the last
    point. -/
def loss5Out : Buf (Elt F) ((cfg5.win 4).arr.view.loc (c.tc : Thread nD τ)) :=
  ((cfg5.win 4).blk t5_3).view.write (Elt F) (A 4) (loss5Acc c A 3 (by rw [show cfg5.N = 4 from N_5]; decide)) Finset.univ

theorem arrAt5_4 : (dat5 c A O Rc).arrAt 4 cfg5.N = loss5Out c A := by
  show (dat5 c A O Rc).arrAt 4 ((t5_3 : Fin cfg5.N).val + 1) = _
  rw [Dat.arrAt_succ, if_pos ((flush5_4 _).mpr rfl), arrAt5_4_lt c A O Rc (t5_3 : Fin cfg5.N).val (le_refl 3)]
  rfl

/-- Read back through its block, the result is the accumulator after the last point. -/
theorem read_loss5Out :
    ((cfg5.win 4).blk t5_3).view.read (Elt F) (loss5Out c A)
      = loss5Acc c A 3 (by rw [show cfg5.N = 4 from N_5]; decide) :=
  View.read_write_univ _ _

end Cert.Proof.KB

end
-- ==== Proof.KB_Loss7.lean ====
import proofs.«215899_g5772436046013_cont_9to1c4b_742_31_alg».proof.Proof.KB_Common
import Idealize.ShloMosaic.Lib.Pipeline.Frame
import Idealize.ShloMosaic.Lib.Pipeline.FrameBody

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # One grid point of the loss7 kernel: its value and its run

The kernel body at a grid point reads a `1024 × 128` block `x0` of centre rows, a block `x1` of positive
context rows, the `20 × 1024 × 128` block `x2` of negative context rows and the `2688 × 21` sign matrix `x3`;
it forms the `1024 × 2688` matrix of products `[x0 * x1, x2[0] * x0, …, x2[19] * x0]`, rounds it to bf16,
multiplies by `x3`, applies `z ↦ min z 0 - log (1 + exp (-|z|))` entrywise, sums everything, and adds the sum
to the `1 × 1` accumulator, which it first sets to zero when the grid coordinate is `0`. -/

/-- The accumulator is reset exactly when the grid coordinate is zero (the body's scalar chain). -/
abbrev cond7 (i : grid7.Coords) : Prop :=
  (Scalar.cmpi .ne (Scalar.extui (Scalar.cmpi .eq (BitVec.ofNat 32 (i 0).val) 0#32)) 0#32) = 1#1

/-- Over the grid: at the first point only. -/
theorem hcond7 : ∀ t : Fin cfg7.N, cond7 (grid7.coords t) ↔ t.val % 4 = 0 :=
  (by decide +kernel : ∀ t : Fin grid7.N, cond7 (grid7.coords t) ↔ t.val % 4 = 0)

/-- A whole `1024 × 128` block as the body's load reads it. -/
abbrev loss7In (x : Vec F S1024x128 .f32) : Vec F S1024x128 .f32 :=
  View.ld (Val := Elt F) x (Rect.unit (s := S1024x128) ![0, 0] S1024x128.size inb_S1024x128_S1024x128_0_0)

/-- Row block 0 of the stacked operand: entries `(0, r, l)`. -/
abbrev loss7Row0 (x2 : Vec F S20x1024x128 .f32) : Vec F S1x1024x128 .f32 :=
  View.ld (Val := Elt F) x2 (Rect.unit (s := S20x1024x128) ![0, 0, 0] S1x1024x128.size inb_S20x1024x128_S1x1024x128_0_0_0)
/-- Row block 1 of the stacked operand: entries `(1, r, l)`. -/
abbrev loss7Row1 (x2 : Vec F S20x1024x128 .f32) : Vec F S1x1024x128 .f32 :=
  View.ld (Val := Elt F) x2 (Rect.unit (s := S20x1024x128) ![1, 0, 0] S1x1024x128.size inb_S20x1024x128_S1x1024x128_1_0_0)
/-- Row block 2 of the stacked operand: entries `(2, r, l)`. -/
abbrev loss7Row2 (x2 : Vec F S20x1024x128 .f32) : Vec F S1x1024x128 .f32 :=
  View.ld (Val := Elt F) x2 (Rect.unit (s := S20x1024x128) ![2, 0, 0] S1x1024x128.size inb_S20x1024x128_S1x1024x128_2_0_0)
/-- Row block 3 of the stacked operand: entries `(3, r, l)`. -/
abbrev loss7Row3 (x2 : Vec F S20x1024x128 .f32) : Vec F S1x1024x128 .f32 :=
  View.ld (Val := Elt F) x2 (Rect.unit (s := S20x1024x128) ![3, 0, 0] S1x1024x128.size inb_S20x1024x128_S1x1024x128_3_0_0)
/-- Row block 4 of the stacked operand: entries `(4, r, l)`. -/
abbrev loss7Row4 (x2 : Vec F S20x1024x128 .f32) : Vec F S1x1024x128 .f32 :=
  View.ld (Val := Elt F) x2 (Rect.unit (s := S20x1024x128) ![4, 0, 0] S1x1024x128.size inb_S20x1024x128_S1x1024x128_4_0_0)
/-- Row block 5 of the stacked operand: entries `(5, r, l)`. -/
abbrev loss7Row5 (x2 : Vec F S20x1024x128 .f32) : Vec F S1x1024x128 .f32 :=
  View.ld (Val := Elt F) x2 (Rect.unit (s := S20x1024x128) ![5, 0, 0] S1x1024x128.size inb_S20x1024x128_S1x1024x128_5_0_0)
/-- Row block 6 of the stacked operand: entries `(6, r, l)`. -/
abbrev loss7Row6 (x2 : Vec F S20x1024x128 .f32) : Vec F S1x1024x128 .f32 :=
  View.ld (Val := Elt F) x2 (Rect.unit (s := S20x1024x128) ![6, 0, 0] S1x1024x128.size inb_S20x1024x128_S1x1024x128_6_0_0)
/-- Row block 7 of the stacked operand: entries `(7, r, l)`. -/
abbrev loss7Row7 (x2 : Vec F S20x1024x128 .f32) : Vec F S1x1024x128 .f32 :=
  View.ld (Val := Elt F) x2 (Rect.unit (s := S20x1024x128) ![7, 0, 0] S1x1024x128.size inb_S20x1024x128_S1x1024x128_7_0_0)
/-- Row block 8 of the stacked operand: entries `(8, r, l)`. -/
abbrev loss7Row8 (x2 : Vec F S20x1024x128 .f32) : Vec F S1x1024x128 .f32 :=
  View.ld (Val := Elt F) x2 (Rect.unit (s := S20x1024x128) ![8, 0, 0] S1x1024x128.size inb_S20x1024x128_S1x1024x128_8_0_0)
/-- Row block 9 of the stacked operand: entries `(9, r, l)`. -/
abbrev loss7Row9 (x2 : Vec F S20x1024x128 .f32) : Vec F S1x1024x128 .f32 :=
  View.ld (Val := Elt F) x2 (Rect.unit (s := S20x1024x128) ![9, 0, 0] S1x1024x128.size inb_S20x1024x128_S1x1024x128_9_0_0)
/-- Row block 10 of the stacked operand: entries `(10, r, l)`. -/
abbrev loss7Row10 (x2 : Vec F S20x1024x128 .f32) : Vec F S1x1024x128 .f32 :=
  View.ld (Val := Elt F) x2 (Rect.unit (s := S20x1024x128) ![10, 0, 0] S1x1024x128.size inb_S20x1024x128_S1x1024x128_10_0_0)
/-- Row block 11 of the stacked operand: entries `(11, r, l)`. -/
abbrev loss7Row11 (x2 : Vec F S20x1024x128 .f32) : Vec F S1x1024x128 .f32 :=
  View.ld (Val := Elt F) x2 (Rect.unit (s := S20x1024x128) ![11, 0, 0] S1x1024x128.size inb_S20x1024x128_S1x1024x128_11_0_0)
/-- Row block 12 of the stacked operand: entries `(12, r, l)`. -/
abbrev loss7Row12 (x2 : Vec F S20x1024x128 .f32) : Vec F S1x1024x128 .f32 :=
  View.ld (Val := Elt F) x2 (Rect.unit (s := S20x1024x128) ![12, 0, 0] S1x1024x128.size inb_S20x1024x128_S1x1024x128_12_0_0)
/-- Row block 13 of the stacked operand: entries `(13, r, l)`. -/
abbrev loss7Row13 (x2 : Vec F S20x1024x128 .f32) : Vec F S1x1024x128 .f32 :=
  View.ld (Val := Elt F) x2 (Rect.unit (s := S20x1024x128) ![13, 0, 0] S1x1024x128.size inb_S20x1024x128_S1x1024x128_13_0_0)
/-- Row block 14 of the stacked operand: entries `(14, r, l)`. -/
abbrev loss7Row14 (x2 : Vec F S20x1024x128 .f32) : Vec F S1x1024x128 .f32 :=
  View.ld (Val := Elt F) x2 (Rect.unit (s := S20x1024x128) ![14, 0, 0] S1x1024x128.size inb_S20x1024x128_S1x1024x128_14_0_0)
/-- Row block 15 of the stacked operand: entries `(15, r, l)`. -/
abbrev loss7Row15 (x2 : Vec F S20x1024x128 .f32) : Vec F S1x1024x128 .f32 :=
  View.ld (Val := Elt F) x2 (Rect.unit (s := S20x1024x128) ![15, 0, 0] S1x1024x128.size inb_S20x1024x128_S1x1024x128_15_0_0)
/-- Row block 16 of the stacked operand: entries `(16, r, l)`. -/
abbrev loss7Row16 (x2 : Vec F S20x1024x128 .f32) : Vec F S1x1024x128 .f32 :=
  View.ld (Val := Elt F) x2 (Rect.unit (s := S20x1024x128) ![16, 0, 0] S1x1024x128.size inb_S20x1024x128_S1x1024x128_16_0_0)
/-- Row block 17 of the stacked operand: entries `(17, r, l)`. -/
abbrev loss7Row17 (x2 : Vec F S20x1024x128 .f32) : Vec F S1x1024x128 .f32 :=
  View.ld (Val := Elt F) x2 (Rect.unit (s := S20x1024x128) ![17, 0, 0] S1x1024x128.size inb_S20x1024x128_S1x1024x128_17_0_0)
/-- Row block 18 of the stacked operand: entries `(18, r, l)`. -/
abbrev loss7Row18 (x2 : Vec F S20x1024x128 .f32) : Vec F S1x1024x128 .f32 :=
  View.ld (Val := Elt F) x2 (Rect.unit (s := S20x1024x128) ![18, 0, 0] S1x1024x128.size inb_S20x1024x128_S1x1024x128_18_0_0)
/-- Row block 19 of the stacked operand: entries `(19, r, l)`. -/
abbrev loss7Row19 (x2 : Vec F S20x1024x128 .f32) : Vec F S1x1024x128 .f32 :=
  View.ld (Val := Elt F) x2 (Rect.unit (s := S20x1024x128) ![19, 0, 0] S1x1024x128.size inb_S20x1024x128_S1x1024x128_19_0_0)

/-- The `1024 × 2688` matrix of products: the positive products first, then the twenty negative ones. -/
def loss7Z (x0 x1 : Vec F S1024x128 .f32) (x2 : Vec F S20x1024x128 .f32) : FVec F S1024x2688 .f32 :=
  concatenate S1024x2688 1
    [⟨S1024x128, k7_pay6 (loss7In x0) (loss7In x1)⟩,
      ⟨S1024x128, k7_pay7 (loss7In x0) (loss7Row0 x2)⟩,
      ⟨S1024x128, k7_pay8 (loss7In x0) (loss7Row1 x2)⟩,
      ⟨S1024x128, k7_pay9 (loss7In x0) (loss7Row2 x2)⟩,
      ⟨S1024x128, k7_pay10 (loss7In x0) (loss7Row3 x2)⟩,
      ⟨S1024x128, k7_pay11 (loss7In x0) (loss7Row4 x2)⟩,
      ⟨S1024x128, k7_pay12 (loss7In x0) (loss7Row5 x2)⟩,
      ⟨S1024x128, k7_pay13 (loss7In x0) (loss7Row6 x2)⟩,
      ⟨S1024x128, k7_pay14 (loss7In x0) (loss7Row7 x2)⟩,
      ⟨S1024x128, k7_pay15 (k7_pay5 (loss7In x0)) (loss7Row8 x2)⟩,
      ⟨S1024x128, k7_pay16 (k7_pay5 (loss7In x0)) (loss7Row9 x2)⟩,
      ⟨S1024x128, k7_pay17 (k7_pay5 (loss7In x0)) (loss7Row10 x2)⟩,
      ⟨S1024x128, k7_pay18 (k7_pay5 (loss7In x0)) (loss7Row11 x2)⟩,
      ⟨S1024x128, k7_pay19 (k7_pay5 (loss7In x0)) (loss7Row12 x2)⟩,
      ⟨S1024x128, k7_pay20 (k7_pay5 (loss7In x0)) (loss7Row13 x2)⟩,
      ⟨S1024x128, k7_pay21 (k7_pay5 (loss7In x0)) (loss7Row14 x2)⟩,
      ⟨S1024x128, k7_pay22 (k7_pay5 (loss7In x0)) (loss7Row15 x2)⟩,
      ⟨S1024x128, k7_pay23 (k7_pay5 (loss7In x0)) (loss7Row16 x2)⟩,
      ⟨S1024x128, k7_pay24 (k7_pay5 (loss7In x0)) (loss7Row17 x2)⟩,
      ⟨S1024x128, k7_pay1 (k7_pay5 (loss7In x0)) (loss7Row18 x2)⟩,
      ⟨S1024x128, k7_pay2 (k7_pay5 (loss7In x0)) (loss7Row19 x2)⟩]
    concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x2688_d1

/-- What the body stores into the accumulator, given what it loaded from it (`acc`): `acc` plus the block's sum. -/
def loss7Step (x0 x1 : Vec F S1024x128 .f32) (x2 : Vec F S20x1024x128 .f32) (x3 : Vec F S2688x21 .bf16)
    (acc : Vec F S1x1 .f32) : Vec F S1x1 .f32 :=
  k7_pay4 (loss7Z x0 x1 x2)
    (View.ld (Val := Elt F) x3 (Rect.unit (s := S2688x21) ![0, 0] S2688x21.size inb_S2688x21_S2688x21_0_0)) acc

/-- At the first point: over the zero the body has just stored. -/
def loss7StepA (x0 x1 : Vec F S1024x128 .f32) (x2 : Vec F S20x1024x128 .f32) (x3 : Vec F S2688x21 .bf16) : Vec F S1x1 .f32 :=
  loss7Step x0 x1 x2 x3 (k7_pay3 (F := F))

/-- At a later point: over what the point before left (`prev`). -/
def loss7StepB (x0 x1 : Vec F S1024x128 .f32) (x2 : Vec F S20x1024x128 .f32) (x3 : Vec F S2688x21 .bf16)
    (prev : Vec F S1x1 .f32) : Vec F S1x1 .f32 :=
  loss7Step x0 x1 x2 x3
    (View.ld (Val := Elt F) prev (Rect.unit (s := S1x1) ![0, 0] S1x1.size inb_S1x1_S1x1_0_0))

/-- A store through the whole `1 × 1` rectangle leaves its payload, whatever was stored before. -/
theorem read_writes_whole11_7 {κ : Kind} {sp : Space} (v : View sig κ sp S1x1 .f32) (f : v.ty.Contents (Elt F))
    (w : Vec F S1x1 .f32) (L : List (View.Piece (Elt F) S1x1 .f32)) :
    v.read (Elt F) (v.writes (Elt F) f (⟨Rect.unit (s := S1x1) ![0, 0] S1x1.size inb_S1x1_S1x1_0_0, w⟩ :: L)) = w := by
  funext y
  have h := View.read_writes_cons_emb v f (Rect.unit (s := S1x1) ![0, 0] S1x1.size inb_S1x1_S1x1_0_0) w L y
  have e : (Rect.unit (s := S1x1) ![0, 0] S1x1.size inb_S1x1_S1x1_0_0).emb y = y := by
    funext a; apply Fin.ext
    rw [Rect.emb_apply]
    fin_cases a <;> simp
  rw [e] at h; exact h

set_option maxHeartbeats 1000000 in
/-- The body at the first point, on whole staging memrefs holding the blocks: the inputs are left as they were and the
    accumulator holds `loss7StepA` of them. -/
theorem loss7_run_A (c : Dev nD) (i : grid7.Coords)
    (arg1 : Memref sig .tc .vmem S1024x128 .f32) (harg1 : arg1.IsWhole)
    (arg2 : Memref sig .tc .vmem S1024x128 .f32) (harg2 : arg2.IsWhole)
    (arg3 : Memref sig .tc .vmem S20x1024x128 .f32) (harg3 : arg3.IsWhole)
    (arg4 : Memref sig .tc .vmem S2688x21 .bf16) (harg4 : arg4.IsWhole)
    (arg5 : Memref sig .tc .vmem S1x1 .f32) (harg5 : arg5.IsWhole) (hc0 : cond7 i)
    (x0 x1 : Vec F S1024x128 .f32) (x2 : Vec F S20x1024x128 .f32) (x3 : Vec F S2688x21 .bf16)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (loss7StepA x0 x1 x2 x3)) -∗ K ⟨⟩))
      ⊢ wp frame (wpE (defs₀ (F := F)) 𝒱₀ c none) E (cc7__loss_body i arg1 harg1 arg2 harg2 arg3 harg3 arg4 harg4 arg5 harg5) K := by
  simp only [cc7__loss_body_eq_skeleton]; unfold cc7__loss_body_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1
  obtain rfl := harg3.eq_unread hf2; obtain rfl := harg4.eq_unread hf3
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [read_writes_whole11_7]
  sl_unfold_run_names
  simp only [View.readAt_eq_ld]
  rw [harg1.read_unread, harg2.read_unread, harg3.read_unread, harg4.read_unread, View.readCov_cons_toLoadRect]
  rfl

set_option maxHeartbeats 1000000 in
/-- The body at a later point: the accumulator, found at `prev`, holds `loss7StepB` of the blocks and `prev`. -/
theorem loss7_run_B (c : Dev nD) (i : grid7.Coords)
    (arg1 : Memref sig .tc .vmem S1024x128 .f32) (harg1 : arg1.IsWhole)
    (arg2 : Memref sig .tc .vmem S1024x128 .f32) (harg2 : arg2.IsWhole)
    (arg3 : Memref sig .tc .vmem S20x1024x128 .f32) (harg3 : arg3.IsWhole)
    (arg4 : Memref sig .tc .vmem S2688x21 .bf16) (harg4 : arg4.IsWhole)
    (arg5 : Memref sig .tc .vmem S1x1 .f32) (harg5 : arg5.IsWhole) (hc0 : ¬cond7 i)
    (x0 x1 : Vec F S1024x128 .f32) (x2 : Vec F S20x1024x128 .f32) (x3 : Vec F S2688x21 .bf16) (prev : Vec F S1x1 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare prev
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (loss7StepB x0 x1 x2 x3 prev)) -∗ K ⟨⟩))
      ⊢ wp frame (wpE (defs₀ (F := F)) 𝒱₀ c none) E (cc7__loss_body i arg1 harg1 arg2 harg2 arg3 harg3 arg4 harg4 arg5 harg5) K := by
  simp only [cc7__loss_body_eq_skeleton]; unfold cc7__loss_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1
  obtain rfl := harg3.eq_unread hf2; obtain rfl := harg4.eq_unread hf3
  obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [read_writes_whole11_7]
  sl_unfold_run_names
  simp only [View.readAt_eq_ld]
  rw [harg1.read_unread, harg2.read_unread, harg3.read_unread, harg4.read_unread, harg5.read_unread]
  rfl

end Cert.Proof.KB

end
-- ==== Proof.KB_Loss7Dat.lean ====
import proofs.«215899_g5772436046013_cont_9to1c4b_742_31_alg».proof.Proof.KB_Loss7
import Idealize.ShloMosaic.Lib.Pipeline.Frame
import Idealize.ShloMosaic.Lib.Pipeline.FrameBody

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # The loss7 kernel over its grid: the accumulator point by point, and the body obligation

Four grid points; at point `t` the body sees block `t` of the centre rows, of the positive rows and of the negative
rows, and the whole sign matrix; the `1 × 1` output is an accumulator, zeroed at point `0` and written back after
point `3`. -/

/-- The five arrays' contents when the region is entered, window by window. -/
abbrev Loss7Arrs (F : FTy → Type) (c : Dev nD) : Type :=
  (w : Fin cfg7.W) → Buf (Elt F) ((cfg7.win w).arr.view.loc (c.tc : Thread nD τ))

/-- The family from its five members. -/
def loss7Arrs (c : Dev nD)
    (a0 : Buf (Elt F) ((cfg7.win 0).arr.view.loc (c.tc : Thread nD τ)))
    (a1 : Buf (Elt F) ((cfg7.win 1).arr.view.loc (c.tc : Thread nD τ)))
    (a2 : Buf (Elt F) ((cfg7.win 2).arr.view.loc (c.tc : Thread nD τ)))
    (a3 : Buf (Elt F) ((cfg7.win 3).arr.view.loc (c.tc : Thread nD τ)))
    (aOut : Buf (Elt F) ((cfg7.win 4).arr.view.loc (c.tc : Thread nD τ))) : Loss7Arrs F c := fun w =>
  match w with
  | ⟨0, _⟩ => a0
  | ⟨1, _⟩ => a1
  | ⟨2, _⟩ => a2
  | ⟨3, _⟩ => a3
  | ⟨4, _⟩ => aOut

variable (c : Dev nD) (A : Loss7Arrs F c) (O : CellTallies nD τ sig (HIx 4)) (Rc : Set (SemLoc sig × HIx 4))

/-- Window `w`'s block at point `t`, read off its array's entry contents. -/
def loss7Blk (w : Fin cfg7.W) (t : Fin cfg7.N) :
    ((cfg7.win w).xblock (cfg7.grid.coords t)).Idx → Elt F (cfg7.win w).elt :=
  ((cfg7.win w).blk t).view.read (Elt F) (A w)

/-- THE ACCUMULATION: what the output's staging buffer holds after the body at point `n`. -/
def loss7Acc : (n : ℕ) → n < cfg7.N → Vec F S1x1 .f32
  | 0, hn => loss7StepA (loss7Blk c A 0 ⟨0, hn⟩) (loss7Blk c A 1 ⟨0, hn⟩) (loss7Blk c A 2 ⟨0, hn⟩) (loss7Blk c A 3 ⟨0, hn⟩)
  | n + 1, hn => loss7StepB (loss7Blk c A 0 ⟨n + 1, hn⟩) (loss7Blk c A 1 ⟨n + 1, hn⟩) (loss7Blk c A 2 ⟨n + 1, hn⟩)
      (loss7Blk c A 3 ⟨n + 1, hn⟩) (loss7Acc n (Nat.lt_of_succ_lt hn))

theorem loss7Acc_A (t : Fin cfg7.N) (h0 : t.val % 4 = 0) :
    loss7Acc c A t.val t.isLt = loss7StepA (loss7Blk c A 0 t) (loss7Blk c A 1 t) (loss7Blk c A 2 t) (loss7Blk c A 3 t) := by
  obtain ⟨n, hn⟩ := t
  have hN : n < 4 := lt_of_lt_of_eq hn (show cfg7.N = 4 from N_7)
  cases n with
  | zero => rfl
  | succ n => exfalso; dsimp only at h0; omega

theorem loss7Acc_B (t : Fin cfg7.N) (h0 : ¬t.val % 4 = 0) :
    loss7Acc c A t.val t.isLt = loss7StepB (loss7Blk c A 0 t) (loss7Blk c A 1 t) (loss7Blk c A 2 t) (loss7Blk c A 3 t)
      (loss7Acc c A (t.val - 1) (Nat.lt_of_le_of_lt (Nat.sub_le _ _) t.isLt)) := by
  obtain ⟨n, hn⟩ := t
  cases n with
  | zero => exact absurd (Nat.zero_mod _) h0
  | succ n => rfl

/-- The pipeline's proof data on core `c`: the arrays at `A`; after the body each input's buffer at its block and the
    output's at `loss7Acc`; the invariant the scoped buffers no window stages; full shares; what the core owes
    (`O`) and the bound on its recorded pairs (`Rc`) unchanged by the body. -/
def dat7 : Dat τ (Elt F) (HIx 4) ℕ UU ℕ cfg7 c where
  A := A
  after w t := match w with
    | ⟨0, _⟩ => loss7Blk c A 0 t
    | ⟨1, _⟩ => loss7Blk c A 1 t
    | ⟨2, _⟩ => loss7Blk c A 2 t
    | ⟨3, _⟩ => loss7Blk c A 3 t
    | ⟨4, _⟩ => loss7Acc c A t.val t.isLt
  Φ _ := Pipeline.scopedRest cfg7.spec c
  q _ := fullShare
  owed _ := O
  recorded _ := Rc

theorem dat7_A (w : Fin cfg7.W) : (dat7 c A O Rc).A w = A w := rfl
theorem after7_0 (t : Fin cfg7.N) : (dat7 c A O Rc).after 0 t = loss7Blk c A 0 t := by dsimp only [dat7]
theorem after7_1 (t : Fin cfg7.N) : (dat7 c A O Rc).after 1 t = loss7Blk c A 1 t := by dsimp only [dat7]
theorem after7_2 (t : Fin cfg7.N) : (dat7 c A O Rc).after 2 t = loss7Blk c A 2 t := by dsimp only [dat7]
theorem after7_3 (t : Fin cfg7.N) : (dat7 c A O Rc).after 3 t = loss7Blk c A 3 t := by dsimp only [dat7]
theorem after7_4 (t : Fin cfg7.N) : (dat7 c A O Rc).after 4 t = loss7Acc c A t.val t.isLt := by dsimp only [dat7]

/-- Each input's current staging buffer holds its block at every point, fetched there or not. -/
theorem before7_0 (t : Fin cfg7.N) (d) : (dat7 c A O Rc).before 0 t d = loss7Blk c A 0 t :=
  ((dat7 c A O Rc).before_in_eq_fetched 0 rfl (fun _ => rfl) (fun _ _ _ => rfl)
    (fun t => by rw [after7_0]; unfold Dat.blockOf loss7Blk; rfl) t d).trans (by unfold Dat.fetched Dat.blockOf loss7Blk; rfl)
theorem before7_1 (t : Fin cfg7.N) (d) : (dat7 c A O Rc).before 1 t d = loss7Blk c A 1 t :=
  ((dat7 c A O Rc).before_in_eq_fetched 1 rfl (fun _ => rfl) (fun _ _ _ => rfl)
    (fun t => by rw [after7_1]; unfold Dat.blockOf loss7Blk; rfl) t d).trans (by unfold Dat.fetched Dat.blockOf loss7Blk; rfl)
theorem before7_2 (t : Fin cfg7.N) (d) : (dat7 c A O Rc).before 2 t d = loss7Blk c A 2 t :=
  ((dat7 c A O Rc).before_in_eq_fetched 2 rfl (fun _ => rfl) (fun _ _ _ => rfl)
    (fun t => by rw [after7_2]; unfold Dat.blockOf loss7Blk; rfl) t d).trans (by unfold Dat.fetched Dat.blockOf loss7Blk; rfl)
theorem before7_3 (t : Fin cfg7.N) (d) : (dat7 c A O Rc).before 3 t d = loss7Blk c A 3 t :=
  ((dat7 c A O Rc).before_in_eq_fetched 3 rfl (fun _ => rfl) (fun _ _ _ => rfl)
    (fun t => by rw [after7_3]; unfold Dat.blockOf loss7Blk; rfl) t d).trans (by unfold Dat.fetched Dat.blockOf loss7Blk; rfl)

/-- After the first point the output's staging buffer holds what the body left at the point before: it is not written
    back between. -/
theorem before7_4 (t : Fin cfg7.N) (h0 : ¬t.val % 4 = 0) (d) :
    (dat7 c A O Rc).before 4 t d = loss7Acc c A (t.val - 1) (Nat.lt_of_le_of_lt (Nat.sub_le _ _) t.isLt) := by
  have hN : t.val < 4 := lt_of_lt_of_eq t.isLt (show cfg7.N = 4 from N_7)
  rw [Dat.before_out_kept _ 4 rfl t (by omega)
    (Bool.eq_false_iff.mpr fun h => by have := (flush7_4 _).mp h; dsimp only at this; omega)
    (fun _ => rfl) (fun _ _ => rfl)]
  dsimp only [dat7]

/-! ## The body obligation, at a generic point -/

/-- What the body is called with at point `t`, the windows one by one, -/
def bodyPre7 (t : Fin cfg7.N) : sProp 𝕄 :=
  iprop((dat7 c A O Rc).Φ t.castSucc ∗ (dat7 c A O Rc).owesAt none t.castSucc
    ∗ (∃ d, owns (c : Thread nD τ) (win7_0.stage (cfg7.slots t 0)) fullShare ((dat7 c A O Rc).before 0 t d))
    ∗ (∃ d, owns (c : Thread nD τ) (win7_1.stage (cfg7.slots t 1)) fullShare ((dat7 c A O Rc).before 1 t d))
    ∗ (∃ d, owns (c : Thread nD τ) (win7_2.stage (cfg7.slots t 2)) fullShare ((dat7 c A O Rc).before 2 t d))
    ∗ (∃ d, owns (c : Thread nD τ) (win7_3.stage (cfg7.slots t 3)) fullShare ((dat7 c A O Rc).before 3 t d))
    ∗ (∃ d, owns (c : Thread nD τ) (win7_4.stage (cfg7.slots t 4)) fullShare ((dat7 c A O Rc).before 4 t d)))

/-- and what it returns. -/
def bodyPost7 (t : Fin cfg7.N) : sProp 𝕄 :=
  iprop((dat7 c A O Rc).Φ t.succ ∗ (dat7 c A O Rc).owesAt none t.succ
    ∗ owns (c : Thread nD τ) (win7_0.stage (cfg7.slots t 0)) fullShare ((dat7 c A O Rc).after 0 t)
    ∗ owns (c : Thread nD τ) (win7_1.stage (cfg7.slots t 1)) fullShare ((dat7 c A O Rc).after 1 t)
    ∗ owns (c : Thread nD τ) (win7_2.stage (cfg7.slots t 2)) fullShare ((dat7 c A O Rc).after 2 t)
    ∗ owns (c : Thread nD τ) (win7_3.stage (cfg7.slots t 3)) fullShare ((dat7 c A O Rc).after 3 t)
    ∗ owns (c : Thread nD τ) (win7_4.stage (cfg7.slots t 4)) fullShare ((dat7 c A O Rc).after 4 t))

set_option maxHeartbeats 800000 in
/-- The body at any point: the inputs' buffers hold their blocks; at point `0` the accumulator is reset, at a later
    point it holds what the point before left; the invariant and what the core owes pass through untouched. -/
theorem sound_body7 (t : Fin cfg7.N) :
    bodyPre7 c A O Rc t ⊢ wp frame (wpE (defs₀ (F := F)) 𝒱₀ c none) Set.univ (bodyAt7 t) (fun _ => bodyPost7 c A O Rc t) := by
  unfold bodyPre7 bodyPost7 bodyAt7
  simp only [before7_0, before7_1, before7_2, before7_3]
  rw [show (dat7 c A O Rc).Φ t.succ = (dat7 c A O Rc).Φ t.castSucc from rfl,
    show (dat7 c A O Rc).owesAt none t.succ = (dat7 c A O Rc).owesAt none t.castSucc from rfl,
    after7_0, after7_1, after7_2, after7_3, after7_4]
  by_cases h0 : t.val % 4 = 0
  · rw [loss7Acc_A c A t h0]
    iintro ⟨HΦ, Ho, ⟨%d0, H0⟩, ⟨%d1, H1⟩, ⟨%d2, H2⟩, ⟨%d3, H3⟩, ⟨%d4, H4⟩⟩
    iapply (loss7_run_A c (grid7.coords t) _ _ _ _ _ _ _ _ _ _ ((hcond7 t).mpr h0)
      (loss7Blk c A 0 t) (loss7Blk c A 1 t) (loss7Blk c A 2 t) (loss7Blk c A 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [loss7Acc_B c A t h0]
    simp only [before7_4 c A O Rc t h0]
    iintro ⟨HΦ, Ho, ⟨%d0, H0⟩, ⟨%d1, H1⟩, ⟨%d2, H2⟩, ⟨%d3, H3⟩, ⟨%d4, H4⟩⟩
    iapply (loss7_run_B c (grid7.coords t) _ _ _ _ _ _ _ _ _ _ (fun h => h0 ((hcond7 t).mp h))
      (loss7Blk c A 0 t) (loss7Blk c A 1 t) (loss7Blk c A 2 t) (loss7Blk c A 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation, at every point. -/
theorem body_obligation7 : BodyObligation (dat7 c A O Rc) (defs₀ (F := F)) 𝒱₀ (none : HIx 4) Set.univ := fun t => by
  rw [bigSep_W7, bigSep_W7]
  exact sound_body7 c A O Rc t

/-- In the form the region rule takes. -/
theorem body_obligation7_loose : BodyObligationLoose (dat7 c A O Rc) (defs₀ (F := F)) 𝒱₀ (none : HIx 4) Set.univ :=
  (body_obligation7 c A O Rc).loose

/-! ## The arrays when the region is left -/

theorem share7 (w : Fin cfg7.W) : (dat7 c A O Rc).share w = fullShare := (dat7 c A O Rc).share_full (fun _ => rfl) w

/-- The inputs are as they were. -/
theorem arrAt7_0 (n : ℕ) : (dat7 c A O Rc).arrAt 0 n = A 0 := (dat7 c A O Rc).arrAt_in 0 rfl n
theorem arrAt7_1 (n : ℕ) : (dat7 c A O Rc).arrAt 1 n = A 1 := (dat7 c A O Rc).arrAt_in 1 rfl n
theorem arrAt7_2 (n : ℕ) : (dat7 c A O Rc).arrAt 2 n = A 2 := (dat7 c A O Rc).arrAt_in 2 rfl n
theorem arrAt7_3 (n : ℕ) : (dat7 c A O Rc).arrAt 3 n = A 3 := (dat7 c A O Rc).arrAt_in 3 rfl n

/-- The output array is untouched until the last point's write-back, -/
theorem arrAt7_4_lt : ∀ n, n ≤ 3 → (dat7 c A O Rc).arrAt 4 n = A 4
  | 0, _ => rfl
  | n + 1, h => by
    have hn : n < cfg7.N := by rw [show cfg7.N = 4 from N_7]; omega
    rw [show n + 1 = (⟨n, hn⟩ : Fin cfg7.N).val + 1 from rfl, Dat.arrAt_succ,
      if_neg (fun hf => by have := (flush7_4 _).mp hf; dsimp only at this; omega)]
    exact arrAt7_4_lt n (by omega)

/-- THE RESULT: the output array when the region is left, its one block overwritten by the accumulator after the last
    point. -/
def loss7Out : Buf (Elt F) ((cfg7.win 4).arr.view.loc (c.tc : Thread nD τ)) :=
  ((cfg7.win 4).blk t7_3).view.write (Elt F) (A 4) (loss7Acc c A 3 (by rw [show cfg7.N = 4 from N_7]; decide)) Finset.univ

theorem arrAt7_4 : (dat7 c A O Rc).arrAt 4 cfg7.N = loss7Out c A := by
  show (dat7 c A O Rc).arrAt 4 ((t7_3 : Fin cfg7.N).val + 1) = _
  rw [Dat.arrAt_succ, if_pos ((flush7_4 _).mpr rfl), arrAt7_4_lt c A O Rc (t7_3 : Fin cfg7.N).val (le_refl 3)]
  rfl

/-- Read back through its block, the result is the accumulator after the last point. -/
theorem read_loss7Out :
    ((cfg7.win 4).blk t7_3).view.read (Elt F) (loss7Out c A)
      = loss7Acc c A 3 (by rw [show cfg7.N = 4 from N_7]; decide) :=
  View.read_write_univ _ _

end Cert.Proof.KB

end
-- ==== Proof.KB_Calls.lean ====
/-
  The pure functions of the calls and regions made concrete — a call leaves in its result arrays the tables' rows its
  index rows name, a region leaves in its cell the summed block losses of its four blocks —, what each tile of each
  call is handed and hands back along @main's chain of contents, and each call's step of @main: the call's six arrays
  out of the held set among the 32 tiles, and back at the gathered rows.
-/
import proofs.«215899_g5772436046013_cont_9to1c4b_742_31_alg».proof.Proof.KB_Hmain
import proofs.«215899_g5772436046013_cont_9to1c4b_742_31_alg».proof.Proof.KB_Run
import proofs.«215899_g5772436046013_cont_9to1c4b_742_31_alg».proof.Proof.KB_Split
import proofs.«215899_g5772436046013_cont_9to1c4b_742_31_alg».proof.Proof.KB_Split_c1
import proofs.«215899_g5772436046013_cont_9to1c4b_742_31_alg».proof.Proof.KB_Split_c2
import proofs.«215899_g5772436046013_cont_9to1c4b_742_31_alg».proof.Proof.KB_Split_c3
import proofs.«215899_g5772436046013_cont_9to1c4b_742_31_alg».proof.Proof.KB_LossDat
import proofs.«215899_g5772436046013_cont_9to1c4b_742_31_alg».proof.Proof.KB_Loss3Dat
import proofs.«215899_g5772436046013_cont_9to1c4b_742_31_alg».proof.Proof.KB_Loss5Dat
import proofs.«215899_g5772436046013_cont_9to1c4b_742_31_alg».proof.Proof.KB_Loss7Dat

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

open Idealize.ShloMosaic.TcCoe

local notation "𝕄" => MT nD τ sig (HIx 4) (Elt F) ℕ UU ℕ

/-- The calls' and regions' value functions on device `d`. -/
def pureK (d : Dev nD) : Pure F where
  g0 := fun T IX => gV0 d T IX
  g1 := fun T IX => gV1 d T IX
  g2 := fun T IX => gV2 d T IX
  loss0 := fun a0 a1 a2 a3 aOut => lossOut d (lossArrs d a0 a1 a2 a3 aOut)
  loss1 := fun a0 a1 a2 a3 aOut => loss3Out d (loss3Arrs d a0 a1 a2 a3 aOut)
  loss2 := fun a0 a1 a2 a3 aOut => loss5Out d (loss5Arrs d a0 a1 a2 a3 aOut)
  loss3 := fun a0 a1 a2 a3 aOut => loss7Out d (loss7Arrs d a0 a1 a2 a3 aOut)

variable (m : (ℓ : Loc nD τ sig) → Buf (Elt F) ℓ)

/-- What tile (c, i) of call q is handed: its shares at the contents @main's chain has at that call. -/
def gofK : (q : Fin 4) → Dev nD → Fin ((K (F := F)).nCore q) → Fin ((K (F := F)).nSub q) → sProp 𝕄
  | ⟨0, _⟩ => fun d c i => goRes0 d (W1 m d (rT main_arg0)) (W1 m d (rT main_arg1)) (W1 m d (rT main_v26)) c i
  | ⟨1, _⟩ => fun d c i => goRes1 d (W5 (pureK d) m d (rT main_arg0)) (W5 (pureK d) m d (rT main_arg1)) (W5 (pureK d) m d (rT main_v32)) c i
  | ⟨2, _⟩ => fun d c i => goRes2 d (W9 (pureK d) m d (rT main_arg0)) (W9 (pureK d) m d (rT main_arg1)) (W9 (pureK d) m d (rT main_v38)) c i
  | ⟨3, _⟩ => fun d c i => goRes3 d (W13 (pureK d) m d (rT main_arg0)) (W13 (pureK d) m d (rT main_arg1)) (W13 (pureK d) m d (rT main_v44)) c i

/-- What it hands back: its output rows at the gathered rows. -/
def tdfK : (q : Fin 4) → Dev nD → Fin ((K (F := F)).nCore q) → Fin ((K (F := F)).nSub q) → sProp 𝕄
  | ⟨0, _⟩ => fun d c i => tdRes0 d (W1 m d (rT main_arg0)) (W1 m d (rT main_arg1)) (W1 m d (rT main_v26)) c i
  | ⟨1, _⟩ => fun d c i => tdRes1 d (W5 (pureK d) m d (rT main_arg0)) (W5 (pureK d) m d (rT main_arg1)) (W5 (pureK d) m d (rT main_v32)) c i
  | ⟨2, _⟩ => fun d c i => tdRes2 d (W9 (pureK d) m d (rT main_arg0)) (W9 (pureK d) m d (rT main_arg1)) (W9 (pureK d) m d (rT main_v38)) c i
  | ⟨3, _⟩ => fun d c i => tdRes3 d (W13 (pureK d) m d (rT main_arg0)) (W13 (pureK d) m d (rT main_arg1)) (W13 (pureK d) m d (rT main_v44)) c i

/-- The launch handshakes' payloads. -/
abbrev PK : (K (F := F)).Pay (nD := nD) (Val := Elt F) (Name := ℕ) (U := UU) := mkP (gofK m) (tdfK m)

variable (d : Dev nD)

/-- Call 0's step of @main. -/
theorem call0_step : CallStep d (PK m) 0 CallRefs0 (W1 m d) (W2 (pureK d) m d) := by
  have h0 : (W2 (pureK d) m d) (rT main_arg0) = (W1 m d) (rT main_arg0) := by
    unfold W2; rw [Function.update_of_ne (show rT main_arg0 ≠ rT main_v27_2 by decide), Function.update_of_ne (show rT main_arg0 ≠ rT main_v27_1 by decide), Function.update_of_ne (show rT main_arg0 ≠ rT main_v27_0 by decide)]
  have h1 : (W2 (pureK d) m d) (rT main_arg1) = (W1 m d) (rT main_arg1) := by
    unfold W2; rw [Function.update_of_ne (show rT main_arg1 ≠ rT main_v27_2 by decide), Function.update_of_ne (show rT main_arg1 ≠ rT main_v27_1 by decide), Function.update_of_ne (show rT main_arg1 ≠ rT main_v27_0 by decide)]
  have hix : (W2 (pureK d) m d) (rT main_v26) = (W1 m d) (rT main_v26) := by
    unfold W2; rw [Function.update_of_ne (show rT main_v26 ≠ rT main_v27_2 by decide), Function.update_of_ne (show rT main_v26 ≠ rT main_v27_1 by decide), Function.update_of_ne (show rT main_v26 ≠ rT main_v27_0 by decide)]
  have ho0 : (W2 (pureK d) m d) (rT main_v27_0) = gV0 d ((W1 m d) (rT main_arg0)) ((W1 m d) (rT main_v26)) := by
    unfold W2; rw [Function.update_of_ne (show rT main_v27_0 ≠ rT main_v27_2 by decide), Function.update_of_ne (show rT main_v27_0 ≠ rT main_v27_1 by decide), Function.update_self]; rfl
  have ho1 : (W2 (pureK d) m d) (rT main_v27_1) = gV1 d ((W1 m d) (rT main_arg1)) ((W1 m d) (rT main_v26)) := by
    unfold W2; rw [Function.update_of_ne (show rT main_v27_1 ≠ rT main_v27_2 by decide), Function.update_self]; rfl
  have ho2 : (W2 (pureK d) m d) (rT main_v27_2) = gV2 d ((W1 m d) (rT main_arg1)) ((W1 m d) (rT main_v26)) := by
    unfold W2; rw [Function.update_self]; rfl
  exact call0_split_wand d (W1 m d) (W2 (pureK d) m d) h0 h1 hix ho0 ho1 ho2

/-- Call 1's step of @main. -/
theorem call1_step : CallStep d (PK m) 1 CallRefs1 (W5 (pureK d) m d) (W6 (pureK d) m d) := by
  have h0 : (W6 (pureK d) m d) (rT main_arg0) = (W5 (pureK d) m d) (rT main_arg0) := by
    unfold W6; rw [Function.update_of_ne (show rT main_arg0 ≠ rT main_v33_2 by decide), Function.update_of_ne (show rT main_arg0 ≠ rT main_v33_1 by decide), Function.update_of_ne (show rT main_arg0 ≠ rT main_v33_0 by decide)]
  have h1 : (W6 (pureK d) m d) (rT main_arg1) = (W5 (pureK d) m d) (rT main_arg1) := by
    unfold W6; rw [Function.update_of_ne (show rT main_arg1 ≠ rT main_v33_2 by decide), Function.update_of_ne (show rT main_arg1 ≠ rT main_v33_1 by decide), Function.update_of_ne (show rT main_arg1 ≠ rT main_v33_0 by decide)]
  have hix : (W6 (pureK d) m d) (rT main_v32) = (W5 (pureK d) m d) (rT main_v32) := by
    unfold W6; rw [Function.update_of_ne (show rT main_v32 ≠ rT main_v33_2 by decide), Function.update_of_ne (show rT main_v32 ≠ rT main_v33_1 by decide), Function.update_of_ne (show rT main_v32 ≠ rT main_v33_0 by decide)]
  have ho0 : (W6 (pureK d) m d) (rT main_v33_0) = gV0 d ((W5 (pureK d) m d) (rT main_arg0)) ((W5 (pureK d) m d) (rT main_v32)) := by
    unfold W6; rw [Function.update_of_ne (show rT main_v33_0 ≠ rT main_v33_2 by decide), Function.update_of_ne (show rT main_v33_0 ≠ rT main_v33_1 by decide), Function.update_self]; rfl
  have ho1 : (W6 (pureK d) m d) (rT main_v33_1) = gV1 d ((W5 (pureK d) m d) (rT main_arg1)) ((W5 (pureK d) m d) (rT main_v32)) := by
    unfold W6; rw [Function.update_of_ne (show rT main_v33_1 ≠ rT main_v33_2 by decide), Function.update_self]; rfl
  have ho2 : (W6 (pureK d) m d) (rT main_v33_2) = gV2 d ((W5 (pureK d) m d) (rT main_arg1)) ((W5 (pureK d) m d) (rT main_v32)) := by
    unfold W6; rw [Function.update_self]; rfl
  exact call1_split_wand d (W5 (pureK d) m d) (W6 (pureK d) m d) h0 h1 hix ho0 ho1 ho2

/-- Call 2's step of @main. -/
theorem call2_step : CallStep d (PK m) 2 CallRefs2 (W9 (pureK d) m d) (W10 (pureK d) m d) := by
  have h0 : (W10 (pureK d) m d) (rT main_arg0) = (W9 (pureK d) m d) (rT main_arg0) := by
    unfold W10; rw [Function.update_of_ne (show rT main_arg0 ≠ rT main_v39_2 by decide), Function.update_of_ne (show rT main_arg0 ≠ rT main_v39_1 by decide), Function.update_of_ne (show rT main_arg0 ≠ rT main_v39_0 by decide)]
  have h1 : (W10 (pureK d) m d) (rT main_arg1) = (W9 (pureK d) m d) (rT main_arg1) := by
    unfold W10; rw [Function.update_of_ne (show rT main_arg1 ≠ rT main_v39_2 by decide), Function.update_of_ne (show rT main_arg1 ≠ rT main_v39_1 by decide), Function.update_of_ne (show rT main_arg1 ≠ rT main_v39_0 by decide)]
  have hix : (W10 (pureK d) m d) (rT main_v38) = (W9 (pureK d) m d) (rT main_v38) := by
    unfold W10; rw [Function.update_of_ne (show rT main_v38 ≠ rT main_v39_2 by decide), Function.update_of_ne (show rT main_v38 ≠ rT main_v39_1 by decide), Function.update_of_ne (show rT main_v38 ≠ rT main_v39_0 by decide)]
  have ho0 : (W10 (pureK d) m d) (rT main_v39_0) = gV0 d ((W9 (pureK d) m d) (rT main_arg0)) ((W9 (pureK d) m d) (rT main_v38)) := by
    unfold W10; rw [Function.update_of_ne (show rT main_v39_0 ≠ rT main_v39_2 by decide), Function.update_of_ne (show rT main_v39_0 ≠ rT main_v39_1 by decide), Function.update_self]; rfl
  have ho1 : (W10 (pureK d) m d) (rT main_v39_1) = gV1 d ((W9 (pureK d) m d) (rT main_arg1)) ((W9 (pureK d) m d) (rT main_v38)) := by
    unfold W10; rw [Function.update_of_ne (show rT main_v39_1 ≠ rT main_v39_2 by decide), Function.update_self]; rfl
  have ho2 : (W10 (pureK d) m d) (rT main_v39_2) = gV2 d ((W9 (pureK d) m d) (rT main_arg1)) ((W9 (pureK d) m d) (rT main_v38)) := by
    unfold W10; rw [Function.update_self]; rfl
  exact call2_split_wand d (W9 (pureK d) m d) (W10 (pureK d) m d) h0 h1 hix ho0 ho1 ho2

/-- Call 3's step of @main. -/
theorem call3_step : CallStep d (PK m) 3 CallRefs3 (W13 (pureK d) m d) (W14 (pureK d) m d) := by
  have h0 : (W14 (pureK d) m d) (rT main_arg0) = (W13 (pureK d) m d) (rT main_arg0) := by
    unfold W14; rw [Function.update_of_ne (show rT main_arg0 ≠ rT main_v45_2 by decide), Function.update_of_ne (show rT main_arg0 ≠ rT main_v45_1 by decide), Function.update_of_ne (show rT main_arg0 ≠ rT main_v45_0 by decide)]
  have h1 : (W14 (pureK d) m d) (rT main_arg1) = (W13 (pureK d) m d) (rT main_arg1) := by
    unfold W14; rw [Function.update_of_ne (show rT main_arg1 ≠ rT main_v45_2 by decide), Function.update_of_ne (show rT main_arg1 ≠ rT main_v45_1 by decide), Function.update_of_ne (show rT main_arg1 ≠ rT main_v45_0 by decide)]
  have hix : (W14 (pureK d) m d) (rT main_v44) = (W13 (pureK d) m d) (rT main_v44) := by
    unfold W14; rw [Function.update_of_ne (show rT main_v44 ≠ rT main_v45_2 by decide), Function.update_of_ne (show rT main_v44 ≠ rT main_v45_1 by decide), Function.update_of_ne (show rT main_v44 ≠ rT main_v45_0 by decide)]
  have ho0 : (W14 (pureK d) m d) (rT main_v45_0) = gV0 d ((W13 (pureK d) m d) (rT main_arg0)) ((W13 (pureK d) m d) (rT main_v44)) := by
    unfold W14; rw [Function.update_of_ne (show rT main_v45_0 ≠ rT main_v45_2 by decide), Function.update_of_ne (show rT main_v45_0 ≠ rT main_v45_1 by decide), Function.update_self]; rfl
  have ho1 : (W14 (pureK d) m d) (rT main_v45_1) = gV1 d ((W13 (pureK d) m d) (rT main_arg1)) ((W13 (pureK d) m d) (rT main_v44)) := by
    unfold W14; rw [Function.update_of_ne (show rT main_v45_1 ≠ rT main_v45_2 by decide), Function.update_self]; rfl
  have ho2 : (W14 (pureK d) m d) (rT main_v45_2) = gV2 d ((W13 (pureK d) m d) (rT main_arg1)) ((W13 (pureK d) m d) (rT main_v44)) := by
    unfold W14; rw [Function.update_self]; rfl
  exact call3_split_wand d (W13 (pureK d) m d) (W14 (pureK d) m d) h0 h1 hix ho0 ho1 ho2

end Cert.Proof.KB

end
-- ==== Proof.KB_RegionBase.lean ====
/-
  What the four regions of @main share. The pipeline's rule wants the five arrays of the loss kernel
  whole beside what the TensorCore owes; @main's proof holds all unscoped arrays at a valuation and the TensorCore's
  handshake state. So: the five arrays leave the held set, what the TensorCore owes (its later start signals, all at a
  call's index, so that a wait at no index sits below them) leaves the handshake state with its bound on the recorded
  pairs, the region runs, and both are put back — the (1,1) cell at the summed block losses.
-/
import proofs.«215899_g5772436046013_cont_9to1c4b_742_31_alg».proof.Proof.KB_Hmain
import proofs.«215899_g5772436046013_cont_9to1c4b_742_31_alg».proof.Proof.KB_LossDat

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

open Idealize.ShloMosaic.TcCoe
open Idealize.ShloMosaic.Pipeline (Dat)

local notation "𝕄" => MT nD τ sig (HIx 4) (Elt F) ℕ UU ℕ

/-- No pipeline has a prefetched table: the trivial tables. -/
abbrev aT : (p : Fin 4) → (pcfgs (F := F) p).Adm := fun p => (cfgs p).toPCfg_adm

omit [FloatOps F] in
theorem phinjT : Function.Injective (Pipeline.cellOf (nD := nD) (τ := τ) (Pipeline.pin (pcfgs (F := F)) aT)) := cellOf_inj

/-- The bound on the TensorCore's recorded pairs before call `n`. -/
def Rcn (c : Dev nD) (n : ℕ) : Set (SemLoc sig × HIx 4) := {p | (K (F := F)).lev (T c, p.1) p.2 ≤ 8 * n}

omit [FloatOps F] in
/-- Nothing the TensorCore owes the launch sits at no index. -/
theorem Otc_none (c : Dev nD) (n : ℕ) (g : GSem nD τ sig) : (K (F := F)).Otc c n g none = 0 := by
  by_contra h
  have := (K (F := F)).lev_of_Otc_pos (Nat.pos_of_ne_zero h)
  rw [(K (F := F)).lev_none] at this
  omega

end Cert.Proof.KB

end
-- ==== Proof.KB_LossRegion.lean ====
import proofs.«215899_g5772436046013_cont_9to1c4b_742_31_alg».proof.Proof.KB_LossDat
import Idealize.ShloMosaic.Lib.Pipeline.Frame
import Idealize.ShloMosaic.Lib.Pipeline.FrameBody

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # Entering and leaving the loss kernel's region

The region takes the five arrays whole, at the full share, beside what the core owes; it gives them back with the
output array at `lossOut` and the inputs as they were. Its invariant is the scoped buffers no window stages, which
the body never touches; the body has no semaphore of its own. -/

/-- The pipeline's number among the program's four. -/
abbrev lossP : Fin 4 := 0

variable (c : Dev nD) (A : LossArrs F c) (O : CellTallies nD τ sig (HIx 4)) (Rc : Set (SemLoc sig × HIx 4))

/-- The five arrays, whole, at the full share, at contents `G`. -/
def lossHeld (G : LossArrs F c) : sProp 𝕄 :=
  iprop(((cfg1.win 0).arr.view.loc (c.tc : Thread nD τ) ↦{fullShare} G 0)
    ∗ ((cfg1.win 1).arr.view.loc (c.tc : Thread nD τ) ↦{fullShare} G 1)
    ∗ ((cfg1.win 2).arr.view.loc (c.tc : Thread nD τ) ↦{fullShare} G 2)
    ∗ ((cfg1.win 3).arr.view.loc (c.tc : Thread nD τ) ↦{fullShare} G 3)
    ∗ ((cfg1.win 4).arr.view.loc (c.tc : Thread nD τ) ↦{fullShare} G 4))

/-- The pipeline's arrays are those five points-tos. -/
theorem arrays1_eq (G : LossArrs F c) : ((dat1 c A O Rc).arrays G : sProp 𝕄) = lossHeld c G := by
  unfold Dat.arrays
  exact (bigSep_congr fun w _ => by rw [(arr_whole1 w).set_eq_univ, share1]).trans (bigSep_W1 _)

/-- The arrays when the region is left: the inputs as they were, the output at `lossOut`. -/
def lossFinal : LossArrs F c := lossArrs c (A 0) (A 1) (A 2) (A 3) (lossOut c A)

theorem arrAt1_final (w : Fin cfg1.W) : (dat1 c A O Rc).arrAt w cfg1.N = lossFinal c A w := by
  match w with
  | ⟨0, _⟩ => exact arrAt1_0 c A O Rc _
  | ⟨1, _⟩ => exact arrAt1_1 c A O Rc _
  | ⟨2, _⟩ => exact arrAt1_2 c A O Rc _
  | ⟨3, _⟩ => exact arrAt1_3 c A O Rc _
  | ⟨4, _⟩ => exact arrAt1_4 c A O Rc

/-- What the core owes, as the pipeline holds it at any point. -/
theorem owesAt1 (t : Fin (cfg1.N + 1)) :
    ((dat1 c A O Rc).owesAt none t : sProp 𝕄) = Pipeline.owesWithin c O (Rc ∪ cfg1.waitPairs (none : HIx 4)) := rfl

/-- The pipeline has no prefetched table. -/
theorem prefHeld1_emp (q) (pf) :
    (Pipeline.prefHeld (pcfgs (F := F) lossP).pre c q pf : sProp 𝕄) = BI.emp := by
  unfold Pipeline.prefHeld
  show bigSep (Finset.univ : Finset (Fin 0)) _ = _
  rw [Finset.univ_eq_empty, BI.bigSep_empty]

/-- The invariant at the first point is the scoped rest. -/
theorem loss_hin (X : sProp 𝕄) (q) (pf) :
    iprop(X ∗ Pipeline.prefHeld (pcfgs (F := F) lossP).pre c q pf ∗ Pipeline.scopedRest cfg1.spec c)
      ⊢ ((dat1 c A O Rc).Φ 0 : sProp 𝕄) := by
  rw [show (dat1 c A O Rc).Φ 0 = Pipeline.scopedRest cfg1.spec c from rfl]
  iintro ⟨-, -, H⟩; iexact H

/-- The invariant at the last point gives it back. -/
theorem loss_hout :
    ((dat1 c A O Rc).Φ (Fin.last cfg1.N) : sProp 𝕄)
      ⊢ iprop(BI.emp ∗ Pipeline.ownSems0 (fun k : PEmpty => k.elim) c ∗ Pipeline.scopedRest cfg1.spec c) := by
  rw [show (dat1 c A O Rc).Φ (Fin.last cfg1.N) = Pipeline.scopedRest cfg1.spec c from rfl, Pipeline.ownSems0_none]
  iintro H
  isplitr; · iempintro
  isplitr; · iempintro
  iexact H

/-- ENTRY: the five arrays and what the core owes are what the pipeline starts from. -/
theorem loss_hentry (R : sProp 𝕄) (q) (pf) :
    iprop((lossHeld c A ∗ (dat1 c A O Rc).owesAt none 0) ∗ R)
      ⊢ |={Set.univ}=> iprop((dat1 c A O Rc).arrays ((dat1 c A O Rc).arrAt · 0)
          ∗ Pipeline.prefHeld (pcfgs (F := F) lossP).pre c q pf ∗ (dat1 c A O Rc).owesAt none 0 ∗ BI.emp ∗ BI.emp) := by
  rw [arrays1_eq, prefHeld1_emp]
  iintro ⟨⟨HA, HO⟩, -⟩
  imodintro
  isplitl [HA]; · iexact HA
  isplitr; · iempintro
  isplitl [HO]; · iexact HO
  isplitr <;> iempintro

/-- EXIT: the pipeline's arrays after every write-back are the five arrays at `lossFinal`. -/
theorem loss_hexit :
    iprop((dat1 c A O Rc).arrays ((dat1 c A O Rc).arrAt · cfg1.N) ∗ (dat1 c A O Rc).owesAt none (Fin.last cfg1.N) ∗ BI.emp ∗ BI.emp)
      ⊢ |={Set.univ}=> iprop(lossHeld c (lossFinal c A) ∗ (dat1 c A O Rc).owesAt none 0) := by
  rw [arrays1_eq, show (fun w => (dat1 c A O Rc).arrAt w cfg1.N) = lossFinal c A from funext (arrAt1_final c A O Rc)]
  iintro ⟨HA, HO, -, -⟩
  imodintro
  isplitl [HA]; · iexact HA
  iexact HO

/-! ## The layout facts, in the region rule's spelling -/

section Fields

variable (a : (p : Fin 4) → (pcfgs (F := F) p).Adm)

theorem loss_win : Pipeline.WinFacts₀ (pcfgs (F := F) lossP).spec := winFacts1.to₀

theorem loss_block_pos : ∀ w : Fin (Pipeline.pin (pcfgs (F := F)) a lossP).W,
    0 < ((Pipeline.pin (pcfgs (F := F)) a lossP).spec w).block.numel := block_pos1

theorem loss_stage_whole : ∀ (w : Fin (Pipeline.pin (pcfgs (F := F)) a lossP).W)
    (s : Fin ((Pipeline.pin (pcfgs (F := F)) a lossP).spec w).nbuf),
    (((Pipeline.pin (pcfgs (F := F)) a lossP).spec w).stage s).IsWhole := stage_whole1

theorem loss_ho : Pipeline.OwnSemFacts (pcfgs (F := F) lossP).spec (fun k : PEmpty => k.elim) :=
  Pipeline.OwnSemFacts.none _

/-- The proof data is the pinned configuration's. -/
example : Dat τ (Elt F) (HIx 4) ℕ UU ℕ (Pipeline.pin (pcfgs (F := F)) a lossP) c := dat1 c A O Rc

end Fields

/-! ## The loads of whole blocks are the blocks -/

/-- A load through the unit-stride rectangle at offset zero of the shape's own extents reads the contents. -/
theorem loss_ld_whole {S : Shape} {e : EltTy} (X : S.Idx → Elt F e) (off : Fin S.rank → ℕ) (h0 : ∀ a, off a = 0)
    (inb : ∀ a, off a + S.size a ≤ S.size a) :
    View.ld (Val := Elt F) X (Rect.unit (s := S) off S.size inb) = X := by
  funext j
  show X ((Rect.unit (s := S) off S.size inb).idx j) = X j
  congr 1
  funext a; apply Fin.ext
  show off a + 1 * (j a : ℕ) = (j a : ℕ)
  rw [h0 a]; omega

theorem lossIn_eq (x : Vec F S1024x128 .f32) : lossIn x = x :=
  loss_ld_whole x _ (fun a => by fin_cases a <;> rfl) _

/-- At a later point the step is over the previous contents themselves. -/
theorem lossStepB_eq (x0 x1 : Vec F S1024x128 .f32) (x2 : Vec F S20x1024x128 .f32) (x3 : Vec F S2688x21 .bf16)
    (prev : Vec F S1x1 .f32) : lossStepB x0 x1 x2 x3 prev = lossStep x0 x1 x2 x3 prev := by
  unfold lossStepB
  rw [loss_ld_whole prev _ (fun a => by fin_cases a <;> rfl) _]

/-- The sign matrix is read whole. -/
theorem lossStep_eq (x0 x1 : Vec F S1024x128 .f32) (x2 : Vec F S20x1024x128 .f32) (x3 : Vec F S2688x21 .bf16)
    (acc : Vec F S1x1 .f32) : lossStep x0 x1 x2 x3 acc = k1_pay4 (lossZ x0 x1 x2) x3 acc := by
  unfold lossStep
  rw [loss_ld_whole x3 _ (fun a => by fin_cases a <;> rfl) _]

end Cert.Proof.KB

end
-- ==== Proof.KB_Region0.lean ====
/-
  Region 0 of @main in the shape @main's proof consumes it: its five arrays leave the held set as the pipeline's
  five points-tos, what the TensorCore owes leaves its handshake state with the bound on its recorded pairs, the
  region runs by the pipeline's rule, and both are put back — the (1,1) cell at the summed block losses.
-/
import proofs.«215899_g5772436046013_cont_9to1c4b_742_31_alg».proof.Proof.KB_RegionBase
import proofs.«215899_g5772436046013_cont_9to1c4b_742_31_alg».proof.Proof.KB_LossRegion

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

open Idealize.ShloMosaic.TcCoe
open Idealize.ShloMosaic.Pipeline (Dat)

local notation "𝕄" => MT nD τ sig (HIx 4) (Elt F) ℕ UU ℕ

variable (𝔭 : Dev nD → Pure F) (m : (ℓ : Loc nD τ sig) → Buf (Elt F) ℓ)

/-- Region 0's five arrays as @main's chain has them at its entry. -/
def regA0 (c : Dev nD) : LossArrs F c :=
  lossArrs c (W3 (𝔭 c) m c (rT main_v27_0)) (W3 (𝔭 c) m c (rT main_v27_1)) (W3 (𝔭 c) m c (rT main_v28)) (W3 (𝔭 c) m c (rT main_v23)) (W3 (𝔭 c) m c (rT main_v29))

variable (pd : (p : Fin 4) → (c : Dev nD) → Dat τ (Elt F) (HIx 4) ℕ UU ℕ (Pipeline.pin (pcfgs (F := F)) aT p) c)
  (hpd0 : ∀ c, pd 0 c = dat1 c (regA0 𝔭 m c) ((K (F := F)).Otc c 1) (Rcn (F := F) c 1))

include hpd0 in
/-- Region 0 as the pipeline's rule takes it. -/
def R0 : Pipeline.RegionSeg (pcfgs (F := F)) aT pd (none : HIx 4) defs₀ 𝒱₀ (K (F := F)).L (K (F := F)).lev (0 : Fin 4) where
  win := loss_win
  block_pos := loss_block_pos aT
  stage_whole := loss_stage_whole aT
  K := PEmpty
  osem := fun k => k.elim
  ho := loss_ho
  hbody := fun c => by rw [hpd0 c]; exact body_obligation1_loose c _ _ _
  hwaits := fun c => Pipeline.cellsWaits_intro (Pipeline.pin (pcfgs (F := F)) aT) pd (none : HIx 4) 0 c fun w s t => by
    rw [hpd0 c]; exact (K (F := F)).mayWait_none _ (Otc_none c 1)
  pre := fun c => iprop(lossHeld c (regA0 𝔭 m c) ∗ (dat1 c (regA0 𝔭 m c) ((K (F := F)).Otc c 1) (Rcn (F := F) c 1)).owesAt none 0)
  post := fun c => iprop(lossHeld c (lossFinal c (regA0 𝔭 m c)) ∗ (dat1 c (regA0 𝔭 m c) ((K (F := F)).Otc c 1) (Rcn (F := F) c 1)).owesAt none 0)
  X := fun _ => iprop(emp)
  Y := fun _ => iprop(emp)
  Z := fun _ => iprop(emp)
  hentry := fun c => by rw [hpd0 c]; exact loss_hentry c _ _ _ _ _ _
  hin := fun c => by rw [hpd0 c]; exact loss_hin c _ _ _ _ _ _
  hout := fun c => by rw [hpd0 c]; exact loss_hout c _ _ _
  hexit := fun c => by rw [hpd0 c]; exact loss_hexit c _ _ _

include hpd0 in
theorem R0_pre (c : Dev nD) : (R0 𝔭 m pd hpd0).pre c
    = iprop(lossHeld c (regA0 𝔭 m c) ∗ (dat1 c (regA0 𝔭 m c) ((K (F := F)).Otc c 1) (Rcn (F := F) c 1)).owesAt none 0) := rfl
include hpd0 in
theorem R0_post (c : Dev nD) : (R0 𝔭 m pd hpd0).post c
    = iprop(lossHeld c (lossFinal c (regA0 𝔭 m c)) ∗ (dat1 c (regA0 𝔭 m c) ((K (F := F)).Otc c 1) (Rcn (F := F) c 1)).owesAt none 0) := rfl

/-! ## The five arrays in and out of the held set, the owed units in and out of the handshake state -/

abbrev RegRefs0 : Finset (DevRef τ sig) := {rT main_v27_0, rT main_v27_1, rT main_v28, rT main_v23, rT main_v29}
omit [FloatOps F] in
theorem RegRefs0_uc : RegRefs0 ⊆ Pipeline.ucRefs τ sig := by decide

omit [FloatOps F] in
/-- The five arrays held whole at a valuation are the region's five points-tos at its entries. -/
theorem held_reg0 (d : Dev nD) (W : Valuation τ sig (Elt F)) :
    (held (T d) RegRefs0 W : sProp 𝕄)
      = lossHeld d (lossArrs d (W (rT main_v27_0)) (W (rT main_v27_1)) (W (rT main_v28)) (W (rT main_v23)) (W (rT main_v29))) := by
  unfold held lossHeld RegRefs0
  rw [SparseCore.bigSep_insert' (by decide), SparseCore.bigSep_insert' (by decide), SparseCore.bigSep_insert' (by decide),
    SparseCore.bigSep_insert' (by decide), bigSep_singleton]
  rfl

omit [FloatOps F] in
/-- What the TensorCore owes before call `n`, out of its handshake state, is what the pipeline holds it as. -/
theorem owes_in (d : Dev nD) (n : ℕ) :
    (iprop(∃ W, ⌜(K (F := F)).WBelow (T d) W (8 * n)⌝ ∗ owes (T d) ((K (F := F)).Otc d n) W) : sProp 𝕄)
      ⊢ Pipeline.owesWithin d ((K (F := F)).Otc d n) (Rcn (F := F) d n ∪ cfg1.waitPairs (none : HIx 4)) := by
  iintro ⟨%W, %hW, HO⟩
  iexists W; isplitr
  · ipureintro; exact fun p hp => Or.inl (hW p hp)
  iexact HO

omit [FloatOps F] in
/-- And back: the pipeline's own waits are at no index, the lowest level. -/
theorem owes_out (d : Dev nD) (n : ℕ) :
    (Pipeline.owesWithin d ((K (F := F)).Otc d n) (Rcn (F := F) d n ∪ cfg1.waitPairs (none : HIx 4)) : sProp 𝕄)
      ⊢ iprop(∃ W, ⌜(K (F := F)).WBelow (T d) W (8 * n)⌝ ∗ owes (T d) ((K (F := F)).Otc d n) W) := by
  iintro ⟨%W, %hW, HO⟩
  iexists W; isplitr
  · ipureintro
    intro p hp
    rcases hW hp with h | ⟨w, s, rfl⟩
    · exact h
    · show (K (F := F)).lev _ none ≤ _
      rw [(K (F := F)).lev_none]; exact Nat.zero_le _
  iexact HO

variable (P : (K (F := F)).Pay (nD := nD) (Val := Elt F) (Name := ℕ) (U := UU))

/-- After region 0 the five arrays are the region's exit contents, when the chain's function for the region is the
    pipeline's. -/
theorem W4_reg (d : Dev nD)
    (h𝔭 : ∀ a0 a1 a2 a3 aOut, (𝔭 d).loss0 a0 a1 a2 a3 aOut = lossOut d (lossArrs d a0 a1 a2 a3 aOut)) :
    lossArrs d (W4 (𝔭 d) m d (rT main_v27_0)) (W4 (𝔭 d) m d (rT main_v27_1)) (W4 (𝔭 d) m d (rT main_v28)) (W4 (𝔭 d) m d (rT main_v23)) (W4 (𝔭 d) m d (rT main_v29))
      = lossFinal d (regA0 𝔭 m d) := by
  have e0 : W4 (𝔭 d) m d (rT main_v27_0) = W3 (𝔭 d) m d (rT main_v27_0) := by
    unfold W4; exact Function.update_of_ne (by decide) _ _
  have e1 : W4 (𝔭 d) m d (rT main_v27_1) = W3 (𝔭 d) m d (rT main_v27_1) := by
    unfold W4; exact Function.update_of_ne (by decide) _ _
  have e2 : W4 (𝔭 d) m d (rT main_v28) = W3 (𝔭 d) m d (rT main_v28) := by
    unfold W4; exact Function.update_of_ne (by decide) _ _
  have e3 : W4 (𝔭 d) m d (rT main_v23) = W3 (𝔭 d) m d (rT main_v23) := by
    unfold W4; exact Function.update_of_ne (by decide) _ _
  have e4 : W4 (𝔭 d) m d (rT main_v29) = lossOut d (regA0 𝔭 m d) := by
    unfold W4; rw [Function.update_self]; exact h𝔭 _ _ _ _ _
  rw [e0, e1, e2, e3, e4]
  rfl

theorem W4_rest (d : Dev nD) (b : DevRef τ sig) (hb : b ∈ Pipeline.ucRefs τ sig \ RegRefs0) : W4 (𝔭 d) m d b = W3 (𝔭 d) m d b := by
  have hb' := (Finset.mem_sdiff.mp hb).2
  simp only [RegRefs0, Finset.mem_insert, Finset.mem_singleton, not_or] at hb'
  unfold W4
  rw [Function.update_of_ne hb'.2.2.2.2]

include hpd0 in
/-- Region 0 of @main. -/
theorem region0_step [∀ e, Nonempty (Elt F e)] (d : Dev nD)
    (h𝔭 : ∀ a0 a1 a2 a3 aOut, (𝔭 d).loss0 a0 a1 a2 a3 aOut = lossOut d (lossArrs d a0 a1 a2 a3 aOut)) :
    RegionStep d P aT 0 1 (W3 (𝔭 d) m d) (W4 (𝔭 d) m d) := by
  intro κ α k Φ
  unfold SparseCore.Cfg.tcSt
  rw [held_sub_split (T d) RegRefs0_uc (W3 (𝔭 d) m d), held_sub_split (T d) RegRefs0_uc (W4 (𝔭 d) m d), held_congr (T d) (W4_rest 𝔭 m d),
    held_reg0, held_reg0, W4_reg 𝔭 m d h𝔭]
  iintro ⟨Hk, Hb, ⟨Hreg, Hrest⟩, ⟨HO, Hst'⟩, #Hctx, Hg, Ht⟩
  ihave Hlv := ((K (F := F)).ctx_levAts κ) $$ Hctx
  ihave HO' := (owes_in d 1) $$ HO
  have hstep := step_region aT pd phinjT 0 (R0 𝔭 m pd hpd0) d k Φ
  rw [R0_pre, R0_post] at hstep
  iapply (hstep) $$ [Hk Hb Hreg Hrest HO' Hst' Hlv Hg Ht]
  isplitl [Hk Hrest Hst']
  · iintro ⟨Hb, Hreg, HO⟩
    iapply Hk
    isplitl [Hb]; · iexact Hb
    isplitl [Hreg Hrest]
    · isplitl [Hreg]; · iexact Hreg
      iexact Hrest
    isplitl [HO]; · iapply (owes_out d 1); iexact HO
    iexact Hst'
  isplitl [Hb]; · iexact Hb
  isplitl [Hreg HO']
  · isplitl [Hreg]; · iexact Hreg
    iexact HO'
  isplitl [Hlv]; · iexact Hlv
  isplitl [Hg]; · iexact Hg
  iexact Ht

end Cert.Proof.KB

end
-- ==== Proof.KB_Loss3Region.lean ====
import proofs.«215899_g5772436046013_cont_9to1c4b_742_31_alg».proof.Proof.KB_Loss3Dat
import Idealize.ShloMosaic.Lib.Pipeline.Frame
import Idealize.ShloMosaic.Lib.Pipeline.FrameBody

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # Entering and leaving the loss3 kernel's region

The region takes the five arrays whole, at the full share, beside what the core owes; it gives them back with the
output array at `loss3Out` and the inputs as they were. Its invariant is the scoped buffers no window stages, which
the body never touches; the body has no semaphore of its own. -/

/-- The pipeline's number among the program's four. -/
abbrev loss3P : Fin 4 := 1

variable (c : Dev nD) (A : Loss3Arrs F c) (O : CellTallies nD τ sig (HIx 4)) (Rc : Set (SemLoc sig × HIx 4))

/-- The five arrays, whole, at the full share, at contents `G`. -/
def loss3Held (G : Loss3Arrs F c) : sProp 𝕄 :=
  iprop(((cfg3.win 0).arr.view.loc (c.tc : Thread nD τ) ↦{fullShare} G 0)
    ∗ ((cfg3.win 1).arr.view.loc (c.tc : Thread nD τ) ↦{fullShare} G 1)
    ∗ ((cfg3.win 2).arr.view.loc (c.tc : Thread nD τ) ↦{fullShare} G 2)
    ∗ ((cfg3.win 3).arr.view.loc (c.tc : Thread nD τ) ↦{fullShare} G 3)
    ∗ ((cfg3.win 4).arr.view.loc (c.tc : Thread nD τ) ↦{fullShare} G 4))

/-- The pipeline's arrays are those five points-tos. -/
theorem arrays3_eq (G : Loss3Arrs F c) : ((dat3 c A O Rc).arrays G : sProp 𝕄) = loss3Held c G := by
  unfold Dat.arrays
  exact (bigSep_congr fun w _ => by rw [(arr_whole3 w).set_eq_univ, share3]).trans (bigSep_W3 _)

/-- The arrays when the region is left: the inputs as they were, the output at `loss3Out`. -/
def loss3Final : Loss3Arrs F c := loss3Arrs c (A 0) (A 1) (A 2) (A 3) (loss3Out c A)

theorem arrAt3_final (w : Fin cfg3.W) : (dat3 c A O Rc).arrAt w cfg3.N = loss3Final c A w := by
  match w with
  | ⟨0, _⟩ => exact arrAt3_0 c A O Rc _
  | ⟨1, _⟩ => exact arrAt3_1 c A O Rc _
  | ⟨2, _⟩ => exact arrAt3_2 c A O Rc _
  | ⟨3, _⟩ => exact arrAt3_3 c A O Rc _
  | ⟨4, _⟩ => exact arrAt3_4 c A O Rc

/-- What the core owes, as the pipeline holds it at any point. -/
theorem owesAt3 (t : Fin (cfg3.N + 1)) :
    ((dat3 c A O Rc).owesAt none t : sProp 𝕄) = Pipeline.owesWithin c O (Rc ∪ cfg3.waitPairs (none : HIx 4)) := rfl

/-- The pipeline has no prefetched table. -/
theorem prefHeld3_emp (q) (pf) :
    (Pipeline.prefHeld (pcfgs (F := F) loss3P).pre c q pf : sProp 𝕄) = BI.emp := by
  unfold Pipeline.prefHeld
  show bigSep (Finset.univ : Finset (Fin 0)) _ = _
  rw [Finset.univ_eq_empty, BI.bigSep_empty]

/-- The invariant at the first point is the scoped rest. -/
theorem loss3_hin (X : sProp 𝕄) (q) (pf) :
    iprop(X ∗ Pipeline.prefHeld (pcfgs (F := F) loss3P).pre c q pf ∗ Pipeline.scopedRest cfg3.spec c)
      ⊢ ((dat3 c A O Rc).Φ 0 : sProp 𝕄) := by
  rw [show (dat3 c A O Rc).Φ 0 = Pipeline.scopedRest cfg3.spec c from rfl]
  iintro ⟨-, -, H⟩; iexact H

/-- The invariant at the last point gives it back. -/
theorem loss3_hout :
    ((dat3 c A O Rc).Φ (Fin.last cfg3.N) : sProp 𝕄)
      ⊢ iprop(BI.emp ∗ Pipeline.ownSems0 (fun k : PEmpty => k.elim) c ∗ Pipeline.scopedRest cfg3.spec c) := by
  rw [show (dat3 c A O Rc).Φ (Fin.last cfg3.N) = Pipeline.scopedRest cfg3.spec c from rfl, Pipeline.ownSems0_none]
  iintro H
  isplitr; · iempintro
  isplitr; · iempintro
  iexact H

/-- ENTRY: the five arrays and what the core owes are what the pipeline starts from. -/
theorem loss3_hentry (R : sProp 𝕄) (q) (pf) :
    iprop((loss3Held c A ∗ (dat3 c A O Rc).owesAt none 0) ∗ R)
      ⊢ |={Set.univ}=> iprop((dat3 c A O Rc).arrays ((dat3 c A O Rc).arrAt · 0)
          ∗ Pipeline.prefHeld (pcfgs (F := F) loss3P).pre c q pf ∗ (dat3 c A O Rc).owesAt none 0 ∗ BI.emp ∗ BI.emp) := by
  rw [arrays3_eq, prefHeld3_emp]
  iintro ⟨⟨HA, HO⟩, -⟩
  imodintro
  isplitl [HA]; · iexact HA
  isplitr; · iempintro
  isplitl [HO]; · iexact HO
  isplitr <;> iempintro

/-- EXIT: the pipeline's arrays after every write-back are the five arrays at `loss3Final`. -/
theorem loss3_hexit :
    iprop((dat3 c A O Rc).arrays ((dat3 c A O Rc).arrAt · cfg3.N) ∗ (dat3 c A O Rc).owesAt none (Fin.last cfg3.N) ∗ BI.emp ∗ BI.emp)
      ⊢ |={Set.univ}=> iprop(loss3Held c (loss3Final c A) ∗ (dat3 c A O Rc).owesAt none 0) := by
  rw [arrays3_eq, show (fun w => (dat3 c A O Rc).arrAt w cfg3.N) = loss3Final c A from funext (arrAt3_final c A O Rc)]
  iintro ⟨HA, HO, -, -⟩
  imodintro
  isplitl [HA]; · iexact HA
  iexact HO

/-! ## The layout facts, in the region rule's spelling -/

section Fields

variable (a : (p : Fin 4) → (pcfgs (F := F) p).Adm)

theorem loss3_win : Pipeline.WinFacts₀ (pcfgs (F := F) loss3P).spec := winFacts3.to₀

theorem loss3_block_pos : ∀ w : Fin (Pipeline.pin (pcfgs (F := F)) a loss3P).W,
    0 < ((Pipeline.pin (pcfgs (F := F)) a loss3P).spec w).block.numel := block_pos3

theorem loss3_stage_whole : ∀ (w : Fin (Pipeline.pin (pcfgs (F := F)) a loss3P).W)
    (s : Fin ((Pipeline.pin (pcfgs (F := F)) a loss3P).spec w).nbuf),
    (((Pipeline.pin (pcfgs (F := F)) a loss3P).spec w).stage s).IsWhole := stage_whole3

theorem loss3_ho : Pipeline.OwnSemFacts (pcfgs (F := F) loss3P).spec (fun k : PEmpty => k.elim) :=
  Pipeline.OwnSemFacts.none _

/-- The proof data is the pinned configuration's. -/
example : Dat τ (Elt F) (HIx 4) ℕ UU ℕ (Pipeline.pin (pcfgs (F := F)) a loss3P) c := dat3 c A O Rc

end Fields

/-! ## The loads of whole blocks are the blocks -/

/-- A load through the unit-stride rectangle at offset zero of the shape's own extents reads the contents. -/
theorem loss3_ld_whole {S : Shape} {e : EltTy} (X : S.Idx → Elt F e) (off : Fin S.rank → ℕ) (h0 : ∀ a, off a = 0)
    (inb : ∀ a, off a + S.size a ≤ S.size a) :
    View.ld (Val := Elt F) X (Rect.unit (s := S) off S.size inb) = X := by
  funext j
  show X ((Rect.unit (s := S) off S.size inb).idx j) = X j
  congr 1
  funext a; apply Fin.ext
  show off a + 1 * (j a : ℕ) = (j a : ℕ)
  rw [h0 a]; omega

theorem loss3In_eq (x : Vec F S1024x128 .f32) : loss3In x = x :=
  loss3_ld_whole x _ (fun a => by fin_cases a <;> rfl) _

/-- At a later point the step is over the previous contents themselves. -/
theorem loss3StepB_eq (x0 x1 : Vec F S1024x128 .f32) (x2 : Vec F S20x1024x128 .f32) (x3 : Vec F S2688x21 .bf16)
    (prev : Vec F S1x1 .f32) : loss3StepB x0 x1 x2 x3 prev = loss3Step x0 x1 x2 x3 prev := by
  unfold loss3StepB
  rw [loss3_ld_whole prev _ (fun a => by fin_cases a <;> rfl) _]

/-- The sign matrix is read whole. -/
theorem loss3Step_eq (x0 x1 : Vec F S1024x128 .f32) (x2 : Vec F S20x1024x128 .f32) (x3 : Vec F S2688x21 .bf16)
    (acc : Vec F S1x1 .f32) : loss3Step x0 x1 x2 x3 acc = k3_pay4 (loss3Z x0 x1 x2) x3 acc := by
  unfold loss3Step
  rw [loss3_ld_whole x3 _ (fun a => by fin_cases a <;> rfl) _]

end Cert.Proof.KB

end
-- ==== Proof.KB_Region1.lean ====
/-
  Region 1 of @main in the shape @main's proof consumes it: its five arrays leave the held set as the pipeline's
  five points-tos, what the TensorCore owes leaves its handshake state with the bound on its recorded pairs, the
  region runs by the pipeline's rule, and both are put back — the (1,1) cell at the summed block losses.
-/
import proofs.«215899_g5772436046013_cont_9to1c4b_742_31_alg».proof.Proof.KB_RegionBase
import proofs.«215899_g5772436046013_cont_9to1c4b_742_31_alg».proof.Proof.KB_Loss3Region

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

open Idealize.ShloMosaic.TcCoe
open Idealize.ShloMosaic.Pipeline (Dat)

local notation "𝕄" => MT nD τ sig (HIx 4) (Elt F) ℕ UU ℕ

variable (𝔭 : Dev nD → Pure F) (m : (ℓ : Loc nD τ sig) → Buf (Elt F) ℓ)

/-- Region 1's five arrays as @main's chain has them at its entry. -/
def regA1 (c : Dev nD) : Loss3Arrs F c :=
  loss3Arrs c (W7 (𝔭 c) m c (rT main_v33_0)) (W7 (𝔭 c) m c (rT main_v33_1)) (W7 (𝔭 c) m c (rT main_v34)) (W7 (𝔭 c) m c (rT main_v23)) (W7 (𝔭 c) m c (rT main_v35))

variable (pd : (p : Fin 4) → (c : Dev nD) → Dat τ (Elt F) (HIx 4) ℕ UU ℕ (Pipeline.pin (pcfgs (F := F)) aT p) c)
  (hpd1 : ∀ c, pd 1 c = dat3 c (regA1 𝔭 m c) ((K (F := F)).Otc c 2) (Rcn (F := F) c 2))

include hpd1 in
/-- Region 1 as the pipeline's rule takes it. -/
def R1 : Pipeline.RegionSeg (pcfgs (F := F)) aT pd (none : HIx 4) defs₀ 𝒱₀ (K (F := F)).L (K (F := F)).lev (1 : Fin 4) where
  win := loss3_win
  block_pos := loss3_block_pos aT
  stage_whole := loss3_stage_whole aT
  K := PEmpty
  osem := fun k => k.elim
  ho := loss3_ho
  hbody := fun c => by rw [hpd1 c]; exact body_obligation3_loose c _ _ _
  hwaits := fun c => Pipeline.cellsWaits_intro (Pipeline.pin (pcfgs (F := F)) aT) pd (none : HIx 4) 1 c fun w s t => by
    rw [hpd1 c]; exact (K (F := F)).mayWait_none _ (Otc_none c 2)
  pre := fun c => iprop(loss3Held c (regA1 𝔭 m c) ∗ (dat3 c (regA1 𝔭 m c) ((K (F := F)).Otc c 2) (Rcn (F := F) c 2)).owesAt none 0)
  post := fun c => iprop(loss3Held c (loss3Final c (regA1 𝔭 m c)) ∗ (dat3 c (regA1 𝔭 m c) ((K (F := F)).Otc c 2) (Rcn (F := F) c 2)).owesAt none 0)
  X := fun _ => iprop(emp)
  Y := fun _ => iprop(emp)
  Z := fun _ => iprop(emp)
  hentry := fun c => by rw [hpd1 c]; exact loss3_hentry c _ _ _ _ _ _
  hin := fun c => by rw [hpd1 c]; exact loss3_hin c _ _ _ _ _ _
  hout := fun c => by rw [hpd1 c]; exact loss3_hout c _ _ _
  hexit := fun c => by rw [hpd1 c]; exact loss3_hexit c _ _ _

include hpd1 in
theorem R1_pre (c : Dev nD) : (R1 𝔭 m pd hpd1).pre c
    = iprop(loss3Held c (regA1 𝔭 m c) ∗ (dat3 c (regA1 𝔭 m c) ((K (F := F)).Otc c 2) (Rcn (F := F) c 2)).owesAt none 0) := rfl
include hpd1 in
theorem R1_post (c : Dev nD) : (R1 𝔭 m pd hpd1).post c
    = iprop(loss3Held c (loss3Final c (regA1 𝔭 m c)) ∗ (dat3 c (regA1 𝔭 m c) ((K (F := F)).Otc c 2) (Rcn (F := F) c 2)).owesAt none 0) := rfl

/-! ## The five arrays in and out of the held set, the owed units in and out of the handshake state -/

abbrev RegRefs1 : Finset (DevRef τ sig) := {rT main_v33_0, rT main_v33_1, rT main_v34, rT main_v23, rT main_v35}
omit [FloatOps F] in
theorem RegRefs1_uc : RegRefs1 ⊆ Pipeline.ucRefs τ sig := by decide

omit [FloatOps F] in
/-- The five arrays held whole at a valuation are the region's five points-tos at its entries. -/
theorem held_reg1 (d : Dev nD) (W : Valuation τ sig (Elt F)) :
    (held (T d) RegRefs1 W : sProp 𝕄)
      = loss3Held d (loss3Arrs d (W (rT main_v33_0)) (W (rT main_v33_1)) (W (rT main_v34)) (W (rT main_v23)) (W (rT main_v35))) := by
  unfold held loss3Held RegRefs1
  rw [SparseCore.bigSep_insert' (by decide), SparseCore.bigSep_insert' (by decide), SparseCore.bigSep_insert' (by decide),
    SparseCore.bigSep_insert' (by decide), bigSep_singleton]
  rfl

omit [FloatOps F] in
/-- What the TensorCore owes before call `n`, out of its handshake state, is what the pipeline holds it as. -/
theorem owes_in1 (d : Dev nD) (n : ℕ) :
    (iprop(∃ W, ⌜(K (F := F)).WBelow (T d) W (8 * n)⌝ ∗ owes (T d) ((K (F := F)).Otc d n) W) : sProp 𝕄)
      ⊢ Pipeline.owesWithin d ((K (F := F)).Otc d n) (Rcn (F := F) d n ∪ cfg3.waitPairs (none : HIx 4)) := by
  iintro ⟨%W, %hW, HO⟩
  iexists W; isplitr
  · ipureintro; exact fun p hp => Or.inl (hW p hp)
  iexact HO

omit [FloatOps F] in
/-- And back: the pipeline's own waits are at no index, the lowest level. -/
theorem owes_out1 (d : Dev nD) (n : ℕ) :
    (Pipeline.owesWithin d ((K (F := F)).Otc d n) (Rcn (F := F) d n ∪ cfg3.waitPairs (none : HIx 4)) : sProp 𝕄)
      ⊢ iprop(∃ W, ⌜(K (F := F)).WBelow (T d) W (8 * n)⌝ ∗ owes (T d) ((K (F := F)).Otc d n) W) := by
  iintro ⟨%W, %hW, HO⟩
  iexists W; isplitr
  · ipureintro
    intro p hp
    rcases hW hp with h | ⟨w, s, rfl⟩
    · exact h
    · show (K (F := F)).lev _ none ≤ _
      rw [(K (F := F)).lev_none]; exact Nat.zero_le _
  iexact HO

variable (P : (K (F := F)).Pay (nD := nD) (Val := Elt F) (Name := ℕ) (U := UU))

/-- After region 1 the five arrays are the region's exit contents, when the chain's function for the region is the
    pipeline's. -/
theorem W8_reg (d : Dev nD)
    (h𝔭 : ∀ a0 a1 a2 a3 aOut, (𝔭 d).loss1 a0 a1 a2 a3 aOut = loss3Out d (loss3Arrs d a0 a1 a2 a3 aOut)) :
    loss3Arrs d (W8 (𝔭 d) m d (rT main_v33_0)) (W8 (𝔭 d) m d (rT main_v33_1)) (W8 (𝔭 d) m d (rT main_v34)) (W8 (𝔭 d) m d (rT main_v23)) (W8 (𝔭 d) m d (rT main_v35))
      = loss3Final d (regA1 𝔭 m d) := by
  have e0 : W8 (𝔭 d) m d (rT main_v33_0) = W7 (𝔭 d) m d (rT main_v33_0) := by
    unfold W8; exact Function.update_of_ne (by decide) _ _
  have e1 : W8 (𝔭 d) m d (rT main_v33_1) = W7 (𝔭 d) m d (rT main_v33_1) := by
    unfold W8; exact Function.update_of_ne (by decide) _ _
  have e2 : W8 (𝔭 d) m d (rT main_v34) = W7 (𝔭 d) m d (rT main_v34) := by
    unfold W8; exact Function.update_of_ne (by decide) _ _
  have e3 : W8 (𝔭 d) m d (rT main_v23) = W7 (𝔭 d) m d (rT main_v23) := by
    unfold W8; exact Function.update_of_ne (by decide) _ _
  have e4 : W8 (𝔭 d) m d (rT main_v35) = loss3Out d (regA1 𝔭 m d) := by
    unfold W8; rw [Function.update_self]; exact h𝔭 _ _ _ _ _
  rw [e0, e1, e2, e3, e4]
  rfl

theorem W8_rest (d : Dev nD) (b : DevRef τ sig) (hb : b ∈ Pipeline.ucRefs τ sig \ RegRefs1) : W8 (𝔭 d) m d b = W7 (𝔭 d) m d b := by
  have hb' := (Finset.mem_sdiff.mp hb).2
  simp only [RegRefs1, Finset.mem_insert, Finset.mem_singleton, not_or] at hb'
  unfold W8
  rw [Function.update_of_ne hb'.2.2.2.2]

include hpd1 in
/-- Region 1 of @main. -/
theorem region1_step [∀ e, Nonempty (Elt F e)] (d : Dev nD)
    (h𝔭 : ∀ a0 a1 a2 a3 aOut, (𝔭 d).loss1 a0 a1 a2 a3 aOut = loss3Out d (loss3Arrs d a0 a1 a2 a3 aOut)) :
    RegionStep d P aT 1 2 (W7 (𝔭 d) m d) (W8 (𝔭 d) m d) := by
  intro κ α k Φ
  unfold SparseCore.Cfg.tcSt
  rw [held_sub_split (T d) RegRefs1_uc (W7 (𝔭 d) m d), held_sub_split (T d) RegRefs1_uc (W8 (𝔭 d) m d), held_congr (T d) (W8_rest 𝔭 m d),
    held_reg1, held_reg1, W8_reg 𝔭 m d h𝔭]
  iintro ⟨Hk, Hb, ⟨Hreg, Hrest⟩, ⟨HO, Hst'⟩, #Hctx, Hg, Ht⟩
  ihave Hlv := ((K (F := F)).ctx_levAts κ) $$ Hctx
  ihave HO' := (owes_in1 d 2) $$ HO
  have hstep := step_region aT pd phinjT 1 (R1 𝔭 m pd hpd1) d k Φ
  rw [R1_pre, R1_post] at hstep
  iapply (hstep) $$ [Hk Hb Hreg Hrest HO' Hst' Hlv Hg Ht]
  isplitl [Hk Hrest Hst']
  · iintro ⟨Hb, Hreg, HO⟩
    iapply Hk
    isplitl [Hb]; · iexact Hb
    isplitl [Hreg Hrest]
    · isplitl [Hreg]; · iexact Hreg
      iexact Hrest
    isplitl [HO]; · iapply (owes_out1 d 2); iexact HO
    iexact Hst'
  isplitl [Hb]; · iexact Hb
  isplitl [Hreg HO']
  · isplitl [Hreg]; · iexact Hreg
    iexact HO'
  isplitl [Hlv]; · iexact Hlv
  isplitl [Hg]; · iexact Hg
  iexact Ht

end Cert.Proof.KB

end
-- ==== Proof.KB_Loss5Region.lean ====
import proofs.«215899_g5772436046013_cont_9to1c4b_742_31_alg».proof.Proof.KB_Loss5Dat
import Idealize.ShloMosaic.Lib.Pipeline.Frame
import Idealize.ShloMosaic.Lib.Pipeline.FrameBody

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # Entering and leaving the loss5 kernel's region

The region takes the five arrays whole, at the full share, beside what the core owes; it gives them back with the
output array at `loss5Out` and the inputs as they were. Its invariant is the scoped buffers no window stages, which
the body never touches; the body has no semaphore of its own. -/

/-- The pipeline's number among the program's four. -/
abbrev loss5P : Fin 4 := 2

variable (c : Dev nD) (A : Loss5Arrs F c) (O : CellTallies nD τ sig (HIx 4)) (Rc : Set (SemLoc sig × HIx 4))

/-- The five arrays, whole, at the full share, at contents `G`. -/
def loss5Held (G : Loss5Arrs F c) : sProp 𝕄 :=
  iprop(((cfg5.win 0).arr.view.loc (c.tc : Thread nD τ) ↦{fullShare} G 0)
    ∗ ((cfg5.win 1).arr.view.loc (c.tc : Thread nD τ) ↦{fullShare} G 1)
    ∗ ((cfg5.win 2).arr.view.loc (c.tc : Thread nD τ) ↦{fullShare} G 2)
    ∗ ((cfg5.win 3).arr.view.loc (c.tc : Thread nD τ) ↦{fullShare} G 3)
    ∗ ((cfg5.win 4).arr.view.loc (c.tc : Thread nD τ) ↦{fullShare} G 4))

/-- The pipeline's arrays are those five points-tos. -/
theorem arrays5_eq (G : Loss5Arrs F c) : ((dat5 c A O Rc).arrays G : sProp 𝕄) = loss5Held c G := by
  unfold Dat.arrays
  exact (bigSep_congr fun w _ => by rw [(arr_whole5 w).set_eq_univ, share5]).trans (bigSep_W5 _)

/-- The arrays when the region is left: the inputs as they were, the output at `loss5Out`. -/
def loss5Final : Loss5Arrs F c := loss5Arrs c (A 0) (A 1) (A 2) (A 3) (loss5Out c A)

theorem arrAt5_final (w : Fin cfg5.W) : (dat5 c A O Rc).arrAt w cfg5.N = loss5Final c A w := by
  match w with
  | ⟨0, _⟩ => exact arrAt5_0 c A O Rc _
  | ⟨1, _⟩ => exact arrAt5_1 c A O Rc _
  | ⟨2, _⟩ => exact arrAt5_2 c A O Rc _
  | ⟨3, _⟩ => exact arrAt5_3 c A O Rc _
  | ⟨4, _⟩ => exact arrAt5_4 c A O Rc

/-- What the core owes, as the pipeline holds it at any point. -/
theorem owesAt5 (t : Fin (cfg5.N + 1)) :
    ((dat5 c A O Rc).owesAt none t : sProp 𝕄) = Pipeline.owesWithin c O (Rc ∪ cfg5.waitPairs (none : HIx 4)) := rfl

/-- The pipeline has no prefetched table. -/
theorem prefHeld5_emp (q) (pf) :
    (Pipeline.prefHeld (pcfgs (F := F) loss5P).pre c q pf : sProp 𝕄) = BI.emp := by
  unfold Pipeline.prefHeld
  show bigSep (Finset.univ : Finset (Fin 0)) _ = _
  rw [Finset.univ_eq_empty, BI.bigSep_empty]

/-- The invariant at the first point is the scoped rest. -/
theorem loss5_hin (X : sProp 𝕄) (q) (pf) :
    iprop(X ∗ Pipeline.prefHeld (pcfgs (F := F) loss5P).pre c q pf ∗ Pipeline.scopedRest cfg5.spec c)
      ⊢ ((dat5 c A O Rc).Φ 0 : sProp 𝕄) := by
  rw [show (dat5 c A O Rc).Φ 0 = Pipeline.scopedRest cfg5.spec c from rfl]
  iintro ⟨-, -, H⟩; iexact H

/-- The invariant at the last point gives it back. -/
theorem loss5_hout :
    ((dat5 c A O Rc).Φ (Fin.last cfg5.N) : sProp 𝕄)
      ⊢ iprop(BI.emp ∗ Pipeline.ownSems0 (fun k : PEmpty => k.elim) c ∗ Pipeline.scopedRest cfg5.spec c) := by
  rw [show (dat5 c A O Rc).Φ (Fin.last cfg5.N) = Pipeline.scopedRest cfg5.spec c from rfl, Pipeline.ownSems0_none]
  iintro H
  isplitr; · iempintro
  isplitr; · iempintro
  iexact H

/-- ENTRY: the five arrays and what the core owes are what the pipeline starts from. -/
theorem loss5_hentry (R : sProp 𝕄) (q) (pf) :
    iprop((loss5Held c A ∗ (dat5 c A O Rc).owesAt none 0) ∗ R)
      ⊢ |={Set.univ}=> iprop((dat5 c A O Rc).arrays ((dat5 c A O Rc).arrAt · 0)
          ∗ Pipeline.prefHeld (pcfgs (F := F) loss5P).pre c q pf ∗ (dat5 c A O Rc).owesAt none 0 ∗ BI.emp ∗ BI.emp) := by
  rw [arrays5_eq, prefHeld5_emp]
  iintro ⟨⟨HA, HO⟩, -⟩
  imodintro
  isplitl [HA]; · iexact HA
  isplitr; · iempintro
  isplitl [HO]; · iexact HO
  isplitr <;> iempintro

/-- EXIT: the pipeline's arrays after every write-back are the five arrays at `loss5Final`. -/
theorem loss5_hexit :
    iprop((dat5 c A O Rc).arrays ((dat5 c A O Rc).arrAt · cfg5.N) ∗ (dat5 c A O Rc).owesAt none (Fin.last cfg5.N) ∗ BI.emp ∗ BI.emp)
      ⊢ |={Set.univ}=> iprop(loss5Held c (loss5Final c A) ∗ (dat5 c A O Rc).owesAt none 0) := by
  rw [arrays5_eq, show (fun w => (dat5 c A O Rc).arrAt w cfg5.N) = loss5Final c A from funext (arrAt5_final c A O Rc)]
  iintro ⟨HA, HO, -, -⟩
  imodintro
  isplitl [HA]; · iexact HA
  iexact HO

/-! ## The layout facts, in the region rule's spelling -/

section Fields

variable (a : (p : Fin 4) → (pcfgs (F := F) p).Adm)

theorem loss5_win : Pipeline.WinFacts₀ (pcfgs (F := F) loss5P).spec := winFacts5.to₀

theorem loss5_block_pos : ∀ w : Fin (Pipeline.pin (pcfgs (F := F)) a loss5P).W,
    0 < ((Pipeline.pin (pcfgs (F := F)) a loss5P).spec w).block.numel := block_pos5

theorem loss5_stage_whole : ∀ (w : Fin (Pipeline.pin (pcfgs (F := F)) a loss5P).W)
    (s : Fin ((Pipeline.pin (pcfgs (F := F)) a loss5P).spec w).nbuf),
    (((Pipeline.pin (pcfgs (F := F)) a loss5P).spec w).stage s).IsWhole := stage_whole5

theorem loss5_ho : Pipeline.OwnSemFacts (pcfgs (F := F) loss5P).spec (fun k : PEmpty => k.elim) :=
  Pipeline.OwnSemFacts.none _

/-- The proof data is the pinned configuration's. -/
example : Dat τ (Elt F) (HIx 4) ℕ UU ℕ (Pipeline.pin (pcfgs (F := F)) a loss5P) c := dat5 c A O Rc

end Fields

/-! ## The loads of whole blocks are the blocks -/

/-- A load through the unit-stride rectangle at offset zero of the shape's own extents reads the contents. -/
theorem loss5_ld_whole {S : Shape} {e : EltTy} (X : S.Idx → Elt F e) (off : Fin S.rank → ℕ) (h0 : ∀ a, off a = 0)
    (inb : ∀ a, off a + S.size a ≤ S.size a) :
    View.ld (Val := Elt F) X (Rect.unit (s := S) off S.size inb) = X := by
  funext j
  show X ((Rect.unit (s := S) off S.size inb).idx j) = X j
  congr 1
  funext a; apply Fin.ext
  show off a + 1 * (j a : ℕ) = (j a : ℕ)
  rw [h0 a]; omega

theorem loss5In_eq (x : Vec F S1024x128 .f32) : loss5In x = x :=
  loss5_ld_whole x _ (fun a => by fin_cases a <;> rfl) _

/-- At a later point the step is over the previous contents themselves. -/
theorem loss5StepB_eq (x0 x1 : Vec F S1024x128 .f32) (x2 : Vec F S20x1024x128 .f32) (x3 : Vec F S2688x21 .bf16)
    (prev : Vec F S1x1 .f32) : loss5StepB x0 x1 x2 x3 prev = loss5Step x0 x1 x2 x3 prev := by
  unfold loss5StepB
  rw [loss5_ld_whole prev _ (fun a => by fin_cases a <;> rfl) _]

/-- The sign matrix is read whole. -/
theorem loss5Step_eq (x0 x1 : Vec F S1024x128 .f32) (x2 : Vec F S20x1024x128 .f32) (x3 : Vec F S2688x21 .bf16)
    (acc : Vec F S1x1 .f32) : loss5Step x0 x1 x2 x3 acc = k5_pay4 (loss5Z x0 x1 x2) x3 acc := by
  unfold loss5Step
  rw [loss5_ld_whole x3 _ (fun a => by fin_cases a <;> rfl) _]

end Cert.Proof.KB

end
-- ==== Proof.KB_Region2.lean ====
/-
  Region 2 of @main in the shape @main's proof consumes it: its five arrays leave the held set as the pipeline's
  five points-tos, what the TensorCore owes leaves its handshake state with the bound on its recorded pairs, the
  region runs by the pipeline's rule, and both are put back — the (1,1) cell at the summed block losses.
-/
import proofs.«215899_g5772436046013_cont_9to1c4b_742_31_alg».proof.Proof.KB_RegionBase
import proofs.«215899_g5772436046013_cont_9to1c4b_742_31_alg».proof.Proof.KB_Loss5Region

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

open Idealize.ShloMosaic.TcCoe
open Idealize.ShloMosaic.Pipeline (Dat)

local notation "𝕄" => MT nD τ sig (HIx 4) (Elt F) ℕ UU ℕ

variable (𝔭 : Dev nD → Pure F) (m : (ℓ : Loc nD τ sig) → Buf (Elt F) ℓ)

/-- Region 2's five arrays as @main's chain has them at its entry. -/
def regA2 (c : Dev nD) : Loss5Arrs F c :=
  loss5Arrs c (W11 (𝔭 c) m c (rT main_v39_0)) (W11 (𝔭 c) m c (rT main_v39_1)) (W11 (𝔭 c) m c (rT main_v40)) (W11 (𝔭 c) m c (rT main_v23)) (W11 (𝔭 c) m c (rT main_v41))

variable (pd : (p : Fin 4) → (c : Dev nD) → Dat τ (Elt F) (HIx 4) ℕ UU ℕ (Pipeline.pin (pcfgs (F := F)) aT p) c)
  (hpd2 : ∀ c, pd 2 c = dat5 c (regA2 𝔭 m c) ((K (F := F)).Otc c 3) (Rcn (F := F) c 3))

include hpd2 in
/-- Region 2 as the pipeline's rule takes it. -/
def R2 : Pipeline.RegionSeg (pcfgs (F := F)) aT pd (none : HIx 4) defs₀ 𝒱₀ (K (F := F)).L (K (F := F)).lev (2 : Fin 4) where
  win := loss5_win
  block_pos := loss5_block_pos aT
  stage_whole := loss5_stage_whole aT
  K := PEmpty
  osem := fun k => k.elim
  ho := loss5_ho
  hbody := fun c => by rw [hpd2 c]; exact body_obligation5_loose c _ _ _
  hwaits := fun c => Pipeline.cellsWaits_intro (Pipeline.pin (pcfgs (F := F)) aT) pd (none : HIx 4) 2 c fun w s t => by
    rw [hpd2 c]; exact (K (F := F)).mayWait_none _ (Otc_none c 3)
  pre := fun c => iprop(loss5Held c (regA2 𝔭 m c) ∗ (dat5 c (regA2 𝔭 m c) ((K (F := F)).Otc c 3) (Rcn (F := F) c 3)).owesAt none 0)
  post := fun c => iprop(loss5Held c (loss5Final c (regA2 𝔭 m c)) ∗ (dat5 c (regA2 𝔭 m c) ((K (F := F)).Otc c 3) (Rcn (F := F) c 3)).owesAt none 0)
  X := fun _ => iprop(emp)
  Y := fun _ => iprop(emp)
  Z := fun _ => iprop(emp)
  hentry := fun c => by rw [hpd2 c]; exact loss5_hentry c _ _ _ _ _ _
  hin := fun c => by rw [hpd2 c]; exact loss5_hin c _ _ _ _ _ _
  hout := fun c => by rw [hpd2 c]; exact loss5_hout c _ _ _
  hexit := fun c => by rw [hpd2 c]; exact loss5_hexit c _ _ _

include hpd2 in
theorem R2_pre (c : Dev nD) : (R2 𝔭 m pd hpd2).pre c
    = iprop(loss5Held c (regA2 𝔭 m c) ∗ (dat5 c (regA2 𝔭 m c) ((K (F := F)).Otc c 3) (Rcn (F := F) c 3)).owesAt none 0) := rfl
include hpd2 in
theorem R2_post (c : Dev nD) : (R2 𝔭 m pd hpd2).post c
    = iprop(loss5Held c (loss5Final c (regA2 𝔭 m c)) ∗ (dat5 c (regA2 𝔭 m c) ((K (F := F)).Otc c 3) (Rcn (F := F) c 3)).owesAt none 0) := rfl

/-! ## The five arrays in and out of the held set, the owed units in and out of the handshake state -/

abbrev RegRefs2 : Finset (DevRef τ sig) := {rT main_v39_0, rT main_v39_1, rT main_v40, rT main_v23, rT main_v41}
omit [FloatOps F] in
theorem RegRefs2_uc : RegRefs2 ⊆ Pipeline.ucRefs τ sig := by decide

omit [FloatOps F] in
/-- The five arrays held whole at a valuation are the region's five points-tos at its entries. -/
theorem held_reg2 (d : Dev nD) (W : Valuation τ sig (Elt F)) :
    (held (T d) RegRefs2 W : sProp 𝕄)
      = loss5Held d (loss5Arrs d (W (rT main_v39_0)) (W (rT main_v39_1)) (W (rT main_v40)) (W (rT main_v23)) (W (rT main_v41))) := by
  unfold held loss5Held RegRefs2
  rw [SparseCore.bigSep_insert' (by decide), SparseCore.bigSep_insert' (by decide), SparseCore.bigSep_insert' (by decide),
    SparseCore.bigSep_insert' (by decide), bigSep_singleton]
  rfl

omit [FloatOps F] in
/-- What the TensorCore owes before call `n`, out of its handshake state, is what the pipeline holds it as. -/
theorem owes_in2 (d : Dev nD) (n : ℕ) :
    (iprop(∃ W, ⌜(K (F := F)).WBelow (T d) W (8 * n)⌝ ∗ owes (T d) ((K (F := F)).Otc d n) W) : sProp 𝕄)
      ⊢ Pipeline.owesWithin d ((K (F := F)).Otc d n) (Rcn (F := F) d n ∪ cfg5.waitPairs (none : HIx 4)) := by
  iintro ⟨%W, %hW, HO⟩
  iexists W; isplitr
  · ipureintro; exact fun p hp => Or.inl (hW p hp)
  iexact HO

omit [FloatOps F] in
/-- And back: the pipeline's own waits are at no index, the lowest level. -/
theorem owes_out2 (d : Dev nD) (n : ℕ) :
    (Pipeline.owesWithin d ((K (F := F)).Otc d n) (Rcn (F := F) d n ∪ cfg5.waitPairs (none : HIx 4)) : sProp 𝕄)
      ⊢ iprop(∃ W, ⌜(K (F := F)).WBelow (T d) W (8 * n)⌝ ∗ owes (T d) ((K (F := F)).Otc d n) W) := by
  iintro ⟨%W, %hW, HO⟩
  iexists W; isplitr
  · ipureintro
    intro p hp
    rcases hW hp with h | ⟨w, s, rfl⟩
    · exact h
    · show (K (F := F)).lev _ none ≤ _
      rw [(K (F := F)).lev_none]; exact Nat.zero_le _
  iexact HO

variable (P : (K (F := F)).Pay (nD := nD) (Val := Elt F) (Name := ℕ) (U := UU))

/-- After region 2 the five arrays are the region's exit contents, when the chain's function for the region is the
    pipeline's. -/
theorem W12_reg (d : Dev nD)
    (h𝔭 : ∀ a0 a1 a2 a3 aOut, (𝔭 d).loss2 a0 a1 a2 a3 aOut = loss5Out d (loss5Arrs d a0 a1 a2 a3 aOut)) :
    loss5Arrs d (W12 (𝔭 d) m d (rT main_v39_0)) (W12 (𝔭 d) m d (rT main_v39_1)) (W12 (𝔭 d) m d (rT main_v40)) (W12 (𝔭 d) m d (rT main_v23)) (W12 (𝔭 d) m d (rT main_v41))
      = loss5Final d (regA2 𝔭 m d) := by
  have e0 : W12 (𝔭 d) m d (rT main_v39_0) = W11 (𝔭 d) m d (rT main_v39_0) := by
    unfold W12; exact Function.update_of_ne (by decide) _ _
  have e1 : W12 (𝔭 d) m d (rT main_v39_1) = W11 (𝔭 d) m d (rT main_v39_1) := by
    unfold W12; exact Function.update_of_ne (by decide) _ _
  have e2 : W12 (𝔭 d) m d (rT main_v40) = W11 (𝔭 d) m d (rT main_v40) := by
    unfold W12; exact Function.update_of_ne (by decide) _ _
  have e3 : W12 (𝔭 d) m d (rT main_v23) = W11 (𝔭 d) m d (rT main_v23) := by
    unfold W12; exact Function.update_of_ne (by decide) _ _
  have e4 : W12 (𝔭 d) m d (rT main_v41) = loss5Out d (regA2 𝔭 m d) := by
    unfold W12; rw [Function.update_self]; exact h𝔭 _ _ _ _ _
  rw [e0, e1, e2, e3, e4]
  rfl

theorem W12_rest (d : Dev nD) (b : DevRef τ sig) (hb : b ∈ Pipeline.ucRefs τ sig \ RegRefs2) : W12 (𝔭 d) m d b = W11 (𝔭 d) m d b := by
  have hb' := (Finset.mem_sdiff.mp hb).2
  simp only [RegRefs2, Finset.mem_insert, Finset.mem_singleton, not_or] at hb'
  unfold W12
  rw [Function.update_of_ne hb'.2.2.2.2]

include hpd2 in
/-- Region 2 of @main. -/
theorem region2_step [∀ e, Nonempty (Elt F e)] (d : Dev nD)
    (h𝔭 : ∀ a0 a1 a2 a3 aOut, (𝔭 d).loss2 a0 a1 a2 a3 aOut = loss5Out d (loss5Arrs d a0 a1 a2 a3 aOut)) :
    RegionStep d P aT 2 3 (W11 (𝔭 d) m d) (W12 (𝔭 d) m d) := by
  intro κ α k Φ
  unfold SparseCore.Cfg.tcSt
  rw [held_sub_split (T d) RegRefs2_uc (W11 (𝔭 d) m d), held_sub_split (T d) RegRefs2_uc (W12 (𝔭 d) m d), held_congr (T d) (W12_rest 𝔭 m d),
    held_reg2, held_reg2, W12_reg 𝔭 m d h𝔭]
  iintro ⟨Hk, Hb, ⟨Hreg, Hrest⟩, ⟨HO, Hst'⟩, #Hctx, Hg, Ht⟩
  ihave Hlv := ((K (F := F)).ctx_levAts κ) $$ Hctx
  ihave HO' := (owes_in2 d 3) $$ HO
  have hstep := step_region aT pd phinjT 2 (R2 𝔭 m pd hpd2) d k Φ
  rw [R2_pre, R2_post] at hstep
  iapply (hstep) $$ [Hk Hb Hreg Hrest HO' Hst' Hlv Hg Ht]
  isplitl [Hk Hrest Hst']
  · iintro ⟨Hb, Hreg, HO⟩
    iapply Hk
    isplitl [Hb]; · iexact Hb
    isplitl [Hreg Hrest]
    · isplitl [Hreg]; · iexact Hreg
      iexact Hrest
    isplitl [HO]; · iapply (owes_out2 d 3); iexact HO
    iexact Hst'
  isplitl [Hb]; · iexact Hb
  isplitl [Hreg HO']
  · isplitl [Hreg]; · iexact Hreg
    iexact HO'
  isplitl [Hlv]; · iexact Hlv
  isplitl [Hg]; · iexact Hg
  iexact Ht

end Cert.Proof.KB

end
-- ==== Proof.KB_Loss7Region.lean ====
import proofs.«215899_g5772436046013_cont_9to1c4b_742_31_alg».proof.Proof.KB_Loss7Dat
import Idealize.ShloMosaic.Lib.Pipeline.Frame
import Idealize.ShloMosaic.Lib.Pipeline.FrameBody

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-! # Entering and leaving the loss7 kernel's region

The region takes the five arrays whole, at the full share, beside what the core owes; it gives them back with the
output array at `loss7Out` and the inputs as they were. Its invariant is the scoped buffers no window stages, which
the body never touches; the body has no semaphore of its own. -/

/-- The pipeline's number among the program's four. -/
abbrev loss7P : Fin 4 := 3

variable (c : Dev nD) (A : Loss7Arrs F c) (O : CellTallies nD τ sig (HIx 4)) (Rc : Set (SemLoc sig × HIx 4))

/-- The five arrays, whole, at the full share, at contents `G`. -/
def loss7Held (G : Loss7Arrs F c) : sProp 𝕄 :=
  iprop(((cfg7.win 0).arr.view.loc (c.tc : Thread nD τ) ↦{fullShare} G 0)
    ∗ ((cfg7.win 1).arr.view.loc (c.tc : Thread nD τ) ↦{fullShare} G 1)
    ∗ ((cfg7.win 2).arr.view.loc (c.tc : Thread nD τ) ↦{fullShare} G 2)
    ∗ ((cfg7.win 3).arr.view.loc (c.tc : Thread nD τ) ↦{fullShare} G 3)
    ∗ ((cfg7.win 4).arr.view.loc (c.tc : Thread nD τ) ↦{fullShare} G 4))

/-- The pipeline's arrays are those five points-tos. -/
theorem arrays7_eq (G : Loss7Arrs F c) : ((dat7 c A O Rc).arrays G : sProp 𝕄) = loss7Held c G := by
  unfold Dat.arrays
  exact (bigSep_congr fun w _ => by rw [(arr_whole7 w).set_eq_univ, share7]).trans (bigSep_W7 _)

/-- The arrays when the region is left: the inputs as they were, the output at `loss7Out`. -/
def loss7Final : Loss7Arrs F c := loss7Arrs c (A 0) (A 1) (A 2) (A 3) (loss7Out c A)

theorem arrAt7_final (w : Fin cfg7.W) : (dat7 c A O Rc).arrAt w cfg7.N = loss7Final c A w := by
  match w with
  | ⟨0, _⟩ => exact arrAt7_0 c A O Rc _
  | ⟨1, _⟩ => exact arrAt7_1 c A O Rc _
  | ⟨2, _⟩ => exact arrAt7_2 c A O Rc _
  | ⟨3, _⟩ => exact arrAt7_3 c A O Rc _
  | ⟨4, _⟩ => exact arrAt7_4 c A O Rc

/-- What the core owes, as the pipeline holds it at any point. -/
theorem owesAt7 (t : Fin (cfg7.N + 1)) :
    ((dat7 c A O Rc).owesAt none t : sProp 𝕄) = Pipeline.owesWithin c O (Rc ∪ cfg7.waitPairs (none : HIx 4)) := rfl

/-- The pipeline has no prefetched table. -/
theorem prefHeld7_emp (q) (pf) :
    (Pipeline.prefHeld (pcfgs (F := F) loss7P).pre c q pf : sProp 𝕄) = BI.emp := by
  unfold Pipeline.prefHeld
  show bigSep (Finset.univ : Finset (Fin 0)) _ = _
  rw [Finset.univ_eq_empty, BI.bigSep_empty]

/-- The invariant at the first point is the scoped rest. -/
theorem loss7_hin (X : sProp 𝕄) (q) (pf) :
    iprop(X ∗ Pipeline.prefHeld (pcfgs (F := F) loss7P).pre c q pf ∗ Pipeline.scopedRest cfg7.spec c)
      ⊢ ((dat7 c A O Rc).Φ 0 : sProp 𝕄) := by
  rw [show (dat7 c A O Rc).Φ 0 = Pipeline.scopedRest cfg7.spec c from rfl]
  iintro ⟨-, -, H⟩; iexact H

/-- The invariant at the last point gives it back. -/
theorem loss7_hout :
    ((dat7 c A O Rc).Φ (Fin.last cfg7.N) : sProp 𝕄)
      ⊢ iprop(BI.emp ∗ Pipeline.ownSems0 (fun k : PEmpty => k.elim) c ∗ Pipeline.scopedRest cfg7.spec c) := by
  rw [show (dat7 c A O Rc).Φ (Fin.last cfg7.N) = Pipeline.scopedRest cfg7.spec c from rfl, Pipeline.ownSems0_none]
  iintro H
  isplitr; · iempintro
  isplitr; · iempintro
  iexact H

/-- ENTRY: the five arrays and what the core owes are what the pipeline starts from. -/
theorem loss7_hentry (R : sProp 𝕄) (q) (pf) :
    iprop((loss7Held c A ∗ (dat7 c A O Rc).owesAt none 0) ∗ R)
      ⊢ |={Set.univ}=> iprop((dat7 c A O Rc).arrays ((dat7 c A O Rc).arrAt · 0)
          ∗ Pipeline.prefHeld (pcfgs (F := F) loss7P).pre c q pf ∗ (dat7 c A O Rc).owesAt none 0 ∗ BI.emp ∗ BI.emp) := by
  rw [arrays7_eq, prefHeld7_emp]
  iintro ⟨⟨HA, HO⟩, -⟩
  imodintro
  isplitl [HA]; · iexact HA
  isplitr; · iempintro
  isplitl [HO]; · iexact HO
  isplitr <;> iempintro

/-- EXIT: the pipeline's arrays after every write-back are the five arrays at `loss7Final`. -/
theorem loss7_hexit :
    iprop((dat7 c A O Rc).arrays ((dat7 c A O Rc).arrAt · cfg7.N) ∗ (dat7 c A O Rc).owesAt none (Fin.last cfg7.N) ∗ BI.emp ∗ BI.emp)
      ⊢ |={Set.univ}=> iprop(loss7Held c (loss7Final c A) ∗ (dat7 c A O Rc).owesAt none 0) := by
  rw [arrays7_eq, show (fun w => (dat7 c A O Rc).arrAt w cfg7.N) = loss7Final c A from funext (arrAt7_final c A O Rc)]
  iintro ⟨HA, HO, -, -⟩
  imodintro
  isplitl [HA]; · iexact HA
  iexact HO

/-! ## The layout facts, in the region rule's spelling -/

section Fields

variable (a : (p : Fin 4) → (pcfgs (F := F) p).Adm)

theorem loss7_win : Pipeline.WinFacts₀ (pcfgs (F := F) loss7P).spec := winFacts7.to₀

theorem loss7_block_pos : ∀ w : Fin (Pipeline.pin (pcfgs (F := F)) a loss7P).W,
    0 < ((Pipeline.pin (pcfgs (F := F)) a loss7P).spec w).block.numel := block_pos7

theorem loss7_stage_whole : ∀ (w : Fin (Pipeline.pin (pcfgs (F := F)) a loss7P).W)
    (s : Fin ((Pipeline.pin (pcfgs (F := F)) a loss7P).spec w).nbuf),
    (((Pipeline.pin (pcfgs (F := F)) a loss7P).spec w).stage s).IsWhole := stage_whole7

theorem loss7_ho : Pipeline.OwnSemFacts (pcfgs (F := F) loss7P).spec (fun k : PEmpty => k.elim) :=
  Pipeline.OwnSemFacts.none _

/-- The proof data is the pinned configuration's. -/
example : Dat τ (Elt F) (HIx 4) ℕ UU ℕ (Pipeline.pin (pcfgs (F := F)) a loss7P) c := dat7 c A O Rc

end Fields

/-! ## The loads of whole blocks are the blocks -/

/-- A load through the unit-stride rectangle at offset zero of the shape's own extents reads the contents. -/
theorem loss7_ld_whole {S : Shape} {e : EltTy} (X : S.Idx → Elt F e) (off : Fin S.rank → ℕ) (h0 : ∀ a, off a = 0)
    (inb : ∀ a, off a + S.size a ≤ S.size a) :
    View.ld (Val := Elt F) X (Rect.unit (s := S) off S.size inb) = X := by
  funext j
  show X ((Rect.unit (s := S) off S.size inb).idx j) = X j
  congr 1
  funext a; apply Fin.ext
  show off a + 1 * (j a : ℕ) = (j a : ℕ)
  rw [h0 a]; omega

theorem loss7In_eq (x : Vec F S1024x128 .f32) : loss7In x = x :=
  loss7_ld_whole x _ (fun a => by fin_cases a <;> rfl) _

/-- At a later point the step is over the previous contents themselves. -/
theorem loss7StepB_eq (x0 x1 : Vec F S1024x128 .f32) (x2 : Vec F S20x1024x128 .f32) (x3 : Vec F S2688x21 .bf16)
    (prev : Vec F S1x1 .f32) : loss7StepB x0 x1 x2 x3 prev = loss7Step x0 x1 x2 x3 prev := by
  unfold loss7StepB
  rw [loss7_ld_whole prev _ (fun a => by fin_cases a <;> rfl) _]

/-- The sign matrix is read whole. -/
theorem loss7Step_eq (x0 x1 : Vec F S1024x128 .f32) (x2 : Vec F S20x1024x128 .f32) (x3 : Vec F S2688x21 .bf16)
    (acc : Vec F S1x1 .f32) : loss7Step x0 x1 x2 x3 acc = k7_pay4 (loss7Z x0 x1 x2) x3 acc := by
  unfold loss7Step
  rw [loss7_ld_whole x3 _ (fun a => by fin_cases a <;> rfl) _]

end Cert.Proof.KB

end
-- ==== Proof.KB_Region3.lean ====
/-
  Region 3 of @main in the shape @main's proof consumes it: its five arrays leave the held set as the pipeline's
  five points-tos, what the TensorCore owes leaves its handshake state with the bound on its recorded pairs, the
  region runs by the pipeline's rule, and both are put back — the (1,1) cell at the summed block losses.
-/
import proofs.«215899_g5772436046013_cont_9to1c4b_742_31_alg».proof.Proof.KB_RegionBase
import proofs.«215899_g5772436046013_cont_9to1c4b_742_31_alg».proof.Proof.KB_Loss7Region

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

open Idealize.ShloMosaic.TcCoe
open Idealize.ShloMosaic.Pipeline (Dat)

local notation "𝕄" => MT nD τ sig (HIx 4) (Elt F) ℕ UU ℕ

variable (𝔭 : Dev nD → Pure F) (m : (ℓ : Loc nD τ sig) → Buf (Elt F) ℓ)

/-- Region 3's five arrays as @main's chain has them at its entry. -/
def regA3 (c : Dev nD) : Loss7Arrs F c :=
  loss7Arrs c (W15 (𝔭 c) m c (rT main_v45_0)) (W15 (𝔭 c) m c (rT main_v45_1)) (W15 (𝔭 c) m c (rT main_v46)) (W15 (𝔭 c) m c (rT main_v23)) (W15 (𝔭 c) m c (rT main_v47))

variable (pd : (p : Fin 4) → (c : Dev nD) → Dat τ (Elt F) (HIx 4) ℕ UU ℕ (Pipeline.pin (pcfgs (F := F)) aT p) c)
  (hpd3 : ∀ c, pd 3 c = dat7 c (regA3 𝔭 m c) ((K (F := F)).Otc c 4) (Rcn (F := F) c 4))

include hpd3 in
/-- Region 3 as the pipeline's rule takes it. -/
def R3 : Pipeline.RegionSeg (pcfgs (F := F)) aT pd (none : HIx 4) defs₀ 𝒱₀ (K (F := F)).L (K (F := F)).lev (3 : Fin 4) where
  win := loss7_win
  block_pos := loss7_block_pos aT
  stage_whole := loss7_stage_whole aT
  K := PEmpty
  osem := fun k => k.elim
  ho := loss7_ho
  hbody := fun c => by rw [hpd3 c]; exact body_obligation7_loose c _ _ _
  hwaits := fun c => Pipeline.cellsWaits_intro (Pipeline.pin (pcfgs (F := F)) aT) pd (none : HIx 4) 3 c fun w s t => by
    rw [hpd3 c]; exact (K (F := F)).mayWait_none _ (Otc_none c 4)
  pre := fun c => iprop(loss7Held c (regA3 𝔭 m c) ∗ (dat7 c (regA3 𝔭 m c) ((K (F := F)).Otc c 4) (Rcn (F := F) c 4)).owesAt none 0)
  post := fun c => iprop(loss7Held c (loss7Final c (regA3 𝔭 m c)) ∗ (dat7 c (regA3 𝔭 m c) ((K (F := F)).Otc c 4) (Rcn (F := F) c 4)).owesAt none 0)
  X := fun _ => iprop(emp)
  Y := fun _ => iprop(emp)
  Z := fun _ => iprop(emp)
  hentry := fun c => by rw [hpd3 c]; exact loss7_hentry c _ _ _ _ _ _
  hin := fun c => by rw [hpd3 c]; exact loss7_hin c _ _ _ _ _ _
  hout := fun c => by rw [hpd3 c]; exact loss7_hout c _ _ _
  hexit := fun c => by rw [hpd3 c]; exact loss7_hexit c _ _ _

include hpd3 in
theorem R3_pre (c : Dev nD) : (R3 𝔭 m pd hpd3).pre c
    = iprop(loss7Held c (regA3 𝔭 m c) ∗ (dat7 c (regA3 𝔭 m c) ((K (F := F)).Otc c 4) (Rcn (F := F) c 4)).owesAt none 0) := rfl
include hpd3 in
theorem R3_post (c : Dev nD) : (R3 𝔭 m pd hpd3).post c
    = iprop(loss7Held c (loss7Final c (regA3 𝔭 m c)) ∗ (dat7 c (regA3 𝔭 m c) ((K (F := F)).Otc c 4) (Rcn (F := F) c 4)).owesAt none 0) := rfl

/-! ## The five arrays in and out of the held set, the owed units in and out of the handshake state -/

abbrev RegRefs3 : Finset (DevRef τ sig) := {rT main_v45_0, rT main_v45_1, rT main_v46, rT main_v23, rT main_v47}
omit [FloatOps F] in
theorem RegRefs3_uc : RegRefs3 ⊆ Pipeline.ucRefs τ sig := by decide

omit [FloatOps F] in
/-- The five arrays held whole at a valuation are the region's five points-tos at its entries. -/
theorem held_reg3 (d : Dev nD) (W : Valuation τ sig (Elt F)) :
    (held (T d) RegRefs3 W : sProp 𝕄)
      = loss7Held d (loss7Arrs d (W (rT main_v45_0)) (W (rT main_v45_1)) (W (rT main_v46)) (W (rT main_v23)) (W (rT main_v47))) := by
  unfold held loss7Held RegRefs3
  rw [SparseCore.bigSep_insert' (by decide), SparseCore.bigSep_insert' (by decide), SparseCore.bigSep_insert' (by decide),
    SparseCore.bigSep_insert' (by decide), bigSep_singleton]
  rfl

omit [FloatOps F] in
/-- What the TensorCore owes before call `n`, out of its handshake state, is what the pipeline holds it as. -/
theorem owes_in3 (d : Dev nD) (n : ℕ) :
    (iprop(∃ W, ⌜(K (F := F)).WBelow (T d) W (8 * n)⌝ ∗ owes (T d) ((K (F := F)).Otc d n) W) : sProp 𝕄)
      ⊢ Pipeline.owesWithin d ((K (F := F)).Otc d n) (Rcn (F := F) d n ∪ cfg7.waitPairs (none : HIx 4)) := by
  iintro ⟨%W, %hW, HO⟩
  iexists W; isplitr
  · ipureintro; exact fun p hp => Or.inl (hW p hp)
  iexact HO

omit [FloatOps F] in
/-- And back: the pipeline's own waits are at no index, the lowest level. -/
theorem owes_out3 (d : Dev nD) (n : ℕ) :
    (Pipeline.owesWithin d ((K (F := F)).Otc d n) (Rcn (F := F) d n ∪ cfg7.waitPairs (none : HIx 4)) : sProp 𝕄)
      ⊢ iprop(∃ W, ⌜(K (F := F)).WBelow (T d) W (8 * n)⌝ ∗ owes (T d) ((K (F := F)).Otc d n) W) := by
  iintro ⟨%W, %hW, HO⟩
  iexists W; isplitr
  · ipureintro
    intro p hp
    rcases hW hp with h | ⟨w, s, rfl⟩
    · exact h
    · show (K (F := F)).lev _ none ≤ _
      rw [(K (F := F)).lev_none]; exact Nat.zero_le _
  iexact HO

variable (P : (K (F := F)).Pay (nD := nD) (Val := Elt F) (Name := ℕ) (U := UU))

/-- After region 3 the five arrays are the region's exit contents, when the chain's function for the region is the
    pipeline's. -/
theorem W16_reg (d : Dev nD)
    (h𝔭 : ∀ a0 a1 a2 a3 aOut, (𝔭 d).loss3 a0 a1 a2 a3 aOut = loss7Out d (loss7Arrs d a0 a1 a2 a3 aOut)) :
    loss7Arrs d (W16 (𝔭 d) m d (rT main_v45_0)) (W16 (𝔭 d) m d (rT main_v45_1)) (W16 (𝔭 d) m d (rT main_v46)) (W16 (𝔭 d) m d (rT main_v23)) (W16 (𝔭 d) m d (rT main_v47))
      = loss7Final d (regA3 𝔭 m d) := by
  have e0 : W16 (𝔭 d) m d (rT main_v45_0) = W15 (𝔭 d) m d (rT main_v45_0) := by
    unfold W16; exact Function.update_of_ne (by decide) _ _
  have e1 : W16 (𝔭 d) m d (rT main_v45_1) = W15 (𝔭 d) m d (rT main_v45_1) := by
    unfold W16; exact Function.update_of_ne (by decide) _ _
  have e2 : W16 (𝔭 d) m d (rT main_v46) = W15 (𝔭 d) m d (rT main_v46) := by
    unfold W16; exact Function.update_of_ne (by decide) _ _
  have e3 : W16 (𝔭 d) m d (rT main_v23) = W15 (𝔭 d) m d (rT main_v23) := by
    unfold W16; exact Function.update_of_ne (by decide) _ _
  have e4 : W16 (𝔭 d) m d (rT main_v47) = loss7Out d (regA3 𝔭 m d) := by
    unfold W16; rw [Function.update_self]; exact h𝔭 _ _ _ _ _
  rw [e0, e1, e2, e3, e4]
  rfl

theorem W16_rest (d : Dev nD) (b : DevRef τ sig) (hb : b ∈ Pipeline.ucRefs τ sig \ RegRefs3) : W16 (𝔭 d) m d b = W15 (𝔭 d) m d b := by
  have hb' := (Finset.mem_sdiff.mp hb).2
  simp only [RegRefs3, Finset.mem_insert, Finset.mem_singleton, not_or] at hb'
  unfold W16
  rw [Function.update_of_ne hb'.2.2.2.2]

include hpd3 in
/-- Region 3 of @main. -/
theorem region3_step [∀ e, Nonempty (Elt F e)] (d : Dev nD)
    (h𝔭 : ∀ a0 a1 a2 a3 aOut, (𝔭 d).loss3 a0 a1 a2 a3 aOut = loss7Out d (loss7Arrs d a0 a1 a2 a3 aOut)) :
    RegionStep d P aT 3 4 (W15 (𝔭 d) m d) (W16 (𝔭 d) m d) := by
  intro κ α k Φ
  unfold SparseCore.Cfg.tcSt
  rw [held_sub_split (T d) RegRefs3_uc (W15 (𝔭 d) m d), held_sub_split (T d) RegRefs3_uc (W16 (𝔭 d) m d), held_congr (T d) (W16_rest 𝔭 m d),
    held_reg3, held_reg3, W16_reg 𝔭 m d h𝔭]
  iintro ⟨Hk, Hb, ⟨Hreg, Hrest⟩, ⟨HO, Hst'⟩, #Hctx, Hg, Ht⟩
  ihave Hlv := ((K (F := F)).ctx_levAts κ) $$ Hctx
  ihave HO' := (owes_in3 d 4) $$ HO
  have hstep := step_region aT pd phinjT 3 (R3 𝔭 m pd hpd3) d k Φ
  rw [R3_pre, R3_post] at hstep
  iapply (hstep) $$ [Hk Hb Hreg Hrest HO' Hst' Hlv Hg Ht]
  isplitl [Hk Hrest Hst']
  · iintro ⟨Hb, Hreg, HO⟩
    iapply Hk
    isplitl [Hb]; · iexact Hb
    isplitl [Hreg Hrest]
    · isplitl [Hreg]; · iexact Hreg
      iexact Hrest
    isplitl [HO]; · iapply (owes_out3 d 4); iexact HO
    iexact Hst'
  isplitl [Hb]; · iexact Hb
  isplitl [Hreg HO']
  · isplitl [Hreg]; · iexact Hreg
    iexact HO'
  isplitl [Hlv]; · iexact Hlv
  isplitl [Hg]; · iexact Hg
  iexact Ht

end Cert.Proof.KB

end
-- ==== Proof.KB_Fin.lean ====
/-
  The program's arguments along @main's chain of contents: no stretch of host operations writes an argument array and no
  call or region has one among its results, so at @main's end each argument array holds its launch contents.
-/
import proofs.«215899_g5772436046013_cont_9to1c4b_742_31_alg».proof.Proof.KB_Vals

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

variable (𝔭 : Pure F) (m : (ℓ : Loc nD τ sig) → Buf (Elt F) ℓ) (d : Dev nD)

theorem Wfin_main_arg0 : Wfin 𝔭 m d (rT main_arg0) = m (d, rT main_arg0) := by
  unfold Wfin W17 opsB3; after_results
  unfold W16; rw [Function.update_of_ne (show rT main_arg0 ≠ rT main_v47 by decide)]
  unfold W15 opsA3; after_results
  unfold W14; rw [Function.update_of_ne (show rT main_arg0 ≠ rT main_v45_2 by decide), Function.update_of_ne (show rT main_arg0 ≠ rT main_v45_1 by decide), Function.update_of_ne (show rT main_arg0 ≠ rT main_v45_0 by decide)]
  unfold W13 opsB2; after_results
  unfold W12; rw [Function.update_of_ne (show rT main_arg0 ≠ rT main_v41 by decide)]
  unfold W11 opsA2; after_results
  unfold W10; rw [Function.update_of_ne (show rT main_arg0 ≠ rT main_v39_2 by decide), Function.update_of_ne (show rT main_arg0 ≠ rT main_v39_1 by decide), Function.update_of_ne (show rT main_arg0 ≠ rT main_v39_0 by decide)]
  unfold W9 opsB1; after_results
  unfold W8; rw [Function.update_of_ne (show rT main_arg0 ≠ rT main_v35 by decide)]
  unfold W7 opsA1; after_results
  unfold W6; rw [Function.update_of_ne (show rT main_arg0 ≠ rT main_v33_2 by decide), Function.update_of_ne (show rT main_arg0 ≠ rT main_v33_1 by decide), Function.update_of_ne (show rT main_arg0 ≠ rT main_v33_0 by decide)]
  unfold W5 opsB0; after_results
  unfold W4; rw [Function.update_of_ne (show rT main_arg0 ≠ rT main_v29 by decide)]
  unfold W3 opsA0; after_results
  unfold W2; rw [Function.update_of_ne (show rT main_arg0 ≠ rT main_v27_2 by decide), Function.update_of_ne (show rT main_arg0 ≠ rT main_v27_1 by decide), Function.update_of_ne (show rT main_arg0 ≠ rT main_v27_0 by decide)]
  unfold W1 opsH; after_results

theorem Wfin_main_arg1 : Wfin 𝔭 m d (rT main_arg1) = m (d, rT main_arg1) := by
  unfold Wfin W17 opsB3; after_results
  unfold W16; rw [Function.update_of_ne (show rT main_arg1 ≠ rT main_v47 by decide)]
  unfold W15 opsA3; after_results
  unfold W14; rw [Function.update_of_ne (show rT main_arg1 ≠ rT main_v45_2 by decide), Function.update_of_ne (show rT main_arg1 ≠ rT main_v45_1 by decide), Function.update_of_ne (show rT main_arg1 ≠ rT main_v45_0 by decide)]
  unfold W13 opsB2; after_results
  unfold W12; rw [Function.update_of_ne (show rT main_arg1 ≠ rT main_v41 by decide)]
  unfold W11 opsA2; after_results
  unfold W10; rw [Function.update_of_ne (show rT main_arg1 ≠ rT main_v39_2 by decide), Function.update_of_ne (show rT main_arg1 ≠ rT main_v39_1 by decide), Function.update_of_ne (show rT main_arg1 ≠ rT main_v39_0 by decide)]
  unfold W9 opsB1; after_results
  unfold W8; rw [Function.update_of_ne (show rT main_arg1 ≠ rT main_v35 by decide)]
  unfold W7 opsA1; after_results
  unfold W6; rw [Function.update_of_ne (show rT main_arg1 ≠ rT main_v33_2 by decide), Function.update_of_ne (show rT main_arg1 ≠ rT main_v33_1 by decide), Function.update_of_ne (show rT main_arg1 ≠ rT main_v33_0 by decide)]
  unfold W5 opsB0; after_results
  unfold W4; rw [Function.update_of_ne (show rT main_arg1 ≠ rT main_v29 by decide)]
  unfold W3 opsA0; after_results
  unfold W2; rw [Function.update_of_ne (show rT main_arg1 ≠ rT main_v27_2 by decide), Function.update_of_ne (show rT main_arg1 ≠ rT main_v27_1 by decide), Function.update_of_ne (show rT main_arg1 ≠ rT main_v27_0 by decide)]
  unfold W1 opsH; after_results

theorem Wfin_main_arg2 : Wfin 𝔭 m d (rT main_arg2) = m (d, rT main_arg2) := by
  unfold Wfin W17 opsB3; after_results
  unfold W16; rw [Function.update_of_ne (show rT main_arg2 ≠ rT main_v47 by decide)]
  unfold W15 opsA3; after_results
  unfold W14; rw [Function.update_of_ne (show rT main_arg2 ≠ rT main_v45_2 by decide), Function.update_of_ne (show rT main_arg2 ≠ rT main_v45_1 by decide), Function.update_of_ne (show rT main_arg2 ≠ rT main_v45_0 by decide)]
  unfold W13 opsB2; after_results
  unfold W12; rw [Function.update_of_ne (show rT main_arg2 ≠ rT main_v41 by decide)]
  unfold W11 opsA2; after_results
  unfold W10; rw [Function.update_of_ne (show rT main_arg2 ≠ rT main_v39_2 by decide), Function.update_of_ne (show rT main_arg2 ≠ rT main_v39_1 by decide), Function.update_of_ne (show rT main_arg2 ≠ rT main_v39_0 by decide)]
  unfold W9 opsB1; after_results
  unfold W8; rw [Function.update_of_ne (show rT main_arg2 ≠ rT main_v35 by decide)]
  unfold W7 opsA1; after_results
  unfold W6; rw [Function.update_of_ne (show rT main_arg2 ≠ rT main_v33_2 by decide), Function.update_of_ne (show rT main_arg2 ≠ rT main_v33_1 by decide), Function.update_of_ne (show rT main_arg2 ≠ rT main_v33_0 by decide)]
  unfold W5 opsB0; after_results
  unfold W4; rw [Function.update_of_ne (show rT main_arg2 ≠ rT main_v29 by decide)]
  unfold W3 opsA0; after_results
  unfold W2; rw [Function.update_of_ne (show rT main_arg2 ≠ rT main_v27_2 by decide), Function.update_of_ne (show rT main_arg2 ≠ rT main_v27_1 by decide), Function.update_of_ne (show rT main_arg2 ≠ rT main_v27_0 by decide)]
  unfold W1 opsH; after_results

theorem Wfin_main_arg3 : Wfin 𝔭 m d (rT main_arg3) = m (d, rT main_arg3) := by
  unfold Wfin W17 opsB3; after_results
  unfold W16; rw [Function.update_of_ne (show rT main_arg3 ≠ rT main_v47 by decide)]
  unfold W15 opsA3; after_results
  unfold W14; rw [Function.update_of_ne (show rT main_arg3 ≠ rT main_v45_2 by decide), Function.update_of_ne (show rT main_arg3 ≠ rT main_v45_1 by decide), Function.update_of_ne (show rT main_arg3 ≠ rT main_v45_0 by decide)]
  unfold W13 opsB2; after_results
  unfold W12; rw [Function.update_of_ne (show rT main_arg3 ≠ rT main_v41 by decide)]
  unfold W11 opsA2; after_results
  unfold W10; rw [Function.update_of_ne (show rT main_arg3 ≠ rT main_v39_2 by decide), Function.update_of_ne (show rT main_arg3 ≠ rT main_v39_1 by decide), Function.update_of_ne (show rT main_arg3 ≠ rT main_v39_0 by decide)]
  unfold W9 opsB1; after_results
  unfold W8; rw [Function.update_of_ne (show rT main_arg3 ≠ rT main_v35 by decide)]
  unfold W7 opsA1; after_results
  unfold W6; rw [Function.update_of_ne (show rT main_arg3 ≠ rT main_v33_2 by decide), Function.update_of_ne (show rT main_arg3 ≠ rT main_v33_1 by decide), Function.update_of_ne (show rT main_arg3 ≠ rT main_v33_0 by decide)]
  unfold W5 opsB0; after_results
  unfold W4; rw [Function.update_of_ne (show rT main_arg3 ≠ rT main_v29 by decide)]
  unfold W3 opsA0; after_results
  unfold W2; rw [Function.update_of_ne (show rT main_arg3 ≠ rT main_v27_2 by decide), Function.update_of_ne (show rT main_arg3 ≠ rT main_v27_1 by decide), Function.update_of_ne (show rT main_arg3 ≠ rT main_v27_0 by decide)]
  unfold W1 opsH; after_results

theorem Wfin_main_arg4 : Wfin 𝔭 m d (rT main_arg4) = m (d, rT main_arg4) := by
  unfold Wfin W17 opsB3; after_results
  unfold W16; rw [Function.update_of_ne (show rT main_arg4 ≠ rT main_v47 by decide)]
  unfold W15 opsA3; after_results
  unfold W14; rw [Function.update_of_ne (show rT main_arg4 ≠ rT main_v45_2 by decide), Function.update_of_ne (show rT main_arg4 ≠ rT main_v45_1 by decide), Function.update_of_ne (show rT main_arg4 ≠ rT main_v45_0 by decide)]
  unfold W13 opsB2; after_results
  unfold W12; rw [Function.update_of_ne (show rT main_arg4 ≠ rT main_v41 by decide)]
  unfold W11 opsA2; after_results
  unfold W10; rw [Function.update_of_ne (show rT main_arg4 ≠ rT main_v39_2 by decide), Function.update_of_ne (show rT main_arg4 ≠ rT main_v39_1 by decide), Function.update_of_ne (show rT main_arg4 ≠ rT main_v39_0 by decide)]
  unfold W9 opsB1; after_results
  unfold W8; rw [Function.update_of_ne (show rT main_arg4 ≠ rT main_v35 by decide)]
  unfold W7 opsA1; after_results
  unfold W6; rw [Function.update_of_ne (show rT main_arg4 ≠ rT main_v33_2 by decide), Function.update_of_ne (show rT main_arg4 ≠ rT main_v33_1 by decide), Function.update_of_ne (show rT main_arg4 ≠ rT main_v33_0 by decide)]
  unfold W5 opsB0; after_results
  unfold W4; rw [Function.update_of_ne (show rT main_arg4 ≠ rT main_v29 by decide)]
  unfold W3 opsA0; after_results
  unfold W2; rw [Function.update_of_ne (show rT main_arg4 ≠ rT main_v27_2 by decide), Function.update_of_ne (show rT main_arg4 ≠ rT main_v27_1 by decide), Function.update_of_ne (show rT main_arg4 ≠ rT main_v27_0 by decide)]
  unfold W1 opsH; after_results

end Cert.Proof.KB

end
-- ==== Proof.KB_Main.lean ====
/-
  The program's run: the pipelines' proof data as one family over the four regions, @main's proof with every call's and
  region's step supplied, how the final memory reads the held arrays, and the launch theorem applied — every weakly fair
  execution of the TensorCore, the two sequencers and the thirty-two tiles terminates, nothing faulting, with the result
  cell at the chain's final contents and the five argument arrays at their launch contents.
-/
import proofs.«215899_g5772436046013_cont_9to1c4b_742_31_alg».proof.Proof.KB_Calls
import proofs.«215899_g5772436046013_cont_9to1c4b_742_31_alg».proof.Proof.KB_Region0
import proofs.«215899_g5772436046013_cont_9to1c4b_742_31_alg».proof.Proof.KB_Region1
import proofs.«215899_g5772436046013_cont_9to1c4b_742_31_alg».proof.Proof.KB_Region2
import proofs.«215899_g5772436046013_cont_9to1c4b_742_31_alg».proof.Proof.KB_Region3
import proofs.«215899_g5772436046013_cont_9to1c4b_742_31_alg».proof.Proof.KB_Fin

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

open Idealize.ShloMosaic.TcCoe
open Idealize.ShloMosaic.Pipeline (Dat)

local notation "𝕄" => MT nD τ sig (HIx 4) (Elt F) ℕ UU ℕ

variable (m : (ℓ : Loc nD τ sig) → Buf (Elt F) ℓ) (ρ : Dev nD → PrngReg)

/-- The four pipelines' proof data: region p's arrays as @main's chain has them at its entry, the TensorCore owing its
    later start signals throughout, its recorded pairs bounded as before the next call. -/
def pdK : (p : Fin 4) → (c : Dev nD) → Dat τ (Elt F) (HIx 4) ℕ UU ℕ (Pipeline.pin (pcfgs (F := F)) aT p) c
  | ⟨0, _⟩ => fun c => dat1 c (regA0 pureK m c) ((K (F := F)).Otc c 1) (Rcn (F := F) c 1)
  | ⟨1, _⟩ => fun c => dat3 c (regA1 pureK m c) ((K (F := F)).Otc c 2) (Rcn (F := F) c 2)
  | ⟨2, _⟩ => fun c => dat5 c (regA2 pureK m c) ((K (F := F)).Otc c 3) (Rcn (F := F) c 3)
  | ⟨3, _⟩ => fun c => dat7 c (regA3 pureK m c) ((K (F := F)).Otc c 4) (Rcn (F := F) c 4)

/-- @main on the TensorCore of device `d`. -/
theorem hmainK [∀ e, Nonempty (Elt F e)] (κ : GSem nD τ sig → ℕ) (d : Dev nD) :
    iprop((K (F := F)).ctx EH (PK m) κ ∗ (K (F := F)).tcSt EH d 0 ∗ (K (F := F)).tcRes m ρ d ∗ G (F := F) aT d)
      ⊢ wp frame (wpE ((K (F := F)).defs (D (F := F))) 𝒱 (T d) none) Set.univ (main d)
          fun _ => iprop((K (F := F)).tcSt EH d 4 ∗ FIN (pureK d) m d) :=
  hmain (pureK d) m ρ d (PK m) aT κ
    (call0_step m d) (region0_step pureK m (pdK m) (fun _ => rfl) (PK m) d (fun _ _ _ _ _ => rfl))
    (call1_step m d) (region1_step pureK m (pdK m) (fun _ => rfl) (PK m) d (fun _ _ _ _ _ => rfl))
    (call2_step m d) (region2_step pureK m (pdK m) (fun _ => rfl) (PK m) d (fun _ _ _ _ _ => rfl))
    (call3_step m d) (region3_step pureK m (pdK m) (fun _ => rfl) (PK m) d (fun _ _ _ _ _ => rfl))

/-- What the final memory is read for on device `d`: every unscoped array at the chain's final contents. -/
def fq (d : Dev nD) (s' : Phys nD τ sig (Elt F)) : Prop :=
  ∀ b ∈ Pipeline.ucRefs τ sig, s'.mem.mem (d, b) = Wfin (pureK d) m d b

theorem hfin (d : Dev nD) (s' : Phys nD τ sig (Elt F)) : iprop(FIN (pureK d) m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- The run's post: the result cell at the chain's final contents, the arguments unchanged. -/
def QC : PUnit × MemSt nD τ sig (Elt F) → Prop := fun r => ∀ c : Dev nD,
  r.2.mem ((SparseCore.T c : Thread nD τ).loc main_v51) = Wfin (pureK c) m c (rT main_v51)
    ∧ r.2.mem ((SparseCore.T c : Thread nD τ).loc main_arg0) = m ((SparseCore.T c : Thread nD τ).loc main_arg0) ∧ r.2.mem ((SparseCore.T c : Thread nD τ).loc main_arg1) = m ((SparseCore.T c : Thread nD τ).loc main_arg1)
    ∧ r.2.mem ((SparseCore.T c : Thread nD τ).loc main_arg2) = m ((SparseCore.T c : Thread nD τ).loc main_arg2) ∧ r.2.mem ((SparseCore.T c : Thread nD τ).loc main_arg3) = m ((SparseCore.T c : Thread nD τ).loc main_arg3)
    ∧ r.2.mem ((SparseCore.T c : Thread nD τ).loc main_arg4) = m ((SparseCore.T c : Thread nD τ).loc main_arg4)

/-- Every tile's share is storable. -/
theorem PK_storable : (PK m).IsStorable :=
  mkP_storable (gofK m) (tdfK m)
    (fun q d c i => match q with
      | ⟨0, _⟩ => by unfold gofK; infer_instance
      | ⟨1, _⟩ => by unfold gofK; infer_instance
      | ⟨2, _⟩ => by unfold gofK; infer_instance
      | ⟨3, _⟩ => by unfold gofK; infer_instance)
    (fun q d c i => match q with
      | ⟨0, _⟩ => by unfold tdfK; infer_instance
      | ⟨1, _⟩ => by unfold tdfK; infer_instance
      | ⟨2, _⟩ => by unfold tdfK; infer_instance
      | ⟨3, _⟩ => by unfold tdfK; infer_instance)

/-- The program's run, from the tiles' obligations. -/
theorem run_main [∀ e, Nonempty (Elt F e)] (htile : ∀ q, (K (F := F)).TileObl (D (F := F)) 𝒱 (PK m) v₀ q) :
    θ_run (Cert.Kernel.defs (F := F)) (Cert.Kernel.threads (F := F)) ⟨m, fun _ => 0, ρ⟩ (QC m) :=
  haveI := PK_storable m
  SparseCore.Cfg.θ_run_sc (K := K (F := F)) (D := D (F := F)) (𝒱 := 𝒱) (EH := EH) (P := PK m) facts v₀
    (fun q hq => by
      have h : (K (F := F)).kind q = Kind.scVector := by fin_cases q <;> rfl
      rw [h] at hq
      exact absurd hq (by decide))
    (fun q _ => htile q)
    (fun q _ => SparseCore.Cfg.VecSplit.of_plain (vecSplit (gofK m) (tdfK m) q))
    m ρ main (G (F := F) aT) (fun d => FIN (pureK d) m d) (u₀ (F := F) aT phinjT)
    (sep_elim_left.trans (hu₀ (gofK m) (tdfK m) aT phinjT)) (hmainK m ρ) (fq m) (hfin m) (QC m)
    (fun s' h c => ⟨h c (rT main_v51) (by decide),
      (h c (rT main_arg0) (by decide)).trans (Wfin_main_arg0 (pureK c) m c),
      (h c (rT main_arg1) (by decide)).trans (Wfin_main_arg1 (pureK c) m c),
      (h c (rT main_arg2) (by decide)).trans (Wfin_main_arg2 (pureK c) m c),
      (h c (rT main_arg3) (by decide)).trans (Wfin_main_arg3 (pureK c) m c),
      (h c (rT main_arg4) (by decide)).trans (Wfin_main_arg4 (pureK c) m c)⟩)

end Cert.Proof.KB

end
-- ==== Proof.KB_Index.lean ====
/-
  The index rows along @main: the first stretch lays the batch's centre words, positive words and negative draws
  out per quarter and worker (a row of centre words, a row of positive words, twenty rows of draws, two rows of
  zeros, 128 words a row); each quarter's 768 rows are cut from that one array, which no later step rewrites.
  Read at an index, row 24 w + k of quarter s holds the words of the 128 batch entries 4096 s + 128 w …; under the
  input domain's ranges every word of rows 0 … 21 of a worker names a row of the tables.
-/
import proofs.«215899_g5772436046013_cont_9to1c4b_742_31_alg».proof.Proof.KB_Vals
import Idealize.ShloMosaic.Lib.ValueIdx
import Idealize.ShloMosaic.Lib.ValueLayout
import Idealize.ShloMosaic.Lib.Pipeline.Value

noncomputable section

namespace Cert.Proof.KB

open Cert.Kernel Cert.Kernel.Gen

open Idealize.ShloMosaic
open Idealize.ShloMosaic.StableHlo
open Idealize.ShloMosaic.ValueIdx

variable {F : FTy → Type} [FloatOps F]
variable (𝔭 : Pure F) (m : (ℓ : Loc nD τ sig) → Buf (Elt F) ℓ) (d : Dev nD)

/-! ## The launch memory's words -/

/-- The centre words. -/
abbrev cenW : IVec S16384 32 := m (d, rT main_arg2)
/-- The positive words. -/
abbrev posW : IVec S16384 32 := m (d, rT main_arg3)
/-- The negative draws: twenty words a batch entry. -/
abbrev negW : IVec S16384x20 32 := m (d, rT main_arg4)

/-- The index rows per quarter, worker and row: the centre words' row, the positive words' row, the twenty draws'
    rows, two rows of zeros. -/
def V6 : IVec S4x32x24x128 32 :=
  concatenate S4x32x24x128 2
    [⟨S4x32x1x128, shapeCast S4x32x1x128 (cenW m d) shapeCasts_S16384_S4x32x1x128⟩,
     ⟨S4x32x1x128, shapeCast S4x32x1x128 (posW m d) shapeCasts_S16384_S4x32x1x128⟩,
     ⟨S4x32x20x128, transpose S4x32x20x128 [1, 2, 0, 3]
        (shapeCast S20x4x32x128 (transpose S20x16384 [1, 0] (negW m d) transposes_S16384x20_S20x16384_1_0) shapeCasts_S20x16384_S20x4x32x128)
        transposes_S20x4x32x128_S4x32x20x128_1_2_0_3⟩,
     ⟨S4x32x2x128, broadcastInDim S4x32x2x128 ![] bcast_S_S4x32x2x128 (constantI S_ 32 0#32)⟩]
    concatenates_S4x32x1x128_S4x32x1x128_S4x32x20x128_S4x32x2x128_S4x32x24x128_d2

/-- The same with a quarter's workers' rows in one axis: 768 rows a quarter. -/
def V7 : IVec S4x768x128 32 := shapeCast S4x768x128 (V6 m d) shapeCasts_S4x32x24x128_S4x768x128

/-- Quarter `s` of the index rows. -/
def slab (s : Fin 4) (v : IVec S4x768x128 32) : IVec S768x128 32 := fun j => v (ix3 s (j 0) (j 1))

/-! ## The first stretch leaves them so -/

theorem W1_v7 : W1 m d (rT main_v7) = V7 m d := by
  unfold W1 V7 V6
  after_results
  rfl

/-- A quarter cut out of the rows and its unit axis dropped, read at an index. -/
theorem slab_read (off : Fin 3 → ℕ) (s : Fin 4) (h0 : off 0 = s.val) (h1 : off 1 = 0) (h2 : off 2 = 0) (v : IVec S4x768x128 32)
    (h : S4x768x128.Slices off S1x768x128) (h' : S1x768x128.ShapeCasts S768x128) :
    shapeCast S768x128 (extractStridedSlice S1x768x128 off v h) h' = slab s v := by
  funext j
  refine (shapeCast_apply _ _ j (ix3 ⟨0, Nat.one_pos⟩ (j 0) (j 1)) ?_).trans ?_
  · rw [Shape.rowMajor_val_three, Shape.rowMajor_val_two]
    show (0 * 768 + (j 0).val) * 128 + (j 1).val = (j 0).val * 128 + (j 1).val
    omega
  · exact extractStridedSlice_apply _ _ _ _ (ix3 s (j 0) (j 1)) fun a => match a with
      | ⟨0, _⟩ => by show s.val = off 0 + 0; omega
      | ⟨1, _⟩ => by show (j 0).val = off 1 + (j 0).val; omega
      | ⟨2, _⟩ => by show (j 1).val = off 2 + (j 1).val; omega

theorem IX0_eq : W1 m d (rT main_v26) = slab 0 (V7 m d) := by
  rw [← slab_read ![0, 0, 0] 0 rfl rfl rfl (V7 m d) slices_S4x768x128_S1x768x128_0_0_0 shapeCasts_S1x768x128_S768x128]
  unfold W1 V7 V6
  after_results
  rfl

/-! ## No later step rewrites them -/

theorem upd3_ne (W : Valuation τ sig (Elt F)) {a b c r : Ref sig .tc} (ha : r ≠ a) (hb : r ≠ b) (hc : r ≠ c)
    (x : (rT a).ty.Contents (Elt F)) (y : (rT b).ty.Contents (Elt F)) (z : (rT c).ty.Contents (Elt F)) :
    Function.update (Function.update (Function.update W (rT a) x) (rT b) y) (rT c) z (rT r) = W (rT r) := by
  rw [Function.update_of_ne (devRef_ne_of_ne hc), Function.update_of_ne (devRef_ne_of_ne hb), Function.update_of_ne (devRef_ne_of_ne ha)]

theorem W2_v7 : W2 𝔭 m d (rT main_v7) = V7 m d := by
  unfold W2; rw [upd3_ne _ (by decide) (by decide) (by decide), W1_v7]
theorem W3_v7 : W3 𝔭 m d (rT main_v7) = V7 m d := by
  unfold W3; after_results_simp; exact W2_v7 𝔭 m d
theorem W4_v7 : W4 𝔭 m d (rT main_v7) = V7 m d := by
  unfold W4; rw [Function.update_of_ne (devRef_ne_of_ne (by decide)), W3_v7]
theorem W5_v7 : W5 𝔭 m d (rT main_v7) = V7 m d := by
  unfold W5; after_results_simp; exact W4_v7 𝔭 m d
theorem W6_v7 : W6 𝔭 m d (rT main_v7) = V7 m d := by
  unfold W6; rw [upd3_ne _ (by decide) (by decide) (by decide), W5_v7]
theorem W7_v7 : W7 𝔭 m d (rT main_v7) = V7 m d := by
  unfold W7; after_results_simp; exact W6_v7 𝔭 m d
theorem W8_v7 : W8 𝔭 m d (rT main_v7) = V7 m d := by
  unfold W8; rw [Function.update_of_ne (devRef_ne_of_ne (by decide)), W7_v7]
theorem W9_v7 : W9 𝔭 m d (rT main_v7) = V7 m d := by
  unfold W9; after_results_simp; exact W8_v7 𝔭 m d
theorem W10_v7 : W10 𝔭 m d (rT main_v7) = V7 m d := by
  unfold W10; rw [upd3_ne _ (by decide) (by decide) (by decide), W9_v7]
theorem W11_v7 : W11 𝔭 m d (rT main_v7) = V7 m d := by
  unfold W11; after_results_simp; exact W10_v7 𝔭 m d
theorem W12_v7 : W12 𝔭 m d (rT main_v7) = V7 m d := by
  unfold W12; rw [Function.update_of_ne (devRef_ne_of_ne (by decide)), W11_v7]

theorem IX1_eq : W5 𝔭 m d (rT main_v32) = slab 1 (V7 m d) := by
  rw [← slab_read ![1, 0, 0] 1 rfl rfl rfl (V7 m d) slices_S4x768x128_S1x768x128_1_0_0 shapeCasts_S1x768x128_S768x128, ← W4_v7 𝔭 m d]
  unfold W5; after_results_simp; rfl
theorem IX2_eq : W9 𝔭 m d (rT main_v38) = slab 2 (V7 m d) := by
  rw [← slab_read ![2, 0, 0] 2 rfl rfl rfl (V7 m d) slices_S4x768x128_S1x768x128_2_0_0 shapeCasts_S1x768x128_S768x128, ← W8_v7 𝔭 m d]
  unfold W9; after_results_simp; rfl
theorem IX3_eq : W13 𝔭 m d (rT main_v44) = slab 3 (V7 m d) := by
  rw [← slab_read ![3, 0, 0] 3 rfl rfl rfl (V7 m d) slices_S4x768x128_S1x768x128_3_0_0 shapeCasts_S1x768x128_S768x128, ← W12_v7 𝔭 m d]
  unfold W13; after_results_simp; rfl

/-! ## The rows read at an index -/

theorem ent_lt (s : Fin 4) (w : Fin 32) (r : Fin 128) : 4096 * s.val + 128 * w.val + r.val < 16384 := by
  have := s.isLt; have := w.isLt; have := r.isLt; omega

/-- The batch entry of quarter `s`, worker `w`, lane `r`. -/
def ent (s : Fin 4) (w : Fin 32) (r : Fin 128) : Fin 16384 := ⟨4096 * s.val + 128 * w.val + r.val, ent_lt s w r⟩

theorem row_lt (w : Fin 32) (k : Fin 24) : 24 * w.val + k.val < 768 := by
  have := w.isLt; have := k.isLt; omega

/-- Row `k` of worker `w` among a quarter's 768 rows. -/
def rowOf (w : Fin 32) (k : Fin 24) : Fin 768 := ⟨24 * w.val + k.val, row_lt w k⟩

/-- Joining the worker and row axes keeps the words. -/
theorem V7_V6 (s : Fin 4) (w : Fin 32) (k : Fin 24) (r : Fin 128) :
    V7 m d (ix3 s (rowOf w k) r) = V6 m d (ix4 s w k r) := by
  unfold V7
  refine shapeCast_apply _ _ _ _ ?_
  rw [Shape.rowMajor_val_four, Shape.rowMajor_val_three]
  show ((s.val * 32 + w.val) * 24 + k.val) * 128 + r.val = (s.val * 768 + (24 * w.val + k.val)) * 128 + r.val
  omega

/-- Row 0 of a worker: the centre words of its 128 batch entries. -/
theorem V6_cen (s : Fin 4) (w : Fin 32) (r : Fin 128) :
    V6 m d (ix4 s w ⟨0, by decide⟩ r) = cenW m d (ix1 (ent s w r)) := by
  unfold V6
  refine Eq.trans (concatenate_apply_piece (t := S4x32x24x128) (2 : Fin 4) _ _ _ 0 (by show 0 < 4; decide) S4x32x1x128 _ rfl rfl 0 rfl
    (ix4 s w ⟨0, Nat.one_pos⟩ r) (fun b hb => ?_) ?_) ?_
  · match b with
    | ⟨0, _⟩ => rfl
    | ⟨1, _⟩ => rfl
    | ⟨2, _⟩ => exact absurd rfl hb
    | ⟨3, _⟩ => rfl
  · rfl
  · refine shapeCast_apply _ _ _ _ ?_
    rw [Shape.rowMajor_val_one, Shape.rowMajor_val_four]
    show 4096 * s.val + 128 * w.val + r.val = ((s.val * 32 + w.val) * 1 + 0) * 128 + r.val
    omega

/-- Row 1: the positive words. -/
theorem V6_pos (s : Fin 4) (w : Fin 32) (r : Fin 128) :
    V6 m d (ix4 s w ⟨1, by decide⟩ r) = posW m d (ix1 (ent s w r)) := by
  unfold V6
  refine Eq.trans (concatenate_apply_piece (t := S4x32x24x128) (2 : Fin 4) _ _ _ 1 (by show 1 < 4; decide) S4x32x1x128 _ rfl rfl 1 rfl
    (ix4 s w ⟨0, Nat.one_pos⟩ r) (fun b hb => ?_) ?_) ?_
  · match b with
    | ⟨0, _⟩ => rfl
    | ⟨1, _⟩ => rfl
    | ⟨2, _⟩ => exact absurd rfl hb
    | ⟨3, _⟩ => rfl
  · rfl
  · refine shapeCast_apply _ _ _ _ ?_
    rw [Shape.rowMajor_val_one, Shape.rowMajor_val_four]
    show 4096 * s.val + 128 * w.val + r.val = ((s.val * 32 + w.val) * 1 + 0) * 128 + r.val
    omega

/-- Rows 2 … 21: draw `j`'s words. -/
theorem V6_neg (s : Fin 4) (w : Fin 32) (j : Fin 20) (r : Fin 128) :
    V6 m d (ix4 s w ⟨2 + j.val, by have := j.isLt; omega⟩ r) = negW m d (ix2 (ent s w r) j) := by
  unfold V6
  refine Eq.trans (concatenate_apply_piece (t := S4x32x24x128) (2 : Fin 4) _ _ _ 2 (by show 2 < 4; decide) S4x32x20x128 _ rfl rfl 2 rfl
    (ix4 s w j r) (fun b hb => ?_) ?_) ?_
  · match b with
    | ⟨0, _⟩ => rfl
    | ⟨1, _⟩ => rfl
    | ⟨2, _⟩ => exact absurd rfl hb
    | ⟨3, _⟩ => rfl
  · rfl
  · refine (transpose_apply _ _ _ _ (ix4 j s w r) (fun b => match b with
      | ⟨0, _⟩ => rfl | ⟨1, _⟩ => rfl | ⟨2, _⟩ => rfl | ⟨3, _⟩ => rfl)).trans ?_
    refine (shapeCast_apply _ _ _ (ix2 j (ent s w r)) ?_).trans ?_
    · rw [Shape.rowMajor_val_two, Shape.rowMajor_val_four]
      show j.val * 16384 + (4096 * s.val + 128 * w.val + r.val) = ((j.val * 4 + s.val) * 32 + w.val) * 128 + r.val
      omega
    · exact transpose_apply _ _ _ _ (ix2 (ent s w r) j) (fun b => match b with | ⟨0, _⟩ => rfl | ⟨1, _⟩ => rfl)

/-- Rows 22 and 23: zeros. -/
theorem V6_pad (s : Fin 4) (w : Fin 32) (e : Fin 2) (r : Fin 128) :
    V6 m d (ix4 s w ⟨22 + e.val, by have := e.isLt; omega⟩ r) = 0#32 := by
  unfold V6
  refine Eq.trans (concatenate_apply_piece (t := S4x32x24x128) (2 : Fin 4) _ _ _ 3 (by show 3 < 4; decide) S4x32x2x128 _ rfl rfl 22 rfl
    (ix4 s w e r) (fun b hb => ?_) ?_) ?_
  · match b with
    | ⟨0, _⟩ => rfl
    | ⟨1, _⟩ => rfl
    | ⟨2, _⟩ => exact absurd rfl hb
    | ⟨3, _⟩ => rfl
  · rfl
  · rfl

/-- The word row `k` of worker `w` of quarter `s` holds at lane `r`. -/
def rowWord (s : Fin 4) (w : Fin 32) (k : Fin 24) (r : Fin 128) : BitVec 32 :=
  if k.val = 0 then cenW m d (ix1 (ent s w r))
  else if k.val = 1 then posW m d (ix1 (ent s w r))
  else if h : k.val < 22 then negW m d (ix2 (ent s w r) ⟨k.val - 2, by omega⟩)
  else 0#32

/-- Quarter `s`'s rows read at row `24 w + k`, lane `r`. -/
theorem IX_read (s : Fin 4) (w : Fin 32) (k : Fin 24) (r : Fin 128) :
    slab s (V7 m d) (ix2 (rowOf w k) r) = rowWord m d s w k r := by
  have hk := k.isLt
  show V7 m d (ix3 s (rowOf w k) r) = _
  rw [V7_V6]
  unfold rowWord
  by_cases h0 : k.val = 0
  · rw [if_pos h0, ← V6_cen]; exact congrArg (fun k => V6 m d (ix4 s w k r)) (Fin.ext h0)
  rw [if_neg h0]
  by_cases h1 : k.val = 1
  · rw [if_pos h1, ← V6_pos]; exact congrArg (fun k => V6 m d (ix4 s w k r)) (Fin.ext h1)
  rw [if_neg h1]
  by_cases h2 : k.val < 22
  · rw [dif_pos h2, ← V6_neg]; exact congrArg (fun k => V6 m d (ix4 s w k r)) (Fin.ext (by show k.val = 2 + (k.val - 2); omega))
  · rw [dif_neg h2, ← V6_pad m d s w ⟨k.val - 22, by omega⟩ r]
    exact congrArg (fun k => V6 m d (ix4 s w k r)) (Fin.ext (by show k.val = 22 + (k.val - 22); omega))

/-- A word in the input domain's range names a row of the tables. -/
theorem toNat_lt_of_range (x : BitVec 32) (h : 0 ≤ x.toInt ∧ x.toInt ≤ 99999) : x.toNat < 100000 := by
  have e := BitVec.toInt_eq_toNat_cond x
  have hx := x.isLt
  split at e <;> omega

/-- Under the input domain's ranges, every word of rows 0 … 21 of a worker names a row of the tables. -/
theorem rowWord_ok (hc : ∀ i, 0 ≤ (cenW m d i).toInt ∧ (cenW m d i).toInt ≤ 99999)
    (hp : ∀ i, 0 ≤ (posW m d i).toInt ∧ (posW m d i).toInt ≤ 99999)
    (hn : ∀ i, 0 ≤ (negW m d i).toInt ∧ (negW m d i).toInt ≤ 99999)
    (s : Fin 4) (w : Fin 32) (k : Fin 24) (hk : k.val < 22) (r : Fin 128) : (rowWord m d s w k r).toNat < 100000 := by
  unfold rowWord
  by_cases h0 : k.val = 0
  · rw [if_pos h0]; exact toNat_lt_of_range _ (hc _)
  rw [if_neg h0]
  by_cases h1 : k.val = 1
  · rw [if_pos h1]; exact toNat_lt_of_range _ (hp _)
  rw [if_neg h1, dif_pos hk]; exact toNat_lt_of_range _ (hn _)

end Cert.Proof.KB

end
-- ==== Proof.KB_IndexOK.lean ====
/-
  A tile's slice of a quarter's index rows read at an index, and the words of its rows 0 … 21 under the input
  domain's ranges: each names a row of the tables.
-/
import proofs.«215899_g5772436046013_cont_9to1c4b_742_31_alg».proof.Proof.KB_Index
import proofs.«215899_g5772436046013_cont_9to1c4b_742_31_alg».proof.Proof.KB_TileRes

noncomputable section

namespace Cert.Proof.KB

open Cert.Kernel Cert.Kernel.Gen

open Idealize.ShloMosaic
open Idealize.ShloMosaic.StableHlo
open Idealize.ShloMosaic.ValueIdx

variable {F : FTy → Type} [FloatOps F]
variable (m : (ℓ : Loc nD τ sig) → Buf (Elt F) ℓ) (d : Dev nD)

/-- A tile's slice of the index array read at an index: the array at the tile's row `24 wid + k`. -/
theorem ixSl_read (IX : IVec S768x128 32) (L : grid0.Coords) (x : S24x128.Idx) :
    (ixSl L).view.read (Elt F) IX x = IX (ix2 (rowOf ⟨wid L, wid_lt L⟩ (x 0)) (x 1)) := by
  show IX _ = IX _
  congr 1
  funext a
  match a with
  | ⟨0, _⟩ =>
    refine Fin.ext ?_
    show k0_off1 L 0 + 1 * (x 0).val = 24 * wid L + (x 0).val
    rw [k0_off1_wid]
    show 24 * wid L + 1 * (x 0).val = 24 * wid L + (x 0).val
    omega
  | ⟨1, _⟩ =>
    refine Fin.ext ?_
    show k0_off1 L 1 + 1 * (x 1).val = (x 1).val
    rw [k0_off1_wid]
    show 0 + 1 * (x 1).val = (x 1).val
    omega

/-- Under the input domain's ranges a quarter's index rows are in order for the call's tiles. -/
theorem IXOK_of_slab (IX : IVec S768x128 32) (s : Fin 4) (hIX : IX = slab s (V7 m d))
    (hc : ∀ i, 0 ≤ (cenW m d i).toInt ∧ (cenW m d i).toInt ≤ 99999)
    (hp : ∀ i, 0 ≤ (posW m d i).toInt ∧ (posW m d i).toInt ≤ 99999)
    (hn : ∀ i, 0 ≤ (negW m d i).toInt ∧ (negW m d i).toInt ≤ 99999) : IXOK (F := F) d IX := by
  intro L x hx
  rw [ixSl_read, hIX]
  exact lt_of_eq_of_lt (congrArg BitVec.toNat (IX_read m d s ⟨wid L, wid_lt L⟩ (x 0) (x 1)))
    (rowWord_ok m d hc hp hn s ⟨wid L, wid_lt L⟩ (x 0) hx (x 1))

end Cert.Proof.KB

end
-- ==== Proof.KB_IndexOK_c1.lean ====
/-
  A tile's slice of a quarter's index rows read at an index, and the words of its rows 0 … 21 under the input
  domain's ranges: each names a row of the tables.
-/
import proofs.«215899_g5772436046013_cont_9to1c4b_742_31_alg».proof.Proof.KB_Index
import proofs.«215899_g5772436046013_cont_9to1c4b_742_31_alg».proof.Proof.KB_TileRes
import proofs.«215899_g5772436046013_cont_9to1c4b_742_31_alg».proof.Proof.KB_TileRes_c1
import proofs.«215899_g5772436046013_cont_9to1c4b_742_31_alg».proof.Proof.KB_IndexOK

noncomputable section

namespace Cert.Proof.KB

open Cert.Kernel Cert.Kernel.Gen

open Idealize.ShloMosaic
open Idealize.ShloMosaic.StableHlo
open Idealize.ShloMosaic.ValueIdx

variable {F : FTy → Type} [FloatOps F]
variable (m : (ℓ : Loc nD τ sig) → Buf (Elt F) ℓ) (d : Dev nD)

/-- A tile's slice of the index array read at an index: the array at the tile's row `24 wid1 + k`. -/
theorem ixSl_read1 (IX : IVec S768x128 32) (L : grid2.Coords) (x : S24x128.Idx) :
    (ixSl1 L).view.read (Elt F) IX x = IX (ix2 (rowOf ⟨wid1 L, wid_lt1 L⟩ (x 0)) (x 1)) := by
  show IX _ = IX _
  congr 1
  funext a
  match a with
  | ⟨0, _⟩ =>
    refine Fin.ext ?_
    show k2_off1 L 0 + 1 * (x 0).val = 24 * wid1 L + (x 0).val
    rw [k2_off1_wid]
    show 24 * wid1 L + 1 * (x 0).val = 24 * wid1 L + (x 0).val
    omega
  | ⟨1, _⟩ =>
    refine Fin.ext ?_
    show k2_off1 L 1 + 1 * (x 1).val = (x 1).val
    rw [k2_off1_wid]
    show 0 + 1 * (x 1).val = (x 1).val
    omega

/-- Under the input domain's ranges a quarter's index rows are in order for the call's tiles. -/
theorem IXOK_of_slab1 (IX : IVec S768x128 32) (s : Fin 4) (hIX : IX = slab s (V7 m d))
    (hc : ∀ i, 0 ≤ (cenW m d i).toInt ∧ (cenW m d i).toInt ≤ 99999)
    (hp : ∀ i, 0 ≤ (posW m d i).toInt ∧ (posW m d i).toInt ≤ 99999)
    (hn : ∀ i, 0 ≤ (negW m d i).toInt ∧ (negW m d i).toInt ≤ 99999) : IXOK1 (F := F) d IX := by
  intro L x hx
  rw [ixSl_read1, hIX]
  exact lt_of_eq_of_lt (congrArg BitVec.toNat (IX_read m d s ⟨wid1 L, wid_lt1 L⟩ (x 0) (x 1)))
    (rowWord_ok m d hc hp hn s ⟨wid1 L, wid_lt1 L⟩ (x 0) hx (x 1))

end Cert.Proof.KB

end
-- ==== Proof.KB_IndexOK_c2.lean ====
/-
  A tile's slice of a quarter's index rows read at an index, and the words of its rows 0 … 21 under the input
  domain's ranges: each names a row of the tables.
-/
import proofs.«215899_g5772436046013_cont_9to1c4b_742_31_alg».proof.Proof.KB_Index
import proofs.«215899_g5772436046013_cont_9to1c4b_742_31_alg».proof.Proof.KB_TileRes
import proofs.«215899_g5772436046013_cont_9to1c4b_742_31_alg».proof.Proof.KB_TileRes_c2
import proofs.«215899_g5772436046013_cont_9to1c4b_742_31_alg».proof.Proof.KB_IndexOK

noncomputable section

namespace Cert.Proof.KB

open Cert.Kernel Cert.Kernel.Gen

open Idealize.ShloMosaic
open Idealize.ShloMosaic.StableHlo
open Idealize.ShloMosaic.ValueIdx

variable {F : FTy → Type} [FloatOps F]
variable (m : (ℓ : Loc nD τ sig) → Buf (Elt F) ℓ) (d : Dev nD)

/-- A tile's slice of the index array read at an index: the array at the tile's row `24 wid2 + k`. -/
theorem ixSl_read2 (IX : IVec S768x128 32) (L : grid4.Coords) (x : S24x128.Idx) :
    (ixSl2 L).view.read (Elt F) IX x = IX (ix2 (rowOf ⟨wid2 L, wid_lt2 L⟩ (x 0)) (x 1)) := by
  show IX _ = IX _
  congr 1
  funext a
  match a with
  | ⟨0, _⟩ =>
    refine Fin.ext ?_
    show k4_off1 L 0 + 1 * (x 0).val = 24 * wid2 L + (x 0).val
    rw [k4_off1_wid]
    show 24 * wid2 L + 1 * (x 0).val = 24 * wid2 L + (x 0).val
    omega
  | ⟨1, _⟩ =>
    refine Fin.ext ?_
    show k4_off1 L 1 + 1 * (x 1).val = (x 1).val
    rw [k4_off1_wid]
    show 0 + 1 * (x 1).val = (x 1).val
    omega

/-- Under the input domain's ranges a quarter's index rows are in order for the call's tiles. -/
theorem IXOK_of_slab2 (IX : IVec S768x128 32) (s : Fin 4) (hIX : IX = slab s (V7 m d))
    (hc : ∀ i, 0 ≤ (cenW m d i).toInt ∧ (cenW m d i).toInt ≤ 99999)
    (hp : ∀ i, 0 ≤ (posW m d i).toInt ∧ (posW m d i).toInt ≤ 99999)
    (hn : ∀ i, 0 ≤ (negW m d i).toInt ∧ (negW m d i).toInt ≤ 99999) : IXOK2 (F := F) d IX := by
  intro L x hx
  rw [ixSl_read2, hIX]
  exact lt_of_eq_of_lt (congrArg BitVec.toNat (IX_read m d s ⟨wid2 L, wid_lt2 L⟩ (x 0) (x 1)))
    (rowWord_ok m d hc hp hn s ⟨wid2 L, wid_lt2 L⟩ (x 0) hx (x 1))

end Cert.Proof.KB

end
-- ==== Proof.KB_IndexOK_c3.lean ====
/-
  A tile's slice of a quarter's index rows read at an index, and the words of its rows 0 … 21 under the input
  domain's ranges: each names a row of the tables.
-/
import proofs.«215899_g5772436046013_cont_9to1c4b_742_31_alg».proof.Proof.KB_Index
import proofs.«215899_g5772436046013_cont_9to1c4b_742_31_alg».proof.Proof.KB_TileRes
import proofs.«215899_g5772436046013_cont_9to1c4b_742_31_alg».proof.Proof.KB_TileRes_c3
import proofs.«215899_g5772436046013_cont_9to1c4b_742_31_alg».proof.Proof.KB_IndexOK

noncomputable section

namespace Cert.Proof.KB

open Cert.Kernel Cert.Kernel.Gen

open Idealize.ShloMosaic
open Idealize.ShloMosaic.StableHlo
open Idealize.ShloMosaic.ValueIdx

variable {F : FTy → Type} [FloatOps F]
variable (m : (ℓ : Loc nD τ sig) → Buf (Elt F) ℓ) (d : Dev nD)

/-- A tile's slice of the index array read at an index: the array at the tile's row `24 wid3 + k`. -/
theorem ixSl_read3 (IX : IVec S768x128 32) (L : grid6.Coords) (x : S24x128.Idx) :
    (ixSl3 L).view.read (Elt F) IX x = IX (ix2 (rowOf ⟨wid3 L, wid_lt3 L⟩ (x 0)) (x 1)) := by
  show IX _ = IX _
  congr 1
  funext a
  match a with
  | ⟨0, _⟩ =>
    refine Fin.ext ?_
    show k6_off1 L 0 + 1 * (x 0).val = 24 * wid3 L + (x 0).val
    rw [k6_off1_wid]
    show 24 * wid3 L + 1 * (x 0).val = 24 * wid3 L + (x 0).val
    omega
  | ⟨1, _⟩ =>
    refine Fin.ext ?_
    show k6_off1 L 1 + 1 * (x 1).val = (x 1).val
    rw [k6_off1_wid]
    show 0 + 1 * (x 1).val = (x 1).val
    omega

/-- Under the input domain's ranges a quarter's index rows are in order for the call's tiles. -/
theorem IXOK_of_slab3 (IX : IVec S768x128 32) (s : Fin 4) (hIX : IX = slab s (V7 m d))
    (hc : ∀ i, 0 ≤ (cenW m d i).toInt ∧ (cenW m d i).toInt ≤ 99999)
    (hp : ∀ i, 0 ≤ (posW m d i).toInt ∧ (posW m d i).toInt ≤ 99999)
    (hn : ∀ i, 0 ≤ (negW m d i).toInt ∧ (negW m d i).toInt ≤ 99999) : IXOK3 (F := F) d IX := by
  intro L x hx
  rw [ixSl_read3, hIX]
  exact lt_of_eq_of_lt (congrArg BitVec.toNat (IX_read m d s ⟨wid3 L, wid_lt3 L⟩ (x 0) (x 1)))
    (rowWord_ok m d hc hp hn s ⟨wid3 L, wid_lt3 L⟩ (x 0) hx (x 1))

end Cert.Proof.KB

end
-- ==== Proof.KB_IndexAll.lean ====
/-
  The four calls' index rows, as @main leaves them before each call, are in order for the call's tiles: under
  the input domain's ranges every word of rows 0 … 21 of each tile's slice names a row of the tables.
-/
import proofs.«215899_g5772436046013_cont_9to1c4b_742_31_alg».proof.Proof.KB_IndexOK
import proofs.«215899_g5772436046013_cont_9to1c4b_742_31_alg».proof.Proof.KB_IndexOK_c1
import proofs.«215899_g5772436046013_cont_9to1c4b_742_31_alg».proof.Proof.KB_IndexOK_c2
import proofs.«215899_g5772436046013_cont_9to1c4b_742_31_alg».proof.Proof.KB_IndexOK_c3

noncomputable section

namespace Cert.Proof.KB

open Cert.Kernel Cert.Kernel.Gen

open Idealize.ShloMosaic
open Idealize.ShloMosaic.StableHlo
open Idealize.ShloMosaic.ValueIdx

variable {F : FTy → Type} [FloatOps F]
variable (𝔭 : Pure F) (m : (ℓ : Loc nD τ sig) → Buf (Elt F) ℓ) (d : Dev nD)
variable (hc : ∀ i, 0 ≤ (cenW m d i).toInt ∧ (cenW m d i).toInt ≤ 99999)
  (hp : ∀ i, 0 ≤ (posW m d i).toInt ∧ (posW m d i).toInt ≤ 99999)
  (hn : ∀ i, 0 ≤ (negW m d i).toInt ∧ (negW m d i).toInt ≤ 99999)

include hc hp hn

theorem IXOK_q0 : IXOK (F := F) d (W1 m d (rT main_v26)) := IXOK_of_slab m d _ 0 (IX0_eq m d) hc hp hn
theorem IXOK_q1 : IXOK1 (F := F) d (W5 𝔭 m d (rT main_v32)) := IXOK_of_slab1 m d _ 1 (IX1_eq 𝔭 m d) hc hp hn
theorem IXOK_q2 : IXOK2 (F := F) d (W9 𝔭 m d (rT main_v38)) := IXOK_of_slab2 m d _ 2 (IX2_eq 𝔭 m d) hc hp hn
theorem IXOK_q3 : IXOK3 (F := F) d (W13 𝔭 m d (rT main_v44)) := IXOK_of_slab3 m d _ 3 (IX3_eq 𝔭 m d) hc hp hn

end Cert.Proof.KB

end
-- ==== Proof.KB_Claims.lean ====
/-
  The claims about the idealized kernel, from the program's run: under the precondition the index words name table rows,
  so every tile's indexed copies are in range and the run exists; its frame is the run with the value dropped; the
  algebraic claim pairs the run's result cell — the kernel's arrangement of the loss — with the reference's run, the two
  arrangements being one real number for finite tables.
-/
import proofs.«215899_g5772436046013_cont_9to1c4b_742_31_alg».proof.Proof.KB_Main
import proofs.«215899_g5772436046013_cont_9to1c4b_742_31_alg».proof.Proof.KB_IndexAll
import proofs.«215899_g5772436046013_cont_9to1c4b_742_31_alg».proof.Proof.RefPre
import proofs.«215899_g5772436046013_cont_9to1c4b_742_31_alg».proof.Proof.RefLeg
import proofs.«215899_g5772436046013_cont_9to1c4b_742_31_alg».proof.Proof.Bridge

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

open Idealize.ShloMosaic.TcCoe

local notation "𝕄" => MT nD τ sig (HIx 4) (Elt F) ℕ UU ℕ

variable (m : (ℓ : Loc nD τ sig) → Buf (Elt F) ℓ) (ρ : Dev nD → PrngReg)

/-- The precondition gives the three index ranges on every device. -/
theorem ranges_of_pre_all
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = (fun _ => 1#1)) :
    (∀ d i, 0 ≤ (cenW m d i).toInt ∧ (cenW m d i).toInt ≤ 99999) ∧ (∀ d i, 0 ≤ (posW m d i).toInt ∧ (posW m d i).toInt ≤ 99999)
      ∧ (∀ d i, 0 ≤ (negW m d i).toInt ∧ (negW m d i).toInt ≤ 99999) :=
  ⟨fun d => (Cert.Proof.Ref.ranges_of_pre _ _ _ _ _ (h d)).1, fun d => (Cert.Proof.Ref.ranges_of_pre _ _ _ _ _ (h d)).2.1,
    fun d => (Cert.Proof.Ref.ranges_of_pre _ _ _ _ _ (h d)).2.2⟩

/-- What the tiles owe the launch theorem, for a memory whose index words are in range: one obligation per call. -/
abbrev TilesOK : Prop :=
  (∀ d i, 0 ≤ (cenW m d i).toInt ∧ (cenW m d i).toInt ≤ 99999) → (∀ d i, 0 ≤ (posW m d i).toInt ∧ (posW m d i).toInt ≤ 99999) →
    (∀ d i, 0 ≤ (negW m d i).toInt ∧ (negW m d i).toInt ≤ 99999) → ∀ q, (K (F := F)).TileObl (D (F := F)) 𝒱 (PK m) v₀ q

/-- The program's run under the precondition. -/
theorem run_of_pre [∀ e, Nonempty (Elt F e)] (htile : TilesOK m)
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = (fun _ => 1#1)) :
    θ_run (Cert.Kernel.defs (F := F)) (Cert.Kernel.threads (F := F)) ⟨m, fun _ => 0, ρ⟩ (QC m) :=
  run_main m ρ (htile (ranges_of_pre_all m h).1 (ranges_of_pre_all m h).2.1 (ranges_of_pre_all m h).2.2)

end Cert.Proof.KB

end
-- ==== Proof.RefFrame.lean ====
import proofs.«215899_g5772436046013_cont_9to1c4b_742_31_alg».proof.Defs
import proofs.«215899_g5772436046013_cont_9to1c4b_742_31_alg».proof.Proof.RefRun

/-!
  The reference program's frame: it runs to the end from any memory and leaves its five argument arrays
  unchanged — the run's statement without its result conjunct.
-/

noncomputable section

namespace Cert.Proof.Ref

open Idealize.ShloMosaic Idealize.SL.Sem

theorem frame [hP : Cert.Pre_input_domain.Facts] :
    Cert.frame_ReferenceIdeal (hReferenceIdeal := Cert.ReferenceIdeal.Gen.facts) (hPre_input_domain := hP) :=
  fun m g _ => (θ_run (Cert.ReferenceIdeal.defs (F := Ideal)) _ _).mono (fun _ h c => (h c).2) (run (F := Ideal) m g)

end Cert.Proof.Ref

end
-- ==== Proof.KI_ValueHost.lean ====
import proofs.«215899_g5772436046013_cont_9to1c4b_742_31_alg».proof.Proof.KI_Vals
import Idealize.ShloMosaic.Lib.Pipeline.Value
import Idealize.ShloMosaic.Lib.ValueIdx
import Idealize.ShloMosaic.PureOps.Ideal.Laws

set_option maxRecDepth 100000

noncomputable section

namespace Cert.Proof.KI

open Cert.KernelIdeal Cert.KernelIdeal.Gen

open Idealize.ShloMosaic Idealize.ShloMosaic.ValueIdx
open Idealize.ShloMosaic.StableHlo

/-! # The host side of the result, on the extended reals

The running total starts at the zero cell; after each region the stretch that follows adds the region's cell into it;
the last stretch multiplies the total by the printed constant and reshapes the 1 × 1 cell to a scalar. None of the
calls, regions or other stretches writes the running total or the zero cell. So the program's result is the zero cell's
entry plus the four regions' cells' entries, added in order, times the constant. -/

variable (𝔭 : Pure Ideal) (m : (ℓ : Loc nD τ sig) → Buf (Elt Ideal) ℓ) (d : Dev nD)

/-- The four regions' cells as the chain has them. -/
def cell0 : FVec Ideal S1x1 .f32 :=
  𝔭.loss0 ((W3 𝔭 m d) (rT main_v27_0)) ((W3 𝔭 m d) (rT main_v27_1)) ((W3 𝔭 m d) (rT main_v28)) ((W3 𝔭 m d) (rT main_v23)) ((W3 𝔭 m d) (rT main_v29))
def cell1 : FVec Ideal S1x1 .f32 :=
  𝔭.loss1 ((W7 𝔭 m d) (rT main_v33_0)) ((W7 𝔭 m d) (rT main_v33_1)) ((W7 𝔭 m d) (rT main_v34)) ((W7 𝔭 m d) (rT main_v23)) ((W7 𝔭 m d) (rT main_v35))
def cell2 : FVec Ideal S1x1 .f32 :=
  𝔭.loss2 ((W11 𝔭 m d) (rT main_v39_0)) ((W11 𝔭 m d) (rT main_v39_1)) ((W11 𝔭 m d) (rT main_v40)) ((W11 𝔭 m d) (rT main_v23)) ((W11 𝔭 m d) (rT main_v41))
def cell3 : FVec Ideal S1x1 .f32 :=
  𝔭.loss3 ((W15 𝔭 m d) (rT main_v45_0)) ((W15 𝔭 m d) (rT main_v45_1)) ((W15 𝔭 m d) (rT main_v46)) ((W15 𝔭 m d) (rT main_v23)) ((W15 𝔭 m d) (rT main_v47))

/-! ## The zero cell -/

theorem W1_v24 : (W1 m d) (rT main_v24) = broadcastInDim S1x1 ![] bcast_S_S1x1 (constant (F := Ideal) S_ .f32 0x00000000#32) := by
  unfold W1
  after_results_simp

theorem W2_v24 : (W2 𝔭 m d) (rT main_v24) = (W1 m d) (rT main_v24) := by
  unfold W2
  rw [Function.update_of_ne (show rT main_v24 ≠ rT main_v27_2 by decide),
    Function.update_of_ne (show rT main_v24 ≠ rT main_v27_1 by decide),
    Function.update_of_ne (show rT main_v24 ≠ rT main_v27_0 by decide)]

theorem W3_v24 : (W3 𝔭 m d) (rT main_v24) = (W2 𝔭 m d) (rT main_v24) := by
  unfold W3
  after_results

theorem W4_v24 : (W4 𝔭 m d) (rT main_v24) = (W3 𝔭 m d) (rT main_v24) := by
  unfold W4
  rw [Function.update_of_ne (show rT main_v24 ≠ rT main_v29 by decide)]

theorem W4_v29 : (W4 𝔭 m d) (rT main_v29) = cell0 𝔭 m d := by
  unfold W4
  rw [Function.update_self]
  rfl

/-! ## After region 0 -/

theorem W5_v30 : (W5 𝔭 m d) (rT main_v30) = (addf ((W4 𝔭 m d) (rT main_v24) : FVec Ideal S1x1 .f32) ((W4 𝔭 m d) (rT main_v29)) : FVec Ideal S1x1 .f32) := by
  unfold W5
  after_results

theorem W6_v30 : (W6 𝔭 m d) (rT main_v30) = (W5 𝔭 m d) (rT main_v30) := by
  unfold W6
  rw [Function.update_of_ne (show rT main_v30 ≠ rT main_v33_2 by decide),
    Function.update_of_ne (show rT main_v30 ≠ rT main_v33_1 by decide),
    Function.update_of_ne (show rT main_v30 ≠ rT main_v33_0 by decide)]

theorem W7_v30 : (W7 𝔭 m d) (rT main_v30) = (W6 𝔭 m d) (rT main_v30) := by
  unfold W7
  after_results

theorem W8_v30 : (W8 𝔭 m d) (rT main_v30) = (W7 𝔭 m d) (rT main_v30) := by
  unfold W8
  rw [Function.update_of_ne (show rT main_v30 ≠ rT main_v35 by decide)]

theorem W8_v35 : (W8 𝔭 m d) (rT main_v35) = cell1 𝔭 m d := by
  unfold W8
  rw [Function.update_self]
  rfl

/-! ## After region 1 -/

theorem W9_v36 : (W9 𝔭 m d) (rT main_v36) = (addf ((W8 𝔭 m d) (rT main_v30) : FVec Ideal S1x1 .f32) ((W8 𝔭 m d) (rT main_v35)) : FVec Ideal S1x1 .f32) := by
  unfold W9
  after_results

theorem W10_v36 : (W10 𝔭 m d) (rT main_v36) = (W9 𝔭 m d) (rT main_v36) := by
  unfold W10
  rw [Function.update_of_ne (show rT main_v36 ≠ rT main_v39_2 by decide),
    Function.update_of_ne (show rT main_v36 ≠ rT main_v39_1 by decide),
    Function.update_of_ne (show rT main_v36 ≠ rT main_v39_0 by decide)]

theorem W11_v36 : (W11 𝔭 m d) (rT main_v36) = (W10 𝔭 m d) (rT main_v36) := by
  unfold W11
  after_results

theorem W12_v36 : (W12 𝔭 m d) (rT main_v36) = (W11 𝔭 m d) (rT main_v36) := by
  unfold W12
  rw [Function.update_of_ne (show rT main_v36 ≠ rT main_v41 by decide)]

theorem W12_v41 : (W12 𝔭 m d) (rT main_v41) = cell2 𝔭 m d := by
  unfold W12
  rw [Function.update_self]
  rfl

/-! ## After region 2 -/

theorem W13_v42 : (W13 𝔭 m d) (rT main_v42) = (addf ((W12 𝔭 m d) (rT main_v36) : FVec Ideal S1x1 .f32) ((W12 𝔭 m d) (rT main_v41)) : FVec Ideal S1x1 .f32) := by
  unfold W13
  after_results

theorem W14_v42 : (W14 𝔭 m d) (rT main_v42) = (W13 𝔭 m d) (rT main_v42) := by
  unfold W14
  rw [Function.update_of_ne (show rT main_v42 ≠ rT main_v45_2 by decide),
    Function.update_of_ne (show rT main_v42 ≠ rT main_v45_1 by decide),
    Function.update_of_ne (show rT main_v42 ≠ rT main_v45_0 by decide)]

theorem W15_v42 : (W15 𝔭 m d) (rT main_v42) = (W14 𝔭 m d) (rT main_v42) := by
  unfold W15
  after_results

theorem W16_v42 : (W16 𝔭 m d) (rT main_v42) = (W15 𝔭 m d) (rT main_v42) := by
  unfold W16
  rw [Function.update_of_ne (show rT main_v42 ≠ rT main_v47 by decide)]

theorem W16_v47 : (W16 𝔭 m d) (rT main_v47) = cell3 𝔭 m d := by
  unfold W16
  rw [Function.update_self]
  rfl

/-! ## The last stretch -/

theorem W17_v51 : (W17 𝔭 m d) (rT main_v51)
    = shapeCast S_ (mulf (addf ((W16 𝔭 m d) (rT main_v42) : FVec Ideal S1x1 .f32) ((W16 𝔭 m d) (rT main_v47)) : FVec Ideal S1x1 .f32)
        (broadcastInDim S1x1 ![] bcast_S_S1x1 (constant (F := Ideal) S_ .f32 0xB8800000#32))) shapeCasts_S1x1_S_ := by
  unfold W17
  after_results
  rfl

/-- The running total, cell by cell. -/
theorem total_eq :
    (addf ((W16 𝔭 m d) (rT main_v42) : FVec Ideal S1x1 .f32) ((W16 𝔭 m d) (rT main_v47)) : FVec Ideal S1x1 .f32)
      = addf (addf (addf (addf (broadcastInDim S1x1 ![] bcast_S_S1x1 (constant (F := Ideal) S_ .f32 0x00000000#32))
          (cell0 𝔭 m d)) (cell1 𝔭 m d)) (cell2 𝔭 m d)) (cell3 𝔭 m d) := by
  rw [W16_v47, W16_v42, W15_v42, W14_v42, W13_v42, W12_v41, W12_v36, W11_v36, W10_v36, W9_v36, W8_v35, W8_v30, W7_v30,
    W6_v30, W5_v30, W4_v29, W4_v24, W3_v24, W2_v24, W1_v24]

theorem ofBits_zero' : Ideal.ofBits .f32 0x00000000#32 = (0 : EReal) := by simp [Ideal.ofBits, Ideal.ieee]

/-- **The program's result**: the four cells' entries added in order from zero, times the printed constant. -/
theorem wfin_apply (j : S_.Idx) :
    (Wfin 𝔭 m d) (rT main_v51) j
      = ((((0 + cell0 𝔭 m d (ix2 0 0)) + cell1 𝔭 m d (ix2 0 0)) + cell2 𝔭 m d (ix2 0 0)) + cell3 𝔭 m d (ix2 0 0))
          * Ideal.ofBits .f32 0xB8800000#32 := by
  show (W17 𝔭 m d) (rT main_v51) j = _
  rw [W17_v51, total_eq]
  have hk : (S1x1.rowMajor (ix2 (0 : Fin 1) (0 : Fin 1))).val = (S_.rowMajor j).val := by
    have a : (S1x1.rowMajor (ix2 (0 : Fin 1) (0 : Fin 1))).val < 1 := (S1x1.rowMajor _).isLt
    have b : (S_.rowMajor j).val < 1 := (S_.rowMajor _).isLt
    omega
  rw [shapeCast_apply _ shapeCasts_S1x1_S_ j (ix2 (0 : Fin 1) (0 : Fin 1)) hk]
  show ((((Ideal.ofBits .f32 0x00000000#32 + _) + _) + _) + _) * Ideal.ofBits .f32 0xB8800000#32 = _
  rw [ofBits_zero']

end Cert.Proof.KI

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.KI_PayMath.lean ====
import proofs.«215899_g5772436046013_cont_9to1c4b_742_31_alg».proof.Proof.KerSpec
import proofs.«215899_g5772436046013_cont_9to1c4b_742_31_alg».proof.Proof.LibRowOps
import Idealize.ShloMosaic.Lib.Pipeline.Value
import Idealize.ShloMosaic.Lib.ValueIdx
import Idealize.ShloMosaic.PureOps.Ideal.Laws

/-!
  The loss step read at its one index, on the extended reals.

  The step takes a 1024 × 2688 matrix z of products, the 2688 × 21 sign matrix e and the 1 × 1 accumulator:
  it forms z · e into a zero accumulator, applies min(x, 0) − log(1 + exp(0 − |x|)) to each of the 1024 × 21
  scores, sums them all, and adds the sum to the accumulator. Read at its index this is the accumulator plus the
  double sum over rows and columns of the log-sigmoids of the scores.
-/

noncomputable section

open scoped BigOperators

namespace Cert.Proof.KI.PayMath

open Idealize.ShloMosaic Idealize.ShloMosaic.ValueIdx Cert.Proof.Ker

abbrev S1024x2688 : Shape := ⟨2, ![1024, 2688]⟩
abbrev S2688x21 : Shape := ⟨2, ![2688, 21]⟩
abbrev S1024x21 : Shape := ⟨2, ![1024, 21]⟩
abbrev S1x1024x21 : Shape := ⟨3, ![1, 1024, 21]⟩
abbrev S1 : Shape := ⟨1, ![1]⟩
abbrev S1x1x1 : Shape := ⟨3, ![1, 1, 1]⟩
abbrev S1x1 : Shape := ⟨2, ![1, 1]⟩

/-- The step, over its dimension numbers and shape facts. -/
def payTerm {F : FTy → Type} [FloatOps F] (d : DotDims S1024x2688 S2688x21 S1024x21)
    (hb : FTy.bf16.bits < FTy.f32.bits) (h1 : S2688x21.ShapeCasts S2688x21) (h2 : S1024x21.ShapeCasts S1x1024x21)
    (h3 : S1x1024x21.Reduces [1, 2] S1) (h4 : S1.ShapeCasts S1x1x1) (h5 : ∀ a, (![0, 0, 0] : Fin 3 → ℕ) a < S1x1x1.size a)
    (h6 : S1x1.ShapeCasts S1x1)
    (v65 : FVec F S1024x2688 .f32) (v67 : Vec F S2688x21 .bf16) (v88 : Vec F S1x1 .f32) : FVec F S1x1 .f32 :=
  have v66 : FVec F S1024x2688 .bf16 := truncf .bf16 v65 hb
  have v68 : FVec F S2688x21 .bf16 := shapeCast S2688x21 v67 h1
  have cst : FVec F S1024x21 .f32 := constant S1024x21 .f32 0x00000000#32
  have v69 : FVec F S1024x21 .f32 := matmul d none v66 v68 cst
  have cst_46 : F .f32 := Scalar.ofBits .f32 0x00000000#32
  have v70 : FVec F S1024x21 .f32 := broadcast S1024x21 cst_46
  have v71 : FVec F S1024x21 .f32 := minimumf v69 v70
  have v72 : FVec F S1024x21 .f32 := absf v69
  have cst_47 : F .f32 := Scalar.ofBits .f32 0x00000000#32
  have v73 : FVec F S1024x21 .f32 := broadcast S1024x21 cst_47
  have v74 : FVec F S1024x21 .f32 := subf v73 v72
  have v75 : FVec F S1024x21 .f32 := exp v74
  have cst_48 : F .f32 := Scalar.ofBits .f32 0x3F800000#32
  have v76 : FVec F S1024x21 .f32 := broadcast S1024x21 cst_48
  have v77 : FVec F S1024x21 .f32 := addf v76 v75
  have v78 : FVec F S1024x21 .f32 := log v77
  have v79 : FVec F S1024x21 .f32 := subf v71 v78
  have v80 : FVec F S1x1024x21 .f32 := shapeCast S1x1024x21 v79 h2
  have v81 : FVec F S1 .f32 := multiReduction .add [1, 2] S1 v80 0x00000000#32 h3 (.inl rfl) rfl
  have v82 : FVec F S1x1x1 .f32 := shapeCast S1x1x1 v81 h4
  have v83 : F .f32 := extractAt ![0, 0, 0] v82 h5
  have v84 : FVec F S1x1 .f32 := broadcast S1x1 v83
  have v89 : FVec F S1x1 .f32 := shapeCast S1x1 v88 h6
  have v90 : FVec F S1x1 .f32 := addf v89 v84
  v90

theorem ofBits_zero : Ideal.ofBits .f32 0x00000000#32 = (0 : EReal) := by simp [Ideal.ofBits, Ideal.ieee]
theorem ofBits_one : Ideal.ofBits .f32 0x3F800000#32 = (1 : EReal) := by
  simp [Ideal.ofBits, Ideal.ieee]
  rw [← EReal.coe_mul, ← EReal.coe_one]
  norm_num

/-- The pointwise part: a score goes to its log-sigmoid. -/
theorem score_ls (y : EReal) :
    min y (Ideal.ofBits .f32 0x00000000#32)
        - Ideal.log (Ideal.ofBits .f32 0x3F800000#32 + Ideal.exp (Ideal.ofBits .f32 0x00000000#32 - max y (-y)))
      = lsK y := by
  rw [ofBits_zero, ofBits_one]
  rfl

/-- The indices of the 1 × 1024 × 21 shape are the pairs (row, column). -/
def idxEquiv3 : Fin 1024 × Fin 21 ≃ S1x1024x21.Idx where
  toFun p := ix3 (0 : Fin 1) p.1 p.2
  invFun j := (j 1, j 2)
  left_inv _ := rfl
  right_inv j := by
    funext a
    match a with
    | ⟨0, h0⟩ =>
      refine Fin.ext ?_
      have h : (j ⟨0, h0⟩).val < 1 := (j ⟨0, h0⟩).isLt
      show 0 = (j ⟨0, h0⟩).val
      omega
    | ⟨1, _⟩ => rfl
    | ⟨2, _⟩ => rfl

/-- The one-element shape has one index. -/
theorem idx1_eq (x y : S1.Idx) : x = y := by
  funext a
  match a with
  | ⟨0, h⟩ =>
    refine Fin.ext ?_
    have h1 : (x ⟨0, h⟩).val < 1 := (x ⟨0, h⟩).isLt
    have h2 : (y ⟨0, h⟩).val < 1 := (y ⟨0, h⟩).isLt
    omega

/-- The scores' log-sigmoids, one entry: pointwise operations and the matrix product. -/
theorem inner_apply (d : DotDims S1024x2688 S2688x21 S1024x21)
    (hb : FTy.bf16.bits < FTy.f32.bits) (h1 : S2688x21.ShapeCasts S2688x21)
    (hr : d.contr.rank = 1) (hs : d.contr.size ⟨0, by omega⟩ = 2688)
    (hl0 : ∀ (j : S1024x21.Idx) (q : d.contr.Idx), (d.lhsIdx j q 0).val = (j 0).val)
    (hl1 : ∀ (j : S1024x21.Idx) (q : d.contr.Idx), (d.lhsIdx j q 1).val = (q ⟨0, by omega⟩).val)
    (hr0 : ∀ (j : S1024x21.Idx) (q : d.contr.Idx), (d.rhsIdx j q 0).val = (q ⟨0, by omega⟩).val)
    (hr1 : ∀ (j : S1024x21.Idx) (q : d.contr.Idx), (d.rhsIdx j q 1).val = (j 1).val)
    (z : FVec Ideal S1024x2688 .f32) (e : Vec Ideal S2688x21 .bf16) (r : Fin 1024) (c : Fin 21)
    (y : FVec Ideal S1024x21 .f32)
    (hy : y = matmul d none (truncf .bf16 z hb) (shapeCast S2688x21 e h1 : FVec Ideal S2688x21 .bf16)
      (constant S1024x21 .f32 0x00000000#32)) :
    subf (minimumf y (broadcast S1024x21 (Scalar.ofBits .f32 0x00000000#32)))
        (log (addf (broadcast S1024x21 (Scalar.ofBits .f32 0x3F800000#32))
          (exp (subf (broadcast S1024x21 (Scalar.ofBits .f32 0x00000000#32)) (absf y))))) (ix2 r c)
      = lsK (0 + ∑ k : Fin 2688, z (ix2 r k) * e (ix2 k c)) := by
  refine (score_ls (y (ix2 r c))).trans (congrArg lsK ?_)
  rw [zero_add, hy, shapeCast_self]
  exact Cert.LibRowOps.matmul_zero_apply (φ₂ := .bf16) d none (truncf .bf16 z hb) e hr hs hl0 hl1 hr0 hr1 r c

/-- The sum of every entry of a 1024 × 21 array reshaped to 1 × 1024 × 21 is the double sum over rows and columns. -/
theorem total_apply (v : FVec Ideal S1024x21 .f32) (h2 : S1024x21.ShapeCasts S1x1024x21)
    (h3 : S1x1024x21.Reduces [1, 2] S1) (j : S1.Idx) :
    multiReduction .add [1, 2] S1 (shapeCast S1x1024x21 v h2) 0x00000000#32 h3 (.inl rfl) rfl j
      = ∑ r : Fin 1024, ∑ c : Fin 21, v (ix2 r c) := by
  refine (Ideal.multiReduction_add_total _ 0x00000000#32 h3
    (fun b => by match b with | ⟨0, _⟩ => rfl) (.inl rfl) rfl j).trans ?_
  rw [← Equiv.sum_comp idxEquiv3, Fintype.sum_prod_type]
  refine Finset.sum_congr rfl fun r _ => Finset.sum_congr rfl fun c _ => ?_
  refine (shapeCast_addUnit_apply ![1024, 21] v h2 (ix3 (0 : Fin 1) r c)).trans (congrArg v ?_)
  funext a
  match a with
  | ⟨0, _⟩ => rfl
  | ⟨1, _⟩ => rfl

/-- A one-element array reshaped to 1 × 1 × 1, read at its element. -/
theorem extract_apply (v : FVec Ideal S1 .f32) (h4 : S1.ShapeCasts S1x1x1)
    (h5 : ∀ a, (![0, 0, 0] : Fin 3 → ℕ) a < S1x1x1.size a) :
    extractAt ![0, 0, 0] (shapeCast S1x1x1 v h4) h5 = v (ix1 (0 : Fin 1)) := by
  unfold extractAt
  refine shapeCast_apply v h4 _ (ix1 (0 : Fin 1)) ?_
  have a : (S1.rowMajor (ix1 (0 : Fin 1))).val < 1 := (S1.rowMajor _).isLt
  have b : (S1x1x1.rowMajor (fun a => (⟨(![0, 0, 0] : Fin 3 → ℕ) a, h5 a⟩ : Fin (S1x1x1.size a)))).val < 1 :=
    (S1x1x1.rowMajor _).isLt
  omega

/-- **The step at its index.** -/
theorem payTerm_apply (d : DotDims S1024x2688 S2688x21 S1024x21)
    (hb : FTy.bf16.bits < FTy.f32.bits) (h1 : S2688x21.ShapeCasts S2688x21) (h2 : S1024x21.ShapeCasts S1x1024x21)
    (h3 : S1x1024x21.Reduces [1, 2] S1) (h4 : S1.ShapeCasts S1x1x1) (h5 : ∀ a, (![0, 0, 0] : Fin 3 → ℕ) a < S1x1x1.size a)
    (h6 : S1x1.ShapeCasts S1x1)
    (hr : d.contr.rank = 1) (hs : d.contr.size ⟨0, by omega⟩ = 2688)
    (hl0 : ∀ (j : S1024x21.Idx) (q : d.contr.Idx), (d.lhsIdx j q 0).val = (j 0).val)
    (hl1 : ∀ (j : S1024x21.Idx) (q : d.contr.Idx), (d.lhsIdx j q 1).val = (q ⟨0, by omega⟩).val)
    (hr0 : ∀ (j : S1024x21.Idx) (q : d.contr.Idx), (d.rhsIdx j q 0).val = (q ⟨0, by omega⟩).val)
    (hr1 : ∀ (j : S1024x21.Idx) (q : d.contr.Idx), (d.rhsIdx j q 1).val = (j 1).val)
    (z : FVec Ideal S1024x2688 .f32) (e : Vec Ideal S2688x21 .bf16) (acc : Vec Ideal S1x1 .f32) (i : S1x1.Idx) :
    payTerm d hb h1 h2 h3 h4 h5 h6 z e acc i
      = acc i + ∑ r : Fin 1024, ∑ c : Fin 21, lsK (0 + ∑ k : Fin 2688, z (ix2 r k) * e (ix2 k c)) := by
  unfold payTerm
  dsimp only
  rw [addf_apply, shapeCast_self, broadcast_apply, extract_apply, total_apply]
  refine congrArg (fun s => acc i + s) (Finset.sum_congr rfl fun r _ => Finset.sum_congr rfl fun c _ => ?_)
  exact inner_apply d hb h1 hr hs hl0 hl1 hr0 hr1 z e r c _ rfl

end Cert.Proof.KI.PayMath

end
-- ==== Proof.KI_PieceMath.lean ====
import Idealize.ShloMosaic.Lib.Pipeline.Value
import Idealize.ShloMosaic.Lib.ValueIdx
import Idealize.ShloMosaic.PureOps.Ideal.Laws

/-!
  The product rows read at an index, on the extended reals.

  A 1024 × 128 block of products is either the centre block times the positive block, entry by entry, or one
  of the twenty 1 × 1024 × 128 slabs of the stacked negative block, its unit axis dropped, times the centre block.
  A slab is a load of the stacked block through the rectangle at offset (M, 0, 0).
-/

noncomputable section

namespace Cert.Proof.KI.PieceMath

open Idealize.ShloMosaic Idealize.ShloMosaic.ValueIdx

abbrev S1024x128 : Shape := ⟨2, ![1024, 128]⟩
abbrev S1x1024x128 : Shape := ⟨3, ![1, 1024, 128]⟩
abbrev S20x1024x128 : Shape := ⟨3, ![20, 1024, 128]⟩

/-- The positive products. -/
theorem posPiece (x0 x1 : FVec Ideal S1024x128 .f32) (hS : S1024x128.ShapeCasts S1024x128) (r : Fin 1024) (k : Fin 128) :
    mulf (shapeCast S1024x128 x0 hS) (shapeCast S1024x128 x1 hS) (ix2 r k) = x0 (ix2 r k) * x1 (ix2 r k) := by
  rw [mulf_apply, shapeCast_self, shapeCast_self]

/-- A slab with its unit axis dropped, read at (r, k). -/
theorem dropUnit_apply (row : FVec Ideal S1x1024x128 .f32) (hA : S1x1024x128.ShapeCasts S1024x128) (r : Fin 1024)
    (k : Fin 128) : shapeCast S1024x128 row hA (ix2 r k) = row (ix3 (0 : Fin 1) r k) := by
  refine (shapeCast_dropUnit_apply ![1024, 128] row hA (ix2 r k)).trans (congrArg row ?_)
  funext a
  match a with
  | ⟨0, _⟩ => rfl
  | ⟨1, _⟩ => rfl
  | ⟨2, _⟩ => rfl

/-- A negative product. -/
theorem negPiece (v1 : FVec Ideal S1024x128 .f32) (row : FVec Ideal S1x1024x128 .f32)
    (hA : S1x1024x128.ShapeCasts S1024x128) (r : Fin 1024) (k : Fin 128) :
    mulf (shapeCast S1024x128 row hA) v1 (ix2 r k) = row (ix3 (0 : Fin 1) r k) * v1 (ix2 r k) := by
  rw [mulf_apply, dropUnit_apply]

/-- Slab M of the stacked block, read at (0, r, k). -/
theorem slab_apply (x2 : Vec Ideal S20x1024x128 .f32) (M : ℕ) (hM : M < 20)
    (inb : ∀ a, (![M, 0, 0] : Fin 3 → ℕ) a + S1x1024x128.size a ≤ S20x1024x128.size a) (r : Fin 1024) (k : Fin 128) :
    View.ld (Val := Elt Ideal) x2 (Rect.unit (s := S20x1024x128) ![M, 0, 0] S1x1024x128.size inb) (ix3 (0 : Fin 1) r k)
      = x2 (ix3 (⟨M, hM⟩ : Fin 20) r k) := by
  show x2 ((Rect.unit (s := S20x1024x128) ![M, 0, 0] S1x1024x128.size inb).idx (ix3 (0 : Fin 1) r k)) = _
  refine congrArg x2 ?_
  funext a
  apply Fin.ext
  match a with
  | ⟨0, _⟩ => show M + 1 * 0 = M; omega
  | ⟨1, _⟩ => show 0 + 1 * r.val = r.val; omega
  | ⟨2, _⟩ => show 0 + 1 * k.val = k.val; omega

end Cert.Proof.KI.PieceMath

end
-- ==== Proof.KI_BlockSpec.lean ====
import proofs.«215899_g5772436046013_cont_9to1c4b_742_31_alg».proof.Proof.KerSpec

/-!
  A quarter's loss over its arrays.

  Over a quarter's 4096 centre rows a0, positive rows a1, 20 × 4096 negative rows a2 and the 2688 × 21 sign matrix
  a3: the row of products of row 1024 t + r is 21 runs of 128 — centre times positive, then each negative times
  centre —, a block's sum is the double sum over its 1024 rows and the 21 columns of the log-sigmoid of the row
  contracted against the matrix's column, and the quarter's cell is zero plus its four blocks' sums added in order.
-/

noncomputable section

open scoped BigOperators

namespace Cert.Proof.KI.BlockSpec

open Idealize.ShloMosaic Idealize.ShloMosaic.ValueIdx Cert.Proof.Ker

/-- Row r of block t of a quarter. -/
def rowOf (t : Fin 4) (r : Fin 1024) : Fin 4096 := ⟨1024 * t.val + r.val, by omega⟩

/-- A row of products of one block, run by run: run 0 centre times positive, run n + 1 the n-th negative times centre. -/
def zOf (x0 x1 : FVec Ideal ⟨2, ![1024, 128]⟩ .f32) (x2 : FVec Ideal ⟨3, ![20, 1024, 128]⟩ .f32) (r : Fin 1024)
    (n : Fin 21) (k : Fin 128) : EReal :=
  if h : n.val = 0 then x0 (ix2 r k) * x1 (ix2 r k) else x2 (ix3 (⟨n.val - 1, by omega⟩ : Fin 20) r k) * x0 (ix2 r k)

/-- The same over the quarter's arrays, at row 1024 t + r. -/
def zArr (a0 a1 : FVec Ideal ⟨2, ![4096, 128]⟩ .f32) (a2 : FVec Ideal ⟨3, ![20, 4096, 128]⟩ .f32) (t : Fin 4)
    (r : Fin 1024) (n : Fin 21) (k : Fin 128) : EReal :=
  if h : n.val = 0 then a0 (ix2 (rowOf t r) k) * a1 (ix2 (rowOf t r) k)
  else a2 (ix3 (⟨n.val - 1, by omega⟩ : Fin 20) (rowOf t r) k) * a0 (ix2 (rowOf t r) k)

/-- Block t's sum of log-sigmoids. -/
def blockArr (a0 a1 : FVec Ideal ⟨2, ![4096, 128]⟩ .f32) (a2 : FVec Ideal ⟨3, ![20, 4096, 128]⟩ .f32)
    (a3 : FVec Ideal ⟨2, ![2688, 21]⟩ .bf16) (t : Fin 4) : EReal :=
  ∑ r : Fin 1024, ∑ c : Fin 21,
    lsK (0 + ∑ n : Fin 21, ∑ k : Fin 128, zArr a0 a1 a2 t r n k * a3 (ix2 (⟨128 * n.val + k.val, by omega⟩ : Fin 2688) c))

/-- The quarter's cell: zero, then the four blocks' sums in order. -/
def cellArr (a0 a1 : FVec Ideal ⟨2, ![4096, 128]⟩ .f32) (a2 : FVec Ideal ⟨3, ![20, 4096, 128]⟩ .f32)
    (a3 : FVec Ideal ⟨2, ![2688, 21]⟩ .bf16) : EReal :=
  (((0 + blockArr a0 a1 a2 a3 0) + blockArr a0 a1 a2 a3 1) + blockArr a0 a1 a2 a3 2) + blockArr a0 a1 a2 a3 3

end Cert.Proof.KI.BlockSpec

end
-- ==== Proof.KI_LossValue.lean ====
import proofs.«215899_g5772436046013_cont_9to1c4b_742_31_alg».proof.Proof.KI_LossRegion
import proofs.«215899_g5772436046013_cont_9to1c4b_742_31_alg».proof.Proof.KI_PayMath
import proofs.«215899_g5772436046013_cont_9to1c4b_742_31_alg».proof.Proof.KI_PieceMath
import proofs.«215899_g5772436046013_cont_9to1c4b_742_31_alg».proof.Proof.KI_BlockSpec

set_option maxRecDepth 16384

noncomputable section

open scoped BigOperators

namespace Cert.Proof.KI

open Cert.KernelIdeal Cert.KernelIdeal.Gen

open Idealize.ShloMosaic Idealize.ShloMosaic.TcCoe Idealize.ShloMosaic.ValueIdx
open Idealize.ShloMosaic.Pipeline (Dat Cfg Window)
open Cert.Proof.Ker Cert.Proof.KI.BlockSpec

/-! # The loss kernel's result, on the extended reals

The output cell after the region is the accumulator after the fourth grid point: zero, then the four blocks' sums
added in order. A block's sum is the double sum, over its 1024 rows and the 21 columns, of the log-sigmoid of the
row of products contracted against the sign matrix's column; the row of products of block t's row r is 21 runs of
128: the centre row times the positive row, then each of the twenty negative rows times the centre row — all read
off the arrays at row 1024 t + r. -/

/-! ## The step -/

theorem lossDot_hl0 : ∀ (j : S1024x21.Idx) (q : dot_S1024x2688_S2688x21_S1024x21_1_0_0_1_n_n.contr.Idx),
    (dot_S1024x2688_S2688x21_S1024x21_1_0_0_1_n_n.lhsIdx j q 0).val = (j 0).val := fun _ _ => rfl
theorem lossDot_hr1 : ∀ (j : S1024x21.Idx) (q : dot_S1024x2688_S2688x21_S1024x21_1_0_0_1_n_n.contr.Idx),
    (dot_S1024x2688_S2688x21_S1024x21_1_0_0_1_n_n.rhsIdx j q 1).val = (j 1).val := fun _ _ => rfl

/-- The body's step at its index: the accumulator plus the block's double sum. -/
theorem lossStep_apply (x0 x1 : Vec Ideal S1024x128 .f32) (x2 : Vec Ideal S20x1024x128 .f32) (x3 : Vec Ideal S2688x21 .bf16)
    (acc : Vec Ideal S1x1 .f32) (i : S1x1.Idx) :
    lossStep x0 x1 x2 x3 acc i
      = acc i + ∑ r : Fin 1024, ∑ c : Fin 21, lsK (0 + ∑ k : Fin 2688, lossZ x0 x1 x2 (ix2 r k) * x3 (ix2 k c)) := by
  rw [lossStep_eq]
  exact PayMath.payTerm_apply dot_S1024x2688_S2688x21_S1024x21_1_0_0_1_n_n bitsLt_bf16_f32 shapeCasts_S2688x21_S2688x21
    shapeCasts_S1024x21_S1x1024x21 reduces_S1x1024x21_S1 shapeCasts_S1_S1x1x1 inpos_S1x1x1_p0_0_0 shapeCasts_S1x1_S1x1
    (DotDims.rank_contr dot_S1024x2688_S2688x21_S1024x21_1_0_0_1_n_n)
    (DotDims.size_contr dot_S1024x2688_S2688x21_S1024x21_1_0_0_1_n_n 0 Nat.one_pos) lossDot_hl0
    (fun j q => DotDims.lhsIdx_val_of_single dot_S1024x2688_S2688x21_S1024x21_1_0_0_1_n_n rfl j q)
    (fun j q => DotDims.rhsIdx_val_of_single dot_S1024x2688_S2688x21_S1024x21_1_0_0_1_n_n rfl j q) lossDot_hr1
    (lossZ x0 x1 x2) x3 acc i

/-! ## The rows of products -/

/-- The 21 runs of the concatenation. -/
def lossPieces (x0 x1 : Vec Ideal S1024x128 .f32) (x2 : Vec Ideal S20x1024x128 .f32) :
    Fin 21 → (S1024x128.Idx → Elt Ideal .f32)
  | ⟨0, _⟩ => k1_pay6 (lossIn x0) (lossIn x1)
  | ⟨1, _⟩ => k1_pay7 (lossIn x0) (lossRow0 x2)
  | ⟨2, _⟩ => k1_pay8 (lossIn x0) (lossRow1 x2)
  | ⟨3, _⟩ => k1_pay9 (lossIn x0) (lossRow2 x2)
  | ⟨4, _⟩ => k1_pay10 (lossIn x0) (lossRow3 x2)
  | ⟨5, _⟩ => k1_pay11 (lossIn x0) (lossRow4 x2)
  | ⟨6, _⟩ => k1_pay12 (lossIn x0) (lossRow5 x2)
  | ⟨7, _⟩ => k1_pay13 (lossIn x0) (lossRow6 x2)
  | ⟨8, _⟩ => k1_pay14 (lossIn x0) (lossRow7 x2)
  | ⟨9, _⟩ => k1_pay15 (k1_pay5 (lossIn x0)) (lossRow8 x2)
  | ⟨10, _⟩ => k1_pay16 (k1_pay5 (lossIn x0)) (lossRow9 x2)
  | ⟨11, _⟩ => k1_pay17 (k1_pay5 (lossIn x0)) (lossRow10 x2)
  | ⟨12, _⟩ => k1_pay18 (k1_pay5 (lossIn x0)) (lossRow11 x2)
  | ⟨13, _⟩ => k1_pay19 (k1_pay5 (lossIn x0)) (lossRow12 x2)
  | ⟨14, _⟩ => k1_pay20 (k1_pay5 (lossIn x0)) (lossRow13 x2)
  | ⟨15, _⟩ => k1_pay21 (k1_pay5 (lossIn x0)) (lossRow14 x2)
  | ⟨16, _⟩ => k1_pay22 (k1_pay5 (lossIn x0)) (lossRow15 x2)
  | ⟨17, _⟩ => k1_pay23 (k1_pay5 (lossIn x0)) (lossRow16 x2)
  | ⟨18, _⟩ => k1_pay24 (k1_pay5 (lossIn x0)) (lossRow17 x2)
  | ⟨19, _⟩ => k1_pay1 (k1_pay5 (lossIn x0)) (lossRow18 x2)
  | ⟨20, _⟩ => k1_pay2 (k1_pay5 (lossIn x0)) (lossRow19 x2)
  | ⟨_ + 21, h⟩ => absurd h (by omega)

theorem lossZ_ofFn (x0 x1 : Vec Ideal S1024x128 .f32) (x2 : Vec Ideal S20x1024x128 .f32) :
    lossZ x0 x1 x2 = concatenate S1024x2688 1
      (List.ofFn fun n : Fin 21 => (⟨S1024x128, lossPieces x0 x1 x2 n⟩ : (s : Shape) × (s.Idx → Elt Ideal .f32)))
      concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x2688_d1 :=
  rfl

/-- The centre block through its reshape and load. -/
theorem lossPay5_apply (x0 : Vec Ideal S1024x128 .f32) (r : Fin 1024) (k : Fin 128) :
    k1_pay5 (lossIn x0) (ix2 r k) = x0 (ix2 r k) := by
  unfold k1_pay5
  rw [shapeCast_self, lossIn_eq]

theorem lossPieces_apply (x0 x1 : Vec Ideal S1024x128 .f32) (x2 : Vec Ideal S20x1024x128 .f32) (r : Fin 1024)
    (k : Fin 128) : ∀ n : Fin 21, lossPieces x0 x1 x2 n (ix2 r k) = zOf x0 x1 x2 r n k
  | ⟨0, _⟩ => by
    refine (PieceMath.posPiece (lossIn x0) (lossIn x1) shapeCasts_S1024x128_S1024x128 r k).trans ?_
    rw [lossIn_eq, lossIn_eq]
    unfold zOf
    rw [dif_pos (show ((0 : ℕ) = 0) from rfl)]
  | ⟨1, _⟩ => by
    refine (PieceMath.negPiece (k1_pay5 (lossIn x0)) (lossRow0 x2) shapeCasts_S1x1024x128_S1024x128 r k).trans ?_
    unfold zOf
    rw [dif_neg (show ¬((1 : ℕ) = 0) by omega)]
    exact congrArg₂ (· * ·) (PieceMath.slab_apply x2 0 (by omega) _ r k) (lossPay5_apply x0 r k)
  | ⟨2, _⟩ => by
    refine (PieceMath.negPiece (k1_pay5 (lossIn x0)) (lossRow1 x2) shapeCasts_S1x1024x128_S1024x128 r k).trans ?_
    unfold zOf
    rw [dif_neg (show ¬((2 : ℕ) = 0) by omega)]
    exact congrArg₂ (· * ·) (PieceMath.slab_apply x2 1 (by omega) _ r k) (lossPay5_apply x0 r k)
  | ⟨3, _⟩ => by
    refine (PieceMath.negPiece (k1_pay5 (lossIn x0)) (lossRow2 x2) shapeCasts_S1x1024x128_S1024x128 r k).trans ?_
    unfold zOf
    rw [dif_neg (show ¬((3 : ℕ) = 0) by omega)]
    exact congrArg₂ (· * ·) (PieceMath.slab_apply x2 2 (by omega) _ r k) (lossPay5_apply x0 r k)
  | ⟨4, _⟩ => by
    refine (PieceMath.negPiece (k1_pay5 (lossIn x0)) (lossRow3 x2) shapeCasts_S1x1024x128_S1024x128 r k).trans ?_
    unfold zOf
    rw [dif_neg (show ¬((4 : ℕ) = 0) by omega)]
    exact congrArg₂ (· * ·) (PieceMath.slab_apply x2 3 (by omega) _ r k) (lossPay5_apply x0 r k)
  | ⟨5, _⟩ => by
    refine (PieceMath.negPiece (k1_pay5 (lossIn x0)) (lossRow4 x2) shapeCasts_S1x1024x128_S1024x128 r k).trans ?_
    unfold zOf
    rw [dif_neg (show ¬((5 : ℕ) = 0) by omega)]
    exact congrArg₂ (· * ·) (PieceMath.slab_apply x2 4 (by omega) _ r k) (lossPay5_apply x0 r k)
  | ⟨6, _⟩ => by
    refine (PieceMath.negPiece (k1_pay5 (lossIn x0)) (lossRow5 x2) shapeCasts_S1x1024x128_S1024x128 r k).trans ?_
    unfold zOf
    rw [dif_neg (show ¬((6 : ℕ) = 0) by omega)]
    exact congrArg₂ (· * ·) (PieceMath.slab_apply x2 5 (by omega) _ r k) (lossPay5_apply x0 r k)
  | ⟨7, _⟩ => by
    refine (PieceMath.negPiece (k1_pay5 (lossIn x0)) (lossRow6 x2) shapeCasts_S1x1024x128_S1024x128 r k).trans ?_
    unfold zOf
    rw [dif_neg (show ¬((7 : ℕ) = 0) by omega)]
    exact congrArg₂ (· * ·) (PieceMath.slab_apply x2 6 (by omega) _ r k) (lossPay5_apply x0 r k)
  | ⟨8, _⟩ => by
    refine (PieceMath.negPiece (k1_pay5 (lossIn x0)) (lossRow7 x2) shapeCasts_S1x1024x128_S1024x128 r k).trans ?_
    unfold zOf
    rw [dif_neg (show ¬((8 : ℕ) = 0) by omega)]
    exact congrArg₂ (· * ·) (PieceMath.slab_apply x2 7 (by omega) _ r k) (lossPay5_apply x0 r k)
  | ⟨9, _⟩ => by
    refine (PieceMath.negPiece (k1_pay5 (lossIn x0)) (lossRow8 x2) shapeCasts_S1x1024x128_S1024x128 r k).trans ?_
    unfold zOf
    rw [dif_neg (show ¬((9 : ℕ) = 0) by omega)]
    exact congrArg₂ (· * ·) (PieceMath.slab_apply x2 8 (by omega) _ r k) (lossPay5_apply x0 r k)
  | ⟨10, _⟩ => by
    refine (PieceMath.negPiece (k1_pay5 (lossIn x0)) (lossRow9 x2) shapeCasts_S1x1024x128_S1024x128 r k).trans ?_
    unfold zOf
    rw [dif_neg (show ¬((10 : ℕ) = 0) by omega)]
    exact congrArg₂ (· * ·) (PieceMath.slab_apply x2 9 (by omega) _ r k) (lossPay5_apply x0 r k)
  | ⟨11, _⟩ => by
    refine (PieceMath.negPiece (k1_pay5 (lossIn x0)) (lossRow10 x2) shapeCasts_S1x1024x128_S1024x128 r k).trans ?_
    unfold zOf
    rw [dif_neg (show ¬((11 : ℕ) = 0) by omega)]
    exact congrArg₂ (· * ·) (PieceMath.slab_apply x2 10 (by omega) _ r k) (lossPay5_apply x0 r k)
  | ⟨12, _⟩ => by
    refine (PieceMath.negPiece (k1_pay5 (lossIn x0)) (lossRow11 x2) shapeCasts_S1x1024x128_S1024x128 r k).trans ?_
    unfold zOf
    rw [dif_neg (show ¬((12 : ℕ) = 0) by omega)]
    exact congrArg₂ (· * ·) (PieceMath.slab_apply x2 11 (by omega) _ r k) (lossPay5_apply x0 r k)
  | ⟨13, _⟩ => by
    refine (PieceMath.negPiece (k1_pay5 (lossIn x0)) (lossRow12 x2) shapeCasts_S1x1024x128_S1024x128 r k).trans ?_
    unfold zOf
    rw [dif_neg (show ¬((13 : ℕ) = 0) by omega)]
    exact congrArg₂ (· * ·) (PieceMath.slab_apply x2 12 (by omega) _ r k) (lossPay5_apply x0 r k)
  | ⟨14, _⟩ => by
    refine (PieceMath.negPiece (k1_pay5 (lossIn x0)) (lossRow13 x2) shapeCasts_S1x1024x128_S1024x128 r k).trans ?_
    unfold zOf
    rw [dif_neg (show ¬((14 : ℕ) = 0) by omega)]
    exact congrArg₂ (· * ·) (PieceMath.slab_apply x2 13 (by omega) _ r k) (lossPay5_apply x0 r k)
  | ⟨15, _⟩ => by
    refine (PieceMath.negPiece (k1_pay5 (lossIn x0)) (lossRow14 x2) shapeCasts_S1x1024x128_S1024x128 r k).trans ?_
    unfold zOf
    rw [dif_neg (show ¬((15 : ℕ) = 0) by omega)]
    exact congrArg₂ (· * ·) (PieceMath.slab_apply x2 14 (by omega) _ r k) (lossPay5_apply x0 r k)
  | ⟨16, _⟩ => by
    refine (PieceMath.negPiece (k1_pay5 (lossIn x0)) (lossRow15 x2) shapeCasts_S1x1024x128_S1024x128 r k).trans ?_
    unfold zOf
    rw [dif_neg (show ¬((16 : ℕ) = 0) by omega)]
    exact congrArg₂ (· * ·) (PieceMath.slab_apply x2 15 (by omega) _ r k) (lossPay5_apply x0 r k)
  | ⟨17, _⟩ => by
    refine (PieceMath.negPiece (k1_pay5 (lossIn x0)) (lossRow16 x2) shapeCasts_S1x1024x128_S1024x128 r k).trans ?_
    unfold zOf
    rw [dif_neg (show ¬((17 : ℕ) = 0) by omega)]
    exact congrArg₂ (· * ·) (PieceMath.slab_apply x2 16 (by omega) _ r k) (lossPay5_apply x0 r k)
  | ⟨18, _⟩ => by
    refine (PieceMath.negPiece (k1_pay5 (lossIn x0)) (lossRow17 x2) shapeCasts_S1x1024x128_S1024x128 r k).trans ?_
    unfold zOf
    rw [dif_neg (show ¬((18 : ℕ) = 0) by omega)]
    exact congrArg₂ (· * ·) (PieceMath.slab_apply x2 17 (by omega) _ r k) (lossPay5_apply x0 r k)
  | ⟨19, _⟩ => by
    refine (PieceMath.negPiece (k1_pay5 (lossIn x0)) (lossRow18 x2) shapeCasts_S1x1024x128_S1024x128 r k).trans ?_
    unfold zOf
    rw [dif_neg (show ¬((19 : ℕ) = 0) by omega)]
    exact congrArg₂ (· * ·) (PieceMath.slab_apply x2 18 (by omega) _ r k) (lossPay5_apply x0 r k)
  | ⟨20, _⟩ => by
    refine (PieceMath.negPiece (k1_pay5 (lossIn x0)) (lossRow19 x2) shapeCasts_S1x1024x128_S1024x128 r k).trans ?_
    unfold zOf
    rw [dif_neg (show ¬((20 : ℕ) = 0) by omega)]
    exact congrArg₂ (· * ·) (PieceMath.slab_apply x2 19 (by omega) _ r k) (lossPay5_apply x0 r k)
  | ⟨_ + 21, h⟩ => absurd h (by omega)

/-- Entry (r, 128 n + k) of the row of products. -/
theorem lossZ_apply (x0 x1 : Vec Ideal S1024x128 .f32) (x2 : Vec Ideal S20x1024x128 .f32) (r : Fin 1024) (n : Fin 21)
    (k : Fin 128) (hlt : 128 * n.val + k.val < 2688) :
    lossZ x0 x1 x2 (ix2 r ⟨128 * n.val + k.val, hlt⟩) = zOf x0 x1 x2 r n k := by
  rw [lossZ_ofFn, ← lossPieces_apply]
  refine concatenate_ofFn_apply (t := S1024x2688) (s₁ := S1024x128) (1 : Fin 2) (lossPieces x0 x1 x2) _ rfl 128 rfl _ n ?_ (ix2 r k) ?_ ?_
  · show (128 * n.val + k.val) / 128 = n.val
    have := k.isLt
    omega
  · show k.val = (128 * n.val + k.val) % 128
    have := k.isLt
    omega
  · intro b hb
    match b with
    | ⟨0, _⟩ => rfl
    | ⟨1, _⟩ => exact absurd rfl hb

end Cert.Proof.KI

end
-- ==== Proof.KI_LossValue2.lean ====
import proofs.«215899_g5772436046013_cont_9to1c4b_742_31_alg».proof.Proof.KI_LossValue
import proofs.«215899_g5772436046013_cont_9to1c4b_742_31_alg».proof.Proof.LibSumBlocks

set_option maxRecDepth 16384

noncomputable section

open scoped BigOperators

namespace Cert.Proof.KI

open Cert.KernelIdeal Cert.KernelIdeal.Gen

open Idealize.ShloMosaic Idealize.ShloMosaic.TcCoe Idealize.ShloMosaic.ValueIdx
open Idealize.ShloMosaic.Pipeline (Dat Cfg Window)
open Cert.Proof.Ker Cert.Proof.KI.BlockSpec

/-! # From the blocks to the arrays, and the output cell

Block t of the centre, positive and negative arrays holds their rows 1024 t to 1024 t + 1023; the sign matrix and
the output cell are one block each. So the accumulator after the four points, and with it the output cell after the
region, is zero plus the four blocks' sums, each written over the arrays. -/

/-- The printed index maps over the grid: the row block moves with the point, everything else stays at zero. -/
theorem lossIdxFacts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 3) = 0 ∧ win1_2.index t (1 : Fin 3) = t.val ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- A grid point as one of the four blocks. -/
def lossPt (t : Fin cfg1.N) : Fin 4 := ⟨t.val, lt_of_lt_of_eq t.isLt (show cfg1.N = 4 from N_1)⟩

variable (c : Dev nD) (A : LossArrs Ideal c)

theorem lossBlk0_apply (t : Fin cfg1.N) (r : Fin 1024) (k : Fin 128) :
    lossBlk c A 0 t (ix2 r k) = A 0 (ix2 (rowOf (lossPt t) r) k) := by
  obtain ⟨e0, e1, -⟩ := lossIdxFacts t
  show A 0 (((cfg1.win 0).blk t).view.emb (ix2 r k)) = _
  refine congrArg (A 0) ?_
  funext a; apply Fin.ext
  match a with
  | ⟨0, _⟩ => show win1_0.index t (0 : Fin 2) * 1024 + 1 * r.val = 1024 * t.val + r.val; rw [e0]; omega
  | ⟨1, _⟩ => show win1_0.index t (1 : Fin 2) * 128 + 1 * k.val = k.val; rw [e1]; omega

theorem lossBlk1_apply (t : Fin cfg1.N) (r : Fin 1024) (k : Fin 128) :
    lossBlk c A 1 t (ix2 r k) = A 1 (ix2 (rowOf (lossPt t) r) k) := by
  obtain ⟨-, -, e0, e1, -⟩ := lossIdxFacts t
  show A 1 (((cfg1.win 1).blk t).view.emb (ix2 r k)) = _
  refine congrArg (A 1) ?_
  funext a; apply Fin.ext
  match a with
  | ⟨0, _⟩ => show win1_1.index t (0 : Fin 2) * 1024 + 1 * r.val = 1024 * t.val + r.val; rw [e0]; omega
  | ⟨1, _⟩ => show win1_1.index t (1 : Fin 2) * 128 + 1 * k.val = k.val; rw [e1]; omega

theorem lossBlk2_apply (t : Fin cfg1.N) (j : Fin 20) (r : Fin 1024) (k : Fin 128) :
    lossBlk c A 2 t (ix3 j r k) = A 2 (ix3 j (rowOf (lossPt t) r) k) := by
  obtain ⟨-, -, -, -, e0, e1, e2, -⟩ := lossIdxFacts t
  show A 2 (((cfg1.win 2).blk t).view.emb (ix3 j r k)) = _
  refine congrArg (A 2) ?_
  funext a; apply Fin.ext
  match a with
  | ⟨0, _⟩ => show win1_2.index t (0 : Fin 3) * 20 + 1 * j.val = j.val; rw [e0]; omega
  | ⟨1, _⟩ => show win1_2.index t (1 : Fin 3) * 1024 + 1 * r.val = 1024 * t.val + r.val; rw [e1]; omega
  | ⟨2, _⟩ => show win1_2.index t (2 : Fin 3) * 128 + 1 * k.val = k.val; rw [e2]; omega

theorem lossBlk3_apply (t : Fin cfg1.N) (q : Fin 2688) (cc : Fin 21) :
    lossBlk c A 3 t (ix2 q cc) = A 3 (ix2 q cc) := by
  obtain ⟨-, -, -, -, -, -, -, e0, e1, -⟩ := lossIdxFacts t
  show A 3 (((cfg1.win 3).blk t).view.emb (ix2 q cc)) = _
  refine congrArg (A 3) ?_
  funext a; apply Fin.ext
  match a with
  | ⟨0, _⟩ => show win1_3.index t (0 : Fin 2) * 2688 + 1 * q.val = q.val; rw [e0]; omega
  | ⟨1, _⟩ => show win1_3.index t (1 : Fin 2) * 21 + 1 * cc.val = cc.val; rw [e1]; omega

/-- The step over point t's blocks adds block t's sum. -/
theorem lossStep_blocks (t : Fin cfg1.N) (acc : Vec Ideal S1x1 .f32) (i : S1x1.Idx) :
    lossStep (lossBlk c A 0 t) (lossBlk c A 1 t) (lossBlk c A 2 t) (lossBlk c A 3 t) acc i
      = acc i + blockArr (A 0) (A 1) (A 2) (A 3) (lossPt t) := by
  rw [lossStep_apply]
  unfold blockArr
  refine congrArg (fun s => acc i + s) (Finset.sum_congr rfl fun r _ => Finset.sum_congr rfl fun cc _ =>
    congrArg (fun s => lsK (0 + s)) ?_)
  rw [Cert.LibSumBlocks.sum_blocks 21 128 (by norm_num)
    (fun q : Fin 2688 => lossZ (lossBlk c A 0 t) (lossBlk c A 1 t) (lossBlk c A 2 t) (ix2 r q) * lossBlk c A 3 t (ix2 q cc))]
  refine Finset.sum_congr rfl fun n _ => Finset.sum_congr rfl fun k _ => ?_
  rw [lossZ_apply, lossBlk3_apply]
  refine congrArg (fun s => s * (A 3 : FVec Ideal S2688x21 .bf16) (ix2 (⟨128 * n.val + k.val, by omega⟩ : Fin 2688) cc)) ?_
  unfold zOf zArr
  split
  · rw [lossBlk0_apply, lossBlk1_apply]
  · rw [lossBlk2_apply, lossBlk0_apply]

theorem lossPay3_apply (i : S1x1.Idx) : k1_pay3 (F := Ideal) i = 0 := PayMath.ofBits_zero

/-- The accumulator after the fourth point. -/
theorem lossAcc3_apply (h3 : 3 < cfg1.N) (i : S1x1.Idx) :
    lossAcc c A 3 h3 i
      = (((0 + blockArr (A 0) (A 1) (A 2) (A 3) 0) + blockArr (A 0) (A 1) (A 2) (A 3) 1) + blockArr (A 0) (A 1) (A 2) (A 3) 2) + blockArr (A 0) (A 1) (A 2) (A 3) 3 := by
  have h2 : 2 < cfg1.N := Nat.lt_of_succ_lt h3
  have h1 : 1 < cfg1.N := Nat.lt_of_succ_lt h2
  have h0 : 0 < cfg1.N := Nat.lt_of_succ_lt h1
  have e3 : lossAcc c A 3 h3 = lossStepB (lossBlk c A 0 ⟨3, h3⟩) (lossBlk c A 1 ⟨3, h3⟩) (lossBlk c A 2 ⟨3, h3⟩)
      (lossBlk c A 3 ⟨3, h3⟩) (lossAcc c A 2 h2) := rfl
  have e2 : lossAcc c A 2 h2 = lossStepB (lossBlk c A 0 ⟨2, h2⟩) (lossBlk c A 1 ⟨2, h2⟩) (lossBlk c A 2 ⟨2, h2⟩)
      (lossBlk c A 3 ⟨2, h2⟩) (lossAcc c A 1 h1) := rfl
  have e1 : lossAcc c A 1 h1 = lossStepB (lossBlk c A 0 ⟨1, h1⟩) (lossBlk c A 1 ⟨1, h1⟩) (lossBlk c A 2 ⟨1, h1⟩)
      (lossBlk c A 3 ⟨1, h1⟩) (lossAcc c A 0 h0) := rfl
  have e0 : lossAcc c A 0 h0 = lossStepA (lossBlk c A 0 ⟨0, h0⟩) (lossBlk c A 1 ⟨0, h0⟩) (lossBlk c A 2 ⟨0, h0⟩)
      (lossBlk c A 3 ⟨0, h0⟩) := rfl
  rw [e3, lossStepB_eq, lossStep_blocks, e2, lossStepB_eq, lossStep_blocks, e1, lossStepB_eq, lossStep_blocks, e0]
  unfold lossStepA
  rw [lossStep_blocks, lossPay3_apply]
  rfl

/-- **The output cell after the region**: zero, then the four blocks' sums added in order. -/
theorem lossOut_apply (i : S1x1.Idx) : lossOut c A i = cellArr (A 0) (A 1) (A 2) (A 3) := by
  unfold cellArr
  obtain ⟨-, -, -, -, -, -, -, -, -, e0, e1⟩ := lossIdxFacts t1_3
  have he : ((cfg1.win 4).blk t1_3).view.emb i = i := by
    funext a; apply Fin.ext
    match a with
    | ⟨0, _⟩ => show win1_4.index t1_3 (0 : Fin 2) * 1 + 1 * (i 0).val = (i 0).val; rw [e0]; omega
    | ⟨1, _⟩ => show win1_4.index t1_3 (1 : Fin 2) * 1 + 1 * (i 1).val = (i 1).val; rw [e1]; omega
  have h : lossOut c A (((cfg1.win 4).blk t1_3).view.emb i) = lossAcc c A 3 (by rw [show cfg1.N = 4 from N_1]; decide) i :=
    congrFun (read_lossOut c A) i
  rw [he] at h
  rw [h, lossAcc3_apply]

end Cert.Proof.KI

end
-- ==== Proof.KI_Loss3Value.lean ====
import proofs.«215899_g5772436046013_cont_9to1c4b_742_31_alg».proof.Proof.KI_Loss3Region
import proofs.«215899_g5772436046013_cont_9to1c4b_742_31_alg».proof.Proof.KI_PayMath
import proofs.«215899_g5772436046013_cont_9to1c4b_742_31_alg».proof.Proof.KI_PieceMath
import proofs.«215899_g5772436046013_cont_9to1c4b_742_31_alg».proof.Proof.KI_BlockSpec

set_option maxRecDepth 16384

noncomputable section

open scoped BigOperators

namespace Cert.Proof.KI

open Cert.KernelIdeal Cert.KernelIdeal.Gen

open Idealize.ShloMosaic Idealize.ShloMosaic.TcCoe Idealize.ShloMosaic.ValueIdx
open Idealize.ShloMosaic.Pipeline (Dat Cfg Window)
open Cert.Proof.Ker Cert.Proof.KI.BlockSpec

/-! # The loss3 kernel's result, on the extended reals

The output cell after the region is the accumulator after the fourth grid point: zero, then the four blocks' sums
added in order. A block's sum is the double sum, over its 1024 rows and the 21 columns, of the log-sigmoid of the
row of products contracted against the sign matrix's column; the row of products of block t's row r is 21 runs of
128: the centre row times the positive row, then each of the twenty negative rows times the centre row — all read
off the arrays at row 1024 t + r. -/

/-! ## The step -/

theorem loss3Dot_hl0 : ∀ (j : S1024x21.Idx) (q : dot_S1024x2688_S2688x21_S1024x21_1_0_0_1_n_n.contr.Idx),
    (dot_S1024x2688_S2688x21_S1024x21_1_0_0_1_n_n.lhsIdx j q 0).val = (j 0).val := fun _ _ => rfl
theorem loss3Dot_hr1 : ∀ (j : S1024x21.Idx) (q : dot_S1024x2688_S2688x21_S1024x21_1_0_0_1_n_n.contr.Idx),
    (dot_S1024x2688_S2688x21_S1024x21_1_0_0_1_n_n.rhsIdx j q 1).val = (j 1).val := fun _ _ => rfl

/-- The body's step at its index: the accumulator plus the block's double sum. -/
theorem loss3Step_apply (x0 x1 : Vec Ideal S1024x128 .f32) (x2 : Vec Ideal S20x1024x128 .f32) (x3 : Vec Ideal S2688x21 .bf16)
    (acc : Vec Ideal S1x1 .f32) (i : S1x1.Idx) :
    loss3Step x0 x1 x2 x3 acc i
      = acc i + ∑ r : Fin 1024, ∑ c : Fin 21, lsK (0 + ∑ k : Fin 2688, loss3Z x0 x1 x2 (ix2 r k) * x3 (ix2 k c)) := by
  rw [loss3Step_eq]
  exact PayMath.payTerm_apply dot_S1024x2688_S2688x21_S1024x21_1_0_0_1_n_n bitsLt_bf16_f32 shapeCasts_S2688x21_S2688x21
    shapeCasts_S1024x21_S1x1024x21 reduces_S1x1024x21_S1 shapeCasts_S1_S1x1x1 inpos_S1x1x1_p0_0_0 shapeCasts_S1x1_S1x1
    (DotDims.rank_contr dot_S1024x2688_S2688x21_S1024x21_1_0_0_1_n_n)
    (DotDims.size_contr dot_S1024x2688_S2688x21_S1024x21_1_0_0_1_n_n 0 Nat.one_pos) loss3Dot_hl0
    (fun j q => DotDims.lhsIdx_val_of_single dot_S1024x2688_S2688x21_S1024x21_1_0_0_1_n_n rfl j q)
    (fun j q => DotDims.rhsIdx_val_of_single dot_S1024x2688_S2688x21_S1024x21_1_0_0_1_n_n rfl j q) loss3Dot_hr1
    (loss3Z x0 x1 x2) x3 acc i

/-! ## The rows of products -/

/-- The 21 runs of the concatenation. -/
def loss3Pieces (x0 x1 : Vec Ideal S1024x128 .f32) (x2 : Vec Ideal S20x1024x128 .f32) :
    Fin 21 → (S1024x128.Idx → Elt Ideal .f32)
  | ⟨0, _⟩ => k3_pay6 (loss3In x0) (loss3In x1)
  | ⟨1, _⟩ => k3_pay7 (loss3In x0) (loss3Row0 x2)
  | ⟨2, _⟩ => k3_pay8 (loss3In x0) (loss3Row1 x2)
  | ⟨3, _⟩ => k3_pay9 (loss3In x0) (loss3Row2 x2)
  | ⟨4, _⟩ => k3_pay10 (loss3In x0) (loss3Row3 x2)
  | ⟨5, _⟩ => k3_pay11 (loss3In x0) (loss3Row4 x2)
  | ⟨6, _⟩ => k3_pay12 (loss3In x0) (loss3Row5 x2)
  | ⟨7, _⟩ => k3_pay13 (loss3In x0) (loss3Row6 x2)
  | ⟨8, _⟩ => k3_pay14 (loss3In x0) (loss3Row7 x2)
  | ⟨9, _⟩ => k3_pay15 (k3_pay5 (loss3In x0)) (loss3Row8 x2)
  | ⟨10, _⟩ => k3_pay16 (k3_pay5 (loss3In x0)) (loss3Row9 x2)
  | ⟨11, _⟩ => k3_pay17 (k3_pay5 (loss3In x0)) (loss3Row10 x2)
  | ⟨12, _⟩ => k3_pay18 (k3_pay5 (loss3In x0)) (loss3Row11 x2)
  | ⟨13, _⟩ => k3_pay19 (k3_pay5 (loss3In x0)) (loss3Row12 x2)
  | ⟨14, _⟩ => k3_pay20 (k3_pay5 (loss3In x0)) (loss3Row13 x2)
  | ⟨15, _⟩ => k3_pay21 (k3_pay5 (loss3In x0)) (loss3Row14 x2)
  | ⟨16, _⟩ => k3_pay22 (k3_pay5 (loss3In x0)) (loss3Row15 x2)
  | ⟨17, _⟩ => k3_pay23 (k3_pay5 (loss3In x0)) (loss3Row16 x2)
  | ⟨18, _⟩ => k3_pay24 (k3_pay5 (loss3In x0)) (loss3Row17 x2)
  | ⟨19, _⟩ => k3_pay1 (k3_pay5 (loss3In x0)) (loss3Row18 x2)
  | ⟨20, _⟩ => k3_pay2 (k3_pay5 (loss3In x0)) (loss3Row19 x2)
  | ⟨_ + 21, h⟩ => absurd h (by omega)

theorem loss3Z_ofFn (x0 x1 : Vec Ideal S1024x128 .f32) (x2 : Vec Ideal S20x1024x128 .f32) :
    loss3Z x0 x1 x2 = concatenate S1024x2688 1
      (List.ofFn fun n : Fin 21 => (⟨S1024x128, loss3Pieces x0 x1 x2 n⟩ : (s : Shape) × (s.Idx → Elt Ideal .f32)))
      concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x2688_d1 :=
  rfl

/-- The centre block through its reshape and load. -/
theorem loss3Pay5_apply (x0 : Vec Ideal S1024x128 .f32) (r : Fin 1024) (k : Fin 128) :
    k3_pay5 (loss3In x0) (ix2 r k) = x0 (ix2 r k) := by
  unfold k3_pay5
  rw [shapeCast_self, loss3In_eq]

theorem loss3Pieces_apply (x0 x1 : Vec Ideal S1024x128 .f32) (x2 : Vec Ideal S20x1024x128 .f32) (r : Fin 1024)
    (k : Fin 128) : ∀ n : Fin 21, loss3Pieces x0 x1 x2 n (ix2 r k) = zOf x0 x1 x2 r n k
  | ⟨0, _⟩ => by
    refine (PieceMath.posPiece (loss3In x0) (loss3In x1) shapeCasts_S1024x128_S1024x128 r k).trans ?_
    rw [loss3In_eq, loss3In_eq]
    unfold zOf
    rw [dif_pos (show ((0 : ℕ) = 0) from rfl)]
  | ⟨1, _⟩ => by
    refine (PieceMath.negPiece (k3_pay5 (loss3In x0)) (loss3Row0 x2) shapeCasts_S1x1024x128_S1024x128 r k).trans ?_
    unfold zOf
    rw [dif_neg (show ¬((1 : ℕ) = 0) by omega)]
    exact congrArg₂ (· * ·) (PieceMath.slab_apply x2 0 (by omega) _ r k) (loss3Pay5_apply x0 r k)
  | ⟨2, _⟩ => by
    refine (PieceMath.negPiece (k3_pay5 (loss3In x0)) (loss3Row1 x2) shapeCasts_S1x1024x128_S1024x128 r k).trans ?_
    unfold zOf
    rw [dif_neg (show ¬((2 : ℕ) = 0) by omega)]
    exact congrArg₂ (· * ·) (PieceMath.slab_apply x2 1 (by omega) _ r k) (loss3Pay5_apply x0 r k)
  | ⟨3, _⟩ => by
    refine (PieceMath.negPiece (k3_pay5 (loss3In x0)) (loss3Row2 x2) shapeCasts_S1x1024x128_S1024x128 r k).trans ?_
    unfold zOf
    rw [dif_neg (show ¬((3 : ℕ) = 0) by omega)]
    exact congrArg₂ (· * ·) (PieceMath.slab_apply x2 2 (by omega) _ r k) (loss3Pay5_apply x0 r k)
  | ⟨4, _⟩ => by
    refine (PieceMath.negPiece (k3_pay5 (loss3In x0)) (loss3Row3 x2) shapeCasts_S1x1024x128_S1024x128 r k).trans ?_
    unfold zOf
    rw [dif_neg (show ¬((4 : ℕ) = 0) by omega)]
    exact congrArg₂ (· * ·) (PieceMath.slab_apply x2 3 (by omega) _ r k) (loss3Pay5_apply x0 r k)
  | ⟨5, _⟩ => by
    refine (PieceMath.negPiece (k3_pay5 (loss3In x0)) (loss3Row4 x2) shapeCasts_S1x1024x128_S1024x128 r k).trans ?_
    unfold zOf
    rw [dif_neg (show ¬((5 : ℕ) = 0) by omega)]
    exact congrArg₂ (· * ·) (PieceMath.slab_apply x2 4 (by omega) _ r k) (loss3Pay5_apply x0 r k)
  | ⟨6, _⟩ => by
    refine (PieceMath.negPiece (k3_pay5 (loss3In x0)) (loss3Row5 x2) shapeCasts_S1x1024x128_S1024x128 r k).trans ?_
    unfold zOf
    rw [dif_neg (show ¬((6 : ℕ) = 0) by omega)]
    exact congrArg₂ (· * ·) (PieceMath.slab_apply x2 5 (by omega) _ r k) (loss3Pay5_apply x0 r k)
  | ⟨7, _⟩ => by
    refine (PieceMath.negPiece (k3_pay5 (loss3In x0)) (loss3Row6 x2) shapeCasts_S1x1024x128_S1024x128 r k).trans ?_
    unfold zOf
    rw [dif_neg (show ¬((7 : ℕ) = 0) by omega)]
    exact congrArg₂ (· * ·) (PieceMath.slab_apply x2 6 (by omega) _ r k) (loss3Pay5_apply x0 r k)
  | ⟨8, _⟩ => by
    refine (PieceMath.negPiece (k3_pay5 (loss3In x0)) (loss3Row7 x2) shapeCasts_S1x1024x128_S1024x128 r k).trans ?_
    unfold zOf
    rw [dif_neg (show ¬((8 : ℕ) = 0) by omega)]
    exact congrArg₂ (· * ·) (PieceMath.slab_apply x2 7 (by omega) _ r k) (loss3Pay5_apply x0 r k)
  | ⟨9, _⟩ => by
    refine (PieceMath.negPiece (k3_pay5 (loss3In x0)) (loss3Row8 x2) shapeCasts_S1x1024x128_S1024x128 r k).trans ?_
    unfold zOf
    rw [dif_neg (show ¬((9 : ℕ) = 0) by omega)]
    exact congrArg₂ (· * ·) (PieceMath.slab_apply x2 8 (by omega) _ r k) (loss3Pay5_apply x0 r k)
  | ⟨10, _⟩ => by
    refine (PieceMath.negPiece (k3_pay5 (loss3In x0)) (loss3Row9 x2) shapeCasts_S1x1024x128_S1024x128 r k).trans ?_
    unfold zOf
    rw [dif_neg (show ¬((10 : ℕ) = 0) by omega)]
    exact congrArg₂ (· * ·) (PieceMath.slab_apply x2 9 (by omega) _ r k) (loss3Pay5_apply x0 r k)
  | ⟨11, _⟩ => by
    refine (PieceMath.negPiece (k3_pay5 (loss3In x0)) (loss3Row10 x2) shapeCasts_S1x1024x128_S1024x128 r k).trans ?_
    unfold zOf
    rw [dif_neg (show ¬((11 : ℕ) = 0) by omega)]
    exact congrArg₂ (· * ·) (PieceMath.slab_apply x2 10 (by omega) _ r k) (loss3Pay5_apply x0 r k)
  | ⟨12, _⟩ => by
    refine (PieceMath.negPiece (k3_pay5 (loss3In x0)) (loss3Row11 x2) shapeCasts_S1x1024x128_S1024x128 r k).trans ?_
    unfold zOf
    rw [dif_neg (show ¬((12 : ℕ) = 0) by omega)]
    exact congrArg₂ (· * ·) (PieceMath.slab_apply x2 11 (by omega) _ r k) (loss3Pay5_apply x0 r k)
  | ⟨13, _⟩ => by
    refine (PieceMath.negPiece (k3_pay5 (loss3In x0)) (loss3Row12 x2) shapeCasts_S1x1024x128_S1024x128 r k).trans ?_
    unfold zOf
    rw [dif_neg (show ¬((13 : ℕ) = 0) by omega)]
    exact congrArg₂ (· * ·) (PieceMath.slab_apply x2 12 (by omega) _ r k) (loss3Pay5_apply x0 r k)
  | ⟨14, _⟩ => by
    refine (PieceMath.negPiece (k3_pay5 (loss3In x0)) (loss3Row13 x2) shapeCasts_S1x1024x128_S1024x128 r k).trans ?_
    unfold zOf
    rw [dif_neg (show ¬((14 : ℕ) = 0) by omega)]
    exact congrArg₂ (· * ·) (PieceMath.slab_apply x2 13 (by omega) _ r k) (loss3Pay5_apply x0 r k)
  | ⟨15, _⟩ => by
    refine (PieceMath.negPiece (k3_pay5 (loss3In x0)) (loss3Row14 x2) shapeCasts_S1x1024x128_S1024x128 r k).trans ?_
    unfold zOf
    rw [dif_neg (show ¬((15 : ℕ) = 0) by omega)]
    exact congrArg₂ (· * ·) (PieceMath.slab_apply x2 14 (by omega) _ r k) (loss3Pay5_apply x0 r k)
  | ⟨16, _⟩ => by
    refine (PieceMath.negPiece (k3_pay5 (loss3In x0)) (loss3Row15 x2) shapeCasts_S1x1024x128_S1024x128 r k).trans ?_
    unfold zOf
    rw [dif_neg (show ¬((16 : ℕ) = 0) by omega)]
    exact congrArg₂ (· * ·) (PieceMath.slab_apply x2 15 (by omega) _ r k) (loss3Pay5_apply x0 r k)
  | ⟨17, _⟩ => by
    refine (PieceMath.negPiece (k3_pay5 (loss3In x0)) (loss3Row16 x2) shapeCasts_S1x1024x128_S1024x128 r k).trans ?_
    unfold zOf
    rw [dif_neg (show ¬((17 : ℕ) = 0) by omega)]
    exact congrArg₂ (· * ·) (PieceMath.slab_apply x2 16 (by omega) _ r k) (loss3Pay5_apply x0 r k)
  | ⟨18, _⟩ => by
    refine (PieceMath.negPiece (k3_pay5 (loss3In x0)) (loss3Row17 x2) shapeCasts_S1x1024x128_S1024x128 r k).trans ?_
    unfold zOf
    rw [dif_neg (show ¬((18 : ℕ) = 0) by omega)]
    exact congrArg₂ (· * ·) (PieceMath.slab_apply x2 17 (by omega) _ r k) (loss3Pay5_apply x0 r k)
  | ⟨19, _⟩ => by
    refine (PieceMath.negPiece (k3_pay5 (loss3In x0)) (loss3Row18 x2) shapeCasts_S1x1024x128_S1024x128 r k).trans ?_
    unfold zOf
    rw [dif_neg (show ¬((19 : ℕ) = 0) by omega)]
    exact congrArg₂ (· * ·) (PieceMath.slab_apply x2 18 (by omega) _ r k) (loss3Pay5_apply x0 r k)
  | ⟨20, _⟩ => by
    refine (PieceMath.negPiece (k3_pay5 (loss3In x0)) (loss3Row19 x2) shapeCasts_S1x1024x128_S1024x128 r k).trans ?_
    unfold zOf
    rw [dif_neg (show ¬((20 : ℕ) = 0) by omega)]
    exact congrArg₂ (· * ·) (PieceMath.slab_apply x2 19 (by omega) _ r k) (loss3Pay5_apply x0 r k)
  | ⟨_ + 21, h⟩ => absurd h (by omega)

/-- Entry (r, 128 n + k) of the row of products. -/
theorem loss3Z_apply (x0 x1 : Vec Ideal S1024x128 .f32) (x2 : Vec Ideal S20x1024x128 .f32) (r : Fin 1024) (n : Fin 21)
    (k : Fin 128) (hlt : 128 * n.val + k.val < 2688) :
    loss3Z x0 x1 x2 (ix2 r ⟨128 * n.val + k.val, hlt⟩) = zOf x0 x1 x2 r n k := by
  rw [loss3Z_ofFn, ← loss3Pieces_apply]
  refine concatenate_ofFn_apply (t := S1024x2688) (s₁ := S1024x128) (1 : Fin 2) (loss3Pieces x0 x1 x2) _ rfl 128 rfl _ n ?_ (ix2 r k) ?_ ?_
  · show (128 * n.val + k.val) / 128 = n.val
    have := k.isLt
    omega
  · show k.val = (128 * n.val + k.val) % 128
    have := k.isLt
    omega
  · intro b hb
    match b with
    | ⟨0, _⟩ => rfl
    | ⟨1, _⟩ => exact absurd rfl hb

end Cert.Proof.KI

end
-- ==== Proof.KI_Loss3Value2.lean ====
import proofs.«215899_g5772436046013_cont_9to1c4b_742_31_alg».proof.Proof.KI_Loss3Value
import proofs.«215899_g5772436046013_cont_9to1c4b_742_31_alg».proof.Proof.LibSumBlocks

set_option maxRecDepth 16384

noncomputable section

open scoped BigOperators

namespace Cert.Proof.KI

open Cert.KernelIdeal Cert.KernelIdeal.Gen

open Idealize.ShloMosaic Idealize.ShloMosaic.TcCoe Idealize.ShloMosaic.ValueIdx
open Idealize.ShloMosaic.Pipeline (Dat Cfg Window)
open Cert.Proof.Ker Cert.Proof.KI.BlockSpec

/-! # From the blocks to the arrays, and the output cell

Block t of the centre, positive and negative arrays holds their rows 1024 t to 1024 t + 1023; the sign matrix and
the output cell are one block each. So the accumulator after the four points, and with it the output cell after the
region, is zero plus the four blocks' sums, each written over the arrays. -/

/-- The printed index maps over the grid: the row block moves with the point, everything else stays at zero. -/
theorem loss3IdxFacts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 3) = 0 ∧ win3_2.index t (1 : Fin 3) = t.val ∧ win3_2.index t (2 : Fin 3) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- A grid point as one of the four blocks. -/
def loss3Pt (t : Fin cfg3.N) : Fin 4 := ⟨t.val, lt_of_lt_of_eq t.isLt (show cfg3.N = 4 from N_3)⟩

variable (c : Dev nD) (A : Loss3Arrs Ideal c)

theorem loss3Blk0_apply (t : Fin cfg3.N) (r : Fin 1024) (k : Fin 128) :
    loss3Blk c A 0 t (ix2 r k) = A 0 (ix2 (rowOf (loss3Pt t) r) k) := by
  obtain ⟨e0, e1, -⟩ := loss3IdxFacts t
  show A 0 (((cfg3.win 0).blk t).view.emb (ix2 r k)) = _
  refine congrArg (A 0) ?_
  funext a; apply Fin.ext
  match a with
  | ⟨0, _⟩ => show win3_0.index t (0 : Fin 2) * 1024 + 1 * r.val = 1024 * t.val + r.val; rw [e0]; omega
  | ⟨1, _⟩ => show win3_0.index t (1 : Fin 2) * 128 + 1 * k.val = k.val; rw [e1]; omega

theorem loss3Blk1_apply (t : Fin cfg3.N) (r : Fin 1024) (k : Fin 128) :
    loss3Blk c A 1 t (ix2 r k) = A 1 (ix2 (rowOf (loss3Pt t) r) k) := by
  obtain ⟨-, -, e0, e1, -⟩ := loss3IdxFacts t
  show A 1 (((cfg3.win 1).blk t).view.emb (ix2 r k)) = _
  refine congrArg (A 1) ?_
  funext a; apply Fin.ext
  match a with
  | ⟨0, _⟩ => show win3_1.index t (0 : Fin 2) * 1024 + 1 * r.val = 1024 * t.val + r.val; rw [e0]; omega
  | ⟨1, _⟩ => show win3_1.index t (1 : Fin 2) * 128 + 1 * k.val = k.val; rw [e1]; omega

theorem loss3Blk2_apply (t : Fin cfg3.N) (j : Fin 20) (r : Fin 1024) (k : Fin 128) :
    loss3Blk c A 2 t (ix3 j r k) = A 2 (ix3 j (rowOf (loss3Pt t) r) k) := by
  obtain ⟨-, -, -, -, e0, e1, e2, -⟩ := loss3IdxFacts t
  show A 2 (((cfg3.win 2).blk t).view.emb (ix3 j r k)) = _
  refine congrArg (A 2) ?_
  funext a; apply Fin.ext
  match a with
  | ⟨0, _⟩ => show win3_2.index t (0 : Fin 3) * 20 + 1 * j.val = j.val; rw [e0]; omega
  | ⟨1, _⟩ => show win3_2.index t (1 : Fin 3) * 1024 + 1 * r.val = 1024 * t.val + r.val; rw [e1]; omega
  | ⟨2, _⟩ => show win3_2.index t (2 : Fin 3) * 128 + 1 * k.val = k.val; rw [e2]; omega

theorem loss3Blk3_apply (t : Fin cfg3.N) (q : Fin 2688) (cc : Fin 21) :
    loss3Blk c A 3 t (ix2 q cc) = A 3 (ix2 q cc) := by
  obtain ⟨-, -, -, -, -, -, -, e0, e1, -⟩ := loss3IdxFacts t
  show A 3 (((cfg3.win 3).blk t).view.emb (ix2 q cc)) = _
  refine congrArg (A 3) ?_
  funext a; apply Fin.ext
  match a with
  | ⟨0, _⟩ => show win3_3.index t (0 : Fin 2) * 2688 + 1 * q.val = q.val; rw [e0]; omega
  | ⟨1, _⟩ => show win3_3.index t (1 : Fin 2) * 21 + 1 * cc.val = cc.val; rw [e1]; omega

/-- The step over point t's blocks adds block t's sum. -/
theorem loss3Step_blocks (t : Fin cfg3.N) (acc : Vec Ideal S1x1 .f32) (i : S1x1.Idx) :
    loss3Step (loss3Blk c A 0 t) (loss3Blk c A 1 t) (loss3Blk c A 2 t) (loss3Blk c A 3 t) acc i
      = acc i + blockArr (A 0) (A 1) (A 2) (A 3) (loss3Pt t) := by
  rw [loss3Step_apply]
  unfold blockArr
  refine congrArg (fun s => acc i + s) (Finset.sum_congr rfl fun r _ => Finset.sum_congr rfl fun cc _ =>
    congrArg (fun s => lsK (0 + s)) ?_)
  rw [Cert.LibSumBlocks.sum_blocks 21 128 (by norm_num)
    (fun q : Fin 2688 => loss3Z (loss3Blk c A 0 t) (loss3Blk c A 1 t) (loss3Blk c A 2 t) (ix2 r q) * loss3Blk c A 3 t (ix2 q cc))]
  refine Finset.sum_congr rfl fun n _ => Finset.sum_congr rfl fun k _ => ?_
  rw [loss3Z_apply, loss3Blk3_apply]
  refine congrArg (fun s => s * (A 3 : FVec Ideal S2688x21 .bf16) (ix2 (⟨128 * n.val + k.val, by omega⟩ : Fin 2688) cc)) ?_
  unfold zOf zArr
  split
  · rw [loss3Blk0_apply, loss3Blk1_apply]
  · rw [loss3Blk2_apply, loss3Blk0_apply]

theorem loss3Pay3_apply (i : S1x1.Idx) : k3_pay3 (F := Ideal) i = 0 := PayMath.ofBits_zero

/-- The accumulator after the fourth point. -/
theorem loss3Acc3_apply (h3 : 3 < cfg3.N) (i : S1x1.Idx) :
    loss3Acc c A 3 h3 i
      = (((0 + blockArr (A 0) (A 1) (A 2) (A 3) 0) + blockArr (A 0) (A 1) (A 2) (A 3) 1) + blockArr (A 0) (A 1) (A 2) (A 3) 2) + blockArr (A 0) (A 1) (A 2) (A 3) 3 := by
  have h2 : 2 < cfg3.N := Nat.lt_of_succ_lt h3
  have h1 : 1 < cfg3.N := Nat.lt_of_succ_lt h2
  have h0 : 0 < cfg3.N := Nat.lt_of_succ_lt h1
  have e3 : loss3Acc c A 3 h3 = loss3StepB (loss3Blk c A 0 ⟨3, h3⟩) (loss3Blk c A 1 ⟨3, h3⟩) (loss3Blk c A 2 ⟨3, h3⟩)
      (loss3Blk c A 3 ⟨3, h3⟩) (loss3Acc c A 2 h2) := rfl
  have e2 : loss3Acc c A 2 h2 = loss3StepB (loss3Blk c A 0 ⟨2, h2⟩) (loss3Blk c A 1 ⟨2, h2⟩) (loss3Blk c A 2 ⟨2, h2⟩)
      (loss3Blk c A 3 ⟨2, h2⟩) (loss3Acc c A 1 h1) := rfl
  have e1 : loss3Acc c A 1 h1 = loss3StepB (loss3Blk c A 0 ⟨1, h1⟩) (loss3Blk c A 1 ⟨1, h1⟩) (loss3Blk c A 2 ⟨1, h1⟩)
      (loss3Blk c A 3 ⟨1, h1⟩) (loss3Acc c A 0 h0) := rfl
  have e0 : loss3Acc c A 0 h0 = loss3StepA (loss3Blk c A 0 ⟨0, h0⟩) (loss3Blk c A 1 ⟨0, h0⟩) (loss3Blk c A 2 ⟨0, h0⟩)
      (loss3Blk c A 3 ⟨0, h0⟩) := rfl
  rw [e3, loss3StepB_eq, loss3Step_blocks, e2, loss3StepB_eq, loss3Step_blocks, e1, loss3StepB_eq, loss3Step_blocks, e0]
  unfold loss3StepA
  rw [loss3Step_blocks, loss3Pay3_apply]
  rfl

/-- **The output cell after the region**: zero, then the four blocks' sums added in order. -/
theorem loss3Out_apply (i : S1x1.Idx) : loss3Out c A i = cellArr (A 0) (A 1) (A 2) (A 3) := by
  unfold cellArr
  obtain ⟨-, -, -, -, -, -, -, -, -, e0, e1⟩ := loss3IdxFacts t3_3
  have he : ((cfg3.win 4).blk t3_3).view.emb i = i := by
    funext a; apply Fin.ext
    match a with
    | ⟨0, _⟩ => show win3_4.index t3_3 (0 : Fin 2) * 1 + 1 * (i 0).val = (i 0).val; rw [e0]; omega
    | ⟨1, _⟩ => show win3_4.index t3_3 (1 : Fin 2) * 1 + 1 * (i 1).val = (i 1).val; rw [e1]; omega
  have h : loss3Out c A (((cfg3.win 4).blk t3_3).view.emb i) = loss3Acc c A 3 (by rw [show cfg3.N = 4 from N_3]; decide) i :=
    congrFun (read_loss3Out c A) i
  rw [he] at h
  rw [h, loss3Acc3_apply]

end Cert.Proof.KI

end
-- ==== Proof.KI_Loss5Value.lean ====
import proofs.«215899_g5772436046013_cont_9to1c4b_742_31_alg».proof.Proof.KI_Loss5Region
import proofs.«215899_g5772436046013_cont_9to1c4b_742_31_alg».proof.Proof.KI_PayMath
import proofs.«215899_g5772436046013_cont_9to1c4b_742_31_alg».proof.Proof.KI_PieceMath
import proofs.«215899_g5772436046013_cont_9to1c4b_742_31_alg».proof.Proof.KI_BlockSpec

set_option maxRecDepth 16384

noncomputable section

open scoped BigOperators

namespace Cert.Proof.KI

open Cert.KernelIdeal Cert.KernelIdeal.Gen

open Idealize.ShloMosaic Idealize.ShloMosaic.TcCoe Idealize.ShloMosaic.ValueIdx
open Idealize.ShloMosaic.Pipeline (Dat Cfg Window)
open Cert.Proof.Ker Cert.Proof.KI.BlockSpec

/-! # The loss5 kernel's result, on the extended reals

The output cell after the region is the accumulator after the fourth grid point: zero, then the four blocks' sums
added in order. A block's sum is the double sum, over its 1024 rows and the 21 columns, of the log-sigmoid of the
row of products contracted against the sign matrix's column; the row of products of block t's row r is 21 runs of
128: the centre row times the positive row, then each of the twenty negative rows times the centre row — all read
off the arrays at row 1024 t + r. -/

/-! ## The step -/

theorem loss5Dot_hl0 : ∀ (j : S1024x21.Idx) (q : dot_S1024x2688_S2688x21_S1024x21_1_0_0_1_n_n.contr.Idx),
    (dot_S1024x2688_S2688x21_S1024x21_1_0_0_1_n_n.lhsIdx j q 0).val = (j 0).val := fun _ _ => rfl
theorem loss5Dot_hr1 : ∀ (j : S1024x21.Idx) (q : dot_S1024x2688_S2688x21_S1024x21_1_0_0_1_n_n.contr.Idx),
    (dot_S1024x2688_S2688x21_S1024x21_1_0_0_1_n_n.rhsIdx j q 1).val = (j 1).val := fun _ _ => rfl

/-- The body's step at its index: the accumulator plus the block's double sum. -/
theorem loss5Step_apply (x0 x1 : Vec Ideal S1024x128 .f32) (x2 : Vec Ideal S20x1024x128 .f32) (x3 : Vec Ideal S2688x21 .bf16)
    (acc : Vec Ideal S1x1 .f32) (i : S1x1.Idx) :
    loss5Step x0 x1 x2 x3 acc i
      = acc i + ∑ r : Fin 1024, ∑ c : Fin 21, lsK (0 + ∑ k : Fin 2688, loss5Z x0 x1 x2 (ix2 r k) * x3 (ix2 k c)) := by
  rw [loss5Step_eq]
  exact PayMath.payTerm_apply dot_S1024x2688_S2688x21_S1024x21_1_0_0_1_n_n bitsLt_bf16_f32 shapeCasts_S2688x21_S2688x21
    shapeCasts_S1024x21_S1x1024x21 reduces_S1x1024x21_S1 shapeCasts_S1_S1x1x1 inpos_S1x1x1_p0_0_0 shapeCasts_S1x1_S1x1
    (DotDims.rank_contr dot_S1024x2688_S2688x21_S1024x21_1_0_0_1_n_n)
    (DotDims.size_contr dot_S1024x2688_S2688x21_S1024x21_1_0_0_1_n_n 0 Nat.one_pos) loss5Dot_hl0
    (fun j q => DotDims.lhsIdx_val_of_single dot_S1024x2688_S2688x21_S1024x21_1_0_0_1_n_n rfl j q)
    (fun j q => DotDims.rhsIdx_val_of_single dot_S1024x2688_S2688x21_S1024x21_1_0_0_1_n_n rfl j q) loss5Dot_hr1
    (loss5Z x0 x1 x2) x3 acc i

/-! ## The rows of products -/

/-- The 21 runs of the concatenation. -/
def loss5Pieces (x0 x1 : Vec Ideal S1024x128 .f32) (x2 : Vec Ideal S20x1024x128 .f32) :
    Fin 21 → (S1024x128.Idx → Elt Ideal .f32)
  | ⟨0, _⟩ => k5_pay6 (loss5In x0) (loss5In x1)
  | ⟨1, _⟩ => k5_pay7 (loss5In x0) (loss5Row0 x2)
  | ⟨2, _⟩ => k5_pay8 (loss5In x0) (loss5Row1 x2)
  | ⟨3, _⟩ => k5_pay9 (loss5In x0) (loss5Row2 x2)
  | ⟨4, _⟩ => k5_pay10 (loss5In x0) (loss5Row3 x2)
  | ⟨5, _⟩ => k5_pay11 (loss5In x0) (loss5Row4 x2)
  | ⟨6, _⟩ => k5_pay12 (loss5In x0) (loss5Row5 x2)
  | ⟨7, _⟩ => k5_pay13 (loss5In x0) (loss5Row6 x2)
  | ⟨8, _⟩ => k5_pay14 (loss5In x0) (loss5Row7 x2)
  | ⟨9, _⟩ => k5_pay15 (k5_pay5 (loss5In x0)) (loss5Row8 x2)
  | ⟨10, _⟩ => k5_pay16 (k5_pay5 (loss5In x0)) (loss5Row9 x2)
  | ⟨11, _⟩ => k5_pay17 (k5_pay5 (loss5In x0)) (loss5Row10 x2)
  | ⟨12, _⟩ => k5_pay18 (k5_pay5 (loss5In x0)) (loss5Row11 x2)
  | ⟨13, _⟩ => k5_pay19 (k5_pay5 (loss5In x0)) (loss5Row12 x2)
  | ⟨14, _⟩ => k5_pay20 (k5_pay5 (loss5In x0)) (loss5Row13 x2)
  | ⟨15, _⟩ => k5_pay21 (k5_pay5 (loss5In x0)) (loss5Row14 x2)
  | ⟨16, _⟩ => k5_pay22 (k5_pay5 (loss5In x0)) (loss5Row15 x2)
  | ⟨17, _⟩ => k5_pay23 (k5_pay5 (loss5In x0)) (loss5Row16 x2)
  | ⟨18, _⟩ => k5_pay24 (k5_pay5 (loss5In x0)) (loss5Row17 x2)
  | ⟨19, _⟩ => k5_pay1 (k5_pay5 (loss5In x0)) (loss5Row18 x2)
  | ⟨20, _⟩ => k5_pay2 (k5_pay5 (loss5In x0)) (loss5Row19 x2)
  | ⟨_ + 21, h⟩ => absurd h (by omega)

theorem loss5Z_ofFn (x0 x1 : Vec Ideal S1024x128 .f32) (x2 : Vec Ideal S20x1024x128 .f32) :
    loss5Z x0 x1 x2 = concatenate S1024x2688 1
      (List.ofFn fun n : Fin 21 => (⟨S1024x128, loss5Pieces x0 x1 x2 n⟩ : (s : Shape) × (s.Idx → Elt Ideal .f32)))
      concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x2688_d1 :=
  rfl

/-- The centre block through its reshape and load. -/
theorem loss5Pay5_apply (x0 : Vec Ideal S1024x128 .f32) (r : Fin 1024) (k : Fin 128) :
    k5_pay5 (loss5In x0) (ix2 r k) = x0 (ix2 r k) := by
  unfold k5_pay5
  rw [shapeCast_self, loss5In_eq]

theorem loss5Pieces_apply (x0 x1 : Vec Ideal S1024x128 .f32) (x2 : Vec Ideal S20x1024x128 .f32) (r : Fin 1024)
    (k : Fin 128) : ∀ n : Fin 21, loss5Pieces x0 x1 x2 n (ix2 r k) = zOf x0 x1 x2 r n k
  | ⟨0, _⟩ => by
    refine (PieceMath.posPiece (loss5In x0) (loss5In x1) shapeCasts_S1024x128_S1024x128 r k).trans ?_
    rw [loss5In_eq, loss5In_eq]
    unfold zOf
    rw [dif_pos (show ((0 : ℕ) = 0) from rfl)]
  | ⟨1, _⟩ => by
    refine (PieceMath.negPiece (k5_pay5 (loss5In x0)) (loss5Row0 x2) shapeCasts_S1x1024x128_S1024x128 r k).trans ?_
    unfold zOf
    rw [dif_neg (show ¬((1 : ℕ) = 0) by omega)]
    exact congrArg₂ (· * ·) (PieceMath.slab_apply x2 0 (by omega) _ r k) (loss5Pay5_apply x0 r k)
  | ⟨2, _⟩ => by
    refine (PieceMath.negPiece (k5_pay5 (loss5In x0)) (loss5Row1 x2) shapeCasts_S1x1024x128_S1024x128 r k).trans ?_
    unfold zOf
    rw [dif_neg (show ¬((2 : ℕ) = 0) by omega)]
    exact congrArg₂ (· * ·) (PieceMath.slab_apply x2 1 (by omega) _ r k) (loss5Pay5_apply x0 r k)
  | ⟨3, _⟩ => by
    refine (PieceMath.negPiece (k5_pay5 (loss5In x0)) (loss5Row2 x2) shapeCasts_S1x1024x128_S1024x128 r k).trans ?_
    unfold zOf
    rw [dif_neg (show ¬((3 : ℕ) = 0) by omega)]
    exact congrArg₂ (· * ·) (PieceMath.slab_apply x2 2 (by omega) _ r k) (loss5Pay5_apply x0 r k)
  | ⟨4, _⟩ => by
    refine (PieceMath.negPiece (k5_pay5 (loss5In x0)) (loss5Row3 x2) shapeCasts_S1x1024x128_S1024x128 r k).trans ?_
    unfold zOf
    rw [dif_neg (show ¬((4 : ℕ) = 0) by omega)]
    exact congrArg₂ (· * ·) (PieceMath.slab_apply x2 3 (by omega) _ r k) (loss5Pay5_apply x0 r k)
  | ⟨5, _⟩ => by
    refine (PieceMath.negPiece (k5_pay5 (loss5In x0)) (loss5Row4 x2) shapeCasts_S1x1024x128_S1024x128 r k).trans ?_
    unfold zOf
    rw [dif_neg (show ¬((5 : ℕ) = 0) by omega)]
    exact congrArg₂ (· * ·) (PieceMath.slab_apply x2 4 (by omega) _ r k) (loss5Pay5_apply x0 r k)
  | ⟨6, _⟩ => by
    refine (PieceMath.negPiece (k5_pay5 (loss5In x0)) (loss5Row5 x2) shapeCasts_S1x1024x128_S1024x128 r k).trans ?_
    unfold zOf
    rw [dif_neg (show ¬((6 : ℕ) = 0) by omega)]
    exact congrArg₂ (· * ·) (PieceMath.slab_apply x2 5 (by omega) _ r k) (loss5Pay5_apply x0 r k)
  | ⟨7, _⟩ => by
    refine (PieceMath.negPiece (k5_pay5 (loss5In x0)) (loss5Row6 x2) shapeCasts_S1x1024x128_S1024x128 r k).trans ?_
    unfold zOf
    rw [dif_neg (show ¬((7 : ℕ) = 0) by omega)]
    exact congrArg₂ (· * ·) (PieceMath.slab_apply x2 6 (by omega) _ r k) (loss5Pay5_apply x0 r k)
  | ⟨8, _⟩ => by
    refine (PieceMath.negPiece (k5_pay5 (loss5In x0)) (loss5Row7 x2) shapeCasts_S1x1024x128_S1024x128 r k).trans ?_
    unfold zOf
    rw [dif_neg (show ¬((8 : ℕ) = 0) by omega)]
    exact congrArg₂ (· * ·) (PieceMath.slab_apply x2 7 (by omega) _ r k) (loss5Pay5_apply x0 r k)
  | ⟨9, _⟩ => by
    refine (PieceMath.negPiece (k5_pay5 (loss5In x0)) (loss5Row8 x2) shapeCasts_S1x1024x128_S1024x128 r k).trans ?_
    unfold zOf
    rw [dif_neg (show ¬((9 : ℕ) = 0) by omega)]
    exact congrArg₂ (· * ·) (PieceMath.slab_apply x2 8 (by omega) _ r k) (loss5Pay5_apply x0 r k)
  | ⟨10, _⟩ => by
    refine (PieceMath.negPiece (k5_pay5 (loss5In x0)) (loss5Row9 x2) shapeCasts_S1x1024x128_S1024x128 r k).trans ?_
    unfold zOf
    rw [dif_neg (show ¬((10 : ℕ) = 0) by omega)]
    exact congrArg₂ (· * ·) (PieceMath.slab_apply x2 9 (by omega) _ r k) (loss5Pay5_apply x0 r k)
  | ⟨11, _⟩ => by
    refine (PieceMath.negPiece (k5_pay5 (loss5In x0)) (loss5Row10 x2) shapeCasts_S1x1024x128_S1024x128 r k).trans ?_
    unfold zOf
    rw [dif_neg (show ¬((11 : ℕ) = 0) by omega)]
    exact congrArg₂ (· * ·) (PieceMath.slab_apply x2 10 (by omega) _ r k) (loss5Pay5_apply x0 r k)
  | ⟨12, _⟩ => by
    refine (PieceMath.negPiece (k5_pay5 (loss5In x0)) (loss5Row11 x2) shapeCasts_S1x1024x128_S1024x128 r k).trans ?_
    unfold zOf
    rw [dif_neg (show ¬((12 : ℕ) = 0) by omega)]
    exact congrArg₂ (· * ·) (PieceMath.slab_apply x2 11 (by omega) _ r k) (loss5Pay5_apply x0 r k)
  | ⟨13, _⟩ => by
    refine (PieceMath.negPiece (k5_pay5 (loss5In x0)) (loss5Row12 x2) shapeCasts_S1x1024x128_S1024x128 r k).trans ?_
    unfold zOf
    rw [dif_neg (show ¬((13 : ℕ) = 0) by omega)]
    exact congrArg₂ (· * ·) (PieceMath.slab_apply x2 12 (by omega) _ r k) (loss5Pay5_apply x0 r k)
  | ⟨14, _⟩ => by
    refine (PieceMath.negPiece (k5_pay5 (loss5In x0)) (loss5Row13 x2) shapeCasts_S1x1024x128_S1024x128 r k).trans ?_
    unfold zOf
    rw [dif_neg (show ¬((14 : ℕ) = 0) by omega)]
    exact congrArg₂ (· * ·) (PieceMath.slab_apply x2 13 (by omega) _ r k) (loss5Pay5_apply x0 r k)
  | ⟨15, _⟩ => by
    refine (PieceMath.negPiece (k5_pay5 (loss5In x0)) (loss5Row14 x2) shapeCasts_S1x1024x128_S1024x128 r k).trans ?_
    unfold zOf
    rw [dif_neg (show ¬((15 : ℕ) = 0) by omega)]
    exact congrArg₂ (· * ·) (PieceMath.slab_apply x2 14 (by omega) _ r k) (loss5Pay5_apply x0 r k)
  | ⟨16, _⟩ => by
    refine (PieceMath.negPiece (k5_pay5 (loss5In x0)) (loss5Row15 x2) shapeCasts_S1x1024x128_S1024x128 r k).trans ?_
    unfold zOf
    rw [dif_neg (show ¬((16 : ℕ) = 0) by omega)]
    exact congrArg₂ (· * ·) (PieceMath.slab_apply x2 15 (by omega) _ r k) (loss5Pay5_apply x0 r k)
  | ⟨17, _⟩ => by
    refine (PieceMath.negPiece (k5_pay5 (loss5In x0)) (loss5Row16 x2) shapeCasts_S1x1024x128_S1024x128 r k).trans ?_
    unfold zOf
    rw [dif_neg (show ¬((17 : ℕ) = 0) by omega)]
    exact congrArg₂ (· * ·) (PieceMath.slab_apply x2 16 (by omega) _ r k) (loss5Pay5_apply x0 r k)
  | ⟨18, _⟩ => by
    refine (PieceMath.negPiece (k5_pay5 (loss5In x0)) (loss5Row17 x2) shapeCasts_S1x1024x128_S1024x128 r k).trans ?_
    unfold zOf
    rw [dif_neg (show ¬((18 : ℕ) = 0) by omega)]
    exact congrArg₂ (· * ·) (PieceMath.slab_apply x2 17 (by omega) _ r k) (loss5Pay5_apply x0 r k)
  | ⟨19, _⟩ => by
    refine (PieceMath.negPiece (k5_pay5 (loss5In x0)) (loss5Row18 x2) shapeCasts_S1x1024x128_S1024x128 r k).trans ?_
    unfold zOf
    rw [dif_neg (show ¬((19 : ℕ) = 0) by omega)]
    exact congrArg₂ (· * ·) (PieceMath.slab_apply x2 18 (by omega) _ r k) (loss5Pay5_apply x0 r k)
  | ⟨20, _⟩ => by
    refine (PieceMath.negPiece (k5_pay5 (loss5In x0)) (loss5Row19 x2) shapeCasts_S1x1024x128_S1024x128 r k).trans ?_
    unfold zOf
    rw [dif_neg (show ¬((20 : ℕ) = 0) by omega)]
    exact congrArg₂ (· * ·) (PieceMath.slab_apply x2 19 (by omega) _ r k) (loss5Pay5_apply x0 r k)
  | ⟨_ + 21, h⟩ => absurd h (by omega)

/-- Entry (r, 128 n + k) of the row of products. -/
theorem loss5Z_apply (x0 x1 : Vec Ideal S1024x128 .f32) (x2 : Vec Ideal S20x1024x128 .f32) (r : Fin 1024) (n : Fin 21)
    (k : Fin 128) (hlt : 128 * n.val + k.val < 2688) :
    loss5Z x0 x1 x2 (ix2 r ⟨128 * n.val + k.val, hlt⟩) = zOf x0 x1 x2 r n k := by
  rw [loss5Z_ofFn, ← loss5Pieces_apply]
  refine concatenate_ofFn_apply (t := S1024x2688) (s₁ := S1024x128) (1 : Fin 2) (loss5Pieces x0 x1 x2) _ rfl 128 rfl _ n ?_ (ix2 r k) ?_ ?_
  · show (128 * n.val + k.val) / 128 = n.val
    have := k.isLt
    omega
  · show k.val = (128 * n.val + k.val) % 128
    have := k.isLt
    omega
  · intro b hb
    match b with
    | ⟨0, _⟩ => rfl
    | ⟨1, _⟩ => exact absurd rfl hb

end Cert.Proof.KI

end
-- ==== Proof.KI_Loss5Value2.lean ====
import proofs.«215899_g5772436046013_cont_9to1c4b_742_31_alg».proof.Proof.KI_Loss5Value
import proofs.«215899_g5772436046013_cont_9to1c4b_742_31_alg».proof.Proof.LibSumBlocks

set_option maxRecDepth 16384

noncomputable section

open scoped BigOperators

namespace Cert.Proof.KI

open Cert.KernelIdeal Cert.KernelIdeal.Gen

open Idealize.ShloMosaic Idealize.ShloMosaic.TcCoe Idealize.ShloMosaic.ValueIdx
open Idealize.ShloMosaic.Pipeline (Dat Cfg Window)
open Cert.Proof.Ker Cert.Proof.KI.BlockSpec

/-! # From the blocks to the arrays, and the output cell

Block t of the centre, positive and negative arrays holds their rows 1024 t to 1024 t + 1023; the sign matrix and
the output cell are one block each. So the accumulator after the four points, and with it the output cell after the
region, is zero plus the four blocks' sums, each written over the arrays. -/

/-- The printed index maps over the grid: the row block moves with the point, everything else stays at zero. -/
theorem loss5IdxFacts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 3) = 0 ∧ win5_2.index t (1 : Fin 3) = t.val ∧ win5_2.index t (2 : Fin 3) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- A grid point as one of the four blocks. -/
def loss5Pt (t : Fin cfg5.N) : Fin 4 := ⟨t.val, lt_of_lt_of_eq t.isLt (show cfg5.N = 4 from N_5)⟩

variable (c : Dev nD) (A : Loss5Arrs Ideal c)

theorem loss5Blk0_apply (t : Fin cfg5.N) (r : Fin 1024) (k : Fin 128) :
    loss5Blk c A 0 t (ix2 r k) = A 0 (ix2 (rowOf (loss5Pt t) r) k) := by
  obtain ⟨e0, e1, -⟩ := loss5IdxFacts t
  show A 0 (((cfg5.win 0).blk t).view.emb (ix2 r k)) = _
  refine congrArg (A 0) ?_
  funext a; apply Fin.ext
  match a with
  | ⟨0, _⟩ => show win5_0.index t (0 : Fin 2) * 1024 + 1 * r.val = 1024 * t.val + r.val; rw [e0]; omega
  | ⟨1, _⟩ => show win5_0.index t (1 : Fin 2) * 128 + 1 * k.val = k.val; rw [e1]; omega

theorem loss5Blk1_apply (t : Fin cfg5.N) (r : Fin 1024) (k : Fin 128) :
    loss5Blk c A 1 t (ix2 r k) = A 1 (ix2 (rowOf (loss5Pt t) r) k) := by
  obtain ⟨-, -, e0, e1, -⟩ := loss5IdxFacts t
  show A 1 (((cfg5.win 1).blk t).view.emb (ix2 r k)) = _
  refine congrArg (A 1) ?_
  funext a; apply Fin.ext
  match a with
  | ⟨0, _⟩ => show win5_1.index t (0 : Fin 2) * 1024 + 1 * r.val = 1024 * t.val + r.val; rw [e0]; omega
  | ⟨1, _⟩ => show win5_1.index t (1 : Fin 2) * 128 + 1 * k.val = k.val; rw [e1]; omega

theorem loss5Blk2_apply (t : Fin cfg5.N) (j : Fin 20) (r : Fin 1024) (k : Fin 128) :
    loss5Blk c A 2 t (ix3 j r k) = A 2 (ix3 j (rowOf (loss5Pt t) r) k) := by
  obtain ⟨-, -, -, -, e0, e1, e2, -⟩ := loss5IdxFacts t
  show A 2 (((cfg5.win 2).blk t).view.emb (ix3 j r k)) = _
  refine congrArg (A 2) ?_
  funext a; apply Fin.ext
  match a with
  | ⟨0, _⟩ => show win5_2.index t (0 : Fin 3) * 20 + 1 * j.val = j.val; rw [e0]; omega
  | ⟨1, _⟩ => show win5_2.index t (1 : Fin 3) * 1024 + 1 * r.val = 1024 * t.val + r.val; rw [e1]; omega
  | ⟨2, _⟩ => show win5_2.index t (2 : Fin 3) * 128 + 1 * k.val = k.val; rw [e2]; omega

theorem loss5Blk3_apply (t : Fin cfg5.N) (q : Fin 2688) (cc : Fin 21) :
    loss5Blk c A 3 t (ix2 q cc) = A 3 (ix2 q cc) := by
  obtain ⟨-, -, -, -, -, -, -, e0, e1, -⟩ := loss5IdxFacts t
  show A 3 (((cfg5.win 3).blk t).view.emb (ix2 q cc)) = _
  refine congrArg (A 3) ?_
  funext a; apply Fin.ext
  match a with
  | ⟨0, _⟩ => show win5_3.index t (0 : Fin 2) * 2688 + 1 * q.val = q.val; rw [e0]; omega
  | ⟨1, _⟩ => show win5_3.index t (1 : Fin 2) * 21 + 1 * cc.val = cc.val; rw [e1]; omega

/-- The step over point t's blocks adds block t's sum. -/
theorem loss5Step_blocks (t : Fin cfg5.N) (acc : Vec Ideal S1x1 .f32) (i : S1x1.Idx) :
    loss5Step (loss5Blk c A 0 t) (loss5Blk c A 1 t) (loss5Blk c A 2 t) (loss5Blk c A 3 t) acc i
      = acc i + blockArr (A 0) (A 1) (A 2) (A 3) (loss5Pt t) := by
  rw [loss5Step_apply]
  unfold blockArr
  refine congrArg (fun s => acc i + s) (Finset.sum_congr rfl fun r _ => Finset.sum_congr rfl fun cc _ =>
    congrArg (fun s => lsK (0 + s)) ?_)
  rw [Cert.LibSumBlocks.sum_blocks 21 128 (by norm_num)
    (fun q : Fin 2688 => loss5Z (loss5Blk c A 0 t) (loss5Blk c A 1 t) (loss5Blk c A 2 t) (ix2 r q) * loss5Blk c A 3 t (ix2 q cc))]
  refine Finset.sum_congr rfl fun n _ => Finset.sum_congr rfl fun k _ => ?_
  rw [loss5Z_apply, loss5Blk3_apply]
  refine congrArg (fun s => s * (A 3 : FVec Ideal S2688x21 .bf16) (ix2 (⟨128 * n.val + k.val, by omega⟩ : Fin 2688) cc)) ?_
  unfold zOf zArr
  split
  · rw [loss5Blk0_apply, loss5Blk1_apply]
  · rw [loss5Blk2_apply, loss5Blk0_apply]

theorem loss5Pay3_apply (i : S1x1.Idx) : k5_pay3 (F := Ideal) i = 0 := PayMath.ofBits_zero

/-- The accumulator after the fourth point. -/
theorem loss5Acc3_apply (h3 : 3 < cfg5.N) (i : S1x1.Idx) :
    loss5Acc c A 3 h3 i
      = (((0 + blockArr (A 0) (A 1) (A 2) (A 3) 0) + blockArr (A 0) (A 1) (A 2) (A 3) 1) + blockArr (A 0) (A 1) (A 2) (A 3) 2) + blockArr (A 0) (A 1) (A 2) (A 3) 3 := by
  have h2 : 2 < cfg5.N := Nat.lt_of_succ_lt h3
  have h1 : 1 < cfg5.N := Nat.lt_of_succ_lt h2
  have h0 : 0 < cfg5.N := Nat.lt_of_succ_lt h1
  have e3 : loss5Acc c A 3 h3 = loss5StepB (loss5Blk c A 0 ⟨3, h3⟩) (loss5Blk c A 1 ⟨3, h3⟩) (loss5Blk c A 2 ⟨3, h3⟩)
      (loss5Blk c A 3 ⟨3, h3⟩) (loss5Acc c A 2 h2) := rfl
  have e2 : loss5Acc c A 2 h2 = loss5StepB (loss5Blk c A 0 ⟨2, h2⟩) (loss5Blk c A 1 ⟨2, h2⟩) (loss5Blk c A 2 ⟨2, h2⟩)
      (loss5Blk c A 3 ⟨2, h2⟩) (loss5Acc c A 1 h1) := rfl
  have e1 : loss5Acc c A 1 h1 = loss5StepB (loss5Blk c A 0 ⟨1, h1⟩) (loss5Blk c A 1 ⟨1, h1⟩) (loss5Blk c A 2 ⟨1, h1⟩)
      (loss5Blk c A 3 ⟨1, h1⟩) (loss5Acc c A 0 h0) := rfl
  have e0 : loss5Acc c A 0 h0 = loss5StepA (loss5Blk c A 0 ⟨0, h0⟩) (loss5Blk c A 1 ⟨0, h0⟩) (loss5Blk c A 2 ⟨0, h0⟩)
      (loss5Blk c A 3 ⟨0, h0⟩) := rfl
  rw [e3, loss5StepB_eq, loss5Step_blocks, e2, loss5StepB_eq, loss5Step_blocks, e1, loss5StepB_eq, loss5Step_blocks, e0]
  unfold loss5StepA
  rw [loss5Step_blocks, loss5Pay3_apply]
  rfl

/-- **The output cell after the region**: zero, then the four blocks' sums added in order. -/
theorem loss5Out_apply (i : S1x1.Idx) : loss5Out c A i = cellArr (A 0) (A 1) (A 2) (A 3) := by
  unfold cellArr
  obtain ⟨-, -, -, -, -, -, -, -, -, e0, e1⟩ := loss5IdxFacts t5_3
  have he : ((cfg5.win 4).blk t5_3).view.emb i = i := by
    funext a; apply Fin.ext
    match a with
    | ⟨0, _⟩ => show win5_4.index t5_3 (0 : Fin 2) * 1 + 1 * (i 0).val = (i 0).val; rw [e0]; omega
    | ⟨1, _⟩ => show win5_4.index t5_3 (1 : Fin 2) * 1 + 1 * (i 1).val = (i 1).val; rw [e1]; omega
  have h : loss5Out c A (((cfg5.win 4).blk t5_3).view.emb i) = loss5Acc c A 3 (by rw [show cfg5.N = 4 from N_5]; decide) i :=
    congrFun (read_loss5Out c A) i
  rw [he] at h
  rw [h, loss5Acc3_apply]

end Cert.Proof.KI

end
-- ==== Proof.KI_Loss7Value.lean ====
import proofs.«215899_g5772436046013_cont_9to1c4b_742_31_alg».proof.Proof.KI_Loss7Region
import proofs.«215899_g5772436046013_cont_9to1c4b_742_31_alg».proof.Proof.KI_PayMath
import proofs.«215899_g5772436046013_cont_9to1c4b_742_31_alg».proof.Proof.KI_PieceMath
import proofs.«215899_g5772436046013_cont_9to1c4b_742_31_alg».proof.Proof.KI_BlockSpec

set_option maxRecDepth 16384

noncomputable section

open scoped BigOperators

namespace Cert.Proof.KI

open Cert.KernelIdeal Cert.KernelIdeal.Gen

open Idealize.ShloMosaic Idealize.ShloMosaic.TcCoe Idealize.ShloMosaic.ValueIdx
open Idealize.ShloMosaic.Pipeline (Dat Cfg Window)
open Cert.Proof.Ker Cert.Proof.KI.BlockSpec

/-! # The loss7 kernel's result, on the extended reals

The output cell after the region is the accumulator after the fourth grid point: zero, then the four blocks' sums
added in order. A block's sum is the double sum, over its 1024 rows and the 21 columns, of the log-sigmoid of the
row of products contracted against the sign matrix's column; the row of products of block t's row r is 21 runs of
128: the centre row times the positive row, then each of the twenty negative rows times the centre row — all read
off the arrays at row 1024 t + r. -/

/-! ## The step -/

theorem loss7Dot_hl0 : ∀ (j : S1024x21.Idx) (q : dot_S1024x2688_S2688x21_S1024x21_1_0_0_1_n_n.contr.Idx),
    (dot_S1024x2688_S2688x21_S1024x21_1_0_0_1_n_n.lhsIdx j q 0).val = (j 0).val := fun _ _ => rfl
theorem loss7Dot_hr1 : ∀ (j : S1024x21.Idx) (q : dot_S1024x2688_S2688x21_S1024x21_1_0_0_1_n_n.contr.Idx),
    (dot_S1024x2688_S2688x21_S1024x21_1_0_0_1_n_n.rhsIdx j q 1).val = (j 1).val := fun _ _ => rfl

/-- The body's step at its index: the accumulator plus the block's double sum. -/
theorem loss7Step_apply (x0 x1 : Vec Ideal S1024x128 .f32) (x2 : Vec Ideal S20x1024x128 .f32) (x3 : Vec Ideal S2688x21 .bf16)
    (acc : Vec Ideal S1x1 .f32) (i : S1x1.Idx) :
    loss7Step x0 x1 x2 x3 acc i
      = acc i + ∑ r : Fin 1024, ∑ c : Fin 21, lsK (0 + ∑ k : Fin 2688, loss7Z x0 x1 x2 (ix2 r k) * x3 (ix2 k c)) := by
  rw [loss7Step_eq]
  exact PayMath.payTerm_apply dot_S1024x2688_S2688x21_S1024x21_1_0_0_1_n_n bitsLt_bf16_f32 shapeCasts_S2688x21_S2688x21
    shapeCasts_S1024x21_S1x1024x21 reduces_S1x1024x21_S1 shapeCasts_S1_S1x1x1 inpos_S1x1x1_p0_0_0 shapeCasts_S1x1_S1x1
    (DotDims.rank_contr dot_S1024x2688_S2688x21_S1024x21_1_0_0_1_n_n)
    (DotDims.size_contr dot_S1024x2688_S2688x21_S1024x21_1_0_0_1_n_n 0 Nat.one_pos) loss7Dot_hl0
    (fun j q => DotDims.lhsIdx_val_of_single dot_S1024x2688_S2688x21_S1024x21_1_0_0_1_n_n rfl j q)
    (fun j q => DotDims.rhsIdx_val_of_single dot_S1024x2688_S2688x21_S1024x21_1_0_0_1_n_n rfl j q) loss7Dot_hr1
    (loss7Z x0 x1 x2) x3 acc i

/-! ## The rows of products -/

/-- The 21 runs of the concatenation. -/
def loss7Pieces (x0 x1 : Vec Ideal S1024x128 .f32) (x2 : Vec Ideal S20x1024x128 .f32) :
    Fin 21 → (S1024x128.Idx → Elt Ideal .f32)
  | ⟨0, _⟩ => k7_pay6 (loss7In x0) (loss7In x1)
  | ⟨1, _⟩ => k7_pay7 (loss7In x0) (loss7Row0 x2)
  | ⟨2, _⟩ => k7_pay8 (loss7In x0) (loss7Row1 x2)
  | ⟨3, _⟩ => k7_pay9 (loss7In x0) (loss7Row2 x2)
  | ⟨4, _⟩ => k7_pay10 (loss7In x0) (loss7Row3 x2)
  | ⟨5, _⟩ => k7_pay11 (loss7In x0) (loss7Row4 x2)
  | ⟨6, _⟩ => k7_pay12 (loss7In x0) (loss7Row5 x2)
  | ⟨7, _⟩ => k7_pay13 (loss7In x0) (loss7Row6 x2)
  | ⟨8, _⟩ => k7_pay14 (loss7In x0) (loss7Row7 x2)
  | ⟨9, _⟩ => k7_pay15 (k7_pay5 (loss7In x0)) (loss7Row8 x2)
  | ⟨10, _⟩ => k7_pay16 (k7_pay5 (loss7In x0)) (loss7Row9 x2)
  | ⟨11, _⟩ => k7_pay17 (k7_pay5 (loss7In x0)) (loss7Row10 x2)
  | ⟨12, _⟩ => k7_pay18 (k7_pay5 (loss7In x0)) (loss7Row11 x2)
  | ⟨13, _⟩ => k7_pay19 (k7_pay5 (loss7In x0)) (loss7Row12 x2)
  | ⟨14, _⟩ => k7_pay20 (k7_pay5 (loss7In x0)) (loss7Row13 x2)
  | ⟨15, _⟩ => k7_pay21 (k7_pay5 (loss7In x0)) (loss7Row14 x2)
  | ⟨16, _⟩ => k7_pay22 (k7_pay5 (loss7In x0)) (loss7Row15 x2)
  | ⟨17, _⟩ => k7_pay23 (k7_pay5 (loss7In x0)) (loss7Row16 x2)
  | ⟨18, _⟩ => k7_pay24 (k7_pay5 (loss7In x0)) (loss7Row17 x2)
  | ⟨19, _⟩ => k7_pay1 (k7_pay5 (loss7In x0)) (loss7Row18 x2)
  | ⟨20, _⟩ => k7_pay2 (k7_pay5 (loss7In x0)) (loss7Row19 x2)
  | ⟨_ + 21, h⟩ => absurd h (by omega)

theorem loss7Z_ofFn (x0 x1 : Vec Ideal S1024x128 .f32) (x2 : Vec Ideal S20x1024x128 .f32) :
    loss7Z x0 x1 x2 = concatenate S1024x2688 1
      (List.ofFn fun n : Fin 21 => (⟨S1024x128, loss7Pieces x0 x1 x2 n⟩ : (s : Shape) × (s.Idx → Elt Ideal .f32)))
      concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x2688_d1 :=
  rfl

/-- The centre block through its reshape and load. -/
theorem loss7Pay5_apply (x0 : Vec Ideal S1024x128 .f32) (r : Fin 1024) (k : Fin 128) :
    k7_pay5 (loss7In x0) (ix2 r k) = x0 (ix2 r k) := by
  unfold k7_pay5
  rw [shapeCast_self, loss7In_eq]

theorem loss7Pieces_apply (x0 x1 : Vec Ideal S1024x128 .f32) (x2 : Vec Ideal S20x1024x128 .f32) (r : Fin 1024)
    (k : Fin 128) : ∀ n : Fin 21, loss7Pieces x0 x1 x2 n (ix2 r k) = zOf x0 x1 x2 r n k
  | ⟨0, _⟩ => by
    refine (PieceMath.posPiece (loss7In x0) (loss7In x1) shapeCasts_S1024x128_S1024x128 r k).trans ?_
    rw [loss7In_eq, loss7In_eq]
    unfold zOf
    rw [dif_pos (show ((0 : ℕ) = 0) from rfl)]
  | ⟨1, _⟩ => by
    refine (PieceMath.negPiece (k7_pay5 (loss7In x0)) (loss7Row0 x2) shapeCasts_S1x1024x128_S1024x128 r k).trans ?_
    unfold zOf
    rw [dif_neg (show ¬((1 : ℕ) = 0) by omega)]
    exact congrArg₂ (· * ·) (PieceMath.slab_apply x2 0 (by omega) _ r k) (loss7Pay5_apply x0 r k)
  | ⟨2, _⟩ => by
    refine (PieceMath.negPiece (k7_pay5 (loss7In x0)) (loss7Row1 x2) shapeCasts_S1x1024x128_S1024x128 r k).trans ?_
    unfold zOf
    rw [dif_neg (show ¬((2 : ℕ) = 0) by omega)]
    exact congrArg₂ (· * ·) (PieceMath.slab_apply x2 1 (by omega) _ r k) (loss7Pay5_apply x0 r k)
  | ⟨3, _⟩ => by
    refine (PieceMath.negPiece (k7_pay5 (loss7In x0)) (loss7Row2 x2) shapeCasts_S1x1024x128_S1024x128 r k).trans ?_
    unfold zOf
    rw [dif_neg (show ¬((3 : ℕ) = 0) by omega)]
    exact congrArg₂ (· * ·) (PieceMath.slab_apply x2 2 (by omega) _ r k) (loss7Pay5_apply x0 r k)
  | ⟨4, _⟩ => by
    refine (PieceMath.negPiece (k7_pay5 (loss7In x0)) (loss7Row3 x2) shapeCasts_S1x1024x128_S1024x128 r k).trans ?_
    unfold zOf
    rw [dif_neg (show ¬((4 : ℕ) = 0) by omega)]
    exact congrArg₂ (· * ·) (PieceMath.slab_apply x2 3 (by omega) _ r k) (loss7Pay5_apply x0 r k)
  | ⟨5, _⟩ => by
    refine (PieceMath.negPiece (k7_pay5 (loss7In x0)) (loss7Row4 x2) shapeCasts_S1x1024x128_S1024x128 r k).trans ?_
    unfold zOf
    rw [dif_neg (show ¬((5 : ℕ) = 0) by omega)]
    exact congrArg₂ (· * ·) (PieceMath.slab_apply x2 4 (by omega) _ r k) (loss7Pay5_apply x0 r k)
  | ⟨6, _⟩ => by
    refine (PieceMath.negPiece (k7_pay5 (loss7In x0)) (loss7Row5 x2) shapeCasts_S1x1024x128_S1024x128 r k).trans ?_
    unfold zOf
    rw [dif_neg (show ¬((6 : ℕ) = 0) by omega)]
    exact congrArg₂ (· * ·) (PieceMath.slab_apply x2 5 (by omega) _ r k) (loss7Pay5_apply x0 r k)
  | ⟨7, _⟩ => by
    refine (PieceMath.negPiece (k7_pay5 (loss7In x0)) (loss7Row6 x2) shapeCasts_S1x1024x128_S1024x128 r k).trans ?_
    unfold zOf
    rw [dif_neg (show ¬((7 : ℕ) = 0) by omega)]
    exact congrArg₂ (· * ·) (PieceMath.slab_apply x2 6 (by omega) _ r k) (loss7Pay5_apply x0 r k)
  | ⟨8, _⟩ => by
    refine (PieceMath.negPiece (k7_pay5 (loss7In x0)) (loss7Row7 x2) shapeCasts_S1x1024x128_S1024x128 r k).trans ?_
    unfold zOf
    rw [dif_neg (show ¬((8 : ℕ) = 0) by omega)]
    exact congrArg₂ (· * ·) (PieceMath.slab_apply x2 7 (by omega) _ r k) (loss7Pay5_apply x0 r k)
  | ⟨9, _⟩ => by
    refine (PieceMath.negPiece (k7_pay5 (loss7In x0)) (loss7Row8 x2) shapeCasts_S1x1024x128_S1024x128 r k).trans ?_
    unfold zOf
    rw [dif_neg (show ¬((9 : ℕ) = 0) by omega)]
    exact congrArg₂ (· * ·) (PieceMath.slab_apply x2 8 (by omega) _ r k) (loss7Pay5_apply x0 r k)
  | ⟨10, _⟩ => by
    refine (PieceMath.negPiece (k7_pay5 (loss7In x0)) (loss7Row9 x2) shapeCasts_S1x1024x128_S1024x128 r k).trans ?_
    unfold zOf
    rw [dif_neg (show ¬((10 : ℕ) = 0) by omega)]
    exact congrArg₂ (· * ·) (PieceMath.slab_apply x2 9 (by omega) _ r k) (loss7Pay5_apply x0 r k)
  | ⟨11, _⟩ => by
    refine (PieceMath.negPiece (k7_pay5 (loss7In x0)) (loss7Row10 x2) shapeCasts_S1x1024x128_S1024x128 r k).trans ?_
    unfold zOf
    rw [dif_neg (show ¬((11 : ℕ) = 0) by omega)]
    exact congrArg₂ (· * ·) (PieceMath.slab_apply x2 10 (by omega) _ r k) (loss7Pay5_apply x0 r k)
  | ⟨12, _⟩ => by
    refine (PieceMath.negPiece (k7_pay5 (loss7In x0)) (loss7Row11 x2) shapeCasts_S1x1024x128_S1024x128 r k).trans ?_
    unfold zOf
    rw [dif_neg (show ¬((12 : ℕ) = 0) by omega)]
    exact congrArg₂ (· * ·) (PieceMath.slab_apply x2 11 (by omega) _ r k) (loss7Pay5_apply x0 r k)
  | ⟨13, _⟩ => by
    refine (PieceMath.negPiece (k7_pay5 (loss7In x0)) (loss7Row12 x2) shapeCasts_S1x1024x128_S1024x128 r k).trans ?_
    unfold zOf
    rw [dif_neg (show ¬((13 : ℕ) = 0) by omega)]
    exact congrArg₂ (· * ·) (PieceMath.slab_apply x2 12 (by omega) _ r k) (loss7Pay5_apply x0 r k)
  | ⟨14, _⟩ => by
    refine (PieceMath.negPiece (k7_pay5 (loss7In x0)) (loss7Row13 x2) shapeCasts_S1x1024x128_S1024x128 r k).trans ?_
    unfold zOf
    rw [dif_neg (show ¬((14 : ℕ) = 0) by omega)]
    exact congrArg₂ (· * ·) (PieceMath.slab_apply x2 13 (by omega) _ r k) (loss7Pay5_apply x0 r k)
  | ⟨15, _⟩ => by
    refine (PieceMath.negPiece (k7_pay5 (loss7In x0)) (loss7Row14 x2) shapeCasts_S1x1024x128_S1024x128 r k).trans ?_
    unfold zOf
    rw [dif_neg (show ¬((15 : ℕ) = 0) by omega)]
    exact congrArg₂ (· * ·) (PieceMath.slab_apply x2 14 (by omega) _ r k) (loss7Pay5_apply x0 r k)
  | ⟨16, _⟩ => by
    refine (PieceMath.negPiece (k7_pay5 (loss7In x0)) (loss7Row15 x2) shapeCasts_S1x1024x128_S1024x128 r k).trans ?_
    unfold zOf
    rw [dif_neg (show ¬((16 : ℕ) = 0) by omega)]
    exact congrArg₂ (· * ·) (PieceMath.slab_apply x2 15 (by omega) _ r k) (loss7Pay5_apply x0 r k)
  | ⟨17, _⟩ => by
    refine (PieceMath.negPiece (k7_pay5 (loss7In x0)) (loss7Row16 x2) shapeCasts_S1x1024x128_S1024x128 r k).trans ?_
    unfold zOf
    rw [dif_neg (show ¬((17 : ℕ) = 0) by omega)]
    exact congrArg₂ (· * ·) (PieceMath.slab_apply x2 16 (by omega) _ r k) (loss7Pay5_apply x0 r k)
  | ⟨18, _⟩ => by
    refine (PieceMath.negPiece (k7_pay5 (loss7In x0)) (loss7Row17 x2) shapeCasts_S1x1024x128_S1024x128 r k).trans ?_
    unfold zOf
    rw [dif_neg (show ¬((18 : ℕ) = 0) by omega)]
    exact congrArg₂ (· * ·) (PieceMath.slab_apply x2 17 (by omega) _ r k) (loss7Pay5_apply x0 r k)
  | ⟨19, _⟩ => by
    refine (PieceMath.negPiece (k7_pay5 (loss7In x0)) (loss7Row18 x2) shapeCasts_S1x1024x128_S1024x128 r k).trans ?_
    unfold zOf
    rw [dif_neg (show ¬((19 : ℕ) = 0) by omega)]
    exact congrArg₂ (· * ·) (PieceMath.slab_apply x2 18 (by omega) _ r k) (loss7Pay5_apply x0 r k)
  | ⟨20, _⟩ => by
    refine (PieceMath.negPiece (k7_pay5 (loss7In x0)) (loss7Row19 x2) shapeCasts_S1x1024x128_S1024x128 r k).trans ?_
    unfold zOf
    rw [dif_neg (show ¬((20 : ℕ) = 0) by omega)]
    exact congrArg₂ (· * ·) (PieceMath.slab_apply x2 19 (by omega) _ r k) (loss7Pay5_apply x0 r k)
  | ⟨_ + 21, h⟩ => absurd h (by omega)

/-- Entry (r, 128 n + k) of the row of products. -/
theorem loss7Z_apply (x0 x1 : Vec Ideal S1024x128 .f32) (x2 : Vec Ideal S20x1024x128 .f32) (r : Fin 1024) (n : Fin 21)
    (k : Fin 128) (hlt : 128 * n.val + k.val < 2688) :
    loss7Z x0 x1 x2 (ix2 r ⟨128 * n.val + k.val, hlt⟩) = zOf x0 x1 x2 r n k := by
  rw [loss7Z_ofFn, ← loss7Pieces_apply]
  refine concatenate_ofFn_apply (t := S1024x2688) (s₁ := S1024x128) (1 : Fin 2) (loss7Pieces x0 x1 x2) _ rfl 128 rfl _ n ?_ (ix2 r k) ?_ ?_
  · show (128 * n.val + k.val) / 128 = n.val
    have := k.isLt
    omega
  · show k.val = (128 * n.val + k.val) % 128
    have := k.isLt
    omega
  · intro b hb
    match b with
    | ⟨0, _⟩ => rfl
    | ⟨1, _⟩ => exact absurd rfl hb

end Cert.Proof.KI

end
-- ==== Proof.KI_Loss7Value2.lean ====
import proofs.«215899_g5772436046013_cont_9to1c4b_742_31_alg».proof.Proof.KI_Loss7Value
import proofs.«215899_g5772436046013_cont_9to1c4b_742_31_alg».proof.Proof.LibSumBlocks

set_option maxRecDepth 16384

noncomputable section

open scoped BigOperators

namespace Cert.Proof.KI

open Cert.KernelIdeal Cert.KernelIdeal.Gen

open Idealize.ShloMosaic Idealize.ShloMosaic.TcCoe Idealize.ShloMosaic.ValueIdx
open Idealize.ShloMosaic.Pipeline (Dat Cfg Window)
open Cert.Proof.Ker Cert.Proof.KI.BlockSpec

/-! # From the blocks to the arrays, and the output cell

Block t of the centre, positive and negative arrays holds their rows 1024 t to 1024 t + 1023; the sign matrix and
the output cell are one block each. So the accumulator after the four points, and with it the output cell after the
region, is zero plus the four blocks' sums, each written over the arrays. -/

/-- The printed index maps over the grid: the row block moves with the point, everything else stays at zero. -/
theorem loss7IdxFacts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 3) = 0 ∧ win7_2.index t (1 : Fin 3) = t.val ∧ win7_2.index t (2 : Fin 3) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- A grid point as one of the four blocks. -/
def loss7Pt (t : Fin cfg7.N) : Fin 4 := ⟨t.val, lt_of_lt_of_eq t.isLt (show cfg7.N = 4 from N_7)⟩

variable (c : Dev nD) (A : Loss7Arrs Ideal c)

theorem loss7Blk0_apply (t : Fin cfg7.N) (r : Fin 1024) (k : Fin 128) :
    loss7Blk c A 0 t (ix2 r k) = A 0 (ix2 (rowOf (loss7Pt t) r) k) := by
  obtain ⟨e0, e1, -⟩ := loss7IdxFacts t
  show A 0 (((cfg7.win 0).blk t).view.emb (ix2 r k)) = _
  refine congrArg (A 0) ?_
  funext a; apply Fin.ext
  match a with
  | ⟨0, _⟩ => show win7_0.index t (0 : Fin 2) * 1024 + 1 * r.val = 1024 * t.val + r.val; rw [e0]; omega
  | ⟨1, _⟩ => show win7_0.index t (1 : Fin 2) * 128 + 1 * k.val = k.val; rw [e1]; omega

theorem loss7Blk1_apply (t : Fin cfg7.N) (r : Fin 1024) (k : Fin 128) :
    loss7Blk c A 1 t (ix2 r k) = A 1 (ix2 (rowOf (loss7Pt t) r) k) := by
  obtain ⟨-, -, e0, e1, -⟩ := loss7IdxFacts t
  show A 1 (((cfg7.win 1).blk t).view.emb (ix2 r k)) = _
  refine congrArg (A 1) ?_
  funext a; apply Fin.ext
  match a with
  | ⟨0, _⟩ => show win7_1.index t (0 : Fin 2) * 1024 + 1 * r.val = 1024 * t.val + r.val; rw [e0]; omega
  | ⟨1, _⟩ => show win7_1.index t (1 : Fin 2) * 128 + 1 * k.val = k.val; rw [e1]; omega

theorem loss7Blk2_apply (t : Fin cfg7.N) (j : Fin 20) (r : Fin 1024) (k : Fin 128) :
    loss7Blk c A 2 t (ix3 j r k) = A 2 (ix3 j (rowOf (loss7Pt t) r) k) := by
  obtain ⟨-, -, -, -, e0, e1, e2, -⟩ := loss7IdxFacts t
  show A 2 (((cfg7.win 2).blk t).view.emb (ix3 j r k)) = _
  refine congrArg (A 2) ?_
  funext a; apply Fin.ext
  match a with
  | ⟨0, _⟩ => show win7_2.index t (0 : Fin 3) * 20 + 1 * j.val = j.val; rw [e0]; omega
  | ⟨1, _⟩ => show win7_2.index t (1 : Fin 3) * 1024 + 1 * r.val = 1024 * t.val + r.val; rw [e1]; omega
  | ⟨2, _⟩ => show win7_2.index t (2 : Fin 3) * 128 + 1 * k.val = k.val; rw [e2]; omega

theorem loss7Blk3_apply (t : Fin cfg7.N) (q : Fin 2688) (cc : Fin 21) :
    loss7Blk c A 3 t (ix2 q cc) = A 3 (ix2 q cc) := by
  obtain ⟨-, -, -, -, -, -, -, e0, e1, -⟩ := loss7IdxFacts t
  show A 3 (((cfg7.win 3).blk t).view.emb (ix2 q cc)) = _
  refine congrArg (A 3) ?_
  funext a; apply Fin.ext
  match a with
  | ⟨0, _⟩ => show win7_3.index t (0 : Fin 2) * 2688 + 1 * q.val = q.val; rw [e0]; omega
  | ⟨1, _⟩ => show win7_3.index t (1 : Fin 2) * 21 + 1 * cc.val = cc.val; rw [e1]; omega

/-- The step over point t's blocks adds block t's sum. -/
theorem loss7Step_blocks (t : Fin cfg7.N) (acc : Vec Ideal S1x1 .f32) (i : S1x1.Idx) :
    loss7Step (loss7Blk c A 0 t) (loss7Blk c A 1 t) (loss7Blk c A 2 t) (loss7Blk c A 3 t) acc i
      = acc i + blockArr (A 0) (A 1) (A 2) (A 3) (loss7Pt t) := by
  rw [loss7Step_apply]
  unfold blockArr
  refine congrArg (fun s => acc i + s) (Finset.sum_congr rfl fun r _ => Finset.sum_congr rfl fun cc _ =>
    congrArg (fun s => lsK (0 + s)) ?_)
  rw [Cert.LibSumBlocks.sum_blocks 21 128 (by norm_num)
    (fun q : Fin 2688 => loss7Z (loss7Blk c A 0 t) (loss7Blk c A 1 t) (loss7Blk c A 2 t) (ix2 r q) * loss7Blk c A 3 t (ix2 q cc))]
  refine Finset.sum_congr rfl fun n _ => Finset.sum_congr rfl fun k _ => ?_
  rw [loss7Z_apply, loss7Blk3_apply]
  refine congrArg (fun s => s * (A 3 : FVec Ideal S2688x21 .bf16) (ix2 (⟨128 * n.val + k.val, by omega⟩ : Fin 2688) cc)) ?_
  unfold zOf zArr
  split
  · rw [loss7Blk0_apply, loss7Blk1_apply]
  · rw [loss7Blk2_apply, loss7Blk0_apply]

theorem loss7Pay3_apply (i : S1x1.Idx) : k7_pay3 (F := Ideal) i = 0 := PayMath.ofBits_zero

/-- The accumulator after the fourth point. -/
theorem loss7Acc3_apply (h3 : 3 < cfg7.N) (i : S1x1.Idx) :
    loss7Acc c A 3 h3 i
      = (((0 + blockArr (A 0) (A 1) (A 2) (A 3) 0) + blockArr (A 0) (A 1) (A 2) (A 3) 1) + blockArr (A 0) (A 1) (A 2) (A 3) 2) + blockArr (A 0) (A 1) (A 2) (A 3) 3 := by
  have h2 : 2 < cfg7.N := Nat.lt_of_succ_lt h3
  have h1 : 1 < cfg7.N := Nat.lt_of_succ_lt h2
  have h0 : 0 < cfg7.N := Nat.lt_of_succ_lt h1
  have e3 : loss7Acc c A 3 h3 = loss7StepB (loss7Blk c A 0 ⟨3, h3⟩) (loss7Blk c A 1 ⟨3, h3⟩) (loss7Blk c A 2 ⟨3, h3⟩)
      (loss7Blk c A 3 ⟨3, h3⟩) (loss7Acc c A 2 h2) := rfl
  have e2 : loss7Acc c A 2 h2 = loss7StepB (loss7Blk c A 0 ⟨2, h2⟩) (loss7Blk c A 1 ⟨2, h2⟩) (loss7Blk c A 2 ⟨2, h2⟩)
      (loss7Blk c A 3 ⟨2, h2⟩) (loss7Acc c A 1 h1) := rfl
  have e1 : loss7Acc c A 1 h1 = loss7StepB (loss7Blk c A 0 ⟨1, h1⟩) (loss7Blk c A 1 ⟨1, h1⟩) (loss7Blk c A 2 ⟨1, h1⟩)
      (loss7Blk c A 3 ⟨1, h1⟩) (loss7Acc c A 0 h0) := rfl
  have e0 : loss7Acc c A 0 h0 = loss7StepA (loss7Blk c A 0 ⟨0, h0⟩) (loss7Blk c A 1 ⟨0, h0⟩) (loss7Blk c A 2 ⟨0, h0⟩)
      (loss7Blk c A 3 ⟨0, h0⟩) := rfl
  rw [e3, loss7StepB_eq, loss7Step_blocks, e2, loss7StepB_eq, loss7Step_blocks, e1, loss7StepB_eq, loss7Step_blocks, e0]
  unfold loss7StepA
  rw [loss7Step_blocks, loss7Pay3_apply]
  rfl

/-- **The output cell after the region**: zero, then the four blocks' sums added in order. -/
theorem loss7Out_apply (i : S1x1.Idx) : loss7Out c A i = cellArr (A 0) (A 1) (A 2) (A 3) := by
  unfold cellArr
  obtain ⟨-, -, -, -, -, -, -, -, -, e0, e1⟩ := loss7IdxFacts t7_3
  have he : ((cfg7.win 4).blk t7_3).view.emb i = i := by
    funext a; apply Fin.ext
    match a with
    | ⟨0, _⟩ => show win7_4.index t7_3 (0 : Fin 2) * 1 + 1 * (i 0).val = (i 0).val; rw [e0]; omega
    | ⟨1, _⟩ => show win7_4.index t7_3 (1 : Fin 2) * 1 + 1 * (i 1).val = (i 1).val; rw [e1]; omega
  have h : loss7Out c A (((cfg7.win 4).blk t7_3).view.emb i) = loss7Acc c A 3 (by rw [show cfg7.N = 4 from N_7]; decide) i :=
    congrFun (read_loss7Out c A) i
  rw [he] at h
  rw [h, loss7Acc3_apply]

end Cert.Proof.KI

end
-- ==== Proof.KI_ValueRows.lean ====
/-
  The gathered rows of a quarter, read at an index: with the quarter's index rows as the first stretch lays them
  out and the input domain's ranges, row b of the first result is the first table's row at the quarter's b-th centre
  word, row b of the second the second table's row at its b-th positive word, row 4096 j + b of the third the second
  table's row at draw j of its b-th entry; the third result reshaped to [20, 4096, 128] holds the same at (j, b).
-/
import proofs.«215899_g5772436046013_cont_9to1c4b_742_31_alg».proof.Proof.KI_Index
import proofs.«215899_g5772436046013_cont_9to1c4b_742_31_alg».proof.Proof.KI_TileRes
import proofs.«215899_g5772436046013_cont_9to1c4b_742_31_alg».proof.Proof.RefSpec

noncomputable section

namespace Cert.Proof.KI

open Cert.KernelIdeal Cert.KernelIdeal.Gen

open Idealize.ShloMosaic
open Idealize.ShloMosaic.StableHlo
open Idealize.ShloMosaic.ValueIdx
open Cert.Proof.Ref (rowIx rowIx_val)

variable {F : FTy → Type} [FloatOps F]
variable (𝔭 : Pure F) (m : (ℓ : Loc nD τ sig) → Buf (Elt F) ℓ) (d : Dev nD)

/-! ## Batch entries and rows -/

theorem bent_lt (s : Fin 4) (b : Fin 4096) : 4096 * s.val + b.val < 16384 := by
  have := s.isLt; have := b.isLt; omega

/-- Entry `b` of quarter `s` of the batch. -/
abbrev bent (s : Fin 4) (b : Fin 4096) : Fin 16384 := ⟨4096 * s.val + b.val, bent_lt s b⟩

theorem nrow_lt (j : Fin 20) (b : Fin 4096) : 4096 * j.val + b.val < 81920 := by
  have := j.isLt; have := b.isLt; omega

/-- Row of draw `j` of entry `b` in the third result. -/
abbrev nrow (j : Fin 20) (b : Fin 4096) : Fin 81920 := ⟨4096 * j.val + b.val, nrow_lt j b⟩

/-! ## The words a tile's gathers go by -/

theorem rowWord_cen (s : Fin 4) (w : Fin 32) (r : Fin 128) :
    rowWord m d s w ⟨0, by decide⟩ r = cenW m d (ix1 (ent s w r)) := by
  unfold rowWord; rw [if_pos rfl]

theorem rowWord_pos (s : Fin 4) (w : Fin 32) (r : Fin 128) :
    rowWord m d s w ⟨1, by decide⟩ r = posW m d (ix1 (ent s w r)) := by
  unfold rowWord; rw [if_neg (by decide), if_pos rfl]

theorem rowWord_neg (s : Fin 4) (w : Fin 32) (j : Fin 20) (r : Fin 128) :
    rowWord m d s w ⟨2 + j.val, by have := j.isLt; omega⟩ r = negW m d (ix2 (ent s w r) j) := by
  have hj := j.isLt
  unfold rowWord
  rw [if_neg (by show ¬ (2 + j.val = 0); omega), if_neg (by show ¬ (2 + j.val = 1); omega), dif_pos (by show 2 + j.val < 22; omega)]
  exact congrArg (fun q => negW m d (ix2 (ent s w r) q)) (Fin.ext (by show 2 + j.val - 2 = j.val; omega))

/-- The word of row `24 w + k`, lane `r` of a quarter's index rows, as a tile's results are stated. -/
theorem ixWord_slab (s : Fin 4) (w k r : ℕ) (hw : w < 32) (hk : k < 24) (hr : r < 128) :
    ixWord (F := F) d (slab s (V7 m d) : IVec S768x128 32) w k r = (rowWord m d s ⟨w, hw⟩ ⟨k, hk⟩ ⟨r, hr⟩).toNat := by
  have h : 24 * w + k < 768 ∧ r < 128 := ⟨by omega, hr⟩
  unfold ixWord
  rw [dif_pos h]
  refine congrArg BitVec.toNat (Eq.trans (congrArg (slab s (V7 m d)) ?_) (IX_read m d s ⟨w, hw⟩ ⟨k, hk⟩ ⟨r, hr⟩))
  funext e
  match e with
  | ⟨0, _⟩ => rfl
  | ⟨1, _⟩ => rfl

/-- A table read at a word in range is the table's row the word addresses. -/
theorem tblAt_rowIx (Tb : FVec F S100000x128 .f32) (wd : BitVec 32) (h : wd.toNat < 100000) (c : Fin 128) :
    tblAt (F := F) Tb wd.toNat c = Tb (ix2 (rowIx wd) c) := by
  unfold tblAt
  rw [dif_pos h]
  refine congrArg Tb ?_
  funext e
  match e with
  | ⟨0, _⟩ => exact Fin.ext (rowIx_val h).symm
  | ⟨1, _⟩ => rfl

theorem ent_div_mod (s : Fin 4) (b : Fin 4096) (hw : b.val / 128 < 32) (hr : b.val % 128 < 128) :
    ent s ⟨b.val / 128, hw⟩ ⟨b.val % 128, hr⟩ = bent s b :=
  Fin.ext (by show 4096 * s.val + 128 * (b.val / 128) + b.val % 128 = 4096 * s.val + b.val; omega)

/-! ## The three results -/

/-- Row `b` of the first result: the first table's row at the quarter's `b`-th centre word. -/
theorem gV0_slab (T0 : FVec F S100000x128 .f32) (s : Fin 4) (b : Fin 4096) (k : Fin 128)
    (hc : ∀ i, 0 ≤ (cenW m d i).toInt ∧ (cenW m d i).toInt ≤ 99999) :
    (gV0 d T0 (slab s (V7 m d)) : FVec F S4096x128 .f32) (ix2 b k) = T0 (ix2 (rowIx (cenW m d (ix1 (bent s b)))) k) := by
  have hb := b.isLt
  have hw : b.val / 128 < 32 := by omega
  have hr : b.val % 128 < 128 := Nat.mod_lt _ (by decide)
  show tblAt (F := F) T0 (ixWord (F := F) d (slab s (V7 m d) : IVec S768x128 32) (b.val / 128) 0 (b.val % 128)) k = _
  rw [ixWord_slab m d s _ _ _ hw (by decide) hr, rowWord_cen, tblAt_rowIx _ _ (toNat_lt_of_range _ (hc _)), ent_div_mod]

/-- Row `b` of the second result: the second table's row at the quarter's `b`-th positive word. -/
theorem gV1_slab (T1 : FVec F S100000x128 .f32) (s : Fin 4) (b : Fin 4096) (k : Fin 128)
    (hp : ∀ i, 0 ≤ (posW m d i).toInt ∧ (posW m d i).toInt ≤ 99999) :
    (gV1 d T1 (slab s (V7 m d)) : FVec F S4096x128 .f32) (ix2 b k) = T1 (ix2 (rowIx (posW m d (ix1 (bent s b)))) k) := by
  have hb := b.isLt
  have hw : b.val / 128 < 32 := by omega
  have hr : b.val % 128 < 128 := Nat.mod_lt _ (by decide)
  show tblAt (F := F) T1 (ixWord (F := F) d (slab s (V7 m d) : IVec S768x128 32) (b.val / 128) 1 (b.val % 128)) k = _
  rw [ixWord_slab m d s _ _ _ hw (by decide) hr, rowWord_pos, tblAt_rowIx _ _ (toNat_lt_of_range _ (hp _)), ent_div_mod]

/-- Row `4096 j + b` of the third result: the second table's row at draw `j` of the quarter's `b`-th entry. -/
theorem gV2_slab (T1 : FVec F S100000x128 .f32) (s : Fin 4) (j : Fin 20) (b : Fin 4096) (k : Fin 128)
    (hn : ∀ i, 0 ≤ (negW m d i).toInt ∧ (negW m d i).toInt ≤ 99999) :
    (gV2 d T1 (slab s (V7 m d)) : FVec F S81920x128 .f32) (ix2 (nrow j b) k)
      = T1 (ix2 (rowIx (negW m d (ix2 (bent s b) j))) k) := by
  have hb := b.isLt
  have hj := j.isLt
  have hw : b.val / 128 < 32 := by omega
  have hr : b.val % 128 < 128 := Nat.mod_lt _ (by decide)
  have e1 : (4096 * j.val + b.val) % 4096 / 128 = b.val / 128 := by omega
  have e2 : 2 + (4096 * j.val + b.val) / 4096 = 2 + j.val := by omega
  have e3 : (4096 * j.val + b.val) % 128 = b.val % 128 := by omega
  show tblAt (F := F) T1 (ixWord (F := F) d (slab s (V7 m d) : IVec S768x128 32) ((4096 * j.val + b.val) % 4096 / 128)
    (2 + (4096 * j.val + b.val) / 4096) ((4096 * j.val + b.val) % 128)) k = _
  rw [e1, e2, e3, ixWord_slab m d s _ _ _ hw (by omega) hr, rowWord_neg, tblAt_rowIx _ _ (toNat_lt_of_range _ (hn _)), ent_div_mod]

/-- The third result with the draws in an axis of their own, read at an index. -/
theorem neg_reshape (G : FVec F S81920x128 .f32) (h : S81920x128.ShapeCasts S20x4096x128) (j : Fin 20) (b : Fin 4096) (k : Fin 128) :
    shapeCast S20x4096x128 G h (ix3 j b k) = G (ix2 (nrow j b) k) := by
  refine shapeCast_apply _ _ _ _ ?_
  rw [Shape.rowMajor_val_two, Shape.rowMajor_val_three]
  show (4096 * j.val + b.val) * 128 + k.val = (j.val * 4096 + b.val) * 128 + k.val
  omega

/-- The same of the gathered draws: draw `j` of entry `b`. -/
theorem gV2_slab_reshape (T1 : FVec F S100000x128 .f32) (h : S81920x128.ShapeCasts S20x4096x128) (s : Fin 4) (j : Fin 20) (b : Fin 4096)
    (k : Fin 128) (hn : ∀ i, 0 ≤ (negW m d i).toInt ∧ (negW m d i).toInt ≤ 99999) :
    shapeCast S20x4096x128 (gV2 d T1 (slab s (V7 m d)) : FVec F S81920x128 .f32) h (ix3 j b k)
      = T1 (ix2 (rowIx (negW m d (ix2 (bent s b) j))) k) :=
  (neg_reshape _ h j b k).trans (gV2_slab m d T1 s j b k hn)

end Cert.Proof.KI

end
-- ==== Proof.KI_ValueSign.lean ====
/-
  The sign matrix the first stretch builds, read at an index: entry (128 j + k, c) is one on the block j = c and
  zero off it, times the sign of column c (plus for the positive pair's column, minus for a draw's); no later step
  rewrites it.
-/
import proofs.«215899_g5772436046013_cont_9to1c4b_742_31_alg».proof.Proof.KI_Index
import proofs.«215899_g5772436046013_cont_9to1c4b_742_31_alg».proof.Proof.KerSpec
import Idealize.ShloMosaic.Lib.IdealHost
import Idealize.ShloMosaic.Lib.Affine

noncomputable section

namespace Cert.Proof.KI

open Cert.KernelIdeal Cert.KernelIdeal.Gen

open Idealize.ShloMosaic
open Idealize.ShloMosaic.StableHlo
open Idealize.ShloMosaic.ValueIdx

variable {F : FTy → Type} [FloatOps F]
variable (𝔭 : Pure F) (m : (ℓ : Loc nD τ sig) → Buf (Elt F) ℓ) (d : Dev nD)

/-! ## The matrix as the first stretch builds it -/

/-- The columns' signs: plus one for the positive pair, minus one for each of the twenty draws. -/
def sgnV : FVec F S21 .f32 :=
  concatenate S21 0
    [⟨S1, broadcastInDim S1 ![] bcast_S_S1 (constant (F := F) S_ .f32 0x3F800000#32)⟩,
     ⟨S20, Host.negf (broadcastInDim S20 ![] bcast_S_S20 (constant (F := F) S_ .f32 0x3F800000#32))⟩]
    concatenates_S1_S20_S21_d0

/-- The 21 × 21 identity, by comparing the row number with the column number. -/
def eyeV : FVec F S21x21 .f32 :=
  uitofp .f32 (cmpi .eq (addi (iotaInDim S21x21 32 0) (broadcastInDim S21x21 ![] bcast_S_S21x21 (constantI S_ 32 0#32)))
    (iotaInDim S21x21 32 1))

/-- The sign matrix: the identity's rows repeated 128 times each, the columns signed. -/
def E23 : FVec F S2688x21 .bf16 :=
  truncf .bf16
    (mulf (shapeCast S2688x21 (broadcastInDim S21x128x21 ![0, 2] bcast_S21x21_S21x128x21_0_2 (eyeV (F := F))) shapeCasts_S21x128x21_S2688x21)
      (broadcastInDim S2688x21 ![0, 1] bcast_S1x21_S2688x21_0_1 (broadcastInDim S1x21 ![1] bcast_S21_S1x21_1 (sgnV (F := F)))))
    bitsLt_bf16_f32

theorem W1_v23 : W1 m d (rT main_v23) = E23 (F := F) := by
  unfold W1 E23 eyeV sgnV
  after_results
  rfl

/-! ## No later step rewrites it -/

theorem W2_v23 : W2 𝔭 m d (rT main_v23) = E23 (F := F) := by
  unfold W2; rw [upd3_ne _ (by decide) (by decide) (by decide), W1_v23]
theorem W3_v23 : W3 𝔭 m d (rT main_v23) = E23 (F := F) := by
  unfold W3; after_results_simp; exact W2_v23 𝔭 m d
theorem W4_v23 : W4 𝔭 m d (rT main_v23) = E23 (F := F) := by
  unfold W4; rw [Function.update_of_ne (devRef_ne_of_ne (by decide)), W3_v23]
theorem W5_v23 : W5 𝔭 m d (rT main_v23) = E23 (F := F) := by
  unfold W5; after_results_simp; exact W4_v23 𝔭 m d
theorem W6_v23 : W6 𝔭 m d (rT main_v23) = E23 (F := F) := by
  unfold W6; rw [upd3_ne _ (by decide) (by decide) (by decide), W5_v23]
theorem W7_v23 : W7 𝔭 m d (rT main_v23) = E23 (F := F) := by
  unfold W7; after_results_simp; exact W6_v23 𝔭 m d
theorem W8_v23 : W8 𝔭 m d (rT main_v23) = E23 (F := F) := by
  unfold W8; rw [Function.update_of_ne (devRef_ne_of_ne (by decide)), W7_v23]
theorem W9_v23 : W9 𝔭 m d (rT main_v23) = E23 (F := F) := by
  unfold W9; after_results_simp; exact W8_v23 𝔭 m d
theorem W10_v23 : W10 𝔭 m d (rT main_v23) = E23 (F := F) := by
  unfold W10; rw [upd3_ne _ (by decide) (by decide) (by decide), W9_v23]
theorem W11_v23 : W11 𝔭 m d (rT main_v23) = E23 (F := F) := by
  unfold W11; after_results_simp; exact W10_v23 𝔭 m d
theorem W12_v23 : W12 𝔭 m d (rT main_v23) = E23 (F := F) := by
  unfold W12; rw [Function.update_of_ne (devRef_ne_of_ne (by decide)), W11_v23]
theorem W13_v23 : W13 𝔭 m d (rT main_v23) = E23 (F := F) := by
  unfold W13; after_results_simp; exact W12_v23 𝔭 m d
theorem W14_v23 : W14 𝔭 m d (rT main_v23) = E23 (F := F) := by
  unfold W14; rw [upd3_ne _ (by decide) (by decide) (by decide), W13_v23]
theorem W15_v23 : W15 𝔭 m d (rT main_v23) = E23 (F := F) := by
  unfold W15; after_results_simp; exact W14_v23 𝔭 m d

/-! ## Read at an index, over the extended reals -/

theorem eyeV_apply (j c : Fin 21) : eyeV (F := Ideal) (ix2 j c) = if j = c then 1 else 0 := by
  have hj := j.isLt
  have hc := c.isLt
  show (((IntOp.cmpi .eq (IntOp.addi (BitVec.ofNat 32 j.val) 0#32) (BitVec.ofNat 32 c.val)).toNat : ℝ) : EReal) = _
  by_cases h : j = c
  · subst h
    have e : IntOp.cmpi .eq (IntOp.addi (BitVec.ofNat 32 j.val) 0#32) (BitVec.ofNat 32 j.val) = 1#1 :=
      IntOp.cmpi_eq.2 (by unfold IntOp.addi; rw [BitVec.add_zero])
    rw [if_pos rfl, e]
    norm_num
  · rw [if_neg h]
    have hne : ¬ IntOp.cmpi .eq (IntOp.addi (BitVec.ofNat 32 j.val) 0#32) (BitVec.ofNat 32 c.val) = 1#1 := fun e => by
      have e' := congrArg BitVec.toNat (IntOp.cmpi_eq.1 e)
      unfold IntOp.addi at e'
      rw [BitVec.add_zero, BitVec.toNat_ofNat, BitVec.toNat_ofNat] at e'
      exact h (Fin.ext (by omega))
    rw [eq_zero_of_ne_one hne]
    norm_num

theorem sgnV_apply (c : Fin 21) : sgnV (F := Ideal) (ix1 c) = if c.val = 0 then 1 else -1 := by
  have hc := c.isLt
  unfold sgnV
  by_cases h : c.val = 0
  · rw [if_pos h]
    refine Eq.trans (concatenate_apply_piece (t := S21) (0 : Fin 1) _ _ _ 0 (by show 0 < 2; decide) S1 _ rfl rfl 0 rfl
      (ix1 ⟨0, Nat.one_pos⟩) (fun b hb => ?_) ?_) ?_
    · match b with
      | ⟨0, _⟩ => exact absurd rfl hb
    · show 0 + 0 = c.val; omega
    · show Ideal.ofBits .f32 0x3F800000#32 = 1
      exact Ideal.ofBits_one_f32
  · rw [if_neg h]
    refine Eq.trans (concatenate_apply_piece (t := S21) (0 : Fin 1) _ _ _ 1 (by show 1 < 2; decide) S20 _ rfl rfl 1 rfl
      (ix1 ⟨c.val - 1, by omega⟩) (fun b hb => ?_) ?_) ?_
    · match b with
      | ⟨0, _⟩ => exact absurd rfl hb
    · show 1 + (c.val - 1) = c.val; omega
    · show -(Ideal.ofBits .f32 0x3F800000#32) = -1
      rw [Ideal.ofBits_one_f32]

theorem srow_lt (j : Fin 21) (k : Fin 128) : 128 * j.val + k.val < 2688 := by
  have := j.isLt; have := k.isLt; omega

/-- Entry `(128 j + k, c)` of the sign matrix. -/
theorem E23_apply (j c : Fin 21) (k : Fin 128) :
    E23 (F := Ideal) (ix2 ⟨128 * j.val + k.val, srow_lt j k⟩ c) = Cert.Proof.Ker.eK j c := by
  unfold E23 Cert.Proof.Ker.eK
  rw [truncf_apply, mulf_apply]
  refine congrArg₂ (· * ·) ?_ ?_
  · refine (shapeCast_apply _ _ _ (ix3 j k c) ?_).trans ?_
    · rw [Shape.rowMajor_val_three, Shape.rowMajor_val_two]
      show (j.val * 128 + k.val) * 21 + c.val = (128 * j.val + k.val) * 21 + c.val
      omega
    · exact (broadcastInDim_apply _ _ _ _ (ix2 j c) (fun a => match a with | ⟨0, _⟩ => rfl | ⟨1, _⟩ => rfl)).trans (eyeV_apply j c)
  · refine (broadcastInDim_apply _ _ _ _ (ix2 ⟨0, Nat.one_pos⟩ c) (fun a => match a with | ⟨0, _⟩ => rfl | ⟨1, _⟩ => rfl)).trans ?_
    exact (broadcastInDim_apply _ _ _ _ (ix1 c) (fun a => match a with | ⟨0, _⟩ => rfl)).trans (sgnV_apply c)

end Cert.Proof.KI

end
-- ==== Proof.KI_ValueChain.lean ====
/-
  What the four regions read, along @main: the two tables are never rewritten, and before region s the three
  gathered arrays of quarter s hold the call's pure results at the tables and the quarter's index rows, the draws'
  rows reshaped to an axis of their own.
-/
import proofs.«215899_g5772436046013_cont_9to1c4b_742_31_alg».proof.Proof.KI_Index

noncomputable section

namespace Cert.Proof.KI

open Cert.KernelIdeal Cert.KernelIdeal.Gen

open Idealize.ShloMosaic
open Idealize.ShloMosaic.StableHlo
open Idealize.ShloMosaic.ValueIdx

variable {F : FTy → Type} [FloatOps F]
variable (𝔭 : Pure F) (m : (ℓ : Loc nD τ sig) → Buf (Elt F) ℓ) (d : Dev nD)

/-! ## The tables -/

theorem W1_arg0 : W1 m d (rT main_arg0) = m (d, rT main_arg0) := by
  unfold W1; after_results_simp <;> rfl
theorem W2_arg0 : W2 𝔭 m d (rT main_arg0) = m (d, rT main_arg0) := by
  unfold W2; rw [upd3_ne _ (by decide) (by decide) (by decide), W1_arg0]
theorem W3_arg0 : W3 𝔭 m d (rT main_arg0) = m (d, rT main_arg0) := by
  unfold W3; after_results_simp; exact W2_arg0 𝔭 m d
theorem W4_arg0 : W4 𝔭 m d (rT main_arg0) = m (d, rT main_arg0) := by
  unfold W4; rw [Function.update_of_ne (devRef_ne_of_ne (by decide)), W3_arg0]
theorem W5_arg0 : W5 𝔭 m d (rT main_arg0) = m (d, rT main_arg0) := by
  unfold W5; after_results_simp; exact W4_arg0 𝔭 m d
theorem W6_arg0 : W6 𝔭 m d (rT main_arg0) = m (d, rT main_arg0) := by
  unfold W6; rw [upd3_ne _ (by decide) (by decide) (by decide), W5_arg0]
theorem W7_arg0 : W7 𝔭 m d (rT main_arg0) = m (d, rT main_arg0) := by
  unfold W7; after_results_simp; exact W6_arg0 𝔭 m d
theorem W8_arg0 : W8 𝔭 m d (rT main_arg0) = m (d, rT main_arg0) := by
  unfold W8; rw [Function.update_of_ne (devRef_ne_of_ne (by decide)), W7_arg0]
theorem W9_arg0 : W9 𝔭 m d (rT main_arg0) = m (d, rT main_arg0) := by
  unfold W9; after_results_simp; exact W8_arg0 𝔭 m d
theorem W10_arg0 : W10 𝔭 m d (rT main_arg0) = m (d, rT main_arg0) := by
  unfold W10; rw [upd3_ne _ (by decide) (by decide) (by decide), W9_arg0]
theorem W11_arg0 : W11 𝔭 m d (rT main_arg0) = m (d, rT main_arg0) := by
  unfold W11; after_results_simp; exact W10_arg0 𝔭 m d
theorem W12_arg0 : W12 𝔭 m d (rT main_arg0) = m (d, rT main_arg0) := by
  unfold W12; rw [Function.update_of_ne (devRef_ne_of_ne (by decide)), W11_arg0]
theorem W13_arg0 : W13 𝔭 m d (rT main_arg0) = m (d, rT main_arg0) := by
  unfold W13; after_results_simp; exact W12_arg0 𝔭 m d

theorem W1_arg1 : W1 m d (rT main_arg1) = m (d, rT main_arg1) := by
  unfold W1; after_results_simp <;> rfl
theorem W2_arg1 : W2 𝔭 m d (rT main_arg1) = m (d, rT main_arg1) := by
  unfold W2; rw [upd3_ne _ (by decide) (by decide) (by decide), W1_arg1]
theorem W3_arg1 : W3 𝔭 m d (rT main_arg1) = m (d, rT main_arg1) := by
  unfold W3; after_results_simp; exact W2_arg1 𝔭 m d
theorem W4_arg1 : W4 𝔭 m d (rT main_arg1) = m (d, rT main_arg1) := by
  unfold W4; rw [Function.update_of_ne (devRef_ne_of_ne (by decide)), W3_arg1]
theorem W5_arg1 : W5 𝔭 m d (rT main_arg1) = m (d, rT main_arg1) := by
  unfold W5; after_results_simp; exact W4_arg1 𝔭 m d
theorem W6_arg1 : W6 𝔭 m d (rT main_arg1) = m (d, rT main_arg1) := by
  unfold W6; rw [upd3_ne _ (by decide) (by decide) (by decide), W5_arg1]
theorem W7_arg1 : W7 𝔭 m d (rT main_arg1) = m (d, rT main_arg1) := by
  unfold W7; after_results_simp; exact W6_arg1 𝔭 m d
theorem W8_arg1 : W8 𝔭 m d (rT main_arg1) = m (d, rT main_arg1) := by
  unfold W8; rw [Function.update_of_ne (devRef_ne_of_ne (by decide)), W7_arg1]
theorem W9_arg1 : W9 𝔭 m d (rT main_arg1) = m (d, rT main_arg1) := by
  unfold W9; after_results_simp; exact W8_arg1 𝔭 m d
theorem W10_arg1 : W10 𝔭 m d (rT main_arg1) = m (d, rT main_arg1) := by
  unfold W10; rw [upd3_ne _ (by decide) (by decide) (by decide), W9_arg1]
theorem W11_arg1 : W11 𝔭 m d (rT main_arg1) = m (d, rT main_arg1) := by
  unfold W11; after_results_simp; exact W10_arg1 𝔭 m d
theorem W12_arg1 : W12 𝔭 m d (rT main_arg1) = m (d, rT main_arg1) := by
  unfold W12; rw [Function.update_of_ne (devRef_ne_of_ne (by decide)), W11_arg1]
theorem W13_arg1 : W13 𝔭 m d (rT main_arg1) = m (d, rT main_arg1) := by
  unfold W13; after_results_simp; exact W12_arg1 𝔭 m d

/-! ## The gathered arrays before each region -/

/-! ### Quarter 0 -/

theorem W2_v27_0 : W2 𝔭 m d (rT main_v27_0) = 𝔭.g0 (m (d, rT main_arg0)) (slab 0 (V7 m d)) := by
  unfold W2
  rw [Function.update_of_ne (devRef_ne_of_ne (by decide)), Function.update_of_ne (devRef_ne_of_ne (by decide)), Function.update_self,
    W1_arg0, IX0_eq]
theorem W2_v27_1 : W2 𝔭 m d (rT main_v27_1) = 𝔭.g1 (m (d, rT main_arg1)) (slab 0 (V7 m d)) := by
  unfold W2
  rw [Function.update_of_ne (devRef_ne_of_ne (by decide)), Function.update_self, W1_arg1, IX0_eq]
theorem W2_v27_2 : W2 𝔭 m d (rT main_v27_2) = 𝔭.g2 (m (d, rT main_arg1)) (slab 0 (V7 m d)) := by
  unfold W2
  rw [Function.update_self, W1_arg1, IX0_eq]

/-- The centre rows of quarter 0, as region 0 reads them. -/
theorem W3_v27_0 : W3 𝔭 m d (rT main_v27_0) = 𝔭.g0 (m (d, rT main_arg0)) (slab 0 (V7 m d)) := by
  unfold W3; after_results_simp; exact W2_v27_0 𝔭 m d
/-- The positive rows of quarter 0. -/
theorem W3_v27_1 : W3 𝔭 m d (rT main_v27_1) = 𝔭.g1 (m (d, rT main_arg1)) (slab 0 (V7 m d)) := by
  unfold W3; after_results_simp; exact W2_v27_1 𝔭 m d
/-- The draws' rows of quarter 0, the draws in an axis of their own. -/
theorem W3_v28 : W3 𝔭 m d (rT main_v28)
    = shapeCast S20x4096x128 (𝔭.g2 (m (d, rT main_arg1)) (slab 0 (V7 m d))) shapeCasts_S81920x128_S20x4096x128 := by
  rw [← W2_v27_2 𝔭 m d]
  unfold W3; after_results_simp; rfl

/-! ### Quarter 1 -/

theorem W6_v33_0 : W6 𝔭 m d (rT main_v33_0) = 𝔭.g0 (m (d, rT main_arg0)) (slab 1 (V7 m d)) := by
  unfold W6
  rw [Function.update_of_ne (devRef_ne_of_ne (by decide)), Function.update_of_ne (devRef_ne_of_ne (by decide)), Function.update_self,
    W5_arg0, IX1_eq]
theorem W6_v33_1 : W6 𝔭 m d (rT main_v33_1) = 𝔭.g1 (m (d, rT main_arg1)) (slab 1 (V7 m d)) := by
  unfold W6
  rw [Function.update_of_ne (devRef_ne_of_ne (by decide)), Function.update_self, W5_arg1, IX1_eq]
theorem W6_v33_2 : W6 𝔭 m d (rT main_v33_2) = 𝔭.g2 (m (d, rT main_arg1)) (slab 1 (V7 m d)) := by
  unfold W6
  rw [Function.update_self, W5_arg1, IX1_eq]

/-- The centre rows of quarter 1, as region 1 reads them. -/
theorem W7_v33_0 : W7 𝔭 m d (rT main_v33_0) = 𝔭.g0 (m (d, rT main_arg0)) (slab 1 (V7 m d)) := by
  unfold W7; after_results_simp; exact W6_v33_0 𝔭 m d
/-- The positive rows of quarter 1. -/
theorem W7_v33_1 : W7 𝔭 m d (rT main_v33_1) = 𝔭.g1 (m (d, rT main_arg1)) (slab 1 (V7 m d)) := by
  unfold W7; after_results_simp; exact W6_v33_1 𝔭 m d
/-- The draws' rows of quarter 1, the draws in an axis of their own. -/
theorem W7_v34 : W7 𝔭 m d (rT main_v34)
    = shapeCast S20x4096x128 (𝔭.g2 (m (d, rT main_arg1)) (slab 1 (V7 m d))) shapeCasts_S81920x128_S20x4096x128 := by
  rw [← W6_v33_2 𝔭 m d]
  unfold W7; after_results_simp; rfl

/-! ### Quarter 2 -/

theorem W10_v39_0 : W10 𝔭 m d (rT main_v39_0) = 𝔭.g0 (m (d, rT main_arg0)) (slab 2 (V7 m d)) := by
  unfold W10
  rw [Function.update_of_ne (devRef_ne_of_ne (by decide)), Function.update_of_ne (devRef_ne_of_ne (by decide)), Function.update_self,
    W9_arg0, IX2_eq]
theorem W10_v39_1 : W10 𝔭 m d (rT main_v39_1) = 𝔭.g1 (m (d, rT main_arg1)) (slab 2 (V7 m d)) := by
  unfold W10
  rw [Function.update_of_ne (devRef_ne_of_ne (by decide)), Function.update_self, W9_arg1, IX2_eq]
theorem W10_v39_2 : W10 𝔭 m d (rT main_v39_2) = 𝔭.g2 (m (d, rT main_arg1)) (slab 2 (V7 m d)) := by
  unfold W10
  rw [Function.update_self, W9_arg1, IX2_eq]

/-- The centre rows of quarter 2, as region 2 reads them. -/
theorem W11_v39_0 : W11 𝔭 m d (rT main_v39_0) = 𝔭.g0 (m (d, rT main_arg0)) (slab 2 (V7 m d)) := by
  unfold W11; after_results_simp; exact W10_v39_0 𝔭 m d
/-- The positive rows of quarter 2. -/
theorem W11_v39_1 : W11 𝔭 m d (rT main_v39_1) = 𝔭.g1 (m (d, rT main_arg1)) (slab 2 (V7 m d)) := by
  unfold W11; after_results_simp; exact W10_v39_1 𝔭 m d
/-- The draws' rows of quarter 2, the draws in an axis of their own. -/
theorem W11_v40 : W11 𝔭 m d (rT main_v40)
    = shapeCast S20x4096x128 (𝔭.g2 (m (d, rT main_arg1)) (slab 2 (V7 m d))) shapeCasts_S81920x128_S20x4096x128 := by
  rw [← W10_v39_2 𝔭 m d]
  unfold W11; after_results_simp; rfl

/-! ### Quarter 3 -/

theorem W14_v45_0 : W14 𝔭 m d (rT main_v45_0) = 𝔭.g0 (m (d, rT main_arg0)) (slab 3 (V7 m d)) := by
  unfold W14
  rw [Function.update_of_ne (devRef_ne_of_ne (by decide)), Function.update_of_ne (devRef_ne_of_ne (by decide)), Function.update_self,
    W13_arg0, IX3_eq]
theorem W14_v45_1 : W14 𝔭 m d (rT main_v45_1) = 𝔭.g1 (m (d, rT main_arg1)) (slab 3 (V7 m d)) := by
  unfold W14
  rw [Function.update_of_ne (devRef_ne_of_ne (by decide)), Function.update_self, W13_arg1, IX3_eq]
theorem W14_v45_2 : W14 𝔭 m d (rT main_v45_2) = 𝔭.g2 (m (d, rT main_arg1)) (slab 3 (V7 m d)) := by
  unfold W14
  rw [Function.update_self, W13_arg1, IX3_eq]

/-- The centre rows of quarter 3, as region 3 reads them. -/
theorem W15_v45_0 : W15 𝔭 m d (rT main_v45_0) = 𝔭.g0 (m (d, rT main_arg0)) (slab 3 (V7 m d)) := by
  unfold W15; after_results_simp; exact W14_v45_0 𝔭 m d
/-- The positive rows of quarter 3. -/
theorem W15_v45_1 : W15 𝔭 m d (rT main_v45_1) = 𝔭.g1 (m (d, rT main_arg1)) (slab 3 (V7 m d)) := by
  unfold W15; after_results_simp; exact W14_v45_1 𝔭 m d
/-- The draws' rows of quarter 3, the draws in an axis of their own. -/
theorem W15_v46 : W15 𝔭 m d (rT main_v46)
    = shapeCast S20x4096x128 (𝔭.g2 (m (d, rT main_arg1)) (slab 3 (V7 m d))) shapeCasts_S81920x128_S20x4096x128 := by
  rw [← W14_v45_2 𝔭 m d]
  unfold W15; after_results_simp; rfl

end Cert.Proof.KI

end
-- ==== Proof.KI_QuarterMath.lean ====
import proofs.«215899_g5772436046013_cont_9to1c4b_742_31_alg».proof.Proof.KI_BlockSpec

/-!
  A quarter's cell over its arrays is the quarter's cell of the loss formula.

  When the quarter's centre, positive and negative arrays hold the tables' rows named by the quarter's index words,
  and the sign matrix is the 0 / +1 / −1 matrix, the rows of products and the scores of the two formulas are the same
  entry by entry (row 1024 t + r of quarter s is sample 4096 s + 1024 t + r), hence so are the blocks' sums and the cell.
-/

noncomputable section

open scoped BigOperators

namespace Cert.Proof.KI.BlockSpec

open Idealize.ShloMosaic Idealize.ShloMosaic.ValueIdx Cert.Proof.Ker Cert.Proof.Ref

variable (A B : FVec Ideal ⟨2, ![100000, 128]⟩ .f32) (cw pw : IVec ⟨1, ![16384]⟩ 32) (nw : IVec ⟨2, ![16384, 20]⟩ 32)

/-- Sample 4096 s + b of the batch. -/
def sampleOf (s : Fin 4) (b : Fin 4096) : Fin 16384 := ⟨4096 * s.val + b.val, by omega⟩

theorem cellArr_eq_quarterK (s : Fin 4)
    (a0 a1 : FVec Ideal ⟨2, ![4096, 128]⟩ .f32) (a2 : FVec Ideal ⟨3, ![20, 4096, 128]⟩ .f32)
    (a3 : FVec Ideal ⟨2, ![2688, 21]⟩ .bf16)
    (h0 : ∀ (b : Fin 4096) (k : Fin 128), a0 (ix2 b k) = A (ix2 (rowIx (cw (ix1 (sampleOf s b)))) k))
    (h1 : ∀ (b : Fin 4096) (k : Fin 128), a1 (ix2 b k) = B (ix2 (rowIx (pw (ix1 (sampleOf s b)))) k))
    (h2 : ∀ (j : Fin 20) (b : Fin 4096) (k : Fin 128),
      a2 (ix3 j b k) = B (ix2 (rowIx (nw (ix2 (sampleOf s b) j))) k))
    (h3 : ∀ (n c : Fin 21) (k : Fin 128) (h : 128 * n.val + k.val < 2688), a3 (ix2 ⟨128 * n.val + k.val, h⟩ c) = eK n c) :
    cellArr a0 a1 a2 a3 = quarterK A B cw pw nw s := by
  have hz : ∀ (t : Fin 4) (r : Fin 1024) (n : Fin 21) (k : Fin 128),
      zArr a0 a1 a2 t r n k = zK A B cw pw nw ⟨4096 * s.val + 1024 * t.val + r.val, by omega⟩ n k := by
    intro t r n k
    have hb : sampleOf s (rowOf t r) = (⟨4096 * s.val + 1024 * t.val + r.val, by omega⟩ : Fin 16384) :=
      Fin.ext (Nat.add_assoc (4096 * s.val) (1024 * t.val) r.val).symm
    unfold zArr zK
    split
    · rw [h0, h1, hb]
    · rw [h2, h0, hb]
  have hb : ∀ t : Fin 4, blockArr a0 a1 a2 a3 t = blockK A B cw pw nw s t := by
    intro t
    unfold blockArr blockK scoreK
    refine Finset.sum_congr rfl fun r _ => Finset.sum_congr rfl fun c _ => congrArg (fun x => lsK (0 + x)) ?_
    refine Finset.sum_congr rfl fun n _ => Finset.sum_congr rfl fun k _ => ?_
    rw [hz, h3]
  unfold cellArr quarterK
  rw [hb, hb, hb, hb]

end Cert.Proof.KI.BlockSpec

end
-- ==== Proof.KI_Value.lean ====
import proofs.«215899_g5772436046013_cont_9to1c4b_742_31_alg».proof.Proof.KI_Calls
import proofs.«215899_g5772436046013_cont_9to1c4b_742_31_alg».proof.Proof.KI_ValueHost
import proofs.«215899_g5772436046013_cont_9to1c4b_742_31_alg».proof.Proof.KI_LossValue2
import proofs.«215899_g5772436046013_cont_9to1c4b_742_31_alg».proof.Proof.KI_Loss3Value2
import proofs.«215899_g5772436046013_cont_9to1c4b_742_31_alg».proof.Proof.KI_Loss5Value2
import proofs.«215899_g5772436046013_cont_9to1c4b_742_31_alg».proof.Proof.KI_Loss7Value2
import proofs.«215899_g5772436046013_cont_9to1c4b_742_31_alg».proof.Proof.KI_ValueRows
import proofs.«215899_g5772436046013_cont_9to1c4b_742_31_alg».proof.Proof.KI_ValueSign
import proofs.«215899_g5772436046013_cont_9to1c4b_742_31_alg».proof.Proof.KI_ValueChain
import proofs.«215899_g5772436046013_cont_9to1c4b_742_31_alg».proof.Proof.KI_QuarterMath

set_option maxRecDepth 100000

noncomputable section

namespace Cert.Proof.KI

open Cert.KernelIdeal Cert.KernelIdeal.Gen

open Idealize.ShloMosaic Idealize.ShloMosaic.ValueIdx
open Idealize.ShloMosaic.StableHlo
open Cert.Proof.Ker Cert.Proof.KI.BlockSpec

/-! # The kernel's value

Each region's cell is its quarter's cell of the loss formula: the region's three gathered arrays hold the tables' rows
its quarter's index words name, its fourth array is the sign matrix, and the region leaves in its cell the four
blocks' sums over those arrays. The host side adds the four cells from zero and scales: the program's result is the
loss formula in the kernel's arrangement. -/

variable (m : (ℓ : Loc nD τ sig) → Buf (Elt Ideal) ℓ) (d : Dev nD)
  (hc : ∀ i, 0 ≤ (cenW m d i).toInt ∧ (cenW m d i).toInt ≤ 99999)
  (hp : ∀ i, 0 ≤ (posW m d i).toInt ∧ (posW m d i).toInt ≤ 99999)
  (hn : ∀ i, 0 ≤ (negW m d i).toInt ∧ (negW m d i).toInt ≤ 99999)

include hc hp hn

theorem cell0_value :
    cell0 (pureK d) m d (ix2 0 0)
      = quarterK (m (d, rT main_arg0)) (m (d, rT main_arg1)) (cenW m d) (posW m d) (negW m d) 0 := by
  unfold cell0
  show lossOut d (lossArrs d ((W3 (pureK d) m d) (rT main_v27_0)) ((W3 (pureK d) m d) (rT main_v27_1))
    ((W3 (pureK d) m d) (rT main_v28)) ((W3 (pureK d) m d) (rT main_v23)) ((W3 (pureK d) m d) (rT main_v29))) (ix2 0 0) = _
  rw [lossOut_apply]
  show cellArr ((W3 (pureK d) m d) (rT main_v27_0)) ((W3 (pureK d) m d) (rT main_v27_1))
    ((W3 (pureK d) m d) (rT main_v28)) ((W3 (pureK d) m d) (rT main_v23)) = _
  rw [W3_v27_0, W3_v27_1, W3_v28, W3_v23]
  exact cellArr_eq_quarterK _ _ _ _ _ 0 _ _ _ _
    (fun b k => gV0_slab m d _ 0 b k hc) (fun b k => gV1_slab m d _ 0 b k hp)
    (fun j b k => gV2_slab_reshape m d _ _ 0 j b k hn) (fun n c k _ => E23_apply n c k)

theorem cell1_value :
    cell1 (pureK d) m d (ix2 0 0)
      = quarterK (m (d, rT main_arg0)) (m (d, rT main_arg1)) (cenW m d) (posW m d) (negW m d) 1 := by
  unfold cell1
  show loss3Out d (loss3Arrs d ((W7 (pureK d) m d) (rT main_v33_0)) ((W7 (pureK d) m d) (rT main_v33_1))
    ((W7 (pureK d) m d) (rT main_v34)) ((W7 (pureK d) m d) (rT main_v23)) ((W7 (pureK d) m d) (rT main_v35))) (ix2 0 0) = _
  rw [loss3Out_apply]
  show cellArr ((W7 (pureK d) m d) (rT main_v33_0)) ((W7 (pureK d) m d) (rT main_v33_1))
    ((W7 (pureK d) m d) (rT main_v34)) ((W7 (pureK d) m d) (rT main_v23)) = _
  rw [W7_v33_0, W7_v33_1, W7_v34, W7_v23]
  exact cellArr_eq_quarterK _ _ _ _ _ 1 _ _ _ _
    (fun b k => gV0_slab m d _ 1 b k hc) (fun b k => gV1_slab m d _ 1 b k hp)
    (fun j b k => gV2_slab_reshape m d _ _ 1 j b k hn) (fun n c k _ => E23_apply n c k)

theorem cell2_value :
    cell2 (pureK d) m d (ix2 0 0)
      = quarterK (m (d, rT main_arg0)) (m (d, rT main_arg1)) (cenW m d) (posW m d) (negW m d) 2 := by
  unfold cell2
  show loss5Out d (loss5Arrs d ((W11 (pureK d) m d) (rT main_v39_0)) ((W11 (pureK d) m d) (rT main_v39_1))
    ((W11 (pureK d) m d) (rT main_v40)) ((W11 (pureK d) m d) (rT main_v23)) ((W11 (pureK d) m d) (rT main_v41))) (ix2 0 0) = _
  rw [loss5Out_apply]
  show cellArr ((W11 (pureK d) m d) (rT main_v39_0)) ((W11 (pureK d) m d) (rT main_v39_1))
    ((W11 (pureK d) m d) (rT main_v40)) ((W11 (pureK d) m d) (rT main_v23)) = _
  rw [W11_v39_0, W11_v39_1, W11_v40, W11_v23]
  exact cellArr_eq_quarterK _ _ _ _ _ 2 _ _ _ _
    (fun b k => gV0_slab m d _ 2 b k hc) (fun b k => gV1_slab m d _ 2 b k hp)
    (fun j b k => gV2_slab_reshape m d _ _ 2 j b k hn) (fun n c k _ => E23_apply n c k)

theorem cell3_value :
    cell3 (pureK d) m d (ix2 0 0)
      = quarterK (m (d, rT main_arg0)) (m (d, rT main_arg1)) (cenW m d) (posW m d) (negW m d) 3 := by
  unfold cell3
  show loss7Out d (loss7Arrs d ((W15 (pureK d) m d) (rT main_v45_0)) ((W15 (pureK d) m d) (rT main_v45_1))
    ((W15 (pureK d) m d) (rT main_v46)) ((W15 (pureK d) m d) (rT main_v23)) ((W15 (pureK d) m d) (rT main_v47))) (ix2 0 0) = _
  rw [loss7Out_apply]
  show cellArr ((W15 (pureK d) m d) (rT main_v45_0)) ((W15 (pureK d) m d) (rT main_v45_1))
    ((W15 (pureK d) m d) (rT main_v46)) ((W15 (pureK d) m d) (rT main_v23)) = _
  rw [W15_v45_0, W15_v45_1, W15_v46, W15_v23]
  exact cellArr_eq_quarterK _ _ _ _ _ 3 _ _ _ _
    (fun b k => gV0_slab m d _ 3 b k hc) (fun b k => gV1_slab m d _ 3 b k hp)
    (fun j b k => gV2_slab_reshape m d _ _ 3 j b k hn) (fun n c k _ => E23_apply n c k)

/-- **The kernel's value**: with every index word in [0, 99999], the program's result is the loss formula in the
    kernel's arrangement, of the launch memory's five argument arrays. -/
theorem ker_value :
    (Wfin (pureK d) m d) (rT main_v51)
      = fun _ => kerLoss (m (d, rT main_arg0)) (m (d, rT main_arg1)) (cenW m d) (posW m d) (negW m d) := by
  funext j
  rw [wfin_apply, cell0_value m d hc hp hn, cell1_value m d hc hp hn, cell2_value m d hc hp hn, cell3_value m d hc hp hn]
  rfl

end Cert.Proof.KI

end
-- ==== Proof.KI_TileOwn.lean ====
/-
  A vector subcore's own storage at call 0: its thread, the seven scratch buffers and thirteen DMA semaphores of
  the gather kernel, taken out of the tile's scoped buffers and scoped semaphores.
-/
import proofs.«215899_g5772436046013_cont_9to1c4b_742_31_alg».proof.Proof.KI_TileRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## The tile's thread, its scratch buffers and its semaphores -/

abbrev thrV (d : Dev nD) (L : grid0.Coords) : Thread nD τ := V d (cV L) (jV L)

abbrev a8 : Memref sig .scVector .vmem S24x128 .i32 := Memref.whole cc0_scratch0
abbrev bC : Memref sig .scVector .vmem S128x128 .f32 := Memref.whole cc0_scratch1
abbrev bP : Memref sig .scVector .vmem S128x128 .f32 := Memref.whole cc0_scratch2
abbrev rb0 : Memref sig .scVector .vmem S128x128 .f32 := Memref.whole cc0_scratch3
abbrev rb1 : Memref sig .scVector .vmem S128x128 .f32 := Memref.whole cc0_scratch4
abbrev rb2 : Memref sig .scVector .vmem S128x128 .f32 := Memref.whole cc0_scratch5
abbrev rb3 : Memref sig .scVector .vmem S128x128 .f32 := Memref.whole cc0_scratch6

/-- The kernel's thirteen DMA semaphores. -/
def tileSems : Finset (DmaSem sig) := {cc0_scoped0.sem, cc0_scratch7.sem, cc0_scratch8.sem, cc0_scratch9.sem, cc0_scratch10.sem, cc0_scratch11.sem, cc0_scratch12.sem, cc0_scratch13.sem, cc0_scratch14.sem, cc0_scratch15.sem, cc0_scratch16.sem, cc0_scratch17.sem, cc0_scratch18.sem}
/-- The kernel's seven scratch buffers. -/
def tileRefs : Finset (Ref sig .scVector) := {cc0_scratch0, cc0_scratch1, cc0_scratch2, cc0_scratch3, cc0_scratch4, cc0_scratch5, cc0_scratch6}

def cellEmb (thr : Thread nD τ) : DmaSem sig ↪ GSem nD τ sig :=
  ⟨fun s => (thr, SemLoc.dma s), fun _ _ e => SemLoc.dma.inj (Prod.mk.inj e).2⟩
def refEmb (p : Proc τ) : Ref sig p.kind ↪ DevRef τ sig := ⟨fun b => p.devRef b, Proc.devRef_injective _⟩

omit [FloatOps F] in
theorem tileSems_sub (d : Dev nD) (L : grid0.Coords) : tileSems.map (cellEmb (thrV d L)) ⊆ ownCells (thrV d L) := by
  intro g hg
  obtain ⟨s, hs, rfl⟩ := Finset.mem_map.mp hg
  refine mem_ownCells.mpr ⟨rfl, ?_⟩
  show sig.isScopedDmaSem .scVector s = true
  clear hg
  revert s; decide +revert

omit [FloatOps F] in
theorem ownSems0_V (d : Dev nD) (L : grid0.Coords) :
    (ownSems0 (thrV d L) : sProp 𝕄)
      = iprop((semVal (thrV d L, SemLoc.dma cc0_scoped0.sem) 0
          ∗ semVal (thrV d L, SemLoc.dma cc0_scratch7.sem) 0
          ∗ semVal (thrV d L, SemLoc.dma cc0_scratch8.sem) 0
          ∗ semVal (thrV d L, SemLoc.dma cc0_scratch9.sem) 0
          ∗ semVal (thrV d L, SemLoc.dma cc0_scratch10.sem) 0
          ∗ semVal (thrV d L, SemLoc.dma cc0_scratch11.sem) 0
          ∗ semVal (thrV d L, SemLoc.dma cc0_scratch12.sem) 0
          ∗ semVal (thrV d L, SemLoc.dma cc0_scratch13.sem) 0
          ∗ semVal (thrV d L, SemLoc.dma cc0_scratch14.sem) 0
          ∗ semVal (thrV d L, SemLoc.dma cc0_scratch15.sem) 0
          ∗ semVal (thrV d L, SemLoc.dma cc0_scratch16.sem) 0
          ∗ semVal (thrV d L, SemLoc.dma cc0_scratch17.sem) 0
          ∗ semVal (thrV d L, SemLoc.dma cc0_scratch18.sem) 0)
          ∗ bigSep (ownCells (thrV d L) \ tileSems.map (cellEmb (thrV d L))) fun g => semVal g 0) := by
  unfold SparseCore.Cfg.ownSems0
  rw [SparseCore.bigSep_sdiff_split' (tileSems_sub d L), BI.bigSep_map]
  unfold tileSems
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton]
  rfl

omit [FloatOps F] in
theorem tileRefs_sub (L : grid0.Coords) :
    tileRefs.map (refEmb (Proc.scVector (cV L) (jV L))) ⊆ ownRefs (τ := τ) (sig := sig) (Proc.scVector (cV L) (jV L)) := by
  intro b hb
  obtain ⟨r, hr, rfl⟩ := Finset.mem_map.mp hb
  simp only [tileRefs, Finset.mem_insert, Finset.mem_singleton] at hr
  rcases hr with rfl | rfl | rfl | rfl | rfl | rfl | rfl <;> exact SparseCore.Cfg.mem_ownRefs_of_owner rfl

omit [FloatOps F] in
theorem ownBufs_V (d : Dev nD) (L : grid0.Coords) :
    (ownBufs (thrV d L) : sProp 𝕄)
      = iprop(((∃ f, (thrV d L).loc cc0_scratch0 ↦{fullShare} f)
          ∗ (∃ f, (thrV d L).loc cc0_scratch1 ↦{fullShare} f)
          ∗ (∃ f, (thrV d L).loc cc0_scratch2 ↦{fullShare} f)
          ∗ (∃ f, (thrV d L).loc cc0_scratch3 ↦{fullShare} f)
          ∗ (∃ f, (thrV d L).loc cc0_scratch4 ↦{fullShare} f)
          ∗ (∃ f, (thrV d L).loc cc0_scratch5 ↦{fullShare} f)
          ∗ (∃ f, (thrV d L).loc cc0_scratch6 ↦{fullShare} f))
          ∗ bigSep (ownRefs (τ := τ) (Proc.scVector (cV L) (jV L)) \ tileRefs.map (refEmb (Proc.scVector (cV L) (jV L))))
              fun b => iprop(∃ f, ((d, b) : Loc nD τ sig) ↦{fullShare} f)) := by
  unfold SparseCore.Cfg.ownBufs
  rw [SparseCore.bigSep_sdiff_split' (tileRefs_sub L), BI.bigSep_map]
  unfold tileRefs
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton]
  rfl

end Cert.Proof.KI

end
-- ==== Proof.KI_TileGeom.lean ====
/-
  Geometry and bookkeeping for the gather kernel's run on one vector subcore: families over a segment of `Fin N`,
  the call's arrays as a tile's memrefs address them, a table's read shares one per DMA semaphore, and the index
  scratch row by row (the offset lists of the indirect gathers).
-/
import proofs.«215899_g5772436046013_cont_9to1c4b_742_31_alg».proof.Proof.KI_TileOwn

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## Families over an initial or a final segment of `Fin N` -/

section Segments

/-- The first of a final segment comes out. -/
theorem bigSep_from_pop {N : ℕ} (Φ : Fin N → sProp 𝕄) (n : ℕ) (h : n < N) :
    bigSep (Finset.univ.filter fun k : Fin N => n ≤ k.val) Φ
      = iprop(Φ ⟨n, h⟩ ∗ bigSep (Finset.univ.filter fun k : Fin N => n + 1 ≤ k.val) Φ) := by
  rw [← SparseCore.bigSep_insert' (by simp)]
  congr 1; ext k; simp only [Finset.mem_filter, Finset.mem_univ, true_and, Finset.mem_insert, Fin.ext_iff]; omega

/-- The next goes into a middle segment. -/
theorem bigSep_mid_push {N : ℕ} (Φ : Fin N → sProp 𝕄) (a n : ℕ) (h : n < N) (han : a ≤ n) :
    bigSep (Finset.univ.filter fun k : Fin N => a ≤ k.val ∧ k.val < n + 1) Φ
      = iprop(Φ ⟨n, h⟩ ∗ bigSep (Finset.univ.filter fun k : Fin N => a ≤ k.val ∧ k.val < n) Φ) := by
  rw [← SparseCore.bigSep_insert' (by simp)]
  congr 1; ext k; simp only [Finset.mem_filter, Finset.mem_univ, true_and, Finset.mem_insert, Fin.ext_iff]; omega

theorem bigSep_from_zero {N : ℕ} (Φ : Fin N → sProp 𝕄) : bigSep (Finset.univ.filter fun k : Fin N => 0 ≤ k.val) Φ = bigSep Finset.univ Φ := by
  congr 1; ext k; simp

theorem bigSep_from_top {N : ℕ} (Φ : Fin N → sProp 𝕄) (n : ℕ) (h : N ≤ n) : bigSep (Finset.univ.filter fun k : Fin N => n ≤ k.val) Φ = iprop(emp) := by
  rw [show (Finset.univ.filter fun k : Fin N => n ≤ k.val) = ∅ from by ext k; simp; omega, bigSep_empty]; rfl

theorem bigSep_mid_empty {N : ℕ} (Φ : Fin N → sProp 𝕄) (a : ℕ) : bigSep (Finset.univ.filter fun k : Fin N => a ≤ k.val ∧ k.val < a) Φ = iprop(emp) := by
  rw [show (Finset.univ.filter fun k : Fin N => a ≤ k.val ∧ k.val < a) = ∅ from by ext k; simp <;> omega, bigSep_empty]; rfl

theorem bigSep_mid_all {N : ℕ} (Φ : Fin N → sProp 𝕄) : bigSep (Finset.univ.filter fun k : Fin N => 0 ≤ k.val ∧ k.val < N) Φ = bigSep Finset.univ Φ := by
  congr 1; ext k; simp

end Segments

/-! ## The arrays as the tile's memrefs address them -/

section Pts

variable (d : Dev nD) (L : grid0.Coords)

theorem pts_t0 (q : PosShare TreeShare) (f : Buf (Elt F) (t0Loc d)) :
    ((t0V).view.loc (thrV d L) ↦{q} f : sProp 𝕄) = (t0Loc d ↦{q} f) := rfl
theorem pts_t1 (q : PosShare TreeShare) (f : Buf (Elt F) (t1Loc d)) :
    ((t1V).view.loc (thrV d L) ↦{q} f : sProp 𝕄) = (t1Loc d ↦{q} f) := rfl
theorem pts_ix (f : Buf (Elt F) (ixLoc d)) :
    ((ixSl L).view.loc (thrV d L) ↦[(ixSl L).view.set]{fullShare} f : sProp 𝕄) = (ixLoc d ↦[(ixSl L).view.set]{fullShare} f) := rfl
theorem pts_o0 (f : Buf (Elt F) (o0Loc d)) :
    ((o0Sl L).view.loc (thrV d L) ↦[(o0Sl L).view.set]{fullShare} f : sProp 𝕄) = (o0Loc d ↦[(o0Sl L).view.set]{fullShare} f) := rfl
theorem pts_o1 (f : Buf (Elt F) (o1Loc d)) :
    ((o1Sl L).view.loc (thrV d L) ↦[(o1Sl L).view.set]{fullShare} f : sProp 𝕄) = (o1Loc d ↦[(o1Sl L).view.set]{fullShare} f) := rfl
theorem pts_scr (b : Ref sig .scVector) (f : Buf (Elt F) ((thrV d L).loc b)) :
    ((Memref.whole b : Memref sig .scVector _ _ _).view.loc (thrV d L) ↦{fullShare} f : sProp 𝕄) = ((thrV d L).loc b ↦{fullShare} f) := rfl

/-! ### The table's read shares, one per DMA semaphore number -/

/-- One more read token off the remainder. -/
theorem tok_step {ℓ : Loc nD τ sig} (q : PosShare TreeShare) (k : ℕ) (f : Buf (Elt F) ℓ) :
    (ℓ ↦{Transfers.shareDrop q k} f : sProp 𝕄) ⊣⊢ iprop((ℓ ↦{Transfers.shareDrop q (k + 1)} f) ∗ (ℓ ↦{Transfers.shareTokN q k} f)) :=
  pointsTo_share (PosShare.mem_left_op_right _)

/-- A points-to split into the read tokens of cells 0 … 7 and the remainder; -/
theorem toks8_split {ℓ : Loc nD τ sig} (q : PosShare TreeShare) (f : Buf (Elt F) ℓ) :
    (ℓ ↦{q} f : sProp 𝕄) ⊢ iprop((ℓ ↦{Transfers.shareDrop q 8} f)
      ∗ (ℓ ↦{Transfers.shareTokN q 7} f) ∗ (ℓ ↦{Transfers.shareTokN q 6} f) ∗ (ℓ ↦{Transfers.shareTokN q 5} f) ∗ (ℓ ↦{Transfers.shareTokN q 4} f)
      ∗ (ℓ ↦{Transfers.shareTokN q 3} f) ∗ (ℓ ↦{Transfers.shareTokN q 2} f) ∗ (ℓ ↦{Transfers.shareTokN q 1} f) ∗ (ℓ ↦{Transfers.shareTokN q 0} f)) := by
  refine (Entails.of_eq (show (ℓ ↦{q} f : sProp 𝕄) = (ℓ ↦{Transfers.shareDrop q 0} f) from rfl)).trans ?_
  iintro H
  ihave H := (tok_step (F := F) q 0 f).1 $$ H; icases H with ⟨H, H0⟩
  ihave H := (tok_step (F := F) q 1 f).1 $$ H; icases H with ⟨H, H1⟩
  ihave H := (tok_step (F := F) q 2 f).1 $$ H; icases H with ⟨H, H2⟩
  ihave H := (tok_step (F := F) q 3 f).1 $$ H; icases H with ⟨H, H3⟩
  ihave H := (tok_step (F := F) q 4 f).1 $$ H; icases H with ⟨H, H4⟩
  ihave H := (tok_step (F := F) q 5 f).1 $$ H; icases H with ⟨H, H5⟩
  ihave H := (tok_step (F := F) q 6 f).1 $$ H; icases H with ⟨H, H6⟩
  ihave H := (tok_step (F := F) q 7 f).1 $$ H; icases H with ⟨H, H7⟩
  isplitl [H]; · iexact H
  isplitl [H7]; · iexact H7
  isplitl [H6]; · iexact H6
  isplitl [H5]; · iexact H5
  isplitl [H4]; · iexact H4
  isplitl [H3]; · iexact H3
  isplitl [H2]; · iexact H2
  isplitl [H1]; · iexact H1
  iexact H0

/-- and joined back. -/
theorem toks8_join {ℓ : Loc nD τ sig} (q : PosShare TreeShare) (f : Buf (Elt F) ℓ) :
    iprop((ℓ ↦{Transfers.shareDrop q 8} f)
      ∗ (ℓ ↦{Transfers.shareTokN q 7} f) ∗ (ℓ ↦{Transfers.shareTokN q 6} f) ∗ (ℓ ↦{Transfers.shareTokN q 5} f) ∗ (ℓ ↦{Transfers.shareTokN q 4} f)
      ∗ (ℓ ↦{Transfers.shareTokN q 3} f) ∗ (ℓ ↦{Transfers.shareTokN q 2} f) ∗ (ℓ ↦{Transfers.shareTokN q 1} f) ∗ (ℓ ↦{Transfers.shareTokN q 0} f))
      ⊢ (ℓ ↦{q} f : sProp 𝕄) := by
  refine BIBase.Entails.trans ?_ (Entails.of_eq (show (ℓ ↦{Transfers.shareDrop q 0} f : sProp 𝕄) = (ℓ ↦{q} f) from rfl))
  iintro ⟨H, H7, H6, H5, H4, H3, H2, H1, H0⟩
  ihave H := (tok_step (F := F) q 7 f).2 $$ [H H7]; · isplitl [H] <;> iassumption
  ihave H := (tok_step (F := F) q 6 f).2 $$ [H H6]; · isplitl [H] <;> iassumption
  ihave H := (tok_step (F := F) q 5 f).2 $$ [H H5]; · isplitl [H] <;> iassumption
  ihave H := (tok_step (F := F) q 4 f).2 $$ [H H4]; · isplitl [H] <;> iassumption
  ihave H := (tok_step (F := F) q 3 f).2 $$ [H H3]; · isplitl [H] <;> iassumption
  ihave H := (tok_step (F := F) q 2 f).2 $$ [H H2]; · isplitl [H] <;> iassumption
  ihave H := (tok_step (F := F) q 1 f).2 $$ [H H1]; · isplitl [H] <;> iassumption
  ihave H := (tok_step (F := F) q 0 f).2 $$ [H H0]; · isplitl [H] <;> iassumption
  iexact H

end Pts

/-! ## The index scratch row by row -/

section Rows

theorem hdiv24 : 24 ∣ S24x128.size 0 := ⟨1, rfl⟩
abbrev a8Part (k : Fin 24) : Rect S24x128 := Rect.part (s := S24x128) (a₀ := 0) hdiv24 k
abbrev a8RowSet (k : Fin 24) : Finset S24x128.Idx := ((a8 : Memref sig .scVector .vmem S24x128 .i32).view.slice (a8Part k)).set

theorem a8RowSet_eq (k : Fin 24) : a8RowSet k = (a8Part k).set := by
  show ((View.whole (cc0_scratch0 : Ref sig .scVector)).slice (a8Part k)).set = _
  rw [View.set_slice]; exact Finset.map_refl
theorem a8rows_disjoint : ∀ i ∈ (Finset.univ : Finset (Fin 24)), ∀ j ∈ (Finset.univ : Finset (Fin 24)), i ≠ j → Disjoint (a8RowSet i) (a8RowSet j) :=
  fun i _ j _ h => by rw [a8RowSet_eq, a8RowSet_eq]; exact Rect.part_disjoint hdiv24 h
theorem a8rows_cover : (Finset.univ : Finset (Fin 24)).biUnion a8RowSet = Finset.univ :=
  (Finset.biUnion_congr rfl fun i _ => a8RowSet_eq i).trans (Rect.biUnion_part hdiv24)

end Rows

section Rows2

variable (d : Dev nD) (L : grid0.Coords)

abbrev a8Loc : Loc nD τ sig := (thrV d L).loc cc0_scratch0

/-- The index scratch whole is its 24 rows. -/
theorem a8_rows (f : Buf (Elt F) (a8Loc d L)) :
    (a8Loc d L ↦{fullShare} f : sProp 𝕄) = bigSep Finset.univ fun k : Fin 24 => a8Loc d L ↦[a8RowSet k]{fullShare} f := by
  rw [← pointsTo_biUnion Finset.univ (ℓ := a8Loc d L) a8RowSet a8rows_disjoint, a8rows_cover]; try rfl

/-- A row of the index scratch as the program takes it: a one-row slice, squeezed to a list of 128 words. -/
abbrev a8Row (off : Fin 2 → ℕ) (h : ∀ a, off a + S1x128.size a ≤ S24x128.size a) : Memref sig .scVector .vmem S128 .i32 :=
  ((a8).slice (Rect.unit (s := S24x128) off S1x128.size h) (fun _ => rfl)).squeeze S128 squeezes_S1x128_S128

theorem a8Row_rect (k : Fin 24) (off : Fin 2 → ℕ) (h : ∀ a, off a + S1x128.size a ≤ S24x128.size a) (hoff : off = ![k.val, 0]) :
    Rect.unit (s := S24x128) off S1x128.size h = a8Part k := by
  subst hoff
  unfold a8Part Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem a8Row_set (k : Fin 24) (off : Fin 2 → ℕ) (h : ∀ a, off a + S1x128.size a ≤ S24x128.size a) (hoff : off = ![k.val, 0]) :
    (a8Row off h).view.set = a8RowSet k := by
  show (((a8 : Memref sig .scVector .vmem S24x128 .i32).view.slice (Rect.unit (s := S24x128) off S1x128.size h)).reshape S128 squeezes_S1x128_S128.numel_eq).set
    = ((a8 : Memref sig .scVector .vmem S24x128 .i32).view.slice (a8Part k)).set
  rw [View.set_reshape]
  exact (a8Row_rect k off h hoff) ▸ rfl

theorem pts_a8Row (k : Fin 24) (off : Fin 2 → ℕ) (h : ∀ a, off a + S1x128.size a ≤ S24x128.size a) (hoff : off = ![k.val, 0])
    (f : Buf (Elt F) (a8Loc d L)) :
    ((a8Row off h).view.loc (thrV d L) ↦[(a8Row off h).view.set]{fullShare} f : sProp 𝕄) = (a8Loc d L ↦[a8RowSet k]{fullShare} f) := by
  rw [a8Row_set k off h hoff]

end Rows2

end Cert.Proof.KI

end
-- ==== Proof.KI_TileInv.lean ====
/-
  The gather kernel's ring at the head of a trip: what the index scratch holds, the offset lists' range, the rows a
  gather lands, the transfers in flight as the run holds them, and the loop's invariant.
-/
import proofs.«215899_g5772436046013_cont_9to1c4b_742_31_alg».proof.Proof.KI_TileGeom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## The index scratch's contents and the offset lists' range -/

/-- What the index scratch holds once the tile's rows of the index array have landed. -/
def A8c (d : Dev nD) (IX : Buf (Elt F) (ixLoc d)) (L : grid0.Coords) : Buf (Elt F) (a8Loc d L) :=
  show S24x128.Idx → Elt F .i32 from (ixSl L).view.read (Elt F) IX

theorem rowInb (k : Fin 24) : ∀ a, (![k.val, 0] : Fin 2 → ℕ) a + S1x128.size a ≤ S24x128.size a := by
  intro a
  have := k.isLt
  match a with
  | 0 => show k.val + 1 ≤ 24; omega
  | 1 => show 0 + 128 ≤ 128; omega

theorem a8Row_emb0 (k : Fin 24) (h : ∀ a, (![k.val, 0] : Fin 2 → ℕ) a + S1x128.size a ≤ S24x128.size a) (x : S128.Idx) :
    ((a8Row ![k.val, 0] h).view.emb x 0).val = k.val := by
  have key : ∀ j : S1x128.Idx, ((Rect.unit (s := S24x128) ![k.val, 0] S1x128.size h).emb j 0).val = k.val := by
    intro j
    have hj : (j 0).val < 1 := (j 0).isLt
    rw [Rect.emb_apply]
    show k.val + 1 * (j 0).val = k.val
    omega
  exact key _

/-- Every offset list the kernel gathers by holds row numbers of the tables. -/
theorem hin_rows (d : Dev nD) (IX : Buf (Elt F) (ixLoc d)) (L : grid0.Coords) (hIX : IXOK d IX) (k : Fin 24) (off : Fin 2 → ℕ)
    (h : ∀ a, off a + S1x128.size a ≤ S24x128.size a) (hoff : off = ![k.val, 0]) (hk : k.val < 22) (x : S128.Idx) :
    (View.read (Elt F) (a8Row off h).view (A8c d IX L) x).toNat < 100000 := by
  subst hoff
  exact hIX L ((a8Row ![k.val, 0] h).view.emb x) (by rw [a8Row_emb0]; exact hk)

theorem a8Row_congr {off off' : Fin 2 → ℕ} (e : off = off') (h : ∀ a, off a + S1x128.size a ≤ S24x128.size a)
    (h' : ∀ a, off' a + S1x128.size a ≤ S24x128.size a) : a8Row off h = a8Row off' h' := by
  subst e; rfl

/-! ## The third result's blocks in the program's spellings -/

/-- A block of the third result held through a slice at `off` is held through the slice at an equal offset. -/
theorem pts_negOff (d : Dev nD) (L : grid0.Coords) {off off' : Fin 2 → ℕ} (e : off = off')
    (h : ∀ a, off a + S128x128.size a ≤ S81920x128.size a) (h' : ∀ a, off' a + S128x128.size a ≤ S81920x128.size a)
    (f : Buf (Elt F) (o2Loc d)) :
    (View.loc (thrV d L) ((o2V).slice (Rect.unit (s := S81920x128) off S128x128.size h) (fun _ => rfl)).view
        ↦[((o2V).slice (Rect.unit (s := S81920x128) off S128x128.size h) (fun _ => rfl)).view.set]{fullShare} f : sProp 𝕄)
      = (View.loc (thrV d L) ((o2V).slice (Rect.unit (s := S81920x128) off' S128x128.size h') (fun _ => rfl)).view
        ↦[((o2V).slice (Rect.unit (s := S81920x128) off' S128x128.size h') (fun _ => rfl)).view.set]{fullShare} f) := by
  subst e; rfl

theorem k0_off2_neg (L : grid0.Coords) (r : Fin 5) (j : ℕ) (hj : (k0_off2_at r).toNat = 4096 * j) :
    k0_off2 L (k0_off2_at r) = negOff L j := by
  rw [k0_off2_wid, hj]; rfl

/-! ## The gathered rows, and the transfers in flight -/

/-- The second table as every gather of the ring reads it: a full slice of the whole array. -/
abbrev t1Sl : Memref sig .scVector .hbm S100000x128 .f32 :=
  (t1V).slice (Rect.unit (s := S100000x128) ![0, 0] S100000x128.size inb_S100000x128_S100000x128_0_0) (fun _ => rfl)
abbrev t0Sl : Memref sig .scVector .hbm S100000x128 .f32 :=
  (t0V).slice (Rect.unit (s := S100000x128) ![0, 0] S100000x128.size inb_S100000x128_S100000x128_0_0) (fun _ => rfl)

def rowF (n : ℕ) : Fin 24 := ⟨n % 24, Nat.mod_lt _ (by decide)⟩
def blkF (n : ℕ) : Fin 20 := ⟨n % 20, Nat.mod_lt _ (by decide)⟩

section Inv

variable (d : Dev nD) (T0 : Buf (Elt F) (t0Loc d)) (T1 : Buf (Elt F) (t1Loc d)) (IX : Buf (Elt F) (ixLoc d)) (L : grid0.Coords)

/-- The 128 rows a table yields for row `k` of the tile's index rows: row `r` is the table's row `IX[24 * wid + k, r]`. -/
def gRows (Tb : S100000x128.Idx → Elt F .f32) (k : ℕ) : S128x128.Idx → Elt F .f32 :=
  fun x => tblAt (F := F) Tb (ixWord d IX (wid L) k (x 0).val) (x 1)

/-- A gather in flight on the DMA semaphore `cell`, reading the second table by read token `tok` through row `row`
    of the index scratch into the scratch buffer `buf`: it delivers the buffer at `cont`, the row and the token. -/
def gFl (cell : DmaSem sig) (tok : ℕ) (buf : Ref sig .scVector) (row : Fin 24) (cont : Buf (Elt F) ((thrV d L).loc buf)) : sProp 𝕄 :=
  Transfers.Flight countersEmb (thrV d L) (SemLoc.dma cell) (default : HIx 4) 524288
    iprop(((View.loc (thrV d L) (Memref.whole buf).view ↦{fullShare} cont)
        ∗ View.loc (thrV d L) (a8Row ![row.val, 0] (rowInb row)).view ↦[(a8Row ![row.val, 0] (rowInb row)).view.set]{fullShare} A8c d IX L)
      ∗ View.loc (thrV d L) (t1V).view ↦[(t1Sl).view.set]{Transfers.shareTokN (tblShare L) tok} T1)

/-- A copy-out in flight on the DMA semaphore `cell`, from the scratch buffer `buf` to draw `j`'s block of the third
    result: it delivers the block at `bcont` and the buffer's elements at `cont`. -/
def wFl (cell : DmaSem sig) (buf : Ref sig .scVector) (j : Fin 20) (bcont : Buf (Elt F) (o2Loc d)) (cont : Buf (Elt F) ((thrV d L).loc buf)) : sProp 𝕄 :=
  Transfers.Flight countersEmb (thrV d L) (SemLoc.dma cell) (default : HIx 4) 524288
    iprop((View.loc (thrV d L) (negSl L j).view ↦[(negSl L j).view.set]{fullShare} bcont)
      ∗ View.loc (thrV d L) (Memref.whole buf).view ↦[(Memref.whole buf : Memref sig .scVector _ _ _).view.set]{fullShare} cont)

variable (O : CellTallies nD τ sig (HIx 4)) (W : Waits sig (HIx 4))

/-- The ring at the head of trip `t`: draws `4t+1, 4t+2, 4t+3` being gathered into ring buffers 1, 2, 3, draw `4t` on
    its way out of ring buffer 0; ring semaphore 4 and the copy-out semaphores 9, 10, 11 at rest with read token 4;
    the index rows before `4t+3` and from `4t+6` on at rest; the blocks before `4t` written, those after `4t` not yet. -/
def inv (t : ℕ) (_ : PUnit) : sProp 𝕄 :=
  iprop(Transfers.MayWaits (thrV d L) (none : HIx 4) O
    ∗ gFl d T1 IX L ⟨5, by decide⟩ 5 cc0_scratch4 (rowF (4 * t + 3)) (gRows d IX L T1 (4 * t + 3))
    ∗ (View.loc (thrV d L) (t1V).view ↦[Finset.univ \ (t1Sl).view.set]{Transfers.shareTokN (tblShare L) 5} T1)
    ∗ gFl d T1 IX L ⟨6, by decide⟩ 6 cc0_scratch5 (rowF (4 * t + 4)) (gRows d IX L T1 (4 * t + 4))
    ∗ (View.loc (thrV d L) (t1V).view ↦[Finset.univ \ (t1Sl).view.set]{Transfers.shareTokN (tblShare L) 6} T1)
    ∗ gFl d T1 IX L ⟨7, by decide⟩ 7 cc0_scratch6 (rowF (4 * t + 5)) (gRows d IX L T1 (4 * t + 5))
    ∗ (View.loc (thrV d L) (t1V).view ↦[Finset.univ \ (t1Sl).view.set]{Transfers.shareTokN (tblShare L) 7} T1)
    ∗ wFl d L ⟨8, by decide⟩ cc0_scratch3 (blkF (4 * t)) (gV2 d T1 IX) (gRows d IX L T1 (4 * t + 2))
    ∗ (View.loc (thrV d L) (Memref.whole cc0_scratch3).view ↦[Finset.univ \ (rb0).view.set]{fullShare} gRows d IX L T1 (4 * t + 2))
    ∗ (View.loc (thrV d L) (t1V).view ↦{Transfers.shareTokN (tblShare L) 4} T1)
    ∗ semVal (thrV d L, SemLoc.dma ⟨4, by decide⟩) 0
    ∗ semVal (thrV d L, SemLoc.dma ⟨9, by decide⟩) 0
    ∗ semVal (thrV d L, SemLoc.dma ⟨10, by decide⟩) 0
    ∗ semVal (thrV d L, SemLoc.dma ⟨11, by decide⟩) 0
    ∗ (bigSep (Finset.univ.filter fun k : Fin 24 => 2 ≤ k.val ∧ k.val < 4 * t + 3) fun k => a8Loc d L ↦[a8RowSet k]{fullShare} A8c d IX L)
    ∗ (bigSep (Finset.univ.filter fun k : Fin 24 => 4 * t + 6 ≤ k.val) fun k => a8Loc d L ↦[a8RowSet k]{fullShare} A8c d IX L)
    ∗ (bigSep (Finset.univ.filter fun j : Fin 20 => 0 ≤ j.val ∧ j.val < 4 * t) fun j => o2Loc d ↦[(negSl L j).view.set]{fullShare} gV2 d T1 IX)
    ∗ (bigSep (Finset.univ.filter fun j : Fin 20 => 4 * t + 1 ≤ j.val) fun j => iprop(∃ f, o2Loc d ↦[(negSl L j).view.set]{fullShare} f))
    ∗ ∃ W', ⌜∀ p ∈ W', p ∈ W ∨ p.2 = none⌝ ∗ owes (thrV d L) O W')

end Inv

end Cert.Proof.KI

end
-- ==== Proof.KI_TileVal.lean ====
/-
  The values the gather kernel moves: what an indirect gather by a row of the index scratch lands in a buffer, and
  what a copy-out of those rows leaves in the results' blocks — the whole-array value functions there.
-/
import proofs.«215899_g5772436046013_cont_9to1c4b_742_31_alg».proof.Proof.KI_TileInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

variable (d : Dev nD) (T0 : Buf (Elt F) (t0Loc d)) (T1 : Buf (Elt F) (t1Loc d)) (IX : Buf (Elt F) (ixLoc d)) (L : grid0.Coords)

/-! ## Index arithmetic of the program's views -/

/-- The whole rectangle places an index at itself. -/
theorem whole_emb {s : Shape} (x : s.Idx) : (Rect.whole s).emb x = x := by
  funext a; apply Fin.ext
  rw [Rect.emb_apply]
  show 0 + 1 * (x a).val = (x a).val
  omega

/-- One whole-shape piece written through a view: at the view's element `x` the piece's value there. -/
theorem writes_whole_emb {κ : Kind} {sp : Space} {s : Shape} {e : EltTy} (v : View sig κ sp s e) (g : v.ty.Contents (Elt F))
    (w : s.Idx → Elt F e) (x : s.Idx) :
    v.writes (Elt F) g [⟨Rect.whole s, w⟩] (v.emb x) = _root_.cast (congrArg (Elt F) v.elt_eq.symm) (w x) := by
  have h := View.write_emb_of_mem (v := v.slice (Rect.whole s)) g w (Finset.mem_univ x)
  rw [View.emb_slice, Function.Embedding.trans_apply, whole_emb] at h
  exact h

/-- A write of a whole buffer leaves the written values. -/
theorem writes_whole (buf : Ref sig .scVector) (f w : Buf (Elt F) ((thrV d L).loc buf)) :
    (Memref.whole buf : Memref sig .scVector _ _ _).view.writes (Elt F) f [⟨Rect.whole buf.ty.shape, w⟩] = w := by
  funext i
  exact writes_whole_emb (View.whole buf) f w i

/-- Where an entry of row `k` of the index scratch sits: column `y`. -/
theorem a8Row_emb1 (k : Fin 24) (h : ∀ a, (![k.val, 0] : Fin 2 → ℕ) a + S1x128.size a ≤ S24x128.size a) (y : S128.Idx) :
    ((a8Row ![k.val, 0] h).view.emb y 1).val = (y 0).val := by
  have hz : Shape.reshapeEquiv (s := S1x128) (s' := S128) squeezes_S1x128_S128.numel_eq y = Fin.cons ⟨0, Nat.one_pos⟩ y :=
    Shape.reshapeEquiv_cons_one _ y
  show ((Rect.unit (s := S24x128) ![k.val, 0] S1x128.size h).emb
    (Shape.reshapeEquiv (s := S1x128) (s' := S128) squeezes_S1x128_S128.numel_eq y) 1).val = _
  rw [hz, Rect.emb_apply]
  show 0 + 1 * (y 0).val = (y 0).val
  omega

/-- The word an offset list's entry holds: the index array's word at the tile's row `k`, the entry's column. -/
theorem a8_word (k : Fin 24) (h : ∀ a, (![k.val, 0] : Fin 2 → ℕ) a + S1x128.size a ≤ S24x128.size a) (y : S128.Idx) :
    (View.read (Elt F) (a8Row ![k.val, 0] h).view (A8c d IX L) y).toNat = ixWord d IX (wid L) k.val (y 0).val := by
  have hk := k.isLt
  have hy : (y 0).val < 128 := (y 0).isLt
  have hw32 := wid_lt L
  have hc : 24 * wid L + k.val < 768 ∧ (y 0).val < 128 := ⟨by omega, hy⟩
  unfold ixWord
  rw [dif_pos hc, View.read_apply, cast_eq]
  unfold A8c
  rw [View.read_apply, cast_eq]
  refine congrArg (fun z => BitVec.toNat (IX z)) ?_
  funext a; apply Fin.ext
  show ((ixRect L).emb ((a8Row ![k.val, 0] h).view.emb y) a).val = _
  rw [Rect.emb_apply]
  show k0_off1 L a + 1 * ((a8Row ![k.val, 0] h).view.emb y a).val = _
  rw [k0_off1_wid]
  match a with
  | 0 => rw [a8Row_emb0]; show 24 * wid L + 1 * k.val = 24 * wid L + k.val; omega
  | 1 => rw [a8Row_emb1]; show 0 + 1 * (y 0).val = (y 0).val; omega

/-- What a gather by row `k` of the index scratch lands: the table's rows the tile's index row `k` names. -/
theorem gather_val1 (k : Fin 24) (h : ∀ a, (![k.val, 0] : Fin 2 → ℕ) a + S1x128.size a ≤ S24x128.size a)
    (hg : S100000x128.Gathers 0 S128x128) (hn : S128.numel = S128x128.size hg.axis')
    (hin : ∀ x, (View.read (Elt F) (a8Row ![k.val, 0] h).view (A8c d IX L) x).toNat < S100000x128.size hg.axis) :
    SparseCore.gatherPayload hg (View.read (Elt F) (t1Sl).view T1) (SparseCore.rows (View.read (Elt F) (a8Row ![k.val, 0] h).view (A8c d IX L)) hn hin)
      = gRows d IX L T1 k.val := by
  funext x
  have ha : hg.axis = (0 : Fin S100000x128.rank) := Fin.ext rfl
  have ha' : hg.axis' = (0 : Fin S128x128.rank) := Fin.ext rfl
  -- the row the entry names
  have hr : ((SparseCore.rows (View.read (Elt F) (a8Row ![k.val, 0] h).view (A8c d IX L)) hn hin) (x hg.axis')).val
      = ixWord d IX (wid L) k.val (x 0).val := by
    unfold SparseCore.rows
    show (View.read (Elt F) (a8Row ![k.val, 0] h).view (A8c d IX L) (S128.rowMajor.symm ((x hg.axis').cast hn.symm))).toNat = _
    rw [a8_word]
    congr 1
    have e := Shape.rowMajor_val_one (d := ![128]) (S128.rowMajor.symm ((x hg.axis').cast hn.symm))
    rw [Equiv.apply_symm_apply] at e
    rw [← e]
    exact congrArg (fun i => (x i).val) ha'
  have hlt : ixWord d IX (wid L) k.val (x 0).val < 100000 := hr ▸ (SparseCore.rows _ hn hin (x hg.axis')).isLt
  unfold SparseCore.gatherPayload gRows tblAt
  rw [View.read_apply, cast_eq, dif_pos hlt]
  refine congrArg T1 ?_
  funext a; apply Fin.ext
  show ((Rect.unit (s := S100000x128) ![0, 0] S100000x128.size inb_S100000x128_S100000x128_0_0).emb (hg.idx _ x) a).val = _
  rw [Rect.emb_apply]
  match a with
  | 0 =>
    show 0 + 1 * (hg.idx _ x 0).val = ixWord d IX (wid L) k.val (x 0).val
    have h0 : (hg.idx (SparseCore.rows (View.read (Elt F) (a8Row ![k.val, 0] h).view (A8c d IX L)) hn hin) x 0).val
        = (hg.idx (SparseCore.rows (View.read (Elt F) (a8Row ![k.val, 0] h).view (A8c d IX L)) hn hin) x hg.axis).val :=
      congrArg (fun i => (hg.idx (SparseCore.rows (View.read (Elt F) (a8Row ![k.val, 0] h).view (A8c d IX L)) hn hin) x i).val) ha.symm
    rw [h0, Shape.Gathers.idx_axis, hr]; omega
  | 1 =>
    show 0 + 1 * (hg.idx _ x 1).val = (x 1).val
    rw [Shape.Gathers.idx_of_ne hg _ x 1 (by decide)]
    show 0 + 1 * (x 1).val = (x 1).val
    omega

theorem gather_val0 (k : Fin 24) (h : ∀ a, (![k.val, 0] : Fin 2 → ℕ) a + S1x128.size a ≤ S24x128.size a)
    (hg : S100000x128.Gathers 0 S128x128) (hn : S128.numel = S128x128.size hg.axis')
    (hin : ∀ x, (View.read (Elt F) (a8Row ![k.val, 0] h).view (A8c d IX L) x).toNat < S100000x128.size hg.axis) :
    SparseCore.gatherPayload hg (View.read (Elt F) (t0Sl).view T0) (SparseCore.rows (View.read (Elt F) (a8Row ![k.val, 0] h).view (A8c d IX L)) hn hin)
      = gRows d IX L T0 k.val := by
  funext x
  have ha : hg.axis = (0 : Fin S100000x128.rank) := Fin.ext rfl
  have ha' : hg.axis' = (0 : Fin S128x128.rank) := Fin.ext rfl
  -- the row the entry names
  have hr : ((SparseCore.rows (View.read (Elt F) (a8Row ![k.val, 0] h).view (A8c d IX L)) hn hin) (x hg.axis')).val
      = ixWord d IX (wid L) k.val (x 0).val := by
    unfold SparseCore.rows
    show (View.read (Elt F) (a8Row ![k.val, 0] h).view (A8c d IX L) (S128.rowMajor.symm ((x hg.axis').cast hn.symm))).toNat = _
    rw [a8_word]
    congr 1
    have e := Shape.rowMajor_val_one (d := ![128]) (S128.rowMajor.symm ((x hg.axis').cast hn.symm))
    rw [Equiv.apply_symm_apply] at e
    rw [← e]
    exact congrArg (fun i => (x i).val) ha'
  have hlt : ixWord d IX (wid L) k.val (x 0).val < 100000 := hr ▸ (SparseCore.rows _ hn hin (x hg.axis')).isLt
  unfold SparseCore.gatherPayload gRows tblAt
  rw [View.read_apply, cast_eq, dif_pos hlt]
  refine congrArg T0 ?_
  funext a; apply Fin.ext
  show ((Rect.unit (s := S100000x128) ![0, 0] S100000x128.size inb_S100000x128_S100000x128_0_0).emb (hg.idx _ x) a).val = _
  rw [Rect.emb_apply]
  match a with
  | 0 =>
    show 0 + 1 * (hg.idx _ x 0).val = ixWord d IX (wid L) k.val (x 0).val
    have h0 : (hg.idx (SparseCore.rows (View.read (Elt F) (a8Row ![k.val, 0] h).view (A8c d IX L)) hn hin) x 0).val
        = (hg.idx (SparseCore.rows (View.read (Elt F) (a8Row ![k.val, 0] h).view (A8c d IX L)) hn hin) x hg.axis).val :=
      congrArg (fun i => (hg.idx (SparseCore.rows (View.read (Elt F) (a8Row ![k.val, 0] h).view (A8c d IX L)) hn hin) x i).val) ha.symm
    rw [h0, Shape.Gathers.idx_axis, hr]; omega
  | 1 =>
    show 0 + 1 * (hg.idx _ x 1).val = (x 1).val
    rw [Shape.Gathers.idx_of_ne hg _ x 1 (by decide)]
    show 0 + 1 * (x 1).val = (x 1).val
    omega

/-- What a copy-out of the rows gathered for draw `j` leaves in the draw's block: the third result's values there. -/
theorem block_val2 (j : Fin 20) (buf : Ref sig .scVector) (hb : buf.ty = ⟨S128x128, .f32⟩) (g : Buf (Elt F) (o2Loc d))
    (w : S128x128.Idx → Elt F .f32) (hw : w = gRows d IX L T1 (2 + j.val)) :
    ∀ i ∈ (negSl L j).view.set, ((negSl L j).view.writes (Elt F) g [⟨Rect.whole (negRect L j).shape, w⟩]) i = gV2 d T1 IX i := by
  intro i hi
  subst hw
  have hi' : i ∈ (negRect L j).set := by
    rw [show (negSl L j).view.set = (negRect L j).set from View.set_slice_whole _ _] at hi; exact hi
  obtain ⟨x, rfl⟩ := (negRect L j).exists_idx_of_mem hi'
  refine (writes_whole_emb (negSl L j).view g (gRows d IX L T1 (2 + j.val)) x).trans ?_
  rw [cast_eq]
  have hx0 : (x 0).val < 128 := (x 0).isLt
  have hw32 := wid_lt L
  have hj := j.isLt
  have e0 : (((negRect L j).emb x) 0).val = 128 * wid L + 4096 * j.val + (x 0).val := by
    rw [Rect.emb_apply]; show 128 * wid L + 4096 * j.val + 1 * (x 0).val = _; omega
  have e1 : ((negRect L j).emb x) 1 = x 1 := by
    apply Fin.ext; rw [Rect.emb_apply]; show 0 + 1 * (x 1).val = _; omega
  show tblAt (F := F) T1 (ixWord d IX (wid L) (2 + j.val) (x 0).val) (x 1)
    = tblAt (F := F) T1 (ixWord d IX ((((negRect L j).emb x) 0).val % 4096 / 128) (2 + (((negRect L j).emb x) 0).val / 4096) ((((negRect L j).emb x) 0).val % 128)) (((negRect L j).emb x) 1)
  rw [e1, e0, show (128 * wid L + 4096 * j.val + (x 0).val) % 4096 / 128 = wid L by omega,
    show (128 * wid L + 4096 * j.val + (x 0).val) / 4096 = j.val by omega,
    show (128 * wid L + 4096 * j.val + (x 0).val) % 128 = (x 0).val by omega]

theorem block_val0 (g : Buf (Elt F) (o0Loc d)) (w : S128x128.Idx → Elt F .f32) (hw : w = gRows d IX L T0 0) :
    ∀ i ∈ (o0Sl L).view.set, ((o0Sl L).view.writes (Elt F) g [⟨Rect.whole (oRect L).shape, w⟩]) i = gV0 d T0 IX i := by
  intro i hi
  subst hw
  have hi' : i ∈ (oRect L).set := by
    rw [show (o0Sl L).view.set = (oRect L).set from View.set_slice_whole _ _] at hi; exact hi
  obtain ⟨x, rfl⟩ := (oRect L).exists_idx_of_mem hi'
  refine (writes_whole_emb (o0Sl L).view g (gRows d IX L T0 0) x).trans ?_
  rw [cast_eq]
  have hx0 : (x 0).val < 128 := (x 0).isLt
  have hw32 := wid_lt L
  have e0 : (((oRect L).emb x) 0).val = 128 * wid L + (x 0).val := by
    rw [Rect.emb_apply]; show k0_off7 L 0 + 1 * (x 0).val = _
    rw [k0_off7_wid]; show 128 * wid L + 1 * (x 0).val = _; omega
  have e1 : ((oRect L).emb x) 1 = x 1 := by
    apply Fin.ext; rw [Rect.emb_apply]; show k0_off7 L 1 + 1 * (x 1).val = _
    rw [k0_off7_wid]; show 0 + 1 * (x 1).val = _; omega
  show tblAt (F := F) T0 (ixWord d IX (wid L) 0 (x 0).val) (x 1)
    = tblAt (F := F) T0 (ixWord d IX ((((oRect L).emb x) 0).val / 128) 0 ((((oRect L).emb x) 0).val % 128)) (((oRect L).emb x) 1)
  rw [e1, e0, show (128 * wid L + (x 0).val) / 128 = wid L by omega, show (128 * wid L + (x 0).val) % 128 = (x 0).val by omega]

theorem block_val1 (g : Buf (Elt F) (o1Loc d)) (w : S128x128.Idx → Elt F .f32) (hw : w = gRows d IX L T1 1) :
    ∀ i ∈ (o1Sl L).view.set, ((o1Sl L).view.writes (Elt F) g [⟨Rect.whole (oRect L).shape, w⟩]) i = gV1 d T1 IX i := by
  intro i hi
  subst hw
  have hi' : i ∈ (oRect L).set := by
    rw [show (o1Sl L).view.set = (oRect L).set from View.set_slice_whole _ _] at hi; exact hi
  obtain ⟨x, rfl⟩ := (oRect L).exists_idx_of_mem hi'
  refine (writes_whole_emb (o1Sl L).view g (gRows d IX L T1 1) x).trans ?_
  rw [cast_eq]
  have hx0 : (x 0).val < 128 := (x 0).isLt
  have hw32 := wid_lt L
  have e0 : (((oRect L).emb x) 0).val = 128 * wid L + (x 0).val := by
    rw [Rect.emb_apply]; show k0_off7 L 0 + 1 * (x 0).val = _
    rw [k0_off7_wid]; show 128 * wid L + 1 * (x 0).val = _; omega
  have e1 : ((oRect L).emb x) 1 = x 1 := by
    apply Fin.ext; rw [Rect.emb_apply]; show k0_off7 L 1 + 1 * (x 1).val = _
    rw [k0_off7_wid]; show 0 + 1 * (x 1).val = _; omega
  show tblAt (F := F) T1 (ixWord d IX (wid L) 1 (x 0).val) (x 1)
    = tblAt (F := F) T1 (ixWord d IX ((((oRect L).emb x) 0).val / 128) 1 ((((oRect L).emb x) 0).val % 128)) (((oRect L).emb x) 1)
  rw [e1, e0, show (128 * wid L + (x 0).val) / 128 = wid L by omega, show (128 * wid L + (x 0).val) % 128 = (x 0).val by omega]

end Cert.Proof.KI

end
-- ==== Proof.KI_TileEpi.lean ====
/-
  The end of the gather kernel on a tile: segments of index families that run to the end, and a block of the third
  result once the copy-out of a draw's rows has written it.
-/
import proofs.«215899_g5772436046013_cont_9to1c4b_742_31_alg».proof.Proof.KI_TileVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section Epi

variable (d : Dev nD) (T0 : Buf (Elt F) (t0Loc d)) (T1 : Buf (Elt F) (t1Loc d)) (IX : Buf (Elt F) (ixLoc d)) (L : grid0.Coords)

/-- A middle segment that runs to the end is a final segment. -/
theorem bigSep_mid_top {N : ℕ} (Φ : Fin N → sProp 𝕄) (a : ℕ) :
    bigSep (Finset.univ.filter fun k : Fin N => a ≤ k.val ∧ k.val < N) Φ = bigSep (Finset.univ.filter fun k : Fin N => a ≤ k.val) Φ := by
  congr 1; ext k; simp

/-- A block of the third result the copy-out of draw `j`'s rows has written, in the program's spelling of the block,
    is the block at the third result's values. -/
theorem blk_done (j : Fin 20) (off : Fin 2 → ℕ) (h : ∀ a, off a + S128x128.size a ≤ S81920x128.size a) (hoff : off = negOff L j.val)
    (g : Buf (Elt F) (o2Loc d)) (w : S128x128.Idx → Elt F .f32) (hw : w = gRows d IX L T1 (2 + j.val)) :
    (View.loc (thrV d L) ((o2V).slice (Rect.unit (s := S81920x128) off S128x128.size h) (fun _ => rfl)).view
        ↦[((o2V).slice (Rect.unit (s := S81920x128) off S128x128.size h) (fun _ => rfl)).view.set]{fullShare}
        ((o2V).slice (Rect.unit (s := S81920x128) off S128x128.size h) (fun _ => rfl)).view.writes (Elt F) g
          [⟨Rect.whole (Rect.unit (s := S81920x128) off S128x128.size h).shape, w⟩] : sProp 𝕄)
      ⊢ (o2Loc d ↦[(negSl L j).view.set]{fullShare} gV2 d T1 IX) := by
  subst hoff
  exact Entails.of_eq (pointsTo_congr (block_val2 (F := F) d T1 IX L j cc0_scratch3 rfl g w hw))

end Epi

end Cert.Proof.KI

end
-- ==== Proof.KI_Tile.lean ====
/-
  The gather kernel of call 0 on one vector subcore, as the launch theorem's obligation: the kernel's run at a
  symbolic tile from the tile's resources to its results, and the obligation in the launch theorem's own spelling.
-/
import proofs.«215899_g5772436046013_cont_9to1c4b_742_31_alg».proof.Proof.KI_TileEpi

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section Intro

variable (d : Dev nD) (T0 : Buf (Elt F) (t0Loc d)) (T1 : Buf (Elt F) (t1Loc d)) (IX : Buf (Elt F) (ixLoc d)) (L : grid0.Coords)

/-- A gather's flight as the run leaves it is the invariant's, the landed rows in closed form. -/
theorem gFl_intro (cell : DmaSem sig) (tok : ℕ) (buf : Ref sig .scVector) (row : Fin 24) (off : Fin 2 → ℕ)
    (h : ∀ a, off a + S1x128.size a ≤ S24x128.size a) (hoff : off = ![row.val, 0])
    (c0 cont : Buf (Elt F) ((thrV d L).loc buf)) (hc : c0 = cont) :
    Transfers.Flight countersEmb (thrV d L) (SemLoc.dma cell) (default : HIx 4) 524288
      iprop(((View.loc (thrV d L) (Memref.whole buf).view ↦{fullShare} c0)
          ∗ View.loc (thrV d L) (a8Row off h).view ↦[(a8Row off h).view.set]{fullShare} A8c d IX L)
        ∗ View.loc (thrV d L) (t1V).view ↦[(t1Sl).view.set]{Transfers.shareTokN (tblShare L) tok} T1)
      ⊢ (gFl d T1 IX L cell tok buf row cont : sProp 𝕄) := by
  subst hoff hc; exact .rfl

/-- A copy-out's flight as the run leaves it is the invariant's, the block at the third result's values. -/
theorem wFl_intro (cell : DmaSem sig) (buf : Ref sig .scVector) (j : Fin 20) (off : Fin 2 → ℕ)
    (h : ∀ a, off a + S128x128.size a ≤ S81920x128.size a) (hoff : off = negOff L j.val)
    (b0 bcont : Buf (Elt F) (o2Loc d)) (hb : ∀ i ∈ (negSl L j).view.set, b0 i = bcont i)
    (c0 cont : Buf (Elt F) ((thrV d L).loc buf)) (hc : c0 = cont) :
    Transfers.Flight countersEmb (thrV d L) (SemLoc.dma cell) (default : HIx 4) 524288
      iprop((View.loc (thrV d L) ((o2V).slice (Rect.unit (s := S81920x128) off S128x128.size h) (fun _ => rfl)).view
            ↦[((o2V).slice (Rect.unit (s := S81920x128) off S128x128.size h) (fun _ => rfl)).view.set]{fullShare} b0)
        ∗ View.loc (thrV d L) (Memref.whole buf).view ↦[(Memref.whole buf : Memref sig .scVector _ _ _).view.set]{fullShare} c0)
      ⊢ (wFl d L cell buf j bcont cont : sProp 𝕄) := by
  subst hoff hc
  refine Transfers.Flight_mono countersEmb (thrV d L) ?_
  rw [show (View.loc (thrV d L) ((o2V).slice (Rect.unit (s := S81920x128) (negOff L j.val) S128x128.size h) (fun _ => rfl)).view
            ↦[((o2V).slice (Rect.unit (s := S81920x128) (negOff L j.val) S128x128.size h) (fun _ => rfl)).view.set]{fullShare} b0 : sProp 𝕄)
        = (View.loc (thrV d L) (negSl L j).view ↦[(negSl L j).view.set]{fullShare} bcont) from pointsTo_congr hb]

/-- The first done row at the loop's entry. -/
theorem rows_done0 (c : Buf (Elt F) (a8Loc d L)) (h2 : 2 < 24) :
    (a8Loc d L ↦[a8RowSet ⟨2, h2⟩]{fullShare} c : sProp 𝕄)
      ⊢ bigSep (Finset.univ.filter fun k : Fin 24 => 2 ≤ k.val ∧ k.val < 4 * 0 + 3) fun k => a8Loc d L ↦[a8RowSet k]{fullShare} c := by
  rw [show (Finset.univ.filter fun k : Fin 24 => 2 ≤ k.val ∧ k.val < 4 * 0 + 3) = {⟨2, h2⟩} from
    Finset.ext fun k => by simp only [Finset.mem_filter, Finset.mem_univ, true_and, Finset.mem_singleton, Fin.ext_iff]; omega, bigSep_singleton]

/-- No block is written at the loop's entry. -/
theorem blks_done0 (c : Buf (Elt F) (o2Loc d)) :
    (iprop(emp) : sProp 𝕄)
      ⊢ bigSep (Finset.univ.filter fun j : Fin 20 => 0 ≤ j.val ∧ j.val < 4 * 0) fun j => o2Loc d ↦[(negSl L j).view.set]{fullShare} c := by
  rw [show (Finset.univ.filter fun j : Fin 20 => 0 ≤ j.val ∧ j.val < 4 * 0) = ∅ from by decide, bigSep_empty]
  exact .rfl

end Intro

section Intro2

variable (d : Dev nD) (T0 : Buf (Elt F) (t0Loc d)) (T1 : Buf (Elt F) (t1Loc d)) (IX : Buf (Elt F) (ixLoc d)) (L : grid0.Coords)

theorem rowF_eq (n : ℕ) (h : n < 24) : rowF n = ⟨n, h⟩ := Fin.ext (Nat.mod_eq_of_lt h)
theorem blkF_eq (n : ℕ) (h : n < 20) : blkF n = ⟨n, h⟩ := Fin.ext (Nat.mod_eq_of_lt h)

theorem bigSep_from_congr {N : ℕ} (Φ : Fin N → sProp 𝕄) {n n' : ℕ} (h : n = n') :
    bigSep (Finset.univ.filter fun k : Fin N => n ≤ k.val) Φ = bigSep (Finset.univ.filter fun k : Fin N => n' ≤ k.val) Φ := by
  subst h; rfl
theorem bigSep_mid_congr {N : ℕ} (Φ : Fin N → sProp 𝕄) (a : ℕ) {n n' : ℕ} (h : n = n') :
    bigSep (Finset.univ.filter fun k : Fin N => a ≤ k.val ∧ k.val < n) Φ = bigSep (Finset.univ.filter fun k : Fin N => a ≤ k.val ∧ k.val < n') Φ := by
  subst h; rfl

/-- Four more go into a middle segment. -/
theorem mid_push4 {N : ℕ} (Φ : Fin N → sProp 𝕄) (a n m : ℕ) (h0 : n < N) (h1 : n + 1 < N) (h2 : n + 1 + 1 < N) (h3 : n + 1 + 1 + 1 < N)
    (han : a ≤ n) (hm : m = n + 1 + 1 + 1 + 1) :
    iprop((bigSep (Finset.univ.filter fun k : Fin N => a ≤ k.val ∧ k.val < n) Φ) ∗ Φ ⟨n, h0⟩ ∗ Φ ⟨n + 1, h1⟩ ∗ Φ ⟨n + 1 + 1, h2⟩ ∗ Φ ⟨n + 1 + 1 + 1, h3⟩)
      ⊢ bigSep (Finset.univ.filter fun k : Fin N => a ≤ k.val ∧ k.val < m) Φ := by
  subst hm
  rw [bigSep_mid_push (F := F) Φ a (n + 1 + 1 + 1) h3 (by omega), bigSep_mid_push (F := F) Φ a (n + 1 + 1) h2 (by omega),
    bigSep_mid_push (F := F) Φ a (n + 1) h1 (by omega), bigSep_mid_push (F := F) Φ a n h0 han]
  iintro ⟨H, H0, H1, H2, H3⟩
  isplitl [H3]; · iexact H3
  isplitl [H2]; · iexact H2
  isplitl [H1]; · iexact H1
  isplitl [H0]; · iexact H0
  iexact H

/-- What a gather by an index row lands, the row taken at any spelling of its offset. -/
theorem gather_val1' (off : Fin 2 → ℕ) (h : ∀ a, off a + S1x128.size a ≤ S24x128.size a) (kk : Fin 24) (hoff : off = ![kk.val, 0])
    (hg : S100000x128.Gathers 0 S128x128) (hn : S128.numel = S128x128.size hg.axis')
    (hin : ∀ x, (View.read (Elt F) (a8Row off h).view (A8c d IX L) x).toNat < S100000x128.size hg.axis) :
    SparseCore.gatherPayload hg (View.read (Elt F) (t1Sl).view T1) (SparseCore.rows (View.read (Elt F) (a8Row off h).view (A8c d IX L)) hn hin)
      = gRows d IX L T1 kk.val := by
  subst hoff; exact gather_val1 (F := F) d T1 IX L kk h hg hn hin

/-- A block written whole with the rows gathered for its draw holds the third result's values. -/
theorem blk_intro (j : Fin 20) (off : Fin 2 → ℕ) (h : ∀ a, off a + S128x128.size a ≤ S81920x128.size a) (hoff : off = negOff L j.val)
    (g : Buf (Elt F) (o2Loc d)) (w : S128x128.Idx → Elt F .f32) (hw : w = gRows d IX L T1 (2 + j.val)) :
    (View.loc (thrV d L) ((o2V).slice (Rect.unit (s := S81920x128) off S128x128.size h) (fun _ => rfl)).view
        ↦[((o2V).slice (Rect.unit (s := S81920x128) off S128x128.size h) (fun _ => rfl)).view.set]{fullShare}
        (((o2V).slice (Rect.unit (s := S81920x128) off S128x128.size h) (fun _ => rfl)).view.writes (Elt F) g
          [⟨Rect.whole (Rect.unit (s := S81920x128) off S128x128.size h).shape, w⟩]) : sProp 𝕄)
      ⊢ (o2Loc d ↦[(negSl L j).view.set]{fullShare} gV2 d T1 IX) := by
  subst hoff
  exact Entails.of_eq (pointsTo_congr (block_val2 (F := F) d T1 IX L j cc0_scratch3 rfl g w hw))

/-- The same inside a copy-out's flight. -/
theorem wFl_intro' (cell : DmaSem sig) (buf : Ref sig .scVector) (j : Fin 20) (off : Fin 2 → ℕ)
    (h : ∀ a, off a + S128x128.size a ≤ S81920x128.size a) (hoff : off = negOff L j.val)
    (g : Buf (Elt F) (o2Loc d)) (w : S128x128.Idx → Elt F .f32) (hw : w = gRows d IX L T1 (2 + j.val))
    (cont : Buf (Elt F) ((thrV d L).loc buf)) :
    Transfers.Flight countersEmb (thrV d L) (SemLoc.dma cell) (default : HIx 4) 524288
      iprop((View.loc (thrV d L) ((o2V).slice (Rect.unit (s := S81920x128) off S128x128.size h) (fun _ => rfl)).view
            ↦[((o2V).slice (Rect.unit (s := S81920x128) off S128x128.size h) (fun _ => rfl)).view.set]{fullShare}
            (((o2V).slice (Rect.unit (s := S81920x128) off S128x128.size h) (fun _ => rfl)).view.writes (Elt F) g
              [⟨Rect.whole (Rect.unit (s := S81920x128) off S128x128.size h).shape, w⟩]))
        ∗ View.loc (thrV d L) (Memref.whole buf).view ↦[(Memref.whole buf : Memref sig .scVector _ _ _).view.set]{fullShare} cont)
      ⊢ (wFl d L cell buf j (gV2 d T1 IX) cont : sProp 𝕄) := by
  refine Transfers.Flight_mono countersEmb (thrV d L) ?_
  iintro ⟨Hb, Hc⟩
  isplitl [Hb]
  · iapply (blk_intro (F := F) d T1 IX L j off h hoff g w hw); iexact Hb
  · iexact Hc

end Intro2

section Intro3

variable (d : Dev nD) (T1 : Buf (Elt F) (t1Loc d)) (IX : Buf (Elt F) (ixLoc d)) (L : grid0.Coords)

theorem row_reidx (c : Buf (Elt F) (a8Loc d L)) (i j : Fin 24) (e : i = j) :
    (a8Loc d L ↦[a8RowSet i]{fullShare} c : sProp 𝕄) ⊢ (a8Loc d L ↦[a8RowSet j]{fullShare} c) := by
  subst e; exact .rfl

theorem blk_reidx (c : Buf (Elt F) (o2Loc d)) (i j : Fin 20) (e : i = j) :
    (View.loc (thrV d L) (negSl L i).view ↦[(negSl L i).view.set]{fullShare} c : sProp 𝕄) ⊢ (o2Loc d ↦[(negSl L j).view.set]{fullShare} c) := by
  subst e; exact .rfl

theorem pts_a8Row_congr {off off' : Fin 2 → ℕ} (e : off = off') (h : ∀ a, off a + S1x128.size a ≤ S24x128.size a)
    (h' : ∀ a, off' a + S1x128.size a ≤ S24x128.size a) (f : Buf (Elt F) (a8Loc d L)) :
    (View.loc (thrV d L) (a8Row off h).view ↦[(a8Row off h).view.set]{fullShare} f : sProp 𝕄)
      = (View.loc (thrV d L) (a8Row off' h').view ↦[(a8Row off' h').view.set]{fullShare} f) := by
  subst e; rfl

theorem wFl_unfold (cell : DmaSem sig) (buf : Ref sig .scVector) (j : Fin 20) (b : Buf (Elt F) (o2Loc d)) (c : Buf (Elt F) ((thrV d L).loc buf)) :
    (wFl d L cell buf j b c : sProp 𝕄) = Transfers.Flight countersEmb (thrV d L) (SemLoc.dma cell) (default : HIx 4) 524288
      iprop((View.loc (thrV d L) (negSl L j).view ↦[(negSl L j).view.set]{fullShare} b)
        ∗ View.loc (thrV d L) (Memref.whole buf).view ↦[(Memref.whole buf : Memref sig .scVector _ _ _).view.set]{fullShare} c) := rfl

end Intro3

/-! ## The kernel at a symbolic tile -/

section Body

variable (d : Dev nD) (T0 : Buf (Elt F) (t0Loc d)) (T1 : Buf (Elt F) (t1Loc d)) (IX : Buf (Elt F) (ixLoc d))

set_option maxHeartbeats 4000000 in
/-- The gather kernel on the vector subcore at `L`: from what the tile is handed and its own scratch storage to what
    it hands back, every wait admissible under what the tile owes the launch. The index copy-in lands the tile's 24
    index rows; each gather reads a table by one of those rows, on its own semaphore and read token; the ring's
    loop keeps the invariant `inv`; every block copied out holds the result's values. -/
theorem tile_body0 (hF : (K (F := F)).Facts) (hIX : IXOK d IX) (L : grid0.Coords) (O : CellTallies nD τ sig (HIx 4)) (W : Waits sig (HIx 4)) (hO : ∀ g, O g none = 0) :
    iprop(levAts (K (F := F)).L (K (F := F)).lev ∗ emp ∗ goResL d T0 T1 IX L
        ∗ scopedBufs (thrV d L) ∗ scopedSems0 (thrV d L) ∗ owes (thrV d L) O W)
      ⊢ wp frame (wpE (defs₀ (F := F)) 𝒱₀ (thrV d L) none) Set.univ
          (cc0__sc_gather L t0V (Memref.isWhole_whole _) t1V (Memref.isWhole_whole _) ixV (Memref.isWhole_whole _) o0V (Memref.isWhole_whole _) o1V (Memref.isWhole_whole _) o2V (Memref.isWhole_whole _)
            a8 (Memref.isWhole_whole _) bC (Memref.isWhole_whole _) bP (Memref.isWhole_whole _) rb0 (Memref.isWhole_whole _) rb1 (Memref.isWhole_whole _) rb2 (Memref.isWhole_whole _) rb3 (Memref.isWhole_whole _)
            cc0_scratch7 cc0_scratch8 cc0_scratch9 cc0_scratch10 cc0_scratch11 cc0_scratch12 cc0_scratch13 cc0_scratch14 cc0_scratch15 cc0_scratch16 cc0_scratch17 cc0_scratch18 cc0_scoped0)
          fun _ => iprop(tdResL d T0 T1 IX L ∗ scopedBufs (thrV d L) ∗ scopedSems0 (thrV d L)
            ∗ ∃ W', ⌜∀ p ∈ W', p ∈ W ∨ p.2 = none⌝ ∗ owes (thrV d L) O W') := by
  simp only [cc0__sc_gather_eq_skeleton]; unfold cc0__sc_gather_skel
  rw [(K (F := F)).scopedBufs_V hF d (cV L) (jV L), SparseCore.Cfg.scopedSems0_V (Val := Elt F) d (cV L) (jV L), ownSems0_V, ownBufs_V]
  unfold goResL
  iintro ⟨#Hlv, -, ⟨Ht0, Ht1, Hix, ⟨%f0, Ho0⟩, ⟨%f1, Ho1⟩, Hneg⟩,
    ⟨⟨⟨%fa8, Ha8⟩, ⟨%fbC, HbC⟩, ⟨%fbP, HbP⟩, ⟨%f0', Hr0⟩, ⟨%f1', Hr1⟩, ⟨%f2', Hr2⟩, ⟨%f3', Hr3⟩⟩, Hbufs⟩,
    ⟨⟨Hs0, Hs7, Hs8, Hs9, Hs10, Hs11, Hs12, Hs13, Hs14, Hs15, Hs16, Hs17, Hs18⟩, Hsems⟩, HO⟩
  ihave Hmw := ((K (F := F)).mayWaits_none (thr := thrV d L) hO) $$ Hlv
  -- the arrays as the tile's memrefs address them; the second table's share, one read token per semaphore
  ihave Ht0 := (Entails.of_eq (pts_t0 (F := F) d L _ _).symm) $$ Ht0
  ihave Ht1 := (toks8_split (F := F) (tblShare L) T1) $$ Ht1
  icases Ht1 with ⟨Hq8, Hq7, Hq6, Hq5, Hq4, Hq3, Hq2, Hq1, Hq0⟩
  ihave Hq1 := (Entails.of_eq (pts_t1 (F := F) d L _ _).symm) $$ Hq1
  ihave Hq4 := (Entails.of_eq (pts_t1 (F := F) d L _ _).symm) $$ Hq4
  ihave Hq5 := (Entails.of_eq (pts_t1 (F := F) d L _ _).symm) $$ Hq5
  ihave Hq6 := (Entails.of_eq (pts_t1 (F := F) d L _ _).symm) $$ Hq6
  ihave Hq7 := (Entails.of_eq (pts_t1 (F := F) d L _ _).symm) $$ Hq7
  ihave Hix := (Entails.of_eq (pts_ix (F := F) d L _).symm) $$ Hix
  ihave Ho0 := (Entails.of_eq (pts_o0 (F := F) d L _).symm) $$ Ho0
  ihave Ho1 := (Entails.of_eq (pts_o1 (F := F) d L _).symm) $$ Ho1
  ihave Ha8 := (Entails.of_eq (pts_scr (F := F) d L cc0_scratch0 _).symm) $$ Ha8
  ihave HbC := (Entails.of_eq (pts_scr (F := F) d L cc0_scratch1 _).symm) $$ HbC
  ihave HbP := (Entails.of_eq (pts_scr (F := F) d L cc0_scratch2 _).symm) $$ HbP
  ihave Hr0 := (Entails.of_eq (pts_scr (F := F) d L cc0_scratch3 _).symm) $$ Hr0
  ihave Hr1 := (Entails.of_eq (pts_scr (F := F) d L cc0_scratch4 _).symm) $$ Hr1
  ihave Hr2 := (Entails.of_eq (pts_scr (F := F) d L cc0_scratch5 _).symm) $$ Hr2
  ihave Hr3 := (Entails.of_eq (pts_scr (F := F) d L cc0_scratch6 _).symm) $$ Hr3

  sl_exec
  -- the index scratch now holds the tile's 24 rows of the index array; row by row
  have hA8 : (View.write (Elt F) (a8 : Memref sig .scVector .vmem S24x128 .i32).view fa8 (tile_body0.sl.dma0 d IX L) Finset.univ) = A8c d IX L := by
    exact (View.write_whole_univ (Val := Elt F) cc0_scratch0 fa8 _).trans rfl
  rw [hA8]
  have h0 : (0 : ℕ) < 24 := by decide
  have h1 : (1 : ℕ) < 24 := by decide
  have h2 : (2 : ℕ) < 24 := by decide
  have h3 : (3 : ℕ) < 24 := by decide
  have h4 : (4 : ℕ) < 24 := by decide
  have h5 : (5 : ℕ) < 24 := by decide
  have hb0 : (0 : ℕ) < 20 := by decide
  ihave Ha8 := (Entails.of_eq (pts_scr (F := F) d L cc0_scratch0 _)) $$ Ha8
  ihave Hrows := (Entails.of_eq (a8_rows (F := F) d L _)) $$ Ha8
  ihave Hrows := (Entails.of_eq (bigSep_from_zero (F := F) _).symm) $$ Hrows
  ihave H := (Entails.of_eq (bigSep_from_pop (F := F) _ 0 h0)) $$ Hrows; icases H with ⟨Hw0, Hrows⟩
  ihave H := (Entails.of_eq (bigSep_from_pop (F := F) _ 1 h1)) $$ Hrows; icases H with ⟨Hw1, Hrows⟩
  ihave H := (Entails.of_eq (bigSep_from_pop (F := F) _ 2 h2)) $$ Hrows; icases H with ⟨Hw2, Hrows⟩
  ihave H := (Entails.of_eq (bigSep_from_pop (F := F) _ 3 h3)) $$ Hrows; icases H with ⟨Hw3, Hrows⟩
  ihave H := (Entails.of_eq (bigSep_from_pop (F := F) _ 4 h4)) $$ Hrows; icases H with ⟨Hw4, Hrows⟩
  ihave H := (Entails.of_eq (bigSep_from_pop (F := F) _ 5 h5)) $$ Hrows; icases H with ⟨Hw5, Hrows⟩
  ihave Hw0 := (Entails.of_eq (pts_a8Row (F := F) d L ⟨0, h0⟩ ![0, 0] (rowInb ⟨0, h0⟩) rfl _).symm) $$ Hw0
  ihave Hw1 := (Entails.of_eq (pts_a8Row (F := F) d L ⟨1, h1⟩ ![1, 0] (rowInb ⟨1, h1⟩) rfl _).symm) $$ Hw1
  ihave Hw2 := (Entails.of_eq (pts_a8Row (F := F) d L ⟨2, h2⟩ ![2, 0] (rowInb ⟨2, h2⟩) rfl _).symm) $$ Hw2
  ihave Hw3 := (Entails.of_eq (pts_a8Row (F := F) d L ⟨3, h3⟩ ![3, 0] (rowInb ⟨3, h3⟩) rfl _).symm) $$ Hw3
  ihave Hw4 := (Entails.of_eq (pts_a8Row (F := F) d L ⟨4, h4⟩ ![4, 0] (rowInb ⟨4, h4⟩) rfl _).symm) $$ Hw4
  ihave Hw5 := (Entails.of_eq (pts_a8Row (F := F) d L ⟨5, h5⟩ ![5, 0] (rowInb ⟨5, h5⟩) rfl _).symm) $$ Hw5
  have hin0 := hin_rows (F := F) d IX L hIX ⟨0, h0⟩ ![0, 0] (rowInb ⟨0, h0⟩) rfl (by show (0 : ℕ) < 22; decide)
  have hin1 := hin_rows (F := F) d IX L hIX ⟨1, h1⟩ ![1, 0] (rowInb ⟨1, h1⟩) rfl (by show (1 : ℕ) < 22; decide)
  have hin2 := hin_rows (F := F) d IX L hIX ⟨2, h2⟩ ![2, 0] (rowInb ⟨2, h2⟩) rfl (by show (2 : ℕ) < 22; decide)
  have hin3 := hin_rows (F := F) d IX L hIX ⟨3, h3⟩ ![3, 0] (rowInb ⟨3, h3⟩) rfl (by show (3 : ℕ) < 22; decide)
  have hin4 := hin_rows (F := F) d IX L hIX ⟨4, h4⟩ ![4, 0] (rowInb ⟨4, h4⟩) rfl (by show (4 : ℕ) < 22; decide)
  have hin5 := hin_rows (F := F) d IX L hIX ⟨5, h5⟩ ![5, 0] (rowInb ⟨5, h5⟩) rfl (by show (5 : ℕ) < 22; decide)
  -- draw 0's block of the third result
  ihave Hneg := (Entails.of_eq (bigSep_from_zero (F := F) _).symm) $$ Hneg
  ihave H := (Entails.of_eq (bigSep_from_pop (F := F) _ 0 hb0)) $$ Hneg; icases H with ⟨⟨%g0, Hb0⟩, Hneg⟩
  ihave Hb0 := (Entails.of_eq (pts_negOff (F := F) d L (k0_off2_neg L 0 0 rfl) (k0_off2_inb L 0) (negOff_inb L ⟨0, hb0⟩) _).symm) $$ Hb0
  sl_exec

  -- ── the ring at the loop's entry: the invariant at trip 0 ──
  have hc3 : (rb1).view.writes (Elt F) f1' [⟨Rect.whole cc0_scratch4.ty.shape, tile_body0.sl.gather3 d T1 IX L h3 hin3⟩] = gRows d IX L T1 (4 * 0 + 3) :=
    (writes_whole (F := F) d L cc0_scratch4 f1' _).trans (gather_val1 (F := F) d T1 IX L ⟨3, h3⟩ (rowInb ⟨3, h3⟩) gathers_S100000x128_S128x128 (by decide) hin3)
  have hc4 : (rb2).view.writes (Elt F) f2' [⟨Rect.whole cc0_scratch5.ty.shape, tile_body0.sl.gather4 d T1 IX L h4 hin4⟩] = gRows d IX L T1 (4 * 0 + 4) :=
    (writes_whole (F := F) d L cc0_scratch5 f2' _).trans (gather_val1 (F := F) d T1 IX L ⟨4, h4⟩ (rowInb ⟨4, h4⟩) gathers_S100000x128_S128x128 (by decide) hin4)
  have hc5 : (rb3).view.writes (Elt F) f3' [⟨Rect.whole cc0_scratch6.ty.shape, tile_body0.sl.gather5 d T1 IX L h5 hin5⟩] = gRows d IX L T1 (4 * 0 + 5) :=
    (writes_whole (F := F) d L cc0_scratch6 f3' _).trans (gather_val1 (F := F) d T1 IX L ⟨5, h5⟩ (rowInb ⟨5, h5⟩) gathers_S100000x128_S128x128 (by decide) hin5)
  have hc2 : (rb0).view.writes (Elt F) f0' [⟨Rect.whole cc0_scratch3.ty.shape, tile_body0.sl.gather2 d T1 IX L h2 hin2⟩] = gRows d IX L T1 (4 * 0 + 2) :=
    (writes_whole (F := F) d L cc0_scratch3 f0' _).trans (gather_val1 (F := F) d T1 IX L ⟨2, h2⟩ (rowInb ⟨2, h2⟩) gathers_S100000x128_S128x128 (by decide) hin2)
  have hw0 : tile_body0.sl.dma0_1 d T1 IX L f0' h2 hin2 = gRows d IX L T1 (2 + (blkF (4 * 0)).val) := by
    unfold tile_body0.sl.dma0_1; rw [hc2]; rfl
  rw [hc2, hc3, hc4, hc5]
  sl_for (inv d T1 IX L O W) $$ [Hmw Hs12 Hq5 Hs13 Hq6 Hs14 Hq7 Hs15 Hr0 Hq4 Hs11 Hs16 Hs17 Hs18 Hw2 Hrows Hneg HO]
  case region =>
    intro k _
    have hk : k.val < 4 := lt_of_lt_of_le k.isLt k0_t1_abs.2.1
    unfold inv gFl wFl
    iintro ⟨#Hmw, Hs12, Hq5, Hs13, Hq6, Hs14, Hq7, Hs15, Hr0, Hq4, Hs11, Hs16, Hs17, Hs18, Hdone, Hrows, Hbd, Hneg, %W', %hW', HO⟩
    -- the four index rows this trip gathers by, as the program takes them
    have hr0 : 4 * k.val + 6 < 24 := by omega
    have hr1 : 4 * k.val + 6 + 1 < 24 := by omega
    have hr2 : 4 * k.val + 6 + 1 + 1 < 24 := by omega
    have hr3 : 4 * k.val + 6 + 1 + 1 + 1 < 24 := by omega
    ihave H := (Entails.of_eq (bigSep_from_pop (F := F) _ _ hr0)) $$ Hrows; icases H with ⟨Hn0, Hrows⟩
    ihave H := (Entails.of_eq (bigSep_from_pop (F := F) _ _ hr1)) $$ Hrows; icases H with ⟨Hn1, Hrows⟩
    ihave H := (Entails.of_eq (bigSep_from_pop (F := F) _ _ hr2)) $$ Hrows; icases H with ⟨Hn2, Hrows⟩
    ihave H := (Entails.of_eq (bigSep_from_pop (F := F) _ _ hr3)) $$ Hrows; icases H with ⟨Hn3, Hrows⟩
    have ho0 : k0_off5 k 1#32 = ![(⟨4 * k.val + 6, hr0⟩ : Fin 24).val, 0] :=
      (k0_off5_eq k ⟨0, by decide⟩).trans (by show ![0 + 4 * k.val + 6, 0] = ![4 * k.val + 6, 0]; congr 1; omega)
    have ho1 : k0_off5 k 2#32 = ![(⟨4 * k.val + 6 + 1, hr1⟩ : Fin 24).val, 0] :=
      (k0_off5_eq k ⟨1, by decide⟩).trans (by show ![1 + 4 * k.val + 6, 0] = ![4 * k.val + 6 + 1, 0]; congr 1; omega)
    have ho2 : k0_off5 k 3#32 = ![(⟨4 * k.val + 6 + 1 + 1, hr2⟩ : Fin 24).val, 0] :=
      (k0_off5_eq k ⟨2, by decide⟩).trans (by show ![2 + 4 * k.val + 6, 0] = ![4 * k.val + 6 + 1 + 1, 0]; congr 1; omega)
    have ho3 : k0_off5 k 4#32 = ![(⟨4 * k.val + 6 + 1 + 1 + 1, hr3⟩ : Fin 24).val, 0] :=
      (k0_off5_eq k ⟨3, by decide⟩).trans (by show ![3 + 4 * k.val + 6, 0] = ![4 * k.val + 6 + 1 + 1 + 1, 0]; congr 1; omega)
    ihave Hn0 := (Entails.of_eq (pts_a8Row (F := F) d L ⟨_, hr0⟩ (k0_off5 k 1#32) (k0_off5_inb k 0) ho0 _).symm) $$ Hn0
    ihave Hn1 := (Entails.of_eq (pts_a8Row (F := F) d L ⟨_, hr1⟩ (k0_off5 k 2#32) (k0_off5_inb k 1) ho1 _).symm) $$ Hn1
    ihave Hn2 := (Entails.of_eq (pts_a8Row (F := F) d L ⟨_, hr2⟩ (k0_off5 k 3#32) (k0_off5_inb k 2) ho2 _).symm) $$ Hn2
    ihave Hn3 := (Entails.of_eq (pts_a8Row (F := F) d L ⟨_, hr3⟩ (k0_off5 k 4#32) (k0_off5_inb k 3) ho3 _).symm) $$ Hn3
    have hinA := hin_rows (F := F) d IX L hIX ⟨_, hr0⟩ (k0_off5 k 1#32) (k0_off5_inb k 0) ho0 (by show 4 * k.val + 6 < 22; omega)
    have hinB := hin_rows (F := F) d IX L hIX ⟨_, hr1⟩ (k0_off5 k 2#32) (k0_off5_inb k 1) ho1 (by show 4 * k.val + 6 + 1 < 22; omega)
    have hinC := hin_rows (F := F) d IX L hIX ⟨_, hr2⟩ (k0_off5 k 3#32) (k0_off5_inb k 2) ho2 (by show 4 * k.val + 6 + 1 + 1 < 22; omega)
    have hinD := hin_rows (F := F) d IX L hIX ⟨_, hr3⟩ (k0_off5 k 4#32) (k0_off5_inb k 3) ho3 (by show 4 * k.val + 6 + 1 + 1 + 1 < 22; omega)
    -- the four blocks it writes, as the program takes them
    have hq0 : 4 * k.val + 1 < 20 := by omega
    have hq1 : 4 * k.val + 1 + 1 < 20 := by omega
    have hq2 : 4 * k.val + 1 + 1 + 1 < 20 := by omega
    have hq3 : 4 * k.val + 1 + 1 + 1 + 1 < 20 := by omega
    ihave H := (Entails.of_eq (bigSep_from_pop (F := F) _ _ hq0)) $$ Hneg; icases H with ⟨⟨%gA, HbA⟩, Hneg⟩
    ihave H := (Entails.of_eq (bigSep_from_pop (F := F) _ _ hq1)) $$ Hneg; icases H with ⟨⟨%gB, HbB⟩, Hneg⟩
    ihave H := (Entails.of_eq (bigSep_from_pop (F := F) _ _ hq2)) $$ Hneg; icases H with ⟨⟨%gC, HbC'⟩, Hneg⟩
    ihave H := (Entails.of_eq (bigSep_from_pop (F := F) _ _ hq3)) $$ Hneg; icases H with ⟨⟨%gD, HbD⟩, Hneg⟩
    have hbo0 : k0_off6 L k 1#32 = negOff L (⟨4 * k.val + 1, hq0⟩ : Fin 20).val :=
      (k0_off6_wid L k ⟨0, by decide⟩).trans (by show negOff L (4 * k.val + 0 + 1) = negOff L (4 * k.val + 1); rfl)
    have hbo1 : k0_off6 L k 2#32 = negOff L (⟨4 * k.val + 1 + 1, hq1⟩ : Fin 20).val :=
      (k0_off6_wid L k ⟨1, by decide⟩).trans (by show negOff L (4 * k.val + 1 + 1) = negOff L (4 * k.val + 1 + 1); rfl)
    have hbo2 : k0_off6 L k 3#32 = negOff L (⟨4 * k.val + 1 + 1 + 1, hq2⟩ : Fin 20).val :=
      (k0_off6_wid L k ⟨2, by decide⟩).trans (by show negOff L (4 * k.val + 2 + 1) = negOff L (4 * k.val + 1 + 1 + 1); rfl)
    have hbo3 : k0_off6 L k 4#32 = negOff L (⟨4 * k.val + 1 + 1 + 1 + 1, hq3⟩ : Fin 20).val :=
      (k0_off6_wid L k ⟨3, by decide⟩).trans (by show negOff L (4 * k.val + 3 + 1) = negOff L (4 * k.val + 1 + 1 + 1 + 1); rfl)
    ihave HbA := (Entails.of_eq (pts_negOff (F := F) d L hbo0 (k0_off6_inb L k 0) (negOff_inb L ⟨_, hq0⟩) _).symm) $$ HbA
    ihave HbB := (Entails.of_eq (pts_negOff (F := F) d L hbo1 (k0_off6_inb L k 1) (negOff_inb L ⟨_, hq1⟩) _).symm) $$ HbB
    ihave HbC' := (Entails.of_eq (pts_negOff (F := F) d L hbo2 (k0_off6_inb L k 2) (negOff_inb L ⟨_, hq2⟩) _).symm) $$ HbC'
    ihave HbD := (Entails.of_eq (pts_negOff (F := F) d L hbo3 (k0_off6_inb L k 3) (negOff_inb L ⟨_, hq3⟩) _).symm) $$ HbD
    sl_exec
    sl_step
    have hcA : (rb0).view.writes (Elt F) (gRows d IX L T1 (4 * k.val + 2)) [⟨Rect.whole cc0_scratch3.ty.shape, tile_body0.sl.gather0_1 d T1 IX L k hinA⟩] = gRows d IX L T1 (4 * (k.val + 1) + 2) :=
      (writes_whole (F := F) d L cc0_scratch3 _ _).trans ((gather_val1' (F := F) d T1 IX L (k0_off5 k 1#32) (k0_off5_inb k 0) ⟨_, hr0⟩ ho0 gathers_S100000x128_S128x128 (by decide) hinA).trans (by congr 1 <;> omega))
    have hcB : (rb1).view.writes (Elt F) (gRows d IX L T1 (4 * k.val + 3)) [⟨Rect.whole cc0_scratch4.ty.shape, tile_body0.sl.gather2_1 d T1 IX L k hinB⟩] = gRows d IX L T1 (4 * (k.val + 1) + 3) :=
      (writes_whole (F := F) d L cc0_scratch4 _ _).trans ((gather_val1' (F := F) d T1 IX L (k0_off5 k 2#32) (k0_off5_inb k 1) ⟨_, hr1⟩ ho1 gathers_S100000x128_S128x128 (by decide) hinB).trans (by congr 1 <;> omega))
    have hcC : (rb2).view.writes (Elt F) (gRows d IX L T1 (4 * k.val + 4)) [⟨Rect.whole cc0_scratch5.ty.shape, tile_body0.sl.gather4_1 d T1 IX L k hinC⟩] = gRows d IX L T1 (4 * (k.val + 1) + 4) :=
      (writes_whole (F := F) d L cc0_scratch5 _ _).trans ((gather_val1' (F := F) d T1 IX L (k0_off5 k 3#32) (k0_off5_inb k 2) ⟨_, hr2⟩ ho2 gathers_S100000x128_S128x128 (by decide) hinC).trans (by congr 1 <;> omega))
    have hcD : (rb3).view.writes (Elt F) (gRows d IX L T1 (4 * k.val + 5)) [⟨Rect.whole cc0_scratch6.ty.shape, tile_body0.sl.gather6 d T1 IX L k hinD⟩] = gRows d IX L T1 (4 * (k.val + 1) + 5) :=
      (writes_whole (F := F) d L cc0_scratch6 _ _).trans ((gather_val1' (F := F) d T1 IX L (k0_off5 k 4#32) (k0_off5_inb k 3) ⟨_, hr3⟩ ho3 gathers_S100000x128_S128x128 (by decide) hinD).trans (by congr 1 <;> omega))
    rw [hcA, hcB, hcC, hcD]
    -- the rows of the three gathers now in flight, in the invariant's spelling
    have e1 : k0_off5 k 2#32 = ![(rowF (4 * (k.val + 1) + 3)).val, 0] := ho1.trans (by show ![4 * k.val + 6 + 1, 0] = ![(4 * (k.val + 1) + 3) % 24, 0]; congr 1; omega)
    have e2 : k0_off5 k 3#32 = ![(rowF (4 * (k.val + 1) + 4)).val, 0] := ho2.trans (by show ![4 * k.val + 6 + 1 + 1, 0] = ![(4 * (k.val + 1) + 4) % 24, 0]; congr 1; omega)
    have e3 : k0_off5 k 4#32 = ![(rowF (4 * (k.val + 1) + 5)).val, 0] := ho3.trans (by show ![4 * k.val + 6 + 1 + 1 + 1, 0] = ![(4 * (k.val + 1) + 5) % 24, 0]; congr 1; omega)
    rw [pts_a8Row_congr (F := F) d L e1 (k0_off5_inb k 1) (rowInb _) (A8c d IX L), pts_a8Row_congr (F := F) d L e2 (k0_off5_inb k 2) (rowInb _) (A8c d IX L), pts_a8Row_congr (F := F) d L e3 (k0_off5_inb k 3) (rowInb _) (A8c d IX L)]
    -- the four rows that came back
    have hd0 : 4 * k.val + 3 < 24 := by omega
    have hd1 : 4 * k.val + 3 + 1 < 24 := by omega
    have hd2 : 4 * k.val + 3 + 1 + 1 < 24 := by omega
    have hd3 : 4 * k.val + 3 + 1 + 1 + 1 < 24 := by omega
    ihave R0 := (Entails.of_eq (pts_a8Row (F := F) d L (rowF (4 * k.val + 3)) ![(rowF (4 * k.val + 3)).val, 0] (rowInb _) rfl _)) $$ Hs12_dst_and
    ihave R0 := (row_reidx (F := F) d L _ _ ⟨4 * k.val + 3, hd0⟩ (Fin.ext (show (4 * k.val + 3) % 24 = 4 * k.val + 3 by omega))) $$ R0
    ihave R1 := (Entails.of_eq (pts_a8Row (F := F) d L (rowF (4 * k.val + 4)) ![(rowF (4 * k.val + 4)).val, 0] (rowInb _) rfl _)) $$ Hs13_dst_and
    ihave R1 := (row_reidx (F := F) d L _ _ ⟨4 * k.val + 3 + 1, hd1⟩ (Fin.ext (show (4 * k.val + 4) % 24 = 4 * k.val + 3 + 1 by omega))) $$ R1
    ihave R2 := (Entails.of_eq (pts_a8Row (F := F) d L (rowF (4 * k.val + 5)) ![(rowF (4 * k.val + 5)).val, 0] (rowInb _) rfl _)) $$ Hs14_dst_and
    ihave R2 := (row_reidx (F := F) d L _ _ ⟨4 * k.val + 3 + 1 + 1, hd2⟩ (Fin.ext (show (4 * k.val + 5) % 24 = 4 * k.val + 3 + 1 + 1 by omega))) $$ R2
    ihave R3 := (Entails.of_eq (pts_a8Row (F := F) d L ⟨_, hr0⟩ (k0_off5 k 1#32) (k0_off5_inb k 0) ho0 _)) $$ Hn0
    ihave R3 := (row_reidx (F := F) d L _ _ ⟨4 * k.val + 3 + 1 + 1 + 1, hd3⟩ (Fin.ext (show 4 * k.val + 6 = 4 * k.val + 3 + 1 + 1 + 1 by omega))) $$ R3
    -- the four blocks that are written
    have hp0 : 4 * k.val < 20 := by omega
    ihave B0 := (blk_reidx (F := F) d L _ _ ⟨4 * k.val, hp0⟩ (Fin.ext (show (4 * k.val) % 20 = 4 * k.val by omega))) $$ Hs15_dst
    have hwA : tile_body0.sl.dma0_2 d T1 IX L k = gRows d IX L T1 (2 + (⟨4 * k.val + 1, hq0⟩ : Fin 20).val) := by
      unfold tile_body0.sl.dma0_2; show gRows d IX L T1 (4 * k.val + 3) = gRows d IX L T1 (2 + (4 * k.val + 1)); congr 1; omega
    have hwB : tile_body0.sl.dma0_3 d T1 IX L k = gRows d IX L T1 (2 + (⟨4 * k.val + 1 + 1, hq1⟩ : Fin 20).val) := by
      unfold tile_body0.sl.dma0_3; show gRows d IX L T1 (4 * k.val + 4) = gRows d IX L T1 (2 + (4 * k.val + 1 + 1)); congr 1; omega
    have hwC : tile_body0.sl.dma0_4 d T1 IX L k = gRows d IX L T1 (2 + (⟨4 * k.val + 1 + 1 + 1, hq2⟩ : Fin 20).val) := by
      unfold tile_body0.sl.dma0_4; show gRows d IX L T1 (4 * k.val + 5) = gRows d IX L T1 (2 + (4 * k.val + 1 + 1 + 1)); congr 1; omega
    have hwD : tile_body0.sl.dma0_5 d T1 IX L k hinA = gRows d IX L T1 (2 + (blkF (4 * (k.val + 1))).val) := by
      unfold tile_body0.sl.dma0_5; rw [hcA]; show gRows d IX L T1 (4 * (k.val + 1) + 2) = gRows d IX L T1 (2 + (4 * (k.val + 1)) % 20); congr 1; omega
    ihave B1 := (blk_intro (F := F) d T1 IX L ⟨_, hq0⟩ (k0_off6 L k 1#32) (k0_off6_inb L k 0) hbo0 gA _ hwA) $$ HbA
    ihave B2 := (blk_intro (F := F) d T1 IX L ⟨_, hq1⟩ (k0_off6 L k 2#32) (k0_off6_inb L k 1) hbo1 gB _ hwB) $$ HbB
    ihave B3 := (blk_intro (F := F) d T1 IX L ⟨_, hq2⟩ (k0_off6 L k 3#32) (k0_off6_inb L k 2) hbo2 gC _ hwC) $$ HbC'
    have hbo3' : k0_off6 L k 4#32 = negOff L (blkF (4 * (k.val + 1))).val :=
      hbo3.trans (by show negOff L (4 * k.val + 1 + 1 + 1 + 1) = negOff L ((4 * (k.val + 1)) % 20); congr 1; omega)
    -- the invariant at the next trip
    isplitl []; · iexact Hmw
    isplitl [Hs12]; · iexact Hs12
    isplitl [Hq5]; · iexact Hq5
    isplitl [Hs13]; · iexact Hs13
    isplitl [Hq6]; · iexact Hq6
    isplitl [Hs14]; · iexact Hs14
    isplitl [Hq7]; · iexact Hq7
    isplitl [Hs15]
    · have h8 : (8 : ℕ) < sig.nDmaSem := by decide
      iapply ((wFl_intro' (F := F) d T1 IX L ⟨8, h8⟩ cc0_scratch3 (blkF (4 * (k.val + 1))) (k0_off6 L k 4#32) (k0_off6_inb L k 3) hbo3' gD _ hwD (gRows d IX L T1 (4 * (k.val + 1) + 2))).trans
        (Entails.of_eq (wFl_unfold (F := F) d L ⟨8, h8⟩ cc0_scratch3 (blkF (4 * (k.val + 1))) (gV2 d T1 IX) (gRows d IX L T1 (4 * (k.val + 1) + 2)))))
      iexact Hs15
    isplitl [Hr0]; · iexact Hr0
    isplitl [Hq4]; · iexact Hq4
    isplitl [Hs11]; · iexact Hs11
    isplitl [Hs16]; · iexact Hs16
    isplitl [Hs17]; · iexact Hs17
    isplitl [Hs18]; · iexact Hs18
    isplitl [Hdone R0 R1 R2 R3]
    · iapply (mid_push4 (F := F) (fun k' : Fin 24 => (a8Loc d L ↦[a8RowSet k']{fullShare} A8c d IX L : sProp 𝕄)) 2 (4 * k.val + 3) (4 * (k.val + 1) + 3) hd0 hd1 hd2 hd3 (by omega) (by omega))
      isplitl [Hdone]; · iexact Hdone
      isplitl [R0]; · iexact R0
      isplitl [R1]; · iexact R1
      isplitl [R2]; · iexact R2
      iexact R3
    isplitl [Hrows]
    · iapply (Entails.of_eq (bigSep_from_congr (F := F) _ (show 4 * k.val + 6 + 1 + 1 + 1 + 1 = 4 * (k.val + 1) + 6 by omega)))
      iexact Hrows
    isplitl [Hbd B0 B1 B2 B3]
    · iapply (mid_push4 (F := F) (fun j : Fin 20 => (o2Loc d ↦[(negSl L j).view.set]{fullShare} gV2 d T1 IX : sProp 𝕄)) 0 (4 * k.val) (4 * (k.val + 1)) hp0 hq0 hq1 hq2 (by omega) (by omega))
      isplitl [Hbd]; · iexact Hbd
      isplitl [B0]; · iexact B0
      isplitl [B1]; · iexact B1
      isplitl [B2]; · iexact B2
      iexact B3
    isplitl [Hneg]
    · iapply (Entails.of_eq (bigSep_from_congr (F := F) _ (show 4 * k.val + 1 + 1 + 1 + 1 + 1 = 4 * (k.val + 1) + 1 by omega)))
      iexact Hneg
    iexists (insert ((SemLoc.dma ⟨11, by decide⟩ : SemLoc sig), (default : HIx 4))
      (insert ((SemLoc.dma ⟨4, by decide⟩ : SemLoc sig), (default : HIx 4))
        (insert ((SemLoc.dma ⟨10, by decide⟩ : SemLoc sig), (default : HIx 4))
          (insert ((SemLoc.dma ⟨7, by decide⟩ : SemLoc sig), (default : HIx 4))
            (insert ((SemLoc.dma ⟨9, by decide⟩ : SemLoc sig), (default : HIx 4))
              (insert ((SemLoc.dma ⟨6, by decide⟩ : SemLoc sig), (default : HIx 4))
                (insert ((SemLoc.dma ⟨8, by decide⟩ : SemLoc sig), (default : HIx 4))
                  (insert ((SemLoc.dma ⟨5, by decide⟩ : SemLoc sig), (default : HIx 4)) W')))))))); isplitr
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      · exact hW' p hp
    · iexact HO
  · unfold inv
    isplitl [Hmw]; · iexact Hmw
    isplitl [Hs12]; · unfold gFl; iexact Hs12
    isplitl [Hq5]; · iexact Hq5
    isplitl [Hs13]; · unfold gFl; iexact Hs13
    isplitl [Hq6]; · iexact Hq6
    isplitl [Hs14]; · unfold gFl; iexact Hs14
    isplitl [Hq7]; · iexact Hq7
    isplitl [Hs15]
    · have h8 : (8 : ℕ) < sig.nDmaSem := by decide
      iapply (wFl_intro' (F := F) d T1 IX L ⟨8, h8⟩ cc0_scratch3 (blkF (4 * 0)) (k0_off2 L (k0_off2_at 0))
        (k0_off2_inb L 0) (k0_off2_neg L 0 0 rfl) g0 _ hw0 _)
      iexact Hs15
    isplitl [Hr0]; · iexact Hr0
    isplitl [Hq4]; · iexact Hq4
    isplitl [Hs11]; · iexact Hs11
    isplitl [Hs16]; · iexact Hs16
    isplitl [Hs17]; · iexact Hs17
    isplitl [Hs18]; · iexact Hs18
    isplitl [Hw2]
    · iapply (rows_done0 (F := F) d L _ h2)
      iapply (Entails.of_eq (pts_a8Row (F := F) d L ⟨2, h2⟩ ![2, 0] (rowInb ⟨2, h2⟩) rfl _))
      iexact Hw2
    isplitl [Hrows]; · iexact Hrows
    isplitl []; · iapply (blks_done0 (F := F) d L (gV2 d T1 IX)); iempintro
    isplitl [Hneg]; · iexact Hneg
    iexists (insert ((SemLoc.dma ⟨4, by decide⟩ : SemLoc sig), (default : HIx 4))
      (insert ((SemLoc.dma ⟨12, by decide⟩ : SemLoc sig), (default : HIx 4)) W)); isplitr
    · ipureintro; intro p hp
      rcases Finset.mem_insert.mp hp with rfl | hp
      · exact .inr rfl
      rcases Finset.mem_insert.mp hp with rfl | hp
      · exact .inr rfl
      · exact .inl hp
    · iexact HO
  iintro %_ HI
  unfold inv gFl wFl
  icases HI with ⟨#Hmw', Hs12, Hq5, Hs13, Hq6, Hs14, Hq7, Hs15, Hr0, Hq4, Hs11, Hs16, Hs17, Hs18, Hdone, Hrows, Hbd, Hneg, %W', %hW', HO⟩
  have htr : Scf.trips k0_t1_loop.lb k0_t1_loop.ub k0_t1_loop.st = 4 := by decide
  rw [htr]
  have hb16 : (16 : ℕ) < 20 := by decide
  have h19 : (19 : ℕ) < 24 := by decide
  have h20 : (20 : ℕ) < 24 := by decide
  have h21 : (21 : ℕ) < 24 := by decide
  have e19 : rowF (4 * 4 + 3) = ⟨19, h19⟩ := rfl
  have e20 : rowF (4 * 4 + 4) = ⟨20, h20⟩ := rfl
  have e21 : rowF (4 * 4 + 5) = ⟨21, h21⟩ := rfl
  have e16 : blkF (4 * 4) = ⟨16, hb16⟩ := rfl
  rw [e19, e20, e21, e16]
  have hb17 : (17 : ℕ) < 20 := by decide
  have hb18 : (18 : ℕ) < 20 := by decide
  have hb19 : (19 : ℕ) < 20 := by decide
  ihave H := (Entails.of_eq (bigSep_from_pop (F := F) _ 17 hb17)) $$ Hneg; icases H with ⟨⟨%g17, Hb17⟩, Hneg⟩
  ihave H := (Entails.of_eq (bigSep_from_pop (F := F) _ 18 hb18)) $$ Hneg; icases H with ⟨⟨%g18, Hb18⟩, Hneg⟩
  ihave H := (Entails.of_eq (bigSep_from_pop (F := F) _ 19 hb19)) $$ Hneg; icases H with ⟨⟨%g19, Hb19⟩, Hneg⟩
  ihave Hb17 := (Entails.of_eq (pts_negOff (F := F) d L (k0_off2_neg L 2 17 rfl) (k0_off2_inb L 2) (negOff_inb L ⟨17, hb17⟩) _).symm) $$ Hb17
  ihave Hb18 := (Entails.of_eq (pts_negOff (F := F) d L (k0_off2_neg L 3 18 rfl) (k0_off2_inb L 3) (negOff_inb L ⟨18, hb18⟩) _).symm) $$ Hb18
  ihave Hb19 := (Entails.of_eq (pts_negOff (F := F) d L (k0_off2_neg L 4 19 rfl) (k0_off2_inb L 4) (negOff_inb L ⟨19, hb19⟩) _).symm) $$ Hb19
  sl_exec
  sl_step
  -- what the copy-outs carried: the gathered rows
  have hp17 : tile_body0.sl.dma0_6 d T1 IX L = gRows d IX L T1 (2 + 17) := rfl
  have hp18 : tile_body0.sl.dma0_7 d T1 IX L = gRows d IX L T1 (2 + 18) := rfl
  have hp19 : tile_body0.sl.dma0_8 d T1 IX L = gRows d IX L T1 (2 + 19) := rfl
  have hpC : tile_body0.sl.dma0_9 d T0 IX L fbC h0 hin0 = gRows d IX L T0 0 := by
    unfold tile_body0.sl.dma0_9 tile_body0.sl.gather0
    exact (writes_whole (F := F) d L cc0_scratch1 fbC _).trans (gather_val0 (F := F) d T0 IX L ⟨0, h0⟩ (rowInb ⟨0, h0⟩) gathers_S100000x128_S128x128 (by decide) hin0)
  have hpP : tile_body0.sl.dma0_10 d T1 IX L fbP h1 hin1 = gRows d IX L T1 1 := by
    unfold tile_body0.sl.dma0_10 tile_body0.sl.gather1
    exact (writes_whole (F := F) d L cc0_scratch2 fbP _).trans (gather_val1 (F := F) d T1 IX L ⟨1, h1⟩ (rowInb ⟨1, h1⟩) gathers_S100000x128_S128x128 (by decide) hin1)
  have h22 : (22 : ℕ) < 24 := by decide
  have h23 : (23 : ℕ) < 24 := by decide
  -- the third result's blocks, all twenty
  ihave Hb17 := (blk_done (F := F) d T1 IX L ⟨17, hb17⟩ _ (k0_off2_inb L 2) (k0_off2_neg L 2 17 rfl) g17 _ hp17) $$ Hb17
  ihave Hb18 := (blk_done (F := F) d T1 IX L ⟨18, hb18⟩ _ (k0_off2_inb L 3) (k0_off2_neg L 3 18 rfl) g18 _ hp18) $$ Hb18
  ihave Hb19 := (blk_done (F := F) d T1 IX L ⟨19, hb19⟩ _ (k0_off2_inb L 4) (k0_off2_neg L 4 19 rfl) g19 _ hp19) $$ Hb19
  ihave Hbd := (Entails.of_eq (bigSep_mid_push (F := F) (fun j : Fin 20 => (o2Loc d ↦[(negSl L j).view.set]{fullShare} gV2 d T1 IX : sProp 𝕄)) 0 16 hb16 (by omega)).symm) $$ [Hs15_dst Hbd]
  · isplitl [Hs15_dst]
    · iexact Hs15_dst
    iexact Hbd
  ihave Hbd := (Entails.of_eq (bigSep_mid_push (F := F) (fun j : Fin 20 => (o2Loc d ↦[(negSl L j).view.set]{fullShare} gV2 d T1 IX : sProp 𝕄)) 0 17 hb17 (by omega)).symm) $$ [Hb17 Hbd]
  · isplitl [Hb17] <;> iassumption
  ihave Hbd := (Entails.of_eq (bigSep_mid_push (F := F) (fun j : Fin 20 => (o2Loc d ↦[(negSl L j).view.set]{fullShare} gV2 d T1 IX : sProp 𝕄)) 0 18 hb18 (by omega)).symm) $$ [Hb18 Hbd]
  · isplitl [Hb18] <;> iassumption
  ihave Hbd := (Entails.of_eq (bigSep_mid_push (F := F) (fun j : Fin 20 => (o2Loc d ↦[(negSl L j).view.set]{fullShare} gV2 d T1 IX : sProp 𝕄)) 0 19 hb19 (by omega)).symm) $$ [Hb19 Hbd]
  · isplitl [Hb19] <;> iassumption
  ihave Hbd := (Entails.of_eq (bigSep_mid_all (F := F) (fun j : Fin 20 => (o2Loc d ↦[(negSl L j).view.set]{fullShare} gV2 d T1 IX : sProp 𝕄)))) $$ Hbd
  -- the index scratch, all twenty-four rows
  ihave R19 := (Entails.of_eq (pts_a8Row (F := F) d L ⟨19, h19⟩ _ _ rfl _)) $$ Hs12_dst_and
  ihave R20 := (Entails.of_eq (pts_a8Row (F := F) d L ⟨20, h20⟩ _ _ rfl _)) $$ Hs13_dst_and
  ihave R21 := (Entails.of_eq (pts_a8Row (F := F) d L ⟨21, h21⟩ _ _ rfl _)) $$ Hs14_dst_and
  ihave R0 := (Entails.of_eq (pts_a8Row (F := F) d L ⟨0, h0⟩ ![0, 0] (rowInb ⟨0, h0⟩) rfl _)) $$ Hw0
  ihave R1 := (Entails.of_eq (pts_a8Row (F := F) d L ⟨1, h1⟩ ![1, 0] (rowInb ⟨1, h1⟩) rfl _)) $$ Hw1
  ihave H := (Entails.of_eq (bigSep_from_pop (F := F) _ 22 h22)) $$ Hrows; icases H with ⟨R22, Hrows⟩
  ihave H := (Entails.of_eq (bigSep_from_pop (F := F) _ 23 h23)) $$ Hrows; icases H with ⟨R23, -⟩
  ihave Hdone := (Entails.of_eq (bigSep_mid_push (F := F) (fun k : Fin 24 => (a8Loc d L ↦[a8RowSet k]{fullShare} A8c d IX L : sProp 𝕄)) 2 19 h19 (by omega)).symm) $$ [R19 Hdone]
  · isplitl [R19]
    · iexact R19
    iexact Hdone
  ihave Hdone := (Entails.of_eq (bigSep_mid_push (F := F) (fun k : Fin 24 => (a8Loc d L ↦[a8RowSet k]{fullShare} A8c d IX L : sProp 𝕄)) 2 20 h20 (by omega)).symm) $$ [R20 Hdone]
  · isplitl [R20]
    · iexact R20
    iexact Hdone
  ihave Hdone := (Entails.of_eq (bigSep_mid_push (F := F) (fun k : Fin 24 => (a8Loc d L ↦[a8RowSet k]{fullShare} A8c d IX L : sProp 𝕄)) 2 21 h21 (by omega)).symm) $$ [R21 Hdone]
  · isplitl [R21]
    · iexact R21
    iexact Hdone
  ihave Hdone := (Entails.of_eq (bigSep_mid_push (F := F) (fun k : Fin 24 => (a8Loc d L ↦[a8RowSet k]{fullShare} A8c d IX L : sProp 𝕄)) 2 22 h22 (by omega)).symm) $$ [R22 Hdone]
  · isplitl [R22]
    · iexact R22
    iexact Hdone
  ihave Hdone := (Entails.of_eq (bigSep_mid_push (F := F) (fun k : Fin 24 => (a8Loc d L ↦[a8RowSet k]{fullShare} A8c d IX L : sProp 𝕄)) 2 23 h23 (by omega)).symm) $$ [R23 Hdone]
  · isplitl [R23]
    · iexact R23
    iexact Hdone
  ihave Hdone := (Entails.of_eq (bigSep_mid_top (F := F) (fun k : Fin 24 => (a8Loc d L ↦[a8RowSet k]{fullShare} A8c d IX L : sProp 𝕄)) 2)) $$ Hdone
  ihave Hdone := (Entails.of_eq (bigSep_from_pop (F := F) (fun k : Fin 24 => (a8Loc d L ↦[a8RowSet k]{fullShare} A8c d IX L : sProp 𝕄)) 1 h1).symm) $$ [R1 Hdone]
  · isplitl [R1]
    · iexact R1
    iexact Hdone
  ihave Hdone := (Entails.of_eq (bigSep_from_pop (F := F) (fun k : Fin 24 => (a8Loc d L ↦[a8RowSet k]{fullShare} A8c d IX L : sProp 𝕄)) 0 h0).symm) $$ [R0 Hdone]
  · isplitl [R0]
    · iexact R0
    iexact Hdone
  ihave Hdone := (Entails.of_eq (bigSep_from_zero (F := F) (fun k : Fin 24 => (a8Loc d L ↦[a8RowSet k]{fullShare} A8c d IX L : sProp 𝕄)))) $$ Hdone
  ihave Ha8 := (Entails.of_eq (a8_rows (F := F) d L (A8c d IX L)).symm) $$ Hdone
  -- what the tile hands back
  unfold tdResL
  isplitl [Ht0 Hq8 Hq7 Hq6 Hq5 Hq4 Hq3 Hq2 Hq1 Hq0 Hix Ho0 Ho1 Hbd]
  · isplitl [Ht0]
    · iexact Ht0
    isplitl [Hq8 Hq7 Hq6 Hq5 Hq4 Hq3 Hq2 Hq1 Hq0]
    · iapply (toks8_join (F := F) (tblShare L) T1)
      isplitl [Hq8]
      · iexact Hq8
      isplitl [Hq7]
      · iexact Hq7
      isplitl [Hq6]
      · iexact Hq6
      isplitl [Hq5]
      · iexact Hq5
      isplitl [Hq4]
      · iexact Hq4
      isplitl [Hq3]
      · iexact Hq3
      isplitl [Hq2]
      · iexact Hq2
      isplitl [Hq1]
      · iexact Hq1
      iexact Hq0
    isplitl [Hix]
    · iexact Hix
    isplitl [Ho0]
    · iapply (Entails.of_eq (pointsTo_congr (block_val0 (F := F) d T0 IX L f0 _ hpC)))
      iexact Ho0
    isplitl [Ho1]
    · iapply (Entails.of_eq (pointsTo_congr (block_val1 (F := F) d T1 IX L f1 _ hpP)))
      iexact Ho1
    iexact Hbd
  isplitl [Ha8 HbC HbP Hr0 Hs12_dst Hs13_dst Hs14_dst Hbufs]
  · isplitr [Hbufs]
    · isplitl [Ha8]
      · iexists _; iexact Ha8
      isplitl [HbC]
      · iexists _; iexact HbC
      isplitl [HbP]
      · iexists _; iexact HbP
      isplitl [Hr0]
      · iexists _; iexact Hr0
      isplitl [Hs12_dst]
      · iexists _; iexact Hs12_dst
      isplitl [Hs13_dst]
      · iexists _; iexact Hs13_dst
      iexists _; iexact Hs14_dst
    iexact Hbufs
  isplitr [HO]
  · isplitr [Hsems]
    · isplitl [Hs0]
      · iexact Hs0
      isplitl [Hs7]
      · iexact Hs7
      isplitl [Hs8]
      · iexact Hs8
      isplitl [Hs9]
      · iexact Hs9
      isplitl [Hs10]
      · iexact Hs10
      isplitl [Hs11]
      · iexact Hs11
      isplitl [Hs12]
      · iexact Hs12
      isplitl [Hs13]
      · iexact Hs13
      isplitl [Hs14]
      · iexact Hs14
      isplitl [Hs15]
      · iexact Hs15
      isplitl [Hs16]
      · iexact Hs16
      isplitl [Hs17]
      · iexact Hs17
      iexact Hs18
    iexact Hsems
  iexists _; isplitr
  swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

end Body

/-! ## The launch theorem's obligation -/

theorem defs₀_vector (c : Fin τ.nSC) (s : Fin τ.nSub) :
    defs₀ (F := F) (.scVector c s) 0 ()
      = SparseCore.onTile hcore0 hsub0 (fun c s => cc0__sc_gather (coordsV c s)
          t0V (Memref.isWhole_whole _) t1V (Memref.isWhole_whole _) ixV (Memref.isWhole_whole _) o0V (Memref.isWhole_whole _) o1V (Memref.isWhole_whole _) o2V (Memref.isWhole_whole _)
            a8 (Memref.isWhole_whole _) bC (Memref.isWhole_whole _) bP (Memref.isWhole_whole _) rb0 (Memref.isWhole_whole _) rb1 (Memref.isWhole_whole _) rb2 (Memref.isWhole_whole _) rb3 (Memref.isWhole_whole _)
            cc0_scratch7 cc0_scratch8 cc0_scratch9 cc0_scratch10 cc0_scratch11 cc0_scratch12 cc0_scratch13 cc0_scratch14 cc0_scratch15 cc0_scratch16 cc0_scratch17 cc0_scratch18 cc0_scoped0) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- `TileObl` at call 0, for any payload record whose call-0 fields are the tile's resources above, nothing
    extra held per thread and nothing owed for a protocol of the kernel's own. -/
theorem tileObl0 (hF : (K (F := F)).Facts)
    (T0 : (d : Dev nD) → Buf (Elt F) (t0Loc d)) (T1 : (d : Dev nD) → Buf (Elt F) (t1Loc d)) (IX : (d : Dev nD) → Buf (Elt F) (ixLoc d))
    (hIX : ∀ d, IXOK d (IX d))
    (P : (K (F := F)).Pay (nD := nD) (Val := Elt F) (Name := ℕ) (U := UU))
    (hgo : ∀ d c i, P.go 0 d c i = goRes0 d (T0 d) (T1 d) (IX d) c i)
    (htd : ∀ d c i, P.td 0 d c i = tdRes0 d (T0 d) (T1 d) (IX d) c i)
    (hx : ∀ thr, P.x 0 thr = iprop(emp))
    (hox : ∀ thr, P.ox 0 thr = 0) :
    (K (F := F)).TileObl (D (F := F)) 𝒱 P v₀ 0 := by
  intro d c i O W hO _ _
  rw [hox, add_zero, hx, hgo, htd]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body0 d (T0 d) (T1 d) (IX d) hF (hIX d) (coordsV ⟨_, hc.1⟩ ⟨_, hc.2⟩) O W hO).trans (wp_mono frame _ _ fun _ => obl_post)

end Cert.Proof.KI

end
-- ==== Proof.KI_TileOwn_c1.lean ====
/-
  A vector subcore's own storage at call 1: its thread, the seven scratch buffers and thirteen DMA semaphores of
  the gather kernel, taken out of the tile's scoped buffers and scoped semaphores.
-/
import proofs.«215899_g5772436046013_cont_9to1c4b_742_31_alg».proof.Proof.KI_TileRes
import proofs.«215899_g5772436046013_cont_9to1c4b_742_31_alg».proof.Proof.KI_TileRes_c1
import proofs.«215899_g5772436046013_cont_9to1c4b_742_31_alg».proof.Proof.KI_TileOwn

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## The tile's thread, its scratch buffers and its semaphores -/

abbrev thrV1 (d : Dev nD) (L : grid2.Coords) : Thread nD τ := V d (cV1 L) (jV1 L)

abbrev a81 : Memref sig .scVector .vmem S24x128 .i32 := Memref.whole cc2_scratch0
abbrev bC1 : Memref sig .scVector .vmem S128x128 .f32 := Memref.whole cc2_scratch1
abbrev bP1 : Memref sig .scVector .vmem S128x128 .f32 := Memref.whole cc2_scratch2
abbrev rb01 : Memref sig .scVector .vmem S128x128 .f32 := Memref.whole cc2_scratch3
abbrev rb11 : Memref sig .scVector .vmem S128x128 .f32 := Memref.whole cc2_scratch4
abbrev rb21 : Memref sig .scVector .vmem S128x128 .f32 := Memref.whole cc2_scratch5
abbrev rb31 : Memref sig .scVector .vmem S128x128 .f32 := Memref.whole cc2_scratch6

/-- The kernel's thirteen DMA semaphores. -/
def tileSems1 : Finset (DmaSem sig) := {cc2_scoped0.sem, cc2_scratch7.sem, cc2_scratch8.sem, cc2_scratch9.sem, cc2_scratch10.sem, cc2_scratch11.sem, cc2_scratch12.sem, cc2_scratch13.sem, cc2_scratch14.sem, cc2_scratch15.sem, cc2_scratch16.sem, cc2_scratch17.sem, cc2_scratch18.sem}
/-- The kernel's seven scratch buffers. -/
def tileRefs1 : Finset (Ref sig .scVector) := {cc2_scratch0, cc2_scratch1, cc2_scratch2, cc2_scratch3, cc2_scratch4, cc2_scratch5, cc2_scratch6}

omit [FloatOps F] in
theorem tileSems_sub1 (d : Dev nD) (L : grid2.Coords) : tileSems1.map (cellEmb (thrV1 d L)) ⊆ ownCells (thrV1 d L) := by
  intro g hg
  obtain ⟨s, hs, rfl⟩ := Finset.mem_map.mp hg
  refine mem_ownCells.mpr ⟨rfl, ?_⟩
  show sig.isScopedDmaSem .scVector s = true
  clear hg
  revert s; decide +revert

omit [FloatOps F] in
theorem ownSems0_V1 (d : Dev nD) (L : grid2.Coords) :
    (ownSems0 (thrV1 d L) : sProp 𝕄)
      = iprop((semVal (thrV1 d L, SemLoc.dma cc2_scoped0.sem) 0
          ∗ semVal (thrV1 d L, SemLoc.dma cc2_scratch7.sem) 0
          ∗ semVal (thrV1 d L, SemLoc.dma cc2_scratch8.sem) 0
          ∗ semVal (thrV1 d L, SemLoc.dma cc2_scratch9.sem) 0
          ∗ semVal (thrV1 d L, SemLoc.dma cc2_scratch10.sem) 0
          ∗ semVal (thrV1 d L, SemLoc.dma cc2_scratch11.sem) 0
          ∗ semVal (thrV1 d L, SemLoc.dma cc2_scratch12.sem) 0
          ∗ semVal (thrV1 d L, SemLoc.dma cc2_scratch13.sem) 0
          ∗ semVal (thrV1 d L, SemLoc.dma cc2_scratch14.sem) 0
          ∗ semVal (thrV1 d L, SemLoc.dma cc2_scratch15.sem) 0
          ∗ semVal (thrV1 d L, SemLoc.dma cc2_scratch16.sem) 0
          ∗ semVal (thrV1 d L, SemLoc.dma cc2_scratch17.sem) 0
          ∗ semVal (thrV1 d L, SemLoc.dma cc2_scratch18.sem) 0)
          ∗ bigSep (ownCells (thrV1 d L) \ tileSems1.map (cellEmb (thrV1 d L))) fun g => semVal g 0) := by
  unfold SparseCore.Cfg.ownSems0
  rw [SparseCore.bigSep_sdiff_split' (tileSems_sub1 d L), BI.bigSep_map]
  unfold tileSems1
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton]
  rfl

omit [FloatOps F] in
theorem tileRefs_sub1 (L : grid2.Coords) :
    tileRefs1.map (refEmb (Proc.scVector (cV1 L) (jV1 L))) ⊆ ownRefs (τ := τ) (sig := sig) (Proc.scVector (cV1 L) (jV1 L)) := by
  intro b hb
  obtain ⟨r, hr, rfl⟩ := Finset.mem_map.mp hb
  simp only [tileRefs1, Finset.mem_insert, Finset.mem_singleton] at hr
  rcases hr with rfl | rfl | rfl | rfl | rfl | rfl | rfl <;> exact SparseCore.Cfg.mem_ownRefs_of_owner rfl

omit [FloatOps F] in
theorem ownBufs_V1 (d : Dev nD) (L : grid2.Coords) :
    (ownBufs (thrV1 d L) : sProp 𝕄)
      = iprop(((∃ f, (thrV1 d L).loc cc2_scratch0 ↦{fullShare} f)
          ∗ (∃ f, (thrV1 d L).loc cc2_scratch1 ↦{fullShare} f)
          ∗ (∃ f, (thrV1 d L).loc cc2_scratch2 ↦{fullShare} f)
          ∗ (∃ f, (thrV1 d L).loc cc2_scratch3 ↦{fullShare} f)
          ∗ (∃ f, (thrV1 d L).loc cc2_scratch4 ↦{fullShare} f)
          ∗ (∃ f, (thrV1 d L).loc cc2_scratch5 ↦{fullShare} f)
          ∗ (∃ f, (thrV1 d L).loc cc2_scratch6 ↦{fullShare} f))
          ∗ bigSep (ownRefs (τ := τ) (Proc.scVector (cV1 L) (jV1 L)) \ tileRefs1.map (refEmb (Proc.scVector (cV1 L) (jV1 L))))
              fun b => iprop(∃ f, ((d, b) : Loc nD τ sig) ↦{fullShare} f)) := by
  unfold SparseCore.Cfg.ownBufs
  rw [SparseCore.bigSep_sdiff_split' (tileRefs_sub1 L), BI.bigSep_map]
  unfold tileRefs1
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton]
  rfl

end Cert.Proof.KI

end
-- ==== Proof.KI_TileGeom_c1.lean ====
/-
  Geometry and bookkeeping for the gather kernel's run on one vector subcore: families over a segment of `Fin N`,
  the call's arrays as a tile's memrefs address them, a table's read shares one per DMA semaphore, and the index
  scratch row by row (the offset lists of the indirect gathers).
-/
import proofs.«215899_g5772436046013_cont_9to1c4b_742_31_alg».proof.Proof.KI_TileOwn
import proofs.«215899_g5772436046013_cont_9to1c4b_742_31_alg».proof.Proof.KI_TileOwn_c1
import proofs.«215899_g5772436046013_cont_9to1c4b_742_31_alg».proof.Proof.KI_TileGeom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## Families over an initial or a final segment of `Fin N` -/

section Segments

end Segments

/-! ## The arrays as the tile's memrefs address them -/

section Pts

variable (d : Dev nD) (L : grid2.Coords)

theorem pts_t01 (q : PosShare TreeShare) (f : Buf (Elt F) (t0Loc d)) :
    ((t0V).view.loc (thrV1 d L) ↦{q} f : sProp 𝕄) = (t0Loc d ↦{q} f) := rfl
theorem pts_t11 (q : PosShare TreeShare) (f : Buf (Elt F) (t1Loc d)) :
    ((t1V).view.loc (thrV1 d L) ↦{q} f : sProp 𝕄) = (t1Loc d ↦{q} f) := rfl
theorem pts_ix1 (f : Buf (Elt F) (ixLoc1 d)) :
    ((ixSl1 L).view.loc (thrV1 d L) ↦[(ixSl1 L).view.set]{fullShare} f : sProp 𝕄) = (ixLoc1 d ↦[(ixSl1 L).view.set]{fullShare} f) := rfl
theorem pts_o01 (f : Buf (Elt F) (o0Loc1 d)) :
    ((o0Sl1 L).view.loc (thrV1 d L) ↦[(o0Sl1 L).view.set]{fullShare} f : sProp 𝕄) = (o0Loc1 d ↦[(o0Sl1 L).view.set]{fullShare} f) := rfl
theorem pts_o11 (f : Buf (Elt F) (o1Loc1 d)) :
    ((o1Sl1 L).view.loc (thrV1 d L) ↦[(o1Sl1 L).view.set]{fullShare} f : sProp 𝕄) = (o1Loc1 d ↦[(o1Sl1 L).view.set]{fullShare} f) := rfl
theorem pts_scr1 (b : Ref sig .scVector) (f : Buf (Elt F) ((thrV1 d L).loc b)) :
    ((Memref.whole b : Memref sig .scVector _ _ _).view.loc (thrV1 d L) ↦{fullShare} f : sProp 𝕄) = ((thrV1 d L).loc b ↦{fullShare} f) := rfl

/-! ### The table's read shares, one per DMA semaphore number -/

end Pts

/-! ## The index scratch row by row -/

section Rows

abbrev a8RowSet1 (k : Fin 24) : Finset S24x128.Idx := ((a81 : Memref sig .scVector .vmem S24x128 .i32).view.slice (a8Part k)).set

theorem a8RowSet_eq1 (k : Fin 24) : a8RowSet1 k = (a8Part k).set := by
  show ((View.whole (cc2_scratch0 : Ref sig .scVector)).slice (a8Part k)).set = _
  rw [View.set_slice]; exact Finset.map_refl
theorem a8rows_disjoint1 : ∀ i ∈ (Finset.univ : Finset (Fin 24)), ∀ j ∈ (Finset.univ : Finset (Fin 24)), i ≠ j → Disjoint (a8RowSet1 i) (a8RowSet1 j) :=
  fun i _ j _ h => by rw [a8RowSet_eq1, a8RowSet_eq1]; exact Rect.part_disjoint hdiv24 h
theorem a8rows_cover1 : (Finset.univ : Finset (Fin 24)).biUnion a8RowSet1 = Finset.univ :=
  (Finset.biUnion_congr rfl fun i _ => a8RowSet_eq1 i).trans (Rect.biUnion_part hdiv24)

end Rows

section Rows2

variable (d : Dev nD) (L : grid2.Coords)

abbrev a8Loc1 : Loc nD τ sig := (thrV1 d L).loc cc2_scratch0

/-- The index scratch whole is its 24 rows. -/
theorem a8_rows1 (f : Buf (Elt F) (a8Loc1 d L)) :
    (a8Loc1 d L ↦{fullShare} f : sProp 𝕄) = bigSep Finset.univ fun k : Fin 24 => a8Loc1 d L ↦[a8RowSet1 k]{fullShare} f := by
  rw [← pointsTo_biUnion Finset.univ (ℓ := a8Loc1 d L) a8RowSet1 a8rows_disjoint1, a8rows_cover1]; try rfl

/-- A row of the index scratch as the program takes it: a one-row slice, squeezed to a list of 128 words. -/
abbrev a8Row1 (off : Fin 2 → ℕ) (h : ∀ a, off a + S1x128.size a ≤ S24x128.size a) : Memref sig .scVector .vmem S128 .i32 :=
  ((a81).slice (Rect.unit (s := S24x128) off S1x128.size h) (fun _ => rfl)).squeeze S128 squeezes_S1x128_S128

theorem a8Row_set1 (k : Fin 24) (off : Fin 2 → ℕ) (h : ∀ a, off a + S1x128.size a ≤ S24x128.size a) (hoff : off = ![k.val, 0]) :
    (a8Row1 off h).view.set = a8RowSet1 k := by
  show (((a81 : Memref sig .scVector .vmem S24x128 .i32).view.slice (Rect.unit (s := S24x128) off S1x128.size h)).reshape S128 squeezes_S1x128_S128.numel_eq).set
    = ((a81 : Memref sig .scVector .vmem S24x128 .i32).view.slice (a8Part k)).set
  rw [View.set_reshape]
  exact (a8Row_rect k off h hoff) ▸ rfl

theorem pts_a8Row1 (k : Fin 24) (off : Fin 2 → ℕ) (h : ∀ a, off a + S1x128.size a ≤ S24x128.size a) (hoff : off = ![k.val, 0])
    (f : Buf (Elt F) (a8Loc1 d L)) :
    ((a8Row1 off h).view.loc (thrV1 d L) ↦[(a8Row1 off h).view.set]{fullShare} f : sProp 𝕄) = (a8Loc1 d L ↦[a8RowSet1 k]{fullShare} f) := by
  rw [a8Row_set1 k off h hoff]

end Rows2

end Cert.Proof.KI

end
-- ==== Proof.KI_TileInv_c1.lean ====
/-
  The gather kernel's ring at the head of a trip: what the index scratch holds, the offset lists' range, the rows a
  gather lands, the transfers in flight as the run holds them, and the loop's invariant.
-/
import proofs.«215899_g5772436046013_cont_9to1c4b_742_31_alg».proof.Proof.KI_TileGeom
import proofs.«215899_g5772436046013_cont_9to1c4b_742_31_alg».proof.Proof.KI_TileGeom_c1
import proofs.«215899_g5772436046013_cont_9to1c4b_742_31_alg».proof.Proof.KI_TileInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## The index scratch's contents and the offset lists' range -/

/-- What the index scratch holds once the tile's rows of the index array have landed. -/
def A8c1 (d : Dev nD) (IX : Buf (Elt F) (ixLoc1 d)) (L : grid2.Coords) : Buf (Elt F) (a8Loc1 d L) :=
  show S24x128.Idx → Elt F .i32 from (ixSl1 L).view.read (Elt F) IX

theorem a8Row_emb01 (k : Fin 24) (h : ∀ a, (![k.val, 0] : Fin 2 → ℕ) a + S1x128.size a ≤ S24x128.size a) (x : S128.Idx) :
    ((a8Row1 ![k.val, 0] h).view.emb x 0).val = k.val := by
  have key : ∀ j : S1x128.Idx, ((Rect.unit (s := S24x128) ![k.val, 0] S1x128.size h).emb j 0).val = k.val := by
    intro j
    have hj : (j 0).val < 1 := (j 0).isLt
    rw [Rect.emb_apply]
    show k.val + 1 * (j 0).val = k.val
    omega
  exact key _

/-- Every offset list the kernel gathers by holds row numbers of the tables. -/
theorem hin_rows1 (d : Dev nD) (IX : Buf (Elt F) (ixLoc1 d)) (L : grid2.Coords) (hIX : IXOK1 d IX) (k : Fin 24) (off : Fin 2 → ℕ)
    (h : ∀ a, off a + S1x128.size a ≤ S24x128.size a) (hoff : off = ![k.val, 0]) (hk : k.val < 22) (x : S128.Idx) :
    (View.read (Elt F) (a8Row1 off h).view (A8c1 d IX L) x).toNat < 100000 := by
  subst hoff
  exact hIX L ((a8Row1 ![k.val, 0] h).view.emb x) (by rw [a8Row_emb01]; exact hk)

theorem a8Row_congr1 {off off' : Fin 2 → ℕ} (e : off = off') (h : ∀ a, off a + S1x128.size a ≤ S24x128.size a)
    (h' : ∀ a, off' a + S1x128.size a ≤ S24x128.size a) : a8Row1 off h = a8Row1 off' h' := by
  subst e; rfl

/-! ## The third result's blocks in the program's spellings -/

/-- A block of the third result held through a slice at `off` is held through the slice at an equal offset. -/
theorem pts_negOff1 (d : Dev nD) (L : grid2.Coords) {off off' : Fin 2 → ℕ} (e : off = off')
    (h : ∀ a, off a + S128x128.size a ≤ S81920x128.size a) (h' : ∀ a, off' a + S128x128.size a ≤ S81920x128.size a)
    (f : Buf (Elt F) (o2Loc1 d)) :
    (View.loc (thrV1 d L) ((o2V1).slice (Rect.unit (s := S81920x128) off S128x128.size h) (fun _ => rfl)).view
        ↦[((o2V1).slice (Rect.unit (s := S81920x128) off S128x128.size h) (fun _ => rfl)).view.set]{fullShare} f : sProp 𝕄)
      = (View.loc (thrV1 d L) ((o2V1).slice (Rect.unit (s := S81920x128) off' S128x128.size h') (fun _ => rfl)).view
        ↦[((o2V1).slice (Rect.unit (s := S81920x128) off' S128x128.size h') (fun _ => rfl)).view.set]{fullShare} f) := by
  subst e; rfl

theorem k2_off2_neg (L : grid2.Coords) (r : Fin 5) (j : ℕ) (hj : (k2_off2_at r).toNat = 4096 * j) :
    k2_off2 L (k2_off2_at r) = negOff1 L j := by
  rw [k2_off2_wid, hj]; rfl

/-! ## The gathered rows, and the transfers in flight -/

section Inv

variable (d : Dev nD) (T0 : Buf (Elt F) (t0Loc d)) (T1 : Buf (Elt F) (t1Loc d)) (IX : Buf (Elt F) (ixLoc1 d)) (L : grid2.Coords)

/-- The 128 rows a table yields for row `k` of the tile's index rows: row `r` is the table's row `IX[24 * wid1 + k, r]`. -/
def gRows1 (Tb : S100000x128.Idx → Elt F .f32) (k : ℕ) : S128x128.Idx → Elt F .f32 :=
  fun x => tblAt (F := F) Tb (ixWord d IX (wid1 L) k (x 0).val) (x 1)

/-- A gather in flight on the DMA semaphore `cell`, reading the second table by read token `tok` through row `row`
    of the index scratch into the scratch buffer `buf`: it delivers the buffer at `cont`, the row and the token. -/
def gFl1 (cell : DmaSem sig) (tok : ℕ) (buf : Ref sig .scVector) (row : Fin 24) (cont : Buf (Elt F) ((thrV1 d L).loc buf)) : sProp 𝕄 :=
  Transfers.Flight countersEmb (thrV1 d L) (SemLoc.dma cell) (default : HIx 4) 524288
    iprop(((View.loc (thrV1 d L) (Memref.whole buf).view ↦{fullShare} cont)
        ∗ View.loc (thrV1 d L) (a8Row1 ![row.val, 0] (rowInb row)).view ↦[(a8Row1 ![row.val, 0] (rowInb row)).view.set]{fullShare} A8c1 d IX L)
      ∗ View.loc (thrV1 d L) (t1V).view ↦[(t1Sl).view.set]{Transfers.shareTokN (tblShare1 L) tok} T1)

/-- A copy-out in flight on the DMA semaphore `cell`, from the scratch buffer `buf` to draw `j`'s block of the third
    result: it delivers the block at `bcont` and the buffer's elements at `cont`. -/
def wFl1 (cell : DmaSem sig) (buf : Ref sig .scVector) (j : Fin 20) (bcont : Buf (Elt F) (o2Loc1 d)) (cont : Buf (Elt F) ((thrV1 d L).loc buf)) : sProp 𝕄 :=
  Transfers.Flight countersEmb (thrV1 d L) (SemLoc.dma cell) (default : HIx 4) 524288
    iprop((View.loc (thrV1 d L) (negSl1 L j).view ↦[(negSl1 L j).view.set]{fullShare} bcont)
      ∗ View.loc (thrV1 d L) (Memref.whole buf).view ↦[(Memref.whole buf : Memref sig .scVector _ _ _).view.set]{fullShare} cont)

variable (O : CellTallies nD τ sig (HIx 4)) (W : Waits sig (HIx 4))

/-- The ring at the head of trip `t`: draws `4t+1, 4t+2, 4t+3` being gathered into ring buffers 1, 2, 3, draw `4t` on
    its way out of ring buffer 0; ring semaphore 4 and the copy-out semaphores 9, 10, 11 at rest with read token 4;
    the index rows before `4t+3` and from `4t+6` on at rest; the blocks before `4t` written, those after `4t` not yet. -/
def inv1 (t : ℕ) (_ : PUnit) : sProp 𝕄 :=
  iprop(Transfers.MayWaits (thrV1 d L) (none : HIx 4) O
    ∗ gFl1 d T1 IX L ⟨26, by decide⟩ 5 cc2_scratch4 (rowF (4 * t + 3)) (gRows1 d IX L T1 (4 * t + 3))
    ∗ (View.loc (thrV1 d L) (t1V).view ↦[Finset.univ \ (t1Sl).view.set]{Transfers.shareTokN (tblShare1 L) 5} T1)
    ∗ gFl1 d T1 IX L ⟨27, by decide⟩ 6 cc2_scratch5 (rowF (4 * t + 4)) (gRows1 d IX L T1 (4 * t + 4))
    ∗ (View.loc (thrV1 d L) (t1V).view ↦[Finset.univ \ (t1Sl).view.set]{Transfers.shareTokN (tblShare1 L) 6} T1)
    ∗ gFl1 d T1 IX L ⟨28, by decide⟩ 7 cc2_scratch6 (rowF (4 * t + 5)) (gRows1 d IX L T1 (4 * t + 5))
    ∗ (View.loc (thrV1 d L) (t1V).view ↦[Finset.univ \ (t1Sl).view.set]{Transfers.shareTokN (tblShare1 L) 7} T1)
    ∗ wFl1 d L ⟨29, by decide⟩ cc2_scratch3 (blkF (4 * t)) (gV2 d T1 IX) (gRows1 d IX L T1 (4 * t + 2))
    ∗ (View.loc (thrV1 d L) (Memref.whole cc2_scratch3).view ↦[Finset.univ \ (rb01).view.set]{fullShare} gRows1 d IX L T1 (4 * t + 2))
    ∗ (View.loc (thrV1 d L) (t1V).view ↦{Transfers.shareTokN (tblShare1 L) 4} T1)
    ∗ semVal (thrV1 d L, SemLoc.dma ⟨25, by decide⟩) 0
    ∗ semVal (thrV1 d L, SemLoc.dma ⟨30, by decide⟩) 0
    ∗ semVal (thrV1 d L, SemLoc.dma ⟨31, by decide⟩) 0
    ∗ semVal (thrV1 d L, SemLoc.dma ⟨32, by decide⟩) 0
    ∗ (bigSep (Finset.univ.filter fun k : Fin 24 => 2 ≤ k.val ∧ k.val < 4 * t + 3) fun k => a8Loc1 d L ↦[a8RowSet1 k]{fullShare} A8c1 d IX L)
    ∗ (bigSep (Finset.univ.filter fun k : Fin 24 => 4 * t + 6 ≤ k.val) fun k => a8Loc1 d L ↦[a8RowSet1 k]{fullShare} A8c1 d IX L)
    ∗ (bigSep (Finset.univ.filter fun j : Fin 20 => 0 ≤ j.val ∧ j.val < 4 * t) fun j => o2Loc1 d ↦[(negSl1 L j).view.set]{fullShare} gV2 d T1 IX)
    ∗ (bigSep (Finset.univ.filter fun j : Fin 20 => 4 * t + 1 ≤ j.val) fun j => iprop(∃ f, o2Loc1 d ↦[(negSl1 L j).view.set]{fullShare} f))
    ∗ ∃ W', ⌜∀ p ∈ W', p ∈ W ∨ p.2 = none⌝ ∗ owes (thrV1 d L) O W')

end Inv

end Cert.Proof.KI

end
-- ==== Proof.KI_TileVal_c1.lean ====
/-
  The values the gather kernel moves: what an indirect gather by a row of the index scratch lands in a buffer, and
  what a copy-out of those rows leaves in the results' blocks — the whole-array value functions there.
-/
import proofs.«215899_g5772436046013_cont_9to1c4b_742_31_alg».proof.Proof.KI_TileInv
import proofs.«215899_g5772436046013_cont_9to1c4b_742_31_alg».proof.Proof.KI_TileInv_c1
import proofs.«215899_g5772436046013_cont_9to1c4b_742_31_alg».proof.Proof.KI_TileVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

variable (d : Dev nD) (T0 : Buf (Elt F) (t0Loc d)) (T1 : Buf (Elt F) (t1Loc d)) (IX : Buf (Elt F) (ixLoc1 d)) (L : grid2.Coords)

/-! ## Index arithmetic of the program's views -/

/-- A write of a whole buffer leaves the written values. -/
theorem writes_whole1 (buf : Ref sig .scVector) (f w : Buf (Elt F) ((thrV1 d L).loc buf)) :
    (Memref.whole buf : Memref sig .scVector _ _ _).view.writes (Elt F) f [⟨Rect.whole buf.ty.shape, w⟩] = w := by
  funext i
  exact writes_whole_emb (View.whole buf) f w i

/-- Where an entry of row `k` of the index scratch sits: column `y`. -/
theorem a8Row_emb11 (k : Fin 24) (h : ∀ a, (![k.val, 0] : Fin 2 → ℕ) a + S1x128.size a ≤ S24x128.size a) (y : S128.Idx) :
    ((a8Row1 ![k.val, 0] h).view.emb y 1).val = (y 0).val := by
  have hz : Shape.reshapeEquiv (s := S1x128) (s' := S128) squeezes_S1x128_S128.numel_eq y = Fin.cons ⟨0, Nat.one_pos⟩ y :=
    Shape.reshapeEquiv_cons_one _ y
  show ((Rect.unit (s := S24x128) ![k.val, 0] S1x128.size h).emb
    (Shape.reshapeEquiv (s := S1x128) (s' := S128) squeezes_S1x128_S128.numel_eq y) 1).val = _
  rw [hz, Rect.emb_apply]
  show 0 + 1 * (y 0).val = (y 0).val
  omega

/-- The word an offset list's entry holds: the index array's word at the tile's row `k`, the entry's column. -/
theorem a8_word1 (k : Fin 24) (h : ∀ a, (![k.val, 0] : Fin 2 → ℕ) a + S1x128.size a ≤ S24x128.size a) (y : S128.Idx) :
    (View.read (Elt F) (a8Row1 ![k.val, 0] h).view (A8c1 d IX L) y).toNat = ixWord d IX (wid1 L) k.val (y 0).val := by
  have hk := k.isLt
  have hy : (y 0).val < 128 := (y 0).isLt
  have hw32 := wid_lt1 L
  have hc : 24 * wid1 L + k.val < 768 ∧ (y 0).val < 128 := ⟨by omega, hy⟩
  unfold ixWord
  rw [dif_pos hc, View.read_apply, cast_eq]
  unfold A8c1
  rw [View.read_apply, cast_eq]
  refine congrArg (fun z => BitVec.toNat (IX z)) ?_
  funext a; apply Fin.ext
  show ((ixRect1 L).emb ((a8Row1 ![k.val, 0] h).view.emb y) a).val = _
  rw [Rect.emb_apply]
  show k2_off1 L a + 1 * ((a8Row1 ![k.val, 0] h).view.emb y a).val = _
  rw [k2_off1_wid]
  match a with
  | 0 => rw [a8Row_emb01]; show 24 * wid1 L + 1 * k.val = 24 * wid1 L + k.val; omega
  | 1 => rw [a8Row_emb11]; show 0 + 1 * (y 0).val = (y 0).val; omega

/-- What a gather by row `k` of the index scratch lands: the table's rows the tile's index row `k` names. -/
theorem gather_val11 (k : Fin 24) (h : ∀ a, (![k.val, 0] : Fin 2 → ℕ) a + S1x128.size a ≤ S24x128.size a)
    (hg : S100000x128.Gathers 0 S128x128) (hn : S128.numel = S128x128.size hg.axis')
    (hin : ∀ x, (View.read (Elt F) (a8Row1 ![k.val, 0] h).view (A8c1 d IX L) x).toNat < S100000x128.size hg.axis) :
    SparseCore.gatherPayload hg (View.read (Elt F) (t1Sl).view T1) (SparseCore.rows (View.read (Elt F) (a8Row1 ![k.val, 0] h).view (A8c1 d IX L)) hn hin)
      = gRows1 d IX L T1 k.val := by
  funext x
  have ha : hg.axis = (0 : Fin S100000x128.rank) := Fin.ext rfl
  have ha' : hg.axis' = (0 : Fin S128x128.rank) := Fin.ext rfl
  -- the row the entry names
  have hr : ((SparseCore.rows (View.read (Elt F) (a8Row1 ![k.val, 0] h).view (A8c1 d IX L)) hn hin) (x hg.axis')).val
      = ixWord d IX (wid1 L) k.val (x 0).val := by
    unfold SparseCore.rows
    show (View.read (Elt F) (a8Row1 ![k.val, 0] h).view (A8c1 d IX L) (S128.rowMajor.symm ((x hg.axis').cast hn.symm))).toNat = _
    rw [a8_word1]
    congr 1
    have e := Shape.rowMajor_val_one (d := ![128]) (S128.rowMajor.symm ((x hg.axis').cast hn.symm))
    rw [Equiv.apply_symm_apply] at e
    rw [← e]
    exact congrArg (fun i => (x i).val) ha'
  have hlt : ixWord d IX (wid1 L) k.val (x 0).val < 100000 := hr ▸ (SparseCore.rows _ hn hin (x hg.axis')).isLt
  unfold SparseCore.gatherPayload gRows1 tblAt
  rw [View.read_apply, cast_eq, dif_pos hlt]
  refine congrArg T1 ?_
  funext a; apply Fin.ext
  show ((Rect.unit (s := S100000x128) ![0, 0] S100000x128.size inb_S100000x128_S100000x128_0_0).emb (hg.idx _ x) a).val = _
  rw [Rect.emb_apply]
  match a with
  | 0 =>
    show 0 + 1 * (hg.idx _ x 0).val = ixWord d IX (wid1 L) k.val (x 0).val
    have h0 : (hg.idx (SparseCore.rows (View.read (Elt F) (a8Row1 ![k.val, 0] h).view (A8c1 d IX L)) hn hin) x 0).val
        = (hg.idx (SparseCore.rows (View.read (Elt F) (a8Row1 ![k.val, 0] h).view (A8c1 d IX L)) hn hin) x hg.axis).val :=
      congrArg (fun i => (hg.idx (SparseCore.rows (View.read (Elt F) (a8Row1 ![k.val, 0] h).view (A8c1 d IX L)) hn hin) x i).val) ha.symm
    rw [h0, Shape.Gathers.idx_axis, hr]; omega
  | 1 =>
    show 0 + 1 * (hg.idx _ x 1).val = (x 1).val
    rw [Shape.Gathers.idx_of_ne hg _ x 1 (by decide)]
    show 0 + 1 * (x 1).val = (x 1).val
    omega

theorem gather_val01 (k : Fin 24) (h : ∀ a, (![k.val, 0] : Fin 2 → ℕ) a + S1x128.size a ≤ S24x128.size a)
    (hg : S100000x128.Gathers 0 S128x128) (hn : S128.numel = S128x128.size hg.axis')
    (hin : ∀ x, (View.read (Elt F) (a8Row1 ![k.val, 0] h).view (A8c1 d IX L) x).toNat < S100000x128.size hg.axis) :
    SparseCore.gatherPayload hg (View.read (Elt F) (t0Sl).view T0) (SparseCore.rows (View.read (Elt F) (a8Row1 ![k.val, 0] h).view (A8c1 d IX L)) hn hin)
      = gRows1 d IX L T0 k.val := by
  funext x
  have ha : hg.axis = (0 : Fin S100000x128.rank) := Fin.ext rfl
  have ha' : hg.axis' = (0 : Fin S128x128.rank) := Fin.ext rfl
  -- the row the entry names
  have hr : ((SparseCore.rows (View.read (Elt F) (a8Row1 ![k.val, 0] h).view (A8c1 d IX L)) hn hin) (x hg.axis')).val
      = ixWord d IX (wid1 L) k.val (x 0).val := by
    unfold SparseCore.rows
    show (View.read (Elt F) (a8Row1 ![k.val, 0] h).view (A8c1 d IX L) (S128.rowMajor.symm ((x hg.axis').cast hn.symm))).toNat = _
    rw [a8_word1]
    congr 1
    have e := Shape.rowMajor_val_one (d := ![128]) (S128.rowMajor.symm ((x hg.axis').cast hn.symm))
    rw [Equiv.apply_symm_apply] at e
    rw [← e]
    exact congrArg (fun i => (x i).val) ha'
  have hlt : ixWord d IX (wid1 L) k.val (x 0).val < 100000 := hr ▸ (SparseCore.rows _ hn hin (x hg.axis')).isLt
  unfold SparseCore.gatherPayload gRows1 tblAt
  rw [View.read_apply, cast_eq, dif_pos hlt]
  refine congrArg T0 ?_
  funext a; apply Fin.ext
  show ((Rect.unit (s := S100000x128) ![0, 0] S100000x128.size inb_S100000x128_S100000x128_0_0).emb (hg.idx _ x) a).val = _
  rw [Rect.emb_apply]
  match a with
  | 0 =>
    show 0 + 1 * (hg.idx _ x 0).val = ixWord d IX (wid1 L) k.val (x 0).val
    have h0 : (hg.idx (SparseCore.rows (View.read (Elt F) (a8Row1 ![k.val, 0] h).view (A8c1 d IX L)) hn hin) x 0).val
        = (hg.idx (SparseCore.rows (View.read (Elt F) (a8Row1 ![k.val, 0] h).view (A8c1 d IX L)) hn hin) x hg.axis).val :=
      congrArg (fun i => (hg.idx (SparseCore.rows (View.read (Elt F) (a8Row1 ![k.val, 0] h).view (A8c1 d IX L)) hn hin) x i).val) ha.symm
    rw [h0, Shape.Gathers.idx_axis, hr]; omega
  | 1 =>
    show 0 + 1 * (hg.idx _ x 1).val = (x 1).val
    rw [Shape.Gathers.idx_of_ne hg _ x 1 (by decide)]
    show 0 + 1 * (x 1).val = (x 1).val
    omega

/-- What a copy-out of the rows gathered for draw `j` leaves in the draw's block: the third result's values there. -/
theorem block_val21 (j : Fin 20) (buf : Ref sig .scVector) (hb : buf.ty = ⟨S128x128, .f32⟩) (g : Buf (Elt F) (o2Loc1 d))
    (w : S128x128.Idx → Elt F .f32) (hw : w = gRows1 d IX L T1 (2 + j.val)) :
    ∀ i ∈ (negSl1 L j).view.set, ((negSl1 L j).view.writes (Elt F) g [⟨Rect.whole (negRect1 L j).shape, w⟩]) i = gV2 d T1 IX i := by
  intro i hi
  subst hw
  have hi' : i ∈ (negRect1 L j).set := by
    rw [show (negSl1 L j).view.set = (negRect1 L j).set from View.set_slice_whole _ _] at hi; exact hi
  obtain ⟨x, rfl⟩ := (negRect1 L j).exists_idx_of_mem hi'
  refine (writes_whole_emb (negSl1 L j).view g (gRows1 d IX L T1 (2 + j.val)) x).trans ?_
  rw [cast_eq]
  have hx0 : (x 0).val < 128 := (x 0).isLt
  have hw32 := wid_lt1 L
  have hj := j.isLt
  have e0 : (((negRect1 L j).emb x) 0).val = 128 * wid1 L + 4096 * j.val + (x 0).val := by
    rw [Rect.emb_apply]; show 128 * wid1 L + 4096 * j.val + 1 * (x 0).val = _; omega
  have e1 : ((negRect1 L j).emb x) 1 = x 1 := by
    apply Fin.ext; rw [Rect.emb_apply]; show 0 + 1 * (x 1).val = _; omega
  show tblAt (F := F) T1 (ixWord d IX (wid1 L) (2 + j.val) (x 0).val) (x 1)
    = tblAt (F := F) T1 (ixWord d IX ((((negRect1 L j).emb x) 0).val % 4096 / 128) (2 + (((negRect1 L j).emb x) 0).val / 4096) ((((negRect1 L j).emb x) 0).val % 128)) (((negRect1 L j).emb x) 1)
  rw [e1, e0, show (128 * wid1 L + 4096 * j.val + (x 0).val) % 4096 / 128 = wid1 L by omega,
    show (128 * wid1 L + 4096 * j.val + (x 0).val) / 4096 = j.val by omega,
    show (128 * wid1 L + 4096 * j.val + (x 0).val) % 128 = (x 0).val by omega]

theorem block_val01 (g : Buf (Elt F) (o0Loc1 d)) (w : S128x128.Idx → Elt F .f32) (hw : w = gRows1 d IX L T0 0) :
    ∀ i ∈ (o0Sl1 L).view.set, ((o0Sl1 L).view.writes (Elt F) g [⟨Rect.whole (oRect1 L).shape, w⟩]) i = gV0 d T0 IX i := by
  intro i hi
  subst hw
  have hi' : i ∈ (oRect1 L).set := by
    rw [show (o0Sl1 L).view.set = (oRect1 L).set from View.set_slice_whole _ _] at hi; exact hi
  obtain ⟨x, rfl⟩ := (oRect1 L).exists_idx_of_mem hi'
  refine (writes_whole_emb (o0Sl1 L).view g (gRows1 d IX L T0 0) x).trans ?_
  rw [cast_eq]
  have hx0 : (x 0).val < 128 := (x 0).isLt
  have hw32 := wid_lt1 L
  have e0 : (((oRect1 L).emb x) 0).val = 128 * wid1 L + (x 0).val := by
    rw [Rect.emb_apply]; show k2_off7 L 0 + 1 * (x 0).val = _
    rw [k2_off7_wid]; show 128 * wid1 L + 1 * (x 0).val = _; omega
  have e1 : ((oRect1 L).emb x) 1 = x 1 := by
    apply Fin.ext; rw [Rect.emb_apply]; show k2_off7 L 1 + 1 * (x 1).val = _
    rw [k2_off7_wid]; show 0 + 1 * (x 1).val = _; omega
  show tblAt (F := F) T0 (ixWord d IX (wid1 L) 0 (x 0).val) (x 1)
    = tblAt (F := F) T0 (ixWord d IX ((((oRect1 L).emb x) 0).val / 128) 0 ((((oRect1 L).emb x) 0).val % 128)) (((oRect1 L).emb x) 1)
  rw [e1, e0, show (128 * wid1 L + (x 0).val) / 128 = wid1 L by omega, show (128 * wid1 L + (x 0).val) % 128 = (x 0).val by omega]

theorem block_val11 (g : Buf (Elt F) (o1Loc1 d)) (w : S128x128.Idx → Elt F .f32) (hw : w = gRows1 d IX L T1 1) :
    ∀ i ∈ (o1Sl1 L).view.set, ((o1Sl1 L).view.writes (Elt F) g [⟨Rect.whole (oRect1 L).shape, w⟩]) i = gV1 d T1 IX i := by
  intro i hi
  subst hw
  have hi' : i ∈ (oRect1 L).set := by
    rw [show (o1Sl1 L).view.set = (oRect1 L).set from View.set_slice_whole _ _] at hi; exact hi
  obtain ⟨x, rfl⟩ := (oRect1 L).exists_idx_of_mem hi'
  refine (writes_whole_emb (o1Sl1 L).view g (gRows1 d IX L T1 1) x).trans ?_
  rw [cast_eq]
  have hx0 : (x 0).val < 128 := (x 0).isLt
  have hw32 := wid_lt1 L
  have e0 : (((oRect1 L).emb x) 0).val = 128 * wid1 L + (x 0).val := by
    rw [Rect.emb_apply]; show k2_off7 L 0 + 1 * (x 0).val = _
    rw [k2_off7_wid]; show 128 * wid1 L + 1 * (x 0).val = _; omega
  have e1 : ((oRect1 L).emb x) 1 = x 1 := by
    apply Fin.ext; rw [Rect.emb_apply]; show k2_off7 L 1 + 1 * (x 1).val = _
    rw [k2_off7_wid]; show 0 + 1 * (x 1).val = _; omega
  show tblAt (F := F) T1 (ixWord d IX (wid1 L) 1 (x 0).val) (x 1)
    = tblAt (F := F) T1 (ixWord d IX ((((oRect1 L).emb x) 0).val / 128) 1 ((((oRect1 L).emb x) 0).val % 128)) (((oRect1 L).emb x) 1)
  rw [e1, e0, show (128 * wid1 L + (x 0).val) / 128 = wid1 L by omega, show (128 * wid1 L + (x 0).val) % 128 = (x 0).val by omega]

end Cert.Proof.KI

end
-- ==== Proof.KI_TileEpi_c1.lean ====
/-
  The end of the gather kernel on a tile: segments of index families that run to the end, and a block of the third
  result once the copy-out of a draw's rows has written it.
-/
import proofs.«215899_g5772436046013_cont_9to1c4b_742_31_alg».proof.Proof.KI_TileVal
import proofs.«215899_g5772436046013_cont_9to1c4b_742_31_alg».proof.Proof.KI_TileVal_c1
import proofs.«215899_g5772436046013_cont_9to1c4b_742_31_alg».proof.Proof.KI_TileEpi

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section Epi

variable (d : Dev nD) (T0 : Buf (Elt F) (t0Loc d)) (T1 : Buf (Elt F) (t1Loc d)) (IX : Buf (Elt F) (ixLoc1 d)) (L : grid2.Coords)

/-- A block of the third result the copy-out of draw `j`'s rows has written, in the program's spelling of the block,
    is the block at the third result's values. -/
theorem blk_done1 (j : Fin 20) (off : Fin 2 → ℕ) (h : ∀ a, off a + S128x128.size a ≤ S81920x128.size a) (hoff : off = negOff1 L j.val)
    (g : Buf (Elt F) (o2Loc1 d)) (w : S128x128.Idx → Elt F .f32) (hw : w = gRows1 d IX L T1 (2 + j.val)) :
    (View.loc (thrV1 d L) ((o2V1).slice (Rect.unit (s := S81920x128) off S128x128.size h) (fun _ => rfl)).view
        ↦[((o2V1).slice (Rect.unit (s := S81920x128) off S128x128.size h) (fun _ => rfl)).view.set]{fullShare}
        ((o2V1).slice (Rect.unit (s := S81920x128) off S128x128.size h) (fun _ => rfl)).view.writes (Elt F) g
          [⟨Rect.whole (Rect.unit (s := S81920x128) off S128x128.size h).shape, w⟩] : sProp 𝕄)
      ⊢ (o2Loc1 d ↦[(negSl1 L j).view.set]{fullShare} gV2 d T1 IX) := by
  subst hoff
  exact Entails.of_eq (pointsTo_congr (block_val21 (F := F) d T1 IX L j cc2_scratch3 rfl g w hw))

end Epi

end Cert.Proof.KI

end
-- ==== Proof.KI_Tile_c1.lean ====
/-
  The gather kernel of call 1 on one vector subcore, as the launch theorem's obligation: the kernel's run at a
  symbolic tile from the tile's resources to its results, and the obligation in the launch theorem's own spelling.
-/
import proofs.«215899_g5772436046013_cont_9to1c4b_742_31_alg».proof.Proof.KI_TileEpi
import proofs.«215899_g5772436046013_cont_9to1c4b_742_31_alg».proof.Proof.KI_TileEpi_c1
import proofs.«215899_g5772436046013_cont_9to1c4b_742_31_alg».proof.Proof.KI_Tile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section Intro

variable (d : Dev nD) (T0 : Buf (Elt F) (t0Loc d)) (T1 : Buf (Elt F) (t1Loc d)) (IX : Buf (Elt F) (ixLoc1 d)) (L : grid2.Coords)

/-- A gather's flight as the run leaves it is the invariant's, the landed rows in closed form. -/
theorem gFl_intro1 (cell : DmaSem sig) (tok : ℕ) (buf : Ref sig .scVector) (row : Fin 24) (off : Fin 2 → ℕ)
    (h : ∀ a, off a + S1x128.size a ≤ S24x128.size a) (hoff : off = ![row.val, 0])
    (c0 cont : Buf (Elt F) ((thrV1 d L).loc buf)) (hc : c0 = cont) :
    Transfers.Flight countersEmb (thrV1 d L) (SemLoc.dma cell) (default : HIx 4) 524288
      iprop(((View.loc (thrV1 d L) (Memref.whole buf).view ↦{fullShare} c0)
          ∗ View.loc (thrV1 d L) (a8Row1 off h).view ↦[(a8Row1 off h).view.set]{fullShare} A8c1 d IX L)
        ∗ View.loc (thrV1 d L) (t1V).view ↦[(t1Sl).view.set]{Transfers.shareTokN (tblShare1 L) tok} T1)
      ⊢ (gFl1 d T1 IX L cell tok buf row cont : sProp 𝕄) := by
  subst hoff hc; exact .rfl

/-- A copy-out's flight as the run leaves it is the invariant's, the block at the third result's values. -/
theorem wFl_intro1 (cell : DmaSem sig) (buf : Ref sig .scVector) (j : Fin 20) (off : Fin 2 → ℕ)
    (h : ∀ a, off a + S128x128.size a ≤ S81920x128.size a) (hoff : off = negOff1 L j.val)
    (b0 bcont : Buf (Elt F) (o2Loc1 d)) (hb : ∀ i ∈ (negSl1 L j).view.set, b0 i = bcont i)
    (c0 cont : Buf (Elt F) ((thrV1 d L).loc buf)) (hc : c0 = cont) :
    Transfers.Flight countersEmb (thrV1 d L) (SemLoc.dma cell) (default : HIx 4) 524288
      iprop((View.loc (thrV1 d L) ((o2V1).slice (Rect.unit (s := S81920x128) off S128x128.size h) (fun _ => rfl)).view
            ↦[((o2V1).slice (Rect.unit (s := S81920x128) off S128x128.size h) (fun _ => rfl)).view.set]{fullShare} b0)
        ∗ View.loc (thrV1 d L) (Memref.whole buf).view ↦[(Memref.whole buf : Memref sig .scVector _ _ _).view.set]{fullShare} c0)
      ⊢ (wFl1 d L cell buf j bcont cont : sProp 𝕄) := by
  subst hoff hc
  refine Transfers.Flight_mono countersEmb (thrV1 d L) ?_
  rw [show (View.loc (thrV1 d L) ((o2V1).slice (Rect.unit (s := S81920x128) (negOff1 L j.val) S128x128.size h) (fun _ => rfl)).view
            ↦[((o2V1).slice (Rect.unit (s := S81920x128) (negOff1 L j.val) S128x128.size h) (fun _ => rfl)).view.set]{fullShare} b0 : sProp 𝕄)
        = (View.loc (thrV1 d L) (negSl1 L j).view ↦[(negSl1 L j).view.set]{fullShare} bcont) from pointsTo_congr hb]

/-- The first done row at the loop's entry. -/
theorem rows_done01 (c : Buf (Elt F) (a8Loc1 d L)) (h2 : 2 < 24) :
    (a8Loc1 d L ↦[a8RowSet1 ⟨2, h2⟩]{fullShare} c : sProp 𝕄)
      ⊢ bigSep (Finset.univ.filter fun k : Fin 24 => 2 ≤ k.val ∧ k.val < 4 * 0 + 3) fun k => a8Loc1 d L ↦[a8RowSet1 k]{fullShare} c := by
  rw [show (Finset.univ.filter fun k : Fin 24 => 2 ≤ k.val ∧ k.val < 4 * 0 + 3) = {⟨2, h2⟩} from
    Finset.ext fun k => by simp only [Finset.mem_filter, Finset.mem_univ, true_and, Finset.mem_singleton, Fin.ext_iff]; omega, bigSep_singleton]

/-- No block is written at the loop's entry. -/
theorem blks_done01 (c : Buf (Elt F) (o2Loc1 d)) :
    (iprop(emp) : sProp 𝕄)
      ⊢ bigSep (Finset.univ.filter fun j : Fin 20 => 0 ≤ j.val ∧ j.val < 4 * 0) fun j => o2Loc1 d ↦[(negSl1 L j).view.set]{fullShare} c := by
  rw [show (Finset.univ.filter fun j : Fin 20 => 0 ≤ j.val ∧ j.val < 4 * 0) = ∅ from by decide, bigSep_empty]
  exact .rfl

end Intro

section Intro2

variable (d : Dev nD) (T0 : Buf (Elt F) (t0Loc d)) (T1 : Buf (Elt F) (t1Loc d)) (IX : Buf (Elt F) (ixLoc1 d)) (L : grid2.Coords)

/-- What a gather by an index row lands, the row taken at any spelling of its offset. -/
theorem gather_val1'1 (off : Fin 2 → ℕ) (h : ∀ a, off a + S1x128.size a ≤ S24x128.size a) (kk : Fin 24) (hoff : off = ![kk.val, 0])
    (hg : S100000x128.Gathers 0 S128x128) (hn : S128.numel = S128x128.size hg.axis')
    (hin : ∀ x, (View.read (Elt F) (a8Row1 off h).view (A8c1 d IX L) x).toNat < S100000x128.size hg.axis) :
    SparseCore.gatherPayload hg (View.read (Elt F) (t1Sl).view T1) (SparseCore.rows (View.read (Elt F) (a8Row1 off h).view (A8c1 d IX L)) hn hin)
      = gRows1 d IX L T1 kk.val := by
  subst hoff; exact gather_val11 (F := F) d T1 IX L kk h hg hn hin

/-- A block written whole with the rows gathered for its draw holds the third result's values. -/
theorem blk_intro1 (j : Fin 20) (off : Fin 2 → ℕ) (h : ∀ a, off a + S128x128.size a ≤ S81920x128.size a) (hoff : off = negOff1 L j.val)
    (g : Buf (Elt F) (o2Loc1 d)) (w : S128x128.Idx → Elt F .f32) (hw : w = gRows1 d IX L T1 (2 + j.val)) :
    (View.loc (thrV1 d L) ((o2V1).slice (Rect.unit (s := S81920x128) off S128x128.size h) (fun _ => rfl)).view
        ↦[((o2V1).slice (Rect.unit (s := S81920x128) off S128x128.size h) (fun _ => rfl)).view.set]{fullShare}
        (((o2V1).slice (Rect.unit (s := S81920x128) off S128x128.size h) (fun _ => rfl)).view.writes (Elt F) g
          [⟨Rect.whole (Rect.unit (s := S81920x128) off S128x128.size h).shape, w⟩]) : sProp 𝕄)
      ⊢ (o2Loc1 d ↦[(negSl1 L j).view.set]{fullShare} gV2 d T1 IX) := by
  subst hoff
  exact Entails.of_eq (pointsTo_congr (block_val21 (F := F) d T1 IX L j cc2_scratch3 rfl g w hw))

/-- The same inside a copy-out's flight. -/
theorem wFl_intro'1 (cell : DmaSem sig) (buf : Ref sig .scVector) (j : Fin 20) (off : Fin 2 → ℕ)
    (h : ∀ a, off a + S128x128.size a ≤ S81920x128.size a) (hoff : off = negOff1 L j.val)
    (g : Buf (Elt F) (o2Loc1 d)) (w : S128x128.Idx → Elt F .f32) (hw : w = gRows1 d IX L T1 (2 + j.val))
    (cont : Buf (Elt F) ((thrV1 d L).loc buf)) :
    Transfers.Flight countersEmb (thrV1 d L) (SemLoc.dma cell) (default : HIx 4) 524288
      iprop((View.loc (thrV1 d L) ((o2V1).slice (Rect.unit (s := S81920x128) off S128x128.size h) (fun _ => rfl)).view
            ↦[((o2V1).slice (Rect.unit (s := S81920x128) off S128x128.size h) (fun _ => rfl)).view.set]{fullShare}
            (((o2V1).slice (Rect.unit (s := S81920x128) off S128x128.size h) (fun _ => rfl)).view.writes (Elt F) g
              [⟨Rect.whole (Rect.unit (s := S81920x128) off S128x128.size h).shape, w⟩]))
        ∗ View.loc (thrV1 d L) (Memref.whole buf).view ↦[(Memref.whole buf : Memref sig .scVector _ _ _).view.set]{fullShare} cont)
      ⊢ (wFl1 d L cell buf j (gV2 d T1 IX) cont : sProp 𝕄) := by
  refine Transfers.Flight_mono countersEmb (thrV1 d L) ?_
  iintro ⟨Hb, Hc⟩
  isplitl [Hb]
  · iapply (blk_intro1 (F := F) d T1 IX L j off h hoff g w hw); iexact Hb
  · iexact Hc

end Intro2

section Intro3

variable (d : Dev nD) (T1 : Buf (Elt F) (t1Loc d)) (IX : Buf (Elt F) (ixLoc1 d)) (L : grid2.Coords)

theorem row_reidx1 (c : Buf (Elt F) (a8Loc1 d L)) (i j : Fin 24) (e : i = j) :
    (a8Loc1 d L ↦[a8RowSet1 i]{fullShare} c : sProp 𝕄) ⊢ (a8Loc1 d L ↦[a8RowSet1 j]{fullShare} c) := by
  subst e; exact .rfl

theorem blk_reidx1 (c : Buf (Elt F) (o2Loc1 d)) (i j : Fin 20) (e : i = j) :
    (View.loc (thrV1 d L) (negSl1 L i).view ↦[(negSl1 L i).view.set]{fullShare} c : sProp 𝕄) ⊢ (o2Loc1 d ↦[(negSl1 L j).view.set]{fullShare} c) := by
  subst e; exact .rfl

theorem pts_a8Row_congr1 {off off' : Fin 2 → ℕ} (e : off = off') (h : ∀ a, off a + S1x128.size a ≤ S24x128.size a)
    (h' : ∀ a, off' a + S1x128.size a ≤ S24x128.size a) (f : Buf (Elt F) (a8Loc1 d L)) :
    (View.loc (thrV1 d L) (a8Row1 off h).view ↦[(a8Row1 off h).view.set]{fullShare} f : sProp 𝕄)
      = (View.loc (thrV1 d L) (a8Row1 off' h').view ↦[(a8Row1 off' h').view.set]{fullShare} f) := by
  subst e; rfl

theorem wFl_unfold1 (cell : DmaSem sig) (buf : Ref sig .scVector) (j : Fin 20) (b : Buf (Elt F) (o2Loc1 d)) (c : Buf (Elt F) ((thrV1 d L).loc buf)) :
    (wFl1 d L cell buf j b c : sProp 𝕄) = Transfers.Flight countersEmb (thrV1 d L) (SemLoc.dma cell) (default : HIx 4) 524288
      iprop((View.loc (thrV1 d L) (negSl1 L j).view ↦[(negSl1 L j).view.set]{fullShare} b)
        ∗ View.loc (thrV1 d L) (Memref.whole buf).view ↦[(Memref.whole buf : Memref sig .scVector _ _ _).view.set]{fullShare} c) := rfl

end Intro3

/-! ## The kernel at a symbolic tile -/

section Body

variable (d : Dev nD) (T0 : Buf (Elt F) (t0Loc d)) (T1 : Buf (Elt F) (t1Loc d)) (IX : Buf (Elt F) (ixLoc1 d))

set_option maxHeartbeats 4000000 in
/-- The gather kernel on the vector subcore at `L`: from what the tile is handed and its own scratch storage to what
    it hands back, every wait admissible under what the tile owes the launch. The index copy-in lands the tile's 24
    index rows; each gather reads a table by one of those rows, on its own semaphore and read token; the ring's
    loop keeps the invariant `inv1`; every block copied out holds the result's values. -/
theorem tile_body1 (hF : (K (F := F)).Facts) (hIX : IXOK1 d IX) (L : grid2.Coords) (O : CellTallies nD τ sig (HIx 4)) (W : Waits sig (HIx 4)) (hO : ∀ g, O g none = 0) :
    iprop(levAts (K (F := F)).L (K (F := F)).lev ∗ emp ∗ goResL1 d T0 T1 IX L
        ∗ scopedBufs (thrV1 d L) ∗ scopedSems0 (thrV1 d L) ∗ owes (thrV1 d L) O W)
      ⊢ wp frame (wpE (defs₀ (F := F)) 𝒱₀ (thrV1 d L) none) Set.univ
          (cc2__sc_gather L t0V (Memref.isWhole_whole _) t1V (Memref.isWhole_whole _) ixV1 (Memref.isWhole_whole _) o0V1 (Memref.isWhole_whole _) o1V1 (Memref.isWhole_whole _) o2V1 (Memref.isWhole_whole _)
            a81 (Memref.isWhole_whole _) bC1 (Memref.isWhole_whole _) bP1 (Memref.isWhole_whole _) rb01 (Memref.isWhole_whole _) rb11 (Memref.isWhole_whole _) rb21 (Memref.isWhole_whole _) rb31 (Memref.isWhole_whole _)
            cc2_scratch7 cc2_scratch8 cc2_scratch9 cc2_scratch10 cc2_scratch11 cc2_scratch12 cc2_scratch13 cc2_scratch14 cc2_scratch15 cc2_scratch16 cc2_scratch17 cc2_scratch18 cc2_scoped0)
          fun _ => iprop(tdResL1 d T0 T1 IX L ∗ scopedBufs (thrV1 d L) ∗ scopedSems0 (thrV1 d L)
            ∗ ∃ W', ⌜∀ p ∈ W', p ∈ W ∨ p.2 = none⌝ ∗ owes (thrV1 d L) O W') := by
  simp only [cc2__sc_gather_eq_skeleton]; unfold cc2__sc_gather_skel
  rw [(K (F := F)).scopedBufs_V hF d (cV1 L) (jV1 L), SparseCore.Cfg.scopedSems0_V (Val := Elt F) d (cV1 L) (jV1 L), ownSems0_V1, ownBufs_V1]
  unfold goResL1
  iintro ⟨#Hlv, -, ⟨Ht0, Ht1, Hix, ⟨%f0, Ho0⟩, ⟨%f1, Ho1⟩, Hneg⟩,
    ⟨⟨⟨%fa8, Ha8⟩, ⟨%fbC, HbC⟩, ⟨%fbP, HbP⟩, ⟨%f0', Hr0⟩, ⟨%f1', Hr1⟩, ⟨%f2', Hr2⟩, ⟨%f3', Hr3⟩⟩, Hbufs⟩,
    ⟨⟨Hs0, Hs7, Hs8, Hs9, Hs10, Hs11, Hs12, Hs13, Hs14, Hs15, Hs16, Hs17, Hs18⟩, Hsems⟩, HO⟩
  ihave Hmw := ((K (F := F)).mayWaits_none (thr := thrV1 d L) hO) $$ Hlv
  -- the arrays as the tile's memrefs address them; the second table's share, one read token per semaphore
  ihave Ht0 := (Entails.of_eq (pts_t01 (F := F) d L _ _).symm) $$ Ht0
  ihave Ht1 := (toks8_split (F := F) (tblShare1 L) T1) $$ Ht1
  icases Ht1 with ⟨Hq8, Hq7, Hq6, Hq5, Hq4, Hq3, Hq2, Hq1, Hq0⟩
  ihave Hq1 := (Entails.of_eq (pts_t11 (F := F) d L _ _).symm) $$ Hq1
  ihave Hq4 := (Entails.of_eq (pts_t11 (F := F) d L _ _).symm) $$ Hq4
  ihave Hq5 := (Entails.of_eq (pts_t11 (F := F) d L _ _).symm) $$ Hq5
  ihave Hq6 := (Entails.of_eq (pts_t11 (F := F) d L _ _).symm) $$ Hq6
  ihave Hq7 := (Entails.of_eq (pts_t11 (F := F) d L _ _).symm) $$ Hq7
  ihave Hix := (Entails.of_eq (pts_ix1 (F := F) d L _).symm) $$ Hix
  ihave Ho0 := (Entails.of_eq (pts_o01 (F := F) d L _).symm) $$ Ho0
  ihave Ho1 := (Entails.of_eq (pts_o11 (F := F) d L _).symm) $$ Ho1
  ihave Ha8 := (Entails.of_eq (pts_scr1 (F := F) d L cc2_scratch0 _).symm) $$ Ha8
  ihave HbC := (Entails.of_eq (pts_scr1 (F := F) d L cc2_scratch1 _).symm) $$ HbC
  ihave HbP := (Entails.of_eq (pts_scr1 (F := F) d L cc2_scratch2 _).symm) $$ HbP
  ihave Hr0 := (Entails.of_eq (pts_scr1 (F := F) d L cc2_scratch3 _).symm) $$ Hr0
  ihave Hr1 := (Entails.of_eq (pts_scr1 (F := F) d L cc2_scratch4 _).symm) $$ Hr1
  ihave Hr2 := (Entails.of_eq (pts_scr1 (F := F) d L cc2_scratch5 _).symm) $$ Hr2
  ihave Hr3 := (Entails.of_eq (pts_scr1 (F := F) d L cc2_scratch6 _).symm) $$ Hr3

  sl_exec
  -- the index scratch now holds the tile's 24 rows of the index array; row by row
  have hA8 : (View.write (Elt F) (a81 : Memref sig .scVector .vmem S24x128 .i32).view fa8 (tile_body1.sl.dma0 d IX L) Finset.univ) = A8c1 d IX L := by
    exact (View.write_whole_univ (Val := Elt F) cc2_scratch0 fa8 _).trans rfl
  rw [hA8]
  have h0 : (0 : ℕ) < 24 := by decide
  have h1 : (1 : ℕ) < 24 := by decide
  have h2 : (2 : ℕ) < 24 := by decide
  have h3 : (3 : ℕ) < 24 := by decide
  have h4 : (4 : ℕ) < 24 := by decide
  have h5 : (5 : ℕ) < 24 := by decide
  have hb0 : (0 : ℕ) < 20 := by decide
  ihave Ha8 := (Entails.of_eq (pts_scr1 (F := F) d L cc2_scratch0 _)) $$ Ha8
  ihave Hrows := (Entails.of_eq (a8_rows1 (F := F) d L _)) $$ Ha8
  ihave Hrows := (Entails.of_eq (bigSep_from_zero (F := F) _).symm) $$ Hrows
  ihave H := (Entails.of_eq (bigSep_from_pop (F := F) _ 0 h0)) $$ Hrows; icases H with ⟨Hw0, Hrows⟩
  ihave H := (Entails.of_eq (bigSep_from_pop (F := F) _ 1 h1)) $$ Hrows; icases H with ⟨Hw1, Hrows⟩
  ihave H := (Entails.of_eq (bigSep_from_pop (F := F) _ 2 h2)) $$ Hrows; icases H with ⟨Hw2, Hrows⟩
  ihave H := (Entails.of_eq (bigSep_from_pop (F := F) _ 3 h3)) $$ Hrows; icases H with ⟨Hw3, Hrows⟩
  ihave H := (Entails.of_eq (bigSep_from_pop (F := F) _ 4 h4)) $$ Hrows; icases H with ⟨Hw4, Hrows⟩
  ihave H := (Entails.of_eq (bigSep_from_pop (F := F) _ 5 h5)) $$ Hrows; icases H with ⟨Hw5, Hrows⟩
  ihave Hw0 := (Entails.of_eq (pts_a8Row1 (F := F) d L ⟨0, h0⟩ ![0, 0] (rowInb ⟨0, h0⟩) rfl _).symm) $$ Hw0
  ihave Hw1 := (Entails.of_eq (pts_a8Row1 (F := F) d L ⟨1, h1⟩ ![1, 0] (rowInb ⟨1, h1⟩) rfl _).symm) $$ Hw1
  ihave Hw2 := (Entails.of_eq (pts_a8Row1 (F := F) d L ⟨2, h2⟩ ![2, 0] (rowInb ⟨2, h2⟩) rfl _).symm) $$ Hw2
  ihave Hw3 := (Entails.of_eq (pts_a8Row1 (F := F) d L ⟨3, h3⟩ ![3, 0] (rowInb ⟨3, h3⟩) rfl _).symm) $$ Hw3
  ihave Hw4 := (Entails.of_eq (pts_a8Row1 (F := F) d L ⟨4, h4⟩ ![4, 0] (rowInb ⟨4, h4⟩) rfl _).symm) $$ Hw4
  ihave Hw5 := (Entails.of_eq (pts_a8Row1 (F := F) d L ⟨5, h5⟩ ![5, 0] (rowInb ⟨5, h5⟩) rfl _).symm) $$ Hw5
  have hin0 := hin_rows1 (F := F) d IX L hIX ⟨0, h0⟩ ![0, 0] (rowInb ⟨0, h0⟩) rfl (by show (0 : ℕ) < 22; decide)
  have hin1 := hin_rows1 (F := F) d IX L hIX ⟨1, h1⟩ ![1, 0] (rowInb ⟨1, h1⟩) rfl (by show (1 : ℕ) < 22; decide)
  have hin2 := hin_rows1 (F := F) d IX L hIX ⟨2, h2⟩ ![2, 0] (rowInb ⟨2, h2⟩) rfl (by show (2 : ℕ) < 22; decide)
  have hin3 := hin_rows1 (F := F) d IX L hIX ⟨3, h3⟩ ![3, 0] (rowInb ⟨3, h3⟩) rfl (by show (3 : ℕ) < 22; decide)
  have hin4 := hin_rows1 (F := F) d IX L hIX ⟨4, h4⟩ ![4, 0] (rowInb ⟨4, h4⟩) rfl (by show (4 : ℕ) < 22; decide)
  have hin5 := hin_rows1 (F := F) d IX L hIX ⟨5, h5⟩ ![5, 0] (rowInb ⟨5, h5⟩) rfl (by show (5 : ℕ) < 22; decide)
  -- draw 0's block of the third result
  ihave Hneg := (Entails.of_eq (bigSep_from_zero (F := F) _).symm) $$ Hneg
  ihave H := (Entails.of_eq (bigSep_from_pop (F := F) _ 0 hb0)) $$ Hneg; icases H with ⟨⟨%g0, Hb0⟩, Hneg⟩
  ihave Hb0 := (Entails.of_eq (pts_negOff1 (F := F) d L (k2_off2_neg L 0 0 rfl) (k2_off2_inb L 0) (negOff_inb1 L ⟨0, hb0⟩) _).symm) $$ Hb0
  sl_exec

  -- ── the ring at the loop's entry: the invariant at trip 0 ──
  have hc3 : (rb11).view.writes (Elt F) f1' [⟨Rect.whole cc2_scratch4.ty.shape, tile_body1.sl.gather3 d T1 IX L h3 hin3⟩] = gRows1 d IX L T1 (4 * 0 + 3) :=
    (writes_whole1 (F := F) d L cc2_scratch4 f1' _).trans (gather_val11 (F := F) d T1 IX L ⟨3, h3⟩ (rowInb ⟨3, h3⟩) gathers_S100000x128_S128x128 (by decide) hin3)
  have hc4 : (rb21).view.writes (Elt F) f2' [⟨Rect.whole cc2_scratch5.ty.shape, tile_body1.sl.gather4 d T1 IX L h4 hin4⟩] = gRows1 d IX L T1 (4 * 0 + 4) :=
    (writes_whole1 (F := F) d L cc2_scratch5 f2' _).trans (gather_val11 (F := F) d T1 IX L ⟨4, h4⟩ (rowInb ⟨4, h4⟩) gathers_S100000x128_S128x128 (by decide) hin4)
  have hc5 : (rb31).view.writes (Elt F) f3' [⟨Rect.whole cc2_scratch6.ty.shape, tile_body1.sl.gather5 d T1 IX L h5 hin5⟩] = gRows1 d IX L T1 (4 * 0 + 5) :=
    (writes_whole1 (F := F) d L cc2_scratch6 f3' _).trans (gather_val11 (F := F) d T1 IX L ⟨5, h5⟩ (rowInb ⟨5, h5⟩) gathers_S100000x128_S128x128 (by decide) hin5)
  have hc2 : (rb01).view.writes (Elt F) f0' [⟨Rect.whole cc2_scratch3.ty.shape, tile_body1.sl.gather2 d T1 IX L h2 hin2⟩] = gRows1 d IX L T1 (4 * 0 + 2) :=
    (writes_whole1 (F := F) d L cc2_scratch3 f0' _).trans (gather_val11 (F := F) d T1 IX L ⟨2, h2⟩ (rowInb ⟨2, h2⟩) gathers_S100000x128_S128x128 (by decide) hin2)
  have hw0 : tile_body1.sl.dma0_1 d T1 IX L f0' h2 hin2 = gRows1 d IX L T1 (2 + (blkF (4 * 0)).val) := by
    unfold tile_body1.sl.dma0_1; rw [hc2]; rfl
  rw [hc2, hc3, hc4, hc5]
  sl_for (inv1 d T1 IX L O W) $$ [Hmw Hs12 Hq5 Hs13 Hq6 Hs14 Hq7 Hs15 Hr0 Hq4 Hs11 Hs16 Hs17 Hs18 Hw2 Hrows Hneg HO]
  case region =>
    intro k _
    have hk : k.val < 4 := lt_of_lt_of_le k.isLt k2_t1_abs.2.1
    unfold inv1 gFl1 wFl1
    iintro ⟨#Hmw, Hs12, Hq5, Hs13, Hq6, Hs14, Hq7, Hs15, Hr0, Hq4, Hs11, Hs16, Hs17, Hs18, Hdone, Hrows, Hbd, Hneg, %W', %hW', HO⟩
    -- the four index rows this trip gathers by, as the program takes them
    have hr0 : 4 * k.val + 6 < 24 := by omega
    have hr1 : 4 * k.val + 6 + 1 < 24 := by omega
    have hr2 : 4 * k.val + 6 + 1 + 1 < 24 := by omega
    have hr3 : 4 * k.val + 6 + 1 + 1 + 1 < 24 := by omega
    ihave H := (Entails.of_eq (bigSep_from_pop (F := F) _ _ hr0)) $$ Hrows; icases H with ⟨Hn0, Hrows⟩
    ihave H := (Entails.of_eq (bigSep_from_pop (F := F) _ _ hr1)) $$ Hrows; icases H with ⟨Hn1, Hrows⟩
    ihave H := (Entails.of_eq (bigSep_from_pop (F := F) _ _ hr2)) $$ Hrows; icases H with ⟨Hn2, Hrows⟩
    ihave H := (Entails.of_eq (bigSep_from_pop (F := F) _ _ hr3)) $$ Hrows; icases H with ⟨Hn3, Hrows⟩
    have ho0 : k2_off5 k 1#32 = ![(⟨4 * k.val + 6, hr0⟩ : Fin 24).val, 0] :=
      (k2_off5_eq k ⟨0, by decide⟩).trans (by show ![0 + 4 * k.val + 6, 0] = ![4 * k.val + 6, 0]; congr 1; omega)
    have ho1 : k2_off5 k 2#32 = ![(⟨4 * k.val + 6 + 1, hr1⟩ : Fin 24).val, 0] :=
      (k2_off5_eq k ⟨1, by decide⟩).trans (by show ![1 + 4 * k.val + 6, 0] = ![4 * k.val + 6 + 1, 0]; congr 1; omega)
    have ho2 : k2_off5 k 3#32 = ![(⟨4 * k.val + 6 + 1 + 1, hr2⟩ : Fin 24).val, 0] :=
      (k2_off5_eq k ⟨2, by decide⟩).trans (by show ![2 + 4 * k.val + 6, 0] = ![4 * k.val + 6 + 1 + 1, 0]; congr 1; omega)
    have ho3 : k2_off5 k 4#32 = ![(⟨4 * k.val + 6 + 1 + 1 + 1, hr3⟩ : Fin 24).val, 0] :=
      (k2_off5_eq k ⟨3, by decide⟩).trans (by show ![3 + 4 * k.val + 6, 0] = ![4 * k.val + 6 + 1 + 1 + 1, 0]; congr 1; omega)
    ihave Hn0 := (Entails.of_eq (pts_a8Row1 (F := F) d L ⟨_, hr0⟩ (k2_off5 k 1#32) (k2_off5_inb k 0) ho0 _).symm) $$ Hn0
    ihave Hn1 := (Entails.of_eq (pts_a8Row1 (F := F) d L ⟨_, hr1⟩ (k2_off5 k 2#32) (k2_off5_inb k 1) ho1 _).symm) $$ Hn1
    ihave Hn2 := (Entails.of_eq (pts_a8Row1 (F := F) d L ⟨_, hr2⟩ (k2_off5 k 3#32) (k2_off5_inb k 2) ho2 _).symm) $$ Hn2
    ihave Hn3 := (Entails.of_eq (pts_a8Row1 (F := F) d L ⟨_, hr3⟩ (k2_off5 k 4#32) (k2_off5_inb k 3) ho3 _).symm) $$ Hn3
    have hinA := hin_rows1 (F := F) d IX L hIX ⟨_, hr0⟩ (k2_off5 k 1#32) (k2_off5_inb k 0) ho0 (by show 4 * k.val + 6 < 22; omega)
    have hinB := hin_rows1 (F := F) d IX L hIX ⟨_, hr1⟩ (k2_off5 k 2#32) (k2_off5_inb k 1) ho1 (by show 4 * k.val + 6 + 1 < 22; omega)
    have hinC := hin_rows1 (F := F) d IX L hIX ⟨_, hr2⟩ (k2_off5 k 3#32) (k2_off5_inb k 2) ho2 (by show 4 * k.val + 6 + 1 + 1 < 22; omega)
    have hinD := hin_rows1 (F := F) d IX L hIX ⟨_, hr3⟩ (k2_off5 k 4#32) (k2_off5_inb k 3) ho3 (by show 4 * k.val + 6 + 1 + 1 + 1 < 22; omega)
    -- the four blocks it writes, as the program takes them
    have hq0 : 4 * k.val + 1 < 20 := by omega
    have hq1 : 4 * k.val + 1 + 1 < 20 := by omega
    have hq2 : 4 * k.val + 1 + 1 + 1 < 20 := by omega
    have hq3 : 4 * k.val + 1 + 1 + 1 + 1 < 20 := by omega
    ihave H := (Entails.of_eq (bigSep_from_pop (F := F) _ _ hq0)) $$ Hneg; icases H with ⟨⟨%gA, HbA⟩, Hneg⟩
    ihave H := (Entails.of_eq (bigSep_from_pop (F := F) _ _ hq1)) $$ Hneg; icases H with ⟨⟨%gB, HbB⟩, Hneg⟩
    ihave H := (Entails.of_eq (bigSep_from_pop (F := F) _ _ hq2)) $$ Hneg; icases H with ⟨⟨%gC, HbC'⟩, Hneg⟩
    ihave H := (Entails.of_eq (bigSep_from_pop (F := F) _ _ hq3)) $$ Hneg; icases H with ⟨⟨%gD, HbD⟩, Hneg⟩
    have hbo0 : k2_off6 L k 1#32 = negOff1 L (⟨4 * k.val + 1, hq0⟩ : Fin 20).val :=
      (k2_off6_wid L k ⟨0, by decide⟩).trans (by show negOff1 L (4 * k.val + 0 + 1) = negOff1 L (4 * k.val + 1); rfl)
    have hbo1 : k2_off6 L k 2#32 = negOff1 L (⟨4 * k.val + 1 + 1, hq1⟩ : Fin 20).val :=
      (k2_off6_wid L k ⟨1, by decide⟩).trans (by show negOff1 L (4 * k.val + 1 + 1) = negOff1 L (4 * k.val + 1 + 1); rfl)
    have hbo2 : k2_off6 L k 3#32 = negOff1 L (⟨4 * k.val + 1 + 1 + 1, hq2⟩ : Fin 20).val :=
      (k2_off6_wid L k ⟨2, by decide⟩).trans (by show negOff1 L (4 * k.val + 2 + 1) = negOff1 L (4 * k.val + 1 + 1 + 1); rfl)
    have hbo3 : k2_off6 L k 4#32 = negOff1 L (⟨4 * k.val + 1 + 1 + 1 + 1, hq3⟩ : Fin 20).val :=
      (k2_off6_wid L k ⟨3, by decide⟩).trans (by show negOff1 L (4 * k.val + 3 + 1) = negOff1 L (4 * k.val + 1 + 1 + 1 + 1); rfl)
    ihave HbA := (Entails.of_eq (pts_negOff1 (F := F) d L hbo0 (k2_off6_inb L k 0) (negOff_inb1 L ⟨_, hq0⟩) _).symm) $$ HbA
    ihave HbB := (Entails.of_eq (pts_negOff1 (F := F) d L hbo1 (k2_off6_inb L k 1) (negOff_inb1 L ⟨_, hq1⟩) _).symm) $$ HbB
    ihave HbC' := (Entails.of_eq (pts_negOff1 (F := F) d L hbo2 (k2_off6_inb L k 2) (negOff_inb1 L ⟨_, hq2⟩) _).symm) $$ HbC'
    ihave HbD := (Entails.of_eq (pts_negOff1 (F := F) d L hbo3 (k2_off6_inb L k 3) (negOff_inb1 L ⟨_, hq3⟩) _).symm) $$ HbD
    sl_exec
    sl_step
    have hcA : (rb01).view.writes (Elt F) (gRows1 d IX L T1 (4 * k.val + 2)) [⟨Rect.whole cc2_scratch3.ty.shape, tile_body1.sl.gather0_1 d T1 IX L k hinA⟩] = gRows1 d IX L T1 (4 * (k.val + 1) + 2) :=
      (writes_whole1 (F := F) d L cc2_scratch3 _ _).trans ((gather_val1'1 (F := F) d T1 IX L (k2_off5 k 1#32) (k2_off5_inb k 0) ⟨_, hr0⟩ ho0 gathers_S100000x128_S128x128 (by decide) hinA).trans (by congr 1 <;> omega))
    have hcB : (rb11).view.writes (Elt F) (gRows1 d IX L T1 (4 * k.val + 3)) [⟨Rect.whole cc2_scratch4.ty.shape, tile_body1.sl.gather2_1 d T1 IX L k hinB⟩] = gRows1 d IX L T1 (4 * (k.val + 1) + 3) :=
      (writes_whole1 (F := F) d L cc2_scratch4 _ _).trans ((gather_val1'1 (F := F) d T1 IX L (k2_off5 k 2#32) (k2_off5_inb k 1) ⟨_, hr1⟩ ho1 gathers_S100000x128_S128x128 (by decide) hinB).trans (by congr 1 <;> omega))
    have hcC : (rb21).view.writes (Elt F) (gRows1 d IX L T1 (4 * k.val + 4)) [⟨Rect.whole cc2_scratch5.ty.shape, tile_body1.sl.gather4_1 d T1 IX L k hinC⟩] = gRows1 d IX L T1 (4 * (k.val + 1) + 4) :=
      (writes_whole1 (F := F) d L cc2_scratch5 _ _).trans ((gather_val1'1 (F := F) d T1 IX L (k2_off5 k 3#32) (k2_off5_inb k 2) ⟨_, hr2⟩ ho2 gathers_S100000x128_S128x128 (by decide) hinC).trans (by congr 1 <;> omega))
    have hcD : (rb31).view.writes (Elt F) (gRows1 d IX L T1 (4 * k.val + 5)) [⟨Rect.whole cc2_scratch6.ty.shape, tile_body1.sl.gather6 d T1 IX L k hinD⟩] = gRows1 d IX L T1 (4 * (k.val + 1) + 5) :=
      (writes_whole1 (F := F) d L cc2_scratch6 _ _).trans ((gather_val1'1 (F := F) d T1 IX L (k2_off5 k 4#32) (k2_off5_inb k 3) ⟨_, hr3⟩ ho3 gathers_S100000x128_S128x128 (by decide) hinD).trans (by congr 1 <;> omega))
    rw [hcA, hcB, hcC, hcD]
    -- the rows of the three gathers now in flight, in the invariant's spelling
    have e1 : k2_off5 k 2#32 = ![(rowF (4 * (k.val + 1) + 3)).val, 0] := ho1.trans (by show ![4 * k.val + 6 + 1, 0] = ![(4 * (k.val + 1) + 3) % 24, 0]; congr 1; omega)
    have e2 : k2_off5 k 3#32 = ![(rowF (4 * (k.val + 1) + 4)).val, 0] := ho2.trans (by show ![4 * k.val + 6 + 1 + 1, 0] = ![(4 * (k.val + 1) + 4) % 24, 0]; congr 1; omega)
    have e3 : k2_off5 k 4#32 = ![(rowF (4 * (k.val + 1) + 5)).val, 0] := ho3.trans (by show ![4 * k.val + 6 + 1 + 1 + 1, 0] = ![(4 * (k.val + 1) + 5) % 24, 0]; congr 1; omega)
    rw [pts_a8Row_congr1 (F := F) d L e1 (k2_off5_inb k 1) (rowInb _) (A8c1 d IX L), pts_a8Row_congr1 (F := F) d L e2 (k2_off5_inb k 2) (rowInb _) (A8c1 d IX L), pts_a8Row_congr1 (F := F) d L e3 (k2_off5_inb k 3) (rowInb _) (A8c1 d IX L)]
    -- the four rows that came back
    have hd0 : 4 * k.val + 3 < 24 := by omega
    have hd1 : 4 * k.val + 3 + 1 < 24 := by omega
    have hd2 : 4 * k.val + 3 + 1 + 1 < 24 := by omega
    have hd3 : 4 * k.val + 3 + 1 + 1 + 1 < 24 := by omega
    ihave R0 := (Entails.of_eq (pts_a8Row1 (F := F) d L (rowF (4 * k.val + 3)) ![(rowF (4 * k.val + 3)).val, 0] (rowInb _) rfl _)) $$ Hs12_dst_and
    ihave R0 := (row_reidx1 (F := F) d L _ _ ⟨4 * k.val + 3, hd0⟩ (Fin.ext (show (4 * k.val + 3) % 24 = 4 * k.val + 3 by omega))) $$ R0
    ihave R1 := (Entails.of_eq (pts_a8Row1 (F := F) d L (rowF (4 * k.val + 4)) ![(rowF (4 * k.val + 4)).val, 0] (rowInb _) rfl _)) $$ Hs13_dst_and
    ihave R1 := (row_reidx1 (F := F) d L _ _ ⟨4 * k.val + 3 + 1, hd1⟩ (Fin.ext (show (4 * k.val + 4) % 24 = 4 * k.val + 3 + 1 by omega))) $$ R1
    ihave R2 := (Entails.of_eq (pts_a8Row1 (F := F) d L (rowF (4 * k.val + 5)) ![(rowF (4 * k.val + 5)).val, 0] (rowInb _) rfl _)) $$ Hs14_dst_and
    ihave R2 := (row_reidx1 (F := F) d L _ _ ⟨4 * k.val + 3 + 1 + 1, hd2⟩ (Fin.ext (show (4 * k.val + 5) % 24 = 4 * k.val + 3 + 1 + 1 by omega))) $$ R2
    ihave R3 := (Entails.of_eq (pts_a8Row1 (F := F) d L ⟨_, hr0⟩ (k2_off5 k 1#32) (k2_off5_inb k 0) ho0 _)) $$ Hn0
    ihave R3 := (row_reidx1 (F := F) d L _ _ ⟨4 * k.val + 3 + 1 + 1 + 1, hd3⟩ (Fin.ext (show 4 * k.val + 6 = 4 * k.val + 3 + 1 + 1 + 1 by omega))) $$ R3
    -- the four blocks that are written
    have hp0 : 4 * k.val < 20 := by omega
    ihave B0 := (blk_reidx1 (F := F) d L _ _ ⟨4 * k.val, hp0⟩ (Fin.ext (show (4 * k.val) % 20 = 4 * k.val by omega))) $$ Hs15_dst
    have hwA : tile_body1.sl.dma0_2 d T1 IX L k = gRows1 d IX L T1 (2 + (⟨4 * k.val + 1, hq0⟩ : Fin 20).val) := by
      unfold tile_body1.sl.dma0_2; show gRows1 d IX L T1 (4 * k.val + 3) = gRows1 d IX L T1 (2 + (4 * k.val + 1)); congr 1; omega
    have hwB : tile_body1.sl.dma0_3 d T1 IX L k = gRows1 d IX L T1 (2 + (⟨4 * k.val + 1 + 1, hq1⟩ : Fin 20).val) := by
      unfold tile_body1.sl.dma0_3; show gRows1 d IX L T1 (4 * k.val + 4) = gRows1 d IX L T1 (2 + (4 * k.val + 1 + 1)); congr 1; omega
    have hwC : tile_body1.sl.dma0_4 d T1 IX L k = gRows1 d IX L T1 (2 + (⟨4 * k.val + 1 + 1 + 1, hq2⟩ : Fin 20).val) := by
      unfold tile_body1.sl.dma0_4; show gRows1 d IX L T1 (4 * k.val + 5) = gRows1 d IX L T1 (2 + (4 * k.val + 1 + 1 + 1)); congr 1; omega
    have hwD : tile_body1.sl.dma0_5 d T1 IX L k hinA = gRows1 d IX L T1 (2 + (blkF (4 * (k.val + 1))).val) := by
      unfold tile_body1.sl.dma0_5; rw [hcA]; show gRows1 d IX L T1 (4 * (k.val + 1) + 2) = gRows1 d IX L T1 (2 + (4 * (k.val + 1)) % 20); congr 1; omega
    ihave B1 := (blk_intro1 (F := F) d T1 IX L ⟨_, hq0⟩ (k2_off6 L k 1#32) (k2_off6_inb L k 0) hbo0 gA _ hwA) $$ HbA
    ihave B2 := (blk_intro1 (F := F) d T1 IX L ⟨_, hq1⟩ (k2_off6 L k 2#32) (k2_off6_inb L k 1) hbo1 gB _ hwB) $$ HbB
    ihave B3 := (blk_intro1 (F := F) d T1 IX L ⟨_, hq2⟩ (k2_off6 L k 3#32) (k2_off6_inb L k 2) hbo2 gC _ hwC) $$ HbC'
    have hbo3' : k2_off6 L k 4#32 = negOff1 L (blkF (4 * (k.val + 1))).val :=
      hbo3.trans (by show negOff1 L (4 * k.val + 1 + 1 + 1 + 1) = negOff1 L ((4 * (k.val + 1)) % 20); congr 1; omega)
    -- the invariant at the next trip
    isplitl []; · iexact Hmw
    isplitl [Hs12]; · iexact Hs12
    isplitl [Hq5]; · iexact Hq5
    isplitl [Hs13]; · iexact Hs13
    isplitl [Hq6]; · iexact Hq6
    isplitl [Hs14]; · iexact Hs14
    isplitl [Hq7]; · iexact Hq7
    isplitl [Hs15]
    · have h8 : (29 : ℕ) < sig.nDmaSem := by decide
      iapply ((wFl_intro'1 (F := F) d T1 IX L ⟨29, h8⟩ cc2_scratch3 (blkF (4 * (k.val + 1))) (k2_off6 L k 4#32) (k2_off6_inb L k 3) hbo3' gD _ hwD (gRows1 d IX L T1 (4 * (k.val + 1) + 2))).trans
        (Entails.of_eq (wFl_unfold1 (F := F) d L ⟨29, h8⟩ cc2_scratch3 (blkF (4 * (k.val + 1))) (gV2 d T1 IX) (gRows1 d IX L T1 (4 * (k.val + 1) + 2)))))
      iexact Hs15
    isplitl [Hr0]; · iexact Hr0
    isplitl [Hq4]; · iexact Hq4
    isplitl [Hs11]; · iexact Hs11
    isplitl [Hs16]; · iexact Hs16
    isplitl [Hs17]; · iexact Hs17
    isplitl [Hs18]; · iexact Hs18
    isplitl [Hdone R0 R1 R2 R3]
    · iapply (mid_push4 (F := F) (fun k' : Fin 24 => (a8Loc1 d L ↦[a8RowSet1 k']{fullShare} A8c1 d IX L : sProp 𝕄)) 2 (4 * k.val + 3) (4 * (k.val + 1) + 3) hd0 hd1 hd2 hd3 (by omega) (by omega))
      isplitl [Hdone]; · iexact Hdone
      isplitl [R0]; · iexact R0
      isplitl [R1]; · iexact R1
      isplitl [R2]; · iexact R2
      iexact R3
    isplitl [Hrows]
    · iapply (Entails.of_eq (bigSep_from_congr (F := F) _ (show 4 * k.val + 6 + 1 + 1 + 1 + 1 = 4 * (k.val + 1) + 6 by omega)))
      iexact Hrows
    isplitl [Hbd B0 B1 B2 B3]
    · iapply (mid_push4 (F := F) (fun j : Fin 20 => (o2Loc1 d ↦[(negSl1 L j).view.set]{fullShare} gV2 d T1 IX : sProp 𝕄)) 0 (4 * k.val) (4 * (k.val + 1)) hp0 hq0 hq1 hq2 (by omega) (by omega))
      isplitl [Hbd]; · iexact Hbd
      isplitl [B0]; · iexact B0
      isplitl [B1]; · iexact B1
      isplitl [B2]; · iexact B2
      iexact B3
    isplitl [Hneg]
    · iapply (Entails.of_eq (bigSep_from_congr (F := F) _ (show 4 * k.val + 1 + 1 + 1 + 1 + 1 = 4 * (k.val + 1) + 1 by omega)))
      iexact Hneg
    iexists (insert ((SemLoc.dma ⟨32, by decide⟩ : SemLoc sig), (default : HIx 4))
      (insert ((SemLoc.dma ⟨25, by decide⟩ : SemLoc sig), (default : HIx 4))
        (insert ((SemLoc.dma ⟨31, by decide⟩ : SemLoc sig), (default : HIx 4))
          (insert ((SemLoc.dma ⟨28, by decide⟩ : SemLoc sig), (default : HIx 4))
            (insert ((SemLoc.dma ⟨30, by decide⟩ : SemLoc sig), (default : HIx 4))
              (insert ((SemLoc.dma ⟨27, by decide⟩ : SemLoc sig), (default : HIx 4))
                (insert ((SemLoc.dma ⟨29, by decide⟩ : SemLoc sig), (default : HIx 4))
                  (insert ((SemLoc.dma ⟨26, by decide⟩ : SemLoc sig), (default : HIx 4)) W')))))))); isplitr
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      · exact hW' p hp
    · iexact HO
  · unfold inv1
    isplitl [Hmw]; · iexact Hmw
    isplitl [Hs12]; · unfold gFl1; iexact Hs12
    isplitl [Hq5]; · iexact Hq5
    isplitl [Hs13]; · unfold gFl1; iexact Hs13
    isplitl [Hq6]; · iexact Hq6
    isplitl [Hs14]; · unfold gFl1; iexact Hs14
    isplitl [Hq7]; · iexact Hq7
    isplitl [Hs15]
    · have h8 : (29 : ℕ) < sig.nDmaSem := by decide
      iapply (wFl_intro'1 (F := F) d T1 IX L ⟨29, h8⟩ cc2_scratch3 (blkF (4 * 0)) (k2_off2 L (k2_off2_at 0))
        (k2_off2_inb L 0) (k2_off2_neg L 0 0 rfl) g0 _ hw0 _)
      iexact Hs15
    isplitl [Hr0]; · iexact Hr0
    isplitl [Hq4]; · iexact Hq4
    isplitl [Hs11]; · iexact Hs11
    isplitl [Hs16]; · iexact Hs16
    isplitl [Hs17]; · iexact Hs17
    isplitl [Hs18]; · iexact Hs18
    isplitl [Hw2]
    · iapply (rows_done01 (F := F) d L _ h2)
      iapply (Entails.of_eq (pts_a8Row1 (F := F) d L ⟨2, h2⟩ ![2, 0] (rowInb ⟨2, h2⟩) rfl _))
      iexact Hw2
    isplitl [Hrows]; · iexact Hrows
    isplitl []; · iapply (blks_done01 (F := F) d L (gV2 d T1 IX)); iempintro
    isplitl [Hneg]; · iexact Hneg
    iexists (insert ((SemLoc.dma ⟨25, by decide⟩ : SemLoc sig), (default : HIx 4))
      (insert ((SemLoc.dma ⟨33, by decide⟩ : SemLoc sig), (default : HIx 4)) W)); isplitr
    · ipureintro; intro p hp
      rcases Finset.mem_insert.mp hp with rfl | hp
      · exact .inr rfl
      rcases Finset.mem_insert.mp hp with rfl | hp
      · exact .inr rfl
      · exact .inl hp
    · iexact HO
  iintro %_ HI
  unfold inv1 gFl1 wFl1
  icases HI with ⟨#Hmw', Hs12, Hq5, Hs13, Hq6, Hs14, Hq7, Hs15, Hr0, Hq4, Hs11, Hs16, Hs17, Hs18, Hdone, Hrows, Hbd, Hneg, %W', %hW', HO⟩
  have htr : Scf.trips k2_t1_loop.lb k2_t1_loop.ub k2_t1_loop.st = 4 := by decide
  rw [htr]
  have hb16 : (16 : ℕ) < 20 := by decide
  have h19 : (19 : ℕ) < 24 := by decide
  have h20 : (20 : ℕ) < 24 := by decide
  have h21 : (21 : ℕ) < 24 := by decide
  have e19 : rowF (4 * 4 + 3) = ⟨19, h19⟩ := rfl
  have e20 : rowF (4 * 4 + 4) = ⟨20, h20⟩ := rfl
  have e21 : rowF (4 * 4 + 5) = ⟨21, h21⟩ := rfl
  have e16 : blkF (4 * 4) = ⟨16, hb16⟩ := rfl
  rw [e19, e20, e21, e16]
  have hb17 : (17 : ℕ) < 20 := by decide
  have hb18 : (18 : ℕ) < 20 := by decide
  have hb19 : (19 : ℕ) < 20 := by decide
  ihave H := (Entails.of_eq (bigSep_from_pop (F := F) _ 17 hb17)) $$ Hneg; icases H with ⟨⟨%g17, Hb17⟩, Hneg⟩
  ihave H := (Entails.of_eq (bigSep_from_pop (F := F) _ 18 hb18)) $$ Hneg; icases H with ⟨⟨%g18, Hb18⟩, Hneg⟩
  ihave H := (Entails.of_eq (bigSep_from_pop (F := F) _ 19 hb19)) $$ Hneg; icases H with ⟨⟨%g19, Hb19⟩, Hneg⟩
  ihave Hb17 := (Entails.of_eq (pts_negOff1 (F := F) d L (k2_off2_neg L 2 17 rfl) (k2_off2_inb L 2) (negOff_inb1 L ⟨17, hb17⟩) _).symm) $$ Hb17
  ihave Hb18 := (Entails.of_eq (pts_negOff1 (F := F) d L (k2_off2_neg L 3 18 rfl) (k2_off2_inb L 3) (negOff_inb1 L ⟨18, hb18⟩) _).symm) $$ Hb18
  ihave Hb19 := (Entails.of_eq (pts_negOff1 (F := F) d L (k2_off2_neg L 4 19 rfl) (k2_off2_inb L 4) (negOff_inb1 L ⟨19, hb19⟩) _).symm) $$ Hb19
  sl_exec
  sl_step
  -- what the copy-outs carried: the gathered rows
  have hp17 : tile_body1.sl.dma0_6 d T1 IX L = gRows1 d IX L T1 (2 + 17) := rfl
  have hp18 : tile_body1.sl.dma0_7 d T1 IX L = gRows1 d IX L T1 (2 + 18) := rfl
  have hp19 : tile_body1.sl.dma0_8 d T1 IX L = gRows1 d IX L T1 (2 + 19) := rfl
  have hpC : tile_body1.sl.dma0_9 d T0 IX L fbC h0 hin0 = gRows1 d IX L T0 0 := by
    unfold tile_body1.sl.dma0_9 tile_body1.sl.gather0
    exact (writes_whole1 (F := F) d L cc2_scratch1 fbC _).trans (gather_val01 (F := F) d T0 IX L ⟨0, h0⟩ (rowInb ⟨0, h0⟩) gathers_S100000x128_S128x128 (by decide) hin0)
  have hpP : tile_body1.sl.dma0_10 d T1 IX L fbP h1 hin1 = gRows1 d IX L T1 1 := by
    unfold tile_body1.sl.dma0_10 tile_body1.sl.gather1
    exact (writes_whole1 (F := F) d L cc2_scratch2 fbP _).trans (gather_val11 (F := F) d T1 IX L ⟨1, h1⟩ (rowInb ⟨1, h1⟩) gathers_S100000x128_S128x128 (by decide) hin1)
  have h22 : (22 : ℕ) < 24 := by decide
  have h23 : (23 : ℕ) < 24 := by decide
  -- the third result's blocks, all twenty
  ihave Hb17 := (blk_done1 (F := F) d T1 IX L ⟨17, hb17⟩ _ (k2_off2_inb L 2) (k2_off2_neg L 2 17 rfl) g17 _ hp17) $$ Hb17
  ihave Hb18 := (blk_done1 (F := F) d T1 IX L ⟨18, hb18⟩ _ (k2_off2_inb L 3) (k2_off2_neg L 3 18 rfl) g18 _ hp18) $$ Hb18
  ihave Hb19 := (blk_done1 (F := F) d T1 IX L ⟨19, hb19⟩ _ (k2_off2_inb L 4) (k2_off2_neg L 4 19 rfl) g19 _ hp19) $$ Hb19
  ihave Hbd := (Entails.of_eq (bigSep_mid_push (F := F) (fun j : Fin 20 => (o2Loc1 d ↦[(negSl1 L j).view.set]{fullShare} gV2 d T1 IX : sProp 𝕄)) 0 16 hb16 (by omega)).symm) $$ [Hs15_dst Hbd]
  · isplitl [Hs15_dst]
    · iexact Hs15_dst
    iexact Hbd
  ihave Hbd := (Entails.of_eq (bigSep_mid_push (F := F) (fun j : Fin 20 => (o2Loc1 d ↦[(negSl1 L j).view.set]{fullShare} gV2 d T1 IX : sProp 𝕄)) 0 17 hb17 (by omega)).symm) $$ [Hb17 Hbd]
  · isplitl [Hb17] <;> iassumption
  ihave Hbd := (Entails.of_eq (bigSep_mid_push (F := F) (fun j : Fin 20 => (o2Loc1 d ↦[(negSl1 L j).view.set]{fullShare} gV2 d T1 IX : sProp 𝕄)) 0 18 hb18 (by omega)).symm) $$ [Hb18 Hbd]
  · isplitl [Hb18] <;> iassumption
  ihave Hbd := (Entails.of_eq (bigSep_mid_push (F := F) (fun j : Fin 20 => (o2Loc1 d ↦[(negSl1 L j).view.set]{fullShare} gV2 d T1 IX : sProp 𝕄)) 0 19 hb19 (by omega)).symm) $$ [Hb19 Hbd]
  · isplitl [Hb19] <;> iassumption
  ihave Hbd := (Entails.of_eq (bigSep_mid_all (F := F) (fun j : Fin 20 => (o2Loc1 d ↦[(negSl1 L j).view.set]{fullShare} gV2 d T1 IX : sProp 𝕄)))) $$ Hbd
  -- the index scratch, all twenty-four rows
  ihave R19 := (Entails.of_eq (pts_a8Row1 (F := F) d L ⟨19, h19⟩ _ _ rfl _)) $$ Hs12_dst_and
  ihave R20 := (Entails.of_eq (pts_a8Row1 (F := F) d L ⟨20, h20⟩ _ _ rfl _)) $$ Hs13_dst_and
  ihave R21 := (Entails.of_eq (pts_a8Row1 (F := F) d L ⟨21, h21⟩ _ _ rfl _)) $$ Hs14_dst_and
  ihave R0 := (Entails.of_eq (pts_a8Row1 (F := F) d L ⟨0, h0⟩ ![0, 0] (rowInb ⟨0, h0⟩) rfl _)) $$ Hw0
  ihave R1 := (Entails.of_eq (pts_a8Row1 (F := F) d L ⟨1, h1⟩ ![1, 0] (rowInb ⟨1, h1⟩) rfl _)) $$ Hw1
  ihave H := (Entails.of_eq (bigSep_from_pop (F := F) _ 22 h22)) $$ Hrows; icases H with ⟨R22, Hrows⟩
  ihave H := (Entails.of_eq (bigSep_from_pop (F := F) _ 23 h23)) $$ Hrows; icases H with ⟨R23, -⟩
  ihave Hdone := (Entails.of_eq (bigSep_mid_push (F := F) (fun k : Fin 24 => (a8Loc1 d L ↦[a8RowSet1 k]{fullShare} A8c1 d IX L : sProp 𝕄)) 2 19 h19 (by omega)).symm) $$ [R19 Hdone]
  · isplitl [R19]
    · iexact R19
    iexact Hdone
  ihave Hdone := (Entails.of_eq (bigSep_mid_push (F := F) (fun k : Fin 24 => (a8Loc1 d L ↦[a8RowSet1 k]{fullShare} A8c1 d IX L : sProp 𝕄)) 2 20 h20 (by omega)).symm) $$ [R20 Hdone]
  · isplitl [R20]
    · iexact R20
    iexact Hdone
  ihave Hdone := (Entails.of_eq (bigSep_mid_push (F := F) (fun k : Fin 24 => (a8Loc1 d L ↦[a8RowSet1 k]{fullShare} A8c1 d IX L : sProp 𝕄)) 2 21 h21 (by omega)).symm) $$ [R21 Hdone]
  · isplitl [R21]
    · iexact R21
    iexact Hdone
  ihave Hdone := (Entails.of_eq (bigSep_mid_push (F := F) (fun k : Fin 24 => (a8Loc1 d L ↦[a8RowSet1 k]{fullShare} A8c1 d IX L : sProp 𝕄)) 2 22 h22 (by omega)).symm) $$ [R22 Hdone]
  · isplitl [R22]
    · iexact R22
    iexact Hdone
  ihave Hdone := (Entails.of_eq (bigSep_mid_push (F := F) (fun k : Fin 24 => (a8Loc1 d L ↦[a8RowSet1 k]{fullShare} A8c1 d IX L : sProp 𝕄)) 2 23 h23 (by omega)).symm) $$ [R23 Hdone]
  · isplitl [R23]
    · iexact R23
    iexact Hdone
  ihave Hdone := (Entails.of_eq (bigSep_mid_top (F := F) (fun k : Fin 24 => (a8Loc1 d L ↦[a8RowSet1 k]{fullShare} A8c1 d IX L : sProp 𝕄)) 2)) $$ Hdone
  ihave Hdone := (Entails.of_eq (bigSep_from_pop (F := F) (fun k : Fin 24 => (a8Loc1 d L ↦[a8RowSet1 k]{fullShare} A8c1 d IX L : sProp 𝕄)) 1 h1).symm) $$ [R1 Hdone]
  · isplitl [R1]
    · iexact R1
    iexact Hdone
  ihave Hdone := (Entails.of_eq (bigSep_from_pop (F := F) (fun k : Fin 24 => (a8Loc1 d L ↦[a8RowSet1 k]{fullShare} A8c1 d IX L : sProp 𝕄)) 0 h0).symm) $$ [R0 Hdone]
  · isplitl [R0]
    · iexact R0
    iexact Hdone
  ihave Hdone := (Entails.of_eq (bigSep_from_zero (F := F) (fun k : Fin 24 => (a8Loc1 d L ↦[a8RowSet1 k]{fullShare} A8c1 d IX L : sProp 𝕄)))) $$ Hdone
  ihave Ha8 := (Entails.of_eq (a8_rows1 (F := F) d L (A8c1 d IX L)).symm) $$ Hdone
  -- what the tile hands back
  unfold tdResL1
  isplitl [Ht0 Hq8 Hq7 Hq6 Hq5 Hq4 Hq3 Hq2 Hq1 Hq0 Hix Ho0 Ho1 Hbd]
  · isplitl [Ht0]
    · iexact Ht0
    isplitl [Hq8 Hq7 Hq6 Hq5 Hq4 Hq3 Hq2 Hq1 Hq0]
    · iapply (toks8_join (F := F) (tblShare1 L) T1)
      isplitl [Hq8]
      · iexact Hq8
      isplitl [Hq7]
      · iexact Hq7
      isplitl [Hq6]
      · iexact Hq6
      isplitl [Hq5]
      · iexact Hq5
      isplitl [Hq4]
      · iexact Hq4
      isplitl [Hq3]
      · iexact Hq3
      isplitl [Hq2]
      · iexact Hq2
      isplitl [Hq1]
      · iexact Hq1
      iexact Hq0
    isplitl [Hix]
    · iexact Hix
    isplitl [Ho0]
    · iapply (Entails.of_eq (pointsTo_congr (block_val01 (F := F) d T0 IX L f0 _ hpC)))
      iexact Ho0
    isplitl [Ho1]
    · iapply (Entails.of_eq (pointsTo_congr (block_val11 (F := F) d T1 IX L f1 _ hpP)))
      iexact Ho1
    iexact Hbd
  isplitl [Ha8 HbC HbP Hr0 Hs12_dst Hs13_dst Hs14_dst Hbufs]
  · isplitr [Hbufs]
    · isplitl [Ha8]
      · iexists _; iexact Ha8
      isplitl [HbC]
      · iexists _; iexact HbC
      isplitl [HbP]
      · iexists _; iexact HbP
      isplitl [Hr0]
      · iexists _; iexact Hr0
      isplitl [Hs12_dst]
      · iexists _; iexact Hs12_dst
      isplitl [Hs13_dst]
      · iexists _; iexact Hs13_dst
      iexists _; iexact Hs14_dst
    iexact Hbufs
  isplitr [HO]
  · isplitr [Hsems]
    · isplitl [Hs0]
      · iexact Hs0
      isplitl [Hs7]
      · iexact Hs7
      isplitl [Hs8]
      · iexact Hs8
      isplitl [Hs9]
      · iexact Hs9
      isplitl [Hs10]
      · iexact Hs10
      isplitl [Hs11]
      · iexact Hs11
      isplitl [Hs12]
      · iexact Hs12
      isplitl [Hs13]
      · iexact Hs13
      isplitl [Hs14]
      · iexact Hs14
      isplitl [Hs15]
      · iexact Hs15
      isplitl [Hs16]
      · iexact Hs16
      isplitl [Hs17]
      · iexact Hs17
      iexact Hs18
    iexact Hsems
  iexists _; isplitr
  swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

end Body

/-! ## The launch theorem's obligation -/

theorem defs₀_vector1 (c : Fin τ.nSC) (s : Fin τ.nSub) :
    defs₀ (F := F) (.scVector c s) 2 ()
      = SparseCore.onTile hcore2 hsub2 (fun c s => cc2__sc_gather (coordsV1 c s)
          t0V (Memref.isWhole_whole _) t1V (Memref.isWhole_whole _) ixV1 (Memref.isWhole_whole _) o0V1 (Memref.isWhole_whole _) o1V1 (Memref.isWhole_whole _) o2V1 (Memref.isWhole_whole _)
            a81 (Memref.isWhole_whole _) bC1 (Memref.isWhole_whole _) bP1 (Memref.isWhole_whole _) rb01 (Memref.isWhole_whole _) rb11 (Memref.isWhole_whole _) rb21 (Memref.isWhole_whole _) rb31 (Memref.isWhole_whole _)
            cc2_scratch7 cc2_scratch8 cc2_scratch9 cc2_scratch10 cc2_scratch11 cc2_scratch12 cc2_scratch13 cc2_scratch14 cc2_scratch15 cc2_scratch16 cc2_scratch17 cc2_scratch18 cc2_scoped0) ⟨⟩ c s := rfl

/-- `TileObl` at call 1, for any payload record whose call-0 fields are the tile's resources above, nothing
    extra held per thread and nothing owed for a protocol of the kernel's own. -/
theorem tileObl1 (hF : (K (F := F)).Facts)
    (T0 : (d : Dev nD) → Buf (Elt F) (t0Loc d)) (T1 : (d : Dev nD) → Buf (Elt F) (t1Loc d)) (IX : (d : Dev nD) → Buf (Elt F) (ixLoc1 d))
    (hIX : ∀ d, IXOK1 d (IX d))
    (P : (K (F := F)).Pay (nD := nD) (Val := Elt F) (Name := ℕ) (U := UU))
    (hgo : ∀ d c i, P.go 1 d c i = goRes1 d (T0 d) (T1 d) (IX d) c i)
    (htd : ∀ d c i, P.td 1 d c i = tdRes1 d (T0 d) (T1 d) (IX d) c i)
    (hx : ∀ thr, P.x 1 thr = iprop(emp))
    (hox : ∀ thr, P.ox 1 thr = 0) :
    (K (F := F)).TileObl (D (F := F)) 𝒱 P v₀ 1 := by
  intro d c i O W hO _ _
  rw [hox, add_zero, hx, hgo, htd]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector1]; simp only [SparseCore.onTile, hc, and_self, ↓reduceDIte]
  exact (tile_body1 d (T0 d) (T1 d) (IX d) hF (hIX d) (coordsV1 ⟨_, hc.1⟩ ⟨_, hc.2⟩) O W hO).trans (wp_mono frame _ _ fun _ => obl_post)

end Cert.Proof.KI

end
-- ==== Proof.KI_TileOwn_c2.lean ====
/-
  A vector subcore's own storage at call 2: its thread, the seven scratch buffers and thirteen DMA semaphores of
  the gather kernel, taken out of the tile's scoped buffers and scoped semaphores.
-/
import proofs.«215899_g5772436046013_cont_9to1c4b_742_31_alg».proof.Proof.KI_TileRes
import proofs.«215899_g5772436046013_cont_9to1c4b_742_31_alg».proof.Proof.KI_TileRes_c2
import proofs.«215899_g5772436046013_cont_9to1c4b_742_31_alg».proof.Proof.KI_TileOwn

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## The tile's thread, its scratch buffers and its semaphores -/

abbrev thrV2 (d : Dev nD) (L : grid4.Coords) : Thread nD τ := V d (cV2 L) (jV2 L)

abbrev a82 : Memref sig .scVector .vmem S24x128 .i32 := Memref.whole cc4_scratch0
abbrev bC2 : Memref sig .scVector .vmem S128x128 .f32 := Memref.whole cc4_scratch1
abbrev bP2 : Memref sig .scVector .vmem S128x128 .f32 := Memref.whole cc4_scratch2
abbrev rb02 : Memref sig .scVector .vmem S128x128 .f32 := Memref.whole cc4_scratch3
abbrev rb12 : Memref sig .scVector .vmem S128x128 .f32 := Memref.whole cc4_scratch4
abbrev rb22 : Memref sig .scVector .vmem S128x128 .f32 := Memref.whole cc4_scratch5
abbrev rb32 : Memref sig .scVector .vmem S128x128 .f32 := Memref.whole cc4_scratch6

/-- The kernel's thirteen DMA semaphores. -/
def tileSems2 : Finset (DmaSem sig) := {cc4_scoped0.sem, cc4_scratch7.sem, cc4_scratch8.sem, cc4_scratch9.sem, cc4_scratch10.sem, cc4_scratch11.sem, cc4_scratch12.sem, cc4_scratch13.sem, cc4_scratch14.sem, cc4_scratch15.sem, cc4_scratch16.sem, cc4_scratch17.sem, cc4_scratch18.sem}
/-- The kernel's seven scratch buffers. -/
def tileRefs2 : Finset (Ref sig .scVector) := {cc4_scratch0, cc4_scratch1, cc4_scratch2, cc4_scratch3, cc4_scratch4, cc4_scratch5, cc4_scratch6}

omit [FloatOps F] in
theorem tileSems_sub2 (d : Dev nD) (L : grid4.Coords) : tileSems2.map (cellEmb (thrV2 d L)) ⊆ ownCells (thrV2 d L) := by
  intro g hg
  obtain ⟨s, hs, rfl⟩ := Finset.mem_map.mp hg
  refine mem_ownCells.mpr ⟨rfl, ?_⟩
  show sig.isScopedDmaSem .scVector s = true
  clear hg
  revert s; decide +revert

omit [FloatOps F] in
theorem ownSems0_V2 (d : Dev nD) (L : grid4.Coords) :
    (ownSems0 (thrV2 d L) : sProp 𝕄)
      = iprop((semVal (thrV2 d L, SemLoc.dma cc4_scoped0.sem) 0
          ∗ semVal (thrV2 d L, SemLoc.dma cc4_scratch7.sem) 0
          ∗ semVal (thrV2 d L, SemLoc.dma cc4_scratch8.sem) 0
          ∗ semVal (thrV2 d L, SemLoc.dma cc4_scratch9.sem) 0
          ∗ semVal (thrV2 d L, SemLoc.dma cc4_scratch10.sem) 0
          ∗ semVal (thrV2 d L, SemLoc.dma cc4_scratch11.sem) 0
          ∗ semVal (thrV2 d L, SemLoc.dma cc4_scratch12.sem) 0
          ∗ semVal (thrV2 d L, SemLoc.dma cc4_scratch13.sem) 0
          ∗ semVal (thrV2 d L, SemLoc.dma cc4_scratch14.sem) 0
          ∗ semVal (thrV2 d L, SemLoc.dma cc4_scratch15.sem) 0
          ∗ semVal (thrV2 d L, SemLoc.dma cc4_scratch16.sem) 0
          ∗ semVal (thrV2 d L, SemLoc.dma cc4_scratch17.sem) 0
          ∗ semVal (thrV2 d L, SemLoc.dma cc4_scratch18.sem) 0)
          ∗ bigSep (ownCells (thrV2 d L) \ tileSems2.map (cellEmb (thrV2 d L))) fun g => semVal g 0) := by
  unfold SparseCore.Cfg.ownSems0
  rw [SparseCore.bigSep_sdiff_split' (tileSems_sub2 d L), BI.bigSep_map]
  unfold tileSems2
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton]
  rfl

omit [FloatOps F] in
theorem tileRefs_sub2 (L : grid4.Coords) :
    tileRefs2.map (refEmb (Proc.scVector (cV2 L) (jV2 L))) ⊆ ownRefs (τ := τ) (sig := sig) (Proc.scVector (cV2 L) (jV2 L)) := by
  intro b hb
  obtain ⟨r, hr, rfl⟩ := Finset.mem_map.mp hb
  simp only [tileRefs2, Finset.mem_insert, Finset.mem_singleton] at hr
  rcases hr with rfl | rfl | rfl | rfl | rfl | rfl | rfl <;> exact SparseCore.Cfg.mem_ownRefs_of_owner rfl

omit [FloatOps F] in
theorem ownBufs_V2 (d : Dev nD) (L : grid4.Coords) :
    (ownBufs (thrV2 d L) : sProp 𝕄)
      = iprop(((∃ f, (thrV2 d L).loc cc4_scratch0 ↦{fullShare} f)
          ∗ (∃ f, (thrV2 d L).loc cc4_scratch1 ↦{fullShare} f)
          ∗ (∃ f, (thrV2 d L).loc cc4_scratch2 ↦{fullShare} f)
          ∗ (∃ f, (thrV2 d L).loc cc4_scratch3 ↦{fullShare} f)
          ∗ (∃ f, (thrV2 d L).loc cc4_scratch4 ↦{fullShare} f)
          ∗ (∃ f, (thrV2 d L).loc cc4_scratch5 ↦{fullShare} f)
          ∗ (∃ f, (thrV2 d L).loc cc4_scratch6 ↦{fullShare} f))
          ∗ bigSep (ownRefs (τ := τ) (Proc.scVector (cV2 L) (jV2 L)) \ tileRefs2.map (refEmb (Proc.scVector (cV2 L) (jV2 L))))
              fun b => iprop(∃ f, ((d, b) : Loc nD τ sig) ↦{fullShare} f)) := by
  unfold SparseCore.Cfg.ownBufs
  rw [SparseCore.bigSep_sdiff_split' (tileRefs_sub2 L), BI.bigSep_map]
  unfold tileRefs2
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton]
  rfl

end Cert.Proof.KI

end
-- ==== Proof.KI_TileGeom_c2.lean ====
/-
  Geometry and bookkeeping for the gather kernel's run on one vector subcore: families over a segment of `Fin N`,
  the call's arrays as a tile's memrefs address them, a table's read shares one per DMA semaphore, and the index
  scratch row by row (the offset lists of the indirect gathers).
-/
import proofs.«215899_g5772436046013_cont_9to1c4b_742_31_alg».proof.Proof.KI_TileOwn
import proofs.«215899_g5772436046013_cont_9to1c4b_742_31_alg».proof.Proof.KI_TileOwn_c2
import proofs.«215899_g5772436046013_cont_9to1c4b_742_31_alg».proof.Proof.KI_TileGeom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## Families over an initial or a final segment of `Fin N` -/

section Segments

end Segments

/-! ## The arrays as the tile's memrefs address them -/

section Pts

variable (d : Dev nD) (L : grid4.Coords)

theorem pts_t02 (q : PosShare TreeShare) (f : Buf (Elt F) (t0Loc d)) :
    ((t0V).view.loc (thrV2 d L) ↦{q} f : sProp 𝕄) = (t0Loc d ↦{q} f) := rfl
theorem pts_t12 (q : PosShare TreeShare) (f : Buf (Elt F) (t1Loc d)) :
    ((t1V).view.loc (thrV2 d L) ↦{q} f : sProp 𝕄) = (t1Loc d ↦{q} f) := rfl
theorem pts_ix2 (f : Buf (Elt F) (ixLoc2 d)) :
    ((ixSl2 L).view.loc (thrV2 d L) ↦[(ixSl2 L).view.set]{fullShare} f : sProp 𝕄) = (ixLoc2 d ↦[(ixSl2 L).view.set]{fullShare} f) := rfl
theorem pts_o02 (f : Buf (Elt F) (o0Loc2 d)) :
    ((o0Sl2 L).view.loc (thrV2 d L) ↦[(o0Sl2 L).view.set]{fullShare} f : sProp 𝕄) = (o0Loc2 d ↦[(o0Sl2 L).view.set]{fullShare} f) := rfl
theorem pts_o12 (f : Buf (Elt F) (o1Loc2 d)) :
    ((o1Sl2 L).view.loc (thrV2 d L) ↦[(o1Sl2 L).view.set]{fullShare} f : sProp 𝕄) = (o1Loc2 d ↦[(o1Sl2 L).view.set]{fullShare} f) := rfl
theorem pts_scr2 (b : Ref sig .scVector) (f : Buf (Elt F) ((thrV2 d L).loc b)) :
    ((Memref.whole b : Memref sig .scVector _ _ _).view.loc (thrV2 d L) ↦{fullShare} f : sProp 𝕄) = ((thrV2 d L).loc b ↦{fullShare} f) := rfl

/-! ### The table's read shares, one per DMA semaphore number -/

end Pts

/-! ## The index scratch row by row -/

section Rows

abbrev a8RowSet2 (k : Fin 24) : Finset S24x128.Idx := ((a82 : Memref sig .scVector .vmem S24x128 .i32).view.slice (a8Part k)).set

theorem a8RowSet_eq2 (k : Fin 24) : a8RowSet2 k = (a8Part k).set := by
  show ((View.whole (cc4_scratch0 : Ref sig .scVector)).slice (a8Part k)).set = _
  rw [View.set_slice]; exact Finset.map_refl
theorem a8rows_disjoint2 : ∀ i ∈ (Finset.univ : Finset (Fin 24)), ∀ j ∈ (Finset.univ : Finset (Fin 24)), i ≠ j → Disjoint (a8RowSet2 i) (a8RowSet2 j) :=
  fun i _ j _ h => by rw [a8RowSet_eq2, a8RowSet_eq2]; exact Rect.part_disjoint hdiv24 h
theorem a8rows_cover2 : (Finset.univ : Finset (Fin 24)).biUnion a8RowSet2 = Finset.univ :=
  (Finset.biUnion_congr rfl fun i _ => a8RowSet_eq2 i).trans (Rect.biUnion_part hdiv24)

end Rows

section Rows2

variable (d : Dev nD) (L : grid4.Coords)

abbrev a8Loc2 : Loc nD τ sig := (thrV2 d L).loc cc4_scratch0

/-- The index scratch whole is its 24 rows. -/
theorem a8_rows2 (f : Buf (Elt F) (a8Loc2 d L)) :
    (a8Loc2 d L ↦{fullShare} f : sProp 𝕄) = bigSep Finset.univ fun k : Fin 24 => a8Loc2 d L ↦[a8RowSet2 k]{fullShare} f := by
  rw [← pointsTo_biUnion Finset.univ (ℓ := a8Loc2 d L) a8RowSet2 a8rows_disjoint2, a8rows_cover2]; try rfl

/-- A row of the index scratch as the program takes it: a one-row slice, squeezed to a list of 128 words. -/
abbrev a8Row2 (off : Fin 2 → ℕ) (h : ∀ a, off a + S1x128.size a ≤ S24x128.size a) : Memref sig .scVector .vmem S128 .i32 :=
  ((a82).slice (Rect.unit (s := S24x128) off S1x128.size h) (fun _ => rfl)).squeeze S128 squeezes_S1x128_S128

theorem a8Row_set2 (k : Fin 24) (off : Fin 2 → ℕ) (h : ∀ a, off a + S1x128.size a ≤ S24x128.size a) (hoff : off = ![k.val, 0]) :
    (a8Row2 off h).view.set = a8RowSet2 k := by
  show (((a82 : Memref sig .scVector .vmem S24x128 .i32).view.slice (Rect.unit (s := S24x128) off S1x128.size h)).reshape S128 squeezes_S1x128_S128.numel_eq).set
    = ((a82 : Memref sig .scVector .vmem S24x128 .i32).view.slice (a8Part k)).set
  rw [View.set_reshape]
  exact (a8Row_rect k off h hoff) ▸ rfl

theorem pts_a8Row2 (k : Fin 24) (off : Fin 2 → ℕ) (h : ∀ a, off a + S1x128.size a ≤ S24x128.size a) (hoff : off = ![k.val, 0])
    (f : Buf (Elt F) (a8Loc2 d L)) :
    ((a8Row2 off h).view.loc (thrV2 d L) ↦[(a8Row2 off h).view.set]{fullShare} f : sProp 𝕄) = (a8Loc2 d L ↦[a8RowSet2 k]{fullShare} f) := by
  rw [a8Row_set2 k off h hoff]

end Rows2

end Cert.Proof.KI

end
-- ==== Proof.KI_TileInv_c2.lean ====
/-
  The gather kernel's ring at the head of a trip: what the index scratch holds, the offset lists' range, the rows a
  gather lands, the transfers in flight as the run holds them, and the loop's invariant.
-/
import proofs.«215899_g5772436046013_cont_9to1c4b_742_31_alg».proof.Proof.KI_TileGeom
import proofs.«215899_g5772436046013_cont_9to1c4b_742_31_alg».proof.Proof.KI_TileGeom_c2
import proofs.«215899_g5772436046013_cont_9to1c4b_742_31_alg».proof.Proof.KI_TileInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## The index scratch's contents and the offset lists' range -/

/-- What the index scratch holds once the tile's rows of the index array have landed. -/
def A8c2 (d : Dev nD) (IX : Buf (Elt F) (ixLoc2 d)) (L : grid4.Coords) : Buf (Elt F) (a8Loc2 d L) :=
  show S24x128.Idx → Elt F .i32 from (ixSl2 L).view.read (Elt F) IX

theorem a8Row_emb02 (k : Fin 24) (h : ∀ a, (![k.val, 0] : Fin 2 → ℕ) a + S1x128.size a ≤ S24x128.size a) (x : S128.Idx) :
    ((a8Row2 ![k.val, 0] h).view.emb x 0).val = k.val := by
  have key : ∀ j : S1x128.Idx, ((Rect.unit (s := S24x128) ![k.val, 0] S1x128.size h).emb j 0).val = k.val := by
    intro j
    have hj : (j 0).val < 1 := (j 0).isLt
    rw [Rect.emb_apply]
    show k.val + 1 * (j 0).val = k.val
    omega
  exact key _

/-- Every offset list the kernel gathers by holds row numbers of the tables. -/
theorem hin_rows2 (d : Dev nD) (IX : Buf (Elt F) (ixLoc2 d)) (L : grid4.Coords) (hIX : IXOK2 d IX) (k : Fin 24) (off : Fin 2 → ℕ)
    (h : ∀ a, off a + S1x128.size a ≤ S24x128.size a) (hoff : off = ![k.val, 0]) (hk : k.val < 22) (x : S128.Idx) :
    (View.read (Elt F) (a8Row2 off h).view (A8c2 d IX L) x).toNat < 100000 := by
  subst hoff
  exact hIX L ((a8Row2 ![k.val, 0] h).view.emb x) (by rw [a8Row_emb02]; exact hk)

theorem a8Row_congr2 {off off' : Fin 2 → ℕ} (e : off = off') (h : ∀ a, off a + S1x128.size a ≤ S24x128.size a)
    (h' : ∀ a, off' a + S1x128.size a ≤ S24x128.size a) : a8Row2 off h = a8Row2 off' h' := by
  subst e; rfl

/-! ## The third result's blocks in the program's spellings -/

/-- A block of the third result held through a slice at `off` is held through the slice at an equal offset. -/
theorem pts_negOff2 (d : Dev nD) (L : grid4.Coords) {off off' : Fin 2 → ℕ} (e : off = off')
    (h : ∀ a, off a + S128x128.size a ≤ S81920x128.size a) (h' : ∀ a, off' a + S128x128.size a ≤ S81920x128.size a)
    (f : Buf (Elt F) (o2Loc2 d)) :
    (View.loc (thrV2 d L) ((o2V2).slice (Rect.unit (s := S81920x128) off S128x128.size h) (fun _ => rfl)).view
        ↦[((o2V2).slice (Rect.unit (s := S81920x128) off S128x128.size h) (fun _ => rfl)).view.set]{fullShare} f : sProp 𝕄)
      = (View.loc (thrV2 d L) ((o2V2).slice (Rect.unit (s := S81920x128) off' S128x128.size h') (fun _ => rfl)).view
        ↦[((o2V2).slice (Rect.unit (s := S81920x128) off' S128x128.size h') (fun _ => rfl)).view.set]{fullShare} f) := by
  subst e; rfl

theorem k4_off2_neg (L : grid4.Coords) (r : Fin 5) (j : ℕ) (hj : (k4_off2_at r).toNat = 4096 * j) :
    k4_off2 L (k4_off2_at r) = negOff2 L j := by
  rw [k4_off2_wid, hj]; rfl

/-! ## The gathered rows, and the transfers in flight -/

section Inv

variable (d : Dev nD) (T0 : Buf (Elt F) (t0Loc d)) (T1 : Buf (Elt F) (t1Loc d)) (IX : Buf (Elt F) (ixLoc2 d)) (L : grid4.Coords)

/-- The 128 rows a table yields for row `k` of the tile's index rows: row `r` is the table's row `IX[24 * wid2 + k, r]`. -/
def gRows2 (Tb : S100000x128.Idx → Elt F .f32) (k : ℕ) : S128x128.Idx → Elt F .f32 :=
  fun x => tblAt (F := F) Tb (ixWord d IX (wid2 L) k (x 0).val) (x 1)

/-- A gather in flight on the DMA semaphore `cell`, reading the second table by read token `tok` through row `row`
    of the index scratch into the scratch buffer `buf`: it delivers the buffer at `cont`, the row and the token. -/
def gFl2 (cell : DmaSem sig) (tok : ℕ) (buf : Ref sig .scVector) (row : Fin 24) (cont : Buf (Elt F) ((thrV2 d L).loc buf)) : sProp 𝕄 :=
  Transfers.Flight countersEmb (thrV2 d L) (SemLoc.dma cell) (default : HIx 4) 524288
    iprop(((View.loc (thrV2 d L) (Memref.whole buf).view ↦{fullShare} cont)
        ∗ View.loc (thrV2 d L) (a8Row2 ![row.val, 0] (rowInb row)).view ↦[(a8Row2 ![row.val, 0] (rowInb row)).view.set]{fullShare} A8c2 d IX L)
      ∗ View.loc (thrV2 d L) (t1V).view ↦[(t1Sl).view.set]{Transfers.shareTokN (tblShare2 L) tok} T1)

/-- A copy-out in flight on the DMA semaphore `cell`, from the scratch buffer `buf` to draw `j`'s block of the third
    result: it delivers the block at `bcont` and the buffer's elements at `cont`. -/
def wFl2 (cell : DmaSem sig) (buf : Ref sig .scVector) (j : Fin 20) (bcont : Buf (Elt F) (o2Loc2 d)) (cont : Buf (Elt F) ((thrV2 d L).loc buf)) : sProp 𝕄 :=
  Transfers.Flight countersEmb (thrV2 d L) (SemLoc.dma cell) (default : HIx 4) 524288
    iprop((View.loc (thrV2 d L) (negSl2 L j).view ↦[(negSl2 L j).view.set]{fullShare} bcont)
      ∗ View.loc (thrV2 d L) (Memref.whole buf).view ↦[(Memref.whole buf : Memref sig .scVector _ _ _).view.set]{fullShare} cont)

variable (O : CellTallies nD τ sig (HIx 4)) (W : Waits sig (HIx 4))

/-- The ring at the head of trip `t`: draws `4t+1, 4t+2, 4t+3` being gathered into ring buffers 1, 2, 3, draw `4t` on
    its way out of ring buffer 0; ring semaphore 4 and the copy-out semaphores 9, 10, 11 at rest with read token 4;
    the index rows before `4t+3` and from `4t+6` on at rest; the blocks before `4t` written, those after `4t` not yet. -/
def inv2 (t : ℕ) (_ : PUnit) : sProp 𝕄 :=
  iprop(Transfers.MayWaits (thrV2 d L) (none : HIx 4) O
    ∗ gFl2 d T1 IX L ⟨47, by decide⟩ 5 cc4_scratch4 (rowF (4 * t + 3)) (gRows2 d IX L T1 (4 * t + 3))
    ∗ (View.loc (thrV2 d L) (t1V).view ↦[Finset.univ \ (t1Sl).view.set]{Transfers.shareTokN (tblShare2 L) 5} T1)
    ∗ gFl2 d T1 IX L ⟨48, by decide⟩ 6 cc4_scratch5 (rowF (4 * t + 4)) (gRows2 d IX L T1 (4 * t + 4))
    ∗ (View.loc (thrV2 d L) (t1V).view ↦[Finset.univ \ (t1Sl).view.set]{Transfers.shareTokN (tblShare2 L) 6} T1)
    ∗ gFl2 d T1 IX L ⟨49, by decide⟩ 7 cc4_scratch6 (rowF (4 * t + 5)) (gRows2 d IX L T1 (4 * t + 5))
    ∗ (View.loc (thrV2 d L) (t1V).view ↦[Finset.univ \ (t1Sl).view.set]{Transfers.shareTokN (tblShare2 L) 7} T1)
    ∗ wFl2 d L ⟨50, by decide⟩ cc4_scratch3 (blkF (4 * t)) (gV2 d T1 IX) (gRows2 d IX L T1 (4 * t + 2))
    ∗ (View.loc (thrV2 d L) (Memref.whole cc4_scratch3).view ↦[Finset.univ \ (rb02).view.set]{fullShare} gRows2 d IX L T1 (4 * t + 2))
    ∗ (View.loc (thrV2 d L) (t1V).view ↦{Transfers.shareTokN (tblShare2 L) 4} T1)
    ∗ semVal (thrV2 d L, SemLoc.dma ⟨46, by decide⟩) 0
    ∗ semVal (thrV2 d L, SemLoc.dma ⟨51, by decide⟩) 0
    ∗ semVal (thrV2 d L, SemLoc.dma ⟨52, by decide⟩) 0
    ∗ semVal (thrV2 d L, SemLoc.dma ⟨53, by decide⟩) 0
    ∗ (bigSep (Finset.univ.filter fun k : Fin 24 => 2 ≤ k.val ∧ k.val < 4 * t + 3) fun k => a8Loc2 d L ↦[a8RowSet2 k]{fullShare} A8c2 d IX L)
    ∗ (bigSep (Finset.univ.filter fun k : Fin 24 => 4 * t + 6 ≤ k.val) fun k => a8Loc2 d L ↦[a8RowSet2 k]{fullShare} A8c2 d IX L)
    ∗ (bigSep (Finset.univ.filter fun j : Fin 20 => 0 ≤ j.val ∧ j.val < 4 * t) fun j => o2Loc2 d ↦[(negSl2 L j).view.set]{fullShare} gV2 d T1 IX)
    ∗ (bigSep (Finset.univ.filter fun j : Fin 20 => 4 * t + 1 ≤ j.val) fun j => iprop(∃ f, o2Loc2 d ↦[(negSl2 L j).view.set]{fullShare} f))
    ∗ ∃ W', ⌜∀ p ∈ W', p ∈ W ∨ p.2 = none⌝ ∗ owes (thrV2 d L) O W')

end Inv

end Cert.Proof.KI

end
-- ==== Proof.KI_TileVal_c2.lean ====
/-
  The values the gather kernel moves: what an indirect gather by a row of the index scratch lands in a buffer, and
  what a copy-out of those rows leaves in the results' blocks — the whole-array value functions there.
-/
import proofs.«215899_g5772436046013_cont_9to1c4b_742_31_alg».proof.Proof.KI_TileInv
import proofs.«215899_g5772436046013_cont_9to1c4b_742_31_alg».proof.Proof.KI_TileInv_c2
import proofs.«215899_g5772436046013_cont_9to1c4b_742_31_alg».proof.Proof.KI_TileVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

variable (d : Dev nD) (T0 : Buf (Elt F) (t0Loc d)) (T1 : Buf (Elt F) (t1Loc d)) (IX : Buf (Elt F) (ixLoc2 d)) (L : grid4.Coords)

/-! ## Index arithmetic of the program's views -/

/-- A write of a whole buffer leaves the written values. -/
theorem writes_whole2 (buf : Ref sig .scVector) (f w : Buf (Elt F) ((thrV2 d L).loc buf)) :
    (Memref.whole buf : Memref sig .scVector _ _ _).view.writes (Elt F) f [⟨Rect.whole buf.ty.shape, w⟩] = w := by
  funext i
  exact writes_whole_emb (View.whole buf) f w i

/-- Where an entry of row `k` of the index scratch sits: column `y`. -/
theorem a8Row_emb12 (k : Fin 24) (h : ∀ a, (![k.val, 0] : Fin 2 → ℕ) a + S1x128.size a ≤ S24x128.size a) (y : S128.Idx) :
    ((a8Row2 ![k.val, 0] h).view.emb y 1).val = (y 0).val := by
  have hz : Shape.reshapeEquiv (s := S1x128) (s' := S128) squeezes_S1x128_S128.numel_eq y = Fin.cons ⟨0, Nat.one_pos⟩ y :=
    Shape.reshapeEquiv_cons_one _ y
  show ((Rect.unit (s := S24x128) ![k.val, 0] S1x128.size h).emb
    (Shape.reshapeEquiv (s := S1x128) (s' := S128) squeezes_S1x128_S128.numel_eq y) 1).val = _
  rw [hz, Rect.emb_apply]
  show 0 + 1 * (y 0).val = (y 0).val
  omega

/-- The word an offset list's entry holds: the index array's word at the tile's row `k`, the entry's column. -/
theorem a8_word2 (k : Fin 24) (h : ∀ a, (![k.val, 0] : Fin 2 → ℕ) a + S1x128.size a ≤ S24x128.size a) (y : S128.Idx) :
    (View.read (Elt F) (a8Row2 ![k.val, 0] h).view (A8c2 d IX L) y).toNat = ixWord d IX (wid2 L) k.val (y 0).val := by
  have hk := k.isLt
  have hy : (y 0).val < 128 := (y 0).isLt
  have hw32 := wid_lt2 L
  have hc : 24 * wid2 L + k.val < 768 ∧ (y 0).val < 128 := ⟨by omega, hy⟩
  unfold ixWord
  rw [dif_pos hc, View.read_apply, cast_eq]
  unfold A8c2
  rw [View.read_apply, cast_eq]
  refine congrArg (fun z => BitVec.toNat (IX z)) ?_
  funext a; apply Fin.ext
  show ((ixRect2 L).emb ((a8Row2 ![k.val, 0] h).view.emb y) a).val = _
  rw [Rect.emb_apply]
  show k4_off1 L a + 1 * ((a8Row2 ![k.val, 0] h).view.emb y a).val = _
  rw [k4_off1_wid]
  match a with
  | 0 => rw [a8Row_emb02]; show 24 * wid2 L + 1 * k.val = 24 * wid2 L + k.val; omega
  | 1 => rw [a8Row_emb12]; show 0 + 1 * (y 0).val = (y 0).val; omega

/-- What a gather by row `k` of the index scratch lands: the table's rows the tile's index row `k` names. -/
theorem gather_val12 (k : Fin 24) (h : ∀ a, (![k.val, 0] : Fin 2 → ℕ) a + S1x128.size a ≤ S24x128.size a)
    (hg : S100000x128.Gathers 0 S128x128) (hn : S128.numel = S128x128.size hg.axis')
    (hin : ∀ x, (View.read (Elt F) (a8Row2 ![k.val, 0] h).view (A8c2 d IX L) x).toNat < S100000x128.size hg.axis) :
    SparseCore.gatherPayload hg (View.read (Elt F) (t1Sl).view T1) (SparseCore.rows (View.read (Elt F) (a8Row2 ![k.val, 0] h).view (A8c2 d IX L)) hn hin)
      = gRows2 d IX L T1 k.val := by
  funext x
  have ha : hg.axis = (0 : Fin S100000x128.rank) := Fin.ext rfl
  have ha' : hg.axis' = (0 : Fin S128x128.rank) := Fin.ext rfl
  -- the row the entry names
  have hr : ((SparseCore.rows (View.read (Elt F) (a8Row2 ![k.val, 0] h).view (A8c2 d IX L)) hn hin) (x hg.axis')).val
      = ixWord d IX (wid2 L) k.val (x 0).val := by
    unfold SparseCore.rows
    show (View.read (Elt F) (a8Row2 ![k.val, 0] h).view (A8c2 d IX L) (S128.rowMajor.symm ((x hg.axis').cast hn.symm))).toNat = _
    rw [a8_word2]
    congr 1
    have e := Shape.rowMajor_val_one (d := ![128]) (S128.rowMajor.symm ((x hg.axis').cast hn.symm))
    rw [Equiv.apply_symm_apply] at e
    rw [← e]
    exact congrArg (fun i => (x i).val) ha'
  have hlt : ixWord d IX (wid2 L) k.val (x 0).val < 100000 := hr ▸ (SparseCore.rows _ hn hin (x hg.axis')).isLt
  unfold SparseCore.gatherPayload gRows2 tblAt
  rw [View.read_apply, cast_eq, dif_pos hlt]
  refine congrArg T1 ?_
  funext a; apply Fin.ext
  show ((Rect.unit (s := S100000x128) ![0, 0] S100000x128.size inb_S100000x128_S100000x128_0_0).emb (hg.idx _ x) a).val = _
  rw [Rect.emb_apply]
  match a with
  | 0 =>
    show 0 + 1 * (hg.idx _ x 0).val = ixWord d IX (wid2 L) k.val (x 0).val
    have h0 : (hg.idx (SparseCore.rows (View.read (Elt F) (a8Row2 ![k.val, 0] h).view (A8c2 d IX L)) hn hin) x 0).val
        = (hg.idx (SparseCore.rows (View.read (Elt F) (a8Row2 ![k.val, 0] h).view (A8c2 d IX L)) hn hin) x hg.axis).val :=
      congrArg (fun i => (hg.idx (SparseCore.rows (View.read (Elt F) (a8Row2 ![k.val, 0] h).view (A8c2 d IX L)) hn hin) x i).val) ha.symm
    rw [h0, Shape.Gathers.idx_axis, hr]; omega
  | 1 =>
    show 0 + 1 * (hg.idx _ x 1).val = (x 1).val
    rw [Shape.Gathers.idx_of_ne hg _ x 1 (by decide)]
    show 0 + 1 * (x 1).val = (x 1).val
    omega

theorem gather_val02 (k : Fin 24) (h : ∀ a, (![k.val, 0] : Fin 2 → ℕ) a + S1x128.size a ≤ S24x128.size a)
    (hg : S100000x128.Gathers 0 S128x128) (hn : S128.numel = S128x128.size hg.axis')
    (hin : ∀ x, (View.read (Elt F) (a8Row2 ![k.val, 0] h).view (A8c2 d IX L) x).toNat < S100000x128.size hg.axis) :
    SparseCore.gatherPayload hg (View.read (Elt F) (t0Sl).view T0) (SparseCore.rows (View.read (Elt F) (a8Row2 ![k.val, 0] h).view (A8c2 d IX L)) hn hin)
      = gRows2 d IX L T0 k.val := by
  funext x
  have ha : hg.axis = (0 : Fin S100000x128.rank) := Fin.ext rfl
  have ha' : hg.axis' = (0 : Fin S128x128.rank) := Fin.ext rfl
  -- the row the entry names
  have hr : ((SparseCore.rows (View.read (Elt F) (a8Row2 ![k.val, 0] h).view (A8c2 d IX L)) hn hin) (x hg.axis')).val
      = ixWord d IX (wid2 L) k.val (x 0).val := by
    unfold SparseCore.rows
    show (View.read (Elt F) (a8Row2 ![k.val, 0] h).view (A8c2 d IX L) (S128.rowMajor.symm ((x hg.axis').cast hn.symm))).toNat = _
    rw [a8_word2]
    congr 1
    have e := Shape.rowMajor_val_one (d := ![128]) (S128.rowMajor.symm ((x hg.axis').cast hn.symm))
    rw [Equiv.apply_symm_apply] at e
    rw [← e]
    exact congrArg (fun i => (x i).val) ha'
  have hlt : ixWord d IX (wid2 L) k.val (x 0).val < 100000 := hr ▸ (SparseCore.rows _ hn hin (x hg.axis')).isLt
  unfold SparseCore.gatherPayload gRows2 tblAt
  rw [View.read_apply, cast_eq, dif_pos hlt]
  refine congrArg T0 ?_
  funext a; apply Fin.ext
  show ((Rect.unit (s := S100000x128) ![0, 0] S100000x128.size inb_S100000x128_S100000x128_0_0).emb (hg.idx _ x) a).val = _
  rw [Rect.emb_apply]
  match a with
  | 0 =>
    show 0 + 1 * (hg.idx _ x 0).val = ixWord d IX (wid2 L) k.val (x 0).val
    have h0 : (hg.idx (SparseCore.rows (View.read (Elt F) (a8Row2 ![k.val, 0] h).view (A8c2 d IX L)) hn hin) x 0).val
        = (hg.idx (SparseCore.rows (View.read (Elt F) (a8Row2 ![k.val, 0] h).view (A8c2 d IX L)) hn hin) x hg.axis).val :=
      congrArg (fun i => (hg.idx (SparseCore.rows (View.read (Elt F) (a8Row2 ![k.val, 0] h).view (A8c2 d IX L)) hn hin) x i).val) ha.symm
    rw [h0, Shape.Gathers.idx_axis, hr]; omega
  | 1 =>
    show 0 + 1 * (hg.idx _ x 1).val = (x 1).val
    rw [Shape.Gathers.idx_of_ne hg _ x 1 (by decide)]
    show 0 + 1 * (x 1).val = (x 1).val
    omega

/-- What a copy-out of the rows gathered for draw `j` leaves in the draw's block: the third result's values there. -/
theorem block_val22 (j : Fin 20) (buf : Ref sig .scVector) (hb : buf.ty = ⟨S128x128, .f32⟩) (g : Buf (Elt F) (o2Loc2 d))
    (w : S128x128.Idx → Elt F .f32) (hw : w = gRows2 d IX L T1 (2 + j.val)) :
    ∀ i ∈ (negSl2 L j).view.set, ((negSl2 L j).view.writes (Elt F) g [⟨Rect.whole (negRect2 L j).shape, w⟩]) i = gV2 d T1 IX i := by
  intro i hi
  subst hw
  have hi' : i ∈ (negRect2 L j).set := by
    rw [show (negSl2 L j).view.set = (negRect2 L j).set from View.set_slice_whole _ _] at hi; exact hi
  obtain ⟨x, rfl⟩ := (negRect2 L j).exists_idx_of_mem hi'
  refine (writes_whole_emb (negSl2 L j).view g (gRows2 d IX L T1 (2 + j.val)) x).trans ?_
  rw [cast_eq]
  have hx0 : (x 0).val < 128 := (x 0).isLt
  have hw32 := wid_lt2 L
  have hj := j.isLt
  have e0 : (((negRect2 L j).emb x) 0).val = 128 * wid2 L + 4096 * j.val + (x 0).val := by
    rw [Rect.emb_apply]; show 128 * wid2 L + 4096 * j.val + 1 * (x 0).val = _; omega
  have e1 : ((negRect2 L j).emb x) 1 = x 1 := by
    apply Fin.ext; rw [Rect.emb_apply]; show 0 + 1 * (x 1).val = _; omega
  show tblAt (F := F) T1 (ixWord d IX (wid2 L) (2 + j.val) (x 0).val) (x 1)
    = tblAt (F := F) T1 (ixWord d IX ((((negRect2 L j).emb x) 0).val % 4096 / 128) (2 + (((negRect2 L j).emb x) 0).val / 4096) ((((negRect2 L j).emb x) 0).val % 128)) (((negRect2 L j).emb x) 1)
  rw [e1, e0, show (128 * wid2 L + 4096 * j.val + (x 0).val) % 4096 / 128 = wid2 L by omega,
    show (128 * wid2 L + 4096 * j.val + (x 0).val) / 4096 = j.val by omega,
    show (128 * wid2 L + 4096 * j.val + (x 0).val) % 128 = (x 0).val by omega]

theorem block_val02 (g : Buf (Elt F) (o0Loc2 d)) (w : S128x128.Idx → Elt F .f32) (hw : w = gRows2 d IX L T0 0) :
    ∀ i ∈ (o0Sl2 L).view.set, ((o0Sl2 L).view.writes (Elt F) g [⟨Rect.whole (oRect2 L).shape, w⟩]) i = gV0 d T0 IX i := by
  intro i hi
  subst hw
  have hi' : i ∈ (oRect2 L).set := by
    rw [show (o0Sl2 L).view.set = (oRect2 L).set from View.set_slice_whole _ _] at hi; exact hi
  obtain ⟨x, rfl⟩ := (oRect2 L).exists_idx_of_mem hi'
  refine (writes_whole_emb (o0Sl2 L).view g (gRows2 d IX L T0 0) x).trans ?_
  rw [cast_eq]
  have hx0 : (x 0).val < 128 := (x 0).isLt
  have hw32 := wid_lt2 L
  have e0 : (((oRect2 L).emb x) 0).val = 128 * wid2 L + (x 0).val := by
    rw [Rect.emb_apply]; show k4_off7 L 0 + 1 * (x 0).val = _
    rw [k4_off7_wid]; show 128 * wid2 L + 1 * (x 0).val = _; omega
  have e1 : ((oRect2 L).emb x) 1 = x 1 := by
    apply Fin.ext; rw [Rect.emb_apply]; show k4_off7 L 1 + 1 * (x 1).val = _
    rw [k4_off7_wid]; show 0 + 1 * (x 1).val = _; omega
  show tblAt (F := F) T0 (ixWord d IX (wid2 L) 0 (x 0).val) (x 1)
    = tblAt (F := F) T0 (ixWord d IX ((((oRect2 L).emb x) 0).val / 128) 0 ((((oRect2 L).emb x) 0).val % 128)) (((oRect2 L).emb x) 1)
  rw [e1, e0, show (128 * wid2 L + (x 0).val) / 128 = wid2 L by omega, show (128 * wid2 L + (x 0).val) % 128 = (x 0).val by omega]

theorem block_val12 (g : Buf (Elt F) (o1Loc2 d)) (w : S128x128.Idx → Elt F .f32) (hw : w = gRows2 d IX L T1 1) :
    ∀ i ∈ (o1Sl2 L).view.set, ((o1Sl2 L).view.writes (Elt F) g [⟨Rect.whole (oRect2 L).shape, w⟩]) i = gV1 d T1 IX i := by
  intro i hi
  subst hw
  have hi' : i ∈ (oRect2 L).set := by
    rw [show (o1Sl2 L).view.set = (oRect2 L).set from View.set_slice_whole _ _] at hi; exact hi
  obtain ⟨x, rfl⟩ := (oRect2 L).exists_idx_of_mem hi'
  refine (writes_whole_emb (o1Sl2 L).view g (gRows2 d IX L T1 1) x).trans ?_
  rw [cast_eq]
  have hx0 : (x 0).val < 128 := (x 0).isLt
  have hw32 := wid_lt2 L
  have e0 : (((oRect2 L).emb x) 0).val = 128 * wid2 L + (x 0).val := by
    rw [Rect.emb_apply]; show k4_off7 L 0 + 1 * (x 0).val = _
    rw [k4_off7_wid]; show 128 * wid2 L + 1 * (x 0).val = _; omega
  have e1 : ((oRect2 L).emb x) 1 = x 1 := by
    apply Fin.ext; rw [Rect.emb_apply]; show k4_off7 L 1 + 1 * (x 1).val = _
    rw [k4_off7_wid]; show 0 + 1 * (x 1).val = _; omega
  show tblAt (F := F) T1 (ixWord d IX (wid2 L) 1 (x 0).val) (x 1)
    = tblAt (F := F) T1 (ixWord d IX ((((oRect2 L).emb x) 0).val / 128) 1 ((((oRect2 L).emb x) 0).val % 128)) (((oRect2 L).emb x) 1)
  rw [e1, e0, show (128 * wid2 L + (x 0).val) / 128 = wid2 L by omega, show (128 * wid2 L + (x 0).val) % 128 = (x 0).val by omega]

end Cert.Proof.KI

end
-- ==== Proof.KI_TileEpi_c2.lean ====
/-
  The end of the gather kernel on a tile: segments of index families that run to the end, and a block of the third
  result once the copy-out of a draw's rows has written it.
-/
import proofs.«215899_g5772436046013_cont_9to1c4b_742_31_alg».proof.Proof.KI_TileVal
import proofs.«215899_g5772436046013_cont_9to1c4b_742_31_alg».proof.Proof.KI_TileVal_c2
import proofs.«215899_g5772436046013_cont_9to1c4b_742_31_alg».proof.Proof.KI_TileEpi

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section Epi

variable (d : Dev nD) (T0 : Buf (Elt F) (t0Loc d)) (T1 : Buf (Elt F) (t1Loc d)) (IX : Buf (Elt F) (ixLoc2 d)) (L : grid4.Coords)

/-- A block of the third result the copy-out of draw `j`'s rows has written, in the program's spelling of the block,
    is the block at the third result's values. -/
theorem blk_done2 (j : Fin 20) (off : Fin 2 → ℕ) (h : ∀ a, off a + S128x128.size a ≤ S81920x128.size a) (hoff : off = negOff2 L j.val)
    (g : Buf (Elt F) (o2Loc2 d)) (w : S128x128.Idx → Elt F .f32) (hw : w = gRows2 d IX L T1 (2 + j.val)) :
    (View.loc (thrV2 d L) ((o2V2).slice (Rect.unit (s := S81920x128) off S128x128.size h) (fun _ => rfl)).view
        ↦[((o2V2).slice (Rect.unit (s := S81920x128) off S128x128.size h) (fun _ => rfl)).view.set]{fullShare}
        ((o2V2).slice (Rect.unit (s := S81920x128) off S128x128.size h) (fun _ => rfl)).view.writes (Elt F) g
          [⟨Rect.whole (Rect.unit (s := S81920x128) off S128x128.size h).shape, w⟩] : sProp 𝕄)
      ⊢ (o2Loc2 d ↦[(negSl2 L j).view.set]{fullShare} gV2 d T1 IX) := by
  subst hoff
  exact Entails.of_eq (pointsTo_congr (block_val22 (F := F) d T1 IX L j cc4_scratch3 rfl g w hw))

end Epi

end Cert.Proof.KI

end
-- ==== Proof.KI_Tile_c2.lean ====
/-
  The gather kernel of call 2 on one vector subcore, as the launch theorem's obligation: the kernel's run at a
  symbolic tile from the tile's resources to its results, and the obligation in the launch theorem's own spelling.
-/
import proofs.«215899_g5772436046013_cont_9to1c4b_742_31_alg».proof.Proof.KI_TileEpi
import proofs.«215899_g5772436046013_cont_9to1c4b_742_31_alg».proof.Proof.KI_TileEpi_c2
import proofs.«215899_g5772436046013_cont_9to1c4b_742_31_alg».proof.Proof.KI_Tile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section Intro

variable (d : Dev nD) (T0 : Buf (Elt F) (t0Loc d)) (T1 : Buf (Elt F) (t1Loc d)) (IX : Buf (Elt F) (ixLoc2 d)) (L : grid4.Coords)

/-- A gather's flight as the run leaves it is the invariant's, the landed rows in closed form. -/
theorem gFl_intro2 (cell : DmaSem sig) (tok : ℕ) (buf : Ref sig .scVector) (row : Fin 24) (off : Fin 2 → ℕ)
    (h : ∀ a, off a + S1x128.size a ≤ S24x128.size a) (hoff : off = ![row.val, 0])
    (c0 cont : Buf (Elt F) ((thrV2 d L).loc buf)) (hc : c0 = cont) :
    Transfers.Flight countersEmb (thrV2 d L) (SemLoc.dma cell) (default : HIx 4) 524288
      iprop(((View.loc (thrV2 d L) (Memref.whole buf).view ↦{fullShare} c0)
          ∗ View.loc (thrV2 d L) (a8Row2 off h).view ↦[(a8Row2 off h).view.set]{fullShare} A8c2 d IX L)
        ∗ View.loc (thrV2 d L) (t1V).view ↦[(t1Sl).view.set]{Transfers.shareTokN (tblShare2 L) tok} T1)
      ⊢ (gFl2 d T1 IX L cell tok buf row cont : sProp 𝕄) := by
  subst hoff hc; exact .rfl

/-- A copy-out's flight as the run leaves it is the invariant's, the block at the third result's values. -/
theorem wFl_intro2 (cell : DmaSem sig) (buf : Ref sig .scVector) (j : Fin 20) (off : Fin 2 → ℕ)
    (h : ∀ a, off a + S128x128.size a ≤ S81920x128.size a) (hoff : off = negOff2 L j.val)
    (b0 bcont : Buf (Elt F) (o2Loc2 d)) (hb : ∀ i ∈ (negSl2 L j).view.set, b0 i = bcont i)
    (c0 cont : Buf (Elt F) ((thrV2 d L).loc buf)) (hc : c0 = cont) :
    Transfers.Flight countersEmb (thrV2 d L) (SemLoc.dma cell) (default : HIx 4) 524288
      iprop((View.loc (thrV2 d L) ((o2V2).slice (Rect.unit (s := S81920x128) off S128x128.size h) (fun _ => rfl)).view
            ↦[((o2V2).slice (Rect.unit (s := S81920x128) off S128x128.size h) (fun _ => rfl)).view.set]{fullShare} b0)
        ∗ View.loc (thrV2 d L) (Memref.whole buf).view ↦[(Memref.whole buf : Memref sig .scVector _ _ _).view.set]{fullShare} c0)
      ⊢ (wFl2 d L cell buf j bcont cont : sProp 𝕄) := by
  subst hoff hc
  refine Transfers.Flight_mono countersEmb (thrV2 d L) ?_
  rw [show (View.loc (thrV2 d L) ((o2V2).slice (Rect.unit (s := S81920x128) (negOff2 L j.val) S128x128.size h) (fun _ => rfl)).view
            ↦[((o2V2).slice (Rect.unit (s := S81920x128) (negOff2 L j.val) S128x128.size h) (fun _ => rfl)).view.set]{fullShare} b0 : sProp 𝕄)
        = (View.loc (thrV2 d L) (negSl2 L j).view ↦[(negSl2 L j).view.set]{fullShare} bcont) from pointsTo_congr hb]

/-- The first done row at the loop's entry. -/
theorem rows_done02 (c : Buf (Elt F) (a8Loc2 d L)) (h2 : 2 < 24) :
    (a8Loc2 d L ↦[a8RowSet2 ⟨2, h2⟩]{fullShare} c : sProp 𝕄)
      ⊢ bigSep (Finset.univ.filter fun k : Fin 24 => 2 ≤ k.val ∧ k.val < 4 * 0 + 3) fun k => a8Loc2 d L ↦[a8RowSet2 k]{fullShare} c := by
  rw [show (Finset.univ.filter fun k : Fin 24 => 2 ≤ k.val ∧ k.val < 4 * 0 + 3) = {⟨2, h2⟩} from
    Finset.ext fun k => by simp only [Finset.mem_filter, Finset.mem_univ, true_and, Finset.mem_singleton, Fin.ext_iff]; omega, bigSep_singleton]

/-- No block is written at the loop's entry. -/
theorem blks_done02 (c : Buf (Elt F) (o2Loc2 d)) :
    (iprop(emp) : sProp 𝕄)
      ⊢ bigSep (Finset.univ.filter fun j : Fin 20 => 0 ≤ j.val ∧ j.val < 4 * 0) fun j => o2Loc2 d ↦[(negSl2 L j).view.set]{fullShare} c := by
  rw [show (Finset.univ.filter fun j : Fin 20 => 0 ≤ j.val ∧ j.val < 4 * 0) = ∅ from by decide, bigSep_empty]
  exact .rfl

end Intro

section Intro2

variable (d : Dev nD) (T0 : Buf (Elt F) (t0Loc d)) (T1 : Buf (Elt F) (t1Loc d)) (IX : Buf (Elt F) (ixLoc2 d)) (L : grid4.Coords)

/-- What a gather by an index row lands, the row taken at any spelling of its offset. -/
theorem gather_val1'2 (off : Fin 2 → ℕ) (h : ∀ a, off a + S1x128.size a ≤ S24x128.size a) (kk : Fin 24) (hoff : off = ![kk.val, 0])
    (hg : S100000x128.Gathers 0 S128x128) (hn : S128.numel = S128x128.size hg.axis')
    (hin : ∀ x, (View.read (Elt F) (a8Row2 off h).view (A8c2 d IX L) x).toNat < S100000x128.size hg.axis) :
    SparseCore.gatherPayload hg (View.read (Elt F) (t1Sl).view T1) (SparseCore.rows (View.read (Elt F) (a8Row2 off h).view (A8c2 d IX L)) hn hin)
      = gRows2 d IX L T1 kk.val := by
  subst hoff; exact gather_val12 (F := F) d T1 IX L kk h hg hn hin

/-- A block written whole with the rows gathered for its draw holds the third result's values. -/
theorem blk_intro2 (j : Fin 20) (off : Fin 2 → ℕ) (h : ∀ a, off a + S128x128.size a ≤ S81920x128.size a) (hoff : off = negOff2 L j.val)
    (g : Buf (Elt F) (o2Loc2 d)) (w : S128x128.Idx → Elt F .f32) (hw : w = gRows2 d IX L T1 (2 + j.val)) :
    (View.loc (thrV2 d L) ((o2V2).slice (Rect.unit (s := S81920x128) off S128x128.size h) (fun _ => rfl)).view
        ↦[((o2V2).slice (Rect.unit (s := S81920x128) off S128x128.size h) (fun _ => rfl)).view.set]{fullShare}
        (((o2V2).slice (Rect.unit (s := S81920x128) off S128x128.size h) (fun _ => rfl)).view.writes (Elt F) g
          [⟨Rect.whole (Rect.unit (s := S81920x128) off S128x128.size h).shape, w⟩]) : sProp 𝕄)
      ⊢ (o2Loc2 d ↦[(negSl2 L j).view.set]{fullShare} gV2 d T1 IX) := by
  subst hoff
  exact Entails.of_eq (pointsTo_congr (block_val22 (F := F) d T1 IX L j cc4_scratch3 rfl g w hw))

/-- The same inside a copy-out's flight. -/
theorem wFl_intro'2 (cell : DmaSem sig) (buf : Ref sig .scVector) (j : Fin 20) (off : Fin 2 → ℕ)
    (h : ∀ a, off a + S128x128.size a ≤ S81920x128.size a) (hoff : off = negOff2 L j.val)
    (g : Buf (Elt F) (o2Loc2 d)) (w : S128x128.Idx → Elt F .f32) (hw : w = gRows2 d IX L T1 (2 + j.val))
    (cont : Buf (Elt F) ((thrV2 d L).loc buf)) :
    Transfers.Flight countersEmb (thrV2 d L) (SemLoc.dma cell) (default : HIx 4) 524288
      iprop((View.loc (thrV2 d L) ((o2V2).slice (Rect.unit (s := S81920x128) off S128x128.size h) (fun _ => rfl)).view
            ↦[((o2V2).slice (Rect.unit (s := S81920x128) off S128x128.size h) (fun _ => rfl)).view.set]{fullShare}
            (((o2V2).slice (Rect.unit (s := S81920x128) off S128x128.size h) (fun _ => rfl)).view.writes (Elt F) g
              [⟨Rect.whole (Rect.unit (s := S81920x128) off S128x128.size h).shape, w⟩]))
        ∗ View.loc (thrV2 d L) (Memref.whole buf).view ↦[(Memref.whole buf : Memref sig .scVector _ _ _).view.set]{fullShare} cont)
      ⊢ (wFl2 d L cell buf j (gV2 d T1 IX) cont : sProp 𝕄) := by
  refine Transfers.Flight_mono countersEmb (thrV2 d L) ?_
  iintro ⟨Hb, Hc⟩
  isplitl [Hb]
  · iapply (blk_intro2 (F := F) d T1 IX L j off h hoff g w hw); iexact Hb
  · iexact Hc

end Intro2

section Intro3

variable (d : Dev nD) (T1 : Buf (Elt F) (t1Loc d)) (IX : Buf (Elt F) (ixLoc2 d)) (L : grid4.Coords)

theorem row_reidx2 (c : Buf (Elt F) (a8Loc2 d L)) (i j : Fin 24) (e : i = j) :
    (a8Loc2 d L ↦[a8RowSet2 i]{fullShare} c : sProp 𝕄) ⊢ (a8Loc2 d L ↦[a8RowSet2 j]{fullShare} c) := by
  subst e; exact .rfl

theorem blk_reidx2 (c : Buf (Elt F) (o2Loc2 d)) (i j : Fin 20) (e : i = j) :
    (View.loc (thrV2 d L) (negSl2 L i).view ↦[(negSl2 L i).view.set]{fullShare} c : sProp 𝕄) ⊢ (o2Loc2 d ↦[(negSl2 L j).view.set]{fullShare} c) := by
  subst e; exact .rfl

theorem pts_a8Row_congr2 {off off' : Fin 2 → ℕ} (e : off = off') (h : ∀ a, off a + S1x128.size a ≤ S24x128.size a)
    (h' : ∀ a, off' a + S1x128.size a ≤ S24x128.size a) (f : Buf (Elt F) (a8Loc2 d L)) :
    (View.loc (thrV2 d L) (a8Row2 off h).view ↦[(a8Row2 off h).view.set]{fullShare} f : sProp 𝕄)
      = (View.loc (thrV2 d L) (a8Row2 off' h').view ↦[(a8Row2 off' h').view.set]{fullShare} f) := by
  subst e; rfl

theorem wFl_unfold2 (cell : DmaSem sig) (buf : Ref sig .scVector) (j : Fin 20) (b : Buf (Elt F) (o2Loc2 d)) (c : Buf (Elt F) ((thrV2 d L).loc buf)) :
    (wFl2 d L cell buf j b c : sProp 𝕄) = Transfers.Flight countersEmb (thrV2 d L) (SemLoc.dma cell) (default : HIx 4) 524288
      iprop((View.loc (thrV2 d L) (negSl2 L j).view ↦[(negSl2 L j).view.set]{fullShare} b)
        ∗ View.loc (thrV2 d L) (Memref.whole buf).view ↦[(Memref.whole buf : Memref sig .scVector _ _ _).view.set]{fullShare} c) := rfl

end Intro3

/-! ## The kernel at a symbolic tile -/

section Body

variable (d : Dev nD) (T0 : Buf (Elt F) (t0Loc d)) (T1 : Buf (Elt F) (t1Loc d)) (IX : Buf (Elt F) (ixLoc2 d))

set_option maxHeartbeats 4000000 in
/-- The gather kernel on the vector subcore at `L`: from what the tile is handed and its own scratch storage to what
    it hands back, every wait admissible under what the tile owes the launch. The index copy-in lands the tile's 24
    index rows; each gather reads a table by one of those rows, on its own semaphore and read token; the ring's
    loop keeps the invariant `inv2`; every block copied out holds the result's values. -/
theorem tile_body2 (hF : (K (F := F)).Facts) (hIX : IXOK2 d IX) (L : grid4.Coords) (O : CellTallies nD τ sig (HIx 4)) (W : Waits sig (HIx 4)) (hO : ∀ g, O g none = 0) :
    iprop(levAts (K (F := F)).L (K (F := F)).lev ∗ emp ∗ goResL2 d T0 T1 IX L
        ∗ scopedBufs (thrV2 d L) ∗ scopedSems0 (thrV2 d L) ∗ owes (thrV2 d L) O W)
      ⊢ wp frame (wpE (defs₀ (F := F)) 𝒱₀ (thrV2 d L) none) Set.univ
          (cc4__sc_gather L t0V (Memref.isWhole_whole _) t1V (Memref.isWhole_whole _) ixV2 (Memref.isWhole_whole _) o0V2 (Memref.isWhole_whole _) o1V2 (Memref.isWhole_whole _) o2V2 (Memref.isWhole_whole _)
            a82 (Memref.isWhole_whole _) bC2 (Memref.isWhole_whole _) bP2 (Memref.isWhole_whole _) rb02 (Memref.isWhole_whole _) rb12 (Memref.isWhole_whole _) rb22 (Memref.isWhole_whole _) rb32 (Memref.isWhole_whole _)
            cc4_scratch7 cc4_scratch8 cc4_scratch9 cc4_scratch10 cc4_scratch11 cc4_scratch12 cc4_scratch13 cc4_scratch14 cc4_scratch15 cc4_scratch16 cc4_scratch17 cc4_scratch18 cc4_scoped0)
          fun _ => iprop(tdResL2 d T0 T1 IX L ∗ scopedBufs (thrV2 d L) ∗ scopedSems0 (thrV2 d L)
            ∗ ∃ W', ⌜∀ p ∈ W', p ∈ W ∨ p.2 = none⌝ ∗ owes (thrV2 d L) O W') := by
  simp only [cc4__sc_gather_eq_skeleton]; unfold cc4__sc_gather_skel
  rw [(K (F := F)).scopedBufs_V hF d (cV2 L) (jV2 L), SparseCore.Cfg.scopedSems0_V (Val := Elt F) d (cV2 L) (jV2 L), ownSems0_V2, ownBufs_V2]
  unfold goResL2
  iintro ⟨#Hlv, -, ⟨Ht0, Ht1, Hix, ⟨%f0, Ho0⟩, ⟨%f1, Ho1⟩, Hneg⟩,
    ⟨⟨⟨%fa8, Ha8⟩, ⟨%fbC, HbC⟩, ⟨%fbP, HbP⟩, ⟨%f0', Hr0⟩, ⟨%f1', Hr1⟩, ⟨%f2', Hr2⟩, ⟨%f3', Hr3⟩⟩, Hbufs⟩,
    ⟨⟨Hs0, Hs7, Hs8, Hs9, Hs10, Hs11, Hs12, Hs13, Hs14, Hs15, Hs16, Hs17, Hs18⟩, Hsems⟩, HO⟩
  ihave Hmw := ((K (F := F)).mayWaits_none (thr := thrV2 d L) hO) $$ Hlv
  -- the arrays as the tile's memrefs address them; the second table's share, one read token per semaphore
  ihave Ht0 := (Entails.of_eq (pts_t02 (F := F) d L _ _).symm) $$ Ht0
  ihave Ht1 := (toks8_split (F := F) (tblShare2 L) T1) $$ Ht1
  icases Ht1 with ⟨Hq8, Hq7, Hq6, Hq5, Hq4, Hq3, Hq2, Hq1, Hq0⟩
  ihave Hq1 := (Entails.of_eq (pts_t12 (F := F) d L _ _).symm) $$ Hq1
  ihave Hq4 := (Entails.of_eq (pts_t12 (F := F) d L _ _).symm) $$ Hq4
  ihave Hq5 := (Entails.of_eq (pts_t12 (F := F) d L _ _).symm) $$ Hq5
  ihave Hq6 := (Entails.of_eq (pts_t12 (F := F) d L _ _).symm) $$ Hq6
  ihave Hq7 := (Entails.of_eq (pts_t12 (F := F) d L _ _).symm) $$ Hq7
  ihave Hix := (Entails.of_eq (pts_ix2 (F := F) d L _).symm) $$ Hix
  ihave Ho0 := (Entails.of_eq (pts_o02 (F := F) d L _).symm) $$ Ho0
  ihave Ho1 := (Entails.of_eq (pts_o12 (F := F) d L _).symm) $$ Ho1
  ihave Ha8 := (Entails.of_eq (pts_scr2 (F := F) d L cc4_scratch0 _).symm) $$ Ha8
  ihave HbC := (Entails.of_eq (pts_scr2 (F := F) d L cc4_scratch1 _).symm) $$ HbC
  ihave HbP := (Entails.of_eq (pts_scr2 (F := F) d L cc4_scratch2 _).symm) $$ HbP
  ihave Hr0 := (Entails.of_eq (pts_scr2 (F := F) d L cc4_scratch3 _).symm) $$ Hr0
  ihave Hr1 := (Entails.of_eq (pts_scr2 (F := F) d L cc4_scratch4 _).symm) $$ Hr1
  ihave Hr2 := (Entails.of_eq (pts_scr2 (F := F) d L cc4_scratch5 _).symm) $$ Hr2
  ihave Hr3 := (Entails.of_eq (pts_scr2 (F := F) d L cc4_scratch6 _).symm) $$ Hr3

  sl_exec
  -- the index scratch now holds the tile's 24 rows of the index array; row by row
  have hA8 : (View.write (Elt F) (a82 : Memref sig .scVector .vmem S24x128 .i32).view fa8 (tile_body2.sl.dma0 d IX L) Finset.univ) = A8c2 d IX L := by
    exact (View.write_whole_univ (Val := Elt F) cc4_scratch0 fa8 _).trans rfl
  rw [hA8]
  have h0 : (0 : ℕ) < 24 := by decide
  have h1 : (1 : ℕ) < 24 := by decide
  have h2 : (2 : ℕ) < 24 := by decide
  have h3 : (3 : ℕ) < 24 := by decide
  have h4 : (4 : ℕ) < 24 := by decide
  have h5 : (5 : ℕ) < 24 := by decide
  have hb0 : (0 : ℕ) < 20 := by decide
  ihave Ha8 := (Entails.of_eq (pts_scr2 (F := F) d L cc4_scratch0 _)) $$ Ha8
  ihave Hrows := (Entails.of_eq (a8_rows2 (F := F) d L _)) $$ Ha8
  ihave Hrows := (Entails.of_eq (bigSep_from_zero (F := F) _).symm) $$ Hrows
  ihave H := (Entails.of_eq (bigSep_from_pop (F := F) _ 0 h0)) $$ Hrows; icases H with ⟨Hw0, Hrows⟩
  ihave H := (Entails.of_eq (bigSep_from_pop (F := F) _ 1 h1)) $$ Hrows; icases H with ⟨Hw1, Hrows⟩
  ihave H := (Entails.of_eq (bigSep_from_pop (F := F) _ 2 h2)) $$ Hrows; icases H with ⟨Hw2, Hrows⟩
  ihave H := (Entails.of_eq (bigSep_from_pop (F := F) _ 3 h3)) $$ Hrows; icases H with ⟨Hw3, Hrows⟩
  ihave H := (Entails.of_eq (bigSep_from_pop (F := F) _ 4 h4)) $$ Hrows; icases H with ⟨Hw4, Hrows⟩
  ihave H := (Entails.of_eq (bigSep_from_pop (F := F) _ 5 h5)) $$ Hrows; icases H with ⟨Hw5, Hrows⟩
  ihave Hw0 := (Entails.of_eq (pts_a8Row2 (F := F) d L ⟨0, h0⟩ ![0, 0] (rowInb ⟨0, h0⟩) rfl _).symm) $$ Hw0
  ihave Hw1 := (Entails.of_eq (pts_a8Row2 (F := F) d L ⟨1, h1⟩ ![1, 0] (rowInb ⟨1, h1⟩) rfl _).symm) $$ Hw1
  ihave Hw2 := (Entails.of_eq (pts_a8Row2 (F := F) d L ⟨2, h2⟩ ![2, 0] (rowInb ⟨2, h2⟩) rfl _).symm) $$ Hw2
  ihave Hw3 := (Entails.of_eq (pts_a8Row2 (F := F) d L ⟨3, h3⟩ ![3, 0] (rowInb ⟨3, h3⟩) rfl _).symm) $$ Hw3
  ihave Hw4 := (Entails.of_eq (pts_a8Row2 (F := F) d L ⟨4, h4⟩ ![4, 0] (rowInb ⟨4, h4⟩) rfl _).symm) $$ Hw4
  ihave Hw5 := (Entails.of_eq (pts_a8Row2 (F := F) d L ⟨5, h5⟩ ![5, 0] (rowInb ⟨5, h5⟩) rfl _).symm) $$ Hw5
  have hin0 := hin_rows2 (F := F) d IX L hIX ⟨0, h0⟩ ![0, 0] (rowInb ⟨0, h0⟩) rfl (by show (0 : ℕ) < 22; decide)
  have hin1 := hin_rows2 (F := F) d IX L hIX ⟨1, h1⟩ ![1, 0] (rowInb ⟨1, h1⟩) rfl (by show (1 : ℕ) < 22; decide)
  have hin2 := hin_rows2 (F := F) d IX L hIX ⟨2, h2⟩ ![2, 0] (rowInb ⟨2, h2⟩) rfl (by show (2 : ℕ) < 22; decide)
  have hin3 := hin_rows2 (F := F) d IX L hIX ⟨3, h3⟩ ![3, 0] (rowInb ⟨3, h3⟩) rfl (by show (3 : ℕ) < 22; decide)
  have hin4 := hin_rows2 (F := F) d IX L hIX ⟨4, h4⟩ ![4, 0] (rowInb ⟨4, h4⟩) rfl (by show (4 : ℕ) < 22; decide)
  have hin5 := hin_rows2 (F := F) d IX L hIX ⟨5, h5⟩ ![5, 0] (rowInb ⟨5, h5⟩) rfl (by show (5 : ℕ) < 22; decide)
  -- draw 0's block of the third result
  ihave Hneg := (Entails.of_eq (bigSep_from_zero (F := F) _).symm) $$ Hneg
  ihave H := (Entails.of_eq (bigSep_from_pop (F := F) _ 0 hb0)) $$ Hneg; icases H with ⟨⟨%g0, Hb0⟩, Hneg⟩
  ihave Hb0 := (Entails.of_eq (pts_negOff2 (F := F) d L (k4_off2_neg L 0 0 rfl) (k4_off2_inb L 0) (negOff_inb2 L ⟨0, hb0⟩) _).symm) $$ Hb0
  sl_exec

  -- ── the ring at the loop's entry: the invariant at trip 0 ──
  have hc3 : (rb12).view.writes (Elt F) f1' [⟨Rect.whole cc4_scratch4.ty.shape, tile_body2.sl.gather3 d T1 IX L h3 hin3⟩] = gRows2 d IX L T1 (4 * 0 + 3) :=
    (writes_whole2 (F := F) d L cc4_scratch4 f1' _).trans (gather_val12 (F := F) d T1 IX L ⟨3, h3⟩ (rowInb ⟨3, h3⟩) gathers_S100000x128_S128x128 (by decide) hin3)
  have hc4 : (rb22).view.writes (Elt F) f2' [⟨Rect.whole cc4_scratch5.ty.shape, tile_body2.sl.gather4 d T1 IX L h4 hin4⟩] = gRows2 d IX L T1 (4 * 0 + 4) :=
    (writes_whole2 (F := F) d L cc4_scratch5 f2' _).trans (gather_val12 (F := F) d T1 IX L ⟨4, h4⟩ (rowInb ⟨4, h4⟩) gathers_S100000x128_S128x128 (by decide) hin4)
  have hc5 : (rb32).view.writes (Elt F) f3' [⟨Rect.whole cc4_scratch6.ty.shape, tile_body2.sl.gather5 d T1 IX L h5 hin5⟩] = gRows2 d IX L T1 (4 * 0 + 5) :=
    (writes_whole2 (F := F) d L cc4_scratch6 f3' _).trans (gather_val12 (F := F) d T1 IX L ⟨5, h5⟩ (rowInb ⟨5, h5⟩) gathers_S100000x128_S128x128 (by decide) hin5)
  have hc2 : (rb02).view.writes (Elt F) f0' [⟨Rect.whole cc4_scratch3.ty.shape, tile_body2.sl.gather2 d T1 IX L h2 hin2⟩] = gRows2 d IX L T1 (4 * 0 + 2) :=
    (writes_whole2 (F := F) d L cc4_scratch3 f0' _).trans (gather_val12 (F := F) d T1 IX L ⟨2, h2⟩ (rowInb ⟨2, h2⟩) gathers_S100000x128_S128x128 (by decide) hin2)
  have hw0 : tile_body2.sl.dma0_1 d T1 IX L f0' h2 hin2 = gRows2 d IX L T1 (2 + (blkF (4 * 0)).val) := by
    unfold tile_body2.sl.dma0_1; rw [hc2]; rfl
  rw [hc2, hc3, hc4, hc5]
  sl_for (inv2 d T1 IX L O W) $$ [Hmw Hs12 Hq5 Hs13 Hq6 Hs14 Hq7 Hs15 Hr0 Hq4 Hs11 Hs16 Hs17 Hs18 Hw2 Hrows Hneg HO]
  case region =>
    intro k _
    have hk : k.val < 4 := lt_of_lt_of_le k.isLt k4_t1_abs.2.1
    unfold inv2 gFl2 wFl2
    iintro ⟨#Hmw, Hs12, Hq5, Hs13, Hq6, Hs14, Hq7, Hs15, Hr0, Hq4, Hs11, Hs16, Hs17, Hs18, Hdone, Hrows, Hbd, Hneg, %W', %hW', HO⟩
    -- the four index rows this trip gathers by, as the program takes them
    have hr0 : 4 * k.val + 6 < 24 := by omega
    have hr1 : 4 * k.val + 6 + 1 < 24 := by omega
    have hr2 : 4 * k.val + 6 + 1 + 1 < 24 := by omega
    have hr3 : 4 * k.val + 6 + 1 + 1 + 1 < 24 := by omega
    ihave H := (Entails.of_eq (bigSep_from_pop (F := F) _ _ hr0)) $$ Hrows; icases H with ⟨Hn0, Hrows⟩
    ihave H := (Entails.of_eq (bigSep_from_pop (F := F) _ _ hr1)) $$ Hrows; icases H with ⟨Hn1, Hrows⟩
    ihave H := (Entails.of_eq (bigSep_from_pop (F := F) _ _ hr2)) $$ Hrows; icases H with ⟨Hn2, Hrows⟩
    ihave H := (Entails.of_eq (bigSep_from_pop (F := F) _ _ hr3)) $$ Hrows; icases H with ⟨Hn3, Hrows⟩
    have ho0 : k4_off5 k 1#32 = ![(⟨4 * k.val + 6, hr0⟩ : Fin 24).val, 0] :=
      (k4_off5_eq k ⟨0, by decide⟩).trans (by show ![0 + 4 * k.val + 6, 0] = ![4 * k.val + 6, 0]; congr 1; omega)
    have ho1 : k4_off5 k 2#32 = ![(⟨4 * k.val + 6 + 1, hr1⟩ : Fin 24).val, 0] :=
      (k4_off5_eq k ⟨1, by decide⟩).trans (by show ![1 + 4 * k.val + 6, 0] = ![4 * k.val + 6 + 1, 0]; congr 1; omega)
    have ho2 : k4_off5 k 3#32 = ![(⟨4 * k.val + 6 + 1 + 1, hr2⟩ : Fin 24).val, 0] :=
      (k4_off5_eq k ⟨2, by decide⟩).trans (by show ![2 + 4 * k.val + 6, 0] = ![4 * k.val + 6 + 1 + 1, 0]; congr 1; omega)
    have ho3 : k4_off5 k 4#32 = ![(⟨4 * k.val + 6 + 1 + 1 + 1, hr3⟩ : Fin 24).val, 0] :=
      (k4_off5_eq k ⟨3, by decide⟩).trans (by show ![3 + 4 * k.val + 6, 0] = ![4 * k.val + 6 + 1 + 1 + 1, 0]; congr 1; omega)
    ihave Hn0 := (Entails.of_eq (pts_a8Row2 (F := F) d L ⟨_, hr0⟩ (k4_off5 k 1#32) (k4_off5_inb k 0) ho0 _).symm) $$ Hn0
    ihave Hn1 := (Entails.of_eq (pts_a8Row2 (F := F) d L ⟨_, hr1⟩ (k4_off5 k 2#32) (k4_off5_inb k 1) ho1 _).symm) $$ Hn1
    ihave Hn2 := (Entails.of_eq (pts_a8Row2 (F := F) d L ⟨_, hr2⟩ (k4_off5 k 3#32) (k4_off5_inb k 2) ho2 _).symm) $$ Hn2
    ihave Hn3 := (Entails.of_eq (pts_a8Row2 (F := F) d L ⟨_, hr3⟩ (k4_off5 k 4#32) (k4_off5_inb k 3) ho3 _).symm) $$ Hn3
    have hinA := hin_rows2 (F := F) d IX L hIX ⟨_, hr0⟩ (k4_off5 k 1#32) (k4_off5_inb k 0) ho0 (by show 4 * k.val + 6 < 22; omega)
    have hinB := hin_rows2 (F := F) d IX L hIX ⟨_, hr1⟩ (k4_off5 k 2#32) (k4_off5_inb k 1) ho1 (by show 4 * k.val + 6 + 1 < 22; omega)
    have hinC := hin_rows2 (F := F) d IX L hIX ⟨_, hr2⟩ (k4_off5 k 3#32) (k4_off5_inb k 2) ho2 (by show 4 * k.val + 6 + 1 + 1 < 22; omega)
    have hinD := hin_rows2 (F := F) d IX L hIX ⟨_, hr3⟩ (k4_off5 k 4#32) (k4_off5_inb k 3) ho3 (by show 4 * k.val + 6 + 1 + 1 + 1 < 22; omega)
    -- the four blocks it writes, as the program takes them
    have hq0 : 4 * k.val + 1 < 20 := by omega
    have hq1 : 4 * k.val + 1 + 1 < 20 := by omega
    have hq2 : 4 * k.val + 1 + 1 + 1 < 20 := by omega
    have hq3 : 4 * k.val + 1 + 1 + 1 + 1 < 20 := by omega
    ihave H := (Entails.of_eq (bigSep_from_pop (F := F) _ _ hq0)) $$ Hneg; icases H with ⟨⟨%gA, HbA⟩, Hneg⟩
    ihave H := (Entails.of_eq (bigSep_from_pop (F := F) _ _ hq1)) $$ Hneg; icases H with ⟨⟨%gB, HbB⟩, Hneg⟩
    ihave H := (Entails.of_eq (bigSep_from_pop (F := F) _ _ hq2)) $$ Hneg; icases H with ⟨⟨%gC, HbC'⟩, Hneg⟩
    ihave H := (Entails.of_eq (bigSep_from_pop (F := F) _ _ hq3)) $$ Hneg; icases H with ⟨⟨%gD, HbD⟩, Hneg⟩
    have hbo0 : k4_off6 L k 1#32 = negOff2 L (⟨4 * k.val + 1, hq0⟩ : Fin 20).val :=
      (k4_off6_wid L k ⟨0, by decide⟩).trans (by show negOff2 L (4 * k.val + 0 + 1) = negOff2 L (4 * k.val + 1); rfl)
    have hbo1 : k4_off6 L k 2#32 = negOff2 L (⟨4 * k.val + 1 + 1, hq1⟩ : Fin 20).val :=
      (k4_off6_wid L k ⟨1, by decide⟩).trans (by show negOff2 L (4 * k.val + 1 + 1) = negOff2 L (4 * k.val + 1 + 1); rfl)
    have hbo2 : k4_off6 L k 3#32 = negOff2 L (⟨4 * k.val + 1 + 1 + 1, hq2⟩ : Fin 20).val :=
      (k4_off6_wid L k ⟨2, by decide⟩).trans (by show negOff2 L (4 * k.val + 2 + 1) = negOff2 L (4 * k.val + 1 + 1 + 1); rfl)
    have hbo3 : k4_off6 L k 4#32 = negOff2 L (⟨4 * k.val + 1 + 1 + 1 + 1, hq3⟩ : Fin 20).val :=
      (k4_off6_wid L k ⟨3, by decide⟩).trans (by show negOff2 L (4 * k.val + 3 + 1) = negOff2 L (4 * k.val + 1 + 1 + 1 + 1); rfl)
    ihave HbA := (Entails.of_eq (pts_negOff2 (F := F) d L hbo0 (k4_off6_inb L k 0) (negOff_inb2 L ⟨_, hq0⟩) _).symm) $$ HbA
    ihave HbB := (Entails.of_eq (pts_negOff2 (F := F) d L hbo1 (k4_off6_inb L k 1) (negOff_inb2 L ⟨_, hq1⟩) _).symm) $$ HbB
    ihave HbC' := (Entails.of_eq (pts_negOff2 (F := F) d L hbo2 (k4_off6_inb L k 2) (negOff_inb2 L ⟨_, hq2⟩) _).symm) $$ HbC'
    ihave HbD := (Entails.of_eq (pts_negOff2 (F := F) d L hbo3 (k4_off6_inb L k 3) (negOff_inb2 L ⟨_, hq3⟩) _).symm) $$ HbD
    sl_exec
    sl_step
    have hcA : (rb02).view.writes (Elt F) (gRows2 d IX L T1 (4 * k.val + 2)) [⟨Rect.whole cc4_scratch3.ty.shape, tile_body2.sl.gather0_1 d T1 IX L k hinA⟩] = gRows2 d IX L T1 (4 * (k.val + 1) + 2) :=
      (writes_whole2 (F := F) d L cc4_scratch3 _ _).trans ((gather_val1'2 (F := F) d T1 IX L (k4_off5 k 1#32) (k4_off5_inb k 0) ⟨_, hr0⟩ ho0 gathers_S100000x128_S128x128 (by decide) hinA).trans (by congr 1 <;> omega))
    have hcB : (rb12).view.writes (Elt F) (gRows2 d IX L T1 (4 * k.val + 3)) [⟨Rect.whole cc4_scratch4.ty.shape, tile_body2.sl.gather2_1 d T1 IX L k hinB⟩] = gRows2 d IX L T1 (4 * (k.val + 1) + 3) :=
      (writes_whole2 (F := F) d L cc4_scratch4 _ _).trans ((gather_val1'2 (F := F) d T1 IX L (k4_off5 k 2#32) (k4_off5_inb k 1) ⟨_, hr1⟩ ho1 gathers_S100000x128_S128x128 (by decide) hinB).trans (by congr 1 <;> omega))
    have hcC : (rb22).view.writes (Elt F) (gRows2 d IX L T1 (4 * k.val + 4)) [⟨Rect.whole cc4_scratch5.ty.shape, tile_body2.sl.gather4_1 d T1 IX L k hinC⟩] = gRows2 d IX L T1 (4 * (k.val + 1) + 4) :=
      (writes_whole2 (F := F) d L cc4_scratch5 _ _).trans ((gather_val1'2 (F := F) d T1 IX L (k4_off5 k 3#32) (k4_off5_inb k 2) ⟨_, hr2⟩ ho2 gathers_S100000x128_S128x128 (by decide) hinC).trans (by congr 1 <;> omega))
    have hcD : (rb32).view.writes (Elt F) (gRows2 d IX L T1 (4 * k.val + 5)) [⟨Rect.whole cc4_scratch6.ty.shape, tile_body2.sl.gather6 d T1 IX L k hinD⟩] = gRows2 d IX L T1 (4 * (k.val + 1) + 5) :=
      (writes_whole2 (F := F) d L cc4_scratch6 _ _).trans ((gather_val1'2 (F := F) d T1 IX L (k4_off5 k 4#32) (k4_off5_inb k 3) ⟨_, hr3⟩ ho3 gathers_S100000x128_S128x128 (by decide) hinD).trans (by congr 1 <;> omega))
    rw [hcA, hcB, hcC, hcD]
    -- the rows of the three gathers now in flight, in the invariant's spelling
    have e1 : k4_off5 k 2#32 = ![(rowF (4 * (k.val + 1) + 3)).val, 0] := ho1.trans (by show ![4 * k.val + 6 + 1, 0] = ![(4 * (k.val + 1) + 3) % 24, 0]; congr 1; omega)
    have e2 : k4_off5 k 3#32 = ![(rowF (4 * (k.val + 1) + 4)).val, 0] := ho2.trans (by show ![4 * k.val + 6 + 1 + 1, 0] = ![(4 * (k.val + 1) + 4) % 24, 0]; congr 1; omega)
    have e3 : k4_off5 k 4#32 = ![(rowF (4 * (k.val + 1) + 5)).val, 0] := ho3.trans (by show ![4 * k.val + 6 + 1 + 1 + 1, 0] = ![(4 * (k.val + 1) + 5) % 24, 0]; congr 1; omega)
    rw [pts_a8Row_congr2 (F := F) d L e1 (k4_off5_inb k 1) (rowInb _) (A8c2 d IX L), pts_a8Row_congr2 (F := F) d L e2 (k4_off5_inb k 2) (rowInb _) (A8c2 d IX L), pts_a8Row_congr2 (F := F) d L e3 (k4_off5_inb k 3) (rowInb _) (A8c2 d IX L)]
    -- the four rows that came back
    have hd0 : 4 * k.val + 3 < 24 := by omega
    have hd1 : 4 * k.val + 3 + 1 < 24 := by omega
    have hd2 : 4 * k.val + 3 + 1 + 1 < 24 := by omega
    have hd3 : 4 * k.val + 3 + 1 + 1 + 1 < 24 := by omega
    ihave R0 := (Entails.of_eq (pts_a8Row2 (F := F) d L (rowF (4 * k.val + 3)) ![(rowF (4 * k.val + 3)).val, 0] (rowInb _) rfl _)) $$ Hs12_dst_and
    ihave R0 := (row_reidx2 (F := F) d L _ _ ⟨4 * k.val + 3, hd0⟩ (Fin.ext (show (4 * k.val + 3) % 24 = 4 * k.val + 3 by omega))) $$ R0
    ihave R1 := (Entails.of_eq (pts_a8Row2 (F := F) d L (rowF (4 * k.val + 4)) ![(rowF (4 * k.val + 4)).val, 0] (rowInb _) rfl _)) $$ Hs13_dst_and
    ihave R1 := (row_reidx2 (F := F) d L _ _ ⟨4 * k.val + 3 + 1, hd1⟩ (Fin.ext (show (4 * k.val + 4) % 24 = 4 * k.val + 3 + 1 by omega))) $$ R1
    ihave R2 := (Entails.of_eq (pts_a8Row2 (F := F) d L (rowF (4 * k.val + 5)) ![(rowF (4 * k.val + 5)).val, 0] (rowInb _) rfl _)) $$ Hs14_dst_and
    ihave R2 := (row_reidx2 (F := F) d L _ _ ⟨4 * k.val + 3 + 1 + 1, hd2⟩ (Fin.ext (show (4 * k.val + 5) % 24 = 4 * k.val + 3 + 1 + 1 by omega))) $$ R2
    ihave R3 := (Entails.of_eq (pts_a8Row2 (F := F) d L ⟨_, hr0⟩ (k4_off5 k 1#32) (k4_off5_inb k 0) ho0 _)) $$ Hn0
    ihave R3 := (row_reidx2 (F := F) d L _ _ ⟨4 * k.val + 3 + 1 + 1 + 1, hd3⟩ (Fin.ext (show 4 * k.val + 6 = 4 * k.val + 3 + 1 + 1 + 1 by omega))) $$ R3
    -- the four blocks that are written
    have hp0 : 4 * k.val < 20 := by omega
    ihave B0 := (blk_reidx2 (F := F) d L _ _ ⟨4 * k.val, hp0⟩ (Fin.ext (show (4 * k.val) % 20 = 4 * k.val by omega))) $$ Hs15_dst
    have hwA : tile_body2.sl.dma0_2 d T1 IX L k = gRows2 d IX L T1 (2 + (⟨4 * k.val + 1, hq0⟩ : Fin 20).val) := by
      unfold tile_body2.sl.dma0_2; show gRows2 d IX L T1 (4 * k.val + 3) = gRows2 d IX L T1 (2 + (4 * k.val + 1)); congr 1; omega
    have hwB : tile_body2.sl.dma0_3 d T1 IX L k = gRows2 d IX L T1 (2 + (⟨4 * k.val + 1 + 1, hq1⟩ : Fin 20).val) := by
      unfold tile_body2.sl.dma0_3; show gRows2 d IX L T1 (4 * k.val + 4) = gRows2 d IX L T1 (2 + (4 * k.val + 1 + 1)); congr 1; omega
    have hwC : tile_body2.sl.dma0_4 d T1 IX L k = gRows2 d IX L T1 (2 + (⟨4 * k.val + 1 + 1 + 1, hq2⟩ : Fin 20).val) := by
      unfold tile_body2.sl.dma0_4; show gRows2 d IX L T1 (4 * k.val + 5) = gRows2 d IX L T1 (2 + (4 * k.val + 1 + 1 + 1)); congr 1; omega
    have hwD : tile_body2.sl.dma0_5 d T1 IX L k hinA = gRows2 d IX L T1 (2 + (blkF (4 * (k.val + 1))).val) := by
      unfold tile_body2.sl.dma0_5; rw [hcA]; show gRows2 d IX L T1 (4 * (k.val + 1) + 2) = gRows2 d IX L T1 (2 + (4 * (k.val + 1)) % 20); congr 1; omega
    ihave B1 := (blk_intro2 (F := F) d T1 IX L ⟨_, hq0⟩ (k4_off6 L k 1#32) (k4_off6_inb L k 0) hbo0 gA _ hwA) $$ HbA
    ihave B2 := (blk_intro2 (F := F) d T1 IX L ⟨_, hq1⟩ (k4_off6 L k 2#32) (k4_off6_inb L k 1) hbo1 gB _ hwB) $$ HbB
    ihave B3 := (blk_intro2 (F := F) d T1 IX L ⟨_, hq2⟩ (k4_off6 L k 3#32) (k4_off6_inb L k 2) hbo2 gC _ hwC) $$ HbC'
    have hbo3' : k4_off6 L k 4#32 = negOff2 L (blkF (4 * (k.val + 1))).val :=
      hbo3.trans (by show negOff2 L (4 * k.val + 1 + 1 + 1 + 1) = negOff2 L ((4 * (k.val + 1)) % 20); congr 1; omega)
    -- the invariant at the next trip
    isplitl []; · iexact Hmw
    isplitl [Hs12]; · iexact Hs12
    isplitl [Hq5]; · iexact Hq5
    isplitl [Hs13]; · iexact Hs13
    isplitl [Hq6]; · iexact Hq6
    isplitl [Hs14]; · iexact Hs14
    isplitl [Hq7]; · iexact Hq7
    isplitl [Hs15]
    · have h8 : (50 : ℕ) < sig.nDmaSem := by decide
      iapply ((wFl_intro'2 (F := F) d T1 IX L ⟨50, h8⟩ cc4_scratch3 (blkF (4 * (k.val + 1))) (k4_off6 L k 4#32) (k4_off6_inb L k 3) hbo3' gD _ hwD (gRows2 d IX L T1 (4 * (k.val + 1) + 2))).trans
        (Entails.of_eq (wFl_unfold2 (F := F) d L ⟨50, h8⟩ cc4_scratch3 (blkF (4 * (k.val + 1))) (gV2 d T1 IX) (gRows2 d IX L T1 (4 * (k.val + 1) + 2)))))
      iexact Hs15
    isplitl [Hr0]; · iexact Hr0
    isplitl [Hq4]; · iexact Hq4
    isplitl [Hs11]; · iexact Hs11
    isplitl [Hs16]; · iexact Hs16
    isplitl [Hs17]; · iexact Hs17
    isplitl [Hs18]; · iexact Hs18
    isplitl [Hdone R0 R1 R2 R3]
    · iapply (mid_push4 (F := F) (fun k' : Fin 24 => (a8Loc2 d L ↦[a8RowSet2 k']{fullShare} A8c2 d IX L : sProp 𝕄)) 2 (4 * k.val + 3) (4 * (k.val + 1) + 3) hd0 hd1 hd2 hd3 (by omega) (by omega))
      isplitl [Hdone]; · iexact Hdone
      isplitl [R0]; · iexact R0
      isplitl [R1]; · iexact R1
      isplitl [R2]; · iexact R2
      iexact R3
    isplitl [Hrows]
    · iapply (Entails.of_eq (bigSep_from_congr (F := F) _ (show 4 * k.val + 6 + 1 + 1 + 1 + 1 = 4 * (k.val + 1) + 6 by omega)))
      iexact Hrows
    isplitl [Hbd B0 B1 B2 B3]
    · iapply (mid_push4 (F := F) (fun j : Fin 20 => (o2Loc2 d ↦[(negSl2 L j).view.set]{fullShare} gV2 d T1 IX : sProp 𝕄)) 0 (4 * k.val) (4 * (k.val + 1)) hp0 hq0 hq1 hq2 (by omega) (by omega))
      isplitl [Hbd]; · iexact Hbd
      isplitl [B0]; · iexact B0
      isplitl [B1]; · iexact B1
      isplitl [B2]; · iexact B2
      iexact B3
    isplitl [Hneg]
    · iapply (Entails.of_eq (bigSep_from_congr (F := F) _ (show 4 * k.val + 1 + 1 + 1 + 1 + 1 = 4 * (k.val + 1) + 1 by omega)))
      iexact Hneg
    iexists (insert ((SemLoc.dma ⟨53, by decide⟩ : SemLoc sig), (default : HIx 4))
      (insert ((SemLoc.dma ⟨46, by decide⟩ : SemLoc sig), (default : HIx 4))
        (insert ((SemLoc.dma ⟨52, by decide⟩ : SemLoc sig), (default : HIx 4))
          (insert ((SemLoc.dma ⟨49, by decide⟩ : SemLoc sig), (default : HIx 4))
            (insert ((SemLoc.dma ⟨51, by decide⟩ : SemLoc sig), (default : HIx 4))
              (insert ((SemLoc.dma ⟨48, by decide⟩ : SemLoc sig), (default : HIx 4))
                (insert ((SemLoc.dma ⟨50, by decide⟩ : SemLoc sig), (default : HIx 4))
                  (insert ((SemLoc.dma ⟨47, by decide⟩ : SemLoc sig), (default : HIx 4)) W')))))))); isplitr
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      · exact hW' p hp
    · iexact HO
  · unfold inv2
    isplitl [Hmw]; · iexact Hmw
    isplitl [Hs12]; · unfold gFl2; iexact Hs12
    isplitl [Hq5]; · iexact Hq5
    isplitl [Hs13]; · unfold gFl2; iexact Hs13
    isplitl [Hq6]; · iexact Hq6
    isplitl [Hs14]; · unfold gFl2; iexact Hs14
    isplitl [Hq7]; · iexact Hq7
    isplitl [Hs15]
    · have h8 : (50 : ℕ) < sig.nDmaSem := by decide
      iapply (wFl_intro'2 (F := F) d T1 IX L ⟨50, h8⟩ cc4_scratch3 (blkF (4 * 0)) (k4_off2 L (k4_off2_at 0))
        (k4_off2_inb L 0) (k4_off2_neg L 0 0 rfl) g0 _ hw0 _)
      iexact Hs15
    isplitl [Hr0]; · iexact Hr0
    isplitl [Hq4]; · iexact Hq4
    isplitl [Hs11]; · iexact Hs11
    isplitl [Hs16]; · iexact Hs16
    isplitl [Hs17]; · iexact Hs17
    isplitl [Hs18]; · iexact Hs18
    isplitl [Hw2]
    · iapply (rows_done02 (F := F) d L _ h2)
      iapply (Entails.of_eq (pts_a8Row2 (F := F) d L ⟨2, h2⟩ ![2, 0] (rowInb ⟨2, h2⟩) rfl _))
      iexact Hw2
    isplitl [Hrows]; · iexact Hrows
    isplitl []; · iapply (blks_done02 (F := F) d L (gV2 d T1 IX)); iempintro
    isplitl [Hneg]; · iexact Hneg
    iexists (insert ((SemLoc.dma ⟨46, by decide⟩ : SemLoc sig), (default : HIx 4))
      (insert ((SemLoc.dma ⟨54, by decide⟩ : SemLoc sig), (default : HIx 4)) W)); isplitr
    · ipureintro; intro p hp
      rcases Finset.mem_insert.mp hp with rfl | hp
      · exact .inr rfl
      rcases Finset.mem_insert.mp hp with rfl | hp
      · exact .inr rfl
      · exact .inl hp
    · iexact HO
  iintro %_ HI
  unfold inv2 gFl2 wFl2
  icases HI with ⟨#Hmw', Hs12, Hq5, Hs13, Hq6, Hs14, Hq7, Hs15, Hr0, Hq4, Hs11, Hs16, Hs17, Hs18, Hdone, Hrows, Hbd, Hneg, %W', %hW', HO⟩
  have htr : Scf.trips k4_t1_loop.lb k4_t1_loop.ub k4_t1_loop.st = 4 := by decide
  rw [htr]
  have hb16 : (16 : ℕ) < 20 := by decide
  have h19 : (19 : ℕ) < 24 := by decide
  have h20 : (20 : ℕ) < 24 := by decide
  have h21 : (21 : ℕ) < 24 := by decide
  have e19 : rowF (4 * 4 + 3) = ⟨19, h19⟩ := rfl
  have e20 : rowF (4 * 4 + 4) = ⟨20, h20⟩ := rfl
  have e21 : rowF (4 * 4 + 5) = ⟨21, h21⟩ := rfl
  have e16 : blkF (4 * 4) = ⟨16, hb16⟩ := rfl
  rw [e19, e20, e21, e16]
  have hb17 : (17 : ℕ) < 20 := by decide
  have hb18 : (18 : ℕ) < 20 := by decide
  have hb19 : (19 : ℕ) < 20 := by decide
  ihave H := (Entails.of_eq (bigSep_from_pop (F := F) _ 17 hb17)) $$ Hneg; icases H with ⟨⟨%g17, Hb17⟩, Hneg⟩
  ihave H := (Entails.of_eq (bigSep_from_pop (F := F) _ 18 hb18)) $$ Hneg; icases H with ⟨⟨%g18, Hb18⟩, Hneg⟩
  ihave H := (Entails.of_eq (bigSep_from_pop (F := F) _ 19 hb19)) $$ Hneg; icases H with ⟨⟨%g19, Hb19⟩, Hneg⟩
  ihave Hb17 := (Entails.of_eq (pts_negOff2 (F := F) d L (k4_off2_neg L 2 17 rfl) (k4_off2_inb L 2) (negOff_inb2 L ⟨17, hb17⟩) _).symm) $$ Hb17
  ihave Hb18 := (Entails.of_eq (pts_negOff2 (F := F) d L (k4_off2_neg L 3 18 rfl) (k4_off2_inb L 3) (negOff_inb2 L ⟨18, hb18⟩) _).symm) $$ Hb18
  ihave Hb19 := (Entails.of_eq (pts_negOff2 (F := F) d L (k4_off2_neg L 4 19 rfl) (k4_off2_inb L 4) (negOff_inb2 L ⟨19, hb19⟩) _).symm) $$ Hb19
  sl_exec
  sl_step
  -- what the copy-outs carried: the gathered rows
  have hp17 : tile_body2.sl.dma0_6 d T1 IX L = gRows2 d IX L T1 (2 + 17) := rfl
  have hp18 : tile_body2.sl.dma0_7 d T1 IX L = gRows2 d IX L T1 (2 + 18) := rfl
  have hp19 : tile_body2.sl.dma0_8 d T1 IX L = gRows2 d IX L T1 (2 + 19) := rfl
  have hpC : tile_body2.sl.dma0_9 d T0 IX L fbC h0 hin0 = gRows2 d IX L T0 0 := by
    unfold tile_body2.sl.dma0_9 tile_body2.sl.gather0
    exact (writes_whole2 (F := F) d L cc4_scratch1 fbC _).trans (gather_val02 (F := F) d T0 IX L ⟨0, h0⟩ (rowInb ⟨0, h0⟩) gathers_S100000x128_S128x128 (by decide) hin0)
  have hpP : tile_body2.sl.dma0_10 d T1 IX L fbP h1 hin1 = gRows2 d IX L T1 1 := by
    unfold tile_body2.sl.dma0_10 tile_body2.sl.gather1
    exact (writes_whole2 (F := F) d L cc4_scratch2 fbP _).trans (gather_val12 (F := F) d T1 IX L ⟨1, h1⟩ (rowInb ⟨1, h1⟩) gathers_S100000x128_S128x128 (by decide) hin1)
  have h22 : (22 : ℕ) < 24 := by decide
  have h23 : (23 : ℕ) < 24 := by decide
  -- the third result's blocks, all twenty
  ihave Hb17 := (blk_done2 (F := F) d T1 IX L ⟨17, hb17⟩ _ (k4_off2_inb L 2) (k4_off2_neg L 2 17 rfl) g17 _ hp17) $$ Hb17
  ihave Hb18 := (blk_done2 (F := F) d T1 IX L ⟨18, hb18⟩ _ (k4_off2_inb L 3) (k4_off2_neg L 3 18 rfl) g18 _ hp18) $$ Hb18
  ihave Hb19 := (blk_done2 (F := F) d T1 IX L ⟨19, hb19⟩ _ (k4_off2_inb L 4) (k4_off2_neg L 4 19 rfl) g19 _ hp19) $$ Hb19
  ihave Hbd := (Entails.of_eq (bigSep_mid_push (F := F) (fun j : Fin 20 => (o2Loc2 d ↦[(negSl2 L j).view.set]{fullShare} gV2 d T1 IX : sProp 𝕄)) 0 16 hb16 (by omega)).symm) $$ [Hs15_dst Hbd]
  · isplitl [Hs15_dst]
    · iexact Hs15_dst
    iexact Hbd
  ihave Hbd := (Entails.of_eq (bigSep_mid_push (F := F) (fun j : Fin 20 => (o2Loc2 d ↦[(negSl2 L j).view.set]{fullShare} gV2 d T1 IX : sProp 𝕄)) 0 17 hb17 (by omega)).symm) $$ [Hb17 Hbd]
  · isplitl [Hb17] <;> iassumption
  ihave Hbd := (Entails.of_eq (bigSep_mid_push (F := F) (fun j : Fin 20 => (o2Loc2 d ↦[(negSl2 L j).view.set]{fullShare} gV2 d T1 IX : sProp 𝕄)) 0 18 hb18 (by omega)).symm) $$ [Hb18 Hbd]
  · isplitl [Hb18] <;> iassumption
  ihave Hbd := (Entails.of_eq (bigSep_mid_push (F := F) (fun j : Fin 20 => (o2Loc2 d ↦[(negSl2 L j).view.set]{fullShare} gV2 d T1 IX : sProp 𝕄)) 0 19 hb19 (by omega)).symm) $$ [Hb19 Hbd]
  · isplitl [Hb19] <;> iassumption
  ihave Hbd := (Entails.of_eq (bigSep_mid_all (F := F) (fun j : Fin 20 => (o2Loc2 d ↦[(negSl2 L j).view.set]{fullShare} gV2 d T1 IX : sProp 𝕄)))) $$ Hbd
  -- the index scratch, all twenty-four rows
  ihave R19 := (Entails.of_eq (pts_a8Row2 (F := F) d L ⟨19, h19⟩ _ _ rfl _)) $$ Hs12_dst_and
  ihave R20 := (Entails.of_eq (pts_a8Row2 (F := F) d L ⟨20, h20⟩ _ _ rfl _)) $$ Hs13_dst_and
  ihave R21 := (Entails.of_eq (pts_a8Row2 (F := F) d L ⟨21, h21⟩ _ _ rfl _)) $$ Hs14_dst_and
  ihave R0 := (Entails.of_eq (pts_a8Row2 (F := F) d L ⟨0, h0⟩ ![0, 0] (rowInb ⟨0, h0⟩) rfl _)) $$ Hw0
  ihave R1 := (Entails.of_eq (pts_a8Row2 (F := F) d L ⟨1, h1⟩ ![1, 0] (rowInb ⟨1, h1⟩) rfl _)) $$ Hw1
  ihave H := (Entails.of_eq (bigSep_from_pop (F := F) _ 22 h22)) $$ Hrows; icases H with ⟨R22, Hrows⟩
  ihave H := (Entails.of_eq (bigSep_from_pop (F := F) _ 23 h23)) $$ Hrows; icases H with ⟨R23, -⟩
  ihave Hdone := (Entails.of_eq (bigSep_mid_push (F := F) (fun k : Fin 24 => (a8Loc2 d L ↦[a8RowSet2 k]{fullShare} A8c2 d IX L : sProp 𝕄)) 2 19 h19 (by omega)).symm) $$ [R19 Hdone]
  · isplitl [R19]
    · iexact R19
    iexact Hdone
  ihave Hdone := (Entails.of_eq (bigSep_mid_push (F := F) (fun k : Fin 24 => (a8Loc2 d L ↦[a8RowSet2 k]{fullShare} A8c2 d IX L : sProp 𝕄)) 2 20 h20 (by omega)).symm) $$ [R20 Hdone]
  · isplitl [R20]
    · iexact R20
    iexact Hdone
  ihave Hdone := (Entails.of_eq (bigSep_mid_push (F := F) (fun k : Fin 24 => (a8Loc2 d L ↦[a8RowSet2 k]{fullShare} A8c2 d IX L : sProp 𝕄)) 2 21 h21 (by omega)).symm) $$ [R21 Hdone]
  · isplitl [R21]
    · iexact R21
    iexact Hdone
  ihave Hdone := (Entails.of_eq (bigSep_mid_push (F := F) (fun k : Fin 24 => (a8Loc2 d L ↦[a8RowSet2 k]{fullShare} A8c2 d IX L : sProp 𝕄)) 2 22 h22 (by omega)).symm) $$ [R22 Hdone]
  · isplitl [R22]
    · iexact R22
    iexact Hdone
  ihave Hdone := (Entails.of_eq (bigSep_mid_push (F := F) (fun k : Fin 24 => (a8Loc2 d L ↦[a8RowSet2 k]{fullShare} A8c2 d IX L : sProp 𝕄)) 2 23 h23 (by omega)).symm) $$ [R23 Hdone]
  · isplitl [R23]
    · iexact R23
    iexact Hdone
  ihave Hdone := (Entails.of_eq (bigSep_mid_top (F := F) (fun k : Fin 24 => (a8Loc2 d L ↦[a8RowSet2 k]{fullShare} A8c2 d IX L : sProp 𝕄)) 2)) $$ Hdone
  ihave Hdone := (Entails.of_eq (bigSep_from_pop (F := F) (fun k : Fin 24 => (a8Loc2 d L ↦[a8RowSet2 k]{fullShare} A8c2 d IX L : sProp 𝕄)) 1 h1).symm) $$ [R1 Hdone]
  · isplitl [R1]
    · iexact R1
    iexact Hdone
  ihave Hdone := (Entails.of_eq (bigSep_from_pop (F := F) (fun k : Fin 24 => (a8Loc2 d L ↦[a8RowSet2 k]{fullShare} A8c2 d IX L : sProp 𝕄)) 0 h0).symm) $$ [R0 Hdone]
  · isplitl [R0]
    · iexact R0
    iexact Hdone
  ihave Hdone := (Entails.of_eq (bigSep_from_zero (F := F) (fun k : Fin 24 => (a8Loc2 d L ↦[a8RowSet2 k]{fullShare} A8c2 d IX L : sProp 𝕄)))) $$ Hdone
  ihave Ha8 := (Entails.of_eq (a8_rows2 (F := F) d L (A8c2 d IX L)).symm) $$ Hdone
  -- what the tile hands back
  unfold tdResL2
  isplitl [Ht0 Hq8 Hq7 Hq6 Hq5 Hq4 Hq3 Hq2 Hq1 Hq0 Hix Ho0 Ho1 Hbd]
  · isplitl [Ht0]
    · iexact Ht0
    isplitl [Hq8 Hq7 Hq6 Hq5 Hq4 Hq3 Hq2 Hq1 Hq0]
    · iapply (toks8_join (F := F) (tblShare2 L) T1)
      isplitl [Hq8]
      · iexact Hq8
      isplitl [Hq7]
      · iexact Hq7
      isplitl [Hq6]
      · iexact Hq6
      isplitl [Hq5]
      · iexact Hq5
      isplitl [Hq4]
      · iexact Hq4
      isplitl [Hq3]
      · iexact Hq3
      isplitl [Hq2]
      · iexact Hq2
      isplitl [Hq1]
      · iexact Hq1
      iexact Hq0
    isplitl [Hix]
    · iexact Hix
    isplitl [Ho0]
    · iapply (Entails.of_eq (pointsTo_congr (block_val02 (F := F) d T0 IX L f0 _ hpC)))
      iexact Ho0
    isplitl [Ho1]
    · iapply (Entails.of_eq (pointsTo_congr (block_val12 (F := F) d T1 IX L f1 _ hpP)))
      iexact Ho1
    iexact Hbd
  isplitl [Ha8 HbC HbP Hr0 Hs12_dst Hs13_dst Hs14_dst Hbufs]
  · isplitr [Hbufs]
    · isplitl [Ha8]
      · iexists _; iexact Ha8
      isplitl [HbC]
      · iexists _; iexact HbC
      isplitl [HbP]
      · iexists _; iexact HbP
      isplitl [Hr0]
      · iexists _; iexact Hr0
      isplitl [Hs12_dst]
      · iexists _; iexact Hs12_dst
      isplitl [Hs13_dst]
      · iexists _; iexact Hs13_dst
      iexists _; iexact Hs14_dst
    iexact Hbufs
  isplitr [HO]
  · isplitr [Hsems]
    · isplitl [Hs0]
      · iexact Hs0
      isplitl [Hs7]
      · iexact Hs7
      isplitl [Hs8]
      · iexact Hs8
      isplitl [Hs9]
      · iexact Hs9
      isplitl [Hs10]
      · iexact Hs10
      isplitl [Hs11]
      · iexact Hs11
      isplitl [Hs12]
      · iexact Hs12
      isplitl [Hs13]
      · iexact Hs13
      isplitl [Hs14]
      · iexact Hs14
      isplitl [Hs15]
      · iexact Hs15
      isplitl [Hs16]
      · iexact Hs16
      isplitl [Hs17]
      · iexact Hs17
      iexact Hs18
    iexact Hsems
  iexists _; isplitr
  swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

end Body

/-! ## The launch theorem's obligation -/

theorem defs₀_vector2 (c : Fin τ.nSC) (s : Fin τ.nSub) :
    defs₀ (F := F) (.scVector c s) 4 ()
      = SparseCore.onTile hcore4 hsub4 (fun c s => cc4__sc_gather (coordsV2 c s)
          t0V (Memref.isWhole_whole _) t1V (Memref.isWhole_whole _) ixV2 (Memref.isWhole_whole _) o0V2 (Memref.isWhole_whole _) o1V2 (Memref.isWhole_whole _) o2V2 (Memref.isWhole_whole _)
            a82 (Memref.isWhole_whole _) bC2 (Memref.isWhole_whole _) bP2 (Memref.isWhole_whole _) rb02 (Memref.isWhole_whole _) rb12 (Memref.isWhole_whole _) rb22 (Memref.isWhole_whole _) rb32 (Memref.isWhole_whole _)
            cc4_scratch7 cc4_scratch8 cc4_scratch9 cc4_scratch10 cc4_scratch11 cc4_scratch12 cc4_scratch13 cc4_scratch14 cc4_scratch15 cc4_scratch16 cc4_scratch17 cc4_scratch18 cc4_scoped0) ⟨⟩ c s := rfl

/-- `TileObl` at call 2, for any payload record whose call-0 fields are the tile's resources above, nothing
    extra held per thread and nothing owed for a protocol of the kernel's own. -/
theorem tileObl2 (hF : (K (F := F)).Facts)
    (T0 : (d : Dev nD) → Buf (Elt F) (t0Loc d)) (T1 : (d : Dev nD) → Buf (Elt F) (t1Loc d)) (IX : (d : Dev nD) → Buf (Elt F) (ixLoc2 d))
    (hIX : ∀ d, IXOK2 d (IX d))
    (P : (K (F := F)).Pay (nD := nD) (Val := Elt F) (Name := ℕ) (U := UU))
    (hgo : ∀ d c i, P.go 2 d c i = goRes2 d (T0 d) (T1 d) (IX d) c i)
    (htd : ∀ d c i, P.td 2 d c i = tdRes2 d (T0 d) (T1 d) (IX d) c i)
    (hx : ∀ thr, P.x 2 thr = iprop(emp))
    (hox : ∀ thr, P.ox 2 thr = 0) :
    (K (F := F)).TileObl (D (F := F)) 𝒱 P v₀ 2 := by
  intro d c i O W hO _ _
  rw [hox, add_zero, hx, hgo, htd]
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  have hc : ((K (F := F)).core 2 c).val < grid4.bound 0 ∧ ((K (F := F)).sub 2 i).val < grid4.bound 1 := ⟨c.isLt, i.isLt⟩
  rw [defs₀_vector2]; simp only [SparseCore.onTile, hc, and_self, ↓reduceDIte]
  exact (tile_body2 d (T0 d) (T1 d) (IX d) hF (hIX d) (coordsV2 ⟨_, hc.1⟩ ⟨_, hc.2⟩) O W hO).trans (wp_mono frame _ _ fun _ => obl_post)

end Cert.Proof.KI

end
-- ==== Proof.KI_TileOwn_c3.lean ====
/-
  A vector subcore's own storage at call 3: its thread, the seven scratch buffers and thirteen DMA semaphores of
  the gather kernel, taken out of the tile's scoped buffers and scoped semaphores.
-/
import proofs.«215899_g5772436046013_cont_9to1c4b_742_31_alg».proof.Proof.KI_TileRes
import proofs.«215899_g5772436046013_cont_9to1c4b_742_31_alg».proof.Proof.KI_TileRes_c3
import proofs.«215899_g5772436046013_cont_9to1c4b_742_31_alg».proof.Proof.KI_TileOwn

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## The tile's thread, its scratch buffers and its semaphores -/

abbrev thrV3 (d : Dev nD) (L : grid6.Coords) : Thread nD τ := V d (cV3 L) (jV3 L)

abbrev a83 : Memref sig .scVector .vmem S24x128 .i32 := Memref.whole cc6_scratch0
abbrev bC3 : Memref sig .scVector .vmem S128x128 .f32 := Memref.whole cc6_scratch1
abbrev bP3 : Memref sig .scVector .vmem S128x128 .f32 := Memref.whole cc6_scratch2
abbrev rb03 : Memref sig .scVector .vmem S128x128 .f32 := Memref.whole cc6_scratch3
abbrev rb13 : Memref sig .scVector .vmem S128x128 .f32 := Memref.whole cc6_scratch4
abbrev rb23 : Memref sig .scVector .vmem S128x128 .f32 := Memref.whole cc6_scratch5
abbrev rb33 : Memref sig .scVector .vmem S128x128 .f32 := Memref.whole cc6_scratch6

/-- The kernel's thirteen DMA semaphores. -/
def tileSems3 : Finset (DmaSem sig) := {cc6_scoped0.sem, cc6_scratch7.sem, cc6_scratch8.sem, cc6_scratch9.sem, cc6_scratch10.sem, cc6_scratch11.sem, cc6_scratch12.sem, cc6_scratch13.sem, cc6_scratch14.sem, cc6_scratch15.sem, cc6_scratch16.sem, cc6_scratch17.sem, cc6_scratch18.sem}
/-- The kernel's seven scratch buffers. -/
def tileRefs3 : Finset (Ref sig .scVector) := {cc6_scratch0, cc6_scratch1, cc6_scratch2, cc6_scratch3, cc6_scratch4, cc6_scratch5, cc6_scratch6}

omit [FloatOps F] in
theorem tileSems_sub3 (d : Dev nD) (L : grid6.Coords) : tileSems3.map (cellEmb (thrV3 d L)) ⊆ ownCells (thrV3 d L) := by
  intro g hg
  obtain ⟨s, hs, rfl⟩ := Finset.mem_map.mp hg
  refine mem_ownCells.mpr ⟨rfl, ?_⟩
  show sig.isScopedDmaSem .scVector s = true
  clear hg
  revert s; decide +revert

omit [FloatOps F] in
theorem ownSems0_V3 (d : Dev nD) (L : grid6.Coords) :
    (ownSems0 (thrV3 d L) : sProp 𝕄)
      = iprop((semVal (thrV3 d L, SemLoc.dma cc6_scoped0.sem) 0
          ∗ semVal (thrV3 d L, SemLoc.dma cc6_scratch7.sem) 0
          ∗ semVal (thrV3 d L, SemLoc.dma cc6_scratch8.sem) 0
          ∗ semVal (thrV3 d L, SemLoc.dma cc6_scratch9.sem) 0
          ∗ semVal (thrV3 d L, SemLoc.dma cc6_scratch10.sem) 0
          ∗ semVal (thrV3 d L, SemLoc.dma cc6_scratch11.sem) 0
          ∗ semVal (thrV3 d L, SemLoc.dma cc6_scratch12.sem) 0
          ∗ semVal (thrV3 d L, SemLoc.dma cc6_scratch13.sem) 0
          ∗ semVal (thrV3 d L, SemLoc.dma cc6_scratch14.sem) 0
          ∗ semVal (thrV3 d L, SemLoc.dma cc6_scratch15.sem) 0
          ∗ semVal (thrV3 d L, SemLoc.dma cc6_scratch16.sem) 0
          ∗ semVal (thrV3 d L, SemLoc.dma cc6_scratch17.sem) 0
          ∗ semVal (thrV3 d L, SemLoc.dma cc6_scratch18.sem) 0)
          ∗ bigSep (ownCells (thrV3 d L) \ tileSems3.map (cellEmb (thrV3 d L))) fun g => semVal g 0) := by
  unfold SparseCore.Cfg.ownSems0
  rw [SparseCore.bigSep_sdiff_split' (tileSems_sub3 d L), BI.bigSep_map]
  unfold tileSems3
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton]
  rfl

omit [FloatOps F] in
theorem tileRefs_sub3 (L : grid6.Coords) :
    tileRefs3.map (refEmb (Proc.scVector (cV3 L) (jV3 L))) ⊆ ownRefs (τ := τ) (sig := sig) (Proc.scVector (cV3 L) (jV3 L)) := by
  intro b hb
  obtain ⟨r, hr, rfl⟩ := Finset.mem_map.mp hb
  simp only [tileRefs3, Finset.mem_insert, Finset.mem_singleton] at hr
  rcases hr with rfl | rfl | rfl | rfl | rfl | rfl | rfl <;> exact SparseCore.Cfg.mem_ownRefs_of_owner rfl

omit [FloatOps F] in
theorem ownBufs_V3 (d : Dev nD) (L : grid6.Coords) :
    (ownBufs (thrV3 d L) : sProp 𝕄)
      = iprop(((∃ f, (thrV3 d L).loc cc6_scratch0 ↦{fullShare} f)
          ∗ (∃ f, (thrV3 d L).loc cc6_scratch1 ↦{fullShare} f)
          ∗ (∃ f, (thrV3 d L).loc cc6_scratch2 ↦{fullShare} f)
          ∗ (∃ f, (thrV3 d L).loc cc6_scratch3 ↦{fullShare} f)
          ∗ (∃ f, (thrV3 d L).loc cc6_scratch4 ↦{fullShare} f)
          ∗ (∃ f, (thrV3 d L).loc cc6_scratch5 ↦{fullShare} f)
          ∗ (∃ f, (thrV3 d L).loc cc6_scratch6 ↦{fullShare} f))
          ∗ bigSep (ownRefs (τ := τ) (Proc.scVector (cV3 L) (jV3 L)) \ tileRefs3.map (refEmb (Proc.scVector (cV3 L) (jV3 L))))
              fun b => iprop(∃ f, ((d, b) : Loc nD τ sig) ↦{fullShare} f)) := by
  unfold SparseCore.Cfg.ownBufs
  rw [SparseCore.bigSep_sdiff_split' (tileRefs_sub3 L), BI.bigSep_map]
  unfold tileRefs3
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton]
  rfl

end Cert.Proof.KI

end
-- ==== Proof.KI_TileGeom_c3.lean ====
/-
  Geometry and bookkeeping for the gather kernel's run on one vector subcore: families over a segment of `Fin N`,
  the call's arrays as a tile's memrefs address them, a table's read shares one per DMA semaphore, and the index
  scratch row by row (the offset lists of the indirect gathers).
-/
import proofs.«215899_g5772436046013_cont_9to1c4b_742_31_alg».proof.Proof.KI_TileOwn
import proofs.«215899_g5772436046013_cont_9to1c4b_742_31_alg».proof.Proof.KI_TileOwn_c3
import proofs.«215899_g5772436046013_cont_9to1c4b_742_31_alg».proof.Proof.KI_TileGeom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## Families over an initial or a final segment of `Fin N` -/

section Segments

end Segments

/-! ## The arrays as the tile's memrefs address them -/

section Pts

variable (d : Dev nD) (L : grid6.Coords)

theorem pts_t03 (q : PosShare TreeShare) (f : Buf (Elt F) (t0Loc d)) :
    ((t0V).view.loc (thrV3 d L) ↦{q} f : sProp 𝕄) = (t0Loc d ↦{q} f) := rfl
theorem pts_t13 (q : PosShare TreeShare) (f : Buf (Elt F) (t1Loc d)) :
    ((t1V).view.loc (thrV3 d L) ↦{q} f : sProp 𝕄) = (t1Loc d ↦{q} f) := rfl
theorem pts_ix3 (f : Buf (Elt F) (ixLoc3 d)) :
    ((ixSl3 L).view.loc (thrV3 d L) ↦[(ixSl3 L).view.set]{fullShare} f : sProp 𝕄) = (ixLoc3 d ↦[(ixSl3 L).view.set]{fullShare} f) := rfl
theorem pts_o03 (f : Buf (Elt F) (o0Loc3 d)) :
    ((o0Sl3 L).view.loc (thrV3 d L) ↦[(o0Sl3 L).view.set]{fullShare} f : sProp 𝕄) = (o0Loc3 d ↦[(o0Sl3 L).view.set]{fullShare} f) := rfl
theorem pts_o13 (f : Buf (Elt F) (o1Loc3 d)) :
    ((o1Sl3 L).view.loc (thrV3 d L) ↦[(o1Sl3 L).view.set]{fullShare} f : sProp 𝕄) = (o1Loc3 d ↦[(o1Sl3 L).view.set]{fullShare} f) := rfl
theorem pts_scr3 (b : Ref sig .scVector) (f : Buf (Elt F) ((thrV3 d L).loc b)) :
    ((Memref.whole b : Memref sig .scVector _ _ _).view.loc (thrV3 d L) ↦{fullShare} f : sProp 𝕄) = ((thrV3 d L).loc b ↦{fullShare} f) := rfl

/-! ### The table's read shares, one per DMA semaphore number -/

end Pts

/-! ## The index scratch row by row -/

section Rows

abbrev a8RowSet3 (k : Fin 24) : Finset S24x128.Idx := ((a83 : Memref sig .scVector .vmem S24x128 .i32).view.slice (a8Part k)).set

theorem a8RowSet_eq3 (k : Fin 24) : a8RowSet3 k = (a8Part k).set := by
  show ((View.whole (cc6_scratch0 : Ref sig .scVector)).slice (a8Part k)).set = _
  rw [View.set_slice]; exact Finset.map_refl
theorem a8rows_disjoint3 : ∀ i ∈ (Finset.univ : Finset (Fin 24)), ∀ j ∈ (Finset.univ : Finset (Fin 24)), i ≠ j → Disjoint (a8RowSet3 i) (a8RowSet3 j) :=
  fun i _ j _ h => by rw [a8RowSet_eq3, a8RowSet_eq3]; exact Rect.part_disjoint hdiv24 h
theorem a8rows_cover3 : (Finset.univ : Finset (Fin 24)).biUnion a8RowSet3 = Finset.univ :=
  (Finset.biUnion_congr rfl fun i _ => a8RowSet_eq3 i).trans (Rect.biUnion_part hdiv24)

end Rows

section Rows2

variable (d : Dev nD) (L : grid6.Coords)

abbrev a8Loc3 : Loc nD τ sig := (thrV3 d L).loc cc6_scratch0

/-- The index scratch whole is its 24 rows. -/
theorem a8_rows3 (f : Buf (Elt F) (a8Loc3 d L)) :
    (a8Loc3 d L ↦{fullShare} f : sProp 𝕄) = bigSep Finset.univ fun k : Fin 24 => a8Loc3 d L ↦[a8RowSet3 k]{fullShare} f := by
  rw [← pointsTo_biUnion Finset.univ (ℓ := a8Loc3 d L) a8RowSet3 a8rows_disjoint3, a8rows_cover3]; try rfl

/-- A row of the index scratch as the program takes it: a one-row slice, squeezed to a list of 128 words. -/
abbrev a8Row3 (off : Fin 2 → ℕ) (h : ∀ a, off a + S1x128.size a ≤ S24x128.size a) : Memref sig .scVector .vmem S128 .i32 :=
  ((a83).slice (Rect.unit (s := S24x128) off S1x128.size h) (fun _ => rfl)).squeeze S128 squeezes_S1x128_S128

theorem a8Row_set3 (k : Fin 24) (off : Fin 2 → ℕ) (h : ∀ a, off a + S1x128.size a ≤ S24x128.size a) (hoff : off = ![k.val, 0]) :
    (a8Row3 off h).view.set = a8RowSet3 k := by
  show (((a83 : Memref sig .scVector .vmem S24x128 .i32).view.slice (Rect.unit (s := S24x128) off S1x128.size h)).reshape S128 squeezes_S1x128_S128.numel_eq).set
    = ((a83 : Memref sig .scVector .vmem S24x128 .i32).view.slice (a8Part k)).set
  rw [View.set_reshape]
  exact (a8Row_rect k off h hoff) ▸ rfl

theorem pts_a8Row3 (k : Fin 24) (off : Fin 2 → ℕ) (h : ∀ a, off a + S1x128.size a ≤ S24x128.size a) (hoff : off = ![k.val, 0])
    (f : Buf (Elt F) (a8Loc3 d L)) :
    ((a8Row3 off h).view.loc (thrV3 d L) ↦[(a8Row3 off h).view.set]{fullShare} f : sProp 𝕄) = (a8Loc3 d L ↦[a8RowSet3 k]{fullShare} f) := by
  rw [a8Row_set3 k off h hoff]

end Rows2

end Cert.Proof.KI

end
-- ==== Proof.KI_TileInv_c3.lean ====
/-
  The gather kernel's ring at the head of a trip: what the index scratch holds, the offset lists' range, the rows a
  gather lands, the transfers in flight as the run holds them, and the loop's invariant.
-/
import proofs.«215899_g5772436046013_cont_9to1c4b_742_31_alg».proof.Proof.KI_TileGeom
import proofs.«215899_g5772436046013_cont_9to1c4b_742_31_alg».proof.Proof.KI_TileGeom_c3
import proofs.«215899_g5772436046013_cont_9to1c4b_742_31_alg».proof.Proof.KI_TileInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## The index scratch's contents and the offset lists' range -/

/-- What the index scratch holds once the tile's rows of the index array have landed. -/
def A8c3 (d : Dev nD) (IX : Buf (Elt F) (ixLoc3 d)) (L : grid6.Coords) : Buf (Elt F) (a8Loc3 d L) :=
  show S24x128.Idx → Elt F .i32 from (ixSl3 L).view.read (Elt F) IX

theorem a8Row_emb03 (k : Fin 24) (h : ∀ a, (![k.val, 0] : Fin 2 → ℕ) a + S1x128.size a ≤ S24x128.size a) (x : S128.Idx) :
    ((a8Row3 ![k.val, 0] h).view.emb x 0).val = k.val := by
  have key : ∀ j : S1x128.Idx, ((Rect.unit (s := S24x128) ![k.val, 0] S1x128.size h).emb j 0).val = k.val := by
    intro j
    have hj : (j 0).val < 1 := (j 0).isLt
    rw [Rect.emb_apply]
    show k.val + 1 * (j 0).val = k.val
    omega
  exact key _

/-- Every offset list the kernel gathers by holds row numbers of the tables. -/
theorem hin_rows3 (d : Dev nD) (IX : Buf (Elt F) (ixLoc3 d)) (L : grid6.Coords) (hIX : IXOK3 d IX) (k : Fin 24) (off : Fin 2 → ℕ)
    (h : ∀ a, off a + S1x128.size a ≤ S24x128.size a) (hoff : off = ![k.val, 0]) (hk : k.val < 22) (x : S128.Idx) :
    (View.read (Elt F) (a8Row3 off h).view (A8c3 d IX L) x).toNat < 100000 := by
  subst hoff
  exact hIX L ((a8Row3 ![k.val, 0] h).view.emb x) (by rw [a8Row_emb03]; exact hk)

theorem a8Row_congr3 {off off' : Fin 2 → ℕ} (e : off = off') (h : ∀ a, off a + S1x128.size a ≤ S24x128.size a)
    (h' : ∀ a, off' a + S1x128.size a ≤ S24x128.size a) : a8Row3 off h = a8Row3 off' h' := by
  subst e; rfl

/-! ## The third result's blocks in the program's spellings -/

/-- A block of the third result held through a slice at `off` is held through the slice at an equal offset. -/
theorem pts_negOff3 (d : Dev nD) (L : grid6.Coords) {off off' : Fin 2 → ℕ} (e : off = off')
    (h : ∀ a, off a + S128x128.size a ≤ S81920x128.size a) (h' : ∀ a, off' a + S128x128.size a ≤ S81920x128.size a)
    (f : Buf (Elt F) (o2Loc3 d)) :
    (View.loc (thrV3 d L) ((o2V3).slice (Rect.unit (s := S81920x128) off S128x128.size h) (fun _ => rfl)).view
        ↦[((o2V3).slice (Rect.unit (s := S81920x128) off S128x128.size h) (fun _ => rfl)).view.set]{fullShare} f : sProp 𝕄)
      = (View.loc (thrV3 d L) ((o2V3).slice (Rect.unit (s := S81920x128) off' S128x128.size h') (fun _ => rfl)).view
        ↦[((o2V3).slice (Rect.unit (s := S81920x128) off' S128x128.size h') (fun _ => rfl)).view.set]{fullShare} f) := by
  subst e; rfl

theorem k6_off2_neg (L : grid6.Coords) (r : Fin 5) (j : ℕ) (hj : (k6_off2_at r).toNat = 4096 * j) :
    k6_off2 L (k6_off2_at r) = negOff3 L j := by
  rw [k6_off2_wid, hj]; rfl

/-! ## The gathered rows, and the transfers in flight -/

section Inv

variable (d : Dev nD) (T0 : Buf (Elt F) (t0Loc d)) (T1 : Buf (Elt F) (t1Loc d)) (IX : Buf (Elt F) (ixLoc3 d)) (L : grid6.Coords)

/-- The 128 rows a table yields for row `k` of the tile's index rows: row `r` is the table's row `IX[24 * wid3 + k, r]`. -/
def gRows3 (Tb : S100000x128.Idx → Elt F .f32) (k : ℕ) : S128x128.Idx → Elt F .f32 :=
  fun x => tblAt (F := F) Tb (ixWord d IX (wid3 L) k (x 0).val) (x 1)

/-- A gather in flight on the DMA semaphore `cell`, reading the second table by read token `tok` through row `row`
    of the index scratch into the scratch buffer `buf`: it delivers the buffer at `cont`, the row and the token. -/
def gFl3 (cell : DmaSem sig) (tok : ℕ) (buf : Ref sig .scVector) (row : Fin 24) (cont : Buf (Elt F) ((thrV3 d L).loc buf)) : sProp 𝕄 :=
  Transfers.Flight countersEmb (thrV3 d L) (SemLoc.dma cell) (default : HIx 4) 524288
    iprop(((View.loc (thrV3 d L) (Memref.whole buf).view ↦{fullShare} cont)
        ∗ View.loc (thrV3 d L) (a8Row3 ![row.val, 0] (rowInb row)).view ↦[(a8Row3 ![row.val, 0] (rowInb row)).view.set]{fullShare} A8c3 d IX L)
      ∗ View.loc (thrV3 d L) (t1V).view ↦[(t1Sl).view.set]{Transfers.shareTokN (tblShare3 L) tok} T1)

/-- A copy-out in flight on the DMA semaphore `cell`, from the scratch buffer `buf` to draw `j`'s block of the third
    result: it delivers the block at `bcont` and the buffer's elements at `cont`. -/
def wFl3 (cell : DmaSem sig) (buf : Ref sig .scVector) (j : Fin 20) (bcont : Buf (Elt F) (o2Loc3 d)) (cont : Buf (Elt F) ((thrV3 d L).loc buf)) : sProp 𝕄 :=
  Transfers.Flight countersEmb (thrV3 d L) (SemLoc.dma cell) (default : HIx 4) 524288
    iprop((View.loc (thrV3 d L) (negSl3 L j).view ↦[(negSl3 L j).view.set]{fullShare} bcont)
      ∗ View.loc (thrV3 d L) (Memref.whole buf).view ↦[(Memref.whole buf : Memref sig .scVector _ _ _).view.set]{fullShare} cont)

variable (O : CellTallies nD τ sig (HIx 4)) (W : Waits sig (HIx 4))

/-- The ring at the head of trip `t`: draws `4t+1, 4t+2, 4t+3` being gathered into ring buffers 1, 2, 3, draw `4t` on
    its way out of ring buffer 0; ring semaphore 4 and the copy-out semaphores 9, 10, 11 at rest with read token 4;
    the index rows before `4t+3` and from `4t+6` on at rest; the blocks before `4t` written, those after `4t` not yet. -/
def inv3 (t : ℕ) (_ : PUnit) : sProp 𝕄 :=
  iprop(Transfers.MayWaits (thrV3 d L) (none : HIx 4) O
    ∗ gFl3 d T1 IX L ⟨68, by decide⟩ 5 cc6_scratch4 (rowF (4 * t + 3)) (gRows3 d IX L T1 (4 * t + 3))
    ∗ (View.loc (thrV3 d L) (t1V).view ↦[Finset.univ \ (t1Sl).view.set]{Transfers.shareTokN (tblShare3 L) 5} T1)
    ∗ gFl3 d T1 IX L ⟨69, by decide⟩ 6 cc6_scratch5 (rowF (4 * t + 4)) (gRows3 d IX L T1 (4 * t + 4))
    ∗ (View.loc (thrV3 d L) (t1V).view ↦[Finset.univ \ (t1Sl).view.set]{Transfers.shareTokN (tblShare3 L) 6} T1)
    ∗ gFl3 d T1 IX L ⟨70, by decide⟩ 7 cc6_scratch6 (rowF (4 * t + 5)) (gRows3 d IX L T1 (4 * t + 5))
    ∗ (View.loc (thrV3 d L) (t1V).view ↦[Finset.univ \ (t1Sl).view.set]{Transfers.shareTokN (tblShare3 L) 7} T1)
    ∗ wFl3 d L ⟨71, by decide⟩ cc6_scratch3 (blkF (4 * t)) (gV2 d T1 IX) (gRows3 d IX L T1 (4 * t + 2))
    ∗ (View.loc (thrV3 d L) (Memref.whole cc6_scratch3).view ↦[Finset.univ \ (rb03).view.set]{fullShare} gRows3 d IX L T1 (4 * t + 2))
    ∗ (View.loc (thrV3 d L) (t1V).view ↦{Transfers.shareTokN (tblShare3 L) 4} T1)
    ∗ semVal (thrV3 d L, SemLoc.dma ⟨67, by decide⟩) 0
    ∗ semVal (thrV3 d L, SemLoc.dma ⟨72, by decide⟩) 0
    ∗ semVal (thrV3 d L, SemLoc.dma ⟨73, by decide⟩) 0
    ∗ semVal (thrV3 d L, SemLoc.dma ⟨74, by decide⟩) 0
    ∗ (bigSep (Finset.univ.filter fun k : Fin 24 => 2 ≤ k.val ∧ k.val < 4 * t + 3) fun k => a8Loc3 d L ↦[a8RowSet3 k]{fullShare} A8c3 d IX L)
    ∗ (bigSep (Finset.univ.filter fun k : Fin 24 => 4 * t + 6 ≤ k.val) fun k => a8Loc3 d L ↦[a8RowSet3 k]{fullShare} A8c3 d IX L)
    ∗ (bigSep (Finset.univ.filter fun j : Fin 20 => 0 ≤ j.val ∧ j.val < 4 * t) fun j => o2Loc3 d ↦[(negSl3 L j).view.set]{fullShare} gV2 d T1 IX)
    ∗ (bigSep (Finset.univ.filter fun j : Fin 20 => 4 * t + 1 ≤ j.val) fun j => iprop(∃ f, o2Loc3 d ↦[(negSl3 L j).view.set]{fullShare} f))
    ∗ ∃ W', ⌜∀ p ∈ W', p ∈ W ∨ p.2 = none⌝ ∗ owes (thrV3 d L) O W')

end Inv

end Cert.Proof.KI

end
-- ==== Proof.KI_TileVal_c3.lean ====
/-
  The values the gather kernel moves: what an indirect gather by a row of the index scratch lands in a buffer, and
  what a copy-out of those rows leaves in the results' blocks — the whole-array value functions there.
-/
import proofs.«215899_g5772436046013_cont_9to1c4b_742_31_alg».proof.Proof.KI_TileInv
import proofs.«215899_g5772436046013_cont_9to1c4b_742_31_alg».proof.Proof.KI_TileInv_c3
import proofs.«215899_g5772436046013_cont_9to1c4b_742_31_alg».proof.Proof.KI_TileVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

variable (d : Dev nD) (T0 : Buf (Elt F) (t0Loc d)) (T1 : Buf (Elt F) (t1Loc d)) (IX : Buf (Elt F) (ixLoc3 d)) (L : grid6.Coords)

/-! ## Index arithmetic of the program's views -/

/-- A write of a whole buffer leaves the written values. -/
theorem writes_whole3 (buf : Ref sig .scVector) (f w : Buf (Elt F) ((thrV3 d L).loc buf)) :
    (Memref.whole buf : Memref sig .scVector _ _ _).view.writes (Elt F) f [⟨Rect.whole buf.ty.shape, w⟩] = w := by
  funext i
  exact writes_whole_emb (View.whole buf) f w i

/-- Where an entry of row `k` of the index scratch sits: column `y`. -/
theorem a8Row_emb13 (k : Fin 24) (h : ∀ a, (![k.val, 0] : Fin 2 → ℕ) a + S1x128.size a ≤ S24x128.size a) (y : S128.Idx) :
    ((a8Row3 ![k.val, 0] h).view.emb y 1).val = (y 0).val := by
  have hz : Shape.reshapeEquiv (s := S1x128) (s' := S128) squeezes_S1x128_S128.numel_eq y = Fin.cons ⟨0, Nat.one_pos⟩ y :=
    Shape.reshapeEquiv_cons_one _ y
  show ((Rect.unit (s := S24x128) ![k.val, 0] S1x128.size h).emb
    (Shape.reshapeEquiv (s := S1x128) (s' := S128) squeezes_S1x128_S128.numel_eq y) 1).val = _
  rw [hz, Rect.emb_apply]
  show 0 + 1 * (y 0).val = (y 0).val
  omega

/-- The word an offset list's entry holds: the index array's word at the tile's row `k`, the entry's column. -/
theorem a8_word3 (k : Fin 24) (h : ∀ a, (![k.val, 0] : Fin 2 → ℕ) a + S1x128.size a ≤ S24x128.size a) (y : S128.Idx) :
    (View.read (Elt F) (a8Row3 ![k.val, 0] h).view (A8c3 d IX L) y).toNat = ixWord d IX (wid3 L) k.val (y 0).val := by
  have hk := k.isLt
  have hy : (y 0).val < 128 := (y 0).isLt
  have hw32 := wid_lt3 L
  have hc : 24 * wid3 L + k.val < 768 ∧ (y 0).val < 128 := ⟨by omega, hy⟩
  unfold ixWord
  rw [dif_pos hc, View.read_apply, cast_eq]
  unfold A8c3
  rw [View.read_apply, cast_eq]
  refine congrArg (fun z => BitVec.toNat (IX z)) ?_
  funext a; apply Fin.ext
  show ((ixRect3 L).emb ((a8Row3 ![k.val, 0] h).view.emb y) a).val = _
  rw [Rect.emb_apply]
  show k6_off1 L a + 1 * ((a8Row3 ![k.val, 0] h).view.emb y a).val = _
  rw [k6_off1_wid]
  match a with
  | 0 => rw [a8Row_emb03]; show 24 * wid3 L + 1 * k.val = 24 * wid3 L + k.val; omega
  | 1 => rw [a8Row_emb13]; show 0 + 1 * (y 0).val = (y 0).val; omega

/-- What a gather by row `k` of the index scratch lands: the table's rows the tile's index row `k` names. -/
theorem gather_val13 (k : Fin 24) (h : ∀ a, (![k.val, 0] : Fin 2 → ℕ) a + S1x128.size a ≤ S24x128.size a)
    (hg : S100000x128.Gathers 0 S128x128) (hn : S128.numel = S128x128.size hg.axis')
    (hin : ∀ x, (View.read (Elt F) (a8Row3 ![k.val, 0] h).view (A8c3 d IX L) x).toNat < S100000x128.size hg.axis) :
    SparseCore.gatherPayload hg (View.read (Elt F) (t1Sl).view T1) (SparseCore.rows (View.read (Elt F) (a8Row3 ![k.val, 0] h).view (A8c3 d IX L)) hn hin)
      = gRows3 d IX L T1 k.val := by
  funext x
  have ha : hg.axis = (0 : Fin S100000x128.rank) := Fin.ext rfl
  have ha' : hg.axis' = (0 : Fin S128x128.rank) := Fin.ext rfl
  -- the row the entry names
  have hr : ((SparseCore.rows (View.read (Elt F) (a8Row3 ![k.val, 0] h).view (A8c3 d IX L)) hn hin) (x hg.axis')).val
      = ixWord d IX (wid3 L) k.val (x 0).val := by
    unfold SparseCore.rows
    show (View.read (Elt F) (a8Row3 ![k.val, 0] h).view (A8c3 d IX L) (S128.rowMajor.symm ((x hg.axis').cast hn.symm))).toNat = _
    rw [a8_word3]
    congr 1
    have e := Shape.rowMajor_val_one (d := ![128]) (S128.rowMajor.symm ((x hg.axis').cast hn.symm))
    rw [Equiv.apply_symm_apply] at e
    rw [← e]
    exact congrArg (fun i => (x i).val) ha'
  have hlt : ixWord d IX (wid3 L) k.val (x 0).val < 100000 := hr ▸ (SparseCore.rows _ hn hin (x hg.axis')).isLt
  unfold SparseCore.gatherPayload gRows3 tblAt
  rw [View.read_apply, cast_eq, dif_pos hlt]
  refine congrArg T1 ?_
  funext a; apply Fin.ext
  show ((Rect.unit (s := S100000x128) ![0, 0] S100000x128.size inb_S100000x128_S100000x128_0_0).emb (hg.idx _ x) a).val = _
  rw [Rect.emb_apply]
  match a with
  | 0 =>
    show 0 + 1 * (hg.idx _ x 0).val = ixWord d IX (wid3 L) k.val (x 0).val
    have h0 : (hg.idx (SparseCore.rows (View.read (Elt F) (a8Row3 ![k.val, 0] h).view (A8c3 d IX L)) hn hin) x 0).val
        = (hg.idx (SparseCore.rows (View.read (Elt F) (a8Row3 ![k.val, 0] h).view (A8c3 d IX L)) hn hin) x hg.axis).val :=
      congrArg (fun i => (hg.idx (SparseCore.rows (View.read (Elt F) (a8Row3 ![k.val, 0] h).view (A8c3 d IX L)) hn hin) x i).val) ha.symm
    rw [h0, Shape.Gathers.idx_axis, hr]; omega
  | 1 =>
    show 0 + 1 * (hg.idx _ x 1).val = (x 1).val
    rw [Shape.Gathers.idx_of_ne hg _ x 1 (by decide)]
    show 0 + 1 * (x 1).val = (x 1).val
    omega

theorem gather_val03 (k : Fin 24) (h : ∀ a, (![k.val, 0] : Fin 2 → ℕ) a + S1x128.size a ≤ S24x128.size a)
    (hg : S100000x128.Gathers 0 S128x128) (hn : S128.numel = S128x128.size hg.axis')
    (hin : ∀ x, (View.read (Elt F) (a8Row3 ![k.val, 0] h).view (A8c3 d IX L) x).toNat < S100000x128.size hg.axis) :
    SparseCore.gatherPayload hg (View.read (Elt F) (t0Sl).view T0) (SparseCore.rows (View.read (Elt F) (a8Row3 ![k.val, 0] h).view (A8c3 d IX L)) hn hin)
      = gRows3 d IX L T0 k.val := by
  funext x
  have ha : hg.axis = (0 : Fin S100000x128.rank) := Fin.ext rfl
  have ha' : hg.axis' = (0 : Fin S128x128.rank) := Fin.ext rfl
  -- the row the entry names
  have hr : ((SparseCore.rows (View.read (Elt F) (a8Row3 ![k.val, 0] h).view (A8c3 d IX L)) hn hin) (x hg.axis')).val
      = ixWord d IX (wid3 L) k.val (x 0).val := by
    unfold SparseCore.rows
    show (View.read (Elt F) (a8Row3 ![k.val, 0] h).view (A8c3 d IX L) (S128.rowMajor.symm ((x hg.axis').cast hn.symm))).toNat = _
    rw [a8_word3]
    congr 1
    have e := Shape.rowMajor_val_one (d := ![128]) (S128.rowMajor.symm ((x hg.axis').cast hn.symm))
    rw [Equiv.apply_symm_apply] at e
    rw [← e]
    exact congrArg (fun i => (x i).val) ha'
  have hlt : ixWord d IX (wid3 L) k.val (x 0).val < 100000 := hr ▸ (SparseCore.rows _ hn hin (x hg.axis')).isLt
  unfold SparseCore.gatherPayload gRows3 tblAt
  rw [View.read_apply, cast_eq, dif_pos hlt]
  refine congrArg T0 ?_
  funext a; apply Fin.ext
  show ((Rect.unit (s := S100000x128) ![0, 0] S100000x128.size inb_S100000x128_S100000x128_0_0).emb (hg.idx _ x) a).val = _
  rw [Rect.emb_apply]
  match a with
  | 0 =>
    show 0 + 1 * (hg.idx _ x 0).val = ixWord d IX (wid3 L) k.val (x 0).val
    have h0 : (hg.idx (SparseCore.rows (View.read (Elt F) (a8Row3 ![k.val, 0] h).view (A8c3 d IX L)) hn hin) x 0).val
        = (hg.idx (SparseCore.rows (View.read (Elt F) (a8Row3 ![k.val, 0] h).view (A8c3 d IX L)) hn hin) x hg.axis).val :=
      congrArg (fun i => (hg.idx (SparseCore.rows (View.read (Elt F) (a8Row3 ![k.val, 0] h).view (A8c3 d IX L)) hn hin) x i).val) ha.symm
    rw [h0, Shape.Gathers.idx_axis, hr]; omega
  | 1 =>
    show 0 + 1 * (hg.idx _ x 1).val = (x 1).val
    rw [Shape.Gathers.idx_of_ne hg _ x 1 (by decide)]
    show 0 + 1 * (x 1).val = (x 1).val
    omega

/-- What a copy-out of the rows gathered for draw `j` leaves in the draw's block: the third result's values there. -/
theorem block_val23 (j : Fin 20) (buf : Ref sig .scVector) (hb : buf.ty = ⟨S128x128, .f32⟩) (g : Buf (Elt F) (o2Loc3 d))
    (w : S128x128.Idx → Elt F .f32) (hw : w = gRows3 d IX L T1 (2 + j.val)) :
    ∀ i ∈ (negSl3 L j).view.set, ((negSl3 L j).view.writes (Elt F) g [⟨Rect.whole (negRect3 L j).shape, w⟩]) i = gV2 d T1 IX i := by
  intro i hi
  subst hw
  have hi' : i ∈ (negRect3 L j).set := by
    rw [show (negSl3 L j).view.set = (negRect3 L j).set from View.set_slice_whole _ _] at hi; exact hi
  obtain ⟨x, rfl⟩ := (negRect3 L j).exists_idx_of_mem hi'
  refine (writes_whole_emb (negSl3 L j).view g (gRows3 d IX L T1 (2 + j.val)) x).trans ?_
  rw [cast_eq]
  have hx0 : (x 0).val < 128 := (x 0).isLt
  have hw32 := wid_lt3 L
  have hj := j.isLt
  have e0 : (((negRect3 L j).emb x) 0).val = 128 * wid3 L + 4096 * j.val + (x 0).val := by
    rw [Rect.emb_apply]; show 128 * wid3 L + 4096 * j.val + 1 * (x 0).val = _; omega
  have e1 : ((negRect3 L j).emb x) 1 = x 1 := by
    apply Fin.ext; rw [Rect.emb_apply]; show 0 + 1 * (x 1).val = _; omega
  show tblAt (F := F) T1 (ixWord d IX (wid3 L) (2 + j.val) (x 0).val) (x 1)
    = tblAt (F := F) T1 (ixWord d IX ((((negRect3 L j).emb x) 0).val % 4096 / 128) (2 + (((negRect3 L j).emb x) 0).val / 4096) ((((negRect3 L j).emb x) 0).val % 128)) (((negRect3 L j).emb x) 1)
  rw [e1, e0, show (128 * wid3 L + 4096 * j.val + (x 0).val) % 4096 / 128 = wid3 L by omega,
    show (128 * wid3 L + 4096 * j.val + (x 0).val) / 4096 = j.val by omega,
    show (128 * wid3 L + 4096 * j.val + (x 0).val) % 128 = (x 0).val by omega]

theorem block_val03 (g : Buf (Elt F) (o0Loc3 d)) (w : S128x128.Idx → Elt F .f32) (hw : w = gRows3 d IX L T0 0) :
    ∀ i ∈ (o0Sl3 L).view.set, ((o0Sl3 L).view.writes (Elt F) g [⟨Rect.whole (oRect3 L).shape, w⟩]) i = gV0 d T0 IX i := by
  intro i hi
  subst hw
  have hi' : i ∈ (oRect3 L).set := by
    rw [show (o0Sl3 L).view.set = (oRect3 L).set from View.set_slice_whole _ _] at hi; exact hi
  obtain ⟨x, rfl⟩ := (oRect3 L).exists_idx_of_mem hi'
  refine (writes_whole_emb (o0Sl3 L).view g (gRows3 d IX L T0 0) x).trans ?_
  rw [cast_eq]
  have hx0 : (x 0).val < 128 := (x 0).isLt
  have hw32 := wid_lt3 L
  have e0 : (((oRect3 L).emb x) 0).val = 128 * wid3 L + (x 0).val := by
    rw [Rect.emb_apply]; show k6_off7 L 0 + 1 * (x 0).val = _
    rw [k6_off7_wid]; show 128 * wid3 L + 1 * (x 0).val = _; omega
  have e1 : ((oRect3 L).emb x) 1 = x 1 := by
    apply Fin.ext; rw [Rect.emb_apply]; show k6_off7 L 1 + 1 * (x 1).val = _
    rw [k6_off7_wid]; show 0 + 1 * (x 1).val = _; omega
  show tblAt (F := F) T0 (ixWord d IX (wid3 L) 0 (x 0).val) (x 1)
    = tblAt (F := F) T0 (ixWord d IX ((((oRect3 L).emb x) 0).val / 128) 0 ((((oRect3 L).emb x) 0).val % 128)) (((oRect3 L).emb x) 1)
  rw [e1, e0, show (128 * wid3 L + (x 0).val) / 128 = wid3 L by omega, show (128 * wid3 L + (x 0).val) % 128 = (x 0).val by omega]

theorem block_val13 (g : Buf (Elt F) (o1Loc3 d)) (w : S128x128.Idx → Elt F .f32) (hw : w = gRows3 d IX L T1 1) :
    ∀ i ∈ (o1Sl3 L).view.set, ((o1Sl3 L).view.writes (Elt F) g [⟨Rect.whole (oRect3 L).shape, w⟩]) i = gV1 d T1 IX i := by
  intro i hi
  subst hw
  have hi' : i ∈ (oRect3 L).set := by
    rw [show (o1Sl3 L).view.set = (oRect3 L).set from View.set_slice_whole _ _] at hi; exact hi
  obtain ⟨x, rfl⟩ := (oRect3 L).exists_idx_of_mem hi'
  refine (writes_whole_emb (o1Sl3 L).view g (gRows3 d IX L T1 1) x).trans ?_
  rw [cast_eq]
  have hx0 : (x 0).val < 128 := (x 0).isLt
  have hw32 := wid_lt3 L
  have e0 : (((oRect3 L).emb x) 0).val = 128 * wid3 L + (x 0).val := by
    rw [Rect.emb_apply]; show k6_off7 L 0 + 1 * (x 0).val = _
    rw [k6_off7_wid]; show 128 * wid3 L + 1 * (x 0).val = _; omega
  have e1 : ((oRect3 L).emb x) 1 = x 1 := by
    apply Fin.ext; rw [Rect.emb_apply]; show k6_off7 L 1 + 1 * (x 1).val = _
    rw [k6_off7_wid]; show 0 + 1 * (x 1).val = _; omega
  show tblAt (F := F) T1 (ixWord d IX (wid3 L) 1 (x 0).val) (x 1)
    = tblAt (F := F) T1 (ixWord d IX ((((oRect3 L).emb x) 0).val / 128) 1 ((((oRect3 L).emb x) 0).val % 128)) (((oRect3 L).emb x) 1)
  rw [e1, e0, show (128 * wid3 L + (x 0).val) / 128 = wid3 L by omega, show (128 * wid3 L + (x 0).val) % 128 = (x 0).val by omega]

end Cert.Proof.KI

end
-- ==== Proof.KI_TileEpi_c3.lean ====
/-
  The end of the gather kernel on a tile: segments of index families that run to the end, and a block of the third
  result once the copy-out of a draw's rows has written it.
-/
import proofs.«215899_g5772436046013_cont_9to1c4b_742_31_alg».proof.Proof.KI_TileVal
import proofs.«215899_g5772436046013_cont_9to1c4b_742_31_alg».proof.Proof.KI_TileVal_c3
import proofs.«215899_g5772436046013_cont_9to1c4b_742_31_alg».proof.Proof.KI_TileEpi

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section Epi

variable (d : Dev nD) (T0 : Buf (Elt F) (t0Loc d)) (T1 : Buf (Elt F) (t1Loc d)) (IX : Buf (Elt F) (ixLoc3 d)) (L : grid6.Coords)

/-- A block of the third result the copy-out of draw `j`'s rows has written, in the program's spelling of the block,
    is the block at the third result's values. -/
theorem blk_done3 (j : Fin 20) (off : Fin 2 → ℕ) (h : ∀ a, off a + S128x128.size a ≤ S81920x128.size a) (hoff : off = negOff3 L j.val)
    (g : Buf (Elt F) (o2Loc3 d)) (w : S128x128.Idx → Elt F .f32) (hw : w = gRows3 d IX L T1 (2 + j.val)) :
    (View.loc (thrV3 d L) ((o2V3).slice (Rect.unit (s := S81920x128) off S128x128.size h) (fun _ => rfl)).view
        ↦[((o2V3).slice (Rect.unit (s := S81920x128) off S128x128.size h) (fun _ => rfl)).view.set]{fullShare}
        ((o2V3).slice (Rect.unit (s := S81920x128) off S128x128.size h) (fun _ => rfl)).view.writes (Elt F) g
          [⟨Rect.whole (Rect.unit (s := S81920x128) off S128x128.size h).shape, w⟩] : sProp 𝕄)
      ⊢ (o2Loc3 d ↦[(negSl3 L j).view.set]{fullShare} gV2 d T1 IX) := by
  subst hoff
  exact Entails.of_eq (pointsTo_congr (block_val23 (F := F) d T1 IX L j cc6_scratch3 rfl g w hw))

end Epi

end Cert.Proof.KI

end
-- ==== Proof.KI_Tile_c3.lean ====
/-
  The gather kernel of call 3 on one vector subcore, as the launch theorem's obligation: the kernel's run at a
  symbolic tile from the tile's resources to its results, and the obligation in the launch theorem's own spelling.
-/
import proofs.«215899_g5772436046013_cont_9to1c4b_742_31_alg».proof.Proof.KI_TileEpi
import proofs.«215899_g5772436046013_cont_9to1c4b_742_31_alg».proof.Proof.KI_TileEpi_c3
import proofs.«215899_g5772436046013_cont_9to1c4b_742_31_alg».proof.Proof.KI_Tile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section Intro

variable (d : Dev nD) (T0 : Buf (Elt F) (t0Loc d)) (T1 : Buf (Elt F) (t1Loc d)) (IX : Buf (Elt F) (ixLoc3 d)) (L : grid6.Coords)

/-- A gather's flight as the run leaves it is the invariant's, the landed rows in closed form. -/
theorem gFl_intro3 (cell : DmaSem sig) (tok : ℕ) (buf : Ref sig .scVector) (row : Fin 24) (off : Fin 2 → ℕ)
    (h : ∀ a, off a + S1x128.size a ≤ S24x128.size a) (hoff : off = ![row.val, 0])
    (c0 cont : Buf (Elt F) ((thrV3 d L).loc buf)) (hc : c0 = cont) :
    Transfers.Flight countersEmb (thrV3 d L) (SemLoc.dma cell) (default : HIx 4) 524288
      iprop(((View.loc (thrV3 d L) (Memref.whole buf).view ↦{fullShare} c0)
          ∗ View.loc (thrV3 d L) (a8Row3 off h).view ↦[(a8Row3 off h).view.set]{fullShare} A8c3 d IX L)
        ∗ View.loc (thrV3 d L) (t1V).view ↦[(t1Sl).view.set]{Transfers.shareTokN (tblShare3 L) tok} T1)
      ⊢ (gFl3 d T1 IX L cell tok buf row cont : sProp 𝕄) := by
  subst hoff hc; exact .rfl

/-- A copy-out's flight as the run leaves it is the invariant's, the block at the third result's values. -/
theorem wFl_intro3 (cell : DmaSem sig) (buf : Ref sig .scVector) (j : Fin 20) (off : Fin 2 → ℕ)
    (h : ∀ a, off a + S128x128.size a ≤ S81920x128.size a) (hoff : off = negOff3 L j.val)
    (b0 bcont : Buf (Elt F) (o2Loc3 d)) (hb : ∀ i ∈ (negSl3 L j).view.set, b0 i = bcont i)
    (c0 cont : Buf (Elt F) ((thrV3 d L).loc buf)) (hc : c0 = cont) :
    Transfers.Flight countersEmb (thrV3 d L) (SemLoc.dma cell) (default : HIx 4) 524288
      iprop((View.loc (thrV3 d L) ((o2V3).slice (Rect.unit (s := S81920x128) off S128x128.size h) (fun _ => rfl)).view
            ↦[((o2V3).slice (Rect.unit (s := S81920x128) off S128x128.size h) (fun _ => rfl)).view.set]{fullShare} b0)
        ∗ View.loc (thrV3 d L) (Memref.whole buf).view ↦[(Memref.whole buf : Memref sig .scVector _ _ _).view.set]{fullShare} c0)
      ⊢ (wFl3 d L cell buf j bcont cont : sProp 𝕄) := by
  subst hoff hc
  refine Transfers.Flight_mono countersEmb (thrV3 d L) ?_
  rw [show (View.loc (thrV3 d L) ((o2V3).slice (Rect.unit (s := S81920x128) (negOff3 L j.val) S128x128.size h) (fun _ => rfl)).view
            ↦[((o2V3).slice (Rect.unit (s := S81920x128) (negOff3 L j.val) S128x128.size h) (fun _ => rfl)).view.set]{fullShare} b0 : sProp 𝕄)
        = (View.loc (thrV3 d L) (negSl3 L j).view ↦[(negSl3 L j).view.set]{fullShare} bcont) from pointsTo_congr hb]

/-- The first done row at the loop's entry. -/
theorem rows_done03 (c : Buf (Elt F) (a8Loc3 d L)) (h2 : 2 < 24) :
    (a8Loc3 d L ↦[a8RowSet3 ⟨2, h2⟩]{fullShare} c : sProp 𝕄)
      ⊢ bigSep (Finset.univ.filter fun k : Fin 24 => 2 ≤ k.val ∧ k.val < 4 * 0 + 3) fun k => a8Loc3 d L ↦[a8RowSet3 k]{fullShare} c := by
  rw [show (Finset.univ.filter fun k : Fin 24 => 2 ≤ k.val ∧ k.val < 4 * 0 + 3) = {⟨2, h2⟩} from
    Finset.ext fun k => by simp only [Finset.mem_filter, Finset.mem_univ, true_and, Finset.mem_singleton, Fin.ext_iff]; omega, bigSep_singleton]

/-- No block is written at the loop's entry. -/
theorem blks_done03 (c : Buf (Elt F) (o2Loc3 d)) :
    (iprop(emp) : sProp 𝕄)
      ⊢ bigSep (Finset.univ.filter fun j : Fin 20 => 0 ≤ j.val ∧ j.val < 4 * 0) fun j => o2Loc3 d ↦[(negSl3 L j).view.set]{fullShare} c := by
  rw [show (Finset.univ.filter fun j : Fin 20 => 0 ≤ j.val ∧ j.val < 4 * 0) = ∅ from by decide, bigSep_empty]
  exact .rfl

end Intro

section Intro2

variable (d : Dev nD) (T0 : Buf (Elt F) (t0Loc d)) (T1 : Buf (Elt F) (t1Loc d)) (IX : Buf (Elt F) (ixLoc3 d)) (L : grid6.Coords)

/-- What a gather by an index row lands, the row taken at any spelling of its offset. -/
theorem gather_val1'3 (off : Fin 2 → ℕ) (h : ∀ a, off a + S1x128.size a ≤ S24x128.size a) (kk : Fin 24) (hoff : off = ![kk.val, 0])
    (hg : S100000x128.Gathers 0 S128x128) (hn : S128.numel = S128x128.size hg.axis')
    (hin : ∀ x, (View.read (Elt F) (a8Row3 off h).view (A8c3 d IX L) x).toNat < S100000x128.size hg.axis) :
    SparseCore.gatherPayload hg (View.read (Elt F) (t1Sl).view T1) (SparseCore.rows (View.read (Elt F) (a8Row3 off h).view (A8c3 d IX L)) hn hin)
      = gRows3 d IX L T1 kk.val := by
  subst hoff; exact gather_val13 (F := F) d T1 IX L kk h hg hn hin

/-- A block written whole with the rows gathered for its draw holds the third result's values. -/
theorem blk_intro3 (j : Fin 20) (off : Fin 2 → ℕ) (h : ∀ a, off a + S128x128.size a ≤ S81920x128.size a) (hoff : off = negOff3 L j.val)
    (g : Buf (Elt F) (o2Loc3 d)) (w : S128x128.Idx → Elt F .f32) (hw : w = gRows3 d IX L T1 (2 + j.val)) :
    (View.loc (thrV3 d L) ((o2V3).slice (Rect.unit (s := S81920x128) off S128x128.size h) (fun _ => rfl)).view
        ↦[((o2V3).slice (Rect.unit (s := S81920x128) off S128x128.size h) (fun _ => rfl)).view.set]{fullShare}
        (((o2V3).slice (Rect.unit (s := S81920x128) off S128x128.size h) (fun _ => rfl)).view.writes (Elt F) g
          [⟨Rect.whole (Rect.unit (s := S81920x128) off S128x128.size h).shape, w⟩]) : sProp 𝕄)
      ⊢ (o2Loc3 d ↦[(negSl3 L j).view.set]{fullShare} gV2 d T1 IX) := by
  subst hoff
  exact Entails.of_eq (pointsTo_congr (block_val23 (F := F) d T1 IX L j cc6_scratch3 rfl g w hw))

/-- The same inside a copy-out's flight. -/
theorem wFl_intro'3 (cell : DmaSem sig) (buf : Ref sig .scVector) (j : Fin 20) (off : Fin 2 → ℕ)
    (h : ∀ a, off a + S128x128.size a ≤ S81920x128.size a) (hoff : off = negOff3 L j.val)
    (g : Buf (Elt F) (o2Loc3 d)) (w : S128x128.Idx → Elt F .f32) (hw : w = gRows3 d IX L T1 (2 + j.val))
    (cont : Buf (Elt F) ((thrV3 d L).loc buf)) :
    Transfers.Flight countersEmb (thrV3 d L) (SemLoc.dma cell) (default : HIx 4) 524288
      iprop((View.loc (thrV3 d L) ((o2V3).slice (Rect.unit (s := S81920x128) off S128x128.size h) (fun _ => rfl)).view
            ↦[((o2V3).slice (Rect.unit (s := S81920x128) off S128x128.size h) (fun _ => rfl)).view.set]{fullShare}
            (((o2V3).slice (Rect.unit (s := S81920x128) off S128x128.size h) (fun _ => rfl)).view.writes (Elt F) g
              [⟨Rect.whole (Rect.unit (s := S81920x128) off S128x128.size h).shape, w⟩]))
        ∗ View.loc (thrV3 d L) (Memref.whole buf).view ↦[(Memref.whole buf : Memref sig .scVector _ _ _).view.set]{fullShare} cont)
      ⊢ (wFl3 d L cell buf j (gV2 d T1 IX) cont : sProp 𝕄) := by
  refine Transfers.Flight_mono countersEmb (thrV3 d L) ?_
  iintro ⟨Hb, Hc⟩
  isplitl [Hb]
  · iapply (blk_intro3 (F := F) d T1 IX L j off h hoff g w hw); iexact Hb
  · iexact Hc

end Intro2

section Intro3

variable (d : Dev nD) (T1 : Buf (Elt F) (t1Loc d)) (IX : Buf (Elt F) (ixLoc3 d)) (L : grid6.Coords)

theorem row_reidx3 (c : Buf (Elt F) (a8Loc3 d L)) (i j : Fin 24) (e : i = j) :
    (a8Loc3 d L ↦[a8RowSet3 i]{fullShare} c : sProp 𝕄) ⊢ (a8Loc3 d L ↦[a8RowSet3 j]{fullShare} c) := by
  subst e; exact .rfl

theorem blk_reidx3 (c : Buf (Elt F) (o2Loc3 d)) (i j : Fin 20) (e : i = j) :
    (View.loc (thrV3 d L) (negSl3 L i).view ↦[(negSl3 L i).view.set]{fullShare} c : sProp 𝕄) ⊢ (o2Loc3 d ↦[(negSl3 L j).view.set]{fullShare} c) := by
  subst e; exact .rfl

theorem pts_a8Row_congr3 {off off' : Fin 2 → ℕ} (e : off = off') (h : ∀ a, off a + S1x128.size a ≤ S24x128.size a)
    (h' : ∀ a, off' a + S1x128.size a ≤ S24x128.size a) (f : Buf (Elt F) (a8Loc3 d L)) :
    (View.loc (thrV3 d L) (a8Row3 off h).view ↦[(a8Row3 off h).view.set]{fullShare} f : sProp 𝕄)
      = (View.loc (thrV3 d L) (a8Row3 off' h').view ↦[(a8Row3 off' h').view.set]{fullShare} f) := by
  subst e; rfl

theorem wFl_unfold3 (cell : DmaSem sig) (buf : Ref sig .scVector) (j : Fin 20) (b : Buf (Elt F) (o2Loc3 d)) (c : Buf (Elt F) ((thrV3 d L).loc buf)) :
    (wFl3 d L cell buf j b c : sProp 𝕄) = Transfers.Flight countersEmb (thrV3 d L) (SemLoc.dma cell) (default : HIx 4) 524288
      iprop((View.loc (thrV3 d L) (negSl3 L j).view ↦[(negSl3 L j).view.set]{fullShare} b)
        ∗ View.loc (thrV3 d L) (Memref.whole buf).view ↦[(Memref.whole buf : Memref sig .scVector _ _ _).view.set]{fullShare} c) := rfl

end Intro3

/-! ## The kernel at a symbolic tile -/

section Body

variable (d : Dev nD) (T0 : Buf (Elt F) (t0Loc d)) (T1 : Buf (Elt F) (t1Loc d)) (IX : Buf (Elt F) (ixLoc3 d))

set_option maxHeartbeats 4000000 in
/-- The gather kernel on the vector subcore at `L`: from what the tile is handed and its own scratch storage to what
    it hands back, every wait admissible under what the tile owes the launch. The index copy-in lands the tile's 24
    index rows; each gather reads a table by one of those rows, on its own semaphore and read token; the ring's
    loop keeps the invariant `inv3`; every block copied out holds the result's values. -/
theorem tile_body3 (hF : (K (F := F)).Facts) (hIX : IXOK3 d IX) (L : grid6.Coords) (O : CellTallies nD τ sig (HIx 4)) (W : Waits sig (HIx 4)) (hO : ∀ g, O g none = 0) :
    iprop(levAts (K (F := F)).L (K (F := F)).lev ∗ emp ∗ goResL3 d T0 T1 IX L
        ∗ scopedBufs (thrV3 d L) ∗ scopedSems0 (thrV3 d L) ∗ owes (thrV3 d L) O W)
      ⊢ wp frame (wpE (defs₀ (F := F)) 𝒱₀ (thrV3 d L) none) Set.univ
          (cc6__sc_gather L t0V (Memref.isWhole_whole _) t1V (Memref.isWhole_whole _) ixV3 (Memref.isWhole_whole _) o0V3 (Memref.isWhole_whole _) o1V3 (Memref.isWhole_whole _) o2V3 (Memref.isWhole_whole _)
            a83 (Memref.isWhole_whole _) bC3 (Memref.isWhole_whole _) bP3 (Memref.isWhole_whole _) rb03 (Memref.isWhole_whole _) rb13 (Memref.isWhole_whole _) rb23 (Memref.isWhole_whole _) rb33 (Memref.isWhole_whole _)
            cc6_scratch7 cc6_scratch8 cc6_scratch9 cc6_scratch10 cc6_scratch11 cc6_scratch12 cc6_scratch13 cc6_scratch14 cc6_scratch15 cc6_scratch16 cc6_scratch17 cc6_scratch18 cc6_scoped0)
          fun _ => iprop(tdResL3 d T0 T1 IX L ∗ scopedBufs (thrV3 d L) ∗ scopedSems0 (thrV3 d L)
            ∗ ∃ W', ⌜∀ p ∈ W', p ∈ W ∨ p.2 = none⌝ ∗ owes (thrV3 d L) O W') := by
  simp only [cc6__sc_gather_eq_skeleton]; unfold cc6__sc_gather_skel
  rw [(K (F := F)).scopedBufs_V hF d (cV3 L) (jV3 L), SparseCore.Cfg.scopedSems0_V (Val := Elt F) d (cV3 L) (jV3 L), ownSems0_V3, ownBufs_V3]
  unfold goResL3
  iintro ⟨#Hlv, -, ⟨Ht0, Ht1, Hix, ⟨%f0, Ho0⟩, ⟨%f1, Ho1⟩, Hneg⟩,
    ⟨⟨⟨%fa8, Ha8⟩, ⟨%fbC, HbC⟩, ⟨%fbP, HbP⟩, ⟨%f0', Hr0⟩, ⟨%f1', Hr1⟩, ⟨%f2', Hr2⟩, ⟨%f3', Hr3⟩⟩, Hbufs⟩,
    ⟨⟨Hs0, Hs7, Hs8, Hs9, Hs10, Hs11, Hs12, Hs13, Hs14, Hs15, Hs16, Hs17, Hs18⟩, Hsems⟩, HO⟩
  ihave Hmw := ((K (F := F)).mayWaits_none (thr := thrV3 d L) hO) $$ Hlv
  -- the arrays as the tile's memrefs address them; the second table's share, one read token per semaphore
  ihave Ht0 := (Entails.of_eq (pts_t03 (F := F) d L _ _).symm) $$ Ht0
  ihave Ht1 := (toks8_split (F := F) (tblShare3 L) T1) $$ Ht1
  icases Ht1 with ⟨Hq8, Hq7, Hq6, Hq5, Hq4, Hq3, Hq2, Hq1, Hq0⟩
  ihave Hq1 := (Entails.of_eq (pts_t13 (F := F) d L _ _).symm) $$ Hq1
  ihave Hq4 := (Entails.of_eq (pts_t13 (F := F) d L _ _).symm) $$ Hq4
  ihave Hq5 := (Entails.of_eq (pts_t13 (F := F) d L _ _).symm) $$ Hq5
  ihave Hq6 := (Entails.of_eq (pts_t13 (F := F) d L _ _).symm) $$ Hq6
  ihave Hq7 := (Entails.of_eq (pts_t13 (F := F) d L _ _).symm) $$ Hq7
  ihave Hix := (Entails.of_eq (pts_ix3 (F := F) d L _).symm) $$ Hix
  ihave Ho0 := (Entails.of_eq (pts_o03 (F := F) d L _).symm) $$ Ho0
  ihave Ho1 := (Entails.of_eq (pts_o13 (F := F) d L _).symm) $$ Ho1
  ihave Ha8 := (Entails.of_eq (pts_scr3 (F := F) d L cc6_scratch0 _).symm) $$ Ha8
  ihave HbC := (Entails.of_eq (pts_scr3 (F := F) d L cc6_scratch1 _).symm) $$ HbC
  ihave HbP := (Entails.of_eq (pts_scr3 (F := F) d L cc6_scratch2 _).symm) $$ HbP
  ihave Hr0 := (Entails.of_eq (pts_scr3 (F := F) d L cc6_scratch3 _).symm) $$ Hr0
  ihave Hr1 := (Entails.of_eq (pts_scr3 (F := F) d L cc6_scratch4 _).symm) $$ Hr1
  ihave Hr2 := (Entails.of_eq (pts_scr3 (F := F) d L cc6_scratch5 _).symm) $$ Hr2
  ihave Hr3 := (Entails.of_eq (pts_scr3 (F := F) d L cc6_scratch6 _).symm) $$ Hr3

  sl_exec
  -- the index scratch now holds the tile's 24 rows of the index array; row by row
  have hA8 : (View.write (Elt F) (a83 : Memref sig .scVector .vmem S24x128 .i32).view fa8 (tile_body3.sl.dma0 d IX L) Finset.univ) = A8c3 d IX L := by
    exact (View.write_whole_univ (Val := Elt F) cc6_scratch0 fa8 _).trans rfl
  rw [hA8]
  have h0 : (0 : ℕ) < 24 := by decide
  have h1 : (1 : ℕ) < 24 := by decide
  have h2 : (2 : ℕ) < 24 := by decide
  have h3 : (3 : ℕ) < 24 := by decide
  have h4 : (4 : ℕ) < 24 := by decide
  have h5 : (5 : ℕ) < 24 := by decide
  have hb0 : (0 : ℕ) < 20 := by decide
  ihave Ha8 := (Entails.of_eq (pts_scr3 (F := F) d L cc6_scratch0 _)) $$ Ha8
  ihave Hrows := (Entails.of_eq (a8_rows3 (F := F) d L _)) $$ Ha8
  ihave Hrows := (Entails.of_eq (bigSep_from_zero (F := F) _).symm) $$ Hrows
  ihave H := (Entails.of_eq (bigSep_from_pop (F := F) _ 0 h0)) $$ Hrows; icases H with ⟨Hw0, Hrows⟩
  ihave H := (Entails.of_eq (bigSep_from_pop (F := F) _ 1 h1)) $$ Hrows; icases H with ⟨Hw1, Hrows⟩
  ihave H := (Entails.of_eq (bigSep_from_pop (F := F) _ 2 h2)) $$ Hrows; icases H with ⟨Hw2, Hrows⟩
  ihave H := (Entails.of_eq (bigSep_from_pop (F := F) _ 3 h3)) $$ Hrows; icases H with ⟨Hw3, Hrows⟩
  ihave H := (Entails.of_eq (bigSep_from_pop (F := F) _ 4 h4)) $$ Hrows; icases H with ⟨Hw4, Hrows⟩
  ihave H := (Entails.of_eq (bigSep_from_pop (F := F) _ 5 h5)) $$ Hrows; icases H with ⟨Hw5, Hrows⟩
  ihave Hw0 := (Entails.of_eq (pts_a8Row3 (F := F) d L ⟨0, h0⟩ ![0, 0] (rowInb ⟨0, h0⟩) rfl _).symm) $$ Hw0
  ihave Hw1 := (Entails.of_eq (pts_a8Row3 (F := F) d L ⟨1, h1⟩ ![1, 0] (rowInb ⟨1, h1⟩) rfl _).symm) $$ Hw1
  ihave Hw2 := (Entails.of_eq (pts_a8Row3 (F := F) d L ⟨2, h2⟩ ![2, 0] (rowInb ⟨2, h2⟩) rfl _).symm) $$ Hw2
  ihave Hw3 := (Entails.of_eq (pts_a8Row3 (F := F) d L ⟨3, h3⟩ ![3, 0] (rowInb ⟨3, h3⟩) rfl _).symm) $$ Hw3
  ihave Hw4 := (Entails.of_eq (pts_a8Row3 (F := F) d L ⟨4, h4⟩ ![4, 0] (rowInb ⟨4, h4⟩) rfl _).symm) $$ Hw4
  ihave Hw5 := (Entails.of_eq (pts_a8Row3 (F := F) d L ⟨5, h5⟩ ![5, 0] (rowInb ⟨5, h5⟩) rfl _).symm) $$ Hw5
  have hin0 := hin_rows3 (F := F) d IX L hIX ⟨0, h0⟩ ![0, 0] (rowInb ⟨0, h0⟩) rfl (by show (0 : ℕ) < 22; decide)
  have hin1 := hin_rows3 (F := F) d IX L hIX ⟨1, h1⟩ ![1, 0] (rowInb ⟨1, h1⟩) rfl (by show (1 : ℕ) < 22; decide)
  have hin2 := hin_rows3 (F := F) d IX L hIX ⟨2, h2⟩ ![2, 0] (rowInb ⟨2, h2⟩) rfl (by show (2 : ℕ) < 22; decide)
  have hin3 := hin_rows3 (F := F) d IX L hIX ⟨3, h3⟩ ![3, 0] (rowInb ⟨3, h3⟩) rfl (by show (3 : ℕ) < 22; decide)
  have hin4 := hin_rows3 (F := F) d IX L hIX ⟨4, h4⟩ ![4, 0] (rowInb ⟨4, h4⟩) rfl (by show (4 : ℕ) < 22; decide)
  have hin5 := hin_rows3 (F := F) d IX L hIX ⟨5, h5⟩ ![5, 0] (rowInb ⟨5, h5⟩) rfl (by show (5 : ℕ) < 22; decide)
  -- draw 0's block of the third result
  ihave Hneg := (Entails.of_eq (bigSep_from_zero (F := F) _).symm) $$ Hneg
  ihave H := (Entails.of_eq (bigSep_from_pop (F := F) _ 0 hb0)) $$ Hneg; icases H with ⟨⟨%g0, Hb0⟩, Hneg⟩
  ihave Hb0 := (Entails.of_eq (pts_negOff3 (F := F) d L (k6_off2_neg L 0 0 rfl) (k6_off2_inb L 0) (negOff_inb3 L ⟨0, hb0⟩) _).symm) $$ Hb0
  sl_exec

  -- ── the ring at the loop's entry: the invariant at trip 0 ──
  have hc3 : (rb13).view.writes (Elt F) f1' [⟨Rect.whole cc6_scratch4.ty.shape, tile_body3.sl.gather3 d T1 IX L h3 hin3⟩] = gRows3 d IX L T1 (4 * 0 + 3) :=
    (writes_whole3 (F := F) d L cc6_scratch4 f1' _).trans (gather_val13 (F := F) d T1 IX L ⟨3, h3⟩ (rowInb ⟨3, h3⟩) gathers_S100000x128_S128x128 (by decide) hin3)
  have hc4 : (rb23).view.writes (Elt F) f2' [⟨Rect.whole cc6_scratch5.ty.shape, tile_body3.sl.gather4 d T1 IX L h4 hin4⟩] = gRows3 d IX L T1 (4 * 0 + 4) :=
    (writes_whole3 (F := F) d L cc6_scratch5 f2' _).trans (gather_val13 (F := F) d T1 IX L ⟨4, h4⟩ (rowInb ⟨4, h4⟩) gathers_S100000x128_S128x128 (by decide) hin4)
  have hc5 : (rb33).view.writes (Elt F) f3' [⟨Rect.whole cc6_scratch6.ty.shape, tile_body3.sl.gather5 d T1 IX L h5 hin5⟩] = gRows3 d IX L T1 (4 * 0 + 5) :=
    (writes_whole3 (F := F) d L cc6_scratch6 f3' _).trans (gather_val13 (F := F) d T1 IX L ⟨5, h5⟩ (rowInb ⟨5, h5⟩) gathers_S100000x128_S128x128 (by decide) hin5)
  have hc2 : (rb03).view.writes (Elt F) f0' [⟨Rect.whole cc6_scratch3.ty.shape, tile_body3.sl.gather2 d T1 IX L h2 hin2⟩] = gRows3 d IX L T1 (4 * 0 + 2) :=
    (writes_whole3 (F := F) d L cc6_scratch3 f0' _).trans (gather_val13 (F := F) d T1 IX L ⟨2, h2⟩ (rowInb ⟨2, h2⟩) gathers_S100000x128_S128x128 (by decide) hin2)
  have hw0 : tile_body3.sl.dma0_1 d T1 IX L f0' h2 hin2 = gRows3 d IX L T1 (2 + (blkF (4 * 0)).val) := by
    unfold tile_body3.sl.dma0_1; rw [hc2]; rfl
  rw [hc2, hc3, hc4, hc5]
  sl_for (inv3 d T1 IX L O W) $$ [Hmw Hs12 Hq5 Hs13 Hq6 Hs14 Hq7 Hs15 Hr0 Hq4 Hs11 Hs16 Hs17 Hs18 Hw2 Hrows Hneg HO]
  case region =>
    intro k _
    have hk : k.val < 4 := lt_of_lt_of_le k.isLt k6_t1_abs.2.1
    unfold inv3 gFl3 wFl3
    iintro ⟨#Hmw, Hs12, Hq5, Hs13, Hq6, Hs14, Hq7, Hs15, Hr0, Hq4, Hs11, Hs16, Hs17, Hs18, Hdone, Hrows, Hbd, Hneg, %W', %hW', HO⟩
    -- the four index rows this trip gathers by, as the program takes them
    have hr0 : 4 * k.val + 6 < 24 := by omega
    have hr1 : 4 * k.val + 6 + 1 < 24 := by omega
    have hr2 : 4 * k.val + 6 + 1 + 1 < 24 := by omega
    have hr3 : 4 * k.val + 6 + 1 + 1 + 1 < 24 := by omega
    ihave H := (Entails.of_eq (bigSep_from_pop (F := F) _ _ hr0)) $$ Hrows; icases H with ⟨Hn0, Hrows⟩
    ihave H := (Entails.of_eq (bigSep_from_pop (F := F) _ _ hr1)) $$ Hrows; icases H with ⟨Hn1, Hrows⟩
    ihave H := (Entails.of_eq (bigSep_from_pop (F := F) _ _ hr2)) $$ Hrows; icases H with ⟨Hn2, Hrows⟩
    ihave H := (Entails.of_eq (bigSep_from_pop (F := F) _ _ hr3)) $$ Hrows; icases H with ⟨Hn3, Hrows⟩
    have ho0 : k6_off5 k 1#32 = ![(⟨4 * k.val + 6, hr0⟩ : Fin 24).val, 0] :=
      (k6_off5_eq k ⟨0, by decide⟩).trans (by show ![0 + 4 * k.val + 6, 0] = ![4 * k.val + 6, 0]; congr 1; omega)
    have ho1 : k6_off5 k 2#32 = ![(⟨4 * k.val + 6 + 1, hr1⟩ : Fin 24).val, 0] :=
      (k6_off5_eq k ⟨1, by decide⟩).trans (by show ![1 + 4 * k.val + 6, 0] = ![4 * k.val + 6 + 1, 0]; congr 1; omega)
    have ho2 : k6_off5 k 3#32 = ![(⟨4 * k.val + 6 + 1 + 1, hr2⟩ : Fin 24).val, 0] :=
      (k6_off5_eq k ⟨2, by decide⟩).trans (by show ![2 + 4 * k.val + 6, 0] = ![4 * k.val + 6 + 1 + 1, 0]; congr 1; omega)
    have ho3 : k6_off5 k 4#32 = ![(⟨4 * k.val + 6 + 1 + 1 + 1, hr3⟩ : Fin 24).val, 0] :=
      (k6_off5_eq k ⟨3, by decide⟩).trans (by show ![3 + 4 * k.val + 6, 0] = ![4 * k.val + 6 + 1 + 1 + 1, 0]; congr 1; omega)
    ihave Hn0 := (Entails.of_eq (pts_a8Row3 (F := F) d L ⟨_, hr0⟩ (k6_off5 k 1#32) (k6_off5_inb k 0) ho0 _).symm) $$ Hn0
    ihave Hn1 := (Entails.of_eq (pts_a8Row3 (F := F) d L ⟨_, hr1⟩ (k6_off5 k 2#32) (k6_off5_inb k 1) ho1 _).symm) $$ Hn1
    ihave Hn2 := (Entails.of_eq (pts_a8Row3 (F := F) d L ⟨_, hr2⟩ (k6_off5 k 3#32) (k6_off5_inb k 2) ho2 _).symm) $$ Hn2
    ihave Hn3 := (Entails.of_eq (pts_a8Row3 (F := F) d L ⟨_, hr3⟩ (k6_off5 k 4#32) (k6_off5_inb k 3) ho3 _).symm) $$ Hn3
    have hinA := hin_rows3 (F := F) d IX L hIX ⟨_, hr0⟩ (k6_off5 k 1#32) (k6_off5_inb k 0) ho0 (by show 4 * k.val + 6 < 22; omega)
    have hinB := hin_rows3 (F := F) d IX L hIX ⟨_, hr1⟩ (k6_off5 k 2#32) (k6_off5_inb k 1) ho1 (by show 4 * k.val + 6 + 1 < 22; omega)
    have hinC := hin_rows3 (F := F) d IX L hIX ⟨_, hr2⟩ (k6_off5 k 3#32) (k6_off5_inb k 2) ho2 (by show 4 * k.val + 6 + 1 + 1 < 22; omega)
    have hinD := hin_rows3 (F := F) d IX L hIX ⟨_, hr3⟩ (k6_off5 k 4#32) (k6_off5_inb k 3) ho3 (by show 4 * k.val + 6 + 1 + 1 + 1 < 22; omega)
    -- the four blocks it writes, as the program takes them
    have hq0 : 4 * k.val + 1 < 20 := by omega
    have hq1 : 4 * k.val + 1 + 1 < 20 := by omega
    have hq2 : 4 * k.val + 1 + 1 + 1 < 20 := by omega
    have hq3 : 4 * k.val + 1 + 1 + 1 + 1 < 20 := by omega
    ihave H := (Entails.of_eq (bigSep_from_pop (F := F) _ _ hq0)) $$ Hneg; icases H with ⟨⟨%gA, HbA⟩, Hneg⟩
    ihave H := (Entails.of_eq (bigSep_from_pop (F := F) _ _ hq1)) $$ Hneg; icases H with ⟨⟨%gB, HbB⟩, Hneg⟩
    ihave H := (Entails.of_eq (bigSep_from_pop (F := F) _ _ hq2)) $$ Hneg; icases H with ⟨⟨%gC, HbC'⟩, Hneg⟩
    ihave H := (Entails.of_eq (bigSep_from_pop (F := F) _ _ hq3)) $$ Hneg; icases H with ⟨⟨%gD, HbD⟩, Hneg⟩
    have hbo0 : k6_off6 L k 1#32 = negOff3 L (⟨4 * k.val + 1, hq0⟩ : Fin 20).val :=
      (k6_off6_wid L k ⟨0, by decide⟩).trans (by show negOff3 L (4 * k.val + 0 + 1) = negOff3 L (4 * k.val + 1); rfl)
    have hbo1 : k6_off6 L k 2#32 = negOff3 L (⟨4 * k.val + 1 + 1, hq1⟩ : Fin 20).val :=
      (k6_off6_wid L k ⟨1, by decide⟩).trans (by show negOff3 L (4 * k.val + 1 + 1) = negOff3 L (4 * k.val + 1 + 1); rfl)
    have hbo2 : k6_off6 L k 3#32 = negOff3 L (⟨4 * k.val + 1 + 1 + 1, hq2⟩ : Fin 20).val :=
      (k6_off6_wid L k ⟨2, by decide⟩).trans (by show negOff3 L (4 * k.val + 2 + 1) = negOff3 L (4 * k.val + 1 + 1 + 1); rfl)
    have hbo3 : k6_off6 L k 4#32 = negOff3 L (⟨4 * k.val + 1 + 1 + 1 + 1, hq3⟩ : Fin 20).val :=
      (k6_off6_wid L k ⟨3, by decide⟩).trans (by show negOff3 L (4 * k.val + 3 + 1) = negOff3 L (4 * k.val + 1 + 1 + 1 + 1); rfl)
    ihave HbA := (Entails.of_eq (pts_negOff3 (F := F) d L hbo0 (k6_off6_inb L k 0) (negOff_inb3 L ⟨_, hq0⟩) _).symm) $$ HbA
    ihave HbB := (Entails.of_eq (pts_negOff3 (F := F) d L hbo1 (k6_off6_inb L k 1) (negOff_inb3 L ⟨_, hq1⟩) _).symm) $$ HbB
    ihave HbC' := (Entails.of_eq (pts_negOff3 (F := F) d L hbo2 (k6_off6_inb L k 2) (negOff_inb3 L ⟨_, hq2⟩) _).symm) $$ HbC'
    ihave HbD := (Entails.of_eq (pts_negOff3 (F := F) d L hbo3 (k6_off6_inb L k 3) (negOff_inb3 L ⟨_, hq3⟩) _).symm) $$ HbD
    sl_exec
    sl_step
    have hcA : (rb03).view.writes (Elt F) (gRows3 d IX L T1 (4 * k.val + 2)) [⟨Rect.whole cc6_scratch3.ty.shape, tile_body3.sl.gather0_1 d T1 IX L k hinA⟩] = gRows3 d IX L T1 (4 * (k.val + 1) + 2) :=
      (writes_whole3 (F := F) d L cc6_scratch3 _ _).trans ((gather_val1'3 (F := F) d T1 IX L (k6_off5 k 1#32) (k6_off5_inb k 0) ⟨_, hr0⟩ ho0 gathers_S100000x128_S128x128 (by decide) hinA).trans (by congr 1 <;> omega))
    have hcB : (rb13).view.writes (Elt F) (gRows3 d IX L T1 (4 * k.val + 3)) [⟨Rect.whole cc6_scratch4.ty.shape, tile_body3.sl.gather2_1 d T1 IX L k hinB⟩] = gRows3 d IX L T1 (4 * (k.val + 1) + 3) :=
      (writes_whole3 (F := F) d L cc6_scratch4 _ _).trans ((gather_val1'3 (F := F) d T1 IX L (k6_off5 k 2#32) (k6_off5_inb k 1) ⟨_, hr1⟩ ho1 gathers_S100000x128_S128x128 (by decide) hinB).trans (by congr 1 <;> omega))
    have hcC : (rb23).view.writes (Elt F) (gRows3 d IX L T1 (4 * k.val + 4)) [⟨Rect.whole cc6_scratch5.ty.shape, tile_body3.sl.gather4_1 d T1 IX L k hinC⟩] = gRows3 d IX L T1 (4 * (k.val + 1) + 4) :=
      (writes_whole3 (F := F) d L cc6_scratch5 _ _).trans ((gather_val1'3 (F := F) d T1 IX L (k6_off5 k 3#32) (k6_off5_inb k 2) ⟨_, hr2⟩ ho2 gathers_S100000x128_S128x128 (by decide) hinC).trans (by congr 1 <;> omega))
    have hcD : (rb33).view.writes (Elt F) (gRows3 d IX L T1 (4 * k.val + 5)) [⟨Rect.whole cc6_scratch6.ty.shape, tile_body3.sl.gather6 d T1 IX L k hinD⟩] = gRows3 d IX L T1 (4 * (k.val + 1) + 5) :=
      (writes_whole3 (F := F) d L cc6_scratch6 _ _).trans ((gather_val1'3 (F := F) d T1 IX L (k6_off5 k 4#32) (k6_off5_inb k 3) ⟨_, hr3⟩ ho3 gathers_S100000x128_S128x128 (by decide) hinD).trans (by congr 1 <;> omega))
    rw [hcA, hcB, hcC, hcD]
    -- the rows of the three gathers now in flight, in the invariant's spelling
    have e1 : k6_off5 k 2#32 = ![(rowF (4 * (k.val + 1) + 3)).val, 0] := ho1.trans (by show ![4 * k.val + 6 + 1, 0] = ![(4 * (k.val + 1) + 3) % 24, 0]; congr 1; omega)
    have e2 : k6_off5 k 3#32 = ![(rowF (4 * (k.val + 1) + 4)).val, 0] := ho2.trans (by show ![4 * k.val + 6 + 1 + 1, 0] = ![(4 * (k.val + 1) + 4) % 24, 0]; congr 1; omega)
    have e3 : k6_off5 k 4#32 = ![(rowF (4 * (k.val + 1) + 5)).val, 0] := ho3.trans (by show ![4 * k.val + 6 + 1 + 1 + 1, 0] = ![(4 * (k.val + 1) + 5) % 24, 0]; congr 1; omega)
    rw [pts_a8Row_congr3 (F := F) d L e1 (k6_off5_inb k 1) (rowInb _) (A8c3 d IX L), pts_a8Row_congr3 (F := F) d L e2 (k6_off5_inb k 2) (rowInb _) (A8c3 d IX L), pts_a8Row_congr3 (F := F) d L e3 (k6_off5_inb k 3) (rowInb _) (A8c3 d IX L)]
    -- the four rows that came back
    have hd0 : 4 * k.val + 3 < 24 := by omega
    have hd1 : 4 * k.val + 3 + 1 < 24 := by omega
    have hd2 : 4 * k.val + 3 + 1 + 1 < 24 := by omega
    have hd3 : 4 * k.val + 3 + 1 + 1 + 1 < 24 := by omega
    ihave R0 := (Entails.of_eq (pts_a8Row3 (F := F) d L (rowF (4 * k.val + 3)) ![(rowF (4 * k.val + 3)).val, 0] (rowInb _) rfl _)) $$ Hs12_dst_and
    ihave R0 := (row_reidx3 (F := F) d L _ _ ⟨4 * k.val + 3, hd0⟩ (Fin.ext (show (4 * k.val + 3) % 24 = 4 * k.val + 3 by omega))) $$ R0
    ihave R1 := (Entails.of_eq (pts_a8Row3 (F := F) d L (rowF (4 * k.val + 4)) ![(rowF (4 * k.val + 4)).val, 0] (rowInb _) rfl _)) $$ Hs13_dst_and
    ihave R1 := (row_reidx3 (F := F) d L _ _ ⟨4 * k.val + 3 + 1, hd1⟩ (Fin.ext (show (4 * k.val + 4) % 24 = 4 * k.val + 3 + 1 by omega))) $$ R1
    ihave R2 := (Entails.of_eq (pts_a8Row3 (F := F) d L (rowF (4 * k.val + 5)) ![(rowF (4 * k.val + 5)).val, 0] (rowInb _) rfl _)) $$ Hs14_dst_and
    ihave R2 := (row_reidx3 (F := F) d L _ _ ⟨4 * k.val + 3 + 1 + 1, hd2⟩ (Fin.ext (show (4 * k.val + 5) % 24 = 4 * k.val + 3 + 1 + 1 by omega))) $$ R2
    ihave R3 := (Entails.of_eq (pts_a8Row3 (F := F) d L ⟨_, hr0⟩ (k6_off5 k 1#32) (k6_off5_inb k 0) ho0 _)) $$ Hn0
    ihave R3 := (row_reidx3 (F := F) d L _ _ ⟨4 * k.val + 3 + 1 + 1 + 1, hd3⟩ (Fin.ext (show 4 * k.val + 6 = 4 * k.val + 3 + 1 + 1 + 1 by omega))) $$ R3
    -- the four blocks that are written
    have hp0 : 4 * k.val < 20 := by omega
    ihave B0 := (blk_reidx3 (F := F) d L _ _ ⟨4 * k.val, hp0⟩ (Fin.ext (show (4 * k.val) % 20 = 4 * k.val by omega))) $$ Hs15_dst
    have hwA : tile_body3.sl.dma0_2 d T1 IX L k = gRows3 d IX L T1 (2 + (⟨4 * k.val + 1, hq0⟩ : Fin 20).val) := by
      unfold tile_body3.sl.dma0_2; show gRows3 d IX L T1 (4 * k.val + 3) = gRows3 d IX L T1 (2 + (4 * k.val + 1)); congr 1; omega
    have hwB : tile_body3.sl.dma0_3 d T1 IX L k = gRows3 d IX L T1 (2 + (⟨4 * k.val + 1 + 1, hq1⟩ : Fin 20).val) := by
      unfold tile_body3.sl.dma0_3; show gRows3 d IX L T1 (4 * k.val + 4) = gRows3 d IX L T1 (2 + (4 * k.val + 1 + 1)); congr 1; omega
    have hwC : tile_body3.sl.dma0_4 d T1 IX L k = gRows3 d IX L T1 (2 + (⟨4 * k.val + 1 + 1 + 1, hq2⟩ : Fin 20).val) := by
      unfold tile_body3.sl.dma0_4; show gRows3 d IX L T1 (4 * k.val + 5) = gRows3 d IX L T1 (2 + (4 * k.val + 1 + 1 + 1)); congr 1; omega
    have hwD : tile_body3.sl.dma0_5 d T1 IX L k hinA = gRows3 d IX L T1 (2 + (blkF (4 * (k.val + 1))).val) := by
      unfold tile_body3.sl.dma0_5; rw [hcA]; show gRows3 d IX L T1 (4 * (k.val + 1) + 2) = gRows3 d IX L T1 (2 + (4 * (k.val + 1)) % 20); congr 1; omega
    ihave B1 := (blk_intro3 (F := F) d T1 IX L ⟨_, hq0⟩ (k6_off6 L k 1#32) (k6_off6_inb L k 0) hbo0 gA _ hwA) $$ HbA
    ihave B2 := (blk_intro3 (F := F) d T1 IX L ⟨_, hq1⟩ (k6_off6 L k 2#32) (k6_off6_inb L k 1) hbo1 gB _ hwB) $$ HbB
    ihave B3 := (blk_intro3 (F := F) d T1 IX L ⟨_, hq2⟩ (k6_off6 L k 3#32) (k6_off6_inb L k 2) hbo2 gC _ hwC) $$ HbC'
    have hbo3' : k6_off6 L k 4#32 = negOff3 L (blkF (4 * (k.val + 1))).val :=
      hbo3.trans (by show negOff3 L (4 * k.val + 1 + 1 + 1 + 1) = negOff3 L ((4 * (k.val + 1)) % 20); congr 1; omega)
    -- the invariant at the next trip
    isplitl []; · iexact Hmw
    isplitl [Hs12]; · iexact Hs12
    isplitl [Hq5]; · iexact Hq5
    isplitl [Hs13]; · iexact Hs13
    isplitl [Hq6]; · iexact Hq6
    isplitl [Hs14]; · iexact Hs14
    isplitl [Hq7]; · iexact Hq7
    isplitl [Hs15]
    · have h8 : (71 : ℕ) < sig.nDmaSem := by decide
      iapply ((wFl_intro'3 (F := F) d T1 IX L ⟨71, h8⟩ cc6_scratch3 (blkF (4 * (k.val + 1))) (k6_off6 L k 4#32) (k6_off6_inb L k 3) hbo3' gD _ hwD (gRows3 d IX L T1 (4 * (k.val + 1) + 2))).trans
        (Entails.of_eq (wFl_unfold3 (F := F) d L ⟨71, h8⟩ cc6_scratch3 (blkF (4 * (k.val + 1))) (gV2 d T1 IX) (gRows3 d IX L T1 (4 * (k.val + 1) + 2)))))
      iexact Hs15
    isplitl [Hr0]; · iexact Hr0
    isplitl [Hq4]; · iexact Hq4
    isplitl [Hs11]; · iexact Hs11
    isplitl [Hs16]; · iexact Hs16
    isplitl [Hs17]; · iexact Hs17
    isplitl [Hs18]; · iexact Hs18
    isplitl [Hdone R0 R1 R2 R3]
    · iapply (mid_push4 (F := F) (fun k' : Fin 24 => (a8Loc3 d L ↦[a8RowSet3 k']{fullShare} A8c3 d IX L : sProp 𝕄)) 2 (4 * k.val + 3) (4 * (k.val + 1) + 3) hd0 hd1 hd2 hd3 (by omega) (by omega))
      isplitl [Hdone]; · iexact Hdone
      isplitl [R0]; · iexact R0
      isplitl [R1]; · iexact R1
      isplitl [R2]; · iexact R2
      iexact R3
    isplitl [Hrows]
    · iapply (Entails.of_eq (bigSep_from_congr (F := F) _ (show 4 * k.val + 6 + 1 + 1 + 1 + 1 = 4 * (k.val + 1) + 6 by omega)))
      iexact Hrows
    isplitl [Hbd B0 B1 B2 B3]
    · iapply (mid_push4 (F := F) (fun j : Fin 20 => (o2Loc3 d ↦[(negSl3 L j).view.set]{fullShare} gV2 d T1 IX : sProp 𝕄)) 0 (4 * k.val) (4 * (k.val + 1)) hp0 hq0 hq1 hq2 (by omega) (by omega))
      isplitl [Hbd]; · iexact Hbd
      isplitl [B0]; · iexact B0
      isplitl [B1]; · iexact B1
      isplitl [B2]; · iexact B2
      iexact B3
    isplitl [Hneg]
    · iapply (Entails.of_eq (bigSep_from_congr (F := F) _ (show 4 * k.val + 1 + 1 + 1 + 1 + 1 = 4 * (k.val + 1) + 1 by omega)))
      iexact Hneg
    iexists (insert ((SemLoc.dma ⟨74, by decide⟩ : SemLoc sig), (default : HIx 4))
      (insert ((SemLoc.dma ⟨67, by decide⟩ : SemLoc sig), (default : HIx 4))
        (insert ((SemLoc.dma ⟨73, by decide⟩ : SemLoc sig), (default : HIx 4))
          (insert ((SemLoc.dma ⟨70, by decide⟩ : SemLoc sig), (default : HIx 4))
            (insert ((SemLoc.dma ⟨72, by decide⟩ : SemLoc sig), (default : HIx 4))
              (insert ((SemLoc.dma ⟨69, by decide⟩ : SemLoc sig), (default : HIx 4))
                (insert ((SemLoc.dma ⟨71, by decide⟩ : SemLoc sig), (default : HIx 4))
                  (insert ((SemLoc.dma ⟨68, by decide⟩ : SemLoc sig), (default : HIx 4)) W')))))))); isplitr
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      · exact hW' p hp
    · iexact HO
  · unfold inv3
    isplitl [Hmw]; · iexact Hmw
    isplitl [Hs12]; · unfold gFl3; iexact Hs12
    isplitl [Hq5]; · iexact Hq5
    isplitl [Hs13]; · unfold gFl3; iexact Hs13
    isplitl [Hq6]; · iexact Hq6
    isplitl [Hs14]; · unfold gFl3; iexact Hs14
    isplitl [Hq7]; · iexact Hq7
    isplitl [Hs15]
    · have h8 : (71 : ℕ) < sig.nDmaSem := by decide
      iapply (wFl_intro'3 (F := F) d T1 IX L ⟨71, h8⟩ cc6_scratch3 (blkF (4 * 0)) (k6_off2 L (k6_off2_at 0))
        (k6_off2_inb L 0) (k6_off2_neg L 0 0 rfl) g0 _ hw0 _)
      iexact Hs15
    isplitl [Hr0]; · iexact Hr0
    isplitl [Hq4]; · iexact Hq4
    isplitl [Hs11]; · iexact Hs11
    isplitl [Hs16]; · iexact Hs16
    isplitl [Hs17]; · iexact Hs17
    isplitl [Hs18]; · iexact Hs18
    isplitl [Hw2]
    · iapply (rows_done03 (F := F) d L _ h2)
      iapply (Entails.of_eq (pts_a8Row3 (F := F) d L ⟨2, h2⟩ ![2, 0] (rowInb ⟨2, h2⟩) rfl _))
      iexact Hw2
    isplitl [Hrows]; · iexact Hrows
    isplitl []; · iapply (blks_done03 (F := F) d L (gV2 d T1 IX)); iempintro
    isplitl [Hneg]; · iexact Hneg
    iexists (insert ((SemLoc.dma ⟨67, by decide⟩ : SemLoc sig), (default : HIx 4))
      (insert ((SemLoc.dma ⟨75, by decide⟩ : SemLoc sig), (default : HIx 4)) W)); isplitr
    · ipureintro; intro p hp
      rcases Finset.mem_insert.mp hp with rfl | hp
      · exact .inr rfl
      rcases Finset.mem_insert.mp hp with rfl | hp
      · exact .inr rfl
      · exact .inl hp
    · iexact HO
  iintro %_ HI
  unfold inv3 gFl3 wFl3
  icases HI with ⟨#Hmw', Hs12, Hq5, Hs13, Hq6, Hs14, Hq7, Hs15, Hr0, Hq4, Hs11, Hs16, Hs17, Hs18, Hdone, Hrows, Hbd, Hneg, %W', %hW', HO⟩
  have htr : Scf.trips k6_t1_loop.lb k6_t1_loop.ub k6_t1_loop.st = 4 := by decide
  rw [htr]
  have hb16 : (16 : ℕ) < 20 := by decide
  have h19 : (19 : ℕ) < 24 := by decide
  have h20 : (20 : ℕ) < 24 := by decide
  have h21 : (21 : ℕ) < 24 := by decide
  have e19 : rowF (4 * 4 + 3) = ⟨19, h19⟩ := rfl
  have e20 : rowF (4 * 4 + 4) = ⟨20, h20⟩ := rfl
  have e21 : rowF (4 * 4 + 5) = ⟨21, h21⟩ := rfl
  have e16 : blkF (4 * 4) = ⟨16, hb16⟩ := rfl
  rw [e19, e20, e21, e16]
  have hb17 : (17 : ℕ) < 20 := by decide
  have hb18 : (18 : ℕ) < 20 := by decide
  have hb19 : (19 : ℕ) < 20 := by decide
  ihave H := (Entails.of_eq (bigSep_from_pop (F := F) _ 17 hb17)) $$ Hneg; icases H with ⟨⟨%g17, Hb17⟩, Hneg⟩
  ihave H := (Entails.of_eq (bigSep_from_pop (F := F) _ 18 hb18)) $$ Hneg; icases H with ⟨⟨%g18, Hb18⟩, Hneg⟩
  ihave H := (Entails.of_eq (bigSep_from_pop (F := F) _ 19 hb19)) $$ Hneg; icases H with ⟨⟨%g19, Hb19⟩, Hneg⟩
  ihave Hb17 := (Entails.of_eq (pts_negOff3 (F := F) d L (k6_off2_neg L 2 17 rfl) (k6_off2_inb L 2) (negOff_inb3 L ⟨17, hb17⟩) _).symm) $$ Hb17
  ihave Hb18 := (Entails.of_eq (pts_negOff3 (F := F) d L (k6_off2_neg L 3 18 rfl) (k6_off2_inb L 3) (negOff_inb3 L ⟨18, hb18⟩) _).symm) $$ Hb18
  ihave Hb19 := (Entails.of_eq (pts_negOff3 (F := F) d L (k6_off2_neg L 4 19 rfl) (k6_off2_inb L 4) (negOff_inb3 L ⟨19, hb19⟩) _).symm) $$ Hb19
  sl_exec
  sl_step
  -- what the copy-outs carried: the gathered rows
  have hp17 : tile_body3.sl.dma0_6 d T1 IX L = gRows3 d IX L T1 (2 + 17) := rfl
  have hp18 : tile_body3.sl.dma0_7 d T1 IX L = gRows3 d IX L T1 (2 + 18) := rfl
  have hp19 : tile_body3.sl.dma0_8 d T1 IX L = gRows3 d IX L T1 (2 + 19) := rfl
  have hpC : tile_body3.sl.dma0_9 d T0 IX L fbC h0 hin0 = gRows3 d IX L T0 0 := by
    unfold tile_body3.sl.dma0_9 tile_body3.sl.gather0
    exact (writes_whole3 (F := F) d L cc6_scratch1 fbC _).trans (gather_val03 (F := F) d T0 IX L ⟨0, h0⟩ (rowInb ⟨0, h0⟩) gathers_S100000x128_S128x128 (by decide) hin0)
  have hpP : tile_body3.sl.dma0_10 d T1 IX L fbP h1 hin1 = gRows3 d IX L T1 1 := by
    unfold tile_body3.sl.dma0_10 tile_body3.sl.gather1
    exact (writes_whole3 (F := F) d L cc6_scratch2 fbP _).trans (gather_val13 (F := F) d T1 IX L ⟨1, h1⟩ (rowInb ⟨1, h1⟩) gathers_S100000x128_S128x128 (by decide) hin1)
  have h22 : (22 : ℕ) < 24 := by decide
  have h23 : (23 : ℕ) < 24 := by decide
  -- the third result's blocks, all twenty
  ihave Hb17 := (blk_done3 (F := F) d T1 IX L ⟨17, hb17⟩ _ (k6_off2_inb L 2) (k6_off2_neg L 2 17 rfl) g17 _ hp17) $$ Hb17
  ihave Hb18 := (blk_done3 (F := F) d T1 IX L ⟨18, hb18⟩ _ (k6_off2_inb L 3) (k6_off2_neg L 3 18 rfl) g18 _ hp18) $$ Hb18
  ihave Hb19 := (blk_done3 (F := F) d T1 IX L ⟨19, hb19⟩ _ (k6_off2_inb L 4) (k6_off2_neg L 4 19 rfl) g19 _ hp19) $$ Hb19
  ihave Hbd := (Entails.of_eq (bigSep_mid_push (F := F) (fun j : Fin 20 => (o2Loc3 d ↦[(negSl3 L j).view.set]{fullShare} gV2 d T1 IX : sProp 𝕄)) 0 16 hb16 (by omega)).symm) $$ [Hs15_dst Hbd]
  · isplitl [Hs15_dst]
    · iexact Hs15_dst
    iexact Hbd
  ihave Hbd := (Entails.of_eq (bigSep_mid_push (F := F) (fun j : Fin 20 => (o2Loc3 d ↦[(negSl3 L j).view.set]{fullShare} gV2 d T1 IX : sProp 𝕄)) 0 17 hb17 (by omega)).symm) $$ [Hb17 Hbd]
  · isplitl [Hb17] <;> iassumption
  ihave Hbd := (Entails.of_eq (bigSep_mid_push (F := F) (fun j : Fin 20 => (o2Loc3 d ↦[(negSl3 L j).view.set]{fullShare} gV2 d T1 IX : sProp 𝕄)) 0 18 hb18 (by omega)).symm) $$ [Hb18 Hbd]
  · isplitl [Hb18] <;> iassumption
  ihave Hbd := (Entails.of_eq (bigSep_mid_push (F := F) (fun j : Fin 20 => (o2Loc3 d ↦[(negSl3 L j).view.set]{fullShare} gV2 d T1 IX : sProp 𝕄)) 0 19 hb19 (by omega)).symm) $$ [Hb19 Hbd]
  · isplitl [Hb19] <;> iassumption
  ihave Hbd := (Entails.of_eq (bigSep_mid_all (F := F) (fun j : Fin 20 => (o2Loc3 d ↦[(negSl3 L j).view.set]{fullShare} gV2 d T1 IX : sProp 𝕄)))) $$ Hbd
  -- the index scratch, all twenty-four rows
  ihave R19 := (Entails.of_eq (pts_a8Row3 (F := F) d L ⟨19, h19⟩ _ _ rfl _)) $$ Hs12_dst_and
  ihave R20 := (Entails.of_eq (pts_a8Row3 (F := F) d L ⟨20, h20⟩ _ _ rfl _)) $$ Hs13_dst_and
  ihave R21 := (Entails.of_eq (pts_a8Row3 (F := F) d L ⟨21, h21⟩ _ _ rfl _)) $$ Hs14_dst_and
  ihave R0 := (Entails.of_eq (pts_a8Row3 (F := F) d L ⟨0, h0⟩ ![0, 0] (rowInb ⟨0, h0⟩) rfl _)) $$ Hw0
  ihave R1 := (Entails.of_eq (pts_a8Row3 (F := F) d L ⟨1, h1⟩ ![1, 0] (rowInb ⟨1, h1⟩) rfl _)) $$ Hw1
  ihave H := (Entails.of_eq (bigSep_from_pop (F := F) _ 22 h22)) $$ Hrows; icases H with ⟨R22, Hrows⟩
  ihave H := (Entails.of_eq (bigSep_from_pop (F := F) _ 23 h23)) $$ Hrows; icases H with ⟨R23, -⟩
  ihave Hdone := (Entails.of_eq (bigSep_mid_push (F := F) (fun k : Fin 24 => (a8Loc3 d L ↦[a8RowSet3 k]{fullShare} A8c3 d IX L : sProp 𝕄)) 2 19 h19 (by omega)).symm) $$ [R19 Hdone]
  · isplitl [R19]
    · iexact R19
    iexact Hdone
  ihave Hdone := (Entails.of_eq (bigSep_mid_push (F := F) (fun k : Fin 24 => (a8Loc3 d L ↦[a8RowSet3 k]{fullShare} A8c3 d IX L : sProp 𝕄)) 2 20 h20 (by omega)).symm) $$ [R20 Hdone]
  · isplitl [R20]
    · iexact R20
    iexact Hdone
  ihave Hdone := (Entails.of_eq (bigSep_mid_push (F := F) (fun k : Fin 24 => (a8Loc3 d L ↦[a8RowSet3 k]{fullShare} A8c3 d IX L : sProp 𝕄)) 2 21 h21 (by omega)).symm) $$ [R21 Hdone]
  · isplitl [R21]
    · iexact R21
    iexact Hdone
  ihave Hdone := (Entails.of_eq (bigSep_mid_push (F := F) (fun k : Fin 24 => (a8Loc3 d L ↦[a8RowSet3 k]{fullShare} A8c3 d IX L : sProp 𝕄)) 2 22 h22 (by omega)).symm) $$ [R22 Hdone]
  · isplitl [R22]
    · iexact R22
    iexact Hdone
  ihave Hdone := (Entails.of_eq (bigSep_mid_push (F := F) (fun k : Fin 24 => (a8Loc3 d L ↦[a8RowSet3 k]{fullShare} A8c3 d IX L : sProp 𝕄)) 2 23 h23 (by omega)).symm) $$ [R23 Hdone]
  · isplitl [R23]
    · iexact R23
    iexact Hdone
  ihave Hdone := (Entails.of_eq (bigSep_mid_top (F := F) (fun k : Fin 24 => (a8Loc3 d L ↦[a8RowSet3 k]{fullShare} A8c3 d IX L : sProp 𝕄)) 2)) $$ Hdone
  ihave Hdone := (Entails.of_eq (bigSep_from_pop (F := F) (fun k : Fin 24 => (a8Loc3 d L ↦[a8RowSet3 k]{fullShare} A8c3 d IX L : sProp 𝕄)) 1 h1).symm) $$ [R1 Hdone]
  · isplitl [R1]
    · iexact R1
    iexact Hdone
  ihave Hdone := (Entails.of_eq (bigSep_from_pop (F := F) (fun k : Fin 24 => (a8Loc3 d L ↦[a8RowSet3 k]{fullShare} A8c3 d IX L : sProp 𝕄)) 0 h0).symm) $$ [R0 Hdone]
  · isplitl [R0]
    · iexact R0
    iexact Hdone
  ihave Hdone := (Entails.of_eq (bigSep_from_zero (F := F) (fun k : Fin 24 => (a8Loc3 d L ↦[a8RowSet3 k]{fullShare} A8c3 d IX L : sProp 𝕄)))) $$ Hdone
  ihave Ha8 := (Entails.of_eq (a8_rows3 (F := F) d L (A8c3 d IX L)).symm) $$ Hdone
  -- what the tile hands back
  unfold tdResL3
  isplitl [Ht0 Hq8 Hq7 Hq6 Hq5 Hq4 Hq3 Hq2 Hq1 Hq0 Hix Ho0 Ho1 Hbd]
  · isplitl [Ht0]
    · iexact Ht0
    isplitl [Hq8 Hq7 Hq6 Hq5 Hq4 Hq3 Hq2 Hq1 Hq0]
    · iapply (toks8_join (F := F) (tblShare3 L) T1)
      isplitl [Hq8]
      · iexact Hq8
      isplitl [Hq7]
      · iexact Hq7
      isplitl [Hq6]
      · iexact Hq6
      isplitl [Hq5]
      · iexact Hq5
      isplitl [Hq4]
      · iexact Hq4
      isplitl [Hq3]
      · iexact Hq3
      isplitl [Hq2]
      · iexact Hq2
      isplitl [Hq1]
      · iexact Hq1
      iexact Hq0
    isplitl [Hix]
    · iexact Hix
    isplitl [Ho0]
    · iapply (Entails.of_eq (pointsTo_congr (block_val03 (F := F) d T0 IX L f0 _ hpC)))
      iexact Ho0
    isplitl [Ho1]
    · iapply (Entails.of_eq (pointsTo_congr (block_val13 (F := F) d T1 IX L f1 _ hpP)))
      iexact Ho1
    iexact Hbd
  isplitl [Ha8 HbC HbP Hr0 Hs12_dst Hs13_dst Hs14_dst Hbufs]
  · isplitr [Hbufs]
    · isplitl [Ha8]
      · iexists _; iexact Ha8
      isplitl [HbC]
      · iexists _; iexact HbC
      isplitl [HbP]
      · iexists _; iexact HbP
      isplitl [Hr0]
      · iexists _; iexact Hr0
      isplitl [Hs12_dst]
      · iexists _; iexact Hs12_dst
      isplitl [Hs13_dst]
      · iexists _; iexact Hs13_dst
      iexists _; iexact Hs14_dst
    iexact Hbufs
  isplitr [HO]
  · isplitr [Hsems]
    · isplitl [Hs0]
      · iexact Hs0
      isplitl [Hs7]
      · iexact Hs7
      isplitl [Hs8]
      · iexact Hs8
      isplitl [Hs9]
      · iexact Hs9
      isplitl [Hs10]
      · iexact Hs10
      isplitl [Hs11]
      · iexact Hs11
      isplitl [Hs12]
      · iexact Hs12
      isplitl [Hs13]
      · iexact Hs13
      isplitl [Hs14]
      · iexact Hs14
      isplitl [Hs15]
      · iexact Hs15
      isplitl [Hs16]
      · iexact Hs16
      isplitl [Hs17]
      · iexact Hs17
      iexact Hs18
    iexact Hsems
  iexists _; isplitr
  swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

end Body

/-! ## The launch theorem's obligation -/

theorem defs₀_vector3 (c : Fin τ.nSC) (s : Fin τ.nSub) :
    defs₀ (F := F) (.scVector c s) 6 ()
      = SparseCore.onTile hcore6 hsub6 (fun c s => cc6__sc_gather (coordsV3 c s)
          t0V (Memref.isWhole_whole _) t1V (Memref.isWhole_whole _) ixV3 (Memref.isWhole_whole _) o0V3 (Memref.isWhole_whole _) o1V3 (Memref.isWhole_whole _) o2V3 (Memref.isWhole_whole _)
            a83 (Memref.isWhole_whole _) bC3 (Memref.isWhole_whole _) bP3 (Memref.isWhole_whole _) rb03 (Memref.isWhole_whole _) rb13 (Memref.isWhole_whole _) rb23 (Memref.isWhole_whole _) rb33 (Memref.isWhole_whole _)
            cc6_scratch7 cc6_scratch8 cc6_scratch9 cc6_scratch10 cc6_scratch11 cc6_scratch12 cc6_scratch13 cc6_scratch14 cc6_scratch15 cc6_scratch16 cc6_scratch17 cc6_scratch18 cc6_scoped0) ⟨⟩ c s := rfl

/-- `TileObl` at call 3, for any payload record whose call-0 fields are the tile's resources above, nothing
    extra held per thread and nothing owed for a protocol of the kernel's own. -/
theorem tileObl3 (hF : (K (F := F)).Facts)
    (T0 : (d : Dev nD) → Buf (Elt F) (t0Loc d)) (T1 : (d : Dev nD) → Buf (Elt F) (t1Loc d)) (IX : (d : Dev nD) → Buf (Elt F) (ixLoc3 d))
    (hIX : ∀ d, IXOK3 d (IX d))
    (P : (K (F := F)).Pay (nD := nD) (Val := Elt F) (Name := ℕ) (U := UU))
    (hgo : ∀ d c i, P.go 3 d c i = goRes3 d (T0 d) (T1 d) (IX d) c i)
    (htd : ∀ d c i, P.td 3 d c i = tdRes3 d (T0 d) (T1 d) (IX d) c i)
    (hx : ∀ thr, P.x 3 thr = iprop(emp))
    (hox : ∀ thr, P.ox 3 thr = 0) :
    (K (F := F)).TileObl (D (F := F)) 𝒱 P v₀ 3 := by
  intro d c i O W hO _ _
  rw [hox, add_zero, hx, hgo, htd]
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  have hc : ((K (F := F)).core 3 c).val < grid6.bound 0 ∧ ((K (F := F)).sub 3 i).val < grid6.bound 1 := ⟨c.isLt, i.isLt⟩
  rw [defs₀_vector3]; simp only [SparseCore.onTile, hc, and_self, ↓reduceDIte]
  exact (tile_body3 d (T0 d) (T1 d) (IX d) hF (hIX d) (coordsV3 ⟨_, hc.1⟩ ⟨_, hc.2⟩) O W hO).trans (wp_mono frame _ _ fun _ => obl_post)

end Cert.Proof.KI

end
-- ==== Proof.KI_Tiles.lean ====
/-
  The tiles' obligations for the four calls, at the contents @main's chain has when each call starts: the tables as
  launched, the call's index rows the quarter's slab of the laid-out index words — whose entries the precondition's
  ranges keep below the tables' row count, so that every indexed copy of a tile names rows that exist.
-/
import proofs.«215899_g5772436046013_cont_9to1c4b_742_31_alg».proof.Proof.KI_Claims
import proofs.«215899_g5772436046013_cont_9to1c4b_742_31_alg».proof.Proof.KI_Tile
import proofs.«215899_g5772436046013_cont_9to1c4b_742_31_alg».proof.Proof.KI_Tile_c1
import proofs.«215899_g5772436046013_cont_9to1c4b_742_31_alg».proof.Proof.KI_Tile_c2
import proofs.«215899_g5772436046013_cont_9to1c4b_742_31_alg».proof.Proof.KI_Tile_c3

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

open Idealize.ShloMosaic.TcCoe

local notation "𝕄" => MT nD τ sig (HIx 4) (Elt F) ℕ UU ℕ

variable (m : (ℓ : Loc nD τ sig) → Buf (Elt F) ℓ)

theorem tilesOK : TilesOK m := fun hc hp hn q =>
  match q with
  | ⟨0, _⟩ => tileObl0 facts (fun d => W1 m d (rT main_arg0)) (fun d => W1 m d (rT main_arg1)) (fun d => W1 m d (rT main_v26))
      (fun d => IXOK_q0 m d (hc d) (hp d) (hn d)) (PK m) (fun _ _ _ => rfl) (fun _ _ _ => rfl) (fun _ => rfl) (fun _ => rfl)
  | ⟨1, _⟩ => tileObl1 facts (fun d => W5 (pureK d) m d (rT main_arg0)) (fun d => W5 (pureK d) m d (rT main_arg1)) (fun d => W5 (pureK d) m d (rT main_v32))
      (fun d => IXOK_q1 (pureK d) m d (hc d) (hp d) (hn d)) (PK m) (fun _ _ _ => rfl) (fun _ _ _ => rfl) (fun _ => rfl) (fun _ => rfl)
  | ⟨2, _⟩ => tileObl2 facts (fun d => W9 (pureK d) m d (rT main_arg0)) (fun d => W9 (pureK d) m d (rT main_arg1)) (fun d => W9 (pureK d) m d (rT main_v38))
      (fun d => IXOK_q2 (pureK d) m d (hc d) (hp d) (hn d)) (PK m) (fun _ _ _ => rfl) (fun _ _ _ => rfl) (fun _ => rfl) (fun _ => rfl)
  | ⟨3, _⟩ => tileObl3 facts (fun d => W13 (pureK d) m d (rT main_arg0)) (fun d => W13 (pureK d) m d (rT main_arg1)) (fun d => W13 (pureK d) m d (rT main_v44))
      (fun d => IXOK_q3 (pureK d) m d (hc d) (hp d) (hn d)) (PK m) (fun _ _ _ => rfl) (fun _ _ _ => rfl) (fun _ => rfl) (fun _ => rfl)

end Cert.Proof.KI

end
-- ==== Proof.KB_TileOwn.lean ====
/-
  A vector subcore's own storage at call 0: its thread, the seven scratch buffers and thirteen DMA semaphores of
  the gather kernel, taken out of the tile's scoped buffers and scoped semaphores.
-/
import proofs.«215899_g5772436046013_cont_9to1c4b_742_31_alg».proof.Proof.KB_TileRes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## The tile's thread, its scratch buffers and its semaphores -/

abbrev thrV (d : Dev nD) (L : grid0.Coords) : Thread nD τ := V d (cV L) (jV L)

abbrev a8 : Memref sig .scVector .vmem S24x128 .i32 := Memref.whole cc0_scratch0
abbrev bC : Memref sig .scVector .vmem S128x128 .f32 := Memref.whole cc0_scratch1
abbrev bP : Memref sig .scVector .vmem S128x128 .f32 := Memref.whole cc0_scratch2
abbrev rb0 : Memref sig .scVector .vmem S128x128 .f32 := Memref.whole cc0_scratch3
abbrev rb1 : Memref sig .scVector .vmem S128x128 .f32 := Memref.whole cc0_scratch4
abbrev rb2 : Memref sig .scVector .vmem S128x128 .f32 := Memref.whole cc0_scratch5
abbrev rb3 : Memref sig .scVector .vmem S128x128 .f32 := Memref.whole cc0_scratch6

/-- The kernel's thirteen DMA semaphores. -/
def tileSems : Finset (DmaSem sig) := {cc0_scoped0.sem, cc0_scratch7.sem, cc0_scratch8.sem, cc0_scratch9.sem, cc0_scratch10.sem, cc0_scratch11.sem, cc0_scratch12.sem, cc0_scratch13.sem, cc0_scratch14.sem, cc0_scratch15.sem, cc0_scratch16.sem, cc0_scratch17.sem, cc0_scratch18.sem}
/-- The kernel's seven scratch buffers. -/
def tileRefs : Finset (Ref sig .scVector) := {cc0_scratch0, cc0_scratch1, cc0_scratch2, cc0_scratch3, cc0_scratch4, cc0_scratch5, cc0_scratch6}

def cellEmb (thr : Thread nD τ) : DmaSem sig ↪ GSem nD τ sig :=
  ⟨fun s => (thr, SemLoc.dma s), fun _ _ e => SemLoc.dma.inj (Prod.mk.inj e).2⟩
def refEmb (p : Proc τ) : Ref sig p.kind ↪ DevRef τ sig := ⟨fun b => p.devRef b, Proc.devRef_injective _⟩

omit [FloatOps F] in
theorem tileSems_sub (d : Dev nD) (L : grid0.Coords) : tileSems.map (cellEmb (thrV d L)) ⊆ ownCells (thrV d L) := by
  intro g hg
  obtain ⟨s, hs, rfl⟩ := Finset.mem_map.mp hg
  refine mem_ownCells.mpr ⟨rfl, ?_⟩
  show sig.isScopedDmaSem .scVector s = true
  clear hg
  revert s; decide +revert

omit [FloatOps F] in
theorem ownSems0_V (d : Dev nD) (L : grid0.Coords) :
    (ownSems0 (thrV d L) : sProp 𝕄)
      = iprop((semVal (thrV d L, SemLoc.dma cc0_scoped0.sem) 0
          ∗ semVal (thrV d L, SemLoc.dma cc0_scratch7.sem) 0
          ∗ semVal (thrV d L, SemLoc.dma cc0_scratch8.sem) 0
          ∗ semVal (thrV d L, SemLoc.dma cc0_scratch9.sem) 0
          ∗ semVal (thrV d L, SemLoc.dma cc0_scratch10.sem) 0
          ∗ semVal (thrV d L, SemLoc.dma cc0_scratch11.sem) 0
          ∗ semVal (thrV d L, SemLoc.dma cc0_scratch12.sem) 0
          ∗ semVal (thrV d L, SemLoc.dma cc0_scratch13.sem) 0
          ∗ semVal (thrV d L, SemLoc.dma cc0_scratch14.sem) 0
          ∗ semVal (thrV d L, SemLoc.dma cc0_scratch15.sem) 0
          ∗ semVal (thrV d L, SemLoc.dma cc0_scratch16.sem) 0
          ∗ semVal (thrV d L, SemLoc.dma cc0_scratch17.sem) 0
          ∗ semVal (thrV d L, SemLoc.dma cc0_scratch18.sem) 0)
          ∗ bigSep (ownCells (thrV d L) \ tileSems.map (cellEmb (thrV d L))) fun g => semVal g 0) := by
  unfold SparseCore.Cfg.ownSems0
  rw [SparseCore.bigSep_sdiff_split' (tileSems_sub d L), BI.bigSep_map]
  unfold tileSems
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton]
  rfl

omit [FloatOps F] in
theorem tileRefs_sub (L : grid0.Coords) :
    tileRefs.map (refEmb (Proc.scVector (cV L) (jV L))) ⊆ ownRefs (τ := τ) (sig := sig) (Proc.scVector (cV L) (jV L)) := by
  intro b hb
  obtain ⟨r, hr, rfl⟩ := Finset.mem_map.mp hb
  simp only [tileRefs, Finset.mem_insert, Finset.mem_singleton] at hr
  rcases hr with rfl | rfl | rfl | rfl | rfl | rfl | rfl <;> exact SparseCore.Cfg.mem_ownRefs_of_owner rfl

omit [FloatOps F] in
theorem ownBufs_V (d : Dev nD) (L : grid0.Coords) :
    (ownBufs (thrV d L) : sProp 𝕄)
      = iprop(((∃ f, (thrV d L).loc cc0_scratch0 ↦{fullShare} f)
          ∗ (∃ f, (thrV d L).loc cc0_scratch1 ↦{fullShare} f)
          ∗ (∃ f, (thrV d L).loc cc0_scratch2 ↦{fullShare} f)
          ∗ (∃ f, (thrV d L).loc cc0_scratch3 ↦{fullShare} f)
          ∗ (∃ f, (thrV d L).loc cc0_scratch4 ↦{fullShare} f)
          ∗ (∃ f, (thrV d L).loc cc0_scratch5 ↦{fullShare} f)
          ∗ (∃ f, (thrV d L).loc cc0_scratch6 ↦{fullShare} f))
          ∗ bigSep (ownRefs (τ := τ) (Proc.scVector (cV L) (jV L)) \ tileRefs.map (refEmb (Proc.scVector (cV L) (jV L))))
              fun b => iprop(∃ f, ((d, b) : Loc nD τ sig) ↦{fullShare} f)) := by
  unfold SparseCore.Cfg.ownBufs
  rw [SparseCore.bigSep_sdiff_split' (tileRefs_sub L), BI.bigSep_map]
  unfold tileRefs
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton]
  rfl

end Cert.Proof.KB

end
-- ==== Proof.KB_TileGeom.lean ====
/-
  Geometry and bookkeeping for the gather kernel's run on one vector subcore: families over a segment of `Fin N`,
  the call's arrays as a tile's memrefs address them, a table's read shares one per DMA semaphore, and the index
  scratch row by row (the offset lists of the indirect gathers).
-/
import proofs.«215899_g5772436046013_cont_9to1c4b_742_31_alg».proof.Proof.KB_TileOwn

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## Families over an initial or a final segment of `Fin N` -/

section Segments

/-- The first of a final segment comes out. -/
theorem bigSep_from_pop {N : ℕ} (Φ : Fin N → sProp 𝕄) (n : ℕ) (h : n < N) :
    bigSep (Finset.univ.filter fun k : Fin N => n ≤ k.val) Φ
      = iprop(Φ ⟨n, h⟩ ∗ bigSep (Finset.univ.filter fun k : Fin N => n + 1 ≤ k.val) Φ) := by
  rw [← SparseCore.bigSep_insert' (by simp)]
  congr 1; ext k; simp only [Finset.mem_filter, Finset.mem_univ, true_and, Finset.mem_insert, Fin.ext_iff]; omega

/-- The next goes into a middle segment. -/
theorem bigSep_mid_push {N : ℕ} (Φ : Fin N → sProp 𝕄) (a n : ℕ) (h : n < N) (han : a ≤ n) :
    bigSep (Finset.univ.filter fun k : Fin N => a ≤ k.val ∧ k.val < n + 1) Φ
      = iprop(Φ ⟨n, h⟩ ∗ bigSep (Finset.univ.filter fun k : Fin N => a ≤ k.val ∧ k.val < n) Φ) := by
  rw [← SparseCore.bigSep_insert' (by simp)]
  congr 1; ext k; simp only [Finset.mem_filter, Finset.mem_univ, true_and, Finset.mem_insert, Fin.ext_iff]; omega

theorem bigSep_from_zero {N : ℕ} (Φ : Fin N → sProp 𝕄) : bigSep (Finset.univ.filter fun k : Fin N => 0 ≤ k.val) Φ = bigSep Finset.univ Φ := by
  congr 1; ext k; simp

theorem bigSep_from_top {N : ℕ} (Φ : Fin N → sProp 𝕄) (n : ℕ) (h : N ≤ n) : bigSep (Finset.univ.filter fun k : Fin N => n ≤ k.val) Φ = iprop(emp) := by
  rw [show (Finset.univ.filter fun k : Fin N => n ≤ k.val) = ∅ from by ext k; simp; omega, bigSep_empty]; rfl

theorem bigSep_mid_empty {N : ℕ} (Φ : Fin N → sProp 𝕄) (a : ℕ) : bigSep (Finset.univ.filter fun k : Fin N => a ≤ k.val ∧ k.val < a) Φ = iprop(emp) := by
  rw [show (Finset.univ.filter fun k : Fin N => a ≤ k.val ∧ k.val < a) = ∅ from by ext k; simp <;> omega, bigSep_empty]; rfl

theorem bigSep_mid_all {N : ℕ} (Φ : Fin N → sProp 𝕄) : bigSep (Finset.univ.filter fun k : Fin N => 0 ≤ k.val ∧ k.val < N) Φ = bigSep Finset.univ Φ := by
  congr 1; ext k; simp

end Segments

/-! ## The arrays as the tile's memrefs address them -/

section Pts

variable (d : Dev nD) (L : grid0.Coords)

theorem pts_t0 (q : PosShare TreeShare) (f : Buf (Elt F) (t0Loc d)) :
    ((t0V).view.loc (thrV d L) ↦{q} f : sProp 𝕄) = (t0Loc d ↦{q} f) := rfl
theorem pts_t1 (q : PosShare TreeShare) (f : Buf (Elt F) (t1Loc d)) :
    ((t1V).view.loc (thrV d L) ↦{q} f : sProp 𝕄) = (t1Loc d ↦{q} f) := rfl
theorem pts_ix (f : Buf (Elt F) (ixLoc d)) :
    ((ixSl L).view.loc (thrV d L) ↦[(ixSl L).view.set]{fullShare} f : sProp 𝕄) = (ixLoc d ↦[(ixSl L).view.set]{fullShare} f) := rfl
theorem pts_o0 (f : Buf (Elt F) (o0Loc d)) :
    ((o0Sl L).view.loc (thrV d L) ↦[(o0Sl L).view.set]{fullShare} f : sProp 𝕄) = (o0Loc d ↦[(o0Sl L).view.set]{fullShare} f) := rfl
theorem pts_o1 (f : Buf (Elt F) (o1Loc d)) :
    ((o1Sl L).view.loc (thrV d L) ↦[(o1Sl L).view.set]{fullShare} f : sProp 𝕄) = (o1Loc d ↦[(o1Sl L).view.set]{fullShare} f) := rfl
theorem pts_scr (b : Ref sig .scVector) (f : Buf (Elt F) ((thrV d L).loc b)) :
    ((Memref.whole b : Memref sig .scVector _ _ _).view.loc (thrV d L) ↦{fullShare} f : sProp 𝕄) = ((thrV d L).loc b ↦{fullShare} f) := rfl

/-! ### The table's read shares, one per DMA semaphore number -/

/-- One more read token off the remainder. -/
theorem tok_step {ℓ : Loc nD τ sig} (q : PosShare TreeShare) (k : ℕ) (f : Buf (Elt F) ℓ) :
    (ℓ ↦{Transfers.shareDrop q k} f : sProp 𝕄) ⊣⊢ iprop((ℓ ↦{Transfers.shareDrop q (k + 1)} f) ∗ (ℓ ↦{Transfers.shareTokN q k} f)) :=
  pointsTo_share (PosShare.mem_left_op_right _)

/-- A points-to split into the read tokens of cells 0 … 7 and the remainder; -/
theorem toks8_split {ℓ : Loc nD τ sig} (q : PosShare TreeShare) (f : Buf (Elt F) ℓ) :
    (ℓ ↦{q} f : sProp 𝕄) ⊢ iprop((ℓ ↦{Transfers.shareDrop q 8} f)
      ∗ (ℓ ↦{Transfers.shareTokN q 7} f) ∗ (ℓ ↦{Transfers.shareTokN q 6} f) ∗ (ℓ ↦{Transfers.shareTokN q 5} f) ∗ (ℓ ↦{Transfers.shareTokN q 4} f)
      ∗ (ℓ ↦{Transfers.shareTokN q 3} f) ∗ (ℓ ↦{Transfers.shareTokN q 2} f) ∗ (ℓ ↦{Transfers.shareTokN q 1} f) ∗ (ℓ ↦{Transfers.shareTokN q 0} f)) := by
  refine (Entails.of_eq (show (ℓ ↦{q} f : sProp 𝕄) = (ℓ ↦{Transfers.shareDrop q 0} f) from rfl)).trans ?_
  iintro H
  ihave H := (tok_step (F := F) q 0 f).1 $$ H; icases H with ⟨H, H0⟩
  ihave H := (tok_step (F := F) q 1 f).1 $$ H; icases H with ⟨H, H1⟩
  ihave H := (tok_step (F := F) q 2 f).1 $$ H; icases H with ⟨H, H2⟩
  ihave H := (tok_step (F := F) q 3 f).1 $$ H; icases H with ⟨H, H3⟩
  ihave H := (tok_step (F := F) q 4 f).1 $$ H; icases H with ⟨H, H4⟩
  ihave H := (tok_step (F := F) q 5 f).1 $$ H; icases H with ⟨H, H5⟩
  ihave H := (tok_step (F := F) q 6 f).1 $$ H; icases H with ⟨H, H6⟩
  ihave H := (tok_step (F := F) q 7 f).1 $$ H; icases H with ⟨H, H7⟩
  isplitl [H]; · iexact H
  isplitl [H7]; · iexact H7
  isplitl [H6]; · iexact H6
  isplitl [H5]; · iexact H5
  isplitl [H4]; · iexact H4
  isplitl [H3]; · iexact H3
  isplitl [H2]; · iexact H2
  isplitl [H1]; · iexact H1
  iexact H0

/-- and joined back. -/
theorem toks8_join {ℓ : Loc nD τ sig} (q : PosShare TreeShare) (f : Buf (Elt F) ℓ) :
    iprop((ℓ ↦{Transfers.shareDrop q 8} f)
      ∗ (ℓ ↦{Transfers.shareTokN q 7} f) ∗ (ℓ ↦{Transfers.shareTokN q 6} f) ∗ (ℓ ↦{Transfers.shareTokN q 5} f) ∗ (ℓ ↦{Transfers.shareTokN q 4} f)
      ∗ (ℓ ↦{Transfers.shareTokN q 3} f) ∗ (ℓ ↦{Transfers.shareTokN q 2} f) ∗ (ℓ ↦{Transfers.shareTokN q 1} f) ∗ (ℓ ↦{Transfers.shareTokN q 0} f))
      ⊢ (ℓ ↦{q} f : sProp 𝕄) := by
  refine BIBase.Entails.trans ?_ (Entails.of_eq (show (ℓ ↦{Transfers.shareDrop q 0} f : sProp 𝕄) = (ℓ ↦{q} f) from rfl))
  iintro ⟨H, H7, H6, H5, H4, H3, H2, H1, H0⟩
  ihave H := (tok_step (F := F) q 7 f).2 $$ [H H7]; · isplitl [H] <;> iassumption
  ihave H := (tok_step (F := F) q 6 f).2 $$ [H H6]; · isplitl [H] <;> iassumption
  ihave H := (tok_step (F := F) q 5 f).2 $$ [H H5]; · isplitl [H] <;> iassumption
  ihave H := (tok_step (F := F) q 4 f).2 $$ [H H4]; · isplitl [H] <;> iassumption
  ihave H := (tok_step (F := F) q 3 f).2 $$ [H H3]; · isplitl [H] <;> iassumption
  ihave H := (tok_step (F := F) q 2 f).2 $$ [H H2]; · isplitl [H] <;> iassumption
  ihave H := (tok_step (F := F) q 1 f).2 $$ [H H1]; · isplitl [H] <;> iassumption
  ihave H := (tok_step (F := F) q 0 f).2 $$ [H H0]; · isplitl [H] <;> iassumption
  iexact H

end Pts

/-! ## The index scratch row by row -/

section Rows

theorem hdiv24 : 24 ∣ S24x128.size 0 := ⟨1, rfl⟩
abbrev a8Part (k : Fin 24) : Rect S24x128 := Rect.part (s := S24x128) (a₀ := 0) hdiv24 k
abbrev a8RowSet (k : Fin 24) : Finset S24x128.Idx := ((a8 : Memref sig .scVector .vmem S24x128 .i32).view.slice (a8Part k)).set

theorem a8RowSet_eq (k : Fin 24) : a8RowSet k = (a8Part k).set := by
  show ((View.whole (cc0_scratch0 : Ref sig .scVector)).slice (a8Part k)).set = _
  rw [View.set_slice]; exact Finset.map_refl
theorem a8rows_disjoint : ∀ i ∈ (Finset.univ : Finset (Fin 24)), ∀ j ∈ (Finset.univ : Finset (Fin 24)), i ≠ j → Disjoint (a8RowSet i) (a8RowSet j) :=
  fun i _ j _ h => by rw [a8RowSet_eq, a8RowSet_eq]; exact Rect.part_disjoint hdiv24 h
theorem a8rows_cover : (Finset.univ : Finset (Fin 24)).biUnion a8RowSet = Finset.univ :=
  (Finset.biUnion_congr rfl fun i _ => a8RowSet_eq i).trans (Rect.biUnion_part hdiv24)

end Rows

section Rows2

variable (d : Dev nD) (L : grid0.Coords)

abbrev a8Loc : Loc nD τ sig := (thrV d L).loc cc0_scratch0

/-- The index scratch whole is its 24 rows. -/
theorem a8_rows (f : Buf (Elt F) (a8Loc d L)) :
    (a8Loc d L ↦{fullShare} f : sProp 𝕄) = bigSep Finset.univ fun k : Fin 24 => a8Loc d L ↦[a8RowSet k]{fullShare} f := by
  rw [← pointsTo_biUnion Finset.univ (ℓ := a8Loc d L) a8RowSet a8rows_disjoint, a8rows_cover]; try rfl

/-- A row of the index scratch as the program takes it: a one-row slice, squeezed to a list of 128 words. -/
abbrev a8Row (off : Fin 2 → ℕ) (h : ∀ a, off a + S1x128.size a ≤ S24x128.size a) : Memref sig .scVector .vmem S128 .i32 :=
  ((a8).slice (Rect.unit (s := S24x128) off S1x128.size h) (fun _ => rfl)).squeeze S128 squeezes_S1x128_S128

theorem a8Row_rect (k : Fin 24) (off : Fin 2 → ℕ) (h : ∀ a, off a + S1x128.size a ≤ S24x128.size a) (hoff : off = ![k.val, 0]) :
    Rect.unit (s := S24x128) off S1x128.size h = a8Part k := by
  subst hoff
  unfold a8Part Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem a8Row_set (k : Fin 24) (off : Fin 2 → ℕ) (h : ∀ a, off a + S1x128.size a ≤ S24x128.size a) (hoff : off = ![k.val, 0]) :
    (a8Row off h).view.set = a8RowSet k := by
  show (((a8 : Memref sig .scVector .vmem S24x128 .i32).view.slice (Rect.unit (s := S24x128) off S1x128.size h)).reshape S128 squeezes_S1x128_S128.numel_eq).set
    = ((a8 : Memref sig .scVector .vmem S24x128 .i32).view.slice (a8Part k)).set
  rw [View.set_reshape]
  exact (a8Row_rect k off h hoff) ▸ rfl

theorem pts_a8Row (k : Fin 24) (off : Fin 2 → ℕ) (h : ∀ a, off a + S1x128.size a ≤ S24x128.size a) (hoff : off = ![k.val, 0])
    (f : Buf (Elt F) (a8Loc d L)) :
    ((a8Row off h).view.loc (thrV d L) ↦[(a8Row off h).view.set]{fullShare} f : sProp 𝕄) = (a8Loc d L ↦[a8RowSet k]{fullShare} f) := by
  rw [a8Row_set k off h hoff]

end Rows2

end Cert.Proof.KB

end
-- ==== Proof.KB_TileInv.lean ====
/-
  The gather kernel's ring at the head of a trip: what the index scratch holds, the offset lists' range, the rows a
  gather lands, the transfers in flight as the run holds them, and the loop's invariant.
-/
import proofs.«215899_g5772436046013_cont_9to1c4b_742_31_alg».proof.Proof.KB_TileGeom

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## The index scratch's contents and the offset lists' range -/

/-- What the index scratch holds once the tile's rows of the index array have landed. -/
def A8c (d : Dev nD) (IX : Buf (Elt F) (ixLoc d)) (L : grid0.Coords) : Buf (Elt F) (a8Loc d L) :=
  show S24x128.Idx → Elt F .i32 from (ixSl L).view.read (Elt F) IX

theorem rowInb (k : Fin 24) : ∀ a, (![k.val, 0] : Fin 2 → ℕ) a + S1x128.size a ≤ S24x128.size a := by
  intro a
  have := k.isLt
  match a with
  | 0 => show k.val + 1 ≤ 24; omega
  | 1 => show 0 + 128 ≤ 128; omega

theorem a8Row_emb0 (k : Fin 24) (h : ∀ a, (![k.val, 0] : Fin 2 → ℕ) a + S1x128.size a ≤ S24x128.size a) (x : S128.Idx) :
    ((a8Row ![k.val, 0] h).view.emb x 0).val = k.val := by
  have key : ∀ j : S1x128.Idx, ((Rect.unit (s := S24x128) ![k.val, 0] S1x128.size h).emb j 0).val = k.val := by
    intro j
    have hj : (j 0).val < 1 := (j 0).isLt
    rw [Rect.emb_apply]
    show k.val + 1 * (j 0).val = k.val
    omega
  exact key _

/-- Every offset list the kernel gathers by holds row numbers of the tables. -/
theorem hin_rows (d : Dev nD) (IX : Buf (Elt F) (ixLoc d)) (L : grid0.Coords) (hIX : IXOK d IX) (k : Fin 24) (off : Fin 2 → ℕ)
    (h : ∀ a, off a + S1x128.size a ≤ S24x128.size a) (hoff : off = ![k.val, 0]) (hk : k.val < 22) (x : S128.Idx) :
    (View.read (Elt F) (a8Row off h).view (A8c d IX L) x).toNat < 100000 := by
  subst hoff
  exact hIX L ((a8Row ![k.val, 0] h).view.emb x) (by rw [a8Row_emb0]; exact hk)

theorem a8Row_congr {off off' : Fin 2 → ℕ} (e : off = off') (h : ∀ a, off a + S1x128.size a ≤ S24x128.size a)
    (h' : ∀ a, off' a + S1x128.size a ≤ S24x128.size a) : a8Row off h = a8Row off' h' := by
  subst e; rfl

/-! ## The third result's blocks in the program's spellings -/

/-- A block of the third result held through a slice at `off` is held through the slice at an equal offset. -/
theorem pts_negOff (d : Dev nD) (L : grid0.Coords) {off off' : Fin 2 → ℕ} (e : off = off')
    (h : ∀ a, off a + S128x128.size a ≤ S81920x128.size a) (h' : ∀ a, off' a + S128x128.size a ≤ S81920x128.size a)
    (f : Buf (Elt F) (o2Loc d)) :
    (View.loc (thrV d L) ((o2V).slice (Rect.unit (s := S81920x128) off S128x128.size h) (fun _ => rfl)).view
        ↦[((o2V).slice (Rect.unit (s := S81920x128) off S128x128.size h) (fun _ => rfl)).view.set]{fullShare} f : sProp 𝕄)
      = (View.loc (thrV d L) ((o2V).slice (Rect.unit (s := S81920x128) off' S128x128.size h') (fun _ => rfl)).view
        ↦[((o2V).slice (Rect.unit (s := S81920x128) off' S128x128.size h') (fun _ => rfl)).view.set]{fullShare} f) := by
  subst e; rfl

theorem k0_off2_neg (L : grid0.Coords) (r : Fin 5) (j : ℕ) (hj : (k0_off2_at r).toNat = 4096 * j) :
    k0_off2 L (k0_off2_at r) = negOff L j := by
  rw [k0_off2_wid, hj]; rfl

/-! ## The gathered rows, and the transfers in flight -/

/-- The second table as every gather of the ring reads it: a full slice of the whole array. -/
abbrev t1Sl : Memref sig .scVector .hbm S100000x128 .f32 :=
  (t1V).slice (Rect.unit (s := S100000x128) ![0, 0] S100000x128.size inb_S100000x128_S100000x128_0_0) (fun _ => rfl)
abbrev t0Sl : Memref sig .scVector .hbm S100000x128 .f32 :=
  (t0V).slice (Rect.unit (s := S100000x128) ![0, 0] S100000x128.size inb_S100000x128_S100000x128_0_0) (fun _ => rfl)

def rowF (n : ℕ) : Fin 24 := ⟨n % 24, Nat.mod_lt _ (by decide)⟩
def blkF (n : ℕ) : Fin 20 := ⟨n % 20, Nat.mod_lt _ (by decide)⟩

section Inv

variable (d : Dev nD) (T0 : Buf (Elt F) (t0Loc d)) (T1 : Buf (Elt F) (t1Loc d)) (IX : Buf (Elt F) (ixLoc d)) (L : grid0.Coords)

/-- The 128 rows a table yields for row `k` of the tile's index rows: row `r` is the table's row `IX[24 * wid + k, r]`. -/
def gRows (Tb : S100000x128.Idx → Elt F .f32) (k : ℕ) : S128x128.Idx → Elt F .f32 :=
  fun x => tblAt (F := F) Tb (ixWord d IX (wid L) k (x 0).val) (x 1)

/-- A gather in flight on the DMA semaphore `cell`, reading the second table by read token `tok` through row `row`
    of the index scratch into the scratch buffer `buf`: it delivers the buffer at `cont`, the row and the token. -/
def gFl (cell : DmaSem sig) (tok : ℕ) (buf : Ref sig .scVector) (row : Fin 24) (cont : Buf (Elt F) ((thrV d L).loc buf)) : sProp 𝕄 :=
  Transfers.Flight countersEmb (thrV d L) (SemLoc.dma cell) (default : HIx 4) 524288
    iprop(((View.loc (thrV d L) (Memref.whole buf).view ↦{fullShare} cont)
        ∗ View.loc (thrV d L) (a8Row ![row.val, 0] (rowInb row)).view ↦[(a8Row ![row.val, 0] (rowInb row)).view.set]{fullShare} A8c d IX L)
      ∗ View.loc (thrV d L) (t1V).view ↦[(t1Sl).view.set]{Transfers.shareTokN (tblShare L) tok} T1)

/-- A copy-out in flight on the DMA semaphore `cell`, from the scratch buffer `buf` to draw `j`'s block of the third
    result: it delivers the block at `bcont` and the buffer's elements at `cont`. -/
def wFl (cell : DmaSem sig) (buf : Ref sig .scVector) (j : Fin 20) (bcont : Buf (Elt F) (o2Loc d)) (cont : Buf (Elt F) ((thrV d L).loc buf)) : sProp 𝕄 :=
  Transfers.Flight countersEmb (thrV d L) (SemLoc.dma cell) (default : HIx 4) 524288
    iprop((View.loc (thrV d L) (negSl L j).view ↦[(negSl L j).view.set]{fullShare} bcont)
      ∗ View.loc (thrV d L) (Memref.whole buf).view ↦[(Memref.whole buf : Memref sig .scVector _ _ _).view.set]{fullShare} cont)

variable (O : CellTallies nD τ sig (HIx 4)) (W : Waits sig (HIx 4))

/-- The ring at the head of trip `t`: draws `4t+1, 4t+2, 4t+3` being gathered into ring buffers 1, 2, 3, draw `4t` on
    its way out of ring buffer 0; ring semaphore 4 and the copy-out semaphores 9, 10, 11 at rest with read token 4;
    the index rows before `4t+3` and from `4t+6` on at rest; the blocks before `4t` written, those after `4t` not yet. -/
def inv (t : ℕ) (_ : PUnit) : sProp 𝕄 :=
  iprop(Transfers.MayWaits (thrV d L) (none : HIx 4) O
    ∗ gFl d T1 IX L ⟨5, by decide⟩ 5 cc0_scratch4 (rowF (4 * t + 3)) (gRows d IX L T1 (4 * t + 3))
    ∗ (View.loc (thrV d L) (t1V).view ↦[Finset.univ \ (t1Sl).view.set]{Transfers.shareTokN (tblShare L) 5} T1)
    ∗ gFl d T1 IX L ⟨6, by decide⟩ 6 cc0_scratch5 (rowF (4 * t + 4)) (gRows d IX L T1 (4 * t + 4))
    ∗ (View.loc (thrV d L) (t1V).view ↦[Finset.univ \ (t1Sl).view.set]{Transfers.shareTokN (tblShare L) 6} T1)
    ∗ gFl d T1 IX L ⟨7, by decide⟩ 7 cc0_scratch6 (rowF (4 * t + 5)) (gRows d IX L T1 (4 * t + 5))
    ∗ (View.loc (thrV d L) (t1V).view ↦[Finset.univ \ (t1Sl).view.set]{Transfers.shareTokN (tblShare L) 7} T1)
    ∗ wFl d L ⟨8, by decide⟩ cc0_scratch3 (blkF (4 * t)) (gV2 d T1 IX) (gRows d IX L T1 (4 * t + 2))
    ∗ (View.loc (thrV d L) (Memref.whole cc0_scratch3).view ↦[Finset.univ \ (rb0).view.set]{fullShare} gRows d IX L T1 (4 * t + 2))
    ∗ (View.loc (thrV d L) (t1V).view ↦{Transfers.shareTokN (tblShare L) 4} T1)
    ∗ semVal (thrV d L, SemLoc.dma ⟨4, by decide⟩) 0
    ∗ semVal (thrV d L, SemLoc.dma ⟨9, by decide⟩) 0
    ∗ semVal (thrV d L, SemLoc.dma ⟨10, by decide⟩) 0
    ∗ semVal (thrV d L, SemLoc.dma ⟨11, by decide⟩) 0
    ∗ (bigSep (Finset.univ.filter fun k : Fin 24 => 2 ≤ k.val ∧ k.val < 4 * t + 3) fun k => a8Loc d L ↦[a8RowSet k]{fullShare} A8c d IX L)
    ∗ (bigSep (Finset.univ.filter fun k : Fin 24 => 4 * t + 6 ≤ k.val) fun k => a8Loc d L ↦[a8RowSet k]{fullShare} A8c d IX L)
    ∗ (bigSep (Finset.univ.filter fun j : Fin 20 => 0 ≤ j.val ∧ j.val < 4 * t) fun j => o2Loc d ↦[(negSl L j).view.set]{fullShare} gV2 d T1 IX)
    ∗ (bigSep (Finset.univ.filter fun j : Fin 20 => 4 * t + 1 ≤ j.val) fun j => iprop(∃ f, o2Loc d ↦[(negSl L j).view.set]{fullShare} f))
    ∗ ∃ W', ⌜∀ p ∈ W', p ∈ W ∨ p.2 = none⌝ ∗ owes (thrV d L) O W')

end Inv

end Cert.Proof.KB

end
-- ==== Proof.KB_TileVal.lean ====
/-
  The values the gather kernel moves: what an indirect gather by a row of the index scratch lands in a buffer, and
  what a copy-out of those rows leaves in the results' blocks — the whole-array value functions there.
-/
import proofs.«215899_g5772436046013_cont_9to1c4b_742_31_alg».proof.Proof.KB_TileInv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

variable (d : Dev nD) (T0 : Buf (Elt F) (t0Loc d)) (T1 : Buf (Elt F) (t1Loc d)) (IX : Buf (Elt F) (ixLoc d)) (L : grid0.Coords)

/-! ## Index arithmetic of the program's views -/

/-- The whole rectangle places an index at itself. -/
theorem whole_emb {s : Shape} (x : s.Idx) : (Rect.whole s).emb x = x := by
  funext a; apply Fin.ext
  rw [Rect.emb_apply]
  show 0 + 1 * (x a).val = (x a).val
  omega

/-- One whole-shape piece written through a view: at the view's element `x` the piece's value there. -/
theorem writes_whole_emb {κ : Kind} {sp : Space} {s : Shape} {e : EltTy} (v : View sig κ sp s e) (g : v.ty.Contents (Elt F))
    (w : s.Idx → Elt F e) (x : s.Idx) :
    v.writes (Elt F) g [⟨Rect.whole s, w⟩] (v.emb x) = _root_.cast (congrArg (Elt F) v.elt_eq.symm) (w x) := by
  have h := View.write_emb_of_mem (v := v.slice (Rect.whole s)) g w (Finset.mem_univ x)
  rw [View.emb_slice, Function.Embedding.trans_apply, whole_emb] at h
  exact h

/-- A write of a whole buffer leaves the written values. -/
theorem writes_whole (buf : Ref sig .scVector) (f w : Buf (Elt F) ((thrV d L).loc buf)) :
    (Memref.whole buf : Memref sig .scVector _ _ _).view.writes (Elt F) f [⟨Rect.whole buf.ty.shape, w⟩] = w := by
  funext i
  exact writes_whole_emb (View.whole buf) f w i

/-- Where an entry of row `k` of the index scratch sits: column `y`. -/
theorem a8Row_emb1 (k : Fin 24) (h : ∀ a, (![k.val, 0] : Fin 2 → ℕ) a + S1x128.size a ≤ S24x128.size a) (y : S128.Idx) :
    ((a8Row ![k.val, 0] h).view.emb y 1).val = (y 0).val := by
  have hz : Shape.reshapeEquiv (s := S1x128) (s' := S128) squeezes_S1x128_S128.numel_eq y = Fin.cons ⟨0, Nat.one_pos⟩ y :=
    Shape.reshapeEquiv_cons_one _ y
  show ((Rect.unit (s := S24x128) ![k.val, 0] S1x128.size h).emb
    (Shape.reshapeEquiv (s := S1x128) (s' := S128) squeezes_S1x128_S128.numel_eq y) 1).val = _
  rw [hz, Rect.emb_apply]
  show 0 + 1 * (y 0).val = (y 0).val
  omega

/-- The word an offset list's entry holds: the index array's word at the tile's row `k`, the entry's column. -/
theorem a8_word (k : Fin 24) (h : ∀ a, (![k.val, 0] : Fin 2 → ℕ) a + S1x128.size a ≤ S24x128.size a) (y : S128.Idx) :
    (View.read (Elt F) (a8Row ![k.val, 0] h).view (A8c d IX L) y).toNat = ixWord d IX (wid L) k.val (y 0).val := by
  have hk := k.isLt
  have hy : (y 0).val < 128 := (y 0).isLt
  have hw32 := wid_lt L
  have hc : 24 * wid L + k.val < 768 ∧ (y 0).val < 128 := ⟨by omega, hy⟩
  unfold ixWord
  rw [dif_pos hc, View.read_apply, cast_eq]
  unfold A8c
  rw [View.read_apply, cast_eq]
  refine congrArg (fun z => BitVec.toNat (IX z)) ?_
  funext a; apply Fin.ext
  show ((ixRect L).emb ((a8Row ![k.val, 0] h).view.emb y) a).val = _
  rw [Rect.emb_apply]
  show k0_off1 L a + 1 * ((a8Row ![k.val, 0] h).view.emb y a).val = _
  rw [k0_off1_wid]
  match a with
  | 0 => rw [a8Row_emb0]; show 24 * wid L + 1 * k.val = 24 * wid L + k.val; omega
  | 1 => rw [a8Row_emb1]; show 0 + 1 * (y 0).val = (y 0).val; omega

/-- What a gather by row `k` of the index scratch lands: the table's rows the tile's index row `k` names. -/
theorem gather_val1 (k : Fin 24) (h : ∀ a, (![k.val, 0] : Fin 2 → ℕ) a + S1x128.size a ≤ S24x128.size a)
    (hg : S100000x128.Gathers 0 S128x128) (hn : S128.numel = S128x128.size hg.axis')
    (hin : ∀ x, (View.read (Elt F) (a8Row ![k.val, 0] h).view (A8c d IX L) x).toNat < S100000x128.size hg.axis) :
    SparseCore.gatherPayload hg (View.read (Elt F) (t1Sl).view T1) (SparseCore.rows (View.read (Elt F) (a8Row ![k.val, 0] h).view (A8c d IX L)) hn hin)
      = gRows d IX L T1 k.val := by
  funext x
  have ha : hg.axis = (0 : Fin S100000x128.rank) := Fin.ext rfl
  have ha' : hg.axis' = (0 : Fin S128x128.rank) := Fin.ext rfl
  -- the row the entry names
  have hr : ((SparseCore.rows (View.read (Elt F) (a8Row ![k.val, 0] h).view (A8c d IX L)) hn hin) (x hg.axis')).val
      = ixWord d IX (wid L) k.val (x 0).val := by
    unfold SparseCore.rows
    show (View.read (Elt F) (a8Row ![k.val, 0] h).view (A8c d IX L) (S128.rowMajor.symm ((x hg.axis').cast hn.symm))).toNat = _
    rw [a8_word]
    congr 1
    have e := Shape.rowMajor_val_one (d := ![128]) (S128.rowMajor.symm ((x hg.axis').cast hn.symm))
    rw [Equiv.apply_symm_apply] at e
    rw [← e]
    exact congrArg (fun i => (x i).val) ha'
  have hlt : ixWord d IX (wid L) k.val (x 0).val < 100000 := hr ▸ (SparseCore.rows _ hn hin (x hg.axis')).isLt
  unfold SparseCore.gatherPayload gRows tblAt
  rw [View.read_apply, cast_eq, dif_pos hlt]
  refine congrArg T1 ?_
  funext a; apply Fin.ext
  show ((Rect.unit (s := S100000x128) ![0, 0] S100000x128.size inb_S100000x128_S100000x128_0_0).emb (hg.idx _ x) a).val = _
  rw [Rect.emb_apply]
  match a with
  | 0 =>
    show 0 + 1 * (hg.idx _ x 0).val = ixWord d IX (wid L) k.val (x 0).val
    have h0 : (hg.idx (SparseCore.rows (View.read (Elt F) (a8Row ![k.val, 0] h).view (A8c d IX L)) hn hin) x 0).val
        = (hg.idx (SparseCore.rows (View.read (Elt F) (a8Row ![k.val, 0] h).view (A8c d IX L)) hn hin) x hg.axis).val :=
      congrArg (fun i => (hg.idx (SparseCore.rows (View.read (Elt F) (a8Row ![k.val, 0] h).view (A8c d IX L)) hn hin) x i).val) ha.symm
    rw [h0, Shape.Gathers.idx_axis, hr]; omega
  | 1 =>
    show 0 + 1 * (hg.idx _ x 1).val = (x 1).val
    rw [Shape.Gathers.idx_of_ne hg _ x 1 (by decide)]
    show 0 + 1 * (x 1).val = (x 1).val
    omega

theorem gather_val0 (k : Fin 24) (h : ∀ a, (![k.val, 0] : Fin 2 → ℕ) a + S1x128.size a ≤ S24x128.size a)
    (hg : S100000x128.Gathers 0 S128x128) (hn : S128.numel = S128x128.size hg.axis')
    (hin : ∀ x, (View.read (Elt F) (a8Row ![k.val, 0] h).view (A8c d IX L) x).toNat < S100000x128.size hg.axis) :
    SparseCore.gatherPayload hg (View.read (Elt F) (t0Sl).view T0) (SparseCore.rows (View.read (Elt F) (a8Row ![k.val, 0] h).view (A8c d IX L)) hn hin)
      = gRows d IX L T0 k.val := by
  funext x
  have ha : hg.axis = (0 : Fin S100000x128.rank) := Fin.ext rfl
  have ha' : hg.axis' = (0 : Fin S128x128.rank) := Fin.ext rfl
  -- the row the entry names
  have hr : ((SparseCore.rows (View.read (Elt F) (a8Row ![k.val, 0] h).view (A8c d IX L)) hn hin) (x hg.axis')).val
      = ixWord d IX (wid L) k.val (x 0).val := by
    unfold SparseCore.rows
    show (View.read (Elt F) (a8Row ![k.val, 0] h).view (A8c d IX L) (S128.rowMajor.symm ((x hg.axis').cast hn.symm))).toNat = _
    rw [a8_word]
    congr 1
    have e := Shape.rowMajor_val_one (d := ![128]) (S128.rowMajor.symm ((x hg.axis').cast hn.symm))
    rw [Equiv.apply_symm_apply] at e
    rw [← e]
    exact congrArg (fun i => (x i).val) ha'
  have hlt : ixWord d IX (wid L) k.val (x 0).val < 100000 := hr ▸ (SparseCore.rows _ hn hin (x hg.axis')).isLt
  unfold SparseCore.gatherPayload gRows tblAt
  rw [View.read_apply, cast_eq, dif_pos hlt]
  refine congrArg T0 ?_
  funext a; apply Fin.ext
  show ((Rect.unit (s := S100000x128) ![0, 0] S100000x128.size inb_S100000x128_S100000x128_0_0).emb (hg.idx _ x) a).val = _
  rw [Rect.emb_apply]
  match a with
  | 0 =>
    show 0 + 1 * (hg.idx _ x 0).val = ixWord d IX (wid L) k.val (x 0).val
    have h0 : (hg.idx (SparseCore.rows (View.read (Elt F) (a8Row ![k.val, 0] h).view (A8c d IX L)) hn hin) x 0).val
        = (hg.idx (SparseCore.rows (View.read (Elt F) (a8Row ![k.val, 0] h).view (A8c d IX L)) hn hin) x hg.axis).val :=
      congrArg (fun i => (hg.idx (SparseCore.rows (View.read (Elt F) (a8Row ![k.val, 0] h).view (A8c d IX L)) hn hin) x i).val) ha.symm
    rw [h0, Shape.Gathers.idx_axis, hr]; omega
  | 1 =>
    show 0 + 1 * (hg.idx _ x 1).val = (x 1).val
    rw [Shape.Gathers.idx_of_ne hg _ x 1 (by decide)]
    show 0 + 1 * (x 1).val = (x 1).val
    omega

/-- What a copy-out of the rows gathered for draw `j` leaves in the draw's block: the third result's values there. -/
theorem block_val2 (j : Fin 20) (buf : Ref sig .scVector) (hb : buf.ty = ⟨S128x128, .f32⟩) (g : Buf (Elt F) (o2Loc d))
    (w : S128x128.Idx → Elt F .f32) (hw : w = gRows d IX L T1 (2 + j.val)) :
    ∀ i ∈ (negSl L j).view.set, ((negSl L j).view.writes (Elt F) g [⟨Rect.whole (negRect L j).shape, w⟩]) i = gV2 d T1 IX i := by
  intro i hi
  subst hw
  have hi' : i ∈ (negRect L j).set := by
    rw [show (negSl L j).view.set = (negRect L j).set from View.set_slice_whole _ _] at hi; exact hi
  obtain ⟨x, rfl⟩ := (negRect L j).exists_idx_of_mem hi'
  refine (writes_whole_emb (negSl L j).view g (gRows d IX L T1 (2 + j.val)) x).trans ?_
  rw [cast_eq]
  have hx0 : (x 0).val < 128 := (x 0).isLt
  have hw32 := wid_lt L
  have hj := j.isLt
  have e0 : (((negRect L j).emb x) 0).val = 128 * wid L + 4096 * j.val + (x 0).val := by
    rw [Rect.emb_apply]; show 128 * wid L + 4096 * j.val + 1 * (x 0).val = _; omega
  have e1 : ((negRect L j).emb x) 1 = x 1 := by
    apply Fin.ext; rw [Rect.emb_apply]; show 0 + 1 * (x 1).val = _; omega
  show tblAt (F := F) T1 (ixWord d IX (wid L) (2 + j.val) (x 0).val) (x 1)
    = tblAt (F := F) T1 (ixWord d IX ((((negRect L j).emb x) 0).val % 4096 / 128) (2 + (((negRect L j).emb x) 0).val / 4096) ((((negRect L j).emb x) 0).val % 128)) (((negRect L j).emb x) 1)
  rw [e1, e0, show (128 * wid L + 4096 * j.val + (x 0).val) % 4096 / 128 = wid L by omega,
    show (128 * wid L + 4096 * j.val + (x 0).val) / 4096 = j.val by omega,
    show (128 * wid L + 4096 * j.val + (x 0).val) % 128 = (x 0).val by omega]

theorem block_val0 (g : Buf (Elt F) (o0Loc d)) (w : S128x128.Idx → Elt F .f32) (hw : w = gRows d IX L T0 0) :
    ∀ i ∈ (o0Sl L).view.set, ((o0Sl L).view.writes (Elt F) g [⟨Rect.whole (oRect L).shape, w⟩]) i = gV0 d T0 IX i := by
  intro i hi
  subst hw
  have hi' : i ∈ (oRect L).set := by
    rw [show (o0Sl L).view.set = (oRect L).set from View.set_slice_whole _ _] at hi; exact hi
  obtain ⟨x, rfl⟩ := (oRect L).exists_idx_of_mem hi'
  refine (writes_whole_emb (o0Sl L).view g (gRows d IX L T0 0) x).trans ?_
  rw [cast_eq]
  have hx0 : (x 0).val < 128 := (x 0).isLt
  have hw32 := wid_lt L
  have e0 : (((oRect L).emb x) 0).val = 128 * wid L + (x 0).val := by
    rw [Rect.emb_apply]; show k0_off7 L 0 + 1 * (x 0).val = _
    rw [k0_off7_wid]; show 128 * wid L + 1 * (x 0).val = _; omega
  have e1 : ((oRect L).emb x) 1 = x 1 := by
    apply Fin.ext; rw [Rect.emb_apply]; show k0_off7 L 1 + 1 * (x 1).val = _
    rw [k0_off7_wid]; show 0 + 1 * (x 1).val = _; omega
  show tblAt (F := F) T0 (ixWord d IX (wid L) 0 (x 0).val) (x 1)
    = tblAt (F := F) T0 (ixWord d IX ((((oRect L).emb x) 0).val / 128) 0 ((((oRect L).emb x) 0).val % 128)) (((oRect L).emb x) 1)
  rw [e1, e0, show (128 * wid L + (x 0).val) / 128 = wid L by omega, show (128 * wid L + (x 0).val) % 128 = (x 0).val by omega]

theorem block_val1 (g : Buf (Elt F) (o1Loc d)) (w : S128x128.Idx → Elt F .f32) (hw : w = gRows d IX L T1 1) :
    ∀ i ∈ (o1Sl L).view.set, ((o1Sl L).view.writes (Elt F) g [⟨Rect.whole (oRect L).shape, w⟩]) i = gV1 d T1 IX i := by
  intro i hi
  subst hw
  have hi' : i ∈ (oRect L).set := by
    rw [show (o1Sl L).view.set = (oRect L).set from View.set_slice_whole _ _] at hi; exact hi
  obtain ⟨x, rfl⟩ := (oRect L).exists_idx_of_mem hi'
  refine (writes_whole_emb (o1Sl L).view g (gRows d IX L T1 1) x).trans ?_
  rw [cast_eq]
  have hx0 : (x 0).val < 128 := (x 0).isLt
  have hw32 := wid_lt L
  have e0 : (((oRect L).emb x) 0).val = 128 * wid L + (x 0).val := by
    rw [Rect.emb_apply]; show k0_off7 L 0 + 1 * (x 0).val = _
    rw [k0_off7_wid]; show 128 * wid L + 1 * (x 0).val = _; omega
  have e1 : ((oRect L).emb x) 1 = x 1 := by
    apply Fin.ext; rw [Rect.emb_apply]; show k0_off7 L 1 + 1 * (x 1).val = _
    rw [k0_off7_wid]; show 0 + 1 * (x 1).val = _; omega
  show tblAt (F := F) T1 (ixWord d IX (wid L) 1 (x 0).val) (x 1)
    = tblAt (F := F) T1 (ixWord d IX ((((oRect L).emb x) 0).val / 128) 1 ((((oRect L).emb x) 0).val % 128)) (((oRect L).emb x) 1)
  rw [e1, e0, show (128 * wid L + (x 0).val) / 128 = wid L by omega, show (128 * wid L + (x 0).val) % 128 = (x 0).val by omega]

end Cert.Proof.KB

end
-- ==== Proof.KB_TileEpi.lean ====
/-
  The end of the gather kernel on a tile: segments of index families that run to the end, and a block of the third
  result once the copy-out of a draw's rows has written it.
-/
import proofs.«215899_g5772436046013_cont_9to1c4b_742_31_alg».proof.Proof.KB_TileVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section Epi

variable (d : Dev nD) (T0 : Buf (Elt F) (t0Loc d)) (T1 : Buf (Elt F) (t1Loc d)) (IX : Buf (Elt F) (ixLoc d)) (L : grid0.Coords)

/-- A middle segment that runs to the end is a final segment. -/
theorem bigSep_mid_top {N : ℕ} (Φ : Fin N → sProp 𝕄) (a : ℕ) :
    bigSep (Finset.univ.filter fun k : Fin N => a ≤ k.val ∧ k.val < N) Φ = bigSep (Finset.univ.filter fun k : Fin N => a ≤ k.val) Φ := by
  congr 1; ext k; simp

/-- A block of the third result the copy-out of draw `j`'s rows has written, in the program's spelling of the block,
    is the block at the third result's values. -/
theorem blk_done (j : Fin 20) (off : Fin 2 → ℕ) (h : ∀ a, off a + S128x128.size a ≤ S81920x128.size a) (hoff : off = negOff L j.val)
    (g : Buf (Elt F) (o2Loc d)) (w : S128x128.Idx → Elt F .f32) (hw : w = gRows d IX L T1 (2 + j.val)) :
    (View.loc (thrV d L) ((o2V).slice (Rect.unit (s := S81920x128) off S128x128.size h) (fun _ => rfl)).view
        ↦[((o2V).slice (Rect.unit (s := S81920x128) off S128x128.size h) (fun _ => rfl)).view.set]{fullShare}
        ((o2V).slice (Rect.unit (s := S81920x128) off S128x128.size h) (fun _ => rfl)).view.writes (Elt F) g
          [⟨Rect.whole (Rect.unit (s := S81920x128) off S128x128.size h).shape, w⟩] : sProp 𝕄)
      ⊢ (o2Loc d ↦[(negSl L j).view.set]{fullShare} gV2 d T1 IX) := by
  subst hoff
  exact Entails.of_eq (pointsTo_congr (block_val2 (F := F) d T1 IX L j cc0_scratch3 rfl g w hw))

end Epi

end Cert.Proof.KB

end
-- ==== Proof.KB_Tile.lean ====
/-
  The gather kernel of call 0 on one vector subcore, as the launch theorem's obligation: the kernel's run at a
  symbolic tile from the tile's resources to its results, and the obligation in the launch theorem's own spelling.
-/
import proofs.«215899_g5772436046013_cont_9to1c4b_742_31_alg».proof.Proof.KB_TileEpi

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section Intro

variable (d : Dev nD) (T0 : Buf (Elt F) (t0Loc d)) (T1 : Buf (Elt F) (t1Loc d)) (IX : Buf (Elt F) (ixLoc d)) (L : grid0.Coords)

/-- A gather's flight as the run leaves it is the invariant's, the landed rows in closed form. -/
theorem gFl_intro (cell : DmaSem sig) (tok : ℕ) (buf : Ref sig .scVector) (row : Fin 24) (off : Fin 2 → ℕ)
    (h : ∀ a, off a + S1x128.size a ≤ S24x128.size a) (hoff : off = ![row.val, 0])
    (c0 cont : Buf (Elt F) ((thrV d L).loc buf)) (hc : c0 = cont) :
    Transfers.Flight countersEmb (thrV d L) (SemLoc.dma cell) (default : HIx 4) 524288
      iprop(((View.loc (thrV d L) (Memref.whole buf).view ↦{fullShare} c0)
          ∗ View.loc (thrV d L) (a8Row off h).view ↦[(a8Row off h).view.set]{fullShare} A8c d IX L)
        ∗ View.loc (thrV d L) (t1V).view ↦[(t1Sl).view.set]{Transfers.shareTokN (tblShare L) tok} T1)
      ⊢ (gFl d T1 IX L cell tok buf row cont : sProp 𝕄) := by
  subst hoff hc; exact .rfl

/-- A copy-out's flight as the run leaves it is the invariant's, the block at the third result's values. -/
theorem wFl_intro (cell : DmaSem sig) (buf : Ref sig .scVector) (j : Fin 20) (off : Fin 2 → ℕ)
    (h : ∀ a, off a + S128x128.size a ≤ S81920x128.size a) (hoff : off = negOff L j.val)
    (b0 bcont : Buf (Elt F) (o2Loc d)) (hb : ∀ i ∈ (negSl L j).view.set, b0 i = bcont i)
    (c0 cont : Buf (Elt F) ((thrV d L).loc buf)) (hc : c0 = cont) :
    Transfers.Flight countersEmb (thrV d L) (SemLoc.dma cell) (default : HIx 4) 524288
      iprop((View.loc (thrV d L) ((o2V).slice (Rect.unit (s := S81920x128) off S128x128.size h) (fun _ => rfl)).view
            ↦[((o2V).slice (Rect.unit (s := S81920x128) off S128x128.size h) (fun _ => rfl)).view.set]{fullShare} b0)
        ∗ View.loc (thrV d L) (Memref.whole buf).view ↦[(Memref.whole buf : Memref sig .scVector _ _ _).view.set]{fullShare} c0)
      ⊢ (wFl d L cell buf j bcont cont : sProp 𝕄) := by
  subst hoff hc
  refine Transfers.Flight_mono countersEmb (thrV d L) ?_
  rw [show (View.loc (thrV d L) ((o2V).slice (Rect.unit (s := S81920x128) (negOff L j.val) S128x128.size h) (fun _ => rfl)).view
            ↦[((o2V).slice (Rect.unit (s := S81920x128) (negOff L j.val) S128x128.size h) (fun _ => rfl)).view.set]{fullShare} b0 : sProp 𝕄)
        = (View.loc (thrV d L) (negSl L j).view ↦[(negSl L j).view.set]{fullShare} bcont) from pointsTo_congr hb]

/-- The first done row at the loop's entry. -/
theorem rows_done0 (c : Buf (Elt F) (a8Loc d L)) (h2 : 2 < 24) :
    (a8Loc d L ↦[a8RowSet ⟨2, h2⟩]{fullShare} c : sProp 𝕄)
      ⊢ bigSep (Finset.univ.filter fun k : Fin 24 => 2 ≤ k.val ∧ k.val < 4 * 0 + 3) fun k => a8Loc d L ↦[a8RowSet k]{fullShare} c := by
  rw [show (Finset.univ.filter fun k : Fin 24 => 2 ≤ k.val ∧ k.val < 4 * 0 + 3) = {⟨2, h2⟩} from
    Finset.ext fun k => by simp only [Finset.mem_filter, Finset.mem_univ, true_and, Finset.mem_singleton, Fin.ext_iff]; omega, bigSep_singleton]

/-- No block is written at the loop's entry. -/
theorem blks_done0 (c : Buf (Elt F) (o2Loc d)) :
    (iprop(emp) : sProp 𝕄)
      ⊢ bigSep (Finset.univ.filter fun j : Fin 20 => 0 ≤ j.val ∧ j.val < 4 * 0) fun j => o2Loc d ↦[(negSl L j).view.set]{fullShare} c := by
  rw [show (Finset.univ.filter fun j : Fin 20 => 0 ≤ j.val ∧ j.val < 4 * 0) = ∅ from by decide, bigSep_empty]
  exact .rfl

end Intro

section Intro2

variable (d : Dev nD) (T0 : Buf (Elt F) (t0Loc d)) (T1 : Buf (Elt F) (t1Loc d)) (IX : Buf (Elt F) (ixLoc d)) (L : grid0.Coords)

theorem rowF_eq (n : ℕ) (h : n < 24) : rowF n = ⟨n, h⟩ := Fin.ext (Nat.mod_eq_of_lt h)
theorem blkF_eq (n : ℕ) (h : n < 20) : blkF n = ⟨n, h⟩ := Fin.ext (Nat.mod_eq_of_lt h)

theorem bigSep_from_congr {N : ℕ} (Φ : Fin N → sProp 𝕄) {n n' : ℕ} (h : n = n') :
    bigSep (Finset.univ.filter fun k : Fin N => n ≤ k.val) Φ = bigSep (Finset.univ.filter fun k : Fin N => n' ≤ k.val) Φ := by
  subst h; rfl
theorem bigSep_mid_congr {N : ℕ} (Φ : Fin N → sProp 𝕄) (a : ℕ) {n n' : ℕ} (h : n = n') :
    bigSep (Finset.univ.filter fun k : Fin N => a ≤ k.val ∧ k.val < n) Φ = bigSep (Finset.univ.filter fun k : Fin N => a ≤ k.val ∧ k.val < n') Φ := by
  subst h; rfl

/-- Four more go into a middle segment. -/
theorem mid_push4 {N : ℕ} (Φ : Fin N → sProp 𝕄) (a n m : ℕ) (h0 : n < N) (h1 : n + 1 < N) (h2 : n + 1 + 1 < N) (h3 : n + 1 + 1 + 1 < N)
    (han : a ≤ n) (hm : m = n + 1 + 1 + 1 + 1) :
    iprop((bigSep (Finset.univ.filter fun k : Fin N => a ≤ k.val ∧ k.val < n) Φ) ∗ Φ ⟨n, h0⟩ ∗ Φ ⟨n + 1, h1⟩ ∗ Φ ⟨n + 1 + 1, h2⟩ ∗ Φ ⟨n + 1 + 1 + 1, h3⟩)
      ⊢ bigSep (Finset.univ.filter fun k : Fin N => a ≤ k.val ∧ k.val < m) Φ := by
  subst hm
  rw [bigSep_mid_push (F := F) Φ a (n + 1 + 1 + 1) h3 (by omega), bigSep_mid_push (F := F) Φ a (n + 1 + 1) h2 (by omega),
    bigSep_mid_push (F := F) Φ a (n + 1) h1 (by omega), bigSep_mid_push (F := F) Φ a n h0 han]
  iintro ⟨H, H0, H1, H2, H3⟩
  isplitl [H3]; · iexact H3
  isplitl [H2]; · iexact H2
  isplitl [H1]; · iexact H1
  isplitl [H0]; · iexact H0
  iexact H

/-- What a gather by an index row lands, the row taken at any spelling of its offset. -/
theorem gather_val1' (off : Fin 2 → ℕ) (h : ∀ a, off a + S1x128.size a ≤ S24x128.size a) (kk : Fin 24) (hoff : off = ![kk.val, 0])
    (hg : S100000x128.Gathers 0 S128x128) (hn : S128.numel = S128x128.size hg.axis')
    (hin : ∀ x, (View.read (Elt F) (a8Row off h).view (A8c d IX L) x).toNat < S100000x128.size hg.axis) :
    SparseCore.gatherPayload hg (View.read (Elt F) (t1Sl).view T1) (SparseCore.rows (View.read (Elt F) (a8Row off h).view (A8c d IX L)) hn hin)
      = gRows d IX L T1 kk.val := by
  subst hoff; exact gather_val1 (F := F) d T1 IX L kk h hg hn hin

/-- A block written whole with the rows gathered for its draw holds the third result's values. -/
theorem blk_intro (j : Fin 20) (off : Fin 2 → ℕ) (h : ∀ a, off a + S128x128.size a ≤ S81920x128.size a) (hoff : off = negOff L j.val)
    (g : Buf (Elt F) (o2Loc d)) (w : S128x128.Idx → Elt F .f32) (hw : w = gRows d IX L T1 (2 + j.val)) :
    (View.loc (thrV d L) ((o2V).slice (Rect.unit (s := S81920x128) off S128x128.size h) (fun _ => rfl)).view
        ↦[((o2V).slice (Rect.unit (s := S81920x128) off S128x128.size h) (fun _ => rfl)).view.set]{fullShare}
        (((o2V).slice (Rect.unit (s := S81920x128) off S128x128.size h) (fun _ => rfl)).view.writes (Elt F) g
          [⟨Rect.whole (Rect.unit (s := S81920x128) off S128x128.size h).shape, w⟩]) : sProp 𝕄)
      ⊢ (o2Loc d ↦[(negSl L j).view.set]{fullShare} gV2 d T1 IX) := by
  subst hoff
  exact Entails.of_eq (pointsTo_congr (block_val2 (F := F) d T1 IX L j cc0_scratch3 rfl g w hw))

/-- The same inside a copy-out's flight. -/
theorem wFl_intro' (cell : DmaSem sig) (buf : Ref sig .scVector) (j : Fin 20) (off : Fin 2 → ℕ)
    (h : ∀ a, off a + S128x128.size a ≤ S81920x128.size a) (hoff : off = negOff L j.val)
    (g : Buf (Elt F) (o2Loc d)) (w : S128x128.Idx → Elt F .f32) (hw : w = gRows d IX L T1 (2 + j.val))
    (cont : Buf (Elt F) ((thrV d L).loc buf)) :
    Transfers.Flight countersEmb (thrV d L) (SemLoc.dma cell) (default : HIx 4) 524288
      iprop((View.loc (thrV d L) ((o2V).slice (Rect.unit (s := S81920x128) off S128x128.size h) (fun _ => rfl)).view
            ↦[((o2V).slice (Rect.unit (s := S81920x128) off S128x128.size h) (fun _ => rfl)).view.set]{fullShare}
            (((o2V).slice (Rect.unit (s := S81920x128) off S128x128.size h) (fun _ => rfl)).view.writes (Elt F) g
              [⟨Rect.whole (Rect.unit (s := S81920x128) off S128x128.size h).shape, w⟩]))
        ∗ View.loc (thrV d L) (Memref.whole buf).view ↦[(Memref.whole buf : Memref sig .scVector _ _ _).view.set]{fullShare} cont)
      ⊢ (wFl d L cell buf j (gV2 d T1 IX) cont : sProp 𝕄) := by
  refine Transfers.Flight_mono countersEmb (thrV d L) ?_
  iintro ⟨Hb, Hc⟩
  isplitl [Hb]
  · iapply (blk_intro (F := F) d T1 IX L j off h hoff g w hw); iexact Hb
  · iexact Hc

end Intro2

section Intro3

variable (d : Dev nD) (T1 : Buf (Elt F) (t1Loc d)) (IX : Buf (Elt F) (ixLoc d)) (L : grid0.Coords)

theorem row_reidx (c : Buf (Elt F) (a8Loc d L)) (i j : Fin 24) (e : i = j) :
    (a8Loc d L ↦[a8RowSet i]{fullShare} c : sProp 𝕄) ⊢ (a8Loc d L ↦[a8RowSet j]{fullShare} c) := by
  subst e; exact .rfl

theorem blk_reidx (c : Buf (Elt F) (o2Loc d)) (i j : Fin 20) (e : i = j) :
    (View.loc (thrV d L) (negSl L i).view ↦[(negSl L i).view.set]{fullShare} c : sProp 𝕄) ⊢ (o2Loc d ↦[(negSl L j).view.set]{fullShare} c) := by
  subst e; exact .rfl

theorem pts_a8Row_congr {off off' : Fin 2 → ℕ} (e : off = off') (h : ∀ a, off a + S1x128.size a ≤ S24x128.size a)
    (h' : ∀ a, off' a + S1x128.size a ≤ S24x128.size a) (f : Buf (Elt F) (a8Loc d L)) :
    (View.loc (thrV d L) (a8Row off h).view ↦[(a8Row off h).view.set]{fullShare} f : sProp 𝕄)
      = (View.loc (thrV d L) (a8Row off' h').view ↦[(a8Row off' h').view.set]{fullShare} f) := by
  subst e; rfl

theorem wFl_unfold (cell : DmaSem sig) (buf : Ref sig .scVector) (j : Fin 20) (b : Buf (Elt F) (o2Loc d)) (c : Buf (Elt F) ((thrV d L).loc buf)) :
    (wFl d L cell buf j b c : sProp 𝕄) = Transfers.Flight countersEmb (thrV d L) (SemLoc.dma cell) (default : HIx 4) 524288
      iprop((View.loc (thrV d L) (negSl L j).view ↦[(negSl L j).view.set]{fullShare} b)
        ∗ View.loc (thrV d L) (Memref.whole buf).view ↦[(Memref.whole buf : Memref sig .scVector _ _ _).view.set]{fullShare} c) := rfl

end Intro3

/-! ## The kernel at a symbolic tile -/

section Body

variable (d : Dev nD) (T0 : Buf (Elt F) (t0Loc d)) (T1 : Buf (Elt F) (t1Loc d)) (IX : Buf (Elt F) (ixLoc d))

set_option maxHeartbeats 4000000 in
/-- The gather kernel on the vector subcore at `L`: from what the tile is handed and its own scratch storage to what
    it hands back, every wait admissible under what the tile owes the launch. The index copy-in lands the tile's 24
    index rows; each gather reads a table by one of those rows, on its own semaphore and read token; the ring's
    loop keeps the invariant `inv`; every block copied out holds the result's values. -/
theorem tile_body0 (hF : (K (F := F)).Facts) (hIX : IXOK d IX) (L : grid0.Coords) (O : CellTallies nD τ sig (HIx 4)) (W : Waits sig (HIx 4)) (hO : ∀ g, O g none = 0) :
    iprop(levAts (K (F := F)).L (K (F := F)).lev ∗ emp ∗ goResL d T0 T1 IX L
        ∗ scopedBufs (thrV d L) ∗ scopedSems0 (thrV d L) ∗ owes (thrV d L) O W)
      ⊢ wp frame (wpE (defs₀ (F := F)) 𝒱₀ (thrV d L) none) Set.univ
          (cc0__sc_gather L t0V (Memref.isWhole_whole _) t1V (Memref.isWhole_whole _) ixV (Memref.isWhole_whole _) o0V (Memref.isWhole_whole _) o1V (Memref.isWhole_whole _) o2V (Memref.isWhole_whole _)
            a8 (Memref.isWhole_whole _) bC (Memref.isWhole_whole _) bP (Memref.isWhole_whole _) rb0 (Memref.isWhole_whole _) rb1 (Memref.isWhole_whole _) rb2 (Memref.isWhole_whole _) rb3 (Memref.isWhole_whole _)
            cc0_scratch7 cc0_scratch8 cc0_scratch9 cc0_scratch10 cc0_scratch11 cc0_scratch12 cc0_scratch13 cc0_scratch14 cc0_scratch15 cc0_scratch16 cc0_scratch17 cc0_scratch18 cc0_scoped0)
          fun _ => iprop(tdResL d T0 T1 IX L ∗ scopedBufs (thrV d L) ∗ scopedSems0 (thrV d L)
            ∗ ∃ W', ⌜∀ p ∈ W', p ∈ W ∨ p.2 = none⌝ ∗ owes (thrV d L) O W') := by
  simp only [cc0__sc_gather_eq_skeleton]; unfold cc0__sc_gather_skel
  rw [(K (F := F)).scopedBufs_V hF d (cV L) (jV L), SparseCore.Cfg.scopedSems0_V (Val := Elt F) d (cV L) (jV L), ownSems0_V, ownBufs_V]
  unfold goResL
  iintro ⟨#Hlv, -, ⟨Ht0, Ht1, Hix, ⟨%f0, Ho0⟩, ⟨%f1, Ho1⟩, Hneg⟩,
    ⟨⟨⟨%fa8, Ha8⟩, ⟨%fbC, HbC⟩, ⟨%fbP, HbP⟩, ⟨%f0', Hr0⟩, ⟨%f1', Hr1⟩, ⟨%f2', Hr2⟩, ⟨%f3', Hr3⟩⟩, Hbufs⟩,
    ⟨⟨Hs0, Hs7, Hs8, Hs9, Hs10, Hs11, Hs12, Hs13, Hs14, Hs15, Hs16, Hs17, Hs18⟩, Hsems⟩, HO⟩
  ihave Hmw := ((K (F := F)).mayWaits_none (thr := thrV d L) hO) $$ Hlv
  -- the arrays as the tile's memrefs address them; the second table's share, one read token per semaphore
  ihave Ht0 := (Entails.of_eq (pts_t0 (F := F) d L _ _).symm) $$ Ht0
  ihave Ht1 := (toks8_split (F := F) (tblShare L) T1) $$ Ht1
  icases Ht1 with ⟨Hq8, Hq7, Hq6, Hq5, Hq4, Hq3, Hq2, Hq1, Hq0⟩
  ihave Hq1 := (Entails.of_eq (pts_t1 (F := F) d L _ _).symm) $$ Hq1
  ihave Hq4 := (Entails.of_eq (pts_t1 (F := F) d L _ _).symm) $$ Hq4
  ihave Hq5 := (Entails.of_eq (pts_t1 (F := F) d L _ _).symm) $$ Hq5
  ihave Hq6 := (Entails.of_eq (pts_t1 (F := F) d L _ _).symm) $$ Hq6
  ihave Hq7 := (Entails.of_eq (pts_t1 (F := F) d L _ _).symm) $$ Hq7
  ihave Hix := (Entails.of_eq (pts_ix (F := F) d L _).symm) $$ Hix
  ihave Ho0 := (Entails.of_eq (pts_o0 (F := F) d L _).symm) $$ Ho0
  ihave Ho1 := (Entails.of_eq (pts_o1 (F := F) d L _).symm) $$ Ho1
  ihave Ha8 := (Entails.of_eq (pts_scr (F := F) d L cc0_scratch0 _).symm) $$ Ha8
  ihave HbC := (Entails.of_eq (pts_scr (F := F) d L cc0_scratch1 _).symm) $$ HbC
  ihave HbP := (Entails.of_eq (pts_scr (F := F) d L cc0_scratch2 _).symm) $$ HbP
  ihave Hr0 := (Entails.of_eq (pts_scr (F := F) d L cc0_scratch3 _).symm) $$ Hr0
  ihave Hr1 := (Entails.of_eq (pts_scr (F := F) d L cc0_scratch4 _).symm) $$ Hr1
  ihave Hr2 := (Entails.of_eq (pts_scr (F := F) d L cc0_scratch5 _).symm) $$ Hr2
  ihave Hr3 := (Entails.of_eq (pts_scr (F := F) d L cc0_scratch6 _).symm) $$ Hr3

  sl_exec
  -- the index scratch now holds the tile's 24 rows of the index array; row by row
  have hA8 : (View.write (Elt F) (a8 : Memref sig .scVector .vmem S24x128 .i32).view fa8 (tile_body0.sl.dma0 d IX L) Finset.univ) = A8c d IX L := by
    exact (View.write_whole_univ (Val := Elt F) cc0_scratch0 fa8 _).trans rfl
  rw [hA8]
  have h0 : (0 : ℕ) < 24 := by decide
  have h1 : (1 : ℕ) < 24 := by decide
  have h2 : (2 : ℕ) < 24 := by decide
  have h3 : (3 : ℕ) < 24 := by decide
  have h4 : (4 : ℕ) < 24 := by decide
  have h5 : (5 : ℕ) < 24 := by decide
  have hb0 : (0 : ℕ) < 20 := by decide
  ihave Ha8 := (Entails.of_eq (pts_scr (F := F) d L cc0_scratch0 _)) $$ Ha8
  ihave Hrows := (Entails.of_eq (a8_rows (F := F) d L _)) $$ Ha8
  ihave Hrows := (Entails.of_eq (bigSep_from_zero (F := F) _).symm) $$ Hrows
  ihave H := (Entails.of_eq (bigSep_from_pop (F := F) _ 0 h0)) $$ Hrows; icases H with ⟨Hw0, Hrows⟩
  ihave H := (Entails.of_eq (bigSep_from_pop (F := F) _ 1 h1)) $$ Hrows; icases H with ⟨Hw1, Hrows⟩
  ihave H := (Entails.of_eq (bigSep_from_pop (F := F) _ 2 h2)) $$ Hrows; icases H with ⟨Hw2, Hrows⟩
  ihave H := (Entails.of_eq (bigSep_from_pop (F := F) _ 3 h3)) $$ Hrows; icases H with ⟨Hw3, Hrows⟩
  ihave H := (Entails.of_eq (bigSep_from_pop (F := F) _ 4 h4)) $$ Hrows; icases H with ⟨Hw4, Hrows⟩
  ihave H := (Entails.of_eq (bigSep_from_pop (F := F) _ 5 h5)) $$ Hrows; icases H with ⟨Hw5, Hrows⟩
  ihave Hw0 := (Entails.of_eq (pts_a8Row (F := F) d L ⟨0, h0⟩ ![0, 0] (rowInb ⟨0, h0⟩) rfl _).symm) $$ Hw0
  ihave Hw1 := (Entails.of_eq (pts_a8Row (F := F) d L ⟨1, h1⟩ ![1, 0] (rowInb ⟨1, h1⟩) rfl _).symm) $$ Hw1
  ihave Hw2 := (Entails.of_eq (pts_a8Row (F := F) d L ⟨2, h2⟩ ![2, 0] (rowInb ⟨2, h2⟩) rfl _).symm) $$ Hw2
  ihave Hw3 := (Entails.of_eq (pts_a8Row (F := F) d L ⟨3, h3⟩ ![3, 0] (rowInb ⟨3, h3⟩) rfl _).symm) $$ Hw3
  ihave Hw4 := (Entails.of_eq (pts_a8Row (F := F) d L ⟨4, h4⟩ ![4, 0] (rowInb ⟨4, h4⟩) rfl _).symm) $$ Hw4
  ihave Hw5 := (Entails.of_eq (pts_a8Row (F := F) d L ⟨5, h5⟩ ![5, 0] (rowInb ⟨5, h5⟩) rfl _).symm) $$ Hw5
  have hin0 := hin_rows (F := F) d IX L hIX ⟨0, h0⟩ ![0, 0] (rowInb ⟨0, h0⟩) rfl (by show (0 : ℕ) < 22; decide)
  have hin1 := hin_rows (F := F) d IX L hIX ⟨1, h1⟩ ![1, 0] (rowInb ⟨1, h1⟩) rfl (by show (1 : ℕ) < 22; decide)
  have hin2 := hin_rows (F := F) d IX L hIX ⟨2, h2⟩ ![2, 0] (rowInb ⟨2, h2⟩) rfl (by show (2 : ℕ) < 22; decide)
  have hin3 := hin_rows (F := F) d IX L hIX ⟨3, h3⟩ ![3, 0] (rowInb ⟨3, h3⟩) rfl (by show (3 : ℕ) < 22; decide)
  have hin4 := hin_rows (F := F) d IX L hIX ⟨4, h4⟩ ![4, 0] (rowInb ⟨4, h4⟩) rfl (by show (4 : ℕ) < 22; decide)
  have hin5 := hin_rows (F := F) d IX L hIX ⟨5, h5⟩ ![5, 0] (rowInb ⟨5, h5⟩) rfl (by show (5 : ℕ) < 22; decide)
  -- draw 0's block of the third result
  ihave Hneg := (Entails.of_eq (bigSep_from_zero (F := F) _).symm) $$ Hneg
  ihave H := (Entails.of_eq (bigSep_from_pop (F := F) _ 0 hb0)) $$ Hneg; icases H with ⟨⟨%g0, Hb0⟩, Hneg⟩
  ihave Hb0 := (Entails.of_eq (pts_negOff (F := F) d L (k0_off2_neg L 0 0 rfl) (k0_off2_inb L 0) (negOff_inb L ⟨0, hb0⟩) _).symm) $$ Hb0
  sl_exec

  -- ── the ring at the loop's entry: the invariant at trip 0 ──
  have hc3 : (rb1).view.writes (Elt F) f1' [⟨Rect.whole cc0_scratch4.ty.shape, tile_body0.sl.gather3 d T1 IX L h3 hin3⟩] = gRows d IX L T1 (4 * 0 + 3) :=
    (writes_whole (F := F) d L cc0_scratch4 f1' _).trans (gather_val1 (F := F) d T1 IX L ⟨3, h3⟩ (rowInb ⟨3, h3⟩) gathers_S100000x128_S128x128 (by decide) hin3)
  have hc4 : (rb2).view.writes (Elt F) f2' [⟨Rect.whole cc0_scratch5.ty.shape, tile_body0.sl.gather4 d T1 IX L h4 hin4⟩] = gRows d IX L T1 (4 * 0 + 4) :=
    (writes_whole (F := F) d L cc0_scratch5 f2' _).trans (gather_val1 (F := F) d T1 IX L ⟨4, h4⟩ (rowInb ⟨4, h4⟩) gathers_S100000x128_S128x128 (by decide) hin4)
  have hc5 : (rb3).view.writes (Elt F) f3' [⟨Rect.whole cc0_scratch6.ty.shape, tile_body0.sl.gather5 d T1 IX L h5 hin5⟩] = gRows d IX L T1 (4 * 0 + 5) :=
    (writes_whole (F := F) d L cc0_scratch6 f3' _).trans (gather_val1 (F := F) d T1 IX L ⟨5, h5⟩ (rowInb ⟨5, h5⟩) gathers_S100000x128_S128x128 (by decide) hin5)
  have hc2 : (rb0).view.writes (Elt F) f0' [⟨Rect.whole cc0_scratch3.ty.shape, tile_body0.sl.gather2 d T1 IX L h2 hin2⟩] = gRows d IX L T1 (4 * 0 + 2) :=
    (writes_whole (F := F) d L cc0_scratch3 f0' _).trans (gather_val1 (F := F) d T1 IX L ⟨2, h2⟩ (rowInb ⟨2, h2⟩) gathers_S100000x128_S128x128 (by decide) hin2)
  have hw0 : tile_body0.sl.dma0_1 d T1 IX L f0' h2 hin2 = gRows d IX L T1 (2 + (blkF (4 * 0)).val) := by
    unfold tile_body0.sl.dma0_1; rw [hc2]; rfl
  rw [hc2, hc3, hc4, hc5]
  sl_for (inv d T1 IX L O W) $$ [Hmw Hs12 Hq5 Hs13 Hq6 Hs14 Hq7 Hs15 Hr0 Hq4 Hs11 Hs16 Hs17 Hs18 Hw2 Hrows Hneg HO]
  case region =>
    intro k _
    have hk : k.val < 4 := lt_of_lt_of_le k.isLt k0_t1_abs.2.1
    unfold inv gFl wFl
    iintro ⟨#Hmw, Hs12, Hq5, Hs13, Hq6, Hs14, Hq7, Hs15, Hr0, Hq4, Hs11, Hs16, Hs17, Hs18, Hdone, Hrows, Hbd, Hneg, %W', %hW', HO⟩
    -- the four index rows this trip gathers by, as the program takes them
    have hr0 : 4 * k.val + 6 < 24 := by omega
    have hr1 : 4 * k.val + 6 + 1 < 24 := by omega
    have hr2 : 4 * k.val + 6 + 1 + 1 < 24 := by omega
    have hr3 : 4 * k.val + 6 + 1 + 1 + 1 < 24 := by omega
    ihave H := (Entails.of_eq (bigSep_from_pop (F := F) _ _ hr0)) $$ Hrows; icases H with ⟨Hn0, Hrows⟩
    ihave H := (Entails.of_eq (bigSep_from_pop (F := F) _ _ hr1)) $$ Hrows; icases H with ⟨Hn1, Hrows⟩
    ihave H := (Entails.of_eq (bigSep_from_pop (F := F) _ _ hr2)) $$ Hrows; icases H with ⟨Hn2, Hrows⟩
    ihave H := (Entails.of_eq (bigSep_from_pop (F := F) _ _ hr3)) $$ Hrows; icases H with ⟨Hn3, Hrows⟩
    have ho0 : k0_off5 k 1#32 = ![(⟨4 * k.val + 6, hr0⟩ : Fin 24).val, 0] :=
      (k0_off5_eq k ⟨0, by decide⟩).trans (by show ![0 + 4 * k.val + 6, 0] = ![4 * k.val + 6, 0]; congr 1; omega)
    have ho1 : k0_off5 k 2#32 = ![(⟨4 * k.val + 6 + 1, hr1⟩ : Fin 24).val, 0] :=
      (k0_off5_eq k ⟨1, by decide⟩).trans (by show ![1 + 4 * k.val + 6, 0] = ![4 * k.val + 6 + 1, 0]; congr 1; omega)
    have ho2 : k0_off5 k 3#32 = ![(⟨4 * k.val + 6 + 1 + 1, hr2⟩ : Fin 24).val, 0] :=
      (k0_off5_eq k ⟨2, by decide⟩).trans (by show ![2 + 4 * k.val + 6, 0] = ![4 * k.val + 6 + 1 + 1, 0]; congr 1; omega)
    have ho3 : k0_off5 k 4#32 = ![(⟨4 * k.val + 6 + 1 + 1 + 1, hr3⟩ : Fin 24).val, 0] :=
      (k0_off5_eq k ⟨3, by decide⟩).trans (by show ![3 + 4 * k.val + 6, 0] = ![4 * k.val + 6 + 1 + 1 + 1, 0]; congr 1; omega)
    ihave Hn0 := (Entails.of_eq (pts_a8Row (F := F) d L ⟨_, hr0⟩ (k0_off5 k 1#32) (k0_off5_inb k 0) ho0 _).symm) $$ Hn0
    ihave Hn1 := (Entails.of_eq (pts_a8Row (F := F) d L ⟨_, hr1⟩ (k0_off5 k 2#32) (k0_off5_inb k 1) ho1 _).symm) $$ Hn1
    ihave Hn2 := (Entails.of_eq (pts_a8Row (F := F) d L ⟨_, hr2⟩ (k0_off5 k 3#32) (k0_off5_inb k 2) ho2 _).symm) $$ Hn2
    ihave Hn3 := (Entails.of_eq (pts_a8Row (F := F) d L ⟨_, hr3⟩ (k0_off5 k 4#32) (k0_off5_inb k 3) ho3 _).symm) $$ Hn3
    have hinA := hin_rows (F := F) d IX L hIX ⟨_, hr0⟩ (k0_off5 k 1#32) (k0_off5_inb k 0) ho0 (by show 4 * k.val + 6 < 22; omega)
    have hinB := hin_rows (F := F) d IX L hIX ⟨_, hr1⟩ (k0_off5 k 2#32) (k0_off5_inb k 1) ho1 (by show 4 * k.val + 6 + 1 < 22; omega)
    have hinC := hin_rows (F := F) d IX L hIX ⟨_, hr2⟩ (k0_off5 k 3#32) (k0_off5_inb k 2) ho2 (by show 4 * k.val + 6 + 1 + 1 < 22; omega)
    have hinD := hin_rows (F := F) d IX L hIX ⟨_, hr3⟩ (k0_off5 k 4#32) (k0_off5_inb k 3) ho3 (by show 4 * k.val + 6 + 1 + 1 + 1 < 22; omega)
    -- the four blocks it writes, as the program takes them
    have hq0 : 4 * k.val + 1 < 20 := by omega
    have hq1 : 4 * k.val + 1 + 1 < 20 := by omega
    have hq2 : 4 * k.val + 1 + 1 + 1 < 20 := by omega
    have hq3 : 4 * k.val + 1 + 1 + 1 + 1 < 20 := by omega
    ihave H := (Entails.of_eq (bigSep_from_pop (F := F) _ _ hq0)) $$ Hneg; icases H with ⟨⟨%gA, HbA⟩, Hneg⟩
    ihave H := (Entails.of_eq (bigSep_from_pop (F := F) _ _ hq1)) $$ Hneg; icases H with ⟨⟨%gB, HbB⟩, Hneg⟩
    ihave H := (Entails.of_eq (bigSep_from_pop (F := F) _ _ hq2)) $$ Hneg; icases H with ⟨⟨%gC, HbC'⟩, Hneg⟩
    ihave H := (Entails.of_eq (bigSep_from_pop (F := F) _ _ hq3)) $$ Hneg; icases H with ⟨⟨%gD, HbD⟩, Hneg⟩
    have hbo0 : k0_off6 L k 1#32 = negOff L (⟨4 * k.val + 1, hq0⟩ : Fin 20).val :=
      (k0_off6_wid L k ⟨0, by decide⟩).trans (by show negOff L (4 * k.val + 0 + 1) = negOff L (4 * k.val + 1); rfl)
    have hbo1 : k0_off6 L k 2#32 = negOff L (⟨4 * k.val + 1 + 1, hq1⟩ : Fin 20).val :=
      (k0_off6_wid L k ⟨1, by decide⟩).trans (by show negOff L (4 * k.val + 1 + 1) = negOff L (4 * k.val + 1 + 1); rfl)
    have hbo2 : k0_off6 L k 3#32 = negOff L (⟨4 * k.val + 1 + 1 + 1, hq2⟩ : Fin 20).val :=
      (k0_off6_wid L k ⟨2, by decide⟩).trans (by show negOff L (4 * k.val + 2 + 1) = negOff L (4 * k.val + 1 + 1 + 1); rfl)
    have hbo3 : k0_off6 L k 4#32 = negOff L (⟨4 * k.val + 1 + 1 + 1 + 1, hq3⟩ : Fin 20).val :=
      (k0_off6_wid L k ⟨3, by decide⟩).trans (by show negOff L (4 * k.val + 3 + 1) = negOff L (4 * k.val + 1 + 1 + 1 + 1); rfl)
    ihave HbA := (Entails.of_eq (pts_negOff (F := F) d L hbo0 (k0_off6_inb L k 0) (negOff_inb L ⟨_, hq0⟩) _).symm) $$ HbA
    ihave HbB := (Entails.of_eq (pts_negOff (F := F) d L hbo1 (k0_off6_inb L k 1) (negOff_inb L ⟨_, hq1⟩) _).symm) $$ HbB
    ihave HbC' := (Entails.of_eq (pts_negOff (F := F) d L hbo2 (k0_off6_inb L k 2) (negOff_inb L ⟨_, hq2⟩) _).symm) $$ HbC'
    ihave HbD := (Entails.of_eq (pts_negOff (F := F) d L hbo3 (k0_off6_inb L k 3) (negOff_inb L ⟨_, hq3⟩) _).symm) $$ HbD
    sl_exec
    sl_step
    have hcA : (rb0).view.writes (Elt F) (gRows d IX L T1 (4 * k.val + 2)) [⟨Rect.whole cc0_scratch3.ty.shape, tile_body0.sl.gather0_1 d T1 IX L k hinA⟩] = gRows d IX L T1 (4 * (k.val + 1) + 2) :=
      (writes_whole (F := F) d L cc0_scratch3 _ _).trans ((gather_val1' (F := F) d T1 IX L (k0_off5 k 1#32) (k0_off5_inb k 0) ⟨_, hr0⟩ ho0 gathers_S100000x128_S128x128 (by decide) hinA).trans (by congr 1 <;> omega))
    have hcB : (rb1).view.writes (Elt F) (gRows d IX L T1 (4 * k.val + 3)) [⟨Rect.whole cc0_scratch4.ty.shape, tile_body0.sl.gather2_1 d T1 IX L k hinB⟩] = gRows d IX L T1 (4 * (k.val + 1) + 3) :=
      (writes_whole (F := F) d L cc0_scratch4 _ _).trans ((gather_val1' (F := F) d T1 IX L (k0_off5 k 2#32) (k0_off5_inb k 1) ⟨_, hr1⟩ ho1 gathers_S100000x128_S128x128 (by decide) hinB).trans (by congr 1 <;> omega))
    have hcC : (rb2).view.writes (Elt F) (gRows d IX L T1 (4 * k.val + 4)) [⟨Rect.whole cc0_scratch5.ty.shape, tile_body0.sl.gather4_1 d T1 IX L k hinC⟩] = gRows d IX L T1 (4 * (k.val + 1) + 4) :=
      (writes_whole (F := F) d L cc0_scratch5 _ _).trans ((gather_val1' (F := F) d T1 IX L (k0_off5 k 3#32) (k0_off5_inb k 2) ⟨_, hr2⟩ ho2 gathers_S100000x128_S128x128 (by decide) hinC).trans (by congr 1 <;> omega))
    have hcD : (rb3).view.writes (Elt F) (gRows d IX L T1 (4 * k.val + 5)) [⟨Rect.whole cc0_scratch6.ty.shape, tile_body0.sl.gather6 d T1 IX L k hinD⟩] = gRows d IX L T1 (4 * (k.val + 1) + 5) :=
      (writes_whole (F := F) d L cc0_scratch6 _ _).trans ((gather_val1' (F := F) d T1 IX L (k0_off5 k 4#32) (k0_off5_inb k 3) ⟨_, hr3⟩ ho3 gathers_S100000x128_S128x128 (by decide) hinD).trans (by congr 1 <;> omega))
    rw [hcA, hcB, hcC, hcD]
    -- the rows of the three gathers now in flight, in the invariant's spelling
    have e1 : k0_off5 k 2#32 = ![(rowF (4 * (k.val + 1) + 3)).val, 0] := ho1.trans (by show ![4 * k.val + 6 + 1, 0] = ![(4 * (k.val + 1) + 3) % 24, 0]; congr 1; omega)
    have e2 : k0_off5 k 3#32 = ![(rowF (4 * (k.val + 1) + 4)).val, 0] := ho2.trans (by show ![4 * k.val + 6 + 1 + 1, 0] = ![(4 * (k.val + 1) + 4) % 24, 0]; congr 1; omega)
    have e3 : k0_off5 k 4#32 = ![(rowF (4 * (k.val + 1) + 5)).val, 0] := ho3.trans (by show ![4 * k.val + 6 + 1 + 1 + 1, 0] = ![(4 * (k.val + 1) + 5) % 24, 0]; congr 1; omega)
    rw [pts_a8Row_congr (F := F) d L e1 (k0_off5_inb k 1) (rowInb _) (A8c d IX L), pts_a8Row_congr (F := F) d L e2 (k0_off5_inb k 2) (rowInb _) (A8c d IX L), pts_a8Row_congr (F := F) d L e3 (k0_off5_inb k 3) (rowInb _) (A8c d IX L)]
    -- the four rows that came back
    have hd0 : 4 * k.val + 3 < 24 := by omega
    have hd1 : 4 * k.val + 3 + 1 < 24 := by omega
    have hd2 : 4 * k.val + 3 + 1 + 1 < 24 := by omega
    have hd3 : 4 * k.val + 3 + 1 + 1 + 1 < 24 := by omega
    ihave R0 := (Entails.of_eq (pts_a8Row (F := F) d L (rowF (4 * k.val + 3)) ![(rowF (4 * k.val + 3)).val, 0] (rowInb _) rfl _)) $$ Hs12_dst_and
    ihave R0 := (row_reidx (F := F) d L _ _ ⟨4 * k.val + 3, hd0⟩ (Fin.ext (show (4 * k.val + 3) % 24 = 4 * k.val + 3 by omega))) $$ R0
    ihave R1 := (Entails.of_eq (pts_a8Row (F := F) d L (rowF (4 * k.val + 4)) ![(rowF (4 * k.val + 4)).val, 0] (rowInb _) rfl _)) $$ Hs13_dst_and
    ihave R1 := (row_reidx (F := F) d L _ _ ⟨4 * k.val + 3 + 1, hd1⟩ (Fin.ext (show (4 * k.val + 4) % 24 = 4 * k.val + 3 + 1 by omega))) $$ R1
    ihave R2 := (Entails.of_eq (pts_a8Row (F := F) d L (rowF (4 * k.val + 5)) ![(rowF (4 * k.val + 5)).val, 0] (rowInb _) rfl _)) $$ Hs14_dst_and
    ihave R2 := (row_reidx (F := F) d L _ _ ⟨4 * k.val + 3 + 1 + 1, hd2⟩ (Fin.ext (show (4 * k.val + 5) % 24 = 4 * k.val + 3 + 1 + 1 by omega))) $$ R2
    ihave R3 := (Entails.of_eq (pts_a8Row (F := F) d L ⟨_, hr0⟩ (k0_off5 k 1#32) (k0_off5_inb k 0) ho0 _)) $$ Hn0
    ihave R3 := (row_reidx (F := F) d L _ _ ⟨4 * k.val + 3 + 1 + 1 + 1, hd3⟩ (Fin.ext (show 4 * k.val + 6 = 4 * k.val + 3 + 1 + 1 + 1 by omega))) $$ R3
    -- the four blocks that are written
    have hp0 : 4 * k.val < 20 := by omega
    ihave B0 := (blk_reidx (F := F) d L _ _ ⟨4 * k.val, hp0⟩ (Fin.ext (show (4 * k.val) % 20 = 4 * k.val by omega))) $$ Hs15_dst
    have hwA : tile_body0.sl.dma0_2 d T1 IX L k = gRows d IX L T1 (2 + (⟨4 * k.val + 1, hq0⟩ : Fin 20).val) := by
      unfold tile_body0.sl.dma0_2; show gRows d IX L T1 (4 * k.val + 3) = gRows d IX L T1 (2 + (4 * k.val + 1)); congr 1; omega
    have hwB : tile_body0.sl.dma0_3 d T1 IX L k = gRows d IX L T1 (2 + (⟨4 * k.val + 1 + 1, hq1⟩ : Fin 20).val) := by
      unfold tile_body0.sl.dma0_3; show gRows d IX L T1 (4 * k.val + 4) = gRows d IX L T1 (2 + (4 * k.val + 1 + 1)); congr 1; omega
    have hwC : tile_body0.sl.dma0_4 d T1 IX L k = gRows d IX L T1 (2 + (⟨4 * k.val + 1 + 1 + 1, hq2⟩ : Fin 20).val) := by
      unfold tile_body0.sl.dma0_4; show gRows d IX L T1 (4 * k.val + 5) = gRows d IX L T1 (2 + (4 * k.val + 1 + 1 + 1)); congr 1; omega
    have hwD : tile_body0.sl.dma0_5 d T1 IX L k hinA = gRows d IX L T1 (2 + (blkF (4 * (k.val + 1))).val) := by
      unfold tile_body0.sl.dma0_5; rw [hcA]; show gRows d IX L T1 (4 * (k.val + 1) + 2) = gRows d IX L T1 (2 + (4 * (k.val + 1)) % 20); congr 1; omega
    ihave B1 := (blk_intro (F := F) d T1 IX L ⟨_, hq0⟩ (k0_off6 L k 1#32) (k0_off6_inb L k 0) hbo0 gA _ hwA) $$ HbA
    ihave B2 := (blk_intro (F := F) d T1 IX L ⟨_, hq1⟩ (k0_off6 L k 2#32) (k0_off6_inb L k 1) hbo1 gB _ hwB) $$ HbB
    ihave B3 := (blk_intro (F := F) d T1 IX L ⟨_, hq2⟩ (k0_off6 L k 3#32) (k0_off6_inb L k 2) hbo2 gC _ hwC) $$ HbC'
    have hbo3' : k0_off6 L k 4#32 = negOff L (blkF (4 * (k.val + 1))).val :=
      hbo3.trans (by show negOff L (4 * k.val + 1 + 1 + 1 + 1) = negOff L ((4 * (k.val + 1)) % 20); congr 1; omega)
    -- the invariant at the next trip
    isplitl []; · iexact Hmw
    isplitl [Hs12]; · iexact Hs12
    isplitl [Hq5]; · iexact Hq5
    isplitl [Hs13]; · iexact Hs13
    isplitl [Hq6]; · iexact Hq6
    isplitl [Hs14]; · iexact Hs14
    isplitl [Hq7]; · iexact Hq7
    isplitl [Hs15]
    · have h8 : (8 : ℕ) < sig.nDmaSem := by decide
      iapply ((wFl_intro' (F := F) d T1 IX L ⟨8, h8⟩ cc0_scratch3 (blkF (4 * (k.val + 1))) (k0_off6 L k 4#32) (k0_off6_inb L k 3) hbo3' gD _ hwD (gRows d IX L T1 (4 * (k.val + 1) + 2))).trans
        (Entails.of_eq (wFl_unfold (F := F) d L ⟨8, h8⟩ cc0_scratch3 (blkF (4 * (k.val + 1))) (gV2 d T1 IX) (gRows d IX L T1 (4 * (k.val + 1) + 2)))))
      iexact Hs15
    isplitl [Hr0]; · iexact Hr0
    isplitl [Hq4]; · iexact Hq4
    isplitl [Hs11]; · iexact Hs11
    isplitl [Hs16]; · iexact Hs16
    isplitl [Hs17]; · iexact Hs17
    isplitl [Hs18]; · iexact Hs18
    isplitl [Hdone R0 R1 R2 R3]
    · iapply (mid_push4 (F := F) (fun k' : Fin 24 => (a8Loc d L ↦[a8RowSet k']{fullShare} A8c d IX L : sProp 𝕄)) 2 (4 * k.val + 3) (4 * (k.val + 1) + 3) hd0 hd1 hd2 hd3 (by omega) (by omega))
      isplitl [Hdone]; · iexact Hdone
      isplitl [R0]; · iexact R0
      isplitl [R1]; · iexact R1
      isplitl [R2]; · iexact R2
      iexact R3
    isplitl [Hrows]
    · iapply (Entails.of_eq (bigSep_from_congr (F := F) _ (show 4 * k.val + 6 + 1 + 1 + 1 + 1 = 4 * (k.val + 1) + 6 by omega)))
      iexact Hrows
    isplitl [Hbd B0 B1 B2 B3]
    · iapply (mid_push4 (F := F) (fun j : Fin 20 => (o2Loc d ↦[(negSl L j).view.set]{fullShare} gV2 d T1 IX : sProp 𝕄)) 0 (4 * k.val) (4 * (k.val + 1)) hp0 hq0 hq1 hq2 (by omega) (by omega))
      isplitl [Hbd]; · iexact Hbd
      isplitl [B0]; · iexact B0
      isplitl [B1]; · iexact B1
      isplitl [B2]; · iexact B2
      iexact B3
    isplitl [Hneg]
    · iapply (Entails.of_eq (bigSep_from_congr (F := F) _ (show 4 * k.val + 1 + 1 + 1 + 1 + 1 = 4 * (k.val + 1) + 1 by omega)))
      iexact Hneg
    iexists (insert ((SemLoc.dma ⟨11, by decide⟩ : SemLoc sig), (default : HIx 4))
      (insert ((SemLoc.dma ⟨4, by decide⟩ : SemLoc sig), (default : HIx 4))
        (insert ((SemLoc.dma ⟨10, by decide⟩ : SemLoc sig), (default : HIx 4))
          (insert ((SemLoc.dma ⟨7, by decide⟩ : SemLoc sig), (default : HIx 4))
            (insert ((SemLoc.dma ⟨9, by decide⟩ : SemLoc sig), (default : HIx 4))
              (insert ((SemLoc.dma ⟨6, by decide⟩ : SemLoc sig), (default : HIx 4))
                (insert ((SemLoc.dma ⟨8, by decide⟩ : SemLoc sig), (default : HIx 4))
                  (insert ((SemLoc.dma ⟨5, by decide⟩ : SemLoc sig), (default : HIx 4)) W')))))))); isplitr
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      · exact hW' p hp
    · iexact HO
  · unfold inv
    isplitl [Hmw]; · iexact Hmw
    isplitl [Hs12]; · unfold gFl; iexact Hs12
    isplitl [Hq5]; · iexact Hq5
    isplitl [Hs13]; · unfold gFl; iexact Hs13
    isplitl [Hq6]; · iexact Hq6
    isplitl [Hs14]; · unfold gFl; iexact Hs14
    isplitl [Hq7]; · iexact Hq7
    isplitl [Hs15]
    · have h8 : (8 : ℕ) < sig.nDmaSem := by decide
      iapply (wFl_intro' (F := F) d T1 IX L ⟨8, h8⟩ cc0_scratch3 (blkF (4 * 0)) (k0_off2 L (k0_off2_at 0))
        (k0_off2_inb L 0) (k0_off2_neg L 0 0 rfl) g0 _ hw0 _)
      iexact Hs15
    isplitl [Hr0]; · iexact Hr0
    isplitl [Hq4]; · iexact Hq4
    isplitl [Hs11]; · iexact Hs11
    isplitl [Hs16]; · iexact Hs16
    isplitl [Hs17]; · iexact Hs17
    isplitl [Hs18]; · iexact Hs18
    isplitl [Hw2]
    · iapply (rows_done0 (F := F) d L _ h2)
      iapply (Entails.of_eq (pts_a8Row (F := F) d L ⟨2, h2⟩ ![2, 0] (rowInb ⟨2, h2⟩) rfl _))
      iexact Hw2
    isplitl [Hrows]; · iexact Hrows
    isplitl []; · iapply (blks_done0 (F := F) d L (gV2 d T1 IX)); iempintro
    isplitl [Hneg]; · iexact Hneg
    iexists (insert ((SemLoc.dma ⟨4, by decide⟩ : SemLoc sig), (default : HIx 4))
      (insert ((SemLoc.dma ⟨12, by decide⟩ : SemLoc sig), (default : HIx 4)) W)); isplitr
    · ipureintro; intro p hp
      rcases Finset.mem_insert.mp hp with rfl | hp
      · exact .inr rfl
      rcases Finset.mem_insert.mp hp with rfl | hp
      · exact .inr rfl
      · exact .inl hp
    · iexact HO
  iintro %_ HI
  unfold inv gFl wFl
  icases HI with ⟨#Hmw', Hs12, Hq5, Hs13, Hq6, Hs14, Hq7, Hs15, Hr0, Hq4, Hs11, Hs16, Hs17, Hs18, Hdone, Hrows, Hbd, Hneg, %W', %hW', HO⟩
  have htr : Scf.trips k0_t1_loop.lb k0_t1_loop.ub k0_t1_loop.st = 4 := by decide
  rw [htr]
  have hb16 : (16 : ℕ) < 20 := by decide
  have h19 : (19 : ℕ) < 24 := by decide
  have h20 : (20 : ℕ) < 24 := by decide
  have h21 : (21 : ℕ) < 24 := by decide
  have e19 : rowF (4 * 4 + 3) = ⟨19, h19⟩ := rfl
  have e20 : rowF (4 * 4 + 4) = ⟨20, h20⟩ := rfl
  have e21 : rowF (4 * 4 + 5) = ⟨21, h21⟩ := rfl
  have e16 : blkF (4 * 4) = ⟨16, hb16⟩ := rfl
  rw [e19, e20, e21, e16]
  have hb17 : (17 : ℕ) < 20 := by decide
  have hb18 : (18 : ℕ) < 20 := by decide
  have hb19 : (19 : ℕ) < 20 := by decide
  ihave H := (Entails.of_eq (bigSep_from_pop (F := F) _ 17 hb17)) $$ Hneg; icases H with ⟨⟨%g17, Hb17⟩, Hneg⟩
  ihave H := (Entails.of_eq (bigSep_from_pop (F := F) _ 18 hb18)) $$ Hneg; icases H with ⟨⟨%g18, Hb18⟩, Hneg⟩
  ihave H := (Entails.of_eq (bigSep_from_pop (F := F) _ 19 hb19)) $$ Hneg; icases H with ⟨⟨%g19, Hb19⟩, Hneg⟩
  ihave Hb17 := (Entails.of_eq (pts_negOff (F := F) d L (k0_off2_neg L 2 17 rfl) (k0_off2_inb L 2) (negOff_inb L ⟨17, hb17⟩) _).symm) $$ Hb17
  ihave Hb18 := (Entails.of_eq (pts_negOff (F := F) d L (k0_off2_neg L 3 18 rfl) (k0_off2_inb L 3) (negOff_inb L ⟨18, hb18⟩) _).symm) $$ Hb18
  ihave Hb19 := (Entails.of_eq (pts_negOff (F := F) d L (k0_off2_neg L 4 19 rfl) (k0_off2_inb L 4) (negOff_inb L ⟨19, hb19⟩) _).symm) $$ Hb19
  sl_exec
  sl_step
  -- what the copy-outs carried: the gathered rows
  have hp17 : tile_body0.sl.dma0_6 d T1 IX L = gRows d IX L T1 (2 + 17) := rfl
  have hp18 : tile_body0.sl.dma0_7 d T1 IX L = gRows d IX L T1 (2 + 18) := rfl
  have hp19 : tile_body0.sl.dma0_8 d T1 IX L = gRows d IX L T1 (2 + 19) := rfl
  have hpC : tile_body0.sl.dma0_9 d T0 IX L fbC h0 hin0 = gRows d IX L T0 0 := by
    unfold tile_body0.sl.dma0_9 tile_body0.sl.gather0
    exact (writes_whole (F := F) d L cc0_scratch1 fbC _).trans (gather_val0 (F := F) d T0 IX L ⟨0, h0⟩ (rowInb ⟨0, h0⟩) gathers_S100000x128_S128x128 (by decide) hin0)
  have hpP : tile_body0.sl.dma0_10 d T1 IX L fbP h1 hin1 = gRows d IX L T1 1 := by
    unfold tile_body0.sl.dma0_10 tile_body0.sl.gather1
    exact (writes_whole (F := F) d L cc0_scratch2 fbP _).trans (gather_val1 (F := F) d T1 IX L ⟨1, h1⟩ (rowInb ⟨1, h1⟩) gathers_S100000x128_S128x128 (by decide) hin1)
  have h22 : (22 : ℕ) < 24 := by decide
  have h23 : (23 : ℕ) < 24 := by decide
  -- the third result's blocks, all twenty
  ihave Hb17 := (blk_done (F := F) d T1 IX L ⟨17, hb17⟩ _ (k0_off2_inb L 2) (k0_off2_neg L 2 17 rfl) g17 _ hp17) $$ Hb17
  ihave Hb18 := (blk_done (F := F) d T1 IX L ⟨18, hb18⟩ _ (k0_off2_inb L 3) (k0_off2_neg L 3 18 rfl) g18 _ hp18) $$ Hb18
  ihave Hb19 := (blk_done (F := F) d T1 IX L ⟨19, hb19⟩ _ (k0_off2_inb L 4) (k0_off2_neg L 4 19 rfl) g19 _ hp19) $$ Hb19
  ihave Hbd := (Entails.of_eq (bigSep_mid_push (F := F) (fun j : Fin 20 => (o2Loc d ↦[(negSl L j).view.set]{fullShare} gV2 d T1 IX : sProp 𝕄)) 0 16 hb16 (by omega)).symm) $$ [Hs15_dst Hbd]
  · isplitl [Hs15_dst]
    · iexact Hs15_dst
    iexact Hbd
  ihave Hbd := (Entails.of_eq (bigSep_mid_push (F := F) (fun j : Fin 20 => (o2Loc d ↦[(negSl L j).view.set]{fullShare} gV2 d T1 IX : sProp 𝕄)) 0 17 hb17 (by omega)).symm) $$ [Hb17 Hbd]
  · isplitl [Hb17] <;> iassumption
  ihave Hbd := (Entails.of_eq (bigSep_mid_push (F := F) (fun j : Fin 20 => (o2Loc d ↦[(negSl L j).view.set]{fullShare} gV2 d T1 IX : sProp 𝕄)) 0 18 hb18 (by omega)).symm) $$ [Hb18 Hbd]
  · isplitl [Hb18] <;> iassumption
  ihave Hbd := (Entails.of_eq (bigSep_mid_push (F := F) (fun j : Fin 20 => (o2Loc d ↦[(negSl L j).view.set]{fullShare} gV2 d T1 IX : sProp 𝕄)) 0 19 hb19 (by omega)).symm) $$ [Hb19 Hbd]
  · isplitl [Hb19] <;> iassumption
  ihave Hbd := (Entails.of_eq (bigSep_mid_all (F := F) (fun j : Fin 20 => (o2Loc d ↦[(negSl L j).view.set]{fullShare} gV2 d T1 IX : sProp 𝕄)))) $$ Hbd
  -- the index scratch, all twenty-four rows
  ihave R19 := (Entails.of_eq (pts_a8Row (F := F) d L ⟨19, h19⟩ _ _ rfl _)) $$ Hs12_dst_and
  ihave R20 := (Entails.of_eq (pts_a8Row (F := F) d L ⟨20, h20⟩ _ _ rfl _)) $$ Hs13_dst_and
  ihave R21 := (Entails.of_eq (pts_a8Row (F := F) d L ⟨21, h21⟩ _ _ rfl _)) $$ Hs14_dst_and
  ihave R0 := (Entails.of_eq (pts_a8Row (F := F) d L ⟨0, h0⟩ ![0, 0] (rowInb ⟨0, h0⟩) rfl _)) $$ Hw0
  ihave R1 := (Entails.of_eq (pts_a8Row (F := F) d L ⟨1, h1⟩ ![1, 0] (rowInb ⟨1, h1⟩) rfl _)) $$ Hw1
  ihave H := (Entails.of_eq (bigSep_from_pop (F := F) _ 22 h22)) $$ Hrows; icases H with ⟨R22, Hrows⟩
  ihave H := (Entails.of_eq (bigSep_from_pop (F := F) _ 23 h23)) $$ Hrows; icases H with ⟨R23, -⟩
  ihave Hdone := (Entails.of_eq (bigSep_mid_push (F := F) (fun k : Fin 24 => (a8Loc d L ↦[a8RowSet k]{fullShare} A8c d IX L : sProp 𝕄)) 2 19 h19 (by omega)).symm) $$ [R19 Hdone]
  · isplitl [R19]
    · iexact R19
    iexact Hdone
  ihave Hdone := (Entails.of_eq (bigSep_mid_push (F := F) (fun k : Fin 24 => (a8Loc d L ↦[a8RowSet k]{fullShare} A8c d IX L : sProp 𝕄)) 2 20 h20 (by omega)).symm) $$ [R20 Hdone]
  · isplitl [R20]
    · iexact R20
    iexact Hdone
  ihave Hdone := (Entails.of_eq (bigSep_mid_push (F := F) (fun k : Fin 24 => (a8Loc d L ↦[a8RowSet k]{fullShare} A8c d IX L : sProp 𝕄)) 2 21 h21 (by omega)).symm) $$ [R21 Hdone]
  · isplitl [R21]
    · iexact R21
    iexact Hdone
  ihave Hdone := (Entails.of_eq (bigSep_mid_push (F := F) (fun k : Fin 24 => (a8Loc d L ↦[a8RowSet k]{fullShare} A8c d IX L : sProp 𝕄)) 2 22 h22 (by omega)).symm) $$ [R22 Hdone]
  · isplitl [R22]
    · iexact R22
    iexact Hdone
  ihave Hdone := (Entails.of_eq (bigSep_mid_push (F := F) (fun k : Fin 24 => (a8Loc d L ↦[a8RowSet k]{fullShare} A8c d IX L : sProp 𝕄)) 2 23 h23 (by omega)).symm) $$ [R23 Hdone]
  · isplitl [R23]
    · iexact R23
    iexact Hdone
  ihave Hdone := (Entails.of_eq (bigSep_mid_top (F := F) (fun k : Fin 24 => (a8Loc d L ↦[a8RowSet k]{fullShare} A8c d IX L : sProp 𝕄)) 2)) $$ Hdone
  ihave Hdone := (Entails.of_eq (bigSep_from_pop (F := F) (fun k : Fin 24 => (a8Loc d L ↦[a8RowSet k]{fullShare} A8c d IX L : sProp 𝕄)) 1 h1).symm) $$ [R1 Hdone]
  · isplitl [R1]
    · iexact R1
    iexact Hdone
  ihave Hdone := (Entails.of_eq (bigSep_from_pop (F := F) (fun k : Fin 24 => (a8Loc d L ↦[a8RowSet k]{fullShare} A8c d IX L : sProp 𝕄)) 0 h0).symm) $$ [R0 Hdone]
  · isplitl [R0]
    · iexact R0
    iexact Hdone
  ihave Hdone := (Entails.of_eq (bigSep_from_zero (F := F) (fun k : Fin 24 => (a8Loc d L ↦[a8RowSet k]{fullShare} A8c d IX L : sProp 𝕄)))) $$ Hdone
  ihave Ha8 := (Entails.of_eq (a8_rows (F := F) d L (A8c d IX L)).symm) $$ Hdone
  -- what the tile hands back
  unfold tdResL
  isplitl [Ht0 Hq8 Hq7 Hq6 Hq5 Hq4 Hq3 Hq2 Hq1 Hq0 Hix Ho0 Ho1 Hbd]
  · isplitl [Ht0]
    · iexact Ht0
    isplitl [Hq8 Hq7 Hq6 Hq5 Hq4 Hq3 Hq2 Hq1 Hq0]
    · iapply (toks8_join (F := F) (tblShare L) T1)
      isplitl [Hq8]
      · iexact Hq8
      isplitl [Hq7]
      · iexact Hq7
      isplitl [Hq6]
      · iexact Hq6
      isplitl [Hq5]
      · iexact Hq5
      isplitl [Hq4]
      · iexact Hq4
      isplitl [Hq3]
      · iexact Hq3
      isplitl [Hq2]
      · iexact Hq2
      isplitl [Hq1]
      · iexact Hq1
      iexact Hq0
    isplitl [Hix]
    · iexact Hix
    isplitl [Ho0]
    · iapply (Entails.of_eq (pointsTo_congr (block_val0 (F := F) d T0 IX L f0 _ hpC)))
      iexact Ho0
    isplitl [Ho1]
    · iapply (Entails.of_eq (pointsTo_congr (block_val1 (F := F) d T1 IX L f1 _ hpP)))
      iexact Ho1
    iexact Hbd
  isplitl [Ha8 HbC HbP Hr0 Hs12_dst Hs13_dst Hs14_dst Hbufs]
  · isplitr [Hbufs]
    · isplitl [Ha8]
      · iexists _; iexact Ha8
      isplitl [HbC]
      · iexists _; iexact HbC
      isplitl [HbP]
      · iexists _; iexact HbP
      isplitl [Hr0]
      · iexists _; iexact Hr0
      isplitl [Hs12_dst]
      · iexists _; iexact Hs12_dst
      isplitl [Hs13_dst]
      · iexists _; iexact Hs13_dst
      iexists _; iexact Hs14_dst
    iexact Hbufs
  isplitr [HO]
  · isplitr [Hsems]
    · isplitl [Hs0]
      · iexact Hs0
      isplitl [Hs7]
      · iexact Hs7
      isplitl [Hs8]
      · iexact Hs8
      isplitl [Hs9]
      · iexact Hs9
      isplitl [Hs10]
      · iexact Hs10
      isplitl [Hs11]
      · iexact Hs11
      isplitl [Hs12]
      · iexact Hs12
      isplitl [Hs13]
      · iexact Hs13
      isplitl [Hs14]
      · iexact Hs14
      isplitl [Hs15]
      · iexact Hs15
      isplitl [Hs16]
      · iexact Hs16
      isplitl [Hs17]
      · iexact Hs17
      iexact Hs18
    iexact Hsems
  iexists _; isplitr
  swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

end Body

/-! ## The launch theorem's obligation -/

theorem defs₀_vector (c : Fin τ.nSC) (s : Fin τ.nSub) :
    defs₀ (F := F) (.scVector c s) 0 ()
      = SparseCore.onTile hcore0 hsub0 (fun c s => cc0__sc_gather (coordsV c s)
          t0V (Memref.isWhole_whole _) t1V (Memref.isWhole_whole _) ixV (Memref.isWhole_whole _) o0V (Memref.isWhole_whole _) o1V (Memref.isWhole_whole _) o2V (Memref.isWhole_whole _)
            a8 (Memref.isWhole_whole _) bC (Memref.isWhole_whole _) bP (Memref.isWhole_whole _) rb0 (Memref.isWhole_whole _) rb1 (Memref.isWhole_whole _) rb2 (Memref.isWhole_whole _) rb3 (Memref.isWhole_whole _)
            cc0_scratch7 cc0_scratch8 cc0_scratch9 cc0_scratch10 cc0_scratch11 cc0_scratch12 cc0_scratch13 cc0_scratch14 cc0_scratch15 cc0_scratch16 cc0_scratch17 cc0_scratch18 cc0_scoped0) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- `TileObl` at call 0, for any payload record whose call-0 fields are the tile's resources above, nothing
    extra held per thread and nothing owed for a protocol of the kernel's own. -/
theorem tileObl0 (hF : (K (F := F)).Facts)
    (T0 : (d : Dev nD) → Buf (Elt F) (t0Loc d)) (T1 : (d : Dev nD) → Buf (Elt F) (t1Loc d)) (IX : (d : Dev nD) → Buf (Elt F) (ixLoc d))
    (hIX : ∀ d, IXOK d (IX d))
    (P : (K (F := F)).Pay (nD := nD) (Val := Elt F) (Name := ℕ) (U := UU))
    (hgo : ∀ d c i, P.go 0 d c i = goRes0 d (T0 d) (T1 d) (IX d) c i)
    (htd : ∀ d c i, P.td 0 d c i = tdRes0 d (T0 d) (T1 d) (IX d) c i)
    (hx : ∀ thr, P.x 0 thr = iprop(emp))
    (hox : ∀ thr, P.ox 0 thr = 0) :
    (K (F := F)).TileObl (D (F := F)) 𝒱 P v₀ 0 := by
  intro d c i O W hO _ _
  rw [hox, add_zero, hx, hgo, htd]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body0 d (T0 d) (T1 d) (IX d) hF (hIX d) (coordsV ⟨_, hc.1⟩ ⟨_, hc.2⟩) O W hO).trans (wp_mono frame _ _ fun _ => obl_post)

end Cert.Proof.KB

end
-- ==== Proof.KB_TileOwn_c1.lean ====
/-
  A vector subcore's own storage at call 1: its thread, the seven scratch buffers and thirteen DMA semaphores of
  the gather kernel, taken out of the tile's scoped buffers and scoped semaphores.
-/
import proofs.«215899_g5772436046013_cont_9to1c4b_742_31_alg».proof.Proof.KB_TileRes
import proofs.«215899_g5772436046013_cont_9to1c4b_742_31_alg».proof.Proof.KB_TileRes_c1
import proofs.«215899_g5772436046013_cont_9to1c4b_742_31_alg».proof.Proof.KB_TileOwn

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## The tile's thread, its scratch buffers and its semaphores -/

abbrev thrV1 (d : Dev nD) (L : grid2.Coords) : Thread nD τ := V d (cV1 L) (jV1 L)

abbrev a81 : Memref sig .scVector .vmem S24x128 .i32 := Memref.whole cc2_scratch0
abbrev bC1 : Memref sig .scVector .vmem S128x128 .f32 := Memref.whole cc2_scratch1
abbrev bP1 : Memref sig .scVector .vmem S128x128 .f32 := Memref.whole cc2_scratch2
abbrev rb01 : Memref sig .scVector .vmem S128x128 .f32 := Memref.whole cc2_scratch3
abbrev rb11 : Memref sig .scVector .vmem S128x128 .f32 := Memref.whole cc2_scratch4
abbrev rb21 : Memref sig .scVector .vmem S128x128 .f32 := Memref.whole cc2_scratch5
abbrev rb31 : Memref sig .scVector .vmem S128x128 .f32 := Memref.whole cc2_scratch6

/-- The kernel's thirteen DMA semaphores. -/
def tileSems1 : Finset (DmaSem sig) := {cc2_scoped0.sem, cc2_scratch7.sem, cc2_scratch8.sem, cc2_scratch9.sem, cc2_scratch10.sem, cc2_scratch11.sem, cc2_scratch12.sem, cc2_scratch13.sem, cc2_scratch14.sem, cc2_scratch15.sem, cc2_scratch16.sem, cc2_scratch17.sem, cc2_scratch18.sem}
/-- The kernel's seven scratch buffers. -/
def tileRefs1 : Finset (Ref sig .scVector) := {cc2_scratch0, cc2_scratch1, cc2_scratch2, cc2_scratch3, cc2_scratch4, cc2_scratch5, cc2_scratch6}

omit [FloatOps F] in
theorem tileSems_sub1 (d : Dev nD) (L : grid2.Coords) : tileSems1.map (cellEmb (thrV1 d L)) ⊆ ownCells (thrV1 d L) := by
  intro g hg
  obtain ⟨s, hs, rfl⟩ := Finset.mem_map.mp hg
  refine mem_ownCells.mpr ⟨rfl, ?_⟩
  show sig.isScopedDmaSem .scVector s = true
  clear hg
  revert s; decide +revert

omit [FloatOps F] in
theorem ownSems0_V1 (d : Dev nD) (L : grid2.Coords) :
    (ownSems0 (thrV1 d L) : sProp 𝕄)
      = iprop((semVal (thrV1 d L, SemLoc.dma cc2_scoped0.sem) 0
          ∗ semVal (thrV1 d L, SemLoc.dma cc2_scratch7.sem) 0
          ∗ semVal (thrV1 d L, SemLoc.dma cc2_scratch8.sem) 0
          ∗ semVal (thrV1 d L, SemLoc.dma cc2_scratch9.sem) 0
          ∗ semVal (thrV1 d L, SemLoc.dma cc2_scratch10.sem) 0
          ∗ semVal (thrV1 d L, SemLoc.dma cc2_scratch11.sem) 0
          ∗ semVal (thrV1 d L, SemLoc.dma cc2_scratch12.sem) 0
          ∗ semVal (thrV1 d L, SemLoc.dma cc2_scratch13.sem) 0
          ∗ semVal (thrV1 d L, SemLoc.dma cc2_scratch14.sem) 0
          ∗ semVal (thrV1 d L, SemLoc.dma cc2_scratch15.sem) 0
          ∗ semVal (thrV1 d L, SemLoc.dma cc2_scratch16.sem) 0
          ∗ semVal (thrV1 d L, SemLoc.dma cc2_scratch17.sem) 0
          ∗ semVal (thrV1 d L, SemLoc.dma cc2_scratch18.sem) 0)
          ∗ bigSep (ownCells (thrV1 d L) \ tileSems1.map (cellEmb (thrV1 d L))) fun g => semVal g 0) := by
  unfold SparseCore.Cfg.ownSems0
  rw [SparseCore.bigSep_sdiff_split' (tileSems_sub1 d L), BI.bigSep_map]
  unfold tileSems1
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton]
  rfl

omit [FloatOps F] in
theorem tileRefs_sub1 (L : grid2.Coords) :
    tileRefs1.map (refEmb (Proc.scVector (cV1 L) (jV1 L))) ⊆ ownRefs (τ := τ) (sig := sig) (Proc.scVector (cV1 L) (jV1 L)) := by
  intro b hb
  obtain ⟨r, hr, rfl⟩ := Finset.mem_map.mp hb
  simp only [tileRefs1, Finset.mem_insert, Finset.mem_singleton] at hr
  rcases hr with rfl | rfl | rfl | rfl | rfl | rfl | rfl <;> exact SparseCore.Cfg.mem_ownRefs_of_owner rfl

omit [FloatOps F] in
theorem ownBufs_V1 (d : Dev nD) (L : grid2.Coords) :
    (ownBufs (thrV1 d L) : sProp 𝕄)
      = iprop(((∃ f, (thrV1 d L).loc cc2_scratch0 ↦{fullShare} f)
          ∗ (∃ f, (thrV1 d L).loc cc2_scratch1 ↦{fullShare} f)
          ∗ (∃ f, (thrV1 d L).loc cc2_scratch2 ↦{fullShare} f)
          ∗ (∃ f, (thrV1 d L).loc cc2_scratch3 ↦{fullShare} f)
          ∗ (∃ f, (thrV1 d L).loc cc2_scratch4 ↦{fullShare} f)
          ∗ (∃ f, (thrV1 d L).loc cc2_scratch5 ↦{fullShare} f)
          ∗ (∃ f, (thrV1 d L).loc cc2_scratch6 ↦{fullShare} f))
          ∗ bigSep (ownRefs (τ := τ) (Proc.scVector (cV1 L) (jV1 L)) \ tileRefs1.map (refEmb (Proc.scVector (cV1 L) (jV1 L))))
              fun b => iprop(∃ f, ((d, b) : Loc nD τ sig) ↦{fullShare} f)) := by
  unfold SparseCore.Cfg.ownBufs
  rw [SparseCore.bigSep_sdiff_split' (tileRefs_sub1 L), BI.bigSep_map]
  unfold tileRefs1
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton]
  rfl

end Cert.Proof.KB

end
-- ==== Proof.KB_TileGeom_c1.lean ====
/-
  Geometry and bookkeeping for the gather kernel's run on one vector subcore: families over a segment of `Fin N`,
  the call's arrays as a tile's memrefs address them, a table's read shares one per DMA semaphore, and the index
  scratch row by row (the offset lists of the indirect gathers).
-/
import proofs.«215899_g5772436046013_cont_9to1c4b_742_31_alg».proof.Proof.KB_TileOwn
import proofs.«215899_g5772436046013_cont_9to1c4b_742_31_alg».proof.Proof.KB_TileOwn_c1
import proofs.«215899_g5772436046013_cont_9to1c4b_742_31_alg».proof.Proof.KB_TileGeom

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## Families over an initial or a final segment of `Fin N` -/

section Segments

end Segments

/-! ## The arrays as the tile's memrefs address them -/

section Pts

variable (d : Dev nD) (L : grid2.Coords)

theorem pts_t01 (q : PosShare TreeShare) (f : Buf (Elt F) (t0Loc d)) :
    ((t0V).view.loc (thrV1 d L) ↦{q} f : sProp 𝕄) = (t0Loc d ↦{q} f) := rfl
theorem pts_t11 (q : PosShare TreeShare) (f : Buf (Elt F) (t1Loc d)) :
    ((t1V).view.loc (thrV1 d L) ↦{q} f : sProp 𝕄) = (t1Loc d ↦{q} f) := rfl
theorem pts_ix1 (f : Buf (Elt F) (ixLoc1 d)) :
    ((ixSl1 L).view.loc (thrV1 d L) ↦[(ixSl1 L).view.set]{fullShare} f : sProp 𝕄) = (ixLoc1 d ↦[(ixSl1 L).view.set]{fullShare} f) := rfl
theorem pts_o01 (f : Buf (Elt F) (o0Loc1 d)) :
    ((o0Sl1 L).view.loc (thrV1 d L) ↦[(o0Sl1 L).view.set]{fullShare} f : sProp 𝕄) = (o0Loc1 d ↦[(o0Sl1 L).view.set]{fullShare} f) := rfl
theorem pts_o11 (f : Buf (Elt F) (o1Loc1 d)) :
    ((o1Sl1 L).view.loc (thrV1 d L) ↦[(o1Sl1 L).view.set]{fullShare} f : sProp 𝕄) = (o1Loc1 d ↦[(o1Sl1 L).view.set]{fullShare} f) := rfl
theorem pts_scr1 (b : Ref sig .scVector) (f : Buf (Elt F) ((thrV1 d L).loc b)) :
    ((Memref.whole b : Memref sig .scVector _ _ _).view.loc (thrV1 d L) ↦{fullShare} f : sProp 𝕄) = ((thrV1 d L).loc b ↦{fullShare} f) := rfl

/-! ### The table's read shares, one per DMA semaphore number -/

end Pts

/-! ## The index scratch row by row -/

section Rows

abbrev a8RowSet1 (k : Fin 24) : Finset S24x128.Idx := ((a81 : Memref sig .scVector .vmem S24x128 .i32).view.slice (a8Part k)).set

theorem a8RowSet_eq1 (k : Fin 24) : a8RowSet1 k = (a8Part k).set := by
  show ((View.whole (cc2_scratch0 : Ref sig .scVector)).slice (a8Part k)).set = _
  rw [View.set_slice]; exact Finset.map_refl
theorem a8rows_disjoint1 : ∀ i ∈ (Finset.univ : Finset (Fin 24)), ∀ j ∈ (Finset.univ : Finset (Fin 24)), i ≠ j → Disjoint (a8RowSet1 i) (a8RowSet1 j) :=
  fun i _ j _ h => by rw [a8RowSet_eq1, a8RowSet_eq1]; exact Rect.part_disjoint hdiv24 h
theorem a8rows_cover1 : (Finset.univ : Finset (Fin 24)).biUnion a8RowSet1 = Finset.univ :=
  (Finset.biUnion_congr rfl fun i _ => a8RowSet_eq1 i).trans (Rect.biUnion_part hdiv24)

end Rows

section Rows2

variable (d : Dev nD) (L : grid2.Coords)

abbrev a8Loc1 : Loc nD τ sig := (thrV1 d L).loc cc2_scratch0

/-- The index scratch whole is its 24 rows. -/
theorem a8_rows1 (f : Buf (Elt F) (a8Loc1 d L)) :
    (a8Loc1 d L ↦{fullShare} f : sProp 𝕄) = bigSep Finset.univ fun k : Fin 24 => a8Loc1 d L ↦[a8RowSet1 k]{fullShare} f := by
  rw [← pointsTo_biUnion Finset.univ (ℓ := a8Loc1 d L) a8RowSet1 a8rows_disjoint1, a8rows_cover1]; try rfl

/-- A row of the index scratch as the program takes it: a one-row slice, squeezed to a list of 128 words. -/
abbrev a8Row1 (off : Fin 2 → ℕ) (h : ∀ a, off a + S1x128.size a ≤ S24x128.size a) : Memref sig .scVector .vmem S128 .i32 :=
  ((a81).slice (Rect.unit (s := S24x128) off S1x128.size h) (fun _ => rfl)).squeeze S128 squeezes_S1x128_S128

theorem a8Row_set1 (k : Fin 24) (off : Fin 2 → ℕ) (h : ∀ a, off a + S1x128.size a ≤ S24x128.size a) (hoff : off = ![k.val, 0]) :
    (a8Row1 off h).view.set = a8RowSet1 k := by
  show (((a81 : Memref sig .scVector .vmem S24x128 .i32).view.slice (Rect.unit (s := S24x128) off S1x128.size h)).reshape S128 squeezes_S1x128_S128.numel_eq).set
    = ((a81 : Memref sig .scVector .vmem S24x128 .i32).view.slice (a8Part k)).set
  rw [View.set_reshape]
  exact (a8Row_rect k off h hoff) ▸ rfl

theorem pts_a8Row1 (k : Fin 24) (off : Fin 2 → ℕ) (h : ∀ a, off a + S1x128.size a ≤ S24x128.size a) (hoff : off = ![k.val, 0])
    (f : Buf (Elt F) (a8Loc1 d L)) :
    ((a8Row1 off h).view.loc (thrV1 d L) ↦[(a8Row1 off h).view.set]{fullShare} f : sProp 𝕄) = (a8Loc1 d L ↦[a8RowSet1 k]{fullShare} f) := by
  rw [a8Row_set1 k off h hoff]

end Rows2

end Cert.Proof.KB

end
-- ==== Proof.KB_TileInv_c1.lean ====
/-
  The gather kernel's ring at the head of a trip: what the index scratch holds, the offset lists' range, the rows a
  gather lands, the transfers in flight as the run holds them, and the loop's invariant.
-/
import proofs.«215899_g5772436046013_cont_9to1c4b_742_31_alg».proof.Proof.KB_TileGeom
import proofs.«215899_g5772436046013_cont_9to1c4b_742_31_alg».proof.Proof.KB_TileGeom_c1
import proofs.«215899_g5772436046013_cont_9to1c4b_742_31_alg».proof.Proof.KB_TileInv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## The index scratch's contents and the offset lists' range -/

/-- What the index scratch holds once the tile's rows of the index array have landed. -/
def A8c1 (d : Dev nD) (IX : Buf (Elt F) (ixLoc1 d)) (L : grid2.Coords) : Buf (Elt F) (a8Loc1 d L) :=
  show S24x128.Idx → Elt F .i32 from (ixSl1 L).view.read (Elt F) IX

theorem a8Row_emb01 (k : Fin 24) (h : ∀ a, (![k.val, 0] : Fin 2 → ℕ) a + S1x128.size a ≤ S24x128.size a) (x : S128.Idx) :
    ((a8Row1 ![k.val, 0] h).view.emb x 0).val = k.val := by
  have key : ∀ j : S1x128.Idx, ((Rect.unit (s := S24x128) ![k.val, 0] S1x128.size h).emb j 0).val = k.val := by
    intro j
    have hj : (j 0).val < 1 := (j 0).isLt
    rw [Rect.emb_apply]
    show k.val + 1 * (j 0).val = k.val
    omega
  exact key _

/-- Every offset list the kernel gathers by holds row numbers of the tables. -/
theorem hin_rows1 (d : Dev nD) (IX : Buf (Elt F) (ixLoc1 d)) (L : grid2.Coords) (hIX : IXOK1 d IX) (k : Fin 24) (off : Fin 2 → ℕ)
    (h : ∀ a, off a + S1x128.size a ≤ S24x128.size a) (hoff : off = ![k.val, 0]) (hk : k.val < 22) (x : S128.Idx) :
    (View.read (Elt F) (a8Row1 off h).view (A8c1 d IX L) x).toNat < 100000 := by
  subst hoff
  exact hIX L ((a8Row1 ![k.val, 0] h).view.emb x) (by rw [a8Row_emb01]; exact hk)

theorem a8Row_congr1 {off off' : Fin 2 → ℕ} (e : off = off') (h : ∀ a, off a + S1x128.size a ≤ S24x128.size a)
    (h' : ∀ a, off' a + S1x128.size a ≤ S24x128.size a) : a8Row1 off h = a8Row1 off' h' := by
  subst e; rfl

/-! ## The third result's blocks in the program's spellings -/

/-- A block of the third result held through a slice at `off` is held through the slice at an equal offset. -/
theorem pts_negOff1 (d : Dev nD) (L : grid2.Coords) {off off' : Fin 2 → ℕ} (e : off = off')
    (h : ∀ a, off a + S128x128.size a ≤ S81920x128.size a) (h' : ∀ a, off' a + S128x128.size a ≤ S81920x128.size a)
    (f : Buf (Elt F) (o2Loc1 d)) :
    (View.loc (thrV1 d L) ((o2V1).slice (Rect.unit (s := S81920x128) off S128x128.size h) (fun _ => rfl)).view
        ↦[((o2V1).slice (Rect.unit (s := S81920x128) off S128x128.size h) (fun _ => rfl)).view.set]{fullShare} f : sProp 𝕄)
      = (View.loc (thrV1 d L) ((o2V1).slice (Rect.unit (s := S81920x128) off' S128x128.size h') (fun _ => rfl)).view
        ↦[((o2V1).slice (Rect.unit (s := S81920x128) off' S128x128.size h') (fun _ => rfl)).view.set]{fullShare} f) := by
  subst e; rfl

theorem k2_off2_neg (L : grid2.Coords) (r : Fin 5) (j : ℕ) (hj : (k2_off2_at r).toNat = 4096 * j) :
    k2_off2 L (k2_off2_at r) = negOff1 L j := by
  rw [k2_off2_wid, hj]; rfl

/-! ## The gathered rows, and the transfers in flight -/

section Inv

variable (d : Dev nD) (T0 : Buf (Elt F) (t0Loc d)) (T1 : Buf (Elt F) (t1Loc d)) (IX : Buf (Elt F) (ixLoc1 d)) (L : grid2.Coords)

/-- The 128 rows a table yields for row `k` of the tile's index rows: row `r` is the table's row `IX[24 * wid1 + k, r]`. -/
def gRows1 (Tb : S100000x128.Idx → Elt F .f32) (k : ℕ) : S128x128.Idx → Elt F .f32 :=
  fun x => tblAt (F := F) Tb (ixWord d IX (wid1 L) k (x 0).val) (x 1)

/-- A gather in flight on the DMA semaphore `cell`, reading the second table by read token `tok` through row `row`
    of the index scratch into the scratch buffer `buf`: it delivers the buffer at `cont`, the row and the token. -/
def gFl1 (cell : DmaSem sig) (tok : ℕ) (buf : Ref sig .scVector) (row : Fin 24) (cont : Buf (Elt F) ((thrV1 d L).loc buf)) : sProp 𝕄 :=
  Transfers.Flight countersEmb (thrV1 d L) (SemLoc.dma cell) (default : HIx 4) 524288
    iprop(((View.loc (thrV1 d L) (Memref.whole buf).view ↦{fullShare} cont)
        ∗ View.loc (thrV1 d L) (a8Row1 ![row.val, 0] (rowInb row)).view ↦[(a8Row1 ![row.val, 0] (rowInb row)).view.set]{fullShare} A8c1 d IX L)
      ∗ View.loc (thrV1 d L) (t1V).view ↦[(t1Sl).view.set]{Transfers.shareTokN (tblShare1 L) tok} T1)

/-- A copy-out in flight on the DMA semaphore `cell`, from the scratch buffer `buf` to draw `j`'s block of the third
    result: it delivers the block at `bcont` and the buffer's elements at `cont`. -/
def wFl1 (cell : DmaSem sig) (buf : Ref sig .scVector) (j : Fin 20) (bcont : Buf (Elt F) (o2Loc1 d)) (cont : Buf (Elt F) ((thrV1 d L).loc buf)) : sProp 𝕄 :=
  Transfers.Flight countersEmb (thrV1 d L) (SemLoc.dma cell) (default : HIx 4) 524288
    iprop((View.loc (thrV1 d L) (negSl1 L j).view ↦[(negSl1 L j).view.set]{fullShare} bcont)
      ∗ View.loc (thrV1 d L) (Memref.whole buf).view ↦[(Memref.whole buf : Memref sig .scVector _ _ _).view.set]{fullShare} cont)

variable (O : CellTallies nD τ sig (HIx 4)) (W : Waits sig (HIx 4))

/-- The ring at the head of trip `t`: draws `4t+1, 4t+2, 4t+3` being gathered into ring buffers 1, 2, 3, draw `4t` on
    its way out of ring buffer 0; ring semaphore 4 and the copy-out semaphores 9, 10, 11 at rest with read token 4;
    the index rows before `4t+3` and from `4t+6` on at rest; the blocks before `4t` written, those after `4t` not yet. -/
def inv1 (t : ℕ) (_ : PUnit) : sProp 𝕄 :=
  iprop(Transfers.MayWaits (thrV1 d L) (none : HIx 4) O
    ∗ gFl1 d T1 IX L ⟨26, by decide⟩ 5 cc2_scratch4 (rowF (4 * t + 3)) (gRows1 d IX L T1 (4 * t + 3))
    ∗ (View.loc (thrV1 d L) (t1V).view ↦[Finset.univ \ (t1Sl).view.set]{Transfers.shareTokN (tblShare1 L) 5} T1)
    ∗ gFl1 d T1 IX L ⟨27, by decide⟩ 6 cc2_scratch5 (rowF (4 * t + 4)) (gRows1 d IX L T1 (4 * t + 4))
    ∗ (View.loc (thrV1 d L) (t1V).view ↦[Finset.univ \ (t1Sl).view.set]{Transfers.shareTokN (tblShare1 L) 6} T1)
    ∗ gFl1 d T1 IX L ⟨28, by decide⟩ 7 cc2_scratch6 (rowF (4 * t + 5)) (gRows1 d IX L T1 (4 * t + 5))
    ∗ (View.loc (thrV1 d L) (t1V).view ↦[Finset.univ \ (t1Sl).view.set]{Transfers.shareTokN (tblShare1 L) 7} T1)
    ∗ wFl1 d L ⟨29, by decide⟩ cc2_scratch3 (blkF (4 * t)) (gV2 d T1 IX) (gRows1 d IX L T1 (4 * t + 2))
    ∗ (View.loc (thrV1 d L) (Memref.whole cc2_scratch3).view ↦[Finset.univ \ (rb01).view.set]{fullShare} gRows1 d IX L T1 (4 * t + 2))
    ∗ (View.loc (thrV1 d L) (t1V).view ↦{Transfers.shareTokN (tblShare1 L) 4} T1)
    ∗ semVal (thrV1 d L, SemLoc.dma ⟨25, by decide⟩) 0
    ∗ semVal (thrV1 d L, SemLoc.dma ⟨30, by decide⟩) 0
    ∗ semVal (thrV1 d L, SemLoc.dma ⟨31, by decide⟩) 0
    ∗ semVal (thrV1 d L, SemLoc.dma ⟨32, by decide⟩) 0
    ∗ (bigSep (Finset.univ.filter fun k : Fin 24 => 2 ≤ k.val ∧ k.val < 4 * t + 3) fun k => a8Loc1 d L ↦[a8RowSet1 k]{fullShare} A8c1 d IX L)
    ∗ (bigSep (Finset.univ.filter fun k : Fin 24 => 4 * t + 6 ≤ k.val) fun k => a8Loc1 d L ↦[a8RowSet1 k]{fullShare} A8c1 d IX L)
    ∗ (bigSep (Finset.univ.filter fun j : Fin 20 => 0 ≤ j.val ∧ j.val < 4 * t) fun j => o2Loc1 d ↦[(negSl1 L j).view.set]{fullShare} gV2 d T1 IX)
    ∗ (bigSep (Finset.univ.filter fun j : Fin 20 => 4 * t + 1 ≤ j.val) fun j => iprop(∃ f, o2Loc1 d ↦[(negSl1 L j).view.set]{fullShare} f))
    ∗ ∃ W', ⌜∀ p ∈ W', p ∈ W ∨ p.2 = none⌝ ∗ owes (thrV1 d L) O W')

end Inv

end Cert.Proof.KB

end
-- ==== Proof.KB_TileVal_c1.lean ====
/-
  The values the gather kernel moves: what an indirect gather by a row of the index scratch lands in a buffer, and
  what a copy-out of those rows leaves in the results' blocks — the whole-array value functions there.
-/
import proofs.«215899_g5772436046013_cont_9to1c4b_742_31_alg».proof.Proof.KB_TileInv
import proofs.«215899_g5772436046013_cont_9to1c4b_742_31_alg».proof.Proof.KB_TileInv_c1
import proofs.«215899_g5772436046013_cont_9to1c4b_742_31_alg».proof.Proof.KB_TileVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

variable (d : Dev nD) (T0 : Buf (Elt F) (t0Loc d)) (T1 : Buf (Elt F) (t1Loc d)) (IX : Buf (Elt F) (ixLoc1 d)) (L : grid2.Coords)

/-! ## Index arithmetic of the program's views -/

/-- A write of a whole buffer leaves the written values. -/
theorem writes_whole1 (buf : Ref sig .scVector) (f w : Buf (Elt F) ((thrV1 d L).loc buf)) :
    (Memref.whole buf : Memref sig .scVector _ _ _).view.writes (Elt F) f [⟨Rect.whole buf.ty.shape, w⟩] = w := by
  funext i
  exact writes_whole_emb (View.whole buf) f w i

/-- Where an entry of row `k` of the index scratch sits: column `y`. -/
theorem a8Row_emb11 (k : Fin 24) (h : ∀ a, (![k.val, 0] : Fin 2 → ℕ) a + S1x128.size a ≤ S24x128.size a) (y : S128.Idx) :
    ((a8Row1 ![k.val, 0] h).view.emb y 1).val = (y 0).val := by
  have hz : Shape.reshapeEquiv (s := S1x128) (s' := S128) squeezes_S1x128_S128.numel_eq y = Fin.cons ⟨0, Nat.one_pos⟩ y :=
    Shape.reshapeEquiv_cons_one _ y
  show ((Rect.unit (s := S24x128) ![k.val, 0] S1x128.size h).emb
    (Shape.reshapeEquiv (s := S1x128) (s' := S128) squeezes_S1x128_S128.numel_eq y) 1).val = _
  rw [hz, Rect.emb_apply]
  show 0 + 1 * (y 0).val = (y 0).val
  omega

/-- The word an offset list's entry holds: the index array's word at the tile's row `k`, the entry's column. -/
theorem a8_word1 (k : Fin 24) (h : ∀ a, (![k.val, 0] : Fin 2 → ℕ) a + S1x128.size a ≤ S24x128.size a) (y : S128.Idx) :
    (View.read (Elt F) (a8Row1 ![k.val, 0] h).view (A8c1 d IX L) y).toNat = ixWord d IX (wid1 L) k.val (y 0).val := by
  have hk := k.isLt
  have hy : (y 0).val < 128 := (y 0).isLt
  have hw32 := wid_lt1 L
  have hc : 24 * wid1 L + k.val < 768 ∧ (y 0).val < 128 := ⟨by omega, hy⟩
  unfold ixWord
  rw [dif_pos hc, View.read_apply, cast_eq]
  unfold A8c1
  rw [View.read_apply, cast_eq]
  refine congrArg (fun z => BitVec.toNat (IX z)) ?_
  funext a; apply Fin.ext
  show ((ixRect1 L).emb ((a8Row1 ![k.val, 0] h).view.emb y) a).val = _
  rw [Rect.emb_apply]
  show k2_off1 L a + 1 * ((a8Row1 ![k.val, 0] h).view.emb y a).val = _
  rw [k2_off1_wid]
  match a with
  | 0 => rw [a8Row_emb01]; show 24 * wid1 L + 1 * k.val = 24 * wid1 L + k.val; omega
  | 1 => rw [a8Row_emb11]; show 0 + 1 * (y 0).val = (y 0).val; omega

/-- What a gather by row `k` of the index scratch lands: the table's rows the tile's index row `k` names. -/
theorem gather_val11 (k : Fin 24) (h : ∀ a, (![k.val, 0] : Fin 2 → ℕ) a + S1x128.size a ≤ S24x128.size a)
    (hg : S100000x128.Gathers 0 S128x128) (hn : S128.numel = S128x128.size hg.axis')
    (hin : ∀ x, (View.read (Elt F) (a8Row1 ![k.val, 0] h).view (A8c1 d IX L) x).toNat < S100000x128.size hg.axis) :
    SparseCore.gatherPayload hg (View.read (Elt F) (t1Sl).view T1) (SparseCore.rows (View.read (Elt F) (a8Row1 ![k.val, 0] h).view (A8c1 d IX L)) hn hin)
      = gRows1 d IX L T1 k.val := by
  funext x
  have ha : hg.axis = (0 : Fin S100000x128.rank) := Fin.ext rfl
  have ha' : hg.axis' = (0 : Fin S128x128.rank) := Fin.ext rfl
  -- the row the entry names
  have hr : ((SparseCore.rows (View.read (Elt F) (a8Row1 ![k.val, 0] h).view (A8c1 d IX L)) hn hin) (x hg.axis')).val
      = ixWord d IX (wid1 L) k.val (x 0).val := by
    unfold SparseCore.rows
    show (View.read (Elt F) (a8Row1 ![k.val, 0] h).view (A8c1 d IX L) (S128.rowMajor.symm ((x hg.axis').cast hn.symm))).toNat = _
    rw [a8_word1]
    congr 1
    have e := Shape.rowMajor_val_one (d := ![128]) (S128.rowMajor.symm ((x hg.axis').cast hn.symm))
    rw [Equiv.apply_symm_apply] at e
    rw [← e]
    exact congrArg (fun i => (x i).val) ha'
  have hlt : ixWord d IX (wid1 L) k.val (x 0).val < 100000 := hr ▸ (SparseCore.rows _ hn hin (x hg.axis')).isLt
  unfold SparseCore.gatherPayload gRows1 tblAt
  rw [View.read_apply, cast_eq, dif_pos hlt]
  refine congrArg T1 ?_
  funext a; apply Fin.ext
  show ((Rect.unit (s := S100000x128) ![0, 0] S100000x128.size inb_S100000x128_S100000x128_0_0).emb (hg.idx _ x) a).val = _
  rw [Rect.emb_apply]
  match a with
  | 0 =>
    show 0 + 1 * (hg.idx _ x 0).val = ixWord d IX (wid1 L) k.val (x 0).val
    have h0 : (hg.idx (SparseCore.rows (View.read (Elt F) (a8Row1 ![k.val, 0] h).view (A8c1 d IX L)) hn hin) x 0).val
        = (hg.idx (SparseCore.rows (View.read (Elt F) (a8Row1 ![k.val, 0] h).view (A8c1 d IX L)) hn hin) x hg.axis).val :=
      congrArg (fun i => (hg.idx (SparseCore.rows (View.read (Elt F) (a8Row1 ![k.val, 0] h).view (A8c1 d IX L)) hn hin) x i).val) ha.symm
    rw [h0, Shape.Gathers.idx_axis, hr]; omega
  | 1 =>
    show 0 + 1 * (hg.idx _ x 1).val = (x 1).val
    rw [Shape.Gathers.idx_of_ne hg _ x 1 (by decide)]
    show 0 + 1 * (x 1).val = (x 1).val
    omega

theorem gather_val01 (k : Fin 24) (h : ∀ a, (![k.val, 0] : Fin 2 → ℕ) a + S1x128.size a ≤ S24x128.size a)
    (hg : S100000x128.Gathers 0 S128x128) (hn : S128.numel = S128x128.size hg.axis')
    (hin : ∀ x, (View.read (Elt F) (a8Row1 ![k.val, 0] h).view (A8c1 d IX L) x).toNat < S100000x128.size hg.axis) :
    SparseCore.gatherPayload hg (View.read (Elt F) (t0Sl).view T0) (SparseCore.rows (View.read (Elt F) (a8Row1 ![k.val, 0] h).view (A8c1 d IX L)) hn hin)
      = gRows1 d IX L T0 k.val := by
  funext x
  have ha : hg.axis = (0 : Fin S100000x128.rank) := Fin.ext rfl
  have ha' : hg.axis' = (0 : Fin S128x128.rank) := Fin.ext rfl
  -- the row the entry names
  have hr : ((SparseCore.rows (View.read (Elt F) (a8Row1 ![k.val, 0] h).view (A8c1 d IX L)) hn hin) (x hg.axis')).val
      = ixWord d IX (wid1 L) k.val (x 0).val := by
    unfold SparseCore.rows
    show (View.read (Elt F) (a8Row1 ![k.val, 0] h).view (A8c1 d IX L) (S128.rowMajor.symm ((x hg.axis').cast hn.symm))).toNat = _
    rw [a8_word1]
    congr 1
    have e := Shape.rowMajor_val_one (d := ![128]) (S128.rowMajor.symm ((x hg.axis').cast hn.symm))
    rw [Equiv.apply_symm_apply] at e
    rw [← e]
    exact congrArg (fun i => (x i).val) ha'
  have hlt : ixWord d IX (wid1 L) k.val (x 0).val < 100000 := hr ▸ (SparseCore.rows _ hn hin (x hg.axis')).isLt
  unfold SparseCore.gatherPayload gRows1 tblAt
  rw [View.read_apply, cast_eq, dif_pos hlt]
  refine congrArg T0 ?_
  funext a; apply Fin.ext
  show ((Rect.unit (s := S100000x128) ![0, 0] S100000x128.size inb_S100000x128_S100000x128_0_0).emb (hg.idx _ x) a).val = _
  rw [Rect.emb_apply]
  match a with
  | 0 =>
    show 0 + 1 * (hg.idx _ x 0).val = ixWord d IX (wid1 L) k.val (x 0).val
    have h0 : (hg.idx (SparseCore.rows (View.read (Elt F) (a8Row1 ![k.val, 0] h).view (A8c1 d IX L)) hn hin) x 0).val
        = (hg.idx (SparseCore.rows (View.read (Elt F) (a8Row1 ![k.val, 0] h).view (A8c1 d IX L)) hn hin) x hg.axis).val :=
      congrArg (fun i => (hg.idx (SparseCore.rows (View.read (Elt F) (a8Row1 ![k.val, 0] h).view (A8c1 d IX L)) hn hin) x i).val) ha.symm
    rw [h0, Shape.Gathers.idx_axis, hr]; omega
  | 1 =>
    show 0 + 1 * (hg.idx _ x 1).val = (x 1).val
    rw [Shape.Gathers.idx_of_ne hg _ x 1 (by decide)]
    show 0 + 1 * (x 1).val = (x 1).val
    omega

/-- What a copy-out of the rows gathered for draw `j` leaves in the draw's block: the third result's values there. -/
theorem block_val21 (j : Fin 20) (buf : Ref sig .scVector) (hb : buf.ty = ⟨S128x128, .f32⟩) (g : Buf (Elt F) (o2Loc1 d))
    (w : S128x128.Idx → Elt F .f32) (hw : w = gRows1 d IX L T1 (2 + j.val)) :
    ∀ i ∈ (negSl1 L j).view.set, ((negSl1 L j).view.writes (Elt F) g [⟨Rect.whole (negRect1 L j).shape, w⟩]) i = gV2 d T1 IX i := by
  intro i hi
  subst hw
  have hi' : i ∈ (negRect1 L j).set := by
    rw [show (negSl1 L j).view.set = (negRect1 L j).set from View.set_slice_whole _ _] at hi; exact hi
  obtain ⟨x, rfl⟩ := (negRect1 L j).exists_idx_of_mem hi'
  refine (writes_whole_emb (negSl1 L j).view g (gRows1 d IX L T1 (2 + j.val)) x).trans ?_
  rw [cast_eq]
  have hx0 : (x 0).val < 128 := (x 0).isLt
  have hw32 := wid_lt1 L
  have hj := j.isLt
  have e0 : (((negRect1 L j).emb x) 0).val = 128 * wid1 L + 4096 * j.val + (x 0).val := by
    rw [Rect.emb_apply]; show 128 * wid1 L + 4096 * j.val + 1 * (x 0).val = _; omega
  have e1 : ((negRect1 L j).emb x) 1 = x 1 := by
    apply Fin.ext; rw [Rect.emb_apply]; show 0 + 1 * (x 1).val = _; omega
  show tblAt (F := F) T1 (ixWord d IX (wid1 L) (2 + j.val) (x 0).val) (x 1)
    = tblAt (F := F) T1 (ixWord d IX ((((negRect1 L j).emb x) 0).val % 4096 / 128) (2 + (((negRect1 L j).emb x) 0).val / 4096) ((((negRect1 L j).emb x) 0).val % 128)) (((negRect1 L j).emb x) 1)
  rw [e1, e0, show (128 * wid1 L + 4096 * j.val + (x 0).val) % 4096 / 128 = wid1 L by omega,
    show (128 * wid1 L + 4096 * j.val + (x 0).val) / 4096 = j.val by omega,
    show (128 * wid1 L + 4096 * j.val + (x 0).val) % 128 = (x 0).val by omega]

theorem block_val01 (g : Buf (Elt F) (o0Loc1 d)) (w : S128x128.Idx → Elt F .f32) (hw : w = gRows1 d IX L T0 0) :
    ∀ i ∈ (o0Sl1 L).view.set, ((o0Sl1 L).view.writes (Elt F) g [⟨Rect.whole (oRect1 L).shape, w⟩]) i = gV0 d T0 IX i := by
  intro i hi
  subst hw
  have hi' : i ∈ (oRect1 L).set := by
    rw [show (o0Sl1 L).view.set = (oRect1 L).set from View.set_slice_whole _ _] at hi; exact hi
  obtain ⟨x, rfl⟩ := (oRect1 L).exists_idx_of_mem hi'
  refine (writes_whole_emb (o0Sl1 L).view g (gRows1 d IX L T0 0) x).trans ?_
  rw [cast_eq]
  have hx0 : (x 0).val < 128 := (x 0).isLt
  have hw32 := wid_lt1 L
  have e0 : (((oRect1 L).emb x) 0).val = 128 * wid1 L + (x 0).val := by
    rw [Rect.emb_apply]; show k2_off7 L 0 + 1 * (x 0).val = _
    rw [k2_off7_wid]; show 128 * wid1 L + 1 * (x 0).val = _; omega
  have e1 : ((oRect1 L).emb x) 1 = x 1 := by
    apply Fin.ext; rw [Rect.emb_apply]; show k2_off7 L 1 + 1 * (x 1).val = _
    rw [k2_off7_wid]; show 0 + 1 * (x 1).val = _; omega
  show tblAt (F := F) T0 (ixWord d IX (wid1 L) 0 (x 0).val) (x 1)
    = tblAt (F := F) T0 (ixWord d IX ((((oRect1 L).emb x) 0).val / 128) 0 ((((oRect1 L).emb x) 0).val % 128)) (((oRect1 L).emb x) 1)
  rw [e1, e0, show (128 * wid1 L + (x 0).val) / 128 = wid1 L by omega, show (128 * wid1 L + (x 0).val) % 128 = (x 0).val by omega]

theorem block_val11 (g : Buf (Elt F) (o1Loc1 d)) (w : S128x128.Idx → Elt F .f32) (hw : w = gRows1 d IX L T1 1) :
    ∀ i ∈ (o1Sl1 L).view.set, ((o1Sl1 L).view.writes (Elt F) g [⟨Rect.whole (oRect1 L).shape, w⟩]) i = gV1 d T1 IX i := by
  intro i hi
  subst hw
  have hi' : i ∈ (oRect1 L).set := by
    rw [show (o1Sl1 L).view.set = (oRect1 L).set from View.set_slice_whole _ _] at hi; exact hi
  obtain ⟨x, rfl⟩ := (oRect1 L).exists_idx_of_mem hi'
  refine (writes_whole_emb (o1Sl1 L).view g (gRows1 d IX L T1 1) x).trans ?_
  rw [cast_eq]
  have hx0 : (x 0).val < 128 := (x 0).isLt
  have hw32 := wid_lt1 L
  have e0 : (((oRect1 L).emb x) 0).val = 128 * wid1 L + (x 0).val := by
    rw [Rect.emb_apply]; show k2_off7 L 0 + 1 * (x 0).val = _
    rw [k2_off7_wid]; show 128 * wid1 L + 1 * (x 0).val = _; omega
  have e1 : ((oRect1 L).emb x) 1 = x 1 := by
    apply Fin.ext; rw [Rect.emb_apply]; show k2_off7 L 1 + 1 * (x 1).val = _
    rw [k2_off7_wid]; show 0 + 1 * (x 1).val = _; omega
  show tblAt (F := F) T1 (ixWord d IX (wid1 L) 1 (x 0).val) (x 1)
    = tblAt (F := F) T1 (ixWord d IX ((((oRect1 L).emb x) 0).val / 128) 1 ((((oRect1 L).emb x) 0).val % 128)) (((oRect1 L).emb x) 1)
  rw [e1, e0, show (128 * wid1 L + (x 0).val) / 128 = wid1 L by omega, show (128 * wid1 L + (x 0).val) % 128 = (x 0).val by omega]

end Cert.Proof.KB

end
-- ==== Proof.KB_TileEpi_c1.lean ====
/-
  The end of the gather kernel on a tile: segments of index families that run to the end, and a block of the third
  result once the copy-out of a draw's rows has written it.
-/
import proofs.«215899_g5772436046013_cont_9to1c4b_742_31_alg».proof.Proof.KB_TileVal
import proofs.«215899_g5772436046013_cont_9to1c4b_742_31_alg».proof.Proof.KB_TileVal_c1
import proofs.«215899_g5772436046013_cont_9to1c4b_742_31_alg».proof.Proof.KB_TileEpi

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section Epi

variable (d : Dev nD) (T0 : Buf (Elt F) (t0Loc d)) (T1 : Buf (Elt F) (t1Loc d)) (IX : Buf (Elt F) (ixLoc1 d)) (L : grid2.Coords)

/-- A block of the third result the copy-out of draw `j`'s rows has written, in the program's spelling of the block,
    is the block at the third result's values. -/
theorem blk_done1 (j : Fin 20) (off : Fin 2 → ℕ) (h : ∀ a, off a + S128x128.size a ≤ S81920x128.size a) (hoff : off = negOff1 L j.val)
    (g : Buf (Elt F) (o2Loc1 d)) (w : S128x128.Idx → Elt F .f32) (hw : w = gRows1 d IX L T1 (2 + j.val)) :
    (View.loc (thrV1 d L) ((o2V1).slice (Rect.unit (s := S81920x128) off S128x128.size h) (fun _ => rfl)).view
        ↦[((o2V1).slice (Rect.unit (s := S81920x128) off S128x128.size h) (fun _ => rfl)).view.set]{fullShare}
        ((o2V1).slice (Rect.unit (s := S81920x128) off S128x128.size h) (fun _ => rfl)).view.writes (Elt F) g
          [⟨Rect.whole (Rect.unit (s := S81920x128) off S128x128.size h).shape, w⟩] : sProp 𝕄)
      ⊢ (o2Loc1 d ↦[(negSl1 L j).view.set]{fullShare} gV2 d T1 IX) := by
  subst hoff
  exact Entails.of_eq (pointsTo_congr (block_val21 (F := F) d T1 IX L j cc2_scratch3 rfl g w hw))

end Epi

end Cert.Proof.KB

end
-- ==== Proof.KB_Tile_c1.lean ====
/-
  The gather kernel of call 1 on one vector subcore, as the launch theorem's obligation: the kernel's run at a
  symbolic tile from the tile's resources to its results, and the obligation in the launch theorem's own spelling.
-/
import proofs.«215899_g5772436046013_cont_9to1c4b_742_31_alg».proof.Proof.KB_TileEpi
import proofs.«215899_g5772436046013_cont_9to1c4b_742_31_alg».proof.Proof.KB_TileEpi_c1
import proofs.«215899_g5772436046013_cont_9to1c4b_742_31_alg».proof.Proof.KB_Tile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section Intro

variable (d : Dev nD) (T0 : Buf (Elt F) (t0Loc d)) (T1 : Buf (Elt F) (t1Loc d)) (IX : Buf (Elt F) (ixLoc1 d)) (L : grid2.Coords)

/-- A gather's flight as the run leaves it is the invariant's, the landed rows in closed form. -/
theorem gFl_intro1 (cell : DmaSem sig) (tok : ℕ) (buf : Ref sig .scVector) (row : Fin 24) (off : Fin 2 → ℕ)
    (h : ∀ a, off a + S1x128.size a ≤ S24x128.size a) (hoff : off = ![row.val, 0])
    (c0 cont : Buf (Elt F) ((thrV1 d L).loc buf)) (hc : c0 = cont) :
    Transfers.Flight countersEmb (thrV1 d L) (SemLoc.dma cell) (default : HIx 4) 524288
      iprop(((View.loc (thrV1 d L) (Memref.whole buf).view ↦{fullShare} c0)
          ∗ View.loc (thrV1 d L) (a8Row1 off h).view ↦[(a8Row1 off h).view.set]{fullShare} A8c1 d IX L)
        ∗ View.loc (thrV1 d L) (t1V).view ↦[(t1Sl).view.set]{Transfers.shareTokN (tblShare1 L) tok} T1)
      ⊢ (gFl1 d T1 IX L cell tok buf row cont : sProp 𝕄) := by
  subst hoff hc; exact .rfl

/-- A copy-out's flight as the run leaves it is the invariant's, the block at the third result's values. -/
theorem wFl_intro1 (cell : DmaSem sig) (buf : Ref sig .scVector) (j : Fin 20) (off : Fin 2 → ℕ)
    (h : ∀ a, off a + S128x128.size a ≤ S81920x128.size a) (hoff : off = negOff1 L j.val)
    (b0 bcont : Buf (Elt F) (o2Loc1 d)) (hb : ∀ i ∈ (negSl1 L j).view.set, b0 i = bcont i)
    (c0 cont : Buf (Elt F) ((thrV1 d L).loc buf)) (hc : c0 = cont) :
    Transfers.Flight countersEmb (thrV1 d L) (SemLoc.dma cell) (default : HIx 4) 524288
      iprop((View.loc (thrV1 d L) ((o2V1).slice (Rect.unit (s := S81920x128) off S128x128.size h) (fun _ => rfl)).view
            ↦[((o2V1).slice (Rect.unit (s := S81920x128) off S128x128.size h) (fun _ => rfl)).view.set]{fullShare} b0)
        ∗ View.loc (thrV1 d L) (Memref.whole buf).view ↦[(Memref.whole buf : Memref sig .scVector _ _ _).view.set]{fullShare} c0)
      ⊢ (wFl1 d L cell buf j bcont cont : sProp 𝕄) := by
  subst hoff hc
  refine Transfers.Flight_mono countersEmb (thrV1 d L) ?_
  rw [show (View.loc (thrV1 d L) ((o2V1).slice (Rect.unit (s := S81920x128) (negOff1 L j.val) S128x128.size h) (fun _ => rfl)).view
            ↦[((o2V1).slice (Rect.unit (s := S81920x128) (negOff1 L j.val) S128x128.size h) (fun _ => rfl)).view.set]{fullShare} b0 : sProp 𝕄)
        = (View.loc (thrV1 d L) (negSl1 L j).view ↦[(negSl1 L j).view.set]{fullShare} bcont) from pointsTo_congr hb]

/-- The first done row at the loop's entry. -/
theorem rows_done01 (c : Buf (Elt F) (a8Loc1 d L)) (h2 : 2 < 24) :
    (a8Loc1 d L ↦[a8RowSet1 ⟨2, h2⟩]{fullShare} c : sProp 𝕄)
      ⊢ bigSep (Finset.univ.filter fun k : Fin 24 => 2 ≤ k.val ∧ k.val < 4 * 0 + 3) fun k => a8Loc1 d L ↦[a8RowSet1 k]{fullShare} c := by
  rw [show (Finset.univ.filter fun k : Fin 24 => 2 ≤ k.val ∧ k.val < 4 * 0 + 3) = {⟨2, h2⟩} from
    Finset.ext fun k => by simp only [Finset.mem_filter, Finset.mem_univ, true_and, Finset.mem_singleton, Fin.ext_iff]; omega, bigSep_singleton]

/-- No block is written at the loop's entry. -/
theorem blks_done01 (c : Buf (Elt F) (o2Loc1 d)) :
    (iprop(emp) : sProp 𝕄)
      ⊢ bigSep (Finset.univ.filter fun j : Fin 20 => 0 ≤ j.val ∧ j.val < 4 * 0) fun j => o2Loc1 d ↦[(negSl1 L j).view.set]{fullShare} c := by
  rw [show (Finset.univ.filter fun j : Fin 20 => 0 ≤ j.val ∧ j.val < 4 * 0) = ∅ from by decide, bigSep_empty]
  exact .rfl

end Intro

section Intro2

variable (d : Dev nD) (T0 : Buf (Elt F) (t0Loc d)) (T1 : Buf (Elt F) (t1Loc d)) (IX : Buf (Elt F) (ixLoc1 d)) (L : grid2.Coords)

/-- What a gather by an index row lands, the row taken at any spelling of its offset. -/
theorem gather_val1'1 (off : Fin 2 → ℕ) (h : ∀ a, off a + S1x128.size a ≤ S24x128.size a) (kk : Fin 24) (hoff : off = ![kk.val, 0])
    (hg : S100000x128.Gathers 0 S128x128) (hn : S128.numel = S128x128.size hg.axis')
    (hin : ∀ x, (View.read (Elt F) (a8Row1 off h).view (A8c1 d IX L) x).toNat < S100000x128.size hg.axis) :
    SparseCore.gatherPayload hg (View.read (Elt F) (t1Sl).view T1) (SparseCore.rows (View.read (Elt F) (a8Row1 off h).view (A8c1 d IX L)) hn hin)
      = gRows1 d IX L T1 kk.val := by
  subst hoff; exact gather_val11 (F := F) d T1 IX L kk h hg hn hin

/-- A block written whole with the rows gathered for its draw holds the third result's values. -/
theorem blk_intro1 (j : Fin 20) (off : Fin 2 → ℕ) (h : ∀ a, off a + S128x128.size a ≤ S81920x128.size a) (hoff : off = negOff1 L j.val)
    (g : Buf (Elt F) (o2Loc1 d)) (w : S128x128.Idx → Elt F .f32) (hw : w = gRows1 d IX L T1 (2 + j.val)) :
    (View.loc (thrV1 d L) ((o2V1).slice (Rect.unit (s := S81920x128) off S128x128.size h) (fun _ => rfl)).view
        ↦[((o2V1).slice (Rect.unit (s := S81920x128) off S128x128.size h) (fun _ => rfl)).view.set]{fullShare}
        (((o2V1).slice (Rect.unit (s := S81920x128) off S128x128.size h) (fun _ => rfl)).view.writes (Elt F) g
          [⟨Rect.whole (Rect.unit (s := S81920x128) off S128x128.size h).shape, w⟩]) : sProp 𝕄)
      ⊢ (o2Loc1 d ↦[(negSl1 L j).view.set]{fullShare} gV2 d T1 IX) := by
  subst hoff
  exact Entails.of_eq (pointsTo_congr (block_val21 (F := F) d T1 IX L j cc2_scratch3 rfl g w hw))

/-- The same inside a copy-out's flight. -/
theorem wFl_intro'1 (cell : DmaSem sig) (buf : Ref sig .scVector) (j : Fin 20) (off : Fin 2 → ℕ)
    (h : ∀ a, off a + S128x128.size a ≤ S81920x128.size a) (hoff : off = negOff1 L j.val)
    (g : Buf (Elt F) (o2Loc1 d)) (w : S128x128.Idx → Elt F .f32) (hw : w = gRows1 d IX L T1 (2 + j.val))
    (cont : Buf (Elt F) ((thrV1 d L).loc buf)) :
    Transfers.Flight countersEmb (thrV1 d L) (SemLoc.dma cell) (default : HIx 4) 524288
      iprop((View.loc (thrV1 d L) ((o2V1).slice (Rect.unit (s := S81920x128) off S128x128.size h) (fun _ => rfl)).view
            ↦[((o2V1).slice (Rect.unit (s := S81920x128) off S128x128.size h) (fun _ => rfl)).view.set]{fullShare}
            (((o2V1).slice (Rect.unit (s := S81920x128) off S128x128.size h) (fun _ => rfl)).view.writes (Elt F) g
              [⟨Rect.whole (Rect.unit (s := S81920x128) off S128x128.size h).shape, w⟩]))
        ∗ View.loc (thrV1 d L) (Memref.whole buf).view ↦[(Memref.whole buf : Memref sig .scVector _ _ _).view.set]{fullShare} cont)
      ⊢ (wFl1 d L cell buf j (gV2 d T1 IX) cont : sProp 𝕄) := by
  refine Transfers.Flight_mono countersEmb (thrV1 d L) ?_
  iintro ⟨Hb, Hc⟩
  isplitl [Hb]
  · iapply (blk_intro1 (F := F) d T1 IX L j off h hoff g w hw); iexact Hb
  · iexact Hc

end Intro2

section Intro3

variable (d : Dev nD) (T1 : Buf (Elt F) (t1Loc d)) (IX : Buf (Elt F) (ixLoc1 d)) (L : grid2.Coords)

theorem row_reidx1 (c : Buf (Elt F) (a8Loc1 d L)) (i j : Fin 24) (e : i = j) :
    (a8Loc1 d L ↦[a8RowSet1 i]{fullShare} c : sProp 𝕄) ⊢ (a8Loc1 d L ↦[a8RowSet1 j]{fullShare} c) := by
  subst e; exact .rfl

theorem blk_reidx1 (c : Buf (Elt F) (o2Loc1 d)) (i j : Fin 20) (e : i = j) :
    (View.loc (thrV1 d L) (negSl1 L i).view ↦[(negSl1 L i).view.set]{fullShare} c : sProp 𝕄) ⊢ (o2Loc1 d ↦[(negSl1 L j).view.set]{fullShare} c) := by
  subst e; exact .rfl

theorem pts_a8Row_congr1 {off off' : Fin 2 → ℕ} (e : off = off') (h : ∀ a, off a + S1x128.size a ≤ S24x128.size a)
    (h' : ∀ a, off' a + S1x128.size a ≤ S24x128.size a) (f : Buf (Elt F) (a8Loc1 d L)) :
    (View.loc (thrV1 d L) (a8Row1 off h).view ↦[(a8Row1 off h).view.set]{fullShare} f : sProp 𝕄)
      = (View.loc (thrV1 d L) (a8Row1 off' h').view ↦[(a8Row1 off' h').view.set]{fullShare} f) := by
  subst e; rfl

theorem wFl_unfold1 (cell : DmaSem sig) (buf : Ref sig .scVector) (j : Fin 20) (b : Buf (Elt F) (o2Loc1 d)) (c : Buf (Elt F) ((thrV1 d L).loc buf)) :
    (wFl1 d L cell buf j b c : sProp 𝕄) = Transfers.Flight countersEmb (thrV1 d L) (SemLoc.dma cell) (default : HIx 4) 524288
      iprop((View.loc (thrV1 d L) (negSl1 L j).view ↦[(negSl1 L j).view.set]{fullShare} b)
        ∗ View.loc (thrV1 d L) (Memref.whole buf).view ↦[(Memref.whole buf : Memref sig .scVector _ _ _).view.set]{fullShare} c) := rfl

end Intro3

/-! ## The kernel at a symbolic tile -/

section Body

variable (d : Dev nD) (T0 : Buf (Elt F) (t0Loc d)) (T1 : Buf (Elt F) (t1Loc d)) (IX : Buf (Elt F) (ixLoc1 d))

set_option maxHeartbeats 4000000 in
/-- The gather kernel on the vector subcore at `L`: from what the tile is handed and its own scratch storage to what
    it hands back, every wait admissible under what the tile owes the launch. The index copy-in lands the tile's 24
    index rows; each gather reads a table by one of those rows, on its own semaphore and read token; the ring's
    loop keeps the invariant `inv1`; every block copied out holds the result's values. -/
theorem tile_body1 (hF : (K (F := F)).Facts) (hIX : IXOK1 d IX) (L : grid2.Coords) (O : CellTallies nD τ sig (HIx 4)) (W : Waits sig (HIx 4)) (hO : ∀ g, O g none = 0) :
    iprop(levAts (K (F := F)).L (K (F := F)).lev ∗ emp ∗ goResL1 d T0 T1 IX L
        ∗ scopedBufs (thrV1 d L) ∗ scopedSems0 (thrV1 d L) ∗ owes (thrV1 d L) O W)
      ⊢ wp frame (wpE (defs₀ (F := F)) 𝒱₀ (thrV1 d L) none) Set.univ
          (cc2__sc_gather L t0V (Memref.isWhole_whole _) t1V (Memref.isWhole_whole _) ixV1 (Memref.isWhole_whole _) o0V1 (Memref.isWhole_whole _) o1V1 (Memref.isWhole_whole _) o2V1 (Memref.isWhole_whole _)
            a81 (Memref.isWhole_whole _) bC1 (Memref.isWhole_whole _) bP1 (Memref.isWhole_whole _) rb01 (Memref.isWhole_whole _) rb11 (Memref.isWhole_whole _) rb21 (Memref.isWhole_whole _) rb31 (Memref.isWhole_whole _)
            cc2_scratch7 cc2_scratch8 cc2_scratch9 cc2_scratch10 cc2_scratch11 cc2_scratch12 cc2_scratch13 cc2_scratch14 cc2_scratch15 cc2_scratch16 cc2_scratch17 cc2_scratch18 cc2_scoped0)
          fun _ => iprop(tdResL1 d T0 T1 IX L ∗ scopedBufs (thrV1 d L) ∗ scopedSems0 (thrV1 d L)
            ∗ ∃ W', ⌜∀ p ∈ W', p ∈ W ∨ p.2 = none⌝ ∗ owes (thrV1 d L) O W') := by
  simp only [cc2__sc_gather_eq_skeleton]; unfold cc2__sc_gather_skel
  rw [(K (F := F)).scopedBufs_V hF d (cV1 L) (jV1 L), SparseCore.Cfg.scopedSems0_V (Val := Elt F) d (cV1 L) (jV1 L), ownSems0_V1, ownBufs_V1]
  unfold goResL1
  iintro ⟨#Hlv, -, ⟨Ht0, Ht1, Hix, ⟨%f0, Ho0⟩, ⟨%f1, Ho1⟩, Hneg⟩,
    ⟨⟨⟨%fa8, Ha8⟩, ⟨%fbC, HbC⟩, ⟨%fbP, HbP⟩, ⟨%f0', Hr0⟩, ⟨%f1', Hr1⟩, ⟨%f2', Hr2⟩, ⟨%f3', Hr3⟩⟩, Hbufs⟩,
    ⟨⟨Hs0, Hs7, Hs8, Hs9, Hs10, Hs11, Hs12, Hs13, Hs14, Hs15, Hs16, Hs17, Hs18⟩, Hsems⟩, HO⟩
  ihave Hmw := ((K (F := F)).mayWaits_none (thr := thrV1 d L) hO) $$ Hlv
  -- the arrays as the tile's memrefs address them; the second table's share, one read token per semaphore
  ihave Ht0 := (Entails.of_eq (pts_t01 (F := F) d L _ _).symm) $$ Ht0
  ihave Ht1 := (toks8_split (F := F) (tblShare1 L) T1) $$ Ht1
  icases Ht1 with ⟨Hq8, Hq7, Hq6, Hq5, Hq4, Hq3, Hq2, Hq1, Hq0⟩
  ihave Hq1 := (Entails.of_eq (pts_t11 (F := F) d L _ _).symm) $$ Hq1
  ihave Hq4 := (Entails.of_eq (pts_t11 (F := F) d L _ _).symm) $$ Hq4
  ihave Hq5 := (Entails.of_eq (pts_t11 (F := F) d L _ _).symm) $$ Hq5
  ihave Hq6 := (Entails.of_eq (pts_t11 (F := F) d L _ _).symm) $$ Hq6
  ihave Hq7 := (Entails.of_eq (pts_t11 (F := F) d L _ _).symm) $$ Hq7
  ihave Hix := (Entails.of_eq (pts_ix1 (F := F) d L _).symm) $$ Hix
  ihave Ho0 := (Entails.of_eq (pts_o01 (F := F) d L _).symm) $$ Ho0
  ihave Ho1 := (Entails.of_eq (pts_o11 (F := F) d L _).symm) $$ Ho1
  ihave Ha8 := (Entails.of_eq (pts_scr1 (F := F) d L cc2_scratch0 _).symm) $$ Ha8
  ihave HbC := (Entails.of_eq (pts_scr1 (F := F) d L cc2_scratch1 _).symm) $$ HbC
  ihave HbP := (Entails.of_eq (pts_scr1 (F := F) d L cc2_scratch2 _).symm) $$ HbP
  ihave Hr0 := (Entails.of_eq (pts_scr1 (F := F) d L cc2_scratch3 _).symm) $$ Hr0
  ihave Hr1 := (Entails.of_eq (pts_scr1 (F := F) d L cc2_scratch4 _).symm) $$ Hr1
  ihave Hr2 := (Entails.of_eq (pts_scr1 (F := F) d L cc2_scratch5 _).symm) $$ Hr2
  ihave Hr3 := (Entails.of_eq (pts_scr1 (F := F) d L cc2_scratch6 _).symm) $$ Hr3

  sl_exec
  -- the index scratch now holds the tile's 24 rows of the index array; row by row
  have hA8 : (View.write (Elt F) (a81 : Memref sig .scVector .vmem S24x128 .i32).view fa8 (tile_body1.sl.dma0 d IX L) Finset.univ) = A8c1 d IX L := by
    exact (View.write_whole_univ (Val := Elt F) cc2_scratch0 fa8 _).trans rfl
  rw [hA8]
  have h0 : (0 : ℕ) < 24 := by decide
  have h1 : (1 : ℕ) < 24 := by decide
  have h2 : (2 : ℕ) < 24 := by decide
  have h3 : (3 : ℕ) < 24 := by decide
  have h4 : (4 : ℕ) < 24 := by decide
  have h5 : (5 : ℕ) < 24 := by decide
  have hb0 : (0 : ℕ) < 20 := by decide
  ihave Ha8 := (Entails.of_eq (pts_scr1 (F := F) d L cc2_scratch0 _)) $$ Ha8
  ihave Hrows := (Entails.of_eq (a8_rows1 (F := F) d L _)) $$ Ha8
  ihave Hrows := (Entails.of_eq (bigSep_from_zero (F := F) _).symm) $$ Hrows
  ihave H := (Entails.of_eq (bigSep_from_pop (F := F) _ 0 h0)) $$ Hrows; icases H with ⟨Hw0, Hrows⟩
  ihave H := (Entails.of_eq (bigSep_from_pop (F := F) _ 1 h1)) $$ Hrows; icases H with ⟨Hw1, Hrows⟩
  ihave H := (Entails.of_eq (bigSep_from_pop (F := F) _ 2 h2)) $$ Hrows; icases H with ⟨Hw2, Hrows⟩
  ihave H := (Entails.of_eq (bigSep_from_pop (F := F) _ 3 h3)) $$ Hrows; icases H with ⟨Hw3, Hrows⟩
  ihave H := (Entails.of_eq (bigSep_from_pop (F := F) _ 4 h4)) $$ Hrows; icases H with ⟨Hw4, Hrows⟩
  ihave H := (Entails.of_eq (bigSep_from_pop (F := F) _ 5 h5)) $$ Hrows; icases H with ⟨Hw5, Hrows⟩
  ihave Hw0 := (Entails.of_eq (pts_a8Row1 (F := F) d L ⟨0, h0⟩ ![0, 0] (rowInb ⟨0, h0⟩) rfl _).symm) $$ Hw0
  ihave Hw1 := (Entails.of_eq (pts_a8Row1 (F := F) d L ⟨1, h1⟩ ![1, 0] (rowInb ⟨1, h1⟩) rfl _).symm) $$ Hw1
  ihave Hw2 := (Entails.of_eq (pts_a8Row1 (F := F) d L ⟨2, h2⟩ ![2, 0] (rowInb ⟨2, h2⟩) rfl _).symm) $$ Hw2
  ihave Hw3 := (Entails.of_eq (pts_a8Row1 (F := F) d L ⟨3, h3⟩ ![3, 0] (rowInb ⟨3, h3⟩) rfl _).symm) $$ Hw3
  ihave Hw4 := (Entails.of_eq (pts_a8Row1 (F := F) d L ⟨4, h4⟩ ![4, 0] (rowInb ⟨4, h4⟩) rfl _).symm) $$ Hw4
  ihave Hw5 := (Entails.of_eq (pts_a8Row1 (F := F) d L ⟨5, h5⟩ ![5, 0] (rowInb ⟨5, h5⟩) rfl _).symm) $$ Hw5
  have hin0 := hin_rows1 (F := F) d IX L hIX ⟨0, h0⟩ ![0, 0] (rowInb ⟨0, h0⟩) rfl (by show (0 : ℕ) < 22; decide)
  have hin1 := hin_rows1 (F := F) d IX L hIX ⟨1, h1⟩ ![1, 0] (rowInb ⟨1, h1⟩) rfl (by show (1 : ℕ) < 22; decide)
  have hin2 := hin_rows1 (F := F) d IX L hIX ⟨2, h2⟩ ![2, 0] (rowInb ⟨2, h2⟩) rfl (by show (2 : ℕ) < 22; decide)
  have hin3 := hin_rows1 (F := F) d IX L hIX ⟨3, h3⟩ ![3, 0] (rowInb ⟨3, h3⟩) rfl (by show (3 : ℕ) < 22; decide)
  have hin4 := hin_rows1 (F := F) d IX L hIX ⟨4, h4⟩ ![4, 0] (rowInb ⟨4, h4⟩) rfl (by show (4 : ℕ) < 22; decide)
  have hin5 := hin_rows1 (F := F) d IX L hIX ⟨5, h5⟩ ![5, 0] (rowInb ⟨5, h5⟩) rfl (by show (5 : ℕ) < 22; decide)
  -- draw 0's block of the third result
  ihave Hneg := (Entails.of_eq (bigSep_from_zero (F := F) _).symm) $$ Hneg
  ihave H := (Entails.of_eq (bigSep_from_pop (F := F) _ 0 hb0)) $$ Hneg; icases H with ⟨⟨%g0, Hb0⟩, Hneg⟩
  ihave Hb0 := (Entails.of_eq (pts_negOff1 (F := F) d L (k2_off2_neg L 0 0 rfl) (k2_off2_inb L 0) (negOff_inb1 L ⟨0, hb0⟩) _).symm) $$ Hb0
  sl_exec

  -- ── the ring at the loop's entry: the invariant at trip 0 ──
  have hc3 : (rb11).view.writes (Elt F) f1' [⟨Rect.whole cc2_scratch4.ty.shape, tile_body1.sl.gather3 d T1 IX L h3 hin3⟩] = gRows1 d IX L T1 (4 * 0 + 3) :=
    (writes_whole1 (F := F) d L cc2_scratch4 f1' _).trans (gather_val11 (F := F) d T1 IX L ⟨3, h3⟩ (rowInb ⟨3, h3⟩) gathers_S100000x128_S128x128 (by decide) hin3)
  have hc4 : (rb21).view.writes (Elt F) f2' [⟨Rect.whole cc2_scratch5.ty.shape, tile_body1.sl.gather4 d T1 IX L h4 hin4⟩] = gRows1 d IX L T1 (4 * 0 + 4) :=
    (writes_whole1 (F := F) d L cc2_scratch5 f2' _).trans (gather_val11 (F := F) d T1 IX L ⟨4, h4⟩ (rowInb ⟨4, h4⟩) gathers_S100000x128_S128x128 (by decide) hin4)
  have hc5 : (rb31).view.writes (Elt F) f3' [⟨Rect.whole cc2_scratch6.ty.shape, tile_body1.sl.gather5 d T1 IX L h5 hin5⟩] = gRows1 d IX L T1 (4 * 0 + 5) :=
    (writes_whole1 (F := F) d L cc2_scratch6 f3' _).trans (gather_val11 (F := F) d T1 IX L ⟨5, h5⟩ (rowInb ⟨5, h5⟩) gathers_S100000x128_S128x128 (by decide) hin5)
  have hc2 : (rb01).view.writes (Elt F) f0' [⟨Rect.whole cc2_scratch3.ty.shape, tile_body1.sl.gather2 d T1 IX L h2 hin2⟩] = gRows1 d IX L T1 (4 * 0 + 2) :=
    (writes_whole1 (F := F) d L cc2_scratch3 f0' _).trans (gather_val11 (F := F) d T1 IX L ⟨2, h2⟩ (rowInb ⟨2, h2⟩) gathers_S100000x128_S128x128 (by decide) hin2)
  have hw0 : tile_body1.sl.dma0_1 d T1 IX L f0' h2 hin2 = gRows1 d IX L T1 (2 + (blkF (4 * 0)).val) := by
    unfold tile_body1.sl.dma0_1; rw [hc2]; rfl
  rw [hc2, hc3, hc4, hc5]
  sl_for (inv1 d T1 IX L O W) $$ [Hmw Hs12 Hq5 Hs13 Hq6 Hs14 Hq7 Hs15 Hr0 Hq4 Hs11 Hs16 Hs17 Hs18 Hw2 Hrows Hneg HO]
  case region =>
    intro k _
    have hk : k.val < 4 := lt_of_lt_of_le k.isLt k2_t1_abs.2.1
    unfold inv1 gFl1 wFl1
    iintro ⟨#Hmw, Hs12, Hq5, Hs13, Hq6, Hs14, Hq7, Hs15, Hr0, Hq4, Hs11, Hs16, Hs17, Hs18, Hdone, Hrows, Hbd, Hneg, %W', %hW', HO⟩
    -- the four index rows this trip gathers by, as the program takes them
    have hr0 : 4 * k.val + 6 < 24 := by omega
    have hr1 : 4 * k.val + 6 + 1 < 24 := by omega
    have hr2 : 4 * k.val + 6 + 1 + 1 < 24 := by omega
    have hr3 : 4 * k.val + 6 + 1 + 1 + 1 < 24 := by omega
    ihave H := (Entails.of_eq (bigSep_from_pop (F := F) _ _ hr0)) $$ Hrows; icases H with ⟨Hn0, Hrows⟩
    ihave H := (Entails.of_eq (bigSep_from_pop (F := F) _ _ hr1)) $$ Hrows; icases H with ⟨Hn1, Hrows⟩
    ihave H := (Entails.of_eq (bigSep_from_pop (F := F) _ _ hr2)) $$ Hrows; icases H with ⟨Hn2, Hrows⟩
    ihave H := (Entails.of_eq (bigSep_from_pop (F := F) _ _ hr3)) $$ Hrows; icases H with ⟨Hn3, Hrows⟩
    have ho0 : k2_off5 k 1#32 = ![(⟨4 * k.val + 6, hr0⟩ : Fin 24).val, 0] :=
      (k2_off5_eq k ⟨0, by decide⟩).trans (by show ![0 + 4 * k.val + 6, 0] = ![4 * k.val + 6, 0]; congr 1; omega)
    have ho1 : k2_off5 k 2#32 = ![(⟨4 * k.val + 6 + 1, hr1⟩ : Fin 24).val, 0] :=
      (k2_off5_eq k ⟨1, by decide⟩).trans (by show ![1 + 4 * k.val + 6, 0] = ![4 * k.val + 6 + 1, 0]; congr 1; omega)
    have ho2 : k2_off5 k 3#32 = ![(⟨4 * k.val + 6 + 1 + 1, hr2⟩ : Fin 24).val, 0] :=
      (k2_off5_eq k ⟨2, by decide⟩).trans (by show ![2 + 4 * k.val + 6, 0] = ![4 * k.val + 6 + 1 + 1, 0]; congr 1; omega)
    have ho3 : k2_off5 k 4#32 = ![(⟨4 * k.val + 6 + 1 + 1 + 1, hr3⟩ : Fin 24).val, 0] :=
      (k2_off5_eq k ⟨3, by decide⟩).trans (by show ![3 + 4 * k.val + 6, 0] = ![4 * k.val + 6 + 1 + 1 + 1, 0]; congr 1; omega)
    ihave Hn0 := (Entails.of_eq (pts_a8Row1 (F := F) d L ⟨_, hr0⟩ (k2_off5 k 1#32) (k2_off5_inb k 0) ho0 _).symm) $$ Hn0
    ihave Hn1 := (Entails.of_eq (pts_a8Row1 (F := F) d L ⟨_, hr1⟩ (k2_off5 k 2#32) (k2_off5_inb k 1) ho1 _).symm) $$ Hn1
    ihave Hn2 := (Entails.of_eq (pts_a8Row1 (F := F) d L ⟨_, hr2⟩ (k2_off5 k 3#32) (k2_off5_inb k 2) ho2 _).symm) $$ Hn2
    ihave Hn3 := (Entails.of_eq (pts_a8Row1 (F := F) d L ⟨_, hr3⟩ (k2_off5 k 4#32) (k2_off5_inb k 3) ho3 _).symm) $$ Hn3
    have hinA := hin_rows1 (F := F) d IX L hIX ⟨_, hr0⟩ (k2_off5 k 1#32) (k2_off5_inb k 0) ho0 (by show 4 * k.val + 6 < 22; omega)
    have hinB := hin_rows1 (F := F) d IX L hIX ⟨_, hr1⟩ (k2_off5 k 2#32) (k2_off5_inb k 1) ho1 (by show 4 * k.val + 6 + 1 < 22; omega)
    have hinC := hin_rows1 (F := F) d IX L hIX ⟨_, hr2⟩ (k2_off5 k 3#32) (k2_off5_inb k 2) ho2 (by show 4 * k.val + 6 + 1 + 1 < 22; omega)
    have hinD := hin_rows1 (F := F) d IX L hIX ⟨_, hr3⟩ (k2_off5 k 4#32) (k2_off5_inb k 3) ho3 (by show 4 * k.val + 6 + 1 + 1 + 1 < 22; omega)
    -- the four blocks it writes, as the program takes them
    have hq0 : 4 * k.val + 1 < 20 := by omega
    have hq1 : 4 * k.val + 1 + 1 < 20 := by omega
    have hq2 : 4 * k.val + 1 + 1 + 1 < 20 := by omega
    have hq3 : 4 * k.val + 1 + 1 + 1 + 1 < 20 := by omega
    ihave H := (Entails.of_eq (bigSep_from_pop (F := F) _ _ hq0)) $$ Hneg; icases H with ⟨⟨%gA, HbA⟩, Hneg⟩
    ihave H := (Entails.of_eq (bigSep_from_pop (F := F) _ _ hq1)) $$ Hneg; icases H with ⟨⟨%gB, HbB⟩, Hneg⟩
    ihave H := (Entails.of_eq (bigSep_from_pop (F := F) _ _ hq2)) $$ Hneg; icases H with ⟨⟨%gC, HbC'⟩, Hneg⟩
    ihave H := (Entails.of_eq (bigSep_from_pop (F := F) _ _ hq3)) $$ Hneg; icases H with ⟨⟨%gD, HbD⟩, Hneg⟩
    have hbo0 : k2_off6 L k 1#32 = negOff1 L (⟨4 * k.val + 1, hq0⟩ : Fin 20).val :=
      (k2_off6_wid L k ⟨0, by decide⟩).trans (by show negOff1 L (4 * k.val + 0 + 1) = negOff1 L (4 * k.val + 1); rfl)
    have hbo1 : k2_off6 L k 2#32 = negOff1 L (⟨4 * k.val + 1 + 1, hq1⟩ : Fin 20).val :=
      (k2_off6_wid L k ⟨1, by decide⟩).trans (by show negOff1 L (4 * k.val + 1 + 1) = negOff1 L (4 * k.val + 1 + 1); rfl)
    have hbo2 : k2_off6 L k 3#32 = negOff1 L (⟨4 * k.val + 1 + 1 + 1, hq2⟩ : Fin 20).val :=
      (k2_off6_wid L k ⟨2, by decide⟩).trans (by show negOff1 L (4 * k.val + 2 + 1) = negOff1 L (4 * k.val + 1 + 1 + 1); rfl)
    have hbo3 : k2_off6 L k 4#32 = negOff1 L (⟨4 * k.val + 1 + 1 + 1 + 1, hq3⟩ : Fin 20).val :=
      (k2_off6_wid L k ⟨3, by decide⟩).trans (by show negOff1 L (4 * k.val + 3 + 1) = negOff1 L (4 * k.val + 1 + 1 + 1 + 1); rfl)
    ihave HbA := (Entails.of_eq (pts_negOff1 (F := F) d L hbo0 (k2_off6_inb L k 0) (negOff_inb1 L ⟨_, hq0⟩) _).symm) $$ HbA
    ihave HbB := (Entails.of_eq (pts_negOff1 (F := F) d L hbo1 (k2_off6_inb L k 1) (negOff_inb1 L ⟨_, hq1⟩) _).symm) $$ HbB
    ihave HbC' := (Entails.of_eq (pts_negOff1 (F := F) d L hbo2 (k2_off6_inb L k 2) (negOff_inb1 L ⟨_, hq2⟩) _).symm) $$ HbC'
    ihave HbD := (Entails.of_eq (pts_negOff1 (F := F) d L hbo3 (k2_off6_inb L k 3) (negOff_inb1 L ⟨_, hq3⟩) _).symm) $$ HbD
    sl_exec
    sl_step
    have hcA : (rb01).view.writes (Elt F) (gRows1 d IX L T1 (4 * k.val + 2)) [⟨Rect.whole cc2_scratch3.ty.shape, tile_body1.sl.gather0_1 d T1 IX L k hinA⟩] = gRows1 d IX L T1 (4 * (k.val + 1) + 2) :=
      (writes_whole1 (F := F) d L cc2_scratch3 _ _).trans ((gather_val1'1 (F := F) d T1 IX L (k2_off5 k 1#32) (k2_off5_inb k 0) ⟨_, hr0⟩ ho0 gathers_S100000x128_S128x128 (by decide) hinA).trans (by congr 1 <;> omega))
    have hcB : (rb11).view.writes (Elt F) (gRows1 d IX L T1 (4 * k.val + 3)) [⟨Rect.whole cc2_scratch4.ty.shape, tile_body1.sl.gather2_1 d T1 IX L k hinB⟩] = gRows1 d IX L T1 (4 * (k.val + 1) + 3) :=
      (writes_whole1 (F := F) d L cc2_scratch4 _ _).trans ((gather_val1'1 (F := F) d T1 IX L (k2_off5 k 2#32) (k2_off5_inb k 1) ⟨_, hr1⟩ ho1 gathers_S100000x128_S128x128 (by decide) hinB).trans (by congr 1 <;> omega))
    have hcC : (rb21).view.writes (Elt F) (gRows1 d IX L T1 (4 * k.val + 4)) [⟨Rect.whole cc2_scratch5.ty.shape, tile_body1.sl.gather4_1 d T1 IX L k hinC⟩] = gRows1 d IX L T1 (4 * (k.val + 1) + 4) :=
      (writes_whole1 (F := F) d L cc2_scratch5 _ _).trans ((gather_val1'1 (F := F) d T1 IX L (k2_off5 k 3#32) (k2_off5_inb k 2) ⟨_, hr2⟩ ho2 gathers_S100000x128_S128x128 (by decide) hinC).trans (by congr 1 <;> omega))
    have hcD : (rb31).view.writes (Elt F) (gRows1 d IX L T1 (4 * k.val + 5)) [⟨Rect.whole cc2_scratch6.ty.shape, tile_body1.sl.gather6 d T1 IX L k hinD⟩] = gRows1 d IX L T1 (4 * (k.val + 1) + 5) :=
      (writes_whole1 (F := F) d L cc2_scratch6 _ _).trans ((gather_val1'1 (F := F) d T1 IX L (k2_off5 k 4#32) (k2_off5_inb k 3) ⟨_, hr3⟩ ho3 gathers_S100000x128_S128x128 (by decide) hinD).trans (by congr 1 <;> omega))
    rw [hcA, hcB, hcC, hcD]
    -- the rows of the three gathers now in flight, in the invariant's spelling
    have e1 : k2_off5 k 2#32 = ![(rowF (4 * (k.val + 1) + 3)).val, 0] := ho1.trans (by show ![4 * k.val + 6 + 1, 0] = ![(4 * (k.val + 1) + 3) % 24, 0]; congr 1; omega)
    have e2 : k2_off5 k 3#32 = ![(rowF (4 * (k.val + 1) + 4)).val, 0] := ho2.trans (by show ![4 * k.val + 6 + 1 + 1, 0] = ![(4 * (k.val + 1) + 4) % 24, 0]; congr 1; omega)
    have e3 : k2_off5 k 4#32 = ![(rowF (4 * (k.val + 1) + 5)).val, 0] := ho3.trans (by show ![4 * k.val + 6 + 1 + 1 + 1, 0] = ![(4 * (k.val + 1) + 5) % 24, 0]; congr 1; omega)
    rw [pts_a8Row_congr1 (F := F) d L e1 (k2_off5_inb k 1) (rowInb _) (A8c1 d IX L), pts_a8Row_congr1 (F := F) d L e2 (k2_off5_inb k 2) (rowInb _) (A8c1 d IX L), pts_a8Row_congr1 (F := F) d L e3 (k2_off5_inb k 3) (rowInb _) (A8c1 d IX L)]
    -- the four rows that came back
    have hd0 : 4 * k.val + 3 < 24 := by omega
    have hd1 : 4 * k.val + 3 + 1 < 24 := by omega
    have hd2 : 4 * k.val + 3 + 1 + 1 < 24 := by omega
    have hd3 : 4 * k.val + 3 + 1 + 1 + 1 < 24 := by omega
    ihave R0 := (Entails.of_eq (pts_a8Row1 (F := F) d L (rowF (4 * k.val + 3)) ![(rowF (4 * k.val + 3)).val, 0] (rowInb _) rfl _)) $$ Hs12_dst_and
    ihave R0 := (row_reidx1 (F := F) d L _ _ ⟨4 * k.val + 3, hd0⟩ (Fin.ext (show (4 * k.val + 3) % 24 = 4 * k.val + 3 by omega))) $$ R0
    ihave R1 := (Entails.of_eq (pts_a8Row1 (F := F) d L (rowF (4 * k.val + 4)) ![(rowF (4 * k.val + 4)).val, 0] (rowInb _) rfl _)) $$ Hs13_dst_and
    ihave R1 := (row_reidx1 (F := F) d L _ _ ⟨4 * k.val + 3 + 1, hd1⟩ (Fin.ext (show (4 * k.val + 4) % 24 = 4 * k.val + 3 + 1 by omega))) $$ R1
    ihave R2 := (Entails.of_eq (pts_a8Row1 (F := F) d L (rowF (4 * k.val + 5)) ![(rowF (4 * k.val + 5)).val, 0] (rowInb _) rfl _)) $$ Hs14_dst_and
    ihave R2 := (row_reidx1 (F := F) d L _ _ ⟨4 * k.val + 3 + 1 + 1, hd2⟩ (Fin.ext (show (4 * k.val + 5) % 24 = 4 * k.val + 3 + 1 + 1 by omega))) $$ R2
    ihave R3 := (Entails.of_eq (pts_a8Row1 (F := F) d L ⟨_, hr0⟩ (k2_off5 k 1#32) (k2_off5_inb k 0) ho0 _)) $$ Hn0
    ihave R3 := (row_reidx1 (F := F) d L _ _ ⟨4 * k.val + 3 + 1 + 1 + 1, hd3⟩ (Fin.ext (show 4 * k.val + 6 = 4 * k.val + 3 + 1 + 1 + 1 by omega))) $$ R3
    -- the four blocks that are written
    have hp0 : 4 * k.val < 20 := by omega
    ihave B0 := (blk_reidx1 (F := F) d L _ _ ⟨4 * k.val, hp0⟩ (Fin.ext (show (4 * k.val) % 20 = 4 * k.val by omega))) $$ Hs15_dst
    have hwA : tile_body1.sl.dma0_2 d T1 IX L k = gRows1 d IX L T1 (2 + (⟨4 * k.val + 1, hq0⟩ : Fin 20).val) := by
      unfold tile_body1.sl.dma0_2; show gRows1 d IX L T1 (4 * k.val + 3) = gRows1 d IX L T1 (2 + (4 * k.val + 1)); congr 1; omega
    have hwB : tile_body1.sl.dma0_3 d T1 IX L k = gRows1 d IX L T1 (2 + (⟨4 * k.val + 1 + 1, hq1⟩ : Fin 20).val) := by
      unfold tile_body1.sl.dma0_3; show gRows1 d IX L T1 (4 * k.val + 4) = gRows1 d IX L T1 (2 + (4 * k.val + 1 + 1)); congr 1; omega
    have hwC : tile_body1.sl.dma0_4 d T1 IX L k = gRows1 d IX L T1 (2 + (⟨4 * k.val + 1 + 1 + 1, hq2⟩ : Fin 20).val) := by
      unfold tile_body1.sl.dma0_4; show gRows1 d IX L T1 (4 * k.val + 5) = gRows1 d IX L T1 (2 + (4 * k.val + 1 + 1 + 1)); congr 1; omega
    have hwD : tile_body1.sl.dma0_5 d T1 IX L k hinA = gRows1 d IX L T1 (2 + (blkF (4 * (k.val + 1))).val) := by
      unfold tile_body1.sl.dma0_5; rw [hcA]; show gRows1 d IX L T1 (4 * (k.val + 1) + 2) = gRows1 d IX L T1 (2 + (4 * (k.val + 1)) % 20); congr 1; omega
    ihave B1 := (blk_intro1 (F := F) d T1 IX L ⟨_, hq0⟩ (k2_off6 L k 1#32) (k2_off6_inb L k 0) hbo0 gA _ hwA) $$ HbA
    ihave B2 := (blk_intro1 (F := F) d T1 IX L ⟨_, hq1⟩ (k2_off6 L k 2#32) (k2_off6_inb L k 1) hbo1 gB _ hwB) $$ HbB
    ihave B3 := (blk_intro1 (F := F) d T1 IX L ⟨_, hq2⟩ (k2_off6 L k 3#32) (k2_off6_inb L k 2) hbo2 gC _ hwC) $$ HbC'
    have hbo3' : k2_off6 L k 4#32 = negOff1 L (blkF (4 * (k.val + 1))).val :=
      hbo3.trans (by show negOff1 L (4 * k.val + 1 + 1 + 1 + 1) = negOff1 L ((4 * (k.val + 1)) % 20); congr 1; omega)
    -- the invariant at the next trip
    isplitl []; · iexact Hmw
    isplitl [Hs12]; · iexact Hs12
    isplitl [Hq5]; · iexact Hq5
    isplitl [Hs13]; · iexact Hs13
    isplitl [Hq6]; · iexact Hq6
    isplitl [Hs14]; · iexact Hs14
    isplitl [Hq7]; · iexact Hq7
    isplitl [Hs15]
    · have h8 : (29 : ℕ) < sig.nDmaSem := by decide
      iapply ((wFl_intro'1 (F := F) d T1 IX L ⟨29, h8⟩ cc2_scratch3 (blkF (4 * (k.val + 1))) (k2_off6 L k 4#32) (k2_off6_inb L k 3) hbo3' gD _ hwD (gRows1 d IX L T1 (4 * (k.val + 1) + 2))).trans
        (Entails.of_eq (wFl_unfold1 (F := F) d L ⟨29, h8⟩ cc2_scratch3 (blkF (4 * (k.val + 1))) (gV2 d T1 IX) (gRows1 d IX L T1 (4 * (k.val + 1) + 2)))))
      iexact Hs15
    isplitl [Hr0]; · iexact Hr0
    isplitl [Hq4]; · iexact Hq4
    isplitl [Hs11]; · iexact Hs11
    isplitl [Hs16]; · iexact Hs16
    isplitl [Hs17]; · iexact Hs17
    isplitl [Hs18]; · iexact Hs18
    isplitl [Hdone R0 R1 R2 R3]
    · iapply (mid_push4 (F := F) (fun k' : Fin 24 => (a8Loc1 d L ↦[a8RowSet1 k']{fullShare} A8c1 d IX L : sProp 𝕄)) 2 (4 * k.val + 3) (4 * (k.val + 1) + 3) hd0 hd1 hd2 hd3 (by omega) (by omega))
      isplitl [Hdone]; · iexact Hdone
      isplitl [R0]; · iexact R0
      isplitl [R1]; · iexact R1
      isplitl [R2]; · iexact R2
      iexact R3
    isplitl [Hrows]
    · iapply (Entails.of_eq (bigSep_from_congr (F := F) _ (show 4 * k.val + 6 + 1 + 1 + 1 + 1 = 4 * (k.val + 1) + 6 by omega)))
      iexact Hrows
    isplitl [Hbd B0 B1 B2 B3]
    · iapply (mid_push4 (F := F) (fun j : Fin 20 => (o2Loc1 d ↦[(negSl1 L j).view.set]{fullShare} gV2 d T1 IX : sProp 𝕄)) 0 (4 * k.val) (4 * (k.val + 1)) hp0 hq0 hq1 hq2 (by omega) (by omega))
      isplitl [Hbd]; · iexact Hbd
      isplitl [B0]; · iexact B0
      isplitl [B1]; · iexact B1
      isplitl [B2]; · iexact B2
      iexact B3
    isplitl [Hneg]
    · iapply (Entails.of_eq (bigSep_from_congr (F := F) _ (show 4 * k.val + 1 + 1 + 1 + 1 + 1 = 4 * (k.val + 1) + 1 by omega)))
      iexact Hneg
    iexists (insert ((SemLoc.dma ⟨32, by decide⟩ : SemLoc sig), (default : HIx 4))
      (insert ((SemLoc.dma ⟨25, by decide⟩ : SemLoc sig), (default : HIx 4))
        (insert ((SemLoc.dma ⟨31, by decide⟩ : SemLoc sig), (default : HIx 4))
          (insert ((SemLoc.dma ⟨28, by decide⟩ : SemLoc sig), (default : HIx 4))
            (insert ((SemLoc.dma ⟨30, by decide⟩ : SemLoc sig), (default : HIx 4))
              (insert ((SemLoc.dma ⟨27, by decide⟩ : SemLoc sig), (default : HIx 4))
                (insert ((SemLoc.dma ⟨29, by decide⟩ : SemLoc sig), (default : HIx 4))
                  (insert ((SemLoc.dma ⟨26, by decide⟩ : SemLoc sig), (default : HIx 4)) W')))))))); isplitr
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      · exact hW' p hp
    · iexact HO
  · unfold inv1
    isplitl [Hmw]; · iexact Hmw
    isplitl [Hs12]; · unfold gFl1; iexact Hs12
    isplitl [Hq5]; · iexact Hq5
    isplitl [Hs13]; · unfold gFl1; iexact Hs13
    isplitl [Hq6]; · iexact Hq6
    isplitl [Hs14]; · unfold gFl1; iexact Hs14
    isplitl [Hq7]; · iexact Hq7
    isplitl [Hs15]
    · have h8 : (29 : ℕ) < sig.nDmaSem := by decide
      iapply (wFl_intro'1 (F := F) d T1 IX L ⟨29, h8⟩ cc2_scratch3 (blkF (4 * 0)) (k2_off2 L (k2_off2_at 0))
        (k2_off2_inb L 0) (k2_off2_neg L 0 0 rfl) g0 _ hw0 _)
      iexact Hs15
    isplitl [Hr0]; · iexact Hr0
    isplitl [Hq4]; · iexact Hq4
    isplitl [Hs11]; · iexact Hs11
    isplitl [Hs16]; · iexact Hs16
    isplitl [Hs17]; · iexact Hs17
    isplitl [Hs18]; · iexact Hs18
    isplitl [Hw2]
    · iapply (rows_done01 (F := F) d L _ h2)
      iapply (Entails.of_eq (pts_a8Row1 (F := F) d L ⟨2, h2⟩ ![2, 0] (rowInb ⟨2, h2⟩) rfl _))
      iexact Hw2
    isplitl [Hrows]; · iexact Hrows
    isplitl []; · iapply (blks_done01 (F := F) d L (gV2 d T1 IX)); iempintro
    isplitl [Hneg]; · iexact Hneg
    iexists (insert ((SemLoc.dma ⟨25, by decide⟩ : SemLoc sig), (default : HIx 4))
      (insert ((SemLoc.dma ⟨33, by decide⟩ : SemLoc sig), (default : HIx 4)) W)); isplitr
    · ipureintro; intro p hp
      rcases Finset.mem_insert.mp hp with rfl | hp
      · exact .inr rfl
      rcases Finset.mem_insert.mp hp with rfl | hp
      · exact .inr rfl
      · exact .inl hp
    · iexact HO
  iintro %_ HI
  unfold inv1 gFl1 wFl1
  icases HI with ⟨#Hmw', Hs12, Hq5, Hs13, Hq6, Hs14, Hq7, Hs15, Hr0, Hq4, Hs11, Hs16, Hs17, Hs18, Hdone, Hrows, Hbd, Hneg, %W', %hW', HO⟩
  have htr : Scf.trips k2_t1_loop.lb k2_t1_loop.ub k2_t1_loop.st = 4 := by decide
  rw [htr]
  have hb16 : (16 : ℕ) < 20 := by decide
  have h19 : (19 : ℕ) < 24 := by decide
  have h20 : (20 : ℕ) < 24 := by decide
  have h21 : (21 : ℕ) < 24 := by decide
  have e19 : rowF (4 * 4 + 3) = ⟨19, h19⟩ := rfl
  have e20 : rowF (4 * 4 + 4) = ⟨20, h20⟩ := rfl
  have e21 : rowF (4 * 4 + 5) = ⟨21, h21⟩ := rfl
  have e16 : blkF (4 * 4) = ⟨16, hb16⟩ := rfl
  rw [e19, e20, e21, e16]
  have hb17 : (17 : ℕ) < 20 := by decide
  have hb18 : (18 : ℕ) < 20 := by decide
  have hb19 : (19 : ℕ) < 20 := by decide
  ihave H := (Entails.of_eq (bigSep_from_pop (F := F) _ 17 hb17)) $$ Hneg; icases H with ⟨⟨%g17, Hb17⟩, Hneg⟩
  ihave H := (Entails.of_eq (bigSep_from_pop (F := F) _ 18 hb18)) $$ Hneg; icases H with ⟨⟨%g18, Hb18⟩, Hneg⟩
  ihave H := (Entails.of_eq (bigSep_from_pop (F := F) _ 19 hb19)) $$ Hneg; icases H with ⟨⟨%g19, Hb19⟩, Hneg⟩
  ihave Hb17 := (Entails.of_eq (pts_negOff1 (F := F) d L (k2_off2_neg L 2 17 rfl) (k2_off2_inb L 2) (negOff_inb1 L ⟨17, hb17⟩) _).symm) $$ Hb17
  ihave Hb18 := (Entails.of_eq (pts_negOff1 (F := F) d L (k2_off2_neg L 3 18 rfl) (k2_off2_inb L 3) (negOff_inb1 L ⟨18, hb18⟩) _).symm) $$ Hb18
  ihave Hb19 := (Entails.of_eq (pts_negOff1 (F := F) d L (k2_off2_neg L 4 19 rfl) (k2_off2_inb L 4) (negOff_inb1 L ⟨19, hb19⟩) _).symm) $$ Hb19
  sl_exec
  sl_step
  -- what the copy-outs carried: the gathered rows
  have hp17 : tile_body1.sl.dma0_6 d T1 IX L = gRows1 d IX L T1 (2 + 17) := rfl
  have hp18 : tile_body1.sl.dma0_7 d T1 IX L = gRows1 d IX L T1 (2 + 18) := rfl
  have hp19 : tile_body1.sl.dma0_8 d T1 IX L = gRows1 d IX L T1 (2 + 19) := rfl
  have hpC : tile_body1.sl.dma0_9 d T0 IX L fbC h0 hin0 = gRows1 d IX L T0 0 := by
    unfold tile_body1.sl.dma0_9 tile_body1.sl.gather0
    exact (writes_whole1 (F := F) d L cc2_scratch1 fbC _).trans (gather_val01 (F := F) d T0 IX L ⟨0, h0⟩ (rowInb ⟨0, h0⟩) gathers_S100000x128_S128x128 (by decide) hin0)
  have hpP : tile_body1.sl.dma0_10 d T1 IX L fbP h1 hin1 = gRows1 d IX L T1 1 := by
    unfold tile_body1.sl.dma0_10 tile_body1.sl.gather1
    exact (writes_whole1 (F := F) d L cc2_scratch2 fbP _).trans (gather_val11 (F := F) d T1 IX L ⟨1, h1⟩ (rowInb ⟨1, h1⟩) gathers_S100000x128_S128x128 (by decide) hin1)
  have h22 : (22 : ℕ) < 24 := by decide
  have h23 : (23 : ℕ) < 24 := by decide
  -- the third result's blocks, all twenty
  ihave Hb17 := (blk_done1 (F := F) d T1 IX L ⟨17, hb17⟩ _ (k2_off2_inb L 2) (k2_off2_neg L 2 17 rfl) g17 _ hp17) $$ Hb17
  ihave Hb18 := (blk_done1 (F := F) d T1 IX L ⟨18, hb18⟩ _ (k2_off2_inb L 3) (k2_off2_neg L 3 18 rfl) g18 _ hp18) $$ Hb18
  ihave Hb19 := (blk_done1 (F := F) d T1 IX L ⟨19, hb19⟩ _ (k2_off2_inb L 4) (k2_off2_neg L 4 19 rfl) g19 _ hp19) $$ Hb19
  ihave Hbd := (Entails.of_eq (bigSep_mid_push (F := F) (fun j : Fin 20 => (o2Loc1 d ↦[(negSl1 L j).view.set]{fullShare} gV2 d T1 IX : sProp 𝕄)) 0 16 hb16 (by omega)).symm) $$ [Hs15_dst Hbd]
  · isplitl [Hs15_dst]
    · iexact Hs15_dst
    iexact Hbd
  ihave Hbd := (Entails.of_eq (bigSep_mid_push (F := F) (fun j : Fin 20 => (o2Loc1 d ↦[(negSl1 L j).view.set]{fullShare} gV2 d T1 IX : sProp 𝕄)) 0 17 hb17 (by omega)).symm) $$ [Hb17 Hbd]
  · isplitl [Hb17] <;> iassumption
  ihave Hbd := (Entails.of_eq (bigSep_mid_push (F := F) (fun j : Fin 20 => (o2Loc1 d ↦[(negSl1 L j).view.set]{fullShare} gV2 d T1 IX : sProp 𝕄)) 0 18 hb18 (by omega)).symm) $$ [Hb18 Hbd]
  · isplitl [Hb18] <;> iassumption
  ihave Hbd := (Entails.of_eq (bigSep_mid_push (F := F) (fun j : Fin 20 => (o2Loc1 d ↦[(negSl1 L j).view.set]{fullShare} gV2 d T1 IX : sProp 𝕄)) 0 19 hb19 (by omega)).symm) $$ [Hb19 Hbd]
  · isplitl [Hb19] <;> iassumption
  ihave Hbd := (Entails.of_eq (bigSep_mid_all (F := F) (fun j : Fin 20 => (o2Loc1 d ↦[(negSl1 L j).view.set]{fullShare} gV2 d T1 IX : sProp 𝕄)))) $$ Hbd
  -- the index scratch, all twenty-four rows
  ihave R19 := (Entails.of_eq (pts_a8Row1 (F := F) d L ⟨19, h19⟩ _ _ rfl _)) $$ Hs12_dst_and
  ihave R20 := (Entails.of_eq (pts_a8Row1 (F := F) d L ⟨20, h20⟩ _ _ rfl _)) $$ Hs13_dst_and
  ihave R21 := (Entails.of_eq (pts_a8Row1 (F := F) d L ⟨21, h21⟩ _ _ rfl _)) $$ Hs14_dst_and
  ihave R0 := (Entails.of_eq (pts_a8Row1 (F := F) d L ⟨0, h0⟩ ![0, 0] (rowInb ⟨0, h0⟩) rfl _)) $$ Hw0
  ihave R1 := (Entails.of_eq (pts_a8Row1 (F := F) d L ⟨1, h1⟩ ![1, 0] (rowInb ⟨1, h1⟩) rfl _)) $$ Hw1
  ihave H := (Entails.of_eq (bigSep_from_pop (F := F) _ 22 h22)) $$ Hrows; icases H with ⟨R22, Hrows⟩
  ihave H := (Entails.of_eq (bigSep_from_pop (F := F) _ 23 h23)) $$ Hrows; icases H with ⟨R23, -⟩
  ihave Hdone := (Entails.of_eq (bigSep_mid_push (F := F) (fun k : Fin 24 => (a8Loc1 d L ↦[a8RowSet1 k]{fullShare} A8c1 d IX L : sProp 𝕄)) 2 19 h19 (by omega)).symm) $$ [R19 Hdone]
  · isplitl [R19]
    · iexact R19
    iexact Hdone
  ihave Hdone := (Entails.of_eq (bigSep_mid_push (F := F) (fun k : Fin 24 => (a8Loc1 d L ↦[a8RowSet1 k]{fullShare} A8c1 d IX L : sProp 𝕄)) 2 20 h20 (by omega)).symm) $$ [R20 Hdone]
  · isplitl [R20]
    · iexact R20
    iexact Hdone
  ihave Hdone := (Entails.of_eq (bigSep_mid_push (F := F) (fun k : Fin 24 => (a8Loc1 d L ↦[a8RowSet1 k]{fullShare} A8c1 d IX L : sProp 𝕄)) 2 21 h21 (by omega)).symm) $$ [R21 Hdone]
  · isplitl [R21]
    · iexact R21
    iexact Hdone
  ihave Hdone := (Entails.of_eq (bigSep_mid_push (F := F) (fun k : Fin 24 => (a8Loc1 d L ↦[a8RowSet1 k]{fullShare} A8c1 d IX L : sProp 𝕄)) 2 22 h22 (by omega)).symm) $$ [R22 Hdone]
  · isplitl [R22]
    · iexact R22
    iexact Hdone
  ihave Hdone := (Entails.of_eq (bigSep_mid_push (F := F) (fun k : Fin 24 => (a8Loc1 d L ↦[a8RowSet1 k]{fullShare} A8c1 d IX L : sProp 𝕄)) 2 23 h23 (by omega)).symm) $$ [R23 Hdone]
  · isplitl [R23]
    · iexact R23
    iexact Hdone
  ihave Hdone := (Entails.of_eq (bigSep_mid_top (F := F) (fun k : Fin 24 => (a8Loc1 d L ↦[a8RowSet1 k]{fullShare} A8c1 d IX L : sProp 𝕄)) 2)) $$ Hdone
  ihave Hdone := (Entails.of_eq (bigSep_from_pop (F := F) (fun k : Fin 24 => (a8Loc1 d L ↦[a8RowSet1 k]{fullShare} A8c1 d IX L : sProp 𝕄)) 1 h1).symm) $$ [R1 Hdone]
  · isplitl [R1]
    · iexact R1
    iexact Hdone
  ihave Hdone := (Entails.of_eq (bigSep_from_pop (F := F) (fun k : Fin 24 => (a8Loc1 d L ↦[a8RowSet1 k]{fullShare} A8c1 d IX L : sProp 𝕄)) 0 h0).symm) $$ [R0 Hdone]
  · isplitl [R0]
    · iexact R0
    iexact Hdone
  ihave Hdone := (Entails.of_eq (bigSep_from_zero (F := F) (fun k : Fin 24 => (a8Loc1 d L ↦[a8RowSet1 k]{fullShare} A8c1 d IX L : sProp 𝕄)))) $$ Hdone
  ihave Ha8 := (Entails.of_eq (a8_rows1 (F := F) d L (A8c1 d IX L)).symm) $$ Hdone
  -- what the tile hands back
  unfold tdResL1
  isplitl [Ht0 Hq8 Hq7 Hq6 Hq5 Hq4 Hq3 Hq2 Hq1 Hq0 Hix Ho0 Ho1 Hbd]
  · isplitl [Ht0]
    · iexact Ht0
    isplitl [Hq8 Hq7 Hq6 Hq5 Hq4 Hq3 Hq2 Hq1 Hq0]
    · iapply (toks8_join (F := F) (tblShare1 L) T1)
      isplitl [Hq8]
      · iexact Hq8
      isplitl [Hq7]
      · iexact Hq7
      isplitl [Hq6]
      · iexact Hq6
      isplitl [Hq5]
      · iexact Hq5
      isplitl [Hq4]
      · iexact Hq4
      isplitl [Hq3]
      · iexact Hq3
      isplitl [Hq2]
      · iexact Hq2
      isplitl [Hq1]
      · iexact Hq1
      iexact Hq0
    isplitl [Hix]
    · iexact Hix
    isplitl [Ho0]
    · iapply (Entails.of_eq (pointsTo_congr (block_val01 (F := F) d T0 IX L f0 _ hpC)))
      iexact Ho0
    isplitl [Ho1]
    · iapply (Entails.of_eq (pointsTo_congr (block_val11 (F := F) d T1 IX L f1 _ hpP)))
      iexact Ho1
    iexact Hbd
  isplitl [Ha8 HbC HbP Hr0 Hs12_dst Hs13_dst Hs14_dst Hbufs]
  · isplitr [Hbufs]
    · isplitl [Ha8]
      · iexists _; iexact Ha8
      isplitl [HbC]
      · iexists _; iexact HbC
      isplitl [HbP]
      · iexists _; iexact HbP
      isplitl [Hr0]
      · iexists _; iexact Hr0
      isplitl [Hs12_dst]
      · iexists _; iexact Hs12_dst
      isplitl [Hs13_dst]
      · iexists _; iexact Hs13_dst
      iexists _; iexact Hs14_dst
    iexact Hbufs
  isplitr [HO]
  · isplitr [Hsems]
    · isplitl [Hs0]
      · iexact Hs0
      isplitl [Hs7]
      · iexact Hs7
      isplitl [Hs8]
      · iexact Hs8
      isplitl [Hs9]
      · iexact Hs9
      isplitl [Hs10]
      · iexact Hs10
      isplitl [Hs11]
      · iexact Hs11
      isplitl [Hs12]
      · iexact Hs12
      isplitl [Hs13]
      · iexact Hs13
      isplitl [Hs14]
      · iexact Hs14
      isplitl [Hs15]
      · iexact Hs15
      isplitl [Hs16]
      · iexact Hs16
      isplitl [Hs17]
      · iexact Hs17
      iexact Hs18
    iexact Hsems
  iexists _; isplitr
  swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

end Body

/-! ## The launch theorem's obligation -/

theorem defs₀_vector1 (c : Fin τ.nSC) (s : Fin τ.nSub) :
    defs₀ (F := F) (.scVector c s) 2 ()
      = SparseCore.onTile hcore2 hsub2 (fun c s => cc2__sc_gather (coordsV1 c s)
          t0V (Memref.isWhole_whole _) t1V (Memref.isWhole_whole _) ixV1 (Memref.isWhole_whole _) o0V1 (Memref.isWhole_whole _) o1V1 (Memref.isWhole_whole _) o2V1 (Memref.isWhole_whole _)
            a81 (Memref.isWhole_whole _) bC1 (Memref.isWhole_whole _) bP1 (Memref.isWhole_whole _) rb01 (Memref.isWhole_whole _) rb11 (Memref.isWhole_whole _) rb21 (Memref.isWhole_whole _) rb31 (Memref.isWhole_whole _)
            cc2_scratch7 cc2_scratch8 cc2_scratch9 cc2_scratch10 cc2_scratch11 cc2_scratch12 cc2_scratch13 cc2_scratch14 cc2_scratch15 cc2_scratch16 cc2_scratch17 cc2_scratch18 cc2_scoped0) ⟨⟩ c s := rfl

/-- `TileObl` at call 1, for any payload record whose call-0 fields are the tile's resources above, nothing
    extra held per thread and nothing owed for a protocol of the kernel's own. -/
theorem tileObl1 (hF : (K (F := F)).Facts)
    (T0 : (d : Dev nD) → Buf (Elt F) (t0Loc d)) (T1 : (d : Dev nD) → Buf (Elt F) (t1Loc d)) (IX : (d : Dev nD) → Buf (Elt F) (ixLoc1 d))
    (hIX : ∀ d, IXOK1 d (IX d))
    (P : (K (F := F)).Pay (nD := nD) (Val := Elt F) (Name := ℕ) (U := UU))
    (hgo : ∀ d c i, P.go 1 d c i = goRes1 d (T0 d) (T1 d) (IX d) c i)
    (htd : ∀ d c i, P.td 1 d c i = tdRes1 d (T0 d) (T1 d) (IX d) c i)
    (hx : ∀ thr, P.x 1 thr = iprop(emp))
    (hox : ∀ thr, P.ox 1 thr = 0) :
    (K (F := F)).TileObl (D (F := F)) 𝒱 P v₀ 1 := by
  intro d c i O W hO _ _
  rw [hox, add_zero, hx, hgo, htd]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector1]; simp only [SparseCore.onTile, hc, and_self, ↓reduceDIte]
  exact (tile_body1 d (T0 d) (T1 d) (IX d) hF (hIX d) (coordsV1 ⟨_, hc.1⟩ ⟨_, hc.2⟩) O W hO).trans (wp_mono frame _ _ fun _ => obl_post)

end Cert.Proof.KB

end
-- ==== Proof.KB_TileOwn_c2.lean ====
/-
  A vector subcore's own storage at call 2: its thread, the seven scratch buffers and thirteen DMA semaphores of
  the gather kernel, taken out of the tile's scoped buffers and scoped semaphores.
-/
import proofs.«215899_g5772436046013_cont_9to1c4b_742_31_alg».proof.Proof.KB_TileRes
import proofs.«215899_g5772436046013_cont_9to1c4b_742_31_alg».proof.Proof.KB_TileRes_c2
import proofs.«215899_g5772436046013_cont_9to1c4b_742_31_alg».proof.Proof.KB_TileOwn

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## The tile's thread, its scratch buffers and its semaphores -/

abbrev thrV2 (d : Dev nD) (L : grid4.Coords) : Thread nD τ := V d (cV2 L) (jV2 L)

abbrev a82 : Memref sig .scVector .vmem S24x128 .i32 := Memref.whole cc4_scratch0
abbrev bC2 : Memref sig .scVector .vmem S128x128 .f32 := Memref.whole cc4_scratch1
abbrev bP2 : Memref sig .scVector .vmem S128x128 .f32 := Memref.whole cc4_scratch2
abbrev rb02 : Memref sig .scVector .vmem S128x128 .f32 := Memref.whole cc4_scratch3
abbrev rb12 : Memref sig .scVector .vmem S128x128 .f32 := Memref.whole cc4_scratch4
abbrev rb22 : Memref sig .scVector .vmem S128x128 .f32 := Memref.whole cc4_scratch5
abbrev rb32 : Memref sig .scVector .vmem S128x128 .f32 := Memref.whole cc4_scratch6

/-- The kernel's thirteen DMA semaphores. -/
def tileSems2 : Finset (DmaSem sig) := {cc4_scoped0.sem, cc4_scratch7.sem, cc4_scratch8.sem, cc4_scratch9.sem, cc4_scratch10.sem, cc4_scratch11.sem, cc4_scratch12.sem, cc4_scratch13.sem, cc4_scratch14.sem, cc4_scratch15.sem, cc4_scratch16.sem, cc4_scratch17.sem, cc4_scratch18.sem}
/-- The kernel's seven scratch buffers. -/
def tileRefs2 : Finset (Ref sig .scVector) := {cc4_scratch0, cc4_scratch1, cc4_scratch2, cc4_scratch3, cc4_scratch4, cc4_scratch5, cc4_scratch6}

omit [FloatOps F] in
theorem tileSems_sub2 (d : Dev nD) (L : grid4.Coords) : tileSems2.map (cellEmb (thrV2 d L)) ⊆ ownCells (thrV2 d L) := by
  intro g hg
  obtain ⟨s, hs, rfl⟩ := Finset.mem_map.mp hg
  refine mem_ownCells.mpr ⟨rfl, ?_⟩
  show sig.isScopedDmaSem .scVector s = true
  clear hg
  revert s; decide +revert

omit [FloatOps F] in
theorem ownSems0_V2 (d : Dev nD) (L : grid4.Coords) :
    (ownSems0 (thrV2 d L) : sProp 𝕄)
      = iprop((semVal (thrV2 d L, SemLoc.dma cc4_scoped0.sem) 0
          ∗ semVal (thrV2 d L, SemLoc.dma cc4_scratch7.sem) 0
          ∗ semVal (thrV2 d L, SemLoc.dma cc4_scratch8.sem) 0
          ∗ semVal (thrV2 d L, SemLoc.dma cc4_scratch9.sem) 0
          ∗ semVal (thrV2 d L, SemLoc.dma cc4_scratch10.sem) 0
          ∗ semVal (thrV2 d L, SemLoc.dma cc4_scratch11.sem) 0
          ∗ semVal (thrV2 d L, SemLoc.dma cc4_scratch12.sem) 0
          ∗ semVal (thrV2 d L, SemLoc.dma cc4_scratch13.sem) 0
          ∗ semVal (thrV2 d L, SemLoc.dma cc4_scratch14.sem) 0
          ∗ semVal (thrV2 d L, SemLoc.dma cc4_scratch15.sem) 0
          ∗ semVal (thrV2 d L, SemLoc.dma cc4_scratch16.sem) 0
          ∗ semVal (thrV2 d L, SemLoc.dma cc4_scratch17.sem) 0
          ∗ semVal (thrV2 d L, SemLoc.dma cc4_scratch18.sem) 0)
          ∗ bigSep (ownCells (thrV2 d L) \ tileSems2.map (cellEmb (thrV2 d L))) fun g => semVal g 0) := by
  unfold SparseCore.Cfg.ownSems0
  rw [SparseCore.bigSep_sdiff_split' (tileSems_sub2 d L), BI.bigSep_map]
  unfold tileSems2
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton]
  rfl

omit [FloatOps F] in
theorem tileRefs_sub2 (L : grid4.Coords) :
    tileRefs2.map (refEmb (Proc.scVector (cV2 L) (jV2 L))) ⊆ ownRefs (τ := τ) (sig := sig) (Proc.scVector (cV2 L) (jV2 L)) := by
  intro b hb
  obtain ⟨r, hr, rfl⟩ := Finset.mem_map.mp hb
  simp only [tileRefs2, Finset.mem_insert, Finset.mem_singleton] at hr
  rcases hr with rfl | rfl | rfl | rfl | rfl | rfl | rfl <;> exact SparseCore.Cfg.mem_ownRefs_of_owner rfl

omit [FloatOps F] in
theorem ownBufs_V2 (d : Dev nD) (L : grid4.Coords) :
    (ownBufs (thrV2 d L) : sProp 𝕄)
      = iprop(((∃ f, (thrV2 d L).loc cc4_scratch0 ↦{fullShare} f)
          ∗ (∃ f, (thrV2 d L).loc cc4_scratch1 ↦{fullShare} f)
          ∗ (∃ f, (thrV2 d L).loc cc4_scratch2 ↦{fullShare} f)
          ∗ (∃ f, (thrV2 d L).loc cc4_scratch3 ↦{fullShare} f)
          ∗ (∃ f, (thrV2 d L).loc cc4_scratch4 ↦{fullShare} f)
          ∗ (∃ f, (thrV2 d L).loc cc4_scratch5 ↦{fullShare} f)
          ∗ (∃ f, (thrV2 d L).loc cc4_scratch6 ↦{fullShare} f))
          ∗ bigSep (ownRefs (τ := τ) (Proc.scVector (cV2 L) (jV2 L)) \ tileRefs2.map (refEmb (Proc.scVector (cV2 L) (jV2 L))))
              fun b => iprop(∃ f, ((d, b) : Loc nD τ sig) ↦{fullShare} f)) := by
  unfold SparseCore.Cfg.ownBufs
  rw [SparseCore.bigSep_sdiff_split' (tileRefs_sub2 L), BI.bigSep_map]
  unfold tileRefs2
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton]
  rfl

end Cert.Proof.KB

end
-- ==== Proof.KB_TileGeom_c2.lean ====
/-
  Geometry and bookkeeping for the gather kernel's run on one vector subcore: families over a segment of `Fin N`,
  the call's arrays as a tile's memrefs address them, a table's read shares one per DMA semaphore, and the index
  scratch row by row (the offset lists of the indirect gathers).
-/
import proofs.«215899_g5772436046013_cont_9to1c4b_742_31_alg».proof.Proof.KB_TileOwn
import proofs.«215899_g5772436046013_cont_9to1c4b_742_31_alg».proof.Proof.KB_TileOwn_c2
import proofs.«215899_g5772436046013_cont_9to1c4b_742_31_alg».proof.Proof.KB_TileGeom

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## Families over an initial or a final segment of `Fin N` -/

section Segments

end Segments

/-! ## The arrays as the tile's memrefs address them -/

section Pts

variable (d : Dev nD) (L : grid4.Coords)

theorem pts_t02 (q : PosShare TreeShare) (f : Buf (Elt F) (t0Loc d)) :
    ((t0V).view.loc (thrV2 d L) ↦{q} f : sProp 𝕄) = (t0Loc d ↦{q} f) := rfl
theorem pts_t12 (q : PosShare TreeShare) (f : Buf (Elt F) (t1Loc d)) :
    ((t1V).view.loc (thrV2 d L) ↦{q} f : sProp 𝕄) = (t1Loc d ↦{q} f) := rfl
theorem pts_ix2 (f : Buf (Elt F) (ixLoc2 d)) :
    ((ixSl2 L).view.loc (thrV2 d L) ↦[(ixSl2 L).view.set]{fullShare} f : sProp 𝕄) = (ixLoc2 d ↦[(ixSl2 L).view.set]{fullShare} f) := rfl
theorem pts_o02 (f : Buf (Elt F) (o0Loc2 d)) :
    ((o0Sl2 L).view.loc (thrV2 d L) ↦[(o0Sl2 L).view.set]{fullShare} f : sProp 𝕄) = (o0Loc2 d ↦[(o0Sl2 L).view.set]{fullShare} f) := rfl
theorem pts_o12 (f : Buf (Elt F) (o1Loc2 d)) :
    ((o1Sl2 L).view.loc (thrV2 d L) ↦[(o1Sl2 L).view.set]{fullShare} f : sProp 𝕄) = (o1Loc2 d ↦[(o1Sl2 L).view.set]{fullShare} f) := rfl
theorem pts_scr2 (b : Ref sig .scVector) (f : Buf (Elt F) ((thrV2 d L).loc b)) :
    ((Memref.whole b : Memref sig .scVector _ _ _).view.loc (thrV2 d L) ↦{fullShare} f : sProp 𝕄) = ((thrV2 d L).loc b ↦{fullShare} f) := rfl

/-! ### The table's read shares, one per DMA semaphore number -/

end Pts

/-! ## The index scratch row by row -/

section Rows

abbrev a8RowSet2 (k : Fin 24) : Finset S24x128.Idx := ((a82 : Memref sig .scVector .vmem S24x128 .i32).view.slice (a8Part k)).set

theorem a8RowSet_eq2 (k : Fin 24) : a8RowSet2 k = (a8Part k).set := by
  show ((View.whole (cc4_scratch0 : Ref sig .scVector)).slice (a8Part k)).set = _
  rw [View.set_slice]; exact Finset.map_refl
theorem a8rows_disjoint2 : ∀ i ∈ (Finset.univ : Finset (Fin 24)), ∀ j ∈ (Finset.univ : Finset (Fin 24)), i ≠ j → Disjoint (a8RowSet2 i) (a8RowSet2 j) :=
  fun i _ j _ h => by rw [a8RowSet_eq2, a8RowSet_eq2]; exact Rect.part_disjoint hdiv24 h
theorem a8rows_cover2 : (Finset.univ : Finset (Fin 24)).biUnion a8RowSet2 = Finset.univ :=
  (Finset.biUnion_congr rfl fun i _ => a8RowSet_eq2 i).trans (Rect.biUnion_part hdiv24)

end Rows

section Rows2

variable (d : Dev nD) (L : grid4.Coords)

abbrev a8Loc2 : Loc nD τ sig := (thrV2 d L).loc cc4_scratch0

/-- The index scratch whole is its 24 rows. -/
theorem a8_rows2 (f : Buf (Elt F) (a8Loc2 d L)) :
    (a8Loc2 d L ↦{fullShare} f : sProp 𝕄) = bigSep Finset.univ fun k : Fin 24 => a8Loc2 d L ↦[a8RowSet2 k]{fullShare} f := by
  rw [← pointsTo_biUnion Finset.univ (ℓ := a8Loc2 d L) a8RowSet2 a8rows_disjoint2, a8rows_cover2]; try rfl

/-- A row of the index scratch as the program takes it: a one-row slice, squeezed to a list of 128 words. -/
abbrev a8Row2 (off : Fin 2 → ℕ) (h : ∀ a, off a + S1x128.size a ≤ S24x128.size a) : Memref sig .scVector .vmem S128 .i32 :=
  ((a82).slice (Rect.unit (s := S24x128) off S1x128.size h) (fun _ => rfl)).squeeze S128 squeezes_S1x128_S128

theorem a8Row_set2 (k : Fin 24) (off : Fin 2 → ℕ) (h : ∀ a, off a + S1x128.size a ≤ S24x128.size a) (hoff : off = ![k.val, 0]) :
    (a8Row2 off h).view.set = a8RowSet2 k := by
  show (((a82 : Memref sig .scVector .vmem S24x128 .i32).view.slice (Rect.unit (s := S24x128) off S1x128.size h)).reshape S128 squeezes_S1x128_S128.numel_eq).set
    = ((a82 : Memref sig .scVector .vmem S24x128 .i32).view.slice (a8Part k)).set
  rw [View.set_reshape]
  exact (a8Row_rect k off h hoff) ▸ rfl

theorem pts_a8Row2 (k : Fin 24) (off : Fin 2 → ℕ) (h : ∀ a, off a + S1x128.size a ≤ S24x128.size a) (hoff : off = ![k.val, 0])
    (f : Buf (Elt F) (a8Loc2 d L)) :
    ((a8Row2 off h).view.loc (thrV2 d L) ↦[(a8Row2 off h).view.set]{fullShare} f : sProp 𝕄) = (a8Loc2 d L ↦[a8RowSet2 k]{fullShare} f) := by
  rw [a8Row_set2 k off h hoff]

end Rows2

end Cert.Proof.KB

end
-- ==== Proof.KB_TileInv_c2.lean ====
/-
  The gather kernel's ring at the head of a trip: what the index scratch holds, the offset lists' range, the rows a
  gather lands, the transfers in flight as the run holds them, and the loop's invariant.
-/
import proofs.«215899_g5772436046013_cont_9to1c4b_742_31_alg».proof.Proof.KB_TileGeom
import proofs.«215899_g5772436046013_cont_9to1c4b_742_31_alg».proof.Proof.KB_TileGeom_c2
import proofs.«215899_g5772436046013_cont_9to1c4b_742_31_alg».proof.Proof.KB_TileInv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## The index scratch's contents and the offset lists' range -/

/-- What the index scratch holds once the tile's rows of the index array have landed. -/
def A8c2 (d : Dev nD) (IX : Buf (Elt F) (ixLoc2 d)) (L : grid4.Coords) : Buf (Elt F) (a8Loc2 d L) :=
  show S24x128.Idx → Elt F .i32 from (ixSl2 L).view.read (Elt F) IX

theorem a8Row_emb02 (k : Fin 24) (h : ∀ a, (![k.val, 0] : Fin 2 → ℕ) a + S1x128.size a ≤ S24x128.size a) (x : S128.Idx) :
    ((a8Row2 ![k.val, 0] h).view.emb x 0).val = k.val := by
  have key : ∀ j : S1x128.Idx, ((Rect.unit (s := S24x128) ![k.val, 0] S1x128.size h).emb j 0).val = k.val := by
    intro j
    have hj : (j 0).val < 1 := (j 0).isLt
    rw [Rect.emb_apply]
    show k.val + 1 * (j 0).val = k.val
    omega
  exact key _

/-- Every offset list the kernel gathers by holds row numbers of the tables. -/
theorem hin_rows2 (d : Dev nD) (IX : Buf (Elt F) (ixLoc2 d)) (L : grid4.Coords) (hIX : IXOK2 d IX) (k : Fin 24) (off : Fin 2 → ℕ)
    (h : ∀ a, off a + S1x128.size a ≤ S24x128.size a) (hoff : off = ![k.val, 0]) (hk : k.val < 22) (x : S128.Idx) :
    (View.read (Elt F) (a8Row2 off h).view (A8c2 d IX L) x).toNat < 100000 := by
  subst hoff
  exact hIX L ((a8Row2 ![k.val, 0] h).view.emb x) (by rw [a8Row_emb02]; exact hk)

theorem a8Row_congr2 {off off' : Fin 2 → ℕ} (e : off = off') (h : ∀ a, off a + S1x128.size a ≤ S24x128.size a)
    (h' : ∀ a, off' a + S1x128.size a ≤ S24x128.size a) : a8Row2 off h = a8Row2 off' h' := by
  subst e; rfl

/-! ## The third result's blocks in the program's spellings -/

/-- A block of the third result held through a slice at `off` is held through the slice at an equal offset. -/
theorem pts_negOff2 (d : Dev nD) (L : grid4.Coords) {off off' : Fin 2 → ℕ} (e : off = off')
    (h : ∀ a, off a + S128x128.size a ≤ S81920x128.size a) (h' : ∀ a, off' a + S128x128.size a ≤ S81920x128.size a)
    (f : Buf (Elt F) (o2Loc2 d)) :
    (View.loc (thrV2 d L) ((o2V2).slice (Rect.unit (s := S81920x128) off S128x128.size h) (fun _ => rfl)).view
        ↦[((o2V2).slice (Rect.unit (s := S81920x128) off S128x128.size h) (fun _ => rfl)).view.set]{fullShare} f : sProp 𝕄)
      = (View.loc (thrV2 d L) ((o2V2).slice (Rect.unit (s := S81920x128) off' S128x128.size h') (fun _ => rfl)).view
        ↦[((o2V2).slice (Rect.unit (s := S81920x128) off' S128x128.size h') (fun _ => rfl)).view.set]{fullShare} f) := by
  subst e; rfl

theorem k4_off2_neg (L : grid4.Coords) (r : Fin 5) (j : ℕ) (hj : (k4_off2_at r).toNat = 4096 * j) :
    k4_off2 L (k4_off2_at r) = negOff2 L j := by
  rw [k4_off2_wid, hj]; rfl

/-! ## The gathered rows, and the transfers in flight -/

section Inv

variable (d : Dev nD) (T0 : Buf (Elt F) (t0Loc d)) (T1 : Buf (Elt F) (t1Loc d)) (IX : Buf (Elt F) (ixLoc2 d)) (L : grid4.Coords)

/-- The 128 rows a table yields for row `k` of the tile's index rows: row `r` is the table's row `IX[24 * wid2 + k, r]`. -/
def gRows2 (Tb : S100000x128.Idx → Elt F .f32) (k : ℕ) : S128x128.Idx → Elt F .f32 :=
  fun x => tblAt (F := F) Tb (ixWord d IX (wid2 L) k (x 0).val) (x 1)

/-- A gather in flight on the DMA semaphore `cell`, reading the second table by read token `tok` through row `row`
    of the index scratch into the scratch buffer `buf`: it delivers the buffer at `cont`, the row and the token. -/
def gFl2 (cell : DmaSem sig) (tok : ℕ) (buf : Ref sig .scVector) (row : Fin 24) (cont : Buf (Elt F) ((thrV2 d L).loc buf)) : sProp 𝕄 :=
  Transfers.Flight countersEmb (thrV2 d L) (SemLoc.dma cell) (default : HIx 4) 524288
    iprop(((View.loc (thrV2 d L) (Memref.whole buf).view ↦{fullShare} cont)
        ∗ View.loc (thrV2 d L) (a8Row2 ![row.val, 0] (rowInb row)).view ↦[(a8Row2 ![row.val, 0] (rowInb row)).view.set]{fullShare} A8c2 d IX L)
      ∗ View.loc (thrV2 d L) (t1V).view ↦[(t1Sl).view.set]{Transfers.shareTokN (tblShare2 L) tok} T1)

/-- A copy-out in flight on the DMA semaphore `cell`, from the scratch buffer `buf` to draw `j`'s block of the third
    result: it delivers the block at `bcont` and the buffer's elements at `cont`. -/
def wFl2 (cell : DmaSem sig) (buf : Ref sig .scVector) (j : Fin 20) (bcont : Buf (Elt F) (o2Loc2 d)) (cont : Buf (Elt F) ((thrV2 d L).loc buf)) : sProp 𝕄 :=
  Transfers.Flight countersEmb (thrV2 d L) (SemLoc.dma cell) (default : HIx 4) 524288
    iprop((View.loc (thrV2 d L) (negSl2 L j).view ↦[(negSl2 L j).view.set]{fullShare} bcont)
      ∗ View.loc (thrV2 d L) (Memref.whole buf).view ↦[(Memref.whole buf : Memref sig .scVector _ _ _).view.set]{fullShare} cont)

variable (O : CellTallies nD τ sig (HIx 4)) (W : Waits sig (HIx 4))

/-- The ring at the head of trip `t`: draws `4t+1, 4t+2, 4t+3` being gathered into ring buffers 1, 2, 3, draw `4t` on
    its way out of ring buffer 0; ring semaphore 4 and the copy-out semaphores 9, 10, 11 at rest with read token 4;
    the index rows before `4t+3` and from `4t+6` on at rest; the blocks before `4t` written, those after `4t` not yet. -/
def inv2 (t : ℕ) (_ : PUnit) : sProp 𝕄 :=
  iprop(Transfers.MayWaits (thrV2 d L) (none : HIx 4) O
    ∗ gFl2 d T1 IX L ⟨47, by decide⟩ 5 cc4_scratch4 (rowF (4 * t + 3)) (gRows2 d IX L T1 (4 * t + 3))
    ∗ (View.loc (thrV2 d L) (t1V).view ↦[Finset.univ \ (t1Sl).view.set]{Transfers.shareTokN (tblShare2 L) 5} T1)
    ∗ gFl2 d T1 IX L ⟨48, by decide⟩ 6 cc4_scratch5 (rowF (4 * t + 4)) (gRows2 d IX L T1 (4 * t + 4))
    ∗ (View.loc (thrV2 d L) (t1V).view ↦[Finset.univ \ (t1Sl).view.set]{Transfers.shareTokN (tblShare2 L) 6} T1)
    ∗ gFl2 d T1 IX L ⟨49, by decide⟩ 7 cc4_scratch6 (rowF (4 * t + 5)) (gRows2 d IX L T1 (4 * t + 5))
    ∗ (View.loc (thrV2 d L) (t1V).view ↦[Finset.univ \ (t1Sl).view.set]{Transfers.shareTokN (tblShare2 L) 7} T1)
    ∗ wFl2 d L ⟨50, by decide⟩ cc4_scratch3 (blkF (4 * t)) (gV2 d T1 IX) (gRows2 d IX L T1 (4 * t + 2))
    ∗ (View.loc (thrV2 d L) (Memref.whole cc4_scratch3).view ↦[Finset.univ \ (rb02).view.set]{fullShare} gRows2 d IX L T1 (4 * t + 2))
    ∗ (View.loc (thrV2 d L) (t1V).view ↦{Transfers.shareTokN (tblShare2 L) 4} T1)
    ∗ semVal (thrV2 d L, SemLoc.dma ⟨46, by decide⟩) 0
    ∗ semVal (thrV2 d L, SemLoc.dma ⟨51, by decide⟩) 0
    ∗ semVal (thrV2 d L, SemLoc.dma ⟨52, by decide⟩) 0
    ∗ semVal (thrV2 d L, SemLoc.dma ⟨53, by decide⟩) 0
    ∗ (bigSep (Finset.univ.filter fun k : Fin 24 => 2 ≤ k.val ∧ k.val < 4 * t + 3) fun k => a8Loc2 d L ↦[a8RowSet2 k]{fullShare} A8c2 d IX L)
    ∗ (bigSep (Finset.univ.filter fun k : Fin 24 => 4 * t + 6 ≤ k.val) fun k => a8Loc2 d L ↦[a8RowSet2 k]{fullShare} A8c2 d IX L)
    ∗ (bigSep (Finset.univ.filter fun j : Fin 20 => 0 ≤ j.val ∧ j.val < 4 * t) fun j => o2Loc2 d ↦[(negSl2 L j).view.set]{fullShare} gV2 d T1 IX)
    ∗ (bigSep (Finset.univ.filter fun j : Fin 20 => 4 * t + 1 ≤ j.val) fun j => iprop(∃ f, o2Loc2 d ↦[(negSl2 L j).view.set]{fullShare} f))
    ∗ ∃ W', ⌜∀ p ∈ W', p ∈ W ∨ p.2 = none⌝ ∗ owes (thrV2 d L) O W')

end Inv

end Cert.Proof.KB

end
-- ==== Proof.KB_TileVal_c2.lean ====
/-
  The values the gather kernel moves: what an indirect gather by a row of the index scratch lands in a buffer, and
  what a copy-out of those rows leaves in the results' blocks — the whole-array value functions there.
-/
import proofs.«215899_g5772436046013_cont_9to1c4b_742_31_alg».proof.Proof.KB_TileInv
import proofs.«215899_g5772436046013_cont_9to1c4b_742_31_alg».proof.Proof.KB_TileInv_c2
import proofs.«215899_g5772436046013_cont_9to1c4b_742_31_alg».proof.Proof.KB_TileVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

variable (d : Dev nD) (T0 : Buf (Elt F) (t0Loc d)) (T1 : Buf (Elt F) (t1Loc d)) (IX : Buf (Elt F) (ixLoc2 d)) (L : grid4.Coords)

/-! ## Index arithmetic of the program's views -/

/-- A write of a whole buffer leaves the written values. -/
theorem writes_whole2 (buf : Ref sig .scVector) (f w : Buf (Elt F) ((thrV2 d L).loc buf)) :
    (Memref.whole buf : Memref sig .scVector _ _ _).view.writes (Elt F) f [⟨Rect.whole buf.ty.shape, w⟩] = w := by
  funext i
  exact writes_whole_emb (View.whole buf) f w i

/-- Where an entry of row `k` of the index scratch sits: column `y`. -/
theorem a8Row_emb12 (k : Fin 24) (h : ∀ a, (![k.val, 0] : Fin 2 → ℕ) a + S1x128.size a ≤ S24x128.size a) (y : S128.Idx) :
    ((a8Row2 ![k.val, 0] h).view.emb y 1).val = (y 0).val := by
  have hz : Shape.reshapeEquiv (s := S1x128) (s' := S128) squeezes_S1x128_S128.numel_eq y = Fin.cons ⟨0, Nat.one_pos⟩ y :=
    Shape.reshapeEquiv_cons_one _ y
  show ((Rect.unit (s := S24x128) ![k.val, 0] S1x128.size h).emb
    (Shape.reshapeEquiv (s := S1x128) (s' := S128) squeezes_S1x128_S128.numel_eq y) 1).val = _
  rw [hz, Rect.emb_apply]
  show 0 + 1 * (y 0).val = (y 0).val
  omega

/-- The word an offset list's entry holds: the index array's word at the tile's row `k`, the entry's column. -/
theorem a8_word2 (k : Fin 24) (h : ∀ a, (![k.val, 0] : Fin 2 → ℕ) a + S1x128.size a ≤ S24x128.size a) (y : S128.Idx) :
    (View.read (Elt F) (a8Row2 ![k.val, 0] h).view (A8c2 d IX L) y).toNat = ixWord d IX (wid2 L) k.val (y 0).val := by
  have hk := k.isLt
  have hy : (y 0).val < 128 := (y 0).isLt
  have hw32 := wid_lt2 L
  have hc : 24 * wid2 L + k.val < 768 ∧ (y 0).val < 128 := ⟨by omega, hy⟩
  unfold ixWord
  rw [dif_pos hc, View.read_apply, cast_eq]
  unfold A8c2
  rw [View.read_apply, cast_eq]
  refine congrArg (fun z => BitVec.toNat (IX z)) ?_
  funext a; apply Fin.ext
  show ((ixRect2 L).emb ((a8Row2 ![k.val, 0] h).view.emb y) a).val = _
  rw [Rect.emb_apply]
  show k4_off1 L a + 1 * ((a8Row2 ![k.val, 0] h).view.emb y a).val = _
  rw [k4_off1_wid]
  match a with
  | 0 => rw [a8Row_emb02]; show 24 * wid2 L + 1 * k.val = 24 * wid2 L + k.val; omega
  | 1 => rw [a8Row_emb12]; show 0 + 1 * (y 0).val = (y 0).val; omega

/-- What a gather by row `k` of the index scratch lands: the table's rows the tile's index row `k` names. -/
theorem gather_val12 (k : Fin 24) (h : ∀ a, (![k.val, 0] : Fin 2 → ℕ) a + S1x128.size a ≤ S24x128.size a)
    (hg : S100000x128.Gathers 0 S128x128) (hn : S128.numel = S128x128.size hg.axis')
    (hin : ∀ x, (View.read (Elt F) (a8Row2 ![k.val, 0] h).view (A8c2 d IX L) x).toNat < S100000x128.size hg.axis) :
    SparseCore.gatherPayload hg (View.read (Elt F) (t1Sl).view T1) (SparseCore.rows (View.read (Elt F) (a8Row2 ![k.val, 0] h).view (A8c2 d IX L)) hn hin)
      = gRows2 d IX L T1 k.val := by
  funext x
  have ha : hg.axis = (0 : Fin S100000x128.rank) := Fin.ext rfl
  have ha' : hg.axis' = (0 : Fin S128x128.rank) := Fin.ext rfl
  -- the row the entry names
  have hr : ((SparseCore.rows (View.read (Elt F) (a8Row2 ![k.val, 0] h).view (A8c2 d IX L)) hn hin) (x hg.axis')).val
      = ixWord d IX (wid2 L) k.val (x 0).val := by
    unfold SparseCore.rows
    show (View.read (Elt F) (a8Row2 ![k.val, 0] h).view (A8c2 d IX L) (S128.rowMajor.symm ((x hg.axis').cast hn.symm))).toNat = _
    rw [a8_word2]
    congr 1
    have e := Shape.rowMajor_val_one (d := ![128]) (S128.rowMajor.symm ((x hg.axis').cast hn.symm))
    rw [Equiv.apply_symm_apply] at e
    rw [← e]
    exact congrArg (fun i => (x i).val) ha'
  have hlt : ixWord d IX (wid2 L) k.val (x 0).val < 100000 := hr ▸ (SparseCore.rows _ hn hin (x hg.axis')).isLt
  unfold SparseCore.gatherPayload gRows2 tblAt
  rw [View.read_apply, cast_eq, dif_pos hlt]
  refine congrArg T1 ?_
  funext a; apply Fin.ext
  show ((Rect.unit (s := S100000x128) ![0, 0] S100000x128.size inb_S100000x128_S100000x128_0_0).emb (hg.idx _ x) a).val = _
  rw [Rect.emb_apply]
  match a with
  | 0 =>
    show 0 + 1 * (hg.idx _ x 0).val = ixWord d IX (wid2 L) k.val (x 0).val
    have h0 : (hg.idx (SparseCore.rows (View.read (Elt F) (a8Row2 ![k.val, 0] h).view (A8c2 d IX L)) hn hin) x 0).val
        = (hg.idx (SparseCore.rows (View.read (Elt F) (a8Row2 ![k.val, 0] h).view (A8c2 d IX L)) hn hin) x hg.axis).val :=
      congrArg (fun i => (hg.idx (SparseCore.rows (View.read (Elt F) (a8Row2 ![k.val, 0] h).view (A8c2 d IX L)) hn hin) x i).val) ha.symm
    rw [h0, Shape.Gathers.idx_axis, hr]; omega
  | 1 =>
    show 0 + 1 * (hg.idx _ x 1).val = (x 1).val
    rw [Shape.Gathers.idx_of_ne hg _ x 1 (by decide)]
    show 0 + 1 * (x 1).val = (x 1).val
    omega

theorem gather_val02 (k : Fin 24) (h : ∀ a, (![k.val, 0] : Fin 2 → ℕ) a + S1x128.size a ≤ S24x128.size a)
    (hg : S100000x128.Gathers 0 S128x128) (hn : S128.numel = S128x128.size hg.axis')
    (hin : ∀ x, (View.read (Elt F) (a8Row2 ![k.val, 0] h).view (A8c2 d IX L) x).toNat < S100000x128.size hg.axis) :
    SparseCore.gatherPayload hg (View.read (Elt F) (t0Sl).view T0) (SparseCore.rows (View.read (Elt F) (a8Row2 ![k.val, 0] h).view (A8c2 d IX L)) hn hin)
      = gRows2 d IX L T0 k.val := by
  funext x
  have ha : hg.axis = (0 : Fin S100000x128.rank) := Fin.ext rfl
  have ha' : hg.axis' = (0 : Fin S128x128.rank) := Fin.ext rfl
  -- the row the entry names
  have hr : ((SparseCore.rows (View.read (Elt F) (a8Row2 ![k.val, 0] h).view (A8c2 d IX L)) hn hin) (x hg.axis')).val
      = ixWord d IX (wid2 L) k.val (x 0).val := by
    unfold SparseCore.rows
    show (View.read (Elt F) (a8Row2 ![k.val, 0] h).view (A8c2 d IX L) (S128.rowMajor.symm ((x hg.axis').cast hn.symm))).toNat = _
    rw [a8_word2]
    congr 1
    have e := Shape.rowMajor_val_one (d := ![128]) (S128.rowMajor.symm ((x hg.axis').cast hn.symm))
    rw [Equiv.apply_symm_apply] at e
    rw [← e]
    exact congrArg (fun i => (x i).val) ha'
  have hlt : ixWord d IX (wid2 L) k.val (x 0).val < 100000 := hr ▸ (SparseCore.rows _ hn hin (x hg.axis')).isLt
  unfold SparseCore.gatherPayload gRows2 tblAt
  rw [View.read_apply, cast_eq, dif_pos hlt]
  refine congrArg T0 ?_
  funext a; apply Fin.ext
  show ((Rect.unit (s := S100000x128) ![0, 0] S100000x128.size inb_S100000x128_S100000x128_0_0).emb (hg.idx _ x) a).val = _
  rw [Rect.emb_apply]
  match a with
  | 0 =>
    show 0 + 1 * (hg.idx _ x 0).val = ixWord d IX (wid2 L) k.val (x 0).val
    have h0 : (hg.idx (SparseCore.rows (View.read (Elt F) (a8Row2 ![k.val, 0] h).view (A8c2 d IX L)) hn hin) x 0).val
        = (hg.idx (SparseCore.rows (View.read (Elt F) (a8Row2 ![k.val, 0] h).view (A8c2 d IX L)) hn hin) x hg.axis).val :=
      congrArg (fun i => (hg.idx (SparseCore.rows (View.read (Elt F) (a8Row2 ![k.val, 0] h).view (A8c2 d IX L)) hn hin) x i).val) ha.symm
    rw [h0, Shape.Gathers.idx_axis, hr]; omega
  | 1 =>
    show 0 + 1 * (hg.idx _ x 1).val = (x 1).val
    rw [Shape.Gathers.idx_of_ne hg _ x 1 (by decide)]
    show 0 + 1 * (x 1).val = (x 1).val
    omega

/-- What a copy-out of the rows gathered for draw `j` leaves in the draw's block: the third result's values there. -/
theorem block_val22 (j : Fin 20) (buf : Ref sig .scVector) (hb : buf.ty = ⟨S128x128, .f32⟩) (g : Buf (Elt F) (o2Loc2 d))
    (w : S128x128.Idx → Elt F .f32) (hw : w = gRows2 d IX L T1 (2 + j.val)) :
    ∀ i ∈ (negSl2 L j).view.set, ((negSl2 L j).view.writes (Elt F) g [⟨Rect.whole (negRect2 L j).shape, w⟩]) i = gV2 d T1 IX i := by
  intro i hi
  subst hw
  have hi' : i ∈ (negRect2 L j).set := by
    rw [show (negSl2 L j).view.set = (negRect2 L j).set from View.set_slice_whole _ _] at hi; exact hi
  obtain ⟨x, rfl⟩ := (negRect2 L j).exists_idx_of_mem hi'
  refine (writes_whole_emb (negSl2 L j).view g (gRows2 d IX L T1 (2 + j.val)) x).trans ?_
  rw [cast_eq]
  have hx0 : (x 0).val < 128 := (x 0).isLt
  have hw32 := wid_lt2 L
  have hj := j.isLt
  have e0 : (((negRect2 L j).emb x) 0).val = 128 * wid2 L + 4096 * j.val + (x 0).val := by
    rw [Rect.emb_apply]; show 128 * wid2 L + 4096 * j.val + 1 * (x 0).val = _; omega
  have e1 : ((negRect2 L j).emb x) 1 = x 1 := by
    apply Fin.ext; rw [Rect.emb_apply]; show 0 + 1 * (x 1).val = _; omega
  show tblAt (F := F) T1 (ixWord d IX (wid2 L) (2 + j.val) (x 0).val) (x 1)
    = tblAt (F := F) T1 (ixWord d IX ((((negRect2 L j).emb x) 0).val % 4096 / 128) (2 + (((negRect2 L j).emb x) 0).val / 4096) ((((negRect2 L j).emb x) 0).val % 128)) (((negRect2 L j).emb x) 1)
  rw [e1, e0, show (128 * wid2 L + 4096 * j.val + (x 0).val) % 4096 / 128 = wid2 L by omega,
    show (128 * wid2 L + 4096 * j.val + (x 0).val) / 4096 = j.val by omega,
    show (128 * wid2 L + 4096 * j.val + (x 0).val) % 128 = (x 0).val by omega]

theorem block_val02 (g : Buf (Elt F) (o0Loc2 d)) (w : S128x128.Idx → Elt F .f32) (hw : w = gRows2 d IX L T0 0) :
    ∀ i ∈ (o0Sl2 L).view.set, ((o0Sl2 L).view.writes (Elt F) g [⟨Rect.whole (oRect2 L).shape, w⟩]) i = gV0 d T0 IX i := by
  intro i hi
  subst hw
  have hi' : i ∈ (oRect2 L).set := by
    rw [show (o0Sl2 L).view.set = (oRect2 L).set from View.set_slice_whole _ _] at hi; exact hi
  obtain ⟨x, rfl⟩ := (oRect2 L).exists_idx_of_mem hi'
  refine (writes_whole_emb (o0Sl2 L).view g (gRows2 d IX L T0 0) x).trans ?_
  rw [cast_eq]
  have hx0 : (x 0).val < 128 := (x 0).isLt
  have hw32 := wid_lt2 L
  have e0 : (((oRect2 L).emb x) 0).val = 128 * wid2 L + (x 0).val := by
    rw [Rect.emb_apply]; show k4_off7 L 0 + 1 * (x 0).val = _
    rw [k4_off7_wid]; show 128 * wid2 L + 1 * (x 0).val = _; omega
  have e1 : ((oRect2 L).emb x) 1 = x 1 := by
    apply Fin.ext; rw [Rect.emb_apply]; show k4_off7 L 1 + 1 * (x 1).val = _
    rw [k4_off7_wid]; show 0 + 1 * (x 1).val = _; omega
  show tblAt (F := F) T0 (ixWord d IX (wid2 L) 0 (x 0).val) (x 1)
    = tblAt (F := F) T0 (ixWord d IX ((((oRect2 L).emb x) 0).val / 128) 0 ((((oRect2 L).emb x) 0).val % 128)) (((oRect2 L).emb x) 1)
  rw [e1, e0, show (128 * wid2 L + (x 0).val) / 128 = wid2 L by omega, show (128 * wid2 L + (x 0).val) % 128 = (x 0).val by omega]

theorem block_val12 (g : Buf (Elt F) (o1Loc2 d)) (w : S128x128.Idx → Elt F .f32) (hw : w = gRows2 d IX L T1 1) :
    ∀ i ∈ (o1Sl2 L).view.set, ((o1Sl2 L).view.writes (Elt F) g [⟨Rect.whole (oRect2 L).shape, w⟩]) i = gV1 d T1 IX i := by
  intro i hi
  subst hw
  have hi' : i ∈ (oRect2 L).set := by
    rw [show (o1Sl2 L).view.set = (oRect2 L).set from View.set_slice_whole _ _] at hi; exact hi
  obtain ⟨x, rfl⟩ := (oRect2 L).exists_idx_of_mem hi'
  refine (writes_whole_emb (o1Sl2 L).view g (gRows2 d IX L T1 1) x).trans ?_
  rw [cast_eq]
  have hx0 : (x 0).val < 128 := (x 0).isLt
  have hw32 := wid_lt2 L
  have e0 : (((oRect2 L).emb x) 0).val = 128 * wid2 L + (x 0).val := by
    rw [Rect.emb_apply]; show k4_off7 L 0 + 1 * (x 0).val = _
    rw [k4_off7_wid]; show 128 * wid2 L + 1 * (x 0).val = _; omega
  have e1 : ((oRect2 L).emb x) 1 = x 1 := by
    apply Fin.ext; rw [Rect.emb_apply]; show k4_off7 L 1 + 1 * (x 1).val = _
    rw [k4_off7_wid]; show 0 + 1 * (x 1).val = _; omega
  show tblAt (F := F) T1 (ixWord d IX (wid2 L) 1 (x 0).val) (x 1)
    = tblAt (F := F) T1 (ixWord d IX ((((oRect2 L).emb x) 0).val / 128) 1 ((((oRect2 L).emb x) 0).val % 128)) (((oRect2 L).emb x) 1)
  rw [e1, e0, show (128 * wid2 L + (x 0).val) / 128 = wid2 L by omega, show (128 * wid2 L + (x 0).val) % 128 = (x 0).val by omega]

end Cert.Proof.KB

end
-- ==== Proof.KB_TileEpi_c2.lean ====
/-
  The end of the gather kernel on a tile: segments of index families that run to the end, and a block of the third
  result once the copy-out of a draw's rows has written it.
-/
import proofs.«215899_g5772436046013_cont_9to1c4b_742_31_alg».proof.Proof.KB_TileVal
import proofs.«215899_g5772436046013_cont_9to1c4b_742_31_alg».proof.Proof.KB_TileVal_c2
import proofs.«215899_g5772436046013_cont_9to1c4b_742_31_alg».proof.Proof.KB_TileEpi

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section Epi

variable (d : Dev nD) (T0 : Buf (Elt F) (t0Loc d)) (T1 : Buf (Elt F) (t1Loc d)) (IX : Buf (Elt F) (ixLoc2 d)) (L : grid4.Coords)

/-- A block of the third result the copy-out of draw `j`'s rows has written, in the program's spelling of the block,
    is the block at the third result's values. -/
theorem blk_done2 (j : Fin 20) (off : Fin 2 → ℕ) (h : ∀ a, off a + S128x128.size a ≤ S81920x128.size a) (hoff : off = negOff2 L j.val)
    (g : Buf (Elt F) (o2Loc2 d)) (w : S128x128.Idx → Elt F .f32) (hw : w = gRows2 d IX L T1 (2 + j.val)) :
    (View.loc (thrV2 d L) ((o2V2).slice (Rect.unit (s := S81920x128) off S128x128.size h) (fun _ => rfl)).view
        ↦[((o2V2).slice (Rect.unit (s := S81920x128) off S128x128.size h) (fun _ => rfl)).view.set]{fullShare}
        ((o2V2).slice (Rect.unit (s := S81920x128) off S128x128.size h) (fun _ => rfl)).view.writes (Elt F) g
          [⟨Rect.whole (Rect.unit (s := S81920x128) off S128x128.size h).shape, w⟩] : sProp 𝕄)
      ⊢ (o2Loc2 d ↦[(negSl2 L j).view.set]{fullShare} gV2 d T1 IX) := by
  subst hoff
  exact Entails.of_eq (pointsTo_congr (block_val22 (F := F) d T1 IX L j cc4_scratch3 rfl g w hw))

end Epi

end Cert.Proof.KB

end
-- ==== Proof.KB_Tile_c2.lean ====
/-
  The gather kernel of call 2 on one vector subcore, as the launch theorem's obligation: the kernel's run at a
  symbolic tile from the tile's resources to its results, and the obligation in the launch theorem's own spelling.
-/
import proofs.«215899_g5772436046013_cont_9to1c4b_742_31_alg».proof.Proof.KB_TileEpi
import proofs.«215899_g5772436046013_cont_9to1c4b_742_31_alg».proof.Proof.KB_TileEpi_c2
import proofs.«215899_g5772436046013_cont_9to1c4b_742_31_alg».proof.Proof.KB_Tile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section Intro

variable (d : Dev nD) (T0 : Buf (Elt F) (t0Loc d)) (T1 : Buf (Elt F) (t1Loc d)) (IX : Buf (Elt F) (ixLoc2 d)) (L : grid4.Coords)

/-- A gather's flight as the run leaves it is the invariant's, the landed rows in closed form. -/
theorem gFl_intro2 (cell : DmaSem sig) (tok : ℕ) (buf : Ref sig .scVector) (row : Fin 24) (off : Fin 2 → ℕ)
    (h : ∀ a, off a + S1x128.size a ≤ S24x128.size a) (hoff : off = ![row.val, 0])
    (c0 cont : Buf (Elt F) ((thrV2 d L).loc buf)) (hc : c0 = cont) :
    Transfers.Flight countersEmb (thrV2 d L) (SemLoc.dma cell) (default : HIx 4) 524288
      iprop(((View.loc (thrV2 d L) (Memref.whole buf).view ↦{fullShare} c0)
          ∗ View.loc (thrV2 d L) (a8Row2 off h).view ↦[(a8Row2 off h).view.set]{fullShare} A8c2 d IX L)
        ∗ View.loc (thrV2 d L) (t1V).view ↦[(t1Sl).view.set]{Transfers.shareTokN (tblShare2 L) tok} T1)
      ⊢ (gFl2 d T1 IX L cell tok buf row cont : sProp 𝕄) := by
  subst hoff hc; exact .rfl

/-- A copy-out's flight as the run leaves it is the invariant's, the block at the third result's values. -/
theorem wFl_intro2 (cell : DmaSem sig) (buf : Ref sig .scVector) (j : Fin 20) (off : Fin 2 → ℕ)
    (h : ∀ a, off a + S128x128.size a ≤ S81920x128.size a) (hoff : off = negOff2 L j.val)
    (b0 bcont : Buf (Elt F) (o2Loc2 d)) (hb : ∀ i ∈ (negSl2 L j).view.set, b0 i = bcont i)
    (c0 cont : Buf (Elt F) ((thrV2 d L).loc buf)) (hc : c0 = cont) :
    Transfers.Flight countersEmb (thrV2 d L) (SemLoc.dma cell) (default : HIx 4) 524288
      iprop((View.loc (thrV2 d L) ((o2V2).slice (Rect.unit (s := S81920x128) off S128x128.size h) (fun _ => rfl)).view
            ↦[((o2V2).slice (Rect.unit (s := S81920x128) off S128x128.size h) (fun _ => rfl)).view.set]{fullShare} b0)
        ∗ View.loc (thrV2 d L) (Memref.whole buf).view ↦[(Memref.whole buf : Memref sig .scVector _ _ _).view.set]{fullShare} c0)
      ⊢ (wFl2 d L cell buf j bcont cont : sProp 𝕄) := by
  subst hoff hc
  refine Transfers.Flight_mono countersEmb (thrV2 d L) ?_
  rw [show (View.loc (thrV2 d L) ((o2V2).slice (Rect.unit (s := S81920x128) (negOff2 L j.val) S128x128.size h) (fun _ => rfl)).view
            ↦[((o2V2).slice (Rect.unit (s := S81920x128) (negOff2 L j.val) S128x128.size h) (fun _ => rfl)).view.set]{fullShare} b0 : sProp 𝕄)
        = (View.loc (thrV2 d L) (negSl2 L j).view ↦[(negSl2 L j).view.set]{fullShare} bcont) from pointsTo_congr hb]

/-- The first done row at the loop's entry. -/
theorem rows_done02 (c : Buf (Elt F) (a8Loc2 d L)) (h2 : 2 < 24) :
    (a8Loc2 d L ↦[a8RowSet2 ⟨2, h2⟩]{fullShare} c : sProp 𝕄)
      ⊢ bigSep (Finset.univ.filter fun k : Fin 24 => 2 ≤ k.val ∧ k.val < 4 * 0 + 3) fun k => a8Loc2 d L ↦[a8RowSet2 k]{fullShare} c := by
  rw [show (Finset.univ.filter fun k : Fin 24 => 2 ≤ k.val ∧ k.val < 4 * 0 + 3) = {⟨2, h2⟩} from
    Finset.ext fun k => by simp only [Finset.mem_filter, Finset.mem_univ, true_and, Finset.mem_singleton, Fin.ext_iff]; omega, bigSep_singleton]

/-- No block is written at the loop's entry. -/
theorem blks_done02 (c : Buf (Elt F) (o2Loc2 d)) :
    (iprop(emp) : sProp 𝕄)
      ⊢ bigSep (Finset.univ.filter fun j : Fin 20 => 0 ≤ j.val ∧ j.val < 4 * 0) fun j => o2Loc2 d ↦[(negSl2 L j).view.set]{fullShare} c := by
  rw [show (Finset.univ.filter fun j : Fin 20 => 0 ≤ j.val ∧ j.val < 4 * 0) = ∅ from by decide, bigSep_empty]
  exact .rfl

end Intro

section Intro2

variable (d : Dev nD) (T0 : Buf (Elt F) (t0Loc d)) (T1 : Buf (Elt F) (t1Loc d)) (IX : Buf (Elt F) (ixLoc2 d)) (L : grid4.Coords)

/-- What a gather by an index row lands, the row taken at any spelling of its offset. -/
theorem gather_val1'2 (off : Fin 2 → ℕ) (h : ∀ a, off a + S1x128.size a ≤ S24x128.size a) (kk : Fin 24) (hoff : off = ![kk.val, 0])
    (hg : S100000x128.Gathers 0 S128x128) (hn : S128.numel = S128x128.size hg.axis')
    (hin : ∀ x, (View.read (Elt F) (a8Row2 off h).view (A8c2 d IX L) x).toNat < S100000x128.size hg.axis) :
    SparseCore.gatherPayload hg (View.read (Elt F) (t1Sl).view T1) (SparseCore.rows (View.read (Elt F) (a8Row2 off h).view (A8c2 d IX L)) hn hin)
      = gRows2 d IX L T1 kk.val := by
  subst hoff; exact gather_val12 (F := F) d T1 IX L kk h hg hn hin

/-- A block written whole with the rows gathered for its draw holds the third result's values. -/
theorem blk_intro2 (j : Fin 20) (off : Fin 2 → ℕ) (h : ∀ a, off a + S128x128.size a ≤ S81920x128.size a) (hoff : off = negOff2 L j.val)
    (g : Buf (Elt F) (o2Loc2 d)) (w : S128x128.Idx → Elt F .f32) (hw : w = gRows2 d IX L T1 (2 + j.val)) :
    (View.loc (thrV2 d L) ((o2V2).slice (Rect.unit (s := S81920x128) off S128x128.size h) (fun _ => rfl)).view
        ↦[((o2V2).slice (Rect.unit (s := S81920x128) off S128x128.size h) (fun _ => rfl)).view.set]{fullShare}
        (((o2V2).slice (Rect.unit (s := S81920x128) off S128x128.size h) (fun _ => rfl)).view.writes (Elt F) g
          [⟨Rect.whole (Rect.unit (s := S81920x128) off S128x128.size h).shape, w⟩]) : sProp 𝕄)
      ⊢ (o2Loc2 d ↦[(negSl2 L j).view.set]{fullShare} gV2 d T1 IX) := by
  subst hoff
  exact Entails.of_eq (pointsTo_congr (block_val22 (F := F) d T1 IX L j cc4_scratch3 rfl g w hw))

/-- The same inside a copy-out's flight. -/
theorem wFl_intro'2 (cell : DmaSem sig) (buf : Ref sig .scVector) (j : Fin 20) (off : Fin 2 → ℕ)
    (h : ∀ a, off a + S128x128.size a ≤ S81920x128.size a) (hoff : off = negOff2 L j.val)
    (g : Buf (Elt F) (o2Loc2 d)) (w : S128x128.Idx → Elt F .f32) (hw : w = gRows2 d IX L T1 (2 + j.val))
    (cont : Buf (Elt F) ((thrV2 d L).loc buf)) :
    Transfers.Flight countersEmb (thrV2 d L) (SemLoc.dma cell) (default : HIx 4) 524288
      iprop((View.loc (thrV2 d L) ((o2V2).slice (Rect.unit (s := S81920x128) off S128x128.size h) (fun _ => rfl)).view
            ↦[((o2V2).slice (Rect.unit (s := S81920x128) off S128x128.size h) (fun _ => rfl)).view.set]{fullShare}
            (((o2V2).slice (Rect.unit (s := S81920x128) off S128x128.size h) (fun _ => rfl)).view.writes (Elt F) g
              [⟨Rect.whole (Rect.unit (s := S81920x128) off S128x128.size h).shape, w⟩]))
        ∗ View.loc (thrV2 d L) (Memref.whole buf).view ↦[(Memref.whole buf : Memref sig .scVector _ _ _).view.set]{fullShare} cont)
      ⊢ (wFl2 d L cell buf j (gV2 d T1 IX) cont : sProp 𝕄) := by
  refine Transfers.Flight_mono countersEmb (thrV2 d L) ?_
  iintro ⟨Hb, Hc⟩
  isplitl [Hb]
  · iapply (blk_intro2 (F := F) d T1 IX L j off h hoff g w hw); iexact Hb
  · iexact Hc

end Intro2

section Intro3

variable (d : Dev nD) (T1 : Buf (Elt F) (t1Loc d)) (IX : Buf (Elt F) (ixLoc2 d)) (L : grid4.Coords)

theorem row_reidx2 (c : Buf (Elt F) (a8Loc2 d L)) (i j : Fin 24) (e : i = j) :
    (a8Loc2 d L ↦[a8RowSet2 i]{fullShare} c : sProp 𝕄) ⊢ (a8Loc2 d L ↦[a8RowSet2 j]{fullShare} c) := by
  subst e; exact .rfl

theorem blk_reidx2 (c : Buf (Elt F) (o2Loc2 d)) (i j : Fin 20) (e : i = j) :
    (View.loc (thrV2 d L) (negSl2 L i).view ↦[(negSl2 L i).view.set]{fullShare} c : sProp 𝕄) ⊢ (o2Loc2 d ↦[(negSl2 L j).view.set]{fullShare} c) := by
  subst e; exact .rfl

theorem pts_a8Row_congr2 {off off' : Fin 2 → ℕ} (e : off = off') (h : ∀ a, off a + S1x128.size a ≤ S24x128.size a)
    (h' : ∀ a, off' a + S1x128.size a ≤ S24x128.size a) (f : Buf (Elt F) (a8Loc2 d L)) :
    (View.loc (thrV2 d L) (a8Row2 off h).view ↦[(a8Row2 off h).view.set]{fullShare} f : sProp 𝕄)
      = (View.loc (thrV2 d L) (a8Row2 off' h').view ↦[(a8Row2 off' h').view.set]{fullShare} f) := by
  subst e; rfl

theorem wFl_unfold2 (cell : DmaSem sig) (buf : Ref sig .scVector) (j : Fin 20) (b : Buf (Elt F) (o2Loc2 d)) (c : Buf (Elt F) ((thrV2 d L).loc buf)) :
    (wFl2 d L cell buf j b c : sProp 𝕄) = Transfers.Flight countersEmb (thrV2 d L) (SemLoc.dma cell) (default : HIx 4) 524288
      iprop((View.loc (thrV2 d L) (negSl2 L j).view ↦[(negSl2 L j).view.set]{fullShare} b)
        ∗ View.loc (thrV2 d L) (Memref.whole buf).view ↦[(Memref.whole buf : Memref sig .scVector _ _ _).view.set]{fullShare} c) := rfl

end Intro3

/-! ## The kernel at a symbolic tile -/

section Body

variable (d : Dev nD) (T0 : Buf (Elt F) (t0Loc d)) (T1 : Buf (Elt F) (t1Loc d)) (IX : Buf (Elt F) (ixLoc2 d))

set_option maxHeartbeats 4000000 in
/-- The gather kernel on the vector subcore at `L`: from what the tile is handed and its own scratch storage to what
    it hands back, every wait admissible under what the tile owes the launch. The index copy-in lands the tile's 24
    index rows; each gather reads a table by one of those rows, on its own semaphore and read token; the ring's
    loop keeps the invariant `inv2`; every block copied out holds the result's values. -/
theorem tile_body2 (hF : (K (F := F)).Facts) (hIX : IXOK2 d IX) (L : grid4.Coords) (O : CellTallies nD τ sig (HIx 4)) (W : Waits sig (HIx 4)) (hO : ∀ g, O g none = 0) :
    iprop(levAts (K (F := F)).L (K (F := F)).lev ∗ emp ∗ goResL2 d T0 T1 IX L
        ∗ scopedBufs (thrV2 d L) ∗ scopedSems0 (thrV2 d L) ∗ owes (thrV2 d L) O W)
      ⊢ wp frame (wpE (defs₀ (F := F)) 𝒱₀ (thrV2 d L) none) Set.univ
          (cc4__sc_gather L t0V (Memref.isWhole_whole _) t1V (Memref.isWhole_whole _) ixV2 (Memref.isWhole_whole _) o0V2 (Memref.isWhole_whole _) o1V2 (Memref.isWhole_whole _) o2V2 (Memref.isWhole_whole _)
            a82 (Memref.isWhole_whole _) bC2 (Memref.isWhole_whole _) bP2 (Memref.isWhole_whole _) rb02 (Memref.isWhole_whole _) rb12 (Memref.isWhole_whole _) rb22 (Memref.isWhole_whole _) rb32 (Memref.isWhole_whole _)
            cc4_scratch7 cc4_scratch8 cc4_scratch9 cc4_scratch10 cc4_scratch11 cc4_scratch12 cc4_scratch13 cc4_scratch14 cc4_scratch15 cc4_scratch16 cc4_scratch17 cc4_scratch18 cc4_scoped0)
          fun _ => iprop(tdResL2 d T0 T1 IX L ∗ scopedBufs (thrV2 d L) ∗ scopedSems0 (thrV2 d L)
            ∗ ∃ W', ⌜∀ p ∈ W', p ∈ W ∨ p.2 = none⌝ ∗ owes (thrV2 d L) O W') := by
  simp only [cc4__sc_gather_eq_skeleton]; unfold cc4__sc_gather_skel
  rw [(K (F := F)).scopedBufs_V hF d (cV2 L) (jV2 L), SparseCore.Cfg.scopedSems0_V (Val := Elt F) d (cV2 L) (jV2 L), ownSems0_V2, ownBufs_V2]
  unfold goResL2
  iintro ⟨#Hlv, -, ⟨Ht0, Ht1, Hix, ⟨%f0, Ho0⟩, ⟨%f1, Ho1⟩, Hneg⟩,
    ⟨⟨⟨%fa8, Ha8⟩, ⟨%fbC, HbC⟩, ⟨%fbP, HbP⟩, ⟨%f0', Hr0⟩, ⟨%f1', Hr1⟩, ⟨%f2', Hr2⟩, ⟨%f3', Hr3⟩⟩, Hbufs⟩,
    ⟨⟨Hs0, Hs7, Hs8, Hs9, Hs10, Hs11, Hs12, Hs13, Hs14, Hs15, Hs16, Hs17, Hs18⟩, Hsems⟩, HO⟩
  ihave Hmw := ((K (F := F)).mayWaits_none (thr := thrV2 d L) hO) $$ Hlv
  -- the arrays as the tile's memrefs address them; the second table's share, one read token per semaphore
  ihave Ht0 := (Entails.of_eq (pts_t02 (F := F) d L _ _).symm) $$ Ht0
  ihave Ht1 := (toks8_split (F := F) (tblShare2 L) T1) $$ Ht1
  icases Ht1 with ⟨Hq8, Hq7, Hq6, Hq5, Hq4, Hq3, Hq2, Hq1, Hq0⟩
  ihave Hq1 := (Entails.of_eq (pts_t12 (F := F) d L _ _).symm) $$ Hq1
  ihave Hq4 := (Entails.of_eq (pts_t12 (F := F) d L _ _).symm) $$ Hq4
  ihave Hq5 := (Entails.of_eq (pts_t12 (F := F) d L _ _).symm) $$ Hq5
  ihave Hq6 := (Entails.of_eq (pts_t12 (F := F) d L _ _).symm) $$ Hq6
  ihave Hq7 := (Entails.of_eq (pts_t12 (F := F) d L _ _).symm) $$ Hq7
  ihave Hix := (Entails.of_eq (pts_ix2 (F := F) d L _).symm) $$ Hix
  ihave Ho0 := (Entails.of_eq (pts_o02 (F := F) d L _).symm) $$ Ho0
  ihave Ho1 := (Entails.of_eq (pts_o12 (F := F) d L _).symm) $$ Ho1
  ihave Ha8 := (Entails.of_eq (pts_scr2 (F := F) d L cc4_scratch0 _).symm) $$ Ha8
  ihave HbC := (Entails.of_eq (pts_scr2 (F := F) d L cc4_scratch1 _).symm) $$ HbC
  ihave HbP := (Entails.of_eq (pts_scr2 (F := F) d L cc4_scratch2 _).symm) $$ HbP
  ihave Hr0 := (Entails.of_eq (pts_scr2 (F := F) d L cc4_scratch3 _).symm) $$ Hr0
  ihave Hr1 := (Entails.of_eq (pts_scr2 (F := F) d L cc4_scratch4 _).symm) $$ Hr1
  ihave Hr2 := (Entails.of_eq (pts_scr2 (F := F) d L cc4_scratch5 _).symm) $$ Hr2
  ihave Hr3 := (Entails.of_eq (pts_scr2 (F := F) d L cc4_scratch6 _).symm) $$ Hr3

  sl_exec
  -- the index scratch now holds the tile's 24 rows of the index array; row by row
  have hA8 : (View.write (Elt F) (a82 : Memref sig .scVector .vmem S24x128 .i32).view fa8 (tile_body2.sl.dma0 d IX L) Finset.univ) = A8c2 d IX L := by
    exact (View.write_whole_univ (Val := Elt F) cc4_scratch0 fa8 _).trans rfl
  rw [hA8]
  have h0 : (0 : ℕ) < 24 := by decide
  have h1 : (1 : ℕ) < 24 := by decide
  have h2 : (2 : ℕ) < 24 := by decide
  have h3 : (3 : ℕ) < 24 := by decide
  have h4 : (4 : ℕ) < 24 := by decide
  have h5 : (5 : ℕ) < 24 := by decide
  have hb0 : (0 : ℕ) < 20 := by decide
  ihave Ha8 := (Entails.of_eq (pts_scr2 (F := F) d L cc4_scratch0 _)) $$ Ha8
  ihave Hrows := (Entails.of_eq (a8_rows2 (F := F) d L _)) $$ Ha8
  ihave Hrows := (Entails.of_eq (bigSep_from_zero (F := F) _).symm) $$ Hrows
  ihave H := (Entails.of_eq (bigSep_from_pop (F := F) _ 0 h0)) $$ Hrows; icases H with ⟨Hw0, Hrows⟩
  ihave H := (Entails.of_eq (bigSep_from_pop (F := F) _ 1 h1)) $$ Hrows; icases H with ⟨Hw1, Hrows⟩
  ihave H := (Entails.of_eq (bigSep_from_pop (F := F) _ 2 h2)) $$ Hrows; icases H with ⟨Hw2, Hrows⟩
  ihave H := (Entails.of_eq (bigSep_from_pop (F := F) _ 3 h3)) $$ Hrows; icases H with ⟨Hw3, Hrows⟩
  ihave H := (Entails.of_eq (bigSep_from_pop (F := F) _ 4 h4)) $$ Hrows; icases H with ⟨Hw4, Hrows⟩
  ihave H := (Entails.of_eq (bigSep_from_pop (F := F) _ 5 h5)) $$ Hrows; icases H with ⟨Hw5, Hrows⟩
  ihave Hw0 := (Entails.of_eq (pts_a8Row2 (F := F) d L ⟨0, h0⟩ ![0, 0] (rowInb ⟨0, h0⟩) rfl _).symm) $$ Hw0
  ihave Hw1 := (Entails.of_eq (pts_a8Row2 (F := F) d L ⟨1, h1⟩ ![1, 0] (rowInb ⟨1, h1⟩) rfl _).symm) $$ Hw1
  ihave Hw2 := (Entails.of_eq (pts_a8Row2 (F := F) d L ⟨2, h2⟩ ![2, 0] (rowInb ⟨2, h2⟩) rfl _).symm) $$ Hw2
  ihave Hw3 := (Entails.of_eq (pts_a8Row2 (F := F) d L ⟨3, h3⟩ ![3, 0] (rowInb ⟨3, h3⟩) rfl _).symm) $$ Hw3
  ihave Hw4 := (Entails.of_eq (pts_a8Row2 (F := F) d L ⟨4, h4⟩ ![4, 0] (rowInb ⟨4, h4⟩) rfl _).symm) $$ Hw4
  ihave Hw5 := (Entails.of_eq (pts_a8Row2 (F := F) d L ⟨5, h5⟩ ![5, 0] (rowInb ⟨5, h5⟩) rfl _).symm) $$ Hw5
  have hin0 := hin_rows2 (F := F) d IX L hIX ⟨0, h0⟩ ![0, 0] (rowInb ⟨0, h0⟩) rfl (by show (0 : ℕ) < 22; decide)
  have hin1 := hin_rows2 (F := F) d IX L hIX ⟨1, h1⟩ ![1, 0] (rowInb ⟨1, h1⟩) rfl (by show (1 : ℕ) < 22; decide)
  have hin2 := hin_rows2 (F := F) d IX L hIX ⟨2, h2⟩ ![2, 0] (rowInb ⟨2, h2⟩) rfl (by show (2 : ℕ) < 22; decide)
  have hin3 := hin_rows2 (F := F) d IX L hIX ⟨3, h3⟩ ![3, 0] (rowInb ⟨3, h3⟩) rfl (by show (3 : ℕ) < 22; decide)
  have hin4 := hin_rows2 (F := F) d IX L hIX ⟨4, h4⟩ ![4, 0] (rowInb ⟨4, h4⟩) rfl (by show (4 : ℕ) < 22; decide)
  have hin5 := hin_rows2 (F := F) d IX L hIX ⟨5, h5⟩ ![5, 0] (rowInb ⟨5, h5⟩) rfl (by show (5 : ℕ) < 22; decide)
  -- draw 0's block of the third result
  ihave Hneg := (Entails.of_eq (bigSep_from_zero (F := F) _).symm) $$ Hneg
  ihave H := (Entails.of_eq (bigSep_from_pop (F := F) _ 0 hb0)) $$ Hneg; icases H with ⟨⟨%g0, Hb0⟩, Hneg⟩
  ihave Hb0 := (Entails.of_eq (pts_negOff2 (F := F) d L (k4_off2_neg L 0 0 rfl) (k4_off2_inb L 0) (negOff_inb2 L ⟨0, hb0⟩) _).symm) $$ Hb0
  sl_exec

  -- ── the ring at the loop's entry: the invariant at trip 0 ──
  have hc3 : (rb12).view.writes (Elt F) f1' [⟨Rect.whole cc4_scratch4.ty.shape, tile_body2.sl.gather3 d T1 IX L h3 hin3⟩] = gRows2 d IX L T1 (4 * 0 + 3) :=
    (writes_whole2 (F := F) d L cc4_scratch4 f1' _).trans (gather_val12 (F := F) d T1 IX L ⟨3, h3⟩ (rowInb ⟨3, h3⟩) gathers_S100000x128_S128x128 (by decide) hin3)
  have hc4 : (rb22).view.writes (Elt F) f2' [⟨Rect.whole cc4_scratch5.ty.shape, tile_body2.sl.gather4 d T1 IX L h4 hin4⟩] = gRows2 d IX L T1 (4 * 0 + 4) :=
    (writes_whole2 (F := F) d L cc4_scratch5 f2' _).trans (gather_val12 (F := F) d T1 IX L ⟨4, h4⟩ (rowInb ⟨4, h4⟩) gathers_S100000x128_S128x128 (by decide) hin4)
  have hc5 : (rb32).view.writes (Elt F) f3' [⟨Rect.whole cc4_scratch6.ty.shape, tile_body2.sl.gather5 d T1 IX L h5 hin5⟩] = gRows2 d IX L T1 (4 * 0 + 5) :=
    (writes_whole2 (F := F) d L cc4_scratch6 f3' _).trans (gather_val12 (F := F) d T1 IX L ⟨5, h5⟩ (rowInb ⟨5, h5⟩) gathers_S100000x128_S128x128 (by decide) hin5)
  have hc2 : (rb02).view.writes (Elt F) f0' [⟨Rect.whole cc4_scratch3.ty.shape, tile_body2.sl.gather2 d T1 IX L h2 hin2⟩] = gRows2 d IX L T1 (4 * 0 + 2) :=
    (writes_whole2 (F := F) d L cc4_scratch3 f0' _).trans (gather_val12 (F := F) d T1 IX L ⟨2, h2⟩ (rowInb ⟨2, h2⟩) gathers_S100000x128_S128x128 (by decide) hin2)
  have hw0 : tile_body2.sl.dma0_1 d T1 IX L f0' h2 hin2 = gRows2 d IX L T1 (2 + (blkF (4 * 0)).val) := by
    unfold tile_body2.sl.dma0_1; rw [hc2]; rfl
  rw [hc2, hc3, hc4, hc5]
  sl_for (inv2 d T1 IX L O W) $$ [Hmw Hs12 Hq5 Hs13 Hq6 Hs14 Hq7 Hs15 Hr0 Hq4 Hs11 Hs16 Hs17 Hs18 Hw2 Hrows Hneg HO]
  case region =>
    intro k _
    have hk : k.val < 4 := lt_of_lt_of_le k.isLt k4_t1_abs.2.1
    unfold inv2 gFl2 wFl2
    iintro ⟨#Hmw, Hs12, Hq5, Hs13, Hq6, Hs14, Hq7, Hs15, Hr0, Hq4, Hs11, Hs16, Hs17, Hs18, Hdone, Hrows, Hbd, Hneg, %W', %hW', HO⟩
    -- the four index rows this trip gathers by, as the program takes them
    have hr0 : 4 * k.val + 6 < 24 := by omega
    have hr1 : 4 * k.val + 6 + 1 < 24 := by omega
    have hr2 : 4 * k.val + 6 + 1 + 1 < 24 := by omega
    have hr3 : 4 * k.val + 6 + 1 + 1 + 1 < 24 := by omega
    ihave H := (Entails.of_eq (bigSep_from_pop (F := F) _ _ hr0)) $$ Hrows; icases H with ⟨Hn0, Hrows⟩
    ihave H := (Entails.of_eq (bigSep_from_pop (F := F) _ _ hr1)) $$ Hrows; icases H with ⟨Hn1, Hrows⟩
    ihave H := (Entails.of_eq (bigSep_from_pop (F := F) _ _ hr2)) $$ Hrows; icases H with ⟨Hn2, Hrows⟩
    ihave H := (Entails.of_eq (bigSep_from_pop (F := F) _ _ hr3)) $$ Hrows; icases H with ⟨Hn3, Hrows⟩
    have ho0 : k4_off5 k 1#32 = ![(⟨4 * k.val + 6, hr0⟩ : Fin 24).val, 0] :=
      (k4_off5_eq k ⟨0, by decide⟩).trans (by show ![0 + 4 * k.val + 6, 0] = ![4 * k.val + 6, 0]; congr 1; omega)
    have ho1 : k4_off5 k 2#32 = ![(⟨4 * k.val + 6 + 1, hr1⟩ : Fin 24).val, 0] :=
      (k4_off5_eq k ⟨1, by decide⟩).trans (by show ![1 + 4 * k.val + 6, 0] = ![4 * k.val + 6 + 1, 0]; congr 1; omega)
    have ho2 : k4_off5 k 3#32 = ![(⟨4 * k.val + 6 + 1 + 1, hr2⟩ : Fin 24).val, 0] :=
      (k4_off5_eq k ⟨2, by decide⟩).trans (by show ![2 + 4 * k.val + 6, 0] = ![4 * k.val + 6 + 1 + 1, 0]; congr 1; omega)
    have ho3 : k4_off5 k 4#32 = ![(⟨4 * k.val + 6 + 1 + 1 + 1, hr3⟩ : Fin 24).val, 0] :=
      (k4_off5_eq k ⟨3, by decide⟩).trans (by show ![3 + 4 * k.val + 6, 0] = ![4 * k.val + 6 + 1 + 1 + 1, 0]; congr 1; omega)
    ihave Hn0 := (Entails.of_eq (pts_a8Row2 (F := F) d L ⟨_, hr0⟩ (k4_off5 k 1#32) (k4_off5_inb k 0) ho0 _).symm) $$ Hn0
    ihave Hn1 := (Entails.of_eq (pts_a8Row2 (F := F) d L ⟨_, hr1⟩ (k4_off5 k 2#32) (k4_off5_inb k 1) ho1 _).symm) $$ Hn1
    ihave Hn2 := (Entails.of_eq (pts_a8Row2 (F := F) d L ⟨_, hr2⟩ (k4_off5 k 3#32) (k4_off5_inb k 2) ho2 _).symm) $$ Hn2
    ihave Hn3 := (Entails.of_eq (pts_a8Row2 (F := F) d L ⟨_, hr3⟩ (k4_off5 k 4#32) (k4_off5_inb k 3) ho3 _).symm) $$ Hn3
    have hinA := hin_rows2 (F := F) d IX L hIX ⟨_, hr0⟩ (k4_off5 k 1#32) (k4_off5_inb k 0) ho0 (by show 4 * k.val + 6 < 22; omega)
    have hinB := hin_rows2 (F := F) d IX L hIX ⟨_, hr1⟩ (k4_off5 k 2#32) (k4_off5_inb k 1) ho1 (by show 4 * k.val + 6 + 1 < 22; omega)
    have hinC := hin_rows2 (F := F) d IX L hIX ⟨_, hr2⟩ (k4_off5 k 3#32) (k4_off5_inb k 2) ho2 (by show 4 * k.val + 6 + 1 + 1 < 22; omega)
    have hinD := hin_rows2 (F := F) d IX L hIX ⟨_, hr3⟩ (k4_off5 k 4#32) (k4_off5_inb k 3) ho3 (by show 4 * k.val + 6 + 1 + 1 + 1 < 22; omega)
    -- the four blocks it writes, as the program takes them
    have hq0 : 4 * k.val + 1 < 20 := by omega
    have hq1 : 4 * k.val + 1 + 1 < 20 := by omega
    have hq2 : 4 * k.val + 1 + 1 + 1 < 20 := by omega
    have hq3 : 4 * k.val + 1 + 1 + 1 + 1 < 20 := by omega
    ihave H := (Entails.of_eq (bigSep_from_pop (F := F) _ _ hq0)) $$ Hneg; icases H with ⟨⟨%gA, HbA⟩, Hneg⟩
    ihave H := (Entails.of_eq (bigSep_from_pop (F := F) _ _ hq1)) $$ Hneg; icases H with ⟨⟨%gB, HbB⟩, Hneg⟩
    ihave H := (Entails.of_eq (bigSep_from_pop (F := F) _ _ hq2)) $$ Hneg; icases H with ⟨⟨%gC, HbC'⟩, Hneg⟩
    ihave H := (Entails.of_eq (bigSep_from_pop (F := F) _ _ hq3)) $$ Hneg; icases H with ⟨⟨%gD, HbD⟩, Hneg⟩
    have hbo0 : k4_off6 L k 1#32 = negOff2 L (⟨4 * k.val + 1, hq0⟩ : Fin 20).val :=
      (k4_off6_wid L k ⟨0, by decide⟩).trans (by show negOff2 L (4 * k.val + 0 + 1) = negOff2 L (4 * k.val + 1); rfl)
    have hbo1 : k4_off6 L k 2#32 = negOff2 L (⟨4 * k.val + 1 + 1, hq1⟩ : Fin 20).val :=
      (k4_off6_wid L k ⟨1, by decide⟩).trans (by show negOff2 L (4 * k.val + 1 + 1) = negOff2 L (4 * k.val + 1 + 1); rfl)
    have hbo2 : k4_off6 L k 3#32 = negOff2 L (⟨4 * k.val + 1 + 1 + 1, hq2⟩ : Fin 20).val :=
      (k4_off6_wid L k ⟨2, by decide⟩).trans (by show negOff2 L (4 * k.val + 2 + 1) = negOff2 L (4 * k.val + 1 + 1 + 1); rfl)
    have hbo3 : k4_off6 L k 4#32 = negOff2 L (⟨4 * k.val + 1 + 1 + 1 + 1, hq3⟩ : Fin 20).val :=
      (k4_off6_wid L k ⟨3, by decide⟩).trans (by show negOff2 L (4 * k.val + 3 + 1) = negOff2 L (4 * k.val + 1 + 1 + 1 + 1); rfl)
    ihave HbA := (Entails.of_eq (pts_negOff2 (F := F) d L hbo0 (k4_off6_inb L k 0) (negOff_inb2 L ⟨_, hq0⟩) _).symm) $$ HbA
    ihave HbB := (Entails.of_eq (pts_negOff2 (F := F) d L hbo1 (k4_off6_inb L k 1) (negOff_inb2 L ⟨_, hq1⟩) _).symm) $$ HbB
    ihave HbC' := (Entails.of_eq (pts_negOff2 (F := F) d L hbo2 (k4_off6_inb L k 2) (negOff_inb2 L ⟨_, hq2⟩) _).symm) $$ HbC'
    ihave HbD := (Entails.of_eq (pts_negOff2 (F := F) d L hbo3 (k4_off6_inb L k 3) (negOff_inb2 L ⟨_, hq3⟩) _).symm) $$ HbD
    sl_exec
    sl_step
    have hcA : (rb02).view.writes (Elt F) (gRows2 d IX L T1 (4 * k.val + 2)) [⟨Rect.whole cc4_scratch3.ty.shape, tile_body2.sl.gather0_1 d T1 IX L k hinA⟩] = gRows2 d IX L T1 (4 * (k.val + 1) + 2) :=
      (writes_whole2 (F := F) d L cc4_scratch3 _ _).trans ((gather_val1'2 (F := F) d T1 IX L (k4_off5 k 1#32) (k4_off5_inb k 0) ⟨_, hr0⟩ ho0 gathers_S100000x128_S128x128 (by decide) hinA).trans (by congr 1 <;> omega))
    have hcB : (rb12).view.writes (Elt F) (gRows2 d IX L T1 (4 * k.val + 3)) [⟨Rect.whole cc4_scratch4.ty.shape, tile_body2.sl.gather2_1 d T1 IX L k hinB⟩] = gRows2 d IX L T1 (4 * (k.val + 1) + 3) :=
      (writes_whole2 (F := F) d L cc4_scratch4 _ _).trans ((gather_val1'2 (F := F) d T1 IX L (k4_off5 k 2#32) (k4_off5_inb k 1) ⟨_, hr1⟩ ho1 gathers_S100000x128_S128x128 (by decide) hinB).trans (by congr 1 <;> omega))
    have hcC : (rb22).view.writes (Elt F) (gRows2 d IX L T1 (4 * k.val + 4)) [⟨Rect.whole cc4_scratch5.ty.shape, tile_body2.sl.gather4_1 d T1 IX L k hinC⟩] = gRows2 d IX L T1 (4 * (k.val + 1) + 4) :=
      (writes_whole2 (F := F) d L cc4_scratch5 _ _).trans ((gather_val1'2 (F := F) d T1 IX L (k4_off5 k 3#32) (k4_off5_inb k 2) ⟨_, hr2⟩ ho2 gathers_S100000x128_S128x128 (by decide) hinC).trans (by congr 1 <;> omega))
    have hcD : (rb32).view.writes (Elt F) (gRows2 d IX L T1 (4 * k.val + 5)) [⟨Rect.whole cc4_scratch6.ty.shape, tile_body2.sl.gather6 d T1 IX L k hinD⟩] = gRows2 d IX L T1 (4 * (k.val + 1) + 5) :=
      (writes_whole2 (F := F) d L cc4_scratch6 _ _).trans ((gather_val1'2 (F := F) d T1 IX L (k4_off5 k 4#32) (k4_off5_inb k 3) ⟨_, hr3⟩ ho3 gathers_S100000x128_S128x128 (by decide) hinD).trans (by congr 1 <;> omega))
    rw [hcA, hcB, hcC, hcD]
    -- the rows of the three gathers now in flight, in the invariant's spelling
    have e1 : k4_off5 k 2#32 = ![(rowF (4 * (k.val + 1) + 3)).val, 0] := ho1.trans (by show ![4 * k.val + 6 + 1, 0] = ![(4 * (k.val + 1) + 3) % 24, 0]; congr 1; omega)
    have e2 : k4_off5 k 3#32 = ![(rowF (4 * (k.val + 1) + 4)).val, 0] := ho2.trans (by show ![4 * k.val + 6 + 1 + 1, 0] = ![(4 * (k.val + 1) + 4) % 24, 0]; congr 1; omega)
    have e3 : k4_off5 k 4#32 = ![(rowF (4 * (k.val + 1) + 5)).val, 0] := ho3.trans (by show ![4 * k.val + 6 + 1 + 1 + 1, 0] = ![(4 * (k.val + 1) + 5) % 24, 0]; congr 1; omega)
    rw [pts_a8Row_congr2 (F := F) d L e1 (k4_off5_inb k 1) (rowInb _) (A8c2 d IX L), pts_a8Row_congr2 (F := F) d L e2 (k4_off5_inb k 2) (rowInb _) (A8c2 d IX L), pts_a8Row_congr2 (F := F) d L e3 (k4_off5_inb k 3) (rowInb _) (A8c2 d IX L)]
    -- the four rows that came back
    have hd0 : 4 * k.val + 3 < 24 := by omega
    have hd1 : 4 * k.val + 3 + 1 < 24 := by omega
    have hd2 : 4 * k.val + 3 + 1 + 1 < 24 := by omega
    have hd3 : 4 * k.val + 3 + 1 + 1 + 1 < 24 := by omega
    ihave R0 := (Entails.of_eq (pts_a8Row2 (F := F) d L (rowF (4 * k.val + 3)) ![(rowF (4 * k.val + 3)).val, 0] (rowInb _) rfl _)) $$ Hs12_dst_and
    ihave R0 := (row_reidx2 (F := F) d L _ _ ⟨4 * k.val + 3, hd0⟩ (Fin.ext (show (4 * k.val + 3) % 24 = 4 * k.val + 3 by omega))) $$ R0
    ihave R1 := (Entails.of_eq (pts_a8Row2 (F := F) d L (rowF (4 * k.val + 4)) ![(rowF (4 * k.val + 4)).val, 0] (rowInb _) rfl _)) $$ Hs13_dst_and
    ihave R1 := (row_reidx2 (F := F) d L _ _ ⟨4 * k.val + 3 + 1, hd1⟩ (Fin.ext (show (4 * k.val + 4) % 24 = 4 * k.val + 3 + 1 by omega))) $$ R1
    ihave R2 := (Entails.of_eq (pts_a8Row2 (F := F) d L (rowF (4 * k.val + 5)) ![(rowF (4 * k.val + 5)).val, 0] (rowInb _) rfl _)) $$ Hs14_dst_and
    ihave R2 := (row_reidx2 (F := F) d L _ _ ⟨4 * k.val + 3 + 1 + 1, hd2⟩ (Fin.ext (show (4 * k.val + 5) % 24 = 4 * k.val + 3 + 1 + 1 by omega))) $$ R2
    ihave R3 := (Entails.of_eq (pts_a8Row2 (F := F) d L ⟨_, hr0⟩ (k4_off5 k 1#32) (k4_off5_inb k 0) ho0 _)) $$ Hn0
    ihave R3 := (row_reidx2 (F := F) d L _ _ ⟨4 * k.val + 3 + 1 + 1 + 1, hd3⟩ (Fin.ext (show 4 * k.val + 6 = 4 * k.val + 3 + 1 + 1 + 1 by omega))) $$ R3
    -- the four blocks that are written
    have hp0 : 4 * k.val < 20 := by omega
    ihave B0 := (blk_reidx2 (F := F) d L _ _ ⟨4 * k.val, hp0⟩ (Fin.ext (show (4 * k.val) % 20 = 4 * k.val by omega))) $$ Hs15_dst
    have hwA : tile_body2.sl.dma0_2 d T1 IX L k = gRows2 d IX L T1 (2 + (⟨4 * k.val + 1, hq0⟩ : Fin 20).val) := by
      unfold tile_body2.sl.dma0_2; show gRows2 d IX L T1 (4 * k.val + 3) = gRows2 d IX L T1 (2 + (4 * k.val + 1)); congr 1; omega
    have hwB : tile_body2.sl.dma0_3 d T1 IX L k = gRows2 d IX L T1 (2 + (⟨4 * k.val + 1 + 1, hq1⟩ : Fin 20).val) := by
      unfold tile_body2.sl.dma0_3; show gRows2 d IX L T1 (4 * k.val + 4) = gRows2 d IX L T1 (2 + (4 * k.val + 1 + 1)); congr 1; omega
    have hwC : tile_body2.sl.dma0_4 d T1 IX L k = gRows2 d IX L T1 (2 + (⟨4 * k.val + 1 + 1 + 1, hq2⟩ : Fin 20).val) := by
      unfold tile_body2.sl.dma0_4; show gRows2 d IX L T1 (4 * k.val + 5) = gRows2 d IX L T1 (2 + (4 * k.val + 1 + 1 + 1)); congr 1; omega
    have hwD : tile_body2.sl.dma0_5 d T1 IX L k hinA = gRows2 d IX L T1 (2 + (blkF (4 * (k.val + 1))).val) := by
      unfold tile_body2.sl.dma0_5; rw [hcA]; show gRows2 d IX L T1 (4 * (k.val + 1) + 2) = gRows2 d IX L T1 (2 + (4 * (k.val + 1)) % 20); congr 1; omega
    ihave B1 := (blk_intro2 (F := F) d T1 IX L ⟨_, hq0⟩ (k4_off6 L k 1#32) (k4_off6_inb L k 0) hbo0 gA _ hwA) $$ HbA
    ihave B2 := (blk_intro2 (F := F) d T1 IX L ⟨_, hq1⟩ (k4_off6 L k 2#32) (k4_off6_inb L k 1) hbo1 gB _ hwB) $$ HbB
    ihave B3 := (blk_intro2 (F := F) d T1 IX L ⟨_, hq2⟩ (k4_off6 L k 3#32) (k4_off6_inb L k 2) hbo2 gC _ hwC) $$ HbC'
    have hbo3' : k4_off6 L k 4#32 = negOff2 L (blkF (4 * (k.val + 1))).val :=
      hbo3.trans (by show negOff2 L (4 * k.val + 1 + 1 + 1 + 1) = negOff2 L ((4 * (k.val + 1)) % 20); congr 1; omega)
    -- the invariant at the next trip
    isplitl []; · iexact Hmw
    isplitl [Hs12]; · iexact Hs12
    isplitl [Hq5]; · iexact Hq5
    isplitl [Hs13]; · iexact Hs13
    isplitl [Hq6]; · iexact Hq6
    isplitl [Hs14]; · iexact Hs14
    isplitl [Hq7]; · iexact Hq7
    isplitl [Hs15]
    · have h8 : (50 : ℕ) < sig.nDmaSem := by decide
      iapply ((wFl_intro'2 (F := F) d T1 IX L ⟨50, h8⟩ cc4_scratch3 (blkF (4 * (k.val + 1))) (k4_off6 L k 4#32) (k4_off6_inb L k 3) hbo3' gD _ hwD (gRows2 d IX L T1 (4 * (k.val + 1) + 2))).trans
        (Entails.of_eq (wFl_unfold2 (F := F) d L ⟨50, h8⟩ cc4_scratch3 (blkF (4 * (k.val + 1))) (gV2 d T1 IX) (gRows2 d IX L T1 (4 * (k.val + 1) + 2)))))
      iexact Hs15
    isplitl [Hr0]; · iexact Hr0
    isplitl [Hq4]; · iexact Hq4
    isplitl [Hs11]; · iexact Hs11
    isplitl [Hs16]; · iexact Hs16
    isplitl [Hs17]; · iexact Hs17
    isplitl [Hs18]; · iexact Hs18
    isplitl [Hdone R0 R1 R2 R3]
    · iapply (mid_push4 (F := F) (fun k' : Fin 24 => (a8Loc2 d L ↦[a8RowSet2 k']{fullShare} A8c2 d IX L : sProp 𝕄)) 2 (4 * k.val + 3) (4 * (k.val + 1) + 3) hd0 hd1 hd2 hd3 (by omega) (by omega))
      isplitl [Hdone]; · iexact Hdone
      isplitl [R0]; · iexact R0
      isplitl [R1]; · iexact R1
      isplitl [R2]; · iexact R2
      iexact R3
    isplitl [Hrows]
    · iapply (Entails.of_eq (bigSep_from_congr (F := F) _ (show 4 * k.val + 6 + 1 + 1 + 1 + 1 = 4 * (k.val + 1) + 6 by omega)))
      iexact Hrows
    isplitl [Hbd B0 B1 B2 B3]
    · iapply (mid_push4 (F := F) (fun j : Fin 20 => (o2Loc2 d ↦[(negSl2 L j).view.set]{fullShare} gV2 d T1 IX : sProp 𝕄)) 0 (4 * k.val) (4 * (k.val + 1)) hp0 hq0 hq1 hq2 (by omega) (by omega))
      isplitl [Hbd]; · iexact Hbd
      isplitl [B0]; · iexact B0
      isplitl [B1]; · iexact B1
      isplitl [B2]; · iexact B2
      iexact B3
    isplitl [Hneg]
    · iapply (Entails.of_eq (bigSep_from_congr (F := F) _ (show 4 * k.val + 1 + 1 + 1 + 1 + 1 = 4 * (k.val + 1) + 1 by omega)))
      iexact Hneg
    iexists (insert ((SemLoc.dma ⟨53, by decide⟩ : SemLoc sig), (default : HIx 4))
      (insert ((SemLoc.dma ⟨46, by decide⟩ : SemLoc sig), (default : HIx 4))
        (insert ((SemLoc.dma ⟨52, by decide⟩ : SemLoc sig), (default : HIx 4))
          (insert ((SemLoc.dma ⟨49, by decide⟩ : SemLoc sig), (default : HIx 4))
            (insert ((SemLoc.dma ⟨51, by decide⟩ : SemLoc sig), (default : HIx 4))
              (insert ((SemLoc.dma ⟨48, by decide⟩ : SemLoc sig), (default : HIx 4))
                (insert ((SemLoc.dma ⟨50, by decide⟩ : SemLoc sig), (default : HIx 4))
                  (insert ((SemLoc.dma ⟨47, by decide⟩ : SemLoc sig), (default : HIx 4)) W')))))))); isplitr
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      · exact hW' p hp
    · iexact HO
  · unfold inv2
    isplitl [Hmw]; · iexact Hmw
    isplitl [Hs12]; · unfold gFl2; iexact Hs12
    isplitl [Hq5]; · iexact Hq5
    isplitl [Hs13]; · unfold gFl2; iexact Hs13
    isplitl [Hq6]; · iexact Hq6
    isplitl [Hs14]; · unfold gFl2; iexact Hs14
    isplitl [Hq7]; · iexact Hq7
    isplitl [Hs15]
    · have h8 : (50 : ℕ) < sig.nDmaSem := by decide
      iapply (wFl_intro'2 (F := F) d T1 IX L ⟨50, h8⟩ cc4_scratch3 (blkF (4 * 0)) (k4_off2 L (k4_off2_at 0))
        (k4_off2_inb L 0) (k4_off2_neg L 0 0 rfl) g0 _ hw0 _)
      iexact Hs15
    isplitl [Hr0]; · iexact Hr0
    isplitl [Hq4]; · iexact Hq4
    isplitl [Hs11]; · iexact Hs11
    isplitl [Hs16]; · iexact Hs16
    isplitl [Hs17]; · iexact Hs17
    isplitl [Hs18]; · iexact Hs18
    isplitl [Hw2]
    · iapply (rows_done02 (F := F) d L _ h2)
      iapply (Entails.of_eq (pts_a8Row2 (F := F) d L ⟨2, h2⟩ ![2, 0] (rowInb ⟨2, h2⟩) rfl _))
      iexact Hw2
    isplitl [Hrows]; · iexact Hrows
    isplitl []; · iapply (blks_done02 (F := F) d L (gV2 d T1 IX)); iempintro
    isplitl [Hneg]; · iexact Hneg
    iexists (insert ((SemLoc.dma ⟨46, by decide⟩ : SemLoc sig), (default : HIx 4))
      (insert ((SemLoc.dma ⟨54, by decide⟩ : SemLoc sig), (default : HIx 4)) W)); isplitr
    · ipureintro; intro p hp
      rcases Finset.mem_insert.mp hp with rfl | hp
      · exact .inr rfl
      rcases Finset.mem_insert.mp hp with rfl | hp
      · exact .inr rfl
      · exact .inl hp
    · iexact HO
  iintro %_ HI
  unfold inv2 gFl2 wFl2
  icases HI with ⟨#Hmw', Hs12, Hq5, Hs13, Hq6, Hs14, Hq7, Hs15, Hr0, Hq4, Hs11, Hs16, Hs17, Hs18, Hdone, Hrows, Hbd, Hneg, %W', %hW', HO⟩
  have htr : Scf.trips k4_t1_loop.lb k4_t1_loop.ub k4_t1_loop.st = 4 := by decide
  rw [htr]
  have hb16 : (16 : ℕ) < 20 := by decide
  have h19 : (19 : ℕ) < 24 := by decide
  have h20 : (20 : ℕ) < 24 := by decide
  have h21 : (21 : ℕ) < 24 := by decide
  have e19 : rowF (4 * 4 + 3) = ⟨19, h19⟩ := rfl
  have e20 : rowF (4 * 4 + 4) = ⟨20, h20⟩ := rfl
  have e21 : rowF (4 * 4 + 5) = ⟨21, h21⟩ := rfl
  have e16 : blkF (4 * 4) = ⟨16, hb16⟩ := rfl
  rw [e19, e20, e21, e16]
  have hb17 : (17 : ℕ) < 20 := by decide
  have hb18 : (18 : ℕ) < 20 := by decide
  have hb19 : (19 : ℕ) < 20 := by decide
  ihave H := (Entails.of_eq (bigSep_from_pop (F := F) _ 17 hb17)) $$ Hneg; icases H with ⟨⟨%g17, Hb17⟩, Hneg⟩
  ihave H := (Entails.of_eq (bigSep_from_pop (F := F) _ 18 hb18)) $$ Hneg; icases H with ⟨⟨%g18, Hb18⟩, Hneg⟩
  ihave H := (Entails.of_eq (bigSep_from_pop (F := F) _ 19 hb19)) $$ Hneg; icases H with ⟨⟨%g19, Hb19⟩, Hneg⟩
  ihave Hb17 := (Entails.of_eq (pts_negOff2 (F := F) d L (k4_off2_neg L 2 17 rfl) (k4_off2_inb L 2) (negOff_inb2 L ⟨17, hb17⟩) _).symm) $$ Hb17
  ihave Hb18 := (Entails.of_eq (pts_negOff2 (F := F) d L (k4_off2_neg L 3 18 rfl) (k4_off2_inb L 3) (negOff_inb2 L ⟨18, hb18⟩) _).symm) $$ Hb18
  ihave Hb19 := (Entails.of_eq (pts_negOff2 (F := F) d L (k4_off2_neg L 4 19 rfl) (k4_off2_inb L 4) (negOff_inb2 L ⟨19, hb19⟩) _).symm) $$ Hb19
  sl_exec
  sl_step
  -- what the copy-outs carried: the gathered rows
  have hp17 : tile_body2.sl.dma0_6 d T1 IX L = gRows2 d IX L T1 (2 + 17) := rfl
  have hp18 : tile_body2.sl.dma0_7 d T1 IX L = gRows2 d IX L T1 (2 + 18) := rfl
  have hp19 : tile_body2.sl.dma0_8 d T1 IX L = gRows2 d IX L T1 (2 + 19) := rfl
  have hpC : tile_body2.sl.dma0_9 d T0 IX L fbC h0 hin0 = gRows2 d IX L T0 0 := by
    unfold tile_body2.sl.dma0_9 tile_body2.sl.gather0
    exact (writes_whole2 (F := F) d L cc4_scratch1 fbC _).trans (gather_val02 (F := F) d T0 IX L ⟨0, h0⟩ (rowInb ⟨0, h0⟩) gathers_S100000x128_S128x128 (by decide) hin0)
  have hpP : tile_body2.sl.dma0_10 d T1 IX L fbP h1 hin1 = gRows2 d IX L T1 1 := by
    unfold tile_body2.sl.dma0_10 tile_body2.sl.gather1
    exact (writes_whole2 (F := F) d L cc4_scratch2 fbP _).trans (gather_val12 (F := F) d T1 IX L ⟨1, h1⟩ (rowInb ⟨1, h1⟩) gathers_S100000x128_S128x128 (by decide) hin1)
  have h22 : (22 : ℕ) < 24 := by decide
  have h23 : (23 : ℕ) < 24 := by decide
  -- the third result's blocks, all twenty
  ihave Hb17 := (blk_done2 (F := F) d T1 IX L ⟨17, hb17⟩ _ (k4_off2_inb L 2) (k4_off2_neg L 2 17 rfl) g17 _ hp17) $$ Hb17
  ihave Hb18 := (blk_done2 (F := F) d T1 IX L ⟨18, hb18⟩ _ (k4_off2_inb L 3) (k4_off2_neg L 3 18 rfl) g18 _ hp18) $$ Hb18
  ihave Hb19 := (blk_done2 (F := F) d T1 IX L ⟨19, hb19⟩ _ (k4_off2_inb L 4) (k4_off2_neg L 4 19 rfl) g19 _ hp19) $$ Hb19
  ihave Hbd := (Entails.of_eq (bigSep_mid_push (F := F) (fun j : Fin 20 => (o2Loc2 d ↦[(negSl2 L j).view.set]{fullShare} gV2 d T1 IX : sProp 𝕄)) 0 16 hb16 (by omega)).symm) $$ [Hs15_dst Hbd]
  · isplitl [Hs15_dst]
    · iexact Hs15_dst
    iexact Hbd
  ihave Hbd := (Entails.of_eq (bigSep_mid_push (F := F) (fun j : Fin 20 => (o2Loc2 d ↦[(negSl2 L j).view.set]{fullShare} gV2 d T1 IX : sProp 𝕄)) 0 17 hb17 (by omega)).symm) $$ [Hb17 Hbd]
  · isplitl [Hb17] <;> iassumption
  ihave Hbd := (Entails.of_eq (bigSep_mid_push (F := F) (fun j : Fin 20 => (o2Loc2 d ↦[(negSl2 L j).view.set]{fullShare} gV2 d T1 IX : sProp 𝕄)) 0 18 hb18 (by omega)).symm) $$ [Hb18 Hbd]
  · isplitl [Hb18] <;> iassumption
  ihave Hbd := (Entails.of_eq (bigSep_mid_push (F := F) (fun j : Fin 20 => (o2Loc2 d ↦[(negSl2 L j).view.set]{fullShare} gV2 d T1 IX : sProp 𝕄)) 0 19 hb19 (by omega)).symm) $$ [Hb19 Hbd]
  · isplitl [Hb19] <;> iassumption
  ihave Hbd := (Entails.of_eq (bigSep_mid_all (F := F) (fun j : Fin 20 => (o2Loc2 d ↦[(negSl2 L j).view.set]{fullShare} gV2 d T1 IX : sProp 𝕄)))) $$ Hbd
  -- the index scratch, all twenty-four rows
  ihave R19 := (Entails.of_eq (pts_a8Row2 (F := F) d L ⟨19, h19⟩ _ _ rfl _)) $$ Hs12_dst_and
  ihave R20 := (Entails.of_eq (pts_a8Row2 (F := F) d L ⟨20, h20⟩ _ _ rfl _)) $$ Hs13_dst_and
  ihave R21 := (Entails.of_eq (pts_a8Row2 (F := F) d L ⟨21, h21⟩ _ _ rfl _)) $$ Hs14_dst_and
  ihave R0 := (Entails.of_eq (pts_a8Row2 (F := F) d L ⟨0, h0⟩ ![0, 0] (rowInb ⟨0, h0⟩) rfl _)) $$ Hw0
  ihave R1 := (Entails.of_eq (pts_a8Row2 (F := F) d L ⟨1, h1⟩ ![1, 0] (rowInb ⟨1, h1⟩) rfl _)) $$ Hw1
  ihave H := (Entails.of_eq (bigSep_from_pop (F := F) _ 22 h22)) $$ Hrows; icases H with ⟨R22, Hrows⟩
  ihave H := (Entails.of_eq (bigSep_from_pop (F := F) _ 23 h23)) $$ Hrows; icases H with ⟨R23, -⟩
  ihave Hdone := (Entails.of_eq (bigSep_mid_push (F := F) (fun k : Fin 24 => (a8Loc2 d L ↦[a8RowSet2 k]{fullShare} A8c2 d IX L : sProp 𝕄)) 2 19 h19 (by omega)).symm) $$ [R19 Hdone]
  · isplitl [R19]
    · iexact R19
    iexact Hdone
  ihave Hdone := (Entails.of_eq (bigSep_mid_push (F := F) (fun k : Fin 24 => (a8Loc2 d L ↦[a8RowSet2 k]{fullShare} A8c2 d IX L : sProp 𝕄)) 2 20 h20 (by omega)).symm) $$ [R20 Hdone]
  · isplitl [R20]
    · iexact R20
    iexact Hdone
  ihave Hdone := (Entails.of_eq (bigSep_mid_push (F := F) (fun k : Fin 24 => (a8Loc2 d L ↦[a8RowSet2 k]{fullShare} A8c2 d IX L : sProp 𝕄)) 2 21 h21 (by omega)).symm) $$ [R21 Hdone]
  · isplitl [R21]
    · iexact R21
    iexact Hdone
  ihave Hdone := (Entails.of_eq (bigSep_mid_push (F := F) (fun k : Fin 24 => (a8Loc2 d L ↦[a8RowSet2 k]{fullShare} A8c2 d IX L : sProp 𝕄)) 2 22 h22 (by omega)).symm) $$ [R22 Hdone]
  · isplitl [R22]
    · iexact R22
    iexact Hdone
  ihave Hdone := (Entails.of_eq (bigSep_mid_push (F := F) (fun k : Fin 24 => (a8Loc2 d L ↦[a8RowSet2 k]{fullShare} A8c2 d IX L : sProp 𝕄)) 2 23 h23 (by omega)).symm) $$ [R23 Hdone]
  · isplitl [R23]
    · iexact R23
    iexact Hdone
  ihave Hdone := (Entails.of_eq (bigSep_mid_top (F := F) (fun k : Fin 24 => (a8Loc2 d L ↦[a8RowSet2 k]{fullShare} A8c2 d IX L : sProp 𝕄)) 2)) $$ Hdone
  ihave Hdone := (Entails.of_eq (bigSep_from_pop (F := F) (fun k : Fin 24 => (a8Loc2 d L ↦[a8RowSet2 k]{fullShare} A8c2 d IX L : sProp 𝕄)) 1 h1).symm) $$ [R1 Hdone]
  · isplitl [R1]
    · iexact R1
    iexact Hdone
  ihave Hdone := (Entails.of_eq (bigSep_from_pop (F := F) (fun k : Fin 24 => (a8Loc2 d L ↦[a8RowSet2 k]{fullShare} A8c2 d IX L : sProp 𝕄)) 0 h0).symm) $$ [R0 Hdone]
  · isplitl [R0]
    · iexact R0
    iexact Hdone
  ihave Hdone := (Entails.of_eq (bigSep_from_zero (F := F) (fun k : Fin 24 => (a8Loc2 d L ↦[a8RowSet2 k]{fullShare} A8c2 d IX L : sProp 𝕄)))) $$ Hdone
  ihave Ha8 := (Entails.of_eq (a8_rows2 (F := F) d L (A8c2 d IX L)).symm) $$ Hdone
  -- what the tile hands back
  unfold tdResL2
  isplitl [Ht0 Hq8 Hq7 Hq6 Hq5 Hq4 Hq3 Hq2 Hq1 Hq0 Hix Ho0 Ho1 Hbd]
  · isplitl [Ht0]
    · iexact Ht0
    isplitl [Hq8 Hq7 Hq6 Hq5 Hq4 Hq3 Hq2 Hq1 Hq0]
    · iapply (toks8_join (F := F) (tblShare2 L) T1)
      isplitl [Hq8]
      · iexact Hq8
      isplitl [Hq7]
      · iexact Hq7
      isplitl [Hq6]
      · iexact Hq6
      isplitl [Hq5]
      · iexact Hq5
      isplitl [Hq4]
      · iexact Hq4
      isplitl [Hq3]
      · iexact Hq3
      isplitl [Hq2]
      · iexact Hq2
      isplitl [Hq1]
      · iexact Hq1
      iexact Hq0
    isplitl [Hix]
    · iexact Hix
    isplitl [Ho0]
    · iapply (Entails.of_eq (pointsTo_congr (block_val02 (F := F) d T0 IX L f0 _ hpC)))
      iexact Ho0
    isplitl [Ho1]
    · iapply (Entails.of_eq (pointsTo_congr (block_val12 (F := F) d T1 IX L f1 _ hpP)))
      iexact Ho1
    iexact Hbd
  isplitl [Ha8 HbC HbP Hr0 Hs12_dst Hs13_dst Hs14_dst Hbufs]
  · isplitr [Hbufs]
    · isplitl [Ha8]
      · iexists _; iexact Ha8
      isplitl [HbC]
      · iexists _; iexact HbC
      isplitl [HbP]
      · iexists _; iexact HbP
      isplitl [Hr0]
      · iexists _; iexact Hr0
      isplitl [Hs12_dst]
      · iexists _; iexact Hs12_dst
      isplitl [Hs13_dst]
      · iexists _; iexact Hs13_dst
      iexists _; iexact Hs14_dst
    iexact Hbufs
  isplitr [HO]
  · isplitr [Hsems]
    · isplitl [Hs0]
      · iexact Hs0
      isplitl [Hs7]
      · iexact Hs7
      isplitl [Hs8]
      · iexact Hs8
      isplitl [Hs9]
      · iexact Hs9
      isplitl [Hs10]
      · iexact Hs10
      isplitl [Hs11]
      · iexact Hs11
      isplitl [Hs12]
      · iexact Hs12
      isplitl [Hs13]
      · iexact Hs13
      isplitl [Hs14]
      · iexact Hs14
      isplitl [Hs15]
      · iexact Hs15
      isplitl [Hs16]
      · iexact Hs16
      isplitl [Hs17]
      · iexact Hs17
      iexact Hs18
    iexact Hsems
  iexists _; isplitr
  swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

end Body

/-! ## The launch theorem's obligation -/

theorem defs₀_vector2 (c : Fin τ.nSC) (s : Fin τ.nSub) :
    defs₀ (F := F) (.scVector c s) 4 ()
      = SparseCore.onTile hcore4 hsub4 (fun c s => cc4__sc_gather (coordsV2 c s)
          t0V (Memref.isWhole_whole _) t1V (Memref.isWhole_whole _) ixV2 (Memref.isWhole_whole _) o0V2 (Memref.isWhole_whole _) o1V2 (Memref.isWhole_whole _) o2V2 (Memref.isWhole_whole _)
            a82 (Memref.isWhole_whole _) bC2 (Memref.isWhole_whole _) bP2 (Memref.isWhole_whole _) rb02 (Memref.isWhole_whole _) rb12 (Memref.isWhole_whole _) rb22 (Memref.isWhole_whole _) rb32 (Memref.isWhole_whole _)
            cc4_scratch7 cc4_scratch8 cc4_scratch9 cc4_scratch10 cc4_scratch11 cc4_scratch12 cc4_scratch13 cc4_scratch14 cc4_scratch15 cc4_scratch16 cc4_scratch17 cc4_scratch18 cc4_scoped0) ⟨⟩ c s := rfl

/-- `TileObl` at call 2, for any payload record whose call-0 fields are the tile's resources above, nothing
    extra held per thread and nothing owed for a protocol of the kernel's own. -/
theorem tileObl2 (hF : (K (F := F)).Facts)
    (T0 : (d : Dev nD) → Buf (Elt F) (t0Loc d)) (T1 : (d : Dev nD) → Buf (Elt F) (t1Loc d)) (IX : (d : Dev nD) → Buf (Elt F) (ixLoc2 d))
    (hIX : ∀ d, IXOK2 d (IX d))
    (P : (K (F := F)).Pay (nD := nD) (Val := Elt F) (Name := ℕ) (U := UU))
    (hgo : ∀ d c i, P.go 2 d c i = goRes2 d (T0 d) (T1 d) (IX d) c i)
    (htd : ∀ d c i, P.td 2 d c i = tdRes2 d (T0 d) (T1 d) (IX d) c i)
    (hx : ∀ thr, P.x 2 thr = iprop(emp))
    (hox : ∀ thr, P.ox 2 thr = 0) :
    (K (F := F)).TileObl (D (F := F)) 𝒱 P v₀ 2 := by
  intro d c i O W hO _ _
  rw [hox, add_zero, hx, hgo, htd]
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  have hc : ((K (F := F)).core 2 c).val < grid4.bound 0 ∧ ((K (F := F)).sub 2 i).val < grid4.bound 1 := ⟨c.isLt, i.isLt⟩
  rw [defs₀_vector2]; simp only [SparseCore.onTile, hc, and_self, ↓reduceDIte]
  exact (tile_body2 d (T0 d) (T1 d) (IX d) hF (hIX d) (coordsV2 ⟨_, hc.1⟩ ⟨_, hc.2⟩) O W hO).trans (wp_mono frame _ _ fun _ => obl_post)

end Cert.Proof.KB

end
-- ==== Proof.KB_TileOwn_c3.lean ====
/-
  A vector subcore's own storage at call 3: its thread, the seven scratch buffers and thirteen DMA semaphores of
  the gather kernel, taken out of the tile's scoped buffers and scoped semaphores.
-/
import proofs.«215899_g5772436046013_cont_9to1c4b_742_31_alg».proof.Proof.KB_TileRes
import proofs.«215899_g5772436046013_cont_9to1c4b_742_31_alg».proof.Proof.KB_TileRes_c3
import proofs.«215899_g5772436046013_cont_9to1c4b_742_31_alg».proof.Proof.KB_TileOwn

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## The tile's thread, its scratch buffers and its semaphores -/

abbrev thrV3 (d : Dev nD) (L : grid6.Coords) : Thread nD τ := V d (cV3 L) (jV3 L)

abbrev a83 : Memref sig .scVector .vmem S24x128 .i32 := Memref.whole cc6_scratch0
abbrev bC3 : Memref sig .scVector .vmem S128x128 .f32 := Memref.whole cc6_scratch1
abbrev bP3 : Memref sig .scVector .vmem S128x128 .f32 := Memref.whole cc6_scratch2
abbrev rb03 : Memref sig .scVector .vmem S128x128 .f32 := Memref.whole cc6_scratch3
abbrev rb13 : Memref sig .scVector .vmem S128x128 .f32 := Memref.whole cc6_scratch4
abbrev rb23 : Memref sig .scVector .vmem S128x128 .f32 := Memref.whole cc6_scratch5
abbrev rb33 : Memref sig .scVector .vmem S128x128 .f32 := Memref.whole cc6_scratch6

/-- The kernel's thirteen DMA semaphores. -/
def tileSems3 : Finset (DmaSem sig) := {cc6_scoped0.sem, cc6_scratch7.sem, cc6_scratch8.sem, cc6_scratch9.sem, cc6_scratch10.sem, cc6_scratch11.sem, cc6_scratch12.sem, cc6_scratch13.sem, cc6_scratch14.sem, cc6_scratch15.sem, cc6_scratch16.sem, cc6_scratch17.sem, cc6_scratch18.sem}
/-- The kernel's seven scratch buffers. -/
def tileRefs3 : Finset (Ref sig .scVector) := {cc6_scratch0, cc6_scratch1, cc6_scratch2, cc6_scratch3, cc6_scratch4, cc6_scratch5, cc6_scratch6}

omit [FloatOps F] in
theorem tileSems_sub3 (d : Dev nD) (L : grid6.Coords) : tileSems3.map (cellEmb (thrV3 d L)) ⊆ ownCells (thrV3 d L) := by
  intro g hg
  obtain ⟨s, hs, rfl⟩ := Finset.mem_map.mp hg
  refine mem_ownCells.mpr ⟨rfl, ?_⟩
  show sig.isScopedDmaSem .scVector s = true
  clear hg
  revert s; decide +revert

omit [FloatOps F] in
theorem ownSems0_V3 (d : Dev nD) (L : grid6.Coords) :
    (ownSems0 (thrV3 d L) : sProp 𝕄)
      = iprop((semVal (thrV3 d L, SemLoc.dma cc6_scoped0.sem) 0
          ∗ semVal (thrV3 d L, SemLoc.dma cc6_scratch7.sem) 0
          ∗ semVal (thrV3 d L, SemLoc.dma cc6_scratch8.sem) 0
          ∗ semVal (thrV3 d L, SemLoc.dma cc6_scratch9.sem) 0
          ∗ semVal (thrV3 d L, SemLoc.dma cc6_scratch10.sem) 0
          ∗ semVal (thrV3 d L, SemLoc.dma cc6_scratch11.sem) 0
          ∗ semVal (thrV3 d L, SemLoc.dma cc6_scratch12.sem) 0
          ∗ semVal (thrV3 d L, SemLoc.dma cc6_scratch13.sem) 0
          ∗ semVal (thrV3 d L, SemLoc.dma cc6_scratch14.sem) 0
          ∗ semVal (thrV3 d L, SemLoc.dma cc6_scratch15.sem) 0
          ∗ semVal (thrV3 d L, SemLoc.dma cc6_scratch16.sem) 0
          ∗ semVal (thrV3 d L, SemLoc.dma cc6_scratch17.sem) 0
          ∗ semVal (thrV3 d L, SemLoc.dma cc6_scratch18.sem) 0)
          ∗ bigSep (ownCells (thrV3 d L) \ tileSems3.map (cellEmb (thrV3 d L))) fun g => semVal g 0) := by
  unfold SparseCore.Cfg.ownSems0
  rw [SparseCore.bigSep_sdiff_split' (tileSems_sub3 d L), BI.bigSep_map]
  unfold tileSems3
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton]
  rfl

omit [FloatOps F] in
theorem tileRefs_sub3 (L : grid6.Coords) :
    tileRefs3.map (refEmb (Proc.scVector (cV3 L) (jV3 L))) ⊆ ownRefs (τ := τ) (sig := sig) (Proc.scVector (cV3 L) (jV3 L)) := by
  intro b hb
  obtain ⟨r, hr, rfl⟩ := Finset.mem_map.mp hb
  simp only [tileRefs3, Finset.mem_insert, Finset.mem_singleton] at hr
  rcases hr with rfl | rfl | rfl | rfl | rfl | rfl | rfl <;> exact SparseCore.Cfg.mem_ownRefs_of_owner rfl

omit [FloatOps F] in
theorem ownBufs_V3 (d : Dev nD) (L : grid6.Coords) :
    (ownBufs (thrV3 d L) : sProp 𝕄)
      = iprop(((∃ f, (thrV3 d L).loc cc6_scratch0 ↦{fullShare} f)
          ∗ (∃ f, (thrV3 d L).loc cc6_scratch1 ↦{fullShare} f)
          ∗ (∃ f, (thrV3 d L).loc cc6_scratch2 ↦{fullShare} f)
          ∗ (∃ f, (thrV3 d L).loc cc6_scratch3 ↦{fullShare} f)
          ∗ (∃ f, (thrV3 d L).loc cc6_scratch4 ↦{fullShare} f)
          ∗ (∃ f, (thrV3 d L).loc cc6_scratch5 ↦{fullShare} f)
          ∗ (∃ f, (thrV3 d L).loc cc6_scratch6 ↦{fullShare} f))
          ∗ bigSep (ownRefs (τ := τ) (Proc.scVector (cV3 L) (jV3 L)) \ tileRefs3.map (refEmb (Proc.scVector (cV3 L) (jV3 L))))
              fun b => iprop(∃ f, ((d, b) : Loc nD τ sig) ↦{fullShare} f)) := by
  unfold SparseCore.Cfg.ownBufs
  rw [SparseCore.bigSep_sdiff_split' (tileRefs_sub3 L), BI.bigSep_map]
  unfold tileRefs3
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton]
  rfl

end Cert.Proof.KB

end
-- ==== Proof.KB_TileGeom_c3.lean ====
/-
  Geometry and bookkeeping for the gather kernel's run on one vector subcore: families over a segment of `Fin N`,
  the call's arrays as a tile's memrefs address them, a table's read shares one per DMA semaphore, and the index
  scratch row by row (the offset lists of the indirect gathers).
-/
import proofs.«215899_g5772436046013_cont_9to1c4b_742_31_alg».proof.Proof.KB_TileOwn
import proofs.«215899_g5772436046013_cont_9to1c4b_742_31_alg».proof.Proof.KB_TileOwn_c3
import proofs.«215899_g5772436046013_cont_9to1c4b_742_31_alg».proof.Proof.KB_TileGeom

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## Families over an initial or a final segment of `Fin N` -/

section Segments

end Segments

/-! ## The arrays as the tile's memrefs address them -/

section Pts

variable (d : Dev nD) (L : grid6.Coords)

theorem pts_t03 (q : PosShare TreeShare) (f : Buf (Elt F) (t0Loc d)) :
    ((t0V).view.loc (thrV3 d L) ↦{q} f : sProp 𝕄) = (t0Loc d ↦{q} f) := rfl
theorem pts_t13 (q : PosShare TreeShare) (f : Buf (Elt F) (t1Loc d)) :
    ((t1V).view.loc (thrV3 d L) ↦{q} f : sProp 𝕄) = (t1Loc d ↦{q} f) := rfl
theorem pts_ix3 (f : Buf (Elt F) (ixLoc3 d)) :
    ((ixSl3 L).view.loc (thrV3 d L) ↦[(ixSl3 L).view.set]{fullShare} f : sProp 𝕄) = (ixLoc3 d ↦[(ixSl3 L).view.set]{fullShare} f) := rfl
theorem pts_o03 (f : Buf (Elt F) (o0Loc3 d)) :
    ((o0Sl3 L).view.loc (thrV3 d L) ↦[(o0Sl3 L).view.set]{fullShare} f : sProp 𝕄) = (o0Loc3 d ↦[(o0Sl3 L).view.set]{fullShare} f) := rfl
theorem pts_o13 (f : Buf (Elt F) (o1Loc3 d)) :
    ((o1Sl3 L).view.loc (thrV3 d L) ↦[(o1Sl3 L).view.set]{fullShare} f : sProp 𝕄) = (o1Loc3 d ↦[(o1Sl3 L).view.set]{fullShare} f) := rfl
theorem pts_scr3 (b : Ref sig .scVector) (f : Buf (Elt F) ((thrV3 d L).loc b)) :
    ((Memref.whole b : Memref sig .scVector _ _ _).view.loc (thrV3 d L) ↦{fullShare} f : sProp 𝕄) = ((thrV3 d L).loc b ↦{fullShare} f) := rfl

/-! ### The table's read shares, one per DMA semaphore number -/

end Pts

/-! ## The index scratch row by row -/

section Rows

abbrev a8RowSet3 (k : Fin 24) : Finset S24x128.Idx := ((a83 : Memref sig .scVector .vmem S24x128 .i32).view.slice (a8Part k)).set

theorem a8RowSet_eq3 (k : Fin 24) : a8RowSet3 k = (a8Part k).set := by
  show ((View.whole (cc6_scratch0 : Ref sig .scVector)).slice (a8Part k)).set = _
  rw [View.set_slice]; exact Finset.map_refl
theorem a8rows_disjoint3 : ∀ i ∈ (Finset.univ : Finset (Fin 24)), ∀ j ∈ (Finset.univ : Finset (Fin 24)), i ≠ j → Disjoint (a8RowSet3 i) (a8RowSet3 j) :=
  fun i _ j _ h => by rw [a8RowSet_eq3, a8RowSet_eq3]; exact Rect.part_disjoint hdiv24 h
theorem a8rows_cover3 : (Finset.univ : Finset (Fin 24)).biUnion a8RowSet3 = Finset.univ :=
  (Finset.biUnion_congr rfl fun i _ => a8RowSet_eq3 i).trans (Rect.biUnion_part hdiv24)

end Rows

section Rows2

variable (d : Dev nD) (L : grid6.Coords)

abbrev a8Loc3 : Loc nD τ sig := (thrV3 d L).loc cc6_scratch0

/-- The index scratch whole is its 24 rows. -/
theorem a8_rows3 (f : Buf (Elt F) (a8Loc3 d L)) :
    (a8Loc3 d L ↦{fullShare} f : sProp 𝕄) = bigSep Finset.univ fun k : Fin 24 => a8Loc3 d L ↦[a8RowSet3 k]{fullShare} f := by
  rw [← pointsTo_biUnion Finset.univ (ℓ := a8Loc3 d L) a8RowSet3 a8rows_disjoint3, a8rows_cover3]; try rfl

/-- A row of the index scratch as the program takes it: a one-row slice, squeezed to a list of 128 words. -/
abbrev a8Row3 (off : Fin 2 → ℕ) (h : ∀ a, off a + S1x128.size a ≤ S24x128.size a) : Memref sig .scVector .vmem S128 .i32 :=
  ((a83).slice (Rect.unit (s := S24x128) off S1x128.size h) (fun _ => rfl)).squeeze S128 squeezes_S1x128_S128

theorem a8Row_set3 (k : Fin 24) (off : Fin 2 → ℕ) (h : ∀ a, off a + S1x128.size a ≤ S24x128.size a) (hoff : off = ![k.val, 0]) :
    (a8Row3 off h).view.set = a8RowSet3 k := by
  show (((a83 : Memref sig .scVector .vmem S24x128 .i32).view.slice (Rect.unit (s := S24x128) off S1x128.size h)).reshape S128 squeezes_S1x128_S128.numel_eq).set
    = ((a83 : Memref sig .scVector .vmem S24x128 .i32).view.slice (a8Part k)).set
  rw [View.set_reshape]
  exact (a8Row_rect k off h hoff) ▸ rfl

theorem pts_a8Row3 (k : Fin 24) (off : Fin 2 → ℕ) (h : ∀ a, off a + S1x128.size a ≤ S24x128.size a) (hoff : off = ![k.val, 0])
    (f : Buf (Elt F) (a8Loc3 d L)) :
    ((a8Row3 off h).view.loc (thrV3 d L) ↦[(a8Row3 off h).view.set]{fullShare} f : sProp 𝕄) = (a8Loc3 d L ↦[a8RowSet3 k]{fullShare} f) := by
  rw [a8Row_set3 k off h hoff]

end Rows2

end Cert.Proof.KB

end
-- ==== Proof.KB_TileInv_c3.lean ====
/-
  The gather kernel's ring at the head of a trip: what the index scratch holds, the offset lists' range, the rows a
  gather lands, the transfers in flight as the run holds them, and the loop's invariant.
-/
import proofs.«215899_g5772436046013_cont_9to1c4b_742_31_alg».proof.Proof.KB_TileGeom
import proofs.«215899_g5772436046013_cont_9to1c4b_742_31_alg».proof.Proof.KB_TileGeom_c3
import proofs.«215899_g5772436046013_cont_9to1c4b_742_31_alg».proof.Proof.KB_TileInv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## The index scratch's contents and the offset lists' range -/

/-- What the index scratch holds once the tile's rows of the index array have landed. -/
def A8c3 (d : Dev nD) (IX : Buf (Elt F) (ixLoc3 d)) (L : grid6.Coords) : Buf (Elt F) (a8Loc3 d L) :=
  show S24x128.Idx → Elt F .i32 from (ixSl3 L).view.read (Elt F) IX

theorem a8Row_emb03 (k : Fin 24) (h : ∀ a, (![k.val, 0] : Fin 2 → ℕ) a + S1x128.size a ≤ S24x128.size a) (x : S128.Idx) :
    ((a8Row3 ![k.val, 0] h).view.emb x 0).val = k.val := by
  have key : ∀ j : S1x128.Idx, ((Rect.unit (s := S24x128) ![k.val, 0] S1x128.size h).emb j 0).val = k.val := by
    intro j
    have hj : (j 0).val < 1 := (j 0).isLt
    rw [Rect.emb_apply]
    show k.val + 1 * (j 0).val = k.val
    omega
  exact key _

/-- Every offset list the kernel gathers by holds row numbers of the tables. -/
theorem hin_rows3 (d : Dev nD) (IX : Buf (Elt F) (ixLoc3 d)) (L : grid6.Coords) (hIX : IXOK3 d IX) (k : Fin 24) (off : Fin 2 → ℕ)
    (h : ∀ a, off a + S1x128.size a ≤ S24x128.size a) (hoff : off = ![k.val, 0]) (hk : k.val < 22) (x : S128.Idx) :
    (View.read (Elt F) (a8Row3 off h).view (A8c3 d IX L) x).toNat < 100000 := by
  subst hoff
  exact hIX L ((a8Row3 ![k.val, 0] h).view.emb x) (by rw [a8Row_emb03]; exact hk)

theorem a8Row_congr3 {off off' : Fin 2 → ℕ} (e : off = off') (h : ∀ a, off a + S1x128.size a ≤ S24x128.size a)
    (h' : ∀ a, off' a + S1x128.size a ≤ S24x128.size a) : a8Row3 off h = a8Row3 off' h' := by
  subst e; rfl

/-! ## The third result's blocks in the program's spellings -/

/-- A block of the third result held through a slice at `off` is held through the slice at an equal offset. -/
theorem pts_negOff3 (d : Dev nD) (L : grid6.Coords) {off off' : Fin 2 → ℕ} (e : off = off')
    (h : ∀ a, off a + S128x128.size a ≤ S81920x128.size a) (h' : ∀ a, off' a + S128x128.size a ≤ S81920x128.size a)
    (f : Buf (Elt F) (o2Loc3 d)) :
    (View.loc (thrV3 d L) ((o2V3).slice (Rect.unit (s := S81920x128) off S128x128.size h) (fun _ => rfl)).view
        ↦[((o2V3).slice (Rect.unit (s := S81920x128) off S128x128.size h) (fun _ => rfl)).view.set]{fullShare} f : sProp 𝕄)
      = (View.loc (thrV3 d L) ((o2V3).slice (Rect.unit (s := S81920x128) off' S128x128.size h') (fun _ => rfl)).view
        ↦[((o2V3).slice (Rect.unit (s := S81920x128) off' S128x128.size h') (fun _ => rfl)).view.set]{fullShare} f) := by
  subst e; rfl

theorem k6_off2_neg (L : grid6.Coords) (r : Fin 5) (j : ℕ) (hj : (k6_off2_at r).toNat = 4096 * j) :
    k6_off2 L (k6_off2_at r) = negOff3 L j := by
  rw [k6_off2_wid, hj]; rfl

/-! ## The gathered rows, and the transfers in flight -/

section Inv

variable (d : Dev nD) (T0 : Buf (Elt F) (t0Loc d)) (T1 : Buf (Elt F) (t1Loc d)) (IX : Buf (Elt F) (ixLoc3 d)) (L : grid6.Coords)

/-- The 128 rows a table yields for row `k` of the tile's index rows: row `r` is the table's row `IX[24 * wid3 + k, r]`. -/
def gRows3 (Tb : S100000x128.Idx → Elt F .f32) (k : ℕ) : S128x128.Idx → Elt F .f32 :=
  fun x => tblAt (F := F) Tb (ixWord d IX (wid3 L) k (x 0).val) (x 1)

/-- A gather in flight on the DMA semaphore `cell`, reading the second table by read token `tok` through row `row`
    of the index scratch into the scratch buffer `buf`: it delivers the buffer at `cont`, the row and the token. -/
def gFl3 (cell : DmaSem sig) (tok : ℕ) (buf : Ref sig .scVector) (row : Fin 24) (cont : Buf (Elt F) ((thrV3 d L).loc buf)) : sProp 𝕄 :=
  Transfers.Flight countersEmb (thrV3 d L) (SemLoc.dma cell) (default : HIx 4) 524288
    iprop(((View.loc (thrV3 d L) (Memref.whole buf).view ↦{fullShare} cont)
        ∗ View.loc (thrV3 d L) (a8Row3 ![row.val, 0] (rowInb row)).view ↦[(a8Row3 ![row.val, 0] (rowInb row)).view.set]{fullShare} A8c3 d IX L)
      ∗ View.loc (thrV3 d L) (t1V).view ↦[(t1Sl).view.set]{Transfers.shareTokN (tblShare3 L) tok} T1)

/-- A copy-out in flight on the DMA semaphore `cell`, from the scratch buffer `buf` to draw `j`'s block of the third
    result: it delivers the block at `bcont` and the buffer's elements at `cont`. -/
def wFl3 (cell : DmaSem sig) (buf : Ref sig .scVector) (j : Fin 20) (bcont : Buf (Elt F) (o2Loc3 d)) (cont : Buf (Elt F) ((thrV3 d L).loc buf)) : sProp 𝕄 :=
  Transfers.Flight countersEmb (thrV3 d L) (SemLoc.dma cell) (default : HIx 4) 524288
    iprop((View.loc (thrV3 d L) (negSl3 L j).view ↦[(negSl3 L j).view.set]{fullShare} bcont)
      ∗ View.loc (thrV3 d L) (Memref.whole buf).view ↦[(Memref.whole buf : Memref sig .scVector _ _ _).view.set]{fullShare} cont)

variable (O : CellTallies nD τ sig (HIx 4)) (W : Waits sig (HIx 4))

/-- The ring at the head of trip `t`: draws `4t+1, 4t+2, 4t+3` being gathered into ring buffers 1, 2, 3, draw `4t` on
    its way out of ring buffer 0; ring semaphore 4 and the copy-out semaphores 9, 10, 11 at rest with read token 4;
    the index rows before `4t+3` and from `4t+6` on at rest; the blocks before `4t` written, those after `4t` not yet. -/
def inv3 (t : ℕ) (_ : PUnit) : sProp 𝕄 :=
  iprop(Transfers.MayWaits (thrV3 d L) (none : HIx 4) O
    ∗ gFl3 d T1 IX L ⟨68, by decide⟩ 5 cc6_scratch4 (rowF (4 * t + 3)) (gRows3 d IX L T1 (4 * t + 3))
    ∗ (View.loc (thrV3 d L) (t1V).view ↦[Finset.univ \ (t1Sl).view.set]{Transfers.shareTokN (tblShare3 L) 5} T1)
    ∗ gFl3 d T1 IX L ⟨69, by decide⟩ 6 cc6_scratch5 (rowF (4 * t + 4)) (gRows3 d IX L T1 (4 * t + 4))
    ∗ (View.loc (thrV3 d L) (t1V).view ↦[Finset.univ \ (t1Sl).view.set]{Transfers.shareTokN (tblShare3 L) 6} T1)
    ∗ gFl3 d T1 IX L ⟨70, by decide⟩ 7 cc6_scratch6 (rowF (4 * t + 5)) (gRows3 d IX L T1 (4 * t + 5))
    ∗ (View.loc (thrV3 d L) (t1V).view ↦[Finset.univ \ (t1Sl).view.set]{Transfers.shareTokN (tblShare3 L) 7} T1)
    ∗ wFl3 d L ⟨71, by decide⟩ cc6_scratch3 (blkF (4 * t)) (gV2 d T1 IX) (gRows3 d IX L T1 (4 * t + 2))
    ∗ (View.loc (thrV3 d L) (Memref.whole cc6_scratch3).view ↦[Finset.univ \ (rb03).view.set]{fullShare} gRows3 d IX L T1 (4 * t + 2))
    ∗ (View.loc (thrV3 d L) (t1V).view ↦{Transfers.shareTokN (tblShare3 L) 4} T1)
    ∗ semVal (thrV3 d L, SemLoc.dma ⟨67, by decide⟩) 0
    ∗ semVal (thrV3 d L, SemLoc.dma ⟨72, by decide⟩) 0
    ∗ semVal (thrV3 d L, SemLoc.dma ⟨73, by decide⟩) 0
    ∗ semVal (thrV3 d L, SemLoc.dma ⟨74, by decide⟩) 0
    ∗ (bigSep (Finset.univ.filter fun k : Fin 24 => 2 ≤ k.val ∧ k.val < 4 * t + 3) fun k => a8Loc3 d L ↦[a8RowSet3 k]{fullShare} A8c3 d IX L)
    ∗ (bigSep (Finset.univ.filter fun k : Fin 24 => 4 * t + 6 ≤ k.val) fun k => a8Loc3 d L ↦[a8RowSet3 k]{fullShare} A8c3 d IX L)
    ∗ (bigSep (Finset.univ.filter fun j : Fin 20 => 0 ≤ j.val ∧ j.val < 4 * t) fun j => o2Loc3 d ↦[(negSl3 L j).view.set]{fullShare} gV2 d T1 IX)
    ∗ (bigSep (Finset.univ.filter fun j : Fin 20 => 4 * t + 1 ≤ j.val) fun j => iprop(∃ f, o2Loc3 d ↦[(negSl3 L j).view.set]{fullShare} f))
    ∗ ∃ W', ⌜∀ p ∈ W', p ∈ W ∨ p.2 = none⌝ ∗ owes (thrV3 d L) O W')

end Inv

end Cert.Proof.KB

end
-- ==== Proof.KB_TileVal_c3.lean ====
/-
  The values the gather kernel moves: what an indirect gather by a row of the index scratch lands in a buffer, and
  what a copy-out of those rows leaves in the results' blocks — the whole-array value functions there.
-/
import proofs.«215899_g5772436046013_cont_9to1c4b_742_31_alg».proof.Proof.KB_TileInv
import proofs.«215899_g5772436046013_cont_9to1c4b_742_31_alg».proof.Proof.KB_TileInv_c3
import proofs.«215899_g5772436046013_cont_9to1c4b_742_31_alg».proof.Proof.KB_TileVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

variable (d : Dev nD) (T0 : Buf (Elt F) (t0Loc d)) (T1 : Buf (Elt F) (t1Loc d)) (IX : Buf (Elt F) (ixLoc3 d)) (L : grid6.Coords)

/-! ## Index arithmetic of the program's views -/

/-- A write of a whole buffer leaves the written values. -/
theorem writes_whole3 (buf : Ref sig .scVector) (f w : Buf (Elt F) ((thrV3 d L).loc buf)) :
    (Memref.whole buf : Memref sig .scVector _ _ _).view.writes (Elt F) f [⟨Rect.whole buf.ty.shape, w⟩] = w := by
  funext i
  exact writes_whole_emb (View.whole buf) f w i

/-- Where an entry of row `k` of the index scratch sits: column `y`. -/
theorem a8Row_emb13 (k : Fin 24) (h : ∀ a, (![k.val, 0] : Fin 2 → ℕ) a + S1x128.size a ≤ S24x128.size a) (y : S128.Idx) :
    ((a8Row3 ![k.val, 0] h).view.emb y 1).val = (y 0).val := by
  have hz : Shape.reshapeEquiv (s := S1x128) (s' := S128) squeezes_S1x128_S128.numel_eq y = Fin.cons ⟨0, Nat.one_pos⟩ y :=
    Shape.reshapeEquiv_cons_one _ y
  show ((Rect.unit (s := S24x128) ![k.val, 0] S1x128.size h).emb
    (Shape.reshapeEquiv (s := S1x128) (s' := S128) squeezes_S1x128_S128.numel_eq y) 1).val = _
  rw [hz, Rect.emb_apply]
  show 0 + 1 * (y 0).val = (y 0).val
  omega

/-- The word an offset list's entry holds: the index array's word at the tile's row `k`, the entry's column. -/
theorem a8_word3 (k : Fin 24) (h : ∀ a, (![k.val, 0] : Fin 2 → ℕ) a + S1x128.size a ≤ S24x128.size a) (y : S128.Idx) :
    (View.read (Elt F) (a8Row3 ![k.val, 0] h).view (A8c3 d IX L) y).toNat = ixWord d IX (wid3 L) k.val (y 0).val := by
  have hk := k.isLt
  have hy : (y 0).val < 128 := (y 0).isLt
  have hw32 := wid_lt3 L
  have hc : 24 * wid3 L + k.val < 768 ∧ (y 0).val < 128 := ⟨by omega, hy⟩
  unfold ixWord
  rw [dif_pos hc, View.read_apply, cast_eq]
  unfold A8c3
  rw [View.read_apply, cast_eq]
  refine congrArg (fun z => BitVec.toNat (IX z)) ?_
  funext a; apply Fin.ext
  show ((ixRect3 L).emb ((a8Row3 ![k.val, 0] h).view.emb y) a).val = _
  rw [Rect.emb_apply]
  show k6_off1 L a + 1 * ((a8Row3 ![k.val, 0] h).view.emb y a).val = _
  rw [k6_off1_wid]
  match a with
  | 0 => rw [a8Row_emb03]; show 24 * wid3 L + 1 * k.val = 24 * wid3 L + k.val; omega
  | 1 => rw [a8Row_emb13]; show 0 + 1 * (y 0).val = (y 0).val; omega

/-- What a gather by row `k` of the index scratch lands: the table's rows the tile's index row `k` names. -/
theorem gather_val13 (k : Fin 24) (h : ∀ a, (![k.val, 0] : Fin 2 → ℕ) a + S1x128.size a ≤ S24x128.size a)
    (hg : S100000x128.Gathers 0 S128x128) (hn : S128.numel = S128x128.size hg.axis')
    (hin : ∀ x, (View.read (Elt F) (a8Row3 ![k.val, 0] h).view (A8c3 d IX L) x).toNat < S100000x128.size hg.axis) :
    SparseCore.gatherPayload hg (View.read (Elt F) (t1Sl).view T1) (SparseCore.rows (View.read (Elt F) (a8Row3 ![k.val, 0] h).view (A8c3 d IX L)) hn hin)
      = gRows3 d IX L T1 k.val := by
  funext x
  have ha : hg.axis = (0 : Fin S100000x128.rank) := Fin.ext rfl
  have ha' : hg.axis' = (0 : Fin S128x128.rank) := Fin.ext rfl
  -- the row the entry names
  have hr : ((SparseCore.rows (View.read (Elt F) (a8Row3 ![k.val, 0] h).view (A8c3 d IX L)) hn hin) (x hg.axis')).val
      = ixWord d IX (wid3 L) k.val (x 0).val := by
    unfold SparseCore.rows
    show (View.read (Elt F) (a8Row3 ![k.val, 0] h).view (A8c3 d IX L) (S128.rowMajor.symm ((x hg.axis').cast hn.symm))).toNat = _
    rw [a8_word3]
    congr 1
    have e := Shape.rowMajor_val_one (d := ![128]) (S128.rowMajor.symm ((x hg.axis').cast hn.symm))
    rw [Equiv.apply_symm_apply] at e
    rw [← e]
    exact congrArg (fun i => (x i).val) ha'
  have hlt : ixWord d IX (wid3 L) k.val (x 0).val < 100000 := hr ▸ (SparseCore.rows _ hn hin (x hg.axis')).isLt
  unfold SparseCore.gatherPayload gRows3 tblAt
  rw [View.read_apply, cast_eq, dif_pos hlt]
  refine congrArg T1 ?_
  funext a; apply Fin.ext
  show ((Rect.unit (s := S100000x128) ![0, 0] S100000x128.size inb_S100000x128_S100000x128_0_0).emb (hg.idx _ x) a).val = _
  rw [Rect.emb_apply]
  match a with
  | 0 =>
    show 0 + 1 * (hg.idx _ x 0).val = ixWord d IX (wid3 L) k.val (x 0).val
    have h0 : (hg.idx (SparseCore.rows (View.read (Elt F) (a8Row3 ![k.val, 0] h).view (A8c3 d IX L)) hn hin) x 0).val
        = (hg.idx (SparseCore.rows (View.read (Elt F) (a8Row3 ![k.val, 0] h).view (A8c3 d IX L)) hn hin) x hg.axis).val :=
      congrArg (fun i => (hg.idx (SparseCore.rows (View.read (Elt F) (a8Row3 ![k.val, 0] h).view (A8c3 d IX L)) hn hin) x i).val) ha.symm
    rw [h0, Shape.Gathers.idx_axis, hr]; omega
  | 1 =>
    show 0 + 1 * (hg.idx _ x 1).val = (x 1).val
    rw [Shape.Gathers.idx_of_ne hg _ x 1 (by decide)]
    show 0 + 1 * (x 1).val = (x 1).val
    omega

theorem gather_val03 (k : Fin 24) (h : ∀ a, (![k.val, 0] : Fin 2 → ℕ) a + S1x128.size a ≤ S24x128.size a)
    (hg : S100000x128.Gathers 0 S128x128) (hn : S128.numel = S128x128.size hg.axis')
    (hin : ∀ x, (View.read (Elt F) (a8Row3 ![k.val, 0] h).view (A8c3 d IX L) x).toNat < S100000x128.size hg.axis) :
    SparseCore.gatherPayload hg (View.read (Elt F) (t0Sl).view T0) (SparseCore.rows (View.read (Elt F) (a8Row3 ![k.val, 0] h).view (A8c3 d IX L)) hn hin)
      = gRows3 d IX L T0 k.val := by
  funext x
  have ha : hg.axis = (0 : Fin S100000x128.rank) := Fin.ext rfl
  have ha' : hg.axis' = (0 : Fin S128x128.rank) := Fin.ext rfl
  -- the row the entry names
  have hr : ((SparseCore.rows (View.read (Elt F) (a8Row3 ![k.val, 0] h).view (A8c3 d IX L)) hn hin) (x hg.axis')).val
      = ixWord d IX (wid3 L) k.val (x 0).val := by
    unfold SparseCore.rows
    show (View.read (Elt F) (a8Row3 ![k.val, 0] h).view (A8c3 d IX L) (S128.rowMajor.symm ((x hg.axis').cast hn.symm))).toNat = _
    rw [a8_word3]
    congr 1
    have e := Shape.rowMajor_val_one (d := ![128]) (S128.rowMajor.symm ((x hg.axis').cast hn.symm))
    rw [Equiv.apply_symm_apply] at e
    rw [← e]
    exact congrArg (fun i => (x i).val) ha'
  have hlt : ixWord d IX (wid3 L) k.val (x 0).val < 100000 := hr ▸ (SparseCore.rows _ hn hin (x hg.axis')).isLt
  unfold SparseCore.gatherPayload gRows3 tblAt
  rw [View.read_apply, cast_eq, dif_pos hlt]
  refine congrArg T0 ?_
  funext a; apply Fin.ext
  show ((Rect.unit (s := S100000x128) ![0, 0] S100000x128.size inb_S100000x128_S100000x128_0_0).emb (hg.idx _ x) a).val = _
  rw [Rect.emb_apply]
  match a with
  | 0 =>
    show 0 + 1 * (hg.idx _ x 0).val = ixWord d IX (wid3 L) k.val (x 0).val
    have h0 : (hg.idx (SparseCore.rows (View.read (Elt F) (a8Row3 ![k.val, 0] h).view (A8c3 d IX L)) hn hin) x 0).val
        = (hg.idx (SparseCore.rows (View.read (Elt F) (a8Row3 ![k.val, 0] h).view (A8c3 d IX L)) hn hin) x hg.axis).val :=
      congrArg (fun i => (hg.idx (SparseCore.rows (View.read (Elt F) (a8Row3 ![k.val, 0] h).view (A8c3 d IX L)) hn hin) x i).val) ha.symm
    rw [h0, Shape.Gathers.idx_axis, hr]; omega
  | 1 =>
    show 0 + 1 * (hg.idx _ x 1).val = (x 1).val
    rw [Shape.Gathers.idx_of_ne hg _ x 1 (by decide)]
    show 0 + 1 * (x 1).val = (x 1).val
    omega

/-- What a copy-out of the rows gathered for draw `j` leaves in the draw's block: the third result's values there. -/
theorem block_val23 (j : Fin 20) (buf : Ref sig .scVector) (hb : buf.ty = ⟨S128x128, .f32⟩) (g : Buf (Elt F) (o2Loc3 d))
    (w : S128x128.Idx → Elt F .f32) (hw : w = gRows3 d IX L T1 (2 + j.val)) :
    ∀ i ∈ (negSl3 L j).view.set, ((negSl3 L j).view.writes (Elt F) g [⟨Rect.whole (negRect3 L j).shape, w⟩]) i = gV2 d T1 IX i := by
  intro i hi
  subst hw
  have hi' : i ∈ (negRect3 L j).set := by
    rw [show (negSl3 L j).view.set = (negRect3 L j).set from View.set_slice_whole _ _] at hi; exact hi
  obtain ⟨x, rfl⟩ := (negRect3 L j).exists_idx_of_mem hi'
  refine (writes_whole_emb (negSl3 L j).view g (gRows3 d IX L T1 (2 + j.val)) x).trans ?_
  rw [cast_eq]
  have hx0 : (x 0).val < 128 := (x 0).isLt
  have hw32 := wid_lt3 L
  have hj := j.isLt
  have e0 : (((negRect3 L j).emb x) 0).val = 128 * wid3 L + 4096 * j.val + (x 0).val := by
    rw [Rect.emb_apply]; show 128 * wid3 L + 4096 * j.val + 1 * (x 0).val = _; omega
  have e1 : ((negRect3 L j).emb x) 1 = x 1 := by
    apply Fin.ext; rw [Rect.emb_apply]; show 0 + 1 * (x 1).val = _; omega
  show tblAt (F := F) T1 (ixWord d IX (wid3 L) (2 + j.val) (x 0).val) (x 1)
    = tblAt (F := F) T1 (ixWord d IX ((((negRect3 L j).emb x) 0).val % 4096 / 128) (2 + (((negRect3 L j).emb x) 0).val / 4096) ((((negRect3 L j).emb x) 0).val % 128)) (((negRect3 L j).emb x) 1)
  rw [e1, e0, show (128 * wid3 L + 4096 * j.val + (x 0).val) % 4096 / 128 = wid3 L by omega,
    show (128 * wid3 L + 4096 * j.val + (x 0).val) / 4096 = j.val by omega,
    show (128 * wid3 L + 4096 * j.val + (x 0).val) % 128 = (x 0).val by omega]

theorem block_val03 (g : Buf (Elt F) (o0Loc3 d)) (w : S128x128.Idx → Elt F .f32) (hw : w = gRows3 d IX L T0 0) :
    ∀ i ∈ (o0Sl3 L).view.set, ((o0Sl3 L).view.writes (Elt F) g [⟨Rect.whole (oRect3 L).shape, w⟩]) i = gV0 d T0 IX i := by
  intro i hi
  subst hw
  have hi' : i ∈ (oRect3 L).set := by
    rw [show (o0Sl3 L).view.set = (oRect3 L).set from View.set_slice_whole _ _] at hi; exact hi
  obtain ⟨x, rfl⟩ := (oRect3 L).exists_idx_of_mem hi'
  refine (writes_whole_emb (o0Sl3 L).view g (gRows3 d IX L T0 0) x).trans ?_
  rw [cast_eq]
  have hx0 : (x 0).val < 128 := (x 0).isLt
  have hw32 := wid_lt3 L
  have e0 : (((oRect3 L).emb x) 0).val = 128 * wid3 L + (x 0).val := by
    rw [Rect.emb_apply]; show k6_off7 L 0 + 1 * (x 0).val = _
    rw [k6_off7_wid]; show 128 * wid3 L + 1 * (x 0).val = _; omega
  have e1 : ((oRect3 L).emb x) 1 = x 1 := by
    apply Fin.ext; rw [Rect.emb_apply]; show k6_off7 L 1 + 1 * (x 1).val = _
    rw [k6_off7_wid]; show 0 + 1 * (x 1).val = _; omega
  show tblAt (F := F) T0 (ixWord d IX (wid3 L) 0 (x 0).val) (x 1)
    = tblAt (F := F) T0 (ixWord d IX ((((oRect3 L).emb x) 0).val / 128) 0 ((((oRect3 L).emb x) 0).val % 128)) (((oRect3 L).emb x) 1)
  rw [e1, e0, show (128 * wid3 L + (x 0).val) / 128 = wid3 L by omega, show (128 * wid3 L + (x 0).val) % 128 = (x 0).val by omega]

theorem block_val13 (g : Buf (Elt F) (o1Loc3 d)) (w : S128x128.Idx → Elt F .f32) (hw : w = gRows3 d IX L T1 1) :
    ∀ i ∈ (o1Sl3 L).view.set, ((o1Sl3 L).view.writes (Elt F) g [⟨Rect.whole (oRect3 L).shape, w⟩]) i = gV1 d T1 IX i := by
  intro i hi
  subst hw
  have hi' : i ∈ (oRect3 L).set := by
    rw [show (o1Sl3 L).view.set = (oRect3 L).set from View.set_slice_whole _ _] at hi; exact hi
  obtain ⟨x, rfl⟩ := (oRect3 L).exists_idx_of_mem hi'
  refine (writes_whole_emb (o1Sl3 L).view g (gRows3 d IX L T1 1) x).trans ?_
  rw [cast_eq]
  have hx0 : (x 0).val < 128 := (x 0).isLt
  have hw32 := wid_lt3 L
  have e0 : (((oRect3 L).emb x) 0).val = 128 * wid3 L + (x 0).val := by
    rw [Rect.emb_apply]; show k6_off7 L 0 + 1 * (x 0).val = _
    rw [k6_off7_wid]; show 128 * wid3 L + 1 * (x 0).val = _; omega
  have e1 : ((oRect3 L).emb x) 1 = x 1 := by
    apply Fin.ext; rw [Rect.emb_apply]; show k6_off7 L 1 + 1 * (x 1).val = _
    rw [k6_off7_wid]; show 0 + 1 * (x 1).val = _; omega
  show tblAt (F := F) T1 (ixWord d IX (wid3 L) 1 (x 0).val) (x 1)
    = tblAt (F := F) T1 (ixWord d IX ((((oRect3 L).emb x) 0).val / 128) 1 ((((oRect3 L).emb x) 0).val % 128)) (((oRect3 L).emb x) 1)
  rw [e1, e0, show (128 * wid3 L + (x 0).val) / 128 = wid3 L by omega, show (128 * wid3 L + (x 0).val) % 128 = (x 0).val by omega]

end Cert.Proof.KB

end
-- ==== Proof.KB_TileEpi_c3.lean ====
/-
  The end of the gather kernel on a tile: segments of index families that run to the end, and a block of the third
  result once the copy-out of a draw's rows has written it.
-/
import proofs.«215899_g5772436046013_cont_9to1c4b_742_31_alg».proof.Proof.KB_TileVal
import proofs.«215899_g5772436046013_cont_9to1c4b_742_31_alg».proof.Proof.KB_TileVal_c3
import proofs.«215899_g5772436046013_cont_9to1c4b_742_31_alg».proof.Proof.KB_TileEpi

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section Epi

variable (d : Dev nD) (T0 : Buf (Elt F) (t0Loc d)) (T1 : Buf (Elt F) (t1Loc d)) (IX : Buf (Elt F) (ixLoc3 d)) (L : grid6.Coords)

/-- A block of the third result the copy-out of draw `j`'s rows has written, in the program's spelling of the block,
    is the block at the third result's values. -/
theorem blk_done3 (j : Fin 20) (off : Fin 2 → ℕ) (h : ∀ a, off a + S128x128.size a ≤ S81920x128.size a) (hoff : off = negOff3 L j.val)
    (g : Buf (Elt F) (o2Loc3 d)) (w : S128x128.Idx → Elt F .f32) (hw : w = gRows3 d IX L T1 (2 + j.val)) :
    (View.loc (thrV3 d L) ((o2V3).slice (Rect.unit (s := S81920x128) off S128x128.size h) (fun _ => rfl)).view
        ↦[((o2V3).slice (Rect.unit (s := S81920x128) off S128x128.size h) (fun _ => rfl)).view.set]{fullShare}
        ((o2V3).slice (Rect.unit (s := S81920x128) off S128x128.size h) (fun _ => rfl)).view.writes (Elt F) g
          [⟨Rect.whole (Rect.unit (s := S81920x128) off S128x128.size h).shape, w⟩] : sProp 𝕄)
      ⊢ (o2Loc3 d ↦[(negSl3 L j).view.set]{fullShare} gV2 d T1 IX) := by
  subst hoff
  exact Entails.of_eq (pointsTo_congr (block_val23 (F := F) d T1 IX L j cc6_scratch3 rfl g w hw))

end Epi

end Cert.Proof.KB

end
-- ==== Proof.KB_Tile_c3.lean ====
/-
  The gather kernel of call 3 on one vector subcore, as the launch theorem's obligation: the kernel's run at a
  symbolic tile from the tile's resources to its results, and the obligation in the launch theorem's own spelling.
-/
import proofs.«215899_g5772436046013_cont_9to1c4b_742_31_alg».proof.Proof.KB_TileEpi
import proofs.«215899_g5772436046013_cont_9to1c4b_742_31_alg».proof.Proof.KB_TileEpi_c3
import proofs.«215899_g5772436046013_cont_9to1c4b_742_31_alg».proof.Proof.KB_Tile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section Intro

variable (d : Dev nD) (T0 : Buf (Elt F) (t0Loc d)) (T1 : Buf (Elt F) (t1Loc d)) (IX : Buf (Elt F) (ixLoc3 d)) (L : grid6.Coords)

/-- A gather's flight as the run leaves it is the invariant's, the landed rows in closed form. -/
theorem gFl_intro3 (cell : DmaSem sig) (tok : ℕ) (buf : Ref sig .scVector) (row : Fin 24) (off : Fin 2 → ℕ)
    (h : ∀ a, off a + S1x128.size a ≤ S24x128.size a) (hoff : off = ![row.val, 0])
    (c0 cont : Buf (Elt F) ((thrV3 d L).loc buf)) (hc : c0 = cont) :
    Transfers.Flight countersEmb (thrV3 d L) (SemLoc.dma cell) (default : HIx 4) 524288
      iprop(((View.loc (thrV3 d L) (Memref.whole buf).view ↦{fullShare} c0)
          ∗ View.loc (thrV3 d L) (a8Row3 off h).view ↦[(a8Row3 off h).view.set]{fullShare} A8c3 d IX L)
        ∗ View.loc (thrV3 d L) (t1V).view ↦[(t1Sl).view.set]{Transfers.shareTokN (tblShare3 L) tok} T1)
      ⊢ (gFl3 d T1 IX L cell tok buf row cont : sProp 𝕄) := by
  subst hoff hc; exact .rfl

/-- A copy-out's flight as the run leaves it is the invariant's, the block at the third result's values. -/
theorem wFl_intro3 (cell : DmaSem sig) (buf : Ref sig .scVector) (j : Fin 20) (off : Fin 2 → ℕ)
    (h : ∀ a, off a + S128x128.size a ≤ S81920x128.size a) (hoff : off = negOff3 L j.val)
    (b0 bcont : Buf (Elt F) (o2Loc3 d)) (hb : ∀ i ∈ (negSl3 L j).view.set, b0 i = bcont i)
    (c0 cont : Buf (Elt F) ((thrV3 d L).loc buf)) (hc : c0 = cont) :
    Transfers.Flight countersEmb (thrV3 d L) (SemLoc.dma cell) (default : HIx 4) 524288
      iprop((View.loc (thrV3 d L) ((o2V3).slice (Rect.unit (s := S81920x128) off S128x128.size h) (fun _ => rfl)).view
            ↦[((o2V3).slice (Rect.unit (s := S81920x128) off S128x128.size h) (fun _ => rfl)).view.set]{fullShare} b0)
        ∗ View.loc (thrV3 d L) (Memref.whole buf).view ↦[(Memref.whole buf : Memref sig .scVector _ _ _).view.set]{fullShare} c0)
      ⊢ (wFl3 d L cell buf j bcont cont : sProp 𝕄) := by
  subst hoff hc
  refine Transfers.Flight_mono countersEmb (thrV3 d L) ?_
  rw [show (View.loc (thrV3 d L) ((o2V3).slice (Rect.unit (s := S81920x128) (negOff3 L j.val) S128x128.size h) (fun _ => rfl)).view
            ↦[((o2V3).slice (Rect.unit (s := S81920x128) (negOff3 L j.val) S128x128.size h) (fun _ => rfl)).view.set]{fullShare} b0 : sProp 𝕄)
        = (View.loc (thrV3 d L) (negSl3 L j).view ↦[(negSl3 L j).view.set]{fullShare} bcont) from pointsTo_congr hb]

/-- The first done row at the loop's entry. -/
theorem rows_done03 (c : Buf (Elt F) (a8Loc3 d L)) (h2 : 2 < 24) :
    (a8Loc3 d L ↦[a8RowSet3 ⟨2, h2⟩]{fullShare} c : sProp 𝕄)
      ⊢ bigSep (Finset.univ.filter fun k : Fin 24 => 2 ≤ k.val ∧ k.val < 4 * 0 + 3) fun k => a8Loc3 d L ↦[a8RowSet3 k]{fullShare} c := by
  rw [show (Finset.univ.filter fun k : Fin 24 => 2 ≤ k.val ∧ k.val < 4 * 0 + 3) = {⟨2, h2⟩} from
    Finset.ext fun k => by simp only [Finset.mem_filter, Finset.mem_univ, true_and, Finset.mem_singleton, Fin.ext_iff]; omega, bigSep_singleton]

/-- No block is written at the loop's entry. -/
theorem blks_done03 (c : Buf (Elt F) (o2Loc3 d)) :
    (iprop(emp) : sProp 𝕄)
      ⊢ bigSep (Finset.univ.filter fun j : Fin 20 => 0 ≤ j.val ∧ j.val < 4 * 0) fun j => o2Loc3 d ↦[(negSl3 L j).view.set]{fullShare} c := by
  rw [show (Finset.univ.filter fun j : Fin 20 => 0 ≤ j.val ∧ j.val < 4 * 0) = ∅ from by decide, bigSep_empty]
  exact .rfl

end Intro

section Intro2

variable (d : Dev nD) (T0 : Buf (Elt F) (t0Loc d)) (T1 : Buf (Elt F) (t1Loc d)) (IX : Buf (Elt F) (ixLoc3 d)) (L : grid6.Coords)

/-- What a gather by an index row lands, the row taken at any spelling of its offset. -/
theorem gather_val1'3 (off : Fin 2 → ℕ) (h : ∀ a, off a + S1x128.size a ≤ S24x128.size a) (kk : Fin 24) (hoff : off = ![kk.val, 0])
    (hg : S100000x128.Gathers 0 S128x128) (hn : S128.numel = S128x128.size hg.axis')
    (hin : ∀ x, (View.read (Elt F) (a8Row3 off h).view (A8c3 d IX L) x).toNat < S100000x128.size hg.axis) :
    SparseCore.gatherPayload hg (View.read (Elt F) (t1Sl).view T1) (SparseCore.rows (View.read (Elt F) (a8Row3 off h).view (A8c3 d IX L)) hn hin)
      = gRows3 d IX L T1 kk.val := by
  subst hoff; exact gather_val13 (F := F) d T1 IX L kk h hg hn hin

/-- A block written whole with the rows gathered for its draw holds the third result's values. -/
theorem blk_intro3 (j : Fin 20) (off : Fin 2 → ℕ) (h : ∀ a, off a + S128x128.size a ≤ S81920x128.size a) (hoff : off = negOff3 L j.val)
    (g : Buf (Elt F) (o2Loc3 d)) (w : S128x128.Idx → Elt F .f32) (hw : w = gRows3 d IX L T1 (2 + j.val)) :
    (View.loc (thrV3 d L) ((o2V3).slice (Rect.unit (s := S81920x128) off S128x128.size h) (fun _ => rfl)).view
        ↦[((o2V3).slice (Rect.unit (s := S81920x128) off S128x128.size h) (fun _ => rfl)).view.set]{fullShare}
        (((o2V3).slice (Rect.unit (s := S81920x128) off S128x128.size h) (fun _ => rfl)).view.writes (Elt F) g
          [⟨Rect.whole (Rect.unit (s := S81920x128) off S128x128.size h).shape, w⟩]) : sProp 𝕄)
      ⊢ (o2Loc3 d ↦[(negSl3 L j).view.set]{fullShare} gV2 d T1 IX) := by
  subst hoff
  exact Entails.of_eq (pointsTo_congr (block_val23 (F := F) d T1 IX L j cc6_scratch3 rfl g w hw))

/-- The same inside a copy-out's flight. -/
theorem wFl_intro'3 (cell : DmaSem sig) (buf : Ref sig .scVector) (j : Fin 20) (off : Fin 2 → ℕ)
    (h : ∀ a, off a + S128x128.size a ≤ S81920x128.size a) (hoff : off = negOff3 L j.val)
    (g : Buf (Elt F) (o2Loc3 d)) (w : S128x128.Idx → Elt F .f32) (hw : w = gRows3 d IX L T1 (2 + j.val))
    (cont : Buf (Elt F) ((thrV3 d L).loc buf)) :
    Transfers.Flight countersEmb (thrV3 d L) (SemLoc.dma cell) (default : HIx 4) 524288
      iprop((View.loc (thrV3 d L) ((o2V3).slice (Rect.unit (s := S81920x128) off S128x128.size h) (fun _ => rfl)).view
            ↦[((o2V3).slice (Rect.unit (s := S81920x128) off S128x128.size h) (fun _ => rfl)).view.set]{fullShare}
            (((o2V3).slice (Rect.unit (s := S81920x128) off S128x128.size h) (fun _ => rfl)).view.writes (Elt F) g
              [⟨Rect.whole (Rect.unit (s := S81920x128) off S128x128.size h).shape, w⟩]))
        ∗ View.loc (thrV3 d L) (Memref.whole buf).view ↦[(Memref.whole buf : Memref sig .scVector _ _ _).view.set]{fullShare} cont)
      ⊢ (wFl3 d L cell buf j (gV2 d T1 IX) cont : sProp 𝕄) := by
  refine Transfers.Flight_mono countersEmb (thrV3 d L) ?_
  iintro ⟨Hb, Hc⟩
  isplitl [Hb]
  · iapply (blk_intro3 (F := F) d T1 IX L j off h hoff g w hw); iexact Hb
  · iexact Hc

end Intro2

section Intro3

variable (d : Dev nD) (T1 : Buf (Elt F) (t1Loc d)) (IX : Buf (Elt F) (ixLoc3 d)) (L : grid6.Coords)

theorem row_reidx3 (c : Buf (Elt F) (a8Loc3 d L)) (i j : Fin 24) (e : i = j) :
    (a8Loc3 d L ↦[a8RowSet3 i]{fullShare} c : sProp 𝕄) ⊢ (a8Loc3 d L ↦[a8RowSet3 j]{fullShare} c) := by
  subst e; exact .rfl

theorem blk_reidx3 (c : Buf (Elt F) (o2Loc3 d)) (i j : Fin 20) (e : i = j) :
    (View.loc (thrV3 d L) (negSl3 L i).view ↦[(negSl3 L i).view.set]{fullShare} c : sProp 𝕄) ⊢ (o2Loc3 d ↦[(negSl3 L j).view.set]{fullShare} c) := by
  subst e; exact .rfl

theorem pts_a8Row_congr3 {off off' : Fin 2 → ℕ} (e : off = off') (h : ∀ a, off a + S1x128.size a ≤ S24x128.size a)
    (h' : ∀ a, off' a + S1x128.size a ≤ S24x128.size a) (f : Buf (Elt F) (a8Loc3 d L)) :
    (View.loc (thrV3 d L) (a8Row3 off h).view ↦[(a8Row3 off h).view.set]{fullShare} f : sProp 𝕄)
      = (View.loc (thrV3 d L) (a8Row3 off' h').view ↦[(a8Row3 off' h').view.set]{fullShare} f) := by
  subst e; rfl

theorem wFl_unfold3 (cell : DmaSem sig) (buf : Ref sig .scVector) (j : Fin 20) (b : Buf (Elt F) (o2Loc3 d)) (c : Buf (Elt F) ((thrV3 d L).loc buf)) :
    (wFl3 d L cell buf j b c : sProp 𝕄) = Transfers.Flight countersEmb (thrV3 d L) (SemLoc.dma cell) (default : HIx 4) 524288
      iprop((View.loc (thrV3 d L) (negSl3 L j).view ↦[(negSl3 L j).view.set]{fullShare} b)
        ∗ View.loc (thrV3 d L) (Memref.whole buf).view ↦[(Memref.whole buf : Memref sig .scVector _ _ _).view.set]{fullShare} c) := rfl

end Intro3

/-! ## The kernel at a symbolic tile -/

section Body

variable (d : Dev nD) (T0 : Buf (Elt F) (t0Loc d)) (T1 : Buf (Elt F) (t1Loc d)) (IX : Buf (Elt F) (ixLoc3 d))

set_option maxHeartbeats 4000000 in
/-- The gather kernel on the vector subcore at `L`: from what the tile is handed and its own scratch storage to what
    it hands back, every wait admissible under what the tile owes the launch. The index copy-in lands the tile's 24
    index rows; each gather reads a table by one of those rows, on its own semaphore and read token; the ring's
    loop keeps the invariant `inv3`; every block copied out holds the result's values. -/
theorem tile_body3 (hF : (K (F := F)).Facts) (hIX : IXOK3 d IX) (L : grid6.Coords) (O : CellTallies nD τ sig (HIx 4)) (W : Waits sig (HIx 4)) (hO : ∀ g, O g none = 0) :
    iprop(levAts (K (F := F)).L (K (F := F)).lev ∗ emp ∗ goResL3 d T0 T1 IX L
        ∗ scopedBufs (thrV3 d L) ∗ scopedSems0 (thrV3 d L) ∗ owes (thrV3 d L) O W)
      ⊢ wp frame (wpE (defs₀ (F := F)) 𝒱₀ (thrV3 d L) none) Set.univ
          (cc6__sc_gather L t0V (Memref.isWhole_whole _) t1V (Memref.isWhole_whole _) ixV3 (Memref.isWhole_whole _) o0V3 (Memref.isWhole_whole _) o1V3 (Memref.isWhole_whole _) o2V3 (Memref.isWhole_whole _)
            a83 (Memref.isWhole_whole _) bC3 (Memref.isWhole_whole _) bP3 (Memref.isWhole_whole _) rb03 (Memref.isWhole_whole _) rb13 (Memref.isWhole_whole _) rb23 (Memref.isWhole_whole _) rb33 (Memref.isWhole_whole _)
            cc6_scratch7 cc6_scratch8 cc6_scratch9 cc6_scratch10 cc6_scratch11 cc6_scratch12 cc6_scratch13 cc6_scratch14 cc6_scratch15 cc6_scratch16 cc6_scratch17 cc6_scratch18 cc6_scoped0)
          fun _ => iprop(tdResL3 d T0 T1 IX L ∗ scopedBufs (thrV3 d L) ∗ scopedSems0 (thrV3 d L)
            ∗ ∃ W', ⌜∀ p ∈ W', p ∈ W ∨ p.2 = none⌝ ∗ owes (thrV3 d L) O W') := by
  simp only [cc6__sc_gather_eq_skeleton]; unfold cc6__sc_gather_skel
  rw [(K (F := F)).scopedBufs_V hF d (cV3 L) (jV3 L), SparseCore.Cfg.scopedSems0_V (Val := Elt F) d (cV3 L) (jV3 L), ownSems0_V3, ownBufs_V3]
  unfold goResL3
  iintro ⟨#Hlv, -, ⟨Ht0, Ht1, Hix, ⟨%f0, Ho0⟩, ⟨%f1, Ho1⟩, Hneg⟩,
    ⟨⟨⟨%fa8, Ha8⟩, ⟨%fbC, HbC⟩, ⟨%fbP, HbP⟩, ⟨%f0', Hr0⟩, ⟨%f1', Hr1⟩, ⟨%f2', Hr2⟩, ⟨%f3', Hr3⟩⟩, Hbufs⟩,
    ⟨⟨Hs0, Hs7, Hs8, Hs9, Hs10, Hs11, Hs12, Hs13, Hs14, Hs15, Hs16, Hs17, Hs18⟩, Hsems⟩, HO⟩
  ihave Hmw := ((K (F := F)).mayWaits_none (thr := thrV3 d L) hO) $$ Hlv
  -- the arrays as the tile's memrefs address them; the second table's share, one read token per semaphore
  ihave Ht0 := (Entails.of_eq (pts_t03 (F := F) d L _ _).symm) $$ Ht0
  ihave Ht1 := (toks8_split (F := F) (tblShare3 L) T1) $$ Ht1
  icases Ht1 with ⟨Hq8, Hq7, Hq6, Hq5, Hq4, Hq3, Hq2, Hq1, Hq0⟩
  ihave Hq1 := (Entails.of_eq (pts_t13 (F := F) d L _ _).symm) $$ Hq1
  ihave Hq4 := (Entails.of_eq (pts_t13 (F := F) d L _ _).symm) $$ Hq4
  ihave Hq5 := (Entails.of_eq (pts_t13 (F := F) d L _ _).symm) $$ Hq5
  ihave Hq6 := (Entails.of_eq (pts_t13 (F := F) d L _ _).symm) $$ Hq6
  ihave Hq7 := (Entails.of_eq (pts_t13 (F := F) d L _ _).symm) $$ Hq7
  ihave Hix := (Entails.of_eq (pts_ix3 (F := F) d L _).symm) $$ Hix
  ihave Ho0 := (Entails.of_eq (pts_o03 (F := F) d L _).symm) $$ Ho0
  ihave Ho1 := (Entails.of_eq (pts_o13 (F := F) d L _).symm) $$ Ho1
  ihave Ha8 := (Entails.of_eq (pts_scr3 (F := F) d L cc6_scratch0 _).symm) $$ Ha8
  ihave HbC := (Entails.of_eq (pts_scr3 (F := F) d L cc6_scratch1 _).symm) $$ HbC
  ihave HbP := (Entails.of_eq (pts_scr3 (F := F) d L cc6_scratch2 _).symm) $$ HbP
  ihave Hr0 := (Entails.of_eq (pts_scr3 (F := F) d L cc6_scratch3 _).symm) $$ Hr0
  ihave Hr1 := (Entails.of_eq (pts_scr3 (F := F) d L cc6_scratch4 _).symm) $$ Hr1
  ihave Hr2 := (Entails.of_eq (pts_scr3 (F := F) d L cc6_scratch5 _).symm) $$ Hr2
  ihave Hr3 := (Entails.of_eq (pts_scr3 (F := F) d L cc6_scratch6 _).symm) $$ Hr3

  sl_exec
  -- the index scratch now holds the tile's 24 rows of the index array; row by row
  have hA8 : (View.write (Elt F) (a83 : Memref sig .scVector .vmem S24x128 .i32).view fa8 (tile_body3.sl.dma0 d IX L) Finset.univ) = A8c3 d IX L := by
    exact (View.write_whole_univ (Val := Elt F) cc6_scratch0 fa8 _).trans rfl
  rw [hA8]
  have h0 : (0 : ℕ) < 24 := by decide
  have h1 : (1 : ℕ) < 24 := by decide
  have h2 : (2 : ℕ) < 24 := by decide
  have h3 : (3 : ℕ) < 24 := by decide
  have h4 : (4 : ℕ) < 24 := by decide
  have h5 : (5 : ℕ) < 24 := by decide
  have hb0 : (0 : ℕ) < 20 := by decide
  ihave Ha8 := (Entails.of_eq (pts_scr3 (F := F) d L cc6_scratch0 _)) $$ Ha8
  ihave Hrows := (Entails.of_eq (a8_rows3 (F := F) d L _)) $$ Ha8
  ihave Hrows := (Entails.of_eq (bigSep_from_zero (F := F) _).symm) $$ Hrows
  ihave H := (Entails.of_eq (bigSep_from_pop (F := F) _ 0 h0)) $$ Hrows; icases H with ⟨Hw0, Hrows⟩
  ihave H := (Entails.of_eq (bigSep_from_pop (F := F) _ 1 h1)) $$ Hrows; icases H with ⟨Hw1, Hrows⟩
  ihave H := (Entails.of_eq (bigSep_from_pop (F := F) _ 2 h2)) $$ Hrows; icases H with ⟨Hw2, Hrows⟩
  ihave H := (Entails.of_eq (bigSep_from_pop (F := F) _ 3 h3)) $$ Hrows; icases H with ⟨Hw3, Hrows⟩
  ihave H := (Entails.of_eq (bigSep_from_pop (F := F) _ 4 h4)) $$ Hrows; icases H with ⟨Hw4, Hrows⟩
  ihave H := (Entails.of_eq (bigSep_from_pop (F := F) _ 5 h5)) $$ Hrows; icases H with ⟨Hw5, Hrows⟩
  ihave Hw0 := (Entails.of_eq (pts_a8Row3 (F := F) d L ⟨0, h0⟩ ![0, 0] (rowInb ⟨0, h0⟩) rfl _).symm) $$ Hw0
  ihave Hw1 := (Entails.of_eq (pts_a8Row3 (F := F) d L ⟨1, h1⟩ ![1, 0] (rowInb ⟨1, h1⟩) rfl _).symm) $$ Hw1
  ihave Hw2 := (Entails.of_eq (pts_a8Row3 (F := F) d L ⟨2, h2⟩ ![2, 0] (rowInb ⟨2, h2⟩) rfl _).symm) $$ Hw2
  ihave Hw3 := (Entails.of_eq (pts_a8Row3 (F := F) d L ⟨3, h3⟩ ![3, 0] (rowInb ⟨3, h3⟩) rfl _).symm) $$ Hw3
  ihave Hw4 := (Entails.of_eq (pts_a8Row3 (F := F) d L ⟨4, h4⟩ ![4, 0] (rowInb ⟨4, h4⟩) rfl _).symm) $$ Hw4
  ihave Hw5 := (Entails.of_eq (pts_a8Row3 (F := F) d L ⟨5, h5⟩ ![5, 0] (rowInb ⟨5, h5⟩) rfl _).symm) $$ Hw5
  have hin0 := hin_rows3 (F := F) d IX L hIX ⟨0, h0⟩ ![0, 0] (rowInb ⟨0, h0⟩) rfl (by show (0 : ℕ) < 22; decide)
  have hin1 := hin_rows3 (F := F) d IX L hIX ⟨1, h1⟩ ![1, 0] (rowInb ⟨1, h1⟩) rfl (by show (1 : ℕ) < 22; decide)
  have hin2 := hin_rows3 (F := F) d IX L hIX ⟨2, h2⟩ ![2, 0] (rowInb ⟨2, h2⟩) rfl (by show (2 : ℕ) < 22; decide)
  have hin3 := hin_rows3 (F := F) d IX L hIX ⟨3, h3⟩ ![3, 0] (rowInb ⟨3, h3⟩) rfl (by show (3 : ℕ) < 22; decide)
  have hin4 := hin_rows3 (F := F) d IX L hIX ⟨4, h4⟩ ![4, 0] (rowInb ⟨4, h4⟩) rfl (by show (4 : ℕ) < 22; decide)
  have hin5 := hin_rows3 (F := F) d IX L hIX ⟨5, h5⟩ ![5, 0] (rowInb ⟨5, h5⟩) rfl (by show (5 : ℕ) < 22; decide)
  -- draw 0's block of the third result
  ihave Hneg := (Entails.of_eq (bigSep_from_zero (F := F) _).symm) $$ Hneg
  ihave H := (Entails.of_eq (bigSep_from_pop (F := F) _ 0 hb0)) $$ Hneg; icases H with ⟨⟨%g0, Hb0⟩, Hneg⟩
  ihave Hb0 := (Entails.of_eq (pts_negOff3 (F := F) d L (k6_off2_neg L 0 0 rfl) (k6_off2_inb L 0) (negOff_inb3 L ⟨0, hb0⟩) _).symm) $$ Hb0
  sl_exec

  -- ── the ring at the loop's entry: the invariant at trip 0 ──
  have hc3 : (rb13).view.writes (Elt F) f1' [⟨Rect.whole cc6_scratch4.ty.shape, tile_body3.sl.gather3 d T1 IX L h3 hin3⟩] = gRows3 d IX L T1 (4 * 0 + 3) :=
    (writes_whole3 (F := F) d L cc6_scratch4 f1' _).trans (gather_val13 (F := F) d T1 IX L ⟨3, h3⟩ (rowInb ⟨3, h3⟩) gathers_S100000x128_S128x128 (by decide) hin3)
  have hc4 : (rb23).view.writes (Elt F) f2' [⟨Rect.whole cc6_scratch5.ty.shape, tile_body3.sl.gather4 d T1 IX L h4 hin4⟩] = gRows3 d IX L T1 (4 * 0 + 4) :=
    (writes_whole3 (F := F) d L cc6_scratch5 f2' _).trans (gather_val13 (F := F) d T1 IX L ⟨4, h4⟩ (rowInb ⟨4, h4⟩) gathers_S100000x128_S128x128 (by decide) hin4)
  have hc5 : (rb33).view.writes (Elt F) f3' [⟨Rect.whole cc6_scratch6.ty.shape, tile_body3.sl.gather5 d T1 IX L h5 hin5⟩] = gRows3 d IX L T1 (4 * 0 + 5) :=
    (writes_whole3 (F := F) d L cc6_scratch6 f3' _).trans (gather_val13 (F := F) d T1 IX L ⟨5, h5⟩ (rowInb ⟨5, h5⟩) gathers_S100000x128_S128x128 (by decide) hin5)
  have hc2 : (rb03).view.writes (Elt F) f0' [⟨Rect.whole cc6_scratch3.ty.shape, tile_body3.sl.gather2 d T1 IX L h2 hin2⟩] = gRows3 d IX L T1 (4 * 0 + 2) :=
    (writes_whole3 (F := F) d L cc6_scratch3 f0' _).trans (gather_val13 (F := F) d T1 IX L ⟨2, h2⟩ (rowInb ⟨2, h2⟩) gathers_S100000x128_S128x128 (by decide) hin2)
  have hw0 : tile_body3.sl.dma0_1 d T1 IX L f0' h2 hin2 = gRows3 d IX L T1 (2 + (blkF (4 * 0)).val) := by
    unfold tile_body3.sl.dma0_1; rw [hc2]; rfl
  rw [hc2, hc3, hc4, hc5]
  sl_for (inv3 d T1 IX L O W) $$ [Hmw Hs12 Hq5 Hs13 Hq6 Hs14 Hq7 Hs15 Hr0 Hq4 Hs11 Hs16 Hs17 Hs18 Hw2 Hrows Hneg HO]
  case region =>
    intro k _
    have hk : k.val < 4 := lt_of_lt_of_le k.isLt k6_t1_abs.2.1
    unfold inv3 gFl3 wFl3
    iintro ⟨#Hmw, Hs12, Hq5, Hs13, Hq6, Hs14, Hq7, Hs15, Hr0, Hq4, Hs11, Hs16, Hs17, Hs18, Hdone, Hrows, Hbd, Hneg, %W', %hW', HO⟩
    -- the four index rows this trip gathers by, as the program takes them
    have hr0 : 4 * k.val + 6 < 24 := by omega
    have hr1 : 4 * k.val + 6 + 1 < 24 := by omega
    have hr2 : 4 * k.val + 6 + 1 + 1 < 24 := by omega
    have hr3 : 4 * k.val + 6 + 1 + 1 + 1 < 24 := by omega
    ihave H := (Entails.of_eq (bigSep_from_pop (F := F) _ _ hr0)) $$ Hrows; icases H with ⟨Hn0, Hrows⟩
    ihave H := (Entails.of_eq (bigSep_from_pop (F := F) _ _ hr1)) $$ Hrows; icases H with ⟨Hn1, Hrows⟩
    ihave H := (Entails.of_eq (bigSep_from_pop (F := F) _ _ hr2)) $$ Hrows; icases H with ⟨Hn2, Hrows⟩
    ihave H := (Entails.of_eq (bigSep_from_pop (F := F) _ _ hr3)) $$ Hrows; icases H with ⟨Hn3, Hrows⟩
    have ho0 : k6_off5 k 1#32 = ![(⟨4 * k.val + 6, hr0⟩ : Fin 24).val, 0] :=
      (k6_off5_eq k ⟨0, by decide⟩).trans (by show ![0 + 4 * k.val + 6, 0] = ![4 * k.val + 6, 0]; congr 1; omega)
    have ho1 : k6_off5 k 2#32 = ![(⟨4 * k.val + 6 + 1, hr1⟩ : Fin 24).val, 0] :=
      (k6_off5_eq k ⟨1, by decide⟩).trans (by show ![1 + 4 * k.val + 6, 0] = ![4 * k.val + 6 + 1, 0]; congr 1; omega)
    have ho2 : k6_off5 k 3#32 = ![(⟨4 * k.val + 6 + 1 + 1, hr2⟩ : Fin 24).val, 0] :=
      (k6_off5_eq k ⟨2, by decide⟩).trans (by show ![2 + 4 * k.val + 6, 0] = ![4 * k.val + 6 + 1 + 1, 0]; congr 1; omega)
    have ho3 : k6_off5 k 4#32 = ![(⟨4 * k.val + 6 + 1 + 1 + 1, hr3⟩ : Fin 24).val, 0] :=
      (k6_off5_eq k ⟨3, by decide⟩).trans (by show ![3 + 4 * k.val + 6, 0] = ![4 * k.val + 6 + 1 + 1 + 1, 0]; congr 1; omega)
    ihave Hn0 := (Entails.of_eq (pts_a8Row3 (F := F) d L ⟨_, hr0⟩ (k6_off5 k 1#32) (k6_off5_inb k 0) ho0 _).symm) $$ Hn0
    ihave Hn1 := (Entails.of_eq (pts_a8Row3 (F := F) d L ⟨_, hr1⟩ (k6_off5 k 2#32) (k6_off5_inb k 1) ho1 _).symm) $$ Hn1
    ihave Hn2 := (Entails.of_eq (pts_a8Row3 (F := F) d L ⟨_, hr2⟩ (k6_off5 k 3#32) (k6_off5_inb k 2) ho2 _).symm) $$ Hn2
    ihave Hn3 := (Entails.of_eq (pts_a8Row3 (F := F) d L ⟨_, hr3⟩ (k6_off5 k 4#32) (k6_off5_inb k 3) ho3 _).symm) $$ Hn3
    have hinA := hin_rows3 (F := F) d IX L hIX ⟨_, hr0⟩ (k6_off5 k 1#32) (k6_off5_inb k 0) ho0 (by show 4 * k.val + 6 < 22; omega)
    have hinB := hin_rows3 (F := F) d IX L hIX ⟨_, hr1⟩ (k6_off5 k 2#32) (k6_off5_inb k 1) ho1 (by show 4 * k.val + 6 + 1 < 22; omega)
    have hinC := hin_rows3 (F := F) d IX L hIX ⟨_, hr2⟩ (k6_off5 k 3#32) (k6_off5_inb k 2) ho2 (by show 4 * k.val + 6 + 1 + 1 < 22; omega)
    have hinD := hin_rows3 (F := F) d IX L hIX ⟨_, hr3⟩ (k6_off5 k 4#32) (k6_off5_inb k 3) ho3 (by show 4 * k.val + 6 + 1 + 1 + 1 < 22; omega)
    -- the four blocks it writes, as the program takes them
    have hq0 : 4 * k.val + 1 < 20 := by omega
    have hq1 : 4 * k.val + 1 + 1 < 20 := by omega
    have hq2 : 4 * k.val + 1 + 1 + 1 < 20 := by omega
    have hq3 : 4 * k.val + 1 + 1 + 1 + 1 < 20 := by omega
    ihave H := (Entails.of_eq (bigSep_from_pop (F := F) _ _ hq0)) $$ Hneg; icases H with ⟨⟨%gA, HbA⟩, Hneg⟩
    ihave H := (Entails.of_eq (bigSep_from_pop (F := F) _ _ hq1)) $$ Hneg; icases H with ⟨⟨%gB, HbB⟩, Hneg⟩
    ihave H := (Entails.of_eq (bigSep_from_pop (F := F) _ _ hq2)) $$ Hneg; icases H with ⟨⟨%gC, HbC'⟩, Hneg⟩
    ihave H := (Entails.of_eq (bigSep_from_pop (F := F) _ _ hq3)) $$ Hneg; icases H with ⟨⟨%gD, HbD⟩, Hneg⟩
    have hbo0 : k6_off6 L k 1#32 = negOff3 L (⟨4 * k.val + 1, hq0⟩ : Fin 20).val :=
      (k6_off6_wid L k ⟨0, by decide⟩).trans (by show negOff3 L (4 * k.val + 0 + 1) = negOff3 L (4 * k.val + 1); rfl)
    have hbo1 : k6_off6 L k 2#32 = negOff3 L (⟨4 * k.val + 1 + 1, hq1⟩ : Fin 20).val :=
      (k6_off6_wid L k ⟨1, by decide⟩).trans (by show negOff3 L (4 * k.val + 1 + 1) = negOff3 L (4 * k.val + 1 + 1); rfl)
    have hbo2 : k6_off6 L k 3#32 = negOff3 L (⟨4 * k.val + 1 + 1 + 1, hq2⟩ : Fin 20).val :=
      (k6_off6_wid L k ⟨2, by decide⟩).trans (by show negOff3 L (4 * k.val + 2 + 1) = negOff3 L (4 * k.val + 1 + 1 + 1); rfl)
    have hbo3 : k6_off6 L k 4#32 = negOff3 L (⟨4 * k.val + 1 + 1 + 1 + 1, hq3⟩ : Fin 20).val :=
      (k6_off6_wid L k ⟨3, by decide⟩).trans (by show negOff3 L (4 * k.val + 3 + 1) = negOff3 L (4 * k.val + 1 + 1 + 1 + 1); rfl)
    ihave HbA := (Entails.of_eq (pts_negOff3 (F := F) d L hbo0 (k6_off6_inb L k 0) (negOff_inb3 L ⟨_, hq0⟩) _).symm) $$ HbA
    ihave HbB := (Entails.of_eq (pts_negOff3 (F := F) d L hbo1 (k6_off6_inb L k 1) (negOff_inb3 L ⟨_, hq1⟩) _).symm) $$ HbB
    ihave HbC' := (Entails.of_eq (pts_negOff3 (F := F) d L hbo2 (k6_off6_inb L k 2) (negOff_inb3 L ⟨_, hq2⟩) _).symm) $$ HbC'
    ihave HbD := (Entails.of_eq (pts_negOff3 (F := F) d L hbo3 (k6_off6_inb L k 3) (negOff_inb3 L ⟨_, hq3⟩) _).symm) $$ HbD
    sl_exec
    sl_step
    have hcA : (rb03).view.writes (Elt F) (gRows3 d IX L T1 (4 * k.val + 2)) [⟨Rect.whole cc6_scratch3.ty.shape, tile_body3.sl.gather0_1 d T1 IX L k hinA⟩] = gRows3 d IX L T1 (4 * (k.val + 1) + 2) :=
      (writes_whole3 (F := F) d L cc6_scratch3 _ _).trans ((gather_val1'3 (F := F) d T1 IX L (k6_off5 k 1#32) (k6_off5_inb k 0) ⟨_, hr0⟩ ho0 gathers_S100000x128_S128x128 (by decide) hinA).trans (by congr 1 <;> omega))
    have hcB : (rb13).view.writes (Elt F) (gRows3 d IX L T1 (4 * k.val + 3)) [⟨Rect.whole cc6_scratch4.ty.shape, tile_body3.sl.gather2_1 d T1 IX L k hinB⟩] = gRows3 d IX L T1 (4 * (k.val + 1) + 3) :=
      (writes_whole3 (F := F) d L cc6_scratch4 _ _).trans ((gather_val1'3 (F := F) d T1 IX L (k6_off5 k 2#32) (k6_off5_inb k 1) ⟨_, hr1⟩ ho1 gathers_S100000x128_S128x128 (by decide) hinB).trans (by congr 1 <;> omega))
    have hcC : (rb23).view.writes (Elt F) (gRows3 d IX L T1 (4 * k.val + 4)) [⟨Rect.whole cc6_scratch5.ty.shape, tile_body3.sl.gather4_1 d T1 IX L k hinC⟩] = gRows3 d IX L T1 (4 * (k.val + 1) + 4) :=
      (writes_whole3 (F := F) d L cc6_scratch5 _ _).trans ((gather_val1'3 (F := F) d T1 IX L (k6_off5 k 3#32) (k6_off5_inb k 2) ⟨_, hr2⟩ ho2 gathers_S100000x128_S128x128 (by decide) hinC).trans (by congr 1 <;> omega))
    have hcD : (rb33).view.writes (Elt F) (gRows3 d IX L T1 (4 * k.val + 5)) [⟨Rect.whole cc6_scratch6.ty.shape, tile_body3.sl.gather6 d T1 IX L k hinD⟩] = gRows3 d IX L T1 (4 * (k.val + 1) + 5) :=
      (writes_whole3 (F := F) d L cc6_scratch6 _ _).trans ((gather_val1'3 (F := F) d T1 IX L (k6_off5 k 4#32) (k6_off5_inb k 3) ⟨_, hr3⟩ ho3 gathers_S100000x128_S128x128 (by decide) hinD).trans (by congr 1 <;> omega))
    rw [hcA, hcB, hcC, hcD]
    -- the rows of the three gathers now in flight, in the invariant's spelling
    have e1 : k6_off5 k 2#32 = ![(rowF (4 * (k.val + 1) + 3)).val, 0] := ho1.trans (by show ![4 * k.val + 6 + 1, 0] = ![(4 * (k.val + 1) + 3) % 24, 0]; congr 1; omega)
    have e2 : k6_off5 k 3#32 = ![(rowF (4 * (k.val + 1) + 4)).val, 0] := ho2.trans (by show ![4 * k.val + 6 + 1 + 1, 0] = ![(4 * (k.val + 1) + 4) % 24, 0]; congr 1; omega)
    have e3 : k6_off5 k 4#32 = ![(rowF (4 * (k.val + 1) + 5)).val, 0] := ho3.trans (by show ![4 * k.val + 6 + 1 + 1 + 1, 0] = ![(4 * (k.val + 1) + 5) % 24, 0]; congr 1; omega)
    rw [pts_a8Row_congr3 (F := F) d L e1 (k6_off5_inb k 1) (rowInb _) (A8c3 d IX L), pts_a8Row_congr3 (F := F) d L e2 (k6_off5_inb k 2) (rowInb _) (A8c3 d IX L), pts_a8Row_congr3 (F := F) d L e3 (k6_off5_inb k 3) (rowInb _) (A8c3 d IX L)]
    -- the four rows that came back
    have hd0 : 4 * k.val + 3 < 24 := by omega
    have hd1 : 4 * k.val + 3 + 1 < 24 := by omega
    have hd2 : 4 * k.val + 3 + 1 + 1 < 24 := by omega
    have hd3 : 4 * k.val + 3 + 1 + 1 + 1 < 24 := by omega
    ihave R0 := (Entails.of_eq (pts_a8Row3 (F := F) d L (rowF (4 * k.val + 3)) ![(rowF (4 * k.val + 3)).val, 0] (rowInb _) rfl _)) $$ Hs12_dst_and
    ihave R0 := (row_reidx3 (F := F) d L _ _ ⟨4 * k.val + 3, hd0⟩ (Fin.ext (show (4 * k.val + 3) % 24 = 4 * k.val + 3 by omega))) $$ R0
    ihave R1 := (Entails.of_eq (pts_a8Row3 (F := F) d L (rowF (4 * k.val + 4)) ![(rowF (4 * k.val + 4)).val, 0] (rowInb _) rfl _)) $$ Hs13_dst_and
    ihave R1 := (row_reidx3 (F := F) d L _ _ ⟨4 * k.val + 3 + 1, hd1⟩ (Fin.ext (show (4 * k.val + 4) % 24 = 4 * k.val + 3 + 1 by omega))) $$ R1
    ihave R2 := (Entails.of_eq (pts_a8Row3 (F := F) d L (rowF (4 * k.val + 5)) ![(rowF (4 * k.val + 5)).val, 0] (rowInb _) rfl _)) $$ Hs14_dst_and
    ihave R2 := (row_reidx3 (F := F) d L _ _ ⟨4 * k.val + 3 + 1 + 1, hd2⟩ (Fin.ext (show (4 * k.val + 5) % 24 = 4 * k.val + 3 + 1 + 1 by omega))) $$ R2
    ihave R3 := (Entails.of_eq (pts_a8Row3 (F := F) d L ⟨_, hr0⟩ (k6_off5 k 1#32) (k6_off5_inb k 0) ho0 _)) $$ Hn0
    ihave R3 := (row_reidx3 (F := F) d L _ _ ⟨4 * k.val + 3 + 1 + 1 + 1, hd3⟩ (Fin.ext (show 4 * k.val + 6 = 4 * k.val + 3 + 1 + 1 + 1 by omega))) $$ R3
    -- the four blocks that are written
    have hp0 : 4 * k.val < 20 := by omega
    ihave B0 := (blk_reidx3 (F := F) d L _ _ ⟨4 * k.val, hp0⟩ (Fin.ext (show (4 * k.val) % 20 = 4 * k.val by omega))) $$ Hs15_dst
    have hwA : tile_body3.sl.dma0_2 d T1 IX L k = gRows3 d IX L T1 (2 + (⟨4 * k.val + 1, hq0⟩ : Fin 20).val) := by
      unfold tile_body3.sl.dma0_2; show gRows3 d IX L T1 (4 * k.val + 3) = gRows3 d IX L T1 (2 + (4 * k.val + 1)); congr 1; omega
    have hwB : tile_body3.sl.dma0_3 d T1 IX L k = gRows3 d IX L T1 (2 + (⟨4 * k.val + 1 + 1, hq1⟩ : Fin 20).val) := by
      unfold tile_body3.sl.dma0_3; show gRows3 d IX L T1 (4 * k.val + 4) = gRows3 d IX L T1 (2 + (4 * k.val + 1 + 1)); congr 1; omega
    have hwC : tile_body3.sl.dma0_4 d T1 IX L k = gRows3 d IX L T1 (2 + (⟨4 * k.val + 1 + 1 + 1, hq2⟩ : Fin 20).val) := by
      unfold tile_body3.sl.dma0_4; show gRows3 d IX L T1 (4 * k.val + 5) = gRows3 d IX L T1 (2 + (4 * k.val + 1 + 1 + 1)); congr 1; omega
    have hwD : tile_body3.sl.dma0_5 d T1 IX L k hinA = gRows3 d IX L T1 (2 + (blkF (4 * (k.val + 1))).val) := by
      unfold tile_body3.sl.dma0_5; rw [hcA]; show gRows3 d IX L T1 (4 * (k.val + 1) + 2) = gRows3 d IX L T1 (2 + (4 * (k.val + 1)) % 20); congr 1; omega
    ihave B1 := (blk_intro3 (F := F) d T1 IX L ⟨_, hq0⟩ (k6_off6 L k 1#32) (k6_off6_inb L k 0) hbo0 gA _ hwA) $$ HbA
    ihave B2 := (blk_intro3 (F := F) d T1 IX L ⟨_, hq1⟩ (k6_off6 L k 2#32) (k6_off6_inb L k 1) hbo1 gB _ hwB) $$ HbB
    ihave B3 := (blk_intro3 (F := F) d T1 IX L ⟨_, hq2⟩ (k6_off6 L k 3#32) (k6_off6_inb L k 2) hbo2 gC _ hwC) $$ HbC'
    have hbo3' : k6_off6 L k 4#32 = negOff3 L (blkF (4 * (k.val + 1))).val :=
      hbo3.trans (by show negOff3 L (4 * k.val + 1 + 1 + 1 + 1) = negOff3 L ((4 * (k.val + 1)) % 20); congr 1; omega)
    -- the invariant at the next trip
    isplitl []; · iexact Hmw
    isplitl [Hs12]; · iexact Hs12
    isplitl [Hq5]; · iexact Hq5
    isplitl [Hs13]; · iexact Hs13
    isplitl [Hq6]; · iexact Hq6
    isplitl [Hs14]; · iexact Hs14
    isplitl [Hq7]; · iexact Hq7
    isplitl [Hs15]
    · have h8 : (71 : ℕ) < sig.nDmaSem := by decide
      iapply ((wFl_intro'3 (F := F) d T1 IX L ⟨71, h8⟩ cc6_scratch3 (blkF (4 * (k.val + 1))) (k6_off6 L k 4#32) (k6_off6_inb L k 3) hbo3' gD _ hwD (gRows3 d IX L T1 (4 * (k.val + 1) + 2))).trans
        (Entails.of_eq (wFl_unfold3 (F := F) d L ⟨71, h8⟩ cc6_scratch3 (blkF (4 * (k.val + 1))) (gV2 d T1 IX) (gRows3 d IX L T1 (4 * (k.val + 1) + 2)))))
      iexact Hs15
    isplitl [Hr0]; · iexact Hr0
    isplitl [Hq4]; · iexact Hq4
    isplitl [Hs11]; · iexact Hs11
    isplitl [Hs16]; · iexact Hs16
    isplitl [Hs17]; · iexact Hs17
    isplitl [Hs18]; · iexact Hs18
    isplitl [Hdone R0 R1 R2 R3]
    · iapply (mid_push4 (F := F) (fun k' : Fin 24 => (a8Loc3 d L ↦[a8RowSet3 k']{fullShare} A8c3 d IX L : sProp 𝕄)) 2 (4 * k.val + 3) (4 * (k.val + 1) + 3) hd0 hd1 hd2 hd3 (by omega) (by omega))
      isplitl [Hdone]; · iexact Hdone
      isplitl [R0]; · iexact R0
      isplitl [R1]; · iexact R1
      isplitl [R2]; · iexact R2
      iexact R3
    isplitl [Hrows]
    · iapply (Entails.of_eq (bigSep_from_congr (F := F) _ (show 4 * k.val + 6 + 1 + 1 + 1 + 1 = 4 * (k.val + 1) + 6 by omega)))
      iexact Hrows
    isplitl [Hbd B0 B1 B2 B3]
    · iapply (mid_push4 (F := F) (fun j : Fin 20 => (o2Loc3 d ↦[(negSl3 L j).view.set]{fullShare} gV2 d T1 IX : sProp 𝕄)) 0 (4 * k.val) (4 * (k.val + 1)) hp0 hq0 hq1 hq2 (by omega) (by omega))
      isplitl [Hbd]; · iexact Hbd
      isplitl [B0]; · iexact B0
      isplitl [B1]; · iexact B1
      isplitl [B2]; · iexact B2
      iexact B3
    isplitl [Hneg]
    · iapply (Entails.of_eq (bigSep_from_congr (F := F) _ (show 4 * k.val + 1 + 1 + 1 + 1 + 1 = 4 * (k.val + 1) + 1 by omega)))
      iexact Hneg
    iexists (insert ((SemLoc.dma ⟨74, by decide⟩ : SemLoc sig), (default : HIx 4))
      (insert ((SemLoc.dma ⟨67, by decide⟩ : SemLoc sig), (default : HIx 4))
        (insert ((SemLoc.dma ⟨73, by decide⟩ : SemLoc sig), (default : HIx 4))
          (insert ((SemLoc.dma ⟨70, by decide⟩ : SemLoc sig), (default : HIx 4))
            (insert ((SemLoc.dma ⟨72, by decide⟩ : SemLoc sig), (default : HIx 4))
              (insert ((SemLoc.dma ⟨69, by decide⟩ : SemLoc sig), (default : HIx 4))
                (insert ((SemLoc.dma ⟨71, by decide⟩ : SemLoc sig), (default : HIx 4))
                  (insert ((SemLoc.dma ⟨68, by decide⟩ : SemLoc sig), (default : HIx 4)) W')))))))); isplitr
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      · exact hW' p hp
    · iexact HO
  · unfold inv3
    isplitl [Hmw]; · iexact Hmw
    isplitl [Hs12]; · unfold gFl3; iexact Hs12
    isplitl [Hq5]; · iexact Hq5
    isplitl [Hs13]; · unfold gFl3; iexact Hs13
    isplitl [Hq6]; · iexact Hq6
    isplitl [Hs14]; · unfold gFl3; iexact Hs14
    isplitl [Hq7]; · iexact Hq7
    isplitl [Hs15]
    · have h8 : (71 : ℕ) < sig.nDmaSem := by decide
      iapply (wFl_intro'3 (F := F) d T1 IX L ⟨71, h8⟩ cc6_scratch3 (blkF (4 * 0)) (k6_off2 L (k6_off2_at 0))
        (k6_off2_inb L 0) (k6_off2_neg L 0 0 rfl) g0 _ hw0 _)
      iexact Hs15
    isplitl [Hr0]; · iexact Hr0
    isplitl [Hq4]; · iexact Hq4
    isplitl [Hs11]; · iexact Hs11
    isplitl [Hs16]; · iexact Hs16
    isplitl [Hs17]; · iexact Hs17
    isplitl [Hs18]; · iexact Hs18
    isplitl [Hw2]
    · iapply (rows_done03 (F := F) d L _ h2)
      iapply (Entails.of_eq (pts_a8Row3 (F := F) d L ⟨2, h2⟩ ![2, 0] (rowInb ⟨2, h2⟩) rfl _))
      iexact Hw2
    isplitl [Hrows]; · iexact Hrows
    isplitl []; · iapply (blks_done03 (F := F) d L (gV2 d T1 IX)); iempintro
    isplitl [Hneg]; · iexact Hneg
    iexists (insert ((SemLoc.dma ⟨67, by decide⟩ : SemLoc sig), (default : HIx 4))
      (insert ((SemLoc.dma ⟨75, by decide⟩ : SemLoc sig), (default : HIx 4)) W)); isplitr
    · ipureintro; intro p hp
      rcases Finset.mem_insert.mp hp with rfl | hp
      · exact .inr rfl
      rcases Finset.mem_insert.mp hp with rfl | hp
      · exact .inr rfl
      · exact .inl hp
    · iexact HO
  iintro %_ HI
  unfold inv3 gFl3 wFl3
  icases HI with ⟨#Hmw', Hs12, Hq5, Hs13, Hq6, Hs14, Hq7, Hs15, Hr0, Hq4, Hs11, Hs16, Hs17, Hs18, Hdone, Hrows, Hbd, Hneg, %W', %hW', HO⟩
  have htr : Scf.trips k6_t1_loop.lb k6_t1_loop.ub k6_t1_loop.st = 4 := by decide
  rw [htr]
  have hb16 : (16 : ℕ) < 20 := by decide
  have h19 : (19 : ℕ) < 24 := by decide
  have h20 : (20 : ℕ) < 24 := by decide
  have h21 : (21 : ℕ) < 24 := by decide
  have e19 : rowF (4 * 4 + 3) = ⟨19, h19⟩ := rfl
  have e20 : rowF (4 * 4 + 4) = ⟨20, h20⟩ := rfl
  have e21 : rowF (4 * 4 + 5) = ⟨21, h21⟩ := rfl
  have e16 : blkF (4 * 4) = ⟨16, hb16⟩ := rfl
  rw [e19, e20, e21, e16]
  have hb17 : (17 : ℕ) < 20 := by decide
  have hb18 : (18 : ℕ) < 20 := by decide
  have hb19 : (19 : ℕ) < 20 := by decide
  ihave H := (Entails.of_eq (bigSep_from_pop (F := F) _ 17 hb17)) $$ Hneg; icases H with ⟨⟨%g17, Hb17⟩, Hneg⟩
  ihave H := (Entails.of_eq (bigSep_from_pop (F := F) _ 18 hb18)) $$ Hneg; icases H with ⟨⟨%g18, Hb18⟩, Hneg⟩
  ihave H := (Entails.of_eq (bigSep_from_pop (F := F) _ 19 hb19)) $$ Hneg; icases H with ⟨⟨%g19, Hb19⟩, Hneg⟩
  ihave Hb17 := (Entails.of_eq (pts_negOff3 (F := F) d L (k6_off2_neg L 2 17 rfl) (k6_off2_inb L 2) (negOff_inb3 L ⟨17, hb17⟩) _).symm) $$ Hb17
  ihave Hb18 := (Entails.of_eq (pts_negOff3 (F := F) d L (k6_off2_neg L 3 18 rfl) (k6_off2_inb L 3) (negOff_inb3 L ⟨18, hb18⟩) _).symm) $$ Hb18
  ihave Hb19 := (Entails.of_eq (pts_negOff3 (F := F) d L (k6_off2_neg L 4 19 rfl) (k6_off2_inb L 4) (negOff_inb3 L ⟨19, hb19⟩) _).symm) $$ Hb19
  sl_exec
  sl_step
  -- what the copy-outs carried: the gathered rows
  have hp17 : tile_body3.sl.dma0_6 d T1 IX L = gRows3 d IX L T1 (2 + 17) := rfl
  have hp18 : tile_body3.sl.dma0_7 d T1 IX L = gRows3 d IX L T1 (2 + 18) := rfl
  have hp19 : tile_body3.sl.dma0_8 d T1 IX L = gRows3 d IX L T1 (2 + 19) := rfl
  have hpC : tile_body3.sl.dma0_9 d T0 IX L fbC h0 hin0 = gRows3 d IX L T0 0 := by
    unfold tile_body3.sl.dma0_9 tile_body3.sl.gather0
    exact (writes_whole3 (F := F) d L cc6_scratch1 fbC _).trans (gather_val03 (F := F) d T0 IX L ⟨0, h0⟩ (rowInb ⟨0, h0⟩) gathers_S100000x128_S128x128 (by decide) hin0)
  have hpP : tile_body3.sl.dma0_10 d T1 IX L fbP h1 hin1 = gRows3 d IX L T1 1 := by
    unfold tile_body3.sl.dma0_10 tile_body3.sl.gather1
    exact (writes_whole3 (F := F) d L cc6_scratch2 fbP _).trans (gather_val13 (F := F) d T1 IX L ⟨1, h1⟩ (rowInb ⟨1, h1⟩) gathers_S100000x128_S128x128 (by decide) hin1)
  have h22 : (22 : ℕ) < 24 := by decide
  have h23 : (23 : ℕ) < 24 := by decide
  -- the third result's blocks, all twenty
  ihave Hb17 := (blk_done3 (F := F) d T1 IX L ⟨17, hb17⟩ _ (k6_off2_inb L 2) (k6_off2_neg L 2 17 rfl) g17 _ hp17) $$ Hb17
  ihave Hb18 := (blk_done3 (F := F) d T1 IX L ⟨18, hb18⟩ _ (k6_off2_inb L 3) (k6_off2_neg L 3 18 rfl) g18 _ hp18) $$ Hb18
  ihave Hb19 := (blk_done3 (F := F) d T1 IX L ⟨19, hb19⟩ _ (k6_off2_inb L 4) (k6_off2_neg L 4 19 rfl) g19 _ hp19) $$ Hb19
  ihave Hbd := (Entails.of_eq (bigSep_mid_push (F := F) (fun j : Fin 20 => (o2Loc3 d ↦[(negSl3 L j).view.set]{fullShare} gV2 d T1 IX : sProp 𝕄)) 0 16 hb16 (by omega)).symm) $$ [Hs15_dst Hbd]
  · isplitl [Hs15_dst]
    · iexact Hs15_dst
    iexact Hbd
  ihave Hbd := (Entails.of_eq (bigSep_mid_push (F := F) (fun j : Fin 20 => (o2Loc3 d ↦[(negSl3 L j).view.set]{fullShare} gV2 d T1 IX : sProp 𝕄)) 0 17 hb17 (by omega)).symm) $$ [Hb17 Hbd]
  · isplitl [Hb17] <;> iassumption
  ihave Hbd := (Entails.of_eq (bigSep_mid_push (F := F) (fun j : Fin 20 => (o2Loc3 d ↦[(negSl3 L j).view.set]{fullShare} gV2 d T1 IX : sProp 𝕄)) 0 18 hb18 (by omega)).symm) $$ [Hb18 Hbd]
  · isplitl [Hb18] <;> iassumption
  ihave Hbd := (Entails.of_eq (bigSep_mid_push (F := F) (fun j : Fin 20 => (o2Loc3 d ↦[(negSl3 L j).view.set]{fullShare} gV2 d T1 IX : sProp 𝕄)) 0 19 hb19 (by omega)).symm) $$ [Hb19 Hbd]
  · isplitl [Hb19] <;> iassumption
  ihave Hbd := (Entails.of_eq (bigSep_mid_all (F := F) (fun j : Fin 20 => (o2Loc3 d ↦[(negSl3 L j).view.set]{fullShare} gV2 d T1 IX : sProp 𝕄)))) $$ Hbd
  -- the index scratch, all twenty-four rows
  ihave R19 := (Entails.of_eq (pts_a8Row3 (F := F) d L ⟨19, h19⟩ _ _ rfl _)) $$ Hs12_dst_and
  ihave R20 := (Entails.of_eq (pts_a8Row3 (F := F) d L ⟨20, h20⟩ _ _ rfl _)) $$ Hs13_dst_and
  ihave R21 := (Entails.of_eq (pts_a8Row3 (F := F) d L ⟨21, h21⟩ _ _ rfl _)) $$ Hs14_dst_and
  ihave R0 := (Entails.of_eq (pts_a8Row3 (F := F) d L ⟨0, h0⟩ ![0, 0] (rowInb ⟨0, h0⟩) rfl _)) $$ Hw0
  ihave R1 := (Entails.of_eq (pts_a8Row3 (F := F) d L ⟨1, h1⟩ ![1, 0] (rowInb ⟨1, h1⟩) rfl _)) $$ Hw1
  ihave H := (Entails.of_eq (bigSep_from_pop (F := F) _ 22 h22)) $$ Hrows; icases H with ⟨R22, Hrows⟩
  ihave H := (Entails.of_eq (bigSep_from_pop (F := F) _ 23 h23)) $$ Hrows; icases H with ⟨R23, -⟩
  ihave Hdone := (Entails.of_eq (bigSep_mid_push (F := F) (fun k : Fin 24 => (a8Loc3 d L ↦[a8RowSet3 k]{fullShare} A8c3 d IX L : sProp 𝕄)) 2 19 h19 (by omega)).symm) $$ [R19 Hdone]
  · isplitl [R19]
    · iexact R19
    iexact Hdone
  ihave Hdone := (Entails.of_eq (bigSep_mid_push (F := F) (fun k : Fin 24 => (a8Loc3 d L ↦[a8RowSet3 k]{fullShare} A8c3 d IX L : sProp 𝕄)) 2 20 h20 (by omega)).symm) $$ [R20 Hdone]
  · isplitl [R20]
    · iexact R20
    iexact Hdone
  ihave Hdone := (Entails.of_eq (bigSep_mid_push (F := F) (fun k : Fin 24 => (a8Loc3 d L ↦[a8RowSet3 k]{fullShare} A8c3 d IX L : sProp 𝕄)) 2 21 h21 (by omega)).symm) $$ [R21 Hdone]
  · isplitl [R21]
    · iexact R21
    iexact Hdone
  ihave Hdone := (Entails.of_eq (bigSep_mid_push (F := F) (fun k : Fin 24 => (a8Loc3 d L ↦[a8RowSet3 k]{fullShare} A8c3 d IX L : sProp 𝕄)) 2 22 h22 (by omega)).symm) $$ [R22 Hdone]
  · isplitl [R22]
    · iexact R22
    iexact Hdone
  ihave Hdone := (Entails.of_eq (bigSep_mid_push (F := F) (fun k : Fin 24 => (a8Loc3 d L ↦[a8RowSet3 k]{fullShare} A8c3 d IX L : sProp 𝕄)) 2 23 h23 (by omega)).symm) $$ [R23 Hdone]
  · isplitl [R23]
    · iexact R23
    iexact Hdone
  ihave Hdone := (Entails.of_eq (bigSep_mid_top (F := F) (fun k : Fin 24 => (a8Loc3 d L ↦[a8RowSet3 k]{fullShare} A8c3 d IX L : sProp 𝕄)) 2)) $$ Hdone
  ihave Hdone := (Entails.of_eq (bigSep_from_pop (F := F) (fun k : Fin 24 => (a8Loc3 d L ↦[a8RowSet3 k]{fullShare} A8c3 d IX L : sProp 𝕄)) 1 h1).symm) $$ [R1 Hdone]
  · isplitl [R1]
    · iexact R1
    iexact Hdone
  ihave Hdone := (Entails.of_eq (bigSep_from_pop (F := F) (fun k : Fin 24 => (a8Loc3 d L ↦[a8RowSet3 k]{fullShare} A8c3 d IX L : sProp 𝕄)) 0 h0).symm) $$ [R0 Hdone]
  · isplitl [R0]
    · iexact R0
    iexact Hdone
  ihave Hdone := (Entails.of_eq (bigSep_from_zero (F := F) (fun k : Fin 24 => (a8Loc3 d L ↦[a8RowSet3 k]{fullShare} A8c3 d IX L : sProp 𝕄)))) $$ Hdone
  ihave Ha8 := (Entails.of_eq (a8_rows3 (F := F) d L (A8c3 d IX L)).symm) $$ Hdone
  -- what the tile hands back
  unfold tdResL3
  isplitl [Ht0 Hq8 Hq7 Hq6 Hq5 Hq4 Hq3 Hq2 Hq1 Hq0 Hix Ho0 Ho1 Hbd]
  · isplitl [Ht0]
    · iexact Ht0
    isplitl [Hq8 Hq7 Hq6 Hq5 Hq4 Hq3 Hq2 Hq1 Hq0]
    · iapply (toks8_join (F := F) (tblShare3 L) T1)
      isplitl [Hq8]
      · iexact Hq8
      isplitl [Hq7]
      · iexact Hq7
      isplitl [Hq6]
      · iexact Hq6
      isplitl [Hq5]
      · iexact Hq5
      isplitl [Hq4]
      · iexact Hq4
      isplitl [Hq3]
      · iexact Hq3
      isplitl [Hq2]
      · iexact Hq2
      isplitl [Hq1]
      · iexact Hq1
      iexact Hq0
    isplitl [Hix]
    · iexact Hix
    isplitl [Ho0]
    · iapply (Entails.of_eq (pointsTo_congr (block_val03 (F := F) d T0 IX L f0 _ hpC)))
      iexact Ho0
    isplitl [Ho1]
    · iapply (Entails.of_eq (pointsTo_congr (block_val13 (F := F) d T1 IX L f1 _ hpP)))
      iexact Ho1
    iexact Hbd
  isplitl [Ha8 HbC HbP Hr0 Hs12_dst Hs13_dst Hs14_dst Hbufs]
  · isplitr [Hbufs]
    · isplitl [Ha8]
      · iexists _; iexact Ha8
      isplitl [HbC]
      · iexists _; iexact HbC
      isplitl [HbP]
      · iexists _; iexact HbP
      isplitl [Hr0]
      · iexists _; iexact Hr0
      isplitl [Hs12_dst]
      · iexists _; iexact Hs12_dst
      isplitl [Hs13_dst]
      · iexists _; iexact Hs13_dst
      iexists _; iexact Hs14_dst
    iexact Hbufs
  isplitr [HO]
  · isplitr [Hsems]
    · isplitl [Hs0]
      · iexact Hs0
      isplitl [Hs7]
      · iexact Hs7
      isplitl [Hs8]
      · iexact Hs8
      isplitl [Hs9]
      · iexact Hs9
      isplitl [Hs10]
      · iexact Hs10
      isplitl [Hs11]
      · iexact Hs11
      isplitl [Hs12]
      · iexact Hs12
      isplitl [Hs13]
      · iexact Hs13
      isplitl [Hs14]
      · iexact Hs14
      isplitl [Hs15]
      · iexact Hs15
      isplitl [Hs16]
      · iexact Hs16
      isplitl [Hs17]
      · iexact Hs17
      iexact Hs18
    iexact Hsems
  iexists _; isplitr
  swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

end Body

/-! ## The launch theorem's obligation -/

theorem defs₀_vector3 (c : Fin τ.nSC) (s : Fin τ.nSub) :
    defs₀ (F := F) (.scVector c s) 6 ()
      = SparseCore.onTile hcore6 hsub6 (fun c s => cc6__sc_gather (coordsV3 c s)
          t0V (Memref.isWhole_whole _) t1V (Memref.isWhole_whole _) ixV3 (Memref.isWhole_whole _) o0V3 (Memref.isWhole_whole _) o1V3 (Memref.isWhole_whole _) o2V3 (Memref.isWhole_whole _)
            a83 (Memref.isWhole_whole _) bC3 (Memref.isWhole_whole _) bP3 (Memref.isWhole_whole _) rb03 (Memref.isWhole_whole _) rb13 (Memref.isWhole_whole _) rb23 (Memref.isWhole_whole _) rb33 (Memref.isWhole_whole _)
            cc6_scratch7 cc6_scratch8 cc6_scratch9 cc6_scratch10 cc6_scratch11 cc6_scratch12 cc6_scratch13 cc6_scratch14 cc6_scratch15 cc6_scratch16 cc6_scratch17 cc6_scratch18 cc6_scoped0) ⟨⟩ c s := rfl

/-- `TileObl` at call 3, for any payload record whose call-0 fields are the tile's resources above, nothing
    extra held per thread and nothing owed for a protocol of the kernel's own. -/
theorem tileObl3 (hF : (K (F := F)).Facts)
    (T0 : (d : Dev nD) → Buf (Elt F) (t0Loc d)) (T1 : (d : Dev nD) → Buf (Elt F) (t1Loc d)) (IX : (d : Dev nD) → Buf (Elt F) (ixLoc3 d))
    (hIX : ∀ d, IXOK3 d (IX d))
    (P : (K (F := F)).Pay (nD := nD) (Val := Elt F) (Name := ℕ) (U := UU))
    (hgo : ∀ d c i, P.go 3 d c i = goRes3 d (T0 d) (T1 d) (IX d) c i)
    (htd : ∀ d c i, P.td 3 d c i = tdRes3 d (T0 d) (T1 d) (IX d) c i)
    (hx : ∀ thr, P.x 3 thr = iprop(emp))
    (hox : ∀ thr, P.ox 3 thr = 0) :
    (K (F := F)).TileObl (D (F := F)) 𝒱 P v₀ 3 := by
  intro d c i O W hO _ _
  rw [hox, add_zero, hx, hgo, htd]
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  have hc : ((K (F := F)).core 3 c).val < grid6.bound 0 ∧ ((K (F := F)).sub 3 i).val < grid6.bound 1 := ⟨c.isLt, i.isLt⟩
  rw [defs₀_vector3]; simp only [SparseCore.onTile, hc, and_self, ↓reduceDIte]
  exact (tile_body3 d (T0 d) (T1 d) (IX d) hF (hIX d) (coordsV3 ⟨_, hc.1⟩ ⟨_, hc.2⟩) O W hO).trans (wp_mono frame _ _ fun _ => obl_post)

end Cert.Proof.KB

end
-- ==== Proof.KB_Tiles.lean ====
/-
  The tiles' obligations for the four calls, at the contents @main's chain has when each call starts: the tables as
  launched, the call's index rows the quarter's slab of the laid-out index words — whose entries the precondition's
  ranges keep below the tables' row count, so that every indexed copy of a tile names rows that exist.
-/
import proofs.«215899_g5772436046013_cont_9to1c4b_742_31_alg».proof.Proof.KB_Claims
import proofs.«215899_g5772436046013_cont_9to1c4b_742_31_alg».proof.Proof.KB_Tile
import proofs.«215899_g5772436046013_cont_9to1c4b_742_31_alg».proof.Proof.KB_Tile_c1
import proofs.«215899_g5772436046013_cont_9to1c4b_742_31_alg».proof.Proof.KB_Tile_c2
import proofs.«215899_g5772436046013_cont_9to1c4b_742_31_alg».proof.Proof.KB_Tile_c3

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

open Idealize.ShloMosaic.TcCoe

local notation "𝕄" => MT nD τ sig (HIx 4) (Elt F) ℕ UU ℕ

variable (m : (ℓ : Loc nD τ sig) → Buf (Elt F) ℓ)

theorem tilesOK : TilesOK m := fun hc hp hn q =>
  match q with
  | ⟨0, _⟩ => tileObl0 facts (fun d => W1 m d (rT main_arg0)) (fun d => W1 m d (rT main_arg1)) (fun d => W1 m d (rT main_v26))
      (fun d => IXOK_q0 m d (hc d) (hp d) (hn d)) (PK m) (fun _ _ _ => rfl) (fun _ _ _ => rfl) (fun _ => rfl) (fun _ => rfl)
  | ⟨1, _⟩ => tileObl1 facts (fun d => W5 (pureK d) m d (rT main_arg0)) (fun d => W5 (pureK d) m d (rT main_arg1)) (fun d => W5 (pureK d) m d (rT main_v32))
      (fun d => IXOK_q1 (pureK d) m d (hc d) (hp d) (hn d)) (PK m) (fun _ _ _ => rfl) (fun _ _ _ => rfl) (fun _ => rfl) (fun _ => rfl)
  | ⟨2, _⟩ => tileObl2 facts (fun d => W9 (pureK d) m d (rT main_arg0)) (fun d => W9 (pureK d) m d (rT main_arg1)) (fun d => W9 (pureK d) m d (rT main_v38))
      (fun d => IXOK_q2 (pureK d) m d (hc d) (hp d) (hn d)) (PK m) (fun _ _ _ => rfl) (fun _ _ _ => rfl) (fun _ => rfl) (fun _ => rfl)
  | ⟨3, _⟩ => tileObl3 facts (fun d => W13 (pureK d) m d (rT main_arg0)) (fun d => W13 (pureK d) m d (rT main_arg1)) (fun d => W13 (pureK d) m d (rT main_v44))
      (fun d => IXOK_q3 (pureK d) m d (hc d) (hp d) (hn d)) (PK m) (fun _ _ _ => rfl) (fun _ _ _ => rfl) (fun _ => rfl) (fun _ => rfl)

end Cert.Proof.KB

end
-- ==== Proof.lean ====
/-
  The certificate of the word2vec negative-sampling loss: a SparseCore row gather (per quarter of the batch, 32 tiles each
  copy their 24 index rows in and move 22 × 128 table rows through a ring of four buffers, one transfer per semaphore at
  a time) feeding a TensorCore kernel that forms, per batch row, the products of the center row with the positive and the
  twenty negative context rows, contracts them against a 0 / +1 / −1 matrix into the 21 signed scores, and sums their
  log-sigmoids; @main adds the four quarters and scales by −2⁻¹⁴. The reference is the plain formula: the gathers, the row
  sums, the log-sigmoid in its softplus form, minus the mean.

  The frames: the launch theorem for SparseCore programs applied to the tiles' bodies, with the four TensorCore regions
  entered from @main's proof by the pipeline library's region rule (their staging cells funded at launch); the reference's
  run is read off its operations one line at a time. The value: along @main the arrays' contents are a chain of pure
  functions of the launch memory (what a call gathers, what a region sums); at the extended reals the final cell is the
  kernel's arrangement of the loss, which for finite tables is the reference's arrangement — both are the same real number:
  the sign matrix only selects a block and negates it, sums of reals regroup freely, min(x, 0) − log(1 + e^(−|x|)) is
  −(max(−x, 0) + log1p(e^(−|x|))), and a product with −2⁻¹⁴ is minus the quotient by 16384. Finiteness of the tables is
  what makes the selection and the regrouping exact; the index ranges are what makes every indexed copy land.
-/
import proofs.«215899_g5772436046013_cont_9to1c4b_742_31_alg».proof.Defs
import proofs.«215899_g5772436046013_cont_9to1c4b_742_31_alg».proof.Proof.Gen.Kernel
import proofs.«215899_g5772436046013_cont_9to1c4b_742_31_alg».proof.Proof.Gen.KernelIdeal
import proofs.«215899_g5772436046013_cont_9to1c4b_742_31_alg».proof.Proof.Gen.ReferenceIdeal
import proofs.«215899_g5772436046013_cont_9to1c4b_742_31_alg».proof.Proof.Gen.Pre_input_domain
import proofs.«215899_g5772436046013_cont_9to1c4b_742_31_alg».proof.Proof.KI_Claims
import proofs.«215899_g5772436046013_cont_9to1c4b_742_31_alg».proof.Proof.KB_Claims
import proofs.«215899_g5772436046013_cont_9to1c4b_742_31_alg».proof.Proof.RefFrame
import proofs.«215899_g5772436046013_cont_9to1c4b_742_31_alg».proof.Proof.RefLeg
import proofs.«215899_g5772436046013_cont_9to1c4b_742_31_alg».proof.Proof.RefPre
import proofs.«215899_g5772436046013_cont_9to1c4b_742_31_alg».proof.Proof.Bridge
import proofs.«215899_g5772436046013_cont_9to1c4b_742_31_alg».proof.Proof.KI_Value
import proofs.«215899_g5772436046013_cont_9to1c4b_742_31_alg».proof.Proof.KI_Tiles
import proofs.«215899_g5772436046013_cont_9to1c4b_742_31_alg».proof.Proof.KB_Tiles
import Idealize.ShloMosaic.Adequacy
import Idealize.ShloMosaic.Init

noncomputable section

namespace Cert.Proof

open Idealize.ShloMosaic Idealize.ShloMosaic.TcCoe Idealize.SL.Sem

/-- The word-level kernel runs and leaves its arguments as they were: its run with the value dropped. -/
theorem frame_p : Cert.frame_Kernel :=
  fun m ρ hpre => (θ_run _ _ _).mono (fun _ h c => (h c).2) (Cert.Proof.KB.run_of_pre (F := Bits) m ρ (Cert.Proof.KB.tilesOK m) hpre)

/-- The idealized kernel likewise. -/
theorem frame_pi : Cert.frame_KernelIdeal :=
  fun m ρ hpre => (θ_run _ _ _).mono (fun _ h c => (h c).2) (Cert.Proof.KI.run_of_pre (F := Ideal) m ρ (Cert.Proof.KI.tilesOK m) hpre)

/-- The ideal pass rewrote nothing. -/
theorem preserves : Cert.preserves_Kernel_KernelIdeal := trivial

/-- At the extended reals the kernel's result cell and the reference's result are the loss of the same finite tables. -/
theorem algebraic : Cert.algebraic_KernelIdeal_ReferenceIdeal := by
  intro m ρ m' ρ' hpre hagree
  obtain ⟨hc, hp, hn⟩ := Cert.Proof.KI.ranges_of_pre_all m hpre
  refine ⟨fun c => Cert.Proof.KI.Wfin (Cert.Proof.KI.pureK c) m c (Cert.Proof.KI.rT Cert.KernelIdeal.main_v51),
    Cert.Proof.KI.run_of_pre (F := Ideal) m ρ (Cert.Proof.KI.tilesOK m) hpre, ?_⟩
  have h2 : ∀ (c : Dev Cert.ReferenceIdeal.nD) i, 0 ≤ ((m' ((c.tc : Thread Cert.ReferenceIdeal.nD Cert.ReferenceIdeal.τ).loc Cert.ReferenceIdeal.main_arg2) : IVec Cert.ReferenceIdeal.S16384 32) i).toInt
      ∧ ((m' ((c.tc : Thread Cert.ReferenceIdeal.nD Cert.ReferenceIdeal.τ).loc Cert.ReferenceIdeal.main_arg2) : IVec Cert.ReferenceIdeal.S16384 32) i).toInt ≤ 99999 :=
    fun c i => by rw [(hagree c).2.2.1]; exact hc c i
  have h3 : ∀ (c : Dev Cert.ReferenceIdeal.nD) i, 0 ≤ ((m' ((c.tc : Thread Cert.ReferenceIdeal.nD Cert.ReferenceIdeal.τ).loc Cert.ReferenceIdeal.main_arg3) : IVec Cert.ReferenceIdeal.S16384 32) i).toInt
      ∧ ((m' ((c.tc : Thread Cert.ReferenceIdeal.nD Cert.ReferenceIdeal.τ).loc Cert.ReferenceIdeal.main_arg3) : IVec Cert.ReferenceIdeal.S16384 32) i).toInt ≤ 99999 :=
    fun c i => by rw [(hagree c).2.2.2.1]; exact hp c i
  have h4 : ∀ (c : Dev Cert.ReferenceIdeal.nD) i, 0 ≤ ((m' ((c.tc : Thread Cert.ReferenceIdeal.nD Cert.ReferenceIdeal.τ).loc Cert.ReferenceIdeal.main_arg4) : IVec Cert.ReferenceIdeal.S16384x20 32) i).toInt
      ∧ ((m' ((c.tc : Thread Cert.ReferenceIdeal.nD Cert.ReferenceIdeal.τ).loc Cert.ReferenceIdeal.main_arg4) : IVec Cert.ReferenceIdeal.S16384x20 32) i).toInt ≤ 99999 :=
    fun c i => by rw [(hagree c).2.2.2.2]; exact hn c i
  refine (θ_run Cert.ReferenceIdeal.defs _ _).mono (fun _ h c => ⟨(h c).1.trans ?_, (h c).2⟩) (Cert.Proof.Ref.run_value m' ρ' h2 h3 h4)
  rw [(hagree c).1, (hagree c).2.1, (hagree c).2.2.1, (hagree c).2.2.2.1, (hagree c).2.2.2.2]
  obtain ⟨hA, hB⟩ := Cert.Proof.Ref.reals_of_pre _ _ _ _ _ (hpre c)
  refine Eq.trans ?_ (Cert.Proof.KI.ker_value m c (hc c) (hp c) (hn c)).symm
  funext _
  exact (Cert.Proof.Ker.kerLoss_eq_refLoss _ _ _ _ _ hA hB).symm

theorem claim : Cert.Claim :=
  ⟨Cert.Kernel.Gen.facts, Cert.KernelIdeal.Gen.facts, Cert.ReferenceIdeal.Gen.facts, Cert.Pre_input_domain.Gen.facts,
    frame_p, frame_pi, Cert.Proof.Ref.frame, preserves, algebraic⟩

end Cert.Proof

end
